-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x512 : Shape := ⟨3, ![16, 1024, 512]⟩
abbrev S16x512x3 : Shape := ⟨3, ![16, 512, 3]⟩
abbrev S1024x512 : Shape := ⟨2, ![1024, 512]⟩
abbrev S_ : Shape := ⟨0, ![]⟩

class Facts : Prop where
  bcast_S_S16x1024x512 : S_.BroadcastsInDim S16x1024x512 (![] : Fin 0 → Fin S16x1024x512.rank)
  reducesTo_S16x1024x512_S_d0_1_2 : S16x1024x512.ReducesTo [0, 1, 2] S_
  h_S_ : 0 < S_.numel
  bcast_S_S16x512x3 : S_.BroadcastsInDim S16x512x3 (![] : Fin 0 → Fin S16x512x3.rank)
  reducesTo_S16x512x3_S_d0_1_2 : S16x512x3.ReducesTo [0, 1, 2] S_
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S16x1024x512 .f32) (main_arg1 : FVec F S16x512x3 .f32) (main_arg2 : FVec F S1024x512 .f32) : IVec S_ 1 :=
  let main_v0 : FVec F S16x1024x512 .f32 := Host.absf main_arg0
  let main_cst : FVec F S_ .f32 := constant S_ .f32 0x7F800000#32
  let main_v1 : FVec F S16x1024x512 .f32 := broadcastInDim S16x1024x512 ![] bcast_S_S16x1024x512 main_cst
  let main_v2 : IVec S16x1024x512 1 := cmpf .olt main_v0 main_v1
  let main_c : IVec S_ 1 := constantI S_ 1 1#1
  let main_v3 : IVec S_ 1 := (fun x v => Host.reduce IntOp.andi x v reducesTo_S16x1024x512_S_d0_1_2 h_S_) main_v2 main_c
  let main_v4 : FVec F S16x512x3 .f32 := Host.absf main_arg1
  let main_cst_0 : FVec F S_ .f32 := constant S_ .f32 0x7F800000#32
  let main_v5 : FVec F S16x512x3 .f32 := broadcastInDim S16x512x3 ![] bcast_S_S16x512x3 main_cst_0
  let main_v6 : IVec S16x512x3 1 := cmpf .olt main_v4 main_v5
  let main_c_1 : IVec S_ 1 := constantI S_ 1 1#1
  let main_v7 : IVec S_ 1 := (fun x v => Host.reduce IntOp.andi x v reducesTo_S16x512x3_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  main_v13
-- ==== Kernel.lean ====
abbrev S16x1024x512 : Shape := ⟨3, ![16, 1024, 512]⟩
abbrev S16x512x3 : Shape := ⟨3, ![16, 512, 3]⟩
abbrev S1024x512 : Shape := ⟨2, ![1024, 512]⟩
abbrev S512 : Shape := ⟨1, ![512]⟩
abbrev S_ : Shape := ⟨0, ![]⟩
abbrev S512x512 : Shape := ⟨2, ![512, 512]⟩
abbrev S512x1 : Shape := ⟨2, ![512, 1]⟩
abbrev S512x2 : Shape := ⟨2, ![512, 2]⟩
abbrev S16x1024x4x256 : Shape := ⟨4, ![16, 1024, 4, 256]⟩
abbrev S1x1024x512 : Shape := ⟨3, ![1, 1024, 512]⟩
abbrev S1x1024x4x256 : Shape := ⟨4, ![1, 1024, 4, 256]⟩
abbrev S1024x128 : Shape := ⟨2, ![1024, 128]⟩
abbrev S1024x256 : Shape := ⟨2, ![1024, 256]⟩
abbrev S1x1024x1x256 : Shape := ⟨4, ![1, 1024, 1, 256]⟩
abbrev S2x32x512 : Shape := ⟨3, ![2, 32, 512]⟩
abbrev S2x32x4x256 : Shape := ⟨4, ![2, 32, 4, 256]⟩
abbrev S2 : Shape := ⟨1, ![2]⟩
abbrev S1x32x512 : Shape := ⟨3, ![1, 32, 512]⟩
abbrev S32x512 : Shape := ⟨2, ![32, 512]⟩
abbrev S1x1x16 : Shape := ⟨3, ![1, 1, 16]⟩
abbrev S16 : Shape := ⟨1, ![16]⟩
abbrev S1x1x1x16 : Shape := ⟨4, ![1, 1, 1, 16]⟩
abbrev S1 : Shape := ⟨1, ![1]⟩
abbrev S1x32x4x256 : Shape := ⟨4, ![1, 32, 4, 256]⟩
abbrev S32x4x256 : Shape := ⟨3, ![32, 4, 256]⟩

abbrev nBuf : Table → Nat
  | .hbm => 73
  | .local .tc .vmem => 9
  | .local .scVector .vmem => 2
  | _ => 0

abbrev bufTy : (tb : Table) → Fin (nBuf tb) → BufTy
  | .hbm, ⟨0, _⟩ => ⟨S16x1024x512, .f32⟩
  | .hbm, ⟨1, _⟩ => ⟨S16x512x3, .f32⟩
  | .hbm, ⟨2, _⟩ => ⟨S1024x512, .f32⟩
  | .hbm, ⟨3, _⟩ => ⟨S512, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S_, .i32⟩
  | .hbm, ⟨13, _⟩ => ⟨S512, .i32⟩
  | .hbm, ⟨14, _⟩ => ⟨S512, .i1⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S_, .i32⟩
  | .hbm, ⟨19, _⟩ => ⟨S_, .i1⟩
  | .hbm, ⟨20, _⟩ => ⟨S512, .i1⟩
  | .hbm, ⟨21, _⟩ => ⟨S512, .i1⟩
  | .hbm, ⟨22, _⟩ => ⟨S512, .i1⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S_, .i32⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512, .i32⟩
  | .hbm, ⟨38, _⟩ => ⟨S512, .i32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S512, .i1⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S_, .f32⟩
  | .hbm, ⟨49, _⟩ => ⟨S512x512, .f32⟩
  | .hbm, ⟨50, _⟩ => ⟨S_, .i32⟩
  | .hbm, ⟨51, _⟩ => ⟨S512, .i32⟩
  | .hbm, ⟨52, _⟩ => ⟨S512, .i1⟩
  | .hbm, ⟨53, _⟩ => ⟨S_, .i32⟩
  | .hbm, ⟨54, _⟩ => ⟨S512, .i32⟩
  | .hbm, ⟨55, _⟩ => ⟨S512, .i32⟩
  | .hbm, ⟨56, _⟩ => ⟨S512, .i32⟩
  | .hbm, ⟨57, _⟩ => ⟨S_, .i32⟩
  | .hbm, ⟨58, _⟩ => ⟨S512, .i32⟩
  | .hbm, ⟨59, _⟩ => ⟨S512, .i1⟩
  | .hbm, ⟨60, _⟩ => ⟨S_, .i32⟩
  | .hbm, ⟨61, _⟩ => ⟨S512, .i32⟩
  | .hbm, ⟨62, _⟩ => ⟨S512, .i32⟩
  | .hbm, ⟨63, _⟩ => ⟨S512, .i32⟩
  | .hbm, ⟨64, _⟩ => ⟨S512x1, .i32⟩
  | .hbm, ⟨65, _⟩ => ⟨S512x1, .i32⟩
  | .hbm, ⟨66, _⟩ => ⟨S512x2, .i32⟩
  | .hbm, ⟨67, _⟩ => ⟨S_, .f32⟩
  | .hbm, ⟨68, _⟩ => ⟨S512, .f32⟩
  | .hbm, ⟨69, _⟩ => ⟨S512x512, .f32⟩
  | .hbm, ⟨70, _⟩ => ⟨S1024x512, .f32⟩
  | .hbm, ⟨71, _⟩ => ⟨S16x1024x4x256, .f32⟩
  | .hbm, ⟨72, _⟩ => ⟨S16x1024x4x256, .f32⟩
  | .local .tc .vmem, ⟨0, _⟩ => ⟨S1024x512, .f32⟩
  | .local .tc .vmem, ⟨1, _⟩ => ⟨S512x512, .f32⟩
  | .local .tc .vmem, ⟨2, _⟩ => ⟨S1024x512, .f32⟩
  | .local .tc .vmem, ⟨3, _⟩ => ⟨S1x1024x512, .f32⟩
  | .local .tc .vmem, ⟨4, _⟩ => ⟨S1x1024x512, .f32⟩
  | .local .tc .vmem, ⟨5, _⟩ => ⟨S1024x512, .f32⟩
  | .local .tc .vmem, ⟨6, _⟩ => ⟨S512x512, .f32⟩
  | .local .tc .vmem, ⟨7, _⟩ => ⟨S1x1024x4x256, .f32⟩
  | .local .tc .vmem, ⟨8, _⟩ => ⟨S1x1024x4x256, .f32⟩
  | .local .scVector .vmem, ⟨0, _⟩ => ⟨S2x32x512, .f32⟩
  | .local .scVector .vmem, ⟨1, _⟩ => ⟨S2x32x4x256, .f32⟩
  | _, _ => ⟨S16x1024x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_c_1 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v4 : Ref sig .tc := ⟨.hbm, 46, rfl⟩
abbrev main_v5 : Ref sig .tc := ⟨.hbm, 47, rfl⟩
abbrev main_cst : Ref sig .tc := ⟨.hbm, 48, rfl⟩
abbrev main_v6 : Ref sig .tc := ⟨.hbm, 49, rfl⟩
abbrev main_c_2 : Ref sig .tc := ⟨.hbm, 50, rfl⟩
abbrev main_v7 : Ref sig .tc := ⟨.hbm, 51, rfl⟩
abbrev main_v8 : Ref sig .tc := ⟨.hbm, 52, rfl⟩
abbrev main_c_3 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_c_4 : Ref sig .tc := ⟨.hbm, 57, rfl⟩
abbrev main_v12 : Ref sig .tc := ⟨.hbm, 58, rfl⟩
abbrev main_v13 : Ref sig .tc := ⟨.hbm, 59, rfl⟩
abbrev main_c_5 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_cst_6 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_arg0_scv : Ref sig .scVector := ⟨.hbm, 0, rfl⟩
abbrev main_arg2_scv : Ref sig .scVector := ⟨.hbm, 2, rfl⟩
abbrev main_v24_scv : Ref sig .scVector := ⟨.hbm, 72, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc2_scratch0 : Ref sig .scVector := ⟨.vmem, 0, rfl⟩
abbrev cc2_scratch1 : Ref sig .scVector := ⟨.vmem, 1, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![1, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x4x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 16], ![false, false]⟩

def k2_off1 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_782_r0 : BitVec 32 := 0#32
  ![v2.toNat, 0]
@[reducible] def k2_t1_loop : Scf.Loop 32 :=
  let c0_i32_1 : BitVec 32 := 0#32
  let c32_i32_2 : BitVec 32 := 32#32
  let v3 : BitVec 32 := Scalar.addi c0_i32_1 c32_i32_2
  let c1_i32 : BitVec 32 := 1#32
  ⟨c0_i32_1, v3, c1_i32⟩
def k2_off2 (k2_t1 : Fin k2_t1_loop.trips) : Fin 3 → Nat :=
  let c0_i32_780 : BitVec 32 := 0#32
  let v661 : Index := Scalar.indexCast c0_i32_780
  let c0_i32_1 : BitVec 32 := 0#32
  let c1_i32 : BitVec 32 := 1#32
  let arg9 : BitVec 32 := Scf.iv c0_i32_1 c1_i32 k2_t1
  let v662 : Index := Scalar.indexCast arg9
  let c0 : Index := 0#32
  ![0, v662.toNat, 0]
def k2_off3 (k2_t1 : Fin k2_t1_loop.trips) : Fin 4 → Nat :=
  let c0_i32_781 : BitVec 32 := 0#32
  let v665 : Index := Scalar.indexCast c0_i32_781
  let c0_i32_1 : BitVec 32 := 0#32
  let c1_i32 : BitVec 32 := 1#32
  let arg9 : BitVec 32 := Scf.iv c0_i32_1 c1_i32 k2_t1
  let v666 : Index := Scalar.indexCast arg9
  let c0_i32_782 : BitVec 32 := 0#32
  let v667 : Index := Scalar.indexCast c0_i32_782
  let c128 : Index := 128#32
  ![0, v666.toNat, 0, 128]
def k2_off4 (k2_t1 : Fin k2_t1_loop.trips) : Fin 3 → Nat :=
  let c0_i32_783 : BitVec 32 := 0#32
  let v671 : Index := Scalar.indexCast c0_i32_783
  let c0_i32_1 : BitVec 32 := 0#32
  let c1_i32 : BitVec 32 := 1#32
  let arg9 : BitVec 32 := Scf.iv c0_i32_1 c1_i32 k2_t1
  let v672 : Index := Scalar.indexCast arg9
  let c16 : Index := 16#32
  ![0, v672.toNat, 16]
def k2_off5 (k2_t1 : Fin k2_t1_loop.trips) : Fin 4 → Nat :=
  let c0_i32_784 : BitVec 32 := 0#32
  let v675 : Index := Scalar.indexCast c0_i32_784
  let c0_i32_1 : BitVec 32 := 0#32
  let c1_i32 : BitVec 32 := 1#32
  let arg9 : BitVec 32 := Scf.iv c0_i32_1 c1_i32 k2_t1
  let v676 : Index := Scalar.indexCast arg9
  let c0_i32_785 : BitVec 32 := 0#32
  let v677 : Index := Scalar.indexCast c0_i32_785
  let c144 : Index := 144#32
  ![0, v676.toNat, 0, 144]
def k2_off6 (k2_t1 : Fin k2_t1_loop.trips) : Fin 3 → Nat :=
  let c0_i32_786 : BitVec 32 := 0#32
  let v681 : Index := Scalar.indexCast c0_i32_786
  let c0_i32_1 : BitVec 32 := 0#32
  let c1_i32 : BitVec 32 := 1#32
  let arg9 : BitVec 32 := Scf.iv c0_i32_1 c1_i32 k2_t1
  let v682 : Index := Scalar.indexCast arg9
  let c32 : Index := 32#32
  ![0, v682.toNat, 32]
def k2_off7 (k2_t1 : Fin k2_t1_loop.trips) : Fin 4 → Nat :=
  let c0_i32_787 : BitVec 32 := 0#32
  let v685 : Index := Scalar.indexCast c0_i32_787
  let c0_i32_1 : BitVec 32 := 0#32
  let c1_i32 : BitVec 32 := 1#32
  let arg9 : BitVec 32 := Scf.iv c0_i32_1 c1_i32 k2_t1
  let v686 : Index := Scalar.indexCast arg9
  let c0_i32_788 : BitVec 32 := 0#32
  let v687 : Index := Scalar.indexCast c0_i32_788
  let c160 : Index := 160#32
  ![0, v686.toNat, 0, 160]
def k2_off8 (k2_t1 : Fin k2_t1_loop.trips) : Fin 3 → Nat :=
  let c0_i32_789 : BitVec 32 := 0#32
  let v691 : Index := Scalar.indexCast c0_i32_789
  let c0_i32_1 : BitVec 32 := 0#32
  let c1_i32 : BitVec 32 := 1#32
  let arg9 : BitVec 32 := Scf.iv c0_i32_1 c1_i32 k2_t1
  let v692 : Index := Scalar.indexCast arg9
  let c48 : Index := 48#32
  ![0, v692.toNat, 48]
def k2_off9 (k2_t1 : Fin k2_t1_loop.trips) : Fin 4 → Nat :=
  let c0_i32_790 : BitVec 32 := 0#32
  let v695 : Index := Scalar.indexCast c0_i32_790
  let c0_i32_1 : BitVec 32 := 0#32
  let c1_i32 : BitVec 32 := 1#32
  let arg9 : BitVec 32 := Scf.iv c0_i32_1 c1_i32 k2_t1
  let v696 : Index := Scalar.indexCast arg9
  let c0_i32_791 : BitVec 32 := 0#32
  let v697 : Index := Scalar.indexCast c0_i32_791
  let c176 : Index := 176#32
  ![0, v696.toNat, 0, 176]
def k2_off10 (k2_t1 : Fin k2_t1_loop.trips) : Fin 3 → Nat :=
  let c0_i32_792 : BitVec 32 := 0#32
  let v701 : Index := Scalar.indexCast c0_i32_792
  let c0_i32_1 : BitVec 32 := 0#32
  let c1_i32 : BitVec 32 := 1#32
  let arg9 : BitVec 32 := Scf.iv c0_i32_1 c1_i32 k2_t1
  let v702 : Index := Scalar.indexCast arg9
  let c64 : Index := 64#32
  ![0, v702.toNat, 64]
def k2_off11 (k2_t1 : Fin k2_t1_loop.trips) : Fin 4 → Nat :=
  let c0_i32_793 : BitVec 32 := 0#32
  let v705 : Index := Scalar.indexCast c0_i32_793
  let c0_i32_1 : BitVec 32 := 0#32
  let c1_i32 : BitVec 32 := 1#32
  let arg9 : BitVec 32 := Scf.iv c0_i32_1 c1_i32 k2_t1
  let v706 : Index := Scalar.indexCast arg9
  let c0_i32_794 : BitVec 32 := 0#32
  let v707 : Index := Scalar.indexCast c0_i32_794
  let c192 : Index := 192#32
  ![0, v706.toNat, 0, 192]
def k2_off12 (k2_t1 : Fin k2_t1_loop.trips) : Fin 3 → Nat :=
  let c0_i32_795 : BitVec 32 := 0#32
  let v711 : Index := Scalar.indexCast c0_i32_795
  let c0_i32_1 : BitVec 32 := 0#32
  let c1_i32 : BitVec 32 := 1#32
  let arg9 : BitVec 32 := Scf.iv c0_i32_1 c1_i32 k2_t1
  let v712 : Index := Scalar.indexCast arg9
  let c80 : Index := 80#32
  ![0, v712.toNat, 80]
def k2_off13 (k2_t1 : Fin k2_t1_loop.trips) : Fin 4 → Nat :=
  let c0_i32_796 : BitVec 32 := 0#32
  let v715 : Index := Scalar.indexCast c0_i32_796
  let c0_i32_1 : BitVec 32 := 0#32
  let c1_i32 : BitVec 32 := 1#32
  let arg9 : BitVec 32 := Scf.iv c0_i32_1 c1_i32 k2_t1
  let v716 : Index := Scalar.indexCast arg9
  let c0_i32_797 : BitVec 32 := 0#32
  let v717 : Index := Scalar.indexCast c0_i32_797
  let c208 : Index := 208#32
  ![0, v716.toNat, 0, 208]
def k2_off14 (k2_t1 : Fin k2_t1_loop.trips) : Fin 3 → Nat :=
  let c0_i32_798 : BitVec 32 := 0#32
  let v721 : Index := Scalar.indexCast c0_i32_798
  let c0_i32_1 : BitVec 32 := 0#32
  let c1_i32 : BitVec 32 := 1#32
  let arg9 : BitVec 32 := Scf.iv c0_i32_1 c1_i32 k2_t1
  let v722 : Index := Scalar.indexCast arg9
  let c96 : Index := 96#32
  ![0, v722.toNat, 96]
def k2_off15 (k2_t1 : Fin k2_t1_loop.trips) : Fin 4 → Nat :=
  let c0_i32_799 : BitVec 32 := 0#32
  let v725 : Index := Scalar.indexCast c0_i32_799
  let c0_i32_1 : BitVec 32 := 0#32
  let c1_i32 : BitVec 32 := 1#32
  let arg9 : BitVec 32 := Scf.iv c0_i32_1 c1_i32 k2_t1
  let v726 : Index := Scalar.indexCast arg9
  let c0_i32_800 : BitVec 32 := 0#32
  let v727 : Index := Scalar.indexCast c0_i32_800
  let c224 : Index := 224#32
  ![0, v726.toNat, 0, 224]
def k2_off16 (k2_t1 : Fin k2_t1_loop.trips) : Fin 3 → Nat :=
  let c0_i32_801 : BitVec 32 := 0#32
  let v731 : Index := Scalar.indexCast c0_i32_801
  let c0_i32_1 : BitVec 32 := 0#32
  let c1_i32 : BitVec 32 := 1#32
  let arg9 : BitVec 32 := Scf.iv c0_i32_1 c1_i32 k2_t1
  let v732 : Index := Scalar.indexCast arg9
  let c112 : Index := 112#32
  ![0, v732.toNat, 112]
def k2_off17 (k2_t1 : Fin k2_t1_loop.trips) : Fin 4 → Nat :=
  let c0_i32_802 : BitVec 32 := 0#32
  let v735 : Index := Scalar.indexCast c0_i32_802
  let c0_i32_1 : BitVec 32 := 0#32
  let c1_i32 : BitVec 32 := 1#32
  let arg9 : BitVec 32 := Scf.iv c0_i32_1 c1_i32 k2_t1
  let v736 : Index := Scalar.indexCast arg9
  let c0_i32_803 : BitVec 32 := 0#32
  let v737 : Index := Scalar.indexCast c0_i32_803
  let c240 : Index := 240#32
  ![0, v736.toNat, 0, 240]
def k2_off18 (k2_t1 : Fin k2_t1_loop.trips) : Fin 3 → Nat :=
  let c0_i32_804 : BitVec 32 := 0#32
  let v741 : Index := Scalar.indexCast c0_i32_804
  let c0_i32_1 : BitVec 32 := 0#32
  let c1_i32 : BitVec 32 := 1#32
  let arg9 : BitVec 32 := Scf.iv c0_i32_1 c1_i32 k2_t1
  let v742 : Index := Scalar.indexCast arg9
  let c128_805 : Index := 128#32
  ![0, v742.toNat, 128]
def k2_off19 (k2_t1 : Fin k2_t1_loop.trips) : Fin 4 → Nat :=
  let c0_i32_806 : BitVec 32 := 0#32
  let v745 : Index := Scalar.indexCast c0_i32_806
  let c0_i32_1 : BitVec 32 := 0#32
  let c1_i32 : BitVec 32 := 1#32
  let arg9 : BitVec 32 := Scf.iv c0_i32_1 c1_i32 k2_t1
  let v746 : Index := Scalar.indexCast arg9
  let c1_i32_807 : BitVec 32 := 1#32
  let v747 : Index := Scalar.indexCast c1_i32_807
  let c128_808 : Index := 128#32
  ![0, v746.toNat, 1, 128]
def k2_off20 (k2_t1 : Fin k2_t1_loop.trips) : Fin 3 → Nat :=
  let c0_i32_809 : BitVec 32 := 0#32
  let v751 : Index := Scalar.indexCast c0_i32_809
  let c0_i32_1 : BitVec 32 := 0#32
  let c1_i32 : BitVec 32 := 1#32
  let arg9 : BitVec 32 := Scf.iv c0_i32_1 c1_i32 k2_t1
  let v752 : Index := Scalar.indexCast arg9
  let c144_810 : Index := 144#32
  ![0, v752.toNat, 144]
def k2_off21 (k2_t1 : Fin k2_t1_loop.trips) : Fin 4 → Nat :=
  let c0_i32_811 : BitVec 32 := 0#32
  let v755 : Index := Scalar.indexCast c0_i32_811
  let c0_i32_1 : BitVec 32 := 0#32
  let c1_i32 : BitVec 32 := 1#32
  let arg9 : BitVec 32 := Scf.iv c0_i32_1 c1_i32 k2_t1
  let v756 : Index := Scalar.indexCast arg9
  let c1_i32_812 : BitVec 32 := 1#32
  let v757 : Index := Scalar.indexCast c1_i32_812
  let c144_813 : Index := 144#32
  ![0, v756.toNat, 1, 144]
def k2_off22 (k2_t1 : Fin k2_t1_loop.trips) : Fin 3 → Nat :=
  let c0_i32_814 : BitVec 32 := 0#32
  let v761 : Index := Scalar.indexCast c0_i32_814
  let c0_i32_1 : BitVec 32 := 0#32
  let c1_i32 : BitVec 32 := 1#32
  let arg9 : BitVec 32 := Scf.iv c0_i32_1 c1_i32 k2_t1
  let v762 : Index := Scalar.indexCast arg9
  let c160_815 : Index := 160#32
  ![0, v762.toNat, 160]
def k2_off23 (k2_t1 : Fin k2_t1_loop.trips) : Fin 4 → Nat :=
  let c0_i32_816 : BitVec 32 := 0#32
  let v765 : Index := Scalar.indexCast c0_i32_816
  let c0_i32_1 : BitVec 32 := 0#32
  let c1_i32 : BitVec 32 := 1#32
  let arg9 : BitVec 32 := Scf.iv c0_i32_1 c1_i32 k2_t1
  let v766 : Index := Scalar.indexCast arg9
  let c1_i32_817 : BitVec 32 := 1#32
  let v767 : Index := Scalar.indexCast c1_i32_817
  let c160_818 : Index := 160#32
  ![0, v766.toNat, 1, 160]
def k2_off24 (k2_t1 : Fin k2_t1_loop.trips) : Fin 3 → Nat :=
  let c0_i32_819 : BitVec 32 := 0#32
  let v771 : Index := Scalar.indexCast c0_i32_819
  let c0_i32_1 : BitVec 32 := 0#32
  let c1_i32 : BitVec 32 := 1#32
  let arg9 : BitVec 32 := Scf.iv c0_i32_1 c1_i32 k2_t1
  let v772 : Index := Scalar.indexCast arg9
  let c176_820 : Index := 176#32
  ![0, v772.toNat, 176]
def k2_off25 (k2_t1 : Fin k2_t1_loop.trips) : Fin 4 → Nat :=
  let c0_i32_821 : BitVec 32 := 0#32
  let v775 : Index := Scalar.indexCast c0_i32_821
  let c0_i32_1 : BitVec 32 := 0#32
  let c1_i32 : BitVec 32 := 1#32
  let arg9 : BitVec 32 := Scf.iv c0_i32_1 c1_i32 k2_t1
  let v776 : Index := Scalar.indexCast arg9
  let c1_i32_822 : BitVec 32 := 1#32
  let v777 : Index := Scalar.indexCast c1_i32_822
  let c176_823 : Index := 176#32
  ![0, v776.toNat, 1, 176]
def k2_off26 (k2_t1 : Fin k2_t1_loop.trips) : Fin 3 → Nat :=
  let c0_i32_824 : BitVec 32 := 0#32
  let v781 : Index := Scalar.indexCast c0_i32_824
  let c0_i32_1 : BitVec 32 := 0#32
  let c1_i32 : BitVec 32 := 1#32
  let arg9 : BitVec 32 := Scf.iv c0_i32_1 c1_i32 k2_t1
  let v782 : Index := Scalar.indexCast arg9
  let c192_825 : Index := 192#32
  ![0, v782.toNat, 192]
def k2_off27 (k2_t1 : Fin k2_t1_loop.trips) : Fin 4 → Nat :=
  let c0_i32_826 : BitVec 32 := 0#32
  let v785 : Index := Scalar.indexCast c0_i32_826
  let c0_i32_1 : BitVec 32 := 0#32
  let c1_i32 : BitVec 32 := 1#32
  let arg9 : BitVec 32 := Scf.iv c0_i32_1 c1_i32 k2_t1
  let v786 : Index := Scalar.indexCast arg9
  let c1_i32_827 : BitVec 32 := 1#32
  let v787 : Index := Scalar.indexCast c1_i32_827
  let c192_828 : Index := 192#32
  ![0, v786.toNat, 1, 192]
def k2_off28 (k2_t1 : Fin k2_t1_loop.trips) : Fin 3 → Nat :=
  let c0_i32_829 : BitVec 32 := 0#32
  let v791 : Index := Scalar.indexCast c0_i32_829
  let c0_i32_1 : BitVec 32 := 0#32
  let c1_i32 : BitVec 32 := 1#32
  let arg9 : BitVec 32 := Scf.iv c0_i32_1 c1_i32 k2_t1
  let v792 : Index := Scalar.indexCast arg9
  let c208_830 : Index := 208#32
  ![0, v792.toNat, 208]
def k2_off29 (k2_t1 : Fin k2_t1_loop.trips) : Fin 4 → Nat :=
  let c0_i32_831 : BitVec 32 := 0#32
  let v795 : Index := Scalar.indexCast c0_i32_831
  let c0_i32_1 : BitVec 32 := 0#32
  let c1_i32 : BitVec 32 := 1#32
  let arg9 : BitVec 32 := Scf.iv c0_i32_1 c1_i32 k2_t1
  let v796 : Index := Scalar.indexCast arg9
  let c1_i32_832 : BitVec 32 := 1#32
  let v797 : Index := Scalar.indexCast c1_i32_832
  let c208_833 : Index := 208#32
  ![0, v796.toNat, 1, 208]
def k2_off30 (k2_t1 : Fin k2_t1_loop.trips) : Fin 3 → Nat :=
  let c0_i32_834 : BitVec 32 := 0#32
  let v801 : Index := Scalar.indexCast c0_i32_834
  let c0_i32_1 : BitVec 32 := 0#32
  let c1_i32 : BitVec 32 := 1#32
  let arg9 : BitVec 32 := Scf.iv c0_i32_1 c1_i32 k2_t1
  let v802 : Index := Scalar.indexCast arg9
  let c224_835 : Index := 224#32
  ![0, v802.toNat, 224]
def k2_off31 (k2_t1 : Fin k2_t1_loop.trips) : Fin 4 → Nat :=
  let c0_i32_836 : BitVec 32 := 0#32
  let v805 : Index := Scalar.indexCast c0_i32_836
  let c0_i32_1 : BitVec 32 := 0#32
  let c1_i32 : BitVec 32 := 1#32
  let arg9 : BitVec 32 := Scf.iv c0_i32_1 c1_i32 k2_t1
  let v806 : Index := Scalar.indexCast arg9
  let c1_i32_837 : BitVec 32 := 1#32
  let v807 : Index := Scalar.indexCast c1_i32_837
  let c224_838 : Index := 224#32
  ![0, v806.toNat, 1, 224]
def k2_off32 (k2_t1 : Fin k2_t1_loop.trips) : Fin 3 → Nat :=
  let c0_i32_839 : BitVec 32 := 0#32
  let v811 : Index := Scalar.indexCast c0_i32_839
  let c0_i32_1 : BitVec 32 := 0#32
  let c1_i32 : BitVec 32 := 1#32
  let arg9 : BitVec 32 := Scf.iv c0_i32_1 c1_i32 k2_t1
  let v812 : Index := Scalar.indexCast arg9
  let c240_840 : Index := 240#32
  ![0, v812.toNat, 240]
def k2_off33 (k2_t1 : Fin k2_t1_loop.trips) : Fin 4 → Nat :=
  let c0_i32_841 : BitVec 32 := 0#32
  let v815 : Index := Scalar.indexCast c0_i32_841
  let c0_i32_1 : BitVec 32 := 0#32
  let c1_i32 : BitVec 32 := 1#32
  let arg9 : BitVec 32 := Scf.iv c0_i32_1 c1_i32 k2_t1
  let v816 : Index := Scalar.indexCast arg9
  let c1_i32_842 : BitVec 32 := 1#32
  let v817 : Index := Scalar.indexCast c1_i32_842
  let c240_843 : Index := 240#32
  ![0, v816.toNat, 1, 240]
def k2_off34 (k2_t1 : Fin k2_t1_loop.trips) : Fin 3 → Nat :=
  let c0_i32_844 : BitVec 32 := 0#32
  let v821 : Index := Scalar.indexCast c0_i32_844
  let c0_i32_1 : BitVec 32 := 0#32
  let c1_i32 : BitVec 32 := 1#32
  let arg9 : BitVec 32 := Scf.iv c0_i32_1 c1_i32 k2_t1
  let v822 : Index := Scalar.indexCast arg9
  let c256 : Index := 256#32
  ![0, v822.toNat, 256]
def k2_off35 (k2_t1 : Fin k2_t1_loop.trips) : Fin 4 → Nat :=
  let c0_i32_845 : BitVec 32 := 0#32
  let v825 : Index := Scalar.indexCast c0_i32_845
  let c0_i32_1 : BitVec 32 := 0#32
  let c1_i32 : BitVec 32 := 1#32
  let arg9 : BitVec 32 := Scf.iv c0_i32_1 c1_i32 k2_t1
  let v826 : Index := Scalar.indexCast arg9
  let c2_i32_846 : BitVec 32 := 2#32
  let v827 : Index := Scalar.indexCast c2_i32_846
  let c128_847 : Index := 128#32
  ![0, v826.toNat, 2, 128]
def k2_off36 (k2_t1 : Fin k2_t1_loop.trips) : Fin 3 → Nat :=
  let c0_i32_848 : BitVec 32 := 0#32
  let v831 : Index := Scalar.indexCast c0_i32_848
  let c0_i32_1 : BitVec 32 := 0#32
  let c1_i32 : BitVec 32 := 1#32
  let arg9 : BitVec 32 := Scf.iv c0_i32_1 c1_i32 k2_t1
  let v832 : Index := Scalar.indexCast arg9
  let c272 : Index := 272#32
  ![0, v832.toNat, 272]
def k2_off37 (k2_t1 : Fin k2_t1_loop.trips) : Fin 4 → Nat :=
  let c0_i32_849 : BitVec 32 := 0#32
  let v835 : Index := Scalar.indexCast c0_i32_849
  let c0_i32_1 : BitVec 32 := 0#32
  let c1_i32 : BitVec 32 := 1#32
  let arg9 : BitVec 32 := Scf.iv c0_i32_1 c1_i32 k2_t1
  let v836 : Index := Scalar.indexCast arg9
  let c2_i32_850 : BitVec 32 := 2#32
  let v837 : Index := Scalar.indexCast c2_i32_850
  let c144_851 : Index := 144#32
  ![0, v836.toNat, 2, 144]
def k2_off38 (k2_t1 : Fin k2_t1_loop.trips) : Fin 3 → Nat :=
  let c0_i32_852 : BitVec 32 := 0#32
  let v841 : Index := Scalar.indexCast c0_i32_852
  let c0_i32_1 : BitVec 32 := 0#32
  let c1_i32 : BitVec 32 := 1#32
  let arg9 : BitVec 32 := Scf.iv c0_i32_1 c1_i32 k2_t1
  let v842 : Index := Scalar.indexCast arg9
  let c288 : Index := 288#32
  ![0, v842.toNat, 288]
def k2_off39 (k2_t1 : Fin k2_t1_loop.trips) : Fin 4 → Nat :=
  let c0_i32_853 : BitVec 32 := 0#32
  let v845 : Index := Scalar.indexCast c0_i32_853
  let c0_i32_1 : BitVec 32 := 0#32
  let c1_i32 : BitVec 32 := 1#32
  let arg9 : BitVec 32 := Scf.iv c0_i32_1 c1_i32 k2_t1
  let v846 : Index := Scalar.indexCast arg9
  let c2_i32_854 : BitVec 32 := 2#32
  let v847 : Index := Scalar.indexCast c2_i32_854
  let c160_855 : Index := 160#32
  ![0, v846.toNat, 2, 160]
def k2_off40 (k2_t1 : Fin k2_t1_loop.trips) : Fin 3 → Nat :=
  let c0_i32_856 : BitVec 32 := 0#32
  let v851 : Index := Scalar.indexCast c0_i32_856
  let c0_i32_1 : BitVec 32 := 0#32
  let c1_i32 : BitVec 32 := 1#32
  let arg9 : BitVec 32 := Scf.iv c0_i32_1 c1_i32 k2_t1
  let v852 : Index := Scalar.indexCast arg9
  let c304 : Index := 304#32
  ![0, v852.toNat, 304]
def k2_off41 (k2_t1 : Fin k2_t1_loop.trips) : Fin 4 → Nat :=
  let c0_i32_857 : BitVec 32 := 0#32
  let v855 : Index := Scalar.indexCast c0_i32_857
  let c0_i32_1 : BitVec 32 := 0#32
  let c1_i32 : BitVec 32 := 1#32
  let arg9 : BitVec 32 := Scf.iv c0_i32_1 c1_i32 k2_t1
  let v856 : Index := Scalar.indexCast arg9
  let c2_i32_858 : BitVec 32 := 2#32
  let v857 : Index := Scalar.indexCast c2_i32_858
  let c176_859 : Index := 176#32
  ![0, v856.toNat, 2, 176]
def k2_off42 (k2_t1 : Fin k2_t1_loop.trips) : Fin 3 → Nat :=
  let c0_i32_860 : BitVec 32 := 0#32
  let v861 : Index := Scalar.indexCast c0_i32_860
  let c0_i32_1 : BitVec 32 := 0#32
  let c1_i32 : BitVec 32 := 1#32
  let arg9 : BitVec 32 := Scf.iv c0_i32_1 c1_i32 k2_t1
  let v862 : Index := Scalar.indexCast arg9
  let c320 : Index := 320#32
  ![0, v862.toNat, 320]
def k2_off43 (k2_t1 : Fin k2_t1_loop.trips) : Fin 4 → Nat :=
  let c0_i32_861 : BitVec 32 := 0#32
  let v865 : Index := Scalar.indexCast c0_i32_861
  let c0_i32_1 : BitVec 32 := 0#32
  let c1_i32 : BitVec 32 := 1#32
  let arg9 : BitVec 32 := Scf.iv c0_i32_1 c1_i32 k2_t1
  let v866 : Index := Scalar.indexCast arg9
  let c2_i32_862 : BitVec 32 := 2#32
  let v867 : Index := Scalar.indexCast c2_i32_862
  let c192_863 : Index := 192#32
  ![0, v866.toNat, 2, 192]
def k2_off44 (k2_t1 : Fin k2_t1_loop.trips) : Fin 3 → Nat :=
  let c0_i32_864 : BitVec 32 := 0#32
  let v871 : Index := Scalar.indexCast c0_i32_864
  let c0_i32_1 : BitVec 32 := 0#32
  let c1_i32 : BitVec 32 := 1#32
  let arg9 : BitVec 32 := Scf.iv c0_i32_1 c1_i32 k2_t1
  let v872 : Index := Scalar.indexCast arg9
  let c336 : Index := 336#32
  ![0, v872.toNat, 336]
def k2_off45 (k2_t1 : Fin k2_t1_loop.trips) : Fin 4 → Nat :=
  let c0_i32_865 : BitVec 32 := 0#32
  let v875 : Index := Scalar.indexCast c0_i32_865
  let c0_i32_1 : BitVec 32 := 0#32
  let c1_i32 : BitVec 32 := 1#32
  let arg9 : BitVec 32 := Scf.iv c0_i32_1 c1_i32 k2_t1
  let v876 : Index := Scalar.indexCast arg9
  let c2_i32_866 : BitVec 32 := 2#32
  let v877 : Index := Scalar.indexCast c2_i32_866
  let c208_867 : Index := 208#32
  ![0, v876.toNat, 2, 208]
def k2_off46 (k2_t1 : Fin k2_t1_loop.trips) : Fin 3 → Nat :=
  let c0_i32_868 : BitVec 32 := 0#32
  let v881 : Index := Scalar.indexCast c0_i32_868
  let c0_i32_1 : BitVec 32 := 0#32
  let c1_i32 : BitVec 32 := 1#32
  let arg9 : BitVec 32 := Scf.iv c0_i32_1 c1_i32 k2_t1
  let v882 : Index := Scalar.indexCast arg9
  let c352 : Index := 352#32
  ![0, v882.toNat, 352]
def k2_off47 (k2_t1 : Fin k2_t1_loop.trips) : Fin 4 → Nat :=
  let c0_i32_869 : BitVec 32 := 0#32
  let v885 : Index := Scalar.indexCast c0_i32_869
  let c0_i32_1 : BitVec 32 := 0#32
  let c1_i32 : BitVec 32 := 1#32
  let arg9 : BitVec 32 := Scf.iv c0_i32_1 c1_i32 k2_t1
  let v886 : Index := Scalar.indexCast arg9
  let c2_i32_870 : BitVec 32 := 2#32
  let v887 : Index := Scalar.indexCast c2_i32_870
  let c224_871 : Index := 224#32
  ![0, v886.toNat, 2, 224]
def k2_off48 (k2_t1 : Fin k2_t1_loop.trips) : Fin 3 → Nat :=
  let c0_i32_872 : BitVec 32 := 0#32
  let v891 : Index := Scalar.indexCast c0_i32_872
  let c0_i32_1 : BitVec 32 := 0#32
  let c1_i32 : BitVec 32 := 1#32
  let arg9 : BitVec 32 := Scf.iv c0_i32_1 c1_i32 k2_t1
  let v892 : Index := Scalar.indexCast arg9
  let c368 : Index := 368#32
  ![0, v892.toNat, 368]
def k2_off49 (k2_t1 : Fin k2_t1_loop.trips) : Fin 4 → Nat :=
  let c0_i32_873 : BitVec 32 := 0#32
  let v895 : Index := Scalar.indexCast c0_i32_873
  let c0_i32_1 : BitVec 32 := 0#32
  let c1_i32 : BitVec 32 := 1#32
  let arg9 : BitVec 32 := Scf.iv c0_i32_1 c1_i32 k2_t1
  let v896 : Index := Scalar.indexCast arg9
  let c2_i32_874 : BitVec 32 := 2#32
  let v897 : Index := Scalar.indexCast c2_i32_874
  let c240_875 : Index := 240#32
  ![0, v896.toNat, 2, 240]
def k2_off50 (k2_t1 : Fin k2_t1_loop.trips) : Fin 3 → Nat :=
  let c0_i32_876 : BitVec 32 := 0#32
  let v901 : Index := Scalar.indexCast c0_i32_876
  let c0_i32_1 : BitVec 32 := 0#32
  let c1_i32 : BitVec 32 := 1#32
  let arg9 : BitVec 32 := Scf.iv c0_i32_1 c1_i32 k2_t1
  let v902 : Index := Scalar.indexCast arg9
  let c384 : Index := 384#32
  ![0, v902.toNat, 384]
def k2_off51 (k2_t1 : Fin k2_t1_loop.trips) : Fin 4 → Nat :=
  let c0_i32_877 : BitVec 32 := 0#32
  let v905 : Index := Scalar.indexCast c0_i32_877
  let c0_i32_1 : BitVec 32 := 0#32
  let c1_i32 : BitVec 32 := 1#32
  let arg9 : BitVec 32 := Scf.iv c0_i32_1 c1_i32 k2_t1
  let v906 : Index := Scalar.indexCast arg9
  let c3_i32_878 : BitVec 32 := 3#32
  let v907 : Index := Scalar.indexCast c3_i32_878
  let c128_879 : Index := 128#32
  ![0, v906.toNat, 3, 128]
def k2_off52 (k2_t1 : Fin k2_t1_loop.trips) : Fin 3 → Nat :=
  let c0_i32_880 : BitVec 32 := 0#32
  let v911 : Index := Scalar.indexCast c0_i32_880
  let c0_i32_1 : BitVec 32 := 0#32
  let c1_i32 : BitVec 32 := 1#32
  let arg9 : BitVec 32 := Scf.iv c0_i32_1 c1_i32 k2_t1
  let v912 : Index := Scalar.indexCast arg9
  let c400 : Index := 400#32
  ![0, v912.toNat, 400]
def k2_off53 (k2_t1 : Fin k2_t1_loop.trips) : Fin 4 → Nat :=
  let c0_i32_881 : BitVec 32 := 0#32
  let v915 : Index := Scalar.indexCast c0_i32_881
  let c0_i32_1 : BitVec 32 := 0#32
  let c1_i32 : BitVec 32 := 1#32
  let arg9 : BitVec 32 := Scf.iv c0_i32_1 c1_i32 k2_t1
  let v916 : Index := Scalar.indexCast arg9
  let c3_i32_882 : BitVec 32 := 3#32
  let v917 : Index := Scalar.indexCast c3_i32_882
  let c144_883 : Index := 144#32
  ![0, v916.toNat, 3, 144]
def k2_off54 (k2_t1 : Fin k2_t1_loop.trips) : Fin 3 → Nat :=
  let c0_i32_884 : BitVec 32 := 0#32
  let v921 : Index := Scalar.indexCast c0_i32_884
  let c0_i32_1 : BitVec 32 := 0#32
  let c1_i32 : BitVec 32 := 1#32
  let arg9 : BitVec 32 := Scf.iv c0_i32_1 c1_i32 k2_t1
  let v922 : Index := Scalar.indexCast arg9
  let c416 : Index := 416#32
  ![0, v922.toNat, 416]
def k2_off55 (k2_t1 : Fin k2_t1_loop.trips) : Fin 4 → Nat :=
  let c0_i32_885 : BitVec 32 := 0#32
  let v925 : Index := Scalar.indexCast c0_i32_885
  let c0_i32_1 : BitVec 32 := 0#32
  let c1_i32 : BitVec 32 := 1#32
  let arg9 : BitVec 32 := Scf.iv c0_i32_1 c1_i32 k2_t1
  let v926 : Index := Scalar.indexCast arg9
  let c3_i32_886 : BitVec 32 := 3#32
  let v927 : Index := Scalar.indexCast c3_i32_886
  let c160_887 : Index := 160#32
  ![0, v926.toNat, 3, 160]
def k2_off56 (k2_t1 : Fin k2_t1_loop.trips) : Fin 3 → Nat :=
  let c0_i32_888 : BitVec 32 := 0#32
  let v931 : Index := Scalar.indexCast c0_i32_888
  let c0_i32_1 : BitVec 32 := 0#32
  let c1_i32 : BitVec 32 := 1#32
  let arg9 : BitVec 32 := Scf.iv c0_i32_1 c1_i32 k2_t1
  let v932 : Index := Scalar.indexCast arg9
  let c432 : Index := 432#32
  ![0, v932.toNat, 432]
def k2_off57 (k2_t1 : Fin k2_t1_loop.trips) : Fin 4 → Nat :=
  let c0_i32_889 : BitVec 32 := 0#32
  let v935 : Index := Scalar.indexCast c0_i32_889
  let c0_i32_1 : BitVec 32 := 0#32
  let c1_i32 : BitVec 32 := 1#32
  let arg9 : BitVec 32 := Scf.iv c0_i32_1 c1_i32 k2_t1
  let v936 : Index := Scalar.indexCast arg9
  let c3_i32_890 : BitVec 32 := 3#32
  let v937 : Index := Scalar.indexCast c3_i32_890
  let c176_891 : Index := 176#32
  ![0, v936.toNat, 3, 176]
def k2_off58 (k2_t1 : Fin k2_t1_loop.trips) : Fin 3 → Nat :=
  let c0_i32_892 : BitVec 32 := 0#32
  let v941 : Index := Scalar.indexCast c0_i32_892
  let c0_i32_1 : BitVec 32 := 0#32
  let c1_i32 : BitVec 32 := 1#32
  let arg9 : BitVec 32 := Scf.iv c0_i32_1 c1_i32 k2_t1
  let v942 : Index := Scalar.indexCast arg9
  let c448 : Index := 448#32
  ![0, v942.toNat, 448]
def k2_off59 (k2_t1 : Fin k2_t1_loop.trips) : Fin 4 → Nat :=
  let c0_i32_893 : BitVec 32 := 0#32
  let v945 : Index := Scalar.indexCast c0_i32_893
  let c0_i32_1 : BitVec 32 := 0#32
  let c1_i32 : BitVec 32 := 1#32
  let arg9 : BitVec 32 := Scf.iv c0_i32_1 c1_i32 k2_t1
  let v946 : Index := Scalar.indexCast arg9
  let c3_i32_894 : BitVec 32 := 3#32
  let v947 : Index := Scalar.indexCast c3_i32_894
  let c192_895 : Index := 192#32
  ![0, v946.toNat, 3, 192]
def k2_off60 (k2_t1 : Fin k2_t1_loop.trips) : Fin 3 → Nat :=
  let c0_i32_896 : BitVec 32 := 0#32
  let v951 : Index := Scalar.indexCast c0_i32_896
  let c0_i32_1 : BitVec 32 := 0#32
  let c1_i32 : BitVec 32 := 1#32
  let arg9 : BitVec 32 := Scf.iv c0_i32_1 c1_i32 k2_t1
  let v952 : Index := Scalar.indexCast arg9
  let c464 : Index := 464#32
  ![0, v952.toNat, 464]
def k2_off61 (k2_t1 : Fin k2_t1_loop.trips) : Fin 4 → Nat :=
  let c0_i32_897 : BitVec 32 := 0#32
  let v955 : Index := Scalar.indexCast c0_i32_897
  let c0_i32_1 : BitVec 32 := 0#32
  let c1_i32 : BitVec 32 := 1#32
  let arg9 : BitVec 32 := Scf.iv c0_i32_1 c1_i32 k2_t1
  let v956 : Index := Scalar.indexCast arg9
  let c3_i32_898 : BitVec 32 := 3#32
  let v957 : Index := Scalar.indexCast c3_i32_898
  let c208_899 : Index := 208#32
  ![0, v956.toNat, 3, 208]
def k2_off62 (k2_t1 : Fin k2_t1_loop.trips) : Fin 3 → Nat :=
  let c0_i32_900 : BitVec 32 := 0#32
  let v961 : Index := Scalar.indexCast c0_i32_900
  let c0_i32_1 : BitVec 32 := 0#32
  let c1_i32 : BitVec 32 := 1#32
  let arg9 : BitVec 32 := Scf.iv c0_i32_1 c1_i32 k2_t1
  let v962 : Index := Scalar.indexCast arg9
  let c480 : Index := 480#32
  ![0, v962.toNat, 480]
def k2_off63 (k2_t1 : Fin k2_t1_loop.trips) : Fin 4 → Nat :=
  let c0_i32_901 : BitVec 32 := 0#32
  let v965 : Index := Scalar.indexCast c0_i32_901
  let c0_i32_1 : BitVec 32 := 0#32
  let c1_i32 : BitVec 32 := 1#32
  let arg9 : BitVec 32 := Scf.iv c0_i32_1 c1_i32 k2_t1
  let v966 : Index := Scalar.indexCast arg9
  let c3_i32_902 : BitVec 32 := 3#32
  let v967 : Index := Scalar.indexCast c3_i32_902
  let c224_903 : Index := 224#32
  ![0, v966.toNat, 3, 224]
def k2_off64 (k2_t1 : Fin k2_t1_loop.trips) : Fin 3 → Nat :=
  let c0_i32_904 : BitVec 32 := 0#32
  let v971 : Index := Scalar.indexCast c0_i32_904
  let c0_i32_1 : BitVec 32 := 0#32
  let c1_i32 : BitVec 32 := 1#32
  let arg9 : BitVec 32 := Scf.iv c0_i32_1 c1_i32 k2_t1
  let v972 : Index := Scalar.indexCast arg9
  let c496 : Index := 496#32
  ![0, v972.toNat, 496]
def k2_off65 (k2_t1 : Fin k2_t1_loop.trips) : Fin 4 → Nat :=
  let c0_i32_905 : BitVec 32 := 0#32
  let v975 : Index := Scalar.indexCast c0_i32_905
  let c0_i32_1 : BitVec 32 := 0#32
  let c1_i32 : BitVec 32 := 1#32
  let arg9 : BitVec 32 := Scf.iv c0_i32_1 c1_i32 k2_t1
  let v976 : Index := Scalar.indexCast arg9
  let c3_i32_906 : BitVec 32 := 3#32
  let v977 : Index := Scalar.indexCast c3_i32_906
  let c240_907 : Index := 240#32
  ![0, v976.toNat, 3, 240]
@[reducible] def k2_t2_loop : Scf.Loop 32 :=
  let c0_i32_5 : BitVec 32 := 0#32
  let c32_i32_6 : BitVec 32 := 32#32
  let v4 : BitVec 32 := Scalar.addi c0_i32_5 c32_i32_6
  let c1_i32_7 : BitVec 32 := 1#32
  ⟨c0_i32_5, v4, c1_i32_7⟩
def k2_off66 (k2_t2 : Fin k2_t2_loop.trips) : Fin 4 → Nat :=
  let c0_i32_780 : BitVec 32 := 0#32
  let v661 : Index := Scalar.indexCast c0_i32_780
  let c0_i32_5 : BitVec 32 := 0#32
  let c1_i32_7 : BitVec 32 := 1#32
  let arg9 : BitVec 32 := Scf.iv c0_i32_5 c1_i32_7 k2_t2
  let v662 : Index := Scalar.indexCast arg9
  let c0_i32_781 : BitVec 32 := 0#32
  let v663 : Index := Scalar.indexCast c0_i32_781
  let c128 : Index := 128#32
  ![0, v662.toNat, 0, 128]
def k2_off67 (k2_t2 : Fin k2_t2_loop.trips) : Fin 4 → Nat :=
  let c1_i32_782 : BitVec 32 := 1#32
  let v666 : Index := Scalar.indexCast c1_i32_782
  let c0_i32_5 : BitVec 32 := 0#32
  let c1_i32_7 : BitVec 32 := 1#32
  let arg9 : BitVec 32 := Scf.iv c0_i32_5 c1_i32_7 k2_t2
  let v667 : Index := Scalar.indexCast arg9
  let c0_i32_783 : BitVec 32 := 0#32
  let v668 : Index := Scalar.indexCast c0_i32_783
  let c128_784 : Index := 128#32
  ![1, v667.toNat, 0, 128]
def k2_off68 (k2_t2 : Fin k2_t2_loop.trips) : Fin 4 → Nat :=
  let c0_i32_785 : BitVec 32 := 0#32
  let v672 : Index := Scalar.indexCast c0_i32_785
  let c0_i32_5 : BitVec 32 := 0#32
  let c1_i32_7 : BitVec 32 := 1#32
  let arg9 : BitVec 32 := Scf.iv c0_i32_5 c1_i32_7 k2_t2
  let v673 : Index := Scalar.indexCast arg9
  let c0_i32_786 : BitVec 32 := 0#32
  let v674 : Index := Scalar.indexCast c0_i32_786
  let c144 : Index := 144#32
  ![0, v673.toNat, 0, 144]
def k2_off69 (k2_t2 : Fin k2_t2_loop.trips) : Fin 4 → Nat :=
  let c1_i32_787 : BitVec 32 := 1#32
  let v677 : Index := Scalar.indexCast c1_i32_787
  let c0_i32_5 : BitVec 32 := 0#32
  let c1_i32_7 : BitVec 32 := 1#32
  let arg9 : BitVec 32 := Scf.iv c0_i32_5 c1_i32_7 k2_t2
  let v678 : Index := Scalar.indexCast arg9
  let c0_i32_788 : BitVec 32 := 0#32
  let v679 : Index := Scalar.indexCast c0_i32_788
  let c144_789 : Index := 144#32
  ![1, v678.toNat, 0, 144]
def k2_off70 (k2_t2 : Fin k2_t2_loop.trips) : Fin 4 → Nat :=
  let c0_i32_790 : BitVec 32 := 0#32
  let v683 : Index := Scalar.indexCast c0_i32_790
  let c0_i32_5 : BitVec 32 := 0#32
  let c1_i32_7 : BitVec 32 := 1#32
  let arg9 : BitVec 32 := Scf.iv c0_i32_5 c1_i32_7 k2_t2
  let v684 : Index := Scalar.indexCast arg9
  let c0_i32_791 : BitVec 32 := 0#32
  let v685 : Index := Scalar.indexCast c0_i32_791
  let c160 : Index := 160#32
  ![0, v684.toNat, 0, 160]
def k2_off71 (k2_t2 : Fin k2_t2_loop.trips) : Fin 4 → Nat :=
  let c1_i32_792 : BitVec 32 := 1#32
  let v688 : Index := Scalar.indexCast c1_i32_792
  let c0_i32_5 : BitVec 32 := 0#32
  let c1_i32_7 : BitVec 32 := 1#32
  let arg9 : BitVec 32 := Scf.iv c0_i32_5 c1_i32_7 k2_t2
  let v689 : Index := Scalar.indexCast arg9
  let c0_i32_793 : BitVec 32 := 0#32
  let v690 : Index := Scalar.indexCast c0_i32_793
  let c160_794 : Index := 160#32
  ![1, v689.toNat, 0, 160]
def k2_off72 (k2_t2 : Fin k2_t2_loop.trips) : Fin 4 → Nat :=
  let c0_i32_795 : BitVec 32 := 0#32
  let v694 : Index := Scalar.indexCast c0_i32_795
  let c0_i32_5 : BitVec 32 := 0#32
  let c1_i32_7 : BitVec 32 := 1#32
  let arg9 : BitVec 32 := Scf.iv c0_i32_5 c1_i32_7 k2_t2
  let v695 : Index := Scalar.indexCast arg9
  let c0_i32_796 : BitVec 32 := 0#32
  let v696 : Index := Scalar.indexCast c0_i32_796
  let c176 : Index := 176#32
  ![0, v695.toNat, 0, 176]
def k2_off73 (k2_t2 : Fin k2_t2_loop.trips) : Fin 4 → Nat :=
  let c1_i32_797 : BitVec 32 := 1#32
  let v699 : Index := Scalar.indexCast c1_i32_797
  let c0_i32_5 : BitVec 32 := 0#32
  let c1_i32_7 : BitVec 32 := 1#32
  let arg9 : BitVec 32 := Scf.iv c0_i32_5 c1_i32_7 k2_t2
  let v700 : Index := Scalar.indexCast arg9
  let c0_i32_798 : BitVec 32 := 0#32
  let v701 : Index := Scalar.indexCast c0_i32_798
  let c176_799 : Index := 176#32
  ![1, v700.toNat, 0, 176]
def k2_off74 (k2_t2 : Fin k2_t2_loop.trips) : Fin 4 → Nat :=
  let c0_i32_800 : BitVec 32 := 0#32
  let v705 : Index := Scalar.indexCast c0_i32_800
  let c0_i32_5 : BitVec 32 := 0#32
  let c1_i32_7 : BitVec 32 := 1#32
  let arg9 : BitVec 32 := Scf.iv c0_i32_5 c1_i32_7 k2_t2
  let v706 : Index := Scalar.indexCast arg9
  let c0_i32_801 : BitVec 32 := 0#32
  let v707 : Index := Scalar.indexCast c0_i32_801
  let c192 : Index := 192#32
  ![0, v706.toNat, 0, 192]
def k2_off75 (k2_t2 : Fin k2_t2_loop.trips) : Fin 4 → Nat :=
  let c1_i32_802 : BitVec 32 := 1#32
  let v710 : Index := Scalar.indexCast c1_i32_802
  let c0_i32_5 : BitVec 32 := 0#32
  let c1_i32_7 : BitVec 32 := 1#32
  let arg9 : BitVec 32 := Scf.iv c0_i32_5 c1_i32_7 k2_t2
  let v711 : Index := Scalar.indexCast arg9
  let c0_i32_803 : BitVec 32 := 0#32
  let v712 : Index := Scalar.indexCast c0_i32_803
  let c192_804 : Index := 192#32
  ![1, v711.toNat, 0, 192]
def k2_off76 (k2_t2 : Fin k2_t2_loop.trips) : Fin 4 → Nat :=
  let c0_i32_805 : BitVec 32 := 0#32
  let v716 : Index := Scalar.indexCast c0_i32_805
  let c0_i32_5 : BitVec 32 := 0#32
  let c1_i32_7 : BitVec 32 := 1#32
  let arg9 : BitVec 32 := Scf.iv c0_i32_5 c1_i32_7 k2_t2
  let v717 : Index := Scalar.indexCast arg9
  let c0_i32_806 : BitVec 32 := 0#32
  let v718 : Index := Scalar.indexCast c0_i32_806
  let c208 : Index := 208#32
  ![0, v717.toNat, 0, 208]
def k2_off77 (k2_t2 : Fin k2_t2_loop.trips) : Fin 4 → Nat :=
  let c1_i32_807 : BitVec 32 := 1#32
  let v721 : Index := Scalar.indexCast c1_i32_807
  let c0_i32_5 : BitVec 32 := 0#32
  let c1_i32_7 : BitVec 32 := 1#32
  let arg9 : BitVec 32 := Scf.iv c0_i32_5 c1_i32_7 k2_t2
  let v722 : Index := Scalar.indexCast arg9
  let c0_i32_808 : BitVec 32 := 0#32
  let v723 : Index := Scalar.indexCast c0_i32_808
  let c208_809 : Index := 208#32
  ![1, v722.toNat, 0, 208]
def k2_off78 (k2_t2 : Fin k2_t2_loop.trips) : Fin 4 → Nat :=
  let c0_i32_810 : BitVec 32 := 0#32
  let v727 : Index := Scalar.indexCast c0_i32_810
  let c0_i32_5 : BitVec 32 := 0#32
  let c1_i32_7 : BitVec 32 := 1#32
  let arg9 : BitVec 32 := Scf.iv c0_i32_5 c1_i32_7 k2_t2
  let v728 : Index := Scalar.indexCast arg9
  let c0_i32_811 : BitVec 32 := 0#32
  let v729 : Index := Scalar.indexCast c0_i32_811
  let c224 : Index := 224#32
  ![0, v728.toNat, 0, 224]
def k2_off79 (k2_t2 : Fin k2_t2_loop.trips) : Fin 4 → Nat :=
  let c1_i32_812 : BitVec 32 := 1#32
  let v732 : Index := Scalar.indexCast c1_i32_812
  let c0_i32_5 : BitVec 32 := 0#32
  let c1_i32_7 : BitVec 32 := 1#32
  let arg9 : BitVec 32 := Scf.iv c0_i32_5 c1_i32_7 k2_t2
  let v733 : Index := Scalar.indexCast arg9
  let c0_i32_813 : BitVec 32 := 0#32
  let v734 : Index := Scalar.indexCast c0_i32_813
  let c224_814 : Index := 224#32
  ![1, v733.toNat, 0, 224]
def k2_off80 (k2_t2 : Fin k2_t2_loop.trips) : Fin 4 → Nat :=
  let c0_i32_815 : BitVec 32 := 0#32
  let v738 : Index := Scalar.indexCast c0_i32_815
  let c0_i32_5 : BitVec 32 := 0#32
  let c1_i32_7 : BitVec 32 := 1#32
  let arg9 : BitVec 32 := Scf.iv c0_i32_5 c1_i32_7 k2_t2
  let v739 : Index := Scalar.indexCast arg9
  let c0_i32_816 : BitVec 32 := 0#32
  let v740 : Index := Scalar.indexCast c0_i32_816
  let c240 : Index := 240#32
  ![0, v739.toNat, 0, 240]
def k2_off81 (k2_t2 : Fin k2_t2_loop.trips) : Fin 4 → Nat :=
  let c1_i32_817 : BitVec 32 := 1#32
  let v743 : Index := Scalar.indexCast c1_i32_817
  let c0_i32_5 : BitVec 32 := 0#32
  let c1_i32_7 : BitVec 32 := 1#32
  let arg9 : BitVec 32 := Scf.iv c0_i32_5 c1_i32_7 k2_t2
  let v744 : Index := Scalar.indexCast arg9
  let c0_i32_818 : BitVec 32 := 0#32
  let v745 : Index := Scalar.indexCast c0_i32_818
  let c240_819 : Index := 240#32
  ![1, v744.toNat, 0, 240]
def k2_off82 (k2_t2 : Fin k2_t2_loop.trips) : Fin 4 → Nat :=
  let c0_i32_820 : BitVec 32 := 0#32
  let v749 : Index := Scalar.indexCast c0_i32_820
  let c0_i32_5 : BitVec 32 := 0#32
  let c1_i32_7 : BitVec 32 := 1#32
  let arg9 : BitVec 32 := Scf.iv c0_i32_5 c1_i32_7 k2_t2
  let v750 : Index := Scalar.indexCast arg9
  let c1_i32_821 : BitVec 32 := 1#32
  let v751 : Index := Scalar.indexCast c1_i32_821
  let c128_822 : Index := 128#32
  ![0, v750.toNat, 1, 128]
def k2_off83 (k2_t2 : Fin k2_t2_loop.trips) : Fin 4 → Nat :=
  let c1_i32_823 : BitVec 32 := 1#32
  let v754 : Index := Scalar.indexCast c1_i32_823
  let c0_i32_5 : BitVec 32 := 0#32
  let c1_i32_7 : BitVec 32 := 1#32
  let arg9 : BitVec 32 := Scf.iv c0_i32_5 c1_i32_7 k2_t2
  let v755 : Index := Scalar.indexCast arg9
  let c1_i32_824 : BitVec 32 := 1#32
  let v756 : Index := Scalar.indexCast c1_i32_824
  let c128_825 : Index := 128#32
  ![1, v755.toNat, 1, 128]
def k2_off84 (k2_t2 : Fin k2_t2_loop.trips) : Fin 4 → Nat :=
  let c0_i32_826 : BitVec 32 := 0#32
  let v760 : Index := Scalar.indexCast c0_i32_826
  let c0_i32_5 : BitVec 32 := 0#32
  let c1_i32_7 : BitVec 32 := 1#32
  let arg9 : BitVec 32 := Scf.iv c0_i32_5 c1_i32_7 k2_t2
  let v761 : Index := Scalar.indexCast arg9
  let c1_i32_827 : BitVec 32 := 1#32
  let v762 : Index := Scalar.indexCast c1_i32_827
  let c144_828 : Index := 144#32
  ![0, v761.toNat, 1, 144]
def k2_off85 (k2_t2 : Fin k2_t2_loop.trips) : Fin 4 → Nat :=
  let c1_i32_829 : BitVec 32 := 1#32
  let v765 : Index := Scalar.indexCast c1_i32_829
  let c0_i32_5 : BitVec 32 := 0#32
  let c1_i32_7 : BitVec 32 := 1#32
  let arg9 : BitVec 32 := Scf.iv c0_i32_5 c1_i32_7 k2_t2
  let v766 : Index := Scalar.indexCast arg9
  let c1_i32_830 : BitVec 32 := 1#32
  let v767 : Index := Scalar.indexCast c1_i32_830
  let c144_831 : Index := 144#32
  ![1, v766.toNat, 1, 144]
def k2_off86 (k2_t2 : Fin k2_t2_loop.trips) : Fin 4 → Nat :=
  let c0_i32_832 : BitVec 32 := 0#32
  let v771 : Index := Scalar.indexCast c0_i32_832
  let c0_i32_5 : BitVec 32 := 0#32
  let c1_i32_7 : BitVec 32 := 1#32
  let arg9 : BitVec 32 := Scf.iv c0_i32_5 c1_i32_7 k2_t2
  let v772 : Index := Scalar.indexCast arg9
  let c1_i32_833 : BitVec 32 := 1#32
  let v773 : Index := Scalar.indexCast c1_i32_833
  let c160_834 : Index := 160#32
  ![0, v772.toNat, 1, 160]
def k2_off87 (k2_t2 : Fin k2_t2_loop.trips) : Fin 4 → Nat :=
  let c1_i32_835 : BitVec 32 := 1#32
  let v776 : Index := Scalar.indexCast c1_i32_835
  let c0_i32_5 : BitVec 32 := 0#32
  let c1_i32_7 : BitVec 32 := 1#32
  let arg9 : BitVec 32 := Scf.iv c0_i32_5 c1_i32_7 k2_t2
  let v777 : Index := Scalar.indexCast arg9
  let c1_i32_836 : BitVec 32 := 1#32
  let v778 : Index := Scalar.indexCast c1_i32_836
  let c160_837 : Index := 160#32
  ![1, v777.toNat, 1, 160]
def k2_off88 (k2_t2 : Fin k2_t2_loop.trips) : Fin 4 → Nat :=
  let c0_i32_838 : BitVec 32 := 0#32
  let v782 : Index := Scalar.indexCast c0_i32_838
  let c0_i32_5 : BitVec 32 := 0#32
  let c1_i32_7 : BitVec 32 := 1#32
  let arg9 : BitVec 32 := Scf.iv c0_i32_5 c1_i32_7 k2_t2
  let v783 : Index := Scalar.indexCast arg9
  let c1_i32_839 : BitVec 32 := 1#32
  let v784 : Index := Scalar.indexCast c1_i32_839
  let c176_840 : Index := 176#32
  ![0, v783.toNat, 1, 176]
def k2_off89 (k2_t2 : Fin k2_t2_loop.trips) : Fin 4 → Nat :=
  let c1_i32_841 : BitVec 32 := 1#32
  let v787 : Index := Scalar.indexCast c1_i32_841
  let c0_i32_5 : BitVec 32 := 0#32
  let c1_i32_7 : BitVec 32 := 1#32
  let arg9 : BitVec 32 := Scf.iv c0_i32_5 c1_i32_7 k2_t2
  let v788 : Index := Scalar.indexCast arg9
  let c1_i32_842 : BitVec 32 := 1#32
  let v789 : Index := Scalar.indexCast c1_i32_842
  let c176_843 : Index := 176#32
  ![1, v788.toNat, 1, 176]
def k2_off90 (k2_t2 : Fin k2_t2_loop.trips) : Fin 4 → Nat :=
  let c0_i32_844 : BitVec 32 := 0#32
  let v793 : Index := Scalar.indexCast c0_i32_844
  let c0_i32_5 : BitVec 32 := 0#32
  let c1_i32_7 : BitVec 32 := 1#32
  let arg9 : BitVec 32 := Scf.iv c0_i32_5 c1_i32_7 k2_t2
  let v794 : Index := Scalar.indexCast arg9
  let c1_i32_845 : BitVec 32 := 1#32
  let v795 : Index := Scalar.indexCast c1_i32_845
  let c192_846 : Index := 192#32
  ![0, v794.toNat, 1, 192]
def k2_off91 (k2_t2 : Fin k2_t2_loop.trips) : Fin 4 → Nat :=
  let c1_i32_847 : BitVec 32 := 1#32
  let v798 : Index := Scalar.indexCast c1_i32_847
  let c0_i32_5 : BitVec 32 := 0#32
  let c1_i32_7 : BitVec 32 := 1#32
  let arg9 : BitVec 32 := Scf.iv c0_i32_5 c1_i32_7 k2_t2
  let v799 : Index := Scalar.indexCast arg9
  let c1_i32_848 : BitVec 32 := 1#32
  let v800 : Index := Scalar.indexCast c1_i32_848
  let c192_849 : Index := 192#32
  ![1, v799.toNat, 1, 192]
def k2_off92 (k2_t2 : Fin k2_t2_loop.trips) : Fin 4 → Nat :=
  let c0_i32_850 : BitVec 32 := 0#32
  let v804 : Index := Scalar.indexCast c0_i32_850
  let c0_i32_5 : BitVec 32 := 0#32
  let c1_i32_7 : BitVec 32 := 1#32
  let arg9 : BitVec 32 := Scf.iv c0_i32_5 c1_i32_7 k2_t2
  let v805 : Index := Scalar.indexCast arg9
  let c1_i32_851 : BitVec 32 := 1#32
  let v806 : Index := Scalar.indexCast c1_i32_851
  let c208_852 : Index := 208#32
  ![0, v805.toNat, 1, 208]
def k2_off93 (k2_t2 : Fin k2_t2_loop.trips) : Fin 4 → Nat :=
  let c1_i32_853 : BitVec 32 := 1#32
  let v809 : Index := Scalar.indexCast c1_i32_853
  let c0_i32_5 : BitVec 32 := 0#32
  let c1_i32_7 : BitVec 32 := 1#32
  let arg9 : BitVec 32 := Scf.iv c0_i32_5 c1_i32_7 k2_t2
  let v810 : Index := Scalar.indexCast arg9
  let c1_i32_854 : BitVec 32 := 1#32
  let v811 : Index := Scalar.indexCast c1_i32_854
  let c208_855 : Index := 208#32
  ![1, v810.toNat, 1, 208]
def k2_off94 (k2_t2 : Fin k2_t2_loop.trips) : Fin 4 → Nat :=
  let c0_i32_856 : BitVec 32 := 0#32
  let v815 : Index := Scalar.indexCast c0_i32_856
  let c0_i32_5 : BitVec 32 := 0#32
  let c1_i32_7 : BitVec 32 := 1#32
  let arg9 : BitVec 32 := Scf.iv c0_i32_5 c1_i32_7 k2_t2
  let v816 : Index := Scalar.indexCast arg9
  let c1_i32_857 : BitVec 32 := 1#32
  let v817 : Index := Scalar.indexCast c1_i32_857
  let c224_858 : Index := 224#32
  ![0, v816.toNat, 1, 224]
def k2_off95 (k2_t2 : Fin k2_t2_loop.trips) : Fin 4 → Nat :=
  let c1_i32_859 : BitVec 32 := 1#32
  let v820 : Index := Scalar.indexCast c1_i32_859
  let c0_i32_5 : BitVec 32 := 0#32
  let c1_i32_7 : BitVec 32 := 1#32
  let arg9 : BitVec 32 := Scf.iv c0_i32_5 c1_i32_7 k2_t2
  let v821 : Index := Scalar.indexCast arg9
  let c1_i32_860 : BitVec 32 := 1#32
  let v822 : Index := Scalar.indexCast c1_i32_860
  let c224_861 : Index := 224#32
  ![1, v821.toNat, 1, 224]
def k2_off96 (k2_t2 : Fin k2_t2_loop.trips) : Fin 4 → Nat :=
  let c0_i32_862 : BitVec 32 := 0#32
  let v826 : Index := Scalar.indexCast c0_i32_862
  let c0_i32_5 : BitVec 32 := 0#32
  let c1_i32_7 : BitVec 32 := 1#32
  let arg9 : BitVec 32 := Scf.iv c0_i32_5 c1_i32_7 k2_t2
  let v827 : Index := Scalar.indexCast arg9
  let c1_i32_863 : BitVec 32 := 1#32
  let v828 : Index := Scalar.indexCast c1_i32_863
  let c240_864 : Index := 240#32
  ![0, v827.toNat, 1, 240]
def k2_off97 (k2_t2 : Fin k2_t2_loop.trips) : Fin 4 → Nat :=
  let c1_i32_865 : BitVec 32 := 1#32
  let v831 : Index := Scalar.indexCast c1_i32_865
  let c0_i32_5 : BitVec 32 := 0#32
  let c1_i32_7 : BitVec 32 := 1#32
  let arg9 : BitVec 32 := Scf.iv c0_i32_5 c1_i32_7 k2_t2
  let v832 : Index := Scalar.indexCast arg9
  let c1_i32_866 : BitVec 32 := 1#32
  let v833 : Index := Scalar.indexCast c1_i32_866
  let c240_867 : Index := 240#32
  ![1, v832.toNat, 1, 240]
def k2_off98 (k2_t2 : Fin k2_t2_loop.trips) : Fin 4 → Nat :=
  let c0_i32_868 : BitVec 32 := 0#32
  let v837 : Index := Scalar.indexCast c0_i32_868
  let c0_i32_5 : BitVec 32 := 0#32
  let c1_i32_7 : BitVec 32 := 1#32
  let arg9 : BitVec 32 := Scf.iv c0_i32_5 c1_i32_7 k2_t2
  let v838 : Index := Scalar.indexCast arg9
  let c2_i32_869 : BitVec 32 := 2#32
  let v839 : Index := Scalar.indexCast c2_i32_869
  let c128_870 : Index := 128#32
  ![0, v838.toNat, 2, 128]
def k2_off99 (k2_t2 : Fin k2_t2_loop.trips) : Fin 4 → Nat :=
  let c1_i32_871 : BitVec 32 := 1#32
  let v842 : Index := Scalar.indexCast c1_i32_871
  let c0_i32_5 : BitVec 32 := 0#32
  let c1_i32_7 : BitVec 32 := 1#32
  let arg9 : BitVec 32 := Scf.iv c0_i32_5 c1_i32_7 k2_t2
  let v843 : Index := Scalar.indexCast arg9
  let c2_i32_872 : BitVec 32 := 2#32
  let v844 : Index := Scalar.indexCast c2_i32_872
  let c128_873 : Index := 128#32
  ![1, v843.toNat, 2, 128]
def k2_off100 (k2_t2 : Fin k2_t2_loop.trips) : Fin 4 → Nat :=
  let c0_i32_874 : BitVec 32 := 0#32
  let v848 : Index := Scalar.indexCast c0_i32_874
  let c0_i32_5 : BitVec 32 := 0#32
  let c1_i32_7 : BitVec 32 := 1#32
  let arg9 : BitVec 32 := Scf.iv c0_i32_5 c1_i32_7 k2_t2
  let v849 : Index := Scalar.indexCast arg9
  let c2_i32_875 : BitVec 32 := 2#32
  let v850 : Index := Scalar.indexCast c2_i32_875
  let c144_876 : Index := 144#32
  ![0, v849.toNat, 2, 144]
def k2_off101 (k2_t2 : Fin k2_t2_loop.trips) : Fin 4 → Nat :=
  let c1_i32_877 : BitVec 32 := 1#32
  let v853 : Index := Scalar.indexCast c1_i32_877
  let c0_i32_5 : BitVec 32 := 0#32
  let c1_i32_7 : BitVec 32 := 1#32
  let arg9 : BitVec 32 := Scf.iv c0_i32_5 c1_i32_7 k2_t2
  let v854 : Index := Scalar.indexCast arg9
  let c2_i32_878 : BitVec 32 := 2#32
  let v855 : Index := Scalar.indexCast c2_i32_878
  let c144_879 : Index := 144#32
  ![1, v854.toNat, 2, 144]
def k2_off102 (k2_t2 : Fin k2_t2_loop.trips) : Fin 4 → Nat :=
  let c0_i32_880 : BitVec 32 := 0#32
  let v859 : Index := Scalar.indexCast c0_i32_880
  let c0_i32_5 : BitVec 32 := 0#32
  let c1_i32_7 : BitVec 32 := 1#32
  let arg9 : BitVec 32 := Scf.iv c0_i32_5 c1_i32_7 k2_t2
  let v860 : Index := Scalar.indexCast arg9
  let c2_i32_881 : BitVec 32 := 2#32
  let v861 : Index := Scalar.indexCast c2_i32_881
  let c160_882 : Index := 160#32
  ![0, v860.toNat, 2, 160]
def k2_off103 (k2_t2 : Fin k2_t2_loop.trips) : Fin 4 → Nat :=
  let c1_i32_883 : BitVec 32 := 1#32
  let v864 : Index := Scalar.indexCast c1_i32_883
  let c0_i32_5 : BitVec 32 := 0#32
  let c1_i32_7 : BitVec 32 := 1#32
  let arg9 : BitVec 32 := Scf.iv c0_i32_5 c1_i32_7 k2_t2
  let v865 : Index := Scalar.indexCast arg9
  let c2_i32_884 : BitVec 32 := 2#32
  let v866 : Index := Scalar.indexCast c2_i32_884
  let c160_885 : Index := 160#32
  ![1, v865.toNat, 2, 160]
def k2_off104 (k2_t2 : Fin k2_t2_loop.trips) : Fin 4 → Nat :=
  let c0_i32_886 : BitVec 32 := 0#32
  let v870 : Index := Scalar.indexCast c0_i32_886
  let c0_i32_5 : BitVec 32 := 0#32
  let c1_i32_7 : BitVec 32 := 1#32
  let arg9 : BitVec 32 := Scf.iv c0_i32_5 c1_i32_7 k2_t2
  let v871 : Index := Scalar.indexCast arg9
  let c2_i32_887 : BitVec 32 := 2#32
  let v872 : Index := Scalar.indexCast c2_i32_887
  let c176_888 : Index := 176#32
  ![0, v871.toNat, 2, 176]
def k2_off105 (k2_t2 : Fin k2_t2_loop.trips) : Fin 4 → Nat :=
  let c1_i32_889 : BitVec 32 := 1#32
  let v875 : Index := Scalar.indexCast c1_i32_889
  let c0_i32_5 : BitVec 32 := 0#32
  let c1_i32_7 : BitVec 32 := 1#32
  let arg9 : BitVec 32 := Scf.iv c0_i32_5 c1_i32_7 k2_t2
  let v876 : Index := Scalar.indexCast arg9
  let c2_i32_890 : BitVec 32 := 2#32
  let v877 : Index := Scalar.indexCast c2_i32_890
  let c176_891 : Index := 176#32
  ![1, v876.toNat, 2, 176]
def k2_off106 (k2_t2 : Fin k2_t2_loop.trips) : Fin 4 → Nat :=
  let c0_i32_892 : BitVec 32 := 0#32
  let v881 : Index := Scalar.indexCast c0_i32_892
  let c0_i32_5 : BitVec 32 := 0#32
  let c1_i32_7 : BitVec 32 := 1#32
  let arg9 : BitVec 32 := Scf.iv c0_i32_5 c1_i32_7 k2_t2
  let v882 : Index := Scalar.indexCast arg9
  let c2_i32_893 : BitVec 32 := 2#32
  let v883 : Index := Scalar.indexCast c2_i32_893
  let c192_894 : Index := 192#32
  ![0, v882.toNat, 2, 192]
def k2_off107 (k2_t2 : Fin k2_t2_loop.trips) : Fin 4 → Nat :=
  let c1_i32_895 : BitVec 32 := 1#32
  let v886 : Index := Scalar.indexCast c1_i32_895
  let c0_i32_5 : BitVec 32 := 0#32
  let c1_i32_7 : BitVec 32 := 1#32
  let arg9 : BitVec 32 := Scf.iv c0_i32_5 c1_i32_7 k2_t2
  let v887 : Index := Scalar.indexCast arg9
  let c2_i32_896 : BitVec 32 := 2#32
  let v888 : Index := Scalar.indexCast c2_i32_896
  let c192_897 : Index := 192#32
  ![1, v887.toNat, 2, 192]
def k2_off108 (k2_t2 : Fin k2_t2_loop.trips) : Fin 4 → Nat :=
  let c0_i32_898 : BitVec 32 := 0#32
  let v892 : Index := Scalar.indexCast c0_i32_898
  let c0_i32_5 : BitVec 32 := 0#32
  let c1_i32_7 : BitVec 32 := 1#32
  let arg9 : BitVec 32 := Scf.iv c0_i32_5 c1_i32_7 k2_t2
  let v893 : Index := Scalar.indexCast arg9
  let c2_i32_899 : BitVec 32 := 2#32
  let v894 : Index := Scalar.indexCast c2_i32_899
  let c208_900 : Index := 208#32
  ![0, v893.toNat, 2, 208]
def k2_off109 (k2_t2 : Fin k2_t2_loop.trips) : Fin 4 → Nat :=
  let c1_i32_901 : BitVec 32 := 1#32
  let v897 : Index := Scalar.indexCast c1_i32_901
  let c0_i32_5 : BitVec 32 := 0#32
  let c1_i32_7 : BitVec 32 := 1#32
  let arg9 : BitVec 32 := Scf.iv c0_i32_5 c1_i32_7 k2_t2
  let v898 : Index := Scalar.indexCast arg9
  let c2_i32_902 : BitVec 32 := 2#32
  let v899 : Index := Scalar.indexCast c2_i32_902
  let c208_903 : Index := 208#32
  ![1, v898.toNat, 2, 208]
def k2_off110 (k2_t2 : Fin k2_t2_loop.trips) : Fin 4 → Nat :=
  let c0_i32_904 : BitVec 32 := 0#32
  let v903 : Index := Scalar.indexCast c0_i32_904
  let c0_i32_5 : BitVec 32 := 0#32
  let c1_i32_7 : BitVec 32 := 1#32
  let arg9 : BitVec 32 := Scf.iv c0_i32_5 c1_i32_7 k2_t2
  let v904 : Index := Scalar.indexCast arg9
  let c2_i32_905 : BitVec 32 := 2#32
  let v905 : Index := Scalar.indexCast c2_i32_905
  let c224_906 : Index := 224#32
  ![0, v904.toNat, 2, 224]
def k2_off111 (k2_t2 : Fin k2_t2_loop.trips) : Fin 4 → Nat :=
  let c1_i32_907 : BitVec 32 := 1#32
  let v908 : Index := Scalar.indexCast c1_i32_907
  let c0_i32_5 : BitVec 32 := 0#32
  let c1_i32_7 : BitVec 32 := 1#32
  let arg9 : BitVec 32 := Scf.iv c0_i32_5 c1_i32_7 k2_t2
  let v909 : Index := Scalar.indexCast arg9
  let c2_i32_908 : BitVec 32 := 2#32
  let v910 : Index := Scalar.indexCast c2_i32_908
  let c224_909 : Index := 224#32
  ![1, v909.toNat, 2, 224]
def k2_off112 (k2_t2 : Fin k2_t2_loop.trips) : Fin 4 → Nat :=
  let c0_i32_910 : BitVec 32 := 0#32
  let v914 : Index := Scalar.indexCast c0_i32_910
  let c0_i32_5 : BitVec 32 := 0#32
  let c1_i32_7 : BitVec 32 := 1#32
  let arg9 : BitVec 32 := Scf.iv c0_i32_5 c1_i32_7 k2_t2
  let v915 : Index := Scalar.indexCast arg9
  let c2_i32_911 : BitVec 32 := 2#32
  let v916 : Index := Scalar.indexCast c2_i32_911
  let c240_912 : Index := 240#32
  ![0, v915.toNat, 2, 240]
def k2_off113 (k2_t2 : Fin k2_t2_loop.trips) : Fin 4 → Nat :=
  let c1_i32_913 : BitVec 32 := 1#32
  let v919 : Index := Scalar.indexCast c1_i32_913
  let c0_i32_5 : BitVec 32 := 0#32
  let c1_i32_7 : BitVec 32 := 1#32
  let arg9 : BitVec 32 := Scf.iv c0_i32_5 c1_i32_7 k2_t2
  let v920 : Index := Scalar.indexCast arg9
  let c2_i32_914 : BitVec 32 := 2#32
  let v921 : Index := Scalar.indexCast c2_i32_914
  let c240_915 : Index := 240#32
  ![1, v920.toNat, 2, 240]
def k2_off114 (k2_t2 : Fin k2_t2_loop.trips) : Fin 4 → Nat :=
  let c0_i32_916 : BitVec 32 := 0#32
  let v925 : Index := Scalar.indexCast c0_i32_916
  let c0_i32_5 : BitVec 32 := 0#32
  let c1_i32_7 : BitVec 32 := 1#32
  let arg9 : BitVec 32 := Scf.iv c0_i32_5 c1_i32_7 k2_t2
  let v926 : Index := Scalar.indexCast arg9
  let c3_i32_917 : BitVec 32 := 3#32
  let v927 : Index := Scalar.indexCast c3_i32_917
  let c128_918 : Index := 128#32
  ![0, v926.toNat, 3, 128]
def k2_off115 (k2_t2 : Fin k2_t2_loop.trips) : Fin 4 → Nat :=
  let c1_i32_919 : BitVec 32 := 1#32
  let v930 : Index := Scalar.indexCast c1_i32_919
  let c0_i32_5 : BitVec 32 := 0#32
  let c1_i32_7 : BitVec 32 := 1#32
  let arg9 : BitVec 32 := Scf.iv c0_i32_5 c1_i32_7 k2_t2
  let v931 : Index := Scalar.indexCast arg9
  let c3_i32_920 : BitVec 32 := 3#32
  let v932 : Index := Scalar.indexCast c3_i32_920
  let c128_921 : Index := 128#32
  ![1, v931.toNat, 3, 128]
def k2_off116 (k2_t2 : Fin k2_t2_loop.trips) : Fin 4 → Nat :=
  let c0_i32_922 : BitVec 32 := 0#32
  let v936 : Index := Scalar.indexCast c0_i32_922
  let c0_i32_5 : BitVec 32 := 0#32
  let c1_i32_7 : BitVec 32 := 1#32
  let arg9 : BitVec 32 := Scf.iv c0_i32_5 c1_i32_7 k2_t2
  let v937 : Index := Scalar.indexCast arg9
  let c3_i32_923 : BitVec 32 := 3#32
  let v938 : Index := Scalar.indexCast c3_i32_923
  let c144_924 : Index := 144#32
  ![0, v937.toNat, 3, 144]
def k2_off117 (k2_t2 : Fin k2_t2_loop.trips) : Fin 4 → Nat :=
  let c1_i32_925 : BitVec 32 := 1#32
  let v941 : Index := Scalar.indexCast c1_i32_925
  let c0_i32_5 : BitVec 32 := 0#32
  let c1_i32_7 : BitVec 32 := 1#32
  let arg9 : BitVec 32 := Scf.iv c0_i32_5 c1_i32_7 k2_t2
  let v942 : Index := Scalar.indexCast arg9
  let c3_i32_926 : BitVec 32 := 3#32
  let v943 : Index := Scalar.indexCast c3_i32_926
  let c144_927 : Index := 144#32
  ![1, v942.toNat, 3, 144]
def k2_off118 (k2_t2 : Fin k2_t2_loop.trips) : Fin 4 → Nat :=
  let c0_i32_928 : BitVec 32 := 0#32
  let v947 : Index := Scalar.indexCast c0_i32_928
  let c0_i32_5 : BitVec 32 := 0#32
  let c1_i32_7 : BitVec 32 := 1#32
  let arg9 : BitVec 32 := Scf.iv c0_i32_5 c1_i32_7 k2_t2
  let v948 : Index := Scalar.indexCast arg9
  let c3_i32_929 : BitVec 32 := 3#32
  let v949 : Index := Scalar.indexCast c3_i32_929
  let c160_930 : Index := 160#32
  ![0, v948.toNat, 3, 160]
def k2_off119 (k2_t2 : Fin k2_t2_loop.trips) : Fin 4 → Nat :=
  let c1_i32_931 : BitVec 32 := 1#32
  let v952 : Index := Scalar.indexCast c1_i32_931
  let c0_i32_5 : BitVec 32 := 0#32
  let c1_i32_7 : BitVec 32 := 1#32
  let arg9 : BitVec 32 := Scf.iv c0_i32_5 c1_i32_7 k2_t2
  let v953 : Index := Scalar.indexCast arg9
  let c3_i32_932 : BitVec 32 := 3#32
  let v954 : Index := Scalar.indexCast c3_i32_932
  let c160_933 : Index := 160#32
  ![1, v953.toNat, 3, 160]
def k2_off120 (k2_t2 : Fin k2_t2_loop.trips) : Fin 4 → Nat :=
  let c0_i32_934 : BitVec 32 := 0#32
  let v958 : Index := Scalar.indexCast c0_i32_934
  let c0_i32_5 : BitVec 32 := 0#32
  let c1_i32_7 : BitVec 32 := 1#32
  let arg9 : BitVec 32 := Scf.iv c0_i32_5 c1_i32_7 k2_t2
  let v959 : Index := Scalar.indexCast arg9
  let c3_i32_935 : BitVec 32 := 3#32
  let v960 : Index := Scalar.indexCast c3_i32_935
  let c176_936 : Index := 176#32
  ![0, v959.toNat, 3, 176]
def k2_off121 (k2_t2 : Fin k2_t2_loop.trips) : Fin 4 → Nat :=
  let c1_i32_937 : BitVec 32 := 1#32
  let v963 : Index := Scalar.indexCast c1_i32_937
  let c0_i32_5 : BitVec 32 := 0#32
  let c1_i32_7 : BitVec 32 := 1#32
  let arg9 : BitVec 32 := Scf.iv c0_i32_5 c1_i32_7 k2_t2
  let v964 : Index := Scalar.indexCast arg9
  let c3_i32_938 : BitVec 32 := 3#32
  let v965 : Index := Scalar.indexCast c3_i32_938
  let c176_939 : Index := 176#32
  ![1, v964.toNat, 3, 176]
def k2_off122 (k2_t2 : Fin k2_t2_loop.trips) : Fin 4 → Nat :=
  let c0_i32_940 : BitVec 32 := 0#32
  let v969 : Index := Scalar.indexCast c0_i32_940
  let c0_i32_5 : BitVec 32 := 0#32
  let c1_i32_7 : BitVec 32 := 1#32
  let arg9 : BitVec 32 := Scf.iv c0_i32_5 c1_i32_7 k2_t2
  let v970 : Index := Scalar.indexCast arg9
  let c3_i32_941 : BitVec 32 := 3#32
  let v971 : Index := Scalar.indexCast c3_i32_941
  let c192_942 : Index := 192#32
  ![0, v970.toNat, 3, 192]
def k2_off123 (k2_t2 : Fin k2_t2_loop.trips) : Fin 4 → Nat :=
  let c1_i32_943 : BitVec 32 := 1#32
  let v974 : Index := Scalar.indexCast c1_i32_943
  let c0_i32_5 : BitVec 32 := 0#32
  let c1_i32_7 : BitVec 32 := 1#32
  let arg9 : BitVec 32 := Scf.iv c0_i32_5 c1_i32_7 k2_t2
  let v975 : Index := Scalar.indexCast arg9
  let c3_i32_944 : BitVec 32 := 3#32
  let v976 : Index := Scalar.indexCast c3_i32_944
  let c192_945 : Index := 192#32
  ![1, v975.toNat, 3, 192]
def k2_off124 (k2_t2 : Fin k2_t2_loop.trips) : Fin 4 → Nat :=
  let c0_i32_946 : BitVec 32 := 0#32
  let v980 : Index := Scalar.indexCast c0_i32_946
  let c0_i32_5 : BitVec 32 := 0#32
  let c1_i32_7 : BitVec 32 := 1#32
  let arg9 : BitVec 32 := Scf.iv c0_i32_5 c1_i32_7 k2_t2
  let v981 : Index := Scalar.indexCast arg9
  let c3_i32_947 : BitVec 32 := 3#32
  let v982 : Index := Scalar.indexCast c3_i32_947
  let c208_948 : Index := 208#32
  ![0, v981.toNat, 3, 208]
def k2_off125 (k2_t2 : Fin k2_t2_loop.trips) : Fin 4 → Nat :=
  let c1_i32_949 : BitVec 32 := 1#32
  let v985 : Index := Scalar.indexCast c1_i32_949
  let c0_i32_5 : BitVec 32 := 0#32
  let c1_i32_7 : BitVec 32 := 1#32
  let arg9 : BitVec 32 := Scf.iv c0_i32_5 c1_i32_7 k2_t2
  let v986 : Index := Scalar.indexCast arg9
  let c3_i32_950 : BitVec 32 := 3#32
  let v987 : Index := Scalar.indexCast c3_i32_950
  let c208_951 : Index := 208#32
  ![1, v986.toNat, 3, 208]
def k2_off126 (k2_t2 : Fin k2_t2_loop.trips) : Fin 4 → Nat :=
  let c0_i32_952 : BitVec 32 := 0#32
  let v991 : Index := Scalar.indexCast c0_i32_952
  let c0_i32_5 : BitVec 32 := 0#32
  let c1_i32_7 : BitVec 32 := 1#32
  let arg9 : BitVec 32 := Scf.iv c0_i32_5 c1_i32_7 k2_t2
  let v992 : Index := Scalar.indexCast arg9
  let c3_i32_953 : BitVec 32 := 3#32
  let v993 : Index := Scalar.indexCast c3_i32_953
  let c224_954 : Index := 224#32
  ![0, v992.toNat, 3, 224]
def k2_off127 (k2_t2 : Fin k2_t2_loop.trips) : Fin 4 → Nat :=
  let c1_i32_955 : BitVec 32 := 1#32
  let v996 : Index := Scalar.indexCast c1_i32_955
  let c0_i32_5 : BitVec 32 := 0#32
  let c1_i32_7 : BitVec 32 := 1#32
  let arg9 : BitVec 32 := Scf.iv c0_i32_5 c1_i32_7 k2_t2
  let v997 : Index := Scalar.indexCast arg9
  let c3_i32_956 : BitVec 32 := 3#32
  let v998 : Index := Scalar.indexCast c3_i32_956
  let c224_957 : Index := 224#32
  ![1, v997.toNat, 3, 224]
def k2_off128 (k2_t2 : Fin k2_t2_loop.trips) : Fin 4 → Nat :=
  let c0_i32_958 : BitVec 32 := 0#32
  let v1002 : Index := Scalar.indexCast c0_i32_958
  let c0_i32_5 : BitVec 32 := 0#32
  let c1_i32_7 : BitVec 32 := 1#32
  let arg9 : BitVec 32 := Scf.iv c0_i32_5 c1_i32_7 k2_t2
  let v1003 : Index := Scalar.indexCast arg9
  let c3_i32_959 : BitVec 32 := 3#32
  let v1004 : Index := Scalar.indexCast c3_i32_959
  let c240_960 : Index := 240#32
  ![0, v1003.toNat, 3, 240]
def k2_off129 (k2_t2 : Fin k2_t2_loop.trips) : Fin 4 → Nat :=
  let c1_i32_961 : BitVec 32 := 1#32
  let v1007 : Index := Scalar.indexCast c1_i32_961
  let c0_i32_5 : BitVec 32 := 0#32
  let c1_i32_7 : BitVec 32 := 1#32
  let arg9 : BitVec 32 := Scf.iv c0_i32_5 c1_i32_7 k2_t2
  let v1008 : Index := Scalar.indexCast arg9
  let c3_i32_962 : BitVec 32 := 3#32
  let v1009 : Index := Scalar.indexCast c3_i32_962
  let c240_963 : Index := 240#32
  ![1, v1008.toNat, 3, 240]
def k2_off130 (i : grid2.Coords) : Fin 3 → Nat :=
  let c0_i32_9 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_14 : BitVec 32 := 0#32
  ![0, v2.toNat, 0]
def k2_off131 (i : grid2.Coords) : Fin 3 → Nat :=
  let c1_i32_27 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_32 : BitVec 32 := 0#32
  ![1, v2.toNat, 0]
@[reducible] def k2_t3_loop : Scf.Loop 32 :=
  let c0_i32_37 : BitVec 32 := 0#32
  let c32_i32_38 : BitVec 32 := 32#32
  let v35 : BitVec 32 := Scalar.addi c0_i32_37 c32_i32_38
  let c1_i32_39 : BitVec 32 := 1#32
  ⟨c0_i32_37, v35, c1_i32_39⟩
def k2_off132 (k2_t3 : Fin k2_t3_loop.trips) : Fin 3 → Nat :=
  let c0_i32_780 : BitVec 32 := 0#32
  let v661 : Index := Scalar.indexCast c0_i32_780
  let c0_i32_37 : BitVec 32 := 0#32
  let c1_i32_39 : BitVec 32 := 1#32
  let arg9 : BitVec 32 := Scf.iv c0_i32_37 c1_i32_39 k2_t3
  let v662 : Index := Scalar.indexCast arg9
  let c0 : Index := 0#32
  ![0, v662.toNat, 0]
def k2_off133 (k2_t3 : Fin k2_t3_loop.trips) : Fin 4 → Nat :=
  let c0_i32_781 : BitVec 32 := 0#32
  let v665 : Index := Scalar.indexCast c0_i32_781
  let c0_i32_37 : BitVec 32 := 0#32
  let c1_i32_39 : BitVec 32 := 1#32
  let arg9 : BitVec 32 := Scf.iv c0_i32_37 c1_i32_39 k2_t3
  let v666 : Index := Scalar.indexCast arg9
  let c0_i32_782 : BitVec 32 := 0#32
  let v667 : Index := Scalar.indexCast c0_i32_782
  let c0_783 : Index := 0#32
  ![0, v666.toNat, 0, 0]
def k2_off134 (k2_t3 : Fin k2_t3_loop.trips) : Fin 3 → Nat :=
  let c0_i32_784 : BitVec 32 := 0#32
  let v671 : Index := Scalar.indexCast c0_i32_784
  let c0_i32_37 : BitVec 32 := 0#32
  let c1_i32_39 : BitVec 32 := 1#32
  let arg9 : BitVec 32 := Scf.iv c0_i32_37 c1_i32_39 k2_t3
  let v672 : Index := Scalar.indexCast arg9
  let c16 : Index := 16#32
  ![0, v672.toNat, 16]
def k2_off135 (k2_t3 : Fin k2_t3_loop.trips) : Fin 4 → Nat :=
  let c0_i32_785 : BitVec 32 := 0#32
  let v675 : Index := Scalar.indexCast c0_i32_785
  let c0_i32_37 : BitVec 32 := 0#32
  let c1_i32_39 : BitVec 32 := 1#32
  let arg9 : BitVec 32 := Scf.iv c0_i32_37 c1_i32_39 k2_t3
  let v676 : Index := Scalar.indexCast arg9
  let c0_i32_786 : BitVec 32 := 0#32
  let v677 : Index := Scalar.indexCast c0_i32_786
  let c16_787 : Index := 16#32
  ![0, v676.toNat, 0, 16]
def k2_off136 (k2_t3 : Fin k2_t3_loop.trips) : Fin 3 → Nat :=
  let c0_i32_788 : BitVec 32 := 0#32
  let v681 : Index := Scalar.indexCast c0_i32_788
  let c0_i32_37 : BitVec 32 := 0#32
  let c1_i32_39 : BitVec 32 := 1#32
  let arg9 : BitVec 32 := Scf.iv c0_i32_37 c1_i32_39 k2_t3
  let v682 : Index := Scalar.indexCast arg9
  let c32 : Index := 32#32
  ![0, v682.toNat, 32]
def k2_off137 (k2_t3 : Fin k2_t3_loop.trips) : Fin 4 → Nat :=
  let c0_i32_789 : BitVec 32 := 0#32
  let v685 : Index := Scalar.indexCast c0_i32_789
  let c0_i32_37 : BitVec 32 := 0#32
  let c1_i32_39 : BitVec 32 := 1#32
  let arg9 : BitVec 32 := Scf.iv c0_i32_37 c1_i32_39 k2_t3
  let v686 : Index := Scalar.indexCast arg9
  let c0_i32_790 : BitVec 32 := 0#32
  let v687 : Index := Scalar.indexCast c0_i32_790
  let c32_791 : Index := 32#32
  ![0, v686.toNat, 0, 32]
def k2_off138 (k2_t3 : Fin k2_t3_loop.trips) : Fin 3 → Nat :=
  let c0_i32_792 : BitVec 32 := 0#32
  let v691 : Index := Scalar.indexCast c0_i32_792
  let c0_i32_37 : BitVec 32 := 0#32
  let c1_i32_39 : BitVec 32 := 1#32
  let arg9 : BitVec 32 := Scf.iv c0_i32_37 c1_i32_39 k2_t3
  let v692 : Index := Scalar.indexCast arg9
  let c48 : Index := 48#32
  ![0, v692.toNat, 48]
def k2_off139 (k2_t3 : Fin k2_t3_loop.trips) : Fin 4 → Nat :=
  let c0_i32_793 : BitVec 32 := 0#32
  let v695 : Index := Scalar.indexCast c0_i32_793
  let c0_i32_37 : BitVec 32 := 0#32
  let c1_i32_39 : BitVec 32 := 1#32
  let arg9 : BitVec 32 := Scf.iv c0_i32_37 c1_i32_39 k2_t3
  let v696 : Index := Scalar.indexCast arg9
  let c0_i32_794 : BitVec 32 := 0#32
  let v697 : Index := Scalar.indexCast c0_i32_794
  let c48_795 : Index := 48#32
  ![0, v696.toNat, 0, 48]
def k2_off140 (k2_t3 : Fin k2_t3_loop.trips) : Fin 3 → Nat :=
  let c0_i32_796 : BitVec 32 := 0#32
  let v701 : Index := Scalar.indexCast c0_i32_796
  let c0_i32_37 : BitVec 32 := 0#32
  let c1_i32_39 : BitVec 32 := 1#32
  let arg9 : BitVec 32 := Scf.iv c0_i32_37 c1_i32_39 k2_t3
  let v702 : Index := Scalar.indexCast arg9
  let c64 : Index := 64#32
  ![0, v702.toNat, 64]
def k2_off141 (k2_t3 : Fin k2_t3_loop.trips) : Fin 4 → Nat :=
  let c0_i32_797 : BitVec 32 := 0#32
  let v705 : Index := Scalar.indexCast c0_i32_797
  let c0_i32_37 : BitVec 32 := 0#32
  let c1_i32_39 : BitVec 32 := 1#32
  let arg9 : BitVec 32 := Scf.iv c0_i32_37 c1_i32_39 k2_t3
  let v706 : Index := Scalar.indexCast arg9
  let c0_i32_798 : BitVec 32 := 0#32
  let v707 : Index := Scalar.indexCast c0_i32_798
  let c64_799 : Index := 64#32
  ![0, v706.toNat, 0, 64]
def k2_off142 (k2_t3 : Fin k2_t3_loop.trips) : Fin 3 → Nat :=
  let c0_i32_800 : BitVec 32 := 0#32
  let v711 : Index := Scalar.indexCast c0_i32_800
  let c0_i32_37 : BitVec 32 := 0#32
  let c1_i32_39 : BitVec 32 := 1#32
  let arg9 : BitVec 32 := Scf.iv c0_i32_37 c1_i32_39 k2_t3
  let v712 : Index := Scalar.indexCast arg9
  let c80 : Index := 80#32
  ![0, v712.toNat, 80]
def k2_off143 (k2_t3 : Fin k2_t3_loop.trips) : Fin 4 → Nat :=
  let c0_i32_801 : BitVec 32 := 0#32
  let v715 : Index := Scalar.indexCast c0_i32_801
  let c0_i32_37 : BitVec 32 := 0#32
  let c1_i32_39 : BitVec 32 := 1#32
  let arg9 : BitVec 32 := Scf.iv c0_i32_37 c1_i32_39 k2_t3
  let v716 : Index := Scalar.indexCast arg9
  let c0_i32_802 : BitVec 32 := 0#32
  let v717 : Index := Scalar.indexCast c0_i32_802
  let c80_803 : Index := 80#32
  ![0, v716.toNat, 0, 80]
def k2_off144 (k2_t3 : Fin k2_t3_loop.trips) : Fin 3 → Nat :=
  let c0_i32_804 : BitVec 32 := 0#32
  let v721 : Index := Scalar.indexCast c0_i32_804
  let c0_i32_37 : BitVec 32 := 0#32
  let c1_i32_39 : BitVec 32 := 1#32
  let arg9 : BitVec 32 := Scf.iv c0_i32_37 c1_i32_39 k2_t3
  let v722 : Index := Scalar.indexCast arg9
  let c96 : Index := 96#32
  ![0, v722.toNat, 96]
def k2_off145 (k2_t3 : Fin k2_t3_loop.trips) : Fin 4 → Nat :=
  let c0_i32_805 : BitVec 32 := 0#32
  let v725 : Index := Scalar.indexCast c0_i32_805
  let c0_i32_37 : BitVec 32 := 0#32
  let c1_i32_39 : BitVec 32 := 1#32
  let arg9 : BitVec 32 := Scf.iv c0_i32_37 c1_i32_39 k2_t3
  let v726 : Index := Scalar.indexCast arg9
  let c0_i32_806 : BitVec 32 := 0#32
  let v727 : Index := Scalar.indexCast c0_i32_806
  let c96_807 : Index := 96#32
  ![0, v726.toNat, 0, 96]
def k2_off146 (k2_t3 : Fin k2_t3_loop.trips) : Fin 3 → Nat :=
  let c0_i32_808 : BitVec 32 := 0#32
  let v731 : Index := Scalar.indexCast c0_i32_808
  let c0_i32_37 : BitVec 32 := 0#32
  let c1_i32_39 : BitVec 32 := 1#32
  let arg9 : BitVec 32 := Scf.iv c0_i32_37 c1_i32_39 k2_t3
  let v732 : Index := Scalar.indexCast arg9
  let c112 : Index := 112#32
  ![0, v732.toNat, 112]
def k2_off147 (k2_t3 : Fin k2_t3_loop.trips) : Fin 4 → Nat :=
  let c0_i32_809 : BitVec 32 := 0#32
  let v735 : Index := Scalar.indexCast c0_i32_809
  let c0_i32_37 : BitVec 32 := 0#32
  let c1_i32_39 : BitVec 32 := 1#32
  let arg9 : BitVec 32 := Scf.iv c0_i32_37 c1_i32_39 k2_t3
  let v736 : Index := Scalar.indexCast arg9
  let c0_i32_810 : BitVec 32 := 0#32
  let v737 : Index := Scalar.indexCast c0_i32_810
  let c112_811 : Index := 112#32
  ![0, v736.toNat, 0, 112]
def k2_off148 (k2_t3 : Fin k2_t3_loop.trips) : Fin 3 → Nat :=
  let c0_i32_812 : BitVec 32 := 0#32
  let v741 : Index := Scalar.indexCast c0_i32_812
  let c0_i32_37 : BitVec 32 := 0#32
  let c1_i32_39 : BitVec 32 := 1#32
  let arg9 : BitVec 32 := Scf.iv c0_i32_37 c1_i32_39 k2_t3
  let v742 : Index := Scalar.indexCast arg9
  let c128 : Index := 128#32
  ![0, v742.toNat, 128]
def k2_off149 (k2_t3 : Fin k2_t3_loop.trips) : Fin 4 → Nat :=
  let c0_i32_813 : BitVec 32 := 0#32
  let v745 : Index := Scalar.indexCast c0_i32_813
  let c0_i32_37 : BitVec 32 := 0#32
  let c1_i32_39 : BitVec 32 := 1#32
  let arg9 : BitVec 32 := Scf.iv c0_i32_37 c1_i32_39 k2_t3
  let v746 : Index := Scalar.indexCast arg9
  let c1_i32_814 : BitVec 32 := 1#32
  let v747 : Index := Scalar.indexCast c1_i32_814
  let c0_815 : Index := 0#32
  ![0, v746.toNat, 1, 0]
def k2_off150 (k2_t3 : Fin k2_t3_loop.trips) : Fin 3 → Nat :=
  let c0_i32_816 : BitVec 32 := 0#32
  let v751 : Index := Scalar.indexCast c0_i32_816
  let c0_i32_37 : BitVec 32 := 0#32
  let c1_i32_39 : BitVec 32 := 1#32
  let arg9 : BitVec 32 := Scf.iv c0_i32_37 c1_i32_39 k2_t3
  let v752 : Index := Scalar.indexCast arg9
  let c144 : Index := 144#32
  ![0, v752.toNat, 144]
def k2_off151 (k2_t3 : Fin k2_t3_loop.trips) : Fin 4 → Nat :=
  let c0_i32_817 : BitVec 32 := 0#32
  let v755 : Index := Scalar.indexCast c0_i32_817
  let c0_i32_37 : BitVec 32 := 0#32
  let c1_i32_39 : BitVec 32 := 1#32
  let arg9 : BitVec 32 := Scf.iv c0_i32_37 c1_i32_39 k2_t3
  let v756 : Index := Scalar.indexCast arg9
  let c1_i32_818 : BitVec 32 := 1#32
  let v757 : Index := Scalar.indexCast c1_i32_818
  let c16_819 : Index := 16#32
  ![0, v756.toNat, 1, 16]
def k2_off152 (k2_t3 : Fin k2_t3_loop.trips) : Fin 3 → Nat :=
  let c0_i32_820 : BitVec 32 := 0#32
  let v761 : Index := Scalar.indexCast c0_i32_820
  let c0_i32_37 : BitVec 32 := 0#32
  let c1_i32_39 : BitVec 32 := 1#32
  let arg9 : BitVec 32 := Scf.iv c0_i32_37 c1_i32_39 k2_t3
  let v762 : Index := Scalar.indexCast arg9
  let c160 : Index := 160#32
  ![0, v762.toNat, 160]
def k2_off153 (k2_t3 : Fin k2_t3_loop.trips) : Fin 4 → Nat :=
  let c0_i32_821 : BitVec 32 := 0#32
  let v765 : Index := Scalar.indexCast c0_i32_821
  let c0_i32_37 : BitVec 32 := 0#32
  let c1_i32_39 : BitVec 32 := 1#32
  let arg9 : BitVec 32 := Scf.iv c0_i32_37 c1_i32_39 k2_t3
  let v766 : Index := Scalar.indexCast arg9
  let c1_i32_822 : BitVec 32 := 1#32
  let v767 : Index := Scalar.indexCast c1_i32_822
  let c32_823 : Index := 32#32
  ![0, v766.toNat, 1, 32]
def k2_off154 (k2_t3 : Fin k2_t3_loop.trips) : Fin 3 → Nat :=
  let c0_i32_824 : BitVec 32 := 0#32
  let v771 : Index := Scalar.indexCast c0_i32_824
  let c0_i32_37 : BitVec 32 := 0#32
  let c1_i32_39 : BitVec 32 := 1#32
  let arg9 : BitVec 32 := Scf.iv c0_i32_37 c1_i32_39 k2_t3
  let v772 : Index := Scalar.indexCast arg9
  let c176 : Index := 176#32
  ![0, v772.toNat, 176]
def k2_off155 (k2_t3 : Fin k2_t3_loop.trips) : Fin 4 → Nat :=
  let c0_i32_825 : BitVec 32 := 0#32
  let v775 : Index := Scalar.indexCast c0_i32_825
  let c0_i32_37 : BitVec 32 := 0#32
  let c1_i32_39 : BitVec 32 := 1#32
  let arg9 : BitVec 32 := Scf.iv c0_i32_37 c1_i32_39 k2_t3
  let v776 : Index := Scalar.indexCast arg9
  let c1_i32_826 : BitVec 32 := 1#32
  let v777 : Index := Scalar.indexCast c1_i32_826
  let c48_827 : Index := 48#32
  ![0, v776.toNat, 1, 48]
def k2_off156 (k2_t3 : Fin k2_t3_loop.trips) : Fin 3 → Nat :=
  let c0_i32_828 : BitVec 32 := 0#32
  let v781 : Index := Scalar.indexCast c0_i32_828
  let c0_i32_37 : BitVec 32 := 0#32
  let c1_i32_39 : BitVec 32 := 1#32
  let arg9 : BitVec 32 := Scf.iv c0_i32_37 c1_i32_39 k2_t3
  let v782 : Index := Scalar.indexCast arg9
  let c192 : Index := 192#32
  ![0, v782.toNat, 192]
def k2_off157 (k2_t3 : Fin k2_t3_loop.trips) : Fin 4 → Nat :=
  let c0_i32_829 : BitVec 32 := 0#32
  let v785 : Index := Scalar.indexCast c0_i32_829
  let c0_i32_37 : BitVec 32 := 0#32
  let c1_i32_39 : BitVec 32 := 1#32
  let arg9 : BitVec 32 := Scf.iv c0_i32_37 c1_i32_39 k2_t3
  let v786 : Index := Scalar.indexCast arg9
  let c1_i32_830 : BitVec 32 := 1#32
  let v787 : Index := Scalar.indexCast c1_i32_830
  let c64_831 : Index := 64#32
  ![0, v786.toNat, 1, 64]
def k2_off158 (k2_t3 : Fin k2_t3_loop.trips) : Fin 3 → Nat :=
  let c0_i32_832 : BitVec 32 := 0#32
  let v791 : Index := Scalar.indexCast c0_i32_832
  let c0_i32_37 : BitVec 32 := 0#32
  let c1_i32_39 : BitVec 32 := 1#32
  let arg9 : BitVec 32 := Scf.iv c0_i32_37 c1_i32_39 k2_t3
  let v792 : Index := Scalar.indexCast arg9
  let c208 : Index := 208#32
  ![0, v792.toNat, 208]
def k2_off159 (k2_t3 : Fin k2_t3_loop.trips) : Fin 4 → Nat :=
  let c0_i32_833 : BitVec 32 := 0#32
  let v795 : Index := Scalar.indexCast c0_i32_833
  let c0_i32_37 : BitVec 32 := 0#32
  let c1_i32_39 : BitVec 32 := 1#32
  let arg9 : BitVec 32 := Scf.iv c0_i32_37 c1_i32_39 k2_t3
  let v796 : Index := Scalar.indexCast arg9
  let c1_i32_834 : BitVec 32 := 1#32
  let v797 : Index := Scalar.indexCast c1_i32_834
  let c80_835 : Index := 80#32
  ![0, v796.toNat, 1, 80]
def k2_off160 (k2_t3 : Fin k2_t3_loop.trips) : Fin 3 → Nat :=
  let c0_i32_836 : BitVec 32 := 0#32
  let v801 : Index := Scalar.indexCast c0_i32_836
  let c0_i32_37 : BitVec 32 := 0#32
  let c1_i32_39 : BitVec 32 := 1#32
  let arg9 : BitVec 32 := Scf.iv c0_i32_37 c1_i32_39 k2_t3
  let v802 : Index := Scalar.indexCast arg9
  let c224 : Index := 224#32
  ![0, v802.toNat, 224]
def k2_off161 (k2_t3 : Fin k2_t3_loop.trips) : Fin 4 → Nat :=
  let c0_i32_837 : BitVec 32 := 0#32
  let v805 : Index := Scalar.indexCast c0_i32_837
  let c0_i32_37 : BitVec 32 := 0#32
  let c1_i32_39 : BitVec 32 := 1#32
  let arg9 : BitVec 32 := Scf.iv c0_i32_37 c1_i32_39 k2_t3
  let v806 : Index := Scalar.indexCast arg9
  let c1_i32_838 : BitVec 32 := 1#32
  let v807 : Index := Scalar.indexCast c1_i32_838
  let c96_839 : Index := 96#32
  ![0, v806.toNat, 1, 96]
def k2_off162 (k2_t3 : Fin k2_t3_loop.trips) : Fin 3 → Nat :=
  let c0_i32_840 : BitVec 32 := 0#32
  let v811 : Index := Scalar.indexCast c0_i32_840
  let c0_i32_37 : BitVec 32 := 0#32
  let c1_i32_39 : BitVec 32 := 1#32
  let arg9 : BitVec 32 := Scf.iv c0_i32_37 c1_i32_39 k2_t3
  let v812 : Index := Scalar.indexCast arg9
  let c240 : Index := 240#32
  ![0, v812.toNat, 240]
def k2_off163 (k2_t3 : Fin k2_t3_loop.trips) : Fin 4 → Nat :=
  let c0_i32_841 : BitVec 32 := 0#32
  let v815 : Index := Scalar.indexCast c0_i32_841
  let c0_i32_37 : BitVec 32 := 0#32
  let c1_i32_39 : BitVec 32 := 1#32
  let arg9 : BitVec 32 := Scf.iv c0_i32_37 c1_i32_39 k2_t3
  let v816 : Index := Scalar.indexCast arg9
  let c1_i32_842 : BitVec 32 := 1#32
  let v817 : Index := Scalar.indexCast c1_i32_842
  let c112_843 : Index := 112#32
  ![0, v816.toNat, 1, 112]
def k2_off164 (k2_t3 : Fin k2_t3_loop.trips) : Fin 3 → Nat :=
  let c0_i32_844 : BitVec 32 := 0#32
  let v821 : Index := Scalar.indexCast c0_i32_844
  let c0_i32_37 : BitVec 32 := 0#32
  let c1_i32_39 : BitVec 32 := 1#32
  let arg9 : BitVec 32 := Scf.iv c0_i32_37 c1_i32_39 k2_t3
  let v822 : Index := Scalar.indexCast arg9
  let c256 : Index := 256#32
  ![0, v822.toNat, 256]
def k2_off165 (k2_t3 : Fin k2_t3_loop.trips) : Fin 4 → Nat :=
  let c0_i32_845 : BitVec 32 := 0#32
  let v825 : Index := Scalar.indexCast c0_i32_845
  let c0_i32_37 : BitVec 32 := 0#32
  let c1_i32_39 : BitVec 32 := 1#32
  let arg9 : BitVec 32 := Scf.iv c0_i32_37 c1_i32_39 k2_t3
  let v826 : Index := Scalar.indexCast arg9
  let c2_i32_846 : BitVec 32 := 2#32
  let v827 : Index := Scalar.indexCast c2_i32_846
  let c0_847 : Index := 0#32
  ![0, v826.toNat, 2, 0]
def k2_off166 (k2_t3 : Fin k2_t3_loop.trips) : Fin 3 → Nat :=
  let c0_i32_848 : BitVec 32 := 0#32
  let v831 : Index := Scalar.indexCast c0_i32_848
  let c0_i32_37 : BitVec 32 := 0#32
  let c1_i32_39 : BitVec 32 := 1#32
  let arg9 : BitVec 32 := Scf.iv c0_i32_37 c1_i32_39 k2_t3
  let v832 : Index := Scalar.indexCast arg9
  let c272 : Index := 272#32
  ![0, v832.toNat, 272]
def k2_off167 (k2_t3 : Fin k2_t3_loop.trips) : Fin 4 → Nat :=
  let c0_i32_849 : BitVec 32 := 0#32
  let v835 : Index := Scalar.indexCast c0_i32_849
  let c0_i32_37 : BitVec 32 := 0#32
  let c1_i32_39 : BitVec 32 := 1#32
  let arg9 : BitVec 32 := Scf.iv c0_i32_37 c1_i32_39 k2_t3
  let v836 : Index := Scalar.indexCast arg9
  let c2_i32_850 : BitVec 32 := 2#32
  let v837 : Index := Scalar.indexCast c2_i32_850
  let c16_851 : Index := 16#32
  ![0, v836.toNat, 2, 16]
def k2_off168 (k2_t3 : Fin k2_t3_loop.trips) : Fin 3 → Nat :=
  let c0_i32_852 : BitVec 32 := 0#32
  let v841 : Index := Scalar.indexCast c0_i32_852
  let c0_i32_37 : BitVec 32 := 0#32
  let c1_i32_39 : BitVec 32 := 1#32
  let arg9 : BitVec 32 := Scf.iv c0_i32_37 c1_i32_39 k2_t3
  let v842 : Index := Scalar.indexCast arg9
  let c288 : Index := 288#32
  ![0, v842.toNat, 288]
def k2_off169 (k2_t3 : Fin k2_t3_loop.trips) : Fin 4 → Nat :=
  let c0_i32_853 : BitVec 32 := 0#32
  let v845 : Index := Scalar.indexCast c0_i32_853
  let c0_i32_37 : BitVec 32 := 0#32
  let c1_i32_39 : BitVec 32 := 1#32
  let arg9 : BitVec 32 := Scf.iv c0_i32_37 c1_i32_39 k2_t3
  let v846 : Index := Scalar.indexCast arg9
  let c2_i32_854 : BitVec 32 := 2#32
  let v847 : Index := Scalar.indexCast c2_i32_854
  let c32_855 : Index := 32#32
  ![0, v846.toNat, 2, 32]
def k2_off170 (k2_t3 : Fin k2_t3_loop.trips) : Fin 3 → Nat :=
  let c0_i32_856 : BitVec 32 := 0#32
  let v851 : Index := Scalar.indexCast c0_i32_856
  let c0_i32_37 : BitVec 32 := 0#32
  let c1_i32_39 : BitVec 32 := 1#32
  let arg9 : BitVec 32 := Scf.iv c0_i32_37 c1_i32_39 k2_t3
  let v852 : Index := Scalar.indexCast arg9
  let c304 : Index := 304#32
  ![0, v852.toNat, 304]
def k2_off171 (k2_t3 : Fin k2_t3_loop.trips) : Fin 4 → Nat :=
  let c0_i32_857 : BitVec 32 := 0#32
  let v855 : Index := Scalar.indexCast c0_i32_857
  let c0_i32_37 : BitVec 32 := 0#32
  let c1_i32_39 : BitVec 32 := 1#32
  let arg9 : BitVec 32 := Scf.iv c0_i32_37 c1_i32_39 k2_t3
  let v856 : Index := Scalar.indexCast arg9
  let c2_i32_858 : BitVec 32 := 2#32
  let v857 : Index := Scalar.indexCast c2_i32_858
  let c48_859 : Index := 48#32
  ![0, v856.toNat, 2, 48]
def k2_off172 (k2_t3 : Fin k2_t3_loop.trips) : Fin 3 → Nat :=
  let c0_i32_860 : BitVec 32 := 0#32
  let v861 : Index := Scalar.indexCast c0_i32_860
  let c0_i32_37 : BitVec 32 := 0#32
  let c1_i32_39 : BitVec 32 := 1#32
  let arg9 : BitVec 32 := Scf.iv c0_i32_37 c1_i32_39 k2_t3
  let v862 : Index := Scalar.indexCast arg9
  let c320 : Index := 320#32
  ![0, v862.toNat, 320]
def k2_off173 (k2_t3 : Fin k2_t3_loop.trips) : Fin 4 → Nat :=
  let c0_i32_861 : BitVec 32 := 0#32
  let v865 : Index := Scalar.indexCast c0_i32_861
  let c0_i32_37 : BitVec 32 := 0#32
  let c1_i32_39 : BitVec 32 := 1#32
  let arg9 : BitVec 32 := Scf.iv c0_i32_37 c1_i32_39 k2_t3
  let v866 : Index := Scalar.indexCast arg9
  let c2_i32_862 : BitVec 32 := 2#32
  let v867 : Index := Scalar.indexCast c2_i32_862
  let c64_863 : Index := 64#32
  ![0, v866.toNat, 2, 64]
def k2_off174 (k2_t3 : Fin k2_t3_loop.trips) : Fin 3 → Nat :=
  let c0_i32_864 : BitVec 32 := 0#32
  let v871 : Index := Scalar.indexCast c0_i32_864
  let c0_i32_37 : BitVec 32 := 0#32
  let c1_i32_39 : BitVec 32 := 1#32
  let arg9 : BitVec 32 := Scf.iv c0_i32_37 c1_i32_39 k2_t3
  let v872 : Index := Scalar.indexCast arg9
  let c336 : Index := 336#32
  ![0, v872.toNat, 336]
def k2_off175 (k2_t3 : Fin k2_t3_loop.trips) : Fin 4 → Nat :=
  let c0_i32_865 : BitVec 32 := 0#32
  let v875 : Index := Scalar.indexCast c0_i32_865
  let c0_i32_37 : BitVec 32 := 0#32
  let c1_i32_39 : BitVec 32 := 1#32
  let arg9 : BitVec 32 := Scf.iv c0_i32_37 c1_i32_39 k2_t3
  let v876 : Index := Scalar.indexCast arg9
  let c2_i32_866 : BitVec 32 := 2#32
  let v877 : Index := Scalar.indexCast c2_i32_866
  let c80_867 : Index := 80#32
  ![0, v876.toNat, 2, 80]
def k2_off176 (k2_t3 : Fin k2_t3_loop.trips) : Fin 3 → Nat :=
  let c0_i32_868 : BitVec 32 := 0#32
  let v881 : Index := Scalar.indexCast c0_i32_868
  let c0_i32_37 : BitVec 32 := 0#32
  let c1_i32_39 : BitVec 32 := 1#32
  let arg9 : BitVec 32 := Scf.iv c0_i32_37 c1_i32_39 k2_t3
  let v882 : Index := Scalar.indexCast arg9
  let c352 : Index := 352#32
  ![0, v882.toNat, 352]
def k2_off177 (k2_t3 : Fin k2_t3_loop.trips) : Fin 4 → Nat :=
  let c0_i32_869 : BitVec 32 := 0#32
  let v885 : Index := Scalar.indexCast c0_i32_869
  let c0_i32_37 : BitVec 32 := 0#32
  let c1_i32_39 : BitVec 32 := 1#32
  let arg9 : BitVec 32 := Scf.iv c0_i32_37 c1_i32_39 k2_t3
  let v886 : Index := Scalar.indexCast arg9
  let c2_i32_870 : BitVec 32 := 2#32
  let v887 : Index := Scalar.indexCast c2_i32_870
  let c96_871 : Index := 96#32
  ![0, v886.toNat, 2, 96]
def k2_off178 (k2_t3 : Fin k2_t3_loop.trips) : Fin 3 → Nat :=
  let c0_i32_872 : BitVec 32 := 0#32
  let v891 : Index := Scalar.indexCast c0_i32_872
  let c0_i32_37 : BitVec 32 := 0#32
  let c1_i32_39 : BitVec 32 := 1#32
  let arg9 : BitVec 32 := Scf.iv c0_i32_37 c1_i32_39 k2_t3
  let v892 : Index := Scalar.indexCast arg9
  let c368 : Index := 368#32
  ![0, v892.toNat, 368]
def k2_off179 (k2_t3 : Fin k2_t3_loop.trips) : Fin 4 → Nat :=
  let c0_i32_873 : BitVec 32 := 0#32
  let v895 : Index := Scalar.indexCast c0_i32_873
  let c0_i32_37 : BitVec 32 := 0#32
  let c1_i32_39 : BitVec 32 := 1#32
  let arg9 : BitVec 32 := Scf.iv c0_i32_37 c1_i32_39 k2_t3
  let v896 : Index := Scalar.indexCast arg9
  let c2_i32_874 : BitVec 32 := 2#32
  let v897 : Index := Scalar.indexCast c2_i32_874
  let c112_875 : Index := 112#32
  ![0, v896.toNat, 2, 112]
def k2_off180 (k2_t3 : Fin k2_t3_loop.trips) : Fin 3 → Nat :=
  let c0_i32_876 : BitVec 32 := 0#32
  let v901 : Index := Scalar.indexCast c0_i32_876
  let c0_i32_37 : BitVec 32 := 0#32
  let c1_i32_39 : BitVec 32 := 1#32
  let arg9 : BitVec 32 := Scf.iv c0_i32_37 c1_i32_39 k2_t3
  let v902 : Index := Scalar.indexCast arg9
  let c384 : Index := 384#32
  ![0, v902.toNat, 384]
def k2_off181 (k2_t3 : Fin k2_t3_loop.trips) : Fin 4 → Nat :=
  let c0_i32_877 : BitVec 32 := 0#32
  let v905 : Index := Scalar.indexCast c0_i32_877
  let c0_i32_37 : BitVec 32 := 0#32
  let c1_i32_39 : BitVec 32 := 1#32
  let arg9 : BitVec 32 := Scf.iv c0_i32_37 c1_i32_39 k2_t3
  let v906 : Index := Scalar.indexCast arg9
  let c3_i32_878 : BitVec 32 := 3#32
  let v907 : Index := Scalar.indexCast c3_i32_878
  let c0_879 : Index := 0#32
  ![0, v906.toNat, 3, 0]
def k2_off182 (k2_t3 : Fin k2_t3_loop.trips) : Fin 3 → Nat :=
  let c0_i32_880 : BitVec 32 := 0#32
  let v911 : Index := Scalar.indexCast c0_i32_880
  let c0_i32_37 : BitVec 32 := 0#32
  let c1_i32_39 : BitVec 32 := 1#32
  let arg9 : BitVec 32 := Scf.iv c0_i32_37 c1_i32_39 k2_t3
  let v912 : Index := Scalar.indexCast arg9
  let c400 : Index := 400#32
  ![0, v912.toNat, 400]
def k2_off183 (k2_t3 : Fin k2_t3_loop.trips) : Fin 4 → Nat :=
  let c0_i32_881 : BitVec 32 := 0#32
  let v915 : Index := Scalar.indexCast c0_i32_881
  let c0_i32_37 : BitVec 32 := 0#32
  let c1_i32_39 : BitVec 32 := 1#32
  let arg9 : BitVec 32 := Scf.iv c0_i32_37 c1_i32_39 k2_t3
  let v916 : Index := Scalar.indexCast arg9
  let c3_i32_882 : BitVec 32 := 3#32
  let v917 : Index := Scalar.indexCast c3_i32_882
  let c16_883 : Index := 16#32
  ![0, v916.toNat, 3, 16]
def k2_off184 (k2_t3 : Fin k2_t3_loop.trips) : Fin 3 → Nat :=
  let c0_i32_884 : BitVec 32 := 0#32
  let v921 : Index := Scalar.indexCast c0_i32_884
  let c0_i32_37 : BitVec 32 := 0#32
  let c1_i32_39 : BitVec 32 := 1#32
  let arg9 : BitVec 32 := Scf.iv c0_i32_37 c1_i32_39 k2_t3
  let v922 : Index := Scalar.indexCast arg9
  let c416 : Index := 416#32
  ![0, v922.toNat, 416]
def k2_off185 (k2_t3 : Fin k2_t3_loop.trips) : Fin 4 → Nat :=
  let c0_i32_885 : BitVec 32 := 0#32
  let v925 : Index := Scalar.indexCast c0_i32_885
  let c0_i32_37 : BitVec 32 := 0#32
  let c1_i32_39 : BitVec 32 := 1#32
  let arg9 : BitVec 32 := Scf.iv c0_i32_37 c1_i32_39 k2_t3
  let v926 : Index := Scalar.indexCast arg9
  let c3_i32_886 : BitVec 32 := 3#32
  let v927 : Index := Scalar.indexCast c3_i32_886
  let c32_887 : Index := 32#32
  ![0, v926.toNat, 3, 32]
def k2_off186 (k2_t3 : Fin k2_t3_loop.trips) : Fin 3 → Nat :=
  let c0_i32_888 : BitVec 32 := 0#32
  let v931 : Index := Scalar.indexCast c0_i32_888
  let c0_i32_37 : BitVec 32 := 0#32
  let c1_i32_39 : BitVec 32 := 1#32
  let arg9 : BitVec 32 := Scf.iv c0_i32_37 c1_i32_39 k2_t3
  let v932 : Index := Scalar.indexCast arg9
  let c432 : Index := 432#32
  ![0, v932.toNat, 432]
def k2_off187 (k2_t3 : Fin k2_t3_loop.trips) : Fin 4 → Nat :=
  let c0_i32_889 : BitVec 32 := 0#32
  let v935 : Index := Scalar.indexCast c0_i32_889
  let c0_i32_37 : BitVec 32 := 0#32
  let c1_i32_39 : BitVec 32 := 1#32
  let arg9 : BitVec 32 := Scf.iv c0_i32_37 c1_i32_39 k2_t3
  let v936 : Index := Scalar.indexCast arg9
  let c3_i32_890 : BitVec 32 := 3#32
  let v937 : Index := Scalar.indexCast c3_i32_890
  let c48_891 : Index := 48#32
  ![0, v936.toNat, 3, 48]
def k2_off188 (k2_t3 : Fin k2_t3_loop.trips) : Fin 3 → Nat :=
  let c0_i32_892 : BitVec 32 := 0#32
  let v941 : Index := Scalar.indexCast c0_i32_892
  let c0_i32_37 : BitVec 32 := 0#32
  let c1_i32_39 : BitVec 32 := 1#32
  let arg9 : BitVec 32 := Scf.iv c0_i32_37 c1_i32_39 k2_t3
  let v942 : Index := Scalar.indexCast arg9
  let c448 : Index := 448#32
  ![0, v942.toNat, 448]
def k2_off189 (k2_t3 : Fin k2_t3_loop.trips) : Fin 4 → Nat :=
  let c0_i32_893 : BitVec 32 := 0#32
  let v945 : Index := Scalar.indexCast c0_i32_893
  let c0_i32_37 : BitVec 32 := 0#32
  let c1_i32_39 : BitVec 32 := 1#32
  let arg9 : BitVec 32 := Scf.iv c0_i32_37 c1_i32_39 k2_t3
  let v946 : Index := Scalar.indexCast arg9
  let c3_i32_894 : BitVec 32 := 3#32
  let v947 : Index := Scalar.indexCast c3_i32_894
  let c64_895 : Index := 64#32
  ![0, v946.toNat, 3, 64]
def k2_off190 (k2_t3 : Fin k2_t3_loop.trips) : Fin 3 → Nat :=
  let c0_i32_896 : BitVec 32 := 0#32
  let v951 : Index := Scalar.indexCast c0_i32_896
  let c0_i32_37 : BitVec 32 := 0#32
  let c1_i32_39 : BitVec 32 := 1#32
  let arg9 : BitVec 32 := Scf.iv c0_i32_37 c1_i32_39 k2_t3
  let v952 : Index := Scalar.indexCast arg9
  let c464 : Index := 464#32
  ![0, v952.toNat, 464]
def k2_off191 (k2_t3 : Fin k2_t3_loop.trips) : Fin 4 → Nat :=
  let c0_i32_897 : BitVec 32 := 0#32
  let v955 : Index := Scalar.indexCast c0_i32_897
  let c0_i32_37 : BitVec 32 := 0#32
  let c1_i32_39 : BitVec 32 := 1#32
  let arg9 : BitVec 32 := Scf.iv c0_i32_37 c1_i32_39 k2_t3
  let v956 : Index := Scalar.indexCast arg9
  let c3_i32_898 : BitVec 32 := 3#32
  let v957 : Index := Scalar.indexCast c3_i32_898
  let c80_899 : Index := 80#32
  ![0, v956.toNat, 3, 80]
def k2_off192 (k2_t3 : Fin k2_t3_loop.trips) : Fin 3 → Nat :=
  let c0_i32_900 : BitVec 32 := 0#32
  let v961 : Index := Scalar.indexCast c0_i32_900
  let c0_i32_37 : BitVec 32 := 0#32
  let c1_i32_39 : BitVec 32 := 1#32
  let arg9 : BitVec 32 := Scf.iv c0_i32_37 c1_i32_39 k2_t3
  let v962 : Index := Scalar.indexCast arg9
  let c480 : Index := 480#32
  ![0, v962.toNat, 480]
def k2_off193 (k2_t3 : Fin k2_t3_loop.trips) : Fin 4 → Nat :=
  let c0_i32_901 : BitVec 32 := 0#32
  let v965 : Index := Scalar.indexCast c0_i32_901
  let c0_i32_37 : BitVec 32 := 0#32
  let c1_i32_39 : BitVec 32 := 1#32
  let arg9 : BitVec 32 := Scf.iv c0_i32_37 c1_i32_39 k2_t3
  let v966 : Index := Scalar.indexCast arg9
  let c3_i32_902 : BitVec 32 := 3#32
  let v967 : Index := Scalar.indexCast c3_i32_902
  let c96_903 : Index := 96#32
  ![0, v966.toNat, 3, 96]
def k2_off194 (k2_t3 : Fin k2_t3_loop.trips) : Fin 3 → Nat :=
  let c0_i32_904 : BitVec 32 := 0#32
  let v971 : Index := Scalar.indexCast c0_i32_904
  let c0_i32_37 : BitVec 32 := 0#32
  let c1_i32_39 : BitVec 32 := 1#32
  let arg9 : BitVec 32 := Scf.iv c0_i32_37 c1_i32_39 k2_t3
  let v972 : Index := Scalar.indexCast arg9
  let c496 : Index := 496#32
  ![0, v972.toNat, 496]
def k2_off195 (k2_t3 : Fin k2_t3_loop.trips) : Fin 4 → Nat :=
  let c0_i32_905 : BitVec 32 := 0#32
  let v975 : Index := Scalar.indexCast c0_i32_905
  let c0_i32_37 : BitVec 32 := 0#32
  let c1_i32_39 : BitVec 32 := 1#32
  let arg9 : BitVec 32 := Scf.iv c0_i32_37 c1_i32_39 k2_t3
  let v976 : Index := Scalar.indexCast arg9
  let c3_i32_906 : BitVec 32 := 3#32
  let v977 : Index := Scalar.indexCast c3_i32_906
  let c112_907 : Index := 112#32
  ![0, v976.toNat, 3, 112]
def k2_off196 (i : grid2.Coords) : Fin 4 → Nat :=
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_47 : BitVec 32 := 0#32
  let c0_i32_48 : BitVec 32 := 0#32
  ![0, v2.toNat, 0, 0]
def k2_off197 (i : grid2.Coords) : Fin 3 → Nat :=
  let c2_i32_63 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_68 : BitVec 32 := 0#32
  ![2, v2.toNat, 0]
@[reducible] def k2_t4_loop : Scf.Loop 32 :=
  let c0_i32_73 : BitVec 32 := 0#32
  let c32_i32_74 : BitVec 32 := 32#32
  let v66 : BitVec 32 := Scalar.addi c0_i32_73 c32_i32_74
  let c1_i32_75 : BitVec 32 := 1#32
  ⟨c0_i32_73, v66, c1_i32_75⟩
def k2_off198 (k2_t4 : Fin k2_t4_loop.trips) : Fin 3 → Nat :=
  let c1_i32_780 : BitVec 32 := 1#32
  let v661 : Index := Scalar.indexCast c1_i32_780
  let c0_i32_73 : BitVec 32 := 0#32
  let c1_i32_75 : BitVec 32 := 1#32
  let arg9 : BitVec 32 := Scf.iv c0_i32_73 c1_i32_75 k2_t4
  let v662 : Index := Scalar.indexCast arg9
  let c0 : Index := 0#32
  ![1, v662.toNat, 0]
def k2_off199 (k2_t4 : Fin k2_t4_loop.trips) : Fin 4 → Nat :=
  let c1_i32_781 : BitVec 32 := 1#32
  let v665 : Index := Scalar.indexCast c1_i32_781
  let c0_i32_73 : BitVec 32 := 0#32
  let c1_i32_75 : BitVec 32 := 1#32
  let arg9 : BitVec 32 := Scf.iv c0_i32_73 c1_i32_75 k2_t4
  let v666 : Index := Scalar.indexCast arg9
  let c0_i32_782 : BitVec 32 := 0#32
  let v667 : Index := Scalar.indexCast c0_i32_782
  let c0_783 : Index := 0#32
  ![1, v666.toNat, 0, 0]
def k2_off200 (k2_t4 : Fin k2_t4_loop.trips) : Fin 3 → Nat :=
  let c1_i32_784 : BitVec 32 := 1#32
  let v671 : Index := Scalar.indexCast c1_i32_784
  let c0_i32_73 : BitVec 32 := 0#32
  let c1_i32_75 : BitVec 32 := 1#32
  let arg9 : BitVec 32 := Scf.iv c0_i32_73 c1_i32_75 k2_t4
  let v672 : Index := Scalar.indexCast arg9
  let c16 : Index := 16#32
  ![1, v672.toNat, 16]
def k2_off201 (k2_t4 : Fin k2_t4_loop.trips) : Fin 4 → Nat :=
  let c1_i32_785 : BitVec 32 := 1#32
  let v675 : Index := Scalar.indexCast c1_i32_785
  let c0_i32_73 : BitVec 32 := 0#32
  let c1_i32_75 : BitVec 32 := 1#32
  let arg9 : BitVec 32 := Scf.iv c0_i32_73 c1_i32_75 k2_t4
  let v676 : Index := Scalar.indexCast arg9
  let c0_i32_786 : BitVec 32 := 0#32
  let v677 : Index := Scalar.indexCast c0_i32_786
  let c16_787 : Index := 16#32
  ![1, v676.toNat, 0, 16]
def k2_off202 (k2_t4 : Fin k2_t4_loop.trips) : Fin 3 → Nat :=
  let c1_i32_788 : BitVec 32 := 1#32
  let v681 : Index := Scalar.indexCast c1_i32_788
  let c0_i32_73 : BitVec 32 := 0#32
  let c1_i32_75 : BitVec 32 := 1#32
  let arg9 : BitVec 32 := Scf.iv c0_i32_73 c1_i32_75 k2_t4
  let v682 : Index := Scalar.indexCast arg9
  let c32 : Index := 32#32
  ![1, v682.toNat, 32]
def k2_off203 (k2_t4 : Fin k2_t4_loop.trips) : Fin 4 → Nat :=
  let c1_i32_789 : BitVec 32 := 1#32
  let v685 : Index := Scalar.indexCast c1_i32_789
  let c0_i32_73 : BitVec 32 := 0#32
  let c1_i32_75 : BitVec 32 := 1#32
  let arg9 : BitVec 32 := Scf.iv c0_i32_73 c1_i32_75 k2_t4
  let v686 : Index := Scalar.indexCast arg9
  let c0_i32_790 : BitVec 32 := 0#32
  let v687 : Index := Scalar.indexCast c0_i32_790
  let c32_791 : Index := 32#32
  ![1, v686.toNat, 0, 32]
def k2_off204 (k2_t4 : Fin k2_t4_loop.trips) : Fin 3 → Nat :=
  let c1_i32_792 : BitVec 32 := 1#32
  let v691 : Index := Scalar.indexCast c1_i32_792
  let c0_i32_73 : BitVec 32 := 0#32
  let c1_i32_75 : BitVec 32 := 1#32
  let arg9 : BitVec 32 := Scf.iv c0_i32_73 c1_i32_75 k2_t4
  let v692 : Index := Scalar.indexCast arg9
  let c48 : Index := 48#32
  ![1, v692.toNat, 48]
def k2_off205 (k2_t4 : Fin k2_t4_loop.trips) : Fin 4 → Nat :=
  let c1_i32_793 : BitVec 32 := 1#32
  let v695 : Index := Scalar.indexCast c1_i32_793
  let c0_i32_73 : BitVec 32 := 0#32
  let c1_i32_75 : BitVec 32 := 1#32
  let arg9 : BitVec 32 := Scf.iv c0_i32_73 c1_i32_75 k2_t4
  let v696 : Index := Scalar.indexCast arg9
  let c0_i32_794 : BitVec 32 := 0#32
  let v697 : Index := Scalar.indexCast c0_i32_794
  let c48_795 : Index := 48#32
  ![1, v696.toNat, 0, 48]
def k2_off206 (k2_t4 : Fin k2_t4_loop.trips) : Fin 3 → Nat :=
  let c1_i32_796 : BitVec 32 := 1#32
  let v701 : Index := Scalar.indexCast c1_i32_796
  let c0_i32_73 : BitVec 32 := 0#32
  let c1_i32_75 : BitVec 32 := 1#32
  let arg9 : BitVec 32 := Scf.iv c0_i32_73 c1_i32_75 k2_t4
  let v702 : Index := Scalar.indexCast arg9
  let c64 : Index := 64#32
  ![1, v702.toNat, 64]
def k2_off207 (k2_t4 : Fin k2_t4_loop.trips) : Fin 4 → Nat :=
  let c1_i32_797 : BitVec 32 := 1#32
  let v705 : Index := Scalar.indexCast c1_i32_797
  let c0_i32_73 : BitVec 32 := 0#32
  let c1_i32_75 : BitVec 32 := 1#32
  let arg9 : BitVec 32 := Scf.iv c0_i32_73 c1_i32_75 k2_t4
  let v706 : Index := Scalar.indexCast arg9
  let c0_i32_798 : BitVec 32 := 0#32
  let v707 : Index := Scalar.indexCast c0_i32_798
  let c64_799 : Index := 64#32
  ![1, v706.toNat, 0, 64]
def k2_off208 (k2_t4 : Fin k2_t4_loop.trips) : Fin 3 → Nat :=
  let c1_i32_800 : BitVec 32 := 1#32
  let v711 : Index := Scalar.indexCast c1_i32_800
  let c0_i32_73 : BitVec 32 := 0#32
  let c1_i32_75 : BitVec 32 := 1#32
  let arg9 : BitVec 32 := Scf.iv c0_i32_73 c1_i32_75 k2_t4
  let v712 : Index := Scalar.indexCast arg9
  let c80 : Index := 80#32
  ![1, v712.toNat, 80]
def k2_off209 (k2_t4 : Fin k2_t4_loop.trips) : Fin 4 → Nat :=
  let c1_i32_801 : BitVec 32 := 1#32
  let v715 : Index := Scalar.indexCast c1_i32_801
  let c0_i32_73 : BitVec 32 := 0#32
  let c1_i32_75 : BitVec 32 := 1#32
  let arg9 : BitVec 32 := Scf.iv c0_i32_73 c1_i32_75 k2_t4
  let v716 : Index := Scalar.indexCast arg9
  let c0_i32_802 : BitVec 32 := 0#32
  let v717 : Index := Scalar.indexCast c0_i32_802
  let c80_803 : Index := 80#32
  ![1, v716.toNat, 0, 80]
def k2_off210 (k2_t4 : Fin k2_t4_loop.trips) : Fin 3 → Nat :=
  let c1_i32_804 : BitVec 32 := 1#32
  let v721 : Index := Scalar.indexCast c1_i32_804
  let c0_i32_73 : BitVec 32 := 0#32
  let c1_i32_75 : BitVec 32 := 1#32
  let arg9 : BitVec 32 := Scf.iv c0_i32_73 c1_i32_75 k2_t4
  let v722 : Index := Scalar.indexCast arg9
  let c96 : Index := 96#32
  ![1, v722.toNat, 96]
def k2_off211 (k2_t4 : Fin k2_t4_loop.trips) : Fin 4 → Nat :=
  let c1_i32_805 : BitVec 32 := 1#32
  let v725 : Index := Scalar.indexCast c1_i32_805
  let c0_i32_73 : BitVec 32 := 0#32
  let c1_i32_75 : BitVec 32 := 1#32
  let arg9 : BitVec 32 := Scf.iv c0_i32_73 c1_i32_75 k2_t4
  let v726 : Index := Scalar.indexCast arg9
  let c0_i32_806 : BitVec 32 := 0#32
  let v727 : Index := Scalar.indexCast c0_i32_806
  let c96_807 : Index := 96#32
  ![1, v726.toNat, 0, 96]
def k2_off212 (k2_t4 : Fin k2_t4_loop.trips) : Fin 3 → Nat :=
  let c1_i32_808 : BitVec 32 := 1#32
  let v731 : Index := Scalar.indexCast c1_i32_808
  let c0_i32_73 : BitVec 32 := 0#32
  let c1_i32_75 : BitVec 32 := 1#32
  let arg9 : BitVec 32 := Scf.iv c0_i32_73 c1_i32_75 k2_t4
  let v732 : Index := Scalar.indexCast arg9
  let c112 : Index := 112#32
  ![1, v732.toNat, 112]
def k2_off213 (k2_t4 : Fin k2_t4_loop.trips) : Fin 4 → Nat :=
  let c1_i32_809 : BitVec 32 := 1#32
  let v735 : Index := Scalar.indexCast c1_i32_809
  let c0_i32_73 : BitVec 32 := 0#32
  let c1_i32_75 : BitVec 32 := 1#32
  let arg9 : BitVec 32 := Scf.iv c0_i32_73 c1_i32_75 k2_t4
  let v736 : Index := Scalar.indexCast arg9
  let c0_i32_810 : BitVec 32 := 0#32
  let v737 : Index := Scalar.indexCast c0_i32_810
  let c112_811 : Index := 112#32
  ![1, v736.toNat, 0, 112]
def k2_off214 (k2_t4 : Fin k2_t4_loop.trips) : Fin 3 → Nat :=
  let c1_i32_812 : BitVec 32 := 1#32
  let v741 : Index := Scalar.indexCast c1_i32_812
  let c0_i32_73 : BitVec 32 := 0#32
  let c1_i32_75 : BitVec 32 := 1#32
  let arg9 : BitVec 32 := Scf.iv c0_i32_73 c1_i32_75 k2_t4
  let v742 : Index := Scalar.indexCast arg9
  let c128 : Index := 128#32
  ![1, v742.toNat, 128]
def k2_off215 (k2_t4 : Fin k2_t4_loop.trips) : Fin 4 → Nat :=
  let c1_i32_813 : BitVec 32 := 1#32
  let v745 : Index := Scalar.indexCast c1_i32_813
  let c0_i32_73 : BitVec 32 := 0#32
  let c1_i32_75 : BitVec 32 := 1#32
  let arg9 : BitVec 32 := Scf.iv c0_i32_73 c1_i32_75 k2_t4
  let v746 : Index := Scalar.indexCast arg9
  let c1_i32_814 : BitVec 32 := 1#32
  let v747 : Index := Scalar.indexCast c1_i32_814
  let c0_815 : Index := 0#32
  ![1, v746.toNat, 1, 0]
def k2_off216 (k2_t4 : Fin k2_t4_loop.trips) : Fin 3 → Nat :=
  let c1_i32_816 : BitVec 32 := 1#32
  let v751 : Index := Scalar.indexCast c1_i32_816
  let c0_i32_73 : BitVec 32 := 0#32
  let c1_i32_75 : BitVec 32 := 1#32
  let arg9 : BitVec 32 := Scf.iv c0_i32_73 c1_i32_75 k2_t4
  let v752 : Index := Scalar.indexCast arg9
  let c144 : Index := 144#32
  ![1, v752.toNat, 144]
def k2_off217 (k2_t4 : Fin k2_t4_loop.trips) : Fin 4 → Nat :=
  let c1_i32_817 : BitVec 32 := 1#32
  let v755 : Index := Scalar.indexCast c1_i32_817
  let c0_i32_73 : BitVec 32 := 0#32
  let c1_i32_75 : BitVec 32 := 1#32
  let arg9 : BitVec 32 := Scf.iv c0_i32_73 c1_i32_75 k2_t4
  let v756 : Index := Scalar.indexCast arg9
  let c1_i32_818 : BitVec 32 := 1#32
  let v757 : Index := Scalar.indexCast c1_i32_818
  let c16_819 : Index := 16#32
  ![1, v756.toNat, 1, 16]
def k2_off218 (k2_t4 : Fin k2_t4_loop.trips) : Fin 3 → Nat :=
  let c1_i32_820 : BitVec 32 := 1#32
  let v761 : Index := Scalar.indexCast c1_i32_820
  let c0_i32_73 : BitVec 32 := 0#32
  let c1_i32_75 : BitVec 32 := 1#32
  let arg9 : BitVec 32 := Scf.iv c0_i32_73 c1_i32_75 k2_t4
  let v762 : Index := Scalar.indexCast arg9
  let c160 : Index := 160#32
  ![1, v762.toNat, 160]
def k2_off219 (k2_t4 : Fin k2_t4_loop.trips) : Fin 4 → Nat :=
  let c1_i32_821 : BitVec 32 := 1#32
  let v765 : Index := Scalar.indexCast c1_i32_821
  let c0_i32_73 : BitVec 32 := 0#32
  let c1_i32_75 : BitVec 32 := 1#32
  let arg9 : BitVec 32 := Scf.iv c0_i32_73 c1_i32_75 k2_t4
  let v766 : Index := Scalar.indexCast arg9
  let c1_i32_822 : BitVec 32 := 1#32
  let v767 : Index := Scalar.indexCast c1_i32_822
  let c32_823 : Index := 32#32
  ![1, v766.toNat, 1, 32]
def k2_off220 (k2_t4 : Fin k2_t4_loop.trips) : Fin 3 → Nat :=
  let c1_i32_824 : BitVec 32 := 1#32
  let v771 : Index := Scalar.indexCast c1_i32_824
  let c0_i32_73 : BitVec 32 := 0#32
  let c1_i32_75 : BitVec 32 := 1#32
  let arg9 : BitVec 32 := Scf.iv c0_i32_73 c1_i32_75 k2_t4
  let v772 : Index := Scalar.indexCast arg9
  let c176 : Index := 176#32
  ![1, v772.toNat, 176]
def k2_off221 (k2_t4 : Fin k2_t4_loop.trips) : Fin 4 → Nat :=
  let c1_i32_825 : BitVec 32 := 1#32
  let v775 : Index := Scalar.indexCast c1_i32_825
  let c0_i32_73 : BitVec 32 := 0#32
  let c1_i32_75 : BitVec 32 := 1#32
  let arg9 : BitVec 32 := Scf.iv c0_i32_73 c1_i32_75 k2_t4
  let v776 : Index := Scalar.indexCast arg9
  let c1_i32_826 : BitVec 32 := 1#32
  let v777 : Index := Scalar.indexCast c1_i32_826
  let c48_827 : Index := 48#32
  ![1, v776.toNat, 1, 48]
def k2_off222 (k2_t4 : Fin k2_t4_loop.trips) : Fin 3 → Nat :=
  let c1_i32_828 : BitVec 32 := 1#32
  let v781 : Index := Scalar.indexCast c1_i32_828
  let c0_i32_73 : BitVec 32 := 0#32
  let c1_i32_75 : BitVec 32 := 1#32
  let arg9 : BitVec 32 := Scf.iv c0_i32_73 c1_i32_75 k2_t4
  let v782 : Index := Scalar.indexCast arg9
  let c192 : Index := 192#32
  ![1, v782.toNat, 192]
def k2_off223 (k2_t4 : Fin k2_t4_loop.trips) : Fin 4 → Nat :=
  let c1_i32_829 : BitVec 32 := 1#32
  let v785 : Index := Scalar.indexCast c1_i32_829
  let c0_i32_73 : BitVec 32 := 0#32
  let c1_i32_75 : BitVec 32 := 1#32
  let arg9 : BitVec 32 := Scf.iv c0_i32_73 c1_i32_75 k2_t4
  let v786 : Index := Scalar.indexCast arg9
  let c1_i32_830 : BitVec 32 := 1#32
  let v787 : Index := Scalar.indexCast c1_i32_830
  let c64_831 : Index := 64#32
  ![1, v786.toNat, 1, 64]
def k2_off224 (k2_t4 : Fin k2_t4_loop.trips) : Fin 3 → Nat :=
  let c1_i32_832 : BitVec 32 := 1#32
  let v791 : Index := Scalar.indexCast c1_i32_832
  let c0_i32_73 : BitVec 32 := 0#32
  let c1_i32_75 : BitVec 32 := 1#32
  let arg9 : BitVec 32 := Scf.iv c0_i32_73 c1_i32_75 k2_t4
  let v792 : Index := Scalar.indexCast arg9
  let c208 : Index := 208#32
  ![1, v792.toNat, 208]
def k2_off225 (k2_t4 : Fin k2_t4_loop.trips) : Fin 4 → Nat :=
  let c1_i32_833 : BitVec 32 := 1#32
  let v795 : Index := Scalar.indexCast c1_i32_833
  let c0_i32_73 : BitVec 32 := 0#32
  let c1_i32_75 : BitVec 32 := 1#32
  let arg9 : BitVec 32 := Scf.iv c0_i32_73 c1_i32_75 k2_t4
  let v796 : Index := Scalar.indexCast arg9
  let c1_i32_834 : BitVec 32 := 1#32
  let v797 : Index := Scalar.indexCast c1_i32_834
  let c80_835 : Index := 80#32
  ![1, v796.toNat, 1, 80]
def k2_off226 (k2_t4 : Fin k2_t4_loop.trips) : Fin 3 → Nat :=
  let c1_i32_836 : BitVec 32 := 1#32
  let v801 : Index := Scalar.indexCast c1_i32_836
  let c0_i32_73 : BitVec 32 := 0#32
  let c1_i32_75 : BitVec 32 := 1#32
  let arg9 : BitVec 32 := Scf.iv c0_i32_73 c1_i32_75 k2_t4
  let v802 : Index := Scalar.indexCast arg9
  let c224 : Index := 224#32
  ![1, v802.toNat, 224]
def k2_off227 (k2_t4 : Fin k2_t4_loop.trips) : Fin 4 → Nat :=
  let c1_i32_837 : BitVec 32 := 1#32
  let v805 : Index := Scalar.indexCast c1_i32_837
  let c0_i32_73 : BitVec 32 := 0#32
  let c1_i32_75 : BitVec 32 := 1#32
  let arg9 : BitVec 32 := Scf.iv c0_i32_73 c1_i32_75 k2_t4
  let v806 : Index := Scalar.indexCast arg9
  let c1_i32_838 : BitVec 32 := 1#32
  let v807 : Index := Scalar.indexCast c1_i32_838
  let c96_839 : Index := 96#32
  ![1, v806.toNat, 1, 96]
def k2_off228 (k2_t4 : Fin k2_t4_loop.trips) : Fin 3 → Nat :=
  let c1_i32_840 : BitVec 32 := 1#32
  let v811 : Index := Scalar.indexCast c1_i32_840
  let c0_i32_73 : BitVec 32 := 0#32
  let c1_i32_75 : BitVec 32 := 1#32
  let arg9 : BitVec 32 := Scf.iv c0_i32_73 c1_i32_75 k2_t4
  let v812 : Index := Scalar.indexCast arg9
  let c240 : Index := 240#32
  ![1, v812.toNat, 240]
def k2_off229 (k2_t4 : Fin k2_t4_loop.trips) : Fin 4 → Nat :=
  let c1_i32_841 : BitVec 32 := 1#32
  let v815 : Index := Scalar.indexCast c1_i32_841
  let c0_i32_73 : BitVec 32 := 0#32
  let c1_i32_75 : BitVec 32 := 1#32
  let arg9 : BitVec 32 := Scf.iv c0_i32_73 c1_i32_75 k2_t4
  let v816 : Index := Scalar.indexCast arg9
  let c1_i32_842 : BitVec 32 := 1#32
  let v817 : Index := Scalar.indexCast c1_i32_842
  let c112_843 : Index := 112#32
  ![1, v816.toNat, 1, 112]
def k2_off230 (k2_t4 : Fin k2_t4_loop.trips) : Fin 3 → Nat :=
  let c1_i32_844 : BitVec 32 := 1#32
  let v821 : Index := Scalar.indexCast c1_i32_844
  let c0_i32_73 : BitVec 32 := 0#32
  let c1_i32_75 : BitVec 32 := 1#32
  let arg9 : BitVec 32 := Scf.iv c0_i32_73 c1_i32_75 k2_t4
  let v822 : Index := Scalar.indexCast arg9
  let c256 : Index := 256#32
  ![1, v822.toNat, 256]
def k2_off231 (k2_t4 : Fin k2_t4_loop.trips) : Fin 4 → Nat :=
  let c1_i32_845 : BitVec 32 := 1#32
  let v825 : Index := Scalar.indexCast c1_i32_845
  let c0_i32_73 : BitVec 32 := 0#32
  let c1_i32_75 : BitVec 32 := 1#32
  let arg9 : BitVec 32 := Scf.iv c0_i32_73 c1_i32_75 k2_t4
  let v826 : Index := Scalar.indexCast arg9
  let c2_i32_846 : BitVec 32 := 2#32
  let v827 : Index := Scalar.indexCast c2_i32_846
  let c0_847 : Index := 0#32
  ![1, v826.toNat, 2, 0]
def k2_off232 (k2_t4 : Fin k2_t4_loop.trips) : Fin 3 → Nat :=
  let c1_i32_848 : BitVec 32 := 1#32
  let v831 : Index := Scalar.indexCast c1_i32_848
  let c0_i32_73 : BitVec 32 := 0#32
  let c1_i32_75 : BitVec 32 := 1#32
  let arg9 : BitVec 32 := Scf.iv c0_i32_73 c1_i32_75 k2_t4
  let v832 : Index := Scalar.indexCast arg9
  let c272 : Index := 272#32
  ![1, v832.toNat, 272]
def k2_off233 (k2_t4 : Fin k2_t4_loop.trips) : Fin 4 → Nat :=
  let c1_i32_849 : BitVec 32 := 1#32
  let v835 : Index := Scalar.indexCast c1_i32_849
  let c0_i32_73 : BitVec 32 := 0#32
  let c1_i32_75 : BitVec 32 := 1#32
  let arg9 : BitVec 32 := Scf.iv c0_i32_73 c1_i32_75 k2_t4
  let v836 : Index := Scalar.indexCast arg9
  let c2_i32_850 : BitVec 32 := 2#32
  let v837 : Index := Scalar.indexCast c2_i32_850
  let c16_851 : Index := 16#32
  ![1, v836.toNat, 2, 16]
def k2_off234 (k2_t4 : Fin k2_t4_loop.trips) : Fin 3 → Nat :=
  let c1_i32_852 : BitVec 32 := 1#32
  let v841 : Index := Scalar.indexCast c1_i32_852
  let c0_i32_73 : BitVec 32 := 0#32
  let c1_i32_75 : BitVec 32 := 1#32
  let arg9 : BitVec 32 := Scf.iv c0_i32_73 c1_i32_75 k2_t4
  let v842 : Index := Scalar.indexCast arg9
  let c288 : Index := 288#32
  ![1, v842.toNat, 288]
def k2_off235 (k2_t4 : Fin k2_t4_loop.trips) : Fin 4 → Nat :=
  let c1_i32_853 : BitVec 32 := 1#32
  let v845 : Index := Scalar.indexCast c1_i32_853
  let c0_i32_73 : BitVec 32 := 0#32
  let c1_i32_75 : BitVec 32 := 1#32
  let arg9 : BitVec 32 := Scf.iv c0_i32_73 c1_i32_75 k2_t4
  let v846 : Index := Scalar.indexCast arg9
  let c2_i32_854 : BitVec 32 := 2#32
  let v847 : Index := Scalar.indexCast c2_i32_854
  let c32_855 : Index := 32#32
  ![1, v846.toNat, 2, 32]
def k2_off236 (k2_t4 : Fin k2_t4_loop.trips) : Fin 3 → Nat :=
  let c1_i32_856 : BitVec 32 := 1#32
  let v851 : Index := Scalar.indexCast c1_i32_856
  let c0_i32_73 : BitVec 32 := 0#32
  let c1_i32_75 : BitVec 32 := 1#32
  let arg9 : BitVec 32 := Scf.iv c0_i32_73 c1_i32_75 k2_t4
  let v852 : Index := Scalar.indexCast arg9
  let c304 : Index := 304#32
  ![1, v852.toNat, 304]
def k2_off237 (k2_t4 : Fin k2_t4_loop.trips) : Fin 4 → Nat :=
  let c1_i32_857 : BitVec 32 := 1#32
  let v855 : Index := Scalar.indexCast c1_i32_857
  let c0_i32_73 : BitVec 32 := 0#32
  let c1_i32_75 : BitVec 32 := 1#32
  let arg9 : BitVec 32 := Scf.iv c0_i32_73 c1_i32_75 k2_t4
  let v856 : Index := Scalar.indexCast arg9
  let c2_i32_858 : BitVec 32 := 2#32
  let v857 : Index := Scalar.indexCast c2_i32_858
  let c48_859 : Index := 48#32
  ![1, v856.toNat, 2, 48]
def k2_off238 (k2_t4 : Fin k2_t4_loop.trips) : Fin 3 → Nat :=
  let c1_i32_860 : BitVec 32 := 1#32
  let v861 : Index := Scalar.indexCast c1_i32_860
  let c0_i32_73 : BitVec 32 := 0#32
  let c1_i32_75 : BitVec 32 := 1#32
  let arg9 : BitVec 32 := Scf.iv c0_i32_73 c1_i32_75 k2_t4
  let v862 : Index := Scalar.indexCast arg9
  let c320 : Index := 320#32
  ![1, v862.toNat, 320]
def k2_off239 (k2_t4 : Fin k2_t4_loop.trips) : Fin 4 → Nat :=
  let c1_i32_861 : BitVec 32 := 1#32
  let v865 : Index := Scalar.indexCast c1_i32_861
  let c0_i32_73 : BitVec 32 := 0#32
  let c1_i32_75 : BitVec 32 := 1#32
  let arg9 : BitVec 32 := Scf.iv c0_i32_73 c1_i32_75 k2_t4
  let v866 : Index := Scalar.indexCast arg9
  let c2_i32_862 : BitVec 32 := 2#32
  let v867 : Index := Scalar.indexCast c2_i32_862
  let c64_863 : Index := 64#32
  ![1, v866.toNat, 2, 64]
def k2_off240 (k2_t4 : Fin k2_t4_loop.trips) : Fin 3 → Nat :=
  let c1_i32_864 : BitVec 32 := 1#32
  let v871 : Index := Scalar.indexCast c1_i32_864
  let c0_i32_73 : BitVec 32 := 0#32
  let c1_i32_75 : BitVec 32 := 1#32
  let arg9 : BitVec 32 := Scf.iv c0_i32_73 c1_i32_75 k2_t4
  let v872 : Index := Scalar.indexCast arg9
  let c336 : Index := 336#32
  ![1, v872.toNat, 336]
def k2_off241 (k2_t4 : Fin k2_t4_loop.trips) : Fin 4 → Nat :=
  let c1_i32_865 : BitVec 32 := 1#32
  let v875 : Index := Scalar.indexCast c1_i32_865
  let c0_i32_73 : BitVec 32 := 0#32
  let c1_i32_75 : BitVec 32 := 1#32
  let arg9 : BitVec 32 := Scf.iv c0_i32_73 c1_i32_75 k2_t4
  let v876 : Index := Scalar.indexCast arg9
  let c2_i32_866 : BitVec 32 := 2#32
  let v877 : Index := Scalar.indexCast c2_i32_866
  let c80_867 : Index := 80#32
  ![1, v876.toNat, 2, 80]
def k2_off242 (k2_t4 : Fin k2_t4_loop.trips) : Fin 3 → Nat :=
  let c1_i32_868 : BitVec 32 := 1#32
  let v881 : Index := Scalar.indexCast c1_i32_868
  let c0_i32_73 : BitVec 32 := 0#32
  let c1_i32_75 : BitVec 32 := 1#32
  let arg9 : BitVec 32 := Scf.iv c0_i32_73 c1_i32_75 k2_t4
  let v882 : Index := Scalar.indexCast arg9
  let c352 : Index := 352#32
  ![1, v882.toNat, 352]
def k2_off243 (k2_t4 : Fin k2_t4_loop.trips) : Fin 4 → Nat :=
  let c1_i32_869 : BitVec 32 := 1#32
  let v885 : Index := Scalar.indexCast c1_i32_869
  let c0_i32_73 : BitVec 32 := 0#32
  let c1_i32_75 : BitVec 32 := 1#32
  let arg9 : BitVec 32 := Scf.iv c0_i32_73 c1_i32_75 k2_t4
  let v886 : Index := Scalar.indexCast arg9
  let c2_i32_870 : BitVec 32 := 2#32
  let v887 : Index := Scalar.indexCast c2_i32_870
  let c96_871 : Index := 96#32
  ![1, v886.toNat, 2, 96]
def k2_off244 (k2_t4 : Fin k2_t4_loop.trips) : Fin 3 → Nat :=
  let c1_i32_872 : BitVec 32 := 1#32
  let v891 : Index := Scalar.indexCast c1_i32_872
  let c0_i32_73 : BitVec 32 := 0#32
  let c1_i32_75 : BitVec 32 := 1#32
  let arg9 : BitVec 32 := Scf.iv c0_i32_73 c1_i32_75 k2_t4
  let v892 : Index := Scalar.indexCast arg9
  let c368 : Index := 368#32
  ![1, v892.toNat, 368]
def k2_off245 (k2_t4 : Fin k2_t4_loop.trips) : Fin 4 → Nat :=
  let c1_i32_873 : BitVec 32 := 1#32
  let v895 : Index := Scalar.indexCast c1_i32_873
  let c0_i32_73 : BitVec 32 := 0#32
  let c1_i32_75 : BitVec 32 := 1#32
  let arg9 : BitVec 32 := Scf.iv c0_i32_73 c1_i32_75 k2_t4
  let v896 : Index := Scalar.indexCast arg9
  let c2_i32_874 : BitVec 32 := 2#32
  let v897 : Index := Scalar.indexCast c2_i32_874
  let c112_875 : Index := 112#32
  ![1, v896.toNat, 2, 112]
def k2_off246 (k2_t4 : Fin k2_t4_loop.trips) : Fin 3 → Nat :=
  let c1_i32_876 : BitVec 32 := 1#32
  let v901 : Index := Scalar.indexCast c1_i32_876
  let c0_i32_73 : BitVec 32 := 0#32
  let c1_i32_75 : BitVec 32 := 1#32
  let arg9 : BitVec 32 := Scf.iv c0_i32_73 c1_i32_75 k2_t4
  let v902 : Index := Scalar.indexCast arg9
  let c384 : Index := 384#32
  ![1, v902.toNat, 384]
def k2_off247 (k2_t4 : Fin k2_t4_loop.trips) : Fin 4 → Nat :=
  let c1_i32_877 : BitVec 32 := 1#32
  let v905 : Index := Scalar.indexCast c1_i32_877
  let c0_i32_73 : BitVec 32 := 0#32
  let c1_i32_75 : BitVec 32 := 1#32
  let arg9 : BitVec 32 := Scf.iv c0_i32_73 c1_i32_75 k2_t4
  let v906 : Index := Scalar.indexCast arg9
  let c3_i32_878 : BitVec 32 := 3#32
  let v907 : Index := Scalar.indexCast c3_i32_878
  let c0_879 : Index := 0#32
  ![1, v906.toNat, 3, 0]
def k2_off248 (k2_t4 : Fin k2_t4_loop.trips) : Fin 3 → Nat :=
  let c1_i32_880 : BitVec 32 := 1#32
  let v911 : Index := Scalar.indexCast c1_i32_880
  let c0_i32_73 : BitVec 32 := 0#32
  let c1_i32_75 : BitVec 32 := 1#32
  let arg9 : BitVec 32 := Scf.iv c0_i32_73 c1_i32_75 k2_t4
  let v912 : Index := Scalar.indexCast arg9
  let c400 : Index := 400#32
  ![1, v912.toNat, 400]
def k2_off249 (k2_t4 : Fin k2_t4_loop.trips) : Fin 4 → Nat :=
  let c1_i32_881 : BitVec 32 := 1#32
  let v915 : Index := Scalar.indexCast c1_i32_881
  let c0_i32_73 : BitVec 32 := 0#32
  let c1_i32_75 : BitVec 32 := 1#32
  let arg9 : BitVec 32 := Scf.iv c0_i32_73 c1_i32_75 k2_t4
  let v916 : Index := Scalar.indexCast arg9
  let c3_i32_882 : BitVec 32 := 3#32
  let v917 : Index := Scalar.indexCast c3_i32_882
  let c16_883 : Index := 16#32
  ![1, v916.toNat, 3, 16]
def k2_off250 (k2_t4 : Fin k2_t4_loop.trips) : Fin 3 → Nat :=
  let c1_i32_884 : BitVec 32 := 1#32
  let v921 : Index := Scalar.indexCast c1_i32_884
  let c0_i32_73 : BitVec 32 := 0#32
  let c1_i32_75 : BitVec 32 := 1#32
  let arg9 : BitVec 32 := Scf.iv c0_i32_73 c1_i32_75 k2_t4
  let v922 : Index := Scalar.indexCast arg9
  let c416 : Index := 416#32
  ![1, v922.toNat, 416]
def k2_off251 (k2_t4 : Fin k2_t4_loop.trips) : Fin 4 → Nat :=
  let c1_i32_885 : BitVec 32 := 1#32
  let v925 : Index := Scalar.indexCast c1_i32_885
  let c0_i32_73 : BitVec 32 := 0#32
  let c1_i32_75 : BitVec 32 := 1#32
  let arg9 : BitVec 32 := Scf.iv c0_i32_73 c1_i32_75 k2_t4
  let v926 : Index := Scalar.indexCast arg9
  let c3_i32_886 : BitVec 32 := 3#32
  let v927 : Index := Scalar.indexCast c3_i32_886
  let c32_887 : Index := 32#32
  ![1, v926.toNat, 3, 32]
def k2_off252 (k2_t4 : Fin k2_t4_loop.trips) : Fin 3 → Nat :=
  let c1_i32_888 : BitVec 32 := 1#32
  let v931 : Index := Scalar.indexCast c1_i32_888
  let c0_i32_73 : BitVec 32 := 0#32
  let c1_i32_75 : BitVec 32 := 1#32
  let arg9 : BitVec 32 := Scf.iv c0_i32_73 c1_i32_75 k2_t4
  let v932 : Index := Scalar.indexCast arg9
  let c432 : Index := 432#32
  ![1, v932.toNat, 432]
def k2_off253 (k2_t4 : Fin k2_t4_loop.trips) : Fin 4 → Nat :=
  let c1_i32_889 : BitVec 32 := 1#32
  let v935 : Index := Scalar.indexCast c1_i32_889
  let c0_i32_73 : BitVec 32 := 0#32
  let c1_i32_75 : BitVec 32 := 1#32
  let arg9 : BitVec 32 := Scf.iv c0_i32_73 c1_i32_75 k2_t4
  let v936 : Index := Scalar.indexCast arg9
  let c3_i32_890 : BitVec 32 := 3#32
  let v937 : Index := Scalar.indexCast c3_i32_890
  let c48_891 : Index := 48#32
  ![1, v936.toNat, 3, 48]
def k2_off254 (k2_t4 : Fin k2_t4_loop.trips) : Fin 3 → Nat :=
  let c1_i32_892 : BitVec 32 := 1#32
  let v941 : Index := Scalar.indexCast c1_i32_892
  let c0_i32_73 : BitVec 32 := 0#32
  let c1_i32_75 : BitVec 32 := 1#32
  let arg9 : BitVec 32 := Scf.iv c0_i32_73 c1_i32_75 k2_t4
  let v942 : Index := Scalar.indexCast arg9
  let c448 : Index := 448#32
  ![1, v942.toNat, 448]
def k2_off255 (k2_t4 : Fin k2_t4_loop.trips) : Fin 4 → Nat :=
  let c1_i32_893 : BitVec 32 := 1#32
  let v945 : Index := Scalar.indexCast c1_i32_893
  let c0_i32_73 : BitVec 32 := 0#32
  let c1_i32_75 : BitVec 32 := 1#32
  let arg9 : BitVec 32 := Scf.iv c0_i32_73 c1_i32_75 k2_t4
  let v946 : Index := Scalar.indexCast arg9
  let c3_i32_894 : BitVec 32 := 3#32
  let v947 : Index := Scalar.indexCast c3_i32_894
  let c64_895 : Index := 64#32
  ![1, v946.toNat, 3, 64]
def k2_off256 (k2_t4 : Fin k2_t4_loop.trips) : Fin 3 → Nat :=
  let c1_i32_896 : BitVec 32 := 1#32
  let v951 : Index := Scalar.indexCast c1_i32_896
  let c0_i32_73 : BitVec 32 := 0#32
  let c1_i32_75 : BitVec 32 := 1#32
  let arg9 : BitVec 32 := Scf.iv c0_i32_73 c1_i32_75 k2_t4
  let v952 : Index := Scalar.indexCast arg9
  let c464 : Index := 464#32
  ![1, v952.toNat, 464]
def k2_off257 (k2_t4 : Fin k2_t4_loop.trips) : Fin 4 → Nat :=
  let c1_i32_897 : BitVec 32 := 1#32
  let v955 : Index := Scalar.indexCast c1_i32_897
  let c0_i32_73 : BitVec 32 := 0#32
  let c1_i32_75 : BitVec 32 := 1#32
  let arg9 : BitVec 32 := Scf.iv c0_i32_73 c1_i32_75 k2_t4
  let v956 : Index := Scalar.indexCast arg9
  let c3_i32_898 : BitVec 32 := 3#32
  let v957 : Index := Scalar.indexCast c3_i32_898
  let c80_899 : Index := 80#32
  ![1, v956.toNat, 3, 80]
def k2_off258 (k2_t4 : Fin k2_t4_loop.trips) : Fin 3 → Nat :=
  let c1_i32_900 : BitVec 32 := 1#32
  let v961 : Index := Scalar.indexCast c1_i32_900
  let c0_i32_73 : BitVec 32 := 0#32
  let c1_i32_75 : BitVec 32 := 1#32
  let arg9 : BitVec 32 := Scf.iv c0_i32_73 c1_i32_75 k2_t4
  let v962 : Index := Scalar.indexCast arg9
  let c480 : Index := 480#32
  ![1, v962.toNat, 480]
def k2_off259 (k2_t4 : Fin k2_t4_loop.trips) : Fin 4 → Nat :=
  let c1_i32_901 : BitVec 32 := 1#32
  let v965 : Index := Scalar.indexCast c1_i32_901
  let c0_i32_73 : BitVec 32 := 0#32
  let c1_i32_75 : BitVec 32 := 1#32
  let arg9 : BitVec 32 := Scf.iv c0_i32_73 c1_i32_75 k2_t4
  let v966 : Index := Scalar.indexCast arg9
  let c3_i32_902 : BitVec 32 := 3#32
  let v967 : Index := Scalar.indexCast c3_i32_902
  let c96_903 : Index := 96#32
  ![1, v966.toNat, 3, 96]
def k2_off260 (k2_t4 : Fin k2_t4_loop.trips) : Fin 3 → Nat :=
  let c1_i32_904 : BitVec 32 := 1#32
  let v971 : Index := Scalar.indexCast c1_i32_904
  let c0_i32_73 : BitVec 32 := 0#32
  let c1_i32_75 : BitVec 32 := 1#32
  let arg9 : BitVec 32 := Scf.iv c0_i32_73 c1_i32_75 k2_t4
  let v972 : Index := Scalar.indexCast arg9
  let c496 : Index := 496#32
  ![1, v972.toNat, 496]
def k2_off261 (k2_t4 : Fin k2_t4_loop.trips) : Fin 4 → Nat :=
  let c1_i32_905 : BitVec 32 := 1#32
  let v975 : Index := Scalar.indexCast c1_i32_905
  let c0_i32_73 : BitVec 32 := 0#32
  let c1_i32_75 : BitVec 32 := 1#32
  let arg9 : BitVec 32 := Scf.iv c0_i32_73 c1_i32_75 k2_t4
  let v976 : Index := Scalar.indexCast arg9
  let c3_i32_906 : BitVec 32 := 3#32
  let v977 : Index := Scalar.indexCast c3_i32_906
  let c112_907 : Index := 112#32
  ![1, v976.toNat, 3, 112]
def k2_off262 (i : grid2.Coords) : Fin 4 → Nat :=
  let c1_i32_78 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_83 : BitVec 32 := 0#32
  let c0_i32_84 : BitVec 32 := 0#32
  ![1, v2.toNat, 0, 0]
def k2_off263 (i : grid2.Coords) : Fin 3 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_103 : BitVec 32 := 0#32
  ![3, v2.toNat, 0]
@[reducible] def k2_t5_loop : Scf.Loop 32 :=
  let c0_i32_121 : BitVec 32 := 0#32
  let c32_i32_122 : BitVec 32 := 32#32
  let v107 : BitVec 32 := Scalar.addi c0_i32_121 c32_i32_122
  let c1_i32_123 : BitVec 32 := 1#32
  ⟨c0_i32_121, v107, c1_i32_123⟩
def k2_off264 (k2_t5 : Fin k2_t5_loop.trips) : Fin 3 → Nat :=
  let c0_i32_780 : BitVec 32 := 0#32
  let v661 : Index := Scalar.indexCast c0_i32_780
  let c0_i32_121 : BitVec 32 := 0#32
  let c1_i32_123 : BitVec 32 := 1#32
  let arg9 : BitVec 32 := Scf.iv c0_i32_121 c1_i32_123 k2_t5
  let v662 : Index := Scalar.indexCast arg9
  let c0 : Index := 0#32
  ![0, v662.toNat, 0]
def k2_off265 (k2_t5 : Fin k2_t5_loop.trips) : Fin 4 → Nat :=
  let c0_i32_781 : BitVec 32 := 0#32
  let v665 : Index := Scalar.indexCast c0_i32_781
  let c0_i32_121 : BitVec 32 := 0#32
  let c1_i32_123 : BitVec 32 := 1#32
  let arg9 : BitVec 32 := Scf.iv c0_i32_121 c1_i32_123 k2_t5
  let v666 : Index := Scalar.indexCast arg9
  let c0_i32_782 : BitVec 32 := 0#32
  let v667 : Index := Scalar.indexCast c0_i32_782
  let c0_783 : Index := 0#32
  ![0, v666.toNat, 0, 0]
def k2_off266 (k2_t5 : Fin k2_t5_loop.trips) : Fin 3 → Nat :=
  let c0_i32_784 : BitVec 32 := 0#32
  let v671 : Index := Scalar.indexCast c0_i32_784
  let c0_i32_121 : BitVec 32 := 0#32
  let c1_i32_123 : BitVec 32 := 1#32
  let arg9 : BitVec 32 := Scf.iv c0_i32_121 c1_i32_123 k2_t5
  let v672 : Index := Scalar.indexCast arg9
  let c16 : Index := 16#32
  ![0, v672.toNat, 16]
def k2_off267 (k2_t5 : Fin k2_t5_loop.trips) : Fin 4 → Nat :=
  let c0_i32_785 : BitVec 32 := 0#32
  let v675 : Index := Scalar.indexCast c0_i32_785
  let c0_i32_121 : BitVec 32 := 0#32
  let c1_i32_123 : BitVec 32 := 1#32
  let arg9 : BitVec 32 := Scf.iv c0_i32_121 c1_i32_123 k2_t5
  let v676 : Index := Scalar.indexCast arg9
  let c0_i32_786 : BitVec 32 := 0#32
  let v677 : Index := Scalar.indexCast c0_i32_786
  let c16_787 : Index := 16#32
  ![0, v676.toNat, 0, 16]
def k2_off268 (k2_t5 : Fin k2_t5_loop.trips) : Fin 3 → Nat :=
  let c0_i32_788 : BitVec 32 := 0#32
  let v681 : Index := Scalar.indexCast c0_i32_788
  let c0_i32_121 : BitVec 32 := 0#32
  let c1_i32_123 : BitVec 32 := 1#32
  let arg9 : BitVec 32 := Scf.iv c0_i32_121 c1_i32_123 k2_t5
  let v682 : Index := Scalar.indexCast arg9
  let c32 : Index := 32#32
  ![0, v682.toNat, 32]
def k2_off269 (k2_t5 : Fin k2_t5_loop.trips) : Fin 4 → Nat :=
  let c0_i32_789 : BitVec 32 := 0#32
  let v685 : Index := Scalar.indexCast c0_i32_789
  let c0_i32_121 : BitVec 32 := 0#32
  let c1_i32_123 : BitVec 32 := 1#32
  let arg9 : BitVec 32 := Scf.iv c0_i32_121 c1_i32_123 k2_t5
  let v686 : Index := Scalar.indexCast arg9
  let c0_i32_790 : BitVec 32 := 0#32
  let v687 : Index := Scalar.indexCast c0_i32_790
  let c32_791 : Index := 32#32
  ![0, v686.toNat, 0, 32]
def k2_off270 (k2_t5 : Fin k2_t5_loop.trips) : Fin 3 → Nat :=
  let c0_i32_792 : BitVec 32 := 0#32
  let v691 : Index := Scalar.indexCast c0_i32_792
  let c0_i32_121 : BitVec 32 := 0#32
  let c1_i32_123 : BitVec 32 := 1#32
  let arg9 : BitVec 32 := Scf.iv c0_i32_121 c1_i32_123 k2_t5
  let v692 : Index := Scalar.indexCast arg9
  let c48 : Index := 48#32
  ![0, v692.toNat, 48]
def k2_off271 (k2_t5 : Fin k2_t5_loop.trips) : Fin 4 → Nat :=
  let c0_i32_793 : BitVec 32 := 0#32
  let v695 : Index := Scalar.indexCast c0_i32_793
  let c0_i32_121 : BitVec 32 := 0#32
  let c1_i32_123 : BitVec 32 := 1#32
  let arg9 : BitVec 32 := Scf.iv c0_i32_121 c1_i32_123 k2_t5
  let v696 : Index := Scalar.indexCast arg9
  let c0_i32_794 : BitVec 32 := 0#32
  let v697 : Index := Scalar.indexCast c0_i32_794
  let c48_795 : Index := 48#32
  ![0, v696.toNat, 0, 48]
def k2_off272 (k2_t5 : Fin k2_t5_loop.trips) : Fin 3 → Nat :=
  let c0_i32_796 : BitVec 32 := 0#32
  let v701 : Index := Scalar.indexCast c0_i32_796
  let c0_i32_121 : BitVec 32 := 0#32
  let c1_i32_123 : BitVec 32 := 1#32
  let arg9 : BitVec 32 := Scf.iv c0_i32_121 c1_i32_123 k2_t5
  let v702 : Index := Scalar.indexCast arg9
  let c64 : Index := 64#32
  ![0, v702.toNat, 64]
def k2_off273 (k2_t5 : Fin k2_t5_loop.trips) : Fin 4 → Nat :=
  let c0_i32_797 : BitVec 32 := 0#32
  let v705 : Index := Scalar.indexCast c0_i32_797
  let c0_i32_121 : BitVec 32 := 0#32
  let c1_i32_123 : BitVec 32 := 1#32
  let arg9 : BitVec 32 := Scf.iv c0_i32_121 c1_i32_123 k2_t5
  let v706 : Index := Scalar.indexCast arg9
  let c0_i32_798 : BitVec 32 := 0#32
  let v707 : Index := Scalar.indexCast c0_i32_798
  let c64_799 : Index := 64#32
  ![0, v706.toNat, 0, 64]
def k2_off274 (k2_t5 : Fin k2_t5_loop.trips) : Fin 3 → Nat :=
  let c0_i32_800 : BitVec 32 := 0#32
  let v711 : Index := Scalar.indexCast c0_i32_800
  let c0_i32_121 : BitVec 32 := 0#32
  let c1_i32_123 : BitVec 32 := 1#32
  let arg9 : BitVec 32 := Scf.iv c0_i32_121 c1_i32_123 k2_t5
  let v712 : Index := Scalar.indexCast arg9
  let c80 : Index := 80#32
  ![0, v712.toNat, 80]
def k2_off275 (k2_t5 : Fin k2_t5_loop.trips) : Fin 4 → Nat :=
  let c0_i32_801 : BitVec 32 := 0#32
  let v715 : Index := Scalar.indexCast c0_i32_801
  let c0_i32_121 : BitVec 32 := 0#32
  let c1_i32_123 : BitVec 32 := 1#32
  let arg9 : BitVec 32 := Scf.iv c0_i32_121 c1_i32_123 k2_t5
  let v716 : Index := Scalar.indexCast arg9
  let c0_i32_802 : BitVec 32 := 0#32
  let v717 : Index := Scalar.indexCast c0_i32_802
  let c80_803 : Index := 80#32
  ![0, v716.toNat, 0, 80]
def k2_off276 (k2_t5 : Fin k2_t5_loop.trips) : Fin 3 → Nat :=
  let c0_i32_804 : BitVec 32 := 0#32
  let v721 : Index := Scalar.indexCast c0_i32_804
  let c0_i32_121 : BitVec 32 := 0#32
  let c1_i32_123 : BitVec 32 := 1#32
  let arg9 : BitVec 32 := Scf.iv c0_i32_121 c1_i32_123 k2_t5
  let v722 : Index := Scalar.indexCast arg9
  let c96 : Index := 96#32
  ![0, v722.toNat, 96]
def k2_off277 (k2_t5 : Fin k2_t5_loop.trips) : Fin 4 → Nat :=
  let c0_i32_805 : BitVec 32 := 0#32
  let v725 : Index := Scalar.indexCast c0_i32_805
  let c0_i32_121 : BitVec 32 := 0#32
  let c1_i32_123 : BitVec 32 := 1#32
  let arg9 : BitVec 32 := Scf.iv c0_i32_121 c1_i32_123 k2_t5
  let v726 : Index := Scalar.indexCast arg9
  let c0_i32_806 : BitVec 32 := 0#32
  let v727 : Index := Scalar.indexCast c0_i32_806
  let c96_807 : Index := 96#32
  ![0, v726.toNat, 0, 96]
def k2_off278 (k2_t5 : Fin k2_t5_loop.trips) : Fin 3 → Nat :=
  let c0_i32_808 : BitVec 32 := 0#32
  let v731 : Index := Scalar.indexCast c0_i32_808
  let c0_i32_121 : BitVec 32 := 0#32
  let c1_i32_123 : BitVec 32 := 1#32
  let arg9 : BitVec 32 := Scf.iv c0_i32_121 c1_i32_123 k2_t5
  let v732 : Index := Scalar.indexCast arg9
  let c112 : Index := 112#32
  ![0, v732.toNat, 112]
def k2_off279 (k2_t5 : Fin k2_t5_loop.trips) : Fin 4 → Nat :=
  let c0_i32_809 : BitVec 32 := 0#32
  let v735 : Index := Scalar.indexCast c0_i32_809
  let c0_i32_121 : BitVec 32 := 0#32
  let c1_i32_123 : BitVec 32 := 1#32
  let arg9 : BitVec 32 := Scf.iv c0_i32_121 c1_i32_123 k2_t5
  let v736 : Index := Scalar.indexCast arg9
  let c0_i32_810 : BitVec 32 := 0#32
  let v737 : Index := Scalar.indexCast c0_i32_810
  let c112_811 : Index := 112#32
  ![0, v736.toNat, 0, 112]
def k2_off280 (k2_t5 : Fin k2_t5_loop.trips) : Fin 3 → Nat :=
  let c0_i32_812 : BitVec 32 := 0#32
  let v741 : Index := Scalar.indexCast c0_i32_812
  let c0_i32_121 : BitVec 32 := 0#32
  let c1_i32_123 : BitVec 32 := 1#32
  let arg9 : BitVec 32 := Scf.iv c0_i32_121 c1_i32_123 k2_t5
  let v742 : Index := Scalar.indexCast arg9
  let c128 : Index := 128#32
  ![0, v742.toNat, 128]
def k2_off281 (k2_t5 : Fin k2_t5_loop.trips) : Fin 4 → Nat :=
  let c0_i32_813 : BitVec 32 := 0#32
  let v745 : Index := Scalar.indexCast c0_i32_813
  let c0_i32_121 : BitVec 32 := 0#32
  let c1_i32_123 : BitVec 32 := 1#32
  let arg9 : BitVec 32 := Scf.iv c0_i32_121 c1_i32_123 k2_t5
  let v746 : Index := Scalar.indexCast arg9
  let c1_i32_814 : BitVec 32 := 1#32
  let v747 : Index := Scalar.indexCast c1_i32_814
  let c0_815 : Index := 0#32
  ![0, v746.toNat, 1, 0]
def k2_off282 (k2_t5 : Fin k2_t5_loop.trips) : Fin 3 → Nat :=
  let c0_i32_816 : BitVec 32 := 0#32
  let v751 : Index := Scalar.indexCast c0_i32_816
  let c0_i32_121 : BitVec 32 := 0#32
  let c1_i32_123 : BitVec 32 := 1#32
  let arg9 : BitVec 32 := Scf.iv c0_i32_121 c1_i32_123 k2_t5
  let v752 : Index := Scalar.indexCast arg9
  let c144 : Index := 144#32
  ![0, v752.toNat, 144]
def k2_off283 (k2_t5 : Fin k2_t5_loop.trips) : Fin 4 → Nat :=
  let c0_i32_817 : BitVec 32 := 0#32
  let v755 : Index := Scalar.indexCast c0_i32_817
  let c0_i32_121 : BitVec 32 := 0#32
  let c1_i32_123 : BitVec 32 := 1#32
  let arg9 : BitVec 32 := Scf.iv c0_i32_121 c1_i32_123 k2_t5
  let v756 : Index := Scalar.indexCast arg9
  let c1_i32_818 : BitVec 32 := 1#32
  let v757 : Index := Scalar.indexCast c1_i32_818
  let c16_819 : Index := 16#32
  ![0, v756.toNat, 1, 16]
def k2_off284 (k2_t5 : Fin k2_t5_loop.trips) : Fin 3 → Nat :=
  let c0_i32_820 : BitVec 32 := 0#32
  let v761 : Index := Scalar.indexCast c0_i32_820
  let c0_i32_121 : BitVec 32 := 0#32
  let c1_i32_123 : BitVec 32 := 1#32
  let arg9 : BitVec 32 := Scf.iv c0_i32_121 c1_i32_123 k2_t5
  let v762 : Index := Scalar.indexCast arg9
  let c160 : Index := 160#32
  ![0, v762.toNat, 160]
def k2_off285 (k2_t5 : Fin k2_t5_loop.trips) : Fin 4 → Nat :=
  let c0_i32_821 : BitVec 32 := 0#32
  let v765 : Index := Scalar.indexCast c0_i32_821
  let c0_i32_121 : BitVec 32 := 0#32
  let c1_i32_123 : BitVec 32 := 1#32
  let arg9 : BitVec 32 := Scf.iv c0_i32_121 c1_i32_123 k2_t5
  let v766 : Index := Scalar.indexCast arg9
  let c1_i32_822 : BitVec 32 := 1#32
  let v767 : Index := Scalar.indexCast c1_i32_822
  let c32_823 : Index := 32#32
  ![0, v766.toNat, 1, 32]
def k2_off286 (k2_t5 : Fin k2_t5_loop.trips) : Fin 3 → Nat :=
  let c0_i32_824 : BitVec 32 := 0#32
  let v771 : Index := Scalar.indexCast c0_i32_824
  let c0_i32_121 : BitVec 32 := 0#32
  let c1_i32_123 : BitVec 32 := 1#32
  let arg9 : BitVec 32 := Scf.iv c0_i32_121 c1_i32_123 k2_t5
  let v772 : Index := Scalar.indexCast arg9
  let c176 : Index := 176#32
  ![0, v772.toNat, 176]
def k2_off287 (k2_t5 : Fin k2_t5_loop.trips) : Fin 4 → Nat :=
  let c0_i32_825 : BitVec 32 := 0#32
  let v775 : Index := Scalar.indexCast c0_i32_825
  let c0_i32_121 : BitVec 32 := 0#32
  let c1_i32_123 : BitVec 32 := 1#32
  let arg9 : BitVec 32 := Scf.iv c0_i32_121 c1_i32_123 k2_t5
  let v776 : Index := Scalar.indexCast arg9
  let c1_i32_826 : BitVec 32 := 1#32
  let v777 : Index := Scalar.indexCast c1_i32_826
  let c48_827 : Index := 48#32
  ![0, v776.toNat, 1, 48]
def k2_off288 (k2_t5 : Fin k2_t5_loop.trips) : Fin 3 → Nat :=
  let c0_i32_828 : BitVec 32 := 0#32
  let v781 : Index := Scalar.indexCast c0_i32_828
  let c0_i32_121 : BitVec 32 := 0#32
  let c1_i32_123 : BitVec 32 := 1#32
  let arg9 : BitVec 32 := Scf.iv c0_i32_121 c1_i32_123 k2_t5
  let v782 : Index := Scalar.indexCast arg9
  let c192 : Index := 192#32
  ![0, v782.toNat, 192]
def k2_off289 (k2_t5 : Fin k2_t5_loop.trips) : Fin 4 → Nat :=
  let c0_i32_829 : BitVec 32 := 0#32
  let v785 : Index := Scalar.indexCast c0_i32_829
  let c0_i32_121 : BitVec 32 := 0#32
  let c1_i32_123 : BitVec 32 := 1#32
  let arg9 : BitVec 32 := Scf.iv c0_i32_121 c1_i32_123 k2_t5
  let v786 : Index := Scalar.indexCast arg9
  let c1_i32_830 : BitVec 32 := 1#32
  let v787 : Index := Scalar.indexCast c1_i32_830
  let c64_831 : Index := 64#32
  ![0, v786.toNat, 1, 64]
def k2_off290 (k2_t5 : Fin k2_t5_loop.trips) : Fin 3 → Nat :=
  let c0_i32_832 : BitVec 32 := 0#32
  let v791 : Index := Scalar.indexCast c0_i32_832
  let c0_i32_121 : BitVec 32 := 0#32
  let c1_i32_123 : BitVec 32 := 1#32
  let arg9 : BitVec 32 := Scf.iv c0_i32_121 c1_i32_123 k2_t5
  let v792 : Index := Scalar.indexCast arg9
  let c208 : Index := 208#32
  ![0, v792.toNat, 208]
def k2_off291 (k2_t5 : Fin k2_t5_loop.trips) : Fin 4 → Nat :=
  let c0_i32_833 : BitVec 32 := 0#32
  let v795 : Index := Scalar.indexCast c0_i32_833
  let c0_i32_121 : BitVec 32 := 0#32
  let c1_i32_123 : BitVec 32 := 1#32
  let arg9 : BitVec 32 := Scf.iv c0_i32_121 c1_i32_123 k2_t5
  let v796 : Index := Scalar.indexCast arg9
  let c1_i32_834 : BitVec 32 := 1#32
  let v797 : Index := Scalar.indexCast c1_i32_834
  let c80_835 : Index := 80#32
  ![0, v796.toNat, 1, 80]
def k2_off292 (k2_t5 : Fin k2_t5_loop.trips) : Fin 3 → Nat :=
  let c0_i32_836 : BitVec 32 := 0#32
  let v801 : Index := Scalar.indexCast c0_i32_836
  let c0_i32_121 : BitVec 32 := 0#32
  let c1_i32_123 : BitVec 32 := 1#32
  let arg9 : BitVec 32 := Scf.iv c0_i32_121 c1_i32_123 k2_t5
  let v802 : Index := Scalar.indexCast arg9
  let c224 : Index := 224#32
  ![0, v802.toNat, 224]
def k2_off293 (k2_t5 : Fin k2_t5_loop.trips) : Fin 4 → Nat :=
  let c0_i32_837 : BitVec 32 := 0#32
  let v805 : Index := Scalar.indexCast c0_i32_837
  let c0_i32_121 : BitVec 32 := 0#32
  let c1_i32_123 : BitVec 32 := 1#32
  let arg9 : BitVec 32 := Scf.iv c0_i32_121 c1_i32_123 k2_t5
  let v806 : Index := Scalar.indexCast arg9
  let c1_i32_838 : BitVec 32 := 1#32
  let v807 : Index := Scalar.indexCast c1_i32_838
  let c96_839 : Index := 96#32
  ![0, v806.toNat, 1, 96]
def k2_off294 (k2_t5 : Fin k2_t5_loop.trips) : Fin 3 → Nat :=
  let c0_i32_840 : BitVec 32 := 0#32
  let v811 : Index := Scalar.indexCast c0_i32_840
  let c0_i32_121 : BitVec 32 := 0#32
  let c1_i32_123 : BitVec 32 := 1#32
  let arg9 : BitVec 32 := Scf.iv c0_i32_121 c1_i32_123 k2_t5
  let v812 : Index := Scalar.indexCast arg9
  let c240 : Index := 240#32
  ![0, v812.toNat, 240]
def k2_off295 (k2_t5 : Fin k2_t5_loop.trips) : Fin 4 → Nat :=
  let c0_i32_841 : BitVec 32 := 0#32
  let v815 : Index := Scalar.indexCast c0_i32_841
  let c0_i32_121 : BitVec 32 := 0#32
  let c1_i32_123 : BitVec 32 := 1#32
  let arg9 : BitVec 32 := Scf.iv c0_i32_121 c1_i32_123 k2_t5
  let v816 : Index := Scalar.indexCast arg9
  let c1_i32_842 : BitVec 32 := 1#32
  let v817 : Index := Scalar.indexCast c1_i32_842
  let c112_843 : Index := 112#32
  ![0, v816.toNat, 1, 112]
def k2_off296 (k2_t5 : Fin k2_t5_loop.trips) : Fin 3 → Nat :=
  let c0_i32_844 : BitVec 32 := 0#32
  let v821 : Index := Scalar.indexCast c0_i32_844
  let c0_i32_121 : BitVec 32 := 0#32
  let c1_i32_123 : BitVec 32 := 1#32
  let arg9 : BitVec 32 := Scf.iv c0_i32_121 c1_i32_123 k2_t5
  let v822 : Index := Scalar.indexCast arg9
  let c256 : Index := 256#32
  ![0, v822.toNat, 256]
def k2_off297 (k2_t5 : Fin k2_t5_loop.trips) : Fin 4 → Nat :=
  let c0_i32_845 : BitVec 32 := 0#32
  let v825 : Index := Scalar.indexCast c0_i32_845
  let c0_i32_121 : BitVec 32 := 0#32
  let c1_i32_123 : BitVec 32 := 1#32
  let arg9 : BitVec 32 := Scf.iv c0_i32_121 c1_i32_123 k2_t5
  let v826 : Index := Scalar.indexCast arg9
  let c2_i32_846 : BitVec 32 := 2#32
  let v827 : Index := Scalar.indexCast c2_i32_846
  let c0_847 : Index := 0#32
  ![0, v826.toNat, 2, 0]
def k2_off298 (k2_t5 : Fin k2_t5_loop.trips) : Fin 3 → Nat :=
  let c0_i32_848 : BitVec 32 := 0#32
  let v831 : Index := Scalar.indexCast c0_i32_848
  let c0_i32_121 : BitVec 32 := 0#32
  let c1_i32_123 : BitVec 32 := 1#32
  let arg9 : BitVec 32 := Scf.iv c0_i32_121 c1_i32_123 k2_t5
  let v832 : Index := Scalar.indexCast arg9
  let c272 : Index := 272#32
  ![0, v832.toNat, 272]
def k2_off299 (k2_t5 : Fin k2_t5_loop.trips) : Fin 4 → Nat :=
  let c0_i32_849 : BitVec 32 := 0#32
  let v835 : Index := Scalar.indexCast c0_i32_849
  let c0_i32_121 : BitVec 32 := 0#32
  let c1_i32_123 : BitVec 32 := 1#32
  let arg9 : BitVec 32 := Scf.iv c0_i32_121 c1_i32_123 k2_t5
  let v836 : Index := Scalar.indexCast arg9
  let c2_i32_850 : BitVec 32 := 2#32
  let v837 : Index := Scalar.indexCast c2_i32_850
  let c16_851 : Index := 16#32
  ![0, v836.toNat, 2, 16]
def k2_off300 (k2_t5 : Fin k2_t5_loop.trips) : Fin 3 → Nat :=
  let c0_i32_852 : BitVec 32 := 0#32
  let v841 : Index := Scalar.indexCast c0_i32_852
  let c0_i32_121 : BitVec 32 := 0#32
  let c1_i32_123 : BitVec 32 := 1#32
  let arg9 : BitVec 32 := Scf.iv c0_i32_121 c1_i32_123 k2_t5
  let v842 : Index := Scalar.indexCast arg9
  let c288 : Index := 288#32
  ![0, v842.toNat, 288]
def k2_off301 (k2_t5 : Fin k2_t5_loop.trips) : Fin 4 → Nat :=
  let c0_i32_853 : BitVec 32 := 0#32
  let v845 : Index := Scalar.indexCast c0_i32_853
  let c0_i32_121 : BitVec 32 := 0#32
  let c1_i32_123 : BitVec 32 := 1#32
  let arg9 : BitVec 32 := Scf.iv c0_i32_121 c1_i32_123 k2_t5
  let v846 : Index := Scalar.indexCast arg9
  let c2_i32_854 : BitVec 32 := 2#32
  let v847 : Index := Scalar.indexCast c2_i32_854
  let c32_855 : Index := 32#32
  ![0, v846.toNat, 2, 32]
def k2_off302 (k2_t5 : Fin k2_t5_loop.trips) : Fin 3 → Nat :=
  let c0_i32_856 : BitVec 32 := 0#32
  let v851 : Index := Scalar.indexCast c0_i32_856
  let c0_i32_121 : BitVec 32 := 0#32
  let c1_i32_123 : BitVec 32 := 1#32
  let arg9 : BitVec 32 := Scf.iv c0_i32_121 c1_i32_123 k2_t5
  let v852 : Index := Scalar.indexCast arg9
  let c304 : Index := 304#32
  ![0, v852.toNat, 304]
def k2_off303 (k2_t5 : Fin k2_t5_loop.trips) : Fin 4 → Nat :=
  let c0_i32_857 : BitVec 32 := 0#32
  let v855 : Index := Scalar.indexCast c0_i32_857
  let c0_i32_121 : BitVec 32 := 0#32
  let c1_i32_123 : BitVec 32 := 1#32
  let arg9 : BitVec 32 := Scf.iv c0_i32_121 c1_i32_123 k2_t5
  let v856 : Index := Scalar.indexCast arg9
  let c2_i32_858 : BitVec 32 := 2#32
  let v857 : Index := Scalar.indexCast c2_i32_858
  let c48_859 : Index := 48#32
  ![0, v856.toNat, 2, 48]
def k2_off304 (k2_t5 : Fin k2_t5_loop.trips) : Fin 3 → Nat :=
  let c0_i32_860 : BitVec 32 := 0#32
  let v861 : Index := Scalar.indexCast c0_i32_860
  let c0_i32_121 : BitVec 32 := 0#32
  let c1_i32_123 : BitVec 32 := 1#32
  let arg9 : BitVec 32 := Scf.iv c0_i32_121 c1_i32_123 k2_t5
  let v862 : Index := Scalar.indexCast arg9
  let c320 : Index := 320#32
  ![0, v862.toNat, 320]
def k2_off305 (k2_t5 : Fin k2_t5_loop.trips) : Fin 4 → Nat :=
  let c0_i32_861 : BitVec 32 := 0#32
  let v865 : Index := Scalar.indexCast c0_i32_861
  let c0_i32_121 : BitVec 32 := 0#32
  let c1_i32_123 : BitVec 32 := 1#32
  let arg9 : BitVec 32 := Scf.iv c0_i32_121 c1_i32_123 k2_t5
  let v866 : Index := Scalar.indexCast arg9
  let c2_i32_862 : BitVec 32 := 2#32
  let v867 : Index := Scalar.indexCast c2_i32_862
  let c64_863 : Index := 64#32
  ![0, v866.toNat, 2, 64]
def k2_off306 (k2_t5 : Fin k2_t5_loop.trips) : Fin 3 → Nat :=
  let c0_i32_864 : BitVec 32 := 0#32
  let v871 : Index := Scalar.indexCast c0_i32_864
  let c0_i32_121 : BitVec 32 := 0#32
  let c1_i32_123 : BitVec 32 := 1#32
  let arg9 : BitVec 32 := Scf.iv c0_i32_121 c1_i32_123 k2_t5
  let v872 : Index := Scalar.indexCast arg9
  let c336 : Index := 336#32
  ![0, v872.toNat, 336]
def k2_off307 (k2_t5 : Fin k2_t5_loop.trips) : Fin 4 → Nat :=
  let c0_i32_865 : BitVec 32 := 0#32
  let v875 : Index := Scalar.indexCast c0_i32_865
  let c0_i32_121 : BitVec 32 := 0#32
  let c1_i32_123 : BitVec 32 := 1#32
  let arg9 : BitVec 32 := Scf.iv c0_i32_121 c1_i32_123 k2_t5
  let v876 : Index := Scalar.indexCast arg9
  let c2_i32_866 : BitVec 32 := 2#32
  let v877 : Index := Scalar.indexCast c2_i32_866
  let c80_867 : Index := 80#32
  ![0, v876.toNat, 2, 80]
def k2_off308 (k2_t5 : Fin k2_t5_loop.trips) : Fin 3 → Nat :=
  let c0_i32_868 : BitVec 32 := 0#32
  let v881 : Index := Scalar.indexCast c0_i32_868
  let c0_i32_121 : BitVec 32 := 0#32
  let c1_i32_123 : BitVec 32 := 1#32
  let arg9 : BitVec 32 := Scf.iv c0_i32_121 c1_i32_123 k2_t5
  let v882 : Index := Scalar.indexCast arg9
  let c352 : Index := 352#32
  ![0, v882.toNat, 352]
def k2_off309 (k2_t5 : Fin k2_t5_loop.trips) : Fin 4 → Nat :=
  let c0_i32_869 : BitVec 32 := 0#32
  let v885 : Index := Scalar.indexCast c0_i32_869
  let c0_i32_121 : BitVec 32 := 0#32
  let c1_i32_123 : BitVec 32 := 1#32
  let arg9 : BitVec 32 := Scf.iv c0_i32_121 c1_i32_123 k2_t5
  let v886 : Index := Scalar.indexCast arg9
  let c2_i32_870 : BitVec 32 := 2#32
  let v887 : Index := Scalar.indexCast c2_i32_870
  let c96_871 : Index := 96#32
  ![0, v886.toNat, 2, 96]
def k2_off310 (k2_t5 : Fin k2_t5_loop.trips) : Fin 3 → Nat :=
  let c0_i32_872 : BitVec 32 := 0#32
  let v891 : Index := Scalar.indexCast c0_i32_872
  let c0_i32_121 : BitVec 32 := 0#32
  let c1_i32_123 : BitVec 32 := 1#32
  let arg9 : BitVec 32 := Scf.iv c0_i32_121 c1_i32_123 k2_t5
  let v892 : Index := Scalar.indexCast arg9
  let c368 : Index := 368#32
  ![0, v892.toNat, 368]
def k2_off311 (k2_t5 : Fin k2_t5_loop.trips) : Fin 4 → Nat :=
  let c0_i32_873 : BitVec 32 := 0#32
  let v895 : Index := Scalar.indexCast c0_i32_873
  let c0_i32_121 : BitVec 32 := 0#32
  let c1_i32_123 : BitVec 32 := 1#32
  let arg9 : BitVec 32 := Scf.iv c0_i32_121 c1_i32_123 k2_t5
  let v896 : Index := Scalar.indexCast arg9
  let c2_i32_874 : BitVec 32 := 2#32
  let v897 : Index := Scalar.indexCast c2_i32_874
  let c112_875 : Index := 112#32
  ![0, v896.toNat, 2, 112]
def k2_off312 (k2_t5 : Fin k2_t5_loop.trips) : Fin 3 → Nat :=
  let c0_i32_876 : BitVec 32 := 0#32
  let v901 : Index := Scalar.indexCast c0_i32_876
  let c0_i32_121 : BitVec 32 := 0#32
  let c1_i32_123 : BitVec 32 := 1#32
  let arg9 : BitVec 32 := Scf.iv c0_i32_121 c1_i32_123 k2_t5
  let v902 : Index := Scalar.indexCast arg9
  let c384 : Index := 384#32
  ![0, v902.toNat, 384]
def k2_off313 (k2_t5 : Fin k2_t5_loop.trips) : Fin 4 → Nat :=
  let c0_i32_877 : BitVec 32 := 0#32
  let v905 : Index := Scalar.indexCast c0_i32_877
  let c0_i32_121 : BitVec 32 := 0#32
  let c1_i32_123 : BitVec 32 := 1#32
  let arg9 : BitVec 32 := Scf.iv c0_i32_121 c1_i32_123 k2_t5
  let v906 : Index := Scalar.indexCast arg9
  let c3_i32_878 : BitVec 32 := 3#32
  let v907 : Index := Scalar.indexCast c3_i32_878
  let c0_879 : Index := 0#32
  ![0, v906.toNat, 3, 0]
def k2_off314 (k2_t5 : Fin k2_t5_loop.trips) : Fin 3 → Nat :=
  let c0_i32_880 : BitVec 32 := 0#32
  let v911 : Index := Scalar.indexCast c0_i32_880
  let c0_i32_121 : BitVec 32 := 0#32
  let c1_i32_123 : BitVec 32 := 1#32
  let arg9 : BitVec 32 := Scf.iv c0_i32_121 c1_i32_123 k2_t5
  let v912 : Index := Scalar.indexCast arg9
  let c400 : Index := 400#32
  ![0, v912.toNat, 400]
def k2_off315 (k2_t5 : Fin k2_t5_loop.trips) : Fin 4 → Nat :=
  let c0_i32_881 : BitVec 32 := 0#32
  let v915 : Index := Scalar.indexCast c0_i32_881
  let c0_i32_121 : BitVec 32 := 0#32
  let c1_i32_123 : BitVec 32 := 1#32
  let arg9 : BitVec 32 := Scf.iv c0_i32_121 c1_i32_123 k2_t5
  let v916 : Index := Scalar.indexCast arg9
  let c3_i32_882 : BitVec 32 := 3#32
  let v917 : Index := Scalar.indexCast c3_i32_882
  let c16_883 : Index := 16#32
  ![0, v916.toNat, 3, 16]
def k2_off316 (k2_t5 : Fin k2_t5_loop.trips) : Fin 3 → Nat :=
  let c0_i32_884 : BitVec 32 := 0#32
  let v921 : Index := Scalar.indexCast c0_i32_884
  let c0_i32_121 : BitVec 32 := 0#32
  let c1_i32_123 : BitVec 32 := 1#32
  let arg9 : BitVec 32 := Scf.iv c0_i32_121 c1_i32_123 k2_t5
  let v922 : Index := Scalar.indexCast arg9
  let c416 : Index := 416#32
  ![0, v922.toNat, 416]
def k2_off317 (k2_t5 : Fin k2_t5_loop.trips) : Fin 4 → Nat :=
  let c0_i32_885 : BitVec 32 := 0#32
  let v925 : Index := Scalar.indexCast c0_i32_885
  let c0_i32_121 : BitVec 32 := 0#32
  let c1_i32_123 : BitVec 32 := 1#32
  let arg9 : BitVec 32 := Scf.iv c0_i32_121 c1_i32_123 k2_t5
  let v926 : Index := Scalar.indexCast arg9
  let c3_i32_886 : BitVec 32 := 3#32
  let v927 : Index := Scalar.indexCast c3_i32_886
  let c32_887 : Index := 32#32
  ![0, v926.toNat, 3, 32]
def k2_off318 (k2_t5 : Fin k2_t5_loop.trips) : Fin 3 → Nat :=
  let c0_i32_888 : BitVec 32 := 0#32
  let v931 : Index := Scalar.indexCast c0_i32_888
  let c0_i32_121 : BitVec 32 := 0#32
  let c1_i32_123 : BitVec 32 := 1#32
  let arg9 : BitVec 32 := Scf.iv c0_i32_121 c1_i32_123 k2_t5
  let v932 : Index := Scalar.indexCast arg9
  let c432 : Index := 432#32
  ![0, v932.toNat, 432]
def k2_off319 (k2_t5 : Fin k2_t5_loop.trips) : Fin 4 → Nat :=
  let c0_i32_889 : BitVec 32 := 0#32
  let v935 : Index := Scalar.indexCast c0_i32_889
  let c0_i32_121 : BitVec 32 := 0#32
  let c1_i32_123 : BitVec 32 := 1#32
  let arg9 : BitVec 32 := Scf.iv c0_i32_121 c1_i32_123 k2_t5
  let v936 : Index := Scalar.indexCast arg9
  let c3_i32_890 : BitVec 32 := 3#32
  let v937 : Index := Scalar.indexCast c3_i32_890
  let c48_891 : Index := 48#32
  ![0, v936.toNat, 3, 48]
def k2_off320 (k2_t5 : Fin k2_t5_loop.trips) : Fin 3 → Nat :=
  let c0_i32_892 : BitVec 32 := 0#32
  let v941 : Index := Scalar.indexCast c0_i32_892
  let c0_i32_121 : BitVec 32 := 0#32
  let c1_i32_123 : BitVec 32 := 1#32
  let arg9 : BitVec 32 := Scf.iv c0_i32_121 c1_i32_123 k2_t5
  let v942 : Index := Scalar.indexCast arg9
  let c448 : Index := 448#32
  ![0, v942.toNat, 448]
def k2_off321 (k2_t5 : Fin k2_t5_loop.trips) : Fin 4 → Nat :=
  let c0_i32_893 : BitVec 32 := 0#32
  let v945 : Index := Scalar.indexCast c0_i32_893
  let c0_i32_121 : BitVec 32 := 0#32
  let c1_i32_123 : BitVec 32 := 1#32
  let arg9 : BitVec 32 := Scf.iv c0_i32_121 c1_i32_123 k2_t5
  let v946 : Index := Scalar.indexCast arg9
  let c3_i32_894 : BitVec 32 := 3#32
  let v947 : Index := Scalar.indexCast c3_i32_894
  let c64_895 : Index := 64#32
  ![0, v946.toNat, 3, 64]
def k2_off322 (k2_t5 : Fin k2_t5_loop.trips) : Fin 3 → Nat :=
  let c0_i32_896 : BitVec 32 := 0#32
  let v951 : Index := Scalar.indexCast c0_i32_896
  let c0_i32_121 : BitVec 32 := 0#32
  let c1_i32_123 : BitVec 32 := 1#32
  let arg9 : BitVec 32 := Scf.iv c0_i32_121 c1_i32_123 k2_t5
  let v952 : Index := Scalar.indexCast arg9
  let c464 : Index := 464#32
  ![0, v952.toNat, 464]
def k2_off323 (k2_t5 : Fin k2_t5_loop.trips) : Fin 4 → Nat :=
  let c0_i32_897 : BitVec 32 := 0#32
  let v955 : Index := Scalar.indexCast c0_i32_897
  let c0_i32_121 : BitVec 32 := 0#32
  let c1_i32_123 : BitVec 32 := 1#32
  let arg9 : BitVec 32 := Scf.iv c0_i32_121 c1_i32_123 k2_t5
  let v956 : Index := Scalar.indexCast arg9
  let c3_i32_898 : BitVec 32 := 3#32
  let v957 : Index := Scalar.indexCast c3_i32_898
  let c80_899 : Index := 80#32
  ![0, v956.toNat, 3, 80]
def k2_off324 (k2_t5 : Fin k2_t5_loop.trips) : Fin 3 → Nat :=
  let c0_i32_900 : BitVec 32 := 0#32
  let v961 : Index := Scalar.indexCast c0_i32_900
  let c0_i32_121 : BitVec 32 := 0#32
  let c1_i32_123 : BitVec 32 := 1#32
  let arg9 : BitVec 32 := Scf.iv c0_i32_121 c1_i32_123 k2_t5
  let v962 : Index := Scalar.indexCast arg9
  let c480 : Index := 480#32
  ![0, v962.toNat, 480]
def k2_off325 (k2_t5 : Fin k2_t5_loop.trips) : Fin 4 → Nat :=
  let c0_i32_901 : BitVec 32 := 0#32
  let v965 : Index := Scalar.indexCast c0_i32_901
  let c0_i32_121 : BitVec 32 := 0#32
  let c1_i32_123 : BitVec 32 := 1#32
  let arg9 : BitVec 32 := Scf.iv c0_i32_121 c1_i32_123 k2_t5
  let v966 : Index := Scalar.indexCast arg9
  let c3_i32_902 : BitVec 32 := 3#32
  let v967 : Index := Scalar.indexCast c3_i32_902
  let c96_903 : Index := 96#32
  ![0, v966.toNat, 3, 96]
def k2_off326 (k2_t5 : Fin k2_t5_loop.trips) : Fin 3 → Nat :=
  let c0_i32_904 : BitVec 32 := 0#32
  let v971 : Index := Scalar.indexCast c0_i32_904
  let c0_i32_121 : BitVec 32 := 0#32
  let c1_i32_123 : BitVec 32 := 1#32
  let arg9 : BitVec 32 := Scf.iv c0_i32_121 c1_i32_123 k2_t5
  let v972 : Index := Scalar.indexCast arg9
  let c496 : Index := 496#32
  ![0, v972.toNat, 496]
def k2_off327 (k2_t5 : Fin k2_t5_loop.trips) : Fin 4 → Nat :=
  let c0_i32_905 : BitVec 32 := 0#32
  let v975 : Index := Scalar.indexCast c0_i32_905
  let c0_i32_121 : BitVec 32 := 0#32
  let c1_i32_123 : BitVec 32 := 1#32
  let arg9 : BitVec 32 := Scf.iv c0_i32_121 c1_i32_123 k2_t5
  let v976 : Index := Scalar.indexCast arg9
  let c3_i32_906 : BitVec 32 := 3#32
  let v977 : Index := Scalar.indexCast c3_i32_906
  let c112_907 : Index := 112#32
  ![0, v976.toNat, 3, 112]
def k2_off328 (i : grid2.Coords) : Fin 4 → Nat :=
  let c2_i32_126 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_131 : BitVec 32 := 0#32
  let c0_i32_132 : BitVec 32 := 0#32
  ![2, v2.toNat, 0, 0]
def k2_off329 (i : grid2.Coords) : Fin 3 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_151 : BitVec 32 := 0#32
  ![4, v2.toNat, 0]
@[reducible] def k2_t6_loop : Scf.Loop 32 :=
  let c0_i32_169 : BitVec 32 := 0#32
  let c32_i32_170 : BitVec 32 := 32#32
  let v148 : BitVec 32 := Scalar.addi c0_i32_169 c32_i32_170
  let c1_i32_171 : BitVec 32 := 1#32
  ⟨c0_i32_169, v148, c1_i32_171⟩
def k2_off330 (k2_t6 : Fin k2_t6_loop.trips) : Fin 3 → Nat :=
  let c1_i32_780 : BitVec 32 := 1#32
  let v661 : Index := Scalar.indexCast c1_i32_780
  let c0_i32_169 : BitVec 32 := 0#32
  let c1_i32_171 : BitVec 32 := 1#32
  let arg9 : BitVec 32 := Scf.iv c0_i32_169 c1_i32_171 k2_t6
  let v662 : Index := Scalar.indexCast arg9
  let c0 : Index := 0#32
  ![1, v662.toNat, 0]
def k2_off331 (k2_t6 : Fin k2_t6_loop.trips) : Fin 4 → Nat :=
  let c1_i32_781 : BitVec 32 := 1#32
  let v665 : Index := Scalar.indexCast c1_i32_781
  let c0_i32_169 : BitVec 32 := 0#32
  let c1_i32_171 : BitVec 32 := 1#32
  let arg9 : BitVec 32 := Scf.iv c0_i32_169 c1_i32_171 k2_t6
  let v666 : Index := Scalar.indexCast arg9
  let c0_i32_782 : BitVec 32 := 0#32
  let v667 : Index := Scalar.indexCast c0_i32_782
  let c0_783 : Index := 0#32
  ![1, v666.toNat, 0, 0]
def k2_off332 (k2_t6 : Fin k2_t6_loop.trips) : Fin 3 → Nat :=
  let c1_i32_784 : BitVec 32 := 1#32
  let v671 : Index := Scalar.indexCast c1_i32_784
  let c0_i32_169 : BitVec 32 := 0#32
  let c1_i32_171 : BitVec 32 := 1#32
  let arg9 : BitVec 32 := Scf.iv c0_i32_169 c1_i32_171 k2_t6
  let v672 : Index := Scalar.indexCast arg9
  let c16 : Index := 16#32
  ![1, v672.toNat, 16]
def k2_off333 (k2_t6 : Fin k2_t6_loop.trips) : Fin 4 → Nat :=
  let c1_i32_785 : BitVec 32 := 1#32
  let v675 : Index := Scalar.indexCast c1_i32_785
  let c0_i32_169 : BitVec 32 := 0#32
  let c1_i32_171 : BitVec 32 := 1#32
  let arg9 : BitVec 32 := Scf.iv c0_i32_169 c1_i32_171 k2_t6
  let v676 : Index := Scalar.indexCast arg9
  let c0_i32_786 : BitVec 32 := 0#32
  let v677 : Index := Scalar.indexCast c0_i32_786
  let c16_787 : Index := 16#32
  ![1, v676.toNat, 0, 16]
def k2_off334 (k2_t6 : Fin k2_t6_loop.trips) : Fin 3 → Nat :=
  let c1_i32_788 : BitVec 32 := 1#32
  let v681 : Index := Scalar.indexCast c1_i32_788
  let c0_i32_169 : BitVec 32 := 0#32
  let c1_i32_171 : BitVec 32 := 1#32
  let arg9 : BitVec 32 := Scf.iv c0_i32_169 c1_i32_171 k2_t6
  let v682 : Index := Scalar.indexCast arg9
  let c32 : Index := 32#32
  ![1, v682.toNat, 32]
def k2_off335 (k2_t6 : Fin k2_t6_loop.trips) : Fin 4 → Nat :=
  let c1_i32_789 : BitVec 32 := 1#32
  let v685 : Index := Scalar.indexCast c1_i32_789
  let c0_i32_169 : BitVec 32 := 0#32
  let c1_i32_171 : BitVec 32 := 1#32
  let arg9 : BitVec 32 := Scf.iv c0_i32_169 c1_i32_171 k2_t6
  let v686 : Index := Scalar.indexCast arg9
  let c0_i32_790 : BitVec 32 := 0#32
  let v687 : Index := Scalar.indexCast c0_i32_790
  let c32_791 : Index := 32#32
  ![1, v686.toNat, 0, 32]
def k2_off336 (k2_t6 : Fin k2_t6_loop.trips) : Fin 3 → Nat :=
  let c1_i32_792 : BitVec 32 := 1#32
  let v691 : Index := Scalar.indexCast c1_i32_792
  let c0_i32_169 : BitVec 32 := 0#32
  let c1_i32_171 : BitVec 32 := 1#32
  let arg9 : BitVec 32 := Scf.iv c0_i32_169 c1_i32_171 k2_t6
  let v692 : Index := Scalar.indexCast arg9
  let c48 : Index := 48#32
  ![1, v692.toNat, 48]
def k2_off337 (k2_t6 : Fin k2_t6_loop.trips) : Fin 4 → Nat :=
  let c1_i32_793 : BitVec 32 := 1#32
  let v695 : Index := Scalar.indexCast c1_i32_793
  let c0_i32_169 : BitVec 32 := 0#32
  let c1_i32_171 : BitVec 32 := 1#32
  let arg9 : BitVec 32 := Scf.iv c0_i32_169 c1_i32_171 k2_t6
  let v696 : Index := Scalar.indexCast arg9
  let c0_i32_794 : BitVec 32 := 0#32
  let v697 : Index := Scalar.indexCast c0_i32_794
  let c48_795 : Index := 48#32
  ![1, v696.toNat, 0, 48]
def k2_off338 (k2_t6 : Fin k2_t6_loop.trips) : Fin 3 → Nat :=
  let c1_i32_796 : BitVec 32 := 1#32
  let v701 : Index := Scalar.indexCast c1_i32_796
  let c0_i32_169 : BitVec 32 := 0#32
  let c1_i32_171 : BitVec 32 := 1#32
  let arg9 : BitVec 32 := Scf.iv c0_i32_169 c1_i32_171 k2_t6
  let v702 : Index := Scalar.indexCast arg9
  let c64 : Index := 64#32
  ![1, v702.toNat, 64]
def k2_off339 (k2_t6 : Fin k2_t6_loop.trips) : Fin 4 → Nat :=
  let c1_i32_797 : BitVec 32 := 1#32
  let v705 : Index := Scalar.indexCast c1_i32_797
  let c0_i32_169 : BitVec 32 := 0#32
  let c1_i32_171 : BitVec 32 := 1#32
  let arg9 : BitVec 32 := Scf.iv c0_i32_169 c1_i32_171 k2_t6
  let v706 : Index := Scalar.indexCast arg9
  let c0_i32_798 : BitVec 32 := 0#32
  let v707 : Index := Scalar.indexCast c0_i32_798
  let c64_799 : Index := 64#32
  ![1, v706.toNat, 0, 64]
def k2_off340 (k2_t6 : Fin k2_t6_loop.trips) : Fin 3 → Nat :=
  let c1_i32_800 : BitVec 32 := 1#32
  let v711 : Index := Scalar.indexCast c1_i32_800
  let c0_i32_169 : BitVec 32 := 0#32
  let c1_i32_171 : BitVec 32 := 1#32
  let arg9 : BitVec 32 := Scf.iv c0_i32_169 c1_i32_171 k2_t6
  let v712 : Index := Scalar.indexCast arg9
  let c80 : Index := 80#32
  ![1, v712.toNat, 80]
def k2_off341 (k2_t6 : Fin k2_t6_loop.trips) : Fin 4 → Nat :=
  let c1_i32_801 : BitVec 32 := 1#32
  let v715 : Index := Scalar.indexCast c1_i32_801
  let c0_i32_169 : BitVec 32 := 0#32
  let c1_i32_171 : BitVec 32 := 1#32
  let arg9 : BitVec 32 := Scf.iv c0_i32_169 c1_i32_171 k2_t6
  let v716 : Index := Scalar.indexCast arg9
  let c0_i32_802 : BitVec 32 := 0#32
  let v717 : Index := Scalar.indexCast c0_i32_802
  let c80_803 : Index := 80#32
  ![1, v716.toNat, 0, 80]
def k2_off342 (k2_t6 : Fin k2_t6_loop.trips) : Fin 3 → Nat :=
  let c1_i32_804 : BitVec 32 := 1#32
  let v721 : Index := Scalar.indexCast c1_i32_804
  let c0_i32_169 : BitVec 32 := 0#32
  let c1_i32_171 : BitVec 32 := 1#32
  let arg9 : BitVec 32 := Scf.iv c0_i32_169 c1_i32_171 k2_t6
  let v722 : Index := Scalar.indexCast arg9
  let c96 : Index := 96#32
  ![1, v722.toNat, 96]
def k2_off343 (k2_t6 : Fin k2_t6_loop.trips) : Fin 4 → Nat :=
  let c1_i32_805 : BitVec 32 := 1#32
  let v725 : Index := Scalar.indexCast c1_i32_805
  let c0_i32_169 : BitVec 32 := 0#32
  let c1_i32_171 : BitVec 32 := 1#32
  let arg9 : BitVec 32 := Scf.iv c0_i32_169 c1_i32_171 k2_t6
  let v726 : Index := Scalar.indexCast arg9
  let c0_i32_806 : BitVec 32 := 0#32
  let v727 : Index := Scalar.indexCast c0_i32_806
  let c96_807 : Index := 96#32
  ![1, v726.toNat, 0, 96]
def k2_off344 (k2_t6 : Fin k2_t6_loop.trips) : Fin 3 → Nat :=
  let c1_i32_808 : BitVec 32 := 1#32
  let v731 : Index := Scalar.indexCast c1_i32_808
  let c0_i32_169 : BitVec 32 := 0#32
  let c1_i32_171 : BitVec 32 := 1#32
  let arg9 : BitVec 32 := Scf.iv c0_i32_169 c1_i32_171 k2_t6
  let v732 : Index := Scalar.indexCast arg9
  let c112 : Index := 112#32
  ![1, v732.toNat, 112]
def k2_off345 (k2_t6 : Fin k2_t6_loop.trips) : Fin 4 → Nat :=
  let c1_i32_809 : BitVec 32 := 1#32
  let v735 : Index := Scalar.indexCast c1_i32_809
  let c0_i32_169 : BitVec 32 := 0#32
  let c1_i32_171 : BitVec 32 := 1#32
  let arg9 : BitVec 32 := Scf.iv c0_i32_169 c1_i32_171 k2_t6
  let v736 : Index := Scalar.indexCast arg9
  let c0_i32_810 : BitVec 32 := 0#32
  let v737 : Index := Scalar.indexCast c0_i32_810
  let c112_811 : Index := 112#32
  ![1, v736.toNat, 0, 112]
def k2_off346 (k2_t6 : Fin k2_t6_loop.trips) : Fin 3 → Nat :=
  let c1_i32_812 : BitVec 32 := 1#32
  let v741 : Index := Scalar.indexCast c1_i32_812
  let c0_i32_169 : BitVec 32 := 0#32
  let c1_i32_171 : BitVec 32 := 1#32
  let arg9 : BitVec 32 := Scf.iv c0_i32_169 c1_i32_171 k2_t6
  let v742 : Index := Scalar.indexCast arg9
  let c128 : Index := 128#32
  ![1, v742.toNat, 128]
def k2_off347 (k2_t6 : Fin k2_t6_loop.trips) : Fin 4 → Nat :=
  let c1_i32_813 : BitVec 32 := 1#32
  let v745 : Index := Scalar.indexCast c1_i32_813
  let c0_i32_169 : BitVec 32 := 0#32
  let c1_i32_171 : BitVec 32 := 1#32
  let arg9 : BitVec 32 := Scf.iv c0_i32_169 c1_i32_171 k2_t6
  let v746 : Index := Scalar.indexCast arg9
  let c1_i32_814 : BitVec 32 := 1#32
  let v747 : Index := Scalar.indexCast c1_i32_814
  let c0_815 : Index := 0#32
  ![1, v746.toNat, 1, 0]
def k2_off348 (k2_t6 : Fin k2_t6_loop.trips) : Fin 3 → Nat :=
  let c1_i32_816 : BitVec 32 := 1#32
  let v751 : Index := Scalar.indexCast c1_i32_816
  let c0_i32_169 : BitVec 32 := 0#32
  let c1_i32_171 : BitVec 32 := 1#32
  let arg9 : BitVec 32 := Scf.iv c0_i32_169 c1_i32_171 k2_t6
  let v752 : Index := Scalar.indexCast arg9
  let c144 : Index := 144#32
  ![1, v752.toNat, 144]
def k2_off349 (k2_t6 : Fin k2_t6_loop.trips) : Fin 4 → Nat :=
  let c1_i32_817 : BitVec 32 := 1#32
  let v755 : Index := Scalar.indexCast c1_i32_817
  let c0_i32_169 : BitVec 32 := 0#32
  let c1_i32_171 : BitVec 32 := 1#32
  let arg9 : BitVec 32 := Scf.iv c0_i32_169 c1_i32_171 k2_t6
  let v756 : Index := Scalar.indexCast arg9
  let c1_i32_818 : BitVec 32 := 1#32
  let v757 : Index := Scalar.indexCast c1_i32_818
  let c16_819 : Index := 16#32
  ![1, v756.toNat, 1, 16]
def k2_off350 (k2_t6 : Fin k2_t6_loop.trips) : Fin 3 → Nat :=
  let c1_i32_820 : BitVec 32 := 1#32
  let v761 : Index := Scalar.indexCast c1_i32_820
  let c0_i32_169 : BitVec 32 := 0#32
  let c1_i32_171 : BitVec 32 := 1#32
  let arg9 : BitVec 32 := Scf.iv c0_i32_169 c1_i32_171 k2_t6
  let v762 : Index := Scalar.indexCast arg9
  let c160 : Index := 160#32
  ![1, v762.toNat, 160]
def k2_off351 (k2_t6 : Fin k2_t6_loop.trips) : Fin 4 → Nat :=
  let c1_i32_821 : BitVec 32 := 1#32
  let v765 : Index := Scalar.indexCast c1_i32_821
  let c0_i32_169 : BitVec 32 := 0#32
  let c1_i32_171 : BitVec 32 := 1#32
  let arg9 : BitVec 32 := Scf.iv c0_i32_169 c1_i32_171 k2_t6
  let v766 : Index := Scalar.indexCast arg9
  let c1_i32_822 : BitVec 32 := 1#32
  let v767 : Index := Scalar.indexCast c1_i32_822
  let c32_823 : Index := 32#32
  ![1, v766.toNat, 1, 32]
def k2_off352 (k2_t6 : Fin k2_t6_loop.trips) : Fin 3 → Nat :=
  let c1_i32_824 : BitVec 32 := 1#32
  let v771 : Index := Scalar.indexCast c1_i32_824
  let c0_i32_169 : BitVec 32 := 0#32
  let c1_i32_171 : BitVec 32 := 1#32
  let arg9 : BitVec 32 := Scf.iv c0_i32_169 c1_i32_171 k2_t6
  let v772 : Index := Scalar.indexCast arg9
  let c176 : Index := 176#32
  ![1, v772.toNat, 176]
def k2_off353 (k2_t6 : Fin k2_t6_loop.trips) : Fin 4 → Nat :=
  let c1_i32_825 : BitVec 32 := 1#32
  let v775 : Index := Scalar.indexCast c1_i32_825
  let c0_i32_169 : BitVec 32 := 0#32
  let c1_i32_171 : BitVec 32 := 1#32
  let arg9 : BitVec 32 := Scf.iv c0_i32_169 c1_i32_171 k2_t6
  let v776 : Index := Scalar.indexCast arg9
  let c1_i32_826 : BitVec 32 := 1#32
  let v777 : Index := Scalar.indexCast c1_i32_826
  let c48_827 : Index := 48#32
  ![1, v776.toNat, 1, 48]
def k2_off354 (k2_t6 : Fin k2_t6_loop.trips) : Fin 3 → Nat :=
  let c1_i32_828 : BitVec 32 := 1#32
  let v781 : Index := Scalar.indexCast c1_i32_828
  let c0_i32_169 : BitVec 32 := 0#32
  let c1_i32_171 : BitVec 32 := 1#32
  let arg9 : BitVec 32 := Scf.iv c0_i32_169 c1_i32_171 k2_t6
  let v782 : Index := Scalar.indexCast arg9
  let c192 : Index := 192#32
  ![1, v782.toNat, 192]
def k2_off355 (k2_t6 : Fin k2_t6_loop.trips) : Fin 4 → Nat :=
  let c1_i32_829 : BitVec 32 := 1#32
  let v785 : Index := Scalar.indexCast c1_i32_829
  let c0_i32_169 : BitVec 32 := 0#32
  let c1_i32_171 : BitVec 32 := 1#32
  let arg9 : BitVec 32 := Scf.iv c0_i32_169 c1_i32_171 k2_t6
  let v786 : Index := Scalar.indexCast arg9
  let c1_i32_830 : BitVec 32 := 1#32
  let v787 : Index := Scalar.indexCast c1_i32_830
  let c64_831 : Index := 64#32
  ![1, v786.toNat, 1, 64]
def k2_off356 (k2_t6 : Fin k2_t6_loop.trips) : Fin 3 → Nat :=
  let c1_i32_832 : BitVec 32 := 1#32
  let v791 : Index := Scalar.indexCast c1_i32_832
  let c0_i32_169 : BitVec 32 := 0#32
  let c1_i32_171 : BitVec 32 := 1#32
  let arg9 : BitVec 32 := Scf.iv c0_i32_169 c1_i32_171 k2_t6
  let v792 : Index := Scalar.indexCast arg9
  let c208 : Index := 208#32
  ![1, v792.toNat, 208]
def k2_off357 (k2_t6 : Fin k2_t6_loop.trips) : Fin 4 → Nat :=
  let c1_i32_833 : BitVec 32 := 1#32
  let v795 : Index := Scalar.indexCast c1_i32_833
  let c0_i32_169 : BitVec 32 := 0#32
  let c1_i32_171 : BitVec 32 := 1#32
  let arg9 : BitVec 32 := Scf.iv c0_i32_169 c1_i32_171 k2_t6
  let v796 : Index := Scalar.indexCast arg9
  let c1_i32_834 : BitVec 32 := 1#32
  let v797 : Index := Scalar.indexCast c1_i32_834
  let c80_835 : Index := 80#32
  ![1, v796.toNat, 1, 80]
def k2_off358 (k2_t6 : Fin k2_t6_loop.trips) : Fin 3 → Nat :=
  let c1_i32_836 : BitVec 32 := 1#32
  let v801 : Index := Scalar.indexCast c1_i32_836
  let c0_i32_169 : BitVec 32 := 0#32
  let c1_i32_171 : BitVec 32 := 1#32
  let arg9 : BitVec 32 := Scf.iv c0_i32_169 c1_i32_171 k2_t6
  let v802 : Index := Scalar.indexCast arg9
  let c224 : Index := 224#32
  ![1, v802.toNat, 224]
def k2_off359 (k2_t6 : Fin k2_t6_loop.trips) : Fin 4 → Nat :=
  let c1_i32_837 : BitVec 32 := 1#32
  let v805 : Index := Scalar.indexCast c1_i32_837
  let c0_i32_169 : BitVec 32 := 0#32
  let c1_i32_171 : BitVec 32 := 1#32
  let arg9 : BitVec 32 := Scf.iv c0_i32_169 c1_i32_171 k2_t6
  let v806 : Index := Scalar.indexCast arg9
  let c1_i32_838 : BitVec 32 := 1#32
  let v807 : Index := Scalar.indexCast c1_i32_838
  let c96_839 : Index := 96#32
  ![1, v806.toNat, 1, 96]
def k2_off360 (k2_t6 : Fin k2_t6_loop.trips) : Fin 3 → Nat :=
  let c1_i32_840 : BitVec 32 := 1#32
  let v811 : Index := Scalar.indexCast c1_i32_840
  let c0_i32_169 : BitVec 32 := 0#32
  let c1_i32_171 : BitVec 32 := 1#32
  let arg9 : BitVec 32 := Scf.iv c0_i32_169 c1_i32_171 k2_t6
  let v812 : Index := Scalar.indexCast arg9
  let c240 : Index := 240#32
  ![1, v812.toNat, 240]
def k2_off361 (k2_t6 : Fin k2_t6_loop.trips) : Fin 4 → Nat :=
  let c1_i32_841 : BitVec 32 := 1#32
  let v815 : Index := Scalar.indexCast c1_i32_841
  let c0_i32_169 : BitVec 32 := 0#32
  let c1_i32_171 : BitVec 32 := 1#32
  let arg9 : BitVec 32 := Scf.iv c0_i32_169 c1_i32_171 k2_t6
  let v816 : Index := Scalar.indexCast arg9
  let c1_i32_842 : BitVec 32 := 1#32
  let v817 : Index := Scalar.indexCast c1_i32_842
  let c112_843 : Index := 112#32
  ![1, v816.toNat, 1, 112]
def k2_off362 (k2_t6 : Fin k2_t6_loop.trips) : Fin 3 → Nat :=
  let c1_i32_844 : BitVec 32 := 1#32
  let v821 : Index := Scalar.indexCast c1_i32_844
  let c0_i32_169 : BitVec 32 := 0#32
  let c1_i32_171 : BitVec 32 := 1#32
  let arg9 : BitVec 32 := Scf.iv c0_i32_169 c1_i32_171 k2_t6
  let v822 : Index := Scalar.indexCast arg9
  let c256 : Index := 256#32
  ![1, v822.toNat, 256]
def k2_off363 (k2_t6 : Fin k2_t6_loop.trips) : Fin 4 → Nat :=
  let c1_i32_845 : BitVec 32 := 1#32
  let v825 : Index := Scalar.indexCast c1_i32_845
  let c0_i32_169 : BitVec 32 := 0#32
  let c1_i32_171 : BitVec 32 := 1#32
  let arg9 : BitVec 32 := Scf.iv c0_i32_169 c1_i32_171 k2_t6
  let v826 : Index := Scalar.indexCast arg9
  let c2_i32_846 : BitVec 32 := 2#32
  let v827 : Index := Scalar.indexCast c2_i32_846
  let c0_847 : Index := 0#32
  ![1, v826.toNat, 2, 0]
def k2_off364 (k2_t6 : Fin k2_t6_loop.trips) : Fin 3 → Nat :=
  let c1_i32_848 : BitVec 32 := 1#32
  let v831 : Index := Scalar.indexCast c1_i32_848
  let c0_i32_169 : BitVec 32 := 0#32
  let c1_i32_171 : BitVec 32 := 1#32
  let arg9 : BitVec 32 := Scf.iv c0_i32_169 c1_i32_171 k2_t6
  let v832 : Index := Scalar.indexCast arg9
  let c272 : Index := 272#32
  ![1, v832.toNat, 272]
def k2_off365 (k2_t6 : Fin k2_t6_loop.trips) : Fin 4 → Nat :=
  let c1_i32_849 : BitVec 32 := 1#32
  let v835 : Index := Scalar.indexCast c1_i32_849
  let c0_i32_169 : BitVec 32 := 0#32
  let c1_i32_171 : BitVec 32 := 1#32
  let arg9 : BitVec 32 := Scf.iv c0_i32_169 c1_i32_171 k2_t6
  let v836 : Index := Scalar.indexCast arg9
  let c2_i32_850 : BitVec 32 := 2#32
  let v837 : Index := Scalar.indexCast c2_i32_850
  let c16_851 : Index := 16#32
  ![1, v836.toNat, 2, 16]
def k2_off366 (k2_t6 : Fin k2_t6_loop.trips) : Fin 3 → Nat :=
  let c1_i32_852 : BitVec 32 := 1#32
  let v841 : Index := Scalar.indexCast c1_i32_852
  let c0_i32_169 : BitVec 32 := 0#32
  let c1_i32_171 : BitVec 32 := 1#32
  let arg9 : BitVec 32 := Scf.iv c0_i32_169 c1_i32_171 k2_t6
  let v842 : Index := Scalar.indexCast arg9
  let c288 : Index := 288#32
  ![1, v842.toNat, 288]
def k2_off367 (k2_t6 : Fin k2_t6_loop.trips) : Fin 4 → Nat :=
  let c1_i32_853 : BitVec 32 := 1#32
  let v845 : Index := Scalar.indexCast c1_i32_853
  let c0_i32_169 : BitVec 32 := 0#32
  let c1_i32_171 : BitVec 32 := 1#32
  let arg9 : BitVec 32 := Scf.iv c0_i32_169 c1_i32_171 k2_t6
  let v846 : Index := Scalar.indexCast arg9
  let c2_i32_854 : BitVec 32 := 2#32
  let v847 : Index := Scalar.indexCast c2_i32_854
  let c32_855 : Index := 32#32
  ![1, v846.toNat, 2, 32]
def k2_off368 (k2_t6 : Fin k2_t6_loop.trips) : Fin 3 → Nat :=
  let c1_i32_856 : BitVec 32 := 1#32
  let v851 : Index := Scalar.indexCast c1_i32_856
  let c0_i32_169 : BitVec 32 := 0#32
  let c1_i32_171 : BitVec 32 := 1#32
  let arg9 : BitVec 32 := Scf.iv c0_i32_169 c1_i32_171 k2_t6
  let v852 : Index := Scalar.indexCast arg9
  let c304 : Index := 304#32
  ![1, v852.toNat, 304]
def k2_off369 (k2_t6 : Fin k2_t6_loop.trips) : Fin 4 → Nat :=
  let c1_i32_857 : BitVec 32 := 1#32
  let v855 : Index := Scalar.indexCast c1_i32_857
  let c0_i32_169 : BitVec 32 := 0#32
  let c1_i32_171 : BitVec 32 := 1#32
  let arg9 : BitVec 32 := Scf.iv c0_i32_169 c1_i32_171 k2_t6
  let v856 : Index := Scalar.indexCast arg9
  let c2_i32_858 : BitVec 32 := 2#32
  let v857 : Index := Scalar.indexCast c2_i32_858
  let c48_859 : Index := 48#32
  ![1, v856.toNat, 2, 48]
def k2_off370 (k2_t6 : Fin k2_t6_loop.trips) : Fin 3 → Nat :=
  let c1_i32_860 : BitVec 32 := 1#32
  let v861 : Index := Scalar.indexCast c1_i32_860
  let c0_i32_169 : BitVec 32 := 0#32
  let c1_i32_171 : BitVec 32 := 1#32
  let arg9 : BitVec 32 := Scf.iv c0_i32_169 c1_i32_171 k2_t6
  let v862 : Index := Scalar.indexCast arg9
  let c320 : Index := 320#32
  ![1, v862.toNat, 320]
def k2_off371 (k2_t6 : Fin k2_t6_loop.trips) : Fin 4 → Nat :=
  let c1_i32_861 : BitVec 32 := 1#32
  let v865 : Index := Scalar.indexCast c1_i32_861
  let c0_i32_169 : BitVec 32 := 0#32
  let c1_i32_171 : BitVec 32 := 1#32
  let arg9 : BitVec 32 := Scf.iv c0_i32_169 c1_i32_171 k2_t6
  let v866 : Index := Scalar.indexCast arg9
  let c2_i32_862 : BitVec 32 := 2#32
  let v867 : Index := Scalar.indexCast c2_i32_862
  let c64_863 : Index := 64#32
  ![1, v866.toNat, 2, 64]
def k2_off372 (k2_t6 : Fin k2_t6_loop.trips) : Fin 3 → Nat :=
  let c1_i32_864 : BitVec 32 := 1#32
  let v871 : Index := Scalar.indexCast c1_i32_864
  let c0_i32_169 : BitVec 32 := 0#32
  let c1_i32_171 : BitVec 32 := 1#32
  let arg9 : BitVec 32 := Scf.iv c0_i32_169 c1_i32_171 k2_t6
  let v872 : Index := Scalar.indexCast arg9
  let c336 : Index := 336#32
  ![1, v872.toNat, 336]
def k2_off373 (k2_t6 : Fin k2_t6_loop.trips) : Fin 4 → Nat :=
  let c1_i32_865 : BitVec 32 := 1#32
  let v875 : Index := Scalar.indexCast c1_i32_865
  let c0_i32_169 : BitVec 32 := 0#32
  let c1_i32_171 : BitVec 32 := 1#32
  let arg9 : BitVec 32 := Scf.iv c0_i32_169 c1_i32_171 k2_t6
  let v876 : Index := Scalar.indexCast arg9
  let c2_i32_866 : BitVec 32 := 2#32
  let v877 : Index := Scalar.indexCast c2_i32_866
  let c80_867 : Index := 80#32
  ![1, v876.toNat, 2, 80]
def k2_off374 (k2_t6 : Fin k2_t6_loop.trips) : Fin 3 → Nat :=
  let c1_i32_868 : BitVec 32 := 1#32
  let v881 : Index := Scalar.indexCast c1_i32_868
  let c0_i32_169 : BitVec 32 := 0#32
  let c1_i32_171 : BitVec 32 := 1#32
  let arg9 : BitVec 32 := Scf.iv c0_i32_169 c1_i32_171 k2_t6
  let v882 : Index := Scalar.indexCast arg9
  let c352 : Index := 352#32
  ![1, v882.toNat, 352]
def k2_off375 (k2_t6 : Fin k2_t6_loop.trips) : Fin 4 → Nat :=
  let c1_i32_869 : BitVec 32 := 1#32
  let v885 : Index := Scalar.indexCast c1_i32_869
  let c0_i32_169 : BitVec 32 := 0#32
  let c1_i32_171 : BitVec 32 := 1#32
  let arg9 : BitVec 32 := Scf.iv c0_i32_169 c1_i32_171 k2_t6
  let v886 : Index := Scalar.indexCast arg9
  let c2_i32_870 : BitVec 32 := 2#32
  let v887 : Index := Scalar.indexCast c2_i32_870
  let c96_871 : Index := 96#32
  ![1, v886.toNat, 2, 96]
def k2_off376 (k2_t6 : Fin k2_t6_loop.trips) : Fin 3 → Nat :=
  let c1_i32_872 : BitVec 32 := 1#32
  let v891 : Index := Scalar.indexCast c1_i32_872
  let c0_i32_169 : BitVec 32 := 0#32
  let c1_i32_171 : BitVec 32 := 1#32
  let arg9 : BitVec 32 := Scf.iv c0_i32_169 c1_i32_171 k2_t6
  let v892 : Index := Scalar.indexCast arg9
  let c368 : Index := 368#32
  ![1, v892.toNat, 368]
def k2_off377 (k2_t6 : Fin k2_t6_loop.trips) : Fin 4 → Nat :=
  let c1_i32_873 : BitVec 32 := 1#32
  let v895 : Index := Scalar.indexCast c1_i32_873
  let c0_i32_169 : BitVec 32 := 0#32
  let c1_i32_171 : BitVec 32 := 1#32
  let arg9 : BitVec 32 := Scf.iv c0_i32_169 c1_i32_171 k2_t6
  let v896 : Index := Scalar.indexCast arg9
  let c2_i32_874 : BitVec 32 := 2#32
  let v897 : Index := Scalar.indexCast c2_i32_874
  let c112_875 : Index := 112#32
  ![1, v896.toNat, 2, 112]
def k2_off378 (k2_t6 : Fin k2_t6_loop.trips) : Fin 3 → Nat :=
  let c1_i32_876 : BitVec 32 := 1#32
  let v901 : Index := Scalar.indexCast c1_i32_876
  let c0_i32_169 : BitVec 32 := 0#32
  let c1_i32_171 : BitVec 32 := 1#32
  let arg9 : BitVec 32 := Scf.iv c0_i32_169 c1_i32_171 k2_t6
  let v902 : Index := Scalar.indexCast arg9
  let c384 : Index := 384#32
  ![1, v902.toNat, 384]
def k2_off379 (k2_t6 : Fin k2_t6_loop.trips) : Fin 4 → Nat :=
  let c1_i32_877 : BitVec 32 := 1#32
  let v905 : Index := Scalar.indexCast c1_i32_877
  let c0_i32_169 : BitVec 32 := 0#32
  let c1_i32_171 : BitVec 32 := 1#32
  let arg9 : BitVec 32 := Scf.iv c0_i32_169 c1_i32_171 k2_t6
  let v906 : Index := Scalar.indexCast arg9
  let c3_i32_878 : BitVec 32 := 3#32
  let v907 : Index := Scalar.indexCast c3_i32_878
  let c0_879 : Index := 0#32
  ![1, v906.toNat, 3, 0]
def k2_off380 (k2_t6 : Fin k2_t6_loop.trips) : Fin 3 → Nat :=
  let c1_i32_880 : BitVec 32 := 1#32
  let v911 : Index := Scalar.indexCast c1_i32_880
  let c0_i32_169 : BitVec 32 := 0#32
  let c1_i32_171 : BitVec 32 := 1#32
  let arg9 : BitVec 32 := Scf.iv c0_i32_169 c1_i32_171 k2_t6
  let v912 : Index := Scalar.indexCast arg9
  let c400 : Index := 400#32
  ![1, v912.toNat, 400]
def k2_off381 (k2_t6 : Fin k2_t6_loop.trips) : Fin 4 → Nat :=
  let c1_i32_881 : BitVec 32 := 1#32
  let v915 : Index := Scalar.indexCast c1_i32_881
  let c0_i32_169 : BitVec 32 := 0#32
  let c1_i32_171 : BitVec 32 := 1#32
  let arg9 : BitVec 32 := Scf.iv c0_i32_169 c1_i32_171 k2_t6
  let v916 : Index := Scalar.indexCast arg9
  let c3_i32_882 : BitVec 32 := 3#32
  let v917 : Index := Scalar.indexCast c3_i32_882
  let c16_883 : Index := 16#32
  ![1, v916.toNat, 3, 16]
def k2_off382 (k2_t6 : Fin k2_t6_loop.trips) : Fin 3 → Nat :=
  let c1_i32_884 : BitVec 32 := 1#32
  let v921 : Index := Scalar.indexCast c1_i32_884
  let c0_i32_169 : BitVec 32 := 0#32
  let c1_i32_171 : BitVec 32 := 1#32
  let arg9 : BitVec 32 := Scf.iv c0_i32_169 c1_i32_171 k2_t6
  let v922 : Index := Scalar.indexCast arg9
  let c416 : Index := 416#32
  ![1, v922.toNat, 416]
def k2_off383 (k2_t6 : Fin k2_t6_loop.trips) : Fin 4 → Nat :=
  let c1_i32_885 : BitVec 32 := 1#32
  let v925 : Index := Scalar.indexCast c1_i32_885
  let c0_i32_169 : BitVec 32 := 0#32
  let c1_i32_171 : BitVec 32 := 1#32
  let arg9 : BitVec 32 := Scf.iv c0_i32_169 c1_i32_171 k2_t6
  let v926 : Index := Scalar.indexCast arg9
  let c3_i32_886 : BitVec 32 := 3#32
  let v927 : Index := Scalar.indexCast c3_i32_886
  let c32_887 : Index := 32#32
  ![1, v926.toNat, 3, 32]
def k2_off384 (k2_t6 : Fin k2_t6_loop.trips) : Fin 3 → Nat :=
  let c1_i32_888 : BitVec 32 := 1#32
  let v931 : Index := Scalar.indexCast c1_i32_888
  let c0_i32_169 : BitVec 32 := 0#32
  let c1_i32_171 : BitVec 32 := 1#32
  let arg9 : BitVec 32 := Scf.iv c0_i32_169 c1_i32_171 k2_t6
  let v932 : Index := Scalar.indexCast arg9
  let c432 : Index := 432#32
  ![1, v932.toNat, 432]
def k2_off385 (k2_t6 : Fin k2_t6_loop.trips) : Fin 4 → Nat :=
  let c1_i32_889 : BitVec 32 := 1#32
  let v935 : Index := Scalar.indexCast c1_i32_889
  let c0_i32_169 : BitVec 32 := 0#32
  let c1_i32_171 : BitVec 32 := 1#32
  let arg9 : BitVec 32 := Scf.iv c0_i32_169 c1_i32_171 k2_t6
  let v936 : Index := Scalar.indexCast arg9
  let c3_i32_890 : BitVec 32 := 3#32
  let v937 : Index := Scalar.indexCast c3_i32_890
  let c48_891 : Index := 48#32
  ![1, v936.toNat, 3, 48]
def k2_off386 (k2_t6 : Fin k2_t6_loop.trips) : Fin 3 → Nat :=
  let c1_i32_892 : BitVec 32 := 1#32
  let v941 : Index := Scalar.indexCast c1_i32_892
  let c0_i32_169 : BitVec 32 := 0#32
  let c1_i32_171 : BitVec 32 := 1#32
  let arg9 : BitVec 32 := Scf.iv c0_i32_169 c1_i32_171 k2_t6
  let v942 : Index := Scalar.indexCast arg9
  let c448 : Index := 448#32
  ![1, v942.toNat, 448]
def k2_off387 (k2_t6 : Fin k2_t6_loop.trips) : Fin 4 → Nat :=
  let c1_i32_893 : BitVec 32 := 1#32
  let v945 : Index := Scalar.indexCast c1_i32_893
  let c0_i32_169 : BitVec 32 := 0#32
  let c1_i32_171 : BitVec 32 := 1#32
  let arg9 : BitVec 32 := Scf.iv c0_i32_169 c1_i32_171 k2_t6
  let v946 : Index := Scalar.indexCast arg9
  let c3_i32_894 : BitVec 32 := 3#32
  let v947 : Index := Scalar.indexCast c3_i32_894
  let c64_895 : Index := 64#32
  ![1, v946.toNat, 3, 64]
def k2_off388 (k2_t6 : Fin k2_t6_loop.trips) : Fin 3 → Nat :=
  let c1_i32_896 : BitVec 32 := 1#32
  let v951 : Index := Scalar.indexCast c1_i32_896
  let c0_i32_169 : BitVec 32 := 0#32
  let c1_i32_171 : BitVec 32 := 1#32
  let arg9 : BitVec 32 := Scf.iv c0_i32_169 c1_i32_171 k2_t6
  let v952 : Index := Scalar.indexCast arg9
  let c464 : Index := 464#32
  ![1, v952.toNat, 464]
def k2_off389 (k2_t6 : Fin k2_t6_loop.trips) : Fin 4 → Nat :=
  let c1_i32_897 : BitVec 32 := 1#32
  let v955 : Index := Scalar.indexCast c1_i32_897
  let c0_i32_169 : BitVec 32 := 0#32
  let c1_i32_171 : BitVec 32 := 1#32
  let arg9 : BitVec 32 := Scf.iv c0_i32_169 c1_i32_171 k2_t6
  let v956 : Index := Scalar.indexCast arg9
  let c3_i32_898 : BitVec 32 := 3#32
  let v957 : Index := Scalar.indexCast c3_i32_898
  let c80_899 : Index := 80#32
  ![1, v956.toNat, 3, 80]
def k2_off390 (k2_t6 : Fin k2_t6_loop.trips) : Fin 3 → Nat :=
  let c1_i32_900 : BitVec 32 := 1#32
  let v961 : Index := Scalar.indexCast c1_i32_900
  let c0_i32_169 : BitVec 32 := 0#32
  let c1_i32_171 : BitVec 32 := 1#32
  let arg9 : BitVec 32 := Scf.iv c0_i32_169 c1_i32_171 k2_t6
  let v962 : Index := Scalar.indexCast arg9
  let c480 : Index := 480#32
  ![1, v962.toNat, 480]
def k2_off391 (k2_t6 : Fin k2_t6_loop.trips) : Fin 4 → Nat :=
  let c1_i32_901 : BitVec 32 := 1#32
  let v965 : Index := Scalar.indexCast c1_i32_901
  let c0_i32_169 : BitVec 32 := 0#32
  let c1_i32_171 : BitVec 32 := 1#32
  let arg9 : BitVec 32 := Scf.iv c0_i32_169 c1_i32_171 k2_t6
  let v966 : Index := Scalar.indexCast arg9
  let c3_i32_902 : BitVec 32 := 3#32
  let v967 : Index := Scalar.indexCast c3_i32_902
  let c96_903 : Index := 96#32
  ![1, v966.toNat, 3, 96]
def k2_off392 (k2_t6 : Fin k2_t6_loop.trips) : Fin 3 → Nat :=
  let c1_i32_904 : BitVec 32 := 1#32
  let v971 : Index := Scalar.indexCast c1_i32_904
  let c0_i32_169 : BitVec 32 := 0#32
  let c1_i32_171 : BitVec 32 := 1#32
  let arg9 : BitVec 32 := Scf.iv c0_i32_169 c1_i32_171 k2_t6
  let v972 : Index := Scalar.indexCast arg9
  let c496 : Index := 496#32
  ![1, v972.toNat, 496]
def k2_off393 (k2_t6 : Fin k2_t6_loop.trips) : Fin 4 → Nat :=
  let c1_i32_905 : BitVec 32 := 1#32
  let v975 : Index := Scalar.indexCast c1_i32_905
  let c0_i32_169 : BitVec 32 := 0#32
  let c1_i32_171 : BitVec 32 := 1#32
  let arg9 : BitVec 32 := Scf.iv c0_i32_169 c1_i32_171 k2_t6
  let v976 : Index := Scalar.indexCast arg9
  let c3_i32_906 : BitVec 32 := 3#32
  let v977 : Index := Scalar.indexCast c3_i32_906
  let c112_907 : Index := 112#32
  ![1, v976.toNat, 3, 112]
def k2_off394 (i : grid2.Coords) : Fin 4 → Nat :=
  let c3_i32_174 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_179 : BitVec 32 := 0#32
  let c0_i32_180 : BitVec 32 := 0#32
  ![3, v2.toNat, 0, 0]
def k2_off395 (i : grid2.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_199 : BitVec 32 := 0#32
  ![5, v2.toNat, 0]
@[reducible] def k2_t7_loop : Scf.Loop 32 :=
  let c0_i32_217 : BitVec 32 := 0#32
  let c32_i32_218 : BitVec 32 := 32#32
  let v189 : BitVec 32 := Scalar.addi c0_i32_217 c32_i32_218
  let c1_i32_219 : BitVec 32 := 1#32
  ⟨c0_i32_217, v189, c1_i32_219⟩
def k2_off396 (k2_t7 : Fin k2_t7_loop.trips) : Fin 3 → Nat :=
  let c0_i32_780 : BitVec 32 := 0#32
  let v661 : Index := Scalar.indexCast c0_i32_780
  let c0_i32_217 : BitVec 32 := 0#32
  let c1_i32_219 : BitVec 32 := 1#32
  let arg9 : BitVec 32 := Scf.iv c0_i32_217 c1_i32_219 k2_t7
  let v662 : Index := Scalar.indexCast arg9
  let c0 : Index := 0#32
  ![0, v662.toNat, 0]
def k2_off397 (k2_t7 : Fin k2_t7_loop.trips) : Fin 4 → Nat :=
  let c0_i32_781 : BitVec 32 := 0#32
  let v665 : Index := Scalar.indexCast c0_i32_781
  let c0_i32_217 : BitVec 32 := 0#32
  let c1_i32_219 : BitVec 32 := 1#32
  let arg9 : BitVec 32 := Scf.iv c0_i32_217 c1_i32_219 k2_t7
  let v666 : Index := Scalar.indexCast arg9
  let c0_i32_782 : BitVec 32 := 0#32
  let v667 : Index := Scalar.indexCast c0_i32_782
  let c0_783 : Index := 0#32
  ![0, v666.toNat, 0, 0]
def k2_off398 (k2_t7 : Fin k2_t7_loop.trips) : Fin 3 → Nat :=
  let c0_i32_784 : BitVec 32 := 0#32
  let v671 : Index := Scalar.indexCast c0_i32_784
  let c0_i32_217 : BitVec 32 := 0#32
  let c1_i32_219 : BitVec 32 := 1#32
  let arg9 : BitVec 32 := Scf.iv c0_i32_217 c1_i32_219 k2_t7
  let v672 : Index := Scalar.indexCast arg9
  let c16 : Index := 16#32
  ![0, v672.toNat, 16]
def k2_off399 (k2_t7 : Fin k2_t7_loop.trips) : Fin 4 → Nat :=
  let c0_i32_785 : BitVec 32 := 0#32
  let v675 : Index := Scalar.indexCast c0_i32_785
  let c0_i32_217 : BitVec 32 := 0#32
  let c1_i32_219 : BitVec 32 := 1#32
  let arg9 : BitVec 32 := Scf.iv c0_i32_217 c1_i32_219 k2_t7
  let v676 : Index := Scalar.indexCast arg9
  let c0_i32_786 : BitVec 32 := 0#32
  let v677 : Index := Scalar.indexCast c0_i32_786
  let c16_787 : Index := 16#32
  ![0, v676.toNat, 0, 16]
def k2_off400 (k2_t7 : Fin k2_t7_loop.trips) : Fin 3 → Nat :=
  let c0_i32_788 : BitVec 32 := 0#32
  let v681 : Index := Scalar.indexCast c0_i32_788
  let c0_i32_217 : BitVec 32 := 0#32
  let c1_i32_219 : BitVec 32 := 1#32
  let arg9 : BitVec 32 := Scf.iv c0_i32_217 c1_i32_219 k2_t7
  let v682 : Index := Scalar.indexCast arg9
  let c32 : Index := 32#32
  ![0, v682.toNat, 32]
def k2_off401 (k2_t7 : Fin k2_t7_loop.trips) : Fin 4 → Nat :=
  let c0_i32_789 : BitVec 32 := 0#32
  let v685 : Index := Scalar.indexCast c0_i32_789
  let c0_i32_217 : BitVec 32 := 0#32
  let c1_i32_219 : BitVec 32 := 1#32
  let arg9 : BitVec 32 := Scf.iv c0_i32_217 c1_i32_219 k2_t7
  let v686 : Index := Scalar.indexCast arg9
  let c0_i32_790 : BitVec 32 := 0#32
  let v687 : Index := Scalar.indexCast c0_i32_790
  let c32_791 : Index := 32#32
  ![0, v686.toNat, 0, 32]
def k2_off402 (k2_t7 : Fin k2_t7_loop.trips) : Fin 3 → Nat :=
  let c0_i32_792 : BitVec 32 := 0#32
  let v691 : Index := Scalar.indexCast c0_i32_792
  let c0_i32_217 : BitVec 32 := 0#32
  let c1_i32_219 : BitVec 32 := 1#32
  let arg9 : BitVec 32 := Scf.iv c0_i32_217 c1_i32_219 k2_t7
  let v692 : Index := Scalar.indexCast arg9
  let c48 : Index := 48#32
  ![0, v692.toNat, 48]
def k2_off403 (k2_t7 : Fin k2_t7_loop.trips) : Fin 4 → Nat :=
  let c0_i32_793 : BitVec 32 := 0#32
  let v695 : Index := Scalar.indexCast c0_i32_793
  let c0_i32_217 : BitVec 32 := 0#32
  let c1_i32_219 : BitVec 32 := 1#32
  let arg9 : BitVec 32 := Scf.iv c0_i32_217 c1_i32_219 k2_t7
  let v696 : Index := Scalar.indexCast arg9
  let c0_i32_794 : BitVec 32 := 0#32
  let v697 : Index := Scalar.indexCast c0_i32_794
  let c48_795 : Index := 48#32
  ![0, v696.toNat, 0, 48]
def k2_off404 (k2_t7 : Fin k2_t7_loop.trips) : Fin 3 → Nat :=
  let c0_i32_796 : BitVec 32 := 0#32
  let v701 : Index := Scalar.indexCast c0_i32_796
  let c0_i32_217 : BitVec 32 := 0#32
  let c1_i32_219 : BitVec 32 := 1#32
  let arg9 : BitVec 32 := Scf.iv c0_i32_217 c1_i32_219 k2_t7
  let v702 : Index := Scalar.indexCast arg9
  let c64 : Index := 64#32
  ![0, v702.toNat, 64]
def k2_off405 (k2_t7 : Fin k2_t7_loop.trips) : Fin 4 → Nat :=
  let c0_i32_797 : BitVec 32 := 0#32
  let v705 : Index := Scalar.indexCast c0_i32_797
  let c0_i32_217 : BitVec 32 := 0#32
  let c1_i32_219 : BitVec 32 := 1#32
  let arg9 : BitVec 32 := Scf.iv c0_i32_217 c1_i32_219 k2_t7
  let v706 : Index := Scalar.indexCast arg9
  let c0_i32_798 : BitVec 32 := 0#32
  let v707 : Index := Scalar.indexCast c0_i32_798
  let c64_799 : Index := 64#32
  ![0, v706.toNat, 0, 64]
def k2_off406 (k2_t7 : Fin k2_t7_loop.trips) : Fin 3 → Nat :=
  let c0_i32_800 : BitVec 32 := 0#32
  let v711 : Index := Scalar.indexCast c0_i32_800
  let c0_i32_217 : BitVec 32 := 0#32
  let c1_i32_219 : BitVec 32 := 1#32
  let arg9 : BitVec 32 := Scf.iv c0_i32_217 c1_i32_219 k2_t7
  let v712 : Index := Scalar.indexCast arg9
  let c80 : Index := 80#32
  ![0, v712.toNat, 80]
def k2_off407 (k2_t7 : Fin k2_t7_loop.trips) : Fin 4 → Nat :=
  let c0_i32_801 : BitVec 32 := 0#32
  let v715 : Index := Scalar.indexCast c0_i32_801
  let c0_i32_217 : BitVec 32 := 0#32
  let c1_i32_219 : BitVec 32 := 1#32
  let arg9 : BitVec 32 := Scf.iv c0_i32_217 c1_i32_219 k2_t7
  let v716 : Index := Scalar.indexCast arg9
  let c0_i32_802 : BitVec 32 := 0#32
  let v717 : Index := Scalar.indexCast c0_i32_802
  let c80_803 : Index := 80#32
  ![0, v716.toNat, 0, 80]
def k2_off408 (k2_t7 : Fin k2_t7_loop.trips) : Fin 3 → Nat :=
  let c0_i32_804 : BitVec 32 := 0#32
  let v721 : Index := Scalar.indexCast c0_i32_804
  let c0_i32_217 : BitVec 32 := 0#32
  let c1_i32_219 : BitVec 32 := 1#32
  let arg9 : BitVec 32 := Scf.iv c0_i32_217 c1_i32_219 k2_t7
  let v722 : Index := Scalar.indexCast arg9
  let c96 : Index := 96#32
  ![0, v722.toNat, 96]
def k2_off409 (k2_t7 : Fin k2_t7_loop.trips) : Fin 4 → Nat :=
  let c0_i32_805 : BitVec 32 := 0#32
  let v725 : Index := Scalar.indexCast c0_i32_805
  let c0_i32_217 : BitVec 32 := 0#32
  let c1_i32_219 : BitVec 32 := 1#32
  let arg9 : BitVec 32 := Scf.iv c0_i32_217 c1_i32_219 k2_t7
  let v726 : Index := Scalar.indexCast arg9
  let c0_i32_806 : BitVec 32 := 0#32
  let v727 : Index := Scalar.indexCast c0_i32_806
  let c96_807 : Index := 96#32
  ![0, v726.toNat, 0, 96]
def k2_off410 (k2_t7 : Fin k2_t7_loop.trips) : Fin 3 → Nat :=
  let c0_i32_808 : BitVec 32 := 0#32
  let v731 : Index := Scalar.indexCast c0_i32_808
  let c0_i32_217 : BitVec 32 := 0#32
  let c1_i32_219 : BitVec 32 := 1#32
  let arg9 : BitVec 32 := Scf.iv c0_i32_217 c1_i32_219 k2_t7
  let v732 : Index := Scalar.indexCast arg9
  let c112 : Index := 112#32
  ![0, v732.toNat, 112]
def k2_off411 (k2_t7 : Fin k2_t7_loop.trips) : Fin 4 → Nat :=
  let c0_i32_809 : BitVec 32 := 0#32
  let v735 : Index := Scalar.indexCast c0_i32_809
  let c0_i32_217 : BitVec 32 := 0#32
  let c1_i32_219 : BitVec 32 := 1#32
  let arg9 : BitVec 32 := Scf.iv c0_i32_217 c1_i32_219 k2_t7
  let v736 : Index := Scalar.indexCast arg9
  let c0_i32_810 : BitVec 32 := 0#32
  let v737 : Index := Scalar.indexCast c0_i32_810
  let c112_811 : Index := 112#32
  ![0, v736.toNat, 0, 112]
def k2_off412 (k2_t7 : Fin k2_t7_loop.trips) : Fin 3 → Nat :=
  let c0_i32_812 : BitVec 32 := 0#32
  let v741 : Index := Scalar.indexCast c0_i32_812
  let c0_i32_217 : BitVec 32 := 0#32
  let c1_i32_219 : BitVec 32 := 1#32
  let arg9 : BitVec 32 := Scf.iv c0_i32_217 c1_i32_219 k2_t7
  let v742 : Index := Scalar.indexCast arg9
  let c128 : Index := 128#32
  ![0, v742.toNat, 128]
def k2_off413 (k2_t7 : Fin k2_t7_loop.trips) : Fin 4 → Nat :=
  let c0_i32_813 : BitVec 32 := 0#32
  let v745 : Index := Scalar.indexCast c0_i32_813
  let c0_i32_217 : BitVec 32 := 0#32
  let c1_i32_219 : BitVec 32 := 1#32
  let arg9 : BitVec 32 := Scf.iv c0_i32_217 c1_i32_219 k2_t7
  let v746 : Index := Scalar.indexCast arg9
  let c1_i32_814 : BitVec 32 := 1#32
  let v747 : Index := Scalar.indexCast c1_i32_814
  let c0_815 : Index := 0#32
  ![0, v746.toNat, 1, 0]
def k2_off414 (k2_t7 : Fin k2_t7_loop.trips) : Fin 3 → Nat :=
  let c0_i32_816 : BitVec 32 := 0#32
  let v751 : Index := Scalar.indexCast c0_i32_816
  let c0_i32_217 : BitVec 32 := 0#32
  let c1_i32_219 : BitVec 32 := 1#32
  let arg9 : BitVec 32 := Scf.iv c0_i32_217 c1_i32_219 k2_t7
  let v752 : Index := Scalar.indexCast arg9
  let c144 : Index := 144#32
  ![0, v752.toNat, 144]
def k2_off415 (k2_t7 : Fin k2_t7_loop.trips) : Fin 4 → Nat :=
  let c0_i32_817 : BitVec 32 := 0#32
  let v755 : Index := Scalar.indexCast c0_i32_817
  let c0_i32_217 : BitVec 32 := 0#32
  let c1_i32_219 : BitVec 32 := 1#32
  let arg9 : BitVec 32 := Scf.iv c0_i32_217 c1_i32_219 k2_t7
  let v756 : Index := Scalar.indexCast arg9
  let c1_i32_818 : BitVec 32 := 1#32
  let v757 : Index := Scalar.indexCast c1_i32_818
  let c16_819 : Index := 16#32
  ![0, v756.toNat, 1, 16]
def k2_off416 (k2_t7 : Fin k2_t7_loop.trips) : Fin 3 → Nat :=
  let c0_i32_820 : BitVec 32 := 0#32
  let v761 : Index := Scalar.indexCast c0_i32_820
  let c0_i32_217 : BitVec 32 := 0#32
  let c1_i32_219 : BitVec 32 := 1#32
  let arg9 : BitVec 32 := Scf.iv c0_i32_217 c1_i32_219 k2_t7
  let v762 : Index := Scalar.indexCast arg9
  let c160 : Index := 160#32
  ![0, v762.toNat, 160]
def k2_off417 (k2_t7 : Fin k2_t7_loop.trips) : Fin 4 → Nat :=
  let c0_i32_821 : BitVec 32 := 0#32
  let v765 : Index := Scalar.indexCast c0_i32_821
  let c0_i32_217 : BitVec 32 := 0#32
  let c1_i32_219 : BitVec 32 := 1#32
  let arg9 : BitVec 32 := Scf.iv c0_i32_217 c1_i32_219 k2_t7
  let v766 : Index := Scalar.indexCast arg9
  let c1_i32_822 : BitVec 32 := 1#32
  let v767 : Index := Scalar.indexCast c1_i32_822
  let c32_823 : Index := 32#32
  ![0, v766.toNat, 1, 32]
def k2_off418 (k2_t7 : Fin k2_t7_loop.trips) : Fin 3 → Nat :=
  let c0_i32_824 : BitVec 32 := 0#32
  let v771 : Index := Scalar.indexCast c0_i32_824
  let c0_i32_217 : BitVec 32 := 0#32
  let c1_i32_219 : BitVec 32 := 1#32
  let arg9 : BitVec 32 := Scf.iv c0_i32_217 c1_i32_219 k2_t7
  let v772 : Index := Scalar.indexCast arg9
  let c176 : Index := 176#32
  ![0, v772.toNat, 176]
def k2_off419 (k2_t7 : Fin k2_t7_loop.trips) : Fin 4 → Nat :=
  let c0_i32_825 : BitVec 32 := 0#32
  let v775 : Index := Scalar.indexCast c0_i32_825
  let c0_i32_217 : BitVec 32 := 0#32
  let c1_i32_219 : BitVec 32 := 1#32
  let arg9 : BitVec 32 := Scf.iv c0_i32_217 c1_i32_219 k2_t7
  let v776 : Index := Scalar.indexCast arg9
  let c1_i32_826 : BitVec 32 := 1#32
  let v777 : Index := Scalar.indexCast c1_i32_826
  let c48_827 : Index := 48#32
  ![0, v776.toNat, 1, 48]
def k2_off420 (k2_t7 : Fin k2_t7_loop.trips) : Fin 3 → Nat :=
  let c0_i32_828 : BitVec 32 := 0#32
  let v781 : Index := Scalar.indexCast c0_i32_828
  let c0_i32_217 : BitVec 32 := 0#32
  let c1_i32_219 : BitVec 32 := 1#32
  let arg9 : BitVec 32 := Scf.iv c0_i32_217 c1_i32_219 k2_t7
  let v782 : Index := Scalar.indexCast arg9
  let c192 : Index := 192#32
  ![0, v782.toNat, 192]
def k2_off421 (k2_t7 : Fin k2_t7_loop.trips) : Fin 4 → Nat :=
  let c0_i32_829 : BitVec 32 := 0#32
  let v785 : Index := Scalar.indexCast c0_i32_829
  let c0_i32_217 : BitVec 32 := 0#32
  let c1_i32_219 : BitVec 32 := 1#32
  let arg9 : BitVec 32 := Scf.iv c0_i32_217 c1_i32_219 k2_t7
  let v786 : Index := Scalar.indexCast arg9
  let c1_i32_830 : BitVec 32 := 1#32
  let v787 : Index := Scalar.indexCast c1_i32_830
  let c64_831 : Index := 64#32
  ![0, v786.toNat, 1, 64]
def k2_off422 (k2_t7 : Fin k2_t7_loop.trips) : Fin 3 → Nat :=
  let c0_i32_832 : BitVec 32 := 0#32
  let v791 : Index := Scalar.indexCast c0_i32_832
  let c0_i32_217 : BitVec 32 := 0#32
  let c1_i32_219 : BitVec 32 := 1#32
  let arg9 : BitVec 32 := Scf.iv c0_i32_217 c1_i32_219 k2_t7
  let v792 : Index := Scalar.indexCast arg9
  let c208 : Index := 208#32
  ![0, v792.toNat, 208]
def k2_off423 (k2_t7 : Fin k2_t7_loop.trips) : Fin 4 → Nat :=
  let c0_i32_833 : BitVec 32 := 0#32
  let v795 : Index := Scalar.indexCast c0_i32_833
  let c0_i32_217 : BitVec 32 := 0#32
  let c1_i32_219 : BitVec 32 := 1#32
  let arg9 : BitVec 32 := Scf.iv c0_i32_217 c1_i32_219 k2_t7
  let v796 : Index := Scalar.indexCast arg9
  let c1_i32_834 : BitVec 32 := 1#32
  let v797 : Index := Scalar.indexCast c1_i32_834
  let c80_835 : Index := 80#32
  ![0, v796.toNat, 1, 80]
def k2_off424 (k2_t7 : Fin k2_t7_loop.trips) : Fin 3 → Nat :=
  let c0_i32_836 : BitVec 32 := 0#32
  let v801 : Index := Scalar.indexCast c0_i32_836
  let c0_i32_217 : BitVec 32 := 0#32
  let c1_i32_219 : BitVec 32 := 1#32
  let arg9 : BitVec 32 := Scf.iv c0_i32_217 c1_i32_219 k2_t7
  let v802 : Index := Scalar.indexCast arg9
  let c224 : Index := 224#32
  ![0, v802.toNat, 224]
def k2_off425 (k2_t7 : Fin k2_t7_loop.trips) : Fin 4 → Nat :=
  let c0_i32_837 : BitVec 32 := 0#32
  let v805 : Index := Scalar.indexCast c0_i32_837
  let c0_i32_217 : BitVec 32 := 0#32
  let c1_i32_219 : BitVec 32 := 1#32
  let arg9 : BitVec 32 := Scf.iv c0_i32_217 c1_i32_219 k2_t7
  let v806 : Index := Scalar.indexCast arg9
  let c1_i32_838 : BitVec 32 := 1#32
  let v807 : Index := Scalar.indexCast c1_i32_838
  let c96_839 : Index := 96#32
  ![0, v806.toNat, 1, 96]
def k2_off426 (k2_t7 : Fin k2_t7_loop.trips) : Fin 3 → Nat :=
  let c0_i32_840 : BitVec 32 := 0#32
  let v811 : Index := Scalar.indexCast c0_i32_840
  let c0_i32_217 : BitVec 32 := 0#32
  let c1_i32_219 : BitVec 32 := 1#32
  let arg9 : BitVec 32 := Scf.iv c0_i32_217 c1_i32_219 k2_t7
  let v812 : Index := Scalar.indexCast arg9
  let c240 : Index := 240#32
  ![0, v812.toNat, 240]
def k2_off427 (k2_t7 : Fin k2_t7_loop.trips) : Fin 4 → Nat :=
  let c0_i32_841 : BitVec 32 := 0#32
  let v815 : Index := Scalar.indexCast c0_i32_841
  let c0_i32_217 : BitVec 32 := 0#32
  let c1_i32_219 : BitVec 32 := 1#32
  let arg9 : BitVec 32 := Scf.iv c0_i32_217 c1_i32_219 k2_t7
  let v816 : Index := Scalar.indexCast arg9
  let c1_i32_842 : BitVec 32 := 1#32
  let v817 : Index := Scalar.indexCast c1_i32_842
  let c112_843 : Index := 112#32
  ![0, v816.toNat, 1, 112]
def k2_off428 (k2_t7 : Fin k2_t7_loop.trips) : Fin 3 → Nat :=
  let c0_i32_844 : BitVec 32 := 0#32
  let v821 : Index := Scalar.indexCast c0_i32_844
  let c0_i32_217 : BitVec 32 := 0#32
  let c1_i32_219 : BitVec 32 := 1#32
  let arg9 : BitVec 32 := Scf.iv c0_i32_217 c1_i32_219 k2_t7
  let v822 : Index := Scalar.indexCast arg9
  let c256 : Index := 256#32
  ![0, v822.toNat, 256]
def k2_off429 (k2_t7 : Fin k2_t7_loop.trips) : Fin 4 → Nat :=
  let c0_i32_845 : BitVec 32 := 0#32
  let v825 : Index := Scalar.indexCast c0_i32_845
  let c0_i32_217 : BitVec 32 := 0#32
  let c1_i32_219 : BitVec 32 := 1#32
  let arg9 : BitVec 32 := Scf.iv c0_i32_217 c1_i32_219 k2_t7
  let v826 : Index := Scalar.indexCast arg9
  let c2_i32_846 : BitVec 32 := 2#32
  let v827 : Index := Scalar.indexCast c2_i32_846
  let c0_847 : Index := 0#32
  ![0, v826.toNat, 2, 0]
def k2_off430 (k2_t7 : Fin k2_t7_loop.trips) : Fin 3 → Nat :=
  let c0_i32_848 : BitVec 32 := 0#32
  let v831 : Index := Scalar.indexCast c0_i32_848
  let c0_i32_217 : BitVec 32 := 0#32
  let c1_i32_219 : BitVec 32 := 1#32
  let arg9 : BitVec 32 := Scf.iv c0_i32_217 c1_i32_219 k2_t7
  let v832 : Index := Scalar.indexCast arg9
  let c272 : Index := 272#32
  ![0, v832.toNat, 272]
def k2_off431 (k2_t7 : Fin k2_t7_loop.trips) : Fin 4 → Nat :=
  let c0_i32_849 : BitVec 32 := 0#32
  let v835 : Index := Scalar.indexCast c0_i32_849
  let c0_i32_217 : BitVec 32 := 0#32
  let c1_i32_219 : BitVec 32 := 1#32
  let arg9 : BitVec 32 := Scf.iv c0_i32_217 c1_i32_219 k2_t7
  let v836 : Index := Scalar.indexCast arg9
  let c2_i32_850 : BitVec 32 := 2#32
  let v837 : Index := Scalar.indexCast c2_i32_850
  let c16_851 : Index := 16#32
  ![0, v836.toNat, 2, 16]
def k2_off432 (k2_t7 : Fin k2_t7_loop.trips) : Fin 3 → Nat :=
  let c0_i32_852 : BitVec 32 := 0#32
  let v841 : Index := Scalar.indexCast c0_i32_852
  let c0_i32_217 : BitVec 32 := 0#32
  let c1_i32_219 : BitVec 32 := 1#32
  let arg9 : BitVec 32 := Scf.iv c0_i32_217 c1_i32_219 k2_t7
  let v842 : Index := Scalar.indexCast arg9
  let c288 : Index := 288#32
  ![0, v842.toNat, 288]
def k2_off433 (k2_t7 : Fin k2_t7_loop.trips) : Fin 4 → Nat :=
  let c0_i32_853 : BitVec 32 := 0#32
  let v845 : Index := Scalar.indexCast c0_i32_853
  let c0_i32_217 : BitVec 32 := 0#32
  let c1_i32_219 : BitVec 32 := 1#32
  let arg9 : BitVec 32 := Scf.iv c0_i32_217 c1_i32_219 k2_t7
  let v846 : Index := Scalar.indexCast arg9
  let c2_i32_854 : BitVec 32 := 2#32
  let v847 : Index := Scalar.indexCast c2_i32_854
  let c32_855 : Index := 32#32
  ![0, v846.toNat, 2, 32]
def k2_off434 (k2_t7 : Fin k2_t7_loop.trips) : Fin 3 → Nat :=
  let c0_i32_856 : BitVec 32 := 0#32
  let v851 : Index := Scalar.indexCast c0_i32_856
  let c0_i32_217 : BitVec 32 := 0#32
  let c1_i32_219 : BitVec 32 := 1#32
  let arg9 : BitVec 32 := Scf.iv c0_i32_217 c1_i32_219 k2_t7
  let v852 : Index := Scalar.indexCast arg9
  let c304 : Index := 304#32
  ![0, v852.toNat, 304]
def k2_off435 (k2_t7 : Fin k2_t7_loop.trips) : Fin 4 → Nat :=
  let c0_i32_857 : BitVec 32 := 0#32
  let v855 : Index := Scalar.indexCast c0_i32_857
  let c0_i32_217 : BitVec 32 := 0#32
  let c1_i32_219 : BitVec 32 := 1#32
  let arg9 : BitVec 32 := Scf.iv c0_i32_217 c1_i32_219 k2_t7
  let v856 : Index := Scalar.indexCast arg9
  let c2_i32_858 : BitVec 32 := 2#32
  let v857 : Index := Scalar.indexCast c2_i32_858
  let c48_859 : Index := 48#32
  ![0, v856.toNat, 2, 48]
def k2_off436 (k2_t7 : Fin k2_t7_loop.trips) : Fin 3 → Nat :=
  let c0_i32_860 : BitVec 32 := 0#32
  let v861 : Index := Scalar.indexCast c0_i32_860
  let c0_i32_217 : BitVec 32 := 0#32
  let c1_i32_219 : BitVec 32 := 1#32
  let arg9 : BitVec 32 := Scf.iv c0_i32_217 c1_i32_219 k2_t7
  let v862 : Index := Scalar.indexCast arg9
  let c320 : Index := 320#32
  ![0, v862.toNat, 320]
def k2_off437 (k2_t7 : Fin k2_t7_loop.trips) : Fin 4 → Nat :=
  let c0_i32_861 : BitVec 32 := 0#32
  let v865 : Index := Scalar.indexCast c0_i32_861
  let c0_i32_217 : BitVec 32 := 0#32
  let c1_i32_219 : BitVec 32 := 1#32
  let arg9 : BitVec 32 := Scf.iv c0_i32_217 c1_i32_219 k2_t7
  let v866 : Index := Scalar.indexCast arg9
  let c2_i32_862 : BitVec 32 := 2#32
  let v867 : Index := Scalar.indexCast c2_i32_862
  let c64_863 : Index := 64#32
  ![0, v866.toNat, 2, 64]
def k2_off438 (k2_t7 : Fin k2_t7_loop.trips) : Fin 3 → Nat :=
  let c0_i32_864 : BitVec 32 := 0#32
  let v871 : Index := Scalar.indexCast c0_i32_864
  let c0_i32_217 : BitVec 32 := 0#32
  let c1_i32_219 : BitVec 32 := 1#32
  let arg9 : BitVec 32 := Scf.iv c0_i32_217 c1_i32_219 k2_t7
  let v872 : Index := Scalar.indexCast arg9
  let c336 : Index := 336#32
  ![0, v872.toNat, 336]
def k2_off439 (k2_t7 : Fin k2_t7_loop.trips) : Fin 4 → Nat :=
  let c0_i32_865 : BitVec 32 := 0#32
  let v875 : Index := Scalar.indexCast c0_i32_865
  let c0_i32_217 : BitVec 32 := 0#32
  let c1_i32_219 : BitVec 32 := 1#32
  let arg9 : BitVec 32 := Scf.iv c0_i32_217 c1_i32_219 k2_t7
  let v876 : Index := Scalar.indexCast arg9
  let c2_i32_866 : BitVec 32 := 2#32
  let v877 : Index := Scalar.indexCast c2_i32_866
  let c80_867 : Index := 80#32
  ![0, v876.toNat, 2, 80]
def k2_off440 (k2_t7 : Fin k2_t7_loop.trips) : Fin 3 → Nat :=
  let c0_i32_868 : BitVec 32 := 0#32
  let v881 : Index := Scalar.indexCast c0_i32_868
  let c0_i32_217 : BitVec 32 := 0#32
  let c1_i32_219 : BitVec 32 := 1#32
  let arg9 : BitVec 32 := Scf.iv c0_i32_217 c1_i32_219 k2_t7
  let v882 : Index := Scalar.indexCast arg9
  let c352 : Index := 352#32
  ![0, v882.toNat, 352]
def k2_off441 (k2_t7 : Fin k2_t7_loop.trips) : Fin 4 → Nat :=
  let c0_i32_869 : BitVec 32 := 0#32
  let v885 : Index := Scalar.indexCast c0_i32_869
  let c0_i32_217 : BitVec 32 := 0#32
  let c1_i32_219 : BitVec 32 := 1#32
  let arg9 : BitVec 32 := Scf.iv c0_i32_217 c1_i32_219 k2_t7
  let v886 : Index := Scalar.indexCast arg9
  let c2_i32_870 : BitVec 32 := 2#32
  let v887 : Index := Scalar.indexCast c2_i32_870
  let c96_871 : Index := 96#32
  ![0, v886.toNat, 2, 96]
def k2_off442 (k2_t7 : Fin k2_t7_loop.trips) : Fin 3 → Nat :=
  let c0_i32_872 : BitVec 32 := 0#32
  let v891 : Index := Scalar.indexCast c0_i32_872
  let c0_i32_217 : BitVec 32 := 0#32
  let c1_i32_219 : BitVec 32 := 1#32
  let arg9 : BitVec 32 := Scf.iv c0_i32_217 c1_i32_219 k2_t7
  let v892 : Index := Scalar.indexCast arg9
  let c368 : Index := 368#32
  ![0, v892.toNat, 368]
def k2_off443 (k2_t7 : Fin k2_t7_loop.trips) : Fin 4 → Nat :=
  let c0_i32_873 : BitVec 32 := 0#32
  let v895 : Index := Scalar.indexCast c0_i32_873
  let c0_i32_217 : BitVec 32 := 0#32
  let c1_i32_219 : BitVec 32 := 1#32
  let arg9 : BitVec 32 := Scf.iv c0_i32_217 c1_i32_219 k2_t7
  let v896 : Index := Scalar.indexCast arg9
  let c2_i32_874 : BitVec 32 := 2#32
  let v897 : Index := Scalar.indexCast c2_i32_874
  let c112_875 : Index := 112#32
  ![0, v896.toNat, 2, 112]
def k2_off444 (k2_t7 : Fin k2_t7_loop.trips) : Fin 3 → Nat :=
  let c0_i32_876 : BitVec 32 := 0#32
  let v901 : Index := Scalar.indexCast c0_i32_876
  let c0_i32_217 : BitVec 32 := 0#32
  let c1_i32_219 : BitVec 32 := 1#32
  let arg9 : BitVec 32 := Scf.iv c0_i32_217 c1_i32_219 k2_t7
  let v902 : Index := Scalar.indexCast arg9
  let c384 : Index := 384#32
  ![0, v902.toNat, 384]
def k2_off445 (k2_t7 : Fin k2_t7_loop.trips) : Fin 4 → Nat :=
  let c0_i32_877 : BitVec 32 := 0#32
  let v905 : Index := Scalar.indexCast c0_i32_877
  let c0_i32_217 : BitVec 32 := 0#32
  let c1_i32_219 : BitVec 32 := 1#32
  let arg9 : BitVec 32 := Scf.iv c0_i32_217 c1_i32_219 k2_t7
  let v906 : Index := Scalar.indexCast arg9
  let c3_i32_878 : BitVec 32 := 3#32
  let v907 : Index := Scalar.indexCast c3_i32_878
  let c0_879 : Index := 0#32
  ![0, v906.toNat, 3, 0]
def k2_off446 (k2_t7 : Fin k2_t7_loop.trips) : Fin 3 → Nat :=
  let c0_i32_880 : BitVec 32 := 0#32
  let v911 : Index := Scalar.indexCast c0_i32_880
  let c0_i32_217 : BitVec 32 := 0#32
  let c1_i32_219 : BitVec 32 := 1#32
  let arg9 : BitVec 32 := Scf.iv c0_i32_217 c1_i32_219 k2_t7
  let v912 : Index := Scalar.indexCast arg9
  let c400 : Index := 400#32
  ![0, v912.toNat, 400]
def k2_off447 (k2_t7 : Fin k2_t7_loop.trips) : Fin 4 → Nat :=
  let c0_i32_881 : BitVec 32 := 0#32
  let v915 : Index := Scalar.indexCast c0_i32_881
  let c0_i32_217 : BitVec 32 := 0#32
  let c1_i32_219 : BitVec 32 := 1#32
  let arg9 : BitVec 32 := Scf.iv c0_i32_217 c1_i32_219 k2_t7
  let v916 : Index := Scalar.indexCast arg9
  let c3_i32_882 : BitVec 32 := 3#32
  let v917 : Index := Scalar.indexCast c3_i32_882
  let c16_883 : Index := 16#32
  ![0, v916.toNat, 3, 16]
def k2_off448 (k2_t7 : Fin k2_t7_loop.trips) : Fin 3 → Nat :=
  let c0_i32_884 : BitVec 32 := 0#32
  let v921 : Index := Scalar.indexCast c0_i32_884
  let c0_i32_217 : BitVec 32 := 0#32
  let c1_i32_219 : BitVec 32 := 1#32
  let arg9 : BitVec 32 := Scf.iv c0_i32_217 c1_i32_219 k2_t7
  let v922 : Index := Scalar.indexCast arg9
  let c416 : Index := 416#32
  ![0, v922.toNat, 416]
def k2_off449 (k2_t7 : Fin k2_t7_loop.trips) : Fin 4 → Nat :=
  let c0_i32_885 : BitVec 32 := 0#32
  let v925 : Index := Scalar.indexCast c0_i32_885
  let c0_i32_217 : BitVec 32 := 0#32
  let c1_i32_219 : BitVec 32 := 1#32
  let arg9 : BitVec 32 := Scf.iv c0_i32_217 c1_i32_219 k2_t7
  let v926 : Index := Scalar.indexCast arg9
  let c3_i32_886 : BitVec 32 := 3#32
  let v927 : Index := Scalar.indexCast c3_i32_886
  let c32_887 : Index := 32#32
  ![0, v926.toNat, 3, 32]
def k2_off450 (k2_t7 : Fin k2_t7_loop.trips) : Fin 3 → Nat :=
  let c0_i32_888 : BitVec 32 := 0#32
  let v931 : Index := Scalar.indexCast c0_i32_888
  let c0_i32_217 : BitVec 32 := 0#32
  let c1_i32_219 : BitVec 32 := 1#32
  let arg9 : BitVec 32 := Scf.iv c0_i32_217 c1_i32_219 k2_t7
  let v932 : Index := Scalar.indexCast arg9
  let c432 : Index := 432#32
  ![0, v932.toNat, 432]
def k2_off451 (k2_t7 : Fin k2_t7_loop.trips) : Fin 4 → Nat :=
  let c0_i32_889 : BitVec 32 := 0#32
  let v935 : Index := Scalar.indexCast c0_i32_889
  let c0_i32_217 : BitVec 32 := 0#32
  let c1_i32_219 : BitVec 32 := 1#32
  let arg9 : BitVec 32 := Scf.iv c0_i32_217 c1_i32_219 k2_t7
  let v936 : Index := Scalar.indexCast arg9
  let c3_i32_890 : BitVec 32 := 3#32
  let v937 : Index := Scalar.indexCast c3_i32_890
  let c48_891 : Index := 48#32
  ![0, v936.toNat, 3, 48]
def k2_off452 (k2_t7 : Fin k2_t7_loop.trips) : Fin 3 → Nat :=
  let c0_i32_892 : BitVec 32 := 0#32
  let v941 : Index := Scalar.indexCast c0_i32_892
  let c0_i32_217 : BitVec 32 := 0#32
  let c1_i32_219 : BitVec 32 := 1#32
  let arg9 : BitVec 32 := Scf.iv c0_i32_217 c1_i32_219 k2_t7
  let v942 : Index := Scalar.indexCast arg9
  let c448 : Index := 448#32
  ![0, v942.toNat, 448]
def k2_off453 (k2_t7 : Fin k2_t7_loop.trips) : Fin 4 → Nat :=
  let c0_i32_893 : BitVec 32 := 0#32
  let v945 : Index := Scalar.indexCast c0_i32_893
  let c0_i32_217 : BitVec 32 := 0#32
  let c1_i32_219 : BitVec 32 := 1#32
  let arg9 : BitVec 32 := Scf.iv c0_i32_217 c1_i32_219 k2_t7
  let v946 : Index := Scalar.indexCast arg9
  let c3_i32_894 : BitVec 32 := 3#32
  let v947 : Index := Scalar.indexCast c3_i32_894
  let c64_895 : Index := 64#32
  ![0, v946.toNat, 3, 64]
def k2_off454 (k2_t7 : Fin k2_t7_loop.trips) : Fin 3 → Nat :=
  let c0_i32_896 : BitVec 32 := 0#32
  let v951 : Index := Scalar.indexCast c0_i32_896
  let c0_i32_217 : BitVec 32 := 0#32
  let c1_i32_219 : BitVec 32 := 1#32
  let arg9 : BitVec 32 := Scf.iv c0_i32_217 c1_i32_219 k2_t7
  let v952 : Index := Scalar.indexCast arg9
  let c464 : Index := 464#32
  ![0, v952.toNat, 464]
def k2_off455 (k2_t7 : Fin k2_t7_loop.trips) : Fin 4 → Nat :=
  let c0_i32_897 : BitVec 32 := 0#32
  let v955 : Index := Scalar.indexCast c0_i32_897
  let c0_i32_217 : BitVec 32 := 0#32
  let c1_i32_219 : BitVec 32 := 1#32
  let arg9 : BitVec 32 := Scf.iv c0_i32_217 c1_i32_219 k2_t7
  let v956 : Index := Scalar.indexCast arg9
  let c3_i32_898 : BitVec 32 := 3#32
  let v957 : Index := Scalar.indexCast c3_i32_898
  let c80_899 : Index := 80#32
  ![0, v956.toNat, 3, 80]
def k2_off456 (k2_t7 : Fin k2_t7_loop.trips) : Fin 3 → Nat :=
  let c0_i32_900 : BitVec 32 := 0#32
  let v961 : Index := Scalar.indexCast c0_i32_900
  let c0_i32_217 : BitVec 32 := 0#32
  let c1_i32_219 : BitVec 32 := 1#32
  let arg9 : BitVec 32 := Scf.iv c0_i32_217 c1_i32_219 k2_t7
  let v962 : Index := Scalar.indexCast arg9
  let c480 : Index := 480#32
  ![0, v962.toNat, 480]
def k2_off457 (k2_t7 : Fin k2_t7_loop.trips) : Fin 4 → Nat :=
  let c0_i32_901 : BitVec 32 := 0#32
  let v965 : Index := Scalar.indexCast c0_i32_901
  let c0_i32_217 : BitVec 32 := 0#32
  let c1_i32_219 : BitVec 32 := 1#32
  let arg9 : BitVec 32 := Scf.iv c0_i32_217 c1_i32_219 k2_t7
  let v966 : Index := Scalar.indexCast arg9
  let c3_i32_902 : BitVec 32 := 3#32
  let v967 : Index := Scalar.indexCast c3_i32_902
  let c96_903 : Index := 96#32
  ![0, v966.toNat, 3, 96]
def k2_off458 (k2_t7 : Fin k2_t7_loop.trips) : Fin 3 → Nat :=
  let c0_i32_904 : BitVec 32 := 0#32
  let v971 : Index := Scalar.indexCast c0_i32_904
  let c0_i32_217 : BitVec 32 := 0#32
  let c1_i32_219 : BitVec 32 := 1#32
  let arg9 : BitVec 32 := Scf.iv c0_i32_217 c1_i32_219 k2_t7
  let v972 : Index := Scalar.indexCast arg9
  let c496 : Index := 496#32
  ![0, v972.toNat, 496]
def k2_off459 (k2_t7 : Fin k2_t7_loop.trips) : Fin 4 → Nat :=
  let c0_i32_905 : BitVec 32 := 0#32
  let v975 : Index := Scalar.indexCast c0_i32_905
  let c0_i32_217 : BitVec 32 := 0#32
  let c1_i32_219 : BitVec 32 := 1#32
  let arg9 : BitVec 32 := Scf.iv c0_i32_217 c1_i32_219 k2_t7
  let v976 : Index := Scalar.indexCast arg9
  let c3_i32_906 : BitVec 32 := 3#32
  let v977 : Index := Scalar.indexCast c3_i32_906
  let c112_907 : Index := 112#32
  ![0, v976.toNat, 3, 112]
def k2_off460 (i : grid2.Coords) : Fin 4 → Nat :=
  let c4_i32_222 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_227 : BitVec 32 := 0#32
  let c0_i32_228 : BitVec 32 := 0#32
  ![4, v2.toNat, 0, 0]
def k2_off461 (i : grid2.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_247 : BitVec 32 := 0#32
  ![6, v2.toNat, 0]
@[reducible] def k2_t8_loop : Scf.Loop 32 :=
  let c0_i32_265 : BitVec 32 := 0#32
  let c32_i32_266 : BitVec 32 := 32#32
  let v230 : BitVec 32 := Scalar.addi c0_i32_265 c32_i32_266
  let c1_i32_267 : BitVec 32 := 1#32
  ⟨c0_i32_265, v230, c1_i32_267⟩
def k2_off462 (k2_t8 : Fin k2_t8_loop.trips) : Fin 3 → Nat :=
  let c1_i32_780 : BitVec 32 := 1#32
  let v661 : Index := Scalar.indexCast c1_i32_780
  let c0_i32_265 : BitVec 32 := 0#32
  let c1_i32_267 : BitVec 32 := 1#32
  let arg9 : BitVec 32 := Scf.iv c0_i32_265 c1_i32_267 k2_t8
  let v662 : Index := Scalar.indexCast arg9
  let c0 : Index := 0#32
  ![1, v662.toNat, 0]
def k2_off463 (k2_t8 : Fin k2_t8_loop.trips) : Fin 4 → Nat :=
  let c1_i32_781 : BitVec 32 := 1#32
  let v665 : Index := Scalar.indexCast c1_i32_781
  let c0_i32_265 : BitVec 32 := 0#32
  let c1_i32_267 : BitVec 32 := 1#32
  let arg9 : BitVec 32 := Scf.iv c0_i32_265 c1_i32_267 k2_t8
  let v666 : Index := Scalar.indexCast arg9
  let c0_i32_782 : BitVec 32 := 0#32
  let v667 : Index := Scalar.indexCast c0_i32_782
  let c0_783 : Index := 0#32
  ![1, v666.toNat, 0, 0]
def k2_off464 (k2_t8 : Fin k2_t8_loop.trips) : Fin 3 → Nat :=
  let c1_i32_784 : BitVec 32 := 1#32
  let v671 : Index := Scalar.indexCast c1_i32_784
  let c0_i32_265 : BitVec 32 := 0#32
  let c1_i32_267 : BitVec 32 := 1#32
  let arg9 : BitVec 32 := Scf.iv c0_i32_265 c1_i32_267 k2_t8
  let v672 : Index := Scalar.indexCast arg9
  let c16 : Index := 16#32
  ![1, v672.toNat, 16]
def k2_off465 (k2_t8 : Fin k2_t8_loop.trips) : Fin 4 → Nat :=
  let c1_i32_785 : BitVec 32 := 1#32
  let v675 : Index := Scalar.indexCast c1_i32_785
  let c0_i32_265 : BitVec 32 := 0#32
  let c1_i32_267 : BitVec 32 := 1#32
  let arg9 : BitVec 32 := Scf.iv c0_i32_265 c1_i32_267 k2_t8
  let v676 : Index := Scalar.indexCast arg9
  let c0_i32_786 : BitVec 32 := 0#32
  let v677 : Index := Scalar.indexCast c0_i32_786
  let c16_787 : Index := 16#32
  ![1, v676.toNat, 0, 16]
def k2_off466 (k2_t8 : Fin k2_t8_loop.trips) : Fin 3 → Nat :=
  let c1_i32_788 : BitVec 32 := 1#32
  let v681 : Index := Scalar.indexCast c1_i32_788
  let c0_i32_265 : BitVec 32 := 0#32
  let c1_i32_267 : BitVec 32 := 1#32
  let arg9 : BitVec 32 := Scf.iv c0_i32_265 c1_i32_267 k2_t8
  let v682 : Index := Scalar.indexCast arg9
  let c32 : Index := 32#32
  ![1, v682.toNat, 32]
def k2_off467 (k2_t8 : Fin k2_t8_loop.trips) : Fin 4 → Nat :=
  let c1_i32_789 : BitVec 32 := 1#32
  let v685 : Index := Scalar.indexCast c1_i32_789
  let c0_i32_265 : BitVec 32 := 0#32
  let c1_i32_267 : BitVec 32 := 1#32
  let arg9 : BitVec 32 := Scf.iv c0_i32_265 c1_i32_267 k2_t8
  let v686 : Index := Scalar.indexCast arg9
  let c0_i32_790 : BitVec 32 := 0#32
  let v687 : Index := Scalar.indexCast c0_i32_790
  let c32_791 : Index := 32#32
  ![1, v686.toNat, 0, 32]
def k2_off468 (k2_t8 : Fin k2_t8_loop.trips) : Fin 3 → Nat :=
  let c1_i32_792 : BitVec 32 := 1#32
  let v691 : Index := Scalar.indexCast c1_i32_792
  let c0_i32_265 : BitVec 32 := 0#32
  let c1_i32_267 : BitVec 32 := 1#32
  let arg9 : BitVec 32 := Scf.iv c0_i32_265 c1_i32_267 k2_t8
  let v692 : Index := Scalar.indexCast arg9
  let c48 : Index := 48#32
  ![1, v692.toNat, 48]
def k2_off469 (k2_t8 : Fin k2_t8_loop.trips) : Fin 4 → Nat :=
  let c1_i32_793 : BitVec 32 := 1#32
  let v695 : Index := Scalar.indexCast c1_i32_793
  let c0_i32_265 : BitVec 32 := 0#32
  let c1_i32_267 : BitVec 32 := 1#32
  let arg9 : BitVec 32 := Scf.iv c0_i32_265 c1_i32_267 k2_t8
  let v696 : Index := Scalar.indexCast arg9
  let c0_i32_794 : BitVec 32 := 0#32
  let v697 : Index := Scalar.indexCast c0_i32_794
  let c48_795 : Index := 48#32
  ![1, v696.toNat, 0, 48]
def k2_off470 (k2_t8 : Fin k2_t8_loop.trips) : Fin 3 → Nat :=
  let c1_i32_796 : BitVec 32 := 1#32
  let v701 : Index := Scalar.indexCast c1_i32_796
  let c0_i32_265 : BitVec 32 := 0#32
  let c1_i32_267 : BitVec 32 := 1#32
  let arg9 : BitVec 32 := Scf.iv c0_i32_265 c1_i32_267 k2_t8
  let v702 : Index := Scalar.indexCast arg9
  let c64 : Index := 64#32
  ![1, v702.toNat, 64]
def k2_off471 (k2_t8 : Fin k2_t8_loop.trips) : Fin 4 → Nat :=
  let c1_i32_797 : BitVec 32 := 1#32
  let v705 : Index := Scalar.indexCast c1_i32_797
  let c0_i32_265 : BitVec 32 := 0#32
  let c1_i32_267 : BitVec 32 := 1#32
  let arg9 : BitVec 32 := Scf.iv c0_i32_265 c1_i32_267 k2_t8
  let v706 : Index := Scalar.indexCast arg9
  let c0_i32_798 : BitVec 32 := 0#32
  let v707 : Index := Scalar.indexCast c0_i32_798
  let c64_799 : Index := 64#32
  ![1, v706.toNat, 0, 64]
def k2_off472 (k2_t8 : Fin k2_t8_loop.trips) : Fin 3 → Nat :=
  let c1_i32_800 : BitVec 32 := 1#32
  let v711 : Index := Scalar.indexCast c1_i32_800
  let c0_i32_265 : BitVec 32 := 0#32
  let c1_i32_267 : BitVec 32 := 1#32
  let arg9 : BitVec 32 := Scf.iv c0_i32_265 c1_i32_267 k2_t8
  let v712 : Index := Scalar.indexCast arg9
  let c80 : Index := 80#32
  ![1, v712.toNat, 80]
def k2_off473 (k2_t8 : Fin k2_t8_loop.trips) : Fin 4 → Nat :=
  let c1_i32_801 : BitVec 32 := 1#32
  let v715 : Index := Scalar.indexCast c1_i32_801
  let c0_i32_265 : BitVec 32 := 0#32
  let c1_i32_267 : BitVec 32 := 1#32
  let arg9 : BitVec 32 := Scf.iv c0_i32_265 c1_i32_267 k2_t8
  let v716 : Index := Scalar.indexCast arg9
  let c0_i32_802 : BitVec 32 := 0#32
  let v717 : Index := Scalar.indexCast c0_i32_802
  let c80_803 : Index := 80#32
  ![1, v716.toNat, 0, 80]
def k2_off474 (k2_t8 : Fin k2_t8_loop.trips) : Fin 3 → Nat :=
  let c1_i32_804 : BitVec 32 := 1#32
  let v721 : Index := Scalar.indexCast c1_i32_804
  let c0_i32_265 : BitVec 32 := 0#32
  let c1_i32_267 : BitVec 32 := 1#32
  let arg9 : BitVec 32 := Scf.iv c0_i32_265 c1_i32_267 k2_t8
  let v722 : Index := Scalar.indexCast arg9
  let c96 : Index := 96#32
  ![1, v722.toNat, 96]
def k2_off475 (k2_t8 : Fin k2_t8_loop.trips) : Fin 4 → Nat :=
  let c1_i32_805 : BitVec 32 := 1#32
  let v725 : Index := Scalar.indexCast c1_i32_805
  let c0_i32_265 : BitVec 32 := 0#32
  let c1_i32_267 : BitVec 32 := 1#32
  let arg9 : BitVec 32 := Scf.iv c0_i32_265 c1_i32_267 k2_t8
  let v726 : Index := Scalar.indexCast arg9
  let c0_i32_806 : BitVec 32 := 0#32
  let v727 : Index := Scalar.indexCast c0_i32_806
  let c96_807 : Index := 96#32
  ![1, v726.toNat, 0, 96]
def k2_off476 (k2_t8 : Fin k2_t8_loop.trips) : Fin 3 → Nat :=
  let c1_i32_808 : BitVec 32 := 1#32
  let v731 : Index := Scalar.indexCast c1_i32_808
  let c0_i32_265 : BitVec 32 := 0#32
  let c1_i32_267 : BitVec 32 := 1#32
  let arg9 : BitVec 32 := Scf.iv c0_i32_265 c1_i32_267 k2_t8
  let v732 : Index := Scalar.indexCast arg9
  let c112 : Index := 112#32
  ![1, v732.toNat, 112]
def k2_off477 (k2_t8 : Fin k2_t8_loop.trips) : Fin 4 → Nat :=
  let c1_i32_809 : BitVec 32 := 1#32
  let v735 : Index := Scalar.indexCast c1_i32_809
  let c0_i32_265 : BitVec 32 := 0#32
  let c1_i32_267 : BitVec 32 := 1#32
  let arg9 : BitVec 32 := Scf.iv c0_i32_265 c1_i32_267 k2_t8
  let v736 : Index := Scalar.indexCast arg9
  let c0_i32_810 : BitVec 32 := 0#32
  let v737 : Index := Scalar.indexCast c0_i32_810
  let c112_811 : Index := 112#32
  ![1, v736.toNat, 0, 112]
def k2_off478 (k2_t8 : Fin k2_t8_loop.trips) : Fin 3 → Nat :=
  let c1_i32_812 : BitVec 32 := 1#32
  let v741 : Index := Scalar.indexCast c1_i32_812
  let c0_i32_265 : BitVec 32 := 0#32
  let c1_i32_267 : BitVec 32 := 1#32
  let arg9 : BitVec 32 := Scf.iv c0_i32_265 c1_i32_267 k2_t8
  let v742 : Index := Scalar.indexCast arg9
  let c128 : Index := 128#32
  ![1, v742.toNat, 128]
def k2_off479 (k2_t8 : Fin k2_t8_loop.trips) : Fin 4 → Nat :=
  let c1_i32_813 : BitVec 32 := 1#32
  let v745 : Index := Scalar.indexCast c1_i32_813
  let c0_i32_265 : BitVec 32 := 0#32
  let c1_i32_267 : BitVec 32 := 1#32
  let arg9 : BitVec 32 := Scf.iv c0_i32_265 c1_i32_267 k2_t8
  let v746 : Index := Scalar.indexCast arg9
  let c1_i32_814 : BitVec 32 := 1#32
  let v747 : Index := Scalar.indexCast c1_i32_814
  let c0_815 : Index := 0#32
  ![1, v746.toNat, 1, 0]
def k2_off480 (k2_t8 : Fin k2_t8_loop.trips) : Fin 3 → Nat :=
  let c1_i32_816 : BitVec 32 := 1#32
  let v751 : Index := Scalar.indexCast c1_i32_816
  let c0_i32_265 : BitVec 32 := 0#32
  let c1_i32_267 : BitVec 32 := 1#32
  let arg9 : BitVec 32 := Scf.iv c0_i32_265 c1_i32_267 k2_t8
  let v752 : Index := Scalar.indexCast arg9
  let c144 : Index := 144#32
  ![1, v752.toNat, 144]
def k2_off481 (k2_t8 : Fin k2_t8_loop.trips) : Fin 4 → Nat :=
  let c1_i32_817 : BitVec 32 := 1#32
  let v755 : Index := Scalar.indexCast c1_i32_817
  let c0_i32_265 : BitVec 32 := 0#32
  let c1_i32_267 : BitVec 32 := 1#32
  let arg9 : BitVec 32 := Scf.iv c0_i32_265 c1_i32_267 k2_t8
  let v756 : Index := Scalar.indexCast arg9
  let c1_i32_818 : BitVec 32 := 1#32
  let v757 : Index := Scalar.indexCast c1_i32_818
  let c16_819 : Index := 16#32
  ![1, v756.toNat, 1, 16]
def k2_off482 (k2_t8 : Fin k2_t8_loop.trips) : Fin 3 → Nat :=
  let c1_i32_820 : BitVec 32 := 1#32
  let v761 : Index := Scalar.indexCast c1_i32_820
  let c0_i32_265 : BitVec 32 := 0#32
  let c1_i32_267 : BitVec 32 := 1#32
  let arg9 : BitVec 32 := Scf.iv c0_i32_265 c1_i32_267 k2_t8
  let v762 : Index := Scalar.indexCast arg9
  let c160 : Index := 160#32
  ![1, v762.toNat, 160]
def k2_off483 (k2_t8 : Fin k2_t8_loop.trips) : Fin 4 → Nat :=
  let c1_i32_821 : BitVec 32 := 1#32
  let v765 : Index := Scalar.indexCast c1_i32_821
  let c0_i32_265 : BitVec 32 := 0#32
  let c1_i32_267 : BitVec 32 := 1#32
  let arg9 : BitVec 32 := Scf.iv c0_i32_265 c1_i32_267 k2_t8
  let v766 : Index := Scalar.indexCast arg9
  let c1_i32_822 : BitVec 32 := 1#32
  let v767 : Index := Scalar.indexCast c1_i32_822
  let c32_823 : Index := 32#32
  ![1, v766.toNat, 1, 32]
def k2_off484 (k2_t8 : Fin k2_t8_loop.trips) : Fin 3 → Nat :=
  let c1_i32_824 : BitVec 32 := 1#32
  let v771 : Index := Scalar.indexCast c1_i32_824
  let c0_i32_265 : BitVec 32 := 0#32
  let c1_i32_267 : BitVec 32 := 1#32
  let arg9 : BitVec 32 := Scf.iv c0_i32_265 c1_i32_267 k2_t8
  let v772 : Index := Scalar.indexCast arg9
  let c176 : Index := 176#32
  ![1, v772.toNat, 176]
def k2_off485 (k2_t8 : Fin k2_t8_loop.trips) : Fin 4 → Nat :=
  let c1_i32_825 : BitVec 32 := 1#32
  let v775 : Index := Scalar.indexCast c1_i32_825
  let c0_i32_265 : BitVec 32 := 0#32
  let c1_i32_267 : BitVec 32 := 1#32
  let arg9 : BitVec 32 := Scf.iv c0_i32_265 c1_i32_267 k2_t8
  let v776 : Index := Scalar.indexCast arg9
  let c1_i32_826 : BitVec 32 := 1#32
  let v777 : Index := Scalar.indexCast c1_i32_826
  let c48_827 : Index := 48#32
  ![1, v776.toNat, 1, 48]
def k2_off486 (k2_t8 : Fin k2_t8_loop.trips) : Fin 3 → Nat :=
  let c1_i32_828 : BitVec 32 := 1#32
  let v781 : Index := Scalar.indexCast c1_i32_828
  let c0_i32_265 : BitVec 32 := 0#32
  let c1_i32_267 : BitVec 32 := 1#32
  let arg9 : BitVec 32 := Scf.iv c0_i32_265 c1_i32_267 k2_t8
  let v782 : Index := Scalar.indexCast arg9
  let c192 : Index := 192#32
  ![1, v782.toNat, 192]
def k2_off487 (k2_t8 : Fin k2_t8_loop.trips) : Fin 4 → Nat :=
  let c1_i32_829 : BitVec 32 := 1#32
  let v785 : Index := Scalar.indexCast c1_i32_829
  let c0_i32_265 : BitVec 32 := 0#32
  let c1_i32_267 : BitVec 32 := 1#32
  let arg9 : BitVec 32 := Scf.iv c0_i32_265 c1_i32_267 k2_t8
  let v786 : Index := Scalar.indexCast arg9
  let c1_i32_830 : BitVec 32 := 1#32
  let v787 : Index := Scalar.indexCast c1_i32_830
  let c64_831 : Index := 64#32
  ![1, v786.toNat, 1, 64]
def k2_off488 (k2_t8 : Fin k2_t8_loop.trips) : Fin 3 → Nat :=
  let c1_i32_832 : BitVec 32 := 1#32
  let v791 : Index := Scalar.indexCast c1_i32_832
  let c0_i32_265 : BitVec 32 := 0#32
  let c1_i32_267 : BitVec 32 := 1#32
  let arg9 : BitVec 32 := Scf.iv c0_i32_265 c1_i32_267 k2_t8
  let v792 : Index := Scalar.indexCast arg9
  let c208 : Index := 208#32
  ![1, v792.toNat, 208]
def k2_off489 (k2_t8 : Fin k2_t8_loop.trips) : Fin 4 → Nat :=
  let c1_i32_833 : BitVec 32 := 1#32
  let v795 : Index := Scalar.indexCast c1_i32_833
  let c0_i32_265 : BitVec 32 := 0#32
  let c1_i32_267 : BitVec 32 := 1#32
  let arg9 : BitVec 32 := Scf.iv c0_i32_265 c1_i32_267 k2_t8
  let v796 : Index := Scalar.indexCast arg9
  let c1_i32_834 : BitVec 32 := 1#32
  let v797 : Index := Scalar.indexCast c1_i32_834
  let c80_835 : Index := 80#32
  ![1, v796.toNat, 1, 80]
def k2_off490 (k2_t8 : Fin k2_t8_loop.trips) : Fin 3 → Nat :=
  let c1_i32_836 : BitVec 32 := 1#32
  let v801 : Index := Scalar.indexCast c1_i32_836
  let c0_i32_265 : BitVec 32 := 0#32
  let c1_i32_267 : BitVec 32 := 1#32
  let arg9 : BitVec 32 := Scf.iv c0_i32_265 c1_i32_267 k2_t8
  let v802 : Index := Scalar.indexCast arg9
  let c224 : Index := 224#32
  ![1, v802.toNat, 224]
def k2_off491 (k2_t8 : Fin k2_t8_loop.trips) : Fin 4 → Nat :=
  let c1_i32_837 : BitVec 32 := 1#32
  let v805 : Index := Scalar.indexCast c1_i32_837
  let c0_i32_265 : BitVec 32 := 0#32
  let c1_i32_267 : BitVec 32 := 1#32
  let arg9 : BitVec 32 := Scf.iv c0_i32_265 c1_i32_267 k2_t8
  let v806 : Index := Scalar.indexCast arg9
  let c1_i32_838 : BitVec 32 := 1#32
  let v807 : Index := Scalar.indexCast c1_i32_838
  let c96_839 : Index := 96#32
  ![1, v806.toNat, 1, 96]
def k2_off492 (k2_t8 : Fin k2_t8_loop.trips) : Fin 3 → Nat :=
  let c1_i32_840 : BitVec 32 := 1#32
  let v811 : Index := Scalar.indexCast c1_i32_840
  let c0_i32_265 : BitVec 32 := 0#32
  let c1_i32_267 : BitVec 32 := 1#32
  let arg9 : BitVec 32 := Scf.iv c0_i32_265 c1_i32_267 k2_t8
  let v812 : Index := Scalar.indexCast arg9
  let c240 : Index := 240#32
  ![1, v812.toNat, 240]
def k2_off493 (k2_t8 : Fin k2_t8_loop.trips) : Fin 4 → Nat :=
  let c1_i32_841 : BitVec 32 := 1#32
  let v815 : Index := Scalar.indexCast c1_i32_841
  let c0_i32_265 : BitVec 32 := 0#32
  let c1_i32_267 : BitVec 32 := 1#32
  let arg9 : BitVec 32 := Scf.iv c0_i32_265 c1_i32_267 k2_t8
  let v816 : Index := Scalar.indexCast arg9
  let c1_i32_842 : BitVec 32 := 1#32
  let v817 : Index := Scalar.indexCast c1_i32_842
  let c112_843 : Index := 112#32
  ![1, v816.toNat, 1, 112]
def k2_off494 (k2_t8 : Fin k2_t8_loop.trips) : Fin 3 → Nat :=
  let c1_i32_844 : BitVec 32 := 1#32
  let v821 : Index := Scalar.indexCast c1_i32_844
  let c0_i32_265 : BitVec 32 := 0#32
  let c1_i32_267 : BitVec 32 := 1#32
  let arg9 : BitVec 32 := Scf.iv c0_i32_265 c1_i32_267 k2_t8
  let v822 : Index := Scalar.indexCast arg9
  let c256 : Index := 256#32
  ![1, v822.toNat, 256]
def k2_off495 (k2_t8 : Fin k2_t8_loop.trips) : Fin 4 → Nat :=
  let c1_i32_845 : BitVec 32 := 1#32
  let v825 : Index := Scalar.indexCast c1_i32_845
  let c0_i32_265 : BitVec 32 := 0#32
  let c1_i32_267 : BitVec 32 := 1#32
  let arg9 : BitVec 32 := Scf.iv c0_i32_265 c1_i32_267 k2_t8
  let v826 : Index := Scalar.indexCast arg9
  let c2_i32_846 : BitVec 32 := 2#32
  let v827 : Index := Scalar.indexCast c2_i32_846
  let c0_847 : Index := 0#32
  ![1, v826.toNat, 2, 0]
def k2_off496 (k2_t8 : Fin k2_t8_loop.trips) : Fin 3 → Nat :=
  let c1_i32_848 : BitVec 32 := 1#32
  let v831 : Index := Scalar.indexCast c1_i32_848
  let c0_i32_265 : BitVec 32 := 0#32
  let c1_i32_267 : BitVec 32 := 1#32
  let arg9 : BitVec 32 := Scf.iv c0_i32_265 c1_i32_267 k2_t8
  let v832 : Index := Scalar.indexCast arg9
  let c272 : Index := 272#32
  ![1, v832.toNat, 272]
def k2_off497 (k2_t8 : Fin k2_t8_loop.trips) : Fin 4 → Nat :=
  let c1_i32_849 : BitVec 32 := 1#32
  let v835 : Index := Scalar.indexCast c1_i32_849
  let c0_i32_265 : BitVec 32 := 0#32
  let c1_i32_267 : BitVec 32 := 1#32
  let arg9 : BitVec 32 := Scf.iv c0_i32_265 c1_i32_267 k2_t8
  let v836 : Index := Scalar.indexCast arg9
  let c2_i32_850 : BitVec 32 := 2#32
  let v837 : Index := Scalar.indexCast c2_i32_850
  let c16_851 : Index := 16#32
  ![1, v836.toNat, 2, 16]
def k2_off498 (k2_t8 : Fin k2_t8_loop.trips) : Fin 3 → Nat :=
  let c1_i32_852 : BitVec 32 := 1#32
  let v841 : Index := Scalar.indexCast c1_i32_852
  let c0_i32_265 : BitVec 32 := 0#32
  let c1_i32_267 : BitVec 32 := 1#32
  let arg9 : BitVec 32 := Scf.iv c0_i32_265 c1_i32_267 k2_t8
  let v842 : Index := Scalar.indexCast arg9
  let c288 : Index := 288#32
  ![1, v842.toNat, 288]
def k2_off499 (k2_t8 : Fin k2_t8_loop.trips) : Fin 4 → Nat :=
  let c1_i32_853 : BitVec 32 := 1#32
  let v845 : Index := Scalar.indexCast c1_i32_853
  let c0_i32_265 : BitVec 32 := 0#32
  let c1_i32_267 : BitVec 32 := 1#32
  let arg9 : BitVec 32 := Scf.iv c0_i32_265 c1_i32_267 k2_t8
  let v846 : Index := Scalar.indexCast arg9
  let c2_i32_854 : BitVec 32 := 2#32
  let v847 : Index := Scalar.indexCast c2_i32_854
  let c32_855 : Index := 32#32
  ![1, v846.toNat, 2, 32]
def k2_off500 (k2_t8 : Fin k2_t8_loop.trips) : Fin 3 → Nat :=
  let c1_i32_856 : BitVec 32 := 1#32
  let v851 : Index := Scalar.indexCast c1_i32_856
  let c0_i32_265 : BitVec 32 := 0#32
  let c1_i32_267 : BitVec 32 := 1#32
  let arg9 : BitVec 32 := Scf.iv c0_i32_265 c1_i32_267 k2_t8
  let v852 : Index := Scalar.indexCast arg9
  let c304 : Index := 304#32
  ![1, v852.toNat, 304]
def k2_off501 (k2_t8 : Fin k2_t8_loop.trips) : Fin 4 → Nat :=
  let c1_i32_857 : BitVec 32 := 1#32
  let v855 : Index := Scalar.indexCast c1_i32_857
  let c0_i32_265 : BitVec 32 := 0#32
  let c1_i32_267 : BitVec 32 := 1#32
  let arg9 : BitVec 32 := Scf.iv c0_i32_265 c1_i32_267 k2_t8
  let v856 : Index := Scalar.indexCast arg9
  let c2_i32_858 : BitVec 32 := 2#32
  let v857 : Index := Scalar.indexCast c2_i32_858
  let c48_859 : Index := 48#32
  ![1, v856.toNat, 2, 48]
def k2_off502 (k2_t8 : Fin k2_t8_loop.trips) : Fin 3 → Nat :=
  let c1_i32_860 : BitVec 32 := 1#32
  let v861 : Index := Scalar.indexCast c1_i32_860
  let c0_i32_265 : BitVec 32 := 0#32
  let c1_i32_267 : BitVec 32 := 1#32
  let arg9 : BitVec 32 := Scf.iv c0_i32_265 c1_i32_267 k2_t8
  let v862 : Index := Scalar.indexCast arg9
  let c320 : Index := 320#32
  ![1, v862.toNat, 320]
def k2_off503 (k2_t8 : Fin k2_t8_loop.trips) : Fin 4 → Nat :=
  let c1_i32_861 : BitVec 32 := 1#32
  let v865 : Index := Scalar.indexCast c1_i32_861
  let c0_i32_265 : BitVec 32 := 0#32
  let c1_i32_267 : BitVec 32 := 1#32
  let arg9 : BitVec 32 := Scf.iv c0_i32_265 c1_i32_267 k2_t8
  let v866 : Index := Scalar.indexCast arg9
  let c2_i32_862 : BitVec 32 := 2#32
  let v867 : Index := Scalar.indexCast c2_i32_862
  let c64_863 : Index := 64#32
  ![1, v866.toNat, 2, 64]
def k2_off504 (k2_t8 : Fin k2_t8_loop.trips) : Fin 3 → Nat :=
  let c1_i32_864 : BitVec 32 := 1#32
  let v871 : Index := Scalar.indexCast c1_i32_864
  let c0_i32_265 : BitVec 32 := 0#32
  let c1_i32_267 : BitVec 32 := 1#32
  let arg9 : BitVec 32 := Scf.iv c0_i32_265 c1_i32_267 k2_t8
  let v872 : Index := Scalar.indexCast arg9
  let c336 : Index := 336#32
  ![1, v872.toNat, 336]
def k2_off505 (k2_t8 : Fin k2_t8_loop.trips) : Fin 4 → Nat :=
  let c1_i32_865 : BitVec 32 := 1#32
  let v875 : Index := Scalar.indexCast c1_i32_865
  let c0_i32_265 : BitVec 32 := 0#32
  let c1_i32_267 : BitVec 32 := 1#32
  let arg9 : BitVec 32 := Scf.iv c0_i32_265 c1_i32_267 k2_t8
  let v876 : Index := Scalar.indexCast arg9
  let c2_i32_866 : BitVec 32 := 2#32
  let v877 : Index := Scalar.indexCast c2_i32_866
  let c80_867 : Index := 80#32
  ![1, v876.toNat, 2, 80]
def k2_off506 (k2_t8 : Fin k2_t8_loop.trips) : Fin 3 → Nat :=
  let c1_i32_868 : BitVec 32 := 1#32
  let v881 : Index := Scalar.indexCast c1_i32_868
  let c0_i32_265 : BitVec 32 := 0#32
  let c1_i32_267 : BitVec 32 := 1#32
  let arg9 : BitVec 32 := Scf.iv c0_i32_265 c1_i32_267 k2_t8
  let v882 : Index := Scalar.indexCast arg9
  let c352 : Index := 352#32
  ![1, v882.toNat, 352]
def k2_off507 (k2_t8 : Fin k2_t8_loop.trips) : Fin 4 → Nat :=
  let c1_i32_869 : BitVec 32 := 1#32
  let v885 : Index := Scalar.indexCast c1_i32_869
  let c0_i32_265 : BitVec 32 := 0#32
  let c1_i32_267 : BitVec 32 := 1#32
  let arg9 : BitVec 32 := Scf.iv c0_i32_265 c1_i32_267 k2_t8
  let v886 : Index := Scalar.indexCast arg9
  let c2_i32_870 : BitVec 32 := 2#32
  let v887 : Index := Scalar.indexCast c2_i32_870
  let c96_871 : Index := 96#32
  ![1, v886.toNat, 2, 96]
def k2_off508 (k2_t8 : Fin k2_t8_loop.trips) : Fin 3 → Nat :=
  let c1_i32_872 : BitVec 32 := 1#32
  let v891 : Index := Scalar.indexCast c1_i32_872
  let c0_i32_265 : BitVec 32 := 0#32
  let c1_i32_267 : BitVec 32 := 1#32
  let arg9 : BitVec 32 := Scf.iv c0_i32_265 c1_i32_267 k2_t8
  let v892 : Index := Scalar.indexCast arg9
  let c368 : Index := 368#32
  ![1, v892.toNat, 368]
def k2_off509 (k2_t8 : Fin k2_t8_loop.trips) : Fin 4 → Nat :=
  let c1_i32_873 : BitVec 32 := 1#32
  let v895 : Index := Scalar.indexCast c1_i32_873
  let c0_i32_265 : BitVec 32 := 0#32
  let c1_i32_267 : BitVec 32 := 1#32
  let arg9 : BitVec 32 := Scf.iv c0_i32_265 c1_i32_267 k2_t8
  let v896 : Index := Scalar.indexCast arg9
  let c2_i32_874 : BitVec 32 := 2#32
  let v897 : Index := Scalar.indexCast c2_i32_874
  let c112_875 : Index := 112#32
  ![1, v896.toNat, 2, 112]
def k2_off510 (k2_t8 : Fin k2_t8_loop.trips) : Fin 3 → Nat :=
  let c1_i32_876 : BitVec 32 := 1#32
  let v901 : Index := Scalar.indexCast c1_i32_876
  let c0_i32_265 : BitVec 32 := 0#32
  let c1_i32_267 : BitVec 32 := 1#32
  let arg9 : BitVec 32 := Scf.iv c0_i32_265 c1_i32_267 k2_t8
  let v902 : Index := Scalar.indexCast arg9
  let c384 : Index := 384#32
  ![1, v902.toNat, 384]
def k2_off511 (k2_t8 : Fin k2_t8_loop.trips) : Fin 4 → Nat :=
  let c1_i32_877 : BitVec 32 := 1#32
  let v905 : Index := Scalar.indexCast c1_i32_877
  let c0_i32_265 : BitVec 32 := 0#32
  let c1_i32_267 : BitVec 32 := 1#32
  let arg9 : BitVec 32 := Scf.iv c0_i32_265 c1_i32_267 k2_t8
  let v906 : Index := Scalar.indexCast arg9
  let c3_i32_878 : BitVec 32 := 3#32
  let v907 : Index := Scalar.indexCast c3_i32_878
  let c0_879 : Index := 0#32
  ![1, v906.toNat, 3, 0]
def k2_off512 (k2_t8 : Fin k2_t8_loop.trips) : Fin 3 → Nat :=
  let c1_i32_880 : BitVec 32 := 1#32
  let v911 : Index := Scalar.indexCast c1_i32_880
  let c0_i32_265 : BitVec 32 := 0#32
  let c1_i32_267 : BitVec 32 := 1#32
  let arg9 : BitVec 32 := Scf.iv c0_i32_265 c1_i32_267 k2_t8
  let v912 : Index := Scalar.indexCast arg9
  let c400 : Index := 400#32
  ![1, v912.toNat, 400]
def k2_off513 (k2_t8 : Fin k2_t8_loop.trips) : Fin 4 → Nat :=
  let c1_i32_881 : BitVec 32 := 1#32
  let v915 : Index := Scalar.indexCast c1_i32_881
  let c0_i32_265 : BitVec 32 := 0#32
  let c1_i32_267 : BitVec 32 := 1#32
  let arg9 : BitVec 32 := Scf.iv c0_i32_265 c1_i32_267 k2_t8
  let v916 : Index := Scalar.indexCast arg9
  let c3_i32_882 : BitVec 32 := 3#32
  let v917 : Index := Scalar.indexCast c3_i32_882
  let c16_883 : Index := 16#32
  ![1, v916.toNat, 3, 16]
def k2_off514 (k2_t8 : Fin k2_t8_loop.trips) : Fin 3 → Nat :=
  let c1_i32_884 : BitVec 32 := 1#32
  let v921 : Index := Scalar.indexCast c1_i32_884
  let c0_i32_265 : BitVec 32 := 0#32
  let c1_i32_267 : BitVec 32 := 1#32
  let arg9 : BitVec 32 := Scf.iv c0_i32_265 c1_i32_267 k2_t8
  let v922 : Index := Scalar.indexCast arg9
  let c416 : Index := 416#32
  ![1, v922.toNat, 416]
def k2_off515 (k2_t8 : Fin k2_t8_loop.trips) : Fin 4 → Nat :=
  let c1_i32_885 : BitVec 32 := 1#32
  let v925 : Index := Scalar.indexCast c1_i32_885
  let c0_i32_265 : BitVec 32 := 0#32
  let c1_i32_267 : BitVec 32 := 1#32
  let arg9 : BitVec 32 := Scf.iv c0_i32_265 c1_i32_267 k2_t8
  let v926 : Index := Scalar.indexCast arg9
  let c3_i32_886 : BitVec 32 := 3#32
  let v927 : Index := Scalar.indexCast c3_i32_886
  let c32_887 : Index := 32#32
  ![1, v926.toNat, 3, 32]
def k2_off516 (k2_t8 : Fin k2_t8_loop.trips) : Fin 3 → Nat :=
  let c1_i32_888 : BitVec 32 := 1#32
  let v931 : Index := Scalar.indexCast c1_i32_888
  let c0_i32_265 : BitVec 32 := 0#32
  let c1_i32_267 : BitVec 32 := 1#32
  let arg9 : BitVec 32 := Scf.iv c0_i32_265 c1_i32_267 k2_t8
  let v932 : Index := Scalar.indexCast arg9
  let c432 : Index := 432#32
  ![1, v932.toNat, 432]
def k2_off517 (k2_t8 : Fin k2_t8_loop.trips) : Fin 4 → Nat :=
  let c1_i32_889 : BitVec 32 := 1#32
  let v935 : Index := Scalar.indexCast c1_i32_889
  let c0_i32_265 : BitVec 32 := 0#32
  let c1_i32_267 : BitVec 32 := 1#32
  let arg9 : BitVec 32 := Scf.iv c0_i32_265 c1_i32_267 k2_t8
  let v936 : Index := Scalar.indexCast arg9
  let c3_i32_890 : BitVec 32 := 3#32
  let v937 : Index := Scalar.indexCast c3_i32_890
  let c48_891 : Index := 48#32
  ![1, v936.toNat, 3, 48]
def k2_off518 (k2_t8 : Fin k2_t8_loop.trips) : Fin 3 → Nat :=
  let c1_i32_892 : BitVec 32 := 1#32
  let v941 : Index := Scalar.indexCast c1_i32_892
  let c0_i32_265 : BitVec 32 := 0#32
  let c1_i32_267 : BitVec 32 := 1#32
  let arg9 : BitVec 32 := Scf.iv c0_i32_265 c1_i32_267 k2_t8
  let v942 : Index := Scalar.indexCast arg9
  let c448 : Index := 448#32
  ![1, v942.toNat, 448]
def k2_off519 (k2_t8 : Fin k2_t8_loop.trips) : Fin 4 → Nat :=
  let c1_i32_893 : BitVec 32 := 1#32
  let v945 : Index := Scalar.indexCast c1_i32_893
  let c0_i32_265 : BitVec 32 := 0#32
  let c1_i32_267 : BitVec 32 := 1#32
  let arg9 : BitVec 32 := Scf.iv c0_i32_265 c1_i32_267 k2_t8
  let v946 : Index := Scalar.indexCast arg9
  let c3_i32_894 : BitVec 32 := 3#32
  let v947 : Index := Scalar.indexCast c3_i32_894
  let c64_895 : Index := 64#32
  ![1, v946.toNat, 3, 64]
def k2_off520 (k2_t8 : Fin k2_t8_loop.trips) : Fin 3 → Nat :=
  let c1_i32_896 : BitVec 32 := 1#32
  let v951 : Index := Scalar.indexCast c1_i32_896
  let c0_i32_265 : BitVec 32 := 0#32
  let c1_i32_267 : BitVec 32 := 1#32
  let arg9 : BitVec 32 := Scf.iv c0_i32_265 c1_i32_267 k2_t8
  let v952 : Index := Scalar.indexCast arg9
  let c464 : Index := 464#32
  ![1, v952.toNat, 464]
def k2_off521 (k2_t8 : Fin k2_t8_loop.trips) : Fin 4 → Nat :=
  let c1_i32_897 : BitVec 32 := 1#32
  let v955 : Index := Scalar.indexCast c1_i32_897
  let c0_i32_265 : BitVec 32 := 0#32
  let c1_i32_267 : BitVec 32 := 1#32
  let arg9 : BitVec 32 := Scf.iv c0_i32_265 c1_i32_267 k2_t8
  let v956 : Index := Scalar.indexCast arg9
  let c3_i32_898 : BitVec 32 := 3#32
  let v957 : Index := Scalar.indexCast c3_i32_898
  let c80_899 : Index := 80#32
  ![1, v956.toNat, 3, 80]
def k2_off522 (k2_t8 : Fin k2_t8_loop.trips) : Fin 3 → Nat :=
  let c1_i32_900 : BitVec 32 := 1#32
  let v961 : Index := Scalar.indexCast c1_i32_900
  let c0_i32_265 : BitVec 32 := 0#32
  let c1_i32_267 : BitVec 32 := 1#32
  let arg9 : BitVec 32 := Scf.iv c0_i32_265 c1_i32_267 k2_t8
  let v962 : Index := Scalar.indexCast arg9
  let c480 : Index := 480#32
  ![1, v962.toNat, 480]
def k2_off523 (k2_t8 : Fin k2_t8_loop.trips) : Fin 4 → Nat :=
  let c1_i32_901 : BitVec 32 := 1#32
  let v965 : Index := Scalar.indexCast c1_i32_901
  let c0_i32_265 : BitVec 32 := 0#32
  let c1_i32_267 : BitVec 32 := 1#32
  let arg9 : BitVec 32 := Scf.iv c0_i32_265 c1_i32_267 k2_t8
  let v966 : Index := Scalar.indexCast arg9
  let c3_i32_902 : BitVec 32 := 3#32
  let v967 : Index := Scalar.indexCast c3_i32_902
  let c96_903 : Index := 96#32
  ![1, v966.toNat, 3, 96]
def k2_off524 (k2_t8 : Fin k2_t8_loop.trips) : Fin 3 → Nat :=
  let c1_i32_904 : BitVec 32 := 1#32
  let v971 : Index := Scalar.indexCast c1_i32_904
  let c0_i32_265 : BitVec 32 := 0#32
  let c1_i32_267 : BitVec 32 := 1#32
  let arg9 : BitVec 32 := Scf.iv c0_i32_265 c1_i32_267 k2_t8
  let v972 : Index := Scalar.indexCast arg9
  let c496 : Index := 496#32
  ![1, v972.toNat, 496]
def k2_off525 (k2_t8 : Fin k2_t8_loop.trips) : Fin 4 → Nat :=
  let c1_i32_905 : BitVec 32 := 1#32
  let v975 : Index := Scalar.indexCast c1_i32_905
  let c0_i32_265 : BitVec 32 := 0#32
  let c1_i32_267 : BitVec 32 := 1#32
  let arg9 : BitVec 32 := Scf.iv c0_i32_265 c1_i32_267 k2_t8
  let v976 : Index := Scalar.indexCast arg9
  let c3_i32_906 : BitVec 32 := 3#32
  let v977 : Index := Scalar.indexCast c3_i32_906
  let c112_907 : Index := 112#32
  ![1, v976.toNat, 3, 112]
def k2_off526 (i : grid2.Coords) : Fin 4 → Nat :=
  let c5_i32_270 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_275 : BitVec 32 := 0#32
  let c0_i32_276 : BitVec 32 := 0#32
  ![5, v2.toNat, 0, 0]
def k2_off527 (i : grid2.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_295 : BitVec 32 := 0#32
  ![7, v2.toNat, 0]
@[reducible] def k2_t9_loop : Scf.Loop 32 :=
  let c0_i32_313 : BitVec 32 := 0#32
  let c32_i32_314 : BitVec 32 := 32#32
  let v271 : BitVec 32 := Scalar.addi c0_i32_313 c32_i32_314
  let c1_i32_315 : BitVec 32 := 1#32
  ⟨c0_i32_313, v271, c1_i32_315⟩
def k2_off528 (k2_t9 : Fin k2_t9_loop.trips) : Fin 3 → Nat :=
  let c0_i32_780 : BitVec 32 := 0#32
  let v661 : Index := Scalar.indexCast c0_i32_780
  let c0_i32_313 : BitVec 32 := 0#32
  let c1_i32_315 : BitVec 32 := 1#32
  let arg9 : BitVec 32 := Scf.iv c0_i32_313 c1_i32_315 k2_t9
  let v662 : Index := Scalar.indexCast arg9
  let c0 : Index := 0#32
  ![0, v662.toNat, 0]
def k2_off529 (k2_t9 : Fin k2_t9_loop.trips) : Fin 4 → Nat :=
  let c0_i32_781 : BitVec 32 := 0#32
  let v665 : Index := Scalar.indexCast c0_i32_781
  let c0_i32_313 : BitVec 32 := 0#32
  let c1_i32_315 : BitVec 32 := 1#32
  let arg9 : BitVec 32 := Scf.iv c0_i32_313 c1_i32_315 k2_t9
  let v666 : Index := Scalar.indexCast arg9
  let c0_i32_782 : BitVec 32 := 0#32
  let v667 : Index := Scalar.indexCast c0_i32_782
  let c0_783 : Index := 0#32
  ![0, v666.toNat, 0, 0]
def k2_off530 (k2_t9 : Fin k2_t9_loop.trips) : Fin 3 → Nat :=
  let c0_i32_784 : BitVec 32 := 0#32
  let v671 : Index := Scalar.indexCast c0_i32_784
  let c0_i32_313 : BitVec 32 := 0#32
  let c1_i32_315 : BitVec 32 := 1#32
  let arg9 : BitVec 32 := Scf.iv c0_i32_313 c1_i32_315 k2_t9
  let v672 : Index := Scalar.indexCast arg9
  let c16 : Index := 16#32
  ![0, v672.toNat, 16]
def k2_off531 (k2_t9 : Fin k2_t9_loop.trips) : Fin 4 → Nat :=
  let c0_i32_785 : BitVec 32 := 0#32
  let v675 : Index := Scalar.indexCast c0_i32_785
  let c0_i32_313 : BitVec 32 := 0#32
  let c1_i32_315 : BitVec 32 := 1#32
  let arg9 : BitVec 32 := Scf.iv c0_i32_313 c1_i32_315 k2_t9
  let v676 : Index := Scalar.indexCast arg9
  let c0_i32_786 : BitVec 32 := 0#32
  let v677 : Index := Scalar.indexCast c0_i32_786
  let c16_787 : Index := 16#32
  ![0, v676.toNat, 0, 16]
def k2_off532 (k2_t9 : Fin k2_t9_loop.trips) : Fin 3 → Nat :=
  let c0_i32_788 : BitVec 32 := 0#32
  let v681 : Index := Scalar.indexCast c0_i32_788
  let c0_i32_313 : BitVec 32 := 0#32
  let c1_i32_315 : BitVec 32 := 1#32
  let arg9 : BitVec 32 := Scf.iv c0_i32_313 c1_i32_315 k2_t9
  let v682 : Index := Scalar.indexCast arg9
  let c32 : Index := 32#32
  ![0, v682.toNat, 32]
def k2_off533 (k2_t9 : Fin k2_t9_loop.trips) : Fin 4 → Nat :=
  let c0_i32_789 : BitVec 32 := 0#32
  let v685 : Index := Scalar.indexCast c0_i32_789
  let c0_i32_313 : BitVec 32 := 0#32
  let c1_i32_315 : BitVec 32 := 1#32
  let arg9 : BitVec 32 := Scf.iv c0_i32_313 c1_i32_315 k2_t9
  let v686 : Index := Scalar.indexCast arg9
  let c0_i32_790 : BitVec 32 := 0#32
  let v687 : Index := Scalar.indexCast c0_i32_790
  let c32_791 : Index := 32#32
  ![0, v686.toNat, 0, 32]
def k2_off534 (k2_t9 : Fin k2_t9_loop.trips) : Fin 3 → Nat :=
  let c0_i32_792 : BitVec 32 := 0#32
  let v691 : Index := Scalar.indexCast c0_i32_792
  let c0_i32_313 : BitVec 32 := 0#32
  let c1_i32_315 : BitVec 32 := 1#32
  let arg9 : BitVec 32 := Scf.iv c0_i32_313 c1_i32_315 k2_t9
  let v692 : Index := Scalar.indexCast arg9
  let c48 : Index := 48#32
  ![0, v692.toNat, 48]
def k2_off535 (k2_t9 : Fin k2_t9_loop.trips) : Fin 4 → Nat :=
  let c0_i32_793 : BitVec 32 := 0#32
  let v695 : Index := Scalar.indexCast c0_i32_793
  let c0_i32_313 : BitVec 32 := 0#32
  let c1_i32_315 : BitVec 32 := 1#32
  let arg9 : BitVec 32 := Scf.iv c0_i32_313 c1_i32_315 k2_t9
  let v696 : Index := Scalar.indexCast arg9
  let c0_i32_794 : BitVec 32 := 0#32
  let v697 : Index := Scalar.indexCast c0_i32_794
  let c48_795 : Index := 48#32
  ![0, v696.toNat, 0, 48]
def k2_off536 (k2_t9 : Fin k2_t9_loop.trips) : Fin 3 → Nat :=
  let c0_i32_796 : BitVec 32 := 0#32
  let v701 : Index := Scalar.indexCast c0_i32_796
  let c0_i32_313 : BitVec 32 := 0#32
  let c1_i32_315 : BitVec 32 := 1#32
  let arg9 : BitVec 32 := Scf.iv c0_i32_313 c1_i32_315 k2_t9
  let v702 : Index := Scalar.indexCast arg9
  let c64 : Index := 64#32
  ![0, v702.toNat, 64]
def k2_off537 (k2_t9 : Fin k2_t9_loop.trips) : Fin 4 → Nat :=
  let c0_i32_797 : BitVec 32 := 0#32
  let v705 : Index := Scalar.indexCast c0_i32_797
  let c0_i32_313 : BitVec 32 := 0#32
  let c1_i32_315 : BitVec 32 := 1#32
  let arg9 : BitVec 32 := Scf.iv c0_i32_313 c1_i32_315 k2_t9
  let v706 : Index := Scalar.indexCast arg9
  let c0_i32_798 : BitVec 32 := 0#32
  let v707 : Index := Scalar.indexCast c0_i32_798
  let c64_799 : Index := 64#32
  ![0, v706.toNat, 0, 64]
def k2_off538 (k2_t9 : Fin k2_t9_loop.trips) : Fin 3 → Nat :=
  let c0_i32_800 : BitVec 32 := 0#32
  let v711 : Index := Scalar.indexCast c0_i32_800
  let c0_i32_313 : BitVec 32 := 0#32
  let c1_i32_315 : BitVec 32 := 1#32
  let arg9 : BitVec 32 := Scf.iv c0_i32_313 c1_i32_315 k2_t9
  let v712 : Index := Scalar.indexCast arg9
  let c80 : Index := 80#32
  ![0, v712.toNat, 80]
def k2_off539 (k2_t9 : Fin k2_t9_loop.trips) : Fin 4 → Nat :=
  let c0_i32_801 : BitVec 32 := 0#32
  let v715 : Index := Scalar.indexCast c0_i32_801
  let c0_i32_313 : BitVec 32 := 0#32
  let c1_i32_315 : BitVec 32 := 1#32
  let arg9 : BitVec 32 := Scf.iv c0_i32_313 c1_i32_315 k2_t9
  let v716 : Index := Scalar.indexCast arg9
  let c0_i32_802 : BitVec 32 := 0#32
  let v717 : Index := Scalar.indexCast c0_i32_802
  let c80_803 : Index := 80#32
  ![0, v716.toNat, 0, 80]
def k2_off540 (k2_t9 : Fin k2_t9_loop.trips) : Fin 3 → Nat :=
  let c0_i32_804 : BitVec 32 := 0#32
  let v721 : Index := Scalar.indexCast c0_i32_804
  let c0_i32_313 : BitVec 32 := 0#32
  let c1_i32_315 : BitVec 32 := 1#32
  let arg9 : BitVec 32 := Scf.iv c0_i32_313 c1_i32_315 k2_t9
  let v722 : Index := Scalar.indexCast arg9
  let c96 : Index := 96#32
  ![0, v722.toNat, 96]
def k2_off541 (k2_t9 : Fin k2_t9_loop.trips) : Fin 4 → Nat :=
  let c0_i32_805 : BitVec 32 := 0#32
  let v725 : Index := Scalar.indexCast c0_i32_805
  let c0_i32_313 : BitVec 32 := 0#32
  let c1_i32_315 : BitVec 32 := 1#32
  let arg9 : BitVec 32 := Scf.iv c0_i32_313 c1_i32_315 k2_t9
  let v726 : Index := Scalar.indexCast arg9
  let c0_i32_806 : BitVec 32 := 0#32
  let v727 : Index := Scalar.indexCast c0_i32_806
  let c96_807 : Index := 96#32
  ![0, v726.toNat, 0, 96]
def k2_off542 (k2_t9 : Fin k2_t9_loop.trips) : Fin 3 → Nat :=
  let c0_i32_808 : BitVec 32 := 0#32
  let v731 : Index := Scalar.indexCast c0_i32_808
  let c0_i32_313 : BitVec 32 := 0#32
  let c1_i32_315 : BitVec 32 := 1#32
  let arg9 : BitVec 32 := Scf.iv c0_i32_313 c1_i32_315 k2_t9
  let v732 : Index := Scalar.indexCast arg9
  let c112 : Index := 112#32
  ![0, v732.toNat, 112]
def k2_off543 (k2_t9 : Fin k2_t9_loop.trips) : Fin 4 → Nat :=
  let c0_i32_809 : BitVec 32 := 0#32
  let v735 : Index := Scalar.indexCast c0_i32_809
  let c0_i32_313 : BitVec 32 := 0#32
  let c1_i32_315 : BitVec 32 := 1#32
  let arg9 : BitVec 32 := Scf.iv c0_i32_313 c1_i32_315 k2_t9
  let v736 : Index := Scalar.indexCast arg9
  let c0_i32_810 : BitVec 32 := 0#32
  let v737 : Index := Scalar.indexCast c0_i32_810
  let c112_811 : Index := 112#32
  ![0, v736.toNat, 0, 112]
def k2_off544 (k2_t9 : Fin k2_t9_loop.trips) : Fin 3 → Nat :=
  let c0_i32_812 : BitVec 32 := 0#32
  let v741 : Index := Scalar.indexCast c0_i32_812
  let c0_i32_313 : BitVec 32 := 0#32
  let c1_i32_315 : BitVec 32 := 1#32
  let arg9 : BitVec 32 := Scf.iv c0_i32_313 c1_i32_315 k2_t9
  let v742 : Index := Scalar.indexCast arg9
  let c128 : Index := 128#32
  ![0, v742.toNat, 128]
def k2_off545 (k2_t9 : Fin k2_t9_loop.trips) : Fin 4 → Nat :=
  let c0_i32_813 : BitVec 32 := 0#32
  let v745 : Index := Scalar.indexCast c0_i32_813
  let c0_i32_313 : BitVec 32 := 0#32
  let c1_i32_315 : BitVec 32 := 1#32
  let arg9 : BitVec 32 := Scf.iv c0_i32_313 c1_i32_315 k2_t9
  let v746 : Index := Scalar.indexCast arg9
  let c1_i32_814 : BitVec 32 := 1#32
  let v747 : Index := Scalar.indexCast c1_i32_814
  let c0_815 : Index := 0#32
  ![0, v746.toNat, 1, 0]
def k2_off546 (k2_t9 : Fin k2_t9_loop.trips) : Fin 3 → Nat :=
  let c0_i32_816 : BitVec 32 := 0#32
  let v751 : Index := Scalar.indexCast c0_i32_816
  let c0_i32_313 : BitVec 32 := 0#32
  let c1_i32_315 : BitVec 32 := 1#32
  let arg9 : BitVec 32 := Scf.iv c0_i32_313 c1_i32_315 k2_t9
  let v752 : Index := Scalar.indexCast arg9
  let c144 : Index := 144#32
  ![0, v752.toNat, 144]
def k2_off547 (k2_t9 : Fin k2_t9_loop.trips) : Fin 4 → Nat :=
  let c0_i32_817 : BitVec 32 := 0#32
  let v755 : Index := Scalar.indexCast c0_i32_817
  let c0_i32_313 : BitVec 32 := 0#32
  let c1_i32_315 : BitVec 32 := 1#32
  let arg9 : BitVec 32 := Scf.iv c0_i32_313 c1_i32_315 k2_t9
  let v756 : Index := Scalar.indexCast arg9
  let c1_i32_818 : BitVec 32 := 1#32
  let v757 : Index := Scalar.indexCast c1_i32_818
  let c16_819 : Index := 16#32
  ![0, v756.toNat, 1, 16]
def k2_off548 (k2_t9 : Fin k2_t9_loop.trips) : Fin 3 → Nat :=
  let c0_i32_820 : BitVec 32 := 0#32
  let v761 : Index := Scalar.indexCast c0_i32_820
  let c0_i32_313 : BitVec 32 := 0#32
  let c1_i32_315 : BitVec 32 := 1#32
  let arg9 : BitVec 32 := Scf.iv c0_i32_313 c1_i32_315 k2_t9
  let v762 : Index := Scalar.indexCast arg9
  let c160 : Index := 160#32
  ![0, v762.toNat, 160]
def k2_off549 (k2_t9 : Fin k2_t9_loop.trips) : Fin 4 → Nat :=
  let c0_i32_821 : BitVec 32 := 0#32
  let v765 : Index := Scalar.indexCast c0_i32_821
  let c0_i32_313 : BitVec 32 := 0#32
  let c1_i32_315 : BitVec 32 := 1#32
  let arg9 : BitVec 32 := Scf.iv c0_i32_313 c1_i32_315 k2_t9
  let v766 : Index := Scalar.indexCast arg9
  let c1_i32_822 : BitVec 32 := 1#32
  let v767 : Index := Scalar.indexCast c1_i32_822
  let c32_823 : Index := 32#32
  ![0, v766.toNat, 1, 32]
def k2_off550 (k2_t9 : Fin k2_t9_loop.trips) : Fin 3 → Nat :=
  let c0_i32_824 : BitVec 32 := 0#32
  let v771 : Index := Scalar.indexCast c0_i32_824
  let c0_i32_313 : BitVec 32 := 0#32
  let c1_i32_315 : BitVec 32 := 1#32
  let arg9 : BitVec 32 := Scf.iv c0_i32_313 c1_i32_315 k2_t9
  let v772 : Index := Scalar.indexCast arg9
  let c176 : Index := 176#32
  ![0, v772.toNat, 176]
def k2_off551 (k2_t9 : Fin k2_t9_loop.trips) : Fin 4 → Nat :=
  let c0_i32_825 : BitVec 32 := 0#32
  let v775 : Index := Scalar.indexCast c0_i32_825
  let c0_i32_313 : BitVec 32 := 0#32
  let c1_i32_315 : BitVec 32 := 1#32
  let arg9 : BitVec 32 := Scf.iv c0_i32_313 c1_i32_315 k2_t9
  let v776 : Index := Scalar.indexCast arg9
  let c1_i32_826 : BitVec 32 := 1#32
  let v777 : Index := Scalar.indexCast c1_i32_826
  let c48_827 : Index := 48#32
  ![0, v776.toNat, 1, 48]
def k2_off552 (k2_t9 : Fin k2_t9_loop.trips) : Fin 3 → Nat :=
  let c0_i32_828 : BitVec 32 := 0#32
  let v781 : Index := Scalar.indexCast c0_i32_828
  let c0_i32_313 : BitVec 32 := 0#32
  let c1_i32_315 : BitVec 32 := 1#32
  let arg9 : BitVec 32 := Scf.iv c0_i32_313 c1_i32_315 k2_t9
  let v782 : Index := Scalar.indexCast arg9
  let c192 : Index := 192#32
  ![0, v782.toNat, 192]
def k2_off553 (k2_t9 : Fin k2_t9_loop.trips) : Fin 4 → Nat :=
  let c0_i32_829 : BitVec 32 := 0#32
  let v785 : Index := Scalar.indexCast c0_i32_829
  let c0_i32_313 : BitVec 32 := 0#32
  let c1_i32_315 : BitVec 32 := 1#32
  let arg9 : BitVec 32 := Scf.iv c0_i32_313 c1_i32_315 k2_t9
  let v786 : Index := Scalar.indexCast arg9
  let c1_i32_830 : BitVec 32 := 1#32
  let v787 : Index := Scalar.indexCast c1_i32_830
  let c64_831 : Index := 64#32
  ![0, v786.toNat, 1, 64]
def k2_off554 (k2_t9 : Fin k2_t9_loop.trips) : Fin 3 → Nat :=
  let c0_i32_832 : BitVec 32 := 0#32
  let v791 : Index := Scalar.indexCast c0_i32_832
  let c0_i32_313 : BitVec 32 := 0#32
  let c1_i32_315 : BitVec 32 := 1#32
  let arg9 : BitVec 32 := Scf.iv c0_i32_313 c1_i32_315 k2_t9
  let v792 : Index := Scalar.indexCast arg9
  let c208 : Index := 208#32
  ![0, v792.toNat, 208]
def k2_off555 (k2_t9 : Fin k2_t9_loop.trips) : Fin 4 → Nat :=
  let c0_i32_833 : BitVec 32 := 0#32
  let v795 : Index := Scalar.indexCast c0_i32_833
  let c0_i32_313 : BitVec 32 := 0#32
  let c1_i32_315 : BitVec 32 := 1#32
  let arg9 : BitVec 32 := Scf.iv c0_i32_313 c1_i32_315 k2_t9
  let v796 : Index := Scalar.indexCast arg9
  let c1_i32_834 : BitVec 32 := 1#32
  let v797 : Index := Scalar.indexCast c1_i32_834
  let c80_835 : Index := 80#32
  ![0, v796.toNat, 1, 80]
def k2_off556 (k2_t9 : Fin k2_t9_loop.trips) : Fin 3 → Nat :=
  let c0_i32_836 : BitVec 32 := 0#32
  let v801 : Index := Scalar.indexCast c0_i32_836
  let c0_i32_313 : BitVec 32 := 0#32
  let c1_i32_315 : BitVec 32 := 1#32
  let arg9 : BitVec 32 := Scf.iv c0_i32_313 c1_i32_315 k2_t9
  let v802 : Index := Scalar.indexCast arg9
  let c224 : Index := 224#32
  ![0, v802.toNat, 224]
def k2_off557 (k2_t9 : Fin k2_t9_loop.trips) : Fin 4 → Nat :=
  let c0_i32_837 : BitVec 32 := 0#32
  let v805 : Index := Scalar.indexCast c0_i32_837
  let c0_i32_313 : BitVec 32 := 0#32
  let c1_i32_315 : BitVec 32 := 1#32
  let arg9 : BitVec 32 := Scf.iv c0_i32_313 c1_i32_315 k2_t9
  let v806 : Index := Scalar.indexCast arg9
  let c1_i32_838 : BitVec 32 := 1#32
  let v807 : Index := Scalar.indexCast c1_i32_838
  let c96_839 : Index := 96#32
  ![0, v806.toNat, 1, 96]
def k2_off558 (k2_t9 : Fin k2_t9_loop.trips) : Fin 3 → Nat :=
  let c0_i32_840 : BitVec 32 := 0#32
  let v811 : Index := Scalar.indexCast c0_i32_840
  let c0_i32_313 : BitVec 32 := 0#32
  let c1_i32_315 : BitVec 32 := 1#32
  let arg9 : BitVec 32 := Scf.iv c0_i32_313 c1_i32_315 k2_t9
  let v812 : Index := Scalar.indexCast arg9
  let c240 : Index := 240#32
  ![0, v812.toNat, 240]
def k2_off559 (k2_t9 : Fin k2_t9_loop.trips) : Fin 4 → Nat :=
  let c0_i32_841 : BitVec 32 := 0#32
  let v815 : Index := Scalar.indexCast c0_i32_841
  let c0_i32_313 : BitVec 32 := 0#32
  let c1_i32_315 : BitVec 32 := 1#32
  let arg9 : BitVec 32 := Scf.iv c0_i32_313 c1_i32_315 k2_t9
  let v816 : Index := Scalar.indexCast arg9
  let c1_i32_842 : BitVec 32 := 1#32
  let v817 : Index := Scalar.indexCast c1_i32_842
  let c112_843 : Index := 112#32
  ![0, v816.toNat, 1, 112]
def k2_off560 (k2_t9 : Fin k2_t9_loop.trips) : Fin 3 → Nat :=
  let c0_i32_844 : BitVec 32 := 0#32
  let v821 : Index := Scalar.indexCast c0_i32_844
  let c0_i32_313 : BitVec 32 := 0#32
  let c1_i32_315 : BitVec 32 := 1#32
  let arg9 : BitVec 32 := Scf.iv c0_i32_313 c1_i32_315 k2_t9
  let v822 : Index := Scalar.indexCast arg9
  let c256 : Index := 256#32
  ![0, v822.toNat, 256]
def k2_off561 (k2_t9 : Fin k2_t9_loop.trips) : Fin 4 → Nat :=
  let c0_i32_845 : BitVec 32 := 0#32
  let v825 : Index := Scalar.indexCast c0_i32_845
  let c0_i32_313 : BitVec 32 := 0#32
  let c1_i32_315 : BitVec 32 := 1#32
  let arg9 : BitVec 32 := Scf.iv c0_i32_313 c1_i32_315 k2_t9
  let v826 : Index := Scalar.indexCast arg9
  let c2_i32_846 : BitVec 32 := 2#32
  let v827 : Index := Scalar.indexCast c2_i32_846
  let c0_847 : Index := 0#32
  ![0, v826.toNat, 2, 0]
def k2_off562 (k2_t9 : Fin k2_t9_loop.trips) : Fin 3 → Nat :=
  let c0_i32_848 : BitVec 32 := 0#32
  let v831 : Index := Scalar.indexCast c0_i32_848
  let c0_i32_313 : BitVec 32 := 0#32
  let c1_i32_315 : BitVec 32 := 1#32
  let arg9 : BitVec 32 := Scf.iv c0_i32_313 c1_i32_315 k2_t9
  let v832 : Index := Scalar.indexCast arg9
  let c272 : Index := 272#32
  ![0, v832.toNat, 272]
def k2_off563 (k2_t9 : Fin k2_t9_loop.trips) : Fin 4 → Nat :=
  let c0_i32_849 : BitVec 32 := 0#32
  let v835 : Index := Scalar.indexCast c0_i32_849
  let c0_i32_313 : BitVec 32 := 0#32
  let c1_i32_315 : BitVec 32 := 1#32
  let arg9 : BitVec 32 := Scf.iv c0_i32_313 c1_i32_315 k2_t9
  let v836 : Index := Scalar.indexCast arg9
  let c2_i32_850 : BitVec 32 := 2#32
  let v837 : Index := Scalar.indexCast c2_i32_850
  let c16_851 : Index := 16#32
  ![0, v836.toNat, 2, 16]
def k2_off564 (k2_t9 : Fin k2_t9_loop.trips) : Fin 3 → Nat :=
  let c0_i32_852 : BitVec 32 := 0#32
  let v841 : Index := Scalar.indexCast c0_i32_852
  let c0_i32_313 : BitVec 32 := 0#32
  let c1_i32_315 : BitVec 32 := 1#32
  let arg9 : BitVec 32 := Scf.iv c0_i32_313 c1_i32_315 k2_t9
  let v842 : Index := Scalar.indexCast arg9
  let c288 : Index := 288#32
  ![0, v842.toNat, 288]
def k2_off565 (k2_t9 : Fin k2_t9_loop.trips) : Fin 4 → Nat :=
  let c0_i32_853 : BitVec 32 := 0#32
  let v845 : Index := Scalar.indexCast c0_i32_853
  let c0_i32_313 : BitVec 32 := 0#32
  let c1_i32_315 : BitVec 32 := 1#32
  let arg9 : BitVec 32 := Scf.iv c0_i32_313 c1_i32_315 k2_t9
  let v846 : Index := Scalar.indexCast arg9
  let c2_i32_854 : BitVec 32 := 2#32
  let v847 : Index := Scalar.indexCast c2_i32_854
  let c32_855 : Index := 32#32
  ![0, v846.toNat, 2, 32]
def k2_off566 (k2_t9 : Fin k2_t9_loop.trips) : Fin 3 → Nat :=
  let c0_i32_856 : BitVec 32 := 0#32
  let v851 : Index := Scalar.indexCast c0_i32_856
  let c0_i32_313 : BitVec 32 := 0#32
  let c1_i32_315 : BitVec 32 := 1#32
  let arg9 : BitVec 32 := Scf.iv c0_i32_313 c1_i32_315 k2_t9
  let v852 : Index := Scalar.indexCast arg9
  let c304 : Index := 304#32
  ![0, v852.toNat, 304]
def k2_off567 (k2_t9 : Fin k2_t9_loop.trips) : Fin 4 → Nat :=
  let c0_i32_857 : BitVec 32 := 0#32
  let v855 : Index := Scalar.indexCast c0_i32_857
  let c0_i32_313 : BitVec 32 := 0#32
  let c1_i32_315 : BitVec 32 := 1#32
  let arg9 : BitVec 32 := Scf.iv c0_i32_313 c1_i32_315 k2_t9
  let v856 : Index := Scalar.indexCast arg9
  let c2_i32_858 : BitVec 32 := 2#32
  let v857 : Index := Scalar.indexCast c2_i32_858
  let c48_859 : Index := 48#32
  ![0, v856.toNat, 2, 48]
def k2_off568 (k2_t9 : Fin k2_t9_loop.trips) : Fin 3 → Nat :=
  let c0_i32_860 : BitVec 32 := 0#32
  let v861 : Index := Scalar.indexCast c0_i32_860
  let c0_i32_313 : BitVec 32 := 0#32
  let c1_i32_315 : BitVec 32 := 1#32
  let arg9 : BitVec 32 := Scf.iv c0_i32_313 c1_i32_315 k2_t9
  let v862 : Index := Scalar.indexCast arg9
  let c320 : Index := 320#32
  ![0, v862.toNat, 320]
def k2_off569 (k2_t9 : Fin k2_t9_loop.trips) : Fin 4 → Nat :=
  let c0_i32_861 : BitVec 32 := 0#32
  let v865 : Index := Scalar.indexCast c0_i32_861
  let c0_i32_313 : BitVec 32 := 0#32
  let c1_i32_315 : BitVec 32 := 1#32
  let arg9 : BitVec 32 := Scf.iv c0_i32_313 c1_i32_315 k2_t9
  let v866 : Index := Scalar.indexCast arg9
  let c2_i32_862 : BitVec 32 := 2#32
  let v867 : Index := Scalar.indexCast c2_i32_862
  let c64_863 : Index := 64#32
  ![0, v866.toNat, 2, 64]
def k2_off570 (k2_t9 : Fin k2_t9_loop.trips) : Fin 3 → Nat :=
  let c0_i32_864 : BitVec 32 := 0#32
  let v871 : Index := Scalar.indexCast c0_i32_864
  let c0_i32_313 : BitVec 32 := 0#32
  let c1_i32_315 : BitVec 32 := 1#32
  let arg9 : BitVec 32 := Scf.iv c0_i32_313 c1_i32_315 k2_t9
  let v872 : Index := Scalar.indexCast arg9
  let c336 : Index := 336#32
  ![0, v872.toNat, 336]
def k2_off571 (k2_t9 : Fin k2_t9_loop.trips) : Fin 4 → Nat :=
  let c0_i32_865 : BitVec 32 := 0#32
  let v875 : Index := Scalar.indexCast c0_i32_865
  let c0_i32_313 : BitVec 32 := 0#32
  let c1_i32_315 : BitVec 32 := 1#32
  let arg9 : BitVec 32 := Scf.iv c0_i32_313 c1_i32_315 k2_t9
  let v876 : Index := Scalar.indexCast arg9
  let c2_i32_866 : BitVec 32 := 2#32
  let v877 : Index := Scalar.indexCast c2_i32_866
  let c80_867 : Index := 80#32
  ![0, v876.toNat, 2, 80]
def k2_off572 (k2_t9 : Fin k2_t9_loop.trips) : Fin 3 → Nat :=
  let c0_i32_868 : BitVec 32 := 0#32
  let v881 : Index := Scalar.indexCast c0_i32_868
  let c0_i32_313 : BitVec 32 := 0#32
  let c1_i32_315 : BitVec 32 := 1#32
  let arg9 : BitVec 32 := Scf.iv c0_i32_313 c1_i32_315 k2_t9
  let v882 : Index := Scalar.indexCast arg9
  let c352 : Index := 352#32
  ![0, v882.toNat, 352]
def k2_off573 (k2_t9 : Fin k2_t9_loop.trips) : Fin 4 → Nat :=
  let c0_i32_869 : BitVec 32 := 0#32
  let v885 : Index := Scalar.indexCast c0_i32_869
  let c0_i32_313 : BitVec 32 := 0#32
  let c1_i32_315 : BitVec 32 := 1#32
  let arg9 : BitVec 32 := Scf.iv c0_i32_313 c1_i32_315 k2_t9
  let v886 : Index := Scalar.indexCast arg9
  let c2_i32_870 : BitVec 32 := 2#32
  let v887 : Index := Scalar.indexCast c2_i32_870
  let c96_871 : Index := 96#32
  ![0, v886.toNat, 2, 96]
def k2_off574 (k2_t9 : Fin k2_t9_loop.trips) : Fin 3 → Nat :=
  let c0_i32_872 : BitVec 32 := 0#32
  let v891 : Index := Scalar.indexCast c0_i32_872
  let c0_i32_313 : BitVec 32 := 0#32
  let c1_i32_315 : BitVec 32 := 1#32
  let arg9 : BitVec 32 := Scf.iv c0_i32_313 c1_i32_315 k2_t9
  let v892 : Index := Scalar.indexCast arg9
  let c368 : Index := 368#32
  ![0, v892.toNat, 368]
def k2_off575 (k2_t9 : Fin k2_t9_loop.trips) : Fin 4 → Nat :=
  let c0_i32_873 : BitVec 32 := 0#32
  let v895 : Index := Scalar.indexCast c0_i32_873
  let c0_i32_313 : BitVec 32 := 0#32
  let c1_i32_315 : BitVec 32 := 1#32
  let arg9 : BitVec 32 := Scf.iv c0_i32_313 c1_i32_315 k2_t9
  let v896 : Index := Scalar.indexCast arg9
  let c2_i32_874 : BitVec 32 := 2#32
  let v897 : Index := Scalar.indexCast c2_i32_874
  let c112_875 : Index := 112#32
  ![0, v896.toNat, 2, 112]
def k2_off576 (k2_t9 : Fin k2_t9_loop.trips) : Fin 3 → Nat :=
  let c0_i32_876 : BitVec 32 := 0#32
  let v901 : Index := Scalar.indexCast c0_i32_876
  let c0_i32_313 : BitVec 32 := 0#32
  let c1_i32_315 : BitVec 32 := 1#32
  let arg9 : BitVec 32 := Scf.iv c0_i32_313 c1_i32_315 k2_t9
  let v902 : Index := Scalar.indexCast arg9
  let c384 : Index := 384#32
  ![0, v902.toNat, 384]
def k2_off577 (k2_t9 : Fin k2_t9_loop.trips) : Fin 4 → Nat :=
  let c0_i32_877 : BitVec 32 := 0#32
  let v905 : Index := Scalar.indexCast c0_i32_877
  let c0_i32_313 : BitVec 32 := 0#32
  let c1_i32_315 : BitVec 32 := 1#32
  let arg9 : BitVec 32 := Scf.iv c0_i32_313 c1_i32_315 k2_t9
  let v906 : Index := Scalar.indexCast arg9
  let c3_i32_878 : BitVec 32 := 3#32
  let v907 : Index := Scalar.indexCast c3_i32_878
  let c0_879 : Index := 0#32
  ![0, v906.toNat, 3, 0]
def k2_off578 (k2_t9 : Fin k2_t9_loop.trips) : Fin 3 → Nat :=
  let c0_i32_880 : BitVec 32 := 0#32
  let v911 : Index := Scalar.indexCast c0_i32_880
  let c0_i32_313 : BitVec 32 := 0#32
  let c1_i32_315 : BitVec 32 := 1#32
  let arg9 : BitVec 32 := Scf.iv c0_i32_313 c1_i32_315 k2_t9
  let v912 : Index := Scalar.indexCast arg9
  let c400 : Index := 400#32
  ![0, v912.toNat, 400]
def k2_off579 (k2_t9 : Fin k2_t9_loop.trips) : Fin 4 → Nat :=
  let c0_i32_881 : BitVec 32 := 0#32
  let v915 : Index := Scalar.indexCast c0_i32_881
  let c0_i32_313 : BitVec 32 := 0#32
  let c1_i32_315 : BitVec 32 := 1#32
  let arg9 : BitVec 32 := Scf.iv c0_i32_313 c1_i32_315 k2_t9
  let v916 : Index := Scalar.indexCast arg9
  let c3_i32_882 : BitVec 32 := 3#32
  let v917 : Index := Scalar.indexCast c3_i32_882
  let c16_883 : Index := 16#32
  ![0, v916.toNat, 3, 16]
def k2_off580 (k2_t9 : Fin k2_t9_loop.trips) : Fin 3 → Nat :=
  let c0_i32_884 : BitVec 32 := 0#32
  let v921 : Index := Scalar.indexCast c0_i32_884
  let c0_i32_313 : BitVec 32 := 0#32
  let c1_i32_315 : BitVec 32 := 1#32
  let arg9 : BitVec 32 := Scf.iv c0_i32_313 c1_i32_315 k2_t9
  let v922 : Index := Scalar.indexCast arg9
  let c416 : Index := 416#32
  ![0, v922.toNat, 416]
def k2_off581 (k2_t9 : Fin k2_t9_loop.trips) : Fin 4 → Nat :=
  let c0_i32_885 : BitVec 32 := 0#32
  let v925 : Index := Scalar.indexCast c0_i32_885
  let c0_i32_313 : BitVec 32 := 0#32
  let c1_i32_315 : BitVec 32 := 1#32
  let arg9 : BitVec 32 := Scf.iv c0_i32_313 c1_i32_315 k2_t9
  let v926 : Index := Scalar.indexCast arg9
  let c3_i32_886 : BitVec 32 := 3#32
  let v927 : Index := Scalar.indexCast c3_i32_886
  let c32_887 : Index := 32#32
  ![0, v926.toNat, 3, 32]
def k2_off582 (k2_t9 : Fin k2_t9_loop.trips) : Fin 3 → Nat :=
  let c0_i32_888 : BitVec 32 := 0#32
  let v931 : Index := Scalar.indexCast c0_i32_888
  let c0_i32_313 : BitVec 32 := 0#32
  let c1_i32_315 : BitVec 32 := 1#32
  let arg9 : BitVec 32 := Scf.iv c0_i32_313 c1_i32_315 k2_t9
  let v932 : Index := Scalar.indexCast arg9
  let c432 : Index := 432#32
  ![0, v932.toNat, 432]
def k2_off583 (k2_t9 : Fin k2_t9_loop.trips) : Fin 4 → Nat :=
  let c0_i32_889 : BitVec 32 := 0#32
  let v935 : Index := Scalar.indexCast c0_i32_889
  let c0_i32_313 : BitVec 32 := 0#32
  let c1_i32_315 : BitVec 32 := 1#32
  let arg9 : BitVec 32 := Scf.iv c0_i32_313 c1_i32_315 k2_t9
  let v936 : Index := Scalar.indexCast arg9
  let c3_i32_890 : BitVec 32 := 3#32
  let v937 : Index := Scalar.indexCast c3_i32_890
  let c48_891 : Index := 48#32
  ![0, v936.toNat, 3, 48]
def k2_off584 (k2_t9 : Fin k2_t9_loop.trips) : Fin 3 → Nat :=
  let c0_i32_892 : BitVec 32 := 0#32
  let v941 : Index := Scalar.indexCast c0_i32_892
  let c0_i32_313 : BitVec 32 := 0#32
  let c1_i32_315 : BitVec 32 := 1#32
  let arg9 : BitVec 32 := Scf.iv c0_i32_313 c1_i32_315 k2_t9
  let v942 : Index := Scalar.indexCast arg9
  let c448 : Index := 448#32
  ![0, v942.toNat, 448]
def k2_off585 (k2_t9 : Fin k2_t9_loop.trips) : Fin 4 → Nat :=
  let c0_i32_893 : BitVec 32 := 0#32
  let v945 : Index := Scalar.indexCast c0_i32_893
  let c0_i32_313 : BitVec 32 := 0#32
  let c1_i32_315 : BitVec 32 := 1#32
  let arg9 : BitVec 32 := Scf.iv c0_i32_313 c1_i32_315 k2_t9
  let v946 : Index := Scalar.indexCast arg9
  let c3_i32_894 : BitVec 32 := 3#32
  let v947 : Index := Scalar.indexCast c3_i32_894
  let c64_895 : Index := 64#32
  ![0, v946.toNat, 3, 64]
def k2_off586 (k2_t9 : Fin k2_t9_loop.trips) : Fin 3 → Nat :=
  let c0_i32_896 : BitVec 32 := 0#32
  let v951 : Index := Scalar.indexCast c0_i32_896
  let c0_i32_313 : BitVec 32 := 0#32
  let c1_i32_315 : BitVec 32 := 1#32
  let arg9 : BitVec 32 := Scf.iv c0_i32_313 c1_i32_315 k2_t9
  let v952 : Index := Scalar.indexCast arg9
  let c464 : Index := 464#32
  ![0, v952.toNat, 464]
def k2_off587 (k2_t9 : Fin k2_t9_loop.trips) : Fin 4 → Nat :=
  let c0_i32_897 : BitVec 32 := 0#32
  let v955 : Index := Scalar.indexCast c0_i32_897
  let c0_i32_313 : BitVec 32 := 0#32
  let c1_i32_315 : BitVec 32 := 1#32
  let arg9 : BitVec 32 := Scf.iv c0_i32_313 c1_i32_315 k2_t9
  let v956 : Index := Scalar.indexCast arg9
  let c3_i32_898 : BitVec 32 := 3#32
  let v957 : Index := Scalar.indexCast c3_i32_898
  let c80_899 : Index := 80#32
  ![0, v956.toNat, 3, 80]
def k2_off588 (k2_t9 : Fin k2_t9_loop.trips) : Fin 3 → Nat :=
  let c0_i32_900 : BitVec 32 := 0#32
  let v961 : Index := Scalar.indexCast c0_i32_900
  let c0_i32_313 : BitVec 32 := 0#32
  let c1_i32_315 : BitVec 32 := 1#32
  let arg9 : BitVec 32 := Scf.iv c0_i32_313 c1_i32_315 k2_t9
  let v962 : Index := Scalar.indexCast arg9
  let c480 : Index := 480#32
  ![0, v962.toNat, 480]
def k2_off589 (k2_t9 : Fin k2_t9_loop.trips) : Fin 4 → Nat :=
  let c0_i32_901 : BitVec 32 := 0#32
  let v965 : Index := Scalar.indexCast c0_i32_901
  let c0_i32_313 : BitVec 32 := 0#32
  let c1_i32_315 : BitVec 32 := 1#32
  let arg9 : BitVec 32 := Scf.iv c0_i32_313 c1_i32_315 k2_t9
  let v966 : Index := Scalar.indexCast arg9
  let c3_i32_902 : BitVec 32 := 3#32
  let v967 : Index := Scalar.indexCast c3_i32_902
  let c96_903 : Index := 96#32
  ![0, v966.toNat, 3, 96]
def k2_off590 (k2_t9 : Fin k2_t9_loop.trips) : Fin 3 → Nat :=
  let c0_i32_904 : BitVec 32 := 0#32
  let v971 : Index := Scalar.indexCast c0_i32_904
  let c0_i32_313 : BitVec 32 := 0#32
  let c1_i32_315 : BitVec 32 := 1#32
  let arg9 : BitVec 32 := Scf.iv c0_i32_313 c1_i32_315 k2_t9
  let v972 : Index := Scalar.indexCast arg9
  let c496 : Index := 496#32
  ![0, v972.toNat, 496]
def k2_off591 (k2_t9 : Fin k2_t9_loop.trips) : Fin 4 → Nat :=
  let c0_i32_905 : BitVec 32 := 0#32
  let v975 : Index := Scalar.indexCast c0_i32_905
  let c0_i32_313 : BitVec 32 := 0#32
  let c1_i32_315 : BitVec 32 := 1#32
  let arg9 : BitVec 32 := Scf.iv c0_i32_313 c1_i32_315 k2_t9
  let v976 : Index := Scalar.indexCast arg9
  let c3_i32_906 : BitVec 32 := 3#32
  let v977 : Index := Scalar.indexCast c3_i32_906
  let c112_907 : Index := 112#32
  ![0, v976.toNat, 3, 112]
def k2_off592 (i : grid2.Coords) : Fin 4 → Nat :=
  let c6_i32_318 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_323 : BitVec 32 := 0#32
  let c0_i32_324 : BitVec 32 := 0#32
  ![6, v2.toNat, 0, 0]
def k2_off593 (i : grid2.Coords) : Fin 3 → Nat :=
  let c8_i32 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_343 : BitVec 32 := 0#32
  ![8, v2.toNat, 0]
@[reducible] def k2_t10_loop : Scf.Loop 32 :=
  let c0_i32_361 : BitVec 32 := 0#32
  let c32_i32_362 : BitVec 32 := 32#32
  let v312 : BitVec 32 := Scalar.addi c0_i32_361 c32_i32_362
  let c1_i32_363 : BitVec 32 := 1#32
  ⟨c0_i32_361, v312, c1_i32_363⟩
def k2_off594 (k2_t10 : Fin k2_t10_loop.trips) : Fin 3 → Nat :=
  let c1_i32_780 : BitVec 32 := 1#32
  let v661 : Index := Scalar.indexCast c1_i32_780
  let c0_i32_361 : BitVec 32 := 0#32
  let c1_i32_363 : BitVec 32 := 1#32
  let arg9 : BitVec 32 := Scf.iv c0_i32_361 c1_i32_363 k2_t10
  let v662 : Index := Scalar.indexCast arg9
  let c0 : Index := 0#32
  ![1, v662.toNat, 0]
def k2_off595 (k2_t10 : Fin k2_t10_loop.trips) : Fin 4 → Nat :=
  let c1_i32_781 : BitVec 32 := 1#32
  let v665 : Index := Scalar.indexCast c1_i32_781
  let c0_i32_361 : BitVec 32 := 0#32
  let c1_i32_363 : BitVec 32 := 1#32
  let arg9 : BitVec 32 := Scf.iv c0_i32_361 c1_i32_363 k2_t10
  let v666 : Index := Scalar.indexCast arg9
  let c0_i32_782 : BitVec 32 := 0#32
  let v667 : Index := Scalar.indexCast c0_i32_782
  let c0_783 : Index := 0#32
  ![1, v666.toNat, 0, 0]
def k2_off596 (k2_t10 : Fin k2_t10_loop.trips) : Fin 3 → Nat :=
  let c1_i32_784 : BitVec 32 := 1#32
  let v671 : Index := Scalar.indexCast c1_i32_784
  let c0_i32_361 : BitVec 32 := 0#32
  let c1_i32_363 : BitVec 32 := 1#32
  let arg9 : BitVec 32 := Scf.iv c0_i32_361 c1_i32_363 k2_t10
  let v672 : Index := Scalar.indexCast arg9
  let c16 : Index := 16#32
  ![1, v672.toNat, 16]
def k2_off597 (k2_t10 : Fin k2_t10_loop.trips) : Fin 4 → Nat :=
  let c1_i32_785 : BitVec 32 := 1#32
  let v675 : Index := Scalar.indexCast c1_i32_785
  let c0_i32_361 : BitVec 32 := 0#32
  let c1_i32_363 : BitVec 32 := 1#32
  let arg9 : BitVec 32 := Scf.iv c0_i32_361 c1_i32_363 k2_t10
  let v676 : Index := Scalar.indexCast arg9
  let c0_i32_786 : BitVec 32 := 0#32
  let v677 : Index := Scalar.indexCast c0_i32_786
  let c16_787 : Index := 16#32
  ![1, v676.toNat, 0, 16]
def k2_off598 (k2_t10 : Fin k2_t10_loop.trips) : Fin 3 → Nat :=
  let c1_i32_788 : BitVec 32 := 1#32
  let v681 : Index := Scalar.indexCast c1_i32_788
  let c0_i32_361 : BitVec 32 := 0#32
  let c1_i32_363 : BitVec 32 := 1#32
  let arg9 : BitVec 32 := Scf.iv c0_i32_361 c1_i32_363 k2_t10
  let v682 : Index := Scalar.indexCast arg9
  let c32 : Index := 32#32
  ![1, v682.toNat, 32]
def k2_off599 (k2_t10 : Fin k2_t10_loop.trips) : Fin 4 → Nat :=
  let c1_i32_789 : BitVec 32 := 1#32
  let v685 : Index := Scalar.indexCast c1_i32_789
  let c0_i32_361 : BitVec 32 := 0#32
  let c1_i32_363 : BitVec 32 := 1#32
  let arg9 : BitVec 32 := Scf.iv c0_i32_361 c1_i32_363 k2_t10
  let v686 : Index := Scalar.indexCast arg9
  let c0_i32_790 : BitVec 32 := 0#32
  let v687 : Index := Scalar.indexCast c0_i32_790
  let c32_791 : Index := 32#32
  ![1, v686.toNat, 0, 32]
def k2_off600 (k2_t10 : Fin k2_t10_loop.trips) : Fin 3 → Nat :=
  let c1_i32_792 : BitVec 32 := 1#32
  let v691 : Index := Scalar.indexCast c1_i32_792
  let c0_i32_361 : BitVec 32 := 0#32
  let c1_i32_363 : BitVec 32 := 1#32
  let arg9 : BitVec 32 := Scf.iv c0_i32_361 c1_i32_363 k2_t10
  let v692 : Index := Scalar.indexCast arg9
  let c48 : Index := 48#32
  ![1, v692.toNat, 48]
def k2_off601 (k2_t10 : Fin k2_t10_loop.trips) : Fin 4 → Nat :=
  let c1_i32_793 : BitVec 32 := 1#32
  let v695 : Index := Scalar.indexCast c1_i32_793
  let c0_i32_361 : BitVec 32 := 0#32
  let c1_i32_363 : BitVec 32 := 1#32
  let arg9 : BitVec 32 := Scf.iv c0_i32_361 c1_i32_363 k2_t10
  let v696 : Index := Scalar.indexCast arg9
  let c0_i32_794 : BitVec 32 := 0#32
  let v697 : Index := Scalar.indexCast c0_i32_794
  let c48_795 : Index := 48#32
  ![1, v696.toNat, 0, 48]
def k2_off602 (k2_t10 : Fin k2_t10_loop.trips) : Fin 3 → Nat :=
  let c1_i32_796 : BitVec 32 := 1#32
  let v701 : Index := Scalar.indexCast c1_i32_796
  let c0_i32_361 : BitVec 32 := 0#32
  let c1_i32_363 : BitVec 32 := 1#32
  let arg9 : BitVec 32 := Scf.iv c0_i32_361 c1_i32_363 k2_t10
  let v702 : Index := Scalar.indexCast arg9
  let c64 : Index := 64#32
  ![1, v702.toNat, 64]
def k2_off603 (k2_t10 : Fin k2_t10_loop.trips) : Fin 4 → Nat :=
  let c1_i32_797 : BitVec 32 := 1#32
  let v705 : Index := Scalar.indexCast c1_i32_797
  let c0_i32_361 : BitVec 32 := 0#32
  let c1_i32_363 : BitVec 32 := 1#32
  let arg9 : BitVec 32 := Scf.iv c0_i32_361 c1_i32_363 k2_t10
  let v706 : Index := Scalar.indexCast arg9
  let c0_i32_798 : BitVec 32 := 0#32
  let v707 : Index := Scalar.indexCast c0_i32_798
  let c64_799 : Index := 64#32
  ![1, v706.toNat, 0, 64]
def k2_off604 (k2_t10 : Fin k2_t10_loop.trips) : Fin 3 → Nat :=
  let c1_i32_800 : BitVec 32 := 1#32
  let v711 : Index := Scalar.indexCast c1_i32_800
  let c0_i32_361 : BitVec 32 := 0#32
  let c1_i32_363 : BitVec 32 := 1#32
  let arg9 : BitVec 32 := Scf.iv c0_i32_361 c1_i32_363 k2_t10
  let v712 : Index := Scalar.indexCast arg9
  let c80 : Index := 80#32
  ![1, v712.toNat, 80]
def k2_off605 (k2_t10 : Fin k2_t10_loop.trips) : Fin 4 → Nat :=
  let c1_i32_801 : BitVec 32 := 1#32
  let v715 : Index := Scalar.indexCast c1_i32_801
  let c0_i32_361 : BitVec 32 := 0#32
  let c1_i32_363 : BitVec 32 := 1#32
  let arg9 : BitVec 32 := Scf.iv c0_i32_361 c1_i32_363 k2_t10
  let v716 : Index := Scalar.indexCast arg9
  let c0_i32_802 : BitVec 32 := 0#32
  let v717 : Index := Scalar.indexCast c0_i32_802
  let c80_803 : Index := 80#32
  ![1, v716.toNat, 0, 80]
def k2_off606 (k2_t10 : Fin k2_t10_loop.trips) : Fin 3 → Nat :=
  let c1_i32_804 : BitVec 32 := 1#32
  let v721 : Index := Scalar.indexCast c1_i32_804
  let c0_i32_361 : BitVec 32 := 0#32
  let c1_i32_363 : BitVec 32 := 1#32
  let arg9 : BitVec 32 := Scf.iv c0_i32_361 c1_i32_363 k2_t10
  let v722 : Index := Scalar.indexCast arg9
  let c96 : Index := 96#32
  ![1, v722.toNat, 96]
def k2_off607 (k2_t10 : Fin k2_t10_loop.trips) : Fin 4 → Nat :=
  let c1_i32_805 : BitVec 32 := 1#32
  let v725 : Index := Scalar.indexCast c1_i32_805
  let c0_i32_361 : BitVec 32 := 0#32
  let c1_i32_363 : BitVec 32 := 1#32
  let arg9 : BitVec 32 := Scf.iv c0_i32_361 c1_i32_363 k2_t10
  let v726 : Index := Scalar.indexCast arg9
  let c0_i32_806 : BitVec 32 := 0#32
  let v727 : Index := Scalar.indexCast c0_i32_806
  let c96_807 : Index := 96#32
  ![1, v726.toNat, 0, 96]
def k2_off608 (k2_t10 : Fin k2_t10_loop.trips) : Fin 3 → Nat :=
  let c1_i32_808 : BitVec 32 := 1#32
  let v731 : Index := Scalar.indexCast c1_i32_808
  let c0_i32_361 : BitVec 32 := 0#32
  let c1_i32_363 : BitVec 32 := 1#32
  let arg9 : BitVec 32 := Scf.iv c0_i32_361 c1_i32_363 k2_t10
  let v732 : Index := Scalar.indexCast arg9
  let c112 : Index := 112#32
  ![1, v732.toNat, 112]
def k2_off609 (k2_t10 : Fin k2_t10_loop.trips) : Fin 4 → Nat :=
  let c1_i32_809 : BitVec 32 := 1#32
  let v735 : Index := Scalar.indexCast c1_i32_809
  let c0_i32_361 : BitVec 32 := 0#32
  let c1_i32_363 : BitVec 32 := 1#32
  let arg9 : BitVec 32 := Scf.iv c0_i32_361 c1_i32_363 k2_t10
  let v736 : Index := Scalar.indexCast arg9
  let c0_i32_810 : BitVec 32 := 0#32
  let v737 : Index := Scalar.indexCast c0_i32_810
  let c112_811 : Index := 112#32
  ![1, v736.toNat, 0, 112]
def k2_off610 (k2_t10 : Fin k2_t10_loop.trips) : Fin 3 → Nat :=
  let c1_i32_812 : BitVec 32 := 1#32
  let v741 : Index := Scalar.indexCast c1_i32_812
  let c0_i32_361 : BitVec 32 := 0#32
  let c1_i32_363 : BitVec 32 := 1#32
  let arg9 : BitVec 32 := Scf.iv c0_i32_361 c1_i32_363 k2_t10
  let v742 : Index := Scalar.indexCast arg9
  let c128 : Index := 128#32
  ![1, v742.toNat, 128]
def k2_off611 (k2_t10 : Fin k2_t10_loop.trips) : Fin 4 → Nat :=
  let c1_i32_813 : BitVec 32 := 1#32
  let v745 : Index := Scalar.indexCast c1_i32_813
  let c0_i32_361 : BitVec 32 := 0#32
  let c1_i32_363 : BitVec 32 := 1#32
  let arg9 : BitVec 32 := Scf.iv c0_i32_361 c1_i32_363 k2_t10
  let v746 : Index := Scalar.indexCast arg9
  let c1_i32_814 : BitVec 32 := 1#32
  let v747 : Index := Scalar.indexCast c1_i32_814
  let c0_815 : Index := 0#32
  ![1, v746.toNat, 1, 0]
def k2_off612 (k2_t10 : Fin k2_t10_loop.trips) : Fin 3 → Nat :=
  let c1_i32_816 : BitVec 32 := 1#32
  let v751 : Index := Scalar.indexCast c1_i32_816
  let c0_i32_361 : BitVec 32 := 0#32
  let c1_i32_363 : BitVec 32 := 1#32
  let arg9 : BitVec 32 := Scf.iv c0_i32_361 c1_i32_363 k2_t10
  let v752 : Index := Scalar.indexCast arg9
  let c144 : Index := 144#32
  ![1, v752.toNat, 144]
def k2_off613 (k2_t10 : Fin k2_t10_loop.trips) : Fin 4 → Nat :=
  let c1_i32_817 : BitVec 32 := 1#32
  let v755 : Index := Scalar.indexCast c1_i32_817
  let c0_i32_361 : BitVec 32 := 0#32
  let c1_i32_363 : BitVec 32 := 1#32
  let arg9 : BitVec 32 := Scf.iv c0_i32_361 c1_i32_363 k2_t10
  let v756 : Index := Scalar.indexCast arg9
  let c1_i32_818 : BitVec 32 := 1#32
  let v757 : Index := Scalar.indexCast c1_i32_818
  let c16_819 : Index := 16#32
  ![1, v756.toNat, 1, 16]
def k2_off614 (k2_t10 : Fin k2_t10_loop.trips) : Fin 3 → Nat :=
  let c1_i32_820 : BitVec 32 := 1#32
  let v761 : Index := Scalar.indexCast c1_i32_820
  let c0_i32_361 : BitVec 32 := 0#32
  let c1_i32_363 : BitVec 32 := 1#32
  let arg9 : BitVec 32 := Scf.iv c0_i32_361 c1_i32_363 k2_t10
  let v762 : Index := Scalar.indexCast arg9
  let c160 : Index := 160#32
  ![1, v762.toNat, 160]
def k2_off615 (k2_t10 : Fin k2_t10_loop.trips) : Fin 4 → Nat :=
  let c1_i32_821 : BitVec 32 := 1#32
  let v765 : Index := Scalar.indexCast c1_i32_821
  let c0_i32_361 : BitVec 32 := 0#32
  let c1_i32_363 : BitVec 32 := 1#32
  let arg9 : BitVec 32 := Scf.iv c0_i32_361 c1_i32_363 k2_t10
  let v766 : Index := Scalar.indexCast arg9
  let c1_i32_822 : BitVec 32 := 1#32
  let v767 : Index := Scalar.indexCast c1_i32_822
  let c32_823 : Index := 32#32
  ![1, v766.toNat, 1, 32]
def k2_off616 (k2_t10 : Fin k2_t10_loop.trips) : Fin 3 → Nat :=
  let c1_i32_824 : BitVec 32 := 1#32
  let v771 : Index := Scalar.indexCast c1_i32_824
  let c0_i32_361 : BitVec 32 := 0#32
  let c1_i32_363 : BitVec 32 := 1#32
  let arg9 : BitVec 32 := Scf.iv c0_i32_361 c1_i32_363 k2_t10
  let v772 : Index := Scalar.indexCast arg9
  let c176 : Index := 176#32
  ![1, v772.toNat, 176]
def k2_off617 (k2_t10 : Fin k2_t10_loop.trips) : Fin 4 → Nat :=
  let c1_i32_825 : BitVec 32 := 1#32
  let v775 : Index := Scalar.indexCast c1_i32_825
  let c0_i32_361 : BitVec 32 := 0#32
  let c1_i32_363 : BitVec 32 := 1#32
  let arg9 : BitVec 32 := Scf.iv c0_i32_361 c1_i32_363 k2_t10
  let v776 : Index := Scalar.indexCast arg9
  let c1_i32_826 : BitVec 32 := 1#32
  let v777 : Index := Scalar.indexCast c1_i32_826
  let c48_827 : Index := 48#32
  ![1, v776.toNat, 1, 48]
def k2_off618 (k2_t10 : Fin k2_t10_loop.trips) : Fin 3 → Nat :=
  let c1_i32_828 : BitVec 32 := 1#32
  let v781 : Index := Scalar.indexCast c1_i32_828
  let c0_i32_361 : BitVec 32 := 0#32
  let c1_i32_363 : BitVec 32 := 1#32
  let arg9 : BitVec 32 := Scf.iv c0_i32_361 c1_i32_363 k2_t10
  let v782 : Index := Scalar.indexCast arg9
  let c192 : Index := 192#32
  ![1, v782.toNat, 192]
def k2_off619 (k2_t10 : Fin k2_t10_loop.trips) : Fin 4 → Nat :=
  let c1_i32_829 : BitVec 32 := 1#32
  let v785 : Index := Scalar.indexCast c1_i32_829
  let c0_i32_361 : BitVec 32 := 0#32
  let c1_i32_363 : BitVec 32 := 1#32
  let arg9 : BitVec 32 := Scf.iv c0_i32_361 c1_i32_363 k2_t10
  let v786 : Index := Scalar.indexCast arg9
  let c1_i32_830 : BitVec 32 := 1#32
  let v787 : Index := Scalar.indexCast c1_i32_830
  let c64_831 : Index := 64#32
  ![1, v786.toNat, 1, 64]
def k2_off620 (k2_t10 : Fin k2_t10_loop.trips) : Fin 3 → Nat :=
  let c1_i32_832 : BitVec 32 := 1#32
  let v791 : Index := Scalar.indexCast c1_i32_832
  let c0_i32_361 : BitVec 32 := 0#32
  let c1_i32_363 : BitVec 32 := 1#32
  let arg9 : BitVec 32 := Scf.iv c0_i32_361 c1_i32_363 k2_t10
  let v792 : Index := Scalar.indexCast arg9
  let c208 : Index := 208#32
  ![1, v792.toNat, 208]
def k2_off621 (k2_t10 : Fin k2_t10_loop.trips) : Fin 4 → Nat :=
  let c1_i32_833 : BitVec 32 := 1#32
  let v795 : Index := Scalar.indexCast c1_i32_833
  let c0_i32_361 : BitVec 32 := 0#32
  let c1_i32_363 : BitVec 32 := 1#32
  let arg9 : BitVec 32 := Scf.iv c0_i32_361 c1_i32_363 k2_t10
  let v796 : Index := Scalar.indexCast arg9
  let c1_i32_834 : BitVec 32 := 1#32
  let v797 : Index := Scalar.indexCast c1_i32_834
  let c80_835 : Index := 80#32
  ![1, v796.toNat, 1, 80]
def k2_off622 (k2_t10 : Fin k2_t10_loop.trips) : Fin 3 → Nat :=
  let c1_i32_836 : BitVec 32 := 1#32
  let v801 : Index := Scalar.indexCast c1_i32_836
  let c0_i32_361 : BitVec 32 := 0#32
  let c1_i32_363 : BitVec 32 := 1#32
  let arg9 : BitVec 32 := Scf.iv c0_i32_361 c1_i32_363 k2_t10
  let v802 : Index := Scalar.indexCast arg9
  let c224 : Index := 224#32
  ![1, v802.toNat, 224]
def k2_off623 (k2_t10 : Fin k2_t10_loop.trips) : Fin 4 → Nat :=
  let c1_i32_837 : BitVec 32 := 1#32
  let v805 : Index := Scalar.indexCast c1_i32_837
  let c0_i32_361 : BitVec 32 := 0#32
  let c1_i32_363 : BitVec 32 := 1#32
  let arg9 : BitVec 32 := Scf.iv c0_i32_361 c1_i32_363 k2_t10
  let v806 : Index := Scalar.indexCast arg9
  let c1_i32_838 : BitVec 32 := 1#32
  let v807 : Index := Scalar.indexCast c1_i32_838
  let c96_839 : Index := 96#32
  ![1, v806.toNat, 1, 96]
def k2_off624 (k2_t10 : Fin k2_t10_loop.trips) : Fin 3 → Nat :=
  let c1_i32_840 : BitVec 32 := 1#32
  let v811 : Index := Scalar.indexCast c1_i32_840
  let c0_i32_361 : BitVec 32 := 0#32
  let c1_i32_363 : BitVec 32 := 1#32
  let arg9 : BitVec 32 := Scf.iv c0_i32_361 c1_i32_363 k2_t10
  let v812 : Index := Scalar.indexCast arg9
  let c240 : Index := 240#32
  ![1, v812.toNat, 240]
def k2_off625 (k2_t10 : Fin k2_t10_loop.trips) : Fin 4 → Nat :=
  let c1_i32_841 : BitVec 32 := 1#32
  let v815 : Index := Scalar.indexCast c1_i32_841
  let c0_i32_361 : BitVec 32 := 0#32
  let c1_i32_363 : BitVec 32 := 1#32
  let arg9 : BitVec 32 := Scf.iv c0_i32_361 c1_i32_363 k2_t10
  let v816 : Index := Scalar.indexCast arg9
  let c1_i32_842 : BitVec 32 := 1#32
  let v817 : Index := Scalar.indexCast c1_i32_842
  let c112_843 : Index := 112#32
  ![1, v816.toNat, 1, 112]
def k2_off626 (k2_t10 : Fin k2_t10_loop.trips) : Fin 3 → Nat :=
  let c1_i32_844 : BitVec 32 := 1#32
  let v821 : Index := Scalar.indexCast c1_i32_844
  let c0_i32_361 : BitVec 32 := 0#32
  let c1_i32_363 : BitVec 32 := 1#32
  let arg9 : BitVec 32 := Scf.iv c0_i32_361 c1_i32_363 k2_t10
  let v822 : Index := Scalar.indexCast arg9
  let c256 : Index := 256#32
  ![1, v822.toNat, 256]
def k2_off627 (k2_t10 : Fin k2_t10_loop.trips) : Fin 4 → Nat :=
  let c1_i32_845 : BitVec 32 := 1#32
  let v825 : Index := Scalar.indexCast c1_i32_845
  let c0_i32_361 : BitVec 32 := 0#32
  let c1_i32_363 : BitVec 32 := 1#32
  let arg9 : BitVec 32 := Scf.iv c0_i32_361 c1_i32_363 k2_t10
  let v826 : Index := Scalar.indexCast arg9
  let c2_i32_846 : BitVec 32 := 2#32
  let v827 : Index := Scalar.indexCast c2_i32_846
  let c0_847 : Index := 0#32
  ![1, v826.toNat, 2, 0]
def k2_off628 (k2_t10 : Fin k2_t10_loop.trips) : Fin 3 → Nat :=
  let c1_i32_848 : BitVec 32 := 1#32
  let v831 : Index := Scalar.indexCast c1_i32_848
  let c0_i32_361 : BitVec 32 := 0#32
  let c1_i32_363 : BitVec 32 := 1#32
  let arg9 : BitVec 32 := Scf.iv c0_i32_361 c1_i32_363 k2_t10
  let v832 : Index := Scalar.indexCast arg9
  let c272 : Index := 272#32
  ![1, v832.toNat, 272]
def k2_off629 (k2_t10 : Fin k2_t10_loop.trips) : Fin 4 → Nat :=
  let c1_i32_849 : BitVec 32 := 1#32
  let v835 : Index := Scalar.indexCast c1_i32_849
  let c0_i32_361 : BitVec 32 := 0#32
  let c1_i32_363 : BitVec 32 := 1#32
  let arg9 : BitVec 32 := Scf.iv c0_i32_361 c1_i32_363 k2_t10
  let v836 : Index := Scalar.indexCast arg9
  let c2_i32_850 : BitVec 32 := 2#32
  let v837 : Index := Scalar.indexCast c2_i32_850
  let c16_851 : Index := 16#32
  ![1, v836.toNat, 2, 16]
def k2_off630 (k2_t10 : Fin k2_t10_loop.trips) : Fin 3 → Nat :=
  let c1_i32_852 : BitVec 32 := 1#32
  let v841 : Index := Scalar.indexCast c1_i32_852
  let c0_i32_361 : BitVec 32 := 0#32
  let c1_i32_363 : BitVec 32 := 1#32
  let arg9 : BitVec 32 := Scf.iv c0_i32_361 c1_i32_363 k2_t10
  let v842 : Index := Scalar.indexCast arg9
  let c288 : Index := 288#32
  ![1, v842.toNat, 288]
def k2_off631 (k2_t10 : Fin k2_t10_loop.trips) : Fin 4 → Nat :=
  let c1_i32_853 : BitVec 32 := 1#32
  let v845 : Index := Scalar.indexCast c1_i32_853
  let c0_i32_361 : BitVec 32 := 0#32
  let c1_i32_363 : BitVec 32 := 1#32
  let arg9 : BitVec 32 := Scf.iv c0_i32_361 c1_i32_363 k2_t10
  let v846 : Index := Scalar.indexCast arg9
  let c2_i32_854 : BitVec 32 := 2#32
  let v847 : Index := Scalar.indexCast c2_i32_854
  let c32_855 : Index := 32#32
  ![1, v846.toNat, 2, 32]
def k2_off632 (k2_t10 : Fin k2_t10_loop.trips) : Fin 3 → Nat :=
  let c1_i32_856 : BitVec 32 := 1#32
  let v851 : Index := Scalar.indexCast c1_i32_856
  let c0_i32_361 : BitVec 32 := 0#32
  let c1_i32_363 : BitVec 32 := 1#32
  let arg9 : BitVec 32 := Scf.iv c0_i32_361 c1_i32_363 k2_t10
  let v852 : Index := Scalar.indexCast arg9
  let c304 : Index := 304#32
  ![1, v852.toNat, 304]
def k2_off633 (k2_t10 : Fin k2_t10_loop.trips) : Fin 4 → Nat :=
  let c1_i32_857 : BitVec 32 := 1#32
  let v855 : Index := Scalar.indexCast c1_i32_857
  let c0_i32_361 : BitVec 32 := 0#32
  let c1_i32_363 : BitVec 32 := 1#32
  let arg9 : BitVec 32 := Scf.iv c0_i32_361 c1_i32_363 k2_t10
  let v856 : Index := Scalar.indexCast arg9
  let c2_i32_858 : BitVec 32 := 2#32
  let v857 : Index := Scalar.indexCast c2_i32_858
  let c48_859 : Index := 48#32
  ![1, v856.toNat, 2, 48]
def k2_off634 (k2_t10 : Fin k2_t10_loop.trips) : Fin 3 → Nat :=
  let c1_i32_860 : BitVec 32 := 1#32
  let v861 : Index := Scalar.indexCast c1_i32_860
  let c0_i32_361 : BitVec 32 := 0#32
  let c1_i32_363 : BitVec 32 := 1#32
  let arg9 : BitVec 32 := Scf.iv c0_i32_361 c1_i32_363 k2_t10
  let v862 : Index := Scalar.indexCast arg9
  let c320 : Index := 320#32
  ![1, v862.toNat, 320]
def k2_off635 (k2_t10 : Fin k2_t10_loop.trips) : Fin 4 → Nat :=
  let c1_i32_861 : BitVec 32 := 1#32
  let v865 : Index := Scalar.indexCast c1_i32_861
  let c0_i32_361 : BitVec 32 := 0#32
  let c1_i32_363 : BitVec 32 := 1#32
  let arg9 : BitVec 32 := Scf.iv c0_i32_361 c1_i32_363 k2_t10
  let v866 : Index := Scalar.indexCast arg9
  let c2_i32_862 : BitVec 32 := 2#32
  let v867 : Index := Scalar.indexCast c2_i32_862
  let c64_863 : Index := 64#32
  ![1, v866.toNat, 2, 64]
def k2_off636 (k2_t10 : Fin k2_t10_loop.trips) : Fin 3 → Nat :=
  let c1_i32_864 : BitVec 32 := 1#32
  let v871 : Index := Scalar.indexCast c1_i32_864
  let c0_i32_361 : BitVec 32 := 0#32
  let c1_i32_363 : BitVec 32 := 1#32
  let arg9 : BitVec 32 := Scf.iv c0_i32_361 c1_i32_363 k2_t10
  let v872 : Index := Scalar.indexCast arg9
  let c336 : Index := 336#32
  ![1, v872.toNat, 336]
def k2_off637 (k2_t10 : Fin k2_t10_loop.trips) : Fin 4 → Nat :=
  let c1_i32_865 : BitVec 32 := 1#32
  let v875 : Index := Scalar.indexCast c1_i32_865
  let c0_i32_361 : BitVec 32 := 0#32
  let c1_i32_363 : BitVec 32 := 1#32
  let arg9 : BitVec 32 := Scf.iv c0_i32_361 c1_i32_363 k2_t10
  let v876 : Index := Scalar.indexCast arg9
  let c2_i32_866 : BitVec 32 := 2#32
  let v877 : Index := Scalar.indexCast c2_i32_866
  let c80_867 : Index := 80#32
  ![1, v876.toNat, 2, 80]
def k2_off638 (k2_t10 : Fin k2_t10_loop.trips) : Fin 3 → Nat :=
  let c1_i32_868 : BitVec 32 := 1#32
  let v881 : Index := Scalar.indexCast c1_i32_868
  let c0_i32_361 : BitVec 32 := 0#32
  let c1_i32_363 : BitVec 32 := 1#32
  let arg9 : BitVec 32 := Scf.iv c0_i32_361 c1_i32_363 k2_t10
  let v882 : Index := Scalar.indexCast arg9
  let c352 : Index := 352#32
  ![1, v882.toNat, 352]
def k2_off639 (k2_t10 : Fin k2_t10_loop.trips) : Fin 4 → Nat :=
  let c1_i32_869 : BitVec 32 := 1#32
  let v885 : Index := Scalar.indexCast c1_i32_869
  let c0_i32_361 : BitVec 32 := 0#32
  let c1_i32_363 : BitVec 32 := 1#32
  let arg9 : BitVec 32 := Scf.iv c0_i32_361 c1_i32_363 k2_t10
  let v886 : Index := Scalar.indexCast arg9
  let c2_i32_870 : BitVec 32 := 2#32
  let v887 : Index := Scalar.indexCast c2_i32_870
  let c96_871 : Index := 96#32
  ![1, v886.toNat, 2, 96]
def k2_off640 (k2_t10 : Fin k2_t10_loop.trips) : Fin 3 → Nat :=
  let c1_i32_872 : BitVec 32 := 1#32
  let v891 : Index := Scalar.indexCast c1_i32_872
  let c0_i32_361 : BitVec 32 := 0#32
  let c1_i32_363 : BitVec 32 := 1#32
  let arg9 : BitVec 32 := Scf.iv c0_i32_361 c1_i32_363 k2_t10
  let v892 : Index := Scalar.indexCast arg9
  let c368 : Index := 368#32
  ![1, v892.toNat, 368]
def k2_off641 (k2_t10 : Fin k2_t10_loop.trips) : Fin 4 → Nat :=
  let c1_i32_873 : BitVec 32 := 1#32
  let v895 : Index := Scalar.indexCast c1_i32_873
  let c0_i32_361 : BitVec 32 := 0#32
  let c1_i32_363 : BitVec 32 := 1#32
  let arg9 : BitVec 32 := Scf.iv c0_i32_361 c1_i32_363 k2_t10
  let v896 : Index := Scalar.indexCast arg9
  let c2_i32_874 : BitVec 32 := 2#32
  let v897 : Index := Scalar.indexCast c2_i32_874
  let c112_875 : Index := 112#32
  ![1, v896.toNat, 2, 112]
def k2_off642 (k2_t10 : Fin k2_t10_loop.trips) : Fin 3 → Nat :=
  let c1_i32_876 : BitVec 32 := 1#32
  let v901 : Index := Scalar.indexCast c1_i32_876
  let c0_i32_361 : BitVec 32 := 0#32
  let c1_i32_363 : BitVec 32 := 1#32
  let arg9 : BitVec 32 := Scf.iv c0_i32_361 c1_i32_363 k2_t10
  let v902 : Index := Scalar.indexCast arg9
  let c384 : Index := 384#32
  ![1, v902.toNat, 384]
def k2_off643 (k2_t10 : Fin k2_t10_loop.trips) : Fin 4 → Nat :=
  let c1_i32_877 : BitVec 32 := 1#32
  let v905 : Index := Scalar.indexCast c1_i32_877
  let c0_i32_361 : BitVec 32 := 0#32
  let c1_i32_363 : BitVec 32 := 1#32
  let arg9 : BitVec 32 := Scf.iv c0_i32_361 c1_i32_363 k2_t10
  let v906 : Index := Scalar.indexCast arg9
  let c3_i32_878 : BitVec 32 := 3#32
  let v907 : Index := Scalar.indexCast c3_i32_878
  let c0_879 : Index := 0#32
  ![1, v906.toNat, 3, 0]
def k2_off644 (k2_t10 : Fin k2_t10_loop.trips) : Fin 3 → Nat :=
  let c1_i32_880 : BitVec 32 := 1#32
  let v911 : Index := Scalar.indexCast c1_i32_880
  let c0_i32_361 : BitVec 32 := 0#32
  let c1_i32_363 : BitVec 32 := 1#32
  let arg9 : BitVec 32 := Scf.iv c0_i32_361 c1_i32_363 k2_t10
  let v912 : Index := Scalar.indexCast arg9
  let c400 : Index := 400#32
  ![1, v912.toNat, 400]
def k2_off645 (k2_t10 : Fin k2_t10_loop.trips) : Fin 4 → Nat :=
  let c1_i32_881 : BitVec 32 := 1#32
  let v915 : Index := Scalar.indexCast c1_i32_881
  let c0_i32_361 : BitVec 32 := 0#32
  let c1_i32_363 : BitVec 32 := 1#32
  let arg9 : BitVec 32 := Scf.iv c0_i32_361 c1_i32_363 k2_t10
  let v916 : Index := Scalar.indexCast arg9
  let c3_i32_882 : BitVec 32 := 3#32
  let v917 : Index := Scalar.indexCast c3_i32_882
  let c16_883 : Index := 16#32
  ![1, v916.toNat, 3, 16]
def k2_off646 (k2_t10 : Fin k2_t10_loop.trips) : Fin 3 → Nat :=
  let c1_i32_884 : BitVec 32 := 1#32
  let v921 : Index := Scalar.indexCast c1_i32_884
  let c0_i32_361 : BitVec 32 := 0#32
  let c1_i32_363 : BitVec 32 := 1#32
  let arg9 : BitVec 32 := Scf.iv c0_i32_361 c1_i32_363 k2_t10
  let v922 : Index := Scalar.indexCast arg9
  let c416 : Index := 416#32
  ![1, v922.toNat, 416]
def k2_off647 (k2_t10 : Fin k2_t10_loop.trips) : Fin 4 → Nat :=
  let c1_i32_885 : BitVec 32 := 1#32
  let v925 : Index := Scalar.indexCast c1_i32_885
  let c0_i32_361 : BitVec 32 := 0#32
  let c1_i32_363 : BitVec 32 := 1#32
  let arg9 : BitVec 32 := Scf.iv c0_i32_361 c1_i32_363 k2_t10
  let v926 : Index := Scalar.indexCast arg9
  let c3_i32_886 : BitVec 32 := 3#32
  let v927 : Index := Scalar.indexCast c3_i32_886
  let c32_887 : Index := 32#32
  ![1, v926.toNat, 3, 32]
def k2_off648 (k2_t10 : Fin k2_t10_loop.trips) : Fin 3 → Nat :=
  let c1_i32_888 : BitVec 32 := 1#32
  let v931 : Index := Scalar.indexCast c1_i32_888
  let c0_i32_361 : BitVec 32 := 0#32
  let c1_i32_363 : BitVec 32 := 1#32
  let arg9 : BitVec 32 := Scf.iv c0_i32_361 c1_i32_363 k2_t10
  let v932 : Index := Scalar.indexCast arg9
  let c432 : Index := 432#32
  ![1, v932.toNat, 432]
def k2_off649 (k2_t10 : Fin k2_t10_loop.trips) : Fin 4 → Nat :=
  let c1_i32_889 : BitVec 32 := 1#32
  let v935 : Index := Scalar.indexCast c1_i32_889
  let c0_i32_361 : BitVec 32 := 0#32
  let c1_i32_363 : BitVec 32 := 1#32
  let arg9 : BitVec 32 := Scf.iv c0_i32_361 c1_i32_363 k2_t10
  let v936 : Index := Scalar.indexCast arg9
  let c3_i32_890 : BitVec 32 := 3#32
  let v937 : Index := Scalar.indexCast c3_i32_890
  let c48_891 : Index := 48#32
  ![1, v936.toNat, 3, 48]
def k2_off650 (k2_t10 : Fin k2_t10_loop.trips) : Fin 3 → Nat :=
  let c1_i32_892 : BitVec 32 := 1#32
  let v941 : Index := Scalar.indexCast c1_i32_892
  let c0_i32_361 : BitVec 32 := 0#32
  let c1_i32_363 : BitVec 32 := 1#32
  let arg9 : BitVec 32 := Scf.iv c0_i32_361 c1_i32_363 k2_t10
  let v942 : Index := Scalar.indexCast arg9
  let c448 : Index := 448#32
  ![1, v942.toNat, 448]
def k2_off651 (k2_t10 : Fin k2_t10_loop.trips) : Fin 4 → Nat :=
  let c1_i32_893 : BitVec 32 := 1#32
  let v945 : Index := Scalar.indexCast c1_i32_893
  let c0_i32_361 : BitVec 32 := 0#32
  let c1_i32_363 : BitVec 32 := 1#32
  let arg9 : BitVec 32 := Scf.iv c0_i32_361 c1_i32_363 k2_t10
  let v946 : Index := Scalar.indexCast arg9
  let c3_i32_894 : BitVec 32 := 3#32
  let v947 : Index := Scalar.indexCast c3_i32_894
  let c64_895 : Index := 64#32
  ![1, v946.toNat, 3, 64]
def k2_off652 (k2_t10 : Fin k2_t10_loop.trips) : Fin 3 → Nat :=
  let c1_i32_896 : BitVec 32 := 1#32
  let v951 : Index := Scalar.indexCast c1_i32_896
  let c0_i32_361 : BitVec 32 := 0#32
  let c1_i32_363 : BitVec 32 := 1#32
  let arg9 : BitVec 32 := Scf.iv c0_i32_361 c1_i32_363 k2_t10
  let v952 : Index := Scalar.indexCast arg9
  let c464 : Index := 464#32
  ![1, v952.toNat, 464]
def k2_off653 (k2_t10 : Fin k2_t10_loop.trips) : Fin 4 → Nat :=
  let c1_i32_897 : BitVec 32 := 1#32
  let v955 : Index := Scalar.indexCast c1_i32_897
  let c0_i32_361 : BitVec 32 := 0#32
  let c1_i32_363 : BitVec 32 := 1#32
  let arg9 : BitVec 32 := Scf.iv c0_i32_361 c1_i32_363 k2_t10
  let v956 : Index := Scalar.indexCast arg9
  let c3_i32_898 : BitVec 32 := 3#32
  let v957 : Index := Scalar.indexCast c3_i32_898
  let c80_899 : Index := 80#32
  ![1, v956.toNat, 3, 80]
def k2_off654 (k2_t10 : Fin k2_t10_loop.trips) : Fin 3 → Nat :=
  let c1_i32_900 : BitVec 32 := 1#32
  let v961 : Index := Scalar.indexCast c1_i32_900
  let c0_i32_361 : BitVec 32 := 0#32
  let c1_i32_363 : BitVec 32 := 1#32
  let arg9 : BitVec 32 := Scf.iv c0_i32_361 c1_i32_363 k2_t10
  let v962 : Index := Scalar.indexCast arg9
  let c480 : Index := 480#32
  ![1, v962.toNat, 480]
def k2_off655 (k2_t10 : Fin k2_t10_loop.trips) : Fin 4 → Nat :=
  let c1_i32_901 : BitVec 32 := 1#32
  let v965 : Index := Scalar.indexCast c1_i32_901
  let c0_i32_361 : BitVec 32 := 0#32
  let c1_i32_363 : BitVec 32 := 1#32
  let arg9 : BitVec 32 := Scf.iv c0_i32_361 c1_i32_363 k2_t10
  let v966 : Index := Scalar.indexCast arg9
  let c3_i32_902 : BitVec 32 := 3#32
  let v967 : Index := Scalar.indexCast c3_i32_902
  let c96_903 : Index := 96#32
  ![1, v966.toNat, 3, 96]
def k2_off656 (k2_t10 : Fin k2_t10_loop.trips) : Fin 3 → Nat :=
  let c1_i32_904 : BitVec 32 := 1#32
  let v971 : Index := Scalar.indexCast c1_i32_904
  let c0_i32_361 : BitVec 32 := 0#32
  let c1_i32_363 : BitVec 32 := 1#32
  let arg9 : BitVec 32 := Scf.iv c0_i32_361 c1_i32_363 k2_t10
  let v972 : Index := Scalar.indexCast arg9
  let c496 : Index := 496#32
  ![1, v972.toNat, 496]
def k2_off657 (k2_t10 : Fin k2_t10_loop.trips) : Fin 4 → Nat :=
  let c1_i32_905 : BitVec 32 := 1#32
  let v975 : Index := Scalar.indexCast c1_i32_905
  let c0_i32_361 : BitVec 32 := 0#32
  let c1_i32_363 : BitVec 32 := 1#32
  let arg9 : BitVec 32 := Scf.iv c0_i32_361 c1_i32_363 k2_t10
  let v976 : Index := Scalar.indexCast arg9
  let c3_i32_906 : BitVec 32 := 3#32
  let v977 : Index := Scalar.indexCast c3_i32_906
  let c112_907 : Index := 112#32
  ![1, v976.toNat, 3, 112]
def k2_off658 (i : grid2.Coords) : Fin 4 → Nat :=
  let c7_i32_366 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_371 : BitVec 32 := 0#32
  let c0_i32_372 : BitVec 32 := 0#32
  ![7, v2.toNat, 0, 0]
def k2_off659 (i : grid2.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_391 : BitVec 32 := 0#32
  ![9, v2.toNat, 0]
@[reducible] def k2_t11_loop : Scf.Loop 32 :=
  let c0_i32_409 : BitVec 32 := 0#32
  let c32_i32_410 : BitVec 32 := 32#32
  let v353 : BitVec 32 := Scalar.addi c0_i32_409 c32_i32_410
  let c1_i32_411 : BitVec 32 := 1#32
  ⟨c0_i32_409, v353, c1_i32_411⟩
def k2_off660 (k2_t11 : Fin k2_t11_loop.trips) : Fin 3 → Nat :=
  let c0_i32_780 : BitVec 32 := 0#32
  let v661 : Index := Scalar.indexCast c0_i32_780
  let c0_i32_409 : BitVec 32 := 0#32
  let c1_i32_411 : BitVec 32 := 1#32
  let arg9 : BitVec 32 := Scf.iv c0_i32_409 c1_i32_411 k2_t11
  let v662 : Index := Scalar.indexCast arg9
  let c0 : Index := 0#32
  ![0, v662.toNat, 0]
def k2_off661 (k2_t11 : Fin k2_t11_loop.trips) : Fin 4 → Nat :=
  let c0_i32_781 : BitVec 32 := 0#32
  let v665 : Index := Scalar.indexCast c0_i32_781
  let c0_i32_409 : BitVec 32 := 0#32
  let c1_i32_411 : BitVec 32 := 1#32
  let arg9 : BitVec 32 := Scf.iv c0_i32_409 c1_i32_411 k2_t11
  let v666 : Index := Scalar.indexCast arg9
  let c0_i32_782 : BitVec 32 := 0#32
  let v667 : Index := Scalar.indexCast c0_i32_782
  let c0_783 : Index := 0#32
  ![0, v666.toNat, 0, 0]
def k2_off662 (k2_t11 : Fin k2_t11_loop.trips) : Fin 3 → Nat :=
  let c0_i32_784 : BitVec 32 := 0#32
  let v671 : Index := Scalar.indexCast c0_i32_784
  let c0_i32_409 : BitVec 32 := 0#32
  let c1_i32_411 : BitVec 32 := 1#32
  let arg9 : BitVec 32 := Scf.iv c0_i32_409 c1_i32_411 k2_t11
  let v672 : Index := Scalar.indexCast arg9
  let c16 : Index := 16#32
  ![0, v672.toNat, 16]
def k2_off663 (k2_t11 : Fin k2_t11_loop.trips) : Fin 4 → Nat :=
  let c0_i32_785 : BitVec 32 := 0#32
  let v675 : Index := Scalar.indexCast c0_i32_785
  let c0_i32_409 : BitVec 32 := 0#32
  let c1_i32_411 : BitVec 32 := 1#32
  let arg9 : BitVec 32 := Scf.iv c0_i32_409 c1_i32_411 k2_t11
  let v676 : Index := Scalar.indexCast arg9
  let c0_i32_786 : BitVec 32 := 0#32
  let v677 : Index := Scalar.indexCast c0_i32_786
  let c16_787 : Index := 16#32
  ![0, v676.toNat, 0, 16]
def k2_off664 (k2_t11 : Fin k2_t11_loop.trips) : Fin 3 → Nat :=
  let c0_i32_788 : BitVec 32 := 0#32
  let v681 : Index := Scalar.indexCast c0_i32_788
  let c0_i32_409 : BitVec 32 := 0#32
  let c1_i32_411 : BitVec 32 := 1#32
  let arg9 : BitVec 32 := Scf.iv c0_i32_409 c1_i32_411 k2_t11
  let v682 : Index := Scalar.indexCast arg9
  let c32 : Index := 32#32
  ![0, v682.toNat, 32]
def k2_off665 (k2_t11 : Fin k2_t11_loop.trips) : Fin 4 → Nat :=
  let c0_i32_789 : BitVec 32 := 0#32
  let v685 : Index := Scalar.indexCast c0_i32_789
  let c0_i32_409 : BitVec 32 := 0#32
  let c1_i32_411 : BitVec 32 := 1#32
  let arg9 : BitVec 32 := Scf.iv c0_i32_409 c1_i32_411 k2_t11
  let v686 : Index := Scalar.indexCast arg9
  let c0_i32_790 : BitVec 32 := 0#32
  let v687 : Index := Scalar.indexCast c0_i32_790
  let c32_791 : Index := 32#32
  ![0, v686.toNat, 0, 32]
def k2_off666 (k2_t11 : Fin k2_t11_loop.trips) : Fin 3 → Nat :=
  let c0_i32_792 : BitVec 32 := 0#32
  let v691 : Index := Scalar.indexCast c0_i32_792
  let c0_i32_409 : BitVec 32 := 0#32
  let c1_i32_411 : BitVec 32 := 1#32
  let arg9 : BitVec 32 := Scf.iv c0_i32_409 c1_i32_411 k2_t11
  let v692 : Index := Scalar.indexCast arg9
  let c48 : Index := 48#32
  ![0, v692.toNat, 48]
def k2_off667 (k2_t11 : Fin k2_t11_loop.trips) : Fin 4 → Nat :=
  let c0_i32_793 : BitVec 32 := 0#32
  let v695 : Index := Scalar.indexCast c0_i32_793
  let c0_i32_409 : BitVec 32 := 0#32
  let c1_i32_411 : BitVec 32 := 1#32
  let arg9 : BitVec 32 := Scf.iv c0_i32_409 c1_i32_411 k2_t11
  let v696 : Index := Scalar.indexCast arg9
  let c0_i32_794 : BitVec 32 := 0#32
  let v697 : Index := Scalar.indexCast c0_i32_794
  let c48_795 : Index := 48#32
  ![0, v696.toNat, 0, 48]
def k2_off668 (k2_t11 : Fin k2_t11_loop.trips) : Fin 3 → Nat :=
  let c0_i32_796 : BitVec 32 := 0#32
  let v701 : Index := Scalar.indexCast c0_i32_796
  let c0_i32_409 : BitVec 32 := 0#32
  let c1_i32_411 : BitVec 32 := 1#32
  let arg9 : BitVec 32 := Scf.iv c0_i32_409 c1_i32_411 k2_t11
  let v702 : Index := Scalar.indexCast arg9
  let c64 : Index := 64#32
  ![0, v702.toNat, 64]
def k2_off669 (k2_t11 : Fin k2_t11_loop.trips) : Fin 4 → Nat :=
  let c0_i32_797 : BitVec 32 := 0#32
  let v705 : Index := Scalar.indexCast c0_i32_797
  let c0_i32_409 : BitVec 32 := 0#32
  let c1_i32_411 : BitVec 32 := 1#32
  let arg9 : BitVec 32 := Scf.iv c0_i32_409 c1_i32_411 k2_t11
  let v706 : Index := Scalar.indexCast arg9
  let c0_i32_798 : BitVec 32 := 0#32
  let v707 : Index := Scalar.indexCast c0_i32_798
  let c64_799 : Index := 64#32
  ![0, v706.toNat, 0, 64]
def k2_off670 (k2_t11 : Fin k2_t11_loop.trips) : Fin 3 → Nat :=
  let c0_i32_800 : BitVec 32 := 0#32
  let v711 : Index := Scalar.indexCast c0_i32_800
  let c0_i32_409 : BitVec 32 := 0#32
  let c1_i32_411 : BitVec 32 := 1#32
  let arg9 : BitVec 32 := Scf.iv c0_i32_409 c1_i32_411 k2_t11
  let v712 : Index := Scalar.indexCast arg9
  let c80 : Index := 80#32
  ![0, v712.toNat, 80]
def k2_off671 (k2_t11 : Fin k2_t11_loop.trips) : Fin 4 → Nat :=
  let c0_i32_801 : BitVec 32 := 0#32
  let v715 : Index := Scalar.indexCast c0_i32_801
  let c0_i32_409 : BitVec 32 := 0#32
  let c1_i32_411 : BitVec 32 := 1#32
  let arg9 : BitVec 32 := Scf.iv c0_i32_409 c1_i32_411 k2_t11
  let v716 : Index := Scalar.indexCast arg9
  let c0_i32_802 : BitVec 32 := 0#32
  let v717 : Index := Scalar.indexCast c0_i32_802
  let c80_803 : Index := 80#32
  ![0, v716.toNat, 0, 80]
def k2_off672 (k2_t11 : Fin k2_t11_loop.trips) : Fin 3 → Nat :=
  let c0_i32_804 : BitVec 32 := 0#32
  let v721 : Index := Scalar.indexCast c0_i32_804
  let c0_i32_409 : BitVec 32 := 0#32
  let c1_i32_411 : BitVec 32 := 1#32
  let arg9 : BitVec 32 := Scf.iv c0_i32_409 c1_i32_411 k2_t11
  let v722 : Index := Scalar.indexCast arg9
  let c96 : Index := 96#32
  ![0, v722.toNat, 96]
def k2_off673 (k2_t11 : Fin k2_t11_loop.trips) : Fin 4 → Nat :=
  let c0_i32_805 : BitVec 32 := 0#32
  let v725 : Index := Scalar.indexCast c0_i32_805
  let c0_i32_409 : BitVec 32 := 0#32
  let c1_i32_411 : BitVec 32 := 1#32
  let arg9 : BitVec 32 := Scf.iv c0_i32_409 c1_i32_411 k2_t11
  let v726 : Index := Scalar.indexCast arg9
  let c0_i32_806 : BitVec 32 := 0#32
  let v727 : Index := Scalar.indexCast c0_i32_806
  let c96_807 : Index := 96#32
  ![0, v726.toNat, 0, 96]
def k2_off674 (k2_t11 : Fin k2_t11_loop.trips) : Fin 3 → Nat :=
  let c0_i32_808 : BitVec 32 := 0#32
  let v731 : Index := Scalar.indexCast c0_i32_808
  let c0_i32_409 : BitVec 32 := 0#32
  let c1_i32_411 : BitVec 32 := 1#32
  let arg9 : BitVec 32 := Scf.iv c0_i32_409 c1_i32_411 k2_t11
  let v732 : Index := Scalar.indexCast arg9
  let c112 : Index := 112#32
  ![0, v732.toNat, 112]
def k2_off675 (k2_t11 : Fin k2_t11_loop.trips) : Fin 4 → Nat :=
  let c0_i32_809 : BitVec 32 := 0#32
  let v735 : Index := Scalar.indexCast c0_i32_809
  let c0_i32_409 : BitVec 32 := 0#32
  let c1_i32_411 : BitVec 32 := 1#32
  let arg9 : BitVec 32 := Scf.iv c0_i32_409 c1_i32_411 k2_t11
  let v736 : Index := Scalar.indexCast arg9
  let c0_i32_810 : BitVec 32 := 0#32
  let v737 : Index := Scalar.indexCast c0_i32_810
  let c112_811 : Index := 112#32
  ![0, v736.toNat, 0, 112]
def k2_off676 (k2_t11 : Fin k2_t11_loop.trips) : Fin 3 → Nat :=
  let c0_i32_812 : BitVec 32 := 0#32
  let v741 : Index := Scalar.indexCast c0_i32_812
  let c0_i32_409 : BitVec 32 := 0#32
  let c1_i32_411 : BitVec 32 := 1#32
  let arg9 : BitVec 32 := Scf.iv c0_i32_409 c1_i32_411 k2_t11
  let v742 : Index := Scalar.indexCast arg9
  let c128 : Index := 128#32
  ![0, v742.toNat, 128]
def k2_off677 (k2_t11 : Fin k2_t11_loop.trips) : Fin 4 → Nat :=
  let c0_i32_813 : BitVec 32 := 0#32
  let v745 : Index := Scalar.indexCast c0_i32_813
  let c0_i32_409 : BitVec 32 := 0#32
  let c1_i32_411 : BitVec 32 := 1#32
  let arg9 : BitVec 32 := Scf.iv c0_i32_409 c1_i32_411 k2_t11
  let v746 : Index := Scalar.indexCast arg9
  let c1_i32_814 : BitVec 32 := 1#32
  let v747 : Index := Scalar.indexCast c1_i32_814
  let c0_815 : Index := 0#32
  ![0, v746.toNat, 1, 0]
def k2_off678 (k2_t11 : Fin k2_t11_loop.trips) : Fin 3 → Nat :=
  let c0_i32_816 : BitVec 32 := 0#32
  let v751 : Index := Scalar.indexCast c0_i32_816
  let c0_i32_409 : BitVec 32 := 0#32
  let c1_i32_411 : BitVec 32 := 1#32
  let arg9 : BitVec 32 := Scf.iv c0_i32_409 c1_i32_411 k2_t11
  let v752 : Index := Scalar.indexCast arg9
  let c144 : Index := 144#32
  ![0, v752.toNat, 144]
def k2_off679 (k2_t11 : Fin k2_t11_loop.trips) : Fin 4 → Nat :=
  let c0_i32_817 : BitVec 32 := 0#32
  let v755 : Index := Scalar.indexCast c0_i32_817
  let c0_i32_409 : BitVec 32 := 0#32
  let c1_i32_411 : BitVec 32 := 1#32
  let arg9 : BitVec 32 := Scf.iv c0_i32_409 c1_i32_411 k2_t11
  let v756 : Index := Scalar.indexCast arg9
  let c1_i32_818 : BitVec 32 := 1#32
  let v757 : Index := Scalar.indexCast c1_i32_818
  let c16_819 : Index := 16#32
  ![0, v756.toNat, 1, 16]
def k2_off680 (k2_t11 : Fin k2_t11_loop.trips) : Fin 3 → Nat :=
  let c0_i32_820 : BitVec 32 := 0#32
  let v761 : Index := Scalar.indexCast c0_i32_820
  let c0_i32_409 : BitVec 32 := 0#32
  let c1_i32_411 : BitVec 32 := 1#32
  let arg9 : BitVec 32 := Scf.iv c0_i32_409 c1_i32_411 k2_t11
  let v762 : Index := Scalar.indexCast arg9
  let c160 : Index := 160#32
  ![0, v762.toNat, 160]
def k2_off681 (k2_t11 : Fin k2_t11_loop.trips) : Fin 4 → Nat :=
  let c0_i32_821 : BitVec 32 := 0#32
  let v765 : Index := Scalar.indexCast c0_i32_821
  let c0_i32_409 : BitVec 32 := 0#32
  let c1_i32_411 : BitVec 32 := 1#32
  let arg9 : BitVec 32 := Scf.iv c0_i32_409 c1_i32_411 k2_t11
  let v766 : Index := Scalar.indexCast arg9
  let c1_i32_822 : BitVec 32 := 1#32
  let v767 : Index := Scalar.indexCast c1_i32_822
  let c32_823 : Index := 32#32
  ![0, v766.toNat, 1, 32]
def k2_off682 (k2_t11 : Fin k2_t11_loop.trips) : Fin 3 → Nat :=
  let c0_i32_824 : BitVec 32 := 0#32
  let v771 : Index := Scalar.indexCast c0_i32_824
  let c0_i32_409 : BitVec 32 := 0#32
  let c1_i32_411 : BitVec 32 := 1#32
  let arg9 : BitVec 32 := Scf.iv c0_i32_409 c1_i32_411 k2_t11
  let v772 : Index := Scalar.indexCast arg9
  let c176 : Index := 176#32
  ![0, v772.toNat, 176]
def k2_off683 (k2_t11 : Fin k2_t11_loop.trips) : Fin 4 → Nat :=
  let c0_i32_825 : BitVec 32 := 0#32
  let v775 : Index := Scalar.indexCast c0_i32_825
  let c0_i32_409 : BitVec 32 := 0#32
  let c1_i32_411 : BitVec 32 := 1#32
  let arg9 : BitVec 32 := Scf.iv c0_i32_409 c1_i32_411 k2_t11
  let v776 : Index := Scalar.indexCast arg9
  let c1_i32_826 : BitVec 32 := 1#32
  let v777 : Index := Scalar.indexCast c1_i32_826
  let c48_827 : Index := 48#32
  ![0, v776.toNat, 1, 48]
def k2_off684 (k2_t11 : Fin k2_t11_loop.trips) : Fin 3 → Nat :=
  let c0_i32_828 : BitVec 32 := 0#32
  let v781 : Index := Scalar.indexCast c0_i32_828
  let c0_i32_409 : BitVec 32 := 0#32
  let c1_i32_411 : BitVec 32 := 1#32
  let arg9 : BitVec 32 := Scf.iv c0_i32_409 c1_i32_411 k2_t11
  let v782 : Index := Scalar.indexCast arg9
  let c192 : Index := 192#32
  ![0, v782.toNat, 192]
def k2_off685 (k2_t11 : Fin k2_t11_loop.trips) : Fin 4 → Nat :=
  let c0_i32_829 : BitVec 32 := 0#32
  let v785 : Index := Scalar.indexCast c0_i32_829
  let c0_i32_409 : BitVec 32 := 0#32
  let c1_i32_411 : BitVec 32 := 1#32
  let arg9 : BitVec 32 := Scf.iv c0_i32_409 c1_i32_411 k2_t11
  let v786 : Index := Scalar.indexCast arg9
  let c1_i32_830 : BitVec 32 := 1#32
  let v787 : Index := Scalar.indexCast c1_i32_830
  let c64_831 : Index := 64#32
  ![0, v786.toNat, 1, 64]
def k2_off686 (k2_t11 : Fin k2_t11_loop.trips) : Fin 3 → Nat :=
  let c0_i32_832 : BitVec 32 := 0#32
  let v791 : Index := Scalar.indexCast c0_i32_832
  let c0_i32_409 : BitVec 32 := 0#32
  let c1_i32_411 : BitVec 32 := 1#32
  let arg9 : BitVec 32 := Scf.iv c0_i32_409 c1_i32_411 k2_t11
  let v792 : Index := Scalar.indexCast arg9
  let c208 : Index := 208#32
  ![0, v792.toNat, 208]
def k2_off687 (k2_t11 : Fin k2_t11_loop.trips) : Fin 4 → Nat :=
  let c0_i32_833 : BitVec 32 := 0#32
  let v795 : Index := Scalar.indexCast c0_i32_833
  let c0_i32_409 : BitVec 32 := 0#32
  let c1_i32_411 : BitVec 32 := 1#32
  let arg9 : BitVec 32 := Scf.iv c0_i32_409 c1_i32_411 k2_t11
  let v796 : Index := Scalar.indexCast arg9
  let c1_i32_834 : BitVec 32 := 1#32
  let v797 : Index := Scalar.indexCast c1_i32_834
  let c80_835 : Index := 80#32
  ![0, v796.toNat, 1, 80]
def k2_off688 (k2_t11 : Fin k2_t11_loop.trips) : Fin 3 → Nat :=
  let c0_i32_836 : BitVec 32 := 0#32
  let v801 : Index := Scalar.indexCast c0_i32_836
  let c0_i32_409 : BitVec 32 := 0#32
  let c1_i32_411 : BitVec 32 := 1#32
  let arg9 : BitVec 32 := Scf.iv c0_i32_409 c1_i32_411 k2_t11
  let v802 : Index := Scalar.indexCast arg9
  let c224 : Index := 224#32
  ![0, v802.toNat, 224]
def k2_off689 (k2_t11 : Fin k2_t11_loop.trips) : Fin 4 → Nat :=
  let c0_i32_837 : BitVec 32 := 0#32
  let v805 : Index := Scalar.indexCast c0_i32_837
  let c0_i32_409 : BitVec 32 := 0#32
  let c1_i32_411 : BitVec 32 := 1#32
  let arg9 : BitVec 32 := Scf.iv c0_i32_409 c1_i32_411 k2_t11
  let v806 : Index := Scalar.indexCast arg9
  let c1_i32_838 : BitVec 32 := 1#32
  let v807 : Index := Scalar.indexCast c1_i32_838
  let c96_839 : Index := 96#32
  ![0, v806.toNat, 1, 96]
def k2_off690 (k2_t11 : Fin k2_t11_loop.trips) : Fin 3 → Nat :=
  let c0_i32_840 : BitVec 32 := 0#32
  let v811 : Index := Scalar.indexCast c0_i32_840
  let c0_i32_409 : BitVec 32 := 0#32
  let c1_i32_411 : BitVec 32 := 1#32
  let arg9 : BitVec 32 := Scf.iv c0_i32_409 c1_i32_411 k2_t11
  let v812 : Index := Scalar.indexCast arg9
  let c240 : Index := 240#32
  ![0, v812.toNat, 240]
def k2_off691 (k2_t11 : Fin k2_t11_loop.trips) : Fin 4 → Nat :=
  let c0_i32_841 : BitVec 32 := 0#32
  let v815 : Index := Scalar.indexCast c0_i32_841
  let c0_i32_409 : BitVec 32 := 0#32
  let c1_i32_411 : BitVec 32 := 1#32
  let arg9 : BitVec 32 := Scf.iv c0_i32_409 c1_i32_411 k2_t11
  let v816 : Index := Scalar.indexCast arg9
  let c1_i32_842 : BitVec 32 := 1#32
  let v817 : Index := Scalar.indexCast c1_i32_842
  let c112_843 : Index := 112#32
  ![0, v816.toNat, 1, 112]
def k2_off692 (k2_t11 : Fin k2_t11_loop.trips) : Fin 3 → Nat :=
  let c0_i32_844 : BitVec 32 := 0#32
  let v821 : Index := Scalar.indexCast c0_i32_844
  let c0_i32_409 : BitVec 32 := 0#32
  let c1_i32_411 : BitVec 32 := 1#32
  let arg9 : BitVec 32 := Scf.iv c0_i32_409 c1_i32_411 k2_t11
  let v822 : Index := Scalar.indexCast arg9
  let c256 : Index := 256#32
  ![0, v822.toNat, 256]
def k2_off693 (k2_t11 : Fin k2_t11_loop.trips) : Fin 4 → Nat :=
  let c0_i32_845 : BitVec 32 := 0#32
  let v825 : Index := Scalar.indexCast c0_i32_845
  let c0_i32_409 : BitVec 32 := 0#32
  let c1_i32_411 : BitVec 32 := 1#32
  let arg9 : BitVec 32 := Scf.iv c0_i32_409 c1_i32_411 k2_t11
  let v826 : Index := Scalar.indexCast arg9
  let c2_i32_846 : BitVec 32 := 2#32
  let v827 : Index := Scalar.indexCast c2_i32_846
  let c0_847 : Index := 0#32
  ![0, v826.toNat, 2, 0]
def k2_off694 (k2_t11 : Fin k2_t11_loop.trips) : Fin 3 → Nat :=
  let c0_i32_848 : BitVec 32 := 0#32
  let v831 : Index := Scalar.indexCast c0_i32_848
  let c0_i32_409 : BitVec 32 := 0#32
  let c1_i32_411 : BitVec 32 := 1#32
  let arg9 : BitVec 32 := Scf.iv c0_i32_409 c1_i32_411 k2_t11
  let v832 : Index := Scalar.indexCast arg9
  let c272 : Index := 272#32
  ![0, v832.toNat, 272]
def k2_off695 (k2_t11 : Fin k2_t11_loop.trips) : Fin 4 → Nat :=
  let c0_i32_849 : BitVec 32 := 0#32
  let v835 : Index := Scalar.indexCast c0_i32_849
  let c0_i32_409 : BitVec 32 := 0#32
  let c1_i32_411 : BitVec 32 := 1#32
  let arg9 : BitVec 32 := Scf.iv c0_i32_409 c1_i32_411 k2_t11
  let v836 : Index := Scalar.indexCast arg9
  let c2_i32_850 : BitVec 32 := 2#32
  let v837 : Index := Scalar.indexCast c2_i32_850
  let c16_851 : Index := 16#32
  ![0, v836.toNat, 2, 16]
def k2_off696 (k2_t11 : Fin k2_t11_loop.trips) : Fin 3 → Nat :=
  let c0_i32_852 : BitVec 32 := 0#32
  let v841 : Index := Scalar.indexCast c0_i32_852
  let c0_i32_409 : BitVec 32 := 0#32
  let c1_i32_411 : BitVec 32 := 1#32
  let arg9 : BitVec 32 := Scf.iv c0_i32_409 c1_i32_411 k2_t11
  let v842 : Index := Scalar.indexCast arg9
  let c288 : Index := 288#32
  ![0, v842.toNat, 288]
def k2_off697 (k2_t11 : Fin k2_t11_loop.trips) : Fin 4 → Nat :=
  let c0_i32_853 : BitVec 32 := 0#32
  let v845 : Index := Scalar.indexCast c0_i32_853
  let c0_i32_409 : BitVec 32 := 0#32
  let c1_i32_411 : BitVec 32 := 1#32
  let arg9 : BitVec 32 := Scf.iv c0_i32_409 c1_i32_411 k2_t11
  let v846 : Index := Scalar.indexCast arg9
  let c2_i32_854 : BitVec 32 := 2#32
  let v847 : Index := Scalar.indexCast c2_i32_854
  let c32_855 : Index := 32#32
  ![0, v846.toNat, 2, 32]
def k2_off698 (k2_t11 : Fin k2_t11_loop.trips) : Fin 3 → Nat :=
  let c0_i32_856 : BitVec 32 := 0#32
  let v851 : Index := Scalar.indexCast c0_i32_856
  let c0_i32_409 : BitVec 32 := 0#32
  let c1_i32_411 : BitVec 32 := 1#32
  let arg9 : BitVec 32 := Scf.iv c0_i32_409 c1_i32_411 k2_t11
  let v852 : Index := Scalar.indexCast arg9
  let c304 : Index := 304#32
  ![0, v852.toNat, 304]
def k2_off699 (k2_t11 : Fin k2_t11_loop.trips) : Fin 4 → Nat :=
  let c0_i32_857 : BitVec 32 := 0#32
  let v855 : Index := Scalar.indexCast c0_i32_857
  let c0_i32_409 : BitVec 32 := 0#32
  let c1_i32_411 : BitVec 32 := 1#32
  let arg9 : BitVec 32 := Scf.iv c0_i32_409 c1_i32_411 k2_t11
  let v856 : Index := Scalar.indexCast arg9
  let c2_i32_858 : BitVec 32 := 2#32
  let v857 : Index := Scalar.indexCast c2_i32_858
  let c48_859 : Index := 48#32
  ![0, v856.toNat, 2, 48]
def k2_off700 (k2_t11 : Fin k2_t11_loop.trips) : Fin 3 → Nat :=
  let c0_i32_860 : BitVec 32 := 0#32
  let v861 : Index := Scalar.indexCast c0_i32_860
  let c0_i32_409 : BitVec 32 := 0#32
  let c1_i32_411 : BitVec 32 := 1#32
  let arg9 : BitVec 32 := Scf.iv c0_i32_409 c1_i32_411 k2_t11
  let v862 : Index := Scalar.indexCast arg9
  let c320 : Index := 320#32
  ![0, v862.toNat, 320]
def k2_off701 (k2_t11 : Fin k2_t11_loop.trips) : Fin 4 → Nat :=
  let c0_i32_861 : BitVec 32 := 0#32
  let v865 : Index := Scalar.indexCast c0_i32_861
  let c0_i32_409 : BitVec 32 := 0#32
  let c1_i32_411 : BitVec 32 := 1#32
  let arg9 : BitVec 32 := Scf.iv c0_i32_409 c1_i32_411 k2_t11
  let v866 : Index := Scalar.indexCast arg9
  let c2_i32_862 : BitVec 32 := 2#32
  let v867 : Index := Scalar.indexCast c2_i32_862
  let c64_863 : Index := 64#32
  ![0, v866.toNat, 2, 64]
def k2_off702 (k2_t11 : Fin k2_t11_loop.trips) : Fin 3 → Nat :=
  let c0_i32_864 : BitVec 32 := 0#32
  let v871 : Index := Scalar.indexCast c0_i32_864
  let c0_i32_409 : BitVec 32 := 0#32
  let c1_i32_411 : BitVec 32 := 1#32
  let arg9 : BitVec 32 := Scf.iv c0_i32_409 c1_i32_411 k2_t11
  let v872 : Index := Scalar.indexCast arg9
  let c336 : Index := 336#32
  ![0, v872.toNat, 336]
def k2_off703 (k2_t11 : Fin k2_t11_loop.trips) : Fin 4 → Nat :=
  let c0_i32_865 : BitVec 32 := 0#32
  let v875 : Index := Scalar.indexCast c0_i32_865
  let c0_i32_409 : BitVec 32 := 0#32
  let c1_i32_411 : BitVec 32 := 1#32
  let arg9 : BitVec 32 := Scf.iv c0_i32_409 c1_i32_411 k2_t11
  let v876 : Index := Scalar.indexCast arg9
  let c2_i32_866 : BitVec 32 := 2#32
  let v877 : Index := Scalar.indexCast c2_i32_866
  let c80_867 : Index := 80#32
  ![0, v876.toNat, 2, 80]
def k2_off704 (k2_t11 : Fin k2_t11_loop.trips) : Fin 3 → Nat :=
  let c0_i32_868 : BitVec 32 := 0#32
  let v881 : Index := Scalar.indexCast c0_i32_868
  let c0_i32_409 : BitVec 32 := 0#32
  let c1_i32_411 : BitVec 32 := 1#32
  let arg9 : BitVec 32 := Scf.iv c0_i32_409 c1_i32_411 k2_t11
  let v882 : Index := Scalar.indexCast arg9
  let c352 : Index := 352#32
  ![0, v882.toNat, 352]
def k2_off705 (k2_t11 : Fin k2_t11_loop.trips) : Fin 4 → Nat :=
  let c0_i32_869 : BitVec 32 := 0#32
  let v885 : Index := Scalar.indexCast c0_i32_869
  let c0_i32_409 : BitVec 32 := 0#32
  let c1_i32_411 : BitVec 32 := 1#32
  let arg9 : BitVec 32 := Scf.iv c0_i32_409 c1_i32_411 k2_t11
  let v886 : Index := Scalar.indexCast arg9
  let c2_i32_870 : BitVec 32 := 2#32
  let v887 : Index := Scalar.indexCast c2_i32_870
  let c96_871 : Index := 96#32
  ![0, v886.toNat, 2, 96]
def k2_off706 (k2_t11 : Fin k2_t11_loop.trips) : Fin 3 → Nat :=
  let c0_i32_872 : BitVec 32 := 0#32
  let v891 : Index := Scalar.indexCast c0_i32_872
  let c0_i32_409 : BitVec 32 := 0#32
  let c1_i32_411 : BitVec 32 := 1#32
  let arg9 : BitVec 32 := Scf.iv c0_i32_409 c1_i32_411 k2_t11
  let v892 : Index := Scalar.indexCast arg9
  let c368 : Index := 368#32
  ![0, v892.toNat, 368]
def k2_off707 (k2_t11 : Fin k2_t11_loop.trips) : Fin 4 → Nat :=
  let c0_i32_873 : BitVec 32 := 0#32
  let v895 : Index := Scalar.indexCast c0_i32_873
  let c0_i32_409 : BitVec 32 := 0#32
  let c1_i32_411 : BitVec 32 := 1#32
  let arg9 : BitVec 32 := Scf.iv c0_i32_409 c1_i32_411 k2_t11
  let v896 : Index := Scalar.indexCast arg9
  let c2_i32_874 : BitVec 32 := 2#32
  let v897 : Index := Scalar.indexCast c2_i32_874
  let c112_875 : Index := 112#32
  ![0, v896.toNat, 2, 112]
def k2_off708 (k2_t11 : Fin k2_t11_loop.trips) : Fin 3 → Nat :=
  let c0_i32_876 : BitVec 32 := 0#32
  let v901 : Index := Scalar.indexCast c0_i32_876
  let c0_i32_409 : BitVec 32 := 0#32
  let c1_i32_411 : BitVec 32 := 1#32
  let arg9 : BitVec 32 := Scf.iv c0_i32_409 c1_i32_411 k2_t11
  let v902 : Index := Scalar.indexCast arg9
  let c384 : Index := 384#32
  ![0, v902.toNat, 384]
def k2_off709 (k2_t11 : Fin k2_t11_loop.trips) : Fin 4 → Nat :=
  let c0_i32_877 : BitVec 32 := 0#32
  let v905 : Index := Scalar.indexCast c0_i32_877
  let c0_i32_409 : BitVec 32 := 0#32
  let c1_i32_411 : BitVec 32 := 1#32
  let arg9 : BitVec 32 := Scf.iv c0_i32_409 c1_i32_411 k2_t11
  let v906 : Index := Scalar.indexCast arg9
  let c3_i32_878 : BitVec 32 := 3#32
  let v907 : Index := Scalar.indexCast c3_i32_878
  let c0_879 : Index := 0#32
  ![0, v906.toNat, 3, 0]
def k2_off710 (k2_t11 : Fin k2_t11_loop.trips) : Fin 3 → Nat :=
  let c0_i32_880 : BitVec 32 := 0#32
  let v911 : Index := Scalar.indexCast c0_i32_880
  let c0_i32_409 : BitVec 32 := 0#32
  let c1_i32_411 : BitVec 32 := 1#32
  let arg9 : BitVec 32 := Scf.iv c0_i32_409 c1_i32_411 k2_t11
  let v912 : Index := Scalar.indexCast arg9
  let c400 : Index := 400#32
  ![0, v912.toNat, 400]
def k2_off711 (k2_t11 : Fin k2_t11_loop.trips) : Fin 4 → Nat :=
  let c0_i32_881 : BitVec 32 := 0#32
  let v915 : Index := Scalar.indexCast c0_i32_881
  let c0_i32_409 : BitVec 32 := 0#32
  let c1_i32_411 : BitVec 32 := 1#32
  let arg9 : BitVec 32 := Scf.iv c0_i32_409 c1_i32_411 k2_t11
  let v916 : Index := Scalar.indexCast arg9
  let c3_i32_882 : BitVec 32 := 3#32
  let v917 : Index := Scalar.indexCast c3_i32_882
  let c16_883 : Index := 16#32
  ![0, v916.toNat, 3, 16]
def k2_off712 (k2_t11 : Fin k2_t11_loop.trips) : Fin 3 → Nat :=
  let c0_i32_884 : BitVec 32 := 0#32
  let v921 : Index := Scalar.indexCast c0_i32_884
  let c0_i32_409 : BitVec 32 := 0#32
  let c1_i32_411 : BitVec 32 := 1#32
  let arg9 : BitVec 32 := Scf.iv c0_i32_409 c1_i32_411 k2_t11
  let v922 : Index := Scalar.indexCast arg9
  let c416 : Index := 416#32
  ![0, v922.toNat, 416]
def k2_off713 (k2_t11 : Fin k2_t11_loop.trips) : Fin 4 → Nat :=
  let c0_i32_885 : BitVec 32 := 0#32
  let v925 : Index := Scalar.indexCast c0_i32_885
  let c0_i32_409 : BitVec 32 := 0#32
  let c1_i32_411 : BitVec 32 := 1#32
  let arg9 : BitVec 32 := Scf.iv c0_i32_409 c1_i32_411 k2_t11
  let v926 : Index := Scalar.indexCast arg9
  let c3_i32_886 : BitVec 32 := 3#32
  let v927 : Index := Scalar.indexCast c3_i32_886
  let c32_887 : Index := 32#32
  ![0, v926.toNat, 3, 32]
def k2_off714 (k2_t11 : Fin k2_t11_loop.trips) : Fin 3 → Nat :=
  let c0_i32_888 : BitVec 32 := 0#32
  let v931 : Index := Scalar.indexCast c0_i32_888
  let c0_i32_409 : BitVec 32 := 0#32
  let c1_i32_411 : BitVec 32 := 1#32
  let arg9 : BitVec 32 := Scf.iv c0_i32_409 c1_i32_411 k2_t11
  let v932 : Index := Scalar.indexCast arg9
  let c432 : Index := 432#32
  ![0, v932.toNat, 432]
def k2_off715 (k2_t11 : Fin k2_t11_loop.trips) : Fin 4 → Nat :=
  let c0_i32_889 : BitVec 32 := 0#32
  let v935 : Index := Scalar.indexCast c0_i32_889
  let c0_i32_409 : BitVec 32 := 0#32
  let c1_i32_411 : BitVec 32 := 1#32
  let arg9 : BitVec 32 := Scf.iv c0_i32_409 c1_i32_411 k2_t11
  let v936 : Index := Scalar.indexCast arg9
  let c3_i32_890 : BitVec 32 := 3#32
  let v937 : Index := Scalar.indexCast c3_i32_890
  let c48_891 : Index := 48#32
  ![0, v936.toNat, 3, 48]
def k2_off716 (k2_t11 : Fin k2_t11_loop.trips) : Fin 3 → Nat :=
  let c0_i32_892 : BitVec 32 := 0#32
  let v941 : Index := Scalar.indexCast c0_i32_892
  let c0_i32_409 : BitVec 32 := 0#32
  let c1_i32_411 : BitVec 32 := 1#32
  let arg9 : BitVec 32 := Scf.iv c0_i32_409 c1_i32_411 k2_t11
  let v942 : Index := Scalar.indexCast arg9
  let c448 : Index := 448#32
  ![0, v942.toNat, 448]
def k2_off717 (k2_t11 : Fin k2_t11_loop.trips) : Fin 4 → Nat :=
  let c0_i32_893 : BitVec 32 := 0#32
  let v945 : Index := Scalar.indexCast c0_i32_893
  let c0_i32_409 : BitVec 32 := 0#32
  let c1_i32_411 : BitVec 32 := 1#32
  let arg9 : BitVec 32 := Scf.iv c0_i32_409 c1_i32_411 k2_t11
  let v946 : Index := Scalar.indexCast arg9
  let c3_i32_894 : BitVec 32 := 3#32
  let v947 : Index := Scalar.indexCast c3_i32_894
  let c64_895 : Index := 64#32
  ![0, v946.toNat, 3, 64]
def k2_off718 (k2_t11 : Fin k2_t11_loop.trips) : Fin 3 → Nat :=
  let c0_i32_896 : BitVec 32 := 0#32
  let v951 : Index := Scalar.indexCast c0_i32_896
  let c0_i32_409 : BitVec 32 := 0#32
  let c1_i32_411 : BitVec 32 := 1#32
  let arg9 : BitVec 32 := Scf.iv c0_i32_409 c1_i32_411 k2_t11
  let v952 : Index := Scalar.indexCast arg9
  let c464 : Index := 464#32
  ![0, v952.toNat, 464]
def k2_off719 (k2_t11 : Fin k2_t11_loop.trips) : Fin 4 → Nat :=
  let c0_i32_897 : BitVec 32 := 0#32
  let v955 : Index := Scalar.indexCast c0_i32_897
  let c0_i32_409 : BitVec 32 := 0#32
  let c1_i32_411 : BitVec 32 := 1#32
  let arg9 : BitVec 32 := Scf.iv c0_i32_409 c1_i32_411 k2_t11
  let v956 : Index := Scalar.indexCast arg9
  let c3_i32_898 : BitVec 32 := 3#32
  let v957 : Index := Scalar.indexCast c3_i32_898
  let c80_899 : Index := 80#32
  ![0, v956.toNat, 3, 80]
def k2_off720 (k2_t11 : Fin k2_t11_loop.trips) : Fin 3 → Nat :=
  let c0_i32_900 : BitVec 32 := 0#32
  let v961 : Index := Scalar.indexCast c0_i32_900
  let c0_i32_409 : BitVec 32 := 0#32
  let c1_i32_411 : BitVec 32 := 1#32
  let arg9 : BitVec 32 := Scf.iv c0_i32_409 c1_i32_411 k2_t11
  let v962 : Index := Scalar.indexCast arg9
  let c480 : Index := 480#32
  ![0, v962.toNat, 480]
def k2_off721 (k2_t11 : Fin k2_t11_loop.trips) : Fin 4 → Nat :=
  let c0_i32_901 : BitVec 32 := 0#32
  let v965 : Index := Scalar.indexCast c0_i32_901
  let c0_i32_409 : BitVec 32 := 0#32
  let c1_i32_411 : BitVec 32 := 1#32
  let arg9 : BitVec 32 := Scf.iv c0_i32_409 c1_i32_411 k2_t11
  let v966 : Index := Scalar.indexCast arg9
  let c3_i32_902 : BitVec 32 := 3#32
  let v967 : Index := Scalar.indexCast c3_i32_902
  let c96_903 : Index := 96#32
  ![0, v966.toNat, 3, 96]
def k2_off722 (k2_t11 : Fin k2_t11_loop.trips) : Fin 3 → Nat :=
  let c0_i32_904 : BitVec 32 := 0#32
  let v971 : Index := Scalar.indexCast c0_i32_904
  let c0_i32_409 : BitVec 32 := 0#32
  let c1_i32_411 : BitVec 32 := 1#32
  let arg9 : BitVec 32 := Scf.iv c0_i32_409 c1_i32_411 k2_t11
  let v972 : Index := Scalar.indexCast arg9
  let c496 : Index := 496#32
  ![0, v972.toNat, 496]
def k2_off723 (k2_t11 : Fin k2_t11_loop.trips) : Fin 4 → Nat :=
  let c0_i32_905 : BitVec 32 := 0#32
  let v975 : Index := Scalar.indexCast c0_i32_905
  let c0_i32_409 : BitVec 32 := 0#32
  let c1_i32_411 : BitVec 32 := 1#32
  let arg9 : BitVec 32 := Scf.iv c0_i32_409 c1_i32_411 k2_t11
  let v976 : Index := Scalar.indexCast arg9
  let c3_i32_906 : BitVec 32 := 3#32
  let v977 : Index := Scalar.indexCast c3_i32_906
  let c112_907 : Index := 112#32
  ![0, v976.toNat, 3, 112]
def k2_off724 (i : grid2.Coords) : Fin 4 → Nat :=
  let c8_i32_414 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_419 : BitVec 32 := 0#32
  let c0_i32_420 : BitVec 32 := 0#32
  ![8, v2.toNat, 0, 0]
def k2_off725 (i : grid2.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_439 : BitVec 32 := 0#32
  ![10, v2.toNat, 0]
@[reducible] def k2_t12_loop : Scf.Loop 32 :=
  let c0_i32_457 : BitVec 32 := 0#32
  let c32_i32_458 : BitVec 32 := 32#32
  let v394 : BitVec 32 := Scalar.addi c0_i32_457 c32_i32_458
  let c1_i32_459 : BitVec 32 := 1#32
  ⟨c0_i32_457, v394, c1_i32_459⟩
def k2_off726 (k2_t12 : Fin k2_t12_loop.trips) : Fin 3 → Nat :=
  let c1_i32_780 : BitVec 32 := 1#32
  let v661 : Index := Scalar.indexCast c1_i32_780
  let c0_i32_457 : BitVec 32 := 0#32
  let c1_i32_459 : BitVec 32 := 1#32
  let arg9 : BitVec 32 := Scf.iv c0_i32_457 c1_i32_459 k2_t12
  let v662 : Index := Scalar.indexCast arg9
  let c0 : Index := 0#32
  ![1, v662.toNat, 0]
def k2_off727 (k2_t12 : Fin k2_t12_loop.trips) : Fin 4 → Nat :=
  let c1_i32_781 : BitVec 32 := 1#32
  let v665 : Index := Scalar.indexCast c1_i32_781
  let c0_i32_457 : BitVec 32 := 0#32
  let c1_i32_459 : BitVec 32 := 1#32
  let arg9 : BitVec 32 := Scf.iv c0_i32_457 c1_i32_459 k2_t12
  let v666 : Index := Scalar.indexCast arg9
  let c0_i32_782 : BitVec 32 := 0#32
  let v667 : Index := Scalar.indexCast c0_i32_782
  let c0_783 : Index := 0#32
  ![1, v666.toNat, 0, 0]
def k2_off728 (k2_t12 : Fin k2_t12_loop.trips) : Fin 3 → Nat :=
  let c1_i32_784 : BitVec 32 := 1#32
  let v671 : Index := Scalar.indexCast c1_i32_784
  let c0_i32_457 : BitVec 32 := 0#32
  let c1_i32_459 : BitVec 32 := 1#32
  let arg9 : BitVec 32 := Scf.iv c0_i32_457 c1_i32_459 k2_t12
  let v672 : Index := Scalar.indexCast arg9
  let c16 : Index := 16#32
  ![1, v672.toNat, 16]
def k2_off729 (k2_t12 : Fin k2_t12_loop.trips) : Fin 4 → Nat :=
  let c1_i32_785 : BitVec 32 := 1#32
  let v675 : Index := Scalar.indexCast c1_i32_785
  let c0_i32_457 : BitVec 32 := 0#32
  let c1_i32_459 : BitVec 32 := 1#32
  let arg9 : BitVec 32 := Scf.iv c0_i32_457 c1_i32_459 k2_t12
  let v676 : Index := Scalar.indexCast arg9
  let c0_i32_786 : BitVec 32 := 0#32
  let v677 : Index := Scalar.indexCast c0_i32_786
  let c16_787 : Index := 16#32
  ![1, v676.toNat, 0, 16]
def k2_off730 (k2_t12 : Fin k2_t12_loop.trips) : Fin 3 → Nat :=
  let c1_i32_788 : BitVec 32 := 1#32
  let v681 : Index := Scalar.indexCast c1_i32_788
  let c0_i32_457 : BitVec 32 := 0#32
  let c1_i32_459 : BitVec 32 := 1#32
  let arg9 : BitVec 32 := Scf.iv c0_i32_457 c1_i32_459 k2_t12
  let v682 : Index := Scalar.indexCast arg9
  let c32 : Index := 32#32
  ![1, v682.toNat, 32]
def k2_off731 (k2_t12 : Fin k2_t12_loop.trips) : Fin 4 → Nat :=
  let c1_i32_789 : BitVec 32 := 1#32
  let v685 : Index := Scalar.indexCast c1_i32_789
  let c0_i32_457 : BitVec 32 := 0#32
  let c1_i32_459 : BitVec 32 := 1#32
  let arg9 : BitVec 32 := Scf.iv c0_i32_457 c1_i32_459 k2_t12
  let v686 : Index := Scalar.indexCast arg9
  let c0_i32_790 : BitVec 32 := 0#32
  let v687 : Index := Scalar.indexCast c0_i32_790
  let c32_791 : Index := 32#32
  ![1, v686.toNat, 0, 32]
def k2_off732 (k2_t12 : Fin k2_t12_loop.trips) : Fin 3 → Nat :=
  let c1_i32_792 : BitVec 32 := 1#32
  let v691 : Index := Scalar.indexCast c1_i32_792
  let c0_i32_457 : BitVec 32 := 0#32
  let c1_i32_459 : BitVec 32 := 1#32
  let arg9 : BitVec 32 := Scf.iv c0_i32_457 c1_i32_459 k2_t12
  let v692 : Index := Scalar.indexCast arg9
  let c48 : Index := 48#32
  ![1, v692.toNat, 48]
def k2_off733 (k2_t12 : Fin k2_t12_loop.trips) : Fin 4 → Nat :=
  let c1_i32_793 : BitVec 32 := 1#32
  let v695 : Index := Scalar.indexCast c1_i32_793
  let c0_i32_457 : BitVec 32 := 0#32
  let c1_i32_459 : BitVec 32 := 1#32
  let arg9 : BitVec 32 := Scf.iv c0_i32_457 c1_i32_459 k2_t12
  let v696 : Index := Scalar.indexCast arg9
  let c0_i32_794 : BitVec 32 := 0#32
  let v697 : Index := Scalar.indexCast c0_i32_794
  let c48_795 : Index := 48#32
  ![1, v696.toNat, 0, 48]
def k2_off734 (k2_t12 : Fin k2_t12_loop.trips) : Fin 3 → Nat :=
  let c1_i32_796 : BitVec 32 := 1#32
  let v701 : Index := Scalar.indexCast c1_i32_796
  let c0_i32_457 : BitVec 32 := 0#32
  let c1_i32_459 : BitVec 32 := 1#32
  let arg9 : BitVec 32 := Scf.iv c0_i32_457 c1_i32_459 k2_t12
  let v702 : Index := Scalar.indexCast arg9
  let c64 : Index := 64#32
  ![1, v702.toNat, 64]
def k2_off735 (k2_t12 : Fin k2_t12_loop.trips) : Fin 4 → Nat :=
  let c1_i32_797 : BitVec 32 := 1#32
  let v705 : Index := Scalar.indexCast c1_i32_797
  let c0_i32_457 : BitVec 32 := 0#32
  let c1_i32_459 : BitVec 32 := 1#32
  let arg9 : BitVec 32 := Scf.iv c0_i32_457 c1_i32_459 k2_t12
  let v706 : Index := Scalar.indexCast arg9
  let c0_i32_798 : BitVec 32 := 0#32
  let v707 : Index := Scalar.indexCast c0_i32_798
  let c64_799 : Index := 64#32
  ![1, v706.toNat, 0, 64]
def k2_off736 (k2_t12 : Fin k2_t12_loop.trips) : Fin 3 → Nat :=
  let c1_i32_800 : BitVec 32 := 1#32
  let v711 : Index := Scalar.indexCast c1_i32_800
  let c0_i32_457 : BitVec 32 := 0#32
  let c1_i32_459 : BitVec 32 := 1#32
  let arg9 : BitVec 32 := Scf.iv c0_i32_457 c1_i32_459 k2_t12
  let v712 : Index := Scalar.indexCast arg9
  let c80 : Index := 80#32
  ![1, v712.toNat, 80]
def k2_off737 (k2_t12 : Fin k2_t12_loop.trips) : Fin 4 → Nat :=
  let c1_i32_801 : BitVec 32 := 1#32
  let v715 : Index := Scalar.indexCast c1_i32_801
  let c0_i32_457 : BitVec 32 := 0#32
  let c1_i32_459 : BitVec 32 := 1#32
  let arg9 : BitVec 32 := Scf.iv c0_i32_457 c1_i32_459 k2_t12
  let v716 : Index := Scalar.indexCast arg9
  let c0_i32_802 : BitVec 32 := 0#32
  let v717 : Index := Scalar.indexCast c0_i32_802
  let c80_803 : Index := 80#32
  ![1, v716.toNat, 0, 80]
def k2_off738 (k2_t12 : Fin k2_t12_loop.trips) : Fin 3 → Nat :=
  let c1_i32_804 : BitVec 32 := 1#32
  let v721 : Index := Scalar.indexCast c1_i32_804
  let c0_i32_457 : BitVec 32 := 0#32
  let c1_i32_459 : BitVec 32 := 1#32
  let arg9 : BitVec 32 := Scf.iv c0_i32_457 c1_i32_459 k2_t12
  let v722 : Index := Scalar.indexCast arg9
  let c96 : Index := 96#32
  ![1, v722.toNat, 96]
def k2_off739 (k2_t12 : Fin k2_t12_loop.trips) : Fin 4 → Nat :=
  let c1_i32_805 : BitVec 32 := 1#32
  let v725 : Index := Scalar.indexCast c1_i32_805
  let c0_i32_457 : BitVec 32 := 0#32
  let c1_i32_459 : BitVec 32 := 1#32
  let arg9 : BitVec 32 := Scf.iv c0_i32_457 c1_i32_459 k2_t12
  let v726 : Index := Scalar.indexCast arg9
  let c0_i32_806 : BitVec 32 := 0#32
  let v727 : Index := Scalar.indexCast c0_i32_806
  let c96_807 : Index := 96#32
  ![1, v726.toNat, 0, 96]
def k2_off740 (k2_t12 : Fin k2_t12_loop.trips) : Fin 3 → Nat :=
  let c1_i32_808 : BitVec 32 := 1#32
  let v731 : Index := Scalar.indexCast c1_i32_808
  let c0_i32_457 : BitVec 32 := 0#32
  let c1_i32_459 : BitVec 32 := 1#32
  let arg9 : BitVec 32 := Scf.iv c0_i32_457 c1_i32_459 k2_t12
  let v732 : Index := Scalar.indexCast arg9
  let c112 : Index := 112#32
  ![1, v732.toNat, 112]
def k2_off741 (k2_t12 : Fin k2_t12_loop.trips) : Fin 4 → Nat :=
  let c1_i32_809 : BitVec 32 := 1#32
  let v735 : Index := Scalar.indexCast c1_i32_809
  let c0_i32_457 : BitVec 32 := 0#32
  let c1_i32_459 : BitVec 32 := 1#32
  let arg9 : BitVec 32 := Scf.iv c0_i32_457 c1_i32_459 k2_t12
  let v736 : Index := Scalar.indexCast arg9
  let c0_i32_810 : BitVec 32 := 0#32
  let v737 : Index := Scalar.indexCast c0_i32_810
  let c112_811 : Index := 112#32
  ![1, v736.toNat, 0, 112]
def k2_off742 (k2_t12 : Fin k2_t12_loop.trips) : Fin 3 → Nat :=
  let c1_i32_812 : BitVec 32 := 1#32
  let v741 : Index := Scalar.indexCast c1_i32_812
  let c0_i32_457 : BitVec 32 := 0#32
  let c1_i32_459 : BitVec 32 := 1#32
  let arg9 : BitVec 32 := Scf.iv c0_i32_457 c1_i32_459 k2_t12
  let v742 : Index := Scalar.indexCast arg9
  let c128 : Index := 128#32
  ![1, v742.toNat, 128]
def k2_off743 (k2_t12 : Fin k2_t12_loop.trips) : Fin 4 → Nat :=
  let c1_i32_813 : BitVec 32 := 1#32
  let v745 : Index := Scalar.indexCast c1_i32_813
  let c0_i32_457 : BitVec 32 := 0#32
  let c1_i32_459 : BitVec 32 := 1#32
  let arg9 : BitVec 32 := Scf.iv c0_i32_457 c1_i32_459 k2_t12
  let v746 : Index := Scalar.indexCast arg9
  let c1_i32_814 : BitVec 32 := 1#32
  let v747 : Index := Scalar.indexCast c1_i32_814
  let c0_815 : Index := 0#32
  ![1, v746.toNat, 1, 0]
def k2_off744 (k2_t12 : Fin k2_t12_loop.trips) : Fin 3 → Nat :=
  let c1_i32_816 : BitVec 32 := 1#32
  let v751 : Index := Scalar.indexCast c1_i32_816
  let c0_i32_457 : BitVec 32 := 0#32
  let c1_i32_459 : BitVec 32 := 1#32
  let arg9 : BitVec 32 := Scf.iv c0_i32_457 c1_i32_459 k2_t12
  let v752 : Index := Scalar.indexCast arg9
  let c144 : Index := 144#32
  ![1, v752.toNat, 144]
def k2_off745 (k2_t12 : Fin k2_t12_loop.trips) : Fin 4 → Nat :=
  let c1_i32_817 : BitVec 32 := 1#32
  let v755 : Index := Scalar.indexCast c1_i32_817
  let c0_i32_457 : BitVec 32 := 0#32
  let c1_i32_459 : BitVec 32 := 1#32
  let arg9 : BitVec 32 := Scf.iv c0_i32_457 c1_i32_459 k2_t12
  let v756 : Index := Scalar.indexCast arg9
  let c1_i32_818 : BitVec 32 := 1#32
  let v757 : Index := Scalar.indexCast c1_i32_818
  let c16_819 : Index := 16#32
  ![1, v756.toNat, 1, 16]
def k2_off746 (k2_t12 : Fin k2_t12_loop.trips) : Fin 3 → Nat :=
  let c1_i32_820 : BitVec 32 := 1#32
  let v761 : Index := Scalar.indexCast c1_i32_820
  let c0_i32_457 : BitVec 32 := 0#32
  let c1_i32_459 : BitVec 32 := 1#32
  let arg9 : BitVec 32 := Scf.iv c0_i32_457 c1_i32_459 k2_t12
  let v762 : Index := Scalar.indexCast arg9
  let c160 : Index := 160#32
  ![1, v762.toNat, 160]
def k2_off747 (k2_t12 : Fin k2_t12_loop.trips) : Fin 4 → Nat :=
  let c1_i32_821 : BitVec 32 := 1#32
  let v765 : Index := Scalar.indexCast c1_i32_821
  let c0_i32_457 : BitVec 32 := 0#32
  let c1_i32_459 : BitVec 32 := 1#32
  let arg9 : BitVec 32 := Scf.iv c0_i32_457 c1_i32_459 k2_t12
  let v766 : Index := Scalar.indexCast arg9
  let c1_i32_822 : BitVec 32 := 1#32
  let v767 : Index := Scalar.indexCast c1_i32_822
  let c32_823 : Index := 32#32
  ![1, v766.toNat, 1, 32]
def k2_off748 (k2_t12 : Fin k2_t12_loop.trips) : Fin 3 → Nat :=
  let c1_i32_824 : BitVec 32 := 1#32
  let v771 : Index := Scalar.indexCast c1_i32_824
  let c0_i32_457 : BitVec 32 := 0#32
  let c1_i32_459 : BitVec 32 := 1#32
  let arg9 : BitVec 32 := Scf.iv c0_i32_457 c1_i32_459 k2_t12
  let v772 : Index := Scalar.indexCast arg9
  let c176 : Index := 176#32
  ![1, v772.toNat, 176]
def k2_off749 (k2_t12 : Fin k2_t12_loop.trips) : Fin 4 → Nat :=
  let c1_i32_825 : BitVec 32 := 1#32
  let v775 : Index := Scalar.indexCast c1_i32_825
  let c0_i32_457 : BitVec 32 := 0#32
  let c1_i32_459 : BitVec 32 := 1#32
  let arg9 : BitVec 32 := Scf.iv c0_i32_457 c1_i32_459 k2_t12
  let v776 : Index := Scalar.indexCast arg9
  let c1_i32_826 : BitVec 32 := 1#32
  let v777 : Index := Scalar.indexCast c1_i32_826
  let c48_827 : Index := 48#32
  ![1, v776.toNat, 1, 48]
def k2_off750 (k2_t12 : Fin k2_t12_loop.trips) : Fin 3 → Nat :=
  let c1_i32_828 : BitVec 32 := 1#32
  let v781 : Index := Scalar.indexCast c1_i32_828
  let c0_i32_457 : BitVec 32 := 0#32
  let c1_i32_459 : BitVec 32 := 1#32
  let arg9 : BitVec 32 := Scf.iv c0_i32_457 c1_i32_459 k2_t12
  let v782 : Index := Scalar.indexCast arg9
  let c192 : Index := 192#32
  ![1, v782.toNat, 192]
def k2_off751 (k2_t12 : Fin k2_t12_loop.trips) : Fin 4 → Nat :=
  let c1_i32_829 : BitVec 32 := 1#32
  let v785 : Index := Scalar.indexCast c1_i32_829
  let c0_i32_457 : BitVec 32 := 0#32
  let c1_i32_459 : BitVec 32 := 1#32
  let arg9 : BitVec 32 := Scf.iv c0_i32_457 c1_i32_459 k2_t12
  let v786 : Index := Scalar.indexCast arg9
  let c1_i32_830 : BitVec 32 := 1#32
  let v787 : Index := Scalar.indexCast c1_i32_830
  let c64_831 : Index := 64#32
  ![1, v786.toNat, 1, 64]
def k2_off752 (k2_t12 : Fin k2_t12_loop.trips) : Fin 3 → Nat :=
  let c1_i32_832 : BitVec 32 := 1#32
  let v791 : Index := Scalar.indexCast c1_i32_832
  let c0_i32_457 : BitVec 32 := 0#32
  let c1_i32_459 : BitVec 32 := 1#32
  let arg9 : BitVec 32 := Scf.iv c0_i32_457 c1_i32_459 k2_t12
  let v792 : Index := Scalar.indexCast arg9
  let c208 : Index := 208#32
  ![1, v792.toNat, 208]
def k2_off753 (k2_t12 : Fin k2_t12_loop.trips) : Fin 4 → Nat :=
  let c1_i32_833 : BitVec 32 := 1#32
  let v795 : Index := Scalar.indexCast c1_i32_833
  let c0_i32_457 : BitVec 32 := 0#32
  let c1_i32_459 : BitVec 32 := 1#32
  let arg9 : BitVec 32 := Scf.iv c0_i32_457 c1_i32_459 k2_t12
  let v796 : Index := Scalar.indexCast arg9
  let c1_i32_834 : BitVec 32 := 1#32
  let v797 : Index := Scalar.indexCast c1_i32_834
  let c80_835 : Index := 80#32
  ![1, v796.toNat, 1, 80]
def k2_off754 (k2_t12 : Fin k2_t12_loop.trips) : Fin 3 → Nat :=
  let c1_i32_836 : BitVec 32 := 1#32
  let v801 : Index := Scalar.indexCast c1_i32_836
  let c0_i32_457 : BitVec 32 := 0#32
  let c1_i32_459 : BitVec 32 := 1#32
  let arg9 : BitVec 32 := Scf.iv c0_i32_457 c1_i32_459 k2_t12
  let v802 : Index := Scalar.indexCast arg9
  let c224 : Index := 224#32
  ![1, v802.toNat, 224]
def k2_off755 (k2_t12 : Fin k2_t12_loop.trips) : Fin 4 → Nat :=
  let c1_i32_837 : BitVec 32 := 1#32
  let v805 : Index := Scalar.indexCast c1_i32_837
  let c0_i32_457 : BitVec 32 := 0#32
  let c1_i32_459 : BitVec 32 := 1#32
  let arg9 : BitVec 32 := Scf.iv c0_i32_457 c1_i32_459 k2_t12
  let v806 : Index := Scalar.indexCast arg9
  let c1_i32_838 : BitVec 32 := 1#32
  let v807 : Index := Scalar.indexCast c1_i32_838
  let c96_839 : Index := 96#32
  ![1, v806.toNat, 1, 96]
def k2_off756 (k2_t12 : Fin k2_t12_loop.trips) : Fin 3 → Nat :=
  let c1_i32_840 : BitVec 32 := 1#32
  let v811 : Index := Scalar.indexCast c1_i32_840
  let c0_i32_457 : BitVec 32 := 0#32
  let c1_i32_459 : BitVec 32 := 1#32
  let arg9 : BitVec 32 := Scf.iv c0_i32_457 c1_i32_459 k2_t12
  let v812 : Index := Scalar.indexCast arg9
  let c240 : Index := 240#32
  ![1, v812.toNat, 240]
def k2_off757 (k2_t12 : Fin k2_t12_loop.trips) : Fin 4 → Nat :=
  let c1_i32_841 : BitVec 32 := 1#32
  let v815 : Index := Scalar.indexCast c1_i32_841
  let c0_i32_457 : BitVec 32 := 0#32
  let c1_i32_459 : BitVec 32 := 1#32
  let arg9 : BitVec 32 := Scf.iv c0_i32_457 c1_i32_459 k2_t12
  let v816 : Index := Scalar.indexCast arg9
  let c1_i32_842 : BitVec 32 := 1#32
  let v817 : Index := Scalar.indexCast c1_i32_842
  let c112_843 : Index := 112#32
  ![1, v816.toNat, 1, 112]
def k2_off758 (k2_t12 : Fin k2_t12_loop.trips) : Fin 3 → Nat :=
  let c1_i32_844 : BitVec 32 := 1#32
  let v821 : Index := Scalar.indexCast c1_i32_844
  let c0_i32_457 : BitVec 32 := 0#32
  let c1_i32_459 : BitVec 32 := 1#32
  let arg9 : BitVec 32 := Scf.iv c0_i32_457 c1_i32_459 k2_t12
  let v822 : Index := Scalar.indexCast arg9
  let c256 : Index := 256#32
  ![1, v822.toNat, 256]
def k2_off759 (k2_t12 : Fin k2_t12_loop.trips) : Fin 4 → Nat :=
  let c1_i32_845 : BitVec 32 := 1#32
  let v825 : Index := Scalar.indexCast c1_i32_845
  let c0_i32_457 : BitVec 32 := 0#32
  let c1_i32_459 : BitVec 32 := 1#32
  let arg9 : BitVec 32 := Scf.iv c0_i32_457 c1_i32_459 k2_t12
  let v826 : Index := Scalar.indexCast arg9
  let c2_i32_846 : BitVec 32 := 2#32
  let v827 : Index := Scalar.indexCast c2_i32_846
  let c0_847 : Index := 0#32
  ![1, v826.toNat, 2, 0]
def k2_off760 (k2_t12 : Fin k2_t12_loop.trips) : Fin 3 → Nat :=
  let c1_i32_848 : BitVec 32 := 1#32
  let v831 : Index := Scalar.indexCast c1_i32_848
  let c0_i32_457 : BitVec 32 := 0#32
  let c1_i32_459 : BitVec 32 := 1#32
  let arg9 : BitVec 32 := Scf.iv c0_i32_457 c1_i32_459 k2_t12
  let v832 : Index := Scalar.indexCast arg9
  let c272 : Index := 272#32
  ![1, v832.toNat, 272]
def k2_off761 (k2_t12 : Fin k2_t12_loop.trips) : Fin 4 → Nat :=
  let c1_i32_849 : BitVec 32 := 1#32
  let v835 : Index := Scalar.indexCast c1_i32_849
  let c0_i32_457 : BitVec 32 := 0#32
  let c1_i32_459 : BitVec 32 := 1#32
  let arg9 : BitVec 32 := Scf.iv c0_i32_457 c1_i32_459 k2_t12
  let v836 : Index := Scalar.indexCast arg9
  let c2_i32_850 : BitVec 32 := 2#32
  let v837 : Index := Scalar.indexCast c2_i32_850
  let c16_851 : Index := 16#32
  ![1, v836.toNat, 2, 16]
def k2_off762 (k2_t12 : Fin k2_t12_loop.trips) : Fin 3 → Nat :=
  let c1_i32_852 : BitVec 32 := 1#32
  let v841 : Index := Scalar.indexCast c1_i32_852
  let c0_i32_457 : BitVec 32 := 0#32
  let c1_i32_459 : BitVec 32 := 1#32
  let arg9 : BitVec 32 := Scf.iv c0_i32_457 c1_i32_459 k2_t12
  let v842 : Index := Scalar.indexCast arg9
  let c288 : Index := 288#32
  ![1, v842.toNat, 288]
def k2_off763 (k2_t12 : Fin k2_t12_loop.trips) : Fin 4 → Nat :=
  let c1_i32_853 : BitVec 32 := 1#32
  let v845 : Index := Scalar.indexCast c1_i32_853
  let c0_i32_457 : BitVec 32 := 0#32
  let c1_i32_459 : BitVec 32 := 1#32
  let arg9 : BitVec 32 := Scf.iv c0_i32_457 c1_i32_459 k2_t12
  let v846 : Index := Scalar.indexCast arg9
  let c2_i32_854 : BitVec 32 := 2#32
  let v847 : Index := Scalar.indexCast c2_i32_854
  let c32_855 : Index := 32#32
  ![1, v846.toNat, 2, 32]
def k2_off764 (k2_t12 : Fin k2_t12_loop.trips) : Fin 3 → Nat :=
  let c1_i32_856 : BitVec 32 := 1#32
  let v851 : Index := Scalar.indexCast c1_i32_856
  let c0_i32_457 : BitVec 32 := 0#32
  let c1_i32_459 : BitVec 32 := 1#32
  let arg9 : BitVec 32 := Scf.iv c0_i32_457 c1_i32_459 k2_t12
  let v852 : Index := Scalar.indexCast arg9
  let c304 : Index := 304#32
  ![1, v852.toNat, 304]
def k2_off765 (k2_t12 : Fin k2_t12_loop.trips) : Fin 4 → Nat :=
  let c1_i32_857 : BitVec 32 := 1#32
  let v855 : Index := Scalar.indexCast c1_i32_857
  let c0_i32_457 : BitVec 32 := 0#32
  let c1_i32_459 : BitVec 32 := 1#32
  let arg9 : BitVec 32 := Scf.iv c0_i32_457 c1_i32_459 k2_t12
  let v856 : Index := Scalar.indexCast arg9
  let c2_i32_858 : BitVec 32 := 2#32
  let v857 : Index := Scalar.indexCast c2_i32_858
  let c48_859 : Index := 48#32
  ![1, v856.toNat, 2, 48]
def k2_off766 (k2_t12 : Fin k2_t12_loop.trips) : Fin 3 → Nat :=
  let c1_i32_860 : BitVec 32 := 1#32
  let v861 : Index := Scalar.indexCast c1_i32_860
  let c0_i32_457 : BitVec 32 := 0#32
  let c1_i32_459 : BitVec 32 := 1#32
  let arg9 : BitVec 32 := Scf.iv c0_i32_457 c1_i32_459 k2_t12
  let v862 : Index := Scalar.indexCast arg9
  let c320 : Index := 320#32
  ![1, v862.toNat, 320]
def k2_off767 (k2_t12 : Fin k2_t12_loop.trips) : Fin 4 → Nat :=
  let c1_i32_861 : BitVec 32 := 1#32
  let v865 : Index := Scalar.indexCast c1_i32_861
  let c0_i32_457 : BitVec 32 := 0#32
  let c1_i32_459 : BitVec 32 := 1#32
  let arg9 : BitVec 32 := Scf.iv c0_i32_457 c1_i32_459 k2_t12
  let v866 : Index := Scalar.indexCast arg9
  let c2_i32_862 : BitVec 32 := 2#32
  let v867 : Index := Scalar.indexCast c2_i32_862
  let c64_863 : Index := 64#32
  ![1, v866.toNat, 2, 64]
def k2_off768 (k2_t12 : Fin k2_t12_loop.trips) : Fin 3 → Nat :=
  let c1_i32_864 : BitVec 32 := 1#32
  let v871 : Index := Scalar.indexCast c1_i32_864
  let c0_i32_457 : BitVec 32 := 0#32
  let c1_i32_459 : BitVec 32 := 1#32
  let arg9 : BitVec 32 := Scf.iv c0_i32_457 c1_i32_459 k2_t12
  let v872 : Index := Scalar.indexCast arg9
  let c336 : Index := 336#32
  ![1, v872.toNat, 336]
def k2_off769 (k2_t12 : Fin k2_t12_loop.trips) : Fin 4 → Nat :=
  let c1_i32_865 : BitVec 32 := 1#32
  let v875 : Index := Scalar.indexCast c1_i32_865
  let c0_i32_457 : BitVec 32 := 0#32
  let c1_i32_459 : BitVec 32 := 1#32
  let arg9 : BitVec 32 := Scf.iv c0_i32_457 c1_i32_459 k2_t12
  let v876 : Index := Scalar.indexCast arg9
  let c2_i32_866 : BitVec 32 := 2#32
  let v877 : Index := Scalar.indexCast c2_i32_866
  let c80_867 : Index := 80#32
  ![1, v876.toNat, 2, 80]
def k2_off770 (k2_t12 : Fin k2_t12_loop.trips) : Fin 3 → Nat :=
  let c1_i32_868 : BitVec 32 := 1#32
  let v881 : Index := Scalar.indexCast c1_i32_868
  let c0_i32_457 : BitVec 32 := 0#32
  let c1_i32_459 : BitVec 32 := 1#32
  let arg9 : BitVec 32 := Scf.iv c0_i32_457 c1_i32_459 k2_t12
  let v882 : Index := Scalar.indexCast arg9
  let c352 : Index := 352#32
  ![1, v882.toNat, 352]
def k2_off771 (k2_t12 : Fin k2_t12_loop.trips) : Fin 4 → Nat :=
  let c1_i32_869 : BitVec 32 := 1#32
  let v885 : Index := Scalar.indexCast c1_i32_869
  let c0_i32_457 : BitVec 32 := 0#32
  let c1_i32_459 : BitVec 32 := 1#32
  let arg9 : BitVec 32 := Scf.iv c0_i32_457 c1_i32_459 k2_t12
  let v886 : Index := Scalar.indexCast arg9
  let c2_i32_870 : BitVec 32 := 2#32
  let v887 : Index := Scalar.indexCast c2_i32_870
  let c96_871 : Index := 96#32
  ![1, v886.toNat, 2, 96]
def k2_off772 (k2_t12 : Fin k2_t12_loop.trips) : Fin 3 → Nat :=
  let c1_i32_872 : BitVec 32 := 1#32
  let v891 : Index := Scalar.indexCast c1_i32_872
  let c0_i32_457 : BitVec 32 := 0#32
  let c1_i32_459 : BitVec 32 := 1#32
  let arg9 : BitVec 32 := Scf.iv c0_i32_457 c1_i32_459 k2_t12
  let v892 : Index := Scalar.indexCast arg9
  let c368 : Index := 368#32
  ![1, v892.toNat, 368]
def k2_off773 (k2_t12 : Fin k2_t12_loop.trips) : Fin 4 → Nat :=
  let c1_i32_873 : BitVec 32 := 1#32
  let v895 : Index := Scalar.indexCast c1_i32_873
  let c0_i32_457 : BitVec 32 := 0#32
  let c1_i32_459 : BitVec 32 := 1#32
  let arg9 : BitVec 32 := Scf.iv c0_i32_457 c1_i32_459 k2_t12
  let v896 : Index := Scalar.indexCast arg9
  let c2_i32_874 : BitVec 32 := 2#32
  let v897 : Index := Scalar.indexCast c2_i32_874
  let c112_875 : Index := 112#32
  ![1, v896.toNat, 2, 112]
def k2_off774 (k2_t12 : Fin k2_t12_loop.trips) : Fin 3 → Nat :=
  let c1_i32_876 : BitVec 32 := 1#32
  let v901 : Index := Scalar.indexCast c1_i32_876
  let c0_i32_457 : BitVec 32 := 0#32
  let c1_i32_459 : BitVec 32 := 1#32
  let arg9 : BitVec 32 := Scf.iv c0_i32_457 c1_i32_459 k2_t12
  let v902 : Index := Scalar.indexCast arg9
  let c384 : Index := 384#32
  ![1, v902.toNat, 384]
def k2_off775 (k2_t12 : Fin k2_t12_loop.trips) : Fin 4 → Nat :=
  let c1_i32_877 : BitVec 32 := 1#32
  let v905 : Index := Scalar.indexCast c1_i32_877
  let c0_i32_457 : BitVec 32 := 0#32
  let c1_i32_459 : BitVec 32 := 1#32
  let arg9 : BitVec 32 := Scf.iv c0_i32_457 c1_i32_459 k2_t12
  let v906 : Index := Scalar.indexCast arg9
  let c3_i32_878 : BitVec 32 := 3#32
  let v907 : Index := Scalar.indexCast c3_i32_878
  let c0_879 : Index := 0#32
  ![1, v906.toNat, 3, 0]
def k2_off776 (k2_t12 : Fin k2_t12_loop.trips) : Fin 3 → Nat :=
  let c1_i32_880 : BitVec 32 := 1#32
  let v911 : Index := Scalar.indexCast c1_i32_880
  let c0_i32_457 : BitVec 32 := 0#32
  let c1_i32_459 : BitVec 32 := 1#32
  let arg9 : BitVec 32 := Scf.iv c0_i32_457 c1_i32_459 k2_t12
  let v912 : Index := Scalar.indexCast arg9
  let c400 : Index := 400#32
  ![1, v912.toNat, 400]
def k2_off777 (k2_t12 : Fin k2_t12_loop.trips) : Fin 4 → Nat :=
  let c1_i32_881 : BitVec 32 := 1#32
  let v915 : Index := Scalar.indexCast c1_i32_881
  let c0_i32_457 : BitVec 32 := 0#32
  let c1_i32_459 : BitVec 32 := 1#32
  let arg9 : BitVec 32 := Scf.iv c0_i32_457 c1_i32_459 k2_t12
  let v916 : Index := Scalar.indexCast arg9
  let c3_i32_882 : BitVec 32 := 3#32
  let v917 : Index := Scalar.indexCast c3_i32_882
  let c16_883 : Index := 16#32
  ![1, v916.toNat, 3, 16]
def k2_off778 (k2_t12 : Fin k2_t12_loop.trips) : Fin 3 → Nat :=
  let c1_i32_884 : BitVec 32 := 1#32
  let v921 : Index := Scalar.indexCast c1_i32_884
  let c0_i32_457 : BitVec 32 := 0#32
  let c1_i32_459 : BitVec 32 := 1#32
  let arg9 : BitVec 32 := Scf.iv c0_i32_457 c1_i32_459 k2_t12
  let v922 : Index := Scalar.indexCast arg9
  let c416 : Index := 416#32
  ![1, v922.toNat, 416]
def k2_off779 (k2_t12 : Fin k2_t12_loop.trips) : Fin 4 → Nat :=
  let c1_i32_885 : BitVec 32 := 1#32
  let v925 : Index := Scalar.indexCast c1_i32_885
  let c0_i32_457 : BitVec 32 := 0#32
  let c1_i32_459 : BitVec 32 := 1#32
  let arg9 : BitVec 32 := Scf.iv c0_i32_457 c1_i32_459 k2_t12
  let v926 : Index := Scalar.indexCast arg9
  let c3_i32_886 : BitVec 32 := 3#32
  let v927 : Index := Scalar.indexCast c3_i32_886
  let c32_887 : Index := 32#32
  ![1, v926.toNat, 3, 32]
def k2_off780 (k2_t12 : Fin k2_t12_loop.trips) : Fin 3 → Nat :=
  let c1_i32_888 : BitVec 32 := 1#32
  let v931 : Index := Scalar.indexCast c1_i32_888
  let c0_i32_457 : BitVec 32 := 0#32
  let c1_i32_459 : BitVec 32 := 1#32
  let arg9 : BitVec 32 := Scf.iv c0_i32_457 c1_i32_459 k2_t12
  let v932 : Index := Scalar.indexCast arg9
  let c432 : Index := 432#32
  ![1, v932.toNat, 432]
def k2_off781 (k2_t12 : Fin k2_t12_loop.trips) : Fin 4 → Nat :=
  let c1_i32_889 : BitVec 32 := 1#32
  let v935 : Index := Scalar.indexCast c1_i32_889
  let c0_i32_457 : BitVec 32 := 0#32
  let c1_i32_459 : BitVec 32 := 1#32
  let arg9 : BitVec 32 := Scf.iv c0_i32_457 c1_i32_459 k2_t12
  let v936 : Index := Scalar.indexCast arg9
  let c3_i32_890 : BitVec 32 := 3#32
  let v937 : Index := Scalar.indexCast c3_i32_890
  let c48_891 : Index := 48#32
  ![1, v936.toNat, 3, 48]
def k2_off782 (k2_t12 : Fin k2_t12_loop.trips) : Fin 3 → Nat :=
  let c1_i32_892 : BitVec 32 := 1#32
  let v941 : Index := Scalar.indexCast c1_i32_892
  let c0_i32_457 : BitVec 32 := 0#32
  let c1_i32_459 : BitVec 32 := 1#32
  let arg9 : BitVec 32 := Scf.iv c0_i32_457 c1_i32_459 k2_t12
  let v942 : Index := Scalar.indexCast arg9
  let c448 : Index := 448#32
  ![1, v942.toNat, 448]
def k2_off783 (k2_t12 : Fin k2_t12_loop.trips) : Fin 4 → Nat :=
  let c1_i32_893 : BitVec 32 := 1#32
  let v945 : Index := Scalar.indexCast c1_i32_893
  let c0_i32_457 : BitVec 32 := 0#32
  let c1_i32_459 : BitVec 32 := 1#32
  let arg9 : BitVec 32 := Scf.iv c0_i32_457 c1_i32_459 k2_t12
  let v946 : Index := Scalar.indexCast arg9
  let c3_i32_894 : BitVec 32 := 3#32
  let v947 : Index := Scalar.indexCast c3_i32_894
  let c64_895 : Index := 64#32
  ![1, v946.toNat, 3, 64]
def k2_off784 (k2_t12 : Fin k2_t12_loop.trips) : Fin 3 → Nat :=
  let c1_i32_896 : BitVec 32 := 1#32
  let v951 : Index := Scalar.indexCast c1_i32_896
  let c0_i32_457 : BitVec 32 := 0#32
  let c1_i32_459 : BitVec 32 := 1#32
  let arg9 : BitVec 32 := Scf.iv c0_i32_457 c1_i32_459 k2_t12
  let v952 : Index := Scalar.indexCast arg9
  let c464 : Index := 464#32
  ![1, v952.toNat, 464]
def k2_off785 (k2_t12 : Fin k2_t12_loop.trips) : Fin 4 → Nat :=
  let c1_i32_897 : BitVec 32 := 1#32
  let v955 : Index := Scalar.indexCast c1_i32_897
  let c0_i32_457 : BitVec 32 := 0#32
  let c1_i32_459 : BitVec 32 := 1#32
  let arg9 : BitVec 32 := Scf.iv c0_i32_457 c1_i32_459 k2_t12
  let v956 : Index := Scalar.indexCast arg9
  let c3_i32_898 : BitVec 32 := 3#32
  let v957 : Index := Scalar.indexCast c3_i32_898
  let c80_899 : Index := 80#32
  ![1, v956.toNat, 3, 80]
def k2_off786 (k2_t12 : Fin k2_t12_loop.trips) : Fin 3 → Nat :=
  let c1_i32_900 : BitVec 32 := 1#32
  let v961 : Index := Scalar.indexCast c1_i32_900
  let c0_i32_457 : BitVec 32 := 0#32
  let c1_i32_459 : BitVec 32 := 1#32
  let arg9 : BitVec 32 := Scf.iv c0_i32_457 c1_i32_459 k2_t12
  let v962 : Index := Scalar.indexCast arg9
  let c480 : Index := 480#32
  ![1, v962.toNat, 480]
def k2_off787 (k2_t12 : Fin k2_t12_loop.trips) : Fin 4 → Nat :=
  let c1_i32_901 : BitVec 32 := 1#32
  let v965 : Index := Scalar.indexCast c1_i32_901
  let c0_i32_457 : BitVec 32 := 0#32
  let c1_i32_459 : BitVec 32 := 1#32
  let arg9 : BitVec 32 := Scf.iv c0_i32_457 c1_i32_459 k2_t12
  let v966 : Index := Scalar.indexCast arg9
  let c3_i32_902 : BitVec 32 := 3#32
  let v967 : Index := Scalar.indexCast c3_i32_902
  let c96_903 : Index := 96#32
  ![1, v966.toNat, 3, 96]
def k2_off788 (k2_t12 : Fin k2_t12_loop.trips) : Fin 3 → Nat :=
  let c1_i32_904 : BitVec 32 := 1#32
  let v971 : Index := Scalar.indexCast c1_i32_904
  let c0_i32_457 : BitVec 32 := 0#32
  let c1_i32_459 : BitVec 32 := 1#32
  let arg9 : BitVec 32 := Scf.iv c0_i32_457 c1_i32_459 k2_t12
  let v972 : Index := Scalar.indexCast arg9
  let c496 : Index := 496#32
  ![1, v972.toNat, 496]
def k2_off789 (k2_t12 : Fin k2_t12_loop.trips) : Fin 4 → Nat :=
  let c1_i32_905 : BitVec 32 := 1#32
  let v975 : Index := Scalar.indexCast c1_i32_905
  let c0_i32_457 : BitVec 32 := 0#32
  let c1_i32_459 : BitVec 32 := 1#32
  let arg9 : BitVec 32 := Scf.iv c0_i32_457 c1_i32_459 k2_t12
  let v976 : Index := Scalar.indexCast arg9
  let c3_i32_906 : BitVec 32 := 3#32
  let v977 : Index := Scalar.indexCast c3_i32_906
  let c112_907 : Index := 112#32
  ![1, v976.toNat, 3, 112]
def k2_off790 (i : grid2.Coords) : Fin 4 → Nat :=
  let c9_i32_462 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_467 : BitVec 32 := 0#32
  let c0_i32_468 : BitVec 32 := 0#32
  ![9, v2.toNat, 0, 0]
def k2_off791 (i : grid2.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_487 : BitVec 32 := 0#32
  ![11, v2.toNat, 0]
@[reducible] def k2_t13_loop : Scf.Loop 32 :=
  let c0_i32_505 : BitVec 32 := 0#32
  let c32_i32_506 : BitVec 32 := 32#32
  let v435 : BitVec 32 := Scalar.addi c0_i32_505 c32_i32_506
  let c1_i32_507 : BitVec 32 := 1#32
  ⟨c0_i32_505, v435, c1_i32_507⟩
def k2_off792 (k2_t13 : Fin k2_t13_loop.trips) : Fin 3 → Nat :=
  let c0_i32_780 : BitVec 32 := 0#32
  let v661 : Index := Scalar.indexCast c0_i32_780
  let c0_i32_505 : BitVec 32 := 0#32
  let c1_i32_507 : BitVec 32 := 1#32
  let arg9 : BitVec 32 := Scf.iv c0_i32_505 c1_i32_507 k2_t13
  let v662 : Index := Scalar.indexCast arg9
  let c0 : Index := 0#32
  ![0, v662.toNat, 0]
def k2_off793 (k2_t13 : Fin k2_t13_loop.trips) : Fin 4 → Nat :=
  let c0_i32_781 : BitVec 32 := 0#32
  let v665 : Index := Scalar.indexCast c0_i32_781
  let c0_i32_505 : BitVec 32 := 0#32
  let c1_i32_507 : BitVec 32 := 1#32
  let arg9 : BitVec 32 := Scf.iv c0_i32_505 c1_i32_507 k2_t13
  let v666 : Index := Scalar.indexCast arg9
  let c0_i32_782 : BitVec 32 := 0#32
  let v667 : Index := Scalar.indexCast c0_i32_782
  let c0_783 : Index := 0#32
  ![0, v666.toNat, 0, 0]
def k2_off794 (k2_t13 : Fin k2_t13_loop.trips) : Fin 3 → Nat :=
  let c0_i32_784 : BitVec 32 := 0#32
  let v671 : Index := Scalar.indexCast c0_i32_784
  let c0_i32_505 : BitVec 32 := 0#32
  let c1_i32_507 : BitVec 32 := 1#32
  let arg9 : BitVec 32 := Scf.iv c0_i32_505 c1_i32_507 k2_t13
  let v672 : Index := Scalar.indexCast arg9
  let c16 : Index := 16#32
  ![0, v672.toNat, 16]
def k2_off795 (k2_t13 : Fin k2_t13_loop.trips) : Fin 4 → Nat :=
  let c0_i32_785 : BitVec 32 := 0#32
  let v675 : Index := Scalar.indexCast c0_i32_785
  let c0_i32_505 : BitVec 32 := 0#32
  let c1_i32_507 : BitVec 32 := 1#32
  let arg9 : BitVec 32 := Scf.iv c0_i32_505 c1_i32_507 k2_t13
  let v676 : Index := Scalar.indexCast arg9
  let c0_i32_786 : BitVec 32 := 0#32
  let v677 : Index := Scalar.indexCast c0_i32_786
  let c16_787 : Index := 16#32
  ![0, v676.toNat, 0, 16]
def k2_off796 (k2_t13 : Fin k2_t13_loop.trips) : Fin 3 → Nat :=
  let c0_i32_788 : BitVec 32 := 0#32
  let v681 : Index := Scalar.indexCast c0_i32_788
  let c0_i32_505 : BitVec 32 := 0#32
  let c1_i32_507 : BitVec 32 := 1#32
  let arg9 : BitVec 32 := Scf.iv c0_i32_505 c1_i32_507 k2_t13
  let v682 : Index := Scalar.indexCast arg9
  let c32 : Index := 32#32
  ![0, v682.toNat, 32]
def k2_off797 (k2_t13 : Fin k2_t13_loop.trips) : Fin 4 → Nat :=
  let c0_i32_789 : BitVec 32 := 0#32
  let v685 : Index := Scalar.indexCast c0_i32_789
  let c0_i32_505 : BitVec 32 := 0#32
  let c1_i32_507 : BitVec 32 := 1#32
  let arg9 : BitVec 32 := Scf.iv c0_i32_505 c1_i32_507 k2_t13
  let v686 : Index := Scalar.indexCast arg9
  let c0_i32_790 : BitVec 32 := 0#32
  let v687 : Index := Scalar.indexCast c0_i32_790
  let c32_791 : Index := 32#32
  ![0, v686.toNat, 0, 32]
def k2_off798 (k2_t13 : Fin k2_t13_loop.trips) : Fin 3 → Nat :=
  let c0_i32_792 : BitVec 32 := 0#32
  let v691 : Index := Scalar.indexCast c0_i32_792
  let c0_i32_505 : BitVec 32 := 0#32
  let c1_i32_507 : BitVec 32 := 1#32
  let arg9 : BitVec 32 := Scf.iv c0_i32_505 c1_i32_507 k2_t13
  let v692 : Index := Scalar.indexCast arg9
  let c48 : Index := 48#32
  ![0, v692.toNat, 48]
def k2_off799 (k2_t13 : Fin k2_t13_loop.trips) : Fin 4 → Nat :=
  let c0_i32_793 : BitVec 32 := 0#32
  let v695 : Index := Scalar.indexCast c0_i32_793
  let c0_i32_505 : BitVec 32 := 0#32
  let c1_i32_507 : BitVec 32 := 1#32
  let arg9 : BitVec 32 := Scf.iv c0_i32_505 c1_i32_507 k2_t13
  let v696 : Index := Scalar.indexCast arg9
  let c0_i32_794 : BitVec 32 := 0#32
  let v697 : Index := Scalar.indexCast c0_i32_794
  let c48_795 : Index := 48#32
  ![0, v696.toNat, 0, 48]
def k2_off800 (k2_t13 : Fin k2_t13_loop.trips) : Fin 3 → Nat :=
  let c0_i32_796 : BitVec 32 := 0#32
  let v701 : Index := Scalar.indexCast c0_i32_796
  let c0_i32_505 : BitVec 32 := 0#32
  let c1_i32_507 : BitVec 32 := 1#32
  let arg9 : BitVec 32 := Scf.iv c0_i32_505 c1_i32_507 k2_t13
  let v702 : Index := Scalar.indexCast arg9
  let c64 : Index := 64#32
  ![0, v702.toNat, 64]
def k2_off801 (k2_t13 : Fin k2_t13_loop.trips) : Fin 4 → Nat :=
  let c0_i32_797 : BitVec 32 := 0#32
  let v705 : Index := Scalar.indexCast c0_i32_797
  let c0_i32_505 : BitVec 32 := 0#32
  let c1_i32_507 : BitVec 32 := 1#32
  let arg9 : BitVec 32 := Scf.iv c0_i32_505 c1_i32_507 k2_t13
  let v706 : Index := Scalar.indexCast arg9
  let c0_i32_798 : BitVec 32 := 0#32
  let v707 : Index := Scalar.indexCast c0_i32_798
  let c64_799 : Index := 64#32
  ![0, v706.toNat, 0, 64]
def k2_off802 (k2_t13 : Fin k2_t13_loop.trips) : Fin 3 → Nat :=
  let c0_i32_800 : BitVec 32 := 0#32
  let v711 : Index := Scalar.indexCast c0_i32_800
  let c0_i32_505 : BitVec 32 := 0#32
  let c1_i32_507 : BitVec 32 := 1#32
  let arg9 : BitVec 32 := Scf.iv c0_i32_505 c1_i32_507 k2_t13
  let v712 : Index := Scalar.indexCast arg9
  let c80 : Index := 80#32
  ![0, v712.toNat, 80]
def k2_off803 (k2_t13 : Fin k2_t13_loop.trips) : Fin 4 → Nat :=
  let c0_i32_801 : BitVec 32 := 0#32
  let v715 : Index := Scalar.indexCast c0_i32_801
  let c0_i32_505 : BitVec 32 := 0#32
  let c1_i32_507 : BitVec 32 := 1#32
  let arg9 : BitVec 32 := Scf.iv c0_i32_505 c1_i32_507 k2_t13
  let v716 : Index := Scalar.indexCast arg9
  let c0_i32_802 : BitVec 32 := 0#32
  let v717 : Index := Scalar.indexCast c0_i32_802
  let c80_803 : Index := 80#32
  ![0, v716.toNat, 0, 80]
def k2_off804 (k2_t13 : Fin k2_t13_loop.trips) : Fin 3 → Nat :=
  let c0_i32_804 : BitVec 32 := 0#32
  let v721 : Index := Scalar.indexCast c0_i32_804
  let c0_i32_505 : BitVec 32 := 0#32
  let c1_i32_507 : BitVec 32 := 1#32
  let arg9 : BitVec 32 := Scf.iv c0_i32_505 c1_i32_507 k2_t13
  let v722 : Index := Scalar.indexCast arg9
  let c96 : Index := 96#32
  ![0, v722.toNat, 96]
def k2_off805 (k2_t13 : Fin k2_t13_loop.trips) : Fin 4 → Nat :=
  let c0_i32_805 : BitVec 32 := 0#32
  let v725 : Index := Scalar.indexCast c0_i32_805
  let c0_i32_505 : BitVec 32 := 0#32
  let c1_i32_507 : BitVec 32 := 1#32
  let arg9 : BitVec 32 := Scf.iv c0_i32_505 c1_i32_507 k2_t13
  let v726 : Index := Scalar.indexCast arg9
  let c0_i32_806 : BitVec 32 := 0#32
  let v727 : Index := Scalar.indexCast c0_i32_806
  let c96_807 : Index := 96#32
  ![0, v726.toNat, 0, 96]
def k2_off806 (k2_t13 : Fin k2_t13_loop.trips) : Fin 3 → Nat :=
  let c0_i32_808 : BitVec 32 := 0#32
  let v731 : Index := Scalar.indexCast c0_i32_808
  let c0_i32_505 : BitVec 32 := 0#32
  let c1_i32_507 : BitVec 32 := 1#32
  let arg9 : BitVec 32 := Scf.iv c0_i32_505 c1_i32_507 k2_t13
  let v732 : Index := Scalar.indexCast arg9
  let c112 : Index := 112#32
  ![0, v732.toNat, 112]
def k2_off807 (k2_t13 : Fin k2_t13_loop.trips) : Fin 4 → Nat :=
  let c0_i32_809 : BitVec 32 := 0#32
  let v735 : Index := Scalar.indexCast c0_i32_809
  let c0_i32_505 : BitVec 32 := 0#32
  let c1_i32_507 : BitVec 32 := 1#32
  let arg9 : BitVec 32 := Scf.iv c0_i32_505 c1_i32_507 k2_t13
  let v736 : Index := Scalar.indexCast arg9
  let c0_i32_810 : BitVec 32 := 0#32
  let v737 : Index := Scalar.indexCast c0_i32_810
  let c112_811 : Index := 112#32
  ![0, v736.toNat, 0, 112]
def k2_off808 (k2_t13 : Fin k2_t13_loop.trips) : Fin 3 → Nat :=
  let c0_i32_812 : BitVec 32 := 0#32
  let v741 : Index := Scalar.indexCast c0_i32_812
  let c0_i32_505 : BitVec 32 := 0#32
  let c1_i32_507 : BitVec 32 := 1#32
  let arg9 : BitVec 32 := Scf.iv c0_i32_505 c1_i32_507 k2_t13
  let v742 : Index := Scalar.indexCast arg9
  let c128 : Index := 128#32
  ![0, v742.toNat, 128]
def k2_off809 (k2_t13 : Fin k2_t13_loop.trips) : Fin 4 → Nat :=
  let c0_i32_813 : BitVec 32 := 0#32
  let v745 : Index := Scalar.indexCast c0_i32_813
  let c0_i32_505 : BitVec 32 := 0#32
  let c1_i32_507 : BitVec 32 := 1#32
  let arg9 : BitVec 32 := Scf.iv c0_i32_505 c1_i32_507 k2_t13
  let v746 : Index := Scalar.indexCast arg9
  let c1_i32_814 : BitVec 32 := 1#32
  let v747 : Index := Scalar.indexCast c1_i32_814
  let c0_815 : Index := 0#32
  ![0, v746.toNat, 1, 0]
def k2_off810 (k2_t13 : Fin k2_t13_loop.trips) : Fin 3 → Nat :=
  let c0_i32_816 : BitVec 32 := 0#32
  let v751 : Index := Scalar.indexCast c0_i32_816
  let c0_i32_505 : BitVec 32 := 0#32
  let c1_i32_507 : BitVec 32 := 1#32
  let arg9 : BitVec 32 := Scf.iv c0_i32_505 c1_i32_507 k2_t13
  let v752 : Index := Scalar.indexCast arg9
  let c144 : Index := 144#32
  ![0, v752.toNat, 144]
def k2_off811 (k2_t13 : Fin k2_t13_loop.trips) : Fin 4 → Nat :=
  let c0_i32_817 : BitVec 32 := 0#32
  let v755 : Index := Scalar.indexCast c0_i32_817
  let c0_i32_505 : BitVec 32 := 0#32
  let c1_i32_507 : BitVec 32 := 1#32
  let arg9 : BitVec 32 := Scf.iv c0_i32_505 c1_i32_507 k2_t13
  let v756 : Index := Scalar.indexCast arg9
  let c1_i32_818 : BitVec 32 := 1#32
  let v757 : Index := Scalar.indexCast c1_i32_818
  let c16_819 : Index := 16#32
  ![0, v756.toNat, 1, 16]
def k2_off812 (k2_t13 : Fin k2_t13_loop.trips) : Fin 3 → Nat :=
  let c0_i32_820 : BitVec 32 := 0#32
  let v761 : Index := Scalar.indexCast c0_i32_820
  let c0_i32_505 : BitVec 32 := 0#32
  let c1_i32_507 : BitVec 32 := 1#32
  let arg9 : BitVec 32 := Scf.iv c0_i32_505 c1_i32_507 k2_t13
  let v762 : Index := Scalar.indexCast arg9
  let c160 : Index := 160#32
  ![0, v762.toNat, 160]
def k2_off813 (k2_t13 : Fin k2_t13_loop.trips) : Fin 4 → Nat :=
  let c0_i32_821 : BitVec 32 := 0#32
  let v765 : Index := Scalar.indexCast c0_i32_821
  let c0_i32_505 : BitVec 32 := 0#32
  let c1_i32_507 : BitVec 32 := 1#32
  let arg9 : BitVec 32 := Scf.iv c0_i32_505 c1_i32_507 k2_t13
  let v766 : Index := Scalar.indexCast arg9
  let c1_i32_822 : BitVec 32 := 1#32
  let v767 : Index := Scalar.indexCast c1_i32_822
  let c32_823 : Index := 32#32
  ![0, v766.toNat, 1, 32]
def k2_off814 (k2_t13 : Fin k2_t13_loop.trips) : Fin 3 → Nat :=
  let c0_i32_824 : BitVec 32 := 0#32
  let v771 : Index := Scalar.indexCast c0_i32_824
  let c0_i32_505 : BitVec 32 := 0#32
  let c1_i32_507 : BitVec 32 := 1#32
  let arg9 : BitVec 32 := Scf.iv c0_i32_505 c1_i32_507 k2_t13
  let v772 : Index := Scalar.indexCast arg9
  let c176 : Index := 176#32
  ![0, v772.toNat, 176]
def k2_off815 (k2_t13 : Fin k2_t13_loop.trips) : Fin 4 → Nat :=
  let c0_i32_825 : BitVec 32 := 0#32
  let v775 : Index := Scalar.indexCast c0_i32_825
  let c0_i32_505 : BitVec 32 := 0#32
  let c1_i32_507 : BitVec 32 := 1#32
  let arg9 : BitVec 32 := Scf.iv c0_i32_505 c1_i32_507 k2_t13
  let v776 : Index := Scalar.indexCast arg9
  let c1_i32_826 : BitVec 32 := 1#32
  let v777 : Index := Scalar.indexCast c1_i32_826
  let c48_827 : Index := 48#32
  ![0, v776.toNat, 1, 48]
def k2_off816 (k2_t13 : Fin k2_t13_loop.trips) : Fin 3 → Nat :=
  let c0_i32_828 : BitVec 32 := 0#32
  let v781 : Index := Scalar.indexCast c0_i32_828
  let c0_i32_505 : BitVec 32 := 0#32
  let c1_i32_507 : BitVec 32 := 1#32
  let arg9 : BitVec 32 := Scf.iv c0_i32_505 c1_i32_507 k2_t13
  let v782 : Index := Scalar.indexCast arg9
  let c192 : Index := 192#32
  ![0, v782.toNat, 192]
def k2_off817 (k2_t13 : Fin k2_t13_loop.trips) : Fin 4 → Nat :=
  let c0_i32_829 : BitVec 32 := 0#32
  let v785 : Index := Scalar.indexCast c0_i32_829
  let c0_i32_505 : BitVec 32 := 0#32
  let c1_i32_507 : BitVec 32 := 1#32
  let arg9 : BitVec 32 := Scf.iv c0_i32_505 c1_i32_507 k2_t13
  let v786 : Index := Scalar.indexCast arg9
  let c1_i32_830 : BitVec 32 := 1#32
  let v787 : Index := Scalar.indexCast c1_i32_830
  let c64_831 : Index := 64#32
  ![0, v786.toNat, 1, 64]
def k2_off818 (k2_t13 : Fin k2_t13_loop.trips) : Fin 3 → Nat :=
  let c0_i32_832 : BitVec 32 := 0#32
  let v791 : Index := Scalar.indexCast c0_i32_832
  let c0_i32_505 : BitVec 32 := 0#32
  let c1_i32_507 : BitVec 32 := 1#32
  let arg9 : BitVec 32 := Scf.iv c0_i32_505 c1_i32_507 k2_t13
  let v792 : Index := Scalar.indexCast arg9
  let c208 : Index := 208#32
  ![0, v792.toNat, 208]
def k2_off819 (k2_t13 : Fin k2_t13_loop.trips) : Fin 4 → Nat :=
  let c0_i32_833 : BitVec 32 := 0#32
  let v795 : Index := Scalar.indexCast c0_i32_833
  let c0_i32_505 : BitVec 32 := 0#32
  let c1_i32_507 : BitVec 32 := 1#32
  let arg9 : BitVec 32 := Scf.iv c0_i32_505 c1_i32_507 k2_t13
  let v796 : Index := Scalar.indexCast arg9
  let c1_i32_834 : BitVec 32 := 1#32
  let v797 : Index := Scalar.indexCast c1_i32_834
  let c80_835 : Index := 80#32
  ![0, v796.toNat, 1, 80]
def k2_off820 (k2_t13 : Fin k2_t13_loop.trips) : Fin 3 → Nat :=
  let c0_i32_836 : BitVec 32 := 0#32
  let v801 : Index := Scalar.indexCast c0_i32_836
  let c0_i32_505 : BitVec 32 := 0#32
  let c1_i32_507 : BitVec 32 := 1#32
  let arg9 : BitVec 32 := Scf.iv c0_i32_505 c1_i32_507 k2_t13
  let v802 : Index := Scalar.indexCast arg9
  let c224 : Index := 224#32
  ![0, v802.toNat, 224]
def k2_off821 (k2_t13 : Fin k2_t13_loop.trips) : Fin 4 → Nat :=
  let c0_i32_837 : BitVec 32 := 0#32
  let v805 : Index := Scalar.indexCast c0_i32_837
  let c0_i32_505 : BitVec 32 := 0#32
  let c1_i32_507 : BitVec 32 := 1#32
  let arg9 : BitVec 32 := Scf.iv c0_i32_505 c1_i32_507 k2_t13
  let v806 : Index := Scalar.indexCast arg9
  let c1_i32_838 : BitVec 32 := 1#32
  let v807 : Index := Scalar.indexCast c1_i32_838
  let c96_839 : Index := 96#32
  ![0, v806.toNat, 1, 96]
def k2_off822 (k2_t13 : Fin k2_t13_loop.trips) : Fin 3 → Nat :=
  let c0_i32_840 : BitVec 32 := 0#32
  let v811 : Index := Scalar.indexCast c0_i32_840
  let c0_i32_505 : BitVec 32 := 0#32
  let c1_i32_507 : BitVec 32 := 1#32
  let arg9 : BitVec 32 := Scf.iv c0_i32_505 c1_i32_507 k2_t13
  let v812 : Index := Scalar.indexCast arg9
  let c240 : Index := 240#32
  ![0, v812.toNat, 240]
def k2_off823 (k2_t13 : Fin k2_t13_loop.trips) : Fin 4 → Nat :=
  let c0_i32_841 : BitVec 32 := 0#32
  let v815 : Index := Scalar.indexCast c0_i32_841
  let c0_i32_505 : BitVec 32 := 0#32
  let c1_i32_507 : BitVec 32 := 1#32
  let arg9 : BitVec 32 := Scf.iv c0_i32_505 c1_i32_507 k2_t13
  let v816 : Index := Scalar.indexCast arg9
  let c1_i32_842 : BitVec 32 := 1#32
  let v817 : Index := Scalar.indexCast c1_i32_842
  let c112_843 : Index := 112#32
  ![0, v816.toNat, 1, 112]
def k2_off824 (k2_t13 : Fin k2_t13_loop.trips) : Fin 3 → Nat :=
  let c0_i32_844 : BitVec 32 := 0#32
  let v821 : Index := Scalar.indexCast c0_i32_844
  let c0_i32_505 : BitVec 32 := 0#32
  let c1_i32_507 : BitVec 32 := 1#32
  let arg9 : BitVec 32 := Scf.iv c0_i32_505 c1_i32_507 k2_t13
  let v822 : Index := Scalar.indexCast arg9
  let c256 : Index := 256#32
  ![0, v822.toNat, 256]
def k2_off825 (k2_t13 : Fin k2_t13_loop.trips) : Fin 4 → Nat :=
  let c0_i32_845 : BitVec 32 := 0#32
  let v825 : Index := Scalar.indexCast c0_i32_845
  let c0_i32_505 : BitVec 32 := 0#32
  let c1_i32_507 : BitVec 32 := 1#32
  let arg9 : BitVec 32 := Scf.iv c0_i32_505 c1_i32_507 k2_t13
  let v826 : Index := Scalar.indexCast arg9
  let c2_i32_846 : BitVec 32 := 2#32
  let v827 : Index := Scalar.indexCast c2_i32_846
  let c0_847 : Index := 0#32
  ![0, v826.toNat, 2, 0]
def k2_off826 (k2_t13 : Fin k2_t13_loop.trips) : Fin 3 → Nat :=
  let c0_i32_848 : BitVec 32 := 0#32
  let v831 : Index := Scalar.indexCast c0_i32_848
  let c0_i32_505 : BitVec 32 := 0#32
  let c1_i32_507 : BitVec 32 := 1#32
  let arg9 : BitVec 32 := Scf.iv c0_i32_505 c1_i32_507 k2_t13
  let v832 : Index := Scalar.indexCast arg9
  let c272 : Index := 272#32
  ![0, v832.toNat, 272]
def k2_off827 (k2_t13 : Fin k2_t13_loop.trips) : Fin 4 → Nat :=
  let c0_i32_849 : BitVec 32 := 0#32
  let v835 : Index := Scalar.indexCast c0_i32_849
  let c0_i32_505 : BitVec 32 := 0#32
  let c1_i32_507 : BitVec 32 := 1#32
  let arg9 : BitVec 32 := Scf.iv c0_i32_505 c1_i32_507 k2_t13
  let v836 : Index := Scalar.indexCast arg9
  let c2_i32_850 : BitVec 32 := 2#32
  let v837 : Index := Scalar.indexCast c2_i32_850
  let c16_851 : Index := 16#32
  ![0, v836.toNat, 2, 16]
def k2_off828 (k2_t13 : Fin k2_t13_loop.trips) : Fin 3 → Nat :=
  let c0_i32_852 : BitVec 32 := 0#32
  let v841 : Index := Scalar.indexCast c0_i32_852
  let c0_i32_505 : BitVec 32 := 0#32
  let c1_i32_507 : BitVec 32 := 1#32
  let arg9 : BitVec 32 := Scf.iv c0_i32_505 c1_i32_507 k2_t13
  let v842 : Index := Scalar.indexCast arg9
  let c288 : Index := 288#32
  ![0, v842.toNat, 288]
def k2_off829 (k2_t13 : Fin k2_t13_loop.trips) : Fin 4 → Nat :=
  let c0_i32_853 : BitVec 32 := 0#32
  let v845 : Index := Scalar.indexCast c0_i32_853
  let c0_i32_505 : BitVec 32 := 0#32
  let c1_i32_507 : BitVec 32 := 1#32
  let arg9 : BitVec 32 := Scf.iv c0_i32_505 c1_i32_507 k2_t13
  let v846 : Index := Scalar.indexCast arg9
  let c2_i32_854 : BitVec 32 := 2#32
  let v847 : Index := Scalar.indexCast c2_i32_854
  let c32_855 : Index := 32#32
  ![0, v846.toNat, 2, 32]
def k2_off830 (k2_t13 : Fin k2_t13_loop.trips) : Fin 3 → Nat :=
  let c0_i32_856 : BitVec 32 := 0#32
  let v851 : Index := Scalar.indexCast c0_i32_856
  let c0_i32_505 : BitVec 32 := 0#32
  let c1_i32_507 : BitVec 32 := 1#32
  let arg9 : BitVec 32 := Scf.iv c0_i32_505 c1_i32_507 k2_t13
  let v852 : Index := Scalar.indexCast arg9
  let c304 : Index := 304#32
  ![0, v852.toNat, 304]
def k2_off831 (k2_t13 : Fin k2_t13_loop.trips) : Fin 4 → Nat :=
  let c0_i32_857 : BitVec 32 := 0#32
  let v855 : Index := Scalar.indexCast c0_i32_857
  let c0_i32_505 : BitVec 32 := 0#32
  let c1_i32_507 : BitVec 32 := 1#32
  let arg9 : BitVec 32 := Scf.iv c0_i32_505 c1_i32_507 k2_t13
  let v856 : Index := Scalar.indexCast arg9
  let c2_i32_858 : BitVec 32 := 2#32
  let v857 : Index := Scalar.indexCast c2_i32_858
  let c48_859 : Index := 48#32
  ![0, v856.toNat, 2, 48]
def k2_off832 (k2_t13 : Fin k2_t13_loop.trips) : Fin 3 → Nat :=
  let c0_i32_860 : BitVec 32 := 0#32
  let v861 : Index := Scalar.indexCast c0_i32_860
  let c0_i32_505 : BitVec 32 := 0#32
  let c1_i32_507 : BitVec 32 := 1#32
  let arg9 : BitVec 32 := Scf.iv c0_i32_505 c1_i32_507 k2_t13
  let v862 : Index := Scalar.indexCast arg9
  let c320 : Index := 320#32
  ![0, v862.toNat, 320]
def k2_off833 (k2_t13 : Fin k2_t13_loop.trips) : Fin 4 → Nat :=
  let c0_i32_861 : BitVec 32 := 0#32
  let v865 : Index := Scalar.indexCast c0_i32_861
  let c0_i32_505 : BitVec 32 := 0#32
  let c1_i32_507 : BitVec 32 := 1#32
  let arg9 : BitVec 32 := Scf.iv c0_i32_505 c1_i32_507 k2_t13
  let v866 : Index := Scalar.indexCast arg9
  let c2_i32_862 : BitVec 32 := 2#32
  let v867 : Index := Scalar.indexCast c2_i32_862
  let c64_863 : Index := 64#32
  ![0, v866.toNat, 2, 64]
def k2_off834 (k2_t13 : Fin k2_t13_loop.trips) : Fin 3 → Nat :=
  let c0_i32_864 : BitVec 32 := 0#32
  let v871 : Index := Scalar.indexCast c0_i32_864
  let c0_i32_505 : BitVec 32 := 0#32
  let c1_i32_507 : BitVec 32 := 1#32
  let arg9 : BitVec 32 := Scf.iv c0_i32_505 c1_i32_507 k2_t13
  let v872 : Index := Scalar.indexCast arg9
  let c336 : Index := 336#32
  ![0, v872.toNat, 336]
def k2_off835 (k2_t13 : Fin k2_t13_loop.trips) : Fin 4 → Nat :=
  let c0_i32_865 : BitVec 32 := 0#32
  let v875 : Index := Scalar.indexCast c0_i32_865
  let c0_i32_505 : BitVec 32 := 0#32
  let c1_i32_507 : BitVec 32 := 1#32
  let arg9 : BitVec 32 := Scf.iv c0_i32_505 c1_i32_507 k2_t13
  let v876 : Index := Scalar.indexCast arg9
  let c2_i32_866 : BitVec 32 := 2#32
  let v877 : Index := Scalar.indexCast c2_i32_866
  let c80_867 : Index := 80#32
  ![0, v876.toNat, 2, 80]
def k2_off836 (k2_t13 : Fin k2_t13_loop.trips) : Fin 3 → Nat :=
  let c0_i32_868 : BitVec 32 := 0#32
  let v881 : Index := Scalar.indexCast c0_i32_868
  let c0_i32_505 : BitVec 32 := 0#32
  let c1_i32_507 : BitVec 32 := 1#32
  let arg9 : BitVec 32 := Scf.iv c0_i32_505 c1_i32_507 k2_t13
  let v882 : Index := Scalar.indexCast arg9
  let c352 : Index := 352#32
  ![0, v882.toNat, 352]
def k2_off837 (k2_t13 : Fin k2_t13_loop.trips) : Fin 4 → Nat :=
  let c0_i32_869 : BitVec 32 := 0#32
  let v885 : Index := Scalar.indexCast c0_i32_869
  let c0_i32_505 : BitVec 32 := 0#32
  let c1_i32_507 : BitVec 32 := 1#32
  let arg9 : BitVec 32 := Scf.iv c0_i32_505 c1_i32_507 k2_t13
  let v886 : Index := Scalar.indexCast arg9
  let c2_i32_870 : BitVec 32 := 2#32
  let v887 : Index := Scalar.indexCast c2_i32_870
  let c96_871 : Index := 96#32
  ![0, v886.toNat, 2, 96]
def k2_off838 (k2_t13 : Fin k2_t13_loop.trips) : Fin 3 → Nat :=
  let c0_i32_872 : BitVec 32 := 0#32
  let v891 : Index := Scalar.indexCast c0_i32_872
  let c0_i32_505 : BitVec 32 := 0#32
  let c1_i32_507 : BitVec 32 := 1#32
  let arg9 : BitVec 32 := Scf.iv c0_i32_505 c1_i32_507 k2_t13
  let v892 : Index := Scalar.indexCast arg9
  let c368 : Index := 368#32
  ![0, v892.toNat, 368]
def k2_off839 (k2_t13 : Fin k2_t13_loop.trips) : Fin 4 → Nat :=
  let c0_i32_873 : BitVec 32 := 0#32
  let v895 : Index := Scalar.indexCast c0_i32_873
  let c0_i32_505 : BitVec 32 := 0#32
  let c1_i32_507 : BitVec 32 := 1#32
  let arg9 : BitVec 32 := Scf.iv c0_i32_505 c1_i32_507 k2_t13
  let v896 : Index := Scalar.indexCast arg9
  let c2_i32_874 : BitVec 32 := 2#32
  let v897 : Index := Scalar.indexCast c2_i32_874
  let c112_875 : Index := 112#32
  ![0, v896.toNat, 2, 112]
def k2_off840 (k2_t13 : Fin k2_t13_loop.trips) : Fin 3 → Nat :=
  let c0_i32_876 : BitVec 32 := 0#32
  let v901 : Index := Scalar.indexCast c0_i32_876
  let c0_i32_505 : BitVec 32 := 0#32
  let c1_i32_507 : BitVec 32 := 1#32
  let arg9 : BitVec 32 := Scf.iv c0_i32_505 c1_i32_507 k2_t13
  let v902 : Index := Scalar.indexCast arg9
  let c384 : Index := 384#32
  ![0, v902.toNat, 384]
def k2_off841 (k2_t13 : Fin k2_t13_loop.trips) : Fin 4 → Nat :=
  let c0_i32_877 : BitVec 32 := 0#32
  let v905 : Index := Scalar.indexCast c0_i32_877
  let c0_i32_505 : BitVec 32 := 0#32
  let c1_i32_507 : BitVec 32 := 1#32
  let arg9 : BitVec 32 := Scf.iv c0_i32_505 c1_i32_507 k2_t13
  let v906 : Index := Scalar.indexCast arg9
  let c3_i32_878 : BitVec 32 := 3#32
  let v907 : Index := Scalar.indexCast c3_i32_878
  let c0_879 : Index := 0#32
  ![0, v906.toNat, 3, 0]
def k2_off842 (k2_t13 : Fin k2_t13_loop.trips) : Fin 3 → Nat :=
  let c0_i32_880 : BitVec 32 := 0#32
  let v911 : Index := Scalar.indexCast c0_i32_880
  let c0_i32_505 : BitVec 32 := 0#32
  let c1_i32_507 : BitVec 32 := 1#32
  let arg9 : BitVec 32 := Scf.iv c0_i32_505 c1_i32_507 k2_t13
  let v912 : Index := Scalar.indexCast arg9
  let c400 : Index := 400#32
  ![0, v912.toNat, 400]
def k2_off843 (k2_t13 : Fin k2_t13_loop.trips) : Fin 4 → Nat :=
  let c0_i32_881 : BitVec 32 := 0#32
  let v915 : Index := Scalar.indexCast c0_i32_881
  let c0_i32_505 : BitVec 32 := 0#32
  let c1_i32_507 : BitVec 32 := 1#32
  let arg9 : BitVec 32 := Scf.iv c0_i32_505 c1_i32_507 k2_t13
  let v916 : Index := Scalar.indexCast arg9
  let c3_i32_882 : BitVec 32 := 3#32
  let v917 : Index := Scalar.indexCast c3_i32_882
  let c16_883 : Index := 16#32
  ![0, v916.toNat, 3, 16]
def k2_off844 (k2_t13 : Fin k2_t13_loop.trips) : Fin 3 → Nat :=
  let c0_i32_884 : BitVec 32 := 0#32
  let v921 : Index := Scalar.indexCast c0_i32_884
  let c0_i32_505 : BitVec 32 := 0#32
  let c1_i32_507 : BitVec 32 := 1#32
  let arg9 : BitVec 32 := Scf.iv c0_i32_505 c1_i32_507 k2_t13
  let v922 : Index := Scalar.indexCast arg9
  let c416 : Index := 416#32
  ![0, v922.toNat, 416]
def k2_off845 (k2_t13 : Fin k2_t13_loop.trips) : Fin 4 → Nat :=
  let c0_i32_885 : BitVec 32 := 0#32
  let v925 : Index := Scalar.indexCast c0_i32_885
  let c0_i32_505 : BitVec 32 := 0#32
  let c1_i32_507 : BitVec 32 := 1#32
  let arg9 : BitVec 32 := Scf.iv c0_i32_505 c1_i32_507 k2_t13
  let v926 : Index := Scalar.indexCast arg9
  let c3_i32_886 : BitVec 32 := 3#32
  let v927 : Index := Scalar.indexCast c3_i32_886
  let c32_887 : Index := 32#32
  ![0, v926.toNat, 3, 32]
def k2_off846 (k2_t13 : Fin k2_t13_loop.trips) : Fin 3 → Nat :=
  let c0_i32_888 : BitVec 32 := 0#32
  let v931 : Index := Scalar.indexCast c0_i32_888
  let c0_i32_505 : BitVec 32 := 0#32
  let c1_i32_507 : BitVec 32 := 1#32
  let arg9 : BitVec 32 := Scf.iv c0_i32_505 c1_i32_507 k2_t13
  let v932 : Index := Scalar.indexCast arg9
  let c432 : Index := 432#32
  ![0, v932.toNat, 432]
def k2_off847 (k2_t13 : Fin k2_t13_loop.trips) : Fin 4 → Nat :=
  let c0_i32_889 : BitVec 32 := 0#32
  let v935 : Index := Scalar.indexCast c0_i32_889
  let c0_i32_505 : BitVec 32 := 0#32
  let c1_i32_507 : BitVec 32 := 1#32
  let arg9 : BitVec 32 := Scf.iv c0_i32_505 c1_i32_507 k2_t13
  let v936 : Index := Scalar.indexCast arg9
  let c3_i32_890 : BitVec 32 := 3#32
  let v937 : Index := Scalar.indexCast c3_i32_890
  let c48_891 : Index := 48#32
  ![0, v936.toNat, 3, 48]
def k2_off848 (k2_t13 : Fin k2_t13_loop.trips) : Fin 3 → Nat :=
  let c0_i32_892 : BitVec 32 := 0#32
  let v941 : Index := Scalar.indexCast c0_i32_892
  let c0_i32_505 : BitVec 32 := 0#32
  let c1_i32_507 : BitVec 32 := 1#32
  let arg9 : BitVec 32 := Scf.iv c0_i32_505 c1_i32_507 k2_t13
  let v942 : Index := Scalar.indexCast arg9
  let c448 : Index := 448#32
  ![0, v942.toNat, 448]
def k2_off849 (k2_t13 : Fin k2_t13_loop.trips) : Fin 4 → Nat :=
  let c0_i32_893 : BitVec 32 := 0#32
  let v945 : Index := Scalar.indexCast c0_i32_893
  let c0_i32_505 : BitVec 32 := 0#32
  let c1_i32_507 : BitVec 32 := 1#32
  let arg9 : BitVec 32 := Scf.iv c0_i32_505 c1_i32_507 k2_t13
  let v946 : Index := Scalar.indexCast arg9
  let c3_i32_894 : BitVec 32 := 3#32
  let v947 : Index := Scalar.indexCast c3_i32_894
  let c64_895 : Index := 64#32
  ![0, v946.toNat, 3, 64]
def k2_off850 (k2_t13 : Fin k2_t13_loop.trips) : Fin 3 → Nat :=
  let c0_i32_896 : BitVec 32 := 0#32
  let v951 : Index := Scalar.indexCast c0_i32_896
  let c0_i32_505 : BitVec 32 := 0#32
  let c1_i32_507 : BitVec 32 := 1#32
  let arg9 : BitVec 32 := Scf.iv c0_i32_505 c1_i32_507 k2_t13
  let v952 : Index := Scalar.indexCast arg9
  let c464 : Index := 464#32
  ![0, v952.toNat, 464]
def k2_off851 (k2_t13 : Fin k2_t13_loop.trips) : Fin 4 → Nat :=
  let c0_i32_897 : BitVec 32 := 0#32
  let v955 : Index := Scalar.indexCast c0_i32_897
  let c0_i32_505 : BitVec 32 := 0#32
  let c1_i32_507 : BitVec 32 := 1#32
  let arg9 : BitVec 32 := Scf.iv c0_i32_505 c1_i32_507 k2_t13
  let v956 : Index := Scalar.indexCast arg9
  let c3_i32_898 : BitVec 32 := 3#32
  let v957 : Index := Scalar.indexCast c3_i32_898
  let c80_899 : Index := 80#32
  ![0, v956.toNat, 3, 80]
def k2_off852 (k2_t13 : Fin k2_t13_loop.trips) : Fin 3 → Nat :=
  let c0_i32_900 : BitVec 32 := 0#32
  let v961 : Index := Scalar.indexCast c0_i32_900
  let c0_i32_505 : BitVec 32 := 0#32
  let c1_i32_507 : BitVec 32 := 1#32
  let arg9 : BitVec 32 := Scf.iv c0_i32_505 c1_i32_507 k2_t13
  let v962 : Index := Scalar.indexCast arg9
  let c480 : Index := 480#32
  ![0, v962.toNat, 480]
def k2_off853 (k2_t13 : Fin k2_t13_loop.trips) : Fin 4 → Nat :=
  let c0_i32_901 : BitVec 32 := 0#32
  let v965 : Index := Scalar.indexCast c0_i32_901
  let c0_i32_505 : BitVec 32 := 0#32
  let c1_i32_507 : BitVec 32 := 1#32
  let arg9 : BitVec 32 := Scf.iv c0_i32_505 c1_i32_507 k2_t13
  let v966 : Index := Scalar.indexCast arg9
  let c3_i32_902 : BitVec 32 := 3#32
  let v967 : Index := Scalar.indexCast c3_i32_902
  let c96_903 : Index := 96#32
  ![0, v966.toNat, 3, 96]
def k2_off854 (k2_t13 : Fin k2_t13_loop.trips) : Fin 3 → Nat :=
  let c0_i32_904 : BitVec 32 := 0#32
  let v971 : Index := Scalar.indexCast c0_i32_904
  let c0_i32_505 : BitVec 32 := 0#32
  let c1_i32_507 : BitVec 32 := 1#32
  let arg9 : BitVec 32 := Scf.iv c0_i32_505 c1_i32_507 k2_t13
  let v972 : Index := Scalar.indexCast arg9
  let c496 : Index := 496#32
  ![0, v972.toNat, 496]
def k2_off855 (k2_t13 : Fin k2_t13_loop.trips) : Fin 4 → Nat :=
  let c0_i32_905 : BitVec 32 := 0#32
  let v975 : Index := Scalar.indexCast c0_i32_905
  let c0_i32_505 : BitVec 32 := 0#32
  let c1_i32_507 : BitVec 32 := 1#32
  let arg9 : BitVec 32 := Scf.iv c0_i32_505 c1_i32_507 k2_t13
  let v976 : Index := Scalar.indexCast arg9
  let c3_i32_906 : BitVec 32 := 3#32
  let v977 : Index := Scalar.indexCast c3_i32_906
  let c112_907 : Index := 112#32
  ![0, v976.toNat, 3, 112]
def k2_off856 (i : grid2.Coords) : Fin 4 → Nat :=
  let c10_i32_510 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_515 : BitVec 32 := 0#32
  let c0_i32_516 : BitVec 32 := 0#32
  ![10, v2.toNat, 0, 0]
def k2_off857 (i : grid2.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_535 : BitVec 32 := 0#32
  ![12, v2.toNat, 0]
@[reducible] def k2_t14_loop : Scf.Loop 32 :=
  let c0_i32_553 : BitVec 32 := 0#32
  let c32_i32_554 : BitVec 32 := 32#32
  let v476 : BitVec 32 := Scalar.addi c0_i32_553 c32_i32_554
  let c1_i32_555 : BitVec 32 := 1#32
  ⟨c0_i32_553, v476, c1_i32_555⟩
def k2_off858 (k2_t14 : Fin k2_t14_loop.trips) : Fin 3 → Nat :=
  let c1_i32_780 : BitVec 32 := 1#32
  let v661 : Index := Scalar.indexCast c1_i32_780
  let c0_i32_553 : BitVec 32 := 0#32
  let c1_i32_555 : BitVec 32 := 1#32
  let arg9 : BitVec 32 := Scf.iv c0_i32_553 c1_i32_555 k2_t14
  let v662 : Index := Scalar.indexCast arg9
  let c0 : Index := 0#32
  ![1, v662.toNat, 0]
def k2_off859 (k2_t14 : Fin k2_t14_loop.trips) : Fin 4 → Nat :=
  let c1_i32_781 : BitVec 32 := 1#32
  let v665 : Index := Scalar.indexCast c1_i32_781
  let c0_i32_553 : BitVec 32 := 0#32
  let c1_i32_555 : BitVec 32 := 1#32
  let arg9 : BitVec 32 := Scf.iv c0_i32_553 c1_i32_555 k2_t14
  let v666 : Index := Scalar.indexCast arg9
  let c0_i32_782 : BitVec 32 := 0#32
  let v667 : Index := Scalar.indexCast c0_i32_782
  let c0_783 : Index := 0#32
  ![1, v666.toNat, 0, 0]
def k2_off860 (k2_t14 : Fin k2_t14_loop.trips) : Fin 3 → Nat :=
  let c1_i32_784 : BitVec 32 := 1#32
  let v671 : Index := Scalar.indexCast c1_i32_784
  let c0_i32_553 : BitVec 32 := 0#32
  let c1_i32_555 : BitVec 32 := 1#32
  let arg9 : BitVec 32 := Scf.iv c0_i32_553 c1_i32_555 k2_t14
  let v672 : Index := Scalar.indexCast arg9
  let c16 : Index := 16#32
  ![1, v672.toNat, 16]
def k2_off861 (k2_t14 : Fin k2_t14_loop.trips) : Fin 4 → Nat :=
  let c1_i32_785 : BitVec 32 := 1#32
  let v675 : Index := Scalar.indexCast c1_i32_785
  let c0_i32_553 : BitVec 32 := 0#32
  let c1_i32_555 : BitVec 32 := 1#32
  let arg9 : BitVec 32 := Scf.iv c0_i32_553 c1_i32_555 k2_t14
  let v676 : Index := Scalar.indexCast arg9
  let c0_i32_786 : BitVec 32 := 0#32
  let v677 : Index := Scalar.indexCast c0_i32_786
  let c16_787 : Index := 16#32
  ![1, v676.toNat, 0, 16]
def k2_off862 (k2_t14 : Fin k2_t14_loop.trips) : Fin 3 → Nat :=
  let c1_i32_788 : BitVec 32 := 1#32
  let v681 : Index := Scalar.indexCast c1_i32_788
  let c0_i32_553 : BitVec 32 := 0#32
  let c1_i32_555 : BitVec 32 := 1#32
  let arg9 : BitVec 32 := Scf.iv c0_i32_553 c1_i32_555 k2_t14
  let v682 : Index := Scalar.indexCast arg9
  let c32 : Index := 32#32
  ![1, v682.toNat, 32]
def k2_off863 (k2_t14 : Fin k2_t14_loop.trips) : Fin 4 → Nat :=
  let c1_i32_789 : BitVec 32 := 1#32
  let v685 : Index := Scalar.indexCast c1_i32_789
  let c0_i32_553 : BitVec 32 := 0#32
  let c1_i32_555 : BitVec 32 := 1#32
  let arg9 : BitVec 32 := Scf.iv c0_i32_553 c1_i32_555 k2_t14
  let v686 : Index := Scalar.indexCast arg9
  let c0_i32_790 : BitVec 32 := 0#32
  let v687 : Index := Scalar.indexCast c0_i32_790
  let c32_791 : Index := 32#32
  ![1, v686.toNat, 0, 32]
def k2_off864 (k2_t14 : Fin k2_t14_loop.trips) : Fin 3 → Nat :=
  let c1_i32_792 : BitVec 32 := 1#32
  let v691 : Index := Scalar.indexCast c1_i32_792
  let c0_i32_553 : BitVec 32 := 0#32
  let c1_i32_555 : BitVec 32 := 1#32
  let arg9 : BitVec 32 := Scf.iv c0_i32_553 c1_i32_555 k2_t14
  let v692 : Index := Scalar.indexCast arg9
  let c48 : Index := 48#32
  ![1, v692.toNat, 48]
def k2_off865 (k2_t14 : Fin k2_t14_loop.trips) : Fin 4 → Nat :=
  let c1_i32_793 : BitVec 32 := 1#32
  let v695 : Index := Scalar.indexCast c1_i32_793
  let c0_i32_553 : BitVec 32 := 0#32
  let c1_i32_555 : BitVec 32 := 1#32
  let arg9 : BitVec 32 := Scf.iv c0_i32_553 c1_i32_555 k2_t14
  let v696 : Index := Scalar.indexCast arg9
  let c0_i32_794 : BitVec 32 := 0#32
  let v697 : Index := Scalar.indexCast c0_i32_794
  let c48_795 : Index := 48#32
  ![1, v696.toNat, 0, 48]
def k2_off866 (k2_t14 : Fin k2_t14_loop.trips) : Fin 3 → Nat :=
  let c1_i32_796 : BitVec 32 := 1#32
  let v701 : Index := Scalar.indexCast c1_i32_796
  let c0_i32_553 : BitVec 32 := 0#32
  let c1_i32_555 : BitVec 32 := 1#32
  let arg9 : BitVec 32 := Scf.iv c0_i32_553 c1_i32_555 k2_t14
  let v702 : Index := Scalar.indexCast arg9
  let c64 : Index := 64#32
  ![1, v702.toNat, 64]
def k2_off867 (k2_t14 : Fin k2_t14_loop.trips) : Fin 4 → Nat :=
  let c1_i32_797 : BitVec 32 := 1#32
  let v705 : Index := Scalar.indexCast c1_i32_797
  let c0_i32_553 : BitVec 32 := 0#32
  let c1_i32_555 : BitVec 32 := 1#32
  let arg9 : BitVec 32 := Scf.iv c0_i32_553 c1_i32_555 k2_t14
  let v706 : Index := Scalar.indexCast arg9
  let c0_i32_798 : BitVec 32 := 0#32
  let v707 : Index := Scalar.indexCast c0_i32_798
  let c64_799 : Index := 64#32
  ![1, v706.toNat, 0, 64]
def k2_off868 (k2_t14 : Fin k2_t14_loop.trips) : Fin 3 → Nat :=
  let c1_i32_800 : BitVec 32 := 1#32
  let v711 : Index := Scalar.indexCast c1_i32_800
  let c0_i32_553 : BitVec 32 := 0#32
  let c1_i32_555 : BitVec 32 := 1#32
  let arg9 : BitVec 32 := Scf.iv c0_i32_553 c1_i32_555 k2_t14
  let v712 : Index := Scalar.indexCast arg9
  let c80 : Index := 80#32
  ![1, v712.toNat, 80]
def k2_off869 (k2_t14 : Fin k2_t14_loop.trips) : Fin 4 → Nat :=
  let c1_i32_801 : BitVec 32 := 1#32
  let v715 : Index := Scalar.indexCast c1_i32_801
  let c0_i32_553 : BitVec 32 := 0#32
  let c1_i32_555 : BitVec 32 := 1#32
  let arg9 : BitVec 32 := Scf.iv c0_i32_553 c1_i32_555 k2_t14
  let v716 : Index := Scalar.indexCast arg9
  let c0_i32_802 : BitVec 32 := 0#32
  let v717 : Index := Scalar.indexCast c0_i32_802
  let c80_803 : Index := 80#32
  ![1, v716.toNat, 0, 80]
def k2_off870 (k2_t14 : Fin k2_t14_loop.trips) : Fin 3 → Nat :=
  let c1_i32_804 : BitVec 32 := 1#32
  let v721 : Index := Scalar.indexCast c1_i32_804
  let c0_i32_553 : BitVec 32 := 0#32
  let c1_i32_555 : BitVec 32 := 1#32
  let arg9 : BitVec 32 := Scf.iv c0_i32_553 c1_i32_555 k2_t14
  let v722 : Index := Scalar.indexCast arg9
  let c96 : Index := 96#32
  ![1, v722.toNat, 96]
def k2_off871 (k2_t14 : Fin k2_t14_loop.trips) : Fin 4 → Nat :=
  let c1_i32_805 : BitVec 32 := 1#32
  let v725 : Index := Scalar.indexCast c1_i32_805
  let c0_i32_553 : BitVec 32 := 0#32
  let c1_i32_555 : BitVec 32 := 1#32
  let arg9 : BitVec 32 := Scf.iv c0_i32_553 c1_i32_555 k2_t14
  let v726 : Index := Scalar.indexCast arg9
  let c0_i32_806 : BitVec 32 := 0#32
  let v727 : Index := Scalar.indexCast c0_i32_806
  let c96_807 : Index := 96#32
  ![1, v726.toNat, 0, 96]
def k2_off872 (k2_t14 : Fin k2_t14_loop.trips) : Fin 3 → Nat :=
  let c1_i32_808 : BitVec 32 := 1#32
  let v731 : Index := Scalar.indexCast c1_i32_808
  let c0_i32_553 : BitVec 32 := 0#32
  let c1_i32_555 : BitVec 32 := 1#32
  let arg9 : BitVec 32 := Scf.iv c0_i32_553 c1_i32_555 k2_t14
  let v732 : Index := Scalar.indexCast arg9
  let c112 : Index := 112#32
  ![1, v732.toNat, 112]
def k2_off873 (k2_t14 : Fin k2_t14_loop.trips) : Fin 4 → Nat :=
  let c1_i32_809 : BitVec 32 := 1#32
  let v735 : Index := Scalar.indexCast c1_i32_809
  let c0_i32_553 : BitVec 32 := 0#32
  let c1_i32_555 : BitVec 32 := 1#32
  let arg9 : BitVec 32 := Scf.iv c0_i32_553 c1_i32_555 k2_t14
  let v736 : Index := Scalar.indexCast arg9
  let c0_i32_810 : BitVec 32 := 0#32
  let v737 : Index := Scalar.indexCast c0_i32_810
  let c112_811 : Index := 112#32
  ![1, v736.toNat, 0, 112]
def k2_off874 (k2_t14 : Fin k2_t14_loop.trips) : Fin 3 → Nat :=
  let c1_i32_812 : BitVec 32 := 1#32
  let v741 : Index := Scalar.indexCast c1_i32_812
  let c0_i32_553 : BitVec 32 := 0#32
  let c1_i32_555 : BitVec 32 := 1#32
  let arg9 : BitVec 32 := Scf.iv c0_i32_553 c1_i32_555 k2_t14
  let v742 : Index := Scalar.indexCast arg9
  let c128 : Index := 128#32
  ![1, v742.toNat, 128]
def k2_off875 (k2_t14 : Fin k2_t14_loop.trips) : Fin 4 → Nat :=
  let c1_i32_813 : BitVec 32 := 1#32
  let v745 : Index := Scalar.indexCast c1_i32_813
  let c0_i32_553 : BitVec 32 := 0#32
  let c1_i32_555 : BitVec 32 := 1#32
  let arg9 : BitVec 32 := Scf.iv c0_i32_553 c1_i32_555 k2_t14
  let v746 : Index := Scalar.indexCast arg9
  let c1_i32_814 : BitVec 32 := 1#32
  let v747 : Index := Scalar.indexCast c1_i32_814
  let c0_815 : Index := 0#32
  ![1, v746.toNat, 1, 0]
def k2_off876 (k2_t14 : Fin k2_t14_loop.trips) : Fin 3 → Nat :=
  let c1_i32_816 : BitVec 32 := 1#32
  let v751 : Index := Scalar.indexCast c1_i32_816
  let c0_i32_553 : BitVec 32 := 0#32
  let c1_i32_555 : BitVec 32 := 1#32
  let arg9 : BitVec 32 := Scf.iv c0_i32_553 c1_i32_555 k2_t14
  let v752 : Index := Scalar.indexCast arg9
  let c144 : Index := 144#32
  ![1, v752.toNat, 144]
def k2_off877 (k2_t14 : Fin k2_t14_loop.trips) : Fin 4 → Nat :=
  let c1_i32_817 : BitVec 32 := 1#32
  let v755 : Index := Scalar.indexCast c1_i32_817
  let c0_i32_553 : BitVec 32 := 0#32
  let c1_i32_555 : BitVec 32 := 1#32
  let arg9 : BitVec 32 := Scf.iv c0_i32_553 c1_i32_555 k2_t14
  let v756 : Index := Scalar.indexCast arg9
  let c1_i32_818 : BitVec 32 := 1#32
  let v757 : Index := Scalar.indexCast c1_i32_818
  let c16_819 : Index := 16#32
  ![1, v756.toNat, 1, 16]
def k2_off878 (k2_t14 : Fin k2_t14_loop.trips) : Fin 3 → Nat :=
  let c1_i32_820 : BitVec 32 := 1#32
  let v761 : Index := Scalar.indexCast c1_i32_820
  let c0_i32_553 : BitVec 32 := 0#32
  let c1_i32_555 : BitVec 32 := 1#32
  let arg9 : BitVec 32 := Scf.iv c0_i32_553 c1_i32_555 k2_t14
  let v762 : Index := Scalar.indexCast arg9
  let c160 : Index := 160#32
  ![1, v762.toNat, 160]
def k2_off879 (k2_t14 : Fin k2_t14_loop.trips) : Fin 4 → Nat :=
  let c1_i32_821 : BitVec 32 := 1#32
  let v765 : Index := Scalar.indexCast c1_i32_821
  let c0_i32_553 : BitVec 32 := 0#32
  let c1_i32_555 : BitVec 32 := 1#32
  let arg9 : BitVec 32 := Scf.iv c0_i32_553 c1_i32_555 k2_t14
  let v766 : Index := Scalar.indexCast arg9
  let c1_i32_822 : BitVec 32 := 1#32
  let v767 : Index := Scalar.indexCast c1_i32_822
  let c32_823 : Index := 32#32
  ![1, v766.toNat, 1, 32]
def k2_off880 (k2_t14 : Fin k2_t14_loop.trips) : Fin 3 → Nat :=
  let c1_i32_824 : BitVec 32 := 1#32
  let v771 : Index := Scalar.indexCast c1_i32_824
  let c0_i32_553 : BitVec 32 := 0#32
  let c1_i32_555 : BitVec 32 := 1#32
  let arg9 : BitVec 32 := Scf.iv c0_i32_553 c1_i32_555 k2_t14
  let v772 : Index := Scalar.indexCast arg9
  let c176 : Index := 176#32
  ![1, v772.toNat, 176]
def k2_off881 (k2_t14 : Fin k2_t14_loop.trips) : Fin 4 → Nat :=
  let c1_i32_825 : BitVec 32 := 1#32
  let v775 : Index := Scalar.indexCast c1_i32_825
  let c0_i32_553 : BitVec 32 := 0#32
  let c1_i32_555 : BitVec 32 := 1#32
  let arg9 : BitVec 32 := Scf.iv c0_i32_553 c1_i32_555 k2_t14
  let v776 : Index := Scalar.indexCast arg9
  let c1_i32_826 : BitVec 32 := 1#32
  let v777 : Index := Scalar.indexCast c1_i32_826
  let c48_827 : Index := 48#32
  ![1, v776.toNat, 1, 48]
def k2_off882 (k2_t14 : Fin k2_t14_loop.trips) : Fin 3 → Nat :=
  let c1_i32_828 : BitVec 32 := 1#32
  let v781 : Index := Scalar.indexCast c1_i32_828
  let c0_i32_553 : BitVec 32 := 0#32
  let c1_i32_555 : BitVec 32 := 1#32
  let arg9 : BitVec 32 := Scf.iv c0_i32_553 c1_i32_555 k2_t14
  let v782 : Index := Scalar.indexCast arg9
  let c192 : Index := 192#32
  ![1, v782.toNat, 192]
def k2_off883 (k2_t14 : Fin k2_t14_loop.trips) : Fin 4 → Nat :=
  let c1_i32_829 : BitVec 32 := 1#32
  let v785 : Index := Scalar.indexCast c1_i32_829
  let c0_i32_553 : BitVec 32 := 0#32
  let c1_i32_555 : BitVec 32 := 1#32
  let arg9 : BitVec 32 := Scf.iv c0_i32_553 c1_i32_555 k2_t14
  let v786 : Index := Scalar.indexCast arg9
  let c1_i32_830 : BitVec 32 := 1#32
  let v787 : Index := Scalar.indexCast c1_i32_830
  let c64_831 : Index := 64#32
  ![1, v786.toNat, 1, 64]
def k2_off884 (k2_t14 : Fin k2_t14_loop.trips) : Fin 3 → Nat :=
  let c1_i32_832 : BitVec 32 := 1#32
  let v791 : Index := Scalar.indexCast c1_i32_832
  let c0_i32_553 : BitVec 32 := 0#32
  let c1_i32_555 : BitVec 32 := 1#32
  let arg9 : BitVec 32 := Scf.iv c0_i32_553 c1_i32_555 k2_t14
  let v792 : Index := Scalar.indexCast arg9
  let c208 : Index := 208#32
  ![1, v792.toNat, 208]
def k2_off885 (k2_t14 : Fin k2_t14_loop.trips) : Fin 4 → Nat :=
  let c1_i32_833 : BitVec 32 := 1#32
  let v795 : Index := Scalar.indexCast c1_i32_833
  let c0_i32_553 : BitVec 32 := 0#32
  let c1_i32_555 : BitVec 32 := 1#32
  let arg9 : BitVec 32 := Scf.iv c0_i32_553 c1_i32_555 k2_t14
  let v796 : Index := Scalar.indexCast arg9
  let c1_i32_834 : BitVec 32 := 1#32
  let v797 : Index := Scalar.indexCast c1_i32_834
  let c80_835 : Index := 80#32
  ![1, v796.toNat, 1, 80]
def k2_off886 (k2_t14 : Fin k2_t14_loop.trips) : Fin 3 → Nat :=
  let c1_i32_836 : BitVec 32 := 1#32
  let v801 : Index := Scalar.indexCast c1_i32_836
  let c0_i32_553 : BitVec 32 := 0#32
  let c1_i32_555 : BitVec 32 := 1#32
  let arg9 : BitVec 32 := Scf.iv c0_i32_553 c1_i32_555 k2_t14
  let v802 : Index := Scalar.indexCast arg9
  let c224 : Index := 224#32
  ![1, v802.toNat, 224]
def k2_off887 (k2_t14 : Fin k2_t14_loop.trips) : Fin 4 → Nat :=
  let c1_i32_837 : BitVec 32 := 1#32
  let v805 : Index := Scalar.indexCast c1_i32_837
  let c0_i32_553 : BitVec 32 := 0#32
  let c1_i32_555 : BitVec 32 := 1#32
  let arg9 : BitVec 32 := Scf.iv c0_i32_553 c1_i32_555 k2_t14
  let v806 : Index := Scalar.indexCast arg9
  let c1_i32_838 : BitVec 32 := 1#32
  let v807 : Index := Scalar.indexCast c1_i32_838
  let c96_839 : Index := 96#32
  ![1, v806.toNat, 1, 96]
def k2_off888 (k2_t14 : Fin k2_t14_loop.trips) : Fin 3 → Nat :=
  let c1_i32_840 : BitVec 32 := 1#32
  let v811 : Index := Scalar.indexCast c1_i32_840
  let c0_i32_553 : BitVec 32 := 0#32
  let c1_i32_555 : BitVec 32 := 1#32
  let arg9 : BitVec 32 := Scf.iv c0_i32_553 c1_i32_555 k2_t14
  let v812 : Index := Scalar.indexCast arg9
  let c240 : Index := 240#32
  ![1, v812.toNat, 240]
def k2_off889 (k2_t14 : Fin k2_t14_loop.trips) : Fin 4 → Nat :=
  let c1_i32_841 : BitVec 32 := 1#32
  let v815 : Index := Scalar.indexCast c1_i32_841
  let c0_i32_553 : BitVec 32 := 0#32
  let c1_i32_555 : BitVec 32 := 1#32
  let arg9 : BitVec 32 := Scf.iv c0_i32_553 c1_i32_555 k2_t14
  let v816 : Index := Scalar.indexCast arg9
  let c1_i32_842 : BitVec 32 := 1#32
  let v817 : Index := Scalar.indexCast c1_i32_842
  let c112_843 : Index := 112#32
  ![1, v816.toNat, 1, 112]
def k2_off890 (k2_t14 : Fin k2_t14_loop.trips) : Fin 3 → Nat :=
  let c1_i32_844 : BitVec 32 := 1#32
  let v821 : Index := Scalar.indexCast c1_i32_844
  let c0_i32_553 : BitVec 32 := 0#32
  let c1_i32_555 : BitVec 32 := 1#32
  let arg9 : BitVec 32 := Scf.iv c0_i32_553 c1_i32_555 k2_t14
  let v822 : Index := Scalar.indexCast arg9
  let c256 : Index := 256#32
  ![1, v822.toNat, 256]
def k2_off891 (k2_t14 : Fin k2_t14_loop.trips) : Fin 4 → Nat :=
  let c1_i32_845 : BitVec 32 := 1#32
  let v825 : Index := Scalar.indexCast c1_i32_845
  let c0_i32_553 : BitVec 32 := 0#32
  let c1_i32_555 : BitVec 32 := 1#32
  let arg9 : BitVec 32 := Scf.iv c0_i32_553 c1_i32_555 k2_t14
  let v826 : Index := Scalar.indexCast arg9
  let c2_i32_846 : BitVec 32 := 2#32
  let v827 : Index := Scalar.indexCast c2_i32_846
  let c0_847 : Index := 0#32
  ![1, v826.toNat, 2, 0]
def k2_off892 (k2_t14 : Fin k2_t14_loop.trips) : Fin 3 → Nat :=
  let c1_i32_848 : BitVec 32 := 1#32
  let v831 : Index := Scalar.indexCast c1_i32_848
  let c0_i32_553 : BitVec 32 := 0#32
  let c1_i32_555 : BitVec 32 := 1#32
  let arg9 : BitVec 32 := Scf.iv c0_i32_553 c1_i32_555 k2_t14
  let v832 : Index := Scalar.indexCast arg9
  let c272 : Index := 272#32
  ![1, v832.toNat, 272]
def k2_off893 (k2_t14 : Fin k2_t14_loop.trips) : Fin 4 → Nat :=
  let c1_i32_849 : BitVec 32 := 1#32
  let v835 : Index := Scalar.indexCast c1_i32_849
  let c0_i32_553 : BitVec 32 := 0#32
  let c1_i32_555 : BitVec 32 := 1#32
  let arg9 : BitVec 32 := Scf.iv c0_i32_553 c1_i32_555 k2_t14
  let v836 : Index := Scalar.indexCast arg9
  let c2_i32_850 : BitVec 32 := 2#32
  let v837 : Index := Scalar.indexCast c2_i32_850
  let c16_851 : Index := 16#32
  ![1, v836.toNat, 2, 16]
def k2_off894 (k2_t14 : Fin k2_t14_loop.trips) : Fin 3 → Nat :=
  let c1_i32_852 : BitVec 32 := 1#32
  let v841 : Index := Scalar.indexCast c1_i32_852
  let c0_i32_553 : BitVec 32 := 0#32
  let c1_i32_555 : BitVec 32 := 1#32
  let arg9 : BitVec 32 := Scf.iv c0_i32_553 c1_i32_555 k2_t14
  let v842 : Index := Scalar.indexCast arg9
  let c288 : Index := 288#32
  ![1, v842.toNat, 288]
def k2_off895 (k2_t14 : Fin k2_t14_loop.trips) : Fin 4 → Nat :=
  let c1_i32_853 : BitVec 32 := 1#32
  let v845 : Index := Scalar.indexCast c1_i32_853
  let c0_i32_553 : BitVec 32 := 0#32
  let c1_i32_555 : BitVec 32 := 1#32
  let arg9 : BitVec 32 := Scf.iv c0_i32_553 c1_i32_555 k2_t14
  let v846 : Index := Scalar.indexCast arg9
  let c2_i32_854 : BitVec 32 := 2#32
  let v847 : Index := Scalar.indexCast c2_i32_854
  let c32_855 : Index := 32#32
  ![1, v846.toNat, 2, 32]
def k2_off896 (k2_t14 : Fin k2_t14_loop.trips) : Fin 3 → Nat :=
  let c1_i32_856 : BitVec 32 := 1#32
  let v851 : Index := Scalar.indexCast c1_i32_856
  let c0_i32_553 : BitVec 32 := 0#32
  let c1_i32_555 : BitVec 32 := 1#32
  let arg9 : BitVec 32 := Scf.iv c0_i32_553 c1_i32_555 k2_t14
  let v852 : Index := Scalar.indexCast arg9
  let c304 : Index := 304#32
  ![1, v852.toNat, 304]
def k2_off897 (k2_t14 : Fin k2_t14_loop.trips) : Fin 4 → Nat :=
  let c1_i32_857 : BitVec 32 := 1#32
  let v855 : Index := Scalar.indexCast c1_i32_857
  let c0_i32_553 : BitVec 32 := 0#32
  let c1_i32_555 : BitVec 32 := 1#32
  let arg9 : BitVec 32 := Scf.iv c0_i32_553 c1_i32_555 k2_t14
  let v856 : Index := Scalar.indexCast arg9
  let c2_i32_858 : BitVec 32 := 2#32
  let v857 : Index := Scalar.indexCast c2_i32_858
  let c48_859 : Index := 48#32
  ![1, v856.toNat, 2, 48]
def k2_off898 (k2_t14 : Fin k2_t14_loop.trips) : Fin 3 → Nat :=
  let c1_i32_860 : BitVec 32 := 1#32
  let v861 : Index := Scalar.indexCast c1_i32_860
  let c0_i32_553 : BitVec 32 := 0#32
  let c1_i32_555 : BitVec 32 := 1#32
  let arg9 : BitVec 32 := Scf.iv c0_i32_553 c1_i32_555 k2_t14
  let v862 : Index := Scalar.indexCast arg9
  let c320 : Index := 320#32
  ![1, v862.toNat, 320]
def k2_off899 (k2_t14 : Fin k2_t14_loop.trips) : Fin 4 → Nat :=
  let c1_i32_861 : BitVec 32 := 1#32
  let v865 : Index := Scalar.indexCast c1_i32_861
  let c0_i32_553 : BitVec 32 := 0#32
  let c1_i32_555 : BitVec 32 := 1#32
  let arg9 : BitVec 32 := Scf.iv c0_i32_553 c1_i32_555 k2_t14
  let v866 : Index := Scalar.indexCast arg9
  let c2_i32_862 : BitVec 32 := 2#32
  let v867 : Index := Scalar.indexCast c2_i32_862
  let c64_863 : Index := 64#32
  ![1, v866.toNat, 2, 64]
def k2_off900 (k2_t14 : Fin k2_t14_loop.trips) : Fin 3 → Nat :=
  let c1_i32_864 : BitVec 32 := 1#32
  let v871 : Index := Scalar.indexCast c1_i32_864
  let c0_i32_553 : BitVec 32 := 0#32
  let c1_i32_555 : BitVec 32 := 1#32
  let arg9 : BitVec 32 := Scf.iv c0_i32_553 c1_i32_555 k2_t14
  let v872 : Index := Scalar.indexCast arg9
  let c336 : Index := 336#32
  ![1, v872.toNat, 336]
def k2_off901 (k2_t14 : Fin k2_t14_loop.trips) : Fin 4 → Nat :=
  let c1_i32_865 : BitVec 32 := 1#32
  let v875 : Index := Scalar.indexCast c1_i32_865
  let c0_i32_553 : BitVec 32 := 0#32
  let c1_i32_555 : BitVec 32 := 1#32
  let arg9 : BitVec 32 := Scf.iv c0_i32_553 c1_i32_555 k2_t14
  let v876 : Index := Scalar.indexCast arg9
  let c2_i32_866 : BitVec 32 := 2#32
  let v877 : Index := Scalar.indexCast c2_i32_866
  let c80_867 : Index := 80#32
  ![1, v876.toNat, 2, 80]
def k2_off902 (k2_t14 : Fin k2_t14_loop.trips) : Fin 3 → Nat :=
  let c1_i32_868 : BitVec 32 := 1#32
  let v881 : Index := Scalar.indexCast c1_i32_868
  let c0_i32_553 : BitVec 32 := 0#32
  let c1_i32_555 : BitVec 32 := 1#32
  let arg9 : BitVec 32 := Scf.iv c0_i32_553 c1_i32_555 k2_t14
  let v882 : Index := Scalar.indexCast arg9
  let c352 : Index := 352#32
  ![1, v882.toNat, 352]
def k2_off903 (k2_t14 : Fin k2_t14_loop.trips) : Fin 4 → Nat :=
  let c1_i32_869 : BitVec 32 := 1#32
  let v885 : Index := Scalar.indexCast c1_i32_869
  let c0_i32_553 : BitVec 32 := 0#32
  let c1_i32_555 : BitVec 32 := 1#32
  let arg9 : BitVec 32 := Scf.iv c0_i32_553 c1_i32_555 k2_t14
  let v886 : Index := Scalar.indexCast arg9
  let c2_i32_870 : BitVec 32 := 2#32
  let v887 : Index := Scalar.indexCast c2_i32_870
  let c96_871 : Index := 96#32
  ![1, v886.toNat, 2, 96]
def k2_off904 (k2_t14 : Fin k2_t14_loop.trips) : Fin 3 → Nat :=
  let c1_i32_872 : BitVec 32 := 1#32
  let v891 : Index := Scalar.indexCast c1_i32_872
  let c0_i32_553 : BitVec 32 := 0#32
  let c1_i32_555 : BitVec 32 := 1#32
  let arg9 : BitVec 32 := Scf.iv c0_i32_553 c1_i32_555 k2_t14
  let v892 : Index := Scalar.indexCast arg9
  let c368 : Index := 368#32
  ![1, v892.toNat, 368]
def k2_off905 (k2_t14 : Fin k2_t14_loop.trips) : Fin 4 → Nat :=
  let c1_i32_873 : BitVec 32 := 1#32
  let v895 : Index := Scalar.indexCast c1_i32_873
  let c0_i32_553 : BitVec 32 := 0#32
  let c1_i32_555 : BitVec 32 := 1#32
  let arg9 : BitVec 32 := Scf.iv c0_i32_553 c1_i32_555 k2_t14
  let v896 : Index := Scalar.indexCast arg9
  let c2_i32_874 : BitVec 32 := 2#32
  let v897 : Index := Scalar.indexCast c2_i32_874
  let c112_875 : Index := 112#32
  ![1, v896.toNat, 2, 112]
def k2_off906 (k2_t14 : Fin k2_t14_loop.trips) : Fin 3 → Nat :=
  let c1_i32_876 : BitVec 32 := 1#32
  let v901 : Index := Scalar.indexCast c1_i32_876
  let c0_i32_553 : BitVec 32 := 0#32
  let c1_i32_555 : BitVec 32 := 1#32
  let arg9 : BitVec 32 := Scf.iv c0_i32_553 c1_i32_555 k2_t14
  let v902 : Index := Scalar.indexCast arg9
  let c384 : Index := 384#32
  ![1, v902.toNat, 384]
def k2_off907 (k2_t14 : Fin k2_t14_loop.trips) : Fin 4 → Nat :=
  let c1_i32_877 : BitVec 32 := 1#32
  let v905 : Index := Scalar.indexCast c1_i32_877
  let c0_i32_553 : BitVec 32 := 0#32
  let c1_i32_555 : BitVec 32 := 1#32
  let arg9 : BitVec 32 := Scf.iv c0_i32_553 c1_i32_555 k2_t14
  let v906 : Index := Scalar.indexCast arg9
  let c3_i32_878 : BitVec 32 := 3#32
  let v907 : Index := Scalar.indexCast c3_i32_878
  let c0_879 : Index := 0#32
  ![1, v906.toNat, 3, 0]
def k2_off908 (k2_t14 : Fin k2_t14_loop.trips) : Fin 3 → Nat :=
  let c1_i32_880 : BitVec 32 := 1#32
  let v911 : Index := Scalar.indexCast c1_i32_880
  let c0_i32_553 : BitVec 32 := 0#32
  let c1_i32_555 : BitVec 32 := 1#32
  let arg9 : BitVec 32 := Scf.iv c0_i32_553 c1_i32_555 k2_t14
  let v912 : Index := Scalar.indexCast arg9
  let c400 : Index := 400#32
  ![1, v912.toNat, 400]
def k2_off909 (k2_t14 : Fin k2_t14_loop.trips) : Fin 4 → Nat :=
  let c1_i32_881 : BitVec 32 := 1#32
  let v915 : Index := Scalar.indexCast c1_i32_881
  let c0_i32_553 : BitVec 32 := 0#32
  let c1_i32_555 : BitVec 32 := 1#32
  let arg9 : BitVec 32 := Scf.iv c0_i32_553 c1_i32_555 k2_t14
  let v916 : Index := Scalar.indexCast arg9
  let c3_i32_882 : BitVec 32 := 3#32
  let v917 : Index := Scalar.indexCast c3_i32_882
  let c16_883 : Index := 16#32
  ![1, v916.toNat, 3, 16]
def k2_off910 (k2_t14 : Fin k2_t14_loop.trips) : Fin 3 → Nat :=
  let c1_i32_884 : BitVec 32 := 1#32
  let v921 : Index := Scalar.indexCast c1_i32_884
  let c0_i32_553 : BitVec 32 := 0#32
  let c1_i32_555 : BitVec 32 := 1#32
  let arg9 : BitVec 32 := Scf.iv c0_i32_553 c1_i32_555 k2_t14
  let v922 : Index := Scalar.indexCast arg9
  let c416 : Index := 416#32
  ![1, v922.toNat, 416]
def k2_off911 (k2_t14 : Fin k2_t14_loop.trips) : Fin 4 → Nat :=
  let c1_i32_885 : BitVec 32 := 1#32
  let v925 : Index := Scalar.indexCast c1_i32_885
  let c0_i32_553 : BitVec 32 := 0#32
  let c1_i32_555 : BitVec 32 := 1#32
  let arg9 : BitVec 32 := Scf.iv c0_i32_553 c1_i32_555 k2_t14
  let v926 : Index := Scalar.indexCast arg9
  let c3_i32_886 : BitVec 32 := 3#32
  let v927 : Index := Scalar.indexCast c3_i32_886
  let c32_887 : Index := 32#32
  ![1, v926.toNat, 3, 32]
def k2_off912 (k2_t14 : Fin k2_t14_loop.trips) : Fin 3 → Nat :=
  let c1_i32_888 : BitVec 32 := 1#32
  let v931 : Index := Scalar.indexCast c1_i32_888
  let c0_i32_553 : BitVec 32 := 0#32
  let c1_i32_555 : BitVec 32 := 1#32
  let arg9 : BitVec 32 := Scf.iv c0_i32_553 c1_i32_555 k2_t14
  let v932 : Index := Scalar.indexCast arg9
  let c432 : Index := 432#32
  ![1, v932.toNat, 432]
def k2_off913 (k2_t14 : Fin k2_t14_loop.trips) : Fin 4 → Nat :=
  let c1_i32_889 : BitVec 32 := 1#32
  let v935 : Index := Scalar.indexCast c1_i32_889
  let c0_i32_553 : BitVec 32 := 0#32
  let c1_i32_555 : BitVec 32 := 1#32
  let arg9 : BitVec 32 := Scf.iv c0_i32_553 c1_i32_555 k2_t14
  let v936 : Index := Scalar.indexCast arg9
  let c3_i32_890 : BitVec 32 := 3#32
  let v937 : Index := Scalar.indexCast c3_i32_890
  let c48_891 : Index := 48#32
  ![1, v936.toNat, 3, 48]
def k2_off914 (k2_t14 : Fin k2_t14_loop.trips) : Fin 3 → Nat :=
  let c1_i32_892 : BitVec 32 := 1#32
  let v941 : Index := Scalar.indexCast c1_i32_892
  let c0_i32_553 : BitVec 32 := 0#32
  let c1_i32_555 : BitVec 32 := 1#32
  let arg9 : BitVec 32 := Scf.iv c0_i32_553 c1_i32_555 k2_t14
  let v942 : Index := Scalar.indexCast arg9
  let c448 : Index := 448#32
  ![1, v942.toNat, 448]
def k2_off915 (k2_t14 : Fin k2_t14_loop.trips) : Fin 4 → Nat :=
  let c1_i32_893 : BitVec 32 := 1#32
  let v945 : Index := Scalar.indexCast c1_i32_893
  let c0_i32_553 : BitVec 32 := 0#32
  let c1_i32_555 : BitVec 32 := 1#32
  let arg9 : BitVec 32 := Scf.iv c0_i32_553 c1_i32_555 k2_t14
  let v946 : Index := Scalar.indexCast arg9
  let c3_i32_894 : BitVec 32 := 3#32
  let v947 : Index := Scalar.indexCast c3_i32_894
  let c64_895 : Index := 64#32
  ![1, v946.toNat, 3, 64]
def k2_off916 (k2_t14 : Fin k2_t14_loop.trips) : Fin 3 → Nat :=
  let c1_i32_896 : BitVec 32 := 1#32
  let v951 : Index := Scalar.indexCast c1_i32_896
  let c0_i32_553 : BitVec 32 := 0#32
  let c1_i32_555 : BitVec 32 := 1#32
  let arg9 : BitVec 32 := Scf.iv c0_i32_553 c1_i32_555 k2_t14
  let v952 : Index := Scalar.indexCast arg9
  let c464 : Index := 464#32
  ![1, v952.toNat, 464]
def k2_off917 (k2_t14 : Fin k2_t14_loop.trips) : Fin 4 → Nat :=
  let c1_i32_897 : BitVec 32 := 1#32
  let v955 : Index := Scalar.indexCast c1_i32_897
  let c0_i32_553 : BitVec 32 := 0#32
  let c1_i32_555 : BitVec 32 := 1#32
  let arg9 : BitVec 32 := Scf.iv c0_i32_553 c1_i32_555 k2_t14
  let v956 : Index := Scalar.indexCast arg9
  let c3_i32_898 : BitVec 32 := 3#32
  let v957 : Index := Scalar.indexCast c3_i32_898
  let c80_899 : Index := 80#32
  ![1, v956.toNat, 3, 80]
def k2_off918 (k2_t14 : Fin k2_t14_loop.trips) : Fin 3 → Nat :=
  let c1_i32_900 : BitVec 32 := 1#32
  let v961 : Index := Scalar.indexCast c1_i32_900
  let c0_i32_553 : BitVec 32 := 0#32
  let c1_i32_555 : BitVec 32 := 1#32
  let arg9 : BitVec 32 := Scf.iv c0_i32_553 c1_i32_555 k2_t14
  let v962 : Index := Scalar.indexCast arg9
  let c480 : Index := 480#32
  ![1, v962.toNat, 480]
def k2_off919 (k2_t14 : Fin k2_t14_loop.trips) : Fin 4 → Nat :=
  let c1_i32_901 : BitVec 32 := 1#32
  let v965 : Index := Scalar.indexCast c1_i32_901
  let c0_i32_553 : BitVec 32 := 0#32
  let c1_i32_555 : BitVec 32 := 1#32
  let arg9 : BitVec 32 := Scf.iv c0_i32_553 c1_i32_555 k2_t14
  let v966 : Index := Scalar.indexCast arg9
  let c3_i32_902 : BitVec 32 := 3#32
  let v967 : Index := Scalar.indexCast c3_i32_902
  let c96_903 : Index := 96#32
  ![1, v966.toNat, 3, 96]
def k2_off920 (k2_t14 : Fin k2_t14_loop.trips) : Fin 3 → Nat :=
  let c1_i32_904 : BitVec 32 := 1#32
  let v971 : Index := Scalar.indexCast c1_i32_904
  let c0_i32_553 : BitVec 32 := 0#32
  let c1_i32_555 : BitVec 32 := 1#32
  let arg9 : BitVec 32 := Scf.iv c0_i32_553 c1_i32_555 k2_t14
  let v972 : Index := Scalar.indexCast arg9
  let c496 : Index := 496#32
  ![1, v972.toNat, 496]
def k2_off921 (k2_t14 : Fin k2_t14_loop.trips) : Fin 4 → Nat :=
  let c1_i32_905 : BitVec 32 := 1#32
  let v975 : Index := Scalar.indexCast c1_i32_905
  let c0_i32_553 : BitVec 32 := 0#32
  let c1_i32_555 : BitVec 32 := 1#32
  let arg9 : BitVec 32 := Scf.iv c0_i32_553 c1_i32_555 k2_t14
  let v976 : Index := Scalar.indexCast arg9
  let c3_i32_906 : BitVec 32 := 3#32
  let v977 : Index := Scalar.indexCast c3_i32_906
  let c112_907 : Index := 112#32
  ![1, v976.toNat, 3, 112]
def k2_off922 (i : grid2.Coords) : Fin 4 → Nat :=
  let c11_i32_558 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_563 : BitVec 32 := 0#32
  let c0_i32_564 : BitVec 32 := 0#32
  ![11, v2.toNat, 0, 0]
def k2_off923 (i : grid2.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_583 : BitVec 32 := 0#32
  ![13, v2.toNat, 0]
@[reducible] def k2_t15_loop : Scf.Loop 32 :=
  let c0_i32_601 : BitVec 32 := 0#32
  let c32_i32_602 : BitVec 32 := 32#32
  let v517 : BitVec 32 := Scalar.addi c0_i32_601 c32_i32_602
  let c1_i32_603 : BitVec 32 := 1#32
  ⟨c0_i32_601, v517, c1_i32_603⟩
def k2_off924 (k2_t15 : Fin k2_t15_loop.trips) : Fin 3 → Nat :=
  let c0_i32_780 : BitVec 32 := 0#32
  let v661 : Index := Scalar.indexCast c0_i32_780
  let c0_i32_601 : BitVec 32 := 0#32
  let c1_i32_603 : BitVec 32 := 1#32
  let arg9 : BitVec 32 := Scf.iv c0_i32_601 c1_i32_603 k2_t15
  let v662 : Index := Scalar.indexCast arg9
  let c0 : Index := 0#32
  ![0, v662.toNat, 0]
def k2_off925 (k2_t15 : Fin k2_t15_loop.trips) : Fin 4 → Nat :=
  let c0_i32_781 : BitVec 32 := 0#32
  let v665 : Index := Scalar.indexCast c0_i32_781
  let c0_i32_601 : BitVec 32 := 0#32
  let c1_i32_603 : BitVec 32 := 1#32
  let arg9 : BitVec 32 := Scf.iv c0_i32_601 c1_i32_603 k2_t15
  let v666 : Index := Scalar.indexCast arg9
  let c0_i32_782 : BitVec 32 := 0#32
  let v667 : Index := Scalar.indexCast c0_i32_782
  let c0_783 : Index := 0#32
  ![0, v666.toNat, 0, 0]
def k2_off926 (k2_t15 : Fin k2_t15_loop.trips) : Fin 3 → Nat :=
  let c0_i32_784 : BitVec 32 := 0#32
  let v671 : Index := Scalar.indexCast c0_i32_784
  let c0_i32_601 : BitVec 32 := 0#32
  let c1_i32_603 : BitVec 32 := 1#32
  let arg9 : BitVec 32 := Scf.iv c0_i32_601 c1_i32_603 k2_t15
  let v672 : Index := Scalar.indexCast arg9
  let c16 : Index := 16#32
  ![0, v672.toNat, 16]
def k2_off927 (k2_t15 : Fin k2_t15_loop.trips) : Fin 4 → Nat :=
  let c0_i32_785 : BitVec 32 := 0#32
  let v675 : Index := Scalar.indexCast c0_i32_785
  let c0_i32_601 : BitVec 32 := 0#32
  let c1_i32_603 : BitVec 32 := 1#32
  let arg9 : BitVec 32 := Scf.iv c0_i32_601 c1_i32_603 k2_t15
  let v676 : Index := Scalar.indexCast arg9
  let c0_i32_786 : BitVec 32 := 0#32
  let v677 : Index := Scalar.indexCast c0_i32_786
  let c16_787 : Index := 16#32
  ![0, v676.toNat, 0, 16]
def k2_off928 (k2_t15 : Fin k2_t15_loop.trips) : Fin 3 → Nat :=
  let c0_i32_788 : BitVec 32 := 0#32
  let v681 : Index := Scalar.indexCast c0_i32_788
  let c0_i32_601 : BitVec 32 := 0#32
  let c1_i32_603 : BitVec 32 := 1#32
  let arg9 : BitVec 32 := Scf.iv c0_i32_601 c1_i32_603 k2_t15
  let v682 : Index := Scalar.indexCast arg9
  let c32 : Index := 32#32
  ![0, v682.toNat, 32]
def k2_off929 (k2_t15 : Fin k2_t15_loop.trips) : Fin 4 → Nat :=
  let c0_i32_789 : BitVec 32 := 0#32
  let v685 : Index := Scalar.indexCast c0_i32_789
  let c0_i32_601 : BitVec 32 := 0#32
  let c1_i32_603 : BitVec 32 := 1#32
  let arg9 : BitVec 32 := Scf.iv c0_i32_601 c1_i32_603 k2_t15
  let v686 : Index := Scalar.indexCast arg9
  let c0_i32_790 : BitVec 32 := 0#32
  let v687 : Index := Scalar.indexCast c0_i32_790
  let c32_791 : Index := 32#32
  ![0, v686.toNat, 0, 32]
def k2_off930 (k2_t15 : Fin k2_t15_loop.trips) : Fin 3 → Nat :=
  let c0_i32_792 : BitVec 32 := 0#32
  let v691 : Index := Scalar.indexCast c0_i32_792
  let c0_i32_601 : BitVec 32 := 0#32
  let c1_i32_603 : BitVec 32 := 1#32
  let arg9 : BitVec 32 := Scf.iv c0_i32_601 c1_i32_603 k2_t15
  let v692 : Index := Scalar.indexCast arg9
  let c48 : Index := 48#32
  ![0, v692.toNat, 48]
def k2_off931 (k2_t15 : Fin k2_t15_loop.trips) : Fin 4 → Nat :=
  let c0_i32_793 : BitVec 32 := 0#32
  let v695 : Index := Scalar.indexCast c0_i32_793
  let c0_i32_601 : BitVec 32 := 0#32
  let c1_i32_603 : BitVec 32 := 1#32
  let arg9 : BitVec 32 := Scf.iv c0_i32_601 c1_i32_603 k2_t15
  let v696 : Index := Scalar.indexCast arg9
  let c0_i32_794 : BitVec 32 := 0#32
  let v697 : Index := Scalar.indexCast c0_i32_794
  let c48_795 : Index := 48#32
  ![0, v696.toNat, 0, 48]
def k2_off932 (k2_t15 : Fin k2_t15_loop.trips) : Fin 3 → Nat :=
  let c0_i32_796 : BitVec 32 := 0#32
  let v701 : Index := Scalar.indexCast c0_i32_796
  let c0_i32_601 : BitVec 32 := 0#32
  let c1_i32_603 : BitVec 32 := 1#32
  let arg9 : BitVec 32 := Scf.iv c0_i32_601 c1_i32_603 k2_t15
  let v702 : Index := Scalar.indexCast arg9
  let c64 : Index := 64#32
  ![0, v702.toNat, 64]
def k2_off933 (k2_t15 : Fin k2_t15_loop.trips) : Fin 4 → Nat :=
  let c0_i32_797 : BitVec 32 := 0#32
  let v705 : Index := Scalar.indexCast c0_i32_797
  let c0_i32_601 : BitVec 32 := 0#32
  let c1_i32_603 : BitVec 32 := 1#32
  let arg9 : BitVec 32 := Scf.iv c0_i32_601 c1_i32_603 k2_t15
  let v706 : Index := Scalar.indexCast arg9
  let c0_i32_798 : BitVec 32 := 0#32
  let v707 : Index := Scalar.indexCast c0_i32_798
  let c64_799 : Index := 64#32
  ![0, v706.toNat, 0, 64]
def k2_off934 (k2_t15 : Fin k2_t15_loop.trips) : Fin 3 → Nat :=
  let c0_i32_800 : BitVec 32 := 0#32
  let v711 : Index := Scalar.indexCast c0_i32_800
  let c0_i32_601 : BitVec 32 := 0#32
  let c1_i32_603 : BitVec 32 := 1#32
  let arg9 : BitVec 32 := Scf.iv c0_i32_601 c1_i32_603 k2_t15
  let v712 : Index := Scalar.indexCast arg9
  let c80 : Index := 80#32
  ![0, v712.toNat, 80]
def k2_off935 (k2_t15 : Fin k2_t15_loop.trips) : Fin 4 → Nat :=
  let c0_i32_801 : BitVec 32 := 0#32
  let v715 : Index := Scalar.indexCast c0_i32_801
  let c0_i32_601 : BitVec 32 := 0#32
  let c1_i32_603 : BitVec 32 := 1#32
  let arg9 : BitVec 32 := Scf.iv c0_i32_601 c1_i32_603 k2_t15
  let v716 : Index := Scalar.indexCast arg9
  let c0_i32_802 : BitVec 32 := 0#32
  let v717 : Index := Scalar.indexCast c0_i32_802
  let c80_803 : Index := 80#32
  ![0, v716.toNat, 0, 80]
def k2_off936 (k2_t15 : Fin k2_t15_loop.trips) : Fin 3 → Nat :=
  let c0_i32_804 : BitVec 32 := 0#32
  let v721 : Index := Scalar.indexCast c0_i32_804
  let c0_i32_601 : BitVec 32 := 0#32
  let c1_i32_603 : BitVec 32 := 1#32
  let arg9 : BitVec 32 := Scf.iv c0_i32_601 c1_i32_603 k2_t15
  let v722 : Index := Scalar.indexCast arg9
  let c96 : Index := 96#32
  ![0, v722.toNat, 96]
def k2_off937 (k2_t15 : Fin k2_t15_loop.trips) : Fin 4 → Nat :=
  let c0_i32_805 : BitVec 32 := 0#32
  let v725 : Index := Scalar.indexCast c0_i32_805
  let c0_i32_601 : BitVec 32 := 0#32
  let c1_i32_603 : BitVec 32 := 1#32
  let arg9 : BitVec 32 := Scf.iv c0_i32_601 c1_i32_603 k2_t15
  let v726 : Index := Scalar.indexCast arg9
  let c0_i32_806 : BitVec 32 := 0#32
  let v727 : Index := Scalar.indexCast c0_i32_806
  let c96_807 : Index := 96#32
  ![0, v726.toNat, 0, 96]
def k2_off938 (k2_t15 : Fin k2_t15_loop.trips) : Fin 3 → Nat :=
  let c0_i32_808 : BitVec 32 := 0#32
  let v731 : Index := Scalar.indexCast c0_i32_808
  let c0_i32_601 : BitVec 32 := 0#32
  let c1_i32_603 : BitVec 32 := 1#32
  let arg9 : BitVec 32 := Scf.iv c0_i32_601 c1_i32_603 k2_t15
  let v732 : Index := Scalar.indexCast arg9
  let c112 : Index := 112#32
  ![0, v732.toNat, 112]
def k2_off939 (k2_t15 : Fin k2_t15_loop.trips) : Fin 4 → Nat :=
  let c0_i32_809 : BitVec 32 := 0#32
  let v735 : Index := Scalar.indexCast c0_i32_809
  let c0_i32_601 : BitVec 32 := 0#32
  let c1_i32_603 : BitVec 32 := 1#32
  let arg9 : BitVec 32 := Scf.iv c0_i32_601 c1_i32_603 k2_t15
  let v736 : Index := Scalar.indexCast arg9
  let c0_i32_810 : BitVec 32 := 0#32
  let v737 : Index := Scalar.indexCast c0_i32_810
  let c112_811 : Index := 112#32
  ![0, v736.toNat, 0, 112]
def k2_off940 (k2_t15 : Fin k2_t15_loop.trips) : Fin 3 → Nat :=
  let c0_i32_812 : BitVec 32 := 0#32
  let v741 : Index := Scalar.indexCast c0_i32_812
  let c0_i32_601 : BitVec 32 := 0#32
  let c1_i32_603 : BitVec 32 := 1#32
  let arg9 : BitVec 32 := Scf.iv c0_i32_601 c1_i32_603 k2_t15
  let v742 : Index := Scalar.indexCast arg9
  let c128 : Index := 128#32
  ![0, v742.toNat, 128]
def k2_off941 (k2_t15 : Fin k2_t15_loop.trips) : Fin 4 → Nat :=
  let c0_i32_813 : BitVec 32 := 0#32
  let v745 : Index := Scalar.indexCast c0_i32_813
  let c0_i32_601 : BitVec 32 := 0#32
  let c1_i32_603 : BitVec 32 := 1#32
  let arg9 : BitVec 32 := Scf.iv c0_i32_601 c1_i32_603 k2_t15
  let v746 : Index := Scalar.indexCast arg9
  let c1_i32_814 : BitVec 32 := 1#32
  let v747 : Index := Scalar.indexCast c1_i32_814
  let c0_815 : Index := 0#32
  ![0, v746.toNat, 1, 0]
def k2_off942 (k2_t15 : Fin k2_t15_loop.trips) : Fin 3 → Nat :=
  let c0_i32_816 : BitVec 32 := 0#32
  let v751 : Index := Scalar.indexCast c0_i32_816
  let c0_i32_601 : BitVec 32 := 0#32
  let c1_i32_603 : BitVec 32 := 1#32
  let arg9 : BitVec 32 := Scf.iv c0_i32_601 c1_i32_603 k2_t15
  let v752 : Index := Scalar.indexCast arg9
  let c144 : Index := 144#32
  ![0, v752.toNat, 144]
def k2_off943 (k2_t15 : Fin k2_t15_loop.trips) : Fin 4 → Nat :=
  let c0_i32_817 : BitVec 32 := 0#32
  let v755 : Index := Scalar.indexCast c0_i32_817
  let c0_i32_601 : BitVec 32 := 0#32
  let c1_i32_603 : BitVec 32 := 1#32
  let arg9 : BitVec 32 := Scf.iv c0_i32_601 c1_i32_603 k2_t15
  let v756 : Index := Scalar.indexCast arg9
  let c1_i32_818 : BitVec 32 := 1#32
  let v757 : Index := Scalar.indexCast c1_i32_818
  let c16_819 : Index := 16#32
  ![0, v756.toNat, 1, 16]
def k2_off944 (k2_t15 : Fin k2_t15_loop.trips) : Fin 3 → Nat :=
  let c0_i32_820 : BitVec 32 := 0#32
  let v761 : Index := Scalar.indexCast c0_i32_820
  let c0_i32_601 : BitVec 32 := 0#32
  let c1_i32_603 : BitVec 32 := 1#32
  let arg9 : BitVec 32 := Scf.iv c0_i32_601 c1_i32_603 k2_t15
  let v762 : Index := Scalar.indexCast arg9
  let c160 : Index := 160#32
  ![0, v762.toNat, 160]
def k2_off945 (k2_t15 : Fin k2_t15_loop.trips) : Fin 4 → Nat :=
  let c0_i32_821 : BitVec 32 := 0#32
  let v765 : Index := Scalar.indexCast c0_i32_821
  let c0_i32_601 : BitVec 32 := 0#32
  let c1_i32_603 : BitVec 32 := 1#32
  let arg9 : BitVec 32 := Scf.iv c0_i32_601 c1_i32_603 k2_t15
  let v766 : Index := Scalar.indexCast arg9
  let c1_i32_822 : BitVec 32 := 1#32
  let v767 : Index := Scalar.indexCast c1_i32_822
  let c32_823 : Index := 32#32
  ![0, v766.toNat, 1, 32]
def k2_off946 (k2_t15 : Fin k2_t15_loop.trips) : Fin 3 → Nat :=
  let c0_i32_824 : BitVec 32 := 0#32
  let v771 : Index := Scalar.indexCast c0_i32_824
  let c0_i32_601 : BitVec 32 := 0#32
  let c1_i32_603 : BitVec 32 := 1#32
  let arg9 : BitVec 32 := Scf.iv c0_i32_601 c1_i32_603 k2_t15
  let v772 : Index := Scalar.indexCast arg9
  let c176 : Index := 176#32
  ![0, v772.toNat, 176]
def k2_off947 (k2_t15 : Fin k2_t15_loop.trips) : Fin 4 → Nat :=
  let c0_i32_825 : BitVec 32 := 0#32
  let v775 : Index := Scalar.indexCast c0_i32_825
  let c0_i32_601 : BitVec 32 := 0#32
  let c1_i32_603 : BitVec 32 := 1#32
  let arg9 : BitVec 32 := Scf.iv c0_i32_601 c1_i32_603 k2_t15
  let v776 : Index := Scalar.indexCast arg9
  let c1_i32_826 : BitVec 32 := 1#32
  let v777 : Index := Scalar.indexCast c1_i32_826
  let c48_827 : Index := 48#32
  ![0, v776.toNat, 1, 48]
def k2_off948 (k2_t15 : Fin k2_t15_loop.trips) : Fin 3 → Nat :=
  let c0_i32_828 : BitVec 32 := 0#32
  let v781 : Index := Scalar.indexCast c0_i32_828
  let c0_i32_601 : BitVec 32 := 0#32
  let c1_i32_603 : BitVec 32 := 1#32
  let arg9 : BitVec 32 := Scf.iv c0_i32_601 c1_i32_603 k2_t15
  let v782 : Index := Scalar.indexCast arg9
  let c192 : Index := 192#32
  ![0, v782.toNat, 192]
def k2_off949 (k2_t15 : Fin k2_t15_loop.trips) : Fin 4 → Nat :=
  let c0_i32_829 : BitVec 32 := 0#32
  let v785 : Index := Scalar.indexCast c0_i32_829
  let c0_i32_601 : BitVec 32 := 0#32
  let c1_i32_603 : BitVec 32 := 1#32
  let arg9 : BitVec 32 := Scf.iv c0_i32_601 c1_i32_603 k2_t15
  let v786 : Index := Scalar.indexCast arg9
  let c1_i32_830 : BitVec 32 := 1#32
  let v787 : Index := Scalar.indexCast c1_i32_830
  let c64_831 : Index := 64#32
  ![0, v786.toNat, 1, 64]
def k2_off950 (k2_t15 : Fin k2_t15_loop.trips) : Fin 3 → Nat :=
  let c0_i32_832 : BitVec 32 := 0#32
  let v791 : Index := Scalar.indexCast c0_i32_832
  let c0_i32_601 : BitVec 32 := 0#32
  let c1_i32_603 : BitVec 32 := 1#32
  let arg9 : BitVec 32 := Scf.iv c0_i32_601 c1_i32_603 k2_t15
  let v792 : Index := Scalar.indexCast arg9
  let c208 : Index := 208#32
  ![0, v792.toNat, 208]
def k2_off951 (k2_t15 : Fin k2_t15_loop.trips) : Fin 4 → Nat :=
  let c0_i32_833 : BitVec 32 := 0#32
  let v795 : Index := Scalar.indexCast c0_i32_833
  let c0_i32_601 : BitVec 32 := 0#32
  let c1_i32_603 : BitVec 32 := 1#32
  let arg9 : BitVec 32 := Scf.iv c0_i32_601 c1_i32_603 k2_t15
  let v796 : Index := Scalar.indexCast arg9
  let c1_i32_834 : BitVec 32 := 1#32
  let v797 : Index := Scalar.indexCast c1_i32_834
  let c80_835 : Index := 80#32
  ![0, v796.toNat, 1, 80]
def k2_off952 (k2_t15 : Fin k2_t15_loop.trips) : Fin 3 → Nat :=
  let c0_i32_836 : BitVec 32 := 0#32
  let v801 : Index := Scalar.indexCast c0_i32_836
  let c0_i32_601 : BitVec 32 := 0#32
  let c1_i32_603 : BitVec 32 := 1#32
  let arg9 : BitVec 32 := Scf.iv c0_i32_601 c1_i32_603 k2_t15
  let v802 : Index := Scalar.indexCast arg9
  let c224 : Index := 224#32
  ![0, v802.toNat, 224]
def k2_off953 (k2_t15 : Fin k2_t15_loop.trips) : Fin 4 → Nat :=
  let c0_i32_837 : BitVec 32 := 0#32
  let v805 : Index := Scalar.indexCast c0_i32_837
  let c0_i32_601 : BitVec 32 := 0#32
  let c1_i32_603 : BitVec 32 := 1#32
  let arg9 : BitVec 32 := Scf.iv c0_i32_601 c1_i32_603 k2_t15
  let v806 : Index := Scalar.indexCast arg9
  let c1_i32_838 : BitVec 32 := 1#32
  let v807 : Index := Scalar.indexCast c1_i32_838
  let c96_839 : Index := 96#32
  ![0, v806.toNat, 1, 96]
def k2_off954 (k2_t15 : Fin k2_t15_loop.trips) : Fin 3 → Nat :=
  let c0_i32_840 : BitVec 32 := 0#32
  let v811 : Index := Scalar.indexCast c0_i32_840
  let c0_i32_601 : BitVec 32 := 0#32
  let c1_i32_603 : BitVec 32 := 1#32
  let arg9 : BitVec 32 := Scf.iv c0_i32_601 c1_i32_603 k2_t15
  let v812 : Index := Scalar.indexCast arg9
  let c240 : Index := 240#32
  ![0, v812.toNat, 240]
def k2_off955 (k2_t15 : Fin k2_t15_loop.trips) : Fin 4 → Nat :=
  let c0_i32_841 : BitVec 32 := 0#32
  let v815 : Index := Scalar.indexCast c0_i32_841
  let c0_i32_601 : BitVec 32 := 0#32
  let c1_i32_603 : BitVec 32 := 1#32
  let arg9 : BitVec 32 := Scf.iv c0_i32_601 c1_i32_603 k2_t15
  let v816 : Index := Scalar.indexCast arg9
  let c1_i32_842 : BitVec 32 := 1#32
  let v817 : Index := Scalar.indexCast c1_i32_842
  let c112_843 : Index := 112#32
  ![0, v816.toNat, 1, 112]
def k2_off956 (k2_t15 : Fin k2_t15_loop.trips) : Fin 3 → Nat :=
  let c0_i32_844 : BitVec 32 := 0#32
  let v821 : Index := Scalar.indexCast c0_i32_844
  let c0_i32_601 : BitVec 32 := 0#32
  let c1_i32_603 : BitVec 32 := 1#32
  let arg9 : BitVec 32 := Scf.iv c0_i32_601 c1_i32_603 k2_t15
  let v822 : Index := Scalar.indexCast arg9
  let c256 : Index := 256#32
  ![0, v822.toNat, 256]
def k2_off957 (k2_t15 : Fin k2_t15_loop.trips) : Fin 4 → Nat :=
  let c0_i32_845 : BitVec 32 := 0#32
  let v825 : Index := Scalar.indexCast c0_i32_845
  let c0_i32_601 : BitVec 32 := 0#32
  let c1_i32_603 : BitVec 32 := 1#32
  let arg9 : BitVec 32 := Scf.iv c0_i32_601 c1_i32_603 k2_t15
  let v826 : Index := Scalar.indexCast arg9
  let c2_i32_846 : BitVec 32 := 2#32
  let v827 : Index := Scalar.indexCast c2_i32_846
  let c0_847 : Index := 0#32
  ![0, v826.toNat, 2, 0]
def k2_off958 (k2_t15 : Fin k2_t15_loop.trips) : Fin 3 → Nat :=
  let c0_i32_848 : BitVec 32 := 0#32
  let v831 : Index := Scalar.indexCast c0_i32_848
  let c0_i32_601 : BitVec 32 := 0#32
  let c1_i32_603 : BitVec 32 := 1#32
  let arg9 : BitVec 32 := Scf.iv c0_i32_601 c1_i32_603 k2_t15
  let v832 : Index := Scalar.indexCast arg9
  let c272 : Index := 272#32
  ![0, v832.toNat, 272]
def k2_off959 (k2_t15 : Fin k2_t15_loop.trips) : Fin 4 → Nat :=
  let c0_i32_849 : BitVec 32 := 0#32
  let v835 : Index := Scalar.indexCast c0_i32_849
  let c0_i32_601 : BitVec 32 := 0#32
  let c1_i32_603 : BitVec 32 := 1#32
  let arg9 : BitVec 32 := Scf.iv c0_i32_601 c1_i32_603 k2_t15
  let v836 : Index := Scalar.indexCast arg9
  let c2_i32_850 : BitVec 32 := 2#32
  let v837 : Index := Scalar.indexCast c2_i32_850
  let c16_851 : Index := 16#32
  ![0, v836.toNat, 2, 16]
def k2_off960 (k2_t15 : Fin k2_t15_loop.trips) : Fin 3 → Nat :=
  let c0_i32_852 : BitVec 32 := 0#32
  let v841 : Index := Scalar.indexCast c0_i32_852
  let c0_i32_601 : BitVec 32 := 0#32
  let c1_i32_603 : BitVec 32 := 1#32
  let arg9 : BitVec 32 := Scf.iv c0_i32_601 c1_i32_603 k2_t15
  let v842 : Index := Scalar.indexCast arg9
  let c288 : Index := 288#32
  ![0, v842.toNat, 288]
def k2_off961 (k2_t15 : Fin k2_t15_loop.trips) : Fin 4 → Nat :=
  let c0_i32_853 : BitVec 32 := 0#32
  let v845 : Index := Scalar.indexCast c0_i32_853
  let c0_i32_601 : BitVec 32 := 0#32
  let c1_i32_603 : BitVec 32 := 1#32
  let arg9 : BitVec 32 := Scf.iv c0_i32_601 c1_i32_603 k2_t15
  let v846 : Index := Scalar.indexCast arg9
  let c2_i32_854 : BitVec 32 := 2#32
  let v847 : Index := Scalar.indexCast c2_i32_854
  let c32_855 : Index := 32#32
  ![0, v846.toNat, 2, 32]
def k2_off962 (k2_t15 : Fin k2_t15_loop.trips) : Fin 3 → Nat :=
  let c0_i32_856 : BitVec 32 := 0#32
  let v851 : Index := Scalar.indexCast c0_i32_856
  let c0_i32_601 : BitVec 32 := 0#32
  let c1_i32_603 : BitVec 32 := 1#32
  let arg9 : BitVec 32 := Scf.iv c0_i32_601 c1_i32_603 k2_t15
  let v852 : Index := Scalar.indexCast arg9
  let c304 : Index := 304#32
  ![0, v852.toNat, 304]
def k2_off963 (k2_t15 : Fin k2_t15_loop.trips) : Fin 4 → Nat :=
  let c0_i32_857 : BitVec 32 := 0#32
  let v855 : Index := Scalar.indexCast c0_i32_857
  let c0_i32_601 : BitVec 32 := 0#32
  let c1_i32_603 : BitVec 32 := 1#32
  let arg9 : BitVec 32 := Scf.iv c0_i32_601 c1_i32_603 k2_t15
  let v856 : Index := Scalar.indexCast arg9
  let c2_i32_858 : BitVec 32 := 2#32
  let v857 : Index := Scalar.indexCast c2_i32_858
  let c48_859 : Index := 48#32
  ![0, v856.toNat, 2, 48]
def k2_off964 (k2_t15 : Fin k2_t15_loop.trips) : Fin 3 → Nat :=
  let c0_i32_860 : BitVec 32 := 0#32
  let v861 : Index := Scalar.indexCast c0_i32_860
  let c0_i32_601 : BitVec 32 := 0#32
  let c1_i32_603 : BitVec 32 := 1#32
  let arg9 : BitVec 32 := Scf.iv c0_i32_601 c1_i32_603 k2_t15
  let v862 : Index := Scalar.indexCast arg9
  let c320 : Index := 320#32
  ![0, v862.toNat, 320]
def k2_off965 (k2_t15 : Fin k2_t15_loop.trips) : Fin 4 → Nat :=
  let c0_i32_861 : BitVec 32 := 0#32
  let v865 : Index := Scalar.indexCast c0_i32_861
  let c0_i32_601 : BitVec 32 := 0#32
  let c1_i32_603 : BitVec 32 := 1#32
  let arg9 : BitVec 32 := Scf.iv c0_i32_601 c1_i32_603 k2_t15
  let v866 : Index := Scalar.indexCast arg9
  let c2_i32_862 : BitVec 32 := 2#32
  let v867 : Index := Scalar.indexCast c2_i32_862
  let c64_863 : Index := 64#32
  ![0, v866.toNat, 2, 64]
def k2_off966 (k2_t15 : Fin k2_t15_loop.trips) : Fin 3 → Nat :=
  let c0_i32_864 : BitVec 32 := 0#32
  let v871 : Index := Scalar.indexCast c0_i32_864
  let c0_i32_601 : BitVec 32 := 0#32
  let c1_i32_603 : BitVec 32 := 1#32
  let arg9 : BitVec 32 := Scf.iv c0_i32_601 c1_i32_603 k2_t15
  let v872 : Index := Scalar.indexCast arg9
  let c336 : Index := 336#32
  ![0, v872.toNat, 336]
def k2_off967 (k2_t15 : Fin k2_t15_loop.trips) : Fin 4 → Nat :=
  let c0_i32_865 : BitVec 32 := 0#32
  let v875 : Index := Scalar.indexCast c0_i32_865
  let c0_i32_601 : BitVec 32 := 0#32
  let c1_i32_603 : BitVec 32 := 1#32
  let arg9 : BitVec 32 := Scf.iv c0_i32_601 c1_i32_603 k2_t15
  let v876 : Index := Scalar.indexCast arg9
  let c2_i32_866 : BitVec 32 := 2#32
  let v877 : Index := Scalar.indexCast c2_i32_866
  let c80_867 : Index := 80#32
  ![0, v876.toNat, 2, 80]
def k2_off968 (k2_t15 : Fin k2_t15_loop.trips) : Fin 3 → Nat :=
  let c0_i32_868 : BitVec 32 := 0#32
  let v881 : Index := Scalar.indexCast c0_i32_868
  let c0_i32_601 : BitVec 32 := 0#32
  let c1_i32_603 : BitVec 32 := 1#32
  let arg9 : BitVec 32 := Scf.iv c0_i32_601 c1_i32_603 k2_t15
  let v882 : Index := Scalar.indexCast arg9
  let c352 : Index := 352#32
  ![0, v882.toNat, 352]
def k2_off969 (k2_t15 : Fin k2_t15_loop.trips) : Fin 4 → Nat :=
  let c0_i32_869 : BitVec 32 := 0#32
  let v885 : Index := Scalar.indexCast c0_i32_869
  let c0_i32_601 : BitVec 32 := 0#32
  let c1_i32_603 : BitVec 32 := 1#32
  let arg9 : BitVec 32 := Scf.iv c0_i32_601 c1_i32_603 k2_t15
  let v886 : Index := Scalar.indexCast arg9
  let c2_i32_870 : BitVec 32 := 2#32
  let v887 : Index := Scalar.indexCast c2_i32_870
  let c96_871 : Index := 96#32
  ![0, v886.toNat, 2, 96]
def k2_off970 (k2_t15 : Fin k2_t15_loop.trips) : Fin 3 → Nat :=
  let c0_i32_872 : BitVec 32 := 0#32
  let v891 : Index := Scalar.indexCast c0_i32_872
  let c0_i32_601 : BitVec 32 := 0#32
  let c1_i32_603 : BitVec 32 := 1#32
  let arg9 : BitVec 32 := Scf.iv c0_i32_601 c1_i32_603 k2_t15
  let v892 : Index := Scalar.indexCast arg9
  let c368 : Index := 368#32
  ![0, v892.toNat, 368]
def k2_off971 (k2_t15 : Fin k2_t15_loop.trips) : Fin 4 → Nat :=
  let c0_i32_873 : BitVec 32 := 0#32
  let v895 : Index := Scalar.indexCast c0_i32_873
  let c0_i32_601 : BitVec 32 := 0#32
  let c1_i32_603 : BitVec 32 := 1#32
  let arg9 : BitVec 32 := Scf.iv c0_i32_601 c1_i32_603 k2_t15
  let v896 : Index := Scalar.indexCast arg9
  let c2_i32_874 : BitVec 32 := 2#32
  let v897 : Index := Scalar.indexCast c2_i32_874
  let c112_875 : Index := 112#32
  ![0, v896.toNat, 2, 112]
def k2_off972 (k2_t15 : Fin k2_t15_loop.trips) : Fin 3 → Nat :=
  let c0_i32_876 : BitVec 32 := 0#32
  let v901 : Index := Scalar.indexCast c0_i32_876
  let c0_i32_601 : BitVec 32 := 0#32
  let c1_i32_603 : BitVec 32 := 1#32
  let arg9 : BitVec 32 := Scf.iv c0_i32_601 c1_i32_603 k2_t15
  let v902 : Index := Scalar.indexCast arg9
  let c384 : Index := 384#32
  ![0, v902.toNat, 384]
def k2_off973 (k2_t15 : Fin k2_t15_loop.trips) : Fin 4 → Nat :=
  let c0_i32_877 : BitVec 32 := 0#32
  let v905 : Index := Scalar.indexCast c0_i32_877
  let c0_i32_601 : BitVec 32 := 0#32
  let c1_i32_603 : BitVec 32 := 1#32
  let arg9 : BitVec 32 := Scf.iv c0_i32_601 c1_i32_603 k2_t15
  let v906 : Index := Scalar.indexCast arg9
  let c3_i32_878 : BitVec 32 := 3#32
  let v907 : Index := Scalar.indexCast c3_i32_878
  let c0_879 : Index := 0#32
  ![0, v906.toNat, 3, 0]
def k2_off974 (k2_t15 : Fin k2_t15_loop.trips) : Fin 3 → Nat :=
  let c0_i32_880 : BitVec 32 := 0#32
  let v911 : Index := Scalar.indexCast c0_i32_880
  let c0_i32_601 : BitVec 32 := 0#32
  let c1_i32_603 : BitVec 32 := 1#32
  let arg9 : BitVec 32 := Scf.iv c0_i32_601 c1_i32_603 k2_t15
  let v912 : Index := Scalar.indexCast arg9
  let c400 : Index := 400#32
  ![0, v912.toNat, 400]
def k2_off975 (k2_t15 : Fin k2_t15_loop.trips) : Fin 4 → Nat :=
  let c0_i32_881 : BitVec 32 := 0#32
  let v915 : Index := Scalar.indexCast c0_i32_881
  let c0_i32_601 : BitVec 32 := 0#32
  let c1_i32_603 : BitVec 32 := 1#32
  let arg9 : BitVec 32 := Scf.iv c0_i32_601 c1_i32_603 k2_t15
  let v916 : Index := Scalar.indexCast arg9
  let c3_i32_882 : BitVec 32 := 3#32
  let v917 : Index := Scalar.indexCast c3_i32_882
  let c16_883 : Index := 16#32
  ![0, v916.toNat, 3, 16]
def k2_off976 (k2_t15 : Fin k2_t15_loop.trips) : Fin 3 → Nat :=
  let c0_i32_884 : BitVec 32 := 0#32
  let v921 : Index := Scalar.indexCast c0_i32_884
  let c0_i32_601 : BitVec 32 := 0#32
  let c1_i32_603 : BitVec 32 := 1#32
  let arg9 : BitVec 32 := Scf.iv c0_i32_601 c1_i32_603 k2_t15
  let v922 : Index := Scalar.indexCast arg9
  let c416 : Index := 416#32
  ![0, v922.toNat, 416]
def k2_off977 (k2_t15 : Fin k2_t15_loop.trips) : Fin 4 → Nat :=
  let c0_i32_885 : BitVec 32 := 0#32
  let v925 : Index := Scalar.indexCast c0_i32_885
  let c0_i32_601 : BitVec 32 := 0#32
  let c1_i32_603 : BitVec 32 := 1#32
  let arg9 : BitVec 32 := Scf.iv c0_i32_601 c1_i32_603 k2_t15
  let v926 : Index := Scalar.indexCast arg9
  let c3_i32_886 : BitVec 32 := 3#32
  let v927 : Index := Scalar.indexCast c3_i32_886
  let c32_887 : Index := 32#32
  ![0, v926.toNat, 3, 32]
def k2_off978 (k2_t15 : Fin k2_t15_loop.trips) : Fin 3 → Nat :=
  let c0_i32_888 : BitVec 32 := 0#32
  let v931 : Index := Scalar.indexCast c0_i32_888
  let c0_i32_601 : BitVec 32 := 0#32
  let c1_i32_603 : BitVec 32 := 1#32
  let arg9 : BitVec 32 := Scf.iv c0_i32_601 c1_i32_603 k2_t15
  let v932 : Index := Scalar.indexCast arg9
  let c432 : Index := 432#32
  ![0, v932.toNat, 432]
def k2_off979 (k2_t15 : Fin k2_t15_loop.trips) : Fin 4 → Nat :=
  let c0_i32_889 : BitVec 32 := 0#32
  let v935 : Index := Scalar.indexCast c0_i32_889
  let c0_i32_601 : BitVec 32 := 0#32
  let c1_i32_603 : BitVec 32 := 1#32
  let arg9 : BitVec 32 := Scf.iv c0_i32_601 c1_i32_603 k2_t15
  let v936 : Index := Scalar.indexCast arg9
  let c3_i32_890 : BitVec 32 := 3#32
  let v937 : Index := Scalar.indexCast c3_i32_890
  let c48_891 : Index := 48#32
  ![0, v936.toNat, 3, 48]
def k2_off980 (k2_t15 : Fin k2_t15_loop.trips) : Fin 3 → Nat :=
  let c0_i32_892 : BitVec 32 := 0#32
  let v941 : Index := Scalar.indexCast c0_i32_892
  let c0_i32_601 : BitVec 32 := 0#32
  let c1_i32_603 : BitVec 32 := 1#32
  let arg9 : BitVec 32 := Scf.iv c0_i32_601 c1_i32_603 k2_t15
  let v942 : Index := Scalar.indexCast arg9
  let c448 : Index := 448#32
  ![0, v942.toNat, 448]
def k2_off981 (k2_t15 : Fin k2_t15_loop.trips) : Fin 4 → Nat :=
  let c0_i32_893 : BitVec 32 := 0#32
  let v945 : Index := Scalar.indexCast c0_i32_893
  let c0_i32_601 : BitVec 32 := 0#32
  let c1_i32_603 : BitVec 32 := 1#32
  let arg9 : BitVec 32 := Scf.iv c0_i32_601 c1_i32_603 k2_t15
  let v946 : Index := Scalar.indexCast arg9
  let c3_i32_894 : BitVec 32 := 3#32
  let v947 : Index := Scalar.indexCast c3_i32_894
  let c64_895 : Index := 64#32
  ![0, v946.toNat, 3, 64]
def k2_off982 (k2_t15 : Fin k2_t15_loop.trips) : Fin 3 → Nat :=
  let c0_i32_896 : BitVec 32 := 0#32
  let v951 : Index := Scalar.indexCast c0_i32_896
  let c0_i32_601 : BitVec 32 := 0#32
  let c1_i32_603 : BitVec 32 := 1#32
  let arg9 : BitVec 32 := Scf.iv c0_i32_601 c1_i32_603 k2_t15
  let v952 : Index := Scalar.indexCast arg9
  let c464 : Index := 464#32
  ![0, v952.toNat, 464]
def k2_off983 (k2_t15 : Fin k2_t15_loop.trips) : Fin 4 → Nat :=
  let c0_i32_897 : BitVec 32 := 0#32
  let v955 : Index := Scalar.indexCast c0_i32_897
  let c0_i32_601 : BitVec 32 := 0#32
  let c1_i32_603 : BitVec 32 := 1#32
  let arg9 : BitVec 32 := Scf.iv c0_i32_601 c1_i32_603 k2_t15
  let v956 : Index := Scalar.indexCast arg9
  let c3_i32_898 : BitVec 32 := 3#32
  let v957 : Index := Scalar.indexCast c3_i32_898
  let c80_899 : Index := 80#32
  ![0, v956.toNat, 3, 80]
def k2_off984 (k2_t15 : Fin k2_t15_loop.trips) : Fin 3 → Nat :=
  let c0_i32_900 : BitVec 32 := 0#32
  let v961 : Index := Scalar.indexCast c0_i32_900
  let c0_i32_601 : BitVec 32 := 0#32
  let c1_i32_603 : BitVec 32 := 1#32
  let arg9 : BitVec 32 := Scf.iv c0_i32_601 c1_i32_603 k2_t15
  let v962 : Index := Scalar.indexCast arg9
  let c480 : Index := 480#32
  ![0, v962.toNat, 480]
def k2_off985 (k2_t15 : Fin k2_t15_loop.trips) : Fin 4 → Nat :=
  let c0_i32_901 : BitVec 32 := 0#32
  let v965 : Index := Scalar.indexCast c0_i32_901
  let c0_i32_601 : BitVec 32 := 0#32
  let c1_i32_603 : BitVec 32 := 1#32
  let arg9 : BitVec 32 := Scf.iv c0_i32_601 c1_i32_603 k2_t15
  let v966 : Index := Scalar.indexCast arg9
  let c3_i32_902 : BitVec 32 := 3#32
  let v967 : Index := Scalar.indexCast c3_i32_902
  let c96_903 : Index := 96#32
  ![0, v966.toNat, 3, 96]
def k2_off986 (k2_t15 : Fin k2_t15_loop.trips) : Fin 3 → Nat :=
  let c0_i32_904 : BitVec 32 := 0#32
  let v971 : Index := Scalar.indexCast c0_i32_904
  let c0_i32_601 : BitVec 32 := 0#32
  let c1_i32_603 : BitVec 32 := 1#32
  let arg9 : BitVec 32 := Scf.iv c0_i32_601 c1_i32_603 k2_t15
  let v972 : Index := Scalar.indexCast arg9
  let c496 : Index := 496#32
  ![0, v972.toNat, 496]
def k2_off987 (k2_t15 : Fin k2_t15_loop.trips) : Fin 4 → Nat :=
  let c0_i32_905 : BitVec 32 := 0#32
  let v975 : Index := Scalar.indexCast c0_i32_905
  let c0_i32_601 : BitVec 32 := 0#32
  let c1_i32_603 : BitVec 32 := 1#32
  let arg9 : BitVec 32 := Scf.iv c0_i32_601 c1_i32_603 k2_t15
  let v976 : Index := Scalar.indexCast arg9
  let c3_i32_906 : BitVec 32 := 3#32
  let v977 : Index := Scalar.indexCast c3_i32_906
  let c112_907 : Index := 112#32
  ![0, v976.toNat, 3, 112]
def k2_off988 (i : grid2.Coords) : Fin 4 → Nat :=
  let c12_i32_606 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_611 : BitVec 32 := 0#32
  let c0_i32_612 : BitVec 32 := 0#32
  ![12, v2.toNat, 0, 0]
def k2_off989 (i : grid2.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_631 : BitVec 32 := 0#32
  ![14, v2.toNat, 0]
@[reducible] def k2_t16_loop : Scf.Loop 32 :=
  let c0_i32_649 : BitVec 32 := 0#32
  let c32_i32_650 : BitVec 32 := 32#32
  let v558 : BitVec 32 := Scalar.addi c0_i32_649 c32_i32_650
  let c1_i32_651 : BitVec 32 := 1#32
  ⟨c0_i32_649, v558, c1_i32_651⟩
def k2_off990 (k2_t16 : Fin k2_t16_loop.trips) : Fin 3 → Nat :=
  let c1_i32_780 : BitVec 32 := 1#32
  let v661 : Index := Scalar.indexCast c1_i32_780
  let c0_i32_649 : BitVec 32 := 0#32
  let c1_i32_651 : BitVec 32 := 1#32
  let arg9 : BitVec 32 := Scf.iv c0_i32_649 c1_i32_651 k2_t16
  let v662 : Index := Scalar.indexCast arg9
  let c0 : Index := 0#32
  ![1, v662.toNat, 0]
def k2_off991 (k2_t16 : Fin k2_t16_loop.trips) : Fin 4 → Nat :=
  let c1_i32_781 : BitVec 32 := 1#32
  let v665 : Index := Scalar.indexCast c1_i32_781
  let c0_i32_649 : BitVec 32 := 0#32
  let c1_i32_651 : BitVec 32 := 1#32
  let arg9 : BitVec 32 := Scf.iv c0_i32_649 c1_i32_651 k2_t16
  let v666 : Index := Scalar.indexCast arg9
  let c0_i32_782 : BitVec 32 := 0#32
  let v667 : Index := Scalar.indexCast c0_i32_782
  let c0_783 : Index := 0#32
  ![1, v666.toNat, 0, 0]
def k2_off992 (k2_t16 : Fin k2_t16_loop.trips) : Fin 3 → Nat :=
  let c1_i32_784 : BitVec 32 := 1#32
  let v671 : Index := Scalar.indexCast c1_i32_784
  let c0_i32_649 : BitVec 32 := 0#32
  let c1_i32_651 : BitVec 32 := 1#32
  let arg9 : BitVec 32 := Scf.iv c0_i32_649 c1_i32_651 k2_t16
  let v672 : Index := Scalar.indexCast arg9
  let c16 : Index := 16#32
  ![1, v672.toNat, 16]
def k2_off993 (k2_t16 : Fin k2_t16_loop.trips) : Fin 4 → Nat :=
  let c1_i32_785 : BitVec 32 := 1#32
  let v675 : Index := Scalar.indexCast c1_i32_785
  let c0_i32_649 : BitVec 32 := 0#32
  let c1_i32_651 : BitVec 32 := 1#32
  let arg9 : BitVec 32 := Scf.iv c0_i32_649 c1_i32_651 k2_t16
  let v676 : Index := Scalar.indexCast arg9
  let c0_i32_786 : BitVec 32 := 0#32
  let v677 : Index := Scalar.indexCast c0_i32_786
  let c16_787 : Index := 16#32
  ![1, v676.toNat, 0, 16]
def k2_off994 (k2_t16 : Fin k2_t16_loop.trips) : Fin 3 → Nat :=
  let c1_i32_788 : BitVec 32 := 1#32
  let v681 : Index := Scalar.indexCast c1_i32_788
  let c0_i32_649 : BitVec 32 := 0#32
  let c1_i32_651 : BitVec 32 := 1#32
  let arg9 : BitVec 32 := Scf.iv c0_i32_649 c1_i32_651 k2_t16
  let v682 : Index := Scalar.indexCast arg9
  let c32 : Index := 32#32
  ![1, v682.toNat, 32]
def k2_off995 (k2_t16 : Fin k2_t16_loop.trips) : Fin 4 → Nat :=
  let c1_i32_789 : BitVec 32 := 1#32
  let v685 : Index := Scalar.indexCast c1_i32_789
  let c0_i32_649 : BitVec 32 := 0#32
  let c1_i32_651 : BitVec 32 := 1#32
  let arg9 : BitVec 32 := Scf.iv c0_i32_649 c1_i32_651 k2_t16
  let v686 : Index := Scalar.indexCast arg9
  let c0_i32_790 : BitVec 32 := 0#32
  let v687 : Index := Scalar.indexCast c0_i32_790
  let c32_791 : Index := 32#32
  ![1, v686.toNat, 0, 32]
def k2_off996 (k2_t16 : Fin k2_t16_loop.trips) : Fin 3 → Nat :=
  let c1_i32_792 : BitVec 32 := 1#32
  let v691 : Index := Scalar.indexCast c1_i32_792
  let c0_i32_649 : BitVec 32 := 0#32
  let c1_i32_651 : BitVec 32 := 1#32
  let arg9 : BitVec 32 := Scf.iv c0_i32_649 c1_i32_651 k2_t16
  let v692 : Index := Scalar.indexCast arg9
  let c48 : Index := 48#32
  ![1, v692.toNat, 48]
def k2_off997 (k2_t16 : Fin k2_t16_loop.trips) : Fin 4 → Nat :=
  let c1_i32_793 : BitVec 32 := 1#32
  let v695 : Index := Scalar.indexCast c1_i32_793
  let c0_i32_649 : BitVec 32 := 0#32
  let c1_i32_651 : BitVec 32 := 1#32
  let arg9 : BitVec 32 := Scf.iv c0_i32_649 c1_i32_651 k2_t16
  let v696 : Index := Scalar.indexCast arg9
  let c0_i32_794 : BitVec 32 := 0#32
  let v697 : Index := Scalar.indexCast c0_i32_794
  let c48_795 : Index := 48#32
  ![1, v696.toNat, 0, 48]
def k2_off998 (k2_t16 : Fin k2_t16_loop.trips) : Fin 3 → Nat :=
  let c1_i32_796 : BitVec 32 := 1#32
  let v701 : Index := Scalar.indexCast c1_i32_796
  let c0_i32_649 : BitVec 32 := 0#32
  let c1_i32_651 : BitVec 32 := 1#32
  let arg9 : BitVec 32 := Scf.iv c0_i32_649 c1_i32_651 k2_t16
  let v702 : Index := Scalar.indexCast arg9
  let c64 : Index := 64#32
  ![1, v702.toNat, 64]
def k2_off999 (k2_t16 : Fin k2_t16_loop.trips) : Fin 4 → Nat :=
  let c1_i32_797 : BitVec 32 := 1#32
  let v705 : Index := Scalar.indexCast c1_i32_797
  let c0_i32_649 : BitVec 32 := 0#32
  let c1_i32_651 : BitVec 32 := 1#32
  let arg9 : BitVec 32 := Scf.iv c0_i32_649 c1_i32_651 k2_t16
  let v706 : Index := Scalar.indexCast arg9
  let c0_i32_798 : BitVec 32 := 0#32
  let v707 : Index := Scalar.indexCast c0_i32_798
  let c64_799 : Index := 64#32
  ![1, v706.toNat, 0, 64]
def k2_off1000 (k2_t16 : Fin k2_t16_loop.trips) : Fin 3 → Nat :=
  let c1_i32_800 : BitVec 32 := 1#32
  let v711 : Index := Scalar.indexCast c1_i32_800
  let c0_i32_649 : BitVec 32 := 0#32
  let c1_i32_651 : BitVec 32 := 1#32
  let arg9 : BitVec 32 := Scf.iv c0_i32_649 c1_i32_651 k2_t16
  let v712 : Index := Scalar.indexCast arg9
  let c80 : Index := 80#32
  ![1, v712.toNat, 80]
def k2_off1001 (k2_t16 : Fin k2_t16_loop.trips) : Fin 4 → Nat :=
  let c1_i32_801 : BitVec 32 := 1#32
  let v715 : Index := Scalar.indexCast c1_i32_801
  let c0_i32_649 : BitVec 32 := 0#32
  let c1_i32_651 : BitVec 32 := 1#32
  let arg9 : BitVec 32 := Scf.iv c0_i32_649 c1_i32_651 k2_t16
  let v716 : Index := Scalar.indexCast arg9
  let c0_i32_802 : BitVec 32 := 0#32
  let v717 : Index := Scalar.indexCast c0_i32_802
  let c80_803 : Index := 80#32
  ![1, v716.toNat, 0, 80]
def k2_off1002 (k2_t16 : Fin k2_t16_loop.trips) : Fin 3 → Nat :=
  let c1_i32_804 : BitVec 32 := 1#32
  let v721 : Index := Scalar.indexCast c1_i32_804
  let c0_i32_649 : BitVec 32 := 0#32
  let c1_i32_651 : BitVec 32 := 1#32
  let arg9 : BitVec 32 := Scf.iv c0_i32_649 c1_i32_651 k2_t16
  let v722 : Index := Scalar.indexCast arg9
  let c96 : Index := 96#32
  ![1, v722.toNat, 96]
def k2_off1003 (k2_t16 : Fin k2_t16_loop.trips) : Fin 4 → Nat :=
  let c1_i32_805 : BitVec 32 := 1#32
  let v725 : Index := Scalar.indexCast c1_i32_805
  let c0_i32_649 : BitVec 32 := 0#32
  let c1_i32_651 : BitVec 32 := 1#32
  let arg9 : BitVec 32 := Scf.iv c0_i32_649 c1_i32_651 k2_t16
  let v726 : Index := Scalar.indexCast arg9
  let c0_i32_806 : BitVec 32 := 0#32
  let v727 : Index := Scalar.indexCast c0_i32_806
  let c96_807 : Index := 96#32
  ![1, v726.toNat, 0, 96]
def k2_off1004 (k2_t16 : Fin k2_t16_loop.trips) : Fin 3 → Nat :=
  let c1_i32_808 : BitVec 32 := 1#32
  let v731 : Index := Scalar.indexCast c1_i32_808
  let c0_i32_649 : BitVec 32 := 0#32
  let c1_i32_651 : BitVec 32 := 1#32
  let arg9 : BitVec 32 := Scf.iv c0_i32_649 c1_i32_651 k2_t16
  let v732 : Index := Scalar.indexCast arg9
  let c112 : Index := 112#32
  ![1, v732.toNat, 112]
def k2_off1005 (k2_t16 : Fin k2_t16_loop.trips) : Fin 4 → Nat :=
  let c1_i32_809 : BitVec 32 := 1#32
  let v735 : Index := Scalar.indexCast c1_i32_809
  let c0_i32_649 : BitVec 32 := 0#32
  let c1_i32_651 : BitVec 32 := 1#32
  let arg9 : BitVec 32 := Scf.iv c0_i32_649 c1_i32_651 k2_t16
  let v736 : Index := Scalar.indexCast arg9
  let c0_i32_810 : BitVec 32 := 0#32
  let v737 : Index := Scalar.indexCast c0_i32_810
  let c112_811 : Index := 112#32
  ![1, v736.toNat, 0, 112]
def k2_off1006 (k2_t16 : Fin k2_t16_loop.trips) : Fin 3 → Nat :=
  let c1_i32_812 : BitVec 32 := 1#32
  let v741 : Index := Scalar.indexCast c1_i32_812
  let c0_i32_649 : BitVec 32 := 0#32
  let c1_i32_651 : BitVec 32 := 1#32
  let arg9 : BitVec 32 := Scf.iv c0_i32_649 c1_i32_651 k2_t16
  let v742 : Index := Scalar.indexCast arg9
  let c128 : Index := 128#32
  ![1, v742.toNat, 128]
def k2_off1007 (k2_t16 : Fin k2_t16_loop.trips) : Fin 4 → Nat :=
  let c1_i32_813 : BitVec 32 := 1#32
  let v745 : Index := Scalar.indexCast c1_i32_813
  let c0_i32_649 : BitVec 32 := 0#32
  let c1_i32_651 : BitVec 32 := 1#32
  let arg9 : BitVec 32 := Scf.iv c0_i32_649 c1_i32_651 k2_t16
  let v746 : Index := Scalar.indexCast arg9
  let c1_i32_814 : BitVec 32 := 1#32
  let v747 : Index := Scalar.indexCast c1_i32_814
  let c0_815 : Index := 0#32
  ![1, v746.toNat, 1, 0]
def k2_off1008 (k2_t16 : Fin k2_t16_loop.trips) : Fin 3 → Nat :=
  let c1_i32_816 : BitVec 32 := 1#32
  let v751 : Index := Scalar.indexCast c1_i32_816
  let c0_i32_649 : BitVec 32 := 0#32
  let c1_i32_651 : BitVec 32 := 1#32
  let arg9 : BitVec 32 := Scf.iv c0_i32_649 c1_i32_651 k2_t16
  let v752 : Index := Scalar.indexCast arg9
  let c144 : Index := 144#32
  ![1, v752.toNat, 144]
def k2_off1009 (k2_t16 : Fin k2_t16_loop.trips) : Fin 4 → Nat :=
  let c1_i32_817 : BitVec 32 := 1#32
  let v755 : Index := Scalar.indexCast c1_i32_817
  let c0_i32_649 : BitVec 32 := 0#32
  let c1_i32_651 : BitVec 32 := 1#32
  let arg9 : BitVec 32 := Scf.iv c0_i32_649 c1_i32_651 k2_t16
  let v756 : Index := Scalar.indexCast arg9
  let c1_i32_818 : BitVec 32 := 1#32
  let v757 : Index := Scalar.indexCast c1_i32_818
  let c16_819 : Index := 16#32
  ![1, v756.toNat, 1, 16]
def k2_off1010 (k2_t16 : Fin k2_t16_loop.trips) : Fin 3 → Nat :=
  let c1_i32_820 : BitVec 32 := 1#32
  let v761 : Index := Scalar.indexCast c1_i32_820
  let c0_i32_649 : BitVec 32 := 0#32
  let c1_i32_651 : BitVec 32 := 1#32
  let arg9 : BitVec 32 := Scf.iv c0_i32_649 c1_i32_651 k2_t16
  let v762 : Index := Scalar.indexCast arg9
  let c160 : Index := 160#32
  ![1, v762.toNat, 160]
def k2_off1011 (k2_t16 : Fin k2_t16_loop.trips) : Fin 4 → Nat :=
  let c1_i32_821 : BitVec 32 := 1#32
  let v765 : Index := Scalar.indexCast c1_i32_821
  let c0_i32_649 : BitVec 32 := 0#32
  let c1_i32_651 : BitVec 32 := 1#32
  let arg9 : BitVec 32 := Scf.iv c0_i32_649 c1_i32_651 k2_t16
  let v766 : Index := Scalar.indexCast arg9
  let c1_i32_822 : BitVec 32 := 1#32
  let v767 : Index := Scalar.indexCast c1_i32_822
  let c32_823 : Index := 32#32
  ![1, v766.toNat, 1, 32]
def k2_off1012 (k2_t16 : Fin k2_t16_loop.trips) : Fin 3 → Nat :=
  let c1_i32_824 : BitVec 32 := 1#32
  let v771 : Index := Scalar.indexCast c1_i32_824
  let c0_i32_649 : BitVec 32 := 0#32
  let c1_i32_651 : BitVec 32 := 1#32
  let arg9 : BitVec 32 := Scf.iv c0_i32_649 c1_i32_651 k2_t16
  let v772 : Index := Scalar.indexCast arg9
  let c176 : Index := 176#32
  ![1, v772.toNat, 176]
def k2_off1013 (k2_t16 : Fin k2_t16_loop.trips) : Fin 4 → Nat :=
  let c1_i32_825 : BitVec 32 := 1#32
  let v775 : Index := Scalar.indexCast c1_i32_825
  let c0_i32_649 : BitVec 32 := 0#32
  let c1_i32_651 : BitVec 32 := 1#32
  let arg9 : BitVec 32 := Scf.iv c0_i32_649 c1_i32_651 k2_t16
  let v776 : Index := Scalar.indexCast arg9
  let c1_i32_826 : BitVec 32 := 1#32
  let v777 : Index := Scalar.indexCast c1_i32_826
  let c48_827 : Index := 48#32
  ![1, v776.toNat, 1, 48]
def k2_off1014 (k2_t16 : Fin k2_t16_loop.trips) : Fin 3 → Nat :=
  let c1_i32_828 : BitVec 32 := 1#32
  let v781 : Index := Scalar.indexCast c1_i32_828
  let c0_i32_649 : BitVec 32 := 0#32
  let c1_i32_651 : BitVec 32 := 1#32
  let arg9 : BitVec 32 := Scf.iv c0_i32_649 c1_i32_651 k2_t16
  let v782 : Index := Scalar.indexCast arg9
  let c192 : Index := 192#32
  ![1, v782.toNat, 192]
def k2_off1015 (k2_t16 : Fin k2_t16_loop.trips) : Fin 4 → Nat :=
  let c1_i32_829 : BitVec 32 := 1#32
  let v785 : Index := Scalar.indexCast c1_i32_829
  let c0_i32_649 : BitVec 32 := 0#32
  let c1_i32_651 : BitVec 32 := 1#32
  let arg9 : BitVec 32 := Scf.iv c0_i32_649 c1_i32_651 k2_t16
  let v786 : Index := Scalar.indexCast arg9
  let c1_i32_830 : BitVec 32 := 1#32
  let v787 : Index := Scalar.indexCast c1_i32_830
  let c64_831 : Index := 64#32
  ![1, v786.toNat, 1, 64]
def k2_off1016 (k2_t16 : Fin k2_t16_loop.trips) : Fin 3 → Nat :=
  let c1_i32_832 : BitVec 32 := 1#32
  let v791 : Index := Scalar.indexCast c1_i32_832
  let c0_i32_649 : BitVec 32 := 0#32
  let c1_i32_651 : BitVec 32 := 1#32
  let arg9 : BitVec 32 := Scf.iv c0_i32_649 c1_i32_651 k2_t16
  let v792 : Index := Scalar.indexCast arg9
  let c208 : Index := 208#32
  ![1, v792.toNat, 208]
def k2_off1017 (k2_t16 : Fin k2_t16_loop.trips) : Fin 4 → Nat :=
  let c1_i32_833 : BitVec 32 := 1#32
  let v795 : Index := Scalar.indexCast c1_i32_833
  let c0_i32_649 : BitVec 32 := 0#32
  let c1_i32_651 : BitVec 32 := 1#32
  let arg9 : BitVec 32 := Scf.iv c0_i32_649 c1_i32_651 k2_t16
  let v796 : Index := Scalar.indexCast arg9
  let c1_i32_834 : BitVec 32 := 1#32
  let v797 : Index := Scalar.indexCast c1_i32_834
  let c80_835 : Index := 80#32
  ![1, v796.toNat, 1, 80]
def k2_off1018 (k2_t16 : Fin k2_t16_loop.trips) : Fin 3 → Nat :=
  let c1_i32_836 : BitVec 32 := 1#32
  let v801 : Index := Scalar.indexCast c1_i32_836
  let c0_i32_649 : BitVec 32 := 0#32
  let c1_i32_651 : BitVec 32 := 1#32
  let arg9 : BitVec 32 := Scf.iv c0_i32_649 c1_i32_651 k2_t16
  let v802 : Index := Scalar.indexCast arg9
  let c224 : Index := 224#32
  ![1, v802.toNat, 224]
def k2_off1019 (k2_t16 : Fin k2_t16_loop.trips) : Fin 4 → Nat :=
  let c1_i32_837 : BitVec 32 := 1#32
  let v805 : Index := Scalar.indexCast c1_i32_837
  let c0_i32_649 : BitVec 32 := 0#32
  let c1_i32_651 : BitVec 32 := 1#32
  let arg9 : BitVec 32 := Scf.iv c0_i32_649 c1_i32_651 k2_t16
  let v806 : Index := Scalar.indexCast arg9
  let c1_i32_838 : BitVec 32 := 1#32
  let v807 : Index := Scalar.indexCast c1_i32_838
  let c96_839 : Index := 96#32
  ![1, v806.toNat, 1, 96]
def k2_off1020 (k2_t16 : Fin k2_t16_loop.trips) : Fin 3 → Nat :=
  let c1_i32_840 : BitVec 32 := 1#32
  let v811 : Index := Scalar.indexCast c1_i32_840
  let c0_i32_649 : BitVec 32 := 0#32
  let c1_i32_651 : BitVec 32 := 1#32
  let arg9 : BitVec 32 := Scf.iv c0_i32_649 c1_i32_651 k2_t16
  let v812 : Index := Scalar.indexCast arg9
  let c240 : Index := 240#32
  ![1, v812.toNat, 240]
def k2_off1021 (k2_t16 : Fin k2_t16_loop.trips) : Fin 4 → Nat :=
  let c1_i32_841 : BitVec 32 := 1#32
  let v815 : Index := Scalar.indexCast c1_i32_841
  let c0_i32_649 : BitVec 32 := 0#32
  let c1_i32_651 : BitVec 32 := 1#32
  let arg9 : BitVec 32 := Scf.iv c0_i32_649 c1_i32_651 k2_t16
  let v816 : Index := Scalar.indexCast arg9
  let c1_i32_842 : BitVec 32 := 1#32
  let v817 : Index := Scalar.indexCast c1_i32_842
  let c112_843 : Index := 112#32
  ![1, v816.toNat, 1, 112]
def k2_off1022 (k2_t16 : Fin k2_t16_loop.trips) : Fin 3 → Nat :=
  let c1_i32_844 : BitVec 32 := 1#32
  let v821 : Index := Scalar.indexCast c1_i32_844
  let c0_i32_649 : BitVec 32 := 0#32
  let c1_i32_651 : BitVec 32 := 1#32
  let arg9 : BitVec 32 := Scf.iv c0_i32_649 c1_i32_651 k2_t16
  let v822 : Index := Scalar.indexCast arg9
  let c256 : Index := 256#32
  ![1, v822.toNat, 256]
def k2_off1023 (k2_t16 : Fin k2_t16_loop.trips) : Fin 4 → Nat :=
  let c1_i32_845 : BitVec 32 := 1#32
  let v825 : Index := Scalar.indexCast c1_i32_845
  let c0_i32_649 : BitVec 32 := 0#32
  let c1_i32_651 : BitVec 32 := 1#32
  let arg9 : BitVec 32 := Scf.iv c0_i32_649 c1_i32_651 k2_t16
  let v826 : Index := Scalar.indexCast arg9
  let c2_i32_846 : BitVec 32 := 2#32
  let v827 : Index := Scalar.indexCast c2_i32_846
  let c0_847 : Index := 0#32
  ![1, v826.toNat, 2, 0]
def k2_off1024 (k2_t16 : Fin k2_t16_loop.trips) : Fin 3 → Nat :=
  let c1_i32_848 : BitVec 32 := 1#32
  let v831 : Index := Scalar.indexCast c1_i32_848
  let c0_i32_649 : BitVec 32 := 0#32
  let c1_i32_651 : BitVec 32 := 1#32
  let arg9 : BitVec 32 := Scf.iv c0_i32_649 c1_i32_651 k2_t16
  let v832 : Index := Scalar.indexCast arg9
  let c272 : Index := 272#32
  ![1, v832.toNat, 272]
def k2_off1025 (k2_t16 : Fin k2_t16_loop.trips) : Fin 4 → Nat :=
  let c1_i32_849 : BitVec 32 := 1#32
  let v835 : Index := Scalar.indexCast c1_i32_849
  let c0_i32_649 : BitVec 32 := 0#32
  let c1_i32_651 : BitVec 32 := 1#32
  let arg9 : BitVec 32 := Scf.iv c0_i32_649 c1_i32_651 k2_t16
  let v836 : Index := Scalar.indexCast arg9
  let c2_i32_850 : BitVec 32 := 2#32
  let v837 : Index := Scalar.indexCast c2_i32_850
  let c16_851 : Index := 16#32
  ![1, v836.toNat, 2, 16]
def k2_off1026 (k2_t16 : Fin k2_t16_loop.trips) : Fin 3 → Nat :=
  let c1_i32_852 : BitVec 32 := 1#32
  let v841 : Index := Scalar.indexCast c1_i32_852
  let c0_i32_649 : BitVec 32 := 0#32
  let c1_i32_651 : BitVec 32 := 1#32
  let arg9 : BitVec 32 := Scf.iv c0_i32_649 c1_i32_651 k2_t16
  let v842 : Index := Scalar.indexCast arg9
  let c288 : Index := 288#32
  ![1, v842.toNat, 288]
def k2_off1027 (k2_t16 : Fin k2_t16_loop.trips) : Fin 4 → Nat :=
  let c1_i32_853 : BitVec 32 := 1#32
  let v845 : Index := Scalar.indexCast c1_i32_853
  let c0_i32_649 : BitVec 32 := 0#32
  let c1_i32_651 : BitVec 32 := 1#32
  let arg9 : BitVec 32 := Scf.iv c0_i32_649 c1_i32_651 k2_t16
  let v846 : Index := Scalar.indexCast arg9
  let c2_i32_854 : BitVec 32 := 2#32
  let v847 : Index := Scalar.indexCast c2_i32_854
  let c32_855 : Index := 32#32
  ![1, v846.toNat, 2, 32]
def k2_off1028 (k2_t16 : Fin k2_t16_loop.trips) : Fin 3 → Nat :=
  let c1_i32_856 : BitVec 32 := 1#32
  let v851 : Index := Scalar.indexCast c1_i32_856
  let c0_i32_649 : BitVec 32 := 0#32
  let c1_i32_651 : BitVec 32 := 1#32
  let arg9 : BitVec 32 := Scf.iv c0_i32_649 c1_i32_651 k2_t16
  let v852 : Index := Scalar.indexCast arg9
  let c304 : Index := 304#32
  ![1, v852.toNat, 304]
def k2_off1029 (k2_t16 : Fin k2_t16_loop.trips) : Fin 4 → Nat :=
  let c1_i32_857 : BitVec 32 := 1#32
  let v855 : Index := Scalar.indexCast c1_i32_857
  let c0_i32_649 : BitVec 32 := 0#32
  let c1_i32_651 : BitVec 32 := 1#32
  let arg9 : BitVec 32 := Scf.iv c0_i32_649 c1_i32_651 k2_t16
  let v856 : Index := Scalar.indexCast arg9
  let c2_i32_858 : BitVec 32 := 2#32
  let v857 : Index := Scalar.indexCast c2_i32_858
  let c48_859 : Index := 48#32
  ![1, v856.toNat, 2, 48]
def k2_off1030 (k2_t16 : Fin k2_t16_loop.trips) : Fin 3 → Nat :=
  let c1_i32_860 : BitVec 32 := 1#32
  let v861 : Index := Scalar.indexCast c1_i32_860
  let c0_i32_649 : BitVec 32 := 0#32
  let c1_i32_651 : BitVec 32 := 1#32
  let arg9 : BitVec 32 := Scf.iv c0_i32_649 c1_i32_651 k2_t16
  let v862 : Index := Scalar.indexCast arg9
  let c320 : Index := 320#32
  ![1, v862.toNat, 320]
def k2_off1031 (k2_t16 : Fin k2_t16_loop.trips) : Fin 4 → Nat :=
  let c1_i32_861 : BitVec 32 := 1#32
  let v865 : Index := Scalar.indexCast c1_i32_861
  let c0_i32_649 : BitVec 32 := 0#32
  let c1_i32_651 : BitVec 32 := 1#32
  let arg9 : BitVec 32 := Scf.iv c0_i32_649 c1_i32_651 k2_t16
  let v866 : Index := Scalar.indexCast arg9
  let c2_i32_862 : BitVec 32 := 2#32
  let v867 : Index := Scalar.indexCast c2_i32_862
  let c64_863 : Index := 64#32
  ![1, v866.toNat, 2, 64]
def k2_off1032 (k2_t16 : Fin k2_t16_loop.trips) : Fin 3 → Nat :=
  let c1_i32_864 : BitVec 32 := 1#32
  let v871 : Index := Scalar.indexCast c1_i32_864
  let c0_i32_649 : BitVec 32 := 0#32
  let c1_i32_651 : BitVec 32 := 1#32
  let arg9 : BitVec 32 := Scf.iv c0_i32_649 c1_i32_651 k2_t16
  let v872 : Index := Scalar.indexCast arg9
  let c336 : Index := 336#32
  ![1, v872.toNat, 336]
def k2_off1033 (k2_t16 : Fin k2_t16_loop.trips) : Fin 4 → Nat :=
  let c1_i32_865 : BitVec 32 := 1#32
  let v875 : Index := Scalar.indexCast c1_i32_865
  let c0_i32_649 : BitVec 32 := 0#32
  let c1_i32_651 : BitVec 32 := 1#32
  let arg9 : BitVec 32 := Scf.iv c0_i32_649 c1_i32_651 k2_t16
  let v876 : Index := Scalar.indexCast arg9
  let c2_i32_866 : BitVec 32 := 2#32
  let v877 : Index := Scalar.indexCast c2_i32_866
  let c80_867 : Index := 80#32
  ![1, v876.toNat, 2, 80]
def k2_off1034 (k2_t16 : Fin k2_t16_loop.trips) : Fin 3 → Nat :=
  let c1_i32_868 : BitVec 32 := 1#32
  let v881 : Index := Scalar.indexCast c1_i32_868
  let c0_i32_649 : BitVec 32 := 0#32
  let c1_i32_651 : BitVec 32 := 1#32
  let arg9 : BitVec 32 := Scf.iv c0_i32_649 c1_i32_651 k2_t16
  let v882 : Index := Scalar.indexCast arg9
  let c352 : Index := 352#32
  ![1, v882.toNat, 352]
def k2_off1035 (k2_t16 : Fin k2_t16_loop.trips) : Fin 4 → Nat :=
  let c1_i32_869 : BitVec 32 := 1#32
  let v885 : Index := Scalar.indexCast c1_i32_869
  let c0_i32_649 : BitVec 32 := 0#32
  let c1_i32_651 : BitVec 32 := 1#32
  let arg9 : BitVec 32 := Scf.iv c0_i32_649 c1_i32_651 k2_t16
  let v886 : Index := Scalar.indexCast arg9
  let c2_i32_870 : BitVec 32 := 2#32
  let v887 : Index := Scalar.indexCast c2_i32_870
  let c96_871 : Index := 96#32
  ![1, v886.toNat, 2, 96]
def k2_off1036 (k2_t16 : Fin k2_t16_loop.trips) : Fin 3 → Nat :=
  let c1_i32_872 : BitVec 32 := 1#32
  let v891 : Index := Scalar.indexCast c1_i32_872
  let c0_i32_649 : BitVec 32 := 0#32
  let c1_i32_651 : BitVec 32 := 1#32
  let arg9 : BitVec 32 := Scf.iv c0_i32_649 c1_i32_651 k2_t16
  let v892 : Index := Scalar.indexCast arg9
  let c368 : Index := 368#32
  ![1, v892.toNat, 368]
def k2_off1037 (k2_t16 : Fin k2_t16_loop.trips) : Fin 4 → Nat :=
  let c1_i32_873 : BitVec 32 := 1#32
  let v895 : Index := Scalar.indexCast c1_i32_873
  let c0_i32_649 : BitVec 32 := 0#32
  let c1_i32_651 : BitVec 32 := 1#32
  let arg9 : BitVec 32 := Scf.iv c0_i32_649 c1_i32_651 k2_t16
  let v896 : Index := Scalar.indexCast arg9
  let c2_i32_874 : BitVec 32 := 2#32
  let v897 : Index := Scalar.indexCast c2_i32_874
  let c112_875 : Index := 112#32
  ![1, v896.toNat, 2, 112]
def k2_off1038 (k2_t16 : Fin k2_t16_loop.trips) : Fin 3 → Nat :=
  let c1_i32_876 : BitVec 32 := 1#32
  let v901 : Index := Scalar.indexCast c1_i32_876
  let c0_i32_649 : BitVec 32 := 0#32
  let c1_i32_651 : BitVec 32 := 1#32
  let arg9 : BitVec 32 := Scf.iv c0_i32_649 c1_i32_651 k2_t16
  let v902 : Index := Scalar.indexCast arg9
  let c384 : Index := 384#32
  ![1, v902.toNat, 384]
def k2_off1039 (k2_t16 : Fin k2_t16_loop.trips) : Fin 4 → Nat :=
  let c1_i32_877 : BitVec 32 := 1#32
  let v905 : Index := Scalar.indexCast c1_i32_877
  let c0_i32_649 : BitVec 32 := 0#32
  let c1_i32_651 : BitVec 32 := 1#32
  let arg9 : BitVec 32 := Scf.iv c0_i32_649 c1_i32_651 k2_t16
  let v906 : Index := Scalar.indexCast arg9
  let c3_i32_878 : BitVec 32 := 3#32
  let v907 : Index := Scalar.indexCast c3_i32_878
  let c0_879 : Index := 0#32
  ![1, v906.toNat, 3, 0]
def k2_off1040 (k2_t16 : Fin k2_t16_loop.trips) : Fin 3 → Nat :=
  let c1_i32_880 : BitVec 32 := 1#32
  let v911 : Index := Scalar.indexCast c1_i32_880
  let c0_i32_649 : BitVec 32 := 0#32
  let c1_i32_651 : BitVec 32 := 1#32
  let arg9 : BitVec 32 := Scf.iv c0_i32_649 c1_i32_651 k2_t16
  let v912 : Index := Scalar.indexCast arg9
  let c400 : Index := 400#32
  ![1, v912.toNat, 400]
def k2_off1041 (k2_t16 : Fin k2_t16_loop.trips) : Fin 4 → Nat :=
  let c1_i32_881 : BitVec 32 := 1#32
  let v915 : Index := Scalar.indexCast c1_i32_881
  let c0_i32_649 : BitVec 32 := 0#32
  let c1_i32_651 : BitVec 32 := 1#32
  let arg9 : BitVec 32 := Scf.iv c0_i32_649 c1_i32_651 k2_t16
  let v916 : Index := Scalar.indexCast arg9
  let c3_i32_882 : BitVec 32 := 3#32
  let v917 : Index := Scalar.indexCast c3_i32_882
  let c16_883 : Index := 16#32
  ![1, v916.toNat, 3, 16]
def k2_off1042 (k2_t16 : Fin k2_t16_loop.trips) : Fin 3 → Nat :=
  let c1_i32_884 : BitVec 32 := 1#32
  let v921 : Index := Scalar.indexCast c1_i32_884
  let c0_i32_649 : BitVec 32 := 0#32
  let c1_i32_651 : BitVec 32 := 1#32
  let arg9 : BitVec 32 := Scf.iv c0_i32_649 c1_i32_651 k2_t16
  let v922 : Index := Scalar.indexCast arg9
  let c416 : Index := 416#32
  ![1, v922.toNat, 416]
def k2_off1043 (k2_t16 : Fin k2_t16_loop.trips) : Fin 4 → Nat :=
  let c1_i32_885 : BitVec 32 := 1#32
  let v925 : Index := Scalar.indexCast c1_i32_885
  let c0_i32_649 : BitVec 32 := 0#32
  let c1_i32_651 : BitVec 32 := 1#32
  let arg9 : BitVec 32 := Scf.iv c0_i32_649 c1_i32_651 k2_t16
  let v926 : Index := Scalar.indexCast arg9
  let c3_i32_886 : BitVec 32 := 3#32
  let v927 : Index := Scalar.indexCast c3_i32_886
  let c32_887 : Index := 32#32
  ![1, v926.toNat, 3, 32]
def k2_off1044 (k2_t16 : Fin k2_t16_loop.trips) : Fin 3 → Nat :=
  let c1_i32_888 : BitVec 32 := 1#32
  let v931 : Index := Scalar.indexCast c1_i32_888
  let c0_i32_649 : BitVec 32 := 0#32
  let c1_i32_651 : BitVec 32 := 1#32
  let arg9 : BitVec 32 := Scf.iv c0_i32_649 c1_i32_651 k2_t16
  let v932 : Index := Scalar.indexCast arg9
  let c432 : Index := 432#32
  ![1, v932.toNat, 432]
def k2_off1045 (k2_t16 : Fin k2_t16_loop.trips) : Fin 4 → Nat :=
  let c1_i32_889 : BitVec 32 := 1#32
  let v935 : Index := Scalar.indexCast c1_i32_889
  let c0_i32_649 : BitVec 32 := 0#32
  let c1_i32_651 : BitVec 32 := 1#32
  let arg9 : BitVec 32 := Scf.iv c0_i32_649 c1_i32_651 k2_t16
  let v936 : Index := Scalar.indexCast arg9
  let c3_i32_890 : BitVec 32 := 3#32
  let v937 : Index := Scalar.indexCast c3_i32_890
  let c48_891 : Index := 48#32
  ![1, v936.toNat, 3, 48]
def k2_off1046 (k2_t16 : Fin k2_t16_loop.trips) : Fin 3 → Nat :=
  let c1_i32_892 : BitVec 32 := 1#32
  let v941 : Index := Scalar.indexCast c1_i32_892
  let c0_i32_649 : BitVec 32 := 0#32
  let c1_i32_651 : BitVec 32 := 1#32
  let arg9 : BitVec 32 := Scf.iv c0_i32_649 c1_i32_651 k2_t16
  let v942 : Index := Scalar.indexCast arg9
  let c448 : Index := 448#32
  ![1, v942.toNat, 448]
def k2_off1047 (k2_t16 : Fin k2_t16_loop.trips) : Fin 4 → Nat :=
  let c1_i32_893 : BitVec 32 := 1#32
  let v945 : Index := Scalar.indexCast c1_i32_893
  let c0_i32_649 : BitVec 32 := 0#32
  let c1_i32_651 : BitVec 32 := 1#32
  let arg9 : BitVec 32 := Scf.iv c0_i32_649 c1_i32_651 k2_t16
  let v946 : Index := Scalar.indexCast arg9
  let c3_i32_894 : BitVec 32 := 3#32
  let v947 : Index := Scalar.indexCast c3_i32_894
  let c64_895 : Index := 64#32
  ![1, v946.toNat, 3, 64]
def k2_off1048 (k2_t16 : Fin k2_t16_loop.trips) : Fin 3 → Nat :=
  let c1_i32_896 : BitVec 32 := 1#32
  let v951 : Index := Scalar.indexCast c1_i32_896
  let c0_i32_649 : BitVec 32 := 0#32
  let c1_i32_651 : BitVec 32 := 1#32
  let arg9 : BitVec 32 := Scf.iv c0_i32_649 c1_i32_651 k2_t16
  let v952 : Index := Scalar.indexCast arg9
  let c464 : Index := 464#32
  ![1, v952.toNat, 464]
def k2_off1049 (k2_t16 : Fin k2_t16_loop.trips) : Fin 4 → Nat :=
  let c1_i32_897 : BitVec 32 := 1#32
  let v955 : Index := Scalar.indexCast c1_i32_897
  let c0_i32_649 : BitVec 32 := 0#32
  let c1_i32_651 : BitVec 32 := 1#32
  let arg9 : BitVec 32 := Scf.iv c0_i32_649 c1_i32_651 k2_t16
  let v956 : Index := Scalar.indexCast arg9
  let c3_i32_898 : BitVec 32 := 3#32
  let v957 : Index := Scalar.indexCast c3_i32_898
  let c80_899 : Index := 80#32
  ![1, v956.toNat, 3, 80]
def k2_off1050 (k2_t16 : Fin k2_t16_loop.trips) : Fin 3 → Nat :=
  let c1_i32_900 : BitVec 32 := 1#32
  let v961 : Index := Scalar.indexCast c1_i32_900
  let c0_i32_649 : BitVec 32 := 0#32
  let c1_i32_651 : BitVec 32 := 1#32
  let arg9 : BitVec 32 := Scf.iv c0_i32_649 c1_i32_651 k2_t16
  let v962 : Index := Scalar.indexCast arg9
  let c480 : Index := 480#32
  ![1, v962.toNat, 480]
def k2_off1051 (k2_t16 : Fin k2_t16_loop.trips) : Fin 4 → Nat :=
  let c1_i32_901 : BitVec 32 := 1#32
  let v965 : Index := Scalar.indexCast c1_i32_901
  let c0_i32_649 : BitVec 32 := 0#32
  let c1_i32_651 : BitVec 32 := 1#32
  let arg9 : BitVec 32 := Scf.iv c0_i32_649 c1_i32_651 k2_t16
  let v966 : Index := Scalar.indexCast arg9
  let c3_i32_902 : BitVec 32 := 3#32
  let v967 : Index := Scalar.indexCast c3_i32_902
  let c96_903 : Index := 96#32
  ![1, v966.toNat, 3, 96]
def k2_off1052 (k2_t16 : Fin k2_t16_loop.trips) : Fin 3 → Nat :=
  let c1_i32_904 : BitVec 32 := 1#32
  let v971 : Index := Scalar.indexCast c1_i32_904
  let c0_i32_649 : BitVec 32 := 0#32
  let c1_i32_651 : BitVec 32 := 1#32
  let arg9 : BitVec 32 := Scf.iv c0_i32_649 c1_i32_651 k2_t16
  let v972 : Index := Scalar.indexCast arg9
  let c496 : Index := 496#32
  ![1, v972.toNat, 496]
def k2_off1053 (k2_t16 : Fin k2_t16_loop.trips) : Fin 4 → Nat :=
  let c1_i32_905 : BitVec 32 := 1#32
  let v975 : Index := Scalar.indexCast c1_i32_905
  let c0_i32_649 : BitVec 32 := 0#32
  let c1_i32_651 : BitVec 32 := 1#32
  let arg9 : BitVec 32 := Scf.iv c0_i32_649 c1_i32_651 k2_t16
  let v976 : Index := Scalar.indexCast arg9
  let c3_i32_906 : BitVec 32 := 3#32
  let v977 : Index := Scalar.indexCast c3_i32_906
  let c112_907 : Index := 112#32
  ![1, v976.toNat, 3, 112]
def k2_off1054 (i : grid2.Coords) : Fin 4 → Nat :=
  let c13_i32_654 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_659 : BitVec 32 := 0#32
  let c0_i32_660 : BitVec 32 := 0#32
  ![13, v2.toNat, 0, 0]
def k2_off1055 (i : grid2.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_679 : BitVec 32 := 0#32
  ![15, v2.toNat, 0]
@[reducible] def k2_t17_loop : Scf.Loop 32 :=
  let c0_i32_697 : BitVec 32 := 0#32
  let c32_i32_698 : BitVec 32 := 32#32
  let v599 : BitVec 32 := Scalar.addi c0_i32_697 c32_i32_698
  let c1_i32_699 : BitVec 32 := 1#32
  ⟨c0_i32_697, v599, c1_i32_699⟩
def k2_off1056 (k2_t17 : Fin k2_t17_loop.trips) : Fin 3 → Nat :=
  let c0_i32_780 : BitVec 32 := 0#32
  let v661 : Index := Scalar.indexCast c0_i32_780
  let c0_i32_697 : BitVec 32 := 0#32
  let c1_i32_699 : BitVec 32 := 1#32
  let arg9 : BitVec 32 := Scf.iv c0_i32_697 c1_i32_699 k2_t17
  let v662 : Index := Scalar.indexCast arg9
  let c0 : Index := 0#32
  ![0, v662.toNat, 0]
def k2_off1057 (k2_t17 : Fin k2_t17_loop.trips) : Fin 4 → Nat :=
  let c0_i32_781 : BitVec 32 := 0#32
  let v665 : Index := Scalar.indexCast c0_i32_781
  let c0_i32_697 : BitVec 32 := 0#32
  let c1_i32_699 : BitVec 32 := 1#32
  let arg9 : BitVec 32 := Scf.iv c0_i32_697 c1_i32_699 k2_t17
  let v666 : Index := Scalar.indexCast arg9
  let c0_i32_782 : BitVec 32 := 0#32
  let v667 : Index := Scalar.indexCast c0_i32_782
  let c0_783 : Index := 0#32
  ![0, v666.toNat, 0, 0]
def k2_off1058 (k2_t17 : Fin k2_t17_loop.trips) : Fin 3 → Nat :=
  let c0_i32_784 : BitVec 32 := 0#32
  let v671 : Index := Scalar.indexCast c0_i32_784
  let c0_i32_697 : BitVec 32 := 0#32
  let c1_i32_699 : BitVec 32 := 1#32
  let arg9 : BitVec 32 := Scf.iv c0_i32_697 c1_i32_699 k2_t17
  let v672 : Index := Scalar.indexCast arg9
  let c16 : Index := 16#32
  ![0, v672.toNat, 16]
def k2_off1059 (k2_t17 : Fin k2_t17_loop.trips) : Fin 4 → Nat :=
  let c0_i32_785 : BitVec 32 := 0#32
  let v675 : Index := Scalar.indexCast c0_i32_785
  let c0_i32_697 : BitVec 32 := 0#32
  let c1_i32_699 : BitVec 32 := 1#32
  let arg9 : BitVec 32 := Scf.iv c0_i32_697 c1_i32_699 k2_t17
  let v676 : Index := Scalar.indexCast arg9
  let c0_i32_786 : BitVec 32 := 0#32
  let v677 : Index := Scalar.indexCast c0_i32_786
  let c16_787 : Index := 16#32
  ![0, v676.toNat, 0, 16]
def k2_off1060 (k2_t17 : Fin k2_t17_loop.trips) : Fin 3 → Nat :=
  let c0_i32_788 : BitVec 32 := 0#32
  let v681 : Index := Scalar.indexCast c0_i32_788
  let c0_i32_697 : BitVec 32 := 0#32
  let c1_i32_699 : BitVec 32 := 1#32
  let arg9 : BitVec 32 := Scf.iv c0_i32_697 c1_i32_699 k2_t17
  let v682 : Index := Scalar.indexCast arg9
  let c32 : Index := 32#32
  ![0, v682.toNat, 32]
def k2_off1061 (k2_t17 : Fin k2_t17_loop.trips) : Fin 4 → Nat :=
  let c0_i32_789 : BitVec 32 := 0#32
  let v685 : Index := Scalar.indexCast c0_i32_789
  let c0_i32_697 : BitVec 32 := 0#32
  let c1_i32_699 : BitVec 32 := 1#32
  let arg9 : BitVec 32 := Scf.iv c0_i32_697 c1_i32_699 k2_t17
  let v686 : Index := Scalar.indexCast arg9
  let c0_i32_790 : BitVec 32 := 0#32
  let v687 : Index := Scalar.indexCast c0_i32_790
  let c32_791 : Index := 32#32
  ![0, v686.toNat, 0, 32]
def k2_off1062 (k2_t17 : Fin k2_t17_loop.trips) : Fin 3 → Nat :=
  let c0_i32_792 : BitVec 32 := 0#32
  let v691 : Index := Scalar.indexCast c0_i32_792
  let c0_i32_697 : BitVec 32 := 0#32
  let c1_i32_699 : BitVec 32 := 1#32
  let arg9 : BitVec 32 := Scf.iv c0_i32_697 c1_i32_699 k2_t17
  let v692 : Index := Scalar.indexCast arg9
  let c48 : Index := 48#32
  ![0, v692.toNat, 48]
def k2_off1063 (k2_t17 : Fin k2_t17_loop.trips) : Fin 4 → Nat :=
  let c0_i32_793 : BitVec 32 := 0#32
  let v695 : Index := Scalar.indexCast c0_i32_793
  let c0_i32_697 : BitVec 32 := 0#32
  let c1_i32_699 : BitVec 32 := 1#32
  let arg9 : BitVec 32 := Scf.iv c0_i32_697 c1_i32_699 k2_t17
  let v696 : Index := Scalar.indexCast arg9
  let c0_i32_794 : BitVec 32 := 0#32
  let v697 : Index := Scalar.indexCast c0_i32_794
  let c48_795 : Index := 48#32
  ![0, v696.toNat, 0, 48]
def k2_off1064 (k2_t17 : Fin k2_t17_loop.trips) : Fin 3 → Nat :=
  let c0_i32_796 : BitVec 32 := 0#32
  let v701 : Index := Scalar.indexCast c0_i32_796
  let c0_i32_697 : BitVec 32 := 0#32
  let c1_i32_699 : BitVec 32 := 1#32
  let arg9 : BitVec 32 := Scf.iv c0_i32_697 c1_i32_699 k2_t17
  let v702 : Index := Scalar.indexCast arg9
  let c64 : Index := 64#32
  ![0, v702.toNat, 64]
def k2_off1065 (k2_t17 : Fin k2_t17_loop.trips) : Fin 4 → Nat :=
  let c0_i32_797 : BitVec 32 := 0#32
  let v705 : Index := Scalar.indexCast c0_i32_797
  let c0_i32_697 : BitVec 32 := 0#32
  let c1_i32_699 : BitVec 32 := 1#32
  let arg9 : BitVec 32 := Scf.iv c0_i32_697 c1_i32_699 k2_t17
  let v706 : Index := Scalar.indexCast arg9
  let c0_i32_798 : BitVec 32 := 0#32
  let v707 : Index := Scalar.indexCast c0_i32_798
  let c64_799 : Index := 64#32
  ![0, v706.toNat, 0, 64]
def k2_off1066 (k2_t17 : Fin k2_t17_loop.trips) : Fin 3 → Nat :=
  let c0_i32_800 : BitVec 32 := 0#32
  let v711 : Index := Scalar.indexCast c0_i32_800
  let c0_i32_697 : BitVec 32 := 0#32
  let c1_i32_699 : BitVec 32 := 1#32
  let arg9 : BitVec 32 := Scf.iv c0_i32_697 c1_i32_699 k2_t17
  let v712 : Index := Scalar.indexCast arg9
  let c80 : Index := 80#32
  ![0, v712.toNat, 80]
def k2_off1067 (k2_t17 : Fin k2_t17_loop.trips) : Fin 4 → Nat :=
  let c0_i32_801 : BitVec 32 := 0#32
  let v715 : Index := Scalar.indexCast c0_i32_801
  let c0_i32_697 : BitVec 32 := 0#32
  let c1_i32_699 : BitVec 32 := 1#32
  let arg9 : BitVec 32 := Scf.iv c0_i32_697 c1_i32_699 k2_t17
  let v716 : Index := Scalar.indexCast arg9
  let c0_i32_802 : BitVec 32 := 0#32
  let v717 : Index := Scalar.indexCast c0_i32_802
  let c80_803 : Index := 80#32
  ![0, v716.toNat, 0, 80]
def k2_off1068 (k2_t17 : Fin k2_t17_loop.trips) : Fin 3 → Nat :=
  let c0_i32_804 : BitVec 32 := 0#32
  let v721 : Index := Scalar.indexCast c0_i32_804
  let c0_i32_697 : BitVec 32 := 0#32
  let c1_i32_699 : BitVec 32 := 1#32
  let arg9 : BitVec 32 := Scf.iv c0_i32_697 c1_i32_699 k2_t17
  let v722 : Index := Scalar.indexCast arg9
  let c96 : Index := 96#32
  ![0, v722.toNat, 96]
def k2_off1069 (k2_t17 : Fin k2_t17_loop.trips) : Fin 4 → Nat :=
  let c0_i32_805 : BitVec 32 := 0#32
  let v725 : Index := Scalar.indexCast c0_i32_805
  let c0_i32_697 : BitVec 32 := 0#32
  let c1_i32_699 : BitVec 32 := 1#32
  let arg9 : BitVec 32 := Scf.iv c0_i32_697 c1_i32_699 k2_t17
  let v726 : Index := Scalar.indexCast arg9
  let c0_i32_806 : BitVec 32 := 0#32
  let v727 : Index := Scalar.indexCast c0_i32_806
  let c96_807 : Index := 96#32
  ![0, v726.toNat, 0, 96]
def k2_off1070 (k2_t17 : Fin k2_t17_loop.trips) : Fin 3 → Nat :=
  let c0_i32_808 : BitVec 32 := 0#32
  let v731 : Index := Scalar.indexCast c0_i32_808
  let c0_i32_697 : BitVec 32 := 0#32
  let c1_i32_699 : BitVec 32 := 1#32
  let arg9 : BitVec 32 := Scf.iv c0_i32_697 c1_i32_699 k2_t17
  let v732 : Index := Scalar.indexCast arg9
  let c112 : Index := 112#32
  ![0, v732.toNat, 112]
def k2_off1071 (k2_t17 : Fin k2_t17_loop.trips) : Fin 4 → Nat :=
  let c0_i32_809 : BitVec 32 := 0#32
  let v735 : Index := Scalar.indexCast c0_i32_809
  let c0_i32_697 : BitVec 32 := 0#32
  let c1_i32_699 : BitVec 32 := 1#32
  let arg9 : BitVec 32 := Scf.iv c0_i32_697 c1_i32_699 k2_t17
  let v736 : Index := Scalar.indexCast arg9
  let c0_i32_810 : BitVec 32 := 0#32
  let v737 : Index := Scalar.indexCast c0_i32_810
  let c112_811 : Index := 112#32
  ![0, v736.toNat, 0, 112]
def k2_off1072 (k2_t17 : Fin k2_t17_loop.trips) : Fin 3 → Nat :=
  let c0_i32_812 : BitVec 32 := 0#32
  let v741 : Index := Scalar.indexCast c0_i32_812
  let c0_i32_697 : BitVec 32 := 0#32
  let c1_i32_699 : BitVec 32 := 1#32
  let arg9 : BitVec 32 := Scf.iv c0_i32_697 c1_i32_699 k2_t17
  let v742 : Index := Scalar.indexCast arg9
  let c128 : Index := 128#32
  ![0, v742.toNat, 128]
def k2_off1073 (k2_t17 : Fin k2_t17_loop.trips) : Fin 4 → Nat :=
  let c0_i32_813 : BitVec 32 := 0#32
  let v745 : Index := Scalar.indexCast c0_i32_813
  let c0_i32_697 : BitVec 32 := 0#32
  let c1_i32_699 : BitVec 32 := 1#32
  let arg9 : BitVec 32 := Scf.iv c0_i32_697 c1_i32_699 k2_t17
  let v746 : Index := Scalar.indexCast arg9
  let c1_i32_814 : BitVec 32 := 1#32
  let v747 : Index := Scalar.indexCast c1_i32_814
  let c0_815 : Index := 0#32
  ![0, v746.toNat, 1, 0]
def k2_off1074 (k2_t17 : Fin k2_t17_loop.trips) : Fin 3 → Nat :=
  let c0_i32_816 : BitVec 32 := 0#32
  let v751 : Index := Scalar.indexCast c0_i32_816
  let c0_i32_697 : BitVec 32 := 0#32
  let c1_i32_699 : BitVec 32 := 1#32
  let arg9 : BitVec 32 := Scf.iv c0_i32_697 c1_i32_699 k2_t17
  let v752 : Index := Scalar.indexCast arg9
  let c144 : Index := 144#32
  ![0, v752.toNat, 144]
def k2_off1075 (k2_t17 : Fin k2_t17_loop.trips) : Fin 4 → Nat :=
  let c0_i32_817 : BitVec 32 := 0#32
  let v755 : Index := Scalar.indexCast c0_i32_817
  let c0_i32_697 : BitVec 32 := 0#32
  let c1_i32_699 : BitVec 32 := 1#32
  let arg9 : BitVec 32 := Scf.iv c0_i32_697 c1_i32_699 k2_t17
  let v756 : Index := Scalar.indexCast arg9
  let c1_i32_818 : BitVec 32 := 1#32
  let v757 : Index := Scalar.indexCast c1_i32_818
  let c16_819 : Index := 16#32
  ![0, v756.toNat, 1, 16]
def k2_off1076 (k2_t17 : Fin k2_t17_loop.trips) : Fin 3 → Nat :=
  let c0_i32_820 : BitVec 32 := 0#32
  let v761 : Index := Scalar.indexCast c0_i32_820
  let c0_i32_697 : BitVec 32 := 0#32
  let c1_i32_699 : BitVec 32 := 1#32
  let arg9 : BitVec 32 := Scf.iv c0_i32_697 c1_i32_699 k2_t17
  let v762 : Index := Scalar.indexCast arg9
  let c160 : Index := 160#32
  ![0, v762.toNat, 160]
def k2_off1077 (k2_t17 : Fin k2_t17_loop.trips) : Fin 4 → Nat :=
  let c0_i32_821 : BitVec 32 := 0#32
  let v765 : Index := Scalar.indexCast c0_i32_821
  let c0_i32_697 : BitVec 32 := 0#32
  let c1_i32_699 : BitVec 32 := 1#32
  let arg9 : BitVec 32 := Scf.iv c0_i32_697 c1_i32_699 k2_t17
  let v766 : Index := Scalar.indexCast arg9
  let c1_i32_822 : BitVec 32 := 1#32
  let v767 : Index := Scalar.indexCast c1_i32_822
  let c32_823 : Index := 32#32
  ![0, v766.toNat, 1, 32]
def k2_off1078 (k2_t17 : Fin k2_t17_loop.trips) : Fin 3 → Nat :=
  let c0_i32_824 : BitVec 32 := 0#32
  let v771 : Index := Scalar.indexCast c0_i32_824
  let c0_i32_697 : BitVec 32 := 0#32
  let c1_i32_699 : BitVec 32 := 1#32
  let arg9 : BitVec 32 := Scf.iv c0_i32_697 c1_i32_699 k2_t17
  let v772 : Index := Scalar.indexCast arg9
  let c176 : Index := 176#32
  ![0, v772.toNat, 176]
def k2_off1079 (k2_t17 : Fin k2_t17_loop.trips) : Fin 4 → Nat :=
  let c0_i32_825 : BitVec 32 := 0#32
  let v775 : Index := Scalar.indexCast c0_i32_825
  let c0_i32_697 : BitVec 32 := 0#32
  let c1_i32_699 : BitVec 32 := 1#32
  let arg9 : BitVec 32 := Scf.iv c0_i32_697 c1_i32_699 k2_t17
  let v776 : Index := Scalar.indexCast arg9
  let c1_i32_826 : BitVec 32 := 1#32
  let v777 : Index := Scalar.indexCast c1_i32_826
  let c48_827 : Index := 48#32
  ![0, v776.toNat, 1, 48]
def k2_off1080 (k2_t17 : Fin k2_t17_loop.trips) : Fin 3 → Nat :=
  let c0_i32_828 : BitVec 32 := 0#32
  let v781 : Index := Scalar.indexCast c0_i32_828
  let c0_i32_697 : BitVec 32 := 0#32
  let c1_i32_699 : BitVec 32 := 1#32
  let arg9 : BitVec 32 := Scf.iv c0_i32_697 c1_i32_699 k2_t17
  let v782 : Index := Scalar.indexCast arg9
  let c192 : Index := 192#32
  ![0, v782.toNat, 192]
def k2_off1081 (k2_t17 : Fin k2_t17_loop.trips) : Fin 4 → Nat :=
  let c0_i32_829 : BitVec 32 := 0#32
  let v785 : Index := Scalar.indexCast c0_i32_829
  let c0_i32_697 : BitVec 32 := 0#32
  let c1_i32_699 : BitVec 32 := 1#32
  let arg9 : BitVec 32 := Scf.iv c0_i32_697 c1_i32_699 k2_t17
  let v786 : Index := Scalar.indexCast arg9
  let c1_i32_830 : BitVec 32 := 1#32
  let v787 : Index := Scalar.indexCast c1_i32_830
  let c64_831 : Index := 64#32
  ![0, v786.toNat, 1, 64]
def k2_off1082 (k2_t17 : Fin k2_t17_loop.trips) : Fin 3 → Nat :=
  let c0_i32_832 : BitVec 32 := 0#32
  let v791 : Index := Scalar.indexCast c0_i32_832
  let c0_i32_697 : BitVec 32 := 0#32
  let c1_i32_699 : BitVec 32 := 1#32
  let arg9 : BitVec 32 := Scf.iv c0_i32_697 c1_i32_699 k2_t17
  let v792 : Index := Scalar.indexCast arg9
  let c208 : Index := 208#32
  ![0, v792.toNat, 208]
def k2_off1083 (k2_t17 : Fin k2_t17_loop.trips) : Fin 4 → Nat :=
  let c0_i32_833 : BitVec 32 := 0#32
  let v795 : Index := Scalar.indexCast c0_i32_833
  let c0_i32_697 : BitVec 32 := 0#32
  let c1_i32_699 : BitVec 32 := 1#32
  let arg9 : BitVec 32 := Scf.iv c0_i32_697 c1_i32_699 k2_t17
  let v796 : Index := Scalar.indexCast arg9
  let c1_i32_834 : BitVec 32 := 1#32
  let v797 : Index := Scalar.indexCast c1_i32_834
  let c80_835 : Index := 80#32
  ![0, v796.toNat, 1, 80]
def k2_off1084 (k2_t17 : Fin k2_t17_loop.trips) : Fin 3 → Nat :=
  let c0_i32_836 : BitVec 32 := 0#32
  let v801 : Index := Scalar.indexCast c0_i32_836
  let c0_i32_697 : BitVec 32 := 0#32
  let c1_i32_699 : BitVec 32 := 1#32
  let arg9 : BitVec 32 := Scf.iv c0_i32_697 c1_i32_699 k2_t17
  let v802 : Index := Scalar.indexCast arg9
  let c224 : Index := 224#32
  ![0, v802.toNat, 224]
def k2_off1085 (k2_t17 : Fin k2_t17_loop.trips) : Fin 4 → Nat :=
  let c0_i32_837 : BitVec 32 := 0#32
  let v805 : Index := Scalar.indexCast c0_i32_837
  let c0_i32_697 : BitVec 32 := 0#32
  let c1_i32_699 : BitVec 32 := 1#32
  let arg9 : BitVec 32 := Scf.iv c0_i32_697 c1_i32_699 k2_t17
  let v806 : Index := Scalar.indexCast arg9
  let c1_i32_838 : BitVec 32 := 1#32
  let v807 : Index := Scalar.indexCast c1_i32_838
  let c96_839 : Index := 96#32
  ![0, v806.toNat, 1, 96]
def k2_off1086 (k2_t17 : Fin k2_t17_loop.trips) : Fin 3 → Nat :=
  let c0_i32_840 : BitVec 32 := 0#32
  let v811 : Index := Scalar.indexCast c0_i32_840
  let c0_i32_697 : BitVec 32 := 0#32
  let c1_i32_699 : BitVec 32 := 1#32
  let arg9 : BitVec 32 := Scf.iv c0_i32_697 c1_i32_699 k2_t17
  let v812 : Index := Scalar.indexCast arg9
  let c240 : Index := 240#32
  ![0, v812.toNat, 240]
def k2_off1087 (k2_t17 : Fin k2_t17_loop.trips) : Fin 4 → Nat :=
  let c0_i32_841 : BitVec 32 := 0#32
  let v815 : Index := Scalar.indexCast c0_i32_841
  let c0_i32_697 : BitVec 32 := 0#32
  let c1_i32_699 : BitVec 32 := 1#32
  let arg9 : BitVec 32 := Scf.iv c0_i32_697 c1_i32_699 k2_t17
  let v816 : Index := Scalar.indexCast arg9
  let c1_i32_842 : BitVec 32 := 1#32
  let v817 : Index := Scalar.indexCast c1_i32_842
  let c112_843 : Index := 112#32
  ![0, v816.toNat, 1, 112]
def k2_off1088 (k2_t17 : Fin k2_t17_loop.trips) : Fin 3 → Nat :=
  let c0_i32_844 : BitVec 32 := 0#32
  let v821 : Index := Scalar.indexCast c0_i32_844
  let c0_i32_697 : BitVec 32 := 0#32
  let c1_i32_699 : BitVec 32 := 1#32
  let arg9 : BitVec 32 := Scf.iv c0_i32_697 c1_i32_699 k2_t17
  let v822 : Index := Scalar.indexCast arg9
  let c256 : Index := 256#32
  ![0, v822.toNat, 256]
def k2_off1089 (k2_t17 : Fin k2_t17_loop.trips) : Fin 4 → Nat :=
  let c0_i32_845 : BitVec 32 := 0#32
  let v825 : Index := Scalar.indexCast c0_i32_845
  let c0_i32_697 : BitVec 32 := 0#32
  let c1_i32_699 : BitVec 32 := 1#32
  let arg9 : BitVec 32 := Scf.iv c0_i32_697 c1_i32_699 k2_t17
  let v826 : Index := Scalar.indexCast arg9
  let c2_i32_846 : BitVec 32 := 2#32
  let v827 : Index := Scalar.indexCast c2_i32_846
  let c0_847 : Index := 0#32
  ![0, v826.toNat, 2, 0]
def k2_off1090 (k2_t17 : Fin k2_t17_loop.trips) : Fin 3 → Nat :=
  let c0_i32_848 : BitVec 32 := 0#32
  let v831 : Index := Scalar.indexCast c0_i32_848
  let c0_i32_697 : BitVec 32 := 0#32
  let c1_i32_699 : BitVec 32 := 1#32
  let arg9 : BitVec 32 := Scf.iv c0_i32_697 c1_i32_699 k2_t17
  let v832 : Index := Scalar.indexCast arg9
  let c272 : Index := 272#32
  ![0, v832.toNat, 272]
def k2_off1091 (k2_t17 : Fin k2_t17_loop.trips) : Fin 4 → Nat :=
  let c0_i32_849 : BitVec 32 := 0#32
  let v835 : Index := Scalar.indexCast c0_i32_849
  let c0_i32_697 : BitVec 32 := 0#32
  let c1_i32_699 : BitVec 32 := 1#32
  let arg9 : BitVec 32 := Scf.iv c0_i32_697 c1_i32_699 k2_t17
  let v836 : Index := Scalar.indexCast arg9
  let c2_i32_850 : BitVec 32 := 2#32
  let v837 : Index := Scalar.indexCast c2_i32_850
  let c16_851 : Index := 16#32
  ![0, v836.toNat, 2, 16]
def k2_off1092 (k2_t17 : Fin k2_t17_loop.trips) : Fin 3 → Nat :=
  let c0_i32_852 : BitVec 32 := 0#32
  let v841 : Index := Scalar.indexCast c0_i32_852
  let c0_i32_697 : BitVec 32 := 0#32
  let c1_i32_699 : BitVec 32 := 1#32
  let arg9 : BitVec 32 := Scf.iv c0_i32_697 c1_i32_699 k2_t17
  let v842 : Index := Scalar.indexCast arg9
  let c288 : Index := 288#32
  ![0, v842.toNat, 288]
def k2_off1093 (k2_t17 : Fin k2_t17_loop.trips) : Fin 4 → Nat :=
  let c0_i32_853 : BitVec 32 := 0#32
  let v845 : Index := Scalar.indexCast c0_i32_853
  let c0_i32_697 : BitVec 32 := 0#32
  let c1_i32_699 : BitVec 32 := 1#32
  let arg9 : BitVec 32 := Scf.iv c0_i32_697 c1_i32_699 k2_t17
  let v846 : Index := Scalar.indexCast arg9
  let c2_i32_854 : BitVec 32 := 2#32
  let v847 : Index := Scalar.indexCast c2_i32_854
  let c32_855 : Index := 32#32
  ![0, v846.toNat, 2, 32]
def k2_off1094 (k2_t17 : Fin k2_t17_loop.trips) : Fin 3 → Nat :=
  let c0_i32_856 : BitVec 32 := 0#32
  let v851 : Index := Scalar.indexCast c0_i32_856
  let c0_i32_697 : BitVec 32 := 0#32
  let c1_i32_699 : BitVec 32 := 1#32
  let arg9 : BitVec 32 := Scf.iv c0_i32_697 c1_i32_699 k2_t17
  let v852 : Index := Scalar.indexCast arg9
  let c304 : Index := 304#32
  ![0, v852.toNat, 304]
def k2_off1095 (k2_t17 : Fin k2_t17_loop.trips) : Fin 4 → Nat :=
  let c0_i32_857 : BitVec 32 := 0#32
  let v855 : Index := Scalar.indexCast c0_i32_857
  let c0_i32_697 : BitVec 32 := 0#32
  let c1_i32_699 : BitVec 32 := 1#32
  let arg9 : BitVec 32 := Scf.iv c0_i32_697 c1_i32_699 k2_t17
  let v856 : Index := Scalar.indexCast arg9
  let c2_i32_858 : BitVec 32 := 2#32
  let v857 : Index := Scalar.indexCast c2_i32_858
  let c48_859 : Index := 48#32
  ![0, v856.toNat, 2, 48]
def k2_off1096 (k2_t17 : Fin k2_t17_loop.trips) : Fin 3 → Nat :=
  let c0_i32_860 : BitVec 32 := 0#32
  let v861 : Index := Scalar.indexCast c0_i32_860
  let c0_i32_697 : BitVec 32 := 0#32
  let c1_i32_699 : BitVec 32 := 1#32
  let arg9 : BitVec 32 := Scf.iv c0_i32_697 c1_i32_699 k2_t17
  let v862 : Index := Scalar.indexCast arg9
  let c320 : Index := 320#32
  ![0, v862.toNat, 320]
def k2_off1097 (k2_t17 : Fin k2_t17_loop.trips) : Fin 4 → Nat :=
  let c0_i32_861 : BitVec 32 := 0#32
  let v865 : Index := Scalar.indexCast c0_i32_861
  let c0_i32_697 : BitVec 32 := 0#32
  let c1_i32_699 : BitVec 32 := 1#32
  let arg9 : BitVec 32 := Scf.iv c0_i32_697 c1_i32_699 k2_t17
  let v866 : Index := Scalar.indexCast arg9
  let c2_i32_862 : BitVec 32 := 2#32
  let v867 : Index := Scalar.indexCast c2_i32_862
  let c64_863 : Index := 64#32
  ![0, v866.toNat, 2, 64]
def k2_off1098 (k2_t17 : Fin k2_t17_loop.trips) : Fin 3 → Nat :=
  let c0_i32_864 : BitVec 32 := 0#32
  let v871 : Index := Scalar.indexCast c0_i32_864
  let c0_i32_697 : BitVec 32 := 0#32
  let c1_i32_699 : BitVec 32 := 1#32
  let arg9 : BitVec 32 := Scf.iv c0_i32_697 c1_i32_699 k2_t17
  let v872 : Index := Scalar.indexCast arg9
  let c336 : Index := 336#32
  ![0, v872.toNat, 336]
def k2_off1099 (k2_t17 : Fin k2_t17_loop.trips) : Fin 4 → Nat :=
  let c0_i32_865 : BitVec 32 := 0#32
  let v875 : Index := Scalar.indexCast c0_i32_865
  let c0_i32_697 : BitVec 32 := 0#32
  let c1_i32_699 : BitVec 32 := 1#32
  let arg9 : BitVec 32 := Scf.iv c0_i32_697 c1_i32_699 k2_t17
  let v876 : Index := Scalar.indexCast arg9
  let c2_i32_866 : BitVec 32 := 2#32
  let v877 : Index := Scalar.indexCast c2_i32_866
  let c80_867 : Index := 80#32
  ![0, v876.toNat, 2, 80]
def k2_off1100 (k2_t17 : Fin k2_t17_loop.trips) : Fin 3 → Nat :=
  let c0_i32_868 : BitVec 32 := 0#32
  let v881 : Index := Scalar.indexCast c0_i32_868
  let c0_i32_697 : BitVec 32 := 0#32
  let c1_i32_699 : BitVec 32 := 1#32
  let arg9 : BitVec 32 := Scf.iv c0_i32_697 c1_i32_699 k2_t17
  let v882 : Index := Scalar.indexCast arg9
  let c352 : Index := 352#32
  ![0, v882.toNat, 352]
def k2_off1101 (k2_t17 : Fin k2_t17_loop.trips) : Fin 4 → Nat :=
  let c0_i32_869 : BitVec 32 := 0#32
  let v885 : Index := Scalar.indexCast c0_i32_869
  let c0_i32_697 : BitVec 32 := 0#32
  let c1_i32_699 : BitVec 32 := 1#32
  let arg9 : BitVec 32 := Scf.iv c0_i32_697 c1_i32_699 k2_t17
  let v886 : Index := Scalar.indexCast arg9
  let c2_i32_870 : BitVec 32 := 2#32
  let v887 : Index := Scalar.indexCast c2_i32_870
  let c96_871 : Index := 96#32
  ![0, v886.toNat, 2, 96]
def k2_off1102 (k2_t17 : Fin k2_t17_loop.trips) : Fin 3 → Nat :=
  let c0_i32_872 : BitVec 32 := 0#32
  let v891 : Index := Scalar.indexCast c0_i32_872
  let c0_i32_697 : BitVec 32 := 0#32
  let c1_i32_699 : BitVec 32 := 1#32
  let arg9 : BitVec 32 := Scf.iv c0_i32_697 c1_i32_699 k2_t17
  let v892 : Index := Scalar.indexCast arg9
  let c368 : Index := 368#32
  ![0, v892.toNat, 368]
def k2_off1103 (k2_t17 : Fin k2_t17_loop.trips) : Fin 4 → Nat :=
  let c0_i32_873 : BitVec 32 := 0#32
  let v895 : Index := Scalar.indexCast c0_i32_873
  let c0_i32_697 : BitVec 32 := 0#32
  let c1_i32_699 : BitVec 32 := 1#32
  let arg9 : BitVec 32 := Scf.iv c0_i32_697 c1_i32_699 k2_t17
  let v896 : Index := Scalar.indexCast arg9
  let c2_i32_874 : BitVec 32 := 2#32
  let v897 : Index := Scalar.indexCast c2_i32_874
  let c112_875 : Index := 112#32
  ![0, v896.toNat, 2, 112]
def k2_off1104 (k2_t17 : Fin k2_t17_loop.trips) : Fin 3 → Nat :=
  let c0_i32_876 : BitVec 32 := 0#32
  let v901 : Index := Scalar.indexCast c0_i32_876
  let c0_i32_697 : BitVec 32 := 0#32
  let c1_i32_699 : BitVec 32 := 1#32
  let arg9 : BitVec 32 := Scf.iv c0_i32_697 c1_i32_699 k2_t17
  let v902 : Index := Scalar.indexCast arg9
  let c384 : Index := 384#32
  ![0, v902.toNat, 384]
def k2_off1105 (k2_t17 : Fin k2_t17_loop.trips) : Fin 4 → Nat :=
  let c0_i32_877 : BitVec 32 := 0#32
  let v905 : Index := Scalar.indexCast c0_i32_877
  let c0_i32_697 : BitVec 32 := 0#32
  let c1_i32_699 : BitVec 32 := 1#32
  let arg9 : BitVec 32 := Scf.iv c0_i32_697 c1_i32_699 k2_t17
  let v906 : Index := Scalar.indexCast arg9
  let c3_i32_878 : BitVec 32 := 3#32
  let v907 : Index := Scalar.indexCast c3_i32_878
  let c0_879 : Index := 0#32
  ![0, v906.toNat, 3, 0]
def k2_off1106 (k2_t17 : Fin k2_t17_loop.trips) : Fin 3 → Nat :=
  let c0_i32_880 : BitVec 32 := 0#32
  let v911 : Index := Scalar.indexCast c0_i32_880
  let c0_i32_697 : BitVec 32 := 0#32
  let c1_i32_699 : BitVec 32 := 1#32
  let arg9 : BitVec 32 := Scf.iv c0_i32_697 c1_i32_699 k2_t17
  let v912 : Index := Scalar.indexCast arg9
  let c400 : Index := 400#32
  ![0, v912.toNat, 400]
def k2_off1107 (k2_t17 : Fin k2_t17_loop.trips) : Fin 4 → Nat :=
  let c0_i32_881 : BitVec 32 := 0#32
  let v915 : Index := Scalar.indexCast c0_i32_881
  let c0_i32_697 : BitVec 32 := 0#32
  let c1_i32_699 : BitVec 32 := 1#32
  let arg9 : BitVec 32 := Scf.iv c0_i32_697 c1_i32_699 k2_t17
  let v916 : Index := Scalar.indexCast arg9
  let c3_i32_882 : BitVec 32 := 3#32
  let v917 : Index := Scalar.indexCast c3_i32_882
  let c16_883 : Index := 16#32
  ![0, v916.toNat, 3, 16]
def k2_off1108 (k2_t17 : Fin k2_t17_loop.trips) : Fin 3 → Nat :=
  let c0_i32_884 : BitVec 32 := 0#32
  let v921 : Index := Scalar.indexCast c0_i32_884
  let c0_i32_697 : BitVec 32 := 0#32
  let c1_i32_699 : BitVec 32 := 1#32
  let arg9 : BitVec 32 := Scf.iv c0_i32_697 c1_i32_699 k2_t17
  let v922 : Index := Scalar.indexCast arg9
  let c416 : Index := 416#32
  ![0, v922.toNat, 416]
def k2_off1109 (k2_t17 : Fin k2_t17_loop.trips) : Fin 4 → Nat :=
  let c0_i32_885 : BitVec 32 := 0#32
  let v925 : Index := Scalar.indexCast c0_i32_885
  let c0_i32_697 : BitVec 32 := 0#32
  let c1_i32_699 : BitVec 32 := 1#32
  let arg9 : BitVec 32 := Scf.iv c0_i32_697 c1_i32_699 k2_t17
  let v926 : Index := Scalar.indexCast arg9
  let c3_i32_886 : BitVec 32 := 3#32
  let v927 : Index := Scalar.indexCast c3_i32_886
  let c32_887 : Index := 32#32
  ![0, v926.toNat, 3, 32]
def k2_off1110 (k2_t17 : Fin k2_t17_loop.trips) : Fin 3 → Nat :=
  let c0_i32_888 : BitVec 32 := 0#32
  let v931 : Index := Scalar.indexCast c0_i32_888
  let c0_i32_697 : BitVec 32 := 0#32
  let c1_i32_699 : BitVec 32 := 1#32
  let arg9 : BitVec 32 := Scf.iv c0_i32_697 c1_i32_699 k2_t17
  let v932 : Index := Scalar.indexCast arg9
  let c432 : Index := 432#32
  ![0, v932.toNat, 432]
def k2_off1111 (k2_t17 : Fin k2_t17_loop.trips) : Fin 4 → Nat :=
  let c0_i32_889 : BitVec 32 := 0#32
  let v935 : Index := Scalar.indexCast c0_i32_889
  let c0_i32_697 : BitVec 32 := 0#32
  let c1_i32_699 : BitVec 32 := 1#32
  let arg9 : BitVec 32 := Scf.iv c0_i32_697 c1_i32_699 k2_t17
  let v936 : Index := Scalar.indexCast arg9
  let c3_i32_890 : BitVec 32 := 3#32
  let v937 : Index := Scalar.indexCast c3_i32_890
  let c48_891 : Index := 48#32
  ![0, v936.toNat, 3, 48]
def k2_off1112 (k2_t17 : Fin k2_t17_loop.trips) : Fin 3 → Nat :=
  let c0_i32_892 : BitVec 32 := 0#32
  let v941 : Index := Scalar.indexCast c0_i32_892
  let c0_i32_697 : BitVec 32 := 0#32
  let c1_i32_699 : BitVec 32 := 1#32
  let arg9 : BitVec 32 := Scf.iv c0_i32_697 c1_i32_699 k2_t17
  let v942 : Index := Scalar.indexCast arg9
  let c448 : Index := 448#32
  ![0, v942.toNat, 448]
def k2_off1113 (k2_t17 : Fin k2_t17_loop.trips) : Fin 4 → Nat :=
  let c0_i32_893 : BitVec 32 := 0#32
  let v945 : Index := Scalar.indexCast c0_i32_893
  let c0_i32_697 : BitVec 32 := 0#32
  let c1_i32_699 : BitVec 32 := 1#32
  let arg9 : BitVec 32 := Scf.iv c0_i32_697 c1_i32_699 k2_t17
  let v946 : Index := Scalar.indexCast arg9
  let c3_i32_894 : BitVec 32 := 3#32
  let v947 : Index := Scalar.indexCast c3_i32_894
  let c64_895 : Index := 64#32
  ![0, v946.toNat, 3, 64]
def k2_off1114 (k2_t17 : Fin k2_t17_loop.trips) : Fin 3 → Nat :=
  let c0_i32_896 : BitVec 32 := 0#32
  let v951 : Index := Scalar.indexCast c0_i32_896
  let c0_i32_697 : BitVec 32 := 0#32
  let c1_i32_699 : BitVec 32 := 1#32
  let arg9 : BitVec 32 := Scf.iv c0_i32_697 c1_i32_699 k2_t17
  let v952 : Index := Scalar.indexCast arg9
  let c464 : Index := 464#32
  ![0, v952.toNat, 464]
def k2_off1115 (k2_t17 : Fin k2_t17_loop.trips) : Fin 4 → Nat :=
  let c0_i32_897 : BitVec 32 := 0#32
  let v955 : Index := Scalar.indexCast c0_i32_897
  let c0_i32_697 : BitVec 32 := 0#32
  let c1_i32_699 : BitVec 32 := 1#32
  let arg9 : BitVec 32 := Scf.iv c0_i32_697 c1_i32_699 k2_t17
  let v956 : Index := Scalar.indexCast arg9
  let c3_i32_898 : BitVec 32 := 3#32
  let v957 : Index := Scalar.indexCast c3_i32_898
  let c80_899 : Index := 80#32
  ![0, v956.toNat, 3, 80]
def k2_off1116 (k2_t17 : Fin k2_t17_loop.trips) : Fin 3 → Nat :=
  let c0_i32_900 : BitVec 32 := 0#32
  let v961 : Index := Scalar.indexCast c0_i32_900
  let c0_i32_697 : BitVec 32 := 0#32
  let c1_i32_699 : BitVec 32 := 1#32
  let arg9 : BitVec 32 := Scf.iv c0_i32_697 c1_i32_699 k2_t17
  let v962 : Index := Scalar.indexCast arg9
  let c480 : Index := 480#32
  ![0, v962.toNat, 480]
def k2_off1117 (k2_t17 : Fin k2_t17_loop.trips) : Fin 4 → Nat :=
  let c0_i32_901 : BitVec 32 := 0#32
  let v965 : Index := Scalar.indexCast c0_i32_901
  let c0_i32_697 : BitVec 32 := 0#32
  let c1_i32_699 : BitVec 32 := 1#32
  let arg9 : BitVec 32 := Scf.iv c0_i32_697 c1_i32_699 k2_t17
  let v966 : Index := Scalar.indexCast arg9
  let c3_i32_902 : BitVec 32 := 3#32
  let v967 : Index := Scalar.indexCast c3_i32_902
  let c96_903 : Index := 96#32
  ![0, v966.toNat, 3, 96]
def k2_off1118 (k2_t17 : Fin k2_t17_loop.trips) : Fin 3 → Nat :=
  let c0_i32_904 : BitVec 32 := 0#32
  let v971 : Index := Scalar.indexCast c0_i32_904
  let c0_i32_697 : BitVec 32 := 0#32
  let c1_i32_699 : BitVec 32 := 1#32
  let arg9 : BitVec 32 := Scf.iv c0_i32_697 c1_i32_699 k2_t17
  let v972 : Index := Scalar.indexCast arg9
  let c496 : Index := 496#32
  ![0, v972.toNat, 496]
def k2_off1119 (k2_t17 : Fin k2_t17_loop.trips) : Fin 4 → Nat :=
  let c0_i32_905 : BitVec 32 := 0#32
  let v975 : Index := Scalar.indexCast c0_i32_905
  let c0_i32_697 : BitVec 32 := 0#32
  let c1_i32_699 : BitVec 32 := 1#32
  let arg9 : BitVec 32 := Scf.iv c0_i32_697 c1_i32_699 k2_t17
  let v976 : Index := Scalar.indexCast arg9
  let c3_i32_906 : BitVec 32 := 3#32
  let v977 : Index := Scalar.indexCast c3_i32_906
  let c112_907 : Index := 112#32
  ![0, v976.toNat, 3, 112]
def k2_off1120 (i : grid2.Coords) : Fin 4 → Nat :=
  let c14_i32_702 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_707 : BitVec 32 := 0#32
  let c0_i32_708 : BitVec 32 := 0#32
  ![14, v2.toNat, 0, 0]
@[reducible] def k2_t18_loop : Scf.Loop 32 :=
  let c0_i32_737 : BitVec 32 := 0#32
  let c32_i32_738 : BitVec 32 := 32#32
  let v630 : BitVec 32 := Scalar.addi c0_i32_737 c32_i32_738
  let c1_i32_739 : BitVec 32 := 1#32
  ⟨c0_i32_737, v630, c1_i32_739⟩
def k2_off1121 (k2_t18 : Fin k2_t18_loop.trips) : Fin 3 → Nat :=
  let c1_i32_780 : BitVec 32 := 1#32
  let v661 : Index := Scalar.indexCast c1_i32_780
  let c0_i32_737 : BitVec 32 := 0#32
  let c1_i32_739 : BitVec 32 := 1#32
  let arg9 : BitVec 32 := Scf.iv c0_i32_737 c1_i32_739 k2_t18
  let v662 : Index := Scalar.indexCast arg9
  let c0 : Index := 0#32
  ![1, v662.toNat, 0]
def k2_off1122 (k2_t18 : Fin k2_t18_loop.trips) : Fin 4 → Nat :=
  let c1_i32_781 : BitVec 32 := 1#32
  let v665 : Index := Scalar.indexCast c1_i32_781
  let c0_i32_737 : BitVec 32 := 0#32
  let c1_i32_739 : BitVec 32 := 1#32
  let arg9 : BitVec 32 := Scf.iv c0_i32_737 c1_i32_739 k2_t18
  let v666 : Index := Scalar.indexCast arg9
  let c0_i32_782 : BitVec 32 := 0#32
  let v667 : Index := Scalar.indexCast c0_i32_782
  let c0_783 : Index := 0#32
  ![1, v666.toNat, 0, 0]
def k2_off1123 (k2_t18 : Fin k2_t18_loop.trips) : Fin 3 → Nat :=
  let c1_i32_784 : BitVec 32 := 1#32
  let v671 : Index := Scalar.indexCast c1_i32_784
  let c0_i32_737 : BitVec 32 := 0#32
  let c1_i32_739 : BitVec 32 := 1#32
  let arg9 : BitVec 32 := Scf.iv c0_i32_737 c1_i32_739 k2_t18
  let v672 : Index := Scalar.indexCast arg9
  let c16 : Index := 16#32
  ![1, v672.toNat, 16]
def k2_off1124 (k2_t18 : Fin k2_t18_loop.trips) : Fin 4 → Nat :=
  let c1_i32_785 : BitVec 32 := 1#32
  let v675 : Index := Scalar.indexCast c1_i32_785
  let c0_i32_737 : BitVec 32 := 0#32
  let c1_i32_739 : BitVec 32 := 1#32
  let arg9 : BitVec 32 := Scf.iv c0_i32_737 c1_i32_739 k2_t18
  let v676 : Index := Scalar.indexCast arg9
  let c0_i32_786 : BitVec 32 := 0#32
  let v677 : Index := Scalar.indexCast c0_i32_786
  let c16_787 : Index := 16#32
  ![1, v676.toNat, 0, 16]
def k2_off1125 (k2_t18 : Fin k2_t18_loop.trips) : Fin 3 → Nat :=
  let c1_i32_788 : BitVec 32 := 1#32
  let v681 : Index := Scalar.indexCast c1_i32_788
  let c0_i32_737 : BitVec 32 := 0#32
  let c1_i32_739 : BitVec 32 := 1#32
  let arg9 : BitVec 32 := Scf.iv c0_i32_737 c1_i32_739 k2_t18
  let v682 : Index := Scalar.indexCast arg9
  let c32 : Index := 32#32
  ![1, v682.toNat, 32]
def k2_off1126 (k2_t18 : Fin k2_t18_loop.trips) : Fin 4 → Nat :=
  let c1_i32_789 : BitVec 32 := 1#32
  let v685 : Index := Scalar.indexCast c1_i32_789
  let c0_i32_737 : BitVec 32 := 0#32
  let c1_i32_739 : BitVec 32 := 1#32
  let arg9 : BitVec 32 := Scf.iv c0_i32_737 c1_i32_739 k2_t18
  let v686 : Index := Scalar.indexCast arg9
  let c0_i32_790 : BitVec 32 := 0#32
  let v687 : Index := Scalar.indexCast c0_i32_790
  let c32_791 : Index := 32#32
  ![1, v686.toNat, 0, 32]
def k2_off1127 (k2_t18 : Fin k2_t18_loop.trips) : Fin 3 → Nat :=
  let c1_i32_792 : BitVec 32 := 1#32
  let v691 : Index := Scalar.indexCast c1_i32_792
  let c0_i32_737 : BitVec 32 := 0#32
  let c1_i32_739 : BitVec 32 := 1#32
  let arg9 : BitVec 32 := Scf.iv c0_i32_737 c1_i32_739 k2_t18
  let v692 : Index := Scalar.indexCast arg9
  let c48 : Index := 48#32
  ![1, v692.toNat, 48]
def k2_off1128 (k2_t18 : Fin k2_t18_loop.trips) : Fin 4 → Nat :=
  let c1_i32_793 : BitVec 32 := 1#32
  let v695 : Index := Scalar.indexCast c1_i32_793
  let c0_i32_737 : BitVec 32 := 0#32
  let c1_i32_739 : BitVec 32 := 1#32
  let arg9 : BitVec 32 := Scf.iv c0_i32_737 c1_i32_739 k2_t18
  let v696 : Index := Scalar.indexCast arg9
  let c0_i32_794 : BitVec 32 := 0#32
  let v697 : Index := Scalar.indexCast c0_i32_794
  let c48_795 : Index := 48#32
  ![1, v696.toNat, 0, 48]
def k2_off1129 (k2_t18 : Fin k2_t18_loop.trips) : Fin 3 → Nat :=
  let c1_i32_796 : BitVec 32 := 1#32
  let v701 : Index := Scalar.indexCast c1_i32_796
  let c0_i32_737 : BitVec 32 := 0#32
  let c1_i32_739 : BitVec 32 := 1#32
  let arg9 : BitVec 32 := Scf.iv c0_i32_737 c1_i32_739 k2_t18
  let v702 : Index := Scalar.indexCast arg9
  let c64 : Index := 64#32
  ![1, v702.toNat, 64]
def k2_off1130 (k2_t18 : Fin k2_t18_loop.trips) : Fin 4 → Nat :=
  let c1_i32_797 : BitVec 32 := 1#32
  let v705 : Index := Scalar.indexCast c1_i32_797
  let c0_i32_737 : BitVec 32 := 0#32
  let c1_i32_739 : BitVec 32 := 1#32
  let arg9 : BitVec 32 := Scf.iv c0_i32_737 c1_i32_739 k2_t18
  let v706 : Index := Scalar.indexCast arg9
  let c0_i32_798 : BitVec 32 := 0#32
  let v707 : Index := Scalar.indexCast c0_i32_798
  let c64_799 : Index := 64#32
  ![1, v706.toNat, 0, 64]
def k2_off1131 (k2_t18 : Fin k2_t18_loop.trips) : Fin 3 → Nat :=
  let c1_i32_800 : BitVec 32 := 1#32
  let v711 : Index := Scalar.indexCast c1_i32_800
  let c0_i32_737 : BitVec 32 := 0#32
  let c1_i32_739 : BitVec 32 := 1#32
  let arg9 : BitVec 32 := Scf.iv c0_i32_737 c1_i32_739 k2_t18
  let v712 : Index := Scalar.indexCast arg9
  let c80 : Index := 80#32
  ![1, v712.toNat, 80]
def k2_off1132 (k2_t18 : Fin k2_t18_loop.trips) : Fin 4 → Nat :=
  let c1_i32_801 : BitVec 32 := 1#32
  let v715 : Index := Scalar.indexCast c1_i32_801
  let c0_i32_737 : BitVec 32 := 0#32
  let c1_i32_739 : BitVec 32 := 1#32
  let arg9 : BitVec 32 := Scf.iv c0_i32_737 c1_i32_739 k2_t18
  let v716 : Index := Scalar.indexCast arg9
  let c0_i32_802 : BitVec 32 := 0#32
  let v717 : Index := Scalar.indexCast c0_i32_802
  let c80_803 : Index := 80#32
  ![1, v716.toNat, 0, 80]
def k2_off1133 (k2_t18 : Fin k2_t18_loop.trips) : Fin 3 → Nat :=
  let c1_i32_804 : BitVec 32 := 1#32
  let v721 : Index := Scalar.indexCast c1_i32_804
  let c0_i32_737 : BitVec 32 := 0#32
  let c1_i32_739 : BitVec 32 := 1#32
  let arg9 : BitVec 32 := Scf.iv c0_i32_737 c1_i32_739 k2_t18
  let v722 : Index := Scalar.indexCast arg9
  let c96 : Index := 96#32
  ![1, v722.toNat, 96]
def k2_off1134 (k2_t18 : Fin k2_t18_loop.trips) : Fin 4 → Nat :=
  let c1_i32_805 : BitVec 32 := 1#32
  let v725 : Index := Scalar.indexCast c1_i32_805
  let c0_i32_737 : BitVec 32 := 0#32
  let c1_i32_739 : BitVec 32 := 1#32
  let arg9 : BitVec 32 := Scf.iv c0_i32_737 c1_i32_739 k2_t18
  let v726 : Index := Scalar.indexCast arg9
  let c0_i32_806 : BitVec 32 := 0#32
  let v727 : Index := Scalar.indexCast c0_i32_806
  let c96_807 : Index := 96#32
  ![1, v726.toNat, 0, 96]
def k2_off1135 (k2_t18 : Fin k2_t18_loop.trips) : Fin 3 → Nat :=
  let c1_i32_808 : BitVec 32 := 1#32
  let v731 : Index := Scalar.indexCast c1_i32_808
  let c0_i32_737 : BitVec 32 := 0#32
  let c1_i32_739 : BitVec 32 := 1#32
  let arg9 : BitVec 32 := Scf.iv c0_i32_737 c1_i32_739 k2_t18
  let v732 : Index := Scalar.indexCast arg9
  let c112 : Index := 112#32
  ![1, v732.toNat, 112]
def k2_off1136 (k2_t18 : Fin k2_t18_loop.trips) : Fin 4 → Nat :=
  let c1_i32_809 : BitVec 32 := 1#32
  let v735 : Index := Scalar.indexCast c1_i32_809
  let c0_i32_737 : BitVec 32 := 0#32
  let c1_i32_739 : BitVec 32 := 1#32
  let arg9 : BitVec 32 := Scf.iv c0_i32_737 c1_i32_739 k2_t18
  let v736 : Index := Scalar.indexCast arg9
  let c0_i32_810 : BitVec 32 := 0#32
  let v737 : Index := Scalar.indexCast c0_i32_810
  let c112_811 : Index := 112#32
  ![1, v736.toNat, 0, 112]
def k2_off1137 (k2_t18 : Fin k2_t18_loop.trips) : Fin 3 → Nat :=
  let c1_i32_812 : BitVec 32 := 1#32
  let v741 : Index := Scalar.indexCast c1_i32_812
  let c0_i32_737 : BitVec 32 := 0#32
  let c1_i32_739 : BitVec 32 := 1#32
  let arg9 : BitVec 32 := Scf.iv c0_i32_737 c1_i32_739 k2_t18
  let v742 : Index := Scalar.indexCast arg9
  let c128 : Index := 128#32
  ![1, v742.toNat, 128]
def k2_off1138 (k2_t18 : Fin k2_t18_loop.trips) : Fin 4 → Nat :=
  let c1_i32_813 : BitVec 32 := 1#32
  let v745 : Index := Scalar.indexCast c1_i32_813
  let c0_i32_737 : BitVec 32 := 0#32
  let c1_i32_739 : BitVec 32 := 1#32
  let arg9 : BitVec 32 := Scf.iv c0_i32_737 c1_i32_739 k2_t18
  let v746 : Index := Scalar.indexCast arg9
  let c1_i32_814 : BitVec 32 := 1#32
  let v747 : Index := Scalar.indexCast c1_i32_814
  let c0_815 : Index := 0#32
  ![1, v746.toNat, 1, 0]
def k2_off1139 (k2_t18 : Fin k2_t18_loop.trips) : Fin 3 → Nat :=
  let c1_i32_816 : BitVec 32 := 1#32
  let v751 : Index := Scalar.indexCast c1_i32_816
  let c0_i32_737 : BitVec 32 := 0#32
  let c1_i32_739 : BitVec 32 := 1#32
  let arg9 : BitVec 32 := Scf.iv c0_i32_737 c1_i32_739 k2_t18
  let v752 : Index := Scalar.indexCast arg9
  let c144 : Index := 144#32
  ![1, v752.toNat, 144]
def k2_off1140 (k2_t18 : Fin k2_t18_loop.trips) : Fin 4 → Nat :=
  let c1_i32_817 : BitVec 32 := 1#32
  let v755 : Index := Scalar.indexCast c1_i32_817
  let c0_i32_737 : BitVec 32 := 0#32
  let c1_i32_739 : BitVec 32 := 1#32
  let arg9 : BitVec 32 := Scf.iv c0_i32_737 c1_i32_739 k2_t18
  let v756 : Index := Scalar.indexCast arg9
  let c1_i32_818 : BitVec 32 := 1#32
  let v757 : Index := Scalar.indexCast c1_i32_818
  let c16_819 : Index := 16#32
  ![1, v756.toNat, 1, 16]
def k2_off1141 (k2_t18 : Fin k2_t18_loop.trips) : Fin 3 → Nat :=
  let c1_i32_820 : BitVec 32 := 1#32
  let v761 : Index := Scalar.indexCast c1_i32_820
  let c0_i32_737 : BitVec 32 := 0#32
  let c1_i32_739 : BitVec 32 := 1#32
  let arg9 : BitVec 32 := Scf.iv c0_i32_737 c1_i32_739 k2_t18
  let v762 : Index := Scalar.indexCast arg9
  let c160 : Index := 160#32
  ![1, v762.toNat, 160]
def k2_off1142 (k2_t18 : Fin k2_t18_loop.trips) : Fin 4 → Nat :=
  let c1_i32_821 : BitVec 32 := 1#32
  let v765 : Index := Scalar.indexCast c1_i32_821
  let c0_i32_737 : BitVec 32 := 0#32
  let c1_i32_739 : BitVec 32 := 1#32
  let arg9 : BitVec 32 := Scf.iv c0_i32_737 c1_i32_739 k2_t18
  let v766 : Index := Scalar.indexCast arg9
  let c1_i32_822 : BitVec 32 := 1#32
  let v767 : Index := Scalar.indexCast c1_i32_822
  let c32_823 : Index := 32#32
  ![1, v766.toNat, 1, 32]
def k2_off1143 (k2_t18 : Fin k2_t18_loop.trips) : Fin 3 → Nat :=
  let c1_i32_824 : BitVec 32 := 1#32
  let v771 : Index := Scalar.indexCast c1_i32_824
  let c0_i32_737 : BitVec 32 := 0#32
  let c1_i32_739 : BitVec 32 := 1#32
  let arg9 : BitVec 32 := Scf.iv c0_i32_737 c1_i32_739 k2_t18
  let v772 : Index := Scalar.indexCast arg9
  let c176 : Index := 176#32
  ![1, v772.toNat, 176]
def k2_off1144 (k2_t18 : Fin k2_t18_loop.trips) : Fin 4 → Nat :=
  let c1_i32_825 : BitVec 32 := 1#32
  let v775 : Index := Scalar.indexCast c1_i32_825
  let c0_i32_737 : BitVec 32 := 0#32
  let c1_i32_739 : BitVec 32 := 1#32
  let arg9 : BitVec 32 := Scf.iv c0_i32_737 c1_i32_739 k2_t18
  let v776 : Index := Scalar.indexCast arg9
  let c1_i32_826 : BitVec 32 := 1#32
  let v777 : Index := Scalar.indexCast c1_i32_826
  let c48_827 : Index := 48#32
  ![1, v776.toNat, 1, 48]
def k2_off1145 (k2_t18 : Fin k2_t18_loop.trips) : Fin 3 → Nat :=
  let c1_i32_828 : BitVec 32 := 1#32
  let v781 : Index := Scalar.indexCast c1_i32_828
  let c0_i32_737 : BitVec 32 := 0#32
  let c1_i32_739 : BitVec 32 := 1#32
  let arg9 : BitVec 32 := Scf.iv c0_i32_737 c1_i32_739 k2_t18
  let v782 : Index := Scalar.indexCast arg9
  let c192 : Index := 192#32
  ![1, v782.toNat, 192]
def k2_off1146 (k2_t18 : Fin k2_t18_loop.trips) : Fin 4 → Nat :=
  let c1_i32_829 : BitVec 32 := 1#32
  let v785 : Index := Scalar.indexCast c1_i32_829
  let c0_i32_737 : BitVec 32 := 0#32
  let c1_i32_739 : BitVec 32 := 1#32
  let arg9 : BitVec 32 := Scf.iv c0_i32_737 c1_i32_739 k2_t18
  let v786 : Index := Scalar.indexCast arg9
  let c1_i32_830 : BitVec 32 := 1#32
  let v787 : Index := Scalar.indexCast c1_i32_830
  let c64_831 : Index := 64#32
  ![1, v786.toNat, 1, 64]
def k2_off1147 (k2_t18 : Fin k2_t18_loop.trips) : Fin 3 → Nat :=
  let c1_i32_832 : BitVec 32 := 1#32
  let v791 : Index := Scalar.indexCast c1_i32_832
  let c0_i32_737 : BitVec 32 := 0#32
  let c1_i32_739 : BitVec 32 := 1#32
  let arg9 : BitVec 32 := Scf.iv c0_i32_737 c1_i32_739 k2_t18
  let v792 : Index := Scalar.indexCast arg9
  let c208 : Index := 208#32
  ![1, v792.toNat, 208]
def k2_off1148 (k2_t18 : Fin k2_t18_loop.trips) : Fin 4 → Nat :=
  let c1_i32_833 : BitVec 32 := 1#32
  let v795 : Index := Scalar.indexCast c1_i32_833
  let c0_i32_737 : BitVec 32 := 0#32
  let c1_i32_739 : BitVec 32 := 1#32
  let arg9 : BitVec 32 := Scf.iv c0_i32_737 c1_i32_739 k2_t18
  let v796 : Index := Scalar.indexCast arg9
  let c1_i32_834 : BitVec 32 := 1#32
  let v797 : Index := Scalar.indexCast c1_i32_834
  let c80_835 : Index := 80#32
  ![1, v796.toNat, 1, 80]
def k2_off1149 (k2_t18 : Fin k2_t18_loop.trips) : Fin 3 → Nat :=
  let c1_i32_836 : BitVec 32 := 1#32
  let v801 : Index := Scalar.indexCast c1_i32_836
  let c0_i32_737 : BitVec 32 := 0#32
  let c1_i32_739 : BitVec 32 := 1#32
  let arg9 : BitVec 32 := Scf.iv c0_i32_737 c1_i32_739 k2_t18
  let v802 : Index := Scalar.indexCast arg9
  let c224 : Index := 224#32
  ![1, v802.toNat, 224]
def k2_off1150 (k2_t18 : Fin k2_t18_loop.trips) : Fin 4 → Nat :=
  let c1_i32_837 : BitVec 32 := 1#32
  let v805 : Index := Scalar.indexCast c1_i32_837
  let c0_i32_737 : BitVec 32 := 0#32
  let c1_i32_739 : BitVec 32 := 1#32
  let arg9 : BitVec 32 := Scf.iv c0_i32_737 c1_i32_739 k2_t18
  let v806 : Index := Scalar.indexCast arg9
  let c1_i32_838 : BitVec 32 := 1#32
  let v807 : Index := Scalar.indexCast c1_i32_838
  let c96_839 : Index := 96#32
  ![1, v806.toNat, 1, 96]
def k2_off1151 (k2_t18 : Fin k2_t18_loop.trips) : Fin 3 → Nat :=
  let c1_i32_840 : BitVec 32 := 1#32
  let v811 : Index := Scalar.indexCast c1_i32_840
  let c0_i32_737 : BitVec 32 := 0#32
  let c1_i32_739 : BitVec 32 := 1#32
  let arg9 : BitVec 32 := Scf.iv c0_i32_737 c1_i32_739 k2_t18
  let v812 : Index := Scalar.indexCast arg9
  let c240 : Index := 240#32
  ![1, v812.toNat, 240]
def k2_off1152 (k2_t18 : Fin k2_t18_loop.trips) : Fin 4 → Nat :=
  let c1_i32_841 : BitVec 32 := 1#32
  let v815 : Index := Scalar.indexCast c1_i32_841
  let c0_i32_737 : BitVec 32 := 0#32
  let c1_i32_739 : BitVec 32 := 1#32
  let arg9 : BitVec 32 := Scf.iv c0_i32_737 c1_i32_739 k2_t18
  let v816 : Index := Scalar.indexCast arg9
  let c1_i32_842 : BitVec 32 := 1#32
  let v817 : Index := Scalar.indexCast c1_i32_842
  let c112_843 : Index := 112#32
  ![1, v816.toNat, 1, 112]
def k2_off1153 (k2_t18 : Fin k2_t18_loop.trips) : Fin 3 → Nat :=
  let c1_i32_844 : BitVec 32 := 1#32
  let v821 : Index := Scalar.indexCast c1_i32_844
  let c0_i32_737 : BitVec 32 := 0#32
  let c1_i32_739 : BitVec 32 := 1#32
  let arg9 : BitVec 32 := Scf.iv c0_i32_737 c1_i32_739 k2_t18
  let v822 : Index := Scalar.indexCast arg9
  let c256 : Index := 256#32
  ![1, v822.toNat, 256]
def k2_off1154 (k2_t18 : Fin k2_t18_loop.trips) : Fin 4 → Nat :=
  let c1_i32_845 : BitVec 32 := 1#32
  let v825 : Index := Scalar.indexCast c1_i32_845
  let c0_i32_737 : BitVec 32 := 0#32
  let c1_i32_739 : BitVec 32 := 1#32
  let arg9 : BitVec 32 := Scf.iv c0_i32_737 c1_i32_739 k2_t18
  let v826 : Index := Scalar.indexCast arg9
  let c2_i32_846 : BitVec 32 := 2#32
  let v827 : Index := Scalar.indexCast c2_i32_846
  let c0_847 : Index := 0#32
  ![1, v826.toNat, 2, 0]
def k2_off1155 (k2_t18 : Fin k2_t18_loop.trips) : Fin 3 → Nat :=
  let c1_i32_848 : BitVec 32 := 1#32
  let v831 : Index := Scalar.indexCast c1_i32_848
  let c0_i32_737 : BitVec 32 := 0#32
  let c1_i32_739 : BitVec 32 := 1#32
  let arg9 : BitVec 32 := Scf.iv c0_i32_737 c1_i32_739 k2_t18
  let v832 : Index := Scalar.indexCast arg9
  let c272 : Index := 272#32
  ![1, v832.toNat, 272]
def k2_off1156 (k2_t18 : Fin k2_t18_loop.trips) : Fin 4 → Nat :=
  let c1_i32_849 : BitVec 32 := 1#32
  let v835 : Index := Scalar.indexCast c1_i32_849
  let c0_i32_737 : BitVec 32 := 0#32
  let c1_i32_739 : BitVec 32 := 1#32
  let arg9 : BitVec 32 := Scf.iv c0_i32_737 c1_i32_739 k2_t18
  let v836 : Index := Scalar.indexCast arg9
  let c2_i32_850 : BitVec 32 := 2#32
  let v837 : Index := Scalar.indexCast c2_i32_850
  let c16_851 : Index := 16#32
  ![1, v836.toNat, 2, 16]
def k2_off1157 (k2_t18 : Fin k2_t18_loop.trips) : Fin 3 → Nat :=
  let c1_i32_852 : BitVec 32 := 1#32
  let v841 : Index := Scalar.indexCast c1_i32_852
  let c0_i32_737 : BitVec 32 := 0#32
  let c1_i32_739 : BitVec 32 := 1#32
  let arg9 : BitVec 32 := Scf.iv c0_i32_737 c1_i32_739 k2_t18
  let v842 : Index := Scalar.indexCast arg9
  let c288 : Index := 288#32
  ![1, v842.toNat, 288]
def k2_off1158 (k2_t18 : Fin k2_t18_loop.trips) : Fin 4 → Nat :=
  let c1_i32_853 : BitVec 32 := 1#32
  let v845 : Index := Scalar.indexCast c1_i32_853
  let c0_i32_737 : BitVec 32 := 0#32
  let c1_i32_739 : BitVec 32 := 1#32
  let arg9 : BitVec 32 := Scf.iv c0_i32_737 c1_i32_739 k2_t18
  let v846 : Index := Scalar.indexCast arg9
  let c2_i32_854 : BitVec 32 := 2#32
  let v847 : Index := Scalar.indexCast c2_i32_854
  let c32_855 : Index := 32#32
  ![1, v846.toNat, 2, 32]
def k2_off1159 (k2_t18 : Fin k2_t18_loop.trips) : Fin 3 → Nat :=
  let c1_i32_856 : BitVec 32 := 1#32
  let v851 : Index := Scalar.indexCast c1_i32_856
  let c0_i32_737 : BitVec 32 := 0#32
  let c1_i32_739 : BitVec 32 := 1#32
  let arg9 : BitVec 32 := Scf.iv c0_i32_737 c1_i32_739 k2_t18
  let v852 : Index := Scalar.indexCast arg9
  let c304 : Index := 304#32
  ![1, v852.toNat, 304]
def k2_off1160 (k2_t18 : Fin k2_t18_loop.trips) : Fin 4 → Nat :=
  let c1_i32_857 : BitVec 32 := 1#32
  let v855 : Index := Scalar.indexCast c1_i32_857
  let c0_i32_737 : BitVec 32 := 0#32
  let c1_i32_739 : BitVec 32 := 1#32
  let arg9 : BitVec 32 := Scf.iv c0_i32_737 c1_i32_739 k2_t18
  let v856 : Index := Scalar.indexCast arg9
  let c2_i32_858 : BitVec 32 := 2#32
  let v857 : Index := Scalar.indexCast c2_i32_858
  let c48_859 : Index := 48#32
  ![1, v856.toNat, 2, 48]
def k2_off1161 (k2_t18 : Fin k2_t18_loop.trips) : Fin 3 → Nat :=
  let c1_i32_860 : BitVec 32 := 1#32
  let v861 : Index := Scalar.indexCast c1_i32_860
  let c0_i32_737 : BitVec 32 := 0#32
  let c1_i32_739 : BitVec 32 := 1#32
  let arg9 : BitVec 32 := Scf.iv c0_i32_737 c1_i32_739 k2_t18
  let v862 : Index := Scalar.indexCast arg9
  let c320 : Index := 320#32
  ![1, v862.toNat, 320]
def k2_off1162 (k2_t18 : Fin k2_t18_loop.trips) : Fin 4 → Nat :=
  let c1_i32_861 : BitVec 32 := 1#32
  let v865 : Index := Scalar.indexCast c1_i32_861
  let c0_i32_737 : BitVec 32 := 0#32
  let c1_i32_739 : BitVec 32 := 1#32
  let arg9 : BitVec 32 := Scf.iv c0_i32_737 c1_i32_739 k2_t18
  let v866 : Index := Scalar.indexCast arg9
  let c2_i32_862 : BitVec 32 := 2#32
  let v867 : Index := Scalar.indexCast c2_i32_862
  let c64_863 : Index := 64#32
  ![1, v866.toNat, 2, 64]
def k2_off1163 (k2_t18 : Fin k2_t18_loop.trips) : Fin 3 → Nat :=
  let c1_i32_864 : BitVec 32 := 1#32
  let v871 : Index := Scalar.indexCast c1_i32_864
  let c0_i32_737 : BitVec 32 := 0#32
  let c1_i32_739 : BitVec 32 := 1#32
  let arg9 : BitVec 32 := Scf.iv c0_i32_737 c1_i32_739 k2_t18
  let v872 : Index := Scalar.indexCast arg9
  let c336 : Index := 336#32
  ![1, v872.toNat, 336]
def k2_off1164 (k2_t18 : Fin k2_t18_loop.trips) : Fin 4 → Nat :=
  let c1_i32_865 : BitVec 32 := 1#32
  let v875 : Index := Scalar.indexCast c1_i32_865
  let c0_i32_737 : BitVec 32 := 0#32
  let c1_i32_739 : BitVec 32 := 1#32
  let arg9 : BitVec 32 := Scf.iv c0_i32_737 c1_i32_739 k2_t18
  let v876 : Index := Scalar.indexCast arg9
  let c2_i32_866 : BitVec 32 := 2#32
  let v877 : Index := Scalar.indexCast c2_i32_866
  let c80_867 : Index := 80#32
  ![1, v876.toNat, 2, 80]
def k2_off1165 (k2_t18 : Fin k2_t18_loop.trips) : Fin 3 → Nat :=
  let c1_i32_868 : BitVec 32 := 1#32
  let v881 : Index := Scalar.indexCast c1_i32_868
  let c0_i32_737 : BitVec 32 := 0#32
  let c1_i32_739 : BitVec 32 := 1#32
  let arg9 : BitVec 32 := Scf.iv c0_i32_737 c1_i32_739 k2_t18
  let v882 : Index := Scalar.indexCast arg9
  let c352 : Index := 352#32
  ![1, v882.toNat, 352]
def k2_off1166 (k2_t18 : Fin k2_t18_loop.trips) : Fin 4 → Nat :=
  let c1_i32_869 : BitVec 32 := 1#32
  let v885 : Index := Scalar.indexCast c1_i32_869
  let c0_i32_737 : BitVec 32 := 0#32
  let c1_i32_739 : BitVec 32 := 1#32
  let arg9 : BitVec 32 := Scf.iv c0_i32_737 c1_i32_739 k2_t18
  let v886 : Index := Scalar.indexCast arg9
  let c2_i32_870 : BitVec 32 := 2#32
  let v887 : Index := Scalar.indexCast c2_i32_870
  let c96_871 : Index := 96#32
  ![1, v886.toNat, 2, 96]
def k2_off1167 (k2_t18 : Fin k2_t18_loop.trips) : Fin 3 → Nat :=
  let c1_i32_872 : BitVec 32 := 1#32
  let v891 : Index := Scalar.indexCast c1_i32_872
  let c0_i32_737 : BitVec 32 := 0#32
  let c1_i32_739 : BitVec 32 := 1#32
  let arg9 : BitVec 32 := Scf.iv c0_i32_737 c1_i32_739 k2_t18
  let v892 : Index := Scalar.indexCast arg9
  let c368 : Index := 368#32
  ![1, v892.toNat, 368]
def k2_off1168 (k2_t18 : Fin k2_t18_loop.trips) : Fin 4 → Nat :=
  let c1_i32_873 : BitVec 32 := 1#32
  let v895 : Index := Scalar.indexCast c1_i32_873
  let c0_i32_737 : BitVec 32 := 0#32
  let c1_i32_739 : BitVec 32 := 1#32
  let arg9 : BitVec 32 := Scf.iv c0_i32_737 c1_i32_739 k2_t18
  let v896 : Index := Scalar.indexCast arg9
  let c2_i32_874 : BitVec 32 := 2#32
  let v897 : Index := Scalar.indexCast c2_i32_874
  let c112_875 : Index := 112#32
  ![1, v896.toNat, 2, 112]
def k2_off1169 (k2_t18 : Fin k2_t18_loop.trips) : Fin 3 → Nat :=
  let c1_i32_876 : BitVec 32 := 1#32
  let v901 : Index := Scalar.indexCast c1_i32_876
  let c0_i32_737 : BitVec 32 := 0#32
  let c1_i32_739 : BitVec 32 := 1#32
  let arg9 : BitVec 32 := Scf.iv c0_i32_737 c1_i32_739 k2_t18
  let v902 : Index := Scalar.indexCast arg9
  let c384 : Index := 384#32
  ![1, v902.toNat, 384]
def k2_off1170 (k2_t18 : Fin k2_t18_loop.trips) : Fin 4 → Nat :=
  let c1_i32_877 : BitVec 32 := 1#32
  let v905 : Index := Scalar.indexCast c1_i32_877
  let c0_i32_737 : BitVec 32 := 0#32
  let c1_i32_739 : BitVec 32 := 1#32
  let arg9 : BitVec 32 := Scf.iv c0_i32_737 c1_i32_739 k2_t18
  let v906 : Index := Scalar.indexCast arg9
  let c3_i32_878 : BitVec 32 := 3#32
  let v907 : Index := Scalar.indexCast c3_i32_878
  let c0_879 : Index := 0#32
  ![1, v906.toNat, 3, 0]
def k2_off1171 (k2_t18 : Fin k2_t18_loop.trips) : Fin 3 → Nat :=
  let c1_i32_880 : BitVec 32 := 1#32
  let v911 : Index := Scalar.indexCast c1_i32_880
  let c0_i32_737 : BitVec 32 := 0#32
  let c1_i32_739 : BitVec 32 := 1#32
  let arg9 : BitVec 32 := Scf.iv c0_i32_737 c1_i32_739 k2_t18
  let v912 : Index := Scalar.indexCast arg9
  let c400 : Index := 400#32
  ![1, v912.toNat, 400]
def k2_off1172 (k2_t18 : Fin k2_t18_loop.trips) : Fin 4 → Nat :=
  let c1_i32_881 : BitVec 32 := 1#32
  let v915 : Index := Scalar.indexCast c1_i32_881
  let c0_i32_737 : BitVec 32 := 0#32
  let c1_i32_739 : BitVec 32 := 1#32
  let arg9 : BitVec 32 := Scf.iv c0_i32_737 c1_i32_739 k2_t18
  let v916 : Index := Scalar.indexCast arg9
  let c3_i32_882 : BitVec 32 := 3#32
  let v917 : Index := Scalar.indexCast c3_i32_882
  let c16_883 : Index := 16#32
  ![1, v916.toNat, 3, 16]
def k2_off1173 (k2_t18 : Fin k2_t18_loop.trips) : Fin 3 → Nat :=
  let c1_i32_884 : BitVec 32 := 1#32
  let v921 : Index := Scalar.indexCast c1_i32_884
  let c0_i32_737 : BitVec 32 := 0#32
  let c1_i32_739 : BitVec 32 := 1#32
  let arg9 : BitVec 32 := Scf.iv c0_i32_737 c1_i32_739 k2_t18
  let v922 : Index := Scalar.indexCast arg9
  let c416 : Index := 416#32
  ![1, v922.toNat, 416]
def k2_off1174 (k2_t18 : Fin k2_t18_loop.trips) : Fin 4 → Nat :=
  let c1_i32_885 : BitVec 32 := 1#32
  let v925 : Index := Scalar.indexCast c1_i32_885
  let c0_i32_737 : BitVec 32 := 0#32
  let c1_i32_739 : BitVec 32 := 1#32
  let arg9 : BitVec 32 := Scf.iv c0_i32_737 c1_i32_739 k2_t18
  let v926 : Index := Scalar.indexCast arg9
  let c3_i32_886 : BitVec 32 := 3#32
  let v927 : Index := Scalar.indexCast c3_i32_886
  let c32_887 : Index := 32#32
  ![1, v926.toNat, 3, 32]
def k2_off1175 (k2_t18 : Fin k2_t18_loop.trips) : Fin 3 → Nat :=
  let c1_i32_888 : BitVec 32 := 1#32
  let v931 : Index := Scalar.indexCast c1_i32_888
  let c0_i32_737 : BitVec 32 := 0#32
  let c1_i32_739 : BitVec 32 := 1#32
  let arg9 : BitVec 32 := Scf.iv c0_i32_737 c1_i32_739 k2_t18
  let v932 : Index := Scalar.indexCast arg9
  let c432 : Index := 432#32
  ![1, v932.toNat, 432]
def k2_off1176 (k2_t18 : Fin k2_t18_loop.trips) : Fin 4 → Nat :=
  let c1_i32_889 : BitVec 32 := 1#32
  let v935 : Index := Scalar.indexCast c1_i32_889
  let c0_i32_737 : BitVec 32 := 0#32
  let c1_i32_739 : BitVec 32 := 1#32
  let arg9 : BitVec 32 := Scf.iv c0_i32_737 c1_i32_739 k2_t18
  let v936 : Index := Scalar.indexCast arg9
  let c3_i32_890 : BitVec 32 := 3#32
  let v937 : Index := Scalar.indexCast c3_i32_890
  let c48_891 : Index := 48#32
  ![1, v936.toNat, 3, 48]
def k2_off1177 (k2_t18 : Fin k2_t18_loop.trips) : Fin 3 → Nat :=
  let c1_i32_892 : BitVec 32 := 1#32
  let v941 : Index := Scalar.indexCast c1_i32_892
  let c0_i32_737 : BitVec 32 := 0#32
  let c1_i32_739 : BitVec 32 := 1#32
  let arg9 : BitVec 32 := Scf.iv c0_i32_737 c1_i32_739 k2_t18
  let v942 : Index := Scalar.indexCast arg9
  let c448 : Index := 448#32
  ![1, v942.toNat, 448]
def k2_off1178 (k2_t18 : Fin k2_t18_loop.trips) : Fin 4 → Nat :=
  let c1_i32_893 : BitVec 32 := 1#32
  let v945 : Index := Scalar.indexCast c1_i32_893
  let c0_i32_737 : BitVec 32 := 0#32
  let c1_i32_739 : BitVec 32 := 1#32
  let arg9 : BitVec 32 := Scf.iv c0_i32_737 c1_i32_739 k2_t18
  let v946 : Index := Scalar.indexCast arg9
  let c3_i32_894 : BitVec 32 := 3#32
  let v947 : Index := Scalar.indexCast c3_i32_894
  let c64_895 : Index := 64#32
  ![1, v946.toNat, 3, 64]
def k2_off1179 (k2_t18 : Fin k2_t18_loop.trips) : Fin 3 → Nat :=
  let c1_i32_896 : BitVec 32 := 1#32
  let v951 : Index := Scalar.indexCast c1_i32_896
  let c0_i32_737 : BitVec 32 := 0#32
  let c1_i32_739 : BitVec 32 := 1#32
  let arg9 : BitVec 32 := Scf.iv c0_i32_737 c1_i32_739 k2_t18
  let v952 : Index := Scalar.indexCast arg9
  let c464 : Index := 464#32
  ![1, v952.toNat, 464]
def k2_off1180 (k2_t18 : Fin k2_t18_loop.trips) : Fin 4 → Nat :=
  let c1_i32_897 : BitVec 32 := 1#32
  let v955 : Index := Scalar.indexCast c1_i32_897
  let c0_i32_737 : BitVec 32 := 0#32
  let c1_i32_739 : BitVec 32 := 1#32
  let arg9 : BitVec 32 := Scf.iv c0_i32_737 c1_i32_739 k2_t18
  let v956 : Index := Scalar.indexCast arg9
  let c3_i32_898 : BitVec 32 := 3#32
  let v957 : Index := Scalar.indexCast c3_i32_898
  let c80_899 : Index := 80#32
  ![1, v956.toNat, 3, 80]
def k2_off1181 (k2_t18 : Fin k2_t18_loop.trips) : Fin 3 → Nat :=
  let c1_i32_900 : BitVec 32 := 1#32
  let v961 : Index := Scalar.indexCast c1_i32_900
  let c0_i32_737 : BitVec 32 := 0#32
  let c1_i32_739 : BitVec 32 := 1#32
  let arg9 : BitVec 32 := Scf.iv c0_i32_737 c1_i32_739 k2_t18
  let v962 : Index := Scalar.indexCast arg9
  let c480 : Index := 480#32
  ![1, v962.toNat, 480]
def k2_off1182 (k2_t18 : Fin k2_t18_loop.trips) : Fin 4 → Nat :=
  let c1_i32_901 : BitVec 32 := 1#32
  let v965 : Index := Scalar.indexCast c1_i32_901
  let c0_i32_737 : BitVec 32 := 0#32
  let c1_i32_739 : BitVec 32 := 1#32
  let arg9 : BitVec 32 := Scf.iv c0_i32_737 c1_i32_739 k2_t18
  let v966 : Index := Scalar.indexCast arg9
  let c3_i32_902 : BitVec 32 := 3#32
  let v967 : Index := Scalar.indexCast c3_i32_902
  let c96_903 : Index := 96#32
  ![1, v966.toNat, 3, 96]
def k2_off1183 (k2_t18 : Fin k2_t18_loop.trips) : Fin 3 → Nat :=
  let c1_i32_904 : BitVec 32 := 1#32
  let v971 : Index := Scalar.indexCast c1_i32_904
  let c0_i32_737 : BitVec 32 := 0#32
  let c1_i32_739 : BitVec 32 := 1#32
  let arg9 : BitVec 32 := Scf.iv c0_i32_737 c1_i32_739 k2_t18
  let v972 : Index := Scalar.indexCast arg9
  let c496 : Index := 496#32
  ![1, v972.toNat, 496]
def k2_off1184 (k2_t18 : Fin k2_t18_loop.trips) : Fin 4 → Nat :=
  let c1_i32_905 : BitVec 32 := 1#32
  let v975 : Index := Scalar.indexCast c1_i32_905
  let c0_i32_737 : BitVec 32 := 0#32
  let c1_i32_739 : BitVec 32 := 1#32
  let arg9 : BitVec 32 := Scf.iv c0_i32_737 c1_i32_739 k2_t18
  let v976 : Index := Scalar.indexCast arg9
  let c3_i32_906 : BitVec 32 := 3#32
  let v977 : Index := Scalar.indexCast c3_i32_906
  let c112_907 : Index := 112#32
  ![1, v976.toNat, 3, 112]
def k2_off1185 (i : grid2.Coords) : Fin 4 → Nat :=
  let c15_i32_742 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_747 : BitVec 32 := 0#32
  let c0_i32_748 : BitVec 32 := 0#32
  ![15, v2.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class K0.Facts₀ : Prop where
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .f32 = 32 ∨ (Rect.block (s := S1024x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .f32 = 32 ∨ (Rect.block (s := S1024x512) S1024x512.size (cc0_transform_2 i) (hinb0_2 i)).WholeWords (EltTy.packing .f32)

class K1.Facts₀ : Prop where
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S16x1024x512.size a
  hwx1_0 : ∀ i : grid1.Coords, EltTy.bits .f32 = 32 ∨ (Rect.block (s := S16x1024x512) S1x1024x512.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .f32 = 32 ∨ (Rect.block (s := S1024x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x4x256.size a ≤ S16x1024x4x256.size a
  hwx1_3 : ∀ i : grid1.Coords, EltTy.bits .f32 = 32 ∨ (Rect.block (s := S16x1024x4x256) S1x1024x4x256.size (cc1_transform_3 i) (hinb1_3 i)).WholeWords (EltTy.packing .f32)

class K2.R1.Facts₀ : Prop where
  hcore2 : grid2.bound 0 ≤ τ.nSC
  hsub2 : grid2.bound 1 ≤ τ.nSub
  k2_off1_inb : ∀ i : grid2.Coords, ∀ a, (k2_off1 i) a + S32x512.size a ≤ S1024x512.size a
  k2_t1_ok : k2_t1_loop.OK
  k2_off2_inb : ∀ k2_t1 : Fin k2_t1_loop.trips, ∀ a, (k2_off2 k2_t1) a + S1x1x16.size a ≤ S2x32x512.size a
  k2_off3_inb : ∀ k2_t1 : Fin k2_t1_loop.trips, ∀ a, (k2_off3 k2_t1) a + S1x1x1x16.size a ≤ S2x32x4x256.size a
  k2_off4_inb : ∀ k2_t1 : Fin k2_t1_loop.trips, ∀ a, (k2_off4 k2_t1) a + S1x1x16.size a ≤ S2x32x512.size a
  k2_off5_inb : ∀ k2_t1 : Fin k2_t1_loop.trips, ∀ a, (k2_off5 k2_t1) a + S1x1x1x16.size a ≤ S2x32x4x256.size a
  k2_off6_inb : ∀ k2_t1 : Fin k2_t1_loop.trips, ∀ a, (k2_off6 k2_t1) a + S1x1x16.size a ≤ S2x32x512.size a
  k2_off7_inb : ∀ k2_t1 : Fin k2_t1_loop.trips, ∀ a, (k2_off7 k2_t1) a + S1x1x1x16.size a ≤ S2x32x4x256.size a
  k2_off8_inb : ∀ k2_t1 : Fin k2_t1_loop.trips, ∀ a, (k2_off8 k2_t1) a + S1x1x16.size a ≤ S2x32x512.size a
  k2_off9_inb : ∀ k2_t1 : Fin k2_t1_loop.trips, ∀ a, (k2_off9 k2_t1) a + S1x1x1x16.size a ≤ S2x32x4x256.size a
  k2_off10_inb : ∀ k2_t1 : Fin k2_t1_loop.trips, ∀ a, (k2_off10 k2_t1) a + S1x1x16.size a ≤ S2x32x512.size a
  k2_off11_inb : ∀ k2_t1 : Fin k2_t1_loop.trips, ∀ a, (k2_off11 k2_t1) a + S1x1x1x16.size a ≤ S2x32x4x256.size a
  k2_off12_inb : ∀ k2_t1 : Fin k2_t1_loop.trips, ∀ a, (k2_off12 k2_t1) a + S1x1x16.size a ≤ S2x32x512.size a
  k2_off13_inb : ∀ k2_t1 : Fin k2_t1_loop.trips, ∀ a, (k2_off13 k2_t1) a + S1x1x1x16.size a ≤ S2x32x4x256.size a
  k2_off14_inb : ∀ k2_t1 : Fin k2_t1_loop.trips, ∀ a, (k2_off14 k2_t1) a + S1x1x16.size a ≤ S2x32x512.size a
  k2_off15_inb : ∀ k2_t1 : Fin k2_t1_loop.trips, ∀ a, (k2_off15 k2_t1) a + S1x1x1x16.size a ≤ S2x32x4x256.size a
  k2_off16_inb : ∀ k2_t1 : Fin k2_t1_loop.trips, ∀ a, (k2_off16 k2_t1) a + S1x1x16.size a ≤ S2x32x512.size a
  k2_off17_inb : ∀ k2_t1 : Fin k2_t1_loop.trips, ∀ a, (k2_off17 k2_t1) a + S1x1x1x16.size a ≤ S2x32x4x256.size a
  k2_off18_inb : ∀ k2_t1 : Fin k2_t1_loop.trips, ∀ a, (k2_off18 k2_t1) a + S1x1x16.size a ≤ S2x32x512.size a
  k2_off19_inb : ∀ k2_t1 : Fin k2_t1_loop.trips, ∀ a, (k2_off19 k2_t1) a + S1x1x1x16.size a ≤ S2x32x4x256.size a
  k2_off20_inb : ∀ k2_t1 : Fin k2_t1_loop.trips, ∀ a, (k2_off20 k2_t1) a + S1x1x16.size a ≤ S2x32x512.size a
  k2_off21_inb : ∀ k2_t1 : Fin k2_t1_loop.trips, ∀ a, (k2_off21 k2_t1) a + S1x1x1x16.size a ≤ S2x32x4x256.size a
  k2_off22_inb : ∀ k2_t1 : Fin k2_t1_loop.trips, ∀ a, (k2_off22 k2_t1) a + S1x1x16.size a ≤ S2x32x512.size a
  k2_off23_inb : ∀ k2_t1 : Fin k2_t1_loop.trips, ∀ a, (k2_off23 k2_t1) a + S1x1x1x16.size a ≤ S2x32x4x256.size a
  k2_off24_inb : ∀ k2_t1 : Fin k2_t1_loop.trips, ∀ a, (k2_off24 k2_t1) a + S1x1x16.size a ≤ S2x32x512.size a
  k2_off25_inb : ∀ k2_t1 : Fin k2_t1_loop.trips, ∀ a, (k2_off25 k2_t1) a + S1x1x1x16.size a ≤ S2x32x4x256.size a
  k2_off26_inb : ∀ k2_t1 : Fin k2_t1_loop.trips, ∀ a, (k2_off26 k2_t1) a + S1x1x16.size a ≤ S2x32x512.size a
  k2_off27_inb : ∀ k2_t1 : Fin k2_t1_loop.trips, ∀ a, (k2_off27 k2_t1) a + S1x1x1x16.size a ≤ S2x32x4x256.size a
  k2_off28_inb : ∀ k2_t1 : Fin k2_t1_loop.trips, ∀ a, (k2_off28 k2_t1) a + S1x1x16.size a ≤ S2x32x512.size a
  k2_off29_inb : ∀ k2_t1 : Fin k2_t1_loop.trips, ∀ a, (k2_off29 k2_t1) a + S1x1x1x16.size a ≤ S2x32x4x256.size a
  k2_off30_inb : ∀ k2_t1 : Fin k2_t1_loop.trips, ∀ a, (k2_off30 k2_t1) a + S1x1x16.size a ≤ S2x32x512.size a
  k2_off31_inb : ∀ k2_t1 : Fin k2_t1_loop.trips, ∀ a, (k2_off31 k2_t1) a + S1x1x1x16.size a ≤ S2x32x4x256.size a
  k2_off32_inb : ∀ k2_t1 : Fin k2_t1_loop.trips, ∀ a, (k2_off32 k2_t1) a + S1x1x16.size a ≤ S2x32x512.size a
  k2_off33_inb : ∀ k2_t1 : Fin k2_t1_loop.trips, ∀ a, (k2_off33 k2_t1) a + S1x1x1x16.size a ≤ S2x32x4x256.size a
  k2_off34_inb : ∀ k2_t1 : Fin k2_t1_loop.trips, ∀ a, (k2_off34 k2_t1) a + S1x1x16.size a ≤ S2x32x512.size a
  k2_off35_inb : ∀ k2_t1 : Fin k2_t1_loop.trips, ∀ a, (k2_off35 k2_t1) a + S1x1x1x16.size a ≤ S2x32x4x256.size a
  k2_off36_inb : ∀ k2_t1 : Fin k2_t1_loop.trips, ∀ a, (k2_off36 k2_t1) a + S1x1x16.size a ≤ S2x32x512.size a
  k2_off37_inb : ∀ k2_t1 : Fin k2_t1_loop.trips, ∀ a, (k2_off37 k2_t1) a + S1x1x1x16.size a ≤ S2x32x4x256.size a
  k2_off38_inb : ∀ k2_t1 : Fin k2_t1_loop.trips, ∀ a, (k2_off38 k2_t1) a + S1x1x16.size a ≤ S2x32x512.size a
  k2_off39_inb : ∀ k2_t1 : Fin k2_t1_loop.trips, ∀ a, (k2_off39 k2_t1) a + S1x1x1x16.size a ≤ S2x32x4x256.size a
  k2_off40_inb : ∀ k2_t1 : Fin k2_t1_loop.trips, ∀ a, (k2_off40 k2_t1) a + S1x1x16.size a ≤ S2x32x512.size a
  k2_off41_inb : ∀ k2_t1 : Fin k2_t1_loop.trips, ∀ a, (k2_off41 k2_t1) a + S1x1x1x16.size a ≤ S2x32x4x256.size a
  k2_off42_inb : ∀ k2_t1 : Fin k2_t1_loop.trips, ∀ a, (k2_off42 k2_t1) a + S1x1x16.size a ≤ S2x32x512.size a
  k2_off43_inb : ∀ k2_t1 : Fin k2_t1_loop.trips, ∀ a, (k2_off43 k2_t1) a + S1x1x1x16.size a ≤ S2x32x4x256.size a
  k2_off44_inb : ∀ k2_t1 : Fin k2_t1_loop.trips, ∀ a, (k2_off44 k2_t1) a + S1x1x16.size a ≤ S2x32x512.size a
  k2_off45_inb : ∀ k2_t1 : Fin k2_t1_loop.trips, ∀ a, (k2_off45 k2_t1) a + S1x1x1x16.size a ≤ S2x32x4x256.size a
  k2_off46_inb : ∀ k2_t1 : Fin k2_t1_loop.trips, ∀ a, (k2_off46 k2_t1) a + S1x1x16.size a ≤ S2x32x512.size a
  k2_off47_inb : ∀ k2_t1 : Fin k2_t1_loop.trips, ∀ a, (k2_off47 k2_t1) a + S1x1x1x16.size a ≤ S2x32x4x256.size a
  k2_off48_inb : ∀ k2_t1 : Fin k2_t1_loop.trips, ∀ a, (k2_off48 k2_t1) a + S1x1x16.size a ≤ S2x32x512.size a
  k2_off49_inb : ∀ k2_t1 : Fin k2_t1_loop.trips, ∀ a, (k2_off49 k2_t1) a + S1x1x1x16.size a ≤ S2x32x4x256.size a
  k2_off50_inb : ∀ k2_t1 : Fin k2_t1_loop.trips, ∀ a, (k2_off50 k2_t1) a + S1x1x16.size a ≤ S2x32x512.size a
  k2_off51_inb : ∀ k2_t1 : Fin k2_t1_loop.trips, ∀ a, (k2_off51 k2_t1) a + S1x1x1x16.size a ≤ S2x32x4x256.size a
  k2_off52_inb : ∀ k2_t1 : Fin k2_t1_loop.trips, ∀ a, (k2_off52 k2_t1) a + S1x1x16.size a ≤ S2x32x512.size a
  k2_off53_inb : ∀ k2_t1 : Fin k2_t1_loop.trips, ∀ a, (k2_off53 k2_t1) a + S1x1x1x16.size a ≤ S2x32x4x256.size a
  k2_off54_inb : ∀ k2_t1 : Fin k2_t1_loop.trips, ∀ a, (k2_off54 k2_t1) a + S1x1x16.size a ≤ S2x32x512.size a
  k2_off55_inb : ∀ k2_t1 : Fin k2_t1_loop.trips, ∀ a, (k2_off55 k2_t1) a + S1x1x1x16.size a ≤ S2x32x4x256.size a
  k2_off56_inb : ∀ k2_t1 : Fin k2_t1_loop.trips, ∀ a, (k2_off56 k2_t1) a + S1x1x16.size a ≤ S2x32x512.size a
  k2_off57_inb : ∀ k2_t1 : Fin k2_t1_loop.trips, ∀ a, (k2_off57 k2_t1) a + S1x1x1x16.size a ≤ S2x32x4x256.size a
  k2_off58_inb : ∀ k2_t1 : Fin k2_t1_loop.trips, ∀ a, (k2_off58 k2_t1) a + S1x1x16.size a ≤ S2x32x512.size a
  k2_off59_inb : ∀ k2_t1 : Fin k2_t1_loop.trips, ∀ a, (k2_off59 k2_t1) a + S1x1x1x16.size a ≤ S2x32x4x256.size a
  k2_off60_inb : ∀ k2_t1 : Fin k2_t1_loop.trips, ∀ a, (k2_off60 k2_t1) a + S1x1x16.size a ≤ S2x32x512.size a
  k2_off61_inb : ∀ k2_t1 : Fin k2_t1_loop.trips, ∀ a, (k2_off61 k2_t1) a + S1x1x1x16.size a ≤ S2x32x4x256.size a
  k2_off62_inb : ∀ k2_t1 : Fin k2_t1_loop.trips, ∀ a, (k2_off62 k2_t1) a + S1x1x16.size a ≤ S2x32x512.size a
  k2_off63_inb : ∀ k2_t1 : Fin k2_t1_loop.trips, ∀ a, (k2_off63 k2_t1) a + S1x1x1x16.size a ≤ S2x32x4x256.size a
  k2_off64_inb : ∀ k2_t1 : Fin k2_t1_loop.trips, ∀ a, (k2_off64 k2_t1) a + S1x1x16.size a ≤ S2x32x512.size a
  k2_off65_inb : ∀ k2_t1 : Fin k2_t1_loop.trips, ∀ a, (k2_off65 k2_t1) a + S1x1x1x16.size a ≤ S2x32x4x256.size a
  k2_t2_ok : k2_t2_loop.OK
  k2_off66_inb : ∀ k2_t2 : Fin k2_t2_loop.trips, ∀ a, (k2_off66 k2_t2) a + S1x1x1x16.size a ≤ S2x32x4x256.size a
  k2_off67_inb : ∀ k2_t2 : Fin k2_t2_loop.trips, ∀ a, (k2_off67 k2_t2) a + S1x1x1x16.size a ≤ S2x32x4x256.size a
  k2_off68_inb : ∀ k2_t2 : Fin k2_t2_loop.trips, ∀ a, (k2_off68 k2_t2) a + S1x1x1x16.size a ≤ S2x32x4x256.size a
  k2_off69_inb : ∀ k2_t2 : Fin k2_t2_loop.trips, ∀ a, (k2_off69 k2_t2) a + S1x1x1x16.size a ≤ S2x32x4x256.size a
  k2_off70_inb : ∀ k2_t2 : Fin k2_t2_loop.trips, ∀ a, (k2_off70 k2_t2) a + S1x1x1x16.size a ≤ S2x32x4x256.size a
  k2_off71_inb : ∀ k2_t2 : Fin k2_t2_loop.trips, ∀ a, (k2_off71 k2_t2) a + S1x1x1x16.size a ≤ S2x32x4x256.size a
  k2_off72_inb : ∀ k2_t2 : Fin k2_t2_loop.trips, ∀ a, (k2_off72 k2_t2) a + S1x1x1x16.size a ≤ S2x32x4x256.size a
  k2_off73_inb : ∀ k2_t2 : Fin k2_t2_loop.trips, ∀ a, (k2_off73 k2_t2) a + S1x1x1x16.size a ≤ S2x32x4x256.size a
  k2_off74_inb : ∀ k2_t2 : Fin k2_t2_loop.trips, ∀ a, (k2_off74 k2_t2) a + S1x1x1x16.size a ≤ S2x32x4x256.size a
  k2_off75_inb : ∀ k2_t2 : Fin k2_t2_loop.trips, ∀ a, (k2_off75 k2_t2) a + S1x1x1x16.size a ≤ S2x32x4x256.size a
  k2_off76_inb : ∀ k2_t2 : Fin k2_t2_loop.trips, ∀ a, (k2_off76 k2_t2) a + S1x1x1x16.size a ≤ S2x32x4x256.size a
  k2_off77_inb : ∀ k2_t2 : Fin k2_t2_loop.trips, ∀ a, (k2_off77 k2_t2) a + S1x1x1x16.size a ≤ S2x32x4x256.size a
  k2_off78_inb : ∀ k2_t2 : Fin k2_t2_loop.trips, ∀ a, (k2_off78 k2_t2) a + S1x1x1x16.size a ≤ S2x32x4x256.size a
  k2_off79_inb : ∀ k2_t2 : Fin k2_t2_loop.trips, ∀ a, (k2_off79 k2_t2) a + S1x1x1x16.size a ≤ S2x32x4x256.size a
  k2_off80_inb : ∀ k2_t2 : Fin k2_t2_loop.trips, ∀ a, (k2_off80 k2_t2) a + S1x1x1x16.size a ≤ S2x32x4x256.size a
  k2_off81_inb : ∀ k2_t2 : Fin k2_t2_loop.trips, ∀ a, (k2_off81 k2_t2) a + S1x1x1x16.size a ≤ S2x32x4x256.size a
  k2_off82_inb : ∀ k2_t2 : Fin k2_t2_loop.trips, ∀ a, (k2_off82 k2_t2) a + S1x1x1x16.size a ≤ S2x32x4x256.size a
  k2_off83_inb : ∀ k2_t2 : Fin k2_t2_loop.trips, ∀ a, (k2_off83 k2_t2) a + S1x1x1x16.size a ≤ S2x32x4x256.size a
  k2_off84_inb : ∀ k2_t2 : Fin k2_t2_loop.trips, ∀ a, (k2_off84 k2_t2) a + S1x1x1x16.size a ≤ S2x32x4x256.size a
  k2_off85_inb : ∀ k2_t2 : Fin k2_t2_loop.trips, ∀ a, (k2_off85 k2_t2) a + S1x1x1x16.size a ≤ S2x32x4x256.size a
  k2_off86_inb : ∀ k2_t2 : Fin k2_t2_loop.trips, ∀ a, (k2_off86 k2_t2) a + S1x1x1x16.size a ≤ S2x32x4x256.size a
  k2_off87_inb : ∀ k2_t2 : Fin k2_t2_loop.trips, ∀ a, (k2_off87 k2_t2) a + S1x1x1x16.size a ≤ S2x32x4x256.size a
  k2_off88_inb : ∀ k2_t2 : Fin k2_t2_loop.trips, ∀ a, (k2_off88 k2_t2) a + S1x1x1x16.size a ≤ S2x32x4x256.size a
  k2_off89_inb : ∀ k2_t2 : Fin k2_t2_loop.trips, ∀ a, (k2_off89 k2_t2) a + S1x1x1x16.size a ≤ S2x32x4x256.size a
  k2_off90_inb : ∀ k2_t2 : Fin k2_t2_loop.trips, ∀ a, (k2_off90 k2_t2) a + S1x1x1x16.size a ≤ S2x32x4x256.size a
  k2_off91_inb : ∀ k2_t2 : Fin k2_t2_loop.trips, ∀ a, (k2_off91 k2_t2) a + S1x1x1x16.size a ≤ S2x32x4x256.size a
  k2_off92_inb : ∀ k2_t2 : Fin k2_t2_loop.trips, ∀ a, (k2_off92 k2_t2) a + S1x1x1x16.size a ≤ S2x32x4x256.size a
  k2_off93_inb : ∀ k2_t2 : Fin k2_t2_loop.trips, ∀ a, (k2_off93 k2_t2) a + S1x1x1x16.size a ≤ S2x32x4x256.size a
  k2_off94_inb : ∀ k2_t2 : Fin k2_t2_loop.trips, ∀ a, (k2_off94 k2_t2) a + S1x1x1x16.size a ≤ S2x32x4x256.size a
  k2_off95_inb : ∀ k2_t2 : Fin k2_t2_loop.trips, ∀ a, (k2_off95 k2_t2) a + S1x1x1x16.size a ≤ S2x32x4x256.size a
  k2_off96_inb : ∀ k2_t2 : Fin k2_t2_loop.trips, ∀ a, (k2_off96 k2_t2) a + S1x1x1x16.size a ≤ S2x32x4x256.size a
  k2_off97_inb : ∀ k2_t2 : Fin k2_t2_loop.trips, ∀ a, (k2_off97 k2_t2) a + S1x1x1x16.size a ≤ S2x32x4x256.size a
  k2_off98_inb : ∀ k2_t2 : Fin k2_t2_loop.trips, ∀ a, (k2_off98 k2_t2) a + S1x1x1x16.size a ≤ S2x32x4x256.size a
  k2_off99_inb : ∀ k2_t2 : Fin k2_t2_loop.trips, ∀ a, (k2_off99 k2_t2) a + S1x1x1x16.size a ≤ S2x32x4x256.size a
  k2_off100_inb : ∀ k2_t2 : Fin k2_t2_loop.trips, ∀ a, (k2_off100 k2_t2) a + S1x1x1x16.size a ≤ S2x32x4x256.size a
  k2_off101_inb : ∀ k2_t2 : Fin k2_t2_loop.trips, ∀ a, (k2_off101 k2_t2) a + S1x1x1x16.size a ≤ S2x32x4x256.size a
  k2_off102_inb : ∀ k2_t2 : Fin k2_t2_loop.trips, ∀ a, (k2_off102 k2_t2) a + S1x1x1x16.size a ≤ S2x32x4x256.size a
  k2_off103_inb : ∀ k2_t2 : Fin k2_t2_loop.trips, ∀ a, (k2_off103 k2_t2) a + S1x1x1x16.size a ≤ S2x32x4x256.size a
  k2_off104_inb : ∀ k2_t2 : Fin k2_t2_loop.trips, ∀ a, (k2_off104 k2_t2) a + S1x1x1x16.size a ≤ S2x32x4x256.size a
  k2_off105_inb : ∀ k2_t2 : Fin k2_t2_loop.trips, ∀ a, (k2_off105 k2_t2) a + S1x1x1x16.size a ≤ S2x32x4x256.size a
  k2_off106_inb : ∀ k2_t2 : Fin k2_t2_loop.trips, ∀ a, (k2_off106 k2_t2) a + S1x1x1x16.size a ≤ S2x32x4x256.size a
  k2_off107_inb : ∀ k2_t2 : Fin k2_t2_loop.trips, ∀ a, (k2_off107 k2_t2) a + S1x1x1x16.size a ≤ S2x32x4x256.size a
  k2_off108_inb : ∀ k2_t2 : Fin k2_t2_loop.trips, ∀ a, (k2_off108 k2_t2) a + S1x1x1x16.size a ≤ S2x32x4x256.size a
  k2_off109_inb : ∀ k2_t2 : Fin k2_t2_loop.trips, ∀ a, (k2_off109 k2_t2) a + S1x1x1x16.size a ≤ S2x32x4x256.size a
  k2_off110_inb : ∀ k2_t2 : Fin k2_t2_loop.trips, ∀ a, (k2_off110 k2_t2) a + S1x1x1x16.size a ≤ S2x32x4x256.size a
  k2_off111_inb : ∀ k2_t2 : Fin k2_t2_loop.trips, ∀ a, (k2_off111 k2_t2) a + S1x1x1x16.size a ≤ S2x32x4x256.size a
  k2_off112_inb : ∀ k2_t2 : Fin k2_t2_loop.trips, ∀ a, (k2_off112 k2_t2) a + S1x1x1x16.size a ≤ S2x32x4x256.size a
  k2_off113_inb : ∀ k2_t2 : Fin k2_t2_loop.trips, ∀ a, (k2_off113 k2_t2) a + S1x1x1x16.size a ≤ S2x32x4x256.size a
  k2_off114_inb : ∀ k2_t2 : Fin k2_t2_loop.trips, ∀ a, (k2_off114 k2_t2) a + S1x1x1x16.size a ≤ S2x32x4x256.size a
  k2_off115_inb : ∀ k2_t2 : Fin k2_t2_loop.trips, ∀ a, (k2_off115 k2_t2) a + S1x1x1x16.size a ≤ S2x32x4x256.size a
  k2_off116_inb : ∀ k2_t2 : Fin k2_t2_loop.trips, ∀ a, (k2_off116 k2_t2) a + S1x1x1x16.size a ≤ S2x32x4x256.size a
  k2_off117_inb : ∀ k2_t2 : Fin k2_t2_loop.trips, ∀ a, (k2_off117 k2_t2) a + S1x1x1x16.size a ≤ S2x32x4x256.size a
  k2_off118_inb : ∀ k2_t2 : Fin k2_t2_loop.trips, ∀ a, (k2_off118 k2_t2) a + S1x1x1x16.size a ≤ S2x32x4x256.size a
  k2_off119_inb : ∀ k2_t2 : Fin k2_t2_loop.trips, ∀ a, (k2_off119 k2_t2) a + S1x1x1x16.size a ≤ S2x32x4x256.size a
  k2_off120_inb : ∀ k2_t2 : Fin k2_t2_loop.trips, ∀ a, (k2_off120 k2_t2) a + S1x1x1x16.size a ≤ S2x32x4x256.size a
  k2_off121_inb : ∀ k2_t2 : Fin k2_t2_loop.trips, ∀ a, (k2_off121 k2_t2) a + S1x1x1x16.size a ≤ S2x32x4x256.size a
  k2_off122_inb : ∀ k2_t2 : Fin k2_t2_loop.trips, ∀ a, (k2_off122 k2_t2) a + S1x1x1x16.size a ≤ S2x32x4x256.size a
  k2_off123_inb : ∀ k2_t2 : Fin k2_t2_loop.trips, ∀ a, (k2_off123 k2_t2) a + S1x1x1x16.size a ≤ S2x32x4x256.size a
  k2_off124_inb : ∀ k2_t2 : Fin k2_t2_loop.trips, ∀ a, (k2_off124 k2_t2) a + S1x1x1x16.size a ≤ S2x32x4x256.size a
  k2_off125_inb : ∀ k2_t2 : Fin k2_t2_loop.trips, ∀ a, (k2_off125 k2_t2) a + S1x1x1x16.size a ≤ S2x32x4x256.size a
  k2_off126_inb : ∀ k2_t2 : Fin k2_t2_loop.trips, ∀ a, (k2_off126 k2_t2) a + S1x1x1x16.size a ≤ S2x32x4x256.size a
  k2_off127_inb : ∀ k2_t2 : Fin k2_t2_loop.trips, ∀ a, (k2_off127 k2_t2) a + S1x1x1x16.size a ≤ S2x32x4x256.size a
  k2_off128_inb : ∀ k2_t2 : Fin k2_t2_loop.trips, ∀ a, (k2_off128 k2_t2) a + S1x1x1x16.size a ≤ S2x32x4x256.size a
  k2_off129_inb : ∀ k2_t2 : Fin k2_t2_loop.trips, ∀ a, (k2_off129 k2_t2) a + S1x1x1x16.size a ≤ S2x32x4x256.size a
  k2_off130_inb : ∀ i : grid2.Coords, ∀ a, (k2_off130 i) a + S1x32x512.size a ≤ S16x1024x512.size a
  k2_off131_inb : ∀ i : grid2.Coords, ∀ a, (k2_off131 i) a + S1x32x512.size a ≤ S16x1024x512.size a
  k2_t3_ok : k2_t3_loop.OK
  k2_off132_inb : ∀ k2_t3 : Fin k2_t3_loop.trips, ∀ a, (k2_off132 k2_t3) a + S1x1x16.size a ≤ S2x32x512.size a
  k2_off133_inb : ∀ k2_t3 : Fin k2_t3_loop.trips, ∀ a, (k2_off133 k2_t3) a + S1x1x1x16.size a ≤ S2x32x4x256.size a
  k2_off134_inb : ∀ k2_t3 : Fin k2_t3_loop.trips, ∀ a, (k2_off134 k2_t3) a + S1x1x16.size a ≤ S2x32x512.size a
  k2_off135_inb : ∀ k2_t3 : Fin k2_t3_loop.trips, ∀ a, (k2_off135 k2_t3) a + S1x1x1x16.size a ≤ S2x32x4x256.size a
  k2_off136_inb : ∀ k2_t3 : Fin k2_t3_loop.trips, ∀ a, (k2_off136 k2_t3) a + S1x1x16.size a ≤ S2x32x512.size a
  k2_off137_inb : ∀ k2_t3 : Fin k2_t3_loop.trips, ∀ a, (k2_off137 k2_t3) a + S1x1x1x16.size a ≤ S2x32x4x256.size a
  k2_off138_inb : ∀ k2_t3 : Fin k2_t3_loop.trips, ∀ a, (k2_off138 k2_t3) a + S1x1x16.size a ≤ S2x32x512.size a
  k2_off139_inb : ∀ k2_t3 : Fin k2_t3_loop.trips, ∀ a, (k2_off139 k2_t3) a + S1x1x1x16.size a ≤ S2x32x4x256.size a
  k2_off140_inb : ∀ k2_t3 : Fin k2_t3_loop.trips, ∀ a, (k2_off140 k2_t3) a + S1x1x16.size a ≤ S2x32x512.size a
  k2_off141_inb : ∀ k2_t3 : Fin k2_t3_loop.trips, ∀ a, (k2_off141 k2_t3) a + S1x1x1x16.size a ≤ S2x32x4x256.size a
  k2_off142_inb : ∀ k2_t3 : Fin k2_t3_loop.trips, ∀ a, (k2_off142 k2_t3) a + S1x1x16.size a ≤ S2x32x512.size a
  k2_off143_inb : ∀ k2_t3 : Fin k2_t3_loop.trips, ∀ a, (k2_off143 k2_t3) a + S1x1x1x16.size a ≤ S2x32x4x256.size a
  k2_off144_inb : ∀ k2_t3 : Fin k2_t3_loop.trips, ∀ a, (k2_off144 k2_t3) a + S1x1x16.size a ≤ S2x32x512.size a
  k2_off145_inb : ∀ k2_t3 : Fin k2_t3_loop.trips, ∀ a, (k2_off145 k2_t3) a + S1x1x1x16.size a ≤ S2x32x4x256.size a
  k2_off146_inb : ∀ k2_t3 : Fin k2_t3_loop.trips, ∀ a, (k2_off146 k2_t3) a + S1x1x16.size a ≤ S2x32x512.size a
  k2_off147_inb : ∀ k2_t3 : Fin k2_t3_loop.trips, ∀ a, (k2_off147 k2_t3) a + S1x1x1x16.size a ≤ S2x32x4x256.size a
  k2_off148_inb : ∀ k2_t3 : Fin k2_t3_loop.trips, ∀ a, (k2_off148 k2_t3) a + S1x1x16.size a ≤ S2x32x512.size a
  k2_off149_inb : ∀ k2_t3 : Fin k2_t3_loop.trips, ∀ a, (k2_off149 k2_t3) a + S1x1x1x16.size a ≤ S2x32x4x256.size a
  k2_off150_inb : ∀ k2_t3 : Fin k2_t3_loop.trips, ∀ a, (k2_off150 k2_t3) a + S1x1x16.size a ≤ S2x32x512.size a
  k2_off151_inb : ∀ k2_t3 : Fin k2_t3_loop.trips, ∀ a, (k2_off151 k2_t3) a + S1x1x1x16.size a ≤ S2x32x4x256.size a
  k2_off152_inb : ∀ k2_t3 : Fin k2_t3_loop.trips, ∀ a, (k2_off152 k2_t3) a + S1x1x16.size a ≤ S2x32x512.size a
  k2_off153_inb : ∀ k2_t3 : Fin k2_t3_loop.trips, ∀ a, (k2_off153 k2_t3) a + S1x1x1x16.size a ≤ S2x32x4x256.size a
  k2_off154_inb : ∀ k2_t3 : Fin k2_t3_loop.trips, ∀ a, (k2_off154 k2_t3) a + S1x1x16.size a ≤ S2x32x512.size a
  k2_off155_inb : ∀ k2_t3 : Fin k2_t3_loop.trips, ∀ a, (k2_off155 k2_t3) a + S1x1x1x16.size a ≤ S2x32x4x256.size a
  k2_off156_inb : ∀ k2_t3 : Fin k2_t3_loop.trips, ∀ a, (k2_off156 k2_t3) a + S1x1x16.size a ≤ S2x32x512.size a
  k2_off157_inb : ∀ k2_t3 : Fin k2_t3_loop.trips, ∀ a, (k2_off157 k2_t3) a + S1x1x1x16.size a ≤ S2x32x4x256.size a
  k2_off158_inb : ∀ k2_t3 : Fin k2_t3_loop.trips, ∀ a, (k2_off158 k2_t3) a + S1x1x16.size a ≤ S2x32x512.size a
  k2_off159_inb : ∀ k2_t3 : Fin k2_t3_loop.trips, ∀ a, (k2_off159 k2_t3) a + S1x1x1x16.size a ≤ S2x32x4x256.size a
  k2_off160_inb : ∀ k2_t3 : Fin k2_t3_loop.trips, ∀ a, (k2_off160 k2_t3) a + S1x1x16.size a ≤ S2x32x512.size a
  k2_off161_inb : ∀ k2_t3 : Fin k2_t3_loop.trips, ∀ a, (k2_off161 k2_t3) a + S1x1x1x16.size a ≤ S2x32x4x256.size a
  k2_off162_inb : ∀ k2_t3 : Fin k2_t3_loop.trips, ∀ a, (k2_off162 k2_t3) a + S1x1x16.size a ≤ S2x32x512.size a
  k2_off163_inb : ∀ k2_t3 : Fin k2_t3_loop.trips, ∀ a, (k2_off163 k2_t3) a + S1x1x1x16.size a ≤ S2x32x4x256.size a
  k2_off164_inb : ∀ k2_t3 : Fin k2_t3_loop.trips, ∀ a, (k2_off164 k2_t3) a + S1x1x16.size a ≤ S2x32x512.size a
  k2_off165_inb : ∀ k2_t3 : Fin k2_t3_loop.trips, ∀ a, (k2_off165 k2_t3) a + S1x1x1x16.size a ≤ S2x32x4x256.size a
  k2_off166_inb : ∀ k2_t3 : Fin k2_t3_loop.trips, ∀ a, (k2_off166 k2_t3) a + S1x1x16.size a ≤ S2x32x512.size a
  k2_off167_inb : ∀ k2_t3 : Fin k2_t3_loop.trips, ∀ a, (k2_off167 k2_t3) a + S1x1x1x16.size a ≤ S2x32x4x256.size a
  k2_off168_inb : ∀ k2_t3 : Fin k2_t3_loop.trips, ∀ a, (k2_off168 k2_t3) a + S1x1x16.size a ≤ S2x32x512.size a
  k2_off169_inb : ∀ k2_t3 : Fin k2_t3_loop.trips, ∀ a, (k2_off169 k2_t3) a + S1x1x1x16.size a ≤ S2x32x4x256.size a
  k2_off170_inb : ∀ k2_t3 : Fin k2_t3_loop.trips, ∀ a, (k2_off170 k2_t3) a + S1x1x16.size a ≤ S2x32x512.size a
  k2_off171_inb : ∀ k2_t3 : Fin k2_t3_loop.trips, ∀ a, (k2_off171 k2_t3) a + S1x1x1x16.size a ≤ S2x32x4x256.size a
  k2_off172_inb : ∀ k2_t3 : Fin k2_t3_loop.trips, ∀ a, (k2_off172 k2_t3) a + S1x1x16.size a ≤ S2x32x512.size a
  k2_off173_inb : ∀ k2_t3 : Fin k2_t3_loop.trips, ∀ a, (k2_off173 k2_t3) a + S1x1x1x16.size a ≤ S2x32x4x256.size a
  k2_off174_inb : ∀ k2_t3 : Fin k2_t3_loop.trips, ∀ a, (k2_off174 k2_t3) a + S1x1x16.size a ≤ S2x32x512.size a
  k2_off175_inb : ∀ k2_t3 : Fin k2_t3_loop.trips, ∀ a, (k2_off175 k2_t3) a + S1x1x1x16.size a ≤ S2x32x4x256.size a
  k2_off176_inb : ∀ k2_t3 : Fin k2_t3_loop.trips, ∀ a, (k2_off176 k2_t3) a + S1x1x16.size a ≤ S2x32x512.size a
  k2_off177_inb : ∀ k2_t3 : Fin k2_t3_loop.trips, ∀ a, (k2_off177 k2_t3) a + S1x1x1x16.size a ≤ S2x32x4x256.size a
  k2_off178_inb : ∀ k2_t3 : Fin k2_t3_loop.trips, ∀ a, (k2_off178 k2_t3) a + S1x1x16.size a ≤ S2x32x512.size a
  k2_off179_inb : ∀ k2_t3 : Fin k2_t3_loop.trips, ∀ a, (k2_off179 k2_t3) a + S1x1x1x16.size a ≤ S2x32x4x256.size a
  k2_off180_inb : ∀ k2_t3 : Fin k2_t3_loop.trips, ∀ a, (k2_off180 k2_t3) a + S1x1x16.size a ≤ S2x32x512.size a
  k2_off181_inb : ∀ k2_t3 : Fin k2_t3_loop.trips, ∀ a, (k2_off181 k2_t3) a + S1x1x1x16.size a ≤ S2x32x4x256.size a
  k2_off182_inb : ∀ k2_t3 : Fin k2_t3_loop.trips, ∀ a, (k2_off182 k2_t3) a + S1x1x16.size a ≤ S2x32x512.size a
  k2_off183_inb : ∀ k2_t3 : Fin k2_t3_loop.trips, ∀ a, (k2_off183 k2_t3) a + S1x1x1x16.size a ≤ S2x32x4x256.size a
  k2_off184_inb : ∀ k2_t3 : Fin k2_t3_loop.trips, ∀ a, (k2_off184 k2_t3) a + S1x1x16.size a ≤ S2x32x512.size a
  k2_off185_inb : ∀ k2_t3 : Fin k2_t3_loop.trips, ∀ a, (k2_off185 k2_t3) a + S1x1x1x16.size a ≤ S2x32x4x256.size a
  k2_off186_inb : ∀ k2_t3 : Fin k2_t3_loop.trips, ∀ a, (k2_off186 k2_t3) a + S1x1x16.size a ≤ S2x32x512.size a
  k2_off187_inb : ∀ k2_t3 : Fin k2_t3_loop.trips, ∀ a, (k2_off187 k2_t3) a + S1x1x1x16.size a ≤ S2x32x4x256.size a
  k2_off188_inb : ∀ k2_t3 : Fin k2_t3_loop.trips, ∀ a, (k2_off188 k2_t3) a + S1x1x16.size a ≤ S2x32x512.size a
  k2_off189_inb : ∀ k2_t3 : Fin k2_t3_loop.trips, ∀ a, (k2_off189 k2_t3) a + S1x1x1x16.size a ≤ S2x32x4x256.size a
  k2_off190_inb : ∀ k2_t3 : Fin k2_t3_loop.trips, ∀ a, (k2_off190 k2_t3) a + S1x1x16.size a ≤ S2x32x512.size a
  k2_off191_inb : ∀ k2_t3 : Fin k2_t3_loop.trips, ∀ a, (k2_off191 k2_t3) a + S1x1x1x16.size a ≤ S2x32x4x256.size a
  k2_off192_inb : ∀ k2_t3 : Fin k2_t3_loop.trips, ∀ a, (k2_off192 k2_t3) a + S1x1x16.size a ≤ S2x32x512.size a
  k2_off193_inb : ∀ k2_t3 : Fin k2_t3_loop.trips, ∀ a, (k2_off193 k2_t3) a + S1x1x1x16.size a ≤ S2x32x4x256.size a
  k2_off194_inb : ∀ k2_t3 : Fin k2_t3_loop.trips, ∀ a, (k2_off194 k2_t3) a + S1x1x16.size a ≤ S2x32x512.size a
  k2_off195_inb : ∀ k2_t3 : Fin k2_t3_loop.trips, ∀ a, (k2_off195 k2_t3) a + S1x1x1x16.size a ≤ S2x32x4x256.size a
  k2_off196_inb : ∀ i : grid2.Coords, ∀ a, (k2_off196 i) a + S1x32x4x256.size a ≤ S16x1024x4x256.size a
  k2_off197_inb : ∀ i : grid2.Coords, ∀ a, (k2_off197 i) a + S1x32x512.size a ≤ S16x1024x512.size a
  k2_t4_ok : k2_t4_loop.OK
  k2_off198_inb : ∀ k2_t4 : Fin k2_t4_loop.trips, ∀ a, (k2_off198 k2_t4) a + S1x1x16.size a ≤ S2x32x512.size a
  k2_off199_inb : ∀ k2_t4 : Fin k2_t4_loop.trips, ∀ a, (k2_off199 k2_t4) a + S1x1x1x16.size a ≤ S2x32x4x256.size a
  k2_off200_inb : ∀ k2_t4 : Fin k2_t4_loop.trips, ∀ a, (k2_off200 k2_t4) a + S1x1x16.size a ≤ S2x32x512.size a
  k2_off201_inb : ∀ k2_t4 : Fin k2_t4_loop.trips, ∀ a, (k2_off201 k2_t4) a + S1x1x1x16.size a ≤ S2x32x4x256.size a
  k2_off202_inb : ∀ k2_t4 : Fin k2_t4_loop.trips, ∀ a, (k2_off202 k2_t4) a + S1x1x16.size a ≤ S2x32x512.size a
  k2_off203_inb : ∀ k2_t4 : Fin k2_t4_loop.trips, ∀ a, (k2_off203 k2_t4) a + S1x1x1x16.size a ≤ S2x32x4x256.size a
  k2_off204_inb : ∀ k2_t4 : Fin k2_t4_loop.trips, ∀ a, (k2_off204 k2_t4) a + S1x1x16.size a ≤ S2x32x512.size a
  k2_off205_inb : ∀ k2_t4 : Fin k2_t4_loop.trips, ∀ a, (k2_off205 k2_t4) a + S1x1x1x16.size a ≤ S2x32x4x256.size a
  k2_off206_inb : ∀ k2_t4 : Fin k2_t4_loop.trips, ∀ a, (k2_off206 k2_t4) a + S1x1x16.size a ≤ S2x32x512.size a
  k2_off207_inb : ∀ k2_t4 : Fin k2_t4_loop.trips, ∀ a, (k2_off207 k2_t4) a + S1x1x1x16.size a ≤ S2x32x4x256.size a
  k2_off208_inb : ∀ k2_t4 : Fin k2_t4_loop.trips, ∀ a, (k2_off208 k2_t4) a + S1x1x16.size a ≤ S2x32x512.size a
  k2_off209_inb : ∀ k2_t4 : Fin k2_t4_loop.trips, ∀ a, (k2_off209 k2_t4) a + S1x1x1x16.size a ≤ S2x32x4x256.size a
  k2_off210_inb : ∀ k2_t4 : Fin k2_t4_loop.trips, ∀ a, (k2_off210 k2_t4) a + S1x1x16.size a ≤ S2x32x512.size a
  k2_off211_inb : ∀ k2_t4 : Fin k2_t4_loop.trips, ∀ a, (k2_off211 k2_t4) a + S1x1x1x16.size a ≤ S2x32x4x256.size a
  k2_off212_inb : ∀ k2_t4 : Fin k2_t4_loop.trips, ∀ a, (k2_off212 k2_t4) a + S1x1x16.size a ≤ S2x32x512.size a
  k2_off213_inb : ∀ k2_t4 : Fin k2_t4_loop.trips, ∀ a, (k2_off213 k2_t4) a + S1x1x1x16.size a ≤ S2x32x4x256.size a
  k2_off214_inb : ∀ k2_t4 : Fin k2_t4_loop.trips, ∀ a, (k2_off214 k2_t4) a + S1x1x16.size a ≤ S2x32x512.size a
  k2_off215_inb : ∀ k2_t4 : Fin k2_t4_loop.trips, ∀ a, (k2_off215 k2_t4) a + S1x1x1x16.size a ≤ S2x32x4x256.size a
  k2_off216_inb : ∀ k2_t4 : Fin k2_t4_loop.trips, ∀ a, (k2_off216 k2_t4) a + S1x1x16.size a ≤ S2x32x512.size a
  k2_off217_inb : ∀ k2_t4 : Fin k2_t4_loop.trips, ∀ a, (k2_off217 k2_t4) a + S1x1x1x16.size a ≤ S2x32x4x256.size a
  k2_off218_inb : ∀ k2_t4 : Fin k2_t4_loop.trips, ∀ a, (k2_off218 k2_t4) a + S1x1x16.size a ≤ S2x32x512.size a
  k2_off219_inb : ∀ k2_t4 : Fin k2_t4_loop.trips, ∀ a, (k2_off219 k2_t4) a + S1x1x1x16.size a ≤ S2x32x4x256.size a
  k2_off220_inb : ∀ k2_t4 : Fin k2_t4_loop.trips, ∀ a, (k2_off220 k2_t4) a + S1x1x16.size a ≤ S2x32x512.size a
  k2_off221_inb : ∀ k2_t4 : Fin k2_t4_loop.trips, ∀ a, (k2_off221 k2_t4) a + S1x1x1x16.size a ≤ S2x32x4x256.size a
  k2_off222_inb : ∀ k2_t4 : Fin k2_t4_loop.trips, ∀ a, (k2_off222 k2_t4) a + S1x1x16.size a ≤ S2x32x512.size a
  k2_off223_inb : ∀ k2_t4 : Fin k2_t4_loop.trips, ∀ a, (k2_off223 k2_t4) a + S1x1x1x16.size a ≤ S2x32x4x256.size a
  k2_off224_inb : ∀ k2_t4 : Fin k2_t4_loop.trips, ∀ a, (k2_off224 k2_t4) a + S1x1x16.size a ≤ S2x32x512.size a
  k2_off225_inb : ∀ k2_t4 : Fin k2_t4_loop.trips, ∀ a, (k2_off225 k2_t4) a + S1x1x1x16.size a ≤ S2x32x4x256.size a
  k2_off226_inb : ∀ k2_t4 : Fin k2_t4_loop.trips, ∀ a, (k2_off226 k2_t4) a + S1x1x16.size a ≤ S2x32x512.size a
  k2_off227_inb : ∀ k2_t4 : Fin k2_t4_loop.trips, ∀ a, (k2_off227 k2_t4) a + S1x1x1x16.size a ≤ S2x32x4x256.size a
  k2_off228_inb : ∀ k2_t4 : Fin k2_t4_loop.trips, ∀ a, (k2_off228 k2_t4) a + S1x1x16.size a ≤ S2x32x512.size a
  k2_off229_inb : ∀ k2_t4 : Fin k2_t4_loop.trips, ∀ a, (k2_off229 k2_t4) a + S1x1x1x16.size a ≤ S2x32x4x256.size a
  k2_off230_inb : ∀ k2_t4 : Fin k2_t4_loop.trips, ∀ a, (k2_off230 k2_t4) a + S1x1x16.size a ≤ S2x32x512.size a
  k2_off231_inb : ∀ k2_t4 : Fin k2_t4_loop.trips, ∀ a, (k2_off231 k2_t4) a + S1x1x1x16.size a ≤ S2x32x4x256.size a
  k2_off232_inb : ∀ k2_t4 : Fin k2_t4_loop.trips, ∀ a, (k2_off232 k2_t4) a + S1x1x16.size a ≤ S2x32x512.size a
  k2_off233_inb : ∀ k2_t4 : Fin k2_t4_loop.trips, ∀ a, (k2_off233 k2_t4) a + S1x1x1x16.size a ≤ S2x32x4x256.size a
  k2_off234_inb : ∀ k2_t4 : Fin k2_t4_loop.trips, ∀ a, (k2_off234 k2_t4) a + S1x1x16.size a ≤ S2x32x512.size a
  k2_off235_inb : ∀ k2_t4 : Fin k2_t4_loop.trips, ∀ a, (k2_off235 k2_t4) a + S1x1x1x16.size a ≤ S2x32x4x256.size a
  k2_off236_inb : ∀ k2_t4 : Fin k2_t4_loop.trips, ∀ a, (k2_off236 k2_t4) a + S1x1x16.size a ≤ S2x32x512.size a
  k2_off237_inb : ∀ k2_t4 : Fin k2_t4_loop.trips, ∀ a, (k2_off237 k2_t4) a + S1x1x1x16.size a ≤ S2x32x4x256.size a
  k2_off238_inb : ∀ k2_t4 : Fin k2_t4_loop.trips, ∀ a, (k2_off238 k2_t4) a + S1x1x16.size a ≤ S2x32x512.size a
  k2_off239_inb : ∀ k2_t4 : Fin k2_t4_loop.trips, ∀ a, (k2_off239 k2_t4) a + S1x1x1x16.size a ≤ S2x32x4x256.size a
  k2_off240_inb : ∀ k2_t4 : Fin k2_t4_loop.trips, ∀ a, (k2_off240 k2_t4) a + S1x1x16.size a ≤ S2x32x512.size a
  k2_off241_inb : ∀ k2_t4 : Fin k2_t4_loop.trips, ∀ a, (k2_off241 k2_t4) a + S1x1x1x16.size a ≤ S2x32x4x256.size a
  k2_off242_inb : ∀ k2_t4 : Fin k2_t4_loop.trips, ∀ a, (k2_off242 k2_t4) a + S1x1x16.size a ≤ S2x32x512.size a
  k2_off243_inb : ∀ k2_t4 : Fin k2_t4_loop.trips, ∀ a, (k2_off243 k2_t4) a + S1x1x1x16.size a ≤ S2x32x4x256.size a
  k2_off244_inb : ∀ k2_t4 : Fin k2_t4_loop.trips, ∀ a, (k2_off244 k2_t4) a + S1x1x16.size a ≤ S2x32x512.size a
  k2_off245_inb : ∀ k2_t4 : Fin k2_t4_loop.trips, ∀ a, (k2_off245 k2_t4) a + S1x1x1x16.size a ≤ S2x32x4x256.size a
  k2_off246_inb : ∀ k2_t4 : Fin k2_t4_loop.trips, ∀ a, (k2_off246 k2_t4) a + S1x1x16.size a ≤ S2x32x512.size a
  k2_off247_inb : ∀ k2_t4 : Fin k2_t4_loop.trips, ∀ a, (k2_off247 k2_t4) a + S1x1x1x16.size a ≤ S2x32x4x256.size a
  k2_off248_inb : ∀ k2_t4 : Fin k2_t4_loop.trips, ∀ a, (k2_off248 k2_t4) a + S1x1x16.size a ≤ S2x32x512.size a
  k2_off249_inb : ∀ k2_t4 : Fin k2_t4_loop.trips, ∀ a, (k2_off249 k2_t4) a + S1x1x1x16.size a ≤ S2x32x4x256.size a
  k2_off250_inb : ∀ k2_t4 : Fin k2_t4_loop.trips, ∀ a, (k2_off250 k2_t4) a + S1x1x16.size a ≤ S2x32x512.size a
  k2_off251_inb : ∀ k2_t4 : Fin k2_t4_loop.trips, ∀ a, (k2_off251 k2_t4) a + S1x1x1x16.size a ≤ S2x32x4x256.size a
  k2_off252_inb : ∀ k2_t4 : Fin k2_t4_loop.trips, ∀ a, (k2_off252 k2_t4) a + S1x1x16.size a ≤ S2x32x512.size a
  k2_off253_inb : ∀ k2_t4 : Fin k2_t4_loop.trips, ∀ a, (k2_off253 k2_t4) a + S1x1x1x16.size a ≤ S2x32x4x256.size a
  k2_off254_inb : ∀ k2_t4 : Fin k2_t4_loop.trips, ∀ a, (k2_off254 k2_t4) a + S1x1x16.size a ≤ S2x32x512.size a
  k2_off255_inb : ∀ k2_t4 : Fin k2_t4_loop.trips, ∀ a, (k2_off255 k2_t4) a + S1x1x1x16.size a ≤ S2x32x4x256.size a
  k2_off256_inb : ∀ k2_t4 : Fin k2_t4_loop.trips, ∀ a, (k2_off256 k2_t4) a + S1x1x16.size a ≤ S2x32x512.size a
  k2_off257_inb : ∀ k2_t4 : Fin k2_t4_loop.trips, ∀ a, (k2_off257 k2_t4) a + S1x1x1x16.size a ≤ S2x32x4x256.size a
  k2_off258_inb : ∀ k2_t4 : Fin k2_t4_loop.trips, ∀ a, (k2_off258 k2_t4) a + S1x1x16.size a ≤ S2x32x512.size a
  k2_off259_inb : ∀ k2_t4 : Fin k2_t4_loop.trips, ∀ a, (k2_off259 k2_t4) a + S1x1x1x16.size a ≤ S2x32x4x256.size a
  k2_off260_inb : ∀ k2_t4 : Fin k2_t4_loop.trips, ∀ a, (k2_off260 k2_t4) a + S1x1x16.size a ≤ S2x32x512.size a
  k2_off261_inb : ∀ k2_t4 : Fin k2_t4_loop.trips, ∀ a, (k2_off261 k2_t4) a + S1x1x1x16.size a ≤ S2x32x4x256.size a
  k2_off262_inb : ∀ i : grid2.Coords, ∀ a, (k2_off262 i) a + S1x32x4x256.size a ≤ S16x1024x4x256.size a
  k2_off263_inb : ∀ i : grid2.Coords, ∀ a, (k2_off263 i) a + S1x32x512.size a ≤ S16x1024x512.size a
  k2_t5_ok : k2_t5_loop.OK
  k2_off264_inb : ∀ k2_t5 : Fin k2_t5_loop.trips, ∀ a, (k2_off264 k2_t5) a + S1x1x16.size a ≤ S2x32x512.size a
  k2_off265_inb : ∀ k2_t5 : Fin k2_t5_loop.trips, ∀ a, (k2_off265 k2_t5) a + S1x1x1x16.size a ≤ S2x32x4x256.size a
  k2_off266_inb : ∀ k2_t5 : Fin k2_t5_loop.trips, ∀ a, (k2_off266 k2_t5) a + S1x1x16.size a ≤ S2x32x512.size a
  k2_off267_inb : ∀ k2_t5 : Fin k2_t5_loop.trips, ∀ a, (k2_off267 k2_t5) a + S1x1x1x16.size a ≤ S2x32x4x256.size a
  k2_off268_inb : ∀ k2_t5 : Fin k2_t5_loop.trips, ∀ a, (k2_off268 k2_t5) a + S1x1x16.size a ≤ S2x32x512.size a
  k2_off269_inb : ∀ k2_t5 : Fin k2_t5_loop.trips, ∀ a, (k2_off269 k2_t5) a + S1x1x1x16.size a ≤ S2x32x4x256.size a
  k2_off270_inb : ∀ k2_t5 : Fin k2_t5_loop.trips, ∀ a, (k2_off270 k2_t5) a + S1x1x16.size a ≤ S2x32x512.size a
  k2_off271_inb : ∀ k2_t5 : Fin k2_t5_loop.trips, ∀ a, (k2_off271 k2_t5) a + S1x1x1x16.size a ≤ S2x32x4x256.size a
  k2_off272_inb : ∀ k2_t5 : Fin k2_t5_loop.trips, ∀ a, (k2_off272 k2_t5) a + S1x1x16.size a ≤ S2x32x512.size a
  k2_off273_inb : ∀ k2_t5 : Fin k2_t5_loop.trips, ∀ a, (k2_off273 k2_t5) a + S1x1x1x16.size a ≤ S2x32x4x256.size a
  k2_off274_inb : ∀ k2_t5 : Fin k2_t5_loop.trips, ∀ a, (k2_off274 k2_t5) a + S1x1x16.size a ≤ S2x32x512.size a
  k2_off275_inb : ∀ k2_t5 : Fin k2_t5_loop.trips, ∀ a, (k2_off275 k2_t5) a + S1x1x1x16.size a ≤ S2x32x4x256.size a
  k2_off276_inb : ∀ k2_t5 : Fin k2_t5_loop.trips, ∀ a, (k2_off276 k2_t5) a + S1x1x16.size a ≤ S2x32x512.size a
  k2_off277_inb : ∀ k2_t5 : Fin k2_t5_loop.trips, ∀ a, (k2_off277 k2_t5) a + S1x1x1x16.size a ≤ S2x32x4x256.size a
  k2_off278_inb : ∀ k2_t5 : Fin k2_t5_loop.trips, ∀ a, (k2_off278 k2_t5) a + S1x1x16.size a ≤ S2x32x512.size a
  k2_off279_inb : ∀ k2_t5 : Fin k2_t5_loop.trips, ∀ a, (k2_off279 k2_t5) a + S1x1x1x16.size a ≤ S2x32x4x256.size a
  k2_off280_inb : ∀ k2_t5 : Fin k2_t5_loop.trips, ∀ a, (k2_off280 k2_t5) a + S1x1x16.size a ≤ S2x32x512.size a
  k2_off281_inb : ∀ k2_t5 : Fin k2_t5_loop.trips, ∀ a, (k2_off281 k2_t5) a + S1x1x1x16.size a ≤ S2x32x4x256.size a
  k2_off282_inb : ∀ k2_t5 : Fin k2_t5_loop.trips, ∀ a, (k2_off282 k2_t5) a + S1x1x16.size a ≤ S2x32x512.size a
  k2_off283_inb : ∀ k2_t5 : Fin k2_t5_loop.trips, ∀ a, (k2_off283 k2_t5) a + S1x1x1x16.size a ≤ S2x32x4x256.size a
  k2_off284_inb : ∀ k2_t5 : Fin k2_t5_loop.trips, ∀ a, (k2_off284 k2_t5) a + S1x1x16.size a ≤ S2x32x512.size a
  k2_off285_inb : ∀ k2_t5 : Fin k2_t5_loop.trips, ∀ a, (k2_off285 k2_t5) a + S1x1x1x16.size a ≤ S2x32x4x256.size a
  k2_off286_inb : ∀ k2_t5 : Fin k2_t5_loop.trips, ∀ a, (k2_off286 k2_t5) a + S1x1x16.size a ≤ S2x32x512.size a
  k2_off287_inb : ∀ k2_t5 : Fin k2_t5_loop.trips, ∀ a, (k2_off287 k2_t5) a + S1x1x1x16.size a ≤ S2x32x4x256.size a
  k2_off288_inb : ∀ k2_t5 : Fin k2_t5_loop.trips, ∀ a, (k2_off288 k2_t5) a + S1x1x16.size a ≤ S2x32x512.size a
  k2_off289_inb : ∀ k2_t5 : Fin k2_t5_loop.trips, ∀ a, (k2_off289 k2_t5) a + S1x1x1x16.size a ≤ S2x32x4x256.size a
  k2_off290_inb : ∀ k2_t5 : Fin k2_t5_loop.trips, ∀ a, (k2_off290 k2_t5) a + S1x1x16.size a ≤ S2x32x512.size a
  k2_off291_inb : ∀ k2_t5 : Fin k2_t5_loop.trips, ∀ a, (k2_off291 k2_t5) a + S1x1x1x16.size a ≤ S2x32x4x256.size a
  k2_off292_inb : ∀ k2_t5 : Fin k2_t5_loop.trips, ∀ a, (k2_off292 k2_t5) a + S1x1x16.size a ≤ S2x32x512.size a
  k2_off293_inb : ∀ k2_t5 : Fin k2_t5_loop.trips, ∀ a, (k2_off293 k2_t5) a + S1x1x1x16.size a ≤ S2x32x4x256.size a
  k2_off294_inb : ∀ k2_t5 : Fin k2_t5_loop.trips, ∀ a, (k2_off294 k2_t5) a + S1x1x16.size a ≤ S2x32x512.size a
  k2_off295_inb : ∀ k2_t5 : Fin k2_t5_loop.trips, ∀ a, (k2_off295 k2_t5) a + S1x1x1x16.size a ≤ S2x32x4x256.size a
  k2_off296_inb : ∀ k2_t5 : Fin k2_t5_loop.trips, ∀ a, (k2_off296 k2_t5) a + S1x1x16.size a ≤ S2x32x512.size a
  k2_off297_inb : ∀ k2_t5 : Fin k2_t5_loop.trips, ∀ a, (k2_off297 k2_t5) a + S1x1x1x16.size a ≤ S2x32x4x256.size a
  k2_off298_inb : ∀ k2_t5 : Fin k2_t5_loop.trips, ∀ a, (k2_off298 k2_t5) a + S1x1x16.size a ≤ S2x32x512.size a
  k2_off299_inb : ∀ k2_t5 : Fin k2_t5_loop.trips, ∀ a, (k2_off299 k2_t5) a + S1x1x1x16.size a ≤ S2x32x4x256.size a
  k2_off300_inb : ∀ k2_t5 : Fin k2_t5_loop.trips, ∀ a, (k2_off300 k2_t5) a + S1x1x16.size a ≤ S2x32x512.size a
  k2_off301_inb : ∀ k2_t5 : Fin k2_t5_loop.trips, ∀ a, (k2_off301 k2_t5) a + S1x1x1x16.size a ≤ S2x32x4x256.size a
  k2_off302_inb : ∀ k2_t5 : Fin k2_t5_loop.trips, ∀ a, (k2_off302 k2_t5) a + S1x1x16.size a ≤ S2x32x512.size a
  k2_off303_inb : ∀ k2_t5 : Fin k2_t5_loop.trips, ∀ a, (k2_off303 k2_t5) a + S1x1x1x16.size a ≤ S2x32x4x256.size a
  k2_off304_inb : ∀ k2_t5 : Fin k2_t5_loop.trips, ∀ a, (k2_off304 k2_t5) a + S1x1x16.size a ≤ S2x32x512.size a
  k2_off305_inb : ∀ k2_t5 : Fin k2_t5_loop.trips, ∀ a, (k2_off305 k2_t5) a + S1x1x1x16.size a ≤ S2x32x4x256.size a
  k2_off306_inb : ∀ k2_t5 : Fin k2_t5_loop.trips, ∀ a, (k2_off306 k2_t5) a + S1x1x16.size a ≤ S2x32x512.size a
  k2_off307_inb : ∀ k2_t5 : Fin k2_t5_loop.trips, ∀ a, (k2_off307 k2_t5) a + S1x1x1x16.size a ≤ S2x32x4x256.size a
  k2_off308_inb : ∀ k2_t5 : Fin k2_t5_loop.trips, ∀ a, (k2_off308 k2_t5) a + S1x1x16.size a ≤ S2x32x512.size a
  k2_off309_inb : ∀ k2_t5 : Fin k2_t5_loop.trips, ∀ a, (k2_off309 k2_t5) a + S1x1x1x16.size a ≤ S2x32x4x256.size a
  k2_off310_inb : ∀ k2_t5 : Fin k2_t5_loop.trips, ∀ a, (k2_off310 k2_t5) a + S1x1x16.size a ≤ S2x32x512.size a
  k2_off311_inb : ∀ k2_t5 : Fin k2_t5_loop.trips, ∀ a, (k2_off311 k2_t5) a + S1x1x1x16.size a ≤ S2x32x4x256.size a
  k2_off312_inb : ∀ k2_t5 : Fin k2_t5_loop.trips, ∀ a, (k2_off312 k2_t5) a + S1x1x16.size a ≤ S2x32x512.size a
  k2_off313_inb : ∀ k2_t5 : Fin k2_t5_loop.trips, ∀ a, (k2_off313 k2_t5) a + S1x1x1x16.size a ≤ S2x32x4x256.size a
  k2_off314_inb : ∀ k2_t5 : Fin k2_t5_loop.trips, ∀ a, (k2_off314 k2_t5) a + S1x1x16.size a ≤ S2x32x512.size a
  k2_off315_inb : ∀ k2_t5 : Fin k2_t5_loop.trips, ∀ a, (k2_off315 k2_t5) a + S1x1x1x16.size a ≤ S2x32x4x256.size a
  k2_off316_inb : ∀ k2_t5 : Fin k2_t5_loop.trips, ∀ a, (k2_off316 k2_t5) a + S1x1x16.size a ≤ S2x32x512.size a
  k2_off317_inb : ∀ k2_t5 : Fin k2_t5_loop.trips, ∀ a, (k2_off317 k2_t5) a + S1x1x1x16.size a ≤ S2x32x4x256.size a
  k2_off318_inb : ∀ k2_t5 : Fin k2_t5_loop.trips, ∀ a, (k2_off318 k2_t5) a + S1x1x16.size a ≤ S2x32x512.size a
  k2_off319_inb : ∀ k2_t5 : Fin k2_t5_loop.trips, ∀ a, (k2_off319 k2_t5) a + S1x1x1x16.size a ≤ S2x32x4x256.size a
  k2_off320_inb : ∀ k2_t5 : Fin k2_t5_loop.trips, ∀ a, (k2_off320 k2_t5) a + S1x1x16.size a ≤ S2x32x512.size a
  k2_off321_inb : ∀ k2_t5 : Fin k2_t5_loop.trips, ∀ a, (k2_off321 k2_t5) a + S1x1x1x16.size a ≤ S2x32x4x256.size a
  k2_off322_inb : ∀ k2_t5 : Fin k2_t5_loop.trips, ∀ a, (k2_off322 k2_t5) a + S1x1x16.size a ≤ S2x32x512.size a
  k2_off323_inb : ∀ k2_t5 : Fin k2_t5_loop.trips, ∀ a, (k2_off323 k2_t5) a + S1x1x1x16.size a ≤ S2x32x4x256.size a
  k2_off324_inb : ∀ k2_t5 : Fin k2_t5_loop.trips, ∀ a, (k2_off324 k2_t5) a + S1x1x16.size a ≤ S2x32x512.size a
  k2_off325_inb : ∀ k2_t5 : Fin k2_t5_loop.trips, ∀ a, (k2_off325 k2_t5) a + S1x1x1x16.size a ≤ S2x32x4x256.size a
  k2_off326_inb : ∀ k2_t5 : Fin k2_t5_loop.trips, ∀ a, (k2_off326 k2_t5) a + S1x1x16.size a ≤ S2x32x512.size a
  k2_off327_inb : ∀ k2_t5 : Fin k2_t5_loop.trips, ∀ a, (k2_off327 k2_t5) a + S1x1x1x16.size a ≤ S2x32x4x256.size a
  k2_off328_inb : ∀ i : grid2.Coords, ∀ a, (k2_off328 i) a + S1x32x4x256.size a ≤ S16x1024x4x256.size a
  k2_off329_inb : ∀ i : grid2.Coords, ∀ a, (k2_off329 i) a + S1x32x512.size a ≤ S16x1024x512.size a
  k2_t6_ok : k2_t6_loop.OK
  k2_off330_inb : ∀ k2_t6 : Fin k2_t6_loop.trips, ∀ a, (k2_off330 k2_t6) a + S1x1x16.size a ≤ S2x32x512.size a
  k2_off331_inb : ∀ k2_t6 : Fin k2_t6_loop.trips, ∀ a, (k2_off331 k2_t6) a + S1x1x1x16.size a ≤ S2x32x4x256.size a
  k2_off332_inb : ∀ k2_t6 : Fin k2_t6_loop.trips, ∀ a, (k2_off332 k2_t6) a + S1x1x16.size a ≤ S2x32x512.size a
  k2_off333_inb : ∀ k2_t6 : Fin k2_t6_loop.trips, ∀ a, (k2_off333 k2_t6) a + S1x1x1x16.size a ≤ S2x32x4x256.size a
  k2_off334_inb : ∀ k2_t6 : Fin k2_t6_loop.trips, ∀ a, (k2_off334 k2_t6) a + S1x1x16.size a ≤ S2x32x512.size a
  k2_off335_inb : ∀ k2_t6 : Fin k2_t6_loop.trips, ∀ a, (k2_off335 k2_t6) a + S1x1x1x16.size a ≤ S2x32x4x256.size a
  k2_off336_inb : ∀ k2_t6 : Fin k2_t6_loop.trips, ∀ a, (k2_off336 k2_t6) a + S1x1x16.size a ≤ S2x32x512.size a
  k2_off337_inb : ∀ k2_t6 : Fin k2_t6_loop.trips, ∀ a, (k2_off337 k2_t6) a + S1x1x1x16.size a ≤ S2x32x4x256.size a
  k2_off338_inb : ∀ k2_t6 : Fin k2_t6_loop.trips, ∀ a, (k2_off338 k2_t6) a + S1x1x16.size a ≤ S2x32x512.size a
  k2_off339_inb : ∀ k2_t6 : Fin k2_t6_loop.trips, ∀ a, (k2_off339 k2_t6) a + S1x1x1x16.size a ≤ S2x32x4x256.size a
  k2_off340_inb : ∀ k2_t6 : Fin k2_t6_loop.trips, ∀ a, (k2_off340 k2_t6) a + S1x1x16.size a ≤ S2x32x512.size a
  k2_off341_inb : ∀ k2_t6 : Fin k2_t6_loop.trips, ∀ a, (k2_off341 k2_t6) a + S1x1x1x16.size a ≤ S2x32x4x256.size a
  k2_off342_inb : ∀ k2_t6 : Fin k2_t6_loop.trips, ∀ a, (k2_off342 k2_t6) a + S1x1x16.size a ≤ S2x32x512.size a
  k2_off343_inb : ∀ k2_t6 : Fin k2_t6_loop.trips, ∀ a, (k2_off343 k2_t6) a + S1x1x1x16.size a ≤ S2x32x4x256.size a
  k2_off344_inb : ∀ k2_t6 : Fin k2_t6_loop.trips, ∀ a, (k2_off344 k2_t6) a + S1x1x16.size a ≤ S2x32x512.size a
  k2_off345_inb : ∀ k2_t6 : Fin k2_t6_loop.trips, ∀ a, (k2_off345 k2_t6) a + S1x1x1x16.size a ≤ S2x32x4x256.size a
  k2_off346_inb : ∀ k2_t6 : Fin k2_t6_loop.trips, ∀ a, (k2_off346 k2_t6) a + S1x1x16.size a ≤ S2x32x512.size a
  k2_off347_inb : ∀ k2_t6 : Fin k2_t6_loop.trips, ∀ a, (k2_off347 k2_t6) a + S1x1x1x16.size a ≤ S2x32x4x256.size a
  k2_off348_inb : ∀ k2_t6 : Fin k2_t6_loop.trips, ∀ a, (k2_off348 k2_t6) a + S1x1x16.size a ≤ S2x32x512.size a
  k2_off349_inb : ∀ k2_t6 : Fin k2_t6_loop.trips, ∀ a, (k2_off349 k2_t6) a + S1x1x1x16.size a ≤ S2x32x4x256.size a
  k2_off350_inb : ∀ k2_t6 : Fin k2_t6_loop.trips, ∀ a, (k2_off350 k2_t6) a + S1x1x16.size a ≤ S2x32x512.size a
  k2_off351_inb : ∀ k2_t6 : Fin k2_t6_loop.trips, ∀ a, (k2_off351 k2_t6) a + S1x1x1x16.size a ≤ S2x32x4x256.size a
  k2_off352_inb : ∀ k2_t6 : Fin k2_t6_loop.trips, ∀ a, (k2_off352 k2_t6) a + S1x1x16.size a ≤ S2x32x512.size a
  k2_off353_inb : ∀ k2_t6 : Fin k2_t6_loop.trips, ∀ a, (k2_off353 k2_t6) a + S1x1x1x16.size a ≤ S2x32x4x256.size a
  k2_off354_inb : ∀ k2_t6 : Fin k2_t6_loop.trips, ∀ a, (k2_off354 k2_t6) a + S1x1x16.size a ≤ S2x32x512.size a
  k2_off355_inb : ∀ k2_t6 : Fin k2_t6_loop.trips, ∀ a, (k2_off355 k2_t6) a + S1x1x1x16.size a ≤ S2x32x4x256.size a
  k2_off356_inb : ∀ k2_t6 : Fin k2_t6_loop.trips, ∀ a, (k2_off356 k2_t6) a + S1x1x16.size a ≤ S2x32x512.size a
  k2_off357_inb : ∀ k2_t6 : Fin k2_t6_loop.trips, ∀ a, (k2_off357 k2_t6) a + S1x1x1x16.size a ≤ S2x32x4x256.size a
  k2_off358_inb : ∀ k2_t6 : Fin k2_t6_loop.trips, ∀ a, (k2_off358 k2_t6) a + S1x1x16.size a ≤ S2x32x512.size a
  k2_off359_inb : ∀ k2_t6 : Fin k2_t6_loop.trips, ∀ a, (k2_off359 k2_t6) a + S1x1x1x16.size a ≤ S2x32x4x256.size a
  k2_off360_inb : ∀ k2_t6 : Fin k2_t6_loop.trips, ∀ a, (k2_off360 k2_t6) a + S1x1x16.size a ≤ S2x32x512.size a
  k2_off361_inb : ∀ k2_t6 : Fin k2_t6_loop.trips, ∀ a, (k2_off361 k2_t6) a + S1x1x1x16.size a ≤ S2x32x4x256.size a
  k2_off362_inb : ∀ k2_t6 : Fin k2_t6_loop.trips, ∀ a, (k2_off362 k2_t6) a + S1x1x16.size a ≤ S2x32x512.size a
  k2_off363_inb : ∀ k2_t6 : Fin k2_t6_loop.trips, ∀ a, (k2_off363 k2_t6) a + S1x1x1x16.size a ≤ S2x32x4x256.size a
  k2_off364_inb : ∀ k2_t6 : Fin k2_t6_loop.trips, ∀ a, (k2_off364 k2_t6) a + S1x1x16.size a ≤ S2x32x512.size a
  k2_off365_inb : ∀ k2_t6 : Fin k2_t6_loop.trips, ∀ a, (k2_off365 k2_t6) a + S1x1x1x16.size a ≤ S2x32x4x256.size a
  k2_off366_inb : ∀ k2_t6 : Fin k2_t6_loop.trips, ∀ a, (k2_off366 k2_t6) a + S1x1x16.size a ≤ S2x32x512.size a
  k2_off367_inb : ∀ k2_t6 : Fin k2_t6_loop.trips, ∀ a, (k2_off367 k2_t6) a + S1x1x1x16.size a ≤ S2x32x4x256.size a
  k2_off368_inb : ∀ k2_t6 : Fin k2_t6_loop.trips, ∀ a, (k2_off368 k2_t6) a + S1x1x16.size a ≤ S2x32x512.size a
  k2_off369_inb : ∀ k2_t6 : Fin k2_t6_loop.trips, ∀ a, (k2_off369 k2_t6) a + S1x1x1x16.size a ≤ S2x32x4x256.size a
  k2_off370_inb : ∀ k2_t6 : Fin k2_t6_loop.trips, ∀ a, (k2_off370 k2_t6) a + S1x1x16.size a ≤ S2x32x512.size a
  k2_off371_inb : ∀ k2_t6 : Fin k2_t6_loop.trips, ∀ a, (k2_off371 k2_t6) a + S1x1x1x16.size a ≤ S2x32x4x256.size a
  k2_off372_inb : ∀ k2_t6 : Fin k2_t6_loop.trips, ∀ a, (k2_off372 k2_t6) a + S1x1x16.size a ≤ S2x32x512.size a
  k2_off373_inb : ∀ k2_t6 : Fin k2_t6_loop.trips, ∀ a, (k2_off373 k2_t6) a + S1x1x1x16.size a ≤ S2x32x4x256.size a
  k2_off374_inb : ∀ k2_t6 : Fin k2_t6_loop.trips, ∀ a, (k2_off374 k2_t6) a + S1x1x16.size a ≤ S2x32x512.size a
  k2_off375_inb : ∀ k2_t6 : Fin k2_t6_loop.trips, ∀ a, (k2_off375 k2_t6) a + S1x1x1x16.size a ≤ S2x32x4x256.size a
  k2_off376_inb : ∀ k2_t6 : Fin k2_t6_loop.trips, ∀ a, (k2_off376 k2_t6) a + S1x1x16.size a ≤ S2x32x512.size a
  k2_off377_inb : ∀ k2_t6 : Fin k2_t6_loop.trips, ∀ a, (k2_off377 k2_t6) a + S1x1x1x16.size a ≤ S2x32x4x256.size a
  k2_off378_inb : ∀ k2_t6 : Fin k2_t6_loop.trips, ∀ a, (k2_off378 k2_t6) a + S1x1x16.size a ≤ S2x32x512.size a
  k2_off379_inb : ∀ k2_t6 : Fin k2_t6_loop.trips, ∀ a, (k2_off379 k2_t6) a + S1x1x1x16.size a ≤ S2x32x4x256.size a
  k2_off380_inb : ∀ k2_t6 : Fin k2_t6_loop.trips, ∀ a, (k2_off380 k2_t6) a + S1x1x16.size a ≤ S2x32x512.size a
  k2_off381_inb : ∀ k2_t6 : Fin k2_t6_loop.trips, ∀ a, (k2_off381 k2_t6) a + S1x1x1x16.size a ≤ S2x32x4x256.size a
  k2_off382_inb : ∀ k2_t6 : Fin k2_t6_loop.trips, ∀ a, (k2_off382 k2_t6) a + S1x1x16.size a ≤ S2x32x512.size a
  k2_off383_inb : ∀ k2_t6 : Fin k2_t6_loop.trips, ∀ a, (k2_off383 k2_t6) a + S1x1x1x16.size a ≤ S2x32x4x256.size a
  k2_off384_inb : ∀ k2_t6 : Fin k2_t6_loop.trips, ∀ a, (k2_off384 k2_t6) a + S1x1x16.size a ≤ S2x32x512.size a
  k2_off385_inb : ∀ k2_t6 : Fin k2_t6_loop.trips, ∀ a, (k2_off385 k2_t6) a + S1x1x1x16.size a ≤ S2x32x4x256.size a
  k2_off386_inb : ∀ k2_t6 : Fin k2_t6_loop.trips, ∀ a, (k2_off386 k2_t6) a + S1x1x16.size a ≤ S2x32x512.size a
  k2_off387_inb : ∀ k2_t6 : Fin k2_t6_loop.trips, ∀ a, (k2_off387 k2_t6) a + S1x1x1x16.size a ≤ S2x32x4x256.size a
  k2_off388_inb : ∀ k2_t6 : Fin k2_t6_loop.trips, ∀ a, (k2_off388 k2_t6) a + S1x1x16.size a ≤ S2x32x512.size a
  k2_off389_inb : ∀ k2_t6 : Fin k2_t6_loop.trips, ∀ a, (k2_off389 k2_t6) a + S1x1x1x16.size a ≤ S2x32x4x256.size a
  k2_off390_inb : ∀ k2_t6 : Fin k2_t6_loop.trips, ∀ a, (k2_off390 k2_t6) a + S1x1x16.size a ≤ S2x32x512.size a
  k2_off391_inb : ∀ k2_t6 : Fin k2_t6_loop.trips, ∀ a, (k2_off391 k2_t6) a + S1x1x1x16.size a ≤ S2x32x4x256.size a
  k2_off392_inb : ∀ k2_t6 : Fin k2_t6_loop.trips, ∀ a, (k2_off392 k2_t6) a + S1x1x16.size a ≤ S2x32x512.size a
  k2_off393_inb : ∀ k2_t6 : Fin k2_t6_loop.trips, ∀ a, (k2_off393 k2_t6) a + S1x1x1x16.size a ≤ S2x32x4x256.size a
  k2_off394_inb : ∀ i : grid2.Coords, ∀ a, (k2_off394 i) a + S1x32x4x256.size a ≤ S16x1024x4x256.size a
  k2_off395_inb : ∀ i : grid2.Coords, ∀ a, (k2_off395 i) a + S1x32x512.size a ≤ S16x1024x512.size a
  k2_t7_ok : k2_t7_loop.OK
  k2_off396_inb : ∀ k2_t7 : Fin k2_t7_loop.trips, ∀ a, (k2_off396 k2_t7) a + S1x1x16.size a ≤ S2x32x512.size a
  k2_off397_inb : ∀ k2_t7 : Fin k2_t7_loop.trips, ∀ a, (k2_off397 k2_t7) a + S1x1x1x16.size a ≤ S2x32x4x256.size a
  k2_off398_inb : ∀ k2_t7 : Fin k2_t7_loop.trips, ∀ a, (k2_off398 k2_t7) a + S1x1x16.size a ≤ S2x32x512.size a
  k2_off399_inb : ∀ k2_t7 : Fin k2_t7_loop.trips, ∀ a, (k2_off399 k2_t7) a + S1x1x1x16.size a ≤ S2x32x4x256.size a
  k2_off400_inb : ∀ k2_t7 : Fin k2_t7_loop.trips, ∀ a, (k2_off400 k2_t7) a + S1x1x16.size a ≤ S2x32x512.size a
  k2_off401_inb : ∀ k2_t7 : Fin k2_t7_loop.trips, ∀ a, (k2_off401 k2_t7) a + S1x1x1x16.size a ≤ S2x32x4x256.size a
  k2_off402_inb : ∀ k2_t7 : Fin k2_t7_loop.trips, ∀ a, (k2_off402 k2_t7) a + S1x1x16.size a ≤ S2x32x512.size a
  k2_off403_inb : ∀ k2_t7 : Fin k2_t7_loop.trips, ∀ a, (k2_off403 k2_t7) a + S1x1x1x16.size a ≤ S2x32x4x256.size a
  k2_off404_inb : ∀ k2_t7 : Fin k2_t7_loop.trips, ∀ a, (k2_off404 k2_t7) a + S1x1x16.size a ≤ S2x32x512.size a
  k2_off405_inb : ∀ k2_t7 : Fin k2_t7_loop.trips, ∀ a, (k2_off405 k2_t7) a + S1x1x1x16.size a ≤ S2x32x4x256.size a
  k2_off406_inb : ∀ k2_t7 : Fin k2_t7_loop.trips, ∀ a, (k2_off406 k2_t7) a + S1x1x16.size a ≤ S2x32x512.size a
  k2_off407_inb : ∀ k2_t7 : Fin k2_t7_loop.trips, ∀ a, (k2_off407 k2_t7) a + S1x1x1x16.size a ≤ S2x32x4x256.size a
  k2_off408_inb : ∀ k2_t7 : Fin k2_t7_loop.trips, ∀ a, (k2_off408 k2_t7) a + S1x1x16.size a ≤ S2x32x512.size a
  k2_off409_inb : ∀ k2_t7 : Fin k2_t7_loop.trips, ∀ a, (k2_off409 k2_t7) a + S1x1x1x16.size a ≤ S2x32x4x256.size a
  k2_off410_inb : ∀ k2_t7 : Fin k2_t7_loop.trips, ∀ a, (k2_off410 k2_t7) a + S1x1x16.size a ≤ S2x32x512.size a
  k2_off411_inb : ∀ k2_t7 : Fin k2_t7_loop.trips, ∀ a, (k2_off411 k2_t7) a + S1x1x1x16.size a ≤ S2x32x4x256.size a
  k2_off412_inb : ∀ k2_t7 : Fin k2_t7_loop.trips, ∀ a, (k2_off412 k2_t7) a + S1x1x16.size a ≤ S2x32x512.size a
  k2_off413_inb : ∀ k2_t7 : Fin k2_t7_loop.trips, ∀ a, (k2_off413 k2_t7) a + S1x1x1x16.size a ≤ S2x32x4x256.size a
  k2_off414_inb : ∀ k2_t7 : Fin k2_t7_loop.trips, ∀ a, (k2_off414 k2_t7) a + S1x1x16.size a ≤ S2x32x512.size a
  k2_off415_inb : ∀ k2_t7 : Fin k2_t7_loop.trips, ∀ a, (k2_off415 k2_t7) a + S1x1x1x16.size a ≤ S2x32x4x256.size a
  k2_off416_inb : ∀ k2_t7 : Fin k2_t7_loop.trips, ∀ a, (k2_off416 k2_t7) a + S1x1x16.size a ≤ S2x32x512.size a
  k2_off417_inb : ∀ k2_t7 : Fin k2_t7_loop.trips, ∀ a, (k2_off417 k2_t7) a + S1x1x1x16.size a ≤ S2x32x4x256.size a
  k2_off418_inb : ∀ k2_t7 : Fin k2_t7_loop.trips, ∀ a, (k2_off418 k2_t7) a + S1x1x16.size a ≤ S2x32x512.size a
  k2_off419_inb : ∀ k2_t7 : Fin k2_t7_loop.trips, ∀ a, (k2_off419 k2_t7) a + S1x1x1x16.size a ≤ S2x32x4x256.size a
  k2_off420_inb : ∀ k2_t7 : Fin k2_t7_loop.trips, ∀ a, (k2_off420 k2_t7) a + S1x1x16.size a ≤ S2x32x512.size a
  k2_off421_inb : ∀ k2_t7 : Fin k2_t7_loop.trips, ∀ a, (k2_off421 k2_t7) a + S1x1x1x16.size a ≤ S2x32x4x256.size a
  k2_off422_inb : ∀ k2_t7 : Fin k2_t7_loop.trips, ∀ a, (k2_off422 k2_t7) a + S1x1x16.size a ≤ S2x32x512.size a
  k2_off423_inb : ∀ k2_t7 : Fin k2_t7_loop.trips, ∀ a, (k2_off423 k2_t7) a + S1x1x1x16.size a ≤ S2x32x4x256.size a
  k2_off424_inb : ∀ k2_t7 : Fin k2_t7_loop.trips, ∀ a, (k2_off424 k2_t7) a + S1x1x16.size a ≤ S2x32x512.size a
  k2_off425_inb : ∀ k2_t7 : Fin k2_t7_loop.trips, ∀ a, (k2_off425 k2_t7) a + S1x1x1x16.size a ≤ S2x32x4x256.size a
  k2_off426_inb : ∀ k2_t7 : Fin k2_t7_loop.trips, ∀ a, (k2_off426 k2_t7) a + S1x1x16.size a ≤ S2x32x512.size a
  k2_off427_inb : ∀ k2_t7 : Fin k2_t7_loop.trips, ∀ a, (k2_off427 k2_t7) a + S1x1x1x16.size a ≤ S2x32x4x256.size a
  k2_off428_inb : ∀ k2_t7 : Fin k2_t7_loop.trips, ∀ a, (k2_off428 k2_t7) a + S1x1x16.size a ≤ S2x32x512.size a
  k2_off429_inb : ∀ k2_t7 : Fin k2_t7_loop.trips, ∀ a, (k2_off429 k2_t7) a + S1x1x1x16.size a ≤ S2x32x4x256.size a
  k2_off430_inb : ∀ k2_t7 : Fin k2_t7_loop.trips, ∀ a, (k2_off430 k2_t7) a + S1x1x16.size a ≤ S2x32x512.size a
  k2_off431_inb : ∀ k2_t7 : Fin k2_t7_loop.trips, ∀ a, (k2_off431 k2_t7) a + S1x1x1x16.size a ≤ S2x32x4x256.size a
  k2_off432_inb : ∀ k2_t7 : Fin k2_t7_loop.trips, ∀ a, (k2_off432 k2_t7) a + S1x1x16.size a ≤ S2x32x512.size a
  k2_off433_inb : ∀ k2_t7 : Fin k2_t7_loop.trips, ∀ a, (k2_off433 k2_t7) a + S1x1x1x16.size a ≤ S2x32x4x256.size a
  k2_off434_inb : ∀ k2_t7 : Fin k2_t7_loop.trips, ∀ a, (k2_off434 k2_t7) a + S1x1x16.size a ≤ S2x32x512.size a
  k2_off435_inb : ∀ k2_t7 : Fin k2_t7_loop.trips, ∀ a, (k2_off435 k2_t7) a + S1x1x1x16.size a ≤ S2x32x4x256.size a
  k2_off436_inb : ∀ k2_t7 : Fin k2_t7_loop.trips, ∀ a, (k2_off436 k2_t7) a + S1x1x16.size a ≤ S2x32x512.size a
  k2_off437_inb : ∀ k2_t7 : Fin k2_t7_loop.trips, ∀ a, (k2_off437 k2_t7) a + S1x1x1x16.size a ≤ S2x32x4x256.size a
  k2_off438_inb : ∀ k2_t7 : Fin k2_t7_loop.trips, ∀ a, (k2_off438 k2_t7) a + S1x1x16.size a ≤ S2x32x512.size a
  k2_off439_inb : ∀ k2_t7 : Fin k2_t7_loop.trips, ∀ a, (k2_off439 k2_t7) a + S1x1x1x16.size a ≤ S2x32x4x256.size a
  k2_off440_inb : ∀ k2_t7 : Fin k2_t7_loop.trips, ∀ a, (k2_off440 k2_t7) a + S1x1x16.size a ≤ S2x32x512.size a
  k2_off441_inb : ∀ k2_t7 : Fin k2_t7_loop.trips, ∀ a, (k2_off441 k2_t7) a + S1x1x1x16.size a ≤ S2x32x4x256.size a
  k2_off442_inb : ∀ k2_t7 : Fin k2_t7_loop.trips, ∀ a, (k2_off442 k2_t7) a + S1x1x16.size a ≤ S2x32x512.size a
  k2_off443_inb : ∀ k2_t7 : Fin k2_t7_loop.trips, ∀ a, (k2_off443 k2_t7) a + S1x1x1x16.size a ≤ S2x32x4x256.size a
  k2_off444_inb : ∀ k2_t7 : Fin k2_t7_loop.trips, ∀ a, (k2_off444 k2_t7) a + S1x1x16.size a ≤ S2x32x512.size a
  k2_off445_inb : ∀ k2_t7 : Fin k2_t7_loop.trips, ∀ a, (k2_off445 k2_t7) a + S1x1x1x16.size a ≤ S2x32x4x256.size a
  k2_off446_inb : ∀ k2_t7 : Fin k2_t7_loop.trips, ∀ a, (k2_off446 k2_t7) a + S1x1x16.size a ≤ S2x32x512.size a
  k2_off447_inb : ∀ k2_t7 : Fin k2_t7_loop.trips, ∀ a, (k2_off447 k2_t7) a + S1x1x1x16.size a ≤ S2x32x4x256.size a
  k2_off448_inb : ∀ k2_t7 : Fin k2_t7_loop.trips, ∀ a, (k2_off448 k2_t7) a + S1x1x16.size a ≤ S2x32x512.size a
  k2_off449_inb : ∀ k2_t7 : Fin k2_t7_loop.trips, ∀ a, (k2_off449 k2_t7) a + S1x1x1x16.size a ≤ S2x32x4x256.size a
  k2_off450_inb : ∀ k2_t7 : Fin k2_t7_loop.trips, ∀ a, (k2_off450 k2_t7) a + S1x1x16.size a ≤ S2x32x512.size a
  k2_off451_inb : ∀ k2_t7 : Fin k2_t7_loop.trips, ∀ a, (k2_off451 k2_t7) a + S1x1x1x16.size a ≤ S2x32x4x256.size a
  k2_off452_inb : ∀ k2_t7 : Fin k2_t7_loop.trips, ∀ a, (k2_off452 k2_t7) a + S1x1x16.size a ≤ S2x32x512.size a
  k2_off453_inb : ∀ k2_t7 : Fin k2_t7_loop.trips, ∀ a, (k2_off453 k2_t7) a + S1x1x1x16.size a ≤ S2x32x4x256.size a
  k2_off454_inb : ∀ k2_t7 : Fin k2_t7_loop.trips, ∀ a, (k2_off454 k2_t7) a + S1x1x16.size a ≤ S2x32x512.size a
  k2_off455_inb : ∀ k2_t7 : Fin k2_t7_loop.trips, ∀ a, (k2_off455 k2_t7) a + S1x1x1x16.size a ≤ S2x32x4x256.size a
  k2_off456_inb : ∀ k2_t7 : Fin k2_t7_loop.trips, ∀ a, (k2_off456 k2_t7) a + S1x1x16.size a ≤ S2x32x512.size a
  k2_off457_inb : ∀ k2_t7 : Fin k2_t7_loop.trips, ∀ a, (k2_off457 k2_t7) a + S1x1x1x16.size a ≤ S2x32x4x256.size a
  k2_off458_inb : ∀ k2_t7 : Fin k2_t7_loop.trips, ∀ a, (k2_off458 k2_t7) a + S1x1x16.size a ≤ S2x32x512.size a
  k2_off459_inb : ∀ k2_t7 : Fin k2_t7_loop.trips, ∀ a, (k2_off459 k2_t7) a + S1x1x1x16.size a ≤ S2x32x4x256.size a
  k2_off460_inb : ∀ i : grid2.Coords, ∀ a, (k2_off460 i) a + S1x32x4x256.size a ≤ S16x1024x4x256.size a
  k2_off461_inb : ∀ i : grid2.Coords, ∀ a, (k2_off461 i) a + S1x32x512.size a ≤ S16x1024x512.size a
  k2_t8_ok : k2_t8_loop.OK
  k2_off462_inb : ∀ k2_t8 : Fin k2_t8_loop.trips, ∀ a, (k2_off462 k2_t8) a + S1x1x16.size a ≤ S2x32x512.size a
  k2_off463_inb : ∀ k2_t8 : Fin k2_t8_loop.trips, ∀ a, (k2_off463 k2_t8) a + S1x1x1x16.size a ≤ S2x32x4x256.size a
  k2_off464_inb : ∀ k2_t8 : Fin k2_t8_loop.trips, ∀ a, (k2_off464 k2_t8) a + S1x1x16.size a ≤ S2x32x512.size a
  k2_off465_inb : ∀ k2_t8 : Fin k2_t8_loop.trips, ∀ a, (k2_off465 k2_t8) a + S1x1x1x16.size a ≤ S2x32x4x256.size a
  k2_off466_inb : ∀ k2_t8 : Fin k2_t8_loop.trips, ∀ a, (k2_off466 k2_t8) a + S1x1x16.size a ≤ S2x32x512.size a
  k2_off467_inb : ∀ k2_t8 : Fin k2_t8_loop.trips, ∀ a, (k2_off467 k2_t8) a + S1x1x1x16.size a ≤ S2x32x4x256.size a
  k2_off468_inb : ∀ k2_t8 : Fin k2_t8_loop.trips, ∀ a, (k2_off468 k2_t8) a + S1x1x16.size a ≤ S2x32x512.size a
  k2_off469_inb : ∀ k2_t8 : Fin k2_t8_loop.trips, ∀ a, (k2_off469 k2_t8) a + S1x1x1x16.size a ≤ S2x32x4x256.size a
  k2_off470_inb : ∀ k2_t8 : Fin k2_t8_loop.trips, ∀ a, (k2_off470 k2_t8) a + S1x1x16.size a ≤ S2x32x512.size a
  k2_off471_inb : ∀ k2_t8 : Fin k2_t8_loop.trips, ∀ a, (k2_off471 k2_t8) a + S1x1x1x16.size a ≤ S2x32x4x256.size a
  k2_off472_inb : ∀ k2_t8 : Fin k2_t8_loop.trips, ∀ a, (k2_off472 k2_t8) a + S1x1x16.size a ≤ S2x32x512.size a
  k2_off473_inb : ∀ k2_t8 : Fin k2_t8_loop.trips, ∀ a, (k2_off473 k2_t8) a + S1x1x1x16.size a ≤ S2x32x4x256.size a
  k2_off474_inb : ∀ k2_t8 : Fin k2_t8_loop.trips, ∀ a, (k2_off474 k2_t8) a + S1x1x16.size a ≤ S2x32x512.size a
  k2_off475_inb : ∀ k2_t8 : Fin k2_t8_loop.trips, ∀ a, (k2_off475 k2_t8) a + S1x1x1x16.size a ≤ S2x32x4x256.size a
  k2_off476_inb : ∀ k2_t8 : Fin k2_t8_loop.trips, ∀ a, (k2_off476 k2_t8) a + S1x1x16.size a ≤ S2x32x512.size a
  k2_off477_inb : ∀ k2_t8 : Fin k2_t8_loop.trips, ∀ a, (k2_off477 k2_t8) a + S1x1x1x16.size a ≤ S2x32x4x256.size a
  k2_off478_inb : ∀ k2_t8 : Fin k2_t8_loop.trips, ∀ a, (k2_off478 k2_t8) a + S1x1x16.size a ≤ S2x32x512.size a
  k2_off479_inb : ∀ k2_t8 : Fin k2_t8_loop.trips, ∀ a, (k2_off479 k2_t8) a + S1x1x1x16.size a ≤ S2x32x4x256.size a
  k2_off480_inb : ∀ k2_t8 : Fin k2_t8_loop.trips, ∀ a, (k2_off480 k2_t8) a + S1x1x16.size a ≤ S2x32x512.size a
  k2_off481_inb : ∀ k2_t8 : Fin k2_t8_loop.trips, ∀ a, (k2_off481 k2_t8) a + S1x1x1x16.size a ≤ S2x32x4x256.size a
  k2_off482_inb : ∀ k2_t8 : Fin k2_t8_loop.trips, ∀ a, (k2_off482 k2_t8) a + S1x1x16.size a ≤ S2x32x512.size a
  k2_off483_inb : ∀ k2_t8 : Fin k2_t8_loop.trips, ∀ a, (k2_off483 k2_t8) a + S1x1x1x16.size a ≤ S2x32x4x256.size a
  k2_off484_inb : ∀ k2_t8 : Fin k2_t8_loop.trips, ∀ a, (k2_off484 k2_t8) a + S1x1x16.size a ≤ S2x32x512.size a
  k2_off485_inb : ∀ k2_t8 : Fin k2_t8_loop.trips, ∀ a, (k2_off485 k2_t8) a + S1x1x1x16.size a ≤ S2x32x4x256.size a
  k2_off486_inb : ∀ k2_t8 : Fin k2_t8_loop.trips, ∀ a, (k2_off486 k2_t8) a + S1x1x16.size a ≤ S2x32x512.size a
  k2_off487_inb : ∀ k2_t8 : Fin k2_t8_loop.trips, ∀ a, (k2_off487 k2_t8) a + S1x1x1x16.size a ≤ S2x32x4x256.size a
  k2_off488_inb : ∀ k2_t8 : Fin k2_t8_loop.trips, ∀ a, (k2_off488 k2_t8) a + S1x1x16.size a ≤ S2x32x512.size a
  k2_off489_inb : ∀ k2_t8 : Fin k2_t8_loop.trips, ∀ a, (k2_off489 k2_t8) a + S1x1x1x16.size a ≤ S2x32x4x256.size a
  k2_off490_inb : ∀ k2_t8 : Fin k2_t8_loop.trips, ∀ a, (k2_off490 k2_t8) a + S1x1x16.size a ≤ S2x32x512.size a
  k2_off491_inb : ∀ k2_t8 : Fin k2_t8_loop.trips, ∀ a, (k2_off491 k2_t8) a + S1x1x1x16.size a ≤ S2x32x4x256.size a
  k2_off492_inb : ∀ k2_t8 : Fin k2_t8_loop.trips, ∀ a, (k2_off492 k2_t8) a + S1x1x16.size a ≤ S2x32x512.size a
  k2_off493_inb : ∀ k2_t8 : Fin k2_t8_loop.trips, ∀ a, (k2_off493 k2_t8) a + S1x1x1x16.size a ≤ S2x32x4x256.size a
  k2_off494_inb : ∀ k2_t8 : Fin k2_t8_loop.trips, ∀ a, (k2_off494 k2_t8) a + S1x1x16.size a ≤ S2x32x512.size a
  k2_off495_inb : ∀ k2_t8 : Fin k2_t8_loop.trips, ∀ a, (k2_off495 k2_t8) a + S1x1x1x16.size a ≤ S2x32x4x256.size a
  k2_off496_inb : ∀ k2_t8 : Fin k2_t8_loop.trips, ∀ a, (k2_off496 k2_t8) a + S1x1x16.size a ≤ S2x32x512.size a
  k2_off497_inb : ∀ k2_t8 : Fin k2_t8_loop.trips, ∀ a, (k2_off497 k2_t8) a + S1x1x1x16.size a ≤ S2x32x4x256.size a
  k2_off498_inb : ∀ k2_t8 : Fin k2_t8_loop.trips, ∀ a, (k2_off498 k2_t8) a + S1x1x16.size a ≤ S2x32x512.size a
  k2_off499_inb : ∀ k2_t8 : Fin k2_t8_loop.trips, ∀ a, (k2_off499 k2_t8) a + S1x1x1x16.size a ≤ S2x32x4x256.size a
  k2_off500_inb : ∀ k2_t8 : Fin k2_t8_loop.trips, ∀ a, (k2_off500 k2_t8) a + S1x1x16.size a ≤ S2x32x512.size a
  k2_off501_inb : ∀ k2_t8 : Fin k2_t8_loop.trips, ∀ a, (k2_off501 k2_t8) a + S1x1x1x16.size a ≤ S2x32x4x256.size a
  k2_off502_inb : ∀ k2_t8 : Fin k2_t8_loop.trips, ∀ a, (k2_off502 k2_t8) a + S1x1x16.size a ≤ S2x32x512.size a
  k2_off503_inb : ∀ k2_t8 : Fin k2_t8_loop.trips, ∀ a, (k2_off503 k2_t8) a + S1x1x1x16.size a ≤ S2x32x4x256.size a
  k2_off504_inb : ∀ k2_t8 : Fin k2_t8_loop.trips, ∀ a, (k2_off504 k2_t8) a + S1x1x16.size a ≤ S2x32x512.size a
  k2_off505_inb : ∀ k2_t8 : Fin k2_t8_loop.trips, ∀ a, (k2_off505 k2_t8) a + S1x1x1x16.size a ≤ S2x32x4x256.size a
  k2_off506_inb : ∀ k2_t8 : Fin k2_t8_loop.trips, ∀ a, (k2_off506 k2_t8) a + S1x1x16.size a ≤ S2x32x512.size a
  k2_off507_inb : ∀ k2_t8 : Fin k2_t8_loop.trips, ∀ a, (k2_off507 k2_t8) a + S1x1x1x16.size a ≤ S2x32x4x256.size a
  k2_off508_inb : ∀ k2_t8 : Fin k2_t8_loop.trips, ∀ a, (k2_off508 k2_t8) a + S1x1x16.size a ≤ S2x32x512.size a
  k2_off509_inb : ∀ k2_t8 : Fin k2_t8_loop.trips, ∀ a, (k2_off509 k2_t8) a + S1x1x1x16.size a ≤ S2x32x4x256.size a
  k2_off510_inb : ∀ k2_t8 : Fin k2_t8_loop.trips, ∀ a, (k2_off510 k2_t8) a + S1x1x16.size a ≤ S2x32x512.size a
  k2_off511_inb : ∀ k2_t8 : Fin k2_t8_loop.trips, ∀ a, (k2_off511 k2_t8) a + S1x1x1x16.size a ≤ S2x32x4x256.size a
  k2_off512_inb : ∀ k2_t8 : Fin k2_t8_loop.trips, ∀ a, (k2_off512 k2_t8) a + S1x1x16.size a ≤ S2x32x512.size a
  k2_off513_inb : ∀ k2_t8 : Fin k2_t8_loop.trips, ∀ a, (k2_off513 k2_t8) a + S1x1x1x16.size a ≤ S2x32x4x256.size a
  k2_off514_inb : ∀ k2_t8 : Fin k2_t8_loop.trips, ∀ a, (k2_off514 k2_t8) a + S1x1x16.size a ≤ S2x32x512.size a
  k2_off515_inb : ∀ k2_t8 : Fin k2_t8_loop.trips, ∀ a, (k2_off515 k2_t8) a + S1x1x1x16.size a ≤ S2x32x4x256.size a
  k2_off516_inb : ∀ k2_t8 : Fin k2_t8_loop.trips, ∀ a, (k2_off516 k2_t8) a + S1x1x16.size a ≤ S2x32x512.size a
  k2_off517_inb : ∀ k2_t8 : Fin k2_t8_loop.trips, ∀ a, (k2_off517 k2_t8) a + S1x1x1x16.size a ≤ S2x32x4x256.size a
  k2_off518_inb : ∀ k2_t8 : Fin k2_t8_loop.trips, ∀ a, (k2_off518 k2_t8) a + S1x1x16.size a ≤ S2x32x512.size a
  k2_off519_inb : ∀ k2_t8 : Fin k2_t8_loop.trips, ∀ a, (k2_off519 k2_t8) a + S1x1x1x16.size a ≤ S2x32x4x256.size a
  k2_off520_inb : ∀ k2_t8 : Fin k2_t8_loop.trips, ∀ a, (k2_off520 k2_t8) a + S1x1x16.size a ≤ S2x32x512.size a
  k2_off521_inb : ∀ k2_t8 : Fin k2_t8_loop.trips, ∀ a, (k2_off521 k2_t8) a + S1x1x1x16.size a ≤ S2x32x4x256.size a
  k2_off522_inb : ∀ k2_t8 : Fin k2_t8_loop.trips, ∀ a, (k2_off522 k2_t8) a + S1x1x16.size a ≤ S2x32x512.size a
  k2_off523_inb : ∀ k2_t8 : Fin k2_t8_loop.trips, ∀ a, (k2_off523 k2_t8) a + S1x1x1x16.size a ≤ S2x32x4x256.size a
  k2_off524_inb : ∀ k2_t8 : Fin k2_t8_loop.trips, ∀ a, (k2_off524 k2_t8) a + S1x1x16.size a ≤ S2x32x512.size a
  k2_off525_inb : ∀ k2_t8 : Fin k2_t8_loop.trips, ∀ a, (k2_off525 k2_t8) a + S1x1x1x16.size a ≤ S2x32x4x256.size a
  k2_off526_inb : ∀ i : grid2.Coords, ∀ a, (k2_off526 i) a + S1x32x4x256.size a ≤ S16x1024x4x256.size a
  k2_off527_inb : ∀ i : grid2.Coords, ∀ a, (k2_off527 i) a + S1x32x512.size a ≤ S16x1024x512.size a
  k2_t9_ok : k2_t9_loop.OK
  k2_off528_inb : ∀ k2_t9 : Fin k2_t9_loop.trips, ∀ a, (k2_off528 k2_t9) a + S1x1x16.size a ≤ S2x32x512.size a
  k2_off529_inb : ∀ k2_t9 : Fin k2_t9_loop.trips, ∀ a, (k2_off529 k2_t9) a + S1x1x1x16.size a ≤ S2x32x4x256.size a
  k2_off530_inb : ∀ k2_t9 : Fin k2_t9_loop.trips, ∀ a, (k2_off530 k2_t9) a + S1x1x16.size a ≤ S2x32x512.size a
  k2_off531_inb : ∀ k2_t9 : Fin k2_t9_loop.trips, ∀ a, (k2_off531 k2_t9) a + S1x1x1x16.size a ≤ S2x32x4x256.size a
  k2_off532_inb : ∀ k2_t9 : Fin k2_t9_loop.trips, ∀ a, (k2_off532 k2_t9) a + S1x1x16.size a ≤ S2x32x512.size a
  k2_off533_inb : ∀ k2_t9 : Fin k2_t9_loop.trips, ∀ a, (k2_off533 k2_t9) a + S1x1x1x16.size a ≤ S2x32x4x256.size a
  k2_off534_inb : ∀ k2_t9 : Fin k2_t9_loop.trips, ∀ a, (k2_off534 k2_t9) a + S1x1x16.size a ≤ S2x32x512.size a
  k2_off535_inb : ∀ k2_t9 : Fin k2_t9_loop.trips, ∀ a, (k2_off535 k2_t9) a + S1x1x1x16.size a ≤ S2x32x4x256.size a
  k2_off536_inb : ∀ k2_t9 : Fin k2_t9_loop.trips, ∀ a, (k2_off536 k2_t9) a + S1x1x16.size a ≤ S2x32x512.size a
  k2_off537_inb : ∀ k2_t9 : Fin k2_t9_loop.trips, ∀ a, (k2_off537 k2_t9) a + S1x1x1x16.size a ≤ S2x32x4x256.size a
  k2_off538_inb : ∀ k2_t9 : Fin k2_t9_loop.trips, ∀ a, (k2_off538 k2_t9) a + S1x1x16.size a ≤ S2x32x512.size a
  k2_off539_inb : ∀ k2_t9 : Fin k2_t9_loop.trips, ∀ a, (k2_off539 k2_t9) a + S1x1x1x16.size a ≤ S2x32x4x256.size a
  k2_off540_inb : ∀ k2_t9 : Fin k2_t9_loop.trips, ∀ a, (k2_off540 k2_t9) a + S1x1x16.size a ≤ S2x32x512.size a
  k2_off541_inb : ∀ k2_t9 : Fin k2_t9_loop.trips, ∀ a, (k2_off541 k2_t9) a + S1x1x1x16.size a ≤ S2x32x4x256.size a
  k2_off542_inb : ∀ k2_t9 : Fin k2_t9_loop.trips, ∀ a, (k2_off542 k2_t9) a + S1x1x16.size a ≤ S2x32x512.size a
  k2_off543_inb : ∀ k2_t9 : Fin k2_t9_loop.trips, ∀ a, (k2_off543 k2_t9) a + S1x1x1x16.size a ≤ S2x32x4x256.size a
  k2_off544_inb : ∀ k2_t9 : Fin k2_t9_loop.trips, ∀ a, (k2_off544 k2_t9) a + S1x1x16.size a ≤ S2x32x512.size a
  k2_off545_inb : ∀ k2_t9 : Fin k2_t9_loop.trips, ∀ a, (k2_off545 k2_t9) a + S1x1x1x16.size a ≤ S2x32x4x256.size a
  k2_off546_inb : ∀ k2_t9 : Fin k2_t9_loop.trips, ∀ a, (k2_off546 k2_t9) a + S1x1x16.size a ≤ S2x32x512.size a
  k2_off547_inb : ∀ k2_t9 : Fin k2_t9_loop.trips, ∀ a, (k2_off547 k2_t9) a + S1x1x1x16.size a ≤ S2x32x4x256.size a
  k2_off548_inb : ∀ k2_t9 : Fin k2_t9_loop.trips, ∀ a, (k2_off548 k2_t9) a + S1x1x16.size a ≤ S2x32x512.size a
  k2_off549_inb : ∀ k2_t9 : Fin k2_t9_loop.trips, ∀ a, (k2_off549 k2_t9) a + S1x1x1x16.size a ≤ S2x32x4x256.size a
  k2_off550_inb : ∀ k2_t9 : Fin k2_t9_loop.trips, ∀ a, (k2_off550 k2_t9) a + S1x1x16.size a ≤ S2x32x512.size a
  k2_off551_inb : ∀ k2_t9 : Fin k2_t9_loop.trips, ∀ a, (k2_off551 k2_t9) a + S1x1x1x16.size a ≤ S2x32x4x256.size a
  k2_off552_inb : ∀ k2_t9 : Fin k2_t9_loop.trips, ∀ a, (k2_off552 k2_t9) a + S1x1x16.size a ≤ S2x32x512.size a
  k2_off553_inb : ∀ k2_t9 : Fin k2_t9_loop.trips, ∀ a, (k2_off553 k2_t9) a + S1x1x1x16.size a ≤ S2x32x4x256.size a
  k2_off554_inb : ∀ k2_t9 : Fin k2_t9_loop.trips, ∀ a, (k2_off554 k2_t9) a + S1x1x16.size a ≤ S2x32x512.size a
  k2_off555_inb : ∀ k2_t9 : Fin k2_t9_loop.trips, ∀ a, (k2_off555 k2_t9) a + S1x1x1x16.size a ≤ S2x32x4x256.size a
  k2_off556_inb : ∀ k2_t9 : Fin k2_t9_loop.trips, ∀ a, (k2_off556 k2_t9) a + S1x1x16.size a ≤ S2x32x512.size a
  k2_off557_inb : ∀ k2_t9 : Fin k2_t9_loop.trips, ∀ a, (k2_off557 k2_t9) a + S1x1x1x16.size a ≤ S2x32x4x256.size a
  k2_off558_inb : ∀ k2_t9 : Fin k2_t9_loop.trips, ∀ a, (k2_off558 k2_t9) a + S1x1x16.size a ≤ S2x32x512.size a
  k2_off559_inb : ∀ k2_t9 : Fin k2_t9_loop.trips, ∀ a, (k2_off559 k2_t9) a + S1x1x1x16.size a ≤ S2x32x4x256.size a
  k2_off560_inb : ∀ k2_t9 : Fin k2_t9_loop.trips, ∀ a, (k2_off560 k2_t9) a + S1x1x16.size a ≤ S2x32x512.size a
  k2_off561_inb : ∀ k2_t9 : Fin k2_t9_loop.trips, ∀ a, (k2_off561 k2_t9) a + S1x1x1x16.size a ≤ S2x32x4x256.size a
  k2_off562_inb : ∀ k2_t9 : Fin k2_t9_loop.trips, ∀ a, (k2_off562 k2_t9) a + S1x1x16.size a ≤ S2x32x512.size a
  k2_off563_inb : ∀ k2_t9 : Fin k2_t9_loop.trips, ∀ a, (k2_off563 k2_t9) a + S1x1x1x16.size a ≤ S2x32x4x256.size a
  k2_off564_inb : ∀ k2_t9 : Fin k2_t9_loop.trips, ∀ a, (k2_off564 k2_t9) a + S1x1x16.size a ≤ S2x32x512.size a
  k2_off565_inb : ∀ k2_t9 : Fin k2_t9_loop.trips, ∀ a, (k2_off565 k2_t9) a + S1x1x1x16.size a ≤ S2x32x4x256.size a
  k2_off566_inb : ∀ k2_t9 : Fin k2_t9_loop.trips, ∀ a, (k2_off566 k2_t9) a + S1x1x16.size a ≤ S2x32x512.size a
  k2_off567_inb : ∀ k2_t9 : Fin k2_t9_loop.trips, ∀ a, (k2_off567 k2_t9) a + S1x1x1x16.size a ≤ S2x32x4x256.size a
  k2_off568_inb : ∀ k2_t9 : Fin k2_t9_loop.trips, ∀ a, (k2_off568 k2_t9) a + S1x1x16.size a ≤ S2x32x512.size a
  k2_off569_inb : ∀ k2_t9 : Fin k2_t9_loop.trips, ∀ a, (k2_off569 k2_t9) a + S1x1x1x16.size a ≤ S2x32x4x256.size a
  k2_off570_inb : ∀ k2_t9 : Fin k2_t9_loop.trips, ∀ a, (k2_off570 k2_t9) a + S1x1x16.size a ≤ S2x32x512.size a
  k2_off571_inb : ∀ k2_t9 : Fin k2_t9_loop.trips, ∀ a, (k2_off571 k2_t9) a + S1x1x1x16.size a ≤ S2x32x4x256.size a
  k2_off572_inb : ∀ k2_t9 : Fin k2_t9_loop.trips, ∀ a, (k2_off572 k2_t9) a + S1x1x16.size a ≤ S2x32x512.size a
  k2_off573_inb : ∀ k2_t9 : Fin k2_t9_loop.trips, ∀ a, (k2_off573 k2_t9) a + S1x1x1x16.size a ≤ S2x32x4x256.size a
  k2_off574_inb : ∀ k2_t9 : Fin k2_t9_loop.trips, ∀ a, (k2_off574 k2_t9) a + S1x1x16.size a ≤ S2x32x512.size a
  k2_off575_inb : ∀ k2_t9 : Fin k2_t9_loop.trips, ∀ a, (k2_off575 k2_t9) a + S1x1x1x16.size a ≤ S2x32x4x256.size a
  k2_off576_inb : ∀ k2_t9 : Fin k2_t9_loop.trips, ∀ a, (k2_off576 k2_t9) a + S1x1x16.size a ≤ S2x32x512.size a
  k2_off577_inb : ∀ k2_t9 : Fin k2_t9_loop.trips, ∀ a, (k2_off577 k2_t9) a + S1x1x1x16.size a ≤ S2x32x4x256.size a
  k2_off578_inb : ∀ k2_t9 : Fin k2_t9_loop.trips, ∀ a, (k2_off578 k2_t9) a + S1x1x16.size a ≤ S2x32x512.size a
  k2_off579_inb : ∀ k2_t9 : Fin k2_t9_loop.trips, ∀ a, (k2_off579 k2_t9) a + S1x1x1x16.size a ≤ S2x32x4x256.size a
  k2_off580_inb : ∀ k2_t9 : Fin k2_t9_loop.trips, ∀ a, (k2_off580 k2_t9) a + S1x1x16.size a ≤ S2x32x512.size a
  k2_off581_inb : ∀ k2_t9 : Fin k2_t9_loop.trips, ∀ a, (k2_off581 k2_t9) a + S1x1x1x16.size a ≤ S2x32x4x256.size a
  k2_off582_inb : ∀ k2_t9 : Fin k2_t9_loop.trips, ∀ a, (k2_off582 k2_t9) a + S1x1x16.size a ≤ S2x32x512.size a
  k2_off583_inb : ∀ k2_t9 : Fin k2_t9_loop.trips, ∀ a, (k2_off583 k2_t9) a + S1x1x1x16.size a ≤ S2x32x4x256.size a
  k2_off584_inb : ∀ k2_t9 : Fin k2_t9_loop.trips, ∀ a, (k2_off584 k2_t9) a + S1x1x16.size a ≤ S2x32x512.size a
  k2_off585_inb : ∀ k2_t9 : Fin k2_t9_loop.trips, ∀ a, (k2_off585 k2_t9) a + S1x1x1x16.size a ≤ S2x32x4x256.size a
  k2_off586_inb : ∀ k2_t9 : Fin k2_t9_loop.trips, ∀ a, (k2_off586 k2_t9) a + S1x1x16.size a ≤ S2x32x512.size a
  k2_off587_inb : ∀ k2_t9 : Fin k2_t9_loop.trips, ∀ a, (k2_off587 k2_t9) a + S1x1x1x16.size a ≤ S2x32x4x256.size a
  k2_off588_inb : ∀ k2_t9 : Fin k2_t9_loop.trips, ∀ a, (k2_off588 k2_t9) a + S1x1x16.size a ≤ S2x32x512.size a
  k2_off589_inb : ∀ k2_t9 : Fin k2_t9_loop.trips, ∀ a, (k2_off589 k2_t9) a + S1x1x1x16.size a ≤ S2x32x4x256.size a
  k2_off590_inb : ∀ k2_t9 : Fin k2_t9_loop.trips, ∀ a, (k2_off590 k2_t9) a + S1x1x16.size a ≤ S2x32x512.size a
  k2_off591_inb : ∀ k2_t9 : Fin k2_t9_loop.trips, ∀ a, (k2_off591 k2_t9) a + S1x1x1x16.size a ≤ S2x32x4x256.size a
  k2_off592_inb : ∀ i : grid2.Coords, ∀ a, (k2_off592 i) a + S1x32x4x256.size a ≤ S16x1024x4x256.size a
  k2_off593_inb : ∀ i : grid2.Coords, ∀ a, (k2_off593 i) a + S1x32x512.size a ≤ S16x1024x512.size a
  k2_t10_ok : k2_t10_loop.OK
  k2_off594_inb : ∀ k2_t10 : Fin k2_t10_loop.trips, ∀ a, (k2_off594 k2_t10) a + S1x1x16.size a ≤ S2x32x512.size a
  k2_off595_inb : ∀ k2_t10 : Fin k2_t10_loop.trips, ∀ a, (k2_off595 k2_t10) a + S1x1x1x16.size a ≤ S2x32x4x256.size a
  k2_off596_inb : ∀ k2_t10 : Fin k2_t10_loop.trips, ∀ a, (k2_off596 k2_t10) a + S1x1x16.size a ≤ S2x32x512.size a
  k2_off597_inb : ∀ k2_t10 : Fin k2_t10_loop.trips, ∀ a, (k2_off597 k2_t10) a + S1x1x1x16.size a ≤ S2x32x4x256.size a
  k2_off598_inb : ∀ k2_t10 : Fin k2_t10_loop.trips, ∀ a, (k2_off598 k2_t10) a + S1x1x16.size a ≤ S2x32x512.size a
  k2_off599_inb : ∀ k2_t10 : Fin k2_t10_loop.trips, ∀ a, (k2_off599 k2_t10) a + S1x1x1x16.size a ≤ S2x32x4x256.size a
  k2_off600_inb : ∀ k2_t10 : Fin k2_t10_loop.trips, ∀ a, (k2_off600 k2_t10) a + S1x1x16.size a ≤ S2x32x512.size a
  k2_off601_inb : ∀ k2_t10 : Fin k2_t10_loop.trips, ∀ a, (k2_off601 k2_t10) a + S1x1x1x16.size a ≤ S2x32x4x256.size a
  k2_off602_inb : ∀ k2_t10 : Fin k2_t10_loop.trips, ∀ a, (k2_off602 k2_t10) a + S1x1x16.size a ≤ S2x32x512.size a
  k2_off603_inb : ∀ k2_t10 : Fin k2_t10_loop.trips, ∀ a, (k2_off603 k2_t10) a + S1x1x1x16.size a ≤ S2x32x4x256.size a
  k2_off604_inb : ∀ k2_t10 : Fin k2_t10_loop.trips, ∀ a, (k2_off604 k2_t10) a + S1x1x16.size a ≤ S2x32x512.size a
  k2_off605_inb : ∀ k2_t10 : Fin k2_t10_loop.trips, ∀ a, (k2_off605 k2_t10) a + S1x1x1x16.size a ≤ S2x32x4x256.size a
  k2_off606_inb : ∀ k2_t10 : Fin k2_t10_loop.trips, ∀ a, (k2_off606 k2_t10) a + S1x1x16.size a ≤ S2x32x512.size a
  k2_off607_inb : ∀ k2_t10 : Fin k2_t10_loop.trips, ∀ a, (k2_off607 k2_t10) a + S1x1x1x16.size a ≤ S2x32x4x256.size a
  k2_off608_inb : ∀ k2_t10 : Fin k2_t10_loop.trips, ∀ a, (k2_off608 k2_t10) a + S1x1x16.size a ≤ S2x32x512.size a
  k2_off609_inb : ∀ k2_t10 : Fin k2_t10_loop.trips, ∀ a, (k2_off609 k2_t10) a + S1x1x1x16.size a ≤ S2x32x4x256.size a
  k2_off610_inb : ∀ k2_t10 : Fin k2_t10_loop.trips, ∀ a, (k2_off610 k2_t10) a + S1x1x16.size a ≤ S2x32x512.size a
  k2_off611_inb : ∀ k2_t10 : Fin k2_t10_loop.trips, ∀ a, (k2_off611 k2_t10) a + S1x1x1x16.size a ≤ S2x32x4x256.size a
  k2_off612_inb : ∀ k2_t10 : Fin k2_t10_loop.trips, ∀ a, (k2_off612 k2_t10) a + S1x1x16.size a ≤ S2x32x512.size a
  k2_off613_inb : ∀ k2_t10 : Fin k2_t10_loop.trips, ∀ a, (k2_off613 k2_t10) a + S1x1x1x16.size a ≤ S2x32x4x256.size a
  k2_off614_inb : ∀ k2_t10 : Fin k2_t10_loop.trips, ∀ a, (k2_off614 k2_t10) a + S1x1x16.size a ≤ S2x32x512.size a
  k2_off615_inb : ∀ k2_t10 : Fin k2_t10_loop.trips, ∀ a, (k2_off615 k2_t10) a + S1x1x1x16.size a ≤ S2x32x4x256.size a
  k2_off616_inb : ∀ k2_t10 : Fin k2_t10_loop.trips, ∀ a, (k2_off616 k2_t10) a + S1x1x16.size a ≤ S2x32x512.size a
  k2_off617_inb : ∀ k2_t10 : Fin k2_t10_loop.trips, ∀ a, (k2_off617 k2_t10) a + S1x1x1x16.size a ≤ S2x32x4x256.size a
  k2_off618_inb : ∀ k2_t10 : Fin k2_t10_loop.trips, ∀ a, (k2_off618 k2_t10) a + S1x1x16.size a ≤ S2x32x512.size a
  k2_off619_inb : ∀ k2_t10 : Fin k2_t10_loop.trips, ∀ a, (k2_off619 k2_t10) a + S1x1x1x16.size a ≤ S2x32x4x256.size a
  k2_off620_inb : ∀ k2_t10 : Fin k2_t10_loop.trips, ∀ a, (k2_off620 k2_t10) a + S1x1x16.size a ≤ S2x32x512.size a
  k2_off621_inb : ∀ k2_t10 : Fin k2_t10_loop.trips, ∀ a, (k2_off621 k2_t10) a + S1x1x1x16.size a ≤ S2x32x4x256.size a
  k2_off622_inb : ∀ k2_t10 : Fin k2_t10_loop.trips, ∀ a, (k2_off622 k2_t10) a + S1x1x16.size a ≤ S2x32x512.size a
  k2_off623_inb : ∀ k2_t10 : Fin k2_t10_loop.trips, ∀ a, (k2_off623 k2_t10) a + S1x1x1x16.size a ≤ S2x32x4x256.size a
  k2_off624_inb : ∀ k2_t10 : Fin k2_t10_loop.trips, ∀ a, (k2_off624 k2_t10) a + S1x1x16.size a ≤ S2x32x512.size a
  k2_off625_inb : ∀ k2_t10 : Fin k2_t10_loop.trips, ∀ a, (k2_off625 k2_t10) a + S1x1x1x16.size a ≤ S2x32x4x256.size a
  k2_off626_inb : ∀ k2_t10 : Fin k2_t10_loop.trips, ∀ a, (k2_off626 k2_t10) a + S1x1x16.size a ≤ S2x32x512.size a
  k2_off627_inb : ∀ k2_t10 : Fin k2_t10_loop.trips, ∀ a, (k2_off627 k2_t10) a + S1x1x1x16.size a ≤ S2x32x4x256.size a
  k2_off628_inb : ∀ k2_t10 : Fin k2_t10_loop.trips, ∀ a, (k2_off628 k2_t10) a + S1x1x16.size a ≤ S2x32x512.size a
  k2_off629_inb : ∀ k2_t10 : Fin k2_t10_loop.trips, ∀ a, (k2_off629 k2_t10) a + S1x1x1x16.size a ≤ S2x32x4x256.size a
  k2_off630_inb : ∀ k2_t10 : Fin k2_t10_loop.trips, ∀ a, (k2_off630 k2_t10) a + S1x1x16.size a ≤ S2x32x512.size a
  k2_off631_inb : ∀ k2_t10 : Fin k2_t10_loop.trips, ∀ a, (k2_off631 k2_t10) a + S1x1x1x16.size a ≤ S2x32x4x256.size a
  k2_off632_inb : ∀ k2_t10 : Fin k2_t10_loop.trips, ∀ a, (k2_off632 k2_t10) a + S1x1x16.size a ≤ S2x32x512.size a
  k2_off633_inb : ∀ k2_t10 : Fin k2_t10_loop.trips, ∀ a, (k2_off633 k2_t10) a + S1x1x1x16.size a ≤ S2x32x4x256.size a
  k2_off634_inb : ∀ k2_t10 : Fin k2_t10_loop.trips, ∀ a, (k2_off634 k2_t10) a + S1x1x16.size a ≤ S2x32x512.size a
  k2_off635_inb : ∀ k2_t10 : Fin k2_t10_loop.trips, ∀ a, (k2_off635 k2_t10) a + S1x1x1x16.size a ≤ S2x32x4x256.size a
  k2_off636_inb : ∀ k2_t10 : Fin k2_t10_loop.trips, ∀ a, (k2_off636 k2_t10) a + S1x1x16.size a ≤ S2x32x512.size a
  k2_off637_inb : ∀ k2_t10 : Fin k2_t10_loop.trips, ∀ a, (k2_off637 k2_t10) a + S1x1x1x16.size a ≤ S2x32x4x256.size a
  k2_off638_inb : ∀ k2_t10 : Fin k2_t10_loop.trips, ∀ a, (k2_off638 k2_t10) a + S1x1x16.size a ≤ S2x32x512.size a
  k2_off639_inb : ∀ k2_t10 : Fin k2_t10_loop.trips, ∀ a, (k2_off639 k2_t10) a + S1x1x1x16.size a ≤ S2x32x4x256.size a
  k2_off640_inb : ∀ k2_t10 : Fin k2_t10_loop.trips, ∀ a, (k2_off640 k2_t10) a + S1x1x16.size a ≤ S2x32x512.size a
  k2_off641_inb : ∀ k2_t10 : Fin k2_t10_loop.trips, ∀ a, (k2_off641 k2_t10) a + S1x1x1x16.size a ≤ S2x32x4x256.size a
  k2_off642_inb : ∀ k2_t10 : Fin k2_t10_loop.trips, ∀ a, (k2_off642 k2_t10) a + S1x1x16.size a ≤ S2x32x512.size a
  k2_off643_inb : ∀ k2_t10 : Fin k2_t10_loop.trips, ∀ a, (k2_off643 k2_t10) a + S1x1x1x16.size a ≤ S2x32x4x256.size a
  k2_off644_inb : ∀ k2_t10 : Fin k2_t10_loop.trips, ∀ a, (k2_off644 k2_t10) a + S1x1x16.size a ≤ S2x32x512.size a
  k2_off645_inb : ∀ k2_t10 : Fin k2_t10_loop.trips, ∀ a, (k2_off645 k2_t10) a + S1x1x1x16.size a ≤ S2x32x4x256.size a
  k2_off646_inb : ∀ k2_t10 : Fin k2_t10_loop.trips, ∀ a, (k2_off646 k2_t10) a + S1x1x16.size a ≤ S2x32x512.size a
  k2_off647_inb : ∀ k2_t10 : Fin k2_t10_loop.trips, ∀ a, (k2_off647 k2_t10) a + S1x1x1x16.size a ≤ S2x32x4x256.size a
  k2_off648_inb : ∀ k2_t10 : Fin k2_t10_loop.trips, ∀ a, (k2_off648 k2_t10) a + S1x1x16.size a ≤ S2x32x512.size a
  k2_off649_inb : ∀ k2_t10 : Fin k2_t10_loop.trips, ∀ a, (k2_off649 k2_t10) a + S1x1x1x16.size a ≤ S2x32x4x256.size a
  k2_off650_inb : ∀ k2_t10 : Fin k2_t10_loop.trips, ∀ a, (k2_off650 k2_t10) a + S1x1x16.size a ≤ S2x32x512.size a
  k2_off651_inb : ∀ k2_t10 : Fin k2_t10_loop.trips, ∀ a, (k2_off651 k2_t10) a + S1x1x1x16.size a ≤ S2x32x4x256.size a
  k2_off652_inb : ∀ k2_t10 : Fin k2_t10_loop.trips, ∀ a, (k2_off652 k2_t10) a + S1x1x16.size a ≤ S2x32x512.size a
  k2_off653_inb : ∀ k2_t10 : Fin k2_t10_loop.trips, ∀ a, (k2_off653 k2_t10) a + S1x1x1x16.size a ≤ S2x32x4x256.size a
  k2_off654_inb : ∀ k2_t10 : Fin k2_t10_loop.trips, ∀ a, (k2_off654 k2_t10) a + S1x1x16.size a ≤ S2x32x512.size a
  k2_off655_inb : ∀ k2_t10 : Fin k2_t10_loop.trips, ∀ a, (k2_off655 k2_t10) a + S1x1x1x16.size a ≤ S2x32x4x256.size a
  k2_off656_inb : ∀ k2_t10 : Fin k2_t10_loop.trips, ∀ a, (k2_off656 k2_t10) a + S1x1x16.size a ≤ S2x32x512.size a
  k2_off657_inb : ∀ k2_t10 : Fin k2_t10_loop.trips, ∀ a, (k2_off657 k2_t10) a + S1x1x1x16.size a ≤ S2x32x4x256.size a
  k2_off658_inb : ∀ i : grid2.Coords, ∀ a, (k2_off658 i) a + S1x32x4x256.size a ≤ S16x1024x4x256.size a
  k2_off659_inb : ∀ i : grid2.Coords, ∀ a, (k2_off659 i) a + S1x32x512.size a ≤ S16x1024x512.size a
  k2_t11_ok : k2_t11_loop.OK
  k2_off660_inb : ∀ k2_t11 : Fin k2_t11_loop.trips, ∀ a, (k2_off660 k2_t11) a + S1x1x16.size a ≤ S2x32x512.size a
  k2_off661_inb : ∀ k2_t11 : Fin k2_t11_loop.trips, ∀ a, (k2_off661 k2_t11) a + S1x1x1x16.size a ≤ S2x32x4x256.size a
  k2_off662_inb : ∀ k2_t11 : Fin k2_t11_loop.trips, ∀ a, (k2_off662 k2_t11) a + S1x1x16.size a ≤ S2x32x512.size a
  k2_off663_inb : ∀ k2_t11 : Fin k2_t11_loop.trips, ∀ a, (k2_off663 k2_t11) a + S1x1x1x16.size a ≤ S2x32x4x256.size a
  k2_off664_inb : ∀ k2_t11 : Fin k2_t11_loop.trips, ∀ a, (k2_off664 k2_t11) a + S1x1x16.size a ≤ S2x32x512.size a
  k2_off665_inb : ∀ k2_t11 : Fin k2_t11_loop.trips, ∀ a, (k2_off665 k2_t11) a + S1x1x1x16.size a ≤ S2x32x4x256.size a
  k2_off666_inb : ∀ k2_t11 : Fin k2_t11_loop.trips, ∀ a, (k2_off666 k2_t11) a + S1x1x16.size a ≤ S2x32x512.size a
  k2_off667_inb : ∀ k2_t11 : Fin k2_t11_loop.trips, ∀ a, (k2_off667 k2_t11) a + S1x1x1x16.size a ≤ S2x32x4x256.size a
  k2_off668_inb : ∀ k2_t11 : Fin k2_t11_loop.trips, ∀ a, (k2_off668 k2_t11) a + S1x1x16.size a ≤ S2x32x512.size a
  k2_off669_inb : ∀ k2_t11 : Fin k2_t11_loop.trips, ∀ a, (k2_off669 k2_t11) a + S1x1x1x16.size a ≤ S2x32x4x256.size a
  k2_off670_inb : ∀ k2_t11 : Fin k2_t11_loop.trips, ∀ a, (k2_off670 k2_t11) a + S1x1x16.size a ≤ S2x32x512.size a
  k2_off671_inb : ∀ k2_t11 : Fin k2_t11_loop.trips, ∀ a, (k2_off671 k2_t11) a + S1x1x1x16.size a ≤ S2x32x4x256.size a
  k2_off672_inb : ∀ k2_t11 : Fin k2_t11_loop.trips, ∀ a, (k2_off672 k2_t11) a + S1x1x16.size a ≤ S2x32x512.size a
  k2_off673_inb : ∀ k2_t11 : Fin k2_t11_loop.trips, ∀ a, (k2_off673 k2_t11) a + S1x1x1x16.size a ≤ S2x32x4x256.size a
  k2_off674_inb : ∀ k2_t11 : Fin k2_t11_loop.trips, ∀ a, (k2_off674 k2_t11) a + S1x1x16.size a ≤ S2x32x512.size a
  k2_off675_inb : ∀ k2_t11 : Fin k2_t11_loop.trips, ∀ a, (k2_off675 k2_t11) a + S1x1x1x16.size a ≤ S2x32x4x256.size a
  k2_off676_inb : ∀ k2_t11 : Fin k2_t11_loop.trips, ∀ a, (k2_off676 k2_t11) a + S1x1x16.size a ≤ S2x32x512.size a
  k2_off677_inb : ∀ k2_t11 : Fin k2_t11_loop.trips, ∀ a, (k2_off677 k2_t11) a + S1x1x1x16.size a ≤ S2x32x4x256.size a
  k2_off678_inb : ∀ k2_t11 : Fin k2_t11_loop.trips, ∀ a, (k2_off678 k2_t11) a + S1x1x16.size a ≤ S2x32x512.size a
  k2_off679_inb : ∀ k2_t11 : Fin k2_t11_loop.trips, ∀ a, (k2_off679 k2_t11) a + S1x1x1x16.size a ≤ S2x32x4x256.size a
  k2_off680_inb : ∀ k2_t11 : Fin k2_t11_loop.trips, ∀ a, (k2_off680 k2_t11) a + S1x1x16.size a ≤ S2x32x512.size a
  k2_off681_inb : ∀ k2_t11 : Fin k2_t11_loop.trips, ∀ a, (k2_off681 k2_t11) a + S1x1x1x16.size a ≤ S2x32x4x256.size a
  k2_off682_inb : ∀ k2_t11 : Fin k2_t11_loop.trips, ∀ a, (k2_off682 k2_t11) a + S1x1x16.size a ≤ S2x32x512.size a
  k2_off683_inb : ∀ k2_t11 : Fin k2_t11_loop.trips, ∀ a, (k2_off683 k2_t11) a + S1x1x1x16.size a ≤ S2x32x4x256.size a
  k2_off684_inb : ∀ k2_t11 : Fin k2_t11_loop.trips, ∀ a, (k2_off684 k2_t11) a + S1x1x16.size a ≤ S2x32x512.size a
  k2_off685_inb : ∀ k2_t11 : Fin k2_t11_loop.trips, ∀ a, (k2_off685 k2_t11) a + S1x1x1x16.size a ≤ S2x32x4x256.size a
  k2_off686_inb : ∀ k2_t11 : Fin k2_t11_loop.trips, ∀ a, (k2_off686 k2_t11) a + S1x1x16.size a ≤ S2x32x512.size a
  k2_off687_inb : ∀ k2_t11 : Fin k2_t11_loop.trips, ∀ a, (k2_off687 k2_t11) a + S1x1x1x16.size a ≤ S2x32x4x256.size a
  k2_off688_inb : ∀ k2_t11 : Fin k2_t11_loop.trips, ∀ a, (k2_off688 k2_t11) a + S1x1x16.size a ≤ S2x32x512.size a
  k2_off689_inb : ∀ k2_t11 : Fin k2_t11_loop.trips, ∀ a, (k2_off689 k2_t11) a + S1x1x1x16.size a ≤ S2x32x4x256.size a
  k2_off690_inb : ∀ k2_t11 : Fin k2_t11_loop.trips, ∀ a, (k2_off690 k2_t11) a + S1x1x16.size a ≤ S2x32x512.size a
  k2_off691_inb : ∀ k2_t11 : Fin k2_t11_loop.trips, ∀ a, (k2_off691 k2_t11) a + S1x1x1x16.size a ≤ S2x32x4x256.size a
  k2_off692_inb : ∀ k2_t11 : Fin k2_t11_loop.trips, ∀ a, (k2_off692 k2_t11) a + S1x1x16.size a ≤ S2x32x512.size a
  k2_off693_inb : ∀ k2_t11 : Fin k2_t11_loop.trips, ∀ a, (k2_off693 k2_t11) a + S1x1x1x16.size a ≤ S2x32x4x256.size a
  k2_off694_inb : ∀ k2_t11 : Fin k2_t11_loop.trips, ∀ a, (k2_off694 k2_t11) a + S1x1x16.size a ≤ S2x32x512.size a
  k2_off695_inb : ∀ k2_t11 : Fin k2_t11_loop.trips, ∀ a, (k2_off695 k2_t11) a + S1x1x1x16.size a ≤ S2x32x4x256.size a
  k2_off696_inb : ∀ k2_t11 : Fin k2_t11_loop.trips, ∀ a, (k2_off696 k2_t11) a + S1x1x16.size a ≤ S2x32x512.size a
  k2_off697_inb : ∀ k2_t11 : Fin k2_t11_loop.trips, ∀ a, (k2_off697 k2_t11) a + S1x1x1x16.size a ≤ S2x32x4x256.size a
  k2_off698_inb : ∀ k2_t11 : Fin k2_t11_loop.trips, ∀ a, (k2_off698 k2_t11) a + S1x1x16.size a ≤ S2x32x512.size a
  k2_off699_inb : ∀ k2_t11 : Fin k2_t11_loop.trips, ∀ a, (k2_off699 k2_t11) a + S1x1x1x16.size a ≤ S2x32x4x256.size a
  k2_off700_inb : ∀ k2_t11 : Fin k2_t11_loop.trips, ∀ a, (k2_off700 k2_t11) a + S1x1x16.size a ≤ S2x32x512.size a
  k2_off701_inb : ∀ k2_t11 : Fin k2_t11_loop.trips, ∀ a, (k2_off701 k2_t11) a + S1x1x1x16.size a ≤ S2x32x4x256.size a
  k2_off702_inb : ∀ k2_t11 : Fin k2_t11_loop.trips, ∀ a, (k2_off702 k2_t11) a + S1x1x16.size a ≤ S2x32x512.size a
  k2_off703_inb : ∀ k2_t11 : Fin k2_t11_loop.trips, ∀ a, (k2_off703 k2_t11) a + S1x1x1x16.size a ≤ S2x32x4x256.size a
  k2_off704_inb : ∀ k2_t11 : Fin k2_t11_loop.trips, ∀ a, (k2_off704 k2_t11) a + S1x1x16.size a ≤ S2x32x512.size a
  k2_off705_inb : ∀ k2_t11 : Fin k2_t11_loop.trips, ∀ a, (k2_off705 k2_t11) a + S1x1x1x16.size a ≤ S2x32x4x256.size a
  k2_off706_inb : ∀ k2_t11 : Fin k2_t11_loop.trips, ∀ a, (k2_off706 k2_t11) a + S1x1x16.size a ≤ S2x32x512.size a
  k2_off707_inb : ∀ k2_t11 : Fin k2_t11_loop.trips, ∀ a, (k2_off707 k2_t11) a + S1x1x1x16.size a ≤ S2x32x4x256.size a
  k2_off708_inb : ∀ k2_t11 : Fin k2_t11_loop.trips, ∀ a, (k2_off708 k2_t11) a + S1x1x16.size a ≤ S2x32x512.size a
  k2_off709_inb : ∀ k2_t11 : Fin k2_t11_loop.trips, ∀ a, (k2_off709 k2_t11) a + S1x1x1x16.size a ≤ S2x32x4x256.size a
  k2_off710_inb : ∀ k2_t11 : Fin k2_t11_loop.trips, ∀ a, (k2_off710 k2_t11) a + S1x1x16.size a ≤ S2x32x512.size a
  k2_off711_inb : ∀ k2_t11 : Fin k2_t11_loop.trips, ∀ a, (k2_off711 k2_t11) a + S1x1x1x16.size a ≤ S2x32x4x256.size a
  k2_off712_inb : ∀ k2_t11 : Fin k2_t11_loop.trips, ∀ a, (k2_off712 k2_t11) a + S1x1x16.size a ≤ S2x32x512.size a
  k2_off713_inb : ∀ k2_t11 : Fin k2_t11_loop.trips, ∀ a, (k2_off713 k2_t11) a + S1x1x1x16.size a ≤ S2x32x4x256.size a
  k2_off714_inb : ∀ k2_t11 : Fin k2_t11_loop.trips, ∀ a, (k2_off714 k2_t11) a + S1x1x16.size a ≤ S2x32x512.size a
  k2_off715_inb : ∀ k2_t11 : Fin k2_t11_loop.trips, ∀ a, (k2_off715 k2_t11) a + S1x1x1x16.size a ≤ S2x32x4x256.size a
  k2_off716_inb : ∀ k2_t11 : Fin k2_t11_loop.trips, ∀ a, (k2_off716 k2_t11) a + S1x1x16.size a ≤ S2x32x512.size a
  k2_off717_inb : ∀ k2_t11 : Fin k2_t11_loop.trips, ∀ a, (k2_off717 k2_t11) a + S1x1x1x16.size a ≤ S2x32x4x256.size a
  k2_off718_inb : ∀ k2_t11 : Fin k2_t11_loop.trips, ∀ a, (k2_off718 k2_t11) a + S1x1x16.size a ≤ S2x32x512.size a
  k2_off719_inb : ∀ k2_t11 : Fin k2_t11_loop.trips, ∀ a, (k2_off719 k2_t11) a + S1x1x1x16.size a ≤ S2x32x4x256.size a
  k2_off720_inb : ∀ k2_t11 : Fin k2_t11_loop.trips, ∀ a, (k2_off720 k2_t11) a + S1x1x16.size a ≤ S2x32x512.size a
  k2_off721_inb : ∀ k2_t11 : Fin k2_t11_loop.trips, ∀ a, (k2_off721 k2_t11) a + S1x1x1x16.size a ≤ S2x32x4x256.size a
  k2_off722_inb : ∀ k2_t11 : Fin k2_t11_loop.trips, ∀ a, (k2_off722 k2_t11) a + S1x1x16.size a ≤ S2x32x512.size a
  k2_off723_inb : ∀ k2_t11 : Fin k2_t11_loop.trips, ∀ a, (k2_off723 k2_t11) a + S1x1x1x16.size a ≤ S2x32x4x256.size a
  k2_off724_inb : ∀ i : grid2.Coords, ∀ a, (k2_off724 i) a + S1x32x4x256.size a ≤ S16x1024x4x256.size a
  k2_off725_inb : ∀ i : grid2.Coords, ∀ a, (k2_off725 i) a + S1x32x512.size a ≤ S16x1024x512.size a
  k2_t12_ok : k2_t12_loop.OK
  k2_off726_inb : ∀ k2_t12 : Fin k2_t12_loop.trips, ∀ a, (k2_off726 k2_t12) a + S1x1x16.size a ≤ S2x32x512.size a
  k2_off727_inb : ∀ k2_t12 : Fin k2_t12_loop.trips, ∀ a, (k2_off727 k2_t12) a + S1x1x1x16.size a ≤ S2x32x4x256.size a
  k2_off728_inb : ∀ k2_t12 : Fin k2_t12_loop.trips, ∀ a, (k2_off728 k2_t12) a + S1x1x16.size a ≤ S2x32x512.size a
  k2_off729_inb : ∀ k2_t12 : Fin k2_t12_loop.trips, ∀ a, (k2_off729 k2_t12) a + S1x1x1x16.size a ≤ S2x32x4x256.size a
  k2_off730_inb : ∀ k2_t12 : Fin k2_t12_loop.trips, ∀ a, (k2_off730 k2_t12) a + S1x1x16.size a ≤ S2x32x512.size a
  k2_off731_inb : ∀ k2_t12 : Fin k2_t12_loop.trips, ∀ a, (k2_off731 k2_t12) a + S1x1x1x16.size a ≤ S2x32x4x256.size a
  k2_off732_inb : ∀ k2_t12 : Fin k2_t12_loop.trips, ∀ a, (k2_off732 k2_t12) a + S1x1x16.size a ≤ S2x32x512.size a
  k2_off733_inb : ∀ k2_t12 : Fin k2_t12_loop.trips, ∀ a, (k2_off733 k2_t12) a + S1x1x1x16.size a ≤ S2x32x4x256.size a
  k2_off734_inb : ∀ k2_t12 : Fin k2_t12_loop.trips, ∀ a, (k2_off734 k2_t12) a + S1x1x16.size a ≤ S2x32x512.size a
  k2_off735_inb : ∀ k2_t12 : Fin k2_t12_loop.trips, ∀ a, (k2_off735 k2_t12) a + S1x1x1x16.size a ≤ S2x32x4x256.size a
  k2_off736_inb : ∀ k2_t12 : Fin k2_t12_loop.trips, ∀ a, (k2_off736 k2_t12) a + S1x1x16.size a ≤ S2x32x512.size a
  k2_off737_inb : ∀ k2_t12 : Fin k2_t12_loop.trips, ∀ a, (k2_off737 k2_t12) a + S1x1x1x16.size a ≤ S2x32x4x256.size a
  k2_off738_inb : ∀ k2_t12 : Fin k2_t12_loop.trips, ∀ a, (k2_off738 k2_t12) a + S1x1x16.size a ≤ S2x32x512.size a
  k2_off739_inb : ∀ k2_t12 : Fin k2_t12_loop.trips, ∀ a, (k2_off739 k2_t12) a + S1x1x1x16.size a ≤ S2x32x4x256.size a
  k2_off740_inb : ∀ k2_t12 : Fin k2_t12_loop.trips, ∀ a, (k2_off740 k2_t12) a + S1x1x16.size a ≤ S2x32x512.size a
  k2_off741_inb : ∀ k2_t12 : Fin k2_t12_loop.trips, ∀ a, (k2_off741 k2_t12) a + S1x1x1x16.size a ≤ S2x32x4x256.size a
  k2_off742_inb : ∀ k2_t12 : Fin k2_t12_loop.trips, ∀ a, (k2_off742 k2_t12) a + S1x1x16.size a ≤ S2x32x512.size a
  k2_off743_inb : ∀ k2_t12 : Fin k2_t12_loop.trips, ∀ a, (k2_off743 k2_t12) a + S1x1x1x16.size a ≤ S2x32x4x256.size a
  k2_off744_inb : ∀ k2_t12 : Fin k2_t12_loop.trips, ∀ a, (k2_off744 k2_t12) a + S1x1x16.size a ≤ S2x32x512.size a
  k2_off745_inb : ∀ k2_t12 : Fin k2_t12_loop.trips, ∀ a, (k2_off745 k2_t12) a + S1x1x1x16.size a ≤ S2x32x4x256.size a
  k2_off746_inb : ∀ k2_t12 : Fin k2_t12_loop.trips, ∀ a, (k2_off746 k2_t12) a + S1x1x16.size a ≤ S2x32x512.size a
  k2_off747_inb : ∀ k2_t12 : Fin k2_t12_loop.trips, ∀ a, (k2_off747 k2_t12) a + S1x1x1x16.size a ≤ S2x32x4x256.size a
  k2_off748_inb : ∀ k2_t12 : Fin k2_t12_loop.trips, ∀ a, (k2_off748 k2_t12) a + S1x1x16.size a ≤ S2x32x512.size a
  k2_off749_inb : ∀ k2_t12 : Fin k2_t12_loop.trips, ∀ a, (k2_off749 k2_t12) a + S1x1x1x16.size a ≤ S2x32x4x256.size a
  k2_off750_inb : ∀ k2_t12 : Fin k2_t12_loop.trips, ∀ a, (k2_off750 k2_t12) a + S1x1x16.size a ≤ S2x32x512.size a
  k2_off751_inb : ∀ k2_t12 : Fin k2_t12_loop.trips, ∀ a, (k2_off751 k2_t12) a + S1x1x1x16.size a ≤ S2x32x4x256.size a
  k2_off752_inb : ∀ k2_t12 : Fin k2_t12_loop.trips, ∀ a, (k2_off752 k2_t12) a + S1x1x16.size a ≤ S2x32x512.size a
  k2_off753_inb : ∀ k2_t12 : Fin k2_t12_loop.trips, ∀ a, (k2_off753 k2_t12) a + S1x1x1x16.size a ≤ S2x32x4x256.size a
  k2_off754_inb : ∀ k2_t12 : Fin k2_t12_loop.trips, ∀ a, (k2_off754 k2_t12) a + S1x1x16.size a ≤ S2x32x512.size a
  k2_off755_inb : ∀ k2_t12 : Fin k2_t12_loop.trips, ∀ a, (k2_off755 k2_t12) a + S1x1x1x16.size a ≤ S2x32x4x256.size a
  k2_off756_inb : ∀ k2_t12 : Fin k2_t12_loop.trips, ∀ a, (k2_off756 k2_t12) a + S1x1x16.size a ≤ S2x32x512.size a
  k2_off757_inb : ∀ k2_t12 : Fin k2_t12_loop.trips, ∀ a, (k2_off757 k2_t12) a + S1x1x1x16.size a ≤ S2x32x4x256.size a
  k2_off758_inb : ∀ k2_t12 : Fin k2_t12_loop.trips, ∀ a, (k2_off758 k2_t12) a + S1x1x16.size a ≤ S2x32x512.size a
  k2_off759_inb : ∀ k2_t12 : Fin k2_t12_loop.trips, ∀ a, (k2_off759 k2_t12) a + S1x1x1x16.size a ≤ S2x32x4x256.size a
  k2_off760_inb : ∀ k2_t12 : Fin k2_t12_loop.trips, ∀ a, (k2_off760 k2_t12) a + S1x1x16.size a ≤ S2x32x512.size a
  k2_off761_inb : ∀ k2_t12 : Fin k2_t12_loop.trips, ∀ a, (k2_off761 k2_t12) a + S1x1x1x16.size a ≤ S2x32x4x256.size a
  k2_off762_inb : ∀ k2_t12 : Fin k2_t12_loop.trips, ∀ a, (k2_off762 k2_t12) a + S1x1x16.size a ≤ S2x32x512.size a
  k2_off763_inb : ∀ k2_t12 : Fin k2_t12_loop.trips, ∀ a, (k2_off763 k2_t12) a + S1x1x1x16.size a ≤ S2x32x4x256.size a
  k2_off764_inb : ∀ k2_t12 : Fin k2_t12_loop.trips, ∀ a, (k2_off764 k2_t12) a + S1x1x16.size a ≤ S2x32x512.size a
  k2_off765_inb : ∀ k2_t12 : Fin k2_t12_loop.trips, ∀ a, (k2_off765 k2_t12) a + S1x1x1x16.size a ≤ S2x32x4x256.size a
  k2_off766_inb : ∀ k2_t12 : Fin k2_t12_loop.trips, ∀ a, (k2_off766 k2_t12) a + S1x1x16.size a ≤ S2x32x512.size a
  k2_off767_inb : ∀ k2_t12 : Fin k2_t12_loop.trips, ∀ a, (k2_off767 k2_t12) a + S1x1x1x16.size a ≤ S2x32x4x256.size a
  k2_off768_inb : ∀ k2_t12 : Fin k2_t12_loop.trips, ∀ a, (k2_off768 k2_t12) a + S1x1x16.size a ≤ S2x32x512.size a
  k2_off769_inb : ∀ k2_t12 : Fin k2_t12_loop.trips, ∀ a, (k2_off769 k2_t12) a + S1x1x1x16.size a ≤ S2x32x4x256.size a
  k2_off770_inb : ∀ k2_t12 : Fin k2_t12_loop.trips, ∀ a, (k2_off770 k2_t12) a + S1x1x16.size a ≤ S2x32x512.size a
  k2_off771_inb : ∀ k2_t12 : Fin k2_t12_loop.trips, ∀ a, (k2_off771 k2_t12) a + S1x1x1x16.size a ≤ S2x32x4x256.size a
  k2_off772_inb : ∀ k2_t12 : Fin k2_t12_loop.trips, ∀ a, (k2_off772 k2_t12) a + S1x1x16.size a ≤ S2x32x512.size a
  k2_off773_inb : ∀ k2_t12 : Fin k2_t12_loop.trips, ∀ a, (k2_off773 k2_t12) a + S1x1x1x16.size a ≤ S2x32x4x256.size a
  k2_off774_inb : ∀ k2_t12 : Fin k2_t12_loop.trips, ∀ a, (k2_off774 k2_t12) a + S1x1x16.size a ≤ S2x32x512.size a
  k2_off775_inb : ∀ k2_t12 : Fin k2_t12_loop.trips, ∀ a, (k2_off775 k2_t12) a + S1x1x1x16.size a ≤ S2x32x4x256.size a
  k2_off776_inb : ∀ k2_t12 : Fin k2_t12_loop.trips, ∀ a, (k2_off776 k2_t12) a + S1x1x16.size a ≤ S2x32x512.size a
  k2_off777_inb : ∀ k2_t12 : Fin k2_t12_loop.trips, ∀ a, (k2_off777 k2_t12) a + S1x1x1x16.size a ≤ S2x32x4x256.size a
  k2_off778_inb : ∀ k2_t12 : Fin k2_t12_loop.trips, ∀ a, (k2_off778 k2_t12) a + S1x1x16.size a ≤ S2x32x512.size a
  k2_off779_inb : ∀ k2_t12 : Fin k2_t12_loop.trips, ∀ a, (k2_off779 k2_t12) a + S1x1x1x16.size a ≤ S2x32x4x256.size a
  k2_off780_inb : ∀ k2_t12 : Fin k2_t12_loop.trips, ∀ a, (k2_off780 k2_t12) a + S1x1x16.size a ≤ S2x32x512.size a
  k2_off781_inb : ∀ k2_t12 : Fin k2_t12_loop.trips, ∀ a, (k2_off781 k2_t12) a + S1x1x1x16.size a ≤ S2x32x4x256.size a
  k2_off782_inb : ∀ k2_t12 : Fin k2_t12_loop.trips, ∀ a, (k2_off782 k2_t12) a + S1x1x16.size a ≤ S2x32x512.size a
  k2_off783_inb : ∀ k2_t12 : Fin k2_t12_loop.trips, ∀ a, (k2_off783 k2_t12) a + S1x1x1x16.size a ≤ S2x32x4x256.size a
  k2_off784_inb : ∀ k2_t12 : Fin k2_t12_loop.trips, ∀ a, (k2_off784 k2_t12) a + S1x1x16.size a ≤ S2x32x512.size a
  k2_off785_inb : ∀ k2_t12 : Fin k2_t12_loop.trips, ∀ a, (k2_off785 k2_t12) a + S1x1x1x16.size a ≤ S2x32x4x256.size a
  k2_off786_inb : ∀ k2_t12 : Fin k2_t12_loop.trips, ∀ a, (k2_off786 k2_t12) a + S1x1x16.size a ≤ S2x32x512.size a
  k2_off787_inb : ∀ k2_t12 : Fin k2_t12_loop.trips, ∀ a, (k2_off787 k2_t12) a + S1x1x1x16.size a ≤ S2x32x4x256.size a
  k2_off788_inb : ∀ k2_t12 : Fin k2_t12_loop.trips, ∀ a, (k2_off788 k2_t12) a + S1x1x16.size a ≤ S2x32x512.size a
  k2_off789_inb : ∀ k2_t12 : Fin k2_t12_loop.trips, ∀ a, (k2_off789 k2_t12) a + S1x1x1x16.size a ≤ S2x32x4x256.size a
  k2_off790_inb : ∀ i : grid2.Coords, ∀ a, (k2_off790 i) a + S1x32x4x256.size a ≤ S16x1024x4x256.size a
  k2_off791_inb : ∀ i : grid2.Coords, ∀ a, (k2_off791 i) a + S1x32x512.size a ≤ S16x1024x512.size a
  k2_t13_ok : k2_t13_loop.OK
  k2_off792_inb : ∀ k2_t13 : Fin k2_t13_loop.trips, ∀ a, (k2_off792 k2_t13) a + S1x1x16.size a ≤ S2x32x512.size a
  k2_off793_inb : ∀ k2_t13 : Fin k2_t13_loop.trips, ∀ a, (k2_off793 k2_t13) a + S1x1x1x16.size a ≤ S2x32x4x256.size a
  k2_off794_inb : ∀ k2_t13 : Fin k2_t13_loop.trips, ∀ a, (k2_off794 k2_t13) a + S1x1x16.size a ≤ S2x32x512.size a
  k2_off795_inb : ∀ k2_t13 : Fin k2_t13_loop.trips, ∀ a, (k2_off795 k2_t13) a + S1x1x1x16.size a ≤ S2x32x4x256.size a
  k2_off796_inb : ∀ k2_t13 : Fin k2_t13_loop.trips, ∀ a, (k2_off796 k2_t13) a + S1x1x16.size a ≤ S2x32x512.size a
  k2_off797_inb : ∀ k2_t13 : Fin k2_t13_loop.trips, ∀ a, (k2_off797 k2_t13) a + S1x1x1x16.size a ≤ S2x32x4x256.size a
  k2_off798_inb : ∀ k2_t13 : Fin k2_t13_loop.trips, ∀ a, (k2_off798 k2_t13) a + S1x1x16.size a ≤ S2x32x512.size a
  k2_off799_inb : ∀ k2_t13 : Fin k2_t13_loop.trips, ∀ a, (k2_off799 k2_t13) a + S1x1x1x16.size a ≤ S2x32x4x256.size a
  k2_off800_inb : ∀ k2_t13 : Fin k2_t13_loop.trips, ∀ a, (k2_off800 k2_t13) a + S1x1x16.size a ≤ S2x32x512.size a
  k2_off801_inb : ∀ k2_t13 : Fin k2_t13_loop.trips, ∀ a, (k2_off801 k2_t13) a + S1x1x1x16.size a ≤ S2x32x4x256.size a
  k2_off802_inb : ∀ k2_t13 : Fin k2_t13_loop.trips, ∀ a, (k2_off802 k2_t13) a + S1x1x16.size a ≤ S2x32x512.size a
  k2_off803_inb : ∀ k2_t13 : Fin k2_t13_loop.trips, ∀ a, (k2_off803 k2_t13) a + S1x1x1x16.size a ≤ S2x32x4x256.size a
  k2_off804_inb : ∀ k2_t13 : Fin k2_t13_loop.trips, ∀ a, (k2_off804 k2_t13) a + S1x1x16.size a ≤ S2x32x512.size a
  k2_off805_inb : ∀ k2_t13 : Fin k2_t13_loop.trips, ∀ a, (k2_off805 k2_t13) a + S1x1x1x16.size a ≤ S2x32x4x256.size a
  k2_off806_inb : ∀ k2_t13 : Fin k2_t13_loop.trips, ∀ a, (k2_off806 k2_t13) a + S1x1x16.size a ≤ S2x32x512.size a
  k2_off807_inb : ∀ k2_t13 : Fin k2_t13_loop.trips, ∀ a, (k2_off807 k2_t13) a + S1x1x1x16.size a ≤ S2x32x4x256.size a
  k2_off808_inb : ∀ k2_t13 : Fin k2_t13_loop.trips, ∀ a, (k2_off808 k2_t13) a + S1x1x16.size a ≤ S2x32x512.size a
  k2_off809_inb : ∀ k2_t13 : Fin k2_t13_loop.trips, ∀ a, (k2_off809 k2_t13) a + S1x1x1x16.size a ≤ S2x32x4x256.size a
  k2_off810_inb : ∀ k2_t13 : Fin k2_t13_loop.trips, ∀ a, (k2_off810 k2_t13) a + S1x1x16.size a ≤ S2x32x512.size a
  k2_off811_inb : ∀ k2_t13 : Fin k2_t13_loop.trips, ∀ a, (k2_off811 k2_t13) a + S1x1x1x16.size a ≤ S2x32x4x256.size a
  k2_off812_inb : ∀ k2_t13 : Fin k2_t13_loop.trips, ∀ a, (k2_off812 k2_t13) a + S1x1x16.size a ≤ S2x32x512.size a
  k2_off813_inb : ∀ k2_t13 : Fin k2_t13_loop.trips, ∀ a, (k2_off813 k2_t13) a + S1x1x1x16.size a ≤ S2x32x4x256.size a
  k2_off814_inb : ∀ k2_t13 : Fin k2_t13_loop.trips, ∀ a, (k2_off814 k2_t13) a + S1x1x16.size a ≤ S2x32x512.size a
  k2_off815_inb : ∀ k2_t13 : Fin k2_t13_loop.trips, ∀ a, (k2_off815 k2_t13) a + S1x1x1x16.size a ≤ S2x32x4x256.size a
  k2_off816_inb : ∀ k2_t13 : Fin k2_t13_loop.trips, ∀ a, (k2_off816 k2_t13) a + S1x1x16.size a ≤ S2x32x512.size a
  k2_off817_inb : ∀ k2_t13 : Fin k2_t13_loop.trips, ∀ a, (k2_off817 k2_t13) a + S1x1x1x16.size a ≤ S2x32x4x256.size a
  k2_off818_inb : ∀ k2_t13 : Fin k2_t13_loop.trips, ∀ a, (k2_off818 k2_t13) a + S1x1x16.size a ≤ S2x32x512.size a
  k2_off819_inb : ∀ k2_t13 : Fin k2_t13_loop.trips, ∀ a, (k2_off819 k2_t13) a + S1x1x1x16.size a ≤ S2x32x4x256.size a
  k2_off820_inb : ∀ k2_t13 : Fin k2_t13_loop.trips, ∀ a, (k2_off820 k2_t13) a + S1x1x16.size a ≤ S2x32x512.size a
  k2_off821_inb : ∀ k2_t13 : Fin k2_t13_loop.trips, ∀ a, (k2_off821 k2_t13) a + S1x1x1x16.size a ≤ S2x32x4x256.size a
  k2_off822_inb : ∀ k2_t13 : Fin k2_t13_loop.trips, ∀ a, (k2_off822 k2_t13) a + S1x1x16.size a ≤ S2x32x512.size a
  k2_off823_inb : ∀ k2_t13 : Fin k2_t13_loop.trips, ∀ a, (k2_off823 k2_t13) a + S1x1x1x16.size a ≤ S2x32x4x256.size a
  k2_off824_inb : ∀ k2_t13 : Fin k2_t13_loop.trips, ∀ a, (k2_off824 k2_t13) a + S1x1x16.size a ≤ S2x32x512.size a
  k2_off825_inb : ∀ k2_t13 : Fin k2_t13_loop.trips, ∀ a, (k2_off825 k2_t13) a + S1x1x1x16.size a ≤ S2x32x4x256.size a
  k2_off826_inb : ∀ k2_t13 : Fin k2_t13_loop.trips, ∀ a, (k2_off826 k2_t13) a + S1x1x16.size a ≤ S2x32x512.size a
  k2_off827_inb : ∀ k2_t13 : Fin k2_t13_loop.trips, ∀ a, (k2_off827 k2_t13) a + S1x1x1x16.size a ≤ S2x32x4x256.size a
  k2_off828_inb : ∀ k2_t13 : Fin k2_t13_loop.trips, ∀ a, (k2_off828 k2_t13) a + S1x1x16.size a ≤ S2x32x512.size a
  k2_off829_inb : ∀ k2_t13 : Fin k2_t13_loop.trips, ∀ a, (k2_off829 k2_t13) a + S1x1x1x16.size a ≤ S2x32x4x256.size a
  k2_off830_inb : ∀ k2_t13 : Fin k2_t13_loop.trips, ∀ a, (k2_off830 k2_t13) a + S1x1x16.size a ≤ S2x32x512.size a
  k2_off831_inb : ∀ k2_t13 : Fin k2_t13_loop.trips, ∀ a, (k2_off831 k2_t13) a + S1x1x1x16.size a ≤ S2x32x4x256.size a
  k2_off832_inb : ∀ k2_t13 : Fin k2_t13_loop.trips, ∀ a, (k2_off832 k2_t13) a + S1x1x16.size a ≤ S2x32x512.size a
  k2_off833_inb : ∀ k2_t13 : Fin k2_t13_loop.trips, ∀ a, (k2_off833 k2_t13) a + S1x1x1x16.size a ≤ S2x32x4x256.size a
  k2_off834_inb : ∀ k2_t13 : Fin k2_t13_loop.trips, ∀ a, (k2_off834 k2_t13) a + S1x1x16.size a ≤ S2x32x512.size a
  k2_off835_inb : ∀ k2_t13 : Fin k2_t13_loop.trips, ∀ a, (k2_off835 k2_t13) a + S1x1x1x16.size a ≤ S2x32x4x256.size a
  k2_off836_inb : ∀ k2_t13 : Fin k2_t13_loop.trips, ∀ a, (k2_off836 k2_t13) a + S1x1x16.size a ≤ S2x32x512.size a
  k2_off837_inb : ∀ k2_t13 : Fin k2_t13_loop.trips, ∀ a, (k2_off837 k2_t13) a + S1x1x1x16.size a ≤ S2x32x4x256.size a
  k2_off838_inb : ∀ k2_t13 : Fin k2_t13_loop.trips, ∀ a, (k2_off838 k2_t13) a + S1x1x16.size a ≤ S2x32x512.size a
  k2_off839_inb : ∀ k2_t13 : Fin k2_t13_loop.trips, ∀ a, (k2_off839 k2_t13) a + S1x1x1x16.size a ≤ S2x32x4x256.size a
  k2_off840_inb : ∀ k2_t13 : Fin k2_t13_loop.trips, ∀ a, (k2_off840 k2_t13) a + S1x1x16.size a ≤ S2x32x512.size a
  k2_off841_inb : ∀ k2_t13 : Fin k2_t13_loop.trips, ∀ a, (k2_off841 k2_t13) a + S1x1x1x16.size a ≤ S2x32x4x256.size a
  k2_off842_inb : ∀ k2_t13 : Fin k2_t13_loop.trips, ∀ a, (k2_off842 k2_t13) a + S1x1x16.size a ≤ S2x32x512.size a
  k2_off843_inb : ∀ k2_t13 : Fin k2_t13_loop.trips, ∀ a, (k2_off843 k2_t13) a + S1x1x1x16.size a ≤ S2x32x4x256.size a
  k2_off844_inb : ∀ k2_t13 : Fin k2_t13_loop.trips, ∀ a, (k2_off844 k2_t13) a + S1x1x16.size a ≤ S2x32x512.size a
  k2_off845_inb : ∀ k2_t13 : Fin k2_t13_loop.trips, ∀ a, (k2_off845 k2_t13) a + S1x1x1x16.size a ≤ S2x32x4x256.size a
  k2_off846_inb : ∀ k2_t13 : Fin k2_t13_loop.trips, ∀ a, (k2_off846 k2_t13) a + S1x1x16.size a ≤ S2x32x512.size a
  k2_off847_inb : ∀ k2_t13 : Fin k2_t13_loop.trips, ∀ a, (k2_off847 k2_t13) a + S1x1x1x16.size a ≤ S2x32x4x256.size a
  k2_off848_inb : ∀ k2_t13 : Fin k2_t13_loop.trips, ∀ a, (k2_off848 k2_t13) a + S1x1x16.size a ≤ S2x32x512.size a
  k2_off849_inb : ∀ k2_t13 : Fin k2_t13_loop.trips, ∀ a, (k2_off849 k2_t13) a + S1x1x1x16.size a ≤ S2x32x4x256.size a
  k2_off850_inb : ∀ k2_t13 : Fin k2_t13_loop.trips, ∀ a, (k2_off850 k2_t13) a + S1x1x16.size a ≤ S2x32x512.size a
  k2_off851_inb : ∀ k2_t13 : Fin k2_t13_loop.trips, ∀ a, (k2_off851 k2_t13) a + S1x1x1x16.size a ≤ S2x32x4x256.size a
  k2_off852_inb : ∀ k2_t13 : Fin k2_t13_loop.trips, ∀ a, (k2_off852 k2_t13) a + S1x1x16.size a ≤ S2x32x512.size a
  k2_off853_inb : ∀ k2_t13 : Fin k2_t13_loop.trips, ∀ a, (k2_off853 k2_t13) a + S1x1x1x16.size a ≤ S2x32x4x256.size a
  k2_off854_inb : ∀ k2_t13 : Fin k2_t13_loop.trips, ∀ a, (k2_off854 k2_t13) a + S1x1x16.size a ≤ S2x32x512.size a
  k2_off855_inb : ∀ k2_t13 : Fin k2_t13_loop.trips, ∀ a, (k2_off855 k2_t13) a + S1x1x1x16.size a ≤ S2x32x4x256.size a
  k2_off856_inb : ∀ i : grid2.Coords, ∀ a, (k2_off856 i) a + S1x32x4x256.size a ≤ S16x1024x4x256.size a
  k2_off857_inb : ∀ i : grid2.Coords, ∀ a, (k2_off857 i) a + S1x32x512.size a ≤ S16x1024x512.size a
  k2_t14_ok : k2_t14_loop.OK
  k2_off858_inb : ∀ k2_t14 : Fin k2_t14_loop.trips, ∀ a, (k2_off858 k2_t14) a + S1x1x16.size a ≤ S2x32x512.size a
  k2_off859_inb : ∀ k2_t14 : Fin k2_t14_loop.trips, ∀ a, (k2_off859 k2_t14) a + S1x1x1x16.size a ≤ S2x32x4x256.size a
  k2_off860_inb : ∀ k2_t14 : Fin k2_t14_loop.trips, ∀ a, (k2_off860 k2_t14) a + S1x1x16.size a ≤ S2x32x512.size a
  k2_off861_inb : ∀ k2_t14 : Fin k2_t14_loop.trips, ∀ a, (k2_off861 k2_t14) a + S1x1x1x16.size a ≤ S2x32x4x256.size a
  k2_off862_inb : ∀ k2_t14 : Fin k2_t14_loop.trips, ∀ a, (k2_off862 k2_t14) a + S1x1x16.size a ≤ S2x32x512.size a
  k2_off863_inb : ∀ k2_t14 : Fin k2_t14_loop.trips, ∀ a, (k2_off863 k2_t14) a + S1x1x1x16.size a ≤ S2x32x4x256.size a
  k2_off864_inb : ∀ k2_t14 : Fin k2_t14_loop.trips, ∀ a, (k2_off864 k2_t14) a + S1x1x16.size a ≤ S2x32x512.size a
  k2_off865_inb : ∀ k2_t14 : Fin k2_t14_loop.trips, ∀ a, (k2_off865 k2_t14) a + S1x1x1x16.size a ≤ S2x32x4x256.size a
  k2_off866_inb : ∀ k2_t14 : Fin k2_t14_loop.trips, ∀ a, (k2_off866 k2_t14) a + S1x1x16.size a ≤ S2x32x512.size a
  k2_off867_inb : ∀ k2_t14 : Fin k2_t14_loop.trips, ∀ a, (k2_off867 k2_t14) a + S1x1x1x16.size a ≤ S2x32x4x256.size a
  k2_off868_inb : ∀ k2_t14 : Fin k2_t14_loop.trips, ∀ a, (k2_off868 k2_t14) a + S1x1x16.size a ≤ S2x32x512.size a
  k2_off869_inb : ∀ k2_t14 : Fin k2_t14_loop.trips, ∀ a, (k2_off869 k2_t14) a + S1x1x1x16.size a ≤ S2x32x4x256.size a
  k2_off870_inb : ∀ k2_t14 : Fin k2_t14_loop.trips, ∀ a, (k2_off870 k2_t14) a + S1x1x16.size a ≤ S2x32x512.size a
  k2_off871_inb : ∀ k2_t14 : Fin k2_t14_loop.trips, ∀ a, (k2_off871 k2_t14) a + S1x1x1x16.size a ≤ S2x32x4x256.size a
  k2_off872_inb : ∀ k2_t14 : Fin k2_t14_loop.trips, ∀ a, (k2_off872 k2_t14) a + S1x1x16.size a ≤ S2x32x512.size a
  k2_off873_inb : ∀ k2_t14 : Fin k2_t14_loop.trips, ∀ a, (k2_off873 k2_t14) a + S1x1x1x16.size a ≤ S2x32x4x256.size a
  k2_off874_inb : ∀ k2_t14 : Fin k2_t14_loop.trips, ∀ a, (k2_off874 k2_t14) a + S1x1x16.size a ≤ S2x32x512.size a
  k2_off875_inb : ∀ k2_t14 : Fin k2_t14_loop.trips, ∀ a, (k2_off875 k2_t14) a + S1x1x1x16.size a ≤ S2x32x4x256.size a
  k2_off876_inb : ∀ k2_t14 : Fin k2_t14_loop.trips, ∀ a, (k2_off876 k2_t14) a + S1x1x16.size a ≤ S2x32x512.size a
  k2_off877_inb : ∀ k2_t14 : Fin k2_t14_loop.trips, ∀ a, (k2_off877 k2_t14) a + S1x1x1x16.size a ≤ S2x32x4x256.size a
  k2_off878_inb : ∀ k2_t14 : Fin k2_t14_loop.trips, ∀ a, (k2_off878 k2_t14) a + S1x1x16.size a ≤ S2x32x512.size a
  k2_off879_inb : ∀ k2_t14 : Fin k2_t14_loop.trips, ∀ a, (k2_off879 k2_t14) a + S1x1x1x16.size a ≤ S2x32x4x256.size a
  k2_off880_inb : ∀ k2_t14 : Fin k2_t14_loop.trips, ∀ a, (k2_off880 k2_t14) a + S1x1x16.size a ≤ S2x32x512.size a
  k2_off881_inb : ∀ k2_t14 : Fin k2_t14_loop.trips, ∀ a, (k2_off881 k2_t14) a + S1x1x1x16.size a ≤ S2x32x4x256.size a
  k2_off882_inb : ∀ k2_t14 : Fin k2_t14_loop.trips, ∀ a, (k2_off882 k2_t14) a + S1x1x16.size a ≤ S2x32x512.size a
  k2_off883_inb : ∀ k2_t14 : Fin k2_t14_loop.trips, ∀ a, (k2_off883 k2_t14) a + S1x1x1x16.size a ≤ S2x32x4x256.size a
  k2_off884_inb : ∀ k2_t14 : Fin k2_t14_loop.trips, ∀ a, (k2_off884 k2_t14) a + S1x1x16.size a ≤ S2x32x512.size a
  k2_off885_inb : ∀ k2_t14 : Fin k2_t14_loop.trips, ∀ a, (k2_off885 k2_t14) a + S1x1x1x16.size a ≤ S2x32x4x256.size a
  k2_off886_inb : ∀ k2_t14 : Fin k2_t14_loop.trips, ∀ a, (k2_off886 k2_t14) a + S1x1x16.size a ≤ S2x32x512.size a
  k2_off887_inb : ∀ k2_t14 : Fin k2_t14_loop.trips, ∀ a, (k2_off887 k2_t14) a + S1x1x1x16.size a ≤ S2x32x4x256.size a
  k2_off888_inb : ∀ k2_t14 : Fin k2_t14_loop.trips, ∀ a, (k2_off888 k2_t14) a + S1x1x16.size a ≤ S2x32x512.size a
  k2_off889_inb : ∀ k2_t14 : Fin k2_t14_loop.trips, ∀ a, (k2_off889 k2_t14) a + S1x1x1x16.size a ≤ S2x32x4x256.size a
  k2_off890_inb : ∀ k2_t14 : Fin k2_t14_loop.trips, ∀ a, (k2_off890 k2_t14) a + S1x1x16.size a ≤ S2x32x512.size a
  k2_off891_inb : ∀ k2_t14 : Fin k2_t14_loop.trips, ∀ a, (k2_off891 k2_t14) a + S1x1x1x16.size a ≤ S2x32x4x256.size a
  k2_off892_inb : ∀ k2_t14 : Fin k2_t14_loop.trips, ∀ a, (k2_off892 k2_t14) a + S1x1x16.size a ≤ S2x32x512.size a
  k2_off893_inb : ∀ k2_t14 : Fin k2_t14_loop.trips, ∀ a, (k2_off893 k2_t14) a + S1x1x1x16.size a ≤ S2x32x4x256.size a
  k2_off894_inb : ∀ k2_t14 : Fin k2_t14_loop.trips, ∀ a, (k2_off894 k2_t14) a + S1x1x16.size a ≤ S2x32x512.size a
  k2_off895_inb : ∀ k2_t14 : Fin k2_t14_loop.trips, ∀ a, (k2_off895 k2_t14) a + S1x1x1x16.size a ≤ S2x32x4x256.size a
  k2_off896_inb : ∀ k2_t14 : Fin k2_t14_loop.trips, ∀ a, (k2_off896 k2_t14) a + S1x1x16.size a ≤ S2x32x512.size a
  k2_off897_inb : ∀ k2_t14 : Fin k2_t14_loop.trips, ∀ a, (k2_off897 k2_t14) a + S1x1x1x16.size a ≤ S2x32x4x256.size a
  k2_off898_inb : ∀ k2_t14 : Fin k2_t14_loop.trips, ∀ a, (k2_off898 k2_t14) a + S1x1x16.size a ≤ S2x32x512.size a
  k2_off899_inb : ∀ k2_t14 : Fin k2_t14_loop.trips, ∀ a, (k2_off899 k2_t14) a + S1x1x1x16.size a ≤ S2x32x4x256.size a
  k2_off900_inb : ∀ k2_t14 : Fin k2_t14_loop.trips, ∀ a, (k2_off900 k2_t14) a + S1x1x16.size a ≤ S2x32x512.size a
  k2_off901_inb : ∀ k2_t14 : Fin k2_t14_loop.trips, ∀ a, (k2_off901 k2_t14) a + S1x1x1x16.size a ≤ S2x32x4x256.size a
  k2_off902_inb : ∀ k2_t14 : Fin k2_t14_loop.trips, ∀ a, (k2_off902 k2_t14) a + S1x1x16.size a ≤ S2x32x512.size a
  k2_off903_inb : ∀ k2_t14 : Fin k2_t14_loop.trips, ∀ a, (k2_off903 k2_t14) a + S1x1x1x16.size a ≤ S2x32x4x256.size a
  k2_off904_inb : ∀ k2_t14 : Fin k2_t14_loop.trips, ∀ a, (k2_off904 k2_t14) a + S1x1x16.size a ≤ S2x32x512.size a
  k2_off905_inb : ∀ k2_t14 : Fin k2_t14_loop.trips, ∀ a, (k2_off905 k2_t14) a + S1x1x1x16.size a ≤ S2x32x4x256.size a
  k2_off906_inb : ∀ k2_t14 : Fin k2_t14_loop.trips, ∀ a, (k2_off906 k2_t14) a + S1x1x16.size a ≤ S2x32x512.size a
  k2_off907_inb : ∀ k2_t14 : Fin k2_t14_loop.trips, ∀ a, (k2_off907 k2_t14) a + S1x1x1x16.size a ≤ S2x32x4x256.size a
  k2_off908_inb : ∀ k2_t14 : Fin k2_t14_loop.trips, ∀ a, (k2_off908 k2_t14) a + S1x1x16.size a ≤ S2x32x512.size a
  k2_off909_inb : ∀ k2_t14 : Fin k2_t14_loop.trips, ∀ a, (k2_off909 k2_t14) a + S1x1x1x16.size a ≤ S2x32x4x256.size a
  k2_off910_inb : ∀ k2_t14 : Fin k2_t14_loop.trips, ∀ a, (k2_off910 k2_t14) a + S1x1x16.size a ≤ S2x32x512.size a
  k2_off911_inb : ∀ k2_t14 : Fin k2_t14_loop.trips, ∀ a, (k2_off911 k2_t14) a + S1x1x1x16.size a ≤ S2x32x4x256.size a
  k2_off912_inb : ∀ k2_t14 : Fin k2_t14_loop.trips, ∀ a, (k2_off912 k2_t14) a + S1x1x16.size a ≤ S2x32x512.size a
  k2_off913_inb : ∀ k2_t14 : Fin k2_t14_loop.trips, ∀ a, (k2_off913 k2_t14) a + S1x1x1x16.size a ≤ S2x32x4x256.size a
  k2_off914_inb : ∀ k2_t14 : Fin k2_t14_loop.trips, ∀ a, (k2_off914 k2_t14) a + S1x1x16.size a ≤ S2x32x512.size a
  k2_off915_inb : ∀ k2_t14 : Fin k2_t14_loop.trips, ∀ a, (k2_off915 k2_t14) a + S1x1x1x16.size a ≤ S2x32x4x256.size a
  k2_off916_inb : ∀ k2_t14 : Fin k2_t14_loop.trips, ∀ a, (k2_off916 k2_t14) a + S1x1x16.size a ≤ S2x32x512.size a
  k2_off917_inb : ∀ k2_t14 : Fin k2_t14_loop.trips, ∀ a, (k2_off917 k2_t14) a + S1x1x1x16.size a ≤ S2x32x4x256.size a
  k2_off918_inb : ∀ k2_t14 : Fin k2_t14_loop.trips, ∀ a, (k2_off918 k2_t14) a + S1x1x16.size a ≤ S2x32x512.size a
  k2_off919_inb : ∀ k2_t14 : Fin k2_t14_loop.trips, ∀ a, (k2_off919 k2_t14) a + S1x1x1x16.size a ≤ S2x32x4x256.size a
  k2_off920_inb : ∀ k2_t14 : Fin k2_t14_loop.trips, ∀ a, (k2_off920 k2_t14) a + S1x1x16.size a ≤ S2x32x512.size a
  k2_off921_inb : ∀ k2_t14 : Fin k2_t14_loop.trips, ∀ a, (k2_off921 k2_t14) a + S1x1x1x16.size a ≤ S2x32x4x256.size a
  k2_off922_inb : ∀ i : grid2.Coords, ∀ a, (k2_off922 i) a + S1x32x4x256.size a ≤ S16x1024x4x256.size a
  k2_off923_inb : ∀ i : grid2.Coords, ∀ a, (k2_off923 i) a + S1x32x512.size a ≤ S16x1024x512.size a
  k2_t15_ok : k2_t15_loop.OK
  k2_off924_inb : ∀ k2_t15 : Fin k2_t15_loop.trips, ∀ a, (k2_off924 k2_t15) a + S1x1x16.size a ≤ S2x32x512.size a
  k2_off925_inb : ∀ k2_t15 : Fin k2_t15_loop.trips, ∀ a, (k2_off925 k2_t15) a + S1x1x1x16.size a ≤ S2x32x4x256.size a
  k2_off926_inb : ∀ k2_t15 : Fin k2_t15_loop.trips, ∀ a, (k2_off926 k2_t15) a + S1x1x16.size a ≤ S2x32x512.size a
  k2_off927_inb : ∀ k2_t15 : Fin k2_t15_loop.trips, ∀ a, (k2_off927 k2_t15) a + S1x1x1x16.size a ≤ S2x32x4x256.size a
  k2_off928_inb : ∀ k2_t15 : Fin k2_t15_loop.trips, ∀ a, (k2_off928 k2_t15) a + S1x1x16.size a ≤ S2x32x512.size a
  k2_off929_inb : ∀ k2_t15 : Fin k2_t15_loop.trips, ∀ a, (k2_off929 k2_t15) a + S1x1x1x16.size a ≤ S2x32x4x256.size a
  k2_off930_inb : ∀ k2_t15 : Fin k2_t15_loop.trips, ∀ a, (k2_off930 k2_t15) a + S1x1x16.size a ≤ S2x32x512.size a
  k2_off931_inb : ∀ k2_t15 : Fin k2_t15_loop.trips, ∀ a, (k2_off931 k2_t15) a + S1x1x1x16.size a ≤ S2x32x4x256.size a
  k2_off932_inb : ∀ k2_t15 : Fin k2_t15_loop.trips, ∀ a, (k2_off932 k2_t15) a + S1x1x16.size a ≤ S2x32x512.size a
  k2_off933_inb : ∀ k2_t15 : Fin k2_t15_loop.trips, ∀ a, (k2_off933 k2_t15) a + S1x1x1x16.size a ≤ S2x32x4x256.size a
  k2_off934_inb : ∀ k2_t15 : Fin k2_t15_loop.trips, ∀ a, (k2_off934 k2_t15) a + S1x1x16.size a ≤ S2x32x512.size a
  k2_off935_inb : ∀ k2_t15 : Fin k2_t15_loop.trips, ∀ a, (k2_off935 k2_t15) a + S1x1x1x16.size a ≤ S2x32x4x256.size a
  k2_off936_inb : ∀ k2_t15 : Fin k2_t15_loop.trips, ∀ a, (k2_off936 k2_t15) a + S1x1x16.size a ≤ S2x32x512.size a
  k2_off937_inb : ∀ k2_t15 : Fin k2_t15_loop.trips, ∀ a, (k2_off937 k2_t15) a + S1x1x1x16.size a ≤ S2x32x4x256.size a
  k2_off938_inb : ∀ k2_t15 : Fin k2_t15_loop.trips, ∀ a, (k2_off938 k2_t15) a + S1x1x16.size a ≤ S2x32x512.size a
  k2_off939_inb : ∀ k2_t15 : Fin k2_t15_loop.trips, ∀ a, (k2_off939 k2_t15) a + S1x1x1x16.size a ≤ S2x32x4x256.size a
  k2_off940_inb : ∀ k2_t15 : Fin k2_t15_loop.trips, ∀ a, (k2_off940 k2_t15) a + S1x1x16.size a ≤ S2x32x512.size a
  k2_off941_inb : ∀ k2_t15 : Fin k2_t15_loop.trips, ∀ a, (k2_off941 k2_t15) a + S1x1x1x16.size a ≤ S2x32x4x256.size a
  k2_off942_inb : ∀ k2_t15 : Fin k2_t15_loop.trips, ∀ a, (k2_off942 k2_t15) a + S1x1x16.size a ≤ S2x32x512.size a
  k2_off943_inb : ∀ k2_t15 : Fin k2_t15_loop.trips, ∀ a, (k2_off943 k2_t15) a + S1x1x1x16.size a ≤ S2x32x4x256.size a
  k2_off944_inb : ∀ k2_t15 : Fin k2_t15_loop.trips, ∀ a, (k2_off944 k2_t15) a + S1x1x16.size a ≤ S2x32x512.size a
  k2_off945_inb : ∀ k2_t15 : Fin k2_t15_loop.trips, ∀ a, (k2_off945 k2_t15) a + S1x1x1x16.size a ≤ S2x32x4x256.size a
  k2_off946_inb : ∀ k2_t15 : Fin k2_t15_loop.trips, ∀ a, (k2_off946 k2_t15) a + S1x1x16.size a ≤ S2x32x512.size a
  k2_off947_inb : ∀ k2_t15 : Fin k2_t15_loop.trips, ∀ a, (k2_off947 k2_t15) a + S1x1x1x16.size a ≤ S2x32x4x256.size a
  k2_off948_inb : ∀ k2_t15 : Fin k2_t15_loop.trips, ∀ a, (k2_off948 k2_t15) a + S1x1x16.size a ≤ S2x32x512.size a
  k2_off949_inb : ∀ k2_t15 : Fin k2_t15_loop.trips, ∀ a, (k2_off949 k2_t15) a + S1x1x1x16.size a ≤ S2x32x4x256.size a
  k2_off950_inb : ∀ k2_t15 : Fin k2_t15_loop.trips, ∀ a, (k2_off950 k2_t15) a + S1x1x16.size a ≤ S2x32x512.size a
  k2_off951_inb : ∀ k2_t15 : Fin k2_t15_loop.trips, ∀ a, (k2_off951 k2_t15) a + S1x1x1x16.size a ≤ S2x32x4x256.size a
  k2_off952_inb : ∀ k2_t15 : Fin k2_t15_loop.trips, ∀ a, (k2_off952 k2_t15) a + S1x1x16.size a ≤ S2x32x512.size a
  k2_off953_inb : ∀ k2_t15 : Fin k2_t15_loop.trips, ∀ a, (k2_off953 k2_t15) a + S1x1x1x16.size a ≤ S2x32x4x256.size a
  k2_off954_inb : ∀ k2_t15 : Fin k2_t15_loop.trips, ∀ a, (k2_off954 k2_t15) a + S1x1x16.size a ≤ S2x32x512.size a
  k2_off955_inb : ∀ k2_t15 : Fin k2_t15_loop.trips, ∀ a, (k2_off955 k2_t15) a + S1x1x1x16.size a ≤ S2x32x4x256.size a
  k2_off956_inb : ∀ k2_t15 : Fin k2_t15_loop.trips, ∀ a, (k2_off956 k2_t15) a + S1x1x16.size a ≤ S2x32x512.size a
  k2_off957_inb : ∀ k2_t15 : Fin k2_t15_loop.trips, ∀ a, (k2_off957 k2_t15) a + S1x1x1x16.size a ≤ S2x32x4x256.size a
  k2_off958_inb : ∀ k2_t15 : Fin k2_t15_loop.trips, ∀ a, (k2_off958 k2_t15) a + S1x1x16.size a ≤ S2x32x512.size a
  k2_off959_inb : ∀ k2_t15 : Fin k2_t15_loop.trips, ∀ a, (k2_off959 k2_t15) a + S1x1x1x16.size a ≤ S2x32x4x256.size a
  k2_off960_inb : ∀ k2_t15 : Fin k2_t15_loop.trips, ∀ a, (k2_off960 k2_t15) a + S1x1x16.size a ≤ S2x32x512.size a
  k2_off961_inb : ∀ k2_t15 : Fin k2_t15_loop.trips, ∀ a, (k2_off961 k2_t15) a + S1x1x1x16.size a ≤ S2x32x4x256.size a
  k2_off962_inb : ∀ k2_t15 : Fin k2_t15_loop.trips, ∀ a, (k2_off962 k2_t15) a + S1x1x16.size a ≤ S2x32x512.size a
  k2_off963_inb : ∀ k2_t15 : Fin k2_t15_loop.trips, ∀ a, (k2_off963 k2_t15) a + S1x1x1x16.size a ≤ S2x32x4x256.size a
  k2_off964_inb : ∀ k2_t15 : Fin k2_t15_loop.trips, ∀ a, (k2_off964 k2_t15) a + S1x1x16.size a ≤ S2x32x512.size a
  k2_off965_inb : ∀ k2_t15 : Fin k2_t15_loop.trips, ∀ a, (k2_off965 k2_t15) a + S1x1x1x16.size a ≤ S2x32x4x256.size a
  k2_off966_inb : ∀ k2_t15 : Fin k2_t15_loop.trips, ∀ a, (k2_off966 k2_t15) a + S1x1x16.size a ≤ S2x32x512.size a
  k2_off967_inb : ∀ k2_t15 : Fin k2_t15_loop.trips, ∀ a, (k2_off967 k2_t15) a + S1x1x1x16.size a ≤ S2x32x4x256.size a
  k2_off968_inb : ∀ k2_t15 : Fin k2_t15_loop.trips, ∀ a, (k2_off968 k2_t15) a + S1x1x16.size a ≤ S2x32x512.size a
  k2_off969_inb : ∀ k2_t15 : Fin k2_t15_loop.trips, ∀ a, (k2_off969 k2_t15) a + S1x1x1x16.size a ≤ S2x32x4x256.size a
  k2_off970_inb : ∀ k2_t15 : Fin k2_t15_loop.trips, ∀ a, (k2_off970 k2_t15) a + S1x1x16.size a ≤ S2x32x512.size a
  k2_off971_inb : ∀ k2_t15 : Fin k2_t15_loop.trips, ∀ a, (k2_off971 k2_t15) a + S1x1x1x16.size a ≤ S2x32x4x256.size a
  k2_off972_inb : ∀ k2_t15 : Fin k2_t15_loop.trips, ∀ a, (k2_off972 k2_t15) a + S1x1x16.size a ≤ S2x32x512.size a
  k2_off973_inb : ∀ k2_t15 : Fin k2_t15_loop.trips, ∀ a, (k2_off973 k2_t15) a + S1x1x1x16.size a ≤ S2x32x4x256.size a
  k2_off974_inb : ∀ k2_t15 : Fin k2_t15_loop.trips, ∀ a, (k2_off974 k2_t15) a + S1x1x16.size a ≤ S2x32x512.size a
  k2_off975_inb : ∀ k2_t15 : Fin k2_t15_loop.trips, ∀ a, (k2_off975 k2_t15) a + S1x1x1x16.size a ≤ S2x32x4x256.size a
  k2_off976_inb : ∀ k2_t15 : Fin k2_t15_loop.trips, ∀ a, (k2_off976 k2_t15) a + S1x1x16.size a ≤ S2x32x512.size a
  k2_off977_inb : ∀ k2_t15 : Fin k2_t15_loop.trips, ∀ a, (k2_off977 k2_t15) a + S1x1x1x16.size a ≤ S2x32x4x256.size a
  k2_off978_inb : ∀ k2_t15 : Fin k2_t15_loop.trips, ∀ a, (k2_off978 k2_t15) a + S1x1x16.size a ≤ S2x32x512.size a
  k2_off979_inb : ∀ k2_t15 : Fin k2_t15_loop.trips, ∀ a, (k2_off979 k2_t15) a + S1x1x1x16.size a ≤ S2x32x4x256.size a
  k2_off980_inb : ∀ k2_t15 : Fin k2_t15_loop.trips, ∀ a, (k2_off980 k2_t15) a + S1x1x16.size a ≤ S2x32x512.size a
  k2_off981_inb : ∀ k2_t15 : Fin k2_t15_loop.trips, ∀ a, (k2_off981 k2_t15) a + S1x1x1x16.size a ≤ S2x32x4x256.size a
  k2_off982_inb : ∀ k2_t15 : Fin k2_t15_loop.trips, ∀ a, (k2_off982 k2_t15) a + S1x1x16.size a ≤ S2x32x512.size a
  k2_off983_inb : ∀ k2_t15 : Fin k2_t15_loop.trips, ∀ a, (k2_off983 k2_t15) a + S1x1x1x16.size a ≤ S2x32x4x256.size a

class K2.R2.Facts₀ : Prop where
  k2_off984_inb : ∀ k2_t15 : Fin k2_t15_loop.trips, ∀ a, (k2_off984 k2_t15) a + S1x1x16.size a ≤ S2x32x512.size a
  k2_off985_inb : ∀ k2_t15 : Fin k2_t15_loop.trips, ∀ a, (k2_off985 k2_t15) a + S1x1x1x16.size a ≤ S2x32x4x256.size a
  k2_off986_inb : ∀ k2_t15 : Fin k2_t15_loop.trips, ∀ a, (k2_off986 k2_t15) a + S1x1x16.size a ≤ S2x32x512.size a
  k2_off987_inb : ∀ k2_t15 : Fin k2_t15_loop.trips, ∀ a, (k2_off987 k2_t15) a + S1x1x1x16.size a ≤ S2x32x4x256.size a
  k2_off988_inb : ∀ i : grid2.Coords, ∀ a, (k2_off988 i) a + S1x32x4x256.size a ≤ S16x1024x4x256.size a
  k2_off989_inb : ∀ i : grid2.Coords, ∀ a, (k2_off989 i) a + S1x32x512.size a ≤ S16x1024x512.size a
  k2_t16_ok : k2_t16_loop.OK
  k2_off990_inb : ∀ k2_t16 : Fin k2_t16_loop.trips, ∀ a, (k2_off990 k2_t16) a + S1x1x16.size a ≤ S2x32x512.size a
  k2_off991_inb : ∀ k2_t16 : Fin k2_t16_loop.trips, ∀ a, (k2_off991 k2_t16) a + S1x1x1x16.size a ≤ S2x32x4x256.size a
  k2_off992_inb : ∀ k2_t16 : Fin k2_t16_loop.trips, ∀ a, (k2_off992 k2_t16) a + S1x1x16.size a ≤ S2x32x512.size a
  k2_off993_inb : ∀ k2_t16 : Fin k2_t16_loop.trips, ∀ a, (k2_off993 k2_t16) a + S1x1x1x16.size a ≤ S2x32x4x256.size a
  k2_off994_inb : ∀ k2_t16 : Fin k2_t16_loop.trips, ∀ a, (k2_off994 k2_t16) a + S1x1x16.size a ≤ S2x32x512.size a
  k2_off995_inb : ∀ k2_t16 : Fin k2_t16_loop.trips, ∀ a, (k2_off995 k2_t16) a + S1x1x1x16.size a ≤ S2x32x4x256.size a
  k2_off996_inb : ∀ k2_t16 : Fin k2_t16_loop.trips, ∀ a, (k2_off996 k2_t16) a + S1x1x16.size a ≤ S2x32x512.size a
  k2_off997_inb : ∀ k2_t16 : Fin k2_t16_loop.trips, ∀ a, (k2_off997 k2_t16) a + S1x1x1x16.size a ≤ S2x32x4x256.size a
  k2_off998_inb : ∀ k2_t16 : Fin k2_t16_loop.trips, ∀ a, (k2_off998 k2_t16) a + S1x1x16.size a ≤ S2x32x512.size a
  k2_off999_inb : ∀ k2_t16 : Fin k2_t16_loop.trips, ∀ a, (k2_off999 k2_t16) a + S1x1x1x16.size a ≤ S2x32x4x256.size a
  k2_off1000_inb : ∀ k2_t16 : Fin k2_t16_loop.trips, ∀ a, (k2_off1000 k2_t16) a + S1x1x16.size a ≤ S2x32x512.size a
  k2_off1001_inb : ∀ k2_t16 : Fin k2_t16_loop.trips, ∀ a, (k2_off1001 k2_t16) a + S1x1x1x16.size a ≤ S2x32x4x256.size a
  k2_off1002_inb : ∀ k2_t16 : Fin k2_t16_loop.trips, ∀ a, (k2_off1002 k2_t16) a + S1x1x16.size a ≤ S2x32x512.size a
  k2_off1003_inb : ∀ k2_t16 : Fin k2_t16_loop.trips, ∀ a, (k2_off1003 k2_t16) a + S1x1x1x16.size a ≤ S2x32x4x256.size a
  k2_off1004_inb : ∀ k2_t16 : Fin k2_t16_loop.trips, ∀ a, (k2_off1004 k2_t16) a + S1x1x16.size a ≤ S2x32x512.size a
  k2_off1005_inb : ∀ k2_t16 : Fin k2_t16_loop.trips, ∀ a, (k2_off1005 k2_t16) a + S1x1x1x16.size a ≤ S2x32x4x256.size a
  k2_off1006_inb : ∀ k2_t16 : Fin k2_t16_loop.trips, ∀ a, (k2_off1006 k2_t16) a + S1x1x16.size a ≤ S2x32x512.size a
  k2_off1007_inb : ∀ k2_t16 : Fin k2_t16_loop.trips, ∀ a, (k2_off1007 k2_t16) a + S1x1x1x16.size a ≤ S2x32x4x256.size a
  k2_off1008_inb : ∀ k2_t16 : Fin k2_t16_loop.trips, ∀ a, (k2_off1008 k2_t16) a + S1x1x16.size a ≤ S2x32x512.size a
  k2_off1009_inb : ∀ k2_t16 : Fin k2_t16_loop.trips, ∀ a, (k2_off1009 k2_t16) a + S1x1x1x16.size a ≤ S2x32x4x256.size a
  k2_off1010_inb : ∀ k2_t16 : Fin k2_t16_loop.trips, ∀ a, (k2_off1010 k2_t16) a + S1x1x16.size a ≤ S2x32x512.size a
  k2_off1011_inb : ∀ k2_t16 : Fin k2_t16_loop.trips, ∀ a, (k2_off1011 k2_t16) a + S1x1x1x16.size a ≤ S2x32x4x256.size a
  k2_off1012_inb : ∀ k2_t16 : Fin k2_t16_loop.trips, ∀ a, (k2_off1012 k2_t16) a + S1x1x16.size a ≤ S2x32x512.size a
  k2_off1013_inb : ∀ k2_t16 : Fin k2_t16_loop.trips, ∀ a, (k2_off1013 k2_t16) a + S1x1x1x16.size a ≤ S2x32x4x256.size a
  k2_off1014_inb : ∀ k2_t16 : Fin k2_t16_loop.trips, ∀ a, (k2_off1014 k2_t16) a + S1x1x16.size a ≤ S2x32x512.size a
  k2_off1015_inb : ∀ k2_t16 : Fin k2_t16_loop.trips, ∀ a, (k2_off1015 k2_t16) a + S1x1x1x16.size a ≤ S2x32x4x256.size a
  k2_off1016_inb : ∀ k2_t16 : Fin k2_t16_loop.trips, ∀ a, (k2_off1016 k2_t16) a + S1x1x16.size a ≤ S2x32x512.size a
  k2_off1017_inb : ∀ k2_t16 : Fin k2_t16_loop.trips, ∀ a, (k2_off1017 k2_t16) a + S1x1x1x16.size a ≤ S2x32x4x256.size a
  k2_off1018_inb : ∀ k2_t16 : Fin k2_t16_loop.trips, ∀ a, (k2_off1018 k2_t16) a + S1x1x16.size a ≤ S2x32x512.size a
  k2_off1019_inb : ∀ k2_t16 : Fin k2_t16_loop.trips, ∀ a, (k2_off1019 k2_t16) a + S1x1x1x16.size a ≤ S2x32x4x256.size a
  k2_off1020_inb : ∀ k2_t16 : Fin k2_t16_loop.trips, ∀ a, (k2_off1020 k2_t16) a + S1x1x16.size a ≤ S2x32x512.size a
  k2_off1021_inb : ∀ k2_t16 : Fin k2_t16_loop.trips, ∀ a, (k2_off1021 k2_t16) a + S1x1x1x16.size a ≤ S2x32x4x256.size a
  k2_off1022_inb : ∀ k2_t16 : Fin k2_t16_loop.trips, ∀ a, (k2_off1022 k2_t16) a + S1x1x16.size a ≤ S2x32x512.size a
  k2_off1023_inb : ∀ k2_t16 : Fin k2_t16_loop.trips, ∀ a, (k2_off1023 k2_t16) a + S1x1x1x16.size a ≤ S2x32x4x256.size a
  k2_off1024_inb : ∀ k2_t16 : Fin k2_t16_loop.trips, ∀ a, (k2_off1024 k2_t16) a + S1x1x16.size a ≤ S2x32x512.size a
  k2_off1025_inb : ∀ k2_t16 : Fin k2_t16_loop.trips, ∀ a, (k2_off1025 k2_t16) a + S1x1x1x16.size a ≤ S2x32x4x256.size a
  k2_off1026_inb : ∀ k2_t16 : Fin k2_t16_loop.trips, ∀ a, (k2_off1026 k2_t16) a + S1x1x16.size a ≤ S2x32x512.size a
  k2_off1027_inb : ∀ k2_t16 : Fin k2_t16_loop.trips, ∀ a, (k2_off1027 k2_t16) a + S1x1x1x16.size a ≤ S2x32x4x256.size a
  k2_off1028_inb : ∀ k2_t16 : Fin k2_t16_loop.trips, ∀ a, (k2_off1028 k2_t16) a + S1x1x16.size a ≤ S2x32x512.size a
  k2_off1029_inb : ∀ k2_t16 : Fin k2_t16_loop.trips, ∀ a, (k2_off1029 k2_t16) a + S1x1x1x16.size a ≤ S2x32x4x256.size a
  k2_off1030_inb : ∀ k2_t16 : Fin k2_t16_loop.trips, ∀ a, (k2_off1030 k2_t16) a + S1x1x16.size a ≤ S2x32x512.size a
  k2_off1031_inb : ∀ k2_t16 : Fin k2_t16_loop.trips, ∀ a, (k2_off1031 k2_t16) a + S1x1x1x16.size a ≤ S2x32x4x256.size a
  k2_off1032_inb : ∀ k2_t16 : Fin k2_t16_loop.trips, ∀ a, (k2_off1032 k2_t16) a + S1x1x16.size a ≤ S2x32x512.size a
  k2_off1033_inb : ∀ k2_t16 : Fin k2_t16_loop.trips, ∀ a, (k2_off1033 k2_t16) a + S1x1x1x16.size a ≤ S2x32x4x256.size a
  k2_off1034_inb : ∀ k2_t16 : Fin k2_t16_loop.trips, ∀ a, (k2_off1034 k2_t16) a + S1x1x16.size a ≤ S2x32x512.size a
  k2_off1035_inb : ∀ k2_t16 : Fin k2_t16_loop.trips, ∀ a, (k2_off1035 k2_t16) a + S1x1x1x16.size a ≤ S2x32x4x256.size a
  k2_off1036_inb : ∀ k2_t16 : Fin k2_t16_loop.trips, ∀ a, (k2_off1036 k2_t16) a + S1x1x16.size a ≤ S2x32x512.size a
  k2_off1037_inb : ∀ k2_t16 : Fin k2_t16_loop.trips, ∀ a, (k2_off1037 k2_t16) a + S1x1x1x16.size a ≤ S2x32x4x256.size a
  k2_off1038_inb : ∀ k2_t16 : Fin k2_t16_loop.trips, ∀ a, (k2_off1038 k2_t16) a + S1x1x16.size a ≤ S2x32x512.size a
  k2_off1039_inb : ∀ k2_t16 : Fin k2_t16_loop.trips, ∀ a, (k2_off1039 k2_t16) a + S1x1x1x16.size a ≤ S2x32x4x256.size a
  k2_off1040_inb : ∀ k2_t16 : Fin k2_t16_loop.trips, ∀ a, (k2_off1040 k2_t16) a + S1x1x16.size a ≤ S2x32x512.size a
  k2_off1041_inb : ∀ k2_t16 : Fin k2_t16_loop.trips, ∀ a, (k2_off1041 k2_t16) a + S1x1x1x16.size a ≤ S2x32x4x256.size a
  k2_off1042_inb : ∀ k2_t16 : Fin k2_t16_loop.trips, ∀ a, (k2_off1042 k2_t16) a + S1x1x16.size a ≤ S2x32x512.size a
  k2_off1043_inb : ∀ k2_t16 : Fin k2_t16_loop.trips, ∀ a, (k2_off1043 k2_t16) a + S1x1x1x16.size a ≤ S2x32x4x256.size a
  k2_off1044_inb : ∀ k2_t16 : Fin k2_t16_loop.trips, ∀ a, (k2_off1044 k2_t16) a + S1x1x16.size a ≤ S2x32x512.size a
  k2_off1045_inb : ∀ k2_t16 : Fin k2_t16_loop.trips, ∀ a, (k2_off1045 k2_t16) a + S1x1x1x16.size a ≤ S2x32x4x256.size a
  k2_off1046_inb : ∀ k2_t16 : Fin k2_t16_loop.trips, ∀ a, (k2_off1046 k2_t16) a + S1x1x16.size a ≤ S2x32x512.size a
  k2_off1047_inb : ∀ k2_t16 : Fin k2_t16_loop.trips, ∀ a, (k2_off1047 k2_t16) a + S1x1x1x16.size a ≤ S2x32x4x256.size a
  k2_off1048_inb : ∀ k2_t16 : Fin k2_t16_loop.trips, ∀ a, (k2_off1048 k2_t16) a + S1x1x16.size a ≤ S2x32x512.size a
  k2_off1049_inb : ∀ k2_t16 : Fin k2_t16_loop.trips, ∀ a, (k2_off1049 k2_t16) a + S1x1x1x16.size a ≤ S2x32x4x256.size a
  k2_off1050_inb : ∀ k2_t16 : Fin k2_t16_loop.trips, ∀ a, (k2_off1050 k2_t16) a + S1x1x16.size a ≤ S2x32x512.size a
  k2_off1051_inb : ∀ k2_t16 : Fin k2_t16_loop.trips, ∀ a, (k2_off1051 k2_t16) a + S1x1x1x16.size a ≤ S2x32x4x256.size a
  k2_off1052_inb : ∀ k2_t16 : Fin k2_t16_loop.trips, ∀ a, (k2_off1052 k2_t16) a + S1x1x16.size a ≤ S2x32x512.size a
  k2_off1053_inb : ∀ k2_t16 : Fin k2_t16_loop.trips, ∀ a, (k2_off1053 k2_t16) a + S1x1x1x16.size a ≤ S2x32x4x256.size a
  k2_off1054_inb : ∀ i : grid2.Coords, ∀ a, (k2_off1054 i) a + S1x32x4x256.size a ≤ S16x1024x4x256.size a
  k2_off1055_inb : ∀ i : grid2.Coords, ∀ a, (k2_off1055 i) a + S1x32x512.size a ≤ S16x1024x512.size a
  k2_t17_ok : k2_t17_loop.OK
  k2_off1056_inb : ∀ k2_t17 : Fin k2_t17_loop.trips, ∀ a, (k2_off1056 k2_t17) a + S1x1x16.size a ≤ S2x32x512.size a
  k2_off1057_inb : ∀ k2_t17 : Fin k2_t17_loop.trips, ∀ a, (k2_off1057 k2_t17) a + S1x1x1x16.size a ≤ S2x32x4x256.size a
  k2_off1058_inb : ∀ k2_t17 : Fin k2_t17_loop.trips, ∀ a, (k2_off1058 k2_t17) a + S1x1x16.size a ≤ S2x32x512.size a
  k2_off1059_inb : ∀ k2_t17 : Fin k2_t17_loop.trips, ∀ a, (k2_off1059 k2_t17) a + S1x1x1x16.size a ≤ S2x32x4x256.size a
  k2_off1060_inb : ∀ k2_t17 : Fin k2_t17_loop.trips, ∀ a, (k2_off1060 k2_t17) a + S1x1x16.size a ≤ S2x32x512.size a
  k2_off1061_inb : ∀ k2_t17 : Fin k2_t17_loop.trips, ∀ a, (k2_off1061 k2_t17) a + S1x1x1x16.size a ≤ S2x32x4x256.size a
  k2_off1062_inb : ∀ k2_t17 : Fin k2_t17_loop.trips, ∀ a, (k2_off1062 k2_t17) a + S1x1x16.size a ≤ S2x32x512.size a
  k2_off1063_inb : ∀ k2_t17 : Fin k2_t17_loop.trips, ∀ a, (k2_off1063 k2_t17) a + S1x1x1x16.size a ≤ S2x32x4x256.size a
  k2_off1064_inb : ∀ k2_t17 : Fin k2_t17_loop.trips, ∀ a, (k2_off1064 k2_t17) a + S1x1x16.size a ≤ S2x32x512.size a
  k2_off1065_inb : ∀ k2_t17 : Fin k2_t17_loop.trips, ∀ a, (k2_off1065 k2_t17) a + S1x1x1x16.size a ≤ S2x32x4x256.size a
  k2_off1066_inb : ∀ k2_t17 : Fin k2_t17_loop.trips, ∀ a, (k2_off1066 k2_t17) a + S1x1x16.size a ≤ S2x32x512.size a
  k2_off1067_inb : ∀ k2_t17 : Fin k2_t17_loop.trips, ∀ a, (k2_off1067 k2_t17) a + S1x1x1x16.size a ≤ S2x32x4x256.size a
  k2_off1068_inb : ∀ k2_t17 : Fin k2_t17_loop.trips, ∀ a, (k2_off1068 k2_t17) a + S1x1x16.size a ≤ S2x32x512.size a
  k2_off1069_inb : ∀ k2_t17 : Fin k2_t17_loop.trips, ∀ a, (k2_off1069 k2_t17) a + S1x1x1x16.size a ≤ S2x32x4x256.size a
  k2_off1070_inb : ∀ k2_t17 : Fin k2_t17_loop.trips, ∀ a, (k2_off1070 k2_t17) a + S1x1x16.size a ≤ S2x32x512.size a
  k2_off1071_inb : ∀ k2_t17 : Fin k2_t17_loop.trips, ∀ a, (k2_off1071 k2_t17) a + S1x1x1x16.size a ≤ S2x32x4x256.size a
  k2_off1072_inb : ∀ k2_t17 : Fin k2_t17_loop.trips, ∀ a, (k2_off1072 k2_t17) a + S1x1x16.size a ≤ S2x32x512.size a
  k2_off1073_inb : ∀ k2_t17 : Fin k2_t17_loop.trips, ∀ a, (k2_off1073 k2_t17) a + S1x1x1x16.size a ≤ S2x32x4x256.size a
  k2_off1074_inb : ∀ k2_t17 : Fin k2_t17_loop.trips, ∀ a, (k2_off1074 k2_t17) a + S1x1x16.size a ≤ S2x32x512.size a
  k2_off1075_inb : ∀ k2_t17 : Fin k2_t17_loop.trips, ∀ a, (k2_off1075 k2_t17) a + S1x1x1x16.size a ≤ S2x32x4x256.size a
  k2_off1076_inb : ∀ k2_t17 : Fin k2_t17_loop.trips, ∀ a, (k2_off1076 k2_t17) a + S1x1x16.size a ≤ S2x32x512.size a
  k2_off1077_inb : ∀ k2_t17 : Fin k2_t17_loop.trips, ∀ a, (k2_off1077 k2_t17) a + S1x1x1x16.size a ≤ S2x32x4x256.size a
  k2_off1078_inb : ∀ k2_t17 : Fin k2_t17_loop.trips, ∀ a, (k2_off1078 k2_t17) a + S1x1x16.size a ≤ S2x32x512.size a
  k2_off1079_inb : ∀ k2_t17 : Fin k2_t17_loop.trips, ∀ a, (k2_off1079 k2_t17) a + S1x1x1x16.size a ≤ S2x32x4x256.size a
  k2_off1080_inb : ∀ k2_t17 : Fin k2_t17_loop.trips, ∀ a, (k2_off1080 k2_t17) a + S1x1x16.size a ≤ S2x32x512.size a
  k2_off1081_inb : ∀ k2_t17 : Fin k2_t17_loop.trips, ∀ a, (k2_off1081 k2_t17) a + S1x1x1x16.size a ≤ S2x32x4x256.size a
  k2_off1082_inb : ∀ k2_t17 : Fin k2_t17_loop.trips, ∀ a, (k2_off1082 k2_t17) a + S1x1x16.size a ≤ S2x32x512.size a
  k2_off1083_inb : ∀ k2_t17 : Fin k2_t17_loop.trips, ∀ a, (k2_off1083 k2_t17) a + S1x1x1x16.size a ≤ S2x32x4x256.size a
  k2_off1084_inb : ∀ k2_t17 : Fin k2_t17_loop.trips, ∀ a, (k2_off1084 k2_t17) a + S1x1x16.size a ≤ S2x32x512.size a
  k2_off1085_inb : ∀ k2_t17 : Fin k2_t17_loop.trips, ∀ a, (k2_off1085 k2_t17) a + S1x1x1x16.size a ≤ S2x32x4x256.size a
  k2_off1086_inb : ∀ k2_t17 : Fin k2_t17_loop.trips, ∀ a, (k2_off1086 k2_t17) a + S1x1x16.size a ≤ S2x32x512.size a
  k2_off1087_inb : ∀ k2_t17 : Fin k2_t17_loop.trips, ∀ a, (k2_off1087 k2_t17) a + S1x1x1x16.size a ≤ S2x32x4x256.size a
  k2_off1088_inb : ∀ k2_t17 : Fin k2_t17_loop.trips, ∀ a, (k2_off1088 k2_t17) a + S1x1x16.size a ≤ S2x32x512.size a
  k2_off1089_inb : ∀ k2_t17 : Fin k2_t17_loop.trips, ∀ a, (k2_off1089 k2_t17) a + S1x1x1x16.size a ≤ S2x32x4x256.size a
  k2_off1090_inb : ∀ k2_t17 : Fin k2_t17_loop.trips, ∀ a, (k2_off1090 k2_t17) a + S1x1x16.size a ≤ S2x32x512.size a
  k2_off1091_inb : ∀ k2_t17 : Fin k2_t17_loop.trips, ∀ a, (k2_off1091 k2_t17) a + S1x1x1x16.size a ≤ S2x32x4x256.size a
  k2_off1092_inb : ∀ k2_t17 : Fin k2_t17_loop.trips, ∀ a, (k2_off1092 k2_t17) a + S1x1x16.size a ≤ S2x32x512.size a
  k2_off1093_inb : ∀ k2_t17 : Fin k2_t17_loop.trips, ∀ a, (k2_off1093 k2_t17) a + S1x1x1x16.size a ≤ S2x32x4x256.size a
  k2_off1094_inb : ∀ k2_t17 : Fin k2_t17_loop.trips, ∀ a, (k2_off1094 k2_t17) a + S1x1x16.size a ≤ S2x32x512.size a
  k2_off1095_inb : ∀ k2_t17 : Fin k2_t17_loop.trips, ∀ a, (k2_off1095 k2_t17) a + S1x1x1x16.size a ≤ S2x32x4x256.size a
  k2_off1096_inb : ∀ k2_t17 : Fin k2_t17_loop.trips, ∀ a, (k2_off1096 k2_t17) a + S1x1x16.size a ≤ S2x32x512.size a
  k2_off1097_inb : ∀ k2_t17 : Fin k2_t17_loop.trips, ∀ a, (k2_off1097 k2_t17) a + S1x1x1x16.size a ≤ S2x32x4x256.size a
  k2_off1098_inb : ∀ k2_t17 : Fin k2_t17_loop.trips, ∀ a, (k2_off1098 k2_t17) a + S1x1x16.size a ≤ S2x32x512.size a
  k2_off1099_inb : ∀ k2_t17 : Fin k2_t17_loop.trips, ∀ a, (k2_off1099 k2_t17) a + S1x1x1x16.size a ≤ S2x32x4x256.size a
  k2_off1100_inb : ∀ k2_t17 : Fin k2_t17_loop.trips, ∀ a, (k2_off1100 k2_t17) a + S1x1x16.size a ≤ S2x32x512.size a
  k2_off1101_inb : ∀ k2_t17 : Fin k2_t17_loop.trips, ∀ a, (k2_off1101 k2_t17) a + S1x1x1x16.size a ≤ S2x32x4x256.size a
  k2_off1102_inb : ∀ k2_t17 : Fin k2_t17_loop.trips, ∀ a, (k2_off1102 k2_t17) a + S1x1x16.size a ≤ S2x32x512.size a
  k2_off1103_inb : ∀ k2_t17 : Fin k2_t17_loop.trips, ∀ a, (k2_off1103 k2_t17) a + S1x1x1x16.size a ≤ S2x32x4x256.size a
  k2_off1104_inb : ∀ k2_t17 : Fin k2_t17_loop.trips, ∀ a, (k2_off1104 k2_t17) a + S1x1x16.size a ≤ S2x32x512.size a
  k2_off1105_inb : ∀ k2_t17 : Fin k2_t17_loop.trips, ∀ a, (k2_off1105 k2_t17) a + S1x1x1x16.size a ≤ S2x32x4x256.size a
  k2_off1106_inb : ∀ k2_t17 : Fin k2_t17_loop.trips, ∀ a, (k2_off1106 k2_t17) a + S1x1x16.size a ≤ S2x32x512.size a
  k2_off1107_inb : ∀ k2_t17 : Fin k2_t17_loop.trips, ∀ a, (k2_off1107 k2_t17) a + S1x1x1x16.size a ≤ S2x32x4x256.size a
  k2_off1108_inb : ∀ k2_t17 : Fin k2_t17_loop.trips, ∀ a, (k2_off1108 k2_t17) a + S1x1x16.size a ≤ S2x32x512.size a
  k2_off1109_inb : ∀ k2_t17 : Fin k2_t17_loop.trips, ∀ a, (k2_off1109 k2_t17) a + S1x1x1x16.size a ≤ S2x32x4x256.size a
  k2_off1110_inb : ∀ k2_t17 : Fin k2_t17_loop.trips, ∀ a, (k2_off1110 k2_t17) a + S1x1x16.size a ≤ S2x32x512.size a
  k2_off1111_inb : ∀ k2_t17 : Fin k2_t17_loop.trips, ∀ a, (k2_off1111 k2_t17) a + S1x1x1x16.size a ≤ S2x32x4x256.size a
  k2_off1112_inb : ∀ k2_t17 : Fin k2_t17_loop.trips, ∀ a, (k2_off1112 k2_t17) a + S1x1x16.size a ≤ S2x32x512.size a
  k2_off1113_inb : ∀ k2_t17 : Fin k2_t17_loop.trips, ∀ a, (k2_off1113 k2_t17) a + S1x1x1x16.size a ≤ S2x32x4x256.size a
  k2_off1114_inb : ∀ k2_t17 : Fin k2_t17_loop.trips, ∀ a, (k2_off1114 k2_t17) a + S1x1x16.size a ≤ S2x32x512.size a
  k2_off1115_inb : ∀ k2_t17 : Fin k2_t17_loop.trips, ∀ a, (k2_off1115 k2_t17) a + S1x1x1x16.size a ≤ S2x32x4x256.size a
  k2_off1116_inb : ∀ k2_t17 : Fin k2_t17_loop.trips, ∀ a, (k2_off1116 k2_t17) a + S1x1x16.size a ≤ S2x32x512.size a
  k2_off1117_inb : ∀ k2_t17 : Fin k2_t17_loop.trips, ∀ a, (k2_off1117 k2_t17) a + S1x1x1x16.size a ≤ S2x32x4x256.size a
  k2_off1118_inb : ∀ k2_t17 : Fin k2_t17_loop.trips, ∀ a, (k2_off1118 k2_t17) a + S1x1x16.size a ≤ S2x32x512.size a
  k2_off1119_inb : ∀ k2_t17 : Fin k2_t17_loop.trips, ∀ a, (k2_off1119 k2_t17) a + S1x1x1x16.size a ≤ S2x32x4x256.size a
  k2_off1120_inb : ∀ i : grid2.Coords, ∀ a, (k2_off1120 i) a + S1x32x4x256.size a ≤ S16x1024x4x256.size a
  k2_t18_ok : k2_t18_loop.OK
  k2_off1121_inb : ∀ k2_t18 : Fin k2_t18_loop.trips, ∀ a, (k2_off1121 k2_t18) a + S1x1x16.size a ≤ S2x32x512.size a
  k2_off1122_inb : ∀ k2_t18 : Fin k2_t18_loop.trips, ∀ a, (k2_off1122 k2_t18) a + S1x1x1x16.size a ≤ S2x32x4x256.size a
  k2_off1123_inb : ∀ k2_t18 : Fin k2_t18_loop.trips, ∀ a, (k2_off1123 k2_t18) a + S1x1x16.size a ≤ S2x32x512.size a
  k2_off1124_inb : ∀ k2_t18 : Fin k2_t18_loop.trips, ∀ a, (k2_off1124 k2_t18) a + S1x1x1x16.size a ≤ S2x32x4x256.size a
  k2_off1125_inb : ∀ k2_t18 : Fin k2_t18_loop.trips, ∀ a, (k2_off1125 k2_t18) a + S1x1x16.size a ≤ S2x32x512.size a
  k2_off1126_inb : ∀ k2_t18 : Fin k2_t18_loop.trips, ∀ a, (k2_off1126 k2_t18) a + S1x1x1x16.size a ≤ S2x32x4x256.size a
  k2_off1127_inb : ∀ k2_t18 : Fin k2_t18_loop.trips, ∀ a, (k2_off1127 k2_t18) a + S1x1x16.size a ≤ S2x32x512.size a
  k2_off1128_inb : ∀ k2_t18 : Fin k2_t18_loop.trips, ∀ a, (k2_off1128 k2_t18) a + S1x1x1x16.size a ≤ S2x32x4x256.size a
  k2_off1129_inb : ∀ k2_t18 : Fin k2_t18_loop.trips, ∀ a, (k2_off1129 k2_t18) a + S1x1x16.size a ≤ S2x32x512.size a
  k2_off1130_inb : ∀ k2_t18 : Fin k2_t18_loop.trips, ∀ a, (k2_off1130 k2_t18) a + S1x1x1x16.size a ≤ S2x32x4x256.size a
  k2_off1131_inb : ∀ k2_t18 : Fin k2_t18_loop.trips, ∀ a, (k2_off1131 k2_t18) a + S1x1x16.size a ≤ S2x32x512.size a
  k2_off1132_inb : ∀ k2_t18 : Fin k2_t18_loop.trips, ∀ a, (k2_off1132 k2_t18) a + S1x1x1x16.size a ≤ S2x32x4x256.size a
  k2_off1133_inb : ∀ k2_t18 : Fin k2_t18_loop.trips, ∀ a, (k2_off1133 k2_t18) a + S1x1x16.size a ≤ S2x32x512.size a
  k2_off1134_inb : ∀ k2_t18 : Fin k2_t18_loop.trips, ∀ a, (k2_off1134 k2_t18) a + S1x1x1x16.size a ≤ S2x32x4x256.size a
  k2_off1135_inb : ∀ k2_t18 : Fin k2_t18_loop.trips, ∀ a, (k2_off1135 k2_t18) a + S1x1x16.size a ≤ S2x32x512.size a
  k2_off1136_inb : ∀ k2_t18 : Fin k2_t18_loop.trips, ∀ a, (k2_off1136 k2_t18) a + S1x1x1x16.size a ≤ S2x32x4x256.size a
  k2_off1137_inb : ∀ k2_t18 : Fin k2_t18_loop.trips, ∀ a, (k2_off1137 k2_t18) a + S1x1x16.size a ≤ S2x32x512.size a
  k2_off1138_inb : ∀ k2_t18 : Fin k2_t18_loop.trips, ∀ a, (k2_off1138 k2_t18) a + S1x1x1x16.size a ≤ S2x32x4x256.size a
  k2_off1139_inb : ∀ k2_t18 : Fin k2_t18_loop.trips, ∀ a, (k2_off1139 k2_t18) a + S1x1x16.size a ≤ S2x32x512.size a
  k2_off1140_inb : ∀ k2_t18 : Fin k2_t18_loop.trips, ∀ a, (k2_off1140 k2_t18) a + S1x1x1x16.size a ≤ S2x32x4x256.size a
  k2_off1141_inb : ∀ k2_t18 : Fin k2_t18_loop.trips, ∀ a, (k2_off1141 k2_t18) a + S1x1x16.size a ≤ S2x32x512.size a
  k2_off1142_inb : ∀ k2_t18 : Fin k2_t18_loop.trips, ∀ a, (k2_off1142 k2_t18) a + S1x1x1x16.size a ≤ S2x32x4x256.size a
  k2_off1143_inb : ∀ k2_t18 : Fin k2_t18_loop.trips, ∀ a, (k2_off1143 k2_t18) a + S1x1x16.size a ≤ S2x32x512.size a
  k2_off1144_inb : ∀ k2_t18 : Fin k2_t18_loop.trips, ∀ a, (k2_off1144 k2_t18) a + S1x1x1x16.size a ≤ S2x32x4x256.size a
  k2_off1145_inb : ∀ k2_t18 : Fin k2_t18_loop.trips, ∀ a, (k2_off1145 k2_t18) a + S1x1x16.size a ≤ S2x32x512.size a
  k2_off1146_inb : ∀ k2_t18 : Fin k2_t18_loop.trips, ∀ a, (k2_off1146 k2_t18) a + S1x1x1x16.size a ≤ S2x32x4x256.size a
  k2_off1147_inb : ∀ k2_t18 : Fin k2_t18_loop.trips, ∀ a, (k2_off1147 k2_t18) a + S1x1x16.size a ≤ S2x32x512.size a
  k2_off1148_inb : ∀ k2_t18 : Fin k2_t18_loop.trips, ∀ a, (k2_off1148 k2_t18) a + S1x1x1x16.size a ≤ S2x32x4x256.size a
  k2_off1149_inb : ∀ k2_t18 : Fin k2_t18_loop.trips, ∀ a, (k2_off1149 k2_t18) a + S1x1x16.size a ≤ S2x32x512.size a
  k2_off1150_inb : ∀ k2_t18 : Fin k2_t18_loop.trips, ∀ a, (k2_off1150 k2_t18) a + S1x1x1x16.size a ≤ S2x32x4x256.size a
  k2_off1151_inb : ∀ k2_t18 : Fin k2_t18_loop.trips, ∀ a, (k2_off1151 k2_t18) a + S1x1x16.size a ≤ S2x32x512.size a
  k2_off1152_inb : ∀ k2_t18 : Fin k2_t18_loop.trips, ∀ a, (k2_off1152 k2_t18) a + S1x1x1x16.size a ≤ S2x32x4x256.size a
  k2_off1153_inb : ∀ k2_t18 : Fin k2_t18_loop.trips, ∀ a, (k2_off1153 k2_t18) a + S1x1x16.size a ≤ S2x32x512.size a
  k2_off1154_inb : ∀ k2_t18 : Fin k2_t18_loop.trips, ∀ a, (k2_off1154 k2_t18) a + S1x1x1x16.size a ≤ S2x32x4x256.size a
  k2_off1155_inb : ∀ k2_t18 : Fin k2_t18_loop.trips, ∀ a, (k2_off1155 k2_t18) a + S1x1x16.size a ≤ S2x32x512.size a
  k2_off1156_inb : ∀ k2_t18 : Fin k2_t18_loop.trips, ∀ a, (k2_off1156 k2_t18) a + S1x1x1x16.size a ≤ S2x32x4x256.size a
  k2_off1157_inb : ∀ k2_t18 : Fin k2_t18_loop.trips, ∀ a, (k2_off1157 k2_t18) a + S1x1x16.size a ≤ S2x32x512.size a
  k2_off1158_inb : ∀ k2_t18 : Fin k2_t18_loop.trips, ∀ a, (k2_off1158 k2_t18) a + S1x1x1x16.size a ≤ S2x32x4x256.size a
  k2_off1159_inb : ∀ k2_t18 : Fin k2_t18_loop.trips, ∀ a, (k2_off1159 k2_t18) a + S1x1x16.size a ≤ S2x32x512.size a
  k2_off1160_inb : ∀ k2_t18 : Fin k2_t18_loop.trips, ∀ a, (k2_off1160 k2_t18) a + S1x1x1x16.size a ≤ S2x32x4x256.size a
  k2_off1161_inb : ∀ k2_t18 : Fin k2_t18_loop.trips, ∀ a, (k2_off1161 k2_t18) a + S1x1x16.size a ≤ S2x32x512.size a
  k2_off1162_inb : ∀ k2_t18 : Fin k2_t18_loop.trips, ∀ a, (k2_off1162 k2_t18) a + S1x1x1x16.size a ≤ S2x32x4x256.size a
  k2_off1163_inb : ∀ k2_t18 : Fin k2_t18_loop.trips, ∀ a, (k2_off1163 k2_t18) a + S1x1x16.size a ≤ S2x32x512.size a
  k2_off1164_inb : ∀ k2_t18 : Fin k2_t18_loop.trips, ∀ a, (k2_off1164 k2_t18) a + S1x1x1x16.size a ≤ S2x32x4x256.size a
  k2_off1165_inb : ∀ k2_t18 : Fin k2_t18_loop.trips, ∀ a, (k2_off1165 k2_t18) a + S1x1x16.size a ≤ S2x32x512.size a
  k2_off1166_inb : ∀ k2_t18 : Fin k2_t18_loop.trips, ∀ a, (k2_off1166 k2_t18) a + S1x1x1x16.size a ≤ S2x32x4x256.size a
  k2_off1167_inb : ∀ k2_t18 : Fin k2_t18_loop.trips, ∀ a, (k2_off1167 k2_t18) a + S1x1x16.size a ≤ S2x32x512.size a
  k2_off1168_inb : ∀ k2_t18 : Fin k2_t18_loop.trips, ∀ a, (k2_off1168 k2_t18) a + S1x1x1x16.size a ≤ S2x32x4x256.size a
  k2_off1169_inb : ∀ k2_t18 : Fin k2_t18_loop.trips, ∀ a, (k2_off1169 k2_t18) a + S1x1x16.size a ≤ S2x32x512.size a
  k2_off1170_inb : ∀ k2_t18 : Fin k2_t18_loop.trips, ∀ a, (k2_off1170 k2_t18) a + S1x1x1x16.size a ≤ S2x32x4x256.size a
  k2_off1171_inb : ∀ k2_t18 : Fin k2_t18_loop.trips, ∀ a, (k2_off1171 k2_t18) a + S1x1x16.size a ≤ S2x32x512.size a
  k2_off1172_inb : ∀ k2_t18 : Fin k2_t18_loop.trips, ∀ a, (k2_off1172 k2_t18) a + S1x1x1x16.size a ≤ S2x32x4x256.size a
  k2_off1173_inb : ∀ k2_t18 : Fin k2_t18_loop.trips, ∀ a, (k2_off1173 k2_t18) a + S1x1x16.size a ≤ S2x32x512.size a
  k2_off1174_inb : ∀ k2_t18 : Fin k2_t18_loop.trips, ∀ a, (k2_off1174 k2_t18) a + S1x1x1x16.size a ≤ S2x32x4x256.size a
  k2_off1175_inb : ∀ k2_t18 : Fin k2_t18_loop.trips, ∀ a, (k2_off1175 k2_t18) a + S1x1x16.size a ≤ S2x32x512.size a
  k2_off1176_inb : ∀ k2_t18 : Fin k2_t18_loop.trips, ∀ a, (k2_off1176 k2_t18) a + S1x1x1x16.size a ≤ S2x32x4x256.size a
  k2_off1177_inb : ∀ k2_t18 : Fin k2_t18_loop.trips, ∀ a, (k2_off1177 k2_t18) a + S1x1x16.size a ≤ S2x32x512.size a
  k2_off1178_inb : ∀ k2_t18 : Fin k2_t18_loop.trips, ∀ a, (k2_off1178 k2_t18) a + S1x1x1x16.size a ≤ S2x32x4x256.size a
  k2_off1179_inb : ∀ k2_t18 : Fin k2_t18_loop.trips, ∀ a, (k2_off1179 k2_t18) a + S1x1x16.size a ≤ S2x32x512.size a
  k2_off1180_inb : ∀ k2_t18 : Fin k2_t18_loop.trips, ∀ a, (k2_off1180 k2_t18) a + S1x1x1x16.size a ≤ S2x32x4x256.size a
  k2_off1181_inb : ∀ k2_t18 : Fin k2_t18_loop.trips, ∀ a, (k2_off1181 k2_t18) a + S1x1x16.size a ≤ S2x32x512.size a
  k2_off1182_inb : ∀ k2_t18 : Fin k2_t18_loop.trips, ∀ a, (k2_off1182 k2_t18) a + S1x1x1x16.size a ≤ S2x32x4x256.size a
  k2_off1183_inb : ∀ k2_t18 : Fin k2_t18_loop.trips, ∀ a, (k2_off1183 k2_t18) a + S1x1x16.size a ≤ S2x32x512.size a
  k2_off1184_inb : ∀ k2_t18 : Fin k2_t18_loop.trips, ∀ a, (k2_off1184 k2_t18) a + S1x1x1x16.size a ≤ S2x32x4x256.size a
  k2_off1185_inb : ∀ i : grid2.Coords, ∀ a, (k2_off1185 i) a + S1x32x4x256.size a ≤ S16x1024x4x256.size a

class Shapes1.Facts₀ : Prop where
  bcast_S_S512 : S_.BroadcastsInDim S512 (![] : Fin 0 → Fin S512.rank)
  bcast_S_S512x512 : S_.BroadcastsInDim S512x512 (![] : Fin 0 → Fin S512x512.rank)
  bcast_S512_S512x1_0 : S512.BroadcastsInDim S512x1 (![0] : Fin 1 → Fin S512x1.rank)
  concatenates_S512x1_S512x1_S512x2_d1 : Shape.Concatenates [S512x1, S512x1] S512x2 1
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1024x512 : S1024x512.ShapeCasts S1024x512
  slices_S1024x512_o0_0_S1024x128 : S1024x512.Slices ![0, 0] S1024x128
  concatenates_S1024x128_S1024x128_S1024x256_d1 : Shape.Concatenates [S1024x128, S1024x128] S1024x256 1
  inb_S1x1024x4x256_S1x1024x1x256_0_0_0_0 : ∀ a, (![0, 0, 0, 0] : Fin 4 → Nat) a + S1x1024x1x256.size a ≤ S1x1024x4x256.size a
  h_S1x1024x1x256 : 0 < S1x1024x1x256.numel
  shapeCasts_S1x1024x1x256_S1024x256 : S1x1024x1x256.ShapeCasts S1024x256
  shapeCasts_S1024x256_S1x1024x1x256 : S1024x256.ShapeCasts S1x1024x1x256
  slices_S1024x512_o0_128_S1024x128 : S1024x512.Slices ![0, 128] S1024x128
  inb_S1x1024x4x256_S1x1024x1x256_0_0_1_0 : ∀ a, (![0, 0, 1, 0] : Fin 4 → Nat) a + S1x1024x1x256.size a ≤ S1x1024x4x256.size a
  slices_S1024x512_o0_256_S1024x128 : S1024x512.Slices ![0, 256] S1024x128
  inb_S1x1024x4x256_S1x1024x1x256_0_0_2_0 : ∀ a, (![0, 0, 2, 0] : Fin 4 → Nat) a + S1x1024x1x256.size a ≤ S1x1024x4x256.size a
  slices_S1024x512_o0_384_S1024x128 : S1024x512.Slices ![0, 384] S1024x128
  inb_S1x1024x4x256_S1x1024x1x256_0_0_3_0 : ∀ a, (![0, 0, 3, 0] : Fin 4 → Nat) a + S1x1024x1x256.size a ≤ S1x1024x4x256.size a
  inb_S2x32x512_S1x32x512_0_0_0 : ∀ a, (![0, 0, 0] : Fin 3 → Nat) a + S1x32x512.size a ≤ S2x32x512.size a
  squeezes_S1x32x512_S32x512 : S1x32x512.Squeezes S32x512
  h_S1x1x16 : 0 < S1x1x16.numel
  shapeCasts_S1x1x16_S16 : S1x1x16.ShapeCasts S16
  h_S1x1x1x16 : 0 < S1x1x1x16.numel
  shapeCasts_S1x1x1x16_S16 : S1x1x1x16.ShapeCasts S16
  shapeCasts_S16_S1x1x1x16 : S16.ShapeCasts S1x1x1x16
  inb_S2_S1_0 : ∀ a, (![0] : Fin 1 → Nat) a + S1.size a ≤ S2.size a
  squeezes_S1_S_ : S1.Squeezes S_
  inb_S2x32x512_S1x32x512_1_0_0 : ∀ a, (![1, 0, 0] : Fin 3 → Nat) a + S1x32x512.size a ≤ S2x32x512.size a
  inb_S2_S1_1 : ∀ a, (![1] : Fin 1 → Nat) a + S1.size a ≤ S2.size a
  inb_S2x32x4x256_S1x32x4x256_0_0_0_0 : ∀ a, (![0, 0, 0, 0] : Fin 4 → Nat) a + S1x32x4x256.size a ≤ S2x32x4x256.size a
  squeezes_S1x32x4x256_S32x4x256 : S1x32x4x256.Squeezes S32x4x256
  inb_S2x32x4x256_S1x32x4x256_1_0_0_0 : ∀ a, (![1, 0, 0, 0] : Fin 4 → Nat) a + S1x32x4x256.size a ≤ S2x32x4x256.size a
  scatter_S512x512_S512x2_S512_n_01_01_1_wf : ScatterDims.WF S512x512 S512x2 S512 [] [0, 1] [0, 1] 1
  dot_S1024x512_S512x512_S1024x512_1_0_0_1_n_n_wf : DotDims.WF S1024x512 S512x512 S1024x512 [1] [0] [0] [1] [] []
  hcc2_scratch2 : 9 + S2.numel ≤ 14
  hcc2_scratch3 : 11 + S2.numel ≤ 14
  hcc2_scoped0 : 13 + S_.numel ≤ 14
  hscKind : ∀ q, scKind q ≠ .tc
  hscCore : ∀ q, scNCore q ≤ τ.nSC
  hscSub : ∀ q, scNSub q ≤ τ.nSub

class Facts₀ : Prop where
  k0 : K0.Facts₀
  k1 : K1.Facts₀
  k2_r1 : K2.R1.Facts₀
  k2_r2 : K2.R2.Facts₀
  shapes1 : Shapes1.Facts₀
attribute [instance] Facts₀.k0 Facts₀.k1 Facts₀.k2_r1 Facts₀.k2_r2 Facts₀.shapes1

variable [Facts₀]

abbrev cc2_scratch2 : DmaSems sig S2 := SemArray.consecutive 9 S2 hcc2_scratch2
abbrev cc2_scratch3 : DmaSems sig S2 := SemArray.consecutive 11 S2 hcc2_scratch3
abbrev cc2_scoped0 : DmaSems sig S_ := SemArray.consecutive 13 S_ hcc2_scoped0
def scatter_S512x512_S512x2_S512_n_01_01_1 : ScatterDims S512x512 S512x2 S512 where
  updateWindowDims := []
  insertedWindowDims := [0, 1]
  scatterDimsToOperandDims := [0, 1]
  indexVectorDim := 1
  wf := scatter_S512x512_S512x2_S512_n_01_01_1_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg2) S1024x512.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v21) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1024x512.size cc0_transform_2 reads0_2 true false 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1024x512.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x1024x4x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x1024x512 : Shape := ⟨3, ![16, 1024, 512]⟩
abbrev S16x512x3 : Shape := ⟨3, ![16, 512, 3]⟩
abbrev S1024x512 : Shape := ⟨2, ![1024, 512]⟩
abbrev S16x1024x512x1 : Shape := ⟨4, ![16, 1024, 512, 1]⟩
abbrev S1x1024x512 : Shape := ⟨3, ![1, 1024, 512]⟩
abbrev S16x1024x128x1 : Shape := ⟨4, ![16, 1024, 128, 1]⟩
abbrev S16x1024x128x4 : Shape := ⟨4, ![16, 1024, 128, 4]⟩
abbrev S16x1024x4x128 : Shape := ⟨4, ![16, 1024, 4, 128]⟩
abbrev S16x1024x4x256 : Shape := ⟨4, ![16, 1024, 4, 256]⟩

abbrev nBuf : Space → Nat
  | .hbm => 33
  | .vmem => 0
  | .smem => 0
  | _ => 0

abbrev bufTy : (tb : Table) → Fin (tcTables nBuf tb) → BufTy
  | .hbm, ⟨0, _⟩ => ⟨S16x1024x512, .f32⟩
  | .hbm, ⟨1, _⟩ => ⟨S16x512x3, .f32⟩
  | .hbm, ⟨2, _⟩ => ⟨S1024x512, .f32⟩
  | .hbm, ⟨3, _⟩ => ⟨S16x1024x512x1, .f32⟩
  | .hbm, ⟨4, _⟩ => ⟨S1x1024x512, .f32⟩
  | .hbm, ⟨5, _⟩ => ⟨S16x1024x512, .f32⟩
  | .hbm, ⟨6, _⟩ => ⟨S16x1024x512x1, .f32⟩
  | .hbm, ⟨7, _⟩ => ⟨S16x1024x128x1, .f32⟩
  | .hbm, ⟨8, _⟩ => ⟨S16x1024x128x1, .f32⟩
  | .hbm, ⟨9, _⟩ => ⟨S16x1024x128x1, .f32⟩
  | .hbm, ⟨10, _⟩ => ⟨S16x1024x128x1, .f32⟩
  | .hbm, ⟨11, _⟩ => ⟨S16x1024x128x4, .f32⟩
  | .hbm, ⟨12, _⟩ => ⟨S16x1024x4x128, .f32⟩
  | .hbm, ⟨13, _⟩ => ⟨S16x1024x128x1, .f32⟩
  | .hbm, ⟨14, _⟩ => ⟨S16x1024x128x1, .f32⟩
  | .hbm, ⟨15, _⟩ => ⟨S16x1024x128x1, .f32⟩
  | .hbm, ⟨16, _⟩ => ⟨S16x1024x128x1, .f32⟩
  | .hbm, ⟨17, _⟩ => ⟨S16x1024x128x4, .f32⟩
  | .hbm, ⟨18, _⟩ => ⟨S16x1024x4x128, .f32⟩
  | .hbm, ⟨19, _⟩ => ⟨S16x1024x4x256, .f32⟩
  | .hbm, ⟨20, _⟩ => ⟨S16x1024x128x1, .f32⟩
  | .hbm, ⟨21, _⟩ => ⟨S16x1024x128x1, .f32⟩
  | .hbm, ⟨22, _⟩ => ⟨S16x1024x128x1, .f32⟩
  | .hbm, ⟨23, _⟩ => ⟨S16x1024x128x1, .f32⟩
  | .hbm, ⟨24, _⟩ => ⟨S16x1024x128x4, .f32⟩
  | .hbm, ⟨25, _⟩ => ⟨S16x1024x4x128, .f32⟩
  | .hbm, ⟨26, _⟩ => ⟨S16x1024x128x1, .f32⟩
  | .hbm, ⟨27, _⟩ => ⟨S16x1024x128x1, .f32⟩
  | .hbm, ⟨28, _⟩ => ⟨S16x1024x128x1, .f32⟩
  | .hbm, ⟨29, _⟩ => ⟨S16x1024x128x1, .f32⟩
  | .hbm, ⟨30, _⟩ => ⟨S16x1024x128x4, .f32⟩
  | .hbm, ⟨31, _⟩ => ⟨S16x1024x4x128, .f32⟩
  | .hbm, ⟨32, _⟩ => ⟨S16x1024x4x256, .f32⟩
  | _, _ => ⟨S16x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩

abbrev nD : Nat := 1
abbrev τ : Topo := Topo.v7x

variable {F : FTy → Type} [FloatOps F]

class Facts₀ : Prop where
  bcast_S16x1024x512_S16x1024x512x1_0_1_2 : S16x1024x512.BroadcastsInDim S16x1024x512x1 (![0, 1, 2] : Fin 3 → Fin S16x1024x512x1.rank)
  bcast_S1024x512_S1x1024x512_1_2 : S1024x512.BroadcastsInDim S1x1024x512 (![1, 2] : Fin 2 → Fin S1x1024x512.rank)
  bcast_S1x1024x512_S16x1024x512_0_1_2 : S1x1024x512.BroadcastsInDim S16x1024x512 (![0, 1, 2] : Fin 3 → Fin S16x1024x512.rank)
  slicesBy_S16x1024x512x1_S16x1024x128x1_0s1_0s1_0s4_0s1 : S16x1024x512x1.SlicesBy (![0, 0, 0, 0] : Fin 4 → Nat) ![1, 1, 4, 1] S16x1024x128x1
  slicesBy_S16x1024x512x1_S16x1024x128x1_0s1_0s1_1s4_0s1 : S16x1024x512x1.SlicesBy (![0, 0, 1, 0] : Fin 4 → Nat) ![1, 1, 4, 1] S16x1024x128x1
  slicesBy_S16x1024x512x1_S16x1024x128x1_0s1_0s1_2s4_0s1 : S16x1024x512x1.SlicesBy (![0, 0, 2, 0] : Fin 4 → Nat) ![1, 1, 4, 1] S16x1024x128x1
  slicesBy_S16x1024x512x1_S16x1024x128x1_0s1_0s1_3s4_0s1 : S16x1024x512x1.SlicesBy (![0, 0, 3, 0] : Fin 4 → Nat) ![1, 1, 4, 1] S16x1024x128x1
  concatenates_S16x1024x128x1_S16x1024x128x1_S16x1024x128x1_S16x1024x128x1_S16x1024x128x4_d3 : Shape.Concatenates [S16x1024x128x1, S16x1024x128x1, S16x1024x128x1, S16x1024x128x1] S16x1024x128x4 3
  transposes_S16x1024x128x4_S16x1024x4x128_0_1_3_2 : S16x1024x128x4.Transposes [0, 1, 3, 2] S16x1024x4x128
  concatenates_S16x1024x4x128_S16x1024x4x128_S16x1024x4x256_d3 : Shape.Concatenates [S16x1024x4x128, S16x1024x4x128] S16x1024x4x256 3
  slices_S16x1024x512x1_S16x1024x128x1_0_0_0_0 : S16x1024x512x1.Slices ![0, 0, 0, 0] S16x1024x128x1
  slices_S16x1024x512x1_S16x1024x128x1_0_0_128_0 : S16x1024x512x1.Slices ![0, 0, 128, 0] S16x1024x128x1
  slices_S16x1024x512x1_S16x1024x128x1_0_0_256_0 : S16x1024x512x1.Slices ![0, 0, 256, 0] S16x1024x128x1
  slices_S16x1024x512x1_S16x1024x128x1_0_0_384_0 : S16x1024x512x1.Slices ![0, 0, 384, 0] S16x1024x128x1

variable [Facts₀]

class Facts : Prop extends Facts₀ where

variable [Facts]
-- ==== Proof.Setup.lean ====
/-
  The program as the SparseCore launch theorem sees it: its label signature over the two TensorCore pipelines, the
  SparseCore configuration, the body table, the variants, the side facts of the four launch semaphores, and the
  row of the body table that a vector subcore runs (the kernel applied to the whole arrays and its own scratch).
-/
import proofs.«206219_g40982577938455_cont_8to1_b_1362_29_alg».proof.Defs
import proofs.«206219_g40982577938455_cont_8to1_b_1362_29_alg».proof.Proof.Gen.KernelIdeal
import Idealize.ShloMosaic.Lib.SparseCore.Launch
import Idealize.ShloMosaic.Lib.StableHlo.Run
import Idealize.ShloMosaic.Lib.Pipeline.Kit
import Idealize.ShloMosaic.Lib.Tactic

noncomputable section

namespace Cert.KernelIdeal.Setup

open Cert.KernelIdeal Cert.KernelIdeal.Gen
open Idealize.ShloMosaic
open Idealize.ShloMosaic.SparseCore (S V T)
open Idealize.SL Idealize.SL.Sem

variable {F : FTy → Type}

/-- The labels: the kernels' own, each pipeline's region and body. -/
abbrev ΛP : Labels := Pipeline.Sig Λ₀ (Fin 2) fun p => (pcfgs (F := F) p).Adm
/-- The one SparseCore call. -/
abbrev K : SparseCore.Cfg τ sig (ΛP (F := F)) 1 := sc (F := F)
theorem nCore_zero : (K (F := F)).nCore 0 = 2 := rfl
theorem nSub_zero : (K (F := F)).nSub 0 = 16 := rfl
/-- The body table under the SparseCore dispatch: the pipelines' over the kernels'. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct, unscoped, and no buffer of a SparseCore is reassigned per task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- A tile's coordinates in the kernel's grid: (SparseCore, vector subcore). -/
def coordsV (c : Fin (grid2.bound 0)) (s : Fin (grid2.bound 1)) : grid2.Coords :=
  fun | 0 => c | 1 => s | ⟨_ + 2, h⟩ => absurd h (Nat.not_lt.2 (Nat.le_add_left _ _))

/-! ## The resource algebra

Three components side by side: the launch handshakes' rounds (levels in ℕ), the TensorCore pipelines' staging
cells' rounds, and the counters of the tiles' own local copies. -/

open Idealize.ShloMosaic.SparseCore.Cfg (HIx)
open Idealize.SL.RA
open Idealize.ShloMosaic.Rounds

abbrev UH : Type := URounds (GSem nD τ sig) ℕ
abbrev UK : Type := URounds (GSem nD τ sig) Unit
abbrev UU : Type := UH × (UK × Counters)

/-- The handshakes' rounds: the left component. -/
abbrev EH : Emb UH (MT nD τ sig (HIx 1) (Elt F) ℕ UU ℕ) := embL
/-- The pipelines' rounds: the left of the right component. -/
def EP : Emb UK (MT nD τ sig (HIx 1) (Elt F) ℕ UU ℕ) := (Emb.inl : Emb UK (UK × Counters)).trans embR

instance EP_landsIn : (EP : Emb UK (MT nD τ sig (HIx 1) (Elt F) ℕ UU ℕ)).LandsIn (upEmb : UEmb _ (MT nD τ sig (HIx 1) (Elt F) ℕ UU ℕ)) := by
  unfold EP; infer_instance

variable [FloatOps F]

/-- What vector subcore (c, s) runs at the kernel's label: the kernel at its coordinates over the whole arrays x,
    node_emb and the second result, its two scratch arrays and its three semaphore arrays. -/
theorem defs₀_vector (c : Fin τ.nSC) (s : Fin τ.nSub) :
    defs₀ (F := F) (.scVector c s) 2 ()
      = SparseCore.onTile hcore2 hsub2 (fun c s => cc2_k (coordsV c s)
          (Memref.whole main_arg0_scv) (Memref.isWhole_whole _) (Memref.whole main_arg2_scv) (Memref.isWhole_whole _)
          (Memref.whole main_v24_scv) (Memref.isWhole_whole _) (Memref.whole cc2_scratch0) (Memref.isWhole_whole _)
          (Memref.whole cc2_scratch1) (Memref.isWhole_whole _) cc2_scratch2 cc2_scratch3 cc2_scoped0) ⟨⟩ c s := rfl

end Cert.KernelIdeal.Setup

end
-- ==== Proof.RegionBody.lean ====
/-
  The two TensorCore regions of the entry function, each at a parameter: the TensorCore's buffer contents when the
  region is entered, what the core owes throughout and the bound on its recorded pairs. Per region: each window's
  block at a grid point, what the body leaves in the output window's staging buffer (its stores as pieces over the
  input blocks), the body's triple, the pipeline's proof data and the body obligation at a generic point.
-/
import proofs.«206219_g40982577938455_cont_8to1_b_1362_29_alg».proof.Proof.Setup
import proofs.«206219_g40982577938455_cont_8to1_b_1362_29_alg».proof.Proof.Gen.KernelIdeal.Launch
import proofs.«206219_g40982577938455_cont_8to1_b_1362_29_alg».proof.Proof.Gen.KernelIdeal.Skeleton
import proofs.«206219_g40982577938455_cont_8to1_b_1362_29_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen Cert.KernelIdeal.Setup
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 1) (Elt F) ℕ UU ℕ

/-! # The two TensorCore regions, each at a parameter: the TensorCore's buffer contents `V` when the region is
    entered, what the core owes throughout (`O`) and the bound on its recorded pairs (`B`). -/

section Halves

variable (V : (c : Dev nD) → (b : Ref sig .tc) → Buf (Elt F) ((c : Thread nD τ).loc b))
variable (O : Dev nD → CellTallies nD τ sig (HIx 1)) (B : Dev nD → Set (SemLoc sig × HIx 1))

/-! ## Region 0: the node embedding times the permutation matrix -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_e : Rect S1024x512 := Rect.unit (s := S1024x512) ![0, 0] S1024x512.size inb_S1024x512_S1024x512_0_0
abbrev r0_p : Rect S512x512 := Rect.unit (s := S512x512) ![0, 0] S512x512.size inb_S512x512_S512x512_0_0

/-- The product's staging buffer after the body: its one store as a piece over the two input blocks. -/
def out0_2 (x0 : Vec F S1024x512 .f32) (x1 : Vec F S512x512 .f32) : Vec F S1024x512 .f32 :=
  View.canon [⟨r0_e, k0_pay1 (View.ld x0 r0_e) (View.ld x1 r0_p)⟩]

theorem cover0_2 (p0 : Vec F S1024x512 .f32) (y : S1024x512.Idx) :
    ∃ pc ∈ ([⟨r0_e, p0⟩] : List (View.Piece (Elt F) S1024x512 .f32)), y ∈ pc.1.set :=
  View.cover_of_tiled [⟨r0_e, p0⟩] S1024x512.size (by rfl) y

set_option maxHeartbeats 1000000 in
/-- The body on whole staging memrefs: the inputs stay, the output holds the product. -/
theorem sound_kernel0 (c : Dev nD) (E : Set ℕ) (i : grid0.Coords) (arg1 : Memref sig .tc .vmem S1024x512 .f32) (harg1 : arg1.IsWhole) (arg2 : Memref sig .tc .vmem S512x512 .f32) (harg2 : arg2.IsWhole) (arg3 : Memref sig .tc .vmem S1024x512 .f32) (harg3 : arg3.IsWhole)
    (x0 : Vec F S1024x512 .f32) (x1 : Vec F S512x512 .f32) (Kk : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ Kk ⟨⟩))
      ⊢ wp frame (wpE (defs₀ (F := F)) Variants.none c none) E (cc0__pre_body i arg1 harg1 arg2 harg2 arg3 harg3) Kk := by
  simp only [cc0__pre_body_eq_skeleton]; unfold cc0__pre_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Region 0's proof data on core `c`. -/
def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.scopedRest (Ix := HIx 1) (Name := ℕ) (U := UU) (Lvl := ℕ) (Val := Elt F) spec0 c
  q _ := fullShare
  owed _ := O c
  recorded _ := B c

theorem A_eq0 (c : Dev nD) (w : Fin cfg0.W) : (dat0 V O B c).A w = V c (Pipeline.arrRef spec0 w) := by
  dsimp only [dat0]
theorem after0_0 (c : Dev nD) (t : Fin cfg0.N) : (dat0 V O B c).after 0 t = iblk0 V c 0 t := by dsimp only [dat0]
theorem after0_1 (c : Dev nD) (t : Fin cfg0.N) : (dat0 V O B c).after 1 t = iblk0 V c 1 t := by dsimp only [dat0]
theorem after0_2 (c : Dev nD) (t : Fin cfg0.N) : (dat0 V O B c).after 2 t = out0_2 (iblk0 V c 0 t) (iblk0 V c 1 t) := by dsimp only [dat0]
theorem before0_0 (c : Dev nD) (t : Fin cfg0.N) (d) : (dat0 V O B c).before 0 t d = iblk0 V c 0 t :=
  before0_0_of V (dat0 V O B c) (A_eq0 V O B c 0) (after0_0 V O B c) t d
theorem before0_1 (c : Dev nD) (t : Fin cfg0.N) (d) : (dat0 V O B c).before 1 t d = iblk0 V c 1 t :=
  before0_1_of V (dat0 V O B c) (A_eq0 V O B c 1) (after0_1 V O B c) t d

def bodyPre0 (c : Dev nD) (t : Fin cfg0.N) : sProp 𝕄 :=
  iprop((dat0 V O B c).Φ t.castSucc ∗ (dat0 V O B c).owesAt none t.castSucc
    ∗ (∃ d, owns (c : Thread nD τ) (st0_0 t) fullShare ((dat0 V O B c).before 0 t d))
    ∗ (∃ d, owns (c : Thread nD τ) (st0_1 t) fullShare ((dat0 V O B c).before 1 t d))
    ∗ (∃ d, owns (c : Thread nD τ) (st0_2 t) fullShare ((dat0 V O B c).before 2 t d)))

def bodyPost0 (c : Dev nD) (t : Fin cfg0.N) : sProp 𝕄 :=
  iprop((dat0 V O B c).Φ t.succ ∗ (dat0 V O B c).owesAt none t.succ
    ∗ owns (c : Thread nD τ) (st0_0 t) fullShare ((dat0 V O B c).after 0 t)
    ∗ owns (c : Thread nD τ) (st0_1 t) fullShare ((dat0 V O B c).after 1 t)
    ∗ owns (c : Thread nD τ) (st0_2 t) fullShare ((dat0 V O B c).after 2 t))

theorem sound_body0 (c : Dev nD) (t : Fin cfg0.N) :
    bodyPre0 V O B c t ⊢ wp frame (wpE (defs₀ (F := F)) Variants.none c none) Set.univ (bodyAt0 t) (fun _ => bodyPost0 V O B c t) := by
  unfold bodyPre0 bodyPost0 bodyAt0
  simp only [before0_0, before0_1]
  rw [show (dat0 V O B c).Φ t.succ = (dat0 V O B c).Φ t.castSucc from rfl,
    show (dat0 V O B c).owesAt none t.succ = (dat0 V O B c).owesAt none t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V O B c) (defs₀ (F := F)) Variants.none none Set.univ := fun t => by
  rw [bigSep_W0, bigSep_W0]
  exact sound_body0 V O B c t

/-! ## Region 1: each batch's rows times the permutation matrix, regrouped beside the embedding's -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) (HIx 1) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) (HIx 1) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) (HIx 1) ℕ UU ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S1x1024x512 := Rect.unit (s := S1x1024x512) ![0, 0, 0] S1x1024x512.size inb_S1x1024x512_S1x1024x512_0_0_0
abbrev r1_o0 : Rect S1x1024x4x256 := Rect.unit (s := S1x1024x4x256) ![0, 0, 0, 0] S1x1024x1x256.size inb_S1x1024x4x256_S1x1024x1x256_0_0_0_0
abbrev r1_o1 : Rect S1x1024x4x256 := Rect.unit (s := S1x1024x4x256) ![0, 0, 1, 0] S1x1024x1x256.size inb_S1x1024x4x256_S1x1024x1x256_0_0_1_0
abbrev r1_o2 : Rect S1x1024x4x256 := Rect.unit (s := S1x1024x4x256) ![0, 0, 2, 0] S1x1024x1x256.size inb_S1x1024x4x256_S1x1024x1x256_0_0_2_0
abbrev r1_o3 : Rect S1x1024x4x256 := Rect.unit (s := S1x1024x4x256) ![0, 0, 3, 0] S1x1024x1x256.size inb_S1x1024x4x256_S1x1024x1x256_0_0_3_0

/-- The result's staging buffer after the body: its four stores as pieces, last first, over the three input blocks. -/
def out1_3 (x0 : Vec F S1x1024x512 .f32) (x1 : Vec F S1024x512 .f32) (x2 : Vec F S512x512 .f32) : Vec F S1x1024x4x256 .f32 :=
  View.canon [⟨r1_o3, k1_pay6 (View.ld x0 r1_x) (View.ld x1 r0_e) (View.ld x2 r0_p)⟩,
    ⟨r1_o2, k1_pay5 (View.ld x0 r1_x) (View.ld x1 r0_e) (View.ld x2 r0_p)⟩,
    ⟨r1_o1, k1_pay4 (View.ld x0 r1_x) (View.ld x1 r0_e) (View.ld x2 r0_p)⟩,
    ⟨r1_o0, k1_pay3 (View.ld x0 r1_x) (View.ld x1 r0_e) (View.ld x2 r0_p)⟩]

theorem cover1_3 (p3 p2 p1 p0 : Vec F S1x1024x1x256 .f32) (y : S1x1024x4x256.Idx) :
    ∃ pc ∈ ([⟨r1_o3, p3⟩, ⟨r1_o2, p2⟩, ⟨r1_o1, p1⟩, ⟨r1_o0, p0⟩] : List (View.Piece (Elt F) S1x1024x4x256 .f32)), y ∈ pc.1.set :=
  View.cover_of_tiled [⟨r1_o3, p3⟩, ⟨r1_o2, p2⟩, ⟨r1_o1, p1⟩, ⟨r1_o0, p0⟩] S1x1024x1x256.size (by rfl) y

set_option maxHeartbeats 1000000 in
theorem sound_kernel1 (c : Dev nD) (E : Set ℕ) (i : grid1.Coords) (arg2 : Memref sig .tc .vmem S1x1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1x1024x4x256 .f32) (harg5 : arg5.IsWhole)
    (x0 : Vec F S1x1024x512 .f32) (x1 : Vec F S1024x512 .f32) (x2 : Vec F S512x512 .f32) (Kk : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ Kk ⟨⟩))
      ⊢ wp frame (wpE (defs₀ (F := F)) Variants.none c none) E (cc1__tc_body i arg2 harg2 arg3 harg3 arg4 harg4 arg5 harg5) Kk := by
  simp only [cc1__tc_body_eq_skeleton]; unfold cc1__tc_body_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _ _ _)

def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.scopedRest (Ix := HIx 1) (Name := ℕ) (U := UU) (Lvl := ℕ) (Val := Elt F) spec1 c
  q _ := fullShare
  owed _ := O c
  recorded _ := B c

theorem A_eq1 (c : Dev nD) (w : Fin cfg1.W) : (dat1 V O B c).A w = V c (Pipeline.arrRef spec1 w) := by
  dsimp only [dat1]
theorem after1_0 (c : Dev nD) (t : Fin cfg1.N) : (dat1 V O B c).after 0 t = iblk1 V c 0 t := by dsimp only [dat1]
theorem after1_1 (c : Dev nD) (t : Fin cfg1.N) : (dat1 V O B c).after 1 t = iblk1 V c 1 t := by dsimp only [dat1]
theorem after1_2 (c : Dev nD) (t : Fin cfg1.N) : (dat1 V O B c).after 2 t = iblk1 V c 2 t := by dsimp only [dat1]
theorem after1_3 (c : Dev nD) (t : Fin cfg1.N) : (dat1 V O B c).after 3 t = out1_3 (iblk1 V c 0 t) (iblk1 V c 1 t) (iblk1 V c 2 t) := by dsimp only [dat1]
theorem before1_0 (c : Dev nD) (t : Fin cfg1.N) (d) : (dat1 V O B c).before 0 t d = iblk1 V c 0 t :=
  before1_0_of V (dat1 V O B c) (A_eq1 V O B c 0) (after1_0 V O B c) t d
theorem before1_1 (c : Dev nD) (t : Fin cfg1.N) (d) : (dat1 V O B c).before 1 t d = iblk1 V c 1 t :=
  before1_1_of V (dat1 V O B c) (A_eq1 V O B c 1) (after1_1 V O B c) t d
theorem before1_2 (c : Dev nD) (t : Fin cfg1.N) (d) : (dat1 V O B c).before 2 t d = iblk1 V c 2 t :=
  before1_2_of V (dat1 V O B c) (A_eq1 V O B c 2) (after1_2 V O B c) t d

def bodyPre1 (c : Dev nD) (t : Fin cfg1.N) : sProp 𝕄 :=
  iprop((dat1 V O B c).Φ t.castSucc ∗ (dat1 V O B c).owesAt none t.castSucc
    ∗ (∃ d, owns (c : Thread nD τ) (st1_0 t) fullShare ((dat1 V O B c).before 0 t d))
    ∗ (∃ d, owns (c : Thread nD τ) (st1_1 t) fullShare ((dat1 V O B c).before 1 t d))
    ∗ (∃ d, owns (c : Thread nD τ) (st1_2 t) fullShare ((dat1 V O B c).before 2 t d))
    ∗ (∃ d, owns (c : Thread nD τ) (st1_3 t) fullShare ((dat1 V O B c).before 3 t d)))

def bodyPost1 (c : Dev nD) (t : Fin cfg1.N) : sProp 𝕄 :=
  iprop((dat1 V O B c).Φ t.succ ∗ (dat1 V O B c).owesAt none t.succ
    ∗ owns (c : Thread nD τ) (st1_0 t) fullShare ((dat1 V O B c).after 0 t)
    ∗ owns (c : Thread nD τ) (st1_1 t) fullShare ((dat1 V O B c).after 1 t)
    ∗ owns (c : Thread nD τ) (st1_2 t) fullShare ((dat1 V O B c).after 2 t)
    ∗ owns (c : Thread nD τ) (st1_3 t) fullShare ((dat1 V O B c).after 3 t))

theorem sound_body1 (c : Dev nD) (t : Fin cfg1.N) :
    bodyPre1 V O B c t ⊢ wp frame (wpE (defs₀ (F := F)) Variants.none c none) Set.univ (bodyAt1 t) (fun _ => bodyPost1 V O B c t) := by
  unfold bodyPre1 bodyPost1 bodyAt1
  simp only [before1_0, before1_1, before1_2]
  rw [show (dat1 V O B c).Φ t.succ = (dat1 V O B c).Φ t.castSucc from rfl,
    show (dat1 V O B c).owesAt none t.succ = (dat1 V O B c).owesAt none t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V O B c) (defs₀ (F := F)) Variants.none none Set.univ := fun t => by
  rw [bigSep_W1, bigSep_W1]
  exact sound_body1 V O B c t

end Halves

end Cert.KernelIdeal.Regions

end
-- ==== Proof.HostOps.lean ====
/-
  The host operations of the kernel's entry function, in program order, as one list; the entry function as the chain
  of those operations, the two TensorCore regions and the SparseCore call; and how a valuation folds over an append.
-/
import proofs.«206219_g40982577938455_cont_8to1_b_1362_29_alg».proof.Proof.Gen.KernelIdeal
import Idealize.ShloMosaic.Lib.StableHlo.Run
import Idealize.ShloMosaic.Lib.Pipeline.Regions

noncomputable section

namespace Cert.KernelIdeal.HostOps

open Cert.KernelIdeal Cert.KernelIdeal.Gen
open Idealize.ShloMosaic Idealize.SL.Sem

variable {F : FTy → Type} [FloatOps F]

/-- The two operations before the first call. -/
abbrev opsA : List (HloOp τ sig (Elt F)) :=
  [ StableHlo.nullary main_v0 (iotaInDim S512 32 0),
    StableHlo.nullary main_c (constantI S_ 32 4#32) ]

/-- The remainder function's operations before its inner call, over one call's references. -/
abbrev remA (arg0 : StableHlo.TRef sig ⟨S512, .i32⟩) (arg1 : StableHlo.TRef sig ⟨S_, .i32⟩) (φ : fn_remainder.Bufs) : List (HloOp τ sig (Elt F)) :=
  [ StableHlo.TRef.unary arg1 φ.v0 id,
    StableHlo.TRef.nullary φ.c (constantI S_ 32 0#32),
    StableHlo.TRef.binary φ.v0 φ.c φ.v1 (cmpi .eq),
    StableHlo.TRef.nullary φ.c_0 (constantI S_ 32 1#32) ]
/-- The scalar select. -/
abbrev whereOps (arg0 : StableHlo.TRef sig ⟨S_, .i1⟩) (arg1 : StableHlo.TRef sig ⟨S_, .i32⟩) (arg2 : StableHlo.TRef sig ⟨S_, .i32⟩) (φ : fn_where.Bufs) : List (HloOp τ sig (Elt F)) :=
  [ StableHlo.TRef.ternary arg0 arg1 arg2 φ.v0 select ]
/-- The remainder function's operations after its inner call. -/
abbrev remB (arg0 : StableHlo.TRef sig ⟨S512, .i32⟩) (arg1 : StableHlo.TRef sig ⟨S_, .i32⟩) (φ : fn_remainder.Bufs) : List (HloOp τ sig (Elt F)) :=
  [ StableHlo.TRef.unary φ.call0.v0 φ.v3 (broadcastInDim S512 ![] bcast_S_S512),
    StableHlo.TRef.binary arg0 φ.v3 φ.v4 Host.remsi,
    StableHlo.TRef.nullary φ.c_1 (constantI S_ 32 0#32),
    StableHlo.TRef.unary φ.c_1 φ.v5 (broadcastInDim S512 ![] bcast_S_S512),
    StableHlo.TRef.binary φ.v4 φ.v5 φ.v6 (cmpi .ne),
    StableHlo.TRef.nullary φ.c_2 (constantI S_ 32 0#32),
    StableHlo.TRef.unary φ.c_2 φ.v7 (broadcastInDim S512 ![] bcast_S_S512),
    StableHlo.TRef.binary φ.v4 φ.v7 φ.v8 (cmpi .slt),
    StableHlo.TRef.nullary φ.c_3 (constantI S_ 32 0#32),
    StableHlo.TRef.binary φ.call0.v0 φ.c_3 φ.v9 (cmpi .slt),
    StableHlo.TRef.unary φ.v9 φ.v10 (broadcastInDim S512 ![] bcast_S_S512),
    StableHlo.TRef.binary φ.v8 φ.v10 φ.v11 (cmpi .ne),
    StableHlo.TRef.binary φ.v11 φ.v6 φ.v12 andi,
    StableHlo.TRef.unary φ.call0.v0 φ.v13 (broadcastInDim S512 ![] bcast_S_S512),
    StableHlo.TRef.binary φ.v4 φ.v13 φ.v14 addi,
    StableHlo.TRef.ternary φ.v12 φ.v14 φ.v4 φ.v15 select ]

/-- The four operations between the two calls. -/
abbrev opsB : List (HloOp τ sig (Elt F)) :=
  [ StableHlo.nullary main_c_0 (constantI S_ 32 128#32),
    StableHlo.unary main_c_0 main_v2 (broadcastInDim S512 ![] bcast_S_S512 : (⟨S_, .i32⟩ : BufTy).Contents (Elt F) → (⟨S512, .i32⟩ : BufTy).Contents (Elt F)),
    StableHlo.binary main_v1 main_v2 main_v3 (muli : (⟨S512, .i32⟩ : BufTy).Contents (Elt F) → (⟨S512, .i32⟩ : BufTy).Contents (Elt F) → (⟨S512, .i32⟩ : BufTy).Contents (Elt F)),
    StableHlo.nullary main_c_1 (constantI S_ 32 4#32) ]

/-- The floor-division function's operations before its inner call. -/
abbrev fdA (arg0 : StableHlo.TRef sig ⟨S512, .i32⟩) (arg1 : StableHlo.TRef sig ⟨S_, .i32⟩) (φ : fn_floor_divide.Bufs) : List (HloOp τ sig (Elt F)) :=
  [ StableHlo.TRef.unary arg1 φ.v0 id,
    StableHlo.TRef.unary φ.v0 φ.v1 (broadcastInDim S512 ![] bcast_S_S512),
    StableHlo.TRef.binary arg0 φ.v1 φ.v2 Host.divsi,
    StableHlo.TRef.unary arg0 φ.v3 signi,
    StableHlo.TRef.unary φ.v0 φ.v4 signi,
    StableHlo.TRef.unary φ.v4 φ.v5 (broadcastInDim S512 ![] bcast_S_S512),
    StableHlo.TRef.binary φ.v3 φ.v5 φ.v6 (cmpi .ne),
    StableHlo.TRef.unary φ.v0 φ.v7 (broadcastInDim S512 ![] bcast_S_S512),
    StableHlo.TRef.binary arg0 φ.v7 φ.v8 Host.remsi,
    StableHlo.TRef.nullary φ.c (constantI S_ 32 0#32),
    StableHlo.TRef.unary φ.c φ.v9 (broadcastInDim S512 ![] bcast_S_S512),
    StableHlo.TRef.binary φ.v8 φ.v9 φ.v10 (cmpi .ne),
    StableHlo.TRef.binary φ.v6 φ.v10 φ.v11 andi,
    StableHlo.TRef.nullary φ.c_0 (constantI S_ 32 1#32),
    StableHlo.TRef.unary φ.c_0 φ.v12 (broadcastInDim S512 ![] bcast_S_S512),
    StableHlo.TRef.binary φ.v2 φ.v12 φ.v13 subi ]
/-- The vector select. -/
abbrev where0Ops (arg0 : StableHlo.TRef sig ⟨S512, .i1⟩) (arg1 : StableHlo.TRef sig ⟨S512, .i32⟩) (arg2 : StableHlo.TRef sig ⟨S512, .i32⟩) (φ : fn_where_0.Bufs) : List (HloOp τ sig (Elt F)) :=
  [ StableHlo.TRef.ternary arg0 arg1 arg2 φ.v0 select ]

/-- The operations after the second call, ending in the scatter that writes the permutation matrix. -/
abbrev opsC : List (HloOp τ sig (Elt F)) :=
  [ StableHlo.binary main_v3 main_v4 main_v5 (addi : (⟨S512, .i32⟩ : BufTy).Contents (Elt F) → (⟨S512, .i32⟩ : BufTy).Contents (Elt F) → (⟨S512, .i32⟩ : BufTy).Contents (Elt F)),
    StableHlo.nullary main_cst (constant S_ .f32 0x00000000#32),
    StableHlo.unary main_cst main_v6 (broadcastInDim S512x512 ![] bcast_S_S512x512 : (⟨S_, .f32⟩ : BufTy).Contents (Elt F) → (⟨S512x512, .f32⟩ : BufTy).Contents (Elt F)),
    StableHlo.nullary main_c_2 (constantI S_ 32 0#32),
    StableHlo.unary main_c_2 main_v7 (broadcastInDim S512 ![] bcast_S_S512 : (⟨S_, .i32⟩ : BufTy).Contents (Elt F) → (⟨S512, .i32⟩ : BufTy).Contents (Elt F)),
    StableHlo.binary main_v0 main_v7 main_v8 (cmpi .slt : (⟨S512, .i32⟩ : BufTy).Contents (Elt F) → (⟨S512, .i32⟩ : BufTy).Contents (Elt F) → (⟨S512, .i1⟩ : BufTy).Contents (Elt F)),
    StableHlo.nullary main_c_3 (constantI S_ 32 512#32),
    StableHlo.unary main_c_3 main_v9 (broadcastInDim S512 ![] bcast_S_S512 : (⟨S_, .i32⟩ : BufTy).Contents (Elt F) → (⟨S512, .i32⟩ : BufTy).Contents (Elt F)),
    StableHlo.binary main_v0 main_v9 main_v10 (addi : (⟨S512, .i32⟩ : BufTy).Contents (Elt F) → (⟨S512, .i32⟩ : BufTy).Contents (Elt F) → (⟨S512, .i32⟩ : BufTy).Contents (Elt F)),
    StableHlo.ternary main_v8 main_v10 main_v0 main_v11 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.nullary main_c_4 (constantI S_ 32 0#32),
    StableHlo.unary main_c_4 main_v12 (broadcastInDim S512 ![] bcast_S_S512 : (⟨S_, .i32⟩ : BufTy).Contents (Elt F) → (⟨S512, .i32⟩ : BufTy).Contents (Elt F)),
    StableHlo.binary main_v5 main_v12 main_v13 (cmpi .slt : (⟨S512, .i32⟩ : BufTy).Contents (Elt F) → (⟨S512, .i32⟩ : BufTy).Contents (Elt F) → (⟨S512, .i1⟩ : BufTy).Contents (Elt F)),
    StableHlo.nullary main_c_5 (constantI S_ 32 512#32),
    StableHlo.unary main_c_5 main_v14 (broadcastInDim S512 ![] bcast_S_S512 : (⟨S_, .i32⟩ : BufTy).Contents (Elt F) → (⟨S512, .i32⟩ : BufTy).Contents (Elt F)),
    StableHlo.binary main_v5 main_v14 main_v15 (addi : (⟨S512, .i32⟩ : BufTy).Contents (Elt F) → (⟨S512, .i32⟩ : BufTy).Contents (Elt F) → (⟨S512, .i32⟩ : BufTy).Contents (Elt F)),
    StableHlo.ternary main_v13 main_v15 main_v5 main_v16 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v11 main_v17 (broadcastInDim S512x1 ![0] bcast_S512_S512x1_0 : (⟨S512, .i32⟩ : BufTy).Contents (Elt F) → (⟨S512x1, .i32⟩ : BufTy).Contents (Elt F)),
    StableHlo.unary main_v16 main_v18 (broadcastInDim S512x1 ![0] bcast_S512_S512x1_0 : (⟨S512, .i32⟩ : BufTy).Contents (Elt F) → (⟨S512x1, .i32⟩ : BufTy).Contents (Elt F)),
    StableHlo.binary main_v17 main_v18 main_v19 ((fun a b => concatenate S512x2 1 [⟨S512x1, a⟩, ⟨S512x1, b⟩] concatenates_S512x1_S512x1_S512x2_d1) : (⟨S512x1, .i32⟩ : BufTy).Contents (Elt F) → (⟨S512x1, .i32⟩ : BufTy).Contents (Elt F) → (⟨S512x2, .i32⟩ : BufTy).Contents (Elt F)),
    StableHlo.nullary main_cst_6 (constant S_ .f32 0x3F800000#32),
    StableHlo.unary main_cst_6 main_v20 (broadcastInDim S512 ![] bcast_S_S512 : (⟨S_, .f32⟩ : BufTy).Contents (Elt F) → (⟨S512, .f32⟩ : BufTy).Contents (Elt F)),
    StableHlo.ternary main_v6 main_v19 main_v20 main_v21 ((fun x i u => Host.scatter scatter_S512x512_S512x2_S512_n_01_01_1 (fun _ b => b) x i u) : (⟨S512x512, .f32⟩ : BufTy).Contents (Elt F) → (⟨S512x2, .i32⟩ : BufTy).Contents (Elt F) → (⟨S512, .f32⟩ : BufTy).Contents (Elt F) → (⟨S512x512, .f32⟩ : BufTy).Contents (Elt F)) ]

/-- The stretches of host operations, in program order: a function's body is inlined at its call, over that call's
    references. -/
abbrev stretches : List (List (HloOp τ sig (Elt F))) :=
  [ opsA,
    remA (.of main_v0) (.of main_c) main_call0,
    whereOps main_call0.v1 main_call0.c_0 main_call0.v0 main_call0.call0,
    remB (.of main_v0) (.of main_c) main_call0,
    opsB,
    fdA (.of main_v0) (.of main_c_1) main_call1,
    where0Ops main_call1.v11 main_call1.v13 main_call1.v2 main_call1.call0,
    opsC ]

/-- Every host operation before the first region, in program order. -/
abbrev hostOps : List (HloOp τ sig (Elt F)) := (stretches (F := F)).flatten

/-- The entry function is the chain of the stretches, the two TensorCore regions and the SparseCore call. -/
theorem main_chain (d : Dev nD) : main (F := F) d = (Pipeline.chain
  [ StableHlo.seq opsA,
    StableHlo.seq (remA (.of main_v0) (.of main_c) main_call0),
    StableHlo.seq (whereOps main_call0.v1 main_call0.c_0 main_call0.v0 main_call0.call0),
    StableHlo.seq (remB (.of main_v0) (.of main_c) main_call0),
    StableHlo.seq opsB,
    StableHlo.seq (fdA (.of main_v0) (.of main_c_1) main_call1),
    StableHlo.seq (where0Ops main_call1.v11 main_call1.v13 main_call1.v2 main_call1.call0),
    StableHlo.seq opsC,
    Prog.lift (.customCall (SparseCore.inner (Pipeline.entry 0)) ()),
    Prog.lift (.customCall (SparseCore.inner (Pipeline.entry 1)) ()),
    sc.run d 0 ] : Prog (TpuEff nD τ sig (Elt F) (SparseCore.Sig (Pipeline.Sig Λ₀ (Fin 2) fun p => (pcfgs (F := F) p).Adm) 1) .tc) PUnit) := by
  chain_rfl

/-- Folding a valuation over an append is folding over the parts in turn. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- The fold over all the host operations is the fold over the stretches in turn. -/
theorem after_hostOps (V : Valuation τ sig (Elt F)) :
    StableHlo.after (hostOps (F := F)) V
      = StableHlo.after opsC (StableHlo.after (where0Ops main_call1.v11 main_call1.v13 main_call1.v2 main_call1.call0)
          (StableHlo.after (fdA (.of main_v0) (.of main_c_1) main_call1) (StableHlo.after opsB
            (StableHlo.after (remB (.of main_v0) (.of main_c) main_call0) (StableHlo.after (whereOps main_call0.v1 main_call0.c_0 main_call0.v0 main_call0.call0)
              (StableHlo.after (remA (.of main_v0) (.of main_c) main_call0) (StableHlo.after opsA V))))))) := by
  simp only [hostOps, stretches, List.flatten_cons, List.flatten_nil, List.append_nil, after_append]

end Cert.KernelIdeal.HostOps

end
-- ==== Proof.RegionSegs.lean ====
/-
  The TensorCore's program up to the SparseCore call, first half: the host operations touch unscoped buffers only; the
  buffer contents at each boundary; both pipelines' proof data; each region as a segment record over the thread
  state "every unscoped buffer at the boundary's contents, beside what the core owes".
-/
import proofs.«206219_g40982577938455_cont_8to1_b_1362_29_alg».proof.Proof.RegionBody
import proofs.«206219_g40982577938455_cont_8to1_b_1362_29_alg».proof.Proof.HostOps

set_option maxRecDepth 16384

noncomputable section

namespace Cert.KernelIdeal.Regions

open Cert.KernelIdeal Cert.KernelIdeal.Gen Cert.KernelIdeal.Setup
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 1) (Elt F) ℕ UU ℕ

open Cert.KernelIdeal.HostOps
open Idealize.ShloMosaic.SparseCore (T)

/-! ## The host operations touch unscoped TensorCore buffers only and allocate none -/

theorem opsA_sub : (opsA (F := F) : List (HloOp τ sig (Elt F))).Forall fun op => op.bufs ⊆ StableHlo.tcRefs τ sig :=
  ⟨StableHlo.nullary_bufs_sub .., StableHlo.nullary_bufs_sub ..⟩
theorem opsA_fresh : (opsA (F := F) : List (HloOp τ sig (Elt F))).Forall fun op => op.fresh = ∅ := by
  simp only [List.Forall]; repeat' constructor
theorem remA_sub : (remA (F := F) (.of main_v0) (.of main_c) main_call0 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub ..⟩
theorem remA_fresh : (remA (F := F) (.of main_v0) (.of main_c) main_call0 : List (HloOp τ sig (Elt F))).Forall fun op => op.fresh = ∅ := by
  simp only [List.Forall]; repeat' constructor
theorem whereOps_sub : (whereOps (F := F) main_call0.v1 main_call0.c_0 main_call0.v0 main_call0.call0 : List (HloOp τ sig (Elt F))).Forall fun op => op.bufs ⊆ StableHlo.tcRefs τ sig :=
  StableHlo.ternary_bufs_sub ..
theorem whereOps_fresh : (whereOps (F := F) main_call0.v1 main_call0.c_0 main_call0.v0 main_call0.call0 : List (HloOp τ sig (Elt F))).Forall fun op => op.fresh = ∅ := by
  simp only [List.Forall]; repeat' constructor
theorem remB_sub : (remB (F := F) (.of main_v0) (.of main_c) main_call0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem remB_fresh : (remB (F := F) (.of main_v0) (.of main_c) main_call0 : List (HloOp τ sig (Elt F))).Forall fun op => op.fresh = ∅ := by
  simp only [List.Forall]; repeat' constructor
theorem opsB_sub : (opsB (F := F) : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem opsB_fresh : (opsB (F := F) : List (HloOp τ sig (Elt F))).Forall fun op => op.fresh = ∅ := by
  simp only [List.Forall]; repeat' constructor
theorem fdA_sub : (fdA (F := F) (.of main_v0) (.of main_c_1) main_call1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub ..⟩
theorem fdA_fresh : (fdA (F := F) (.of main_v0) (.of main_c_1) main_call1 : List (HloOp τ sig (Elt F))).Forall fun op => op.fresh = ∅ := by
  simp only [List.Forall]; repeat' constructor
theorem where0Ops_sub : (where0Ops (F := F) main_call1.v11 main_call1.v13 main_call1.v2 main_call1.call0 : List (HloOp τ sig (Elt F))).Forall fun op => op.bufs ⊆ StableHlo.tcRefs τ sig :=
  StableHlo.ternary_bufs_sub ..
theorem where0Ops_fresh : (where0Ops (F := F) main_call1.v11 main_call1.v13 main_call1.v2 main_call1.call0 : List (HloOp τ sig (Elt F))).Forall fun op => op.fresh = ∅ := by
  simp only [List.Forall]; repeat' constructor
theorem opsC_sub : (opsC (F := F) : List (HloOp τ sig (Elt F))).Forall fun op => op.bufs ⊆ StableHlo.tcRefs τ sig :=
  ⟨StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.nullary_bufs_sub .., StableHlo.unary_bufs_sub .., StableHlo.ternary_bufs_sub ..⟩
theorem opsC_fresh : (opsC (F := F) : List (HloOp τ sig (Elt F))).Forall fun op => op.fresh = ∅ := by
  simp only [List.Forall]; repeat' constructor

variable (m : (ℓ : Loc nD τ sig) → Buf (Elt F) ℓ)

/-! ## What the TensorCore owes through the regions, and the bound on its recorded pairs -/

/-- What TensorCore `d` owes before the SparseCore call: the start signals, at the call's index. -/
abbrev Od (d : Dev nD) : CellTallies nD τ sig (HIx 1) := (K (F := F)).Otc d 0
/-- The pairs at or below the level the TensorCore's state before the call bounds its recorded pairs by. -/
abbrev Bd (d : Dev nD) : Set (SemLoc sig × HIx 1) := {p | (K (F := F)).lev (nD := nD) (T d, p.1) p.2 ≤ 8 * 0}

/-- The TensorCore's part of its state before the call that the regions carry: what it owes, its recorded pairs bounded. -/
abbrev Rr (d : Dev nD) : sProp 𝕄 := iprop(∃ W, ⌜(K (F := F)).WBelow (nD := nD) (T d) W (8 * 0)⌝ ∗ owes (T d) ((K (F := F)).Otc d 0) W)

/-! ## The buffer contents at each boundary -/

/-- Core `c`'s buffers at launch. -/
abbrev W0 : Dev nD → Valuation τ sig (Elt F) := fun c b => m ((c : Dev nD), b)
/-- After the host operations: region 0's entry. -/
abbrev W1 : Dev nD → Valuation τ sig (Elt F) := fun c => StableHlo.after (hostOps (F := F)) (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) (Od (F := F)) (Bd (F := F)) c).arrAt w cfg0.N
theorem W2_arr (c : Dev nD) (w : Fin cfg0.W) :
    W2 m c (Proc.devRef .tc (Pipeline.arrRef spec0 w)) = (dat0 (V1 m) (Od (F := F)) (Bd (F := F)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) (Od (F := F)) (Bd (F := F)) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit. -/
def W3 (c : Dev nD) : Valuation τ sig (Elt F) :=
  Pipeline.withArrays spec1 c (W2 m c) fun w => (dat1 (V2 m) (Od (F := F)) (Bd (F := F)) c).arrAt w cfg1.N
theorem W3_arr (c : Dev nD) (w : Fin cfg1.W) :
    W3 m c (Proc.devRef .tc (Pipeline.arrRef spec1 w)) = (dat1 (V2 m) (Od (F := F)) (Bd (F := F)) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) (Od (F := F)) (Bd (F := F)) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family -/

abbrev adm : (p : Fin 2) → (pcfgs (F := F) p).Adm := fun p => (cfgs p).toPCfg_adm
/-- Both pipelines' proof data, each at its region's entry contents: a literal match. -/
def pdats : (p : Fin 2) → (c : Dev nD) → Dat τ (Elt F) (HIx 1) ℕ UU ℕ (Pipeline.pin (pcfgs (F := F)) adm p) c
  | ⟨0, _⟩ => fun c => dat0 (V1 m) (Od (F := F)) (Bd (F := F)) c
  | ⟨1, _⟩ => fun c => dat1 (V2 m) (Od (F := F)) (Bd (F := F)) c

abbrev Lv : GSem nD τ sig → Finset (HIx 1) := (K (F := F)).L (nD := nD)
abbrev lv : GSem nD τ sig → HIx 1 → ℕ := (K (F := F)).lev (nD := nD)

/-- The TensorCore owes nothing at the kernels' own index. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

set_option backward.isDefEq.respectTransparency.types false in
/-- Region 0 over the thread state: entered from every unscoped buffer at its entry contents beside what the core
    owes, left at its exit contents beside the same. The arrays are split out of the unscoped buffers and put back; the
    invariant is the scoped buffers no window stages; the kernel has no semaphore of its own. -/
def reg0 : Pipeline.RegionSeg (pcfgs (F := F)) adm (pdats m) none defs₀ 𝒱₀ (Lv (F := F)) (lv (F := F)) 0 where
  win := launch0.win.to₀
  block_pos := launch0.block_pos
  stage_whole := launch0.stage_whole
  K := PEmpty
  osem k := k.elim
  ho := Pipeline.OwnSemFacts.none _
  hbody c := (body_obligation0 (V1 m) (Od (F := F)) (Bd (F := F)) c).loose
  hwaits c := Pipeline.cellsWaits_of_cut (Pipeline.pin (pcfgs (F := F)) adm) (pdats m) none 0 c (L := Lv (F := F)) (lev := lv (F := F)) 0
    ((K (F := F)).Otc c 0) (fun _ => rfl) (fun _ _ => Finset.mem_univ _) (fun _ _ => Nat.le_refl 0)
    (fun g i h => ⟨Finset.mem_univ _, by
      cases i with
      | none => rw [Otc_none] at h; exact absurd h (Nat.lt_irrefl 0)
      | some q => exact (K (F := F)).lev_some_pos g q⟩)
  pre c := iprop(StableHlo.held (c : Thread nD τ) (Pipeline.ucRefs τ sig) (W1 m c) ∗ Rr (F := F) c)
  post c := iprop(StableHlo.held (c : Thread nD τ) (Pipeline.ucRefs τ sig) (W2 m c) ∗ Rr (F := F) c)
  X c := iprop(emp)
  Y c := iprop(emp)
  Z c := Pipeline.unscopedRest (Ix := HIx 1) (Name := ℕ) (U := UU) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (pdats m 0 c).Φ 0 = Pipeline.scopedRest (Ix := HIx 1) (Name := ℕ) (U := UU) (Lvl := ℕ) (Val := Elt F) spec0 c from rfl]
    iintro ⟨-, -, Hr⟩
    iexact Hr
  hout c := by
    rw [Pipeline.ownSems0_none, show (pdats m 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW (Finset.mem_coe.mpr hp) with h | ⟨w, s, rfl⟩
      · exact h
      · exact Nat.le_refl 0
    iexact HO

set_option backward.isDefEq.respectTransparency.types false in
/-- Region 1 over the thread state: entered from every unscoped buffer at its entry contents beside what the core
    owes, left at its exit contents beside the same. The arrays are split out of the unscoped buffers and put back; the
    invariant is the scoped buffers no window stages; the kernel has no semaphore of its own. -/
def reg1 : Pipeline.RegionSeg (pcfgs (F := F)) adm (pdats m) none defs₀ 𝒱₀ (Lv (F := F)) (lv (F := F)) 1 where
  win := launch1.win.to₀
  block_pos := launch1.block_pos
  stage_whole := launch1.stage_whole
  K := PEmpty
  osem k := k.elim
  ho := Pipeline.OwnSemFacts.none _
  hbody c := (body_obligation1 (V2 m) (Od (F := F)) (Bd (F := F)) c).loose
  hwaits c := Pipeline.cellsWaits_of_cut (Pipeline.pin (pcfgs (F := F)) adm) (pdats m) none 1 c (L := Lv (F := F)) (lev := lv (F := F)) 0
    ((K (F := F)).Otc c 0) (fun _ => rfl) (fun _ _ => Finset.mem_univ _) (fun _ _ => Nat.le_refl 0)
    (fun g i h => ⟨Finset.mem_univ _, by
      cases i with
      | none => rw [Otc_none] at h; exact absurd h (Nat.lt_irrefl 0)
      | some q => exact (K (F := F)).lev_some_pos g q⟩)
  pre c := iprop(StableHlo.held (c : Thread nD τ) (Pipeline.ucRefs τ sig) (W2 m c) ∗ Rr (F := F) c)
  post c := iprop(StableHlo.held (c : Thread nD τ) (Pipeline.ucRefs τ sig) (W3 m c) ∗ Rr (F := F) c)
  X c := iprop(emp)
  Y c := iprop(emp)
  Z c := Pipeline.unscopedRest (Ix := HIx 1) (Name := ℕ) (U := UU) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (pdats m 1 c).Φ 0 = Pipeline.scopedRest (Ix := HIx 1) (Name := ℕ) (U := UU) (Lvl := ℕ) (Val := Elt F) spec1 c from rfl]
    iintro ⟨-, -, Hr⟩
    iexact Hr
  hout c := by
    rw [Pipeline.ownSems0_none, show (pdats m 1 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW (Finset.mem_coe.mpr hp) with h | ⟨w, s, rfl⟩
      · exact h
      · exact Nat.le_refl 0
    iexact HO

end Cert.KernelIdeal.Regions

end
-- ==== Proof.RegionRun.lean ====
/-
  The TensorCore's program up to the SparseCore call, second half: a stretch of host operations and a TensorCore region
  at the head of the program, under the extended body table; the whole prefix (host operations, region 0, region 1)
  from the launch contents to region 1's exit contents, what the core owes carried through; and what the arguments,
  the permutation matrix and the two regions' results hold at the end.
-/
import proofs.«206219_g40982577938455_cont_8to1_b_1362_29_alg».proof.Proof.RegionSegs

set_option maxRecDepth 16384

noncomputable section

namespace Cert.KernelIdeal.Regions

open Cert.KernelIdeal Cert.KernelIdeal.Gen Cert.KernelIdeal.Setup
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 1) (Elt F) ℕ UU ℕ

open Cert.KernelIdeal.HostOps
open Idealize.ShloMosaic.SparseCore (T)

/-! ## The run of the TensorCore's program up to the SparseCore call -/

section Run

variable (m : (ℓ : Loc nD τ sig) → Buf (Elt F) ℓ)

variable {P : (K (F := F)).Pay (nD := nD) (Val := Elt F) (Name := ℕ) (U := UU)}

/-- The extended body table: the SparseCore dispatch over the pipelines' over the kernels'. -/
abbrev Do : Defs nD τ sig (Elt F) (SparseCore.Sig (ΛP (F := F)) 1) := (K (F := F)).defs (D (F := F))

/-- What the TensorCore's proof starts from on each device beside what the launch deals it: both pipelines' staging
    cells' launch ghost state and duty tokens. -/
abbrev Gd (d : Dev nD) : sProp 𝕄 :=
  iprop((Pipeline.cellsGhost cfgs EP 0 d ∗ Pipeline.toksInit cfgs EP 0 d)
    ∗ (Pipeline.cellsGhost cfgs EP 1 d ∗ Pipeline.toksInit cfgs EP 1 d))

set_option backward.isDefEq.respectTransparency.types false in
/-- A stretch of host operations at the head of the TensorCore's program, over its unscoped buffers. -/
theorem wp_stretch (d : Dev nD) (ops : List (HloOp τ sig (Elt F)))
    (hsub : ops.Forall fun op => op.bufs ⊆ StableHlo.tcRefs τ sig) (hfresh : ops.Forall fun op => op.fresh = ∅)
    (W : Valuation τ sig (Elt F)) {β : Type} (k : PUnit → Prog (TpuEff nD τ sig (Elt F) (SparseCore.Sig (ΛP (F := F)) 1) .tc) β) {Q : β → sProp 𝕄} :
    iprop(boundary (T d) ∗ StableHlo.held (T d) (Pipeline.ucRefs τ sig) W
        ∗ ((boundary (T d) ∗ StableHlo.held (T d) (Pipeline.ucRefs τ sig) (StableHlo.after ops W))
            -∗ wp frame (wpE (Do (F := F)) 𝒱 (T d) none) Set.univ (k ⟨⟩) Q))
      ⊢ wp frame (wpE (Do (F := F)) 𝒱 (T d) none) Set.univ (StableHlo.seq ops >>= k) Q := by
  iintro ⟨Hb, Hh, Hk⟩
  iapply (StableHlo.wp_seq (defs := (Do (F := F))) 𝒱 none Set.univ d (Pipeline.ucRefs τ sig) k ops
      (fun op h => Pipeline.sub_ucRefs op ((List.forall_iff_forall_mem.mp hsub) op h))
      (fun op h => (List.forall_iff_forall_mem.mp hfresh) op h) W) $$ [Hb Hh]
  · isplitl [Hb] <;> iassumption
  iexact Hk

/-- A region's line in the extended signature is the lifted line of the pipelines' signature. -/
theorem lift_region_eq (p : Fin 2) :
    (Prog.lift (.customCall (SparseCore.inner (Pipeline.entry p)) ()) : Prog (TpuEff nD τ sig (Elt F) (SparseCore.Sig (ΛP (F := F)) 1) .tc) PUnit)
      = SparseCore.liftProg (Prog.lift (.customCall (Pipeline.entry p) ()) : Prog (TpuEff nD τ sig (Elt F) (ΛP (F := F)) .tc) PUnit) := rfl

set_option backward.isDefEq.respectTransparency.types false in
/-- A proof about a region's line under the pipelines' body table is one under the extended table. -/
theorem wp_lift_line (p : Fin 2) (d : Dev nD) (Φ : PUnit → sProp 𝕄) :
    wp frame (wpE (D (F := F)) 𝒱 (T d) none) Set.univ (Prog.lift (.customCall (Pipeline.entry p) ()) : Prog (TpuEff nD τ sig (Elt F) (ΛP (F := F)) .tc) PUnit) Φ
      ⊢ wp frame (wpE (Do (F := F)) 𝒱 (T d) none) Set.univ (Prog.lift (.customCall (SparseCore.inner (Pipeline.entry p)) ()) : Prog (TpuEff nD τ sig (Elt F) (SparseCore.Sig (ΛP (F := F)) 1) .tc) PUnit) Φ := by
  rw [lift_region_eq]
  exact (K (F := F)).wp_liftProg (D (F := F)) 𝒱 (T d) Set.univ none _ Φ

set_option backward.isDefEq.respectTransparency.types false in
/-- A region's line under the pipelines' body table, from its segment record: the pipeline library's region rule. -/
theorem wp_region_inner {p : Fin 2} (R : Pipeline.RegionSeg (pcfgs (F := F)) adm (pdats m) none defs₀ 𝒱₀ (Lv (F := F)) (lv (F := F)) p) (d : Dev nD)
    (Φ : PUnit → sProp 𝕄) :
    iprop(boundary (T d) ∗ R.pre d ∗ levAts (Lv (F := F)) (lv (F := F))
        ∗ Pipeline.cellsGhost cfgs EP p d ∗ Pipeline.toksInit cfgs EP p d
        ∗ ((boundary (T d) ∗ R.post d) -∗ Φ ⟨⟩))
      ⊢ wp frame (wpE (D (F := F)) 𝒱 (T d) none) Set.univ (Prog.lift (.customCall (Pipeline.entry p) ()) : Prog (TpuEff nD τ sig (Elt F) (ΛP (F := F)) .tc) PUnit) Φ := by
  iintro ⟨Hb, Hpre, #Hla, Hg, Ht, Hk⟩
  iapply (Pipeline.RegionSeg.wp (pcfgs (F := F)) adm (pdats m) none cellOf_inj EP defs₀ 𝒱₀ (Lv (F := F)) (lv (F := F)) R d none
    (fun u h => nomatch h) (fun _ => .ret ⟨⟩) Φ)
  isplitl [Hk]
  · iintro ⟨Hb, Hpost⟩
    rw [wp_ret]; imodintro
    iapply Hk
    isplitl [Hb] <;> iassumption
  isplitl [Hb]; · iexact Hb
  isplitl [Hpre]; · iexact Hpre
  isplitr; · iexact Hla
  isplitl [Hg] <;> iassumption

set_option backward.isDefEq.respectTransparency.types false in
/-- A TensorCore region at the head of the TensorCore's program, from its segment record. -/
theorem wp_region {p : Fin 2} (R : Pipeline.RegionSeg (pcfgs (F := F)) adm (pdats m) none defs₀ 𝒱₀ (Lv (F := F)) (lv (F := F)) p) (d : Dev nD)
    {β : Type} (k : PUnit → Prog (TpuEff nD τ sig (Elt F) (SparseCore.Sig (ΛP (F := F)) 1) .tc) β) {Q : β → sProp 𝕄} :
    iprop(boundary (T d) ∗ R.pre d ∗ levAts (Lv (F := F)) (lv (F := F))
        ∗ Pipeline.cellsGhost cfgs EP p d ∗ Pipeline.toksInit cfgs EP p d
        ∗ ((boundary (T d) ∗ R.post d) -∗ wp frame (wpE (Do (F := F)) 𝒱 (T d) none) Set.univ (k ⟨⟩) Q))
      ⊢ wp frame (wpE (Do (F := F)) 𝒱 (T d) none) Set.univ (Prog.lift (.customCall (SparseCore.inner (Pipeline.entry p)) ()) >>= k) Q := by
  rw [wp_bind]
  exact (wp_region_inner m R d (fun a => wp frame (wpE (Do (F := F)) 𝒱 (T d) none) Set.univ (k a) Q)).trans (wp_lift_line p d _)

theorem reg0_pre (d : Dev nD) : (reg0 m).pre d = iprop(StableHlo.held (d : Thread nD τ) (Pipeline.ucRefs τ sig) (W1 m d) ∗ Rr (F := F) d) := rfl
theorem reg0_post (d : Dev nD) : (reg0 m).post d = iprop(StableHlo.held (d : Thread nD τ) (Pipeline.ucRefs τ sig) (W2 m d) ∗ Rr (F := F) d) := rfl
theorem reg1_pre (d : Dev nD) : (reg1 m).pre d = iprop(StableHlo.held (d : Thread nD τ) (Pipeline.ucRefs τ sig) (W2 m d) ∗ Rr (F := F) d) := rfl
theorem reg1_post (d : Dev nD) : (reg1 m).post d = iprop(StableHlo.held (d : Thread nD τ) (Pipeline.ucRefs τ sig) (W3 m d) ∗ Rr (F := F) d) := rfl

set_option backward.isDefEq.respectTransparency.types false in
/-- THE TENSORCORE'S PROGRAM UP TO THE SPARSECORE CALL: from the region boundary, every unscoped buffer at the launch
    contents, what the core owes and both pipelines' ghost state, the host operations and the two regions run; the
    call and the return then run from the boundary, every unscoped buffer at region 1's exit contents, and what the
    core owes, unchanged. -/
theorem wp_main_tc (κ : GSem nD τ sig → ℕ) (d : Dev nD) {Q : PUnit → sProp 𝕄} :
    iprop((K (F := F)).ctx EH P κ ∗ boundary (T d) ∗ StableHlo.held (T d) (Pipeline.ucRefs τ sig) (W0 m d) ∗ Rr (F := F) d ∗ Gd (F := F) d
        ∗ ((boundary (T d) ∗ StableHlo.held (T d) (Pipeline.ucRefs τ sig) (W3 m d) ∗ Rr (F := F) d)
            -∗ wp frame (wpE (Do (F := F)) 𝒱 (T d) none) Set.univ ((K (F := F)).run d 0 >>= fun _ => pure ⟨⟩) Q))
      ⊢ wp frame (wpE (Do (F := F)) 𝒱 (T d) none) Set.univ (main (F := F) d) Q := by
  rw [main_chain]
  simp only [Pipeline.chain_cons, Pipeline.chain_nil]
  unfold Gd
  iintro ⟨#Hctx, Hb, Hh, HR, ⟨⟨Hg0, Ht0⟩, ⟨Hg1, Ht1⟩⟩, Hk⟩
  ihave #Hla := (SparseCore.Cfg.ctx_levAts κ) $$ Hctx
  iapply (wp_stretch d _ opsA_sub opsA_fresh _ _); isplitl [Hb]; · iexact Hb
  isplitl [Hh]; · iexact Hh
  iintro ⟨Hb, Hh⟩
  iapply (wp_stretch d _ remA_sub remA_fresh _ _); isplitl [Hb]; · iexact Hb
  isplitl [Hh]; · iexact Hh
  iintro ⟨Hb, Hh⟩
  iapply (wp_stretch d _ whereOps_sub whereOps_fresh _ _); isplitl [Hb]; · iexact Hb
  isplitl [Hh]; · iexact Hh
  iintro ⟨Hb, Hh⟩
  iapply (wp_stretch d _ remB_sub remB_fresh _ _); isplitl [Hb]; · iexact Hb
  isplitl [Hh]; · iexact Hh
  iintro ⟨Hb, Hh⟩
  iapply (wp_stretch d _ opsB_sub opsB_fresh _ _); isplitl [Hb]; · iexact Hb
  isplitl [Hh]; · iexact Hh
  iintro ⟨Hb, Hh⟩
  iapply (wp_stretch d _ fdA_sub fdA_fresh _ _); isplitl [Hb]; · iexact Hb
  isplitl [Hh]; · iexact Hh
  iintro ⟨Hb, Hh⟩
  iapply (wp_stretch d _ where0Ops_sub where0Ops_fresh _ _); isplitl [Hb]; · iexact Hb
  isplitl [Hh]; · iexact Hh
  iintro ⟨Hb, Hh⟩
  iapply (wp_stretch d _ opsC_sub opsC_fresh _ _); isplitl [Hb]; · iexact Hb
  isplitl [Hh]; · iexact Hh
  iintro ⟨Hb, Hh⟩
  rw [← after_hostOps (F := F) (W0 m d)]
  -- region 0
  iapply (wp_region m (reg0 m) d _)
  rw [reg0_pre, reg0_post]
  isplitl [Hb]; · iexact Hb
  isplitl [Hh HR]; · isplitl [Hh] <;> iassumption
  isplitr; · iexact Hla
  isplitl [Hg0]; · iexact Hg0
  isplitl [Ht0]; · iexact Ht0
  iintro ⟨Hb, ⟨Hh, HR⟩⟩
  -- region 1
  iapply (wp_region m (reg1 m) d _)
  rw [reg1_pre, reg1_post]
  isplitl [Hb]; · iexact Hb
  isplitl [Hh HR]; · isplitl [Hh] <;> iassumption
  isplitr; · iexact Hla
  isplitl [Hg1]; · iexact Hg1
  isplitl [Ht1]; · iexact Ht1
  iintro ⟨Hb, ⟨Hh, HR⟩⟩
  iapply Hk
  isplitl [Hb]; · iexact Hb
  isplitl [Hh] <;> iassumption

end Run

/-! ## What the buffers hold at region 1's exit -/

section Exit

variable (m : (ℓ : Loc nD τ sig) → Buf (Elt F) ℓ)

/-- No host operation writes an argument, a region's output or the SparseCore call's result. -/
theorem hostOps_keep (r : Ref sig .tc) (hr : r = main_arg0 ∨ r = main_arg1 ∨ r = main_arg2 ∨ r = main_v24 ∨ r = main_v22 ∨ r = main_v23)
    (W : Valuation τ sig (Elt F)) :
    StableHlo.after (hostOps (F := F)) W (Proc.devRef .tc r) = W (Proc.devRef .tc r) := by
  refine StableHlo.after_of_forall_not_mem (b := Proc.devRef .tc r) _ _ (List.forall_iff_forall_mem.mp ?_)
  rcases hr with rfl | rfl | rfl | rfl | rfl | rfl <;>
  · simp only [hostOps, stretches, opsA, remA, whereOps, remB, opsB, fdA, where0Ops, opsC, List.flatten_cons, List.flatten_nil,
      List.append_nil, List.cons_append, List.nil_append, List.Forall,
      StableHlo.nullary_writes, StableHlo.unary_writes, StableHlo.binary_writes, StableHlo.ternary_writes, Finset.mem_singleton]
    repeat' apply And.intro
    all_goals exact StableHlo.devRef_ne_of_ne (by decide)

/-- The permutation matrix: what the host operations leave in the scatter's result. -/
abbrev permOf (c : Dev nD) : Buf (Elt F) ((c : Thread nD τ).loc main_v21) := W1 m c (Proc.devRef .tc main_v21)

theorem W2_main_arg0 (c : Dev nD) : W2 m c (Proc.devRef .tc main_arg0) = m ((c : Thread nD τ).loc main_arg0) :=
  (W2_of_ne m c main_arg0 (by decide)).trans (hostOps_keep main_arg0 (Or.inl rfl) _)
theorem W2_main_v21 (c : Dev nD) : W2 m c (Proc.devRef .tc main_v21) = permOf m c :=
  (W2_arr m c 1).trans (((dat0 (V1 m) (Od (F := F)) (Bd (F := F)) c).arrAt_in 1 rfl _).trans (A_eq0 (V1 m) _ _ c 1))
theorem W2_main_v22 (c : Dev nD) : W2 m c (Proc.devRef .tc main_v22) = (dat0 (V1 m) (Od (F := F)) (Bd (F := F)) c).arrAt 2 cfg0.N :=
  W2_arr m c 2

theorem W3_main_arg0 (c : Dev nD) : W3 m c (Proc.devRef .tc main_arg0) = m ((c : Thread nD τ).loc main_arg0) :=
  (W3_arr m c 0).trans ((((dat1 (V2 m) (Od (F := F)) (Bd (F := F)) c).arrAt_in 0 rfl _).trans (A_eq1 (V2 m) _ _ c 0)).trans (W2_main_arg0 m c))
theorem W3_main_arg1 (c : Dev nD) : W3 m c (Proc.devRef .tc main_arg1) = m ((c : Thread nD τ).loc main_arg1) :=
  (W3_of_ne m c main_arg1 (by decide)).trans ((W2_of_ne m c main_arg1 (by decide)).trans (hostOps_keep main_arg1 (Or.inr (Or.inl rfl)) _))
theorem W3_main_arg2 (c : Dev nD) : W3 m c (Proc.devRef .tc main_arg2) = m ((c : Thread nD τ).loc main_arg2) :=
  (W3_of_ne m c main_arg2 (by decide)).trans ((W2_arr m c 0).trans
    ((((dat0 (V1 m) (Od (F := F)) (Bd (F := F)) c).arrAt_in 0 rfl _).trans (A_eq0 (V1 m) _ _ c 0)).trans (hostOps_keep main_arg2 (Or.inr (Or.inr (Or.inl rfl))) _)))
theorem W3_main_v24 (c : Dev nD) : W3 m c (Proc.devRef .tc main_v24) = m ((c : Thread nD τ).loc main_v24) :=
  (W3_of_ne m c main_v24 (by decide)).trans ((W2_of_ne m c main_v24 (by decide)).trans (hostOps_keep main_v24 (Or.inr (Or.inr (Or.inr (Or.inl rfl)))) _))
theorem W3_main_v23 (c : Dev nD) : W3 m c (Proc.devRef .tc main_v23) = (dat1 (V2 m) (Od (F := F)) (Bd (F := F)) c).arrAt 3 cfg1.N :=
  W3_arr m c 3

end Exit

end Cert.KernelIdeal.Regions

end
-- ==== Proof.Spec.lean ====
/-
  The two results as functions of the two arrays read, index by index.

  The inputs are an array `x` of shape [16, 1024, 512] and a table `e` of shape [1024, 512]; each result has
  shape [16, 1024, 4, 256].  A row of 512 entries is cut into 4 samples of 128 entries in two ways:

  * the STRIDED sampling: sample `s` takes the entries at positions `4 j + s`  (`j < 128`);
  * the BLOCKED sampling: sample `s` takes the entries at positions `128 s + j` (`j < 128`).

  In both results the last axis (256 entries) is the sample of the row `x[b, n, ·]` followed by the same sample of the
  row `e[n, ·]`: column `j < 128` is entry `j` of x's sample, column `j ≥ 128` is entry `j - 128` of e's sample.
  Nothing here uses a float operation: the definitions hold for every float instance `F`.
-/
import Idealize.ShloMosaic.Lib.ValueIdx

noncomputable section

namespace Cert.KernelIdeal.Spec

open Idealize.ShloMosaic Idealize.ShloMosaic.ValueIdx

/-- The shape of `x`. -/
abbrev ShX : Shape := ⟨3, ![16, 1024, 512]⟩
/-- The shape of the table `e`. -/
abbrev ShE : Shape := ⟨2, ![1024, 512]⟩
/-- The shape of both results. -/
abbrev ShO : Shape := ⟨4, ![16, 1024, 4, 256]⟩

variable {F : FTy → Type}

/-- Position in a row of 512 that entry `j mod 128` of the strided sample `s` is read from. -/
def stridedPos (s : Fin 4) (j : Fin 256) : Fin 512 := ⟨4 * (j.val % 128) + s.val, by omega⟩
/-- Position in a row of 512 that entry `j mod 128` of the blocked sample `s` is read from. -/
def blockedPos (s : Fin 4) (j : Fin 256) : Fin 512 := ⟨128 * s.val + j.val % 128, by omega⟩

/-- The first result at coordinates: the strided samples of `x[b, n, ·]` and of `e[n, ·]`, side by side. -/
def out1At (x : FVec F ShX .f32) (e : FVec F ShE .f32) (b : Fin 16) (n : Fin 1024) (s : Fin 4) (j : Fin 256) : F .f32 :=
  if j.val < 128 then x (ix3 b n (stridedPos s j)) else e (ix2 n (stridedPos s j))
/-- The second result at coordinates: the blocked samples of `x[b, n, ·]` and of `e[n, ·]`, side by side. -/
def out2At (x : FVec F ShX .f32) (e : FVec F ShE .f32) (b : Fin 16) (n : Fin 1024) (s : Fin 4) (j : Fin 256) : F .f32 :=
  if j.val < 128 then x (ix3 b n (blockedPos s j)) else e (ix2 n (blockedPos s j))

/-- The first result: `out1[b, n, s, j] = x[b, n, 4 j + s]` for `j < 128`, `e[n, 4 (j - 128) + s]` for `j ≥ 128`. -/
def out1 (x : FVec F ShX .f32) (e : FVec F ShE .f32) : FVec F ShO .f32 :=
  fun i => out1At x e (i 0) (i 1) (i 2) (i 3)
/-- The second result: `out2[b, n, s, j] = x[b, n, 128 s + j]` for `j < 128`, `e[n, 128 s + j - 128]` for `j ≥ 128`. -/
def out2 (x : FVec F ShX .f32) (e : FVec F ShE .f32) : FVec F ShO .f32 :=
  fun i => out2At x e (i 0) (i 1) (i 2) (i 3)

variable (x : FVec F ShX .f32) (e : FVec F ShE .f32)

theorem out1_ix4 (b : Fin 16) (n : Fin 1024) (s : Fin 4) (j : Fin 256) : out1 x e (ix4 b n s j) = out1At x e b n s j := rfl
theorem out2_ix4 (b : Fin 16) (n : Fin 1024) (s : Fin 4) (j : Fin 256) : out2 x e (ix4 b n s j) = out2At x e b n s j := rfl

/-- Left half of the first result: any spelling `k` of the position `4 j + s` will do. -/
theorem out1_of_lt (b : Fin 16) (n : Fin 1024) (s : Fin 4) (j : Fin 256) (k : Fin 512)
    (hj : j.val < 128) (hk : k.val = 4 * j.val + s.val) : out1 x e (ix4 b n s j) = x (ix3 b n k) := by
  have hk' : stridedPos s j = k := Fin.ext (by show 4 * (j.val % 128) + s.val = k.val; omega)
  rw [out1_ix4, out1At, if_pos hj, hk']
/-- Right half of the first result: any spelling `k` of the position `4 (j - 128) + s` will do. -/
theorem out1_of_ge (b : Fin 16) (n : Fin 1024) (s : Fin 4) (j : Fin 256) (k : Fin 512)
    (hj : 128 ≤ j.val) (hk : k.val + 512 = 4 * j.val + s.val) : out1 x e (ix4 b n s j) = e (ix2 n k) := by
  have hk' : stridedPos s j = k := Fin.ext (by show 4 * (j.val % 128) + s.val = k.val; omega)
  rw [out1_ix4, out1At, if_neg (by omega), hk']
/-- Left half of the second result: any spelling `k` of the position `128 s + j` will do. -/
theorem out2_of_lt (b : Fin 16) (n : Fin 1024) (s : Fin 4) (j : Fin 256) (k : Fin 512)
    (hj : j.val < 128) (hk : k.val = 128 * s.val + j.val) : out2 x e (ix4 b n s j) = x (ix3 b n k) := by
  have hk' : blockedPos s j = k := Fin.ext (by show 128 * s.val + j.val % 128 = k.val; omega)
  rw [out2_ix4, out2At, if_pos hj, hk']
/-- Right half of the second result: any spelling `k` of the position `128 s + j - 128` will do. -/
theorem out2_of_ge (b : Fin 16) (n : Fin 1024) (s : Fin 4) (j : Fin 256) (k : Fin 512)
    (hj : 128 ≤ j.val) (hk : k.val + 128 = 128 * s.val + j.val) : out2 x e (ix4 b n s j) = e (ix2 n k) := by
  have hk' : blockedPos s j = k := Fin.ext (by show 128 * s.val + j.val % 128 = k.val; omega)
  rw [out2_ix4, out2At, if_neg (by omega), hk']

end Cert.KernelIdeal.Spec

end
-- ==== Proof.TileRes.lean ====
/-
  What one vector subcore of the second result's kernel is handed and what it gives back. Tile (c, i) of the
  32 owns the 32 rows n₀ … n₀ + 31 of every batch, n₀ = 32 · (2 i + c). It reads those rows of x and of the
  embedding table — held here as a read share of each whole array, one share per tile — and writes the 16 blocks
  out[b, n₀ … n₀ + 31, ·, ·], b < 16, each held by exactly its own elements, spelt as the kernel slices it.
  Before the run the blocks hold anything; after it each holds the second result's value on its elements.
-/
import proofs.«206219_g40982577938455_cont_8to1_b_1362_29_alg».proof.Proof.Setup
import proofs.«206219_g40982577938455_cont_8to1_b_1362_29_alg».proof.Proof.Spec

noncomputable section

namespace Cert.KernelIdeal.TileBody

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (d : Dev nD) (L : grid2.Coords)

/-- The SparseCore, the vector subcore and the thread of the tile at grid coordinates `L`. -/
abbrev cV (L : grid2.Coords) : Fin τ.nSC := (L 0).castLE hcore2
abbrev jV (L : grid2.Coords) : Fin τ.nSub := (L 1).castLE hsub2
abbrev thr (d : Dev nD) (L : grid2.Coords) : Thread nD τ := V d (cV L) (jV L)

/-- The three arrays in HBM: x, the embedding table, the second result. -/
abbrev xLoc (d : Dev nD) : Loc nD τ sig := (SparseCore.T d).loc main_arg0
abbrev eLoc (d : Dev nD) : Loc nD τ sig := (SparseCore.T d).loc main_arg2
abbrev oLoc (d : Dev nD) : Loc nD τ sig := (SparseCore.T d).loc main_v24

/-- The same arrays, and the tile's two scratch arrays, as the kernel's operands. -/
abbrev xW : Memref sig .scVector .hbm S16x1024x512 .f32 := Memref.whole main_arg0_scv
abbrev eW : Memref sig .scVector .hbm S1024x512 .f32 := Memref.whole main_arg2_scv
abbrev oW : Memref sig .scVector .hbm S16x1024x4x256 .f32 := Memref.whole main_v24_scv
abbrev sA : Memref sig .scVector .vmem S2x32x512 .f32 := Memref.whole cc2_scratch0
abbrev sB : Memref sig .scVector .vmem S2x32x4x256 .f32 := Memref.whole cc2_scratch1

/-- The tile's number among the 32 of the device: subcore-major, as the kernel numbers its row blocks. -/
def tileIx (L : grid2.Coords) : Fin 32 := ⟨(L 1).val * 2 + (L 0).val, by have h0 : (L 0).val < 2 := (L 0).isLt; have h1 : (L 1).val < 16 := (L 1).isLt; omega⟩

/-- The read share of the two input arrays a tile is handed. -/
def rdShare (L : grid2.Coords) : PosShare TreeShare := Transfers.shareTok fullShare 32 (tileIx L)

/-- The block out[b, n₀ … n₀ + 31, ·, ·] of batch b, b = 0 … 15, as the copy out of the staging buffer names it. -/
abbrev oSl0 (L : grid2.Coords) : Memref sig .scVector .hbm S32x4x256 .f32 := ((oW : Memref sig .scVector .hbm S16x1024x4x256 .f32).slice (Rect.unit (s := S16x1024x4x256) (k2_off196 L) S1x32x4x256.size (k2_off196_inb L)) (fun _ => rfl)).squeeze S32x4x256 squeezes_S1x32x4x256_S32x4x256
abbrev oSl1 (L : grid2.Coords) : Memref sig .scVector .hbm S32x4x256 .f32 := ((oW : Memref sig .scVector .hbm S16x1024x4x256 .f32).slice (Rect.unit (s := S16x1024x4x256) (k2_off262 L) S1x32x4x256.size (k2_off262_inb L)) (fun _ => rfl)).squeeze S32x4x256 squeezes_S1x32x4x256_S32x4x256
abbrev oSl2 (L : grid2.Coords) : Memref sig .scVector .hbm S32x4x256 .f32 := ((oW : Memref sig .scVector .hbm S16x1024x4x256 .f32).slice (Rect.unit (s := S16x1024x4x256) (k2_off328 L) S1x32x4x256.size (k2_off328_inb L)) (fun _ => rfl)).squeeze S32x4x256 squeezes_S1x32x4x256_S32x4x256
abbrev oSl3 (L : grid2.Coords) : Memref sig .scVector .hbm S32x4x256 .f32 := ((oW : Memref sig .scVector .hbm S16x1024x4x256 .f32).slice (Rect.unit (s := S16x1024x4x256) (k2_off394 L) S1x32x4x256.size (k2_off394_inb L)) (fun _ => rfl)).squeeze S32x4x256 squeezes_S1x32x4x256_S32x4x256
abbrev oSl4 (L : grid2.Coords) : Memref sig .scVector .hbm S32x4x256 .f32 := ((oW : Memref sig .scVector .hbm S16x1024x4x256 .f32).slice (Rect.unit (s := S16x1024x4x256) (k2_off460 L) S1x32x4x256.size (k2_off460_inb L)) (fun _ => rfl)).squeeze S32x4x256 squeezes_S1x32x4x256_S32x4x256
abbrev oSl5 (L : grid2.Coords) : Memref sig .scVector .hbm S32x4x256 .f32 := ((oW : Memref sig .scVector .hbm S16x1024x4x256 .f32).slice (Rect.unit (s := S16x1024x4x256) (k2_off526 L) S1x32x4x256.size (k2_off526_inb L)) (fun _ => rfl)).squeeze S32x4x256 squeezes_S1x32x4x256_S32x4x256
abbrev oSl6 (L : grid2.Coords) : Memref sig .scVector .hbm S32x4x256 .f32 := ((oW : Memref sig .scVector .hbm S16x1024x4x256 .f32).slice (Rect.unit (s := S16x1024x4x256) (k2_off592 L) S1x32x4x256.size (k2_off592_inb L)) (fun _ => rfl)).squeeze S32x4x256 squeezes_S1x32x4x256_S32x4x256
abbrev oSl7 (L : grid2.Coords) : Memref sig .scVector .hbm S32x4x256 .f32 := ((oW : Memref sig .scVector .hbm S16x1024x4x256 .f32).slice (Rect.unit (s := S16x1024x4x256) (k2_off658 L) S1x32x4x256.size (k2_off658_inb L)) (fun _ => rfl)).squeeze S32x4x256 squeezes_S1x32x4x256_S32x4x256
abbrev oSl8 (L : grid2.Coords) : Memref sig .scVector .hbm S32x4x256 .f32 := ((oW : Memref sig .scVector .hbm S16x1024x4x256 .f32).slice (Rect.unit (s := S16x1024x4x256) (k2_off724 L) S1x32x4x256.size (k2_off724_inb L)) (fun _ => rfl)).squeeze S32x4x256 squeezes_S1x32x4x256_S32x4x256
abbrev oSl9 (L : grid2.Coords) : Memref sig .scVector .hbm S32x4x256 .f32 := ((oW : Memref sig .scVector .hbm S16x1024x4x256 .f32).slice (Rect.unit (s := S16x1024x4x256) (k2_off790 L) S1x32x4x256.size (k2_off790_inb L)) (fun _ => rfl)).squeeze S32x4x256 squeezes_S1x32x4x256_S32x4x256
abbrev oSl10 (L : grid2.Coords) : Memref sig .scVector .hbm S32x4x256 .f32 := ((oW : Memref sig .scVector .hbm S16x1024x4x256 .f32).slice (Rect.unit (s := S16x1024x4x256) (k2_off856 L) S1x32x4x256.size (k2_off856_inb L)) (fun _ => rfl)).squeeze S32x4x256 squeezes_S1x32x4x256_S32x4x256
abbrev oSl11 (L : grid2.Coords) : Memref sig .scVector .hbm S32x4x256 .f32 := ((oW : Memref sig .scVector .hbm S16x1024x4x256 .f32).slice (Rect.unit (s := S16x1024x4x256) (k2_off922 L) S1x32x4x256.size (k2_off922_inb L)) (fun _ => rfl)).squeeze S32x4x256 squeezes_S1x32x4x256_S32x4x256
abbrev oSl12 (L : grid2.Coords) : Memref sig .scVector .hbm S32x4x256 .f32 := ((oW : Memref sig .scVector .hbm S16x1024x4x256 .f32).slice (Rect.unit (s := S16x1024x4x256) (k2_off988 L) S1x32x4x256.size (k2_off988_inb L)) (fun _ => rfl)).squeeze S32x4x256 squeezes_S1x32x4x256_S32x4x256
abbrev oSl13 (L : grid2.Coords) : Memref sig .scVector .hbm S32x4x256 .f32 := ((oW : Memref sig .scVector .hbm S16x1024x4x256 .f32).slice (Rect.unit (s := S16x1024x4x256) (k2_off1054 L) S1x32x4x256.size (k2_off1054_inb L)) (fun _ => rfl)).squeeze S32x4x256 squeezes_S1x32x4x256_S32x4x256
abbrev oSl14 (L : grid2.Coords) : Memref sig .scVector .hbm S32x4x256 .f32 := ((oW : Memref sig .scVector .hbm S16x1024x4x256 .f32).slice (Rect.unit (s := S16x1024x4x256) (k2_off1120 L) S1x32x4x256.size (k2_off1120_inb L)) (fun _ => rfl)).squeeze S32x4x256 squeezes_S1x32x4x256_S32x4x256
abbrev oSl15 (L : grid2.Coords) : Memref sig .scVector .hbm S32x4x256 .f32 := ((oW : Memref sig .scVector .hbm S16x1024x4x256 .f32).slice (Rect.unit (s := S16x1024x4x256) (k2_off1185 L) S1x32x4x256.size (k2_off1185_inb L)) (fun _ => rfl)).squeeze S32x4x256 squeezes_S1x32x4x256_S32x4x256

/-- The 16 blocks of the second result, at any contents. -/
def oGo (d : Dev nD) (L : grid2.Coords) : sProp 𝕄 :=
  iprop((∃ f, oLoc d ↦[(oSl0 L).view.set]{fullShare} f)
    ∗ (∃ f, oLoc d ↦[(oSl1 L).view.set]{fullShare} f)
    ∗ (∃ f, oLoc d ↦[(oSl2 L).view.set]{fullShare} f)
    ∗ (∃ f, oLoc d ↦[(oSl3 L).view.set]{fullShare} f)
    ∗ (∃ f, oLoc d ↦[(oSl4 L).view.set]{fullShare} f)
    ∗ (∃ f, oLoc d ↦[(oSl5 L).view.set]{fullShare} f)
    ∗ (∃ f, oLoc d ↦[(oSl6 L).view.set]{fullShare} f)
    ∗ (∃ f, oLoc d ↦[(oSl7 L).view.set]{fullShare} f)
    ∗ (∃ f, oLoc d ↦[(oSl8 L).view.set]{fullShare} f)
    ∗ (∃ f, oLoc d ↦[(oSl9 L).view.set]{fullShare} f)
    ∗ (∃ f, oLoc d ↦[(oSl10 L).view.set]{fullShare} f)
    ∗ (∃ f, oLoc d ↦[(oSl11 L).view.set]{fullShare} f)
    ∗ (∃ f, oLoc d ↦[(oSl12 L).view.set]{fullShare} f)
    ∗ (∃ f, oLoc d ↦[(oSl13 L).view.set]{fullShare} f)
    ∗ (∃ f, oLoc d ↦[(oSl14 L).view.set]{fullShare} f)
    ∗ (∃ f, oLoc d ↦[(oSl15 L).view.set]{fullShare} f))

/-- What the tile is handed: its read shares of x and of the table, and its 16 blocks. -/
def tileGo (d : Dev nD) (L : grid2.Coords) : sProp 𝕄 :=
  iprop((xLoc d ↦{rdShare L} m (xLoc d)) ∗ (eLoc d ↦{rdShare L} m (eLoc d)) ∗ oGo (F := F) d L)

/-- The second result's value: row `n`, group `s`, lane `j` of batch `b` is `x[b, n, 128 s + j]` for `j < 128` and `e[n, 128 s + j - 128]` otherwise. -/
def out2Buf (d : Dev nD) : Buf (Elt F) (oLoc d) := Spec.out2 (F := F) (m (xLoc d)) (m (eLoc d))

/-- The 16 blocks, each at the second result's value on its elements. -/
def oTd (d : Dev nD) (L : grid2.Coords) : sProp 𝕄 :=
  iprop((oLoc d ↦[(oSl0 L).view.set]{fullShare} out2Buf m d)
    ∗ (oLoc d ↦[(oSl1 L).view.set]{fullShare} out2Buf m d)
    ∗ (oLoc d ↦[(oSl2 L).view.set]{fullShare} out2Buf m d)
    ∗ (oLoc d ↦[(oSl3 L).view.set]{fullShare} out2Buf m d)
    ∗ (oLoc d ↦[(oSl4 L).view.set]{fullShare} out2Buf m d)
    ∗ (oLoc d ↦[(oSl5 L).view.set]{fullShare} out2Buf m d)
    ∗ (oLoc d ↦[(oSl6 L).view.set]{fullShare} out2Buf m d)
    ∗ (oLoc d ↦[(oSl7 L).view.set]{fullShare} out2Buf m d)
    ∗ (oLoc d ↦[(oSl8 L).view.set]{fullShare} out2Buf m d)
    ∗ (oLoc d ↦[(oSl9 L).view.set]{fullShare} out2Buf m d)
    ∗ (oLoc d ↦[(oSl10 L).view.set]{fullShare} out2Buf m d)
    ∗ (oLoc d ↦[(oSl11 L).view.set]{fullShare} out2Buf m d)
    ∗ (oLoc d ↦[(oSl12 L).view.set]{fullShare} out2Buf m d)
    ∗ (oLoc d ↦[(oSl13 L).view.set]{fullShare} out2Buf m d)
    ∗ (oLoc d ↦[(oSl14 L).view.set]{fullShare} out2Buf m d)
    ∗ (oLoc d ↦[(oSl15 L).view.set]{fullShare} out2Buf m d))

/-- What the tile gives back: the read shares unchanged, the blocks written. -/
def tileTd (d : Dev nD) (L : grid2.Coords) : sProp 𝕄 :=
  iprop((xLoc d ↦{rdShare L} m (xLoc d)) ∗ (eLoc d ↦{rdShare L} m (eLoc d)) ∗ oTd m d L)

set_option synthInstance.maxHeartbeats 2000000 in
set_option synthInstance.maxSize 4096 in
instance tileGo_storable : BI.Storable (upEmb : UEmb _ 𝕄) (tileGo m d L) := by
  unfold tileGo oGo; infer_instance

set_option synthInstance.maxHeartbeats 2000000 in
set_option synthInstance.maxSize 4096 in
instance tileTd_storable : BI.Storable (upEmb : UEmb _ 𝕄) (tileTd m d L) := by
  unfold tileTd oTd; infer_instance

end Cert.KernelIdeal.TileBody
-- ==== Proof.TileSets.lean ====
/-
  The second result, cut by rows: for a batch entry b and a tile t (of 32), the block of the 32 rows
  32 t … 32 t + 31 of batch entry b, all four segments and all 256 columns. The 16 × 32 blocks are pairwise
  disjoint and cover the array: an index lies in the block of its batch entry and of the tile that owns its row.
  Tile t is vector subcore t / 2 of SparseCore t % 2.
-/
import proofs.«206219_g40982577938455_cont_8to1_b_1362_29_alg».proof.Proof.Setup

noncomputable section

namespace Cert.KernelIdeal.TileSets

open Cert.KernelIdeal Cert.KernelIdeal.Gen Cert.KernelIdeal.Setup
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

abbrev Sh : Shape := S16x1024x4x256

theorem blk_inb (b : Fin 16) (t : Fin 32) :
    ∀ a, (![b.val, 32 * t.val, 0, 0] : Fin 4 → Nat) a + (![1, 32, 4, 256] : Fin 4 → Nat) a ≤ Sh.size a := by
  intro a
  have hb := b.isLt; have ht := t.isLt
  match a with
  | 0 => show b.val + 1 ≤ 16; omega
  | 1 => show 32 * t.val + 32 ≤ 1024; omega
  | 2 => show 0 + 4 ≤ 4; omega
  | 3 => show 0 + 256 ≤ 256; omega

/-- The rows of tile `t` in batch entry `b`. -/
def blkRect (b : Fin 16) (t : Fin 32) : Rect Sh := Rect.unit ![b.val, 32 * t.val, 0, 0] ![1, 32, 4, 256] (blk_inb b t)
def blkSet (b : Fin 16) (t : Fin 32) : Finset Sh.Idx := (blkRect b t).set

theorem mem_blkSet {b : Fin 16} {t : Fin 32} {i : Sh.Idx} :
    i ∈ blkSet b t ↔ ((i 0 : ℕ) = b.val ∧ 32 * t.val ≤ (i 1 : ℕ) ∧ (i 1 : ℕ) < 32 * t.val + 32) := by
  unfold blkSet blkRect
  rw [Rect.mem_set_unit]
  constructor
  · intro h
    have h0 : b.val ≤ (i 0 : ℕ) ∧ (i 0 : ℕ) < b.val + 1 := h 0
    have h1 : 32 * t.val ≤ (i 1 : ℕ) ∧ (i 1 : ℕ) < 32 * t.val + 32 := h 1
    omega
  · intro ⟨h0, h1, h2⟩ a
    have hi2 : (i 2 : ℕ) < 4 := (i 2).isLt
    have hi3 : (i 3 : ℕ) < 256 := (i 3).isLt
    match a with
    | 0 => show b.val ≤ (i 0 : ℕ) ∧ (i 0 : ℕ) < b.val + 1; omega
    | 1 => show 32 * t.val ≤ (i 1 : ℕ) ∧ (i 1 : ℕ) < 32 * t.val + 32; omega
    | 2 => show 0 ≤ (i 2 : ℕ) ∧ (i 2 : ℕ) < 0 + 4; omega
    | 3 => show 0 ≤ (i 3 : ℕ) ∧ (i 3 : ℕ) < 0 + 256; omega

theorem blk_disjoint : ∀ p ∈ (Finset.univ : Finset (Fin 16 × Fin 32)), ∀ p' ∈ (Finset.univ : Finset (Fin 16 × Fin 32)), p ≠ p' →
    Disjoint (blkSet p.1 p.2) (blkSet p'.1 p'.2) := by
  intro p _ p' _ h
  rw [Finset.disjoint_left]
  intro i hi hi'
  rw [mem_blkSet] at hi hi'
  apply h
  have e1 : p.1.val = p'.1.val := by omega
  have e2 : p.2.val = p'.2.val := by omega
  exact Prod.ext (Fin.ext e1) (Fin.ext e2)

theorem blk_cover : (Finset.univ : Finset (Fin 16 × Fin 32)).biUnion (fun p => blkSet p.1 p.2) = Finset.univ := by
  ext i
  simp only [Finset.mem_biUnion, Finset.mem_univ, true_and, iff_true]
  have h0 : (i 0 : ℕ) < 16 := (i 0).isLt
  have h1 : (i 1 : ℕ) < 1024 := (i 1).isLt
  refine ⟨(⟨(i 0 : ℕ), h0⟩, ⟨(i 1 : ℕ) / 32, by omega⟩), ?_⟩
  rw [mem_blkSet]; dsimp only; omega

/-- Tile number of vector subcore `i` of SparseCore `c`. -/
def tileOf (c : Fin 2) (i : Fin 16) : Fin 32 := ⟨i.val * 2 + c.val, by have := c.isLt; have := i.isLt; omega⟩

theorem tileOf_inj : Function.Injective (fun p : Fin 2 × Fin 16 => tileOf p.1 p.2) := by
  intro p p' h
  have h' : p.2.val * 2 + p.1.val = p'.2.val * 2 + p'.1.val := congrArg Fin.val h
  have := p.1.isLt; have := p'.1.isLt
  exact Prod.ext (Fin.ext (by omega)) (Fin.ext (by omega))

theorem univ_tiles : (Finset.univ : Finset (Fin 32)) = (Finset.univ : Finset (Fin 2 × Fin 16)).image (fun p => tileOf p.1 p.2) := by
  ext k
  simp only [Finset.mem_univ, Finset.mem_image, true_and, true_iff]
  have := k.isLt
  exact ⟨(⟨k.val % 2, by omega⟩, ⟨k.val / 2, by omega⟩), Fin.ext (by show k.val / 2 * 2 + k.val % 2 = k.val; omega)⟩

/-- A conjunction over the 32 tiles is one over the SparseCores and, within each, its vector subcores. -/
theorem bigSep_tiles {M : Type} [URA M] (Φ : Fin 32 → sProp M) :
    bigSep Finset.univ Φ = bigSep Finset.univ fun c : Fin 2 => bigSep Finset.univ fun i : Fin 16 => Φ (tileOf c i) := by
  rw [univ_tiles, SparseCore.bigSep_image_of_injOn (fun a _ b _ h => tileOf_inj h) Φ, ← Finset.univ_product_univ, SparseCore.bigSep_product]

end Cert.KernelIdeal.TileSets

end
-- ==== Proof.TileSplit.lean ====
/-
  The TensorCore's whole arrays and the 32 tiles' holdings. A full share of x (and of the embedding table) is 32 read
  shares, one per tile, and a remainder that stays behind; the second result, held whole, is the 16 × 32 row blocks,
  each tile's 16 blocks being exactly the destinations of its 16 copies out. Handing out forgets the blocks'
  contents; taking back, every block holds the second result's value on its elements, so the whole array does.
-/
import proofs.«206219_g40982577938455_cont_8to1_b_1362_29_alg».proof.Proof.TileRes
import proofs.«206219_g40982577938455_cont_8to1_b_1362_29_alg».proof.Proof.TileSets

noncomputable section

namespace Cert.KernelIdeal.TileSplit

open Cert.KernelIdeal Cert.KernelIdeal.Gen Cert.KernelIdeal.Setup Cert.KernelIdeal.TileBody Cert.KernelIdeal.TileSets
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Each copy-out's destination is a row block -/

/-- The destination of a copy out, sliced at batch entry `b` and the tile's first row, is the tile's row block of `b`. -/
theorem set_block (L : grid2.Coords) (off : Fin 4 → Nat) (inb : ∀ a, off a + S1x32x4x256.size a ≤ S16x1024x4x256.size a) (b : Fin 16)
    (h : off = ![b.val, 64 * (L 1).val + 32 * (L 0).val, 0, 0]) :
    (((oW : Memref sig .scVector .hbm S16x1024x4x256 .f32).slice (Rect.unit (s := S16x1024x4x256) off S1x32x4x256.size inb) (fun _ => rfl)).squeeze
        S32x4x256 squeezes_S1x32x4x256_S32x4x256).view.set = blkSet b (tileIx L) := by
  have hs : (((oW : Memref sig .scVector .hbm S16x1024x4x256 .f32).slice (Rect.unit (s := S16x1024x4x256) off S1x32x4x256.size inb) (fun _ => rfl)).squeeze
        S32x4x256 squeezes_S1x32x4x256_S32x4x256).view.set = (Rect.unit (s := S16x1024x4x256) off S1x32x4x256.size inb).set := by
    show (((oW : Memref sig .scVector .hbm S16x1024x4x256 .f32).view.slice (Rect.unit (s := S16x1024x4x256) off S1x32x4x256.size inb)).reshape S32x4x256
      squeezes_S1x32x4x256_S32x4x256.numel_eq).set = _
    rw [View.set_reshape]
    show ((View.whole (main_v24_scv : Ref sig .scVector)).slice _).set = _
    rw [View.set_slice]; exact Finset.map_refl
  rw [hs]
  subst h
  ext i
  rw [Rect.mem_set_unit, mem_blkSet]
  have ht : (tileIx L).val = (L 1).val * 2 + (L 0).val := rfl
  constructor
  · intro hh
    have h0 : b.val ≤ (i 0 : ℕ) ∧ (i 0 : ℕ) < b.val + 1 := hh 0
    have h1 : 64 * (L 1).val + 32 * (L 0).val ≤ (i 1 : ℕ) ∧ (i 1 : ℕ) < 64 * (L 1).val + 32 * (L 0).val + 32 := hh 1
    omega
  · intro ⟨h0, h1, h2⟩ a
    have hi2 : (i 2 : ℕ) < 4 := (i 2).isLt
    have hi3 : (i 3 : ℕ) < 256 := (i 3).isLt
    match a with
    | 0 => show b.val ≤ (i 0 : ℕ) ∧ (i 0 : ℕ) < b.val + 1; omega
    | 1 => show 64 * (L 1).val + 32 * (L 0).val ≤ (i 1 : ℕ) ∧ (i 1 : ℕ) < 64 * (L 1).val + 32 * (L 0).val + 32; omega
    | 2 => show 0 ≤ (i 2 : ℕ) ∧ (i 2 : ℕ) < 0 + 4; omega
    | 3 => show 0 ≤ (i 3 : ℕ) ∧ (i 3 : ℕ) < 0 + 256; omega

theorem set_oSl0 (L : grid2.Coords) : (oSl0 L).view.set = blkSet 0 (tileIx L) := set_block L _ _ 0 (k2_off196_eq L)
theorem set_oSl1 (L : grid2.Coords) : (oSl1 L).view.set = blkSet 1 (tileIx L) := set_block L _ _ 1 (k2_off262_eq L)
theorem set_oSl2 (L : grid2.Coords) : (oSl2 L).view.set = blkSet 2 (tileIx L) := set_block L _ _ 2 (k2_off328_eq L)
theorem set_oSl3 (L : grid2.Coords) : (oSl3 L).view.set = blkSet 3 (tileIx L) := set_block L _ _ 3 (k2_off394_eq L)
theorem set_oSl4 (L : grid2.Coords) : (oSl4 L).view.set = blkSet 4 (tileIx L) := set_block L _ _ 4 (k2_off460_eq L)
theorem set_oSl5 (L : grid2.Coords) : (oSl5 L).view.set = blkSet 5 (tileIx L) := set_block L _ _ 5 (k2_off526_eq L)
theorem set_oSl6 (L : grid2.Coords) : (oSl6 L).view.set = blkSet 6 (tileIx L) := set_block L _ _ 6 (k2_off592_eq L)
theorem set_oSl7 (L : grid2.Coords) : (oSl7 L).view.set = blkSet 7 (tileIx L) := set_block L _ _ 7 (k2_off658_eq L)
theorem set_oSl8 (L : grid2.Coords) : (oSl8 L).view.set = blkSet 8 (tileIx L) := set_block L _ _ 8 (k2_off724_eq L)
theorem set_oSl9 (L : grid2.Coords) : (oSl9 L).view.set = blkSet 9 (tileIx L) := set_block L _ _ 9 (k2_off790_eq L)
theorem set_oSl10 (L : grid2.Coords) : (oSl10 L).view.set = blkSet 10 (tileIx L) := set_block L _ _ 10 (k2_off856_eq L)
theorem set_oSl11 (L : grid2.Coords) : (oSl11 L).view.set = blkSet 11 (tileIx L) := set_block L _ _ 11 (k2_off922_eq L)
theorem set_oSl12 (L : grid2.Coords) : (oSl12 L).view.set = blkSet 12 (tileIx L) := set_block L _ _ 12 (k2_off988_eq L)
theorem set_oSl13 (L : grid2.Coords) : (oSl13 L).view.set = blkSet 13 (tileIx L) := set_block L _ _ 13 (k2_off1054_eq L)
theorem set_oSl14 (L : grid2.Coords) : (oSl14 L).view.set = blkSet 14 (tileIx L) := set_block L _ _ 14 (k2_off1120_eq L)
theorem set_oSl15 (L : grid2.Coords) : (oSl15 L).view.set = blkSet 15 (tileIx L) := set_block L _ _ 15 (k2_off1185_eq L)

/-- A conjunction over the 16 batch entries, spelt out. -/
theorem bigSep_b {M : Type} [URA M] (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [(0 : Fin 16), 1, 2, 3, 4, 5, 6, 7, 8, 9, 10, 11, 12, 13, 14, 15] (by decide) (by decide) Φ

variable (m : (ℓ : Loc nD τ sig) → Buf (Elt F) ℓ) (d : Dev nD)

/-- An entailment of the model is one of the logic. -/
theorem toEnt {M : Type} [URA M] {A B : sProp M} (h : Idealize.SL.BI.Entails A B) : A ⊢ B := h

theorem sep_congr {M : Type} [URA M] {A A' B B' : sProp M} (h₁ : A = A') (h₂ : B = B') : iprop(A ∗ B) = iprop(A' ∗ B') := by rw [h₁, h₂]
omit m in
theorem pts_set {s s' : Finset (Idx (oLoc d))} (h : s = s') (f : Buf (Elt F) (oLoc d)) :
    (oLoc d ↦[s]{fullShare} f : sProp 𝕄) = oLoc d ↦[s']{fullShare} f := by rw [h]
omit m in
theorem ex_set {s s' : Finset (Idx (oLoc d))} (h : s = s') :
    (iprop(∃ f, oLoc d ↦[s]{fullShare} f) : sProp 𝕄) = iprop(∃ f, oLoc d ↦[s']{fullShare} f) := by rw [h]

/-- A tile's 16 written blocks, as a conjunction over the batch entries. -/
theorem oTd_eq (L : grid2.Coords) :
    oTd m d L = bigSep Finset.univ fun b : Fin 16 => (oLoc d ↦[blkSet b (tileIx L)]{fullShare} out2Buf m d : sProp 𝕄) := by
  refine Eq.trans ?_ (bigSep_b _).symm
  unfold oTd
  exact sep_congr (pts_set d (set_oSl0 L) _) (sep_congr (pts_set d (set_oSl1 L) _) (sep_congr (pts_set d (set_oSl2 L) _) (sep_congr (pts_set d (set_oSl3 L) _) (sep_congr (pts_set d (set_oSl4 L) _) (sep_congr (pts_set d (set_oSl5 L) _) (sep_congr (pts_set d (set_oSl6 L) _) (sep_congr (pts_set d (set_oSl7 L) _) (sep_congr (pts_set d (set_oSl8 L) _) (sep_congr (pts_set d (set_oSl9 L) _) (sep_congr (pts_set d (set_oSl10 L) _) (sep_congr (pts_set d (set_oSl11 L) _) (sep_congr (pts_set d (set_oSl12 L) _) (sep_congr (pts_set d (set_oSl13 L) _) (sep_congr (pts_set d (set_oSl14 L) _) (pts_set d (set_oSl15 L) _)))))))))))))))

omit m in
/-- A tile's 16 blocks at any contents, likewise. -/
theorem oGo_eq (L : grid2.Coords) :
    oGo (F := F) d L = bigSep Finset.univ fun b : Fin 16 => (iprop(∃ f, oLoc d ↦[blkSet b (tileIx L)]{fullShare} f) : sProp 𝕄) := by
  refine Eq.trans ?_ (bigSep_b _).symm
  unfold oGo
  exact sep_congr (ex_set d (set_oSl0 L)) (sep_congr (ex_set d (set_oSl1 L)) (sep_congr (ex_set d (set_oSl2 L)) (sep_congr (ex_set d (set_oSl3 L)) (sep_congr (ex_set d (set_oSl4 L)) (sep_congr (ex_set d (set_oSl5 L)) (sep_congr (ex_set d (set_oSl6 L)) (sep_congr (ex_set d (set_oSl7 L)) (sep_congr (ex_set d (set_oSl8 L)) (sep_congr (ex_set d (set_oSl9 L)) (sep_congr (ex_set d (set_oSl10 L)) (sep_congr (ex_set d (set_oSl11 L)) (sep_congr (ex_set d (set_oSl12 L)) (sep_congr (ex_set d (set_oSl13 L)) (sep_congr (ex_set d (set_oSl14 L)) (ex_set d (set_oSl15 L))))))))))))))))

theorem tileIx_coordsV (c : Fin 2) (i : Fin 16) : tileIx (coordsV c i) = tileOf c i := rfl

/-- What tile (c, i) is handed, in terms of its tile number. -/
theorem tileGo_eq (c : Fin 2) (i : Fin 16) :
    tileGo m d (coordsV c i) = (iprop((xLoc d ↦{Transfers.shareTok fullShare 32 (tileOf c i)} m (xLoc d))
      ∗ (eLoc d ↦{Transfers.shareTok fullShare 32 (tileOf c i)} m (eLoc d))
      ∗ bigSep Finset.univ fun b : Fin 16 => iprop(∃ f, oLoc d ↦[blkSet b (tileOf c i)]{fullShare} f)) : sProp 𝕄) := by
  unfold tileGo; rw [oGo_eq, tileIx_coordsV]; rfl

/-- What tile (c, i) gives back, likewise. -/
theorem tileTd_eq (c : Fin 2) (i : Fin 16) :
    tileTd m d (coordsV c i) = (iprop((xLoc d ↦{Transfers.shareTok fullShare 32 (tileOf c i)} m (xLoc d))
      ∗ (eLoc d ↦{Transfers.shareTok fullShare 32 (tileOf c i)} m (eLoc d))
      ∗ bigSep Finset.univ fun b : Fin 16 => oLoc d ↦[blkSet b (tileOf c i)]{fullShare} out2Buf m d) : sProp 𝕄) := by
  unfold tileTd; rw [oTd_eq, tileIx_coordsV]; rfl

/-- A conjunction over the tiles of triples is the triple of the conjunctions. -/
theorem bigSep_tiles3 {M : Type} [URA M] (X E O : Fin 2 → Fin 16 → sProp M) :
    (bigSep Finset.univ fun c => bigSep Finset.univ fun i => iprop(X c i ∗ E c i ∗ O c i))
      = iprop((bigSep Finset.univ fun c => bigSep Finset.univ fun i => X c i) ∗ (bigSep Finset.univ fun c => bigSep Finset.univ fun i => E c i)
        ∗ (bigSep Finset.univ fun c => bigSep Finset.univ fun i => O c i)) := by
  simp only [bigSep_sep']

/-! ## The second result, whole and in blocks -/

/-- The second result held whole is its 16 × 32 row blocks, grouped by tile. -/
theorem o_blocks (f : Buf (Elt F) (oLoc d)) :
    (oLoc d ↦{fullShare} f : sProp 𝕄)
      = bigSep Finset.univ fun c : Fin 2 => bigSep Finset.univ fun i : Fin 16 => bigSep Finset.univ fun b : Fin 16 =>
          (oLoc d ↦[blkSet b (tileOf c i)]{fullShare} f : sProp 𝕄) := by
  have e1 : (oLoc d ↦{fullShare} f : sProp 𝕄) = bigSep (Finset.univ : Finset (Fin 16 × Fin 32)) fun p => oLoc d ↦[blkSet p.1 p.2]{fullShare} f := by
    rw [← pointsTo_biUnion Finset.univ (ℓ := oLoc d) (fun p : Fin 16 × Fin 32 => blkSet p.1 p.2) blk_disjoint, blk_cover]; try rfl
  rw [e1, bigSep_univ_prod, bigSep_univ_comm, bigSep_tiles]

/-! ## Handing out and taking back -/

/-- What stays with the TensorCore while the tiles run: the remainders of the two read-shared arrays. -/
def rest : sProp 𝕄 :=
  iprop((xLoc d ↦{Transfers.shareDrop fullShare 32} m (xLoc d)) ∗ (eLoc d ↦{Transfers.shareDrop fullShare 32} m (eLoc d)))

/-- A full share of an array as the remainder and the tiles' read shares, grouped by SparseCore. -/
theorem shares_split (ℓ : Loc nD τ sig) (f : Buf (Elt F) ℓ) :
    (ℓ ↦{fullShare} f : sProp 𝕄) ⊢ iprop((ℓ ↦{Transfers.shareDrop fullShare 32} f)
      ∗ bigSep Finset.univ fun c : Fin 2 => bigSep Finset.univ fun i : Fin 16 => ℓ ↦{Transfers.shareTok fullShare 32 (tileOf c i)} f) := by
  refine (Transfers.pointsTo_toks_split fullShare 32).trans ?_
  rw [bigSep_tiles] <;> try exact BI.Entails.refl _

theorem shares_join (ℓ : Loc nD τ sig) (f : Buf (Elt F) ℓ) :
    iprop((ℓ ↦{Transfers.shareDrop fullShare 32} f)
      ∗ bigSep Finset.univ fun c : Fin 2 => bigSep Finset.univ fun i : Fin 16 => ℓ ↦{Transfers.shareTok fullShare 32 (tileOf c i)} f) ⊢ (ℓ ↦{fullShare} f : sProp 𝕄) := by
  refine BI.Entails.trans ?_ (Transfers.pointsTo_toks_join fullShare 32)
  rw [bigSep_tiles] <;> try exact BI.Entails.refl _

/-- The three arrays, held whole by the TensorCore, dealt to the 32 tiles. -/
theorem split_tiles :
    iprop((xLoc d ↦{fullShare} m (xLoc d)) ∗ (eLoc d ↦{fullShare} m (eLoc d)) ∗ (∃ f, oLoc d ↦{fullShare} f))
      ⊢ (iprop((bigSep Finset.univ fun c : Fin 2 => bigSep Finset.univ fun i : Fin 16 => tileGo m d (coordsV c i)) ∗ rest m d) : sProp 𝕄) := by
  rw [bigSep_congr fun c _ => bigSep_congr fun i _ => tileGo_eq m d c i, bigSep_tiles3]
  iintro ⟨Hx, He, %f, Ho⟩
  ihave Hx' := (shares_split (F := F) (xLoc d) _) $$ Hx
  icases Hx' with ⟨Hxr, Hxs⟩
  ihave He' := (shares_split (F := F) (eLoc d) _) $$ He
  icases He' with ⟨Her, Hes⟩
  ihave Ho' := (Entails.of_eq (o_blocks (F := F) d f)) $$ Ho
  isplitr [Hxr Her]
  · isplitl [Hxs]; · iexact Hxs
    isplitl [Hes]; · iexact Hes
    have hex : ∀ (c : Fin 2) (i : Fin 16) (b : Fin 16),
        (oLoc d ↦[blkSet b (tileOf c i)]{fullShare} f : sProp 𝕄) ⊢ iprop(∃ f, oLoc d ↦[blkSet b (tileOf c i)]{fullShare} f) := fun c i b => by
      iintro H; iexists f; iexact H
    have hmono : (bigSep Finset.univ fun c : Fin 2 => bigSep Finset.univ fun i : Fin 16 => bigSep Finset.univ fun b : Fin 16 =>
          (oLoc d ↦[blkSet b (tileOf c i)]{fullShare} f : sProp 𝕄))
        ⊢ bigSep Finset.univ fun c : Fin 2 => bigSep Finset.univ fun i : Fin 16 => bigSep Finset.univ fun b : Fin 16 =>
          (iprop(∃ f, oLoc d ↦[blkSet b (tileOf c i)]{fullShare} f) : sProp 𝕄) :=
      toEnt (bigSep_mono fun c _ => bigSep_mono fun i _ => bigSep_mono fun b _ => hex c i b)
    iapply hmono; iexact Ho'
  · unfold rest; isplitl [Hxr] <;> iassumption

/-- What the 32 tiles give back, with what stayed behind: the three arrays whole, the second result at its value. -/
theorem join_tiles :
    (iprop((bigSep Finset.univ fun c : Fin 2 => bigSep Finset.univ fun i : Fin 16 => tileTd m d (coordsV c i)) ∗ rest m d) : sProp 𝕄)
      ⊢ iprop((xLoc d ↦{fullShare} m (xLoc d)) ∗ (eLoc d ↦{fullShare} m (eLoc d)) ∗ (oLoc d ↦{fullShare} out2Buf m d)) := by
  rw [bigSep_congr fun c _ => bigSep_congr fun i _ => tileTd_eq m d c i, bigSep_tiles3]
  unfold rest
  iintro ⟨⟨Hxs, Hes, Hos⟩, Hxr, Her⟩
  isplitl [Hxs Hxr]
  · iapply (shares_join (F := F) (xLoc d) _); isplitl [Hxr] <;> iassumption
  isplitl [Hes Her]
  · iapply (shares_join (F := F) (eLoc d) _); isplitl [Her] <;> iassumption
  rw [o_blocks]; iexact Hos

end Cert.KernelIdeal.TileSplit

end
-- ==== Proof.Payload.lean ====
/-
  What the launch handshakes carry, and the launch theorem's two obligations about the vector-subcore kernel. The one
  SparseCore call hands SparseCore c its 16 tiles' holdings and takes them back written; a tile's task is handed that
  tile's holdings; nothing of the launch's is consumed by the kernel (its copies are local). The task's obligation is
  the tile's body under the kernel's label; the split of a SparseCore's operands among its tasks is the identity.
-/
import proofs.«206219_g40982577938455_cont_8to1_b_1362_29_alg».proof.Proof.TileRes

noncomputable section

namespace Cert.KernelIdeal.Payload

open Cert.KernelIdeal Cert.KernelIdeal.Gen Cert.KernelIdeal.Setup Cert.KernelIdeal.TileBody
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- Tile (c, i) of the call's grid, as grid coordinates. -/
abbrev tileAt (c : Fin ((K (F := F)).nCore 0)) (i : Fin ((K (F := F)).nSub 0)) : grid2.Coords :=
  coordsV (Fin.cast (nCore_zero (F := F)) c) (Fin.cast (nSub_zero (F := F)) i)

/-- The one call's payloads. -/
def P : (K (F := F)).Pay (nD := nD) (Val := Elt F) (Name := ℕ) (U := UU) where
  st := fun q d c => match q with | 0 => bigSep Finset.univ fun i : Fin ((K (F := F)).nSub 0) => tileGo m d (tileAt (F := F) c i)
  dn := fun q d c => match q with | 0 => bigSep Finset.univ fun i : Fin ((K (F := F)).nSub 0) => tileTd m d (tileAt (F := F) c i)
  go := fun q d c i => match q with | 0 => tileGo m d (tileAt (F := F) c i)
  td := fun q d c i => match q with | 0 => tileTd m d (tileAt (F := F) c i)
  x := fun _ _ => iprop(emp)

theorem P_x : (P (F := F) m).x = fun _ _ => iprop(emp) := rfl

instance P_storable : (P (F := F) m).IsStorable where
  st q d c := match q with
    | 0 => (inferInstance : BI.Storable (upEmb : UEmb _ 𝕄) (bigSep Finset.univ fun i : Fin ((K (F := F)).nSub 0) => tileGo m d (tileAt (F := F) c i)))
  dn q d c := match q with
    | 0 => (inferInstance : BI.Storable (upEmb : UEmb _ 𝕄) (bigSep Finset.univ fun i : Fin ((K (F := F)).nSub 0) => tileTd m d (tileAt (F := F) c i)))
  go q d c i := match q with
    | 0 => (inferInstance : BI.Storable (upEmb : UEmb _ 𝕄) (tileGo m d (tileAt (F := F) c i)))
  td q d c i := match q with
    | 0 => (inferInstance : BI.Storable (upEmb : UEmb _ 𝕄) (tileTd m d (tileAt (F := F) c i)))

/-- A SparseCore's operands are its tasks' operands, and its results its tasks' results. -/
theorem vecSplit : (K (F := F)).VecSplit' (P m) 0 := by
  intro d c
  show (bigSep Finset.univ fun i : Fin ((K (F := F)).nSub 0) => tileGo m d (tileAt (F := F) c i))
    ⊢ |={Set.univ}=> iprop((bigSep Finset.univ fun i : Fin ((K (F := F)).nSub 0) => tileGo m d (tileAt (F := F) c i))
      ∗ ((bigSep Finset.univ fun i : Fin ((K (F := F)).nSub 0) => tileTd m d (tileAt (F := F) c i))
          -∗ (bigSep Finset.univ fun i : Fin ((K (F := F)).nSub 0) => tileTd m d (tileAt (F := F) c i))))
  iintro H; imodintro
  isplitl [H]; · iexact H
  iintro H'; iexact H'

omit m in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F]

/-- The statement of a tile's body: from the tile's holdings and its scoped storage to its holdings written. -/
def TileBodyHolds : Prop :=
  ∀ (d : Dev nD) (L : grid2.Coords) (O : CellTallies nD τ sig (HIx 1)) (W : Waits sig (HIx 1)), (∀ g, O g none = 0) →
    iprop(levAts (K (F := F)).L (K (F := F)).lev ∗ emp ∗ tileGo m d L ∗ scopedBufs (thr d L) ∗ scopedSems0 (thr d L) ∗ owes (thr d L) O W)
      ⊢ wp frame (wpE (defs₀ (F := F)) 𝒱₀ (thr d L) none) Set.univ
          (cc2_k L xW (Memref.isWhole_whole _) eW (Memref.isWhole_whole _) oW (Memref.isWhole_whole _) sA (Memref.isWhole_whole _) sB (Memref.isWhole_whole _)
            cc2_scratch2 cc2_scratch3 cc2_scoped0)
          fun _ => (iprop(tileTd m d L ∗ scopedBufs (thr d L) ∗ scopedSems0 (thr d L) ∗ ∃ W', ⌜∀ p ∈ W', p ∈ W ∨ p.2 = none⌝ ∗ owes (thr d L) O W') : sProp 𝕄)

/-- The task's obligation at the one call, from the tile's body. -/
theorem tileObl (hbody : TileBodyHolds (F := F) m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

end Cert.KernelIdeal.Payload

end
-- ==== Proof.LaunchElem.lean ====
/-
  The launch element of the ghost state. The handshakes' component starts at the launch theorem's own element; the
  pipelines' component funds, for every device and each of the two TensorCore pipelines, its staging cells' round
  state and duty tokens, which is what @main starts from on that device; the counters' component is the unit (the
  tiles' copies are all local, each waited by the tile that issued it, so nothing of it is dealt at launch).
-/
import proofs.«206219_g40982577938455_cont_8to1_b_1362_29_alg».proof.Proof.Setup
import proofs.«206219_g40982577938455_cont_8to1_b_1362_29_alg».proof.Proof.Gen.KernelIdeal.Launch

noncomputable section

namespace Cert.KernelIdeal.LaunchElem

open Cert.KernelIdeal Cert.KernelIdeal.Gen Cert.KernelIdeal.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- A conjunction over the two pipelines, spelt out. -/
theorem bigSep_two {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- What @main's proof starts from on device `d`: both pipelines' staging cells' round state and their duty tokens. -/
def G (d : Dev nD) : sProp 𝕄 :=
  iprop((bigSep Finset.univ fun p : Fin 2 => Pipeline.cellsGhost cfgs (EP (F := F)) p d)
    ∗ (bigSep Finset.univ fun p : Fin 2 => Pipeline.toksInit cfgs (EP (F := F)) p d))

/-- The same, pipeline by pipeline. -/
theorem G_eq (d : Dev nD) :
    G (F := F) d = iprop((Pipeline.cellsGhost cfgs (EP (F := F)) 0 d ∗ Pipeline.cellsGhost cfgs (EP (F := F)) 1 d)
      ∗ (Pipeline.toksInit cfgs (EP (F := F)) 0 d ∗ Pipeline.toksInit cfgs (EP (F := F)) 1 d)) := by
  unfold G; rw [bigSep_two, bigSep_two]

/-- The launch element: the handshakes' rounds, the pipelines' cells and tokens, no counter. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

theorem bigSep_emp' {I : Type} (s : Finset I) : (bigSep s fun _ => iprop(emp)) = (iprop(emp) : sProp 𝕄) := bigSep_emp_const s

/-- From the launch element: the handshakes' element, every device's start for @main, and nothing for the kernels'
    own (a payload record whose `x` is empty). -/
theorem hu₀ (P : (K (F := F)).Pay (nD := nD) (Val := Elt F) (Name := ℕ) (U := UU)) (hx : P.x = fun _ _ => iprop(emp)) :
    (ownU (u₀ (F := F)) : sProp 𝕄)
      ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 1 => P.x q thr) := by
  unfold u₀
  iintro Hu
  ihave H := (ownU_pair _ _) $$ Hu
  icases H with ⟨HH, HR⟩
  ihave H2 := (own_pair_emb embR _ _) $$ HR
  icases H2 with ⟨HP, -⟩
  have hEP : ∀ a : UK, (BI.own (((Emb.inl : Emb UK (UK × Counters)).trans (embR (A := UH))) a) : sProp 𝕄) = BI.own (EP (F := F) a) := fun _ => rfl
  ihave HP' := (Entails.of_eq (hEP _)) $$ HP
  imod (Pipeline.fund_ghost cfgs (EP (F := F)) cellOf_inj) $$ HP' with ⟨Hc, Ht⟩
  imodintro
  isplitl [HH]; · iexact HH
  isplitl [Hc Ht]
  · unfold G; rw [bigSep_sep']
    isplitl [Hc]; · iexact Hc
    iexact Ht
  rw [hx]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.LaunchElem

end
-- ==== Proof.Final.lean ====
/-
  How the claim is read off the final memory: what @main leaves on each TensorCore is its three argument arrays at
  their launch contents and the two results at named contents; each is a fact about the final memory because the
  state interpretation agrees with every points-to held.
-/
import proofs.«206219_g40982577938455_cont_8to1_b_1362_29_alg».proof.Proof.Setup

noncomputable section

namespace Cert.KernelIdeal.Final

open Cert.KernelIdeal Cert.KernelIdeal.Gen Cert.KernelIdeal.Setup
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- A TensorCore array of device `d`. -/
abbrev aLoc (d : Dev nD) (b : Ref sig .tc) : Loc nD τ sig := (SparseCore.T d).loc b

/-- An array held whole agrees with the memory of the state it is held in, and the state is kept. -/
theorem read_keep (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

variable (m : (ℓ : Loc nD τ sig) → Buf (Elt F) ℓ)
  (r1 : (d : Dev nD) → Buf (Elt F) (aLoc d main_v23)) (r2 : (d : Dev nD) → Buf (Elt F) (aLoc d main_v24))

/-- What @main leaves on device `d`: the arguments at their launch contents, the results at `r1 d`, `r2 d`. -/
def FIN (d : Dev nD) : sProp 𝕄 :=
  iprop((aLoc d main_arg0 ↦{fullShare} m (aLoc d main_arg0)) ∗ (aLoc d main_arg1 ↦{fullShare} m (aLoc d main_arg1))
    ∗ (aLoc d main_arg2 ↦{fullShare} m (aLoc d main_arg2)) ∗ (aLoc d main_v23 ↦{fullShare} r1 d) ∗ (aLoc d main_v24 ↦{fullShare} r2 d))

/-- The same as facts about a final state. -/
def fq (d : Dev nD) (s' : Phys nD τ sig (Elt F)) : Prop :=
  s'.mem.mem (aLoc d main_v23) = r1 d ∧ s'.mem.mem (aLoc d main_v24) = r2 d
    ∧ s'.mem.mem (aLoc d main_arg0) = m (aLoc d main_arg0) ∧ s'.mem.mem (aLoc d main_arg1) = m (aLoc d main_arg1)
    ∧ s'.mem.mem (aLoc d main_arg2) = m (aLoc d main_arg2)

theorem hfin (d : Dev nD) (s' : Phys nD τ sig (Elt F)) : iprop(FIN m r1 r2 d ∗ SI s') ⊢ (⌜fq m r1 r2 d s'⌝ : sProp 𝕄) := by
  unfold FIN
  iintro ⟨⟨H0, H1, H2, H3, H4⟩, HSI⟩
  ihave A := (read_keep s' _ _) $$ [HSI H0]
  · isplitl [HSI] <;> iassumption
  icases A with ⟨%h0, HSI⟩
  ihave A := (read_keep s' _ _) $$ [HSI H1]
  · isplitl [HSI] <;> iassumption
  icases A with ⟨%h1, HSI⟩
  ihave A := (read_keep s' _ _) $$ [HSI H2]
  · isplitl [HSI] <;> iassumption
  icases A with ⟨%h2, HSI⟩
  ihave A := (read_keep s' _ _) $$ [HSI H3]
  · isplitl [HSI] <;> iassumption
  icases A with ⟨%h3, HSI⟩
  ihave A := (read_keep s' _ _) $$ [HSI H4]
  · isplitl [HSI] <;> iassumption
  icases A with ⟨%h4, -⟩
  ipureintro; exact ⟨h3, h4, h0, h1, h2⟩

/-- The post of the whole run: on every device the results at their named contents and the arguments unchanged. -/
def QC : PUnit × MemSt nD τ sig (Elt F) → Prop := fun r => ∀ c : Dev nD,
  r.2.mem (aLoc c main_v23) = r1 c ∧ r.2.mem (aLoc c main_v24) = r2 c
    ∧ r.2.mem (aLoc c main_arg0) = m (aLoc c main_arg0) ∧ r.2.mem (aLoc c main_arg1) = m (aLoc c main_arg1)
    ∧ r.2.mem (aLoc c main_arg2) = m (aLoc c main_arg2)

theorem hQ (s' : Phys nD τ sig (Elt F)) (h : ∀ d, fq m r1 r2 d s') : QC m r1 r2 (⟨⟩, s'.mem) := h

end Cert.KernelIdeal.Final

end
-- ==== Proof.RunShape.lean ====
/-
  The launch theorem applied: from the tile's body and @main's proof on each TensorCore, every weakly fair execution
  of the whole family of threads terminates with, on every device, the two results at named contents and the three
  arguments unchanged.
-/
import proofs.«206219_g40982577938455_cont_8to1_b_1362_29_alg».proof.Proof.Payload
import proofs.«206219_g40982577938455_cont_8to1_b_1362_29_alg».proof.Proof.LaunchElem
import proofs.«206219_g40982577938455_cont_8to1_b_1362_29_alg».proof.Proof.Final

noncomputable section

namespace Cert.KernelIdeal.RunShape

open Cert.KernelIdeal Cert.KernelIdeal.Gen Cert.KernelIdeal.Setup Cert.KernelIdeal.TileBody Cert.KernelIdeal.Payload
  Cert.KernelIdeal.LaunchElem Cert.KernelIdeal.Final
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (g : Dev nD → PrngReg)
  (r1 : (d : Dev nD) → Buf (Elt F) (aLoc d main_v23)) (r2 : (d : Dev nD) → Buf (Elt F) (aLoc d main_v24))

/-- The statement of @main's proof on the TensorCore of each device. -/
def MainHolds : Prop :=
  ∀ (κ : GSem nD τ sig → ℕ) (d : Dev nD),
    iprop((K (F := F)).ctx EH (P m) κ ∗ (K (F := F)).tcSt EH d 0 ∗ (K (F := F)).tcRes m g d ∗ G (F := F) d)
      ⊢ wp frame (wpE ((K (F := F)).defs (D (F := F))) 𝒱 (SparseCore.T d) none) Set.univ (main d)
          fun _ => (iprop((K (F := F)).tcSt EH d 1 ∗ FIN m r1 r2 d) : sProp 𝕄)

/-- The whole program's run. -/
theorem run_main [∀ e, Nonempty (Elt F e)] (hbody : TileBodyHolds (F := F) m) (hmain : MainHolds m g r1 r2) :
    θ_run (Cert.KernelIdeal.defs (F := F)) (Cert.KernelIdeal.threads (F := F)) ⟨m, fun _ => 0, g⟩ (QC m r1 r2) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m g main (fun d => G (F := F) d) (FIN m r1 r2) (u₀ (F := F)) (sep_elim_left.trans (hu₀ (P m) (P_x m))) hmain (fq m r1 r2) (hfin m r1 r2)
    (QC m r1 r2) (hQ m r1 r2)

end Cert.KernelIdeal.RunShape

end
-- ==== Proof.MainRun.lean ====
/-
  @main on a device's TensorCore: the host operations and the two TensorCore regions leave every unscoped buffer at a
  known valuation, in which the three arguments and the second result's array are as at launch and the first result
  holds the regions' value; then the one SparseCore call: x, the embedding table and the second result's array are
  dealt to the 32 tiles, the call runs, and what the tiles give back is the three arrays whole, the second result at
  its value. What is left is the five arrays the claim speaks of.
-/
import proofs.«206219_g40982577938455_cont_8to1_b_1362_29_alg».proof.Proof.RegionRun
import proofs.«206219_g40982577938455_cont_8to1_b_1362_29_alg».proof.Proof.TileSplit
import proofs.«206219_g40982577938455_cont_8to1_b_1362_29_alg».proof.Proof.RunShape

noncomputable section

namespace Cert.KernelIdeal.MainRun

open Cert.KernelIdeal Cert.KernelIdeal.Gen Cert.KernelIdeal.Setup Cert.KernelIdeal.TileBody Cert.KernelIdeal.Payload
  Cert.KernelIdeal.LaunchElem Cert.KernelIdeal.Final Cert.KernelIdeal.TileSplit Cert.KernelIdeal.RunShape
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)

variable {F : FTy → Type} [FloatOps F]

local notation "𝕄" => MT nD τ sig (HIx 1) (Elt F) ℕ UU ℕ

variable (m : (ℓ : Loc nD τ sig) → Buf (Elt F) ℓ) (g : Dev nD → PrngReg)

/-! ## The five arrays of the claim among the TensorCore's buffers -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v23' : DevRef τ sig := Proc.devRef .tc (main_v23 : Ref sig .tc)
abbrev v24' : DevRef τ sig := Proc.devRef .tc (main_v24 : Ref sig .tc)
abbrev S5 : Finset (DevRef τ sig) := {a0', a1', a2', v23', v24'}

theorem S5_sub : S5 ⊆ Pipeline.ucRefs τ sig := by decide

omit [FloatOps F] in
theorem held_S5 (d : Dev nD) (W : Valuation τ sig (Elt F)) :
    (held (T d) S5 W : sProp 𝕄) = iprop((aLoc d main_arg0 ↦{fullShare} W a0') ∗ (aLoc d main_arg1 ↦{fullShare} W a1') ∗ (aLoc d main_arg2 ↦{fullShare} W a2')
      ∗ (aLoc d main_v23 ↦{fullShare} W v23') ∗ (aLoc d main_v24 ↦{fullShare} W v24')) := by
  unfold held S5
  rw [SparseCore.bigSep_insert' (by decide), SparseCore.bigSep_insert' (by decide), SparseCore.bigSep_insert' (by decide), SparseCore.bigSep_insert' (by decide), bigSep_singleton]

/-- The two results' contents when @main ends. -/
def r1 (d : Dev nD) : Buf (Elt F) (aLoc d main_v23) := Regions.W3 m d v23'
def r2 (d : Dev nD) : Buf (Elt F) (aLoc d main_v24) := out2Buf m d

/-- What the call takes for the two SparseCores is the 32 tiles' holdings, and likewise what it hands back. -/
theorem st0_eq (d : Dev nD) :
    (bigSep Finset.univ fun c : Fin ((K (F := F)).nCore 0) => (P m).st 0 d c)
      = (bigSep Finset.univ fun c : Fin 2 => bigSep Finset.univ fun i : Fin 16 => tileGo m d (coordsV c i) : sProp 𝕄) := rfl
theorem dn0_eq (d : Dev nD) :
    (bigSep Finset.univ fun c : Fin ((K (F := F)).nCore 0) => (P m).dn 0 d c)
      = (bigSep Finset.univ fun c : Fin 2 => bigSep Finset.univ fun i : Fin 16 => tileTd m d (coordsV c i) : sProp 𝕄) := rfl

/-- The TensorCore's handshake state before the call, beyond what it owes: its position on its `done` cell, the rounds
    reached, and the start duties' tokens and credit. -/
def tcTail (d : Dev nD) : sProp 𝕄 :=
  iprop(atPos (EH (F := F)) ((K (F := F)).doneCell d) 0 ∅ 0 ∗ reached (EH (F := F)) ((K (F := F)).doneCell d) 0
    ∗ (bigSep Finset.univ fun c : Fin τ.nSC => reached (EH (F := F)) ((K (F := F)).startCell d c) ((K (F := F)).sRank c 0))
    ∗ bigSep (SparseCore.Cfg.callsFrom (Q := 1) 0) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))

omit [FloatOps F] in
theorem tcSt0_eq (d : Dev nD) : ((K (F := F)).tcSt EH d 0 : sProp 𝕄) = iprop(Regions.Rr (F := F) d ∗ tcTail (F := F) d) := by
  unfold SparseCore.Cfg.tcSt; rfl
omit [FloatOps F] in
theorem tcSt_q0 (d : Dev nD) : ((K (F := F)).tcSt EH d ((0 : Fin 1) : ℕ) : sProp 𝕄) = (K (F := F)).tcSt EH d 0 := rfl
omit [FloatOps F] in
theorem tcSt_q1 (d : Dev nD) : ((K (F := F)).tcSt EH d (((0 : Fin 1) : ℕ) + 1) : sProp 𝕄) = (K (F := F)).tcSt EH d 1 := rfl

set_option backward.isDefEq.respectTransparency.types false in
theorem hmain : MainHolds m g (r1 m) (r2 m) := by
  intro κ d
  unfold SparseCore.Cfg.tcRes
  rw [Pipeline.unscopedBufs_held d (Regions.W0 m d), G_eq]
  rw [tcSt0_eq]
  iintro ⟨#Hctx, ⟨HO, Hrest⟩, ⟨Hb, Hheld, Hsems, Hprng⟩, ⟨Hc0, Hc1⟩, ⟨Ht0, Ht1⟩⟩
  iapply (Regions.wp_main_tc (F := F) m (P := P m) κ d) $$ [Hb Hheld HO Hc0 Hc1 Ht0 Ht1 Hrest]
  isplitr; · iexact Hctx
  isplitl [Hb]; · iexact Hb
  isplitl [Hheld]; · iexact Hheld
  isplitl [HO]; · iexact HO
  isplitl [Hc0 Hc1 Ht0 Ht1]
  · isplitl [Hc0 Ht0]
    · isplitl [Hc0] <;> iassumption
    · isplitl [Hc1] <;> iassumption
  rw [held_sub_split (c := T d) S5_sub (Regions.W3 m d), held_S5, Regions.W3_main_arg0, Regions.W3_main_arg1, Regions.W3_main_arg2, Regions.W3_main_v24]
  iintro ⟨Hb, ⟨⟨H0, H1, H2, H23, H24⟩, -⟩, HO⟩
  simp only [wp_bind, wp_pure]
  ihave Hsp := (split_tiles (F := F) m d) $$ [H0 H2 H24]
  · isplitl [H0]; · iexact H0
    isplitl [H2]; · iexact H2
    iexists _; iexact H24
  icases Hsp with ⟨Hgo, Hrst⟩
  iapply ((K (F := F)).wp_run (D (F := F)) 𝒱 (EH := EH) (P := P m) κ d 0) $$ [HO Hrest Hgo H1 H23 Hrst]
  isplitr; · iexact Hctx
  isplitl [HO Hrest]
  · rw [tcSt_q0, tcSt0_eq]; isplitl [HO] <;> iassumption
  isplitl [Hgo]
  · rw [st0_eq]; iexact Hgo
  rw [tcSt_q1]
  iintro ⟨Hst, Hdn⟩
  ihave Hdn' := (Entails.of_eq (dn0_eq (F := F) m d)) $$ Hdn
  ihave Hj := (join_tiles (F := F) m d) $$ [Hdn' Hrst]
  · isplitl [Hdn'] <;> iassumption
  icases Hj with ⟨H0, H2, H24⟩
  imodintro
  isplitl [Hst]; · iexact Hst
  unfold FIN r1 r2
  isplitl [H0]; · iexact H0
  isplitl [H1]; · iexact H1
  isplitl [H2]; · iexact H2
  isplitl [H23]; · iexact H23
  iexact H24

end Cert.KernelIdeal.MainRun

end
-- ==== Proof.RegionValue.lean ====
/-
  The two TensorCore regions' results in closed form: region 0's output array is the body's matrix product of the
  arrays it reads; region 1's output array at (b, n, s, j) is the payload of store s over batch b's rows, read at
  (0, n, 0, j) — from the blocks the windows stage (every index map decided over the grid) and the stores as pieces.
-/
import proofs.«206219_g40982577938455_cont_8to1_b_1362_29_alg».proof.Proof.RegionBody
import Idealize.ShloMosaic.Lib.Pipeline.Value
import Idealize.ShloMosaic.Lib.ValueIdx

set_option maxRecDepth 16384

noncomputable section

namespace Cert.KernelIdeal.Regions

open Cert.KernelIdeal Cert.KernelIdeal.Gen Cert.KernelIdeal.Setup
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 1) (Elt F) ℕ UU ℕ

open Idealize.ShloMosaic.ValueIdx (ix2 ix3 ix4 eq_ix4)

/-! # The regions' results in closed form -/

section Values

variable (V : (c : Dev nD) → (b : Ref sig .tc) → Buf (Elt F) ((c : Thread nD τ).loc b))
variable (O : Dev nD → CellTallies nD τ sig (HIx 1)) (B : Dev nD → Set (SemLoc sig × HIx 1))

theorem hz2 : (![0, 0] : Fin 2 → Nat) = fun _ => 0 := funext fun a => by fin_cases a <;> rfl
theorem hz3 : (![0, 0, 0] : Fin 3 → Nat) = fun _ => 0 := funext fun a => by fin_cases a <;> rfl

/-! ## Region 0 -/

/-- Region 0's result: the product of the node embedding and the permutation matrix, as the body computes it. -/
def R0 (e : Vec F S1024x512 .f32) (pm : Vec F S512x512 .f32) : Vec F S1024x512 .f32 := k0_pay1 e pm

theorem out0_2_eq (x0 : Vec F S1024x512 .f32) (x1 : Vec F S512x512 .f32) : out0_2 x0 x1 = R0 x0 x1 := by
  unfold out0_2 R0
  rw [View.canon_unit_zero hz2]
  simp only [View.ld_unit_zero (S := S1024x512) hz2, View.ld_unit_zero (S := S512x512) hz2]

/-- Every window of region 0 sits at block index zero on both axes, at the grid's one point. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem iblk0_0_eq (c : Dev nD) (t : Fin cfg0.N) : iblk0 V c 0 t = V c main_arg2 := by
  obtain ⟨e0, e1, e2, e3, e4, e5⟩ := idx_facts0 t
  funext j
  show V c main_arg2 (((cfg0.win 0).blk t).view.emb j) = V c main_arg2 j
  congr 1
  funext a; apply Fin.ext
  match a with
  | ⟨0, _⟩ => show win0_0.index t (0 : Fin 2) * 1024 + 1 * (j 0).val = (j 0).val; omega
  | ⟨1, _⟩ => show win0_0.index t (1 : Fin 2) * 512 + 1 * (j 1).val = (j 1).val; omega

theorem iblk0_1_eq (c : Dev nD) (t : Fin cfg0.N) : iblk0 V c 1 t = V c main_v21 := by
  obtain ⟨e0, e1, e2, e3, e4, e5⟩ := idx_facts0 t
  funext j
  show V c main_v21 (((cfg0.win 1).blk t).view.emb j) = V c main_v21 j
  congr 1
  funext a; apply Fin.ext
  match a with
  | ⟨0, _⟩ => show win0_1.index t (0 : Fin 2) * 512 + 1 * (j 0).val = (j 0).val; omega
  | ⟨1, _⟩ => show win0_1.index t (1 : Fin 2) * 512 + 1 * (j 1).val = (j 1).val; omega

/-- What the one point writes back is the block of the product. -/
theorem flushed0_2_eq (c : Dev nD) (t : Fin cfg0.N) :
    (dat0 V O B c).flushed 2 t = ((cfg0.win 2).blk t).view.read (Elt F) (R0 (V c main_arg2) (V c main_v21)) := by
  show (cfg0.win 2).cut (grid0.coords t) ((dat0 V O B c).after 2 t) = _
  rw [after0_2, out0_2_eq, iblk0_0_eq, iblk0_1_eq]
  obtain ⟨e0, e1, e2, e3, e4, e5⟩ := idx_facts0 t
  funext j
  show R0 (V c main_arg2) (V c main_v21) j = R0 (V c main_arg2) (V c main_v21) (((cfg0.win 2).blk t).view.emb j)
  congr 1
  symm
  funext a; apply Fin.ext
  match a with
  | ⟨0, _⟩ => show win0_2.index t (0 : Fin 2) * 1024 + 1 * (j 0).val = (j 0).val; omega
  | ⟨1, _⟩ => show win0_2.index t (1 : Fin 2) * 512 + 1 * (j 1).val = (j 1).val; omega

theorem mem_blk0_2 (t : Fin cfg0.N) (i : S1024x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v22).slice (win0_2.rect t)).set ↔ _
  rw [View.set_slice_whole, Rect.mem_set_unit]
  exact Iff.rfl

theorem cover0_2' (i : S1024x512.Idx) : ∃ t : Fin cfg0.N, (cfg0.win 2).flush t = true ∧ i ∈ ((cfg0.win 2).blk t).view.set := by
  obtain ⟨e0, e1, e2, e3, e4, e5⟩ := idx_facts0 t0_0
  refine ⟨t0_0, flush0_2 t0_0, (mem_blk0_2 t0_0 i).mpr fun a => ?_⟩
  have h0 : (i 0).val < 1024 := (i 0).isLt
  have h1 : (i 1).val < 512 := (i 1).isLt
  match a with
  | ⟨0, _⟩ => show win0_2.index t0_0 (0 : Fin 2) * 1024 ≤ (i 0).val ∧ (i 0).val < win0_2.index t0_0 (0 : Fin 2) * 1024 + 1024; omega
  | ⟨1, _⟩ => show win0_2.index t0_0 (1 : Fin 2) * 512 ≤ (i 1).val ∧ (i 1).val < win0_2.index t0_0 (1 : Fin 2) * 512 + 512; omega

/-- REGION 0'S RESULT: the product array after the region is `R0` of the embedding and the permutation matrix as the
    region finds them. -/
theorem final0 (c : Dev nD) : (dat0 V O B c).arrAt 2 cfg0.N = R0 (V c main_arg2) (V c main_v21) :=
  (dat0 V O B c).arrAt_eq_of_cover 2 _ (fun t _ => flushed0_2_eq V O B c t) cover0_2'

/-! ## Region 1 -/

/-- The four stores' payloads by the store's place on the group axis. -/
def R1pay : ℕ → Vec F S1x1024x512 .f32 → Vec F S1024x512 .f32 → Vec F S512x512 .f32 → FVec F S1x1024x1x256 .f32
  | 0 => k1_pay3
  | 1 => k1_pay4
  | 2 => k1_pay5
  | _ => k1_pay6

/-- What the body leaves in the result's block from the three input blocks, index by index. -/
def G1 (x0 : Vec F S1x1024x512 .f32) (x1 : Vec F S1024x512 .f32) (x2 : Vec F S512x512 .f32) : Vec F S1x1024x4x256 .f32 :=
  fun y => R1pay (y 2).val x0 x1 x2 (ix4 (0 : Fin 1) (y 1 : Fin 1024) (0 : Fin 1) (y 3 : Fin 256))

/-- REGION 1'S RESULT from the input, region 0's result and the permutation matrix: at (b, n, s, j) the payload of
    store `s` over batch `b`'s rows, read at (0, n, 0, j). -/
def R1 (x : Vec F S16x1024x512 .f32) (ed : Vec F S1024x512 .f32) (pm : Vec F S512x512 .f32) : Vec F S16x1024x4x256 .f32 :=
  fun i => R1pay (i 2).val (fun j => x (ix3 (i 0 : Fin 16) (j 1 : Fin 1024) (j 2 : Fin 512))) ed pm
    (ix4 (0 : Fin 1) (i 1 : Fin 1024) (0 : Fin 1) (i 3 : Fin 256))

theorem fin1_val (z : Fin 1) : z.val = 0 := by omega

theorem piece_ix (x : S1x1024x1x256.Idx) (z1 : Fin 1024) (z3 : Fin 256) (h1 : z1.val = (x 1).val) (h3 : z3.val = (x 3).val) :
    ix4 (0 : Fin 1) z1 (0 : Fin 1) z3 = x := by
  funext a
  match a with
  | ⟨0, _⟩ => exact Fin.ext (by have h0 : (x 0).val < 1 := (x 0).isLt; show (0 : ℕ) = (x 0).val; omega)
  | ⟨1, _⟩ => exact Fin.ext h1
  | ⟨2, _⟩ => exact Fin.ext (by have h2 : (x 2).val < 1 := (x 2).isLt; show (0 : ℕ) = (x 2).val; omega)
  | ⟨3, _⟩ => exact Fin.ext h3

theorem out1_3_eq (x0 : Vec F S1x1024x512 .f32) (x1 : Vec F S1024x512 .f32) (x2 : Vec F S512x512 .f32) : out1_3 x0 x1 x2 = G1 x0 x1 x2 := by
  funext y
  unfold out1_3
  simp only [View.ld_unit_zero (S := S1x1024x512) hz3, View.ld_unit_zero (S := S1024x512) hz2, View.ld_unit_zero (S := S512x512) hz2]
  refine View.canon_apply_of_pieces (G1 x0 x1 x2) _ ?_ y (cover1_3 _ _ _ _ y)
  intro p hp x
  simp only [List.mem_cons, List.not_mem_nil, or_false] at hp
  rcases hp with rfl | rfl | rfl | rfl
  · have hx2 : (x 2).val < 1 := (x 2).isLt
    have h1 : ((r1_o3.emb x) 1 : Fin 1024).val = (x 1).val := by show 0 + 1 * (x 1).val = (x 1).val; omega
    have h2 : ((r1_o3.emb x) 2).val = 3 := by show 3 + 1 * (x 2).val = 3; omega
    have h3 : ((r1_o3.emb x) 3 : Fin 256).val = (x 3).val := by show 0 + 1 * (x 3).val = (x 3).val; omega
    show k1_pay6 x0 x1 x2 x = R1pay ((r1_o3.emb x) 2).val x0 x1 x2 (ix4 (0 : Fin 1) ((r1_o3.emb x) 1 : Fin 1024) (0 : Fin 1) ((r1_o3.emb x) 3 : Fin 256))
    rw [h2, piece_ix x ((r1_o3.emb x) 1 : Fin 1024) ((r1_o3.emb x) 3 : Fin 256) h1 h3]
    rfl
  · have hx2 : (x 2).val < 1 := (x 2).isLt
    have h1 : ((r1_o2.emb x) 1 : Fin 1024).val = (x 1).val := by show 0 + 1 * (x 1).val = (x 1).val; omega
    have h2 : ((r1_o2.emb x) 2).val = 2 := by show 2 + 1 * (x 2).val = 2; omega
    have h3 : ((r1_o2.emb x) 3 : Fin 256).val = (x 3).val := by show 0 + 1 * (x 3).val = (x 3).val; omega
    show k1_pay5 x0 x1 x2 x = R1pay ((r1_o2.emb x) 2).val x0 x1 x2 (ix4 (0 : Fin 1) ((r1_o2.emb x) 1 : Fin 1024) (0 : Fin 1) ((r1_o2.emb x) 3 : Fin 256))
    rw [h2, piece_ix x ((r1_o2.emb x) 1 : Fin 1024) ((r1_o2.emb x) 3 : Fin 256) h1 h3]
    rfl
  · have hx2 : (x 2).val < 1 := (x 2).isLt
    have h1 : ((r1_o1.emb x) 1 : Fin 1024).val = (x 1).val := by show 0 + 1 * (x 1).val = (x 1).val; omega
    have h2 : ((r1_o1.emb x) 2).val = 1 := by show 1 + 1 * (x 2).val = 1; omega
    have h3 : ((r1_o1.emb x) 3 : Fin 256).val = (x 3).val := by show 0 + 1 * (x 3).val = (x 3).val; omega
    show k1_pay4 x0 x1 x2 x = R1pay ((r1_o1.emb x) 2).val x0 x1 x2 (ix4 (0 : Fin 1) ((r1_o1.emb x) 1 : Fin 1024) (0 : Fin 1) ((r1_o1.emb x) 3 : Fin 256))
    rw [h2, piece_ix x ((r1_o1.emb x) 1 : Fin 1024) ((r1_o1.emb x) 3 : Fin 256) h1 h3]
    rfl
  · have hx2 : (x 2).val < 1 := (x 2).isLt
    have h1 : ((r1_o0.emb x) 1 : Fin 1024).val = (x 1).val := by show 0 + 1 * (x 1).val = (x 1).val; omega
    have h2 : ((r1_o0.emb x) 2).val = 0 := by show 0 + 1 * (x 2).val = 0; omega
    have h3 : ((r1_o0.emb x) 3 : Fin 256).val = (x 3).val := by show 0 + 1 * (x 3).val = (x 3).val; omega
    show k1_pay3 x0 x1 x2 x = R1pay ((r1_o0.emb x) 2).val x0 x1 x2 (ix4 (0 : Fin 1) ((r1_o0.emb x) 1 : Fin 1024) (0 : Fin 1) ((r1_o0.emb x) 3 : Fin 256))
    rw [h2, piece_ix x ((r1_o0.emb x) 1 : Fin 1024) ((r1_o0.emb x) 3 : Fin 256) h1 h3]
    rfl

/-- The windows' block indices at grid point `t`: the batch on the first axis of the input's and the result's, zero elsewhere. -/
theorem idx_facts1 : ∀ t : Fin cfg1.N, win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 4) = t.val ∧ win1_3.index t (1 : Fin 4) = 0 ∧ win1_3.index t (2 : Fin 4) = 0 ∧ win1_3.index t (3 : Fin 4) = 0 :=
  (by decide +kernel : ∀ t : Fin grid1.N, _)

/-- A grid point of region 1 as a batch index. -/
def tb (t : Fin cfg1.N) : Fin 16 := ⟨t.val, by have h : t.val < grid1.N := t.isLt; rw [N_1] at h; exact h⟩

theorem iblk1_0_eq (c : Dev nD) (t : Fin cfg1.N) :
    iblk1 V c 0 t = fun j : S1x1024x512.Idx => V c main_arg0 (ix3 (tb t) (j 1 : Fin 1024) (j 2 : Fin 512)) := by
  obtain ⟨e0, e1, e2, -⟩ := idx_facts1 t
  funext j
  show V c main_arg0 (((cfg1.win 0).blk t).view.emb j) = V c main_arg0 (ix3 (tb t) (j 1 : Fin 1024) (j 2 : Fin 512))
  congr 1
  funext a; apply Fin.ext
  match a with
  | ⟨0, _⟩ => show win1_0.index t (0 : Fin 3) * 1 + 1 * (j 0).val = t.val; have hj : (j 0).val < 1 := (j 0).isLt; omega
  | ⟨1, _⟩ => show win1_0.index t (1 : Fin 3) * 1024 + 1 * (j 1).val = (j 1).val; omega
  | ⟨2, _⟩ => show win1_0.index t (2 : Fin 3) * 512 + 1 * (j 2).val = (j 2).val; omega

theorem iblk1_1_eq (c : Dev nD) (t : Fin cfg1.N) : iblk1 V c 1 t = V c main_v22 := by
  obtain ⟨-, -, -, e3, e4, -⟩ := idx_facts1 t
  funext j
  show V c main_v22 (((cfg1.win 1).blk t).view.emb j) = V c main_v22 j
  congr 1
  funext a; apply Fin.ext
  match a with
  | ⟨0, _⟩ => show win1_1.index t (0 : Fin 2) * 1024 + 1 * (j 0).val = (j 0).val; omega
  | ⟨1, _⟩ => show win1_1.index t (1 : Fin 2) * 512 + 1 * (j 1).val = (j 1).val; omega

theorem iblk1_2_eq (c : Dev nD) (t : Fin cfg1.N) : iblk1 V c 2 t = V c main_v21 := by
  obtain ⟨-, -, -, -, -, e5, e6, -⟩ := idx_facts1 t
  funext j
  show V c main_v21 (((cfg1.win 2).blk t).view.emb j) = V c main_v21 j
  congr 1
  funext a; apply Fin.ext
  match a with
  | ⟨0, _⟩ => show win1_2.index t (0 : Fin 2) * 512 + 1 * (j 0).val = (j 0).val; omega
  | ⟨1, _⟩ => show win1_2.index t (1 : Fin 2) * 512 + 1 * (j 1).val = (j 1).val; omega

theorem emb1_3 (t : Fin cfg1.N) (y : S1x1024x4x256.Idx) :
    ((cfg1.win 3).blk t).view.emb y = ix4 (tb t) (y 1 : Fin 1024) (y 2 : Fin 4) (y 3 : Fin 256) := by
  obtain ⟨-, -, -, -, -, -, -, e7, e8, e9, e10⟩ := idx_facts1 t
  funext a; apply Fin.ext
  match a with
  | ⟨0, _⟩ => show win1_3.index t (0 : Fin 4) * 1 + 1 * (y 0).val = t.val; have : (y 0).val < 1 := (y 0).isLt; omega
  | ⟨1, _⟩ => show win1_3.index t (1 : Fin 4) * 1024 + 1 * (y 1).val = (y 1).val; omega
  | ⟨2, _⟩ => show win1_3.index t (2 : Fin 4) * 4 + 1 * (y 2).val = (y 2).val; omega
  | ⟨3, _⟩ => show win1_3.index t (3 : Fin 4) * 256 + 1 * (y 3).val = (y 3).val; omega

/-- What grid point `t` writes back is block `t` of `R1`. -/
theorem flushed1_3_eq (c : Dev nD) (t : Fin cfg1.N) :
    (dat1 V O B c).flushed 3 t = ((cfg1.win 3).blk t).view.read (Elt F) (R1 (V c main_arg0) (V c main_v22) (V c main_v21)) := by
  show (cfg1.win 3).cut (grid1.coords t) ((dat1 V O B c).after 3 t) = _
  rw [after1_3, out1_3_eq, iblk1_0_eq, iblk1_1_eq, iblk1_2_eq]
  funext y
  show G1 _ (V c main_v22) (V c main_v21) y = R1 (V c main_arg0) (V c main_v22) (V c main_v21) (((cfg1.win 3).blk t).view.emb y)
  rw [emb1_3]
  rfl

theorem mem_blk1_3 (t : Fin cfg1.N) (i : S16x1024x4x256.Idx) :
    i ∈ ((cfg1.win 3).blk t).view.set ↔ ∀ a : Fin 4, win1_3.index t a * S1x1024x4x256.size a ≤ (i a).val ∧ (i a).val < win1_3.index t a * S1x1024x4x256.size a + S1x1024x4x256.size a := by
  show i ∈ ((View.whole main_v23).slice (win1_3.rect t)).set ↔ _
  rw [View.set_slice_whole, Rect.mem_set_unit]
  exact Iff.rfl

theorem cover1_3' (i : S16x1024x4x256.Idx) : ∃ t : Fin cfg1.N, (cfg1.win 3).flush t = true ∧ i ∈ ((cfg1.win 3).blk t).view.set := by
  have h0 : (i 0).val < 16 := (i 0).isLt
  have h1 : (i 1).val < 1024 := (i 1).isLt
  have h2 : (i 2).val < 4 := (i 2).isLt
  have h3 : (i 3).val < 256 := (i 3).isLt
  let t : Fin cfg1.N := ⟨(i 0).val, by show (i 0).val < grid1.N; rw [N_1]; exact h0⟩
  obtain ⟨-, -, -, -, -, -, -, e7, e8, e9, e10⟩ := idx_facts1 t
  refine ⟨t, flush1_3 t, (mem_blk1_3 t i).mpr fun a => ?_⟩
  have ht : t.val = (i 0).val := rfl
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1024 ≤ (i 1).val ∧ (i 1).val < win1_3.index t (1 : Fin 4) * 1024 + 1024; omega
  | ⟨2, _⟩ => show win1_3.index t (2 : Fin 4) * 4 ≤ (i 2).val ∧ (i 2).val < win1_3.index t (2 : Fin 4) * 4 + 4; omega
  | ⟨3, _⟩ => show win1_3.index t (3 : Fin 4) * 256 ≤ (i 3).val ∧ (i 3).val < win1_3.index t (3 : Fin 4) * 256 + 256; omega

/-- REGION 1'S RESULT: the first result array after the region is `R1` of the input, region 0's result and the
    permutation matrix as the region finds them. -/
theorem final1 (c : Dev nD) : (dat1 V O B c).arrAt 3 cfg1.N = R1 (V c main_arg0) (V c main_v22) (V c main_v21) :=
  (dat1 V O B c).arrAt_eq_of_cover 3 _ (fun t _ => flushed1_3_eq V O B c t) cover1_3'

end Values

end Cert.KernelIdeal.Regions

end
-- ==== Proof.RegionFinal.lean ====
/-
  The first result at the end of the TensorCore's regions, as one pure term of the launch contents: the input, the
  node embedding and the permutation matrix the host operations build.
-/
import proofs.«206219_g40982577938455_cont_8to1_b_1362_29_alg».proof.Proof.RegionRun
import proofs.«206219_g40982577938455_cont_8to1_b_1362_29_alg».proof.Proof.RegionValue

set_option maxRecDepth 16384

noncomputable section

namespace Cert.KernelIdeal.Regions

open Cert.KernelIdeal Cert.KernelIdeal.Gen Cert.KernelIdeal.Setup
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 1) (Elt F) ℕ UU ℕ

open Cert.KernelIdeal.HostOps
open Idealize.ShloMosaic.SparseCore (T)

variable (m : (ℓ : Loc nD τ sig) → Buf (Elt F) ℓ)

/-- Region 0's result as region 1 finds it: the product of the node embedding as launched and the permutation matrix. -/
theorem V2_main_v22 (c : Dev nD) :
    V2 m c main_v22 = R0 (m ((c : Thread nD τ).loc main_arg2)) (permOf m c) := by
  show W2 m c (Proc.devRef .tc main_v22) = _
  rw [W2_main_v22, final0]
  show R0 (W1 m c (Proc.devRef .tc main_arg2)) (W1 m c (Proc.devRef .tc main_v21)) = _
  rw [show W1 m c (Proc.devRef .tc main_arg2) = m ((c : Thread nD τ).loc main_arg2) from
    hostOps_keep main_arg2 (Or.inr (Or.inr (Or.inl rfl))) _]

/-- THE FIRST RESULT at region 1's exit: `R1` of the input as launched, region 0's result and the permutation matrix. -/
theorem W3_main_v23_eq (c : Dev nD) :
    W3 m c (Proc.devRef .tc main_v23)
      = R1 (m ((c : Thread nD τ).loc main_arg0)) (R0 (m ((c : Thread nD τ).loc main_arg2)) (permOf m c)) (permOf m c) := by
  rw [W3_main_v23, final1, V2_main_v22]
  show R1 (W2 m c (Proc.devRef .tc main_arg0)) _ (W2 m c (Proc.devRef .tc main_v21)) = _
  rw [W2_main_arg0, W2_main_v21]

end Cert.KernelIdeal.Regions

end
-- ==== Proof.ScatterRead.lean ====
/-
  Two small toolkits used to read a host-built 0/1 matrix at an index.

  WORDS.  A 32-bit word `BitVec.ofNat 32 n` with `n < 2^31` is a non-negative signed number, so on such words the signed
  remainder and quotient by 4 are `n mod 4` and `n div 4`, "less than zero" is false, and the sign is 0 or 1.

  SCATTER.  A scatter whose body returns the update is a left fold over the update indices; each step overwrites the
  one entry its update lands on.  An entry no update lands on keeps the operand's value; an entry exactly one update
  lands on ends with that update's value, wherever in the order it comes.
-/
import Idealize.ShloMosaic.PureOps.Ideal
import Idealize.ShloMosaic.Lib.ValueIdx

noncomputable section

namespace Cert.KernelIdeal.ScatterRead

open Idealize.ShloMosaic Idealize.ShloMosaic.ValueIdx

/-! ## Words -/

theorem toNat_ofNat_small (n : Nat) (h : n < 2 ^ 31) : (BitVec.ofNat 32 n).toNat = n := by
  rw [BitVec.toNat_ofNat]; exact Nat.mod_eq_of_lt (by omega)

theorem msb_ofNat_small (n : Nat) (h : n < 2 ^ 31) : (BitVec.ofNat 32 n).msb = false := by
  rw [BitVec.msb_eq_false_iff_two_mul_lt, toNat_ofNat_small n h]; omega

theorem toInt_ofNat_small (n : Nat) (h : n < 2 ^ 31) : (BitVec.ofNat 32 n).toInt = (n : Int) := by
  rw [BitVec.toInt_eq_toNat_of_lt (by rw [toNat_ofNat_small n h]; omega), toNat_ofNat_small n h]

theorem srem4 (n : Nat) (h : n < 2 ^ 31) : (BitVec.ofNat 32 n).srem 4#32 = BitVec.ofNat 32 (n % 4) := by
  have h4 : (4#32 : BitVec 32).msb = false := by decide
  rw [BitVec.srem_eq, msb_ofNat_small n h, h4]
  apply BitVec.eq_of_toNat_eq
  have h1 := toNat_ofNat_small n h
  have h2 := toNat_ofNat_small (n % 4) (by omega)
  simp only [BitVec.toNat_umod, h1, h2]
  rfl

theorem sdiv4 (n : Nat) (h : n < 2 ^ 31) : (BitVec.ofNat 32 n).sdiv 4#32 = BitVec.ofNat 32 (n / 4) := by
  have h4 : (4#32 : BitVec 32).msb = false := by decide
  rw [BitVec.sdiv_eq, msb_ofNat_small n h, h4]
  apply BitVec.eq_of_toNat_eq
  have h1 := toNat_ofNat_small n h
  have h2 := toNat_ofNat_small (n / 4) (by omega)
  rw [h2]
  show ((BitVec.ofNat 32 n) / 4#32).toNat = n / 4
  rw [BitVec.toNat_udiv, h1]
  rfl

theorem not_sdivCorner4 (x : BitVec 32) : ¬ IntOp.SDivCorner x 4#32 := by
  intro hc
  rcases hc with hc | ⟨_, hc⟩
  · exact absurd hc (by decide)
  · exact absurd hc (by decide)

theorem remsi4 (n : Nat) (h : n < 2 ^ 31) : IntOp.remsi .host (BitVec.ofNat 32 n) 4#32 = BitVec.ofNat 32 (n % 4) := by
  unfold IntOp.remsi
  rw [if_neg (not_sdivCorner4 _), srem4 n h]

theorem divsi4 (n : Nat) (h : n < 2 ^ 31) : IntOp.divsi .host (BitVec.ofNat 32 n) 4#32 = BitVec.ofNat 32 (n / 4) := by
  unfold IntOp.divsi
  rw [if_neg (not_sdivCorner4 _), sdiv4 n h]

theorem slt_zero (n : Nat) (h : n < 2 ^ 31) : IntOp.cmpi .slt (BitVec.ofNat 32 n) 0#32 = 0#1 := by
  have hs : (BitVec.ofNat 32 n).slt 0#32 = false := by
    unfold BitVec.slt
    rw [toInt_ofNat_small n h]
    simp
  show BitVec.ofBool ((BitVec.ofNat 32 n).slt 0#32) = 0#1
  rw [hs]; rfl

theorem ofNat_eq_zero_iff (n : Nat) (h : n < 2 ^ 31) : BitVec.ofNat 32 n = 0#32 ↔ n = 0 := by
  constructor
  · intro e
    have := congrArg BitVec.toNat e
    rw [toNat_ofNat_small n h] at this
    simpa using this
  · intro e; subst e; rfl

/-! ## A fold of overwriting steps -/

section Fold
variable {ι I α : Type} [DecidableEq I]

/-- An entry no step lands on keeps its starting value. -/
theorem foldl_of_none (g : ι → Option I) (v : ι → α) (step : (I → α) → ι → (I → α))
    (hstep : ∀ r n j, step r n j = if g n = some j then v n else r j) (l : List ι) (x : I → α) (j : I)
    (hnone : ∀ n ∈ l, g n ≠ some j) : l.foldl step x j = x j := by
  induction l generalizing x with
  | nil => rfl
  | cons a l ih =>
    rw [List.foldl_cons, ih _ (fun n hn => hnone n (List.mem_cons_of_mem _ hn)), hstep,
      if_neg (hnone a (List.mem_cons_self ..))]

/-- An entry exactly one step lands on ends with that step's value. -/
theorem foldl_of_unique (g : ι → Option I) (v : ι → α) (step : (I → α) → ι → (I → α))
    (hstep : ∀ r n j, step r n j = if g n = some j then v n else r j) (l : List ι) (x : I → α) (j : I) (n0 : ι)
    (hn0 : n0 ∈ l) (hg : g n0 = some j) (huniq : ∀ n ∈ l, g n = some j → n = n0) : l.foldl step x j = v n0 := by
  induction l generalizing x with
  | nil => cases hn0
  | cons a l ih =>
    rw [List.foldl_cons]
    by_cases hmem : n0 ∈ l
    · exact ih _ hmem (fun n hn => huniq n (List.mem_cons_of_mem _ hn))
    · have ha : a = n0 := by
        rcases List.mem_cons.1 hn0 with h | h
        · exact h.symm
        · exact absurd h hmem
      subst ha
      rw [foldl_of_none g v step hstep l _ j (fun n hn hgn => hmem (huniq n (List.mem_cons_of_mem _ hn) hgn ▸ hn)),
        hstep, if_pos hg]

end Fold

/-! ## The scatter whose body returns the update -/

section Scatter
variable {s si u : Shape} {w : Nat} {α : Type}

theorem scatter_step (d : ScatterDims s si u) (idx : IVec si w) (upd : u.Idx → α) (r : s.Idx → α) (n : Fin u.numel) (j : s.Idx) :
    (match d.resultIdx? (u.rowMajor.symm n) idx with
      | some i => fun i' => if i' = i then (fun (_ : α) b => b) (r i) (upd (u.rowMajor.symm n)) else r i'
      | none => r) j
    = if d.resultIdx? (u.rowMajor.symm n) idx = some j then upd (u.rowMajor.symm n) else r j := by
  cases h : d.resultIdx? (u.rowMajor.symm n) idx with
  | none => simp
  | some i =>
    by_cases hji : j = i
    · subst hji; simp
    · have : ¬ (some i = some j) := fun e => hji (Option.some.inj e).symm
      simp [hji, this]

/-- An entry no update lands on keeps the operand's value. -/
theorem scatter_of_none (d : ScatterDims s si u) (x : s.Idx → α) (idx : IVec si w) (upd : u.Idx → α) (j : s.Idx)
    (hnone : ∀ n : Fin u.numel, d.resultIdx? (u.rowMajor.symm n) idx ≠ some j) :
    Host.scatter d (fun _ b => b) x idx upd j = x j := by
  unfold Host.scatter
  exact foldl_of_none (fun n => d.resultIdx? (u.rowMajor.symm n) idx) (fun n => upd (u.rowMajor.symm n)) _
    (fun r n j => scatter_step d idx upd r n j) _ x j (fun n _ => hnone n)

/-- An entry exactly one update lands on holds that update's value. -/
theorem scatter_of_unique (d : ScatterDims s si u) (x : s.Idx → α) (idx : IVec si w) (upd : u.Idx → α) (j : s.Idx)
    (n0 : Fin u.numel) (hg : d.resultIdx? (u.rowMajor.symm n0) idx = some j)
    (huniq : ∀ n : Fin u.numel, d.resultIdx? (u.rowMajor.symm n) idx = some j → n = n0) :
    Host.scatter d (fun _ b => b) x idx upd j = upd (u.rowMajor.symm n0) := by
  unfold Host.scatter
  exact foldl_of_unique (fun n => d.resultIdx? (u.rowMajor.symm n) idx) (fun n => upd (u.rowMajor.symm n)) _
    (fun r n j => scatter_step d idx upd r n j) _ x j n0 (List.mem_finRange n0) hg (fun n _ => huniq n)

end Scatter

end Cert.KernelIdeal.ScatterRead

end
-- ==== Proof.PermLaw.lean ====
/-
  Multiplying a row by a 0/1 permutation matrix moves its entries.

  The matrix has a single 1 in each row `k`, in column `dst k = (k mod 4) · 128 + k div 4`: it sends entry `4 q + s`
  of a row of 512 to position `128 s + q`.  The map is a bijection of `{0, …, 511}` with inverse
  `src j = 4 (j mod 128) + j div 128`, so column `j` of the product of a row `r` with the matrix is the single term
  `r (src j) · 1`; all other terms are `r k · 0 = 0`.  On the extended reals `a · 0 = 0` and `a · 1 = a` hold for every
  `a`, infinite or not, so no finiteness is asked of the row.
-/
import Idealize.ShloMosaic.PureOps.Ideal
import Idealize.ShloMosaic.Lib.ValueIdx

noncomputable section

open scoped BigOperators

namespace Cert.KernelIdeal.PermLaw

open Idealize.ShloMosaic Idealize.ShloMosaic.ValueIdx

/-- The column that holds the 1 of row `k`. -/
def dst (k : Fin 512) : Fin 512 := ⟨(k.val % 4) * 128 + k.val / 4, by omega⟩
/-- The row whose 1 is in column `j`. -/
def src (j : Fin 512) : Fin 512 := ⟨4 * (j.val % 128) + j.val / 128, by omega⟩

theorem dst_src (j : Fin 512) : dst (src j) = j := Fin.ext (by show (4 * (j.val % 128) + j.val / 128) % 4 * 128 + (4 * (j.val % 128) + j.val / 128) / 4 = j.val; omega)
theorem src_dst (k : Fin 512) : src (dst k) = k := Fin.ext (by show 4 * ((k.val % 4 * 128 + k.val / 4) % 128) + (k.val % 4 * 128 + k.val / 4) / 128 = k.val; omega)
/-- The only row with its 1 in column `j` is `src j`. -/
theorem eq_src_of_dst_eq {k j : Fin 512} (h : dst k = j) : k = src j := by rw [← h, src_dst]

/-- The matrix as a function of row and column into the extended reals. -/
def perm (k j : Fin 512) : EReal := if j = dst k then 1 else 0

theorem perm_src (j : Fin 512) : perm (src j) j = 1 := if_pos (dst_src j).symm
theorem perm_of_ne {k j : Fin 512} (h : k ≠ src j) : perm k j = 0 := if_neg fun e => h (eq_src_of_dst_eq e.symm)

/-- **The law**: column `j` of (row · matrix) is entry `src j` of the row — for ANY row of extended reals. -/
theorem sum_mul_perm (r : Fin 512 → EReal) (j : Fin 512) : ∑ k : Fin 512, r k * perm k j = r (src j) := by
  rw [Finset.sum_eq_single (src j)]
  · rw [perm_src, mul_one]
  · intro k _ hk
    rw [perm_of_ne hk, mul_zero]
  · intro h
    exact absurd (Finset.mem_univ _) h

/-- The same for any matrix `p` known entry by entry to be `perm`. -/
theorem sum_mul_of_perm (r : Fin 512 → EReal) (p : Fin 512 → Fin 512 → EReal) (hp : ∀ k j, p k j = perm k j) (j : Fin 512) :
    ∑ k : Fin 512, r k * p k j = r (src j) := by
  rw [← sum_mul_perm r j]
  exact Finset.sum_congr rfl fun k _ => by rw [hp]

/-- The word `0x3F800000` is the number one. -/
theorem ofBits_one_f32 : Ideal.ofBits .f32 0x3F800000#32 = (1 : EReal) := by
  simp [Ideal.ofBits, Ideal.ieee]
  rw [← EReal.coe_mul, ← EReal.coe_one]
  exact congrArg _ (by norm_num)

end Cert.KernelIdeal.PermLaw

end
-- ==== Proof.HostPerm.lean ====
/-
  The matrix the host operations build before the two TensorCore calls, read at an index.

  From `iota = (0, 1, …, 511)` the host computes, entry by entry on 32-bit words, `iota mod 4` (a remainder corrected
  to the divisor's sign) and `iota div 4` (a quotient rounded down), then `dst = (iota mod 4) · 128 + iota div 4`; it
  pairs each `k` with `dst k` (after adding 512 to negative entries — there are none), and scatters ones into a
  512 × 512 matrix of zeros at the positions `(k, dst k)`.  The positions differ in their first coordinate, so no
  two updates meet, and the matrix has a one at `(k, c)` exactly when `c = dst k`, zeros elsewhere.
-/
import proofs.«206219_g40982577938455_cont_8to1_b_1362_29_alg».proof.Proof.Gen.KernelIdeal
import proofs.«206219_g40982577938455_cont_8to1_b_1362_29_alg».proof.Proof.ScatterRead
import proofs.«206219_g40982577938455_cont_8to1_b_1362_29_alg».proof.Proof.PermLaw
import Idealize.ShloMosaic.Lib.Pipeline.Value
import Idealize.ShloMosaic.PureOps.Ideal.Laws

noncomputable section

namespace Cert.KernelIdeal.HostPerm

open Cert.KernelIdeal Cert.KernelIdeal.Shapes1.Facts₀ Idealize.ShloMosaic Idealize.ShloMosaic.ValueIdx
open Cert.KernelIdeal.ScatterRead Cert.KernelIdeal.PermLaw

/-! ## The operations' composed terms -/

/-- A scalar spread over the 512 entries. -/
abbrev spread {α : Type} (x : S_.Idx → α) : S512.Idx → α := broadcastInDim S512 ![] bcast_S_S512 x

/-- `jnp.remainder(a, m)` as the host computes it. -/
def remTerm (a : IVec S512 32) (m : IVec S_ 32) : IVec S512 32 :=
  let v0 : IVec S_ 32 := id m
  let w : IVec S_ 32 := select (cmpi .eq v0 (constantI S_ 32 0#32)) (constantI S_ 32 1#32) v0
  let v4 : IVec S512 32 := Host.remsi a (spread w)
  let v6 : IVec S512 1 := cmpi .ne v4 (spread (constantI S_ 32 0#32))
  let v8 : IVec S512 1 := cmpi .slt v4 (spread (constantI S_ 32 0#32))
  let v9 : IVec S_ 1 := cmpi .slt w (constantI S_ 32 0#32)
  let v11 : IVec S512 1 := cmpi .ne v8 (spread v9)
  let v12 : IVec S512 1 := andi v11 v6
  let v14 : IVec S512 32 := addi v4 (spread w)
  select v12 v14 v4

/-- `jnp.floor_divide(a, m)` as the host computes it. -/
def fdivTerm (a : IVec S512 32) (m : IVec S_ 32) : IVec S512 32 :=
  let v0 : IVec S_ 32 := id m
  let v2 : IVec S512 32 := Host.divsi a (spread v0)
  let v3 : IVec S512 32 := signi a
  let v4 : IVec S_ 32 := signi v0
  let v6 : IVec S512 1 := cmpi .ne v3 (spread v4)
  let v8 : IVec S512 32 := Host.remsi a (spread v0)
  let v10 : IVec S512 1 := cmpi .ne v8 (spread (constantI S_ 32 0#32))
  let v11 : IVec S512 1 := andi v6 v10
  let v13 : IVec S512 32 := subi v2 (spread (constantI S_ 32 1#32))
  select v11 v13 v2

/-- A negative index counted from the end: 512 added to the entries below zero. -/
def wrapTerm (a : IVec S512 32) : IVec S512 32 :=
  select (cmpi .slt a (spread (constantI S_ 32 0#32))) (addi a (spread (constantI S_ 32 512#32))) a

abbrev iota : IVec S512 32 := iotaInDim S512 32 0

/-- `dst = (iota mod 4) · 128 + iota div 4`. -/
def dstTerm : IVec S512 32 :=
  addi (muli (remTerm iota (constantI S_ 32 4#32)) (spread (constantI S_ 32 128#32))) (fdivTerm iota (constantI S_ 32 4#32))

/-- The pairs `(k, dst k)`, one per row. -/
def idxTerm : IVec S512x2 32 :=
  concatenate S512x2 1 [⟨S512x1, broadcastInDim S512x1 ![0] bcast_S512_S512x1_0 (wrapTerm iota)⟩,
    ⟨S512x1, broadcastInDim S512x1 ![0] bcast_S512_S512x1_0 (wrapTerm dstTerm)⟩] concatenates_S512x1_S512x1_S512x2_d1

variable {F : FTy → Type} [FloatOps F]

/-- The matrix: ones scattered into zeros at the pairs. -/
def permTerm : FVec F S512x512 .f32 :=
  Host.scatter scatter_S512x512_S512x2_S512_n_01_01_1 (fun _ b => b)
    (broadcastInDim S512x512 ![] bcast_S_S512x512 (constant (F := F) S_ .f32 0x00000000#32)) idxTerm
    (spread (constant (F := F) S_ .f32 0x3F800000#32))

/-! ## The integer entries as words -/

/-- The sign of a word: 0, 1 or -1. -/
def sgnW (x : BitVec 32) : BitVec 32 := if x = 0 then 0 else if x.msb then -1 else 1

/-- One entry of `remTerm · 4`. -/
def modW : BitVec 32 := Scalar.select (IntOp.cmpi .eq 4#32 0#32) 1#32 4#32
def remW (K : BitVec 32) : BitVec 32 :=
  Scalar.select (IntOp.andi (IntOp.cmpi .ne (IntOp.cmpi .slt (IntOp.remsi .host K modW) 0#32) (IntOp.cmpi .slt modW 0#32))
    (IntOp.cmpi .ne (IntOp.remsi .host K modW) 0#32)) (IntOp.addi (IntOp.remsi .host K modW) modW) (IntOp.remsi .host K modW)

/-- One entry of `fdivTerm · 4`. -/
def fdivW (K : BitVec 32) : BitVec 32 :=
  Scalar.select (IntOp.andi (IntOp.cmpi .ne (sgnW K) (sgnW 4#32)) (IntOp.cmpi .ne (IntOp.remsi .host K 4#32) 0#32))
    (IntOp.subi (IntOp.divsi .host K 4#32) 1#32) (IntOp.divsi .host K 4#32)

/-- One entry of `wrapTerm`. -/
def wrapW (K : BitVec 32) : BitVec 32 := Scalar.select (IntOp.cmpi .slt K 0#32) (IntOp.addi K 512#32) K

theorem remTerm_at (k : Fin 512) : remTerm iota (constantI S_ 32 4#32) (ix1 k) = remW (BitVec.ofNat 32 k.val) := rfl
theorem fdivTerm_at (k : Fin 512) : fdivTerm iota (constantI S_ 32 4#32) (ix1 k) = fdivW (BitVec.ofNat 32 k.val) := rfl
theorem wrapTerm_at (a : IVec S512 32) (k : Fin 512) : wrapTerm a (ix1 k) = wrapW (a (ix1 k)) := rfl
theorem dstTerm_at (k : Fin 512) :
    dstTerm (ix1 k) = IntOp.addi (IntOp.muli (remW (BitVec.ofNat 32 k.val)) 128#32) (fdivW (BitVec.ofNat 32 k.val)) := rfl

/-! ## The words evaluated on small non-negative entries -/

theorem sel_zero {α : Type} (a b : α) : Scalar.select (0#1) a b = b := by
  unfold Scalar.select; exact if_neg (by decide)
theorem andi_zero_left (x : BitVec 1) : IntOp.andi 0#1 x = 0#1 := by
  unfold IntOp.andi; exact BitVec.zero_and
theorem modW_eq : modW = 4#32 := by decide

theorem remW_eq (n : Nat) (h : n < 2 ^ 31) : remW (BitVec.ofNat 32 n) = BitVec.ofNat 32 (n % 4) := by
  have e1 : IntOp.cmpi .slt 4#32 0#32 = 0#1 := by decide
  have e2 : IntOp.cmpi .ne (0#1 : BitVec 1) 0#1 = 0#1 := by decide
  unfold remW
  rw [modW_eq, remsi4 n h, slt_zero (n % 4) (by omega), e1, e2, andi_zero_left, sel_zero]

theorem sgnW_pos (n : Nat) (h : n < 2 ^ 31) (hn : n ≠ 0) : sgnW (BitVec.ofNat 32 n) = 1#32 := by
  have hK : ¬ BitVec.ofNat 32 n = (0 : BitVec 32) := fun e => hn ((ofNat_eq_zero_iff n h).1 e)
  unfold sgnW
  rw [if_neg hK, msb_ofNat_small n h]
  rfl

theorem fdivW_eq (n : Nat) (h : n < 2 ^ 31) : fdivW (BitVec.ofNat 32 n) = BitVec.ofNat 32 (n / 4) := by
  have key : IntOp.andi (IntOp.cmpi .ne (sgnW (BitVec.ofNat 32 n)) (sgnW 4#32)) (IntOp.cmpi .ne (BitVec.ofNat 32 (n % 4)) 0#32) = 0#1 := by
    by_cases hn : n = 0
    · subst hn; decide
    · have e : IntOp.cmpi .ne (1#32 : BitVec 32) 1#32 = 0#1 := by decide
      have s4 : sgnW 4#32 = 1#32 := by decide
      rw [sgnW_pos n h hn, s4, e, andi_zero_left]
  unfold fdivW
  rw [remsi4 n h, key, sel_zero, divsi4 n h]

theorem wrapW_eq (n : Nat) (h : n < 2 ^ 31) : wrapW (BitVec.ofNat 32 n) = BitVec.ofNat 32 n := by
  unfold wrapW
  rw [slt_zero n h, sel_zero]

theorem dstW_eq (n : Nat) :
    IntOp.addi (IntOp.muli (BitVec.ofNat 32 (n % 4)) 128#32) (BitVec.ofNat 32 (n / 4)) = BitVec.ofNat 32 (n % 4 * 128 + n / 4) := by
  show BitVec.ofNat 32 (n % 4) * BitVec.ofNat 32 128 + BitVec.ofNat 32 (n / 4) = _
  rw [← BitVec.ofNat_mul, ← BitVec.ofNat_add]

/-- Entry `k` of the wrapped iota is the word `k`. -/
theorem wrap_iota_at (k : Fin 512) : wrapTerm iota (ix1 k) = BitVec.ofNat 32 k.val := by
  rw [wrapTerm_at]
  exact wrapW_eq k.val (by have := k.isLt; omega)

/-- Entry `k` of the wrapped `dst` is the word `dst k`. -/
theorem wrap_dst_at (k : Fin 512) : wrapTerm dstTerm (ix1 k) = BitVec.ofNat 32 (dst k).val := by
  have hk := k.isLt
  rw [wrapTerm_at, dstTerm_at, remW_eq k.val (by omega), fdivW_eq k.val (by omega), dstW_eq]
  exact wrapW_eq _ (by omega)

/-! ## The pairs -/

theorem idxTerm_at0 (k : Fin 512) : idxTerm (ix2 k (0 : Fin 2)) = BitVec.ofNat 32 k.val := by
  unfold idxTerm
  refine (concatenate_pair_apply_left (t := S512x2) 1 _ _ concatenates_S512x1_S512x1_S512x2_d1 (ix2 k (0 : Fin 2)) rfl (ix2 k (0 : Fin 1))
    (fun a => match a with | ⟨0, _⟩ => rfl | ⟨1, _⟩ => rfl)).trans ?_
  refine (broadcastInDim_apply ![0] bcast_S512_S512x1_0 (wrapTerm iota) (ix2 k (0 : Fin 1)) (ix1 k) (fun a => match a with
    | ⟨0, _⟩ => by show k.val = if (512 : Nat) = 1 then 0 else k.val; rw [if_neg (by decide)])).trans ?_
  exact wrap_iota_at k

theorem idxTerm_at1 (k : Fin 512) : idxTerm (ix2 k (1 : Fin 2)) = BitVec.ofNat 32 (dst k).val := by
  unfold idxTerm
  refine (concatenate_pair_apply_right (t := S512x2) 1 _ _ concatenates_S512x1_S512x1_S512x2_d1 (ix2 k (1 : Fin 2)) rfl rfl (ix2 k (0 : Fin 1))
    (fun a => match a with | ⟨0, _⟩ => fun _ => rfl | ⟨1, _⟩ => fun hne => absurd rfl hne) rfl).trans ?_
  refine (broadcastInDim_apply ![0] bcast_S512_S512x1_0 (wrapTerm dstTerm) (ix2 k (0 : Fin 1)) (ix1 k) (fun a => match a with
    | ⟨0, _⟩ => by show k.val = if (512 : Nat) = 1 then 0 else k.val; rw [if_neg (by decide)])).trans ?_
  exact wrap_dst_at k

/-! ## Where each update lands -/

/-- The position in the table of pairs from which update `k` reads component `cv` of its target. -/
theorem siIdx_eq (k : Fin 512) (c : Fin scatter_S512x512_S512x2_S512_n_01_01_1.scatterDimsToOperandDims.length) (cv : Fin 2)
    (hc : c.val = cv.val) : scatter_S512x512_S512x2_S512_n_01_01_1.siIdx (ix1 k) c = ix2 k cv :=
  funext fun b => Fin.ext (match b with | ⟨0, _⟩ => rfl | ⟨1, _⟩ => hc)

/-- Update `k` lands on the entry its pair names, when both words are small. -/
theorem resultIdx_eq (idx : IVec S512x2 32) (k a b : Fin 512)
    (ha : idx (ix2 k (0 : Fin 2)) = BitVec.ofNat 32 a.val) (hb : idx (ix2 k (1 : Fin 2)) = BitVec.ofNat 32 b.val) :
    scatter_S512x512_S512x2_S512_n_01_01_1.resultIdx? (ix1 k) idx = some (ix2 a b) := by
  have ha' := a.isLt
  have hb' := b.isLt
  have hs0 : scatter_S512x512_S512x2_S512_n_01_01_1.start (ix1 k) idx (0 : Fin 2) = (a.val : Int) := by
    unfold ScatterDims.start
    rw [dif_pos (by decide)]
    rw [siIdx_eq k _ (0 : Fin 2) (by rfl), ha]
    exact toInt_ofNat_small _ (by omega)
  have hs1 : scatter_S512x512_S512x2_S512_n_01_01_1.start (ix1 k) idx (1 : Fin 2) = (b.val : Int) := by
    unfold ScatterDims.start
    rw [dif_pos (by decide)]
    rw [siIdx_eq k _ (1 : Fin 2) (by rfl), hb]
    exact toInt_ofNat_small _ (by omega)
  have hw : ∀ c : Fin 2, scatter_S512x512_S512x2_S512_n_01_01_1.window (ix1 k) c = 0 := fun c => by
    unfold ScatterDims.window
    exact dif_neg (by revert c; decide)
  have hall : ∀ c : Fin S512x512.rank,
      0 ≤ scatter_S512x512_S512x2_S512_n_01_01_1.start (ix1 k) idx c + (scatter_S512x512_S512x2_S512_n_01_01_1.window (ix1 k) c : Int)
      ∧ scatter_S512x512_S512x2_S512_n_01_01_1.start (ix1 k) idx c + (scatter_S512x512_S512x2_S512_n_01_01_1.window (ix1 k) c : Int) < (S512x512.size c : Int) :=
    fun c => match c with
      | ⟨0, _⟩ => by
        rw [show (⟨0, by decide⟩ : Fin S512x512.rank) = (0 : Fin 2) from rfl, hs0, hw]
        show (0 : Int) ≤ (a.val : Int) + ((0 : Nat) : Int) ∧ (a.val : Int) + ((0 : Nat) : Int) < ((512 : Nat) : Int)
        omega
      | ⟨1, _⟩ => by
        rw [show (⟨1, by decide⟩ : Fin S512x512.rank) = (1 : Fin 2) from rfl, hs1, hw]
        show (0 : Int) ≤ (b.val : Int) + ((0 : Nat) : Int) ∧ (b.val : Int) + ((0 : Nat) : Int) < ((512 : Nat) : Int)
        omega
  unfold ScatterDims.resultIdx?
  rw [dif_pos hall]
  refine congrArg some (funext fun c => Fin.ext ?_)
  match c with
  | ⟨0, _⟩ =>
    show (scatter_S512x512_S512x2_S512_n_01_01_1.start (ix1 k) idx (0 : Fin 2) + (scatter_S512x512_S512x2_S512_n_01_01_1.window (ix1 k) (0 : Fin 2) : Int)).toNat = a.val
    rw [hs0, hw]; omega
  | ⟨1, _⟩ =>
    show (scatter_S512x512_S512x2_S512_n_01_01_1.start (ix1 k) idx (1 : Fin 2) + (scatter_S512x512_S512x2_S512_n_01_01_1.window (ix1 k) (1 : Fin 2) : Int)).toNat = b.val
    rw [hs1, hw]; omega

/-- Update `k` lands on `(k, dst k)`. -/
theorem lands (k : Fin 512) : scatter_S512x512_S512x2_S512_n_01_01_1.resultIdx? (ix1 k) idxTerm = some (ix2 k (dst k)) :=
  resultIdx_eq idxTerm k k (dst k) (idxTerm_at0 k) (idxTerm_at1 k)

/-! ## The matrix at an index -/

/-- **The host-built matrix is the permutation matrix**: a one at `(i, c)` exactly when `c = dst i`. -/
theorem permTerm_apply (i c : Fin 512) : permTerm (F := Ideal) (ix2 i c) = perm i c := by
  -- every update index is `ix1` of its coordinate
  have hlands : ∀ n : Fin S512.numel, scatter_S512x512_S512x2_S512_n_01_01_1.resultIdx? (S512.rowMajor.symm n) idxTerm
      = some (ix2 (S512.rowMajor.symm n 0) (dst (S512.rowMajor.symm n 0))) := fun n => by
    have e := eq_ix1 (S512.rowMajor.symm n)
    rw [e]
    exact lands _
  unfold permTerm perm
  by_cases hc : c = dst i
  · subst hc
    rw [if_pos rfl]
    rw [scatter_of_unique scatter_S512x512_S512x2_S512_n_01_01_1 _ idxTerm _ (ix2 i (dst i)) (S512.rowMajor (ix1 i))
      (by rw [Equiv.symm_apply_apply]; exact lands i)
      (fun n hn => by
        rw [hlands n] at hn
        have h0 : S512.rowMajor.symm n 0 = i := congrArg (fun f : S512x512.Idx => f 0) (Option.some.inj hn)
        have hsymm : S512.rowMajor.symm n = ix1 i := (eq_ix1 (S512.rowMajor.symm n)).trans (congrArg (fun a : Fin 512 => (ix1 a : S512.Idx)) h0)
        exact (Equiv.symm_apply_eq _).1 hsymm)]
    show Ideal.ofBits .f32 0x3F800000#32 = 1
    exact ofBits_one_f32
  · rw [if_neg hc]
    rw [scatter_of_none scatter_S512x512_S512x2_S512_n_01_01_1 _ idxTerm _ (ix2 i c) (fun n hn => by
      rw [hlands n] at hn
      have hidx := Option.some.inj hn
      have h0 : S512.rowMajor.symm n 0 = i := congrArg (fun f : S512x512.Idx => f 0) hidx
      have h1 : dst (S512.rowMajor.symm n 0) = c := congrArg (fun f : S512x512.Idx => f 1) hidx
      rw [h0] at h1
      exact hc h1.symm)]
    show Ideal.ofBits .f32 0x00000000#32 = 0
    exact Ideal.ofBits_zero_f32

end Cert.KernelIdeal.HostPerm

end
-- ==== Proof.HostPermRun.lean ====
/-
  What the host operations leave in the buffer of the permutation matrix: whatever the memory held before, the scatter's
  result buffer ends at the operations' composed term, which is the permutation matrix entry by entry.
-/
import proofs.«206219_g40982577938455_cont_8to1_b_1362_29_alg».proof.Proof.HostOps
import proofs.«206219_g40982577938455_cont_8to1_b_1362_29_alg».proof.Proof.HostPerm

noncomputable section

namespace Cert.KernelIdeal.HostPermRun

open Cert.KernelIdeal Cert.KernelIdeal.Gen Cert.KernelIdeal.HostOps Cert.KernelIdeal.HostPerm Cert.KernelIdeal.PermLaw
open Idealize.ShloMosaic Idealize.ShloMosaic.ValueIdx Idealize.ShloMosaic.StableHlo Idealize.SL.Sem

variable {F : FTy → Type} [FloatOps F]

set_option maxHeartbeats 4000000 in
set_option maxRecDepth 65536 in
/-- After the host operations the matrix's buffer holds the composed term, from any starting contents. -/
theorem after_v21 (V : Valuation τ sig (Elt F)) :
    StableHlo.after (hostOps (F := F)) V (Proc.devRef .tc main_v21) = permTerm (F := F) := by
  simp only [hostOps, stretches, opsA, remA, whereOps, remB, opsB, fdA, where0Ops, opsC,
    List.flatten_cons, List.flatten_nil, List.append_nil, List.cons_append, List.nil_append]
  after_results_simp
  rfl

/-- **The host-built matrix is the permutation matrix**, at the ideal instance, from any starting contents. -/
theorem after_v21_apply (V : Valuation τ sig (Elt Ideal)) (i c : Fin 512) :
    StableHlo.after (hostOps (F := Ideal)) V (Proc.devRef .tc main_v21) (ix2 i c) = perm i c := by
  rw [after_v21]
  exact permTerm_apply i c

end Cert.KernelIdeal.HostPermRun

end
-- ==== Proof.PayRead.lean ====
/-
  The two TensorCore bodies' stored values read at an index, at the ideal instance.

  Both bodies multiply a block of rows by the 0/1 matrix `pm`.  When `pm` is the permutation matrix of PermLaw (a single 1
  in each row `k`, in column `(k mod 4) · 128 + k div 4`), column `c` of (row · pm) is entry `src c = 4 (c mod 128) + c div 128`
  of the row: the product only moves entries, so that columns `128 s … 128 s + 127` of it are the strided sample `s` of the
  row.  The first body stores `ed = e · pm`; the second, for each of the four samples `s`, stores side by side columns
  `128 s …` of `x[b] · pm` and of `ed`: entry `(n, s, j)` is `x[b, n, 4 j + s]` for `j < 128` and `e[n, 4 (j - 128) + s]` after.
-/
import proofs.«206219_g40982577938455_cont_8to1_b_1362_29_alg».proof.Proof.Gen.KernelIdeal.Skeleton
import proofs.«206219_g40982577938455_cont_8to1_b_1362_29_alg».proof.Proof.PermLaw
import proofs.«206219_g40982577938455_cont_8to1_b_1362_29_alg».proof.Proof.Spec
import Idealize.ShloMosaic.Lib.ValueLayout
import Idealize.ShloMosaic.Lib.Pipeline.Value
import Idealize.ShloMosaic.PureOps.Ideal.Laws

noncomputable section

open scoped BigOperators

namespace Cert.KernelIdeal.PayRead

open Cert.KernelIdeal Cert.KernelIdeal.Gen Idealize.ShloMosaic Idealize.ShloMosaic.ValueIdx
open Cert.KernelIdeal.PermLaw Cert.KernelIdeal.Spec

/-- A block of rows times the permutation matrix, read at an index: row `n`, column `c` is entry `src c` of row `n`. -/
theorem matmul_perm (lhs : FVec Ideal S1024x512 .f32) (pm : FVec Ideal S512x512 .f32)
    (hpm : ∀ k c : Fin 512, pm (ix2 k c) = perm k c) (n : Fin 1024) (c : Fin 512) :
    matmul dot_S1024x512_S512x512_S1024x512_1_0_0_1_n_n none lhs pm (constant S1024x512 .f32 0x00000000#32) (ix2 n c)
      = lhs (ix2 n (src c)) := by
  refine (Ideal.matmul_constant_zero_apply _ none lhs pm (ix2 n c)).trans ?_
  rw [← Equiv.sum_comp (contrEquiv1 dot_S1024x512_S512x512_S1024x512_1_0_0_1_n_n 512 rfl rfl).symm]
  refine (Finset.sum_congr rfl fun k _ => ?_).trans (sum_mul_of_perm (fun k => lhs (ix2 n k)) (fun k c => pm (ix2 k c)) hpm c)
  have hq := contrEquiv1_symm_val dot_S1024x512_S512x512_S1024x512_1_0_0_1_n_n 512 rfl rfl k
  have hl : dot_S1024x512_S512x512_S1024x512_1_0_0_1_n_n.lhsIdx (ix2 n c)
      ((contrEquiv1 dot_S1024x512_S512x512_S1024x512_1_0_0_1_n_n 512 rfl rfl).symm k) = ix2 n k :=
    funext fun a => Fin.ext (match a with
      | ⟨0, _⟩ => rfl
      | ⟨1, _⟩ => (DotDims.lhsIdx_val_of_single (d := dot_S1024x512_S512x512_S1024x512_1_0_0_1_n_n) (cl := (1 : Fin 2)) rfl (ix2 n c) _).trans hq)
  have hr : dot_S1024x512_S512x512_S1024x512_1_0_0_1_n_n.rhsIdx (ix2 n c)
      ((contrEquiv1 dot_S1024x512_S512x512_S1024x512_1_0_0_1_n_n 512 rfl rfl).symm k) = ix2 k c :=
    funext fun a => Fin.ext (match a with
      | ⟨0, _⟩ => (DotDims.rhsIdx_val_of_single (d := dot_S1024x512_S512x512_S1024x512_1_0_0_1_n_n) (cr := (0 : Fin 2)) rfl (ix2 n c) _).trans hq
      | ⟨1, _⟩ => rfl)
  rw [hl, hr]

/-- The first body's stored value `ed = e · pm`: row `n`, column `c` is `e[n, src c]`. -/
theorem k0_pay1_apply (e : FVec Ideal S1024x512 .f32) (pm : FVec Ideal S512x512 .f32)
    (hpm : ∀ k c : Fin 512, pm (ix2 k c) = perm k c) (n : Fin 1024) (c : Fin 512) :
    k0_pay1 (F := Ideal) e pm (ix2 n c) = e (ix2 n (src c)) := by
  unfold k0_pay1
  show matmul dot_S1024x512_S512x512_S1024x512_1_0_0_1_n_n none e (shapeCast S512x512 pm _) (constant S1024x512 .f32 0x00000000#32) (ix2 n c) = _
  rw [shapeCast_self]
  exact matmul_perm e pm hpm n c

/-- The second body's product `x[b] · pm` (the block of `x` carries a leading unit axis): row `n`, column `c` is `x[b, n, src c]`. -/
theorem k1_pay2_apply (x0 : FVec Ideal S1x1024x512 .f32) (pm : FVec Ideal S512x512 .f32)
    (hpm : ∀ k c : Fin 512, pm (ix2 k c) = perm k c) (n : Fin 1024) (c : Fin 512) :
    k1_pay2 (F := Ideal) x0 pm (ix2 n c) = x0 (ix3 (0 : Fin 1) n (src c)) := by
  unfold k1_pay2
  show matmul dot_S1024x512_S512x512_S1024x512_1_0_0_1_n_n none (shapeCast S1024x512 x0 _) (shapeCast S512x512 pm _) (constant S1024x512 .f32 0x00000000#32) (ix2 n c) = _
  rw [shapeCast_self]
  exact (matmul_perm _ pm hpm n c).trans (shapeCast_1ab_ab_apply x0 _ n (src c))

/-- The block of `ed` as the second body reads it. -/
theorem k1_pay1_eq (ed : FVec Ideal S1024x512 .f32) : k1_pay1 (F := Ideal) ed = ed := by
  unfold k1_pay1
  exact shapeCast_self ed _

section Body
variable {α : Type}

/-- Columns `o … o + 127` of `A` and of `B` side by side, under two added unit axes, read at an index. -/
theorem body_apply (o : Nat) (A B : S1024x512.Idx → α) (hs : S1024x512.Slices ![0, o] S1024x128)
    (hc : Shape.Concatenates [S1024x128, S1024x128] S1024x256 1) (hsc : S1024x256.ShapeCasts S1x1024x1x256)
    (n : Fin 1024) (j : Fin 256) (k : Fin 512) :
    (j.val < 128 → k.val = o + j.val →
      shapeCast S1x1024x1x256 (concatenate S1024x256 1 [⟨S1024x128, extractStridedSlice S1024x128 ![0, o] A hs⟩,
        ⟨S1024x128, extractStridedSlice S1024x128 ![0, o] B hs⟩] hc) hsc (ix4 (0 : Fin 1) n (0 : Fin 1) j) = A (ix2 n k))
    ∧ (128 ≤ j.val → k.val + 128 = o + j.val →
      shapeCast S1x1024x1x256 (concatenate S1024x256 1 [⟨S1024x128, extractStridedSlice S1024x128 ![0, o] A hs⟩,
        ⟨S1024x128, extractStridedSlice S1024x128 ![0, o] B hs⟩] hc) hsc (ix4 (0 : Fin 1) n (0 : Fin 1) j) = B (ix2 n k)) := by
  have hcast : ∀ y : S1024x256.Idx → α, shapeCast S1x1024x1x256 y hsc (ix4 (0 : Fin 1) n (0 : Fin 1) j) = y (ix2 n j) := fun y =>
    shapeCast_apply y hsc _ _ (by
      rw [Shape.rowMajor_val_two, Shape.rowMajor_val_four]
      show n.val * 256 + j.val = ((0 * 1024 + n.val) * 1 + 0) * 256 + j.val
      omega)
  refine ⟨fun hj hk => ?_, fun hj hk => ?_⟩
  · rw [hcast]
    refine (concatenate_pair_apply_left (t := S1024x256) 1 _ _ hc (ix2 n j) rfl (ix2 n ⟨j.val, hj⟩)
      (fun a => match a with | ⟨0, _⟩ => rfl | ⟨1, _⟩ => rfl)).trans ?_
    exact slice2_axis1_apply o A hs n ⟨j.val, hj⟩ k hk
  · rw [hcast]
    refine (concatenate_pair_apply_right (t := S1024x256) 1 _ _ hc (ix2 n j) rfl rfl (ix2 n ⟨j.val - 128, by omega⟩)
      (fun a => match a with | ⟨0, _⟩ => fun _ => rfl | ⟨1, _⟩ => fun hne => absurd rfl hne)
      (by show j.val - 128 + 128 = j.val; omega)).trans ?_
    exact slice2_axis1_apply o B hs n ⟨j.val - 128, by omega⟩ k (by show k.val = o + (j.val - 128); omega)

end Body

/-- **What the second body stores for sample `s`**, given that `ed` is the first body's `e · pm`: entry `(n, j)` is
    `x[b, n, 4 j + s]` for `j < 128` and `e[n, 4 (j - 128) + s]` for `j ≥ 128` — the strided position of Spec. -/
theorem pay_apply (x0 : FVec Ideal S1x1024x512 .f32) (e : FVec Ideal S1024x512 .f32) (pm : FVec Ideal S512x512 .f32)
    (hpm : ∀ k c : Fin 512, pm (ix2 k c) = perm k c) (n : Fin 1024) (j : Fin 256) :
    (k1_pay3 (F := Ideal) x0 (k0_pay1 (F := Ideal) e pm) pm (ix4 (0 : Fin 1) n (0 : Fin 1) j)
        = if j.val < 128 then x0 (ix3 (0 : Fin 1) n (stridedPos 0 j)) else e (ix2 n (stridedPos 0 j)))
    ∧ (k1_pay4 (F := Ideal) x0 (k0_pay1 (F := Ideal) e pm) pm (ix4 (0 : Fin 1) n (0 : Fin 1) j)
        = if j.val < 128 then x0 (ix3 (0 : Fin 1) n (stridedPos 1 j)) else e (ix2 n (stridedPos 1 j)))
    ∧ (k1_pay5 (F := Ideal) x0 (k0_pay1 (F := Ideal) e pm) pm (ix4 (0 : Fin 1) n (0 : Fin 1) j)
        = if j.val < 128 then x0 (ix3 (0 : Fin 1) n (stridedPos 2 j)) else e (ix2 n (stridedPos 2 j)))
    ∧ (k1_pay6 (F := Ideal) x0 (k0_pay1 (F := Ideal) e pm) pm (ix4 (0 : Fin 1) n (0 : Fin 1) j)
        = if j.val < 128 then x0 (ix3 (0 : Fin 1) n (stridedPos 3 j)) else e (ix2 n (stridedPos 3 j))) := by
  -- one sample: columns `o = 128 s` on; the column read is `o + (j mod 128)`, whose source is the strided position
  have key : ∀ (s : Fin 4) (o : Nat) (ho : o = 128 * s.val) (hs : S1024x512.Slices ![0, o] S1024x128)
      (hc : Shape.Concatenates [S1024x128, S1024x128] S1024x256 1) (hsc : S1024x256.ShapeCasts S1x1024x1x256),
      shapeCast S1x1024x1x256 (concatenate S1024x256 1 [⟨S1024x128, extractStridedSlice S1024x128 ![0, o] (k1_pay2 (F := Ideal) x0 pm) hs⟩,
        ⟨S1024x128, extractStridedSlice S1024x128 ![0, o] (k1_pay1 (F := Ideal) (k0_pay1 (F := Ideal) e pm)) hs⟩] hc) hsc (ix4 (0 : Fin 1) n (0 : Fin 1) j)
        = if j.val < 128 then x0 (ix3 (0 : Fin 1) n (stridedPos s j)) else e (ix2 n (stridedPos s j)) := by
    intro s o ho hs hc hsc
    have hsrc : ∀ c : Fin 512, c.val = o + j.val % 128 → src c = stridedPos s j := fun c hcv =>
      Fin.ext (by show 4 * (c.val % 128) + c.val / 128 = 4 * (j.val % 128) + s.val; have := s.isLt; omega)
    by_cases hj : j.val < 128
    · rw [if_pos hj]
      have hk : (⟨o + j.val, by have := s.isLt; omega⟩ : Fin 512).val = o + j.val := rfl
      rw [(body_apply o _ _ hs hc hsc n j ⟨o + j.val, by have := s.isLt; omega⟩).1 hj hk, k1_pay2_apply x0 pm hpm,
        hsrc _ (by show o + j.val = o + j.val % 128; omega)]
    · rw [if_neg hj]
      have hk : (⟨o + j.val - 128, by have := s.isLt; omega⟩ : Fin 512).val + 128 = o + j.val := by show o + j.val - 128 + 128 = _; omega
      rw [(body_apply o _ _ hs hc hsc n j ⟨o + j.val - 128, by have := s.isLt; omega⟩).2 (by omega) hk, k1_pay1_eq, k0_pay1_apply e pm hpm,
        hsrc _ (by show o + j.val - 128 = o + j.val % 128; omega)]
  refine ⟨?_, ?_, ?_, ?_⟩
  · unfold k1_pay3; exact key 0 0 rfl _ _ _
  · unfold k1_pay4; exact key 1 128 rfl _ _ _
  · unfold k1_pay5; exact key 2 256 rfl _ _ _
  · unfold k1_pay6; exact key 3 384 rfl _ _ _

/-- **The second body's stores are the first result's entries.**  When the block `x0` of the first window is batch `b` of
    `x` (under its leading unit axis), sample `s`'s payload at `(n, j)` is entry `(b, n, s, j)` of the strided sampling. -/
theorem pay_out1 (x : FVec Ideal S16x1024x512 .f32) (e : FVec Ideal S1024x512 .f32) (pm : FVec Ideal S512x512 .f32)
    (hpm : ∀ k c : Fin 512, pm (ix2 k c) = perm k c) (b : Fin 16) (x0 : FVec Ideal S1x1024x512 .f32)
    (hx0 : ∀ (n : Fin 1024) (k : Fin 512), x0 (ix3 (0 : Fin 1) n k) = x (ix3 b n k)) (n : Fin 1024) (j : Fin 256) :
    (k1_pay3 (F := Ideal) x0 (k0_pay1 (F := Ideal) e pm) pm (ix4 (0 : Fin 1) n (0 : Fin 1) j) = out1 (F := Ideal) x e (ix4 b n (0 : Fin 4) j))
    ∧ (k1_pay4 (F := Ideal) x0 (k0_pay1 (F := Ideal) e pm) pm (ix4 (0 : Fin 1) n (0 : Fin 1) j) = out1 (F := Ideal) x e (ix4 b n (1 : Fin 4) j))
    ∧ (k1_pay5 (F := Ideal) x0 (k0_pay1 (F := Ideal) e pm) pm (ix4 (0 : Fin 1) n (0 : Fin 1) j) = out1 (F := Ideal) x e (ix4 b n (2 : Fin 4) j))
    ∧ (k1_pay6 (F := Ideal) x0 (k0_pay1 (F := Ideal) e pm) pm (ix4 (0 : Fin 1) n (0 : Fin 1) j) = out1 (F := Ideal) x e (ix4 b n (3 : Fin 4) j)) := by
  have P := pay_apply x0 e pm hpm n j
  refine ⟨?_, ?_, ?_, ?_⟩
  · rw [P.1, hx0]; rfl
  · rw [P.2.1, hx0]; rfl
  · rw [P.2.2.1, hx0]; rfl
  · rw [P.2.2.2, hx0]; rfl

end Cert.KernelIdeal.PayRead

end
-- ==== Proof.Bridge.lean ====
/-
  The two TensorCore regions' result, as a function of the arrays they read, is the first specified result: region 0
  leaves `ed = e · pm`, region 1 leaves for each batch and sample the columns `128 s …` of `x[b] · pm` beside those of `ed`,
  and with `pm` the permutation matrix these are the strided samples of `x[b, n, ·]` and `e[n, ·]`.
-/
import proofs.«206219_g40982577938455_cont_8to1_b_1362_29_alg».proof.Proof.RegionValue
import proofs.«206219_g40982577938455_cont_8to1_b_1362_29_alg».proof.Proof.PayRead
import proofs.«206219_g40982577938455_cont_8to1_b_1362_29_alg».proof.Proof.Spec

noncomputable section

namespace Cert.KernelIdeal.Bridge

open Cert.KernelIdeal Cert.KernelIdeal.Gen Cert.KernelIdeal.Regions Cert.KernelIdeal.Spec Cert.KernelIdeal.PermLaw
open Cert.KernelIdeal.PayRead Idealize.ShloMosaic Idealize.ShloMosaic.ValueIdx

/-- **The regions compute the strided sampling**, for any `pm` that is the permutation matrix entry by entry. -/
theorem region_value (x : FVec Ideal S16x1024x512 .f32) (e : FVec Ideal S1024x512 .f32) (pm : FVec Ideal S512x512 .f32)
    (hpm : ∀ i k : Fin 512, pm (ix2 i k) = Cert.KernelIdeal.PermLaw.perm i k) :
    Cert.KernelIdeal.Regions.R1 (F := Ideal) x (Cert.KernelIdeal.Regions.R0 (F := Ideal) e pm) pm = Cert.KernelIdeal.Spec.out1 (F := Ideal) x e := by
  funext i
  obtain ⟨b, n, s, j, rfl⟩ : ∃ (b : Fin 16) (n : Fin 1024) (s : Fin 4) (j : Fin 256), i = ix4 b n s j :=
    ⟨i 0, i 1, i 2, i 3, eq_ix4 i⟩
  have P := pay_out1 x e pm hpm b (fun q => x (ix3 b (q 1 : Fin 1024) (q 2 : Fin 512))) (fun _ _ => rfl) n j
  unfold R1 R0
  match s with
  | ⟨0, _⟩ => exact P.1
  | ⟨1, _⟩ => exact P.2.1
  | ⟨2, _⟩ => exact P.2.2.1
  | ⟨3, _⟩ => exact P.2.2.2

end Cert.KernelIdeal.Bridge

end
-- ==== Proof.RefRead.lean ====
/-
  The reference's two results read at an index.

  Both results are built the same way from the row `x[b, n, ·]` (512 entries) and the row `e[n, ·]`: the row is
  cut into four pieces of 128 entries, the pieces are laid side by side on a new last axis ([…, 128, 4]), the two last
  axes are exchanged ([…, 4, 128]), and x's array is joined with e's along the last axis ([…, 4, 256]).
  For the first result piece `s` is every fourth entry from `s` on (entry `q` of it is position `4 q + s`); for the
  second, piece `s` is the block of 128 consecutive entries from `128 s` on (entry `q` is position `128 s + q`).
  So entry `(b, n, s, j)` is `x[b, n, p]` for `j < 128` and `e[n, p]` for `j ≥ 128`, `p` the position of entry
  `j mod 128` of piece `s`.  Pure data movement: no float operation is read, and the statements hold at every instance.
-/
import proofs.«206219_g40982577938455_cont_8to1_b_1362_29_alg».proof.Proof.Gen.ReferenceIdeal.Read
import Idealize.ShloMosaic.Lib.ValueIdx

noncomputable section

namespace Cert.RefRead

open Cert.ReferenceIdeal Cert.ReferenceIdeal.Gen Cert.ReferenceIdeal.Read Idealize.ShloMosaic Idealize.ShloMosaic.ValueIdx

section Layout
variable {α : Type}

/-- Every fourth entry from `c` on, read at an index: entry `q` is position `c + 4 q`. -/
theorem strided_slice_apply (c : Nat) (y : S16x1024x512x1.Idx → α)
    (h : S16x1024x512x1.SlicesBy ![0, 0, c, 0] ![1, 1, 4, 1] S16x1024x128x1)
    (b : Fin 16) (n : Fin 1024) (q : Fin 128) (k : Fin 512) (hk : k.val = c + 4 * q.val) :
    Host.slice S16x1024x128x1 ![0, 0, c, 0] ![1, 1, 4, 1] y h (ix4 b n q (0 : Fin 1)) = y (ix4 b n k (0 : Fin 1)) := by
  unfold Host.slice
  refine congrArg y (funext fun a => Fin.ext ?_)
  match a with
  | ⟨0, _⟩ => show 0 + 1 * b.val = b.val; omega
  | ⟨1, _⟩ => show 0 + 1 * n.val = n.val; omega
  | ⟨2, _⟩ => show c + 4 * q.val = k.val; omega
  | ⟨3, _⟩ => rfl

/-- The block of 128 consecutive entries from `c` on, read at an index: entry `q` is position `c + q`. -/
theorem block_slice_apply (c : Nat) (y : S16x1024x512x1.Idx → α)
    (h : S16x1024x512x1.Slices ![0, 0, c, 0] S16x1024x128x1)
    (b : Fin 16) (n : Fin 1024) (q : Fin 128) (k : Fin 512) (hk : k.val = c + q.val) :
    extractStridedSlice S16x1024x128x1 ![0, 0, c, 0] y h (ix4 b n q (0 : Fin 1)) = y (ix4 b n k (0 : Fin 1)) :=
  extractStridedSlice_apply _ y h _ _ (fun a => match a with
    | ⟨0, _⟩ => by show b.val = 0 + b.val; omega
    | ⟨1, _⟩ => by show n.val = 0 + n.val; omega
    | ⟨2, _⟩ => by show k.val = c + q.val; omega
    | ⟨3, _⟩ => rfl)

/-- Off the joined axis an index of a piece and the index of the joined array have the same coordinates. -/
theorem piece_coords (b : Fin 16) (n : Fin 1024) (q : Fin 128) (s : Fin 4) :
    ∀ b' : Fin S16x1024x128x1.rank, b'.cast (rfl : S16x1024x128x1.rank = S16x1024x128x4.rank) ≠ (3 : Fin 4) →
      ((ix4 b n q (0 : Fin 1) : S16x1024x128x1.Idx) b').val = ((ix4 b n q s : S16x1024x128x4.Idx) (b'.cast rfl)).val :=
  fun b' => match b' with
    | ⟨0, _⟩ => fun _ => rfl
    | ⟨1, _⟩ => fun _ => rfl
    | ⟨2, _⟩ => fun _ => rfl
    | ⟨3, _⟩ => fun hne => absurd rfl hne

/-- Four pieces of extent 1 laid side by side on the last axis, read at an index: coordinate `s` names the piece. -/
theorem cat4_apply (y0 y1 y2 y3 : S16x1024x128x1.Idx → α)
    (h : Shape.Concatenates [S16x1024x128x1, S16x1024x128x1, S16x1024x128x1, S16x1024x128x1] S16x1024x128x4 3)
    (b : Fin 16) (n : Fin 1024) (q : Fin 128) :
    (concatenate S16x1024x128x4 3 [⟨S16x1024x128x1, y0⟩, ⟨S16x1024x128x1, y1⟩, ⟨S16x1024x128x1, y2⟩, ⟨S16x1024x128x1, y3⟩] h (ix4 b n q (0 : Fin 4)) = y0 (ix4 b n q (0 : Fin 1)))
    ∧ (concatenate S16x1024x128x4 3 [⟨S16x1024x128x1, y0⟩, ⟨S16x1024x128x1, y1⟩, ⟨S16x1024x128x1, y2⟩, ⟨S16x1024x128x1, y3⟩] h (ix4 b n q (1 : Fin 4)) = y1 (ix4 b n q (0 : Fin 1)))
    ∧ (concatenate S16x1024x128x4 3 [⟨S16x1024x128x1, y0⟩, ⟨S16x1024x128x1, y1⟩, ⟨S16x1024x128x1, y2⟩, ⟨S16x1024x128x1, y3⟩] h (ix4 b n q (2 : Fin 4)) = y2 (ix4 b n q (0 : Fin 1)))
    ∧ (concatenate S16x1024x128x4 3 [⟨S16x1024x128x1, y0⟩, ⟨S16x1024x128x1, y1⟩, ⟨S16x1024x128x1, y2⟩, ⟨S16x1024x128x1, y3⟩] h (ix4 b n q (3 : Fin 4)) = y3 (ix4 b n q (0 : Fin 1))) := by
  refine ⟨?_, ?_, ?_, ?_⟩
  · exact concatenate_apply_piece (t := S16x1024x128x4) 3 [⟨S16x1024x128x1, y0⟩, ⟨S16x1024x128x1, y1⟩, ⟨S16x1024x128x1, y2⟩, ⟨S16x1024x128x1, y3⟩] h
      (ix4 b n q (0 : Fin 4)) 0 (by simp) S16x1024x128x1 y0 rfl rfl 0 rfl (ix4 b n q (0 : Fin 1)) (piece_coords b n q 0) rfl
  · exact concatenate_apply_piece (t := S16x1024x128x4) 3 [⟨S16x1024x128x1, y0⟩, ⟨S16x1024x128x1, y1⟩, ⟨S16x1024x128x1, y2⟩, ⟨S16x1024x128x1, y3⟩] h
      (ix4 b n q (1 : Fin 4)) 1 (by simp) S16x1024x128x1 y1 rfl rfl 1 rfl (ix4 b n q (0 : Fin 1)) (piece_coords b n q 1) rfl
  · exact concatenate_apply_piece (t := S16x1024x128x4) 3 [⟨S16x1024x128x1, y0⟩, ⟨S16x1024x128x1, y1⟩, ⟨S16x1024x128x1, y2⟩, ⟨S16x1024x128x1, y3⟩] h
      (ix4 b n q (2 : Fin 4)) 2 (by simp) S16x1024x128x1 y2 rfl rfl 2 rfl (ix4 b n q (0 : Fin 1)) (piece_coords b n q 2) rfl
  · exact concatenate_apply_piece (t := S16x1024x128x4) 3 [⟨S16x1024x128x1, y0⟩, ⟨S16x1024x128x1, y1⟩, ⟨S16x1024x128x1, y2⟩, ⟨S16x1024x128x1, y3⟩] h
      (ix4 b n q (3 : Fin 4)) 3 (by simp) S16x1024x128x1 y3 rfl rfl 3 rfl (ix4 b n q (0 : Fin 1)) (piece_coords b n q 3) rfl

end Layout

section Stages
variable {F : FTy → Type} [FloatOps F]

/-- `x` under a trailing unit axis. -/
theorem v0_at (x0 : (⟨S16x1024x512, .f32⟩ : BufTy).Contents (Elt F)) (b : Fin 16) (n : Fin 1024) (k : Fin 512) :
    val_main_v0 (F := F) x0 (ix4 b n k (0 : Fin 1)) = x0 (ix3 b n k) := by
  rw [val_main_v0_apply]
  exact congrArg x0 (funext fun a => match a with | ⟨0, _⟩ => rfl | ⟨1, _⟩ => rfl | ⟨2, _⟩ => rfl)

/-- `e` repeated over the 16 batches, under a trailing unit axis. -/
theorem v3_at (x2 : (⟨S1024x512, .f32⟩ : BufTy).Contents (Elt F)) (b : Fin 16) (n : Fin 1024) (k : Fin 512) :
    val_main_v3 (F := F) x2 (ix4 b n k (0 : Fin 1)) = x2 (ix2 n k) := by
  rw [val_main_v3_apply, val_main_v2_apply, val_main_v1_apply]
  exact congrArg x2 (funext fun a => match a with | ⟨0, _⟩ => rfl | ⟨1, _⟩ => rfl)

/-- The four strided samples of `x` side by side: entry `(q, s)` is position `4 q + s`. -/
theorem v8_at (x0 : (⟨S16x1024x512, .f32⟩ : BufTy).Contents (Elt F)) (b : Fin 16) (n : Fin 1024) (q : Fin 128) (s : Fin 4)
    (k : Fin 512) (hk : k.val = 4 * q.val + s.val) : val_main_v8 (F := F) x0 (ix4 b n q s) = x0 (ix3 b n k) := by
  have C := cat4_apply (val_main_v4 (F := F) x0) (val_main_v5 (F := F) x0) (val_main_v6 (F := F) x0) (val_main_v7 (F := F) x0)
    concatenates_S16x1024x128x1_S16x1024x128x1_S16x1024x128x1_S16x1024x128x1_S16x1024x128x4_d3 b n q
  unfold val_main_v8
  match s, hk with
  | ⟨0, _⟩, hk => exact C.1.trans ((strided_slice_apply 0 _ _ b n q k (by have h' : k.val = 4 * q.val + 0 := hk; omega)).trans (v0_at x0 b n k))
  | ⟨1, _⟩, hk => exact C.2.1.trans ((strided_slice_apply 1 _ _ b n q k (by have h' : k.val = 4 * q.val + 1 := hk; omega)).trans (v0_at x0 b n k))
  | ⟨2, _⟩, hk => exact C.2.2.1.trans ((strided_slice_apply 2 _ _ b n q k (by have h' : k.val = 4 * q.val + 2 := hk; omega)).trans (v0_at x0 b n k))
  | ⟨3, _⟩, hk => exact C.2.2.2.trans ((strided_slice_apply 3 _ _ b n q k (by have h' : k.val = 4 * q.val + 3 := hk; omega)).trans (v0_at x0 b n k))

/-- The four strided samples of `e` side by side. -/
theorem v14_at (x2 : (⟨S1024x512, .f32⟩ : BufTy).Contents (Elt F)) (b : Fin 16) (n : Fin 1024) (q : Fin 128) (s : Fin 4)
    (k : Fin 512) (hk : k.val = 4 * q.val + s.val) : val_main_v14 (F := F) x2 (ix4 b n q s) = x2 (ix2 n k) := by
  have C := cat4_apply (val_main_v10 (F := F) x2) (val_main_v11 (F := F) x2) (val_main_v12 (F := F) x2) (val_main_v13 (F := F) x2)
    concatenates_S16x1024x128x1_S16x1024x128x1_S16x1024x128x1_S16x1024x128x1_S16x1024x128x4_d3 b n q
  unfold val_main_v14
  match s, hk with
  | ⟨0, _⟩, hk => exact C.1.trans ((strided_slice_apply 0 _ _ b n q k (by have h' : k.val = 4 * q.val + 0 := hk; omega)).trans (v3_at x2 b n k))
  | ⟨1, _⟩, hk => exact C.2.1.trans ((strided_slice_apply 1 _ _ b n q k (by have h' : k.val = 4 * q.val + 1 := hk; omega)).trans (v3_at x2 b n k))
  | ⟨2, _⟩, hk => exact C.2.2.1.trans ((strided_slice_apply 2 _ _ b n q k (by have h' : k.val = 4 * q.val + 2 := hk; omega)).trans (v3_at x2 b n k))
  | ⟨3, _⟩, hk => exact C.2.2.2.trans ((strided_slice_apply 3 _ _ b n q k (by have h' : k.val = 4 * q.val + 3 := hk; omega)).trans (v3_at x2 b n k))

/-- The four blocked samples of `x` side by side: entry `(q, s)` is position `128 s + q`. -/
theorem v21_at (x0 : (⟨S16x1024x512, .f32⟩ : BufTy).Contents (Elt F)) (b : Fin 16) (n : Fin 1024) (q : Fin 128) (s : Fin 4)
    (k : Fin 512) (hk : k.val = 128 * s.val + q.val) : val_main_v21 (F := F) x0 (ix4 b n q s) = x0 (ix3 b n k) := by
  have C := cat4_apply (val_main_v17 (F := F) x0) (val_main_v18 (F := F) x0) (val_main_v19 (F := F) x0) (val_main_v20 (F := F) x0)
    concatenates_S16x1024x128x1_S16x1024x128x1_S16x1024x128x1_S16x1024x128x1_S16x1024x128x4_d3 b n q
  unfold val_main_v21
  match s, hk with
  | ⟨0, _⟩, hk => exact C.1.trans ((block_slice_apply 0 _ _ b n q k (by have h' : k.val = 128 * 0 + q.val := hk; omega)).trans (v0_at x0 b n k))
  | ⟨1, _⟩, hk => exact C.2.1.trans ((block_slice_apply 128 _ _ b n q k (by have h' : k.val = 128 * 1 + q.val := hk; omega)).trans (v0_at x0 b n k))
  | ⟨2, _⟩, hk => exact C.2.2.1.trans ((block_slice_apply 256 _ _ b n q k (by have h' : k.val = 128 * 2 + q.val := hk; omega)).trans (v0_at x0 b n k))
  | ⟨3, _⟩, hk => exact C.2.2.2.trans ((block_slice_apply 384 _ _ b n q k (by have h' : k.val = 128 * 3 + q.val := hk; omega)).trans (v0_at x0 b n k))

/-- The four blocked samples of `e` side by side. -/
theorem v27_at (x2 : (⟨S1024x512, .f32⟩ : BufTy).Contents (Elt F)) (b : Fin 16) (n : Fin 1024) (q : Fin 128) (s : Fin 4)
    (k : Fin 512) (hk : k.val = 128 * s.val + q.val) : val_main_v27 (F := F) x2 (ix4 b n q s) = x2 (ix2 n k) := by
  have C := cat4_apply (val_main_v23 (F := F) x2) (val_main_v24 (F := F) x2) (val_main_v25 (F := F) x2) (val_main_v26 (F := F) x2)
    concatenates_S16x1024x128x1_S16x1024x128x1_S16x1024x128x1_S16x1024x128x1_S16x1024x128x4_d3 b n q
  unfold val_main_v27
  match s, hk with
  | ⟨0, _⟩, hk => exact C.1.trans ((block_slice_apply 0 _ _ b n q k (by have h' : k.val = 128 * 0 + q.val := hk; omega)).trans (v3_at x2 b n k))
  | ⟨1, _⟩, hk => exact C.2.1.trans ((block_slice_apply 128 _ _ b n q k (by have h' : k.val = 128 * 1 + q.val := hk; omega)).trans (v3_at x2 b n k))
  | ⟨2, _⟩, hk => exact C.2.2.1.trans ((block_slice_apply 256 _ _ b n q k (by have h' : k.val = 128 * 2 + q.val := hk; omega)).trans (v3_at x2 b n k))
  | ⟨3, _⟩, hk => exact C.2.2.2.trans ((block_slice_apply 384 _ _ b n q k (by have h' : k.val = 128 * 3 + q.val := hk; omega)).trans (v3_at x2 b n k))

/-- Exchanging the two last axes of an index. -/
theorem swap_idx (b : Fin 16) (n : Fin 1024) (s : Fin 4) (q : Fin 128) :
    (fun a => match a with
      | ⟨0, _⟩ => ⟨((ix4 b n s q : S16x1024x4x128.Idx) 0).val, ((ix4 b n s q : S16x1024x4x128.Idx) 0).isLt⟩
      | ⟨1, _⟩ => ⟨((ix4 b n s q : S16x1024x4x128.Idx) 1).val, ((ix4 b n s q : S16x1024x4x128.Idx) 1).isLt⟩
      | ⟨2, _⟩ => ⟨((ix4 b n s q : S16x1024x4x128.Idx) 3).val, ((ix4 b n s q : S16x1024x4x128.Idx) 3).isLt⟩
      | ⟨3, _⟩ => ⟨((ix4 b n s q : S16x1024x4x128.Idx) 2).val, ((ix4 b n s q : S16x1024x4x128.Idx) 2).isLt⟩ : S16x1024x128x4.Idx)
      = ix4 b n q s :=
  funext fun a => match a with | ⟨0, _⟩ => rfl | ⟨1, _⟩ => rfl | ⟨2, _⟩ => rfl | ⟨3, _⟩ => rfl

theorem v9_at (x0 : (⟨S16x1024x512, .f32⟩ : BufTy).Contents (Elt F)) (b : Fin 16) (n : Fin 1024) (s : Fin 4) (q : Fin 128)
    (k : Fin 512) (hk : k.val = 4 * q.val + s.val) : val_main_v9 (F := F) x0 (ix4 b n s q) = x0 (ix3 b n k) := by
  rw [val_main_v9_apply]
  exact (congrArg (val_main_v8 (F := F) x0) (swap_idx b n s q)).trans (v8_at x0 b n q s k hk)
theorem v15_at (x2 : (⟨S1024x512, .f32⟩ : BufTy).Contents (Elt F)) (b : Fin 16) (n : Fin 1024) (s : Fin 4) (q : Fin 128)
    (k : Fin 512) (hk : k.val = 4 * q.val + s.val) : val_main_v15 (F := F) x2 (ix4 b n s q) = x2 (ix2 n k) := by
  rw [val_main_v15_apply]
  exact (congrArg (val_main_v14 (F := F) x2) (swap_idx b n s q)).trans (v14_at x2 b n q s k hk)
theorem v22_at (x0 : (⟨S16x1024x512, .f32⟩ : BufTy).Contents (Elt F)) (b : Fin 16) (n : Fin 1024) (s : Fin 4) (q : Fin 128)
    (k : Fin 512) (hk : k.val = 128 * s.val + q.val) : val_main_v22 (F := F) x0 (ix4 b n s q) = x0 (ix3 b n k) := by
  rw [val_main_v22_apply]
  exact (congrArg (val_main_v21 (F := F) x0) (swap_idx b n s q)).trans (v21_at x0 b n q s k hk)
theorem v28_at (x2 : (⟨S1024x512, .f32⟩ : BufTy).Contents (Elt F)) (b : Fin 16) (n : Fin 1024) (s : Fin 4) (q : Fin 128)
    (k : Fin 512) (hk : k.val = 128 * s.val + q.val) : val_main_v28 (F := F) x2 (ix4 b n s q) = x2 (ix2 n k) := by
  rw [val_main_v28_apply]
  exact (congrArg (val_main_v27 (F := F) x2) (swap_idx b n s q)).trans (v27_at x2 b n q s k hk)

/-- Joining x's part and e's part along the last axis: the left half. -/
theorem join_left {α : Type} (y₁ y₂ : S16x1024x4x128.Idx → α)
    (h : Shape.Concatenates [S16x1024x4x128, S16x1024x4x128] S16x1024x4x256 3)
    (b : Fin 16) (n : Fin 1024) (s : Fin 4) (j : Fin 256) (hj : j.val < 128) :
    concatenate S16x1024x4x256 3 [⟨S16x1024x4x128, y₁⟩, ⟨S16x1024x4x128, y₂⟩] h (ix4 b n s j) = y₁ (ix4 b n s ⟨j.val, hj⟩) :=
  concatenate_pair_apply_left (t := S16x1024x4x256) 3 y₁ y₂ h (ix4 b n s j) rfl (ix4 b n s ⟨j.val, hj⟩)
    (fun a => match a with | ⟨0, _⟩ => rfl | ⟨1, _⟩ => rfl | ⟨2, _⟩ => rfl | ⟨3, _⟩ => rfl)
/-- … and the right half. -/
theorem join_right {α : Type} (y₁ y₂ : S16x1024x4x128.Idx → α)
    (h : Shape.Concatenates [S16x1024x4x128, S16x1024x4x128] S16x1024x4x256 3)
    (b : Fin 16) (n : Fin 1024) (s : Fin 4) (j : Fin 256) (hj : 128 ≤ j.val) :
    concatenate S16x1024x4x256 3 [⟨S16x1024x4x128, y₁⟩, ⟨S16x1024x4x128, y₂⟩] h (ix4 b n s j) = y₂ (ix4 b n s ⟨j.val - 128, by omega⟩) :=
  concatenate_pair_apply_right (t := S16x1024x4x256) 3 y₁ y₂ h (ix4 b n s j) rfl rfl (ix4 b n s ⟨j.val - 128, by omega⟩)
    (fun a => match a with | ⟨0, _⟩ => fun _ => rfl | ⟨1, _⟩ => fun _ => rfl | ⟨2, _⟩ => fun _ => rfl | ⟨3, _⟩ => fun hne => absurd rfl hne)
    (by show j.val - 128 + 128 = j.val; omega)

/-- **The first result of the reference at an index**, left half: `x[b, n, 4 j + s]`. -/
theorem ref1_lt (x0 : (⟨S16x1024x512, .f32⟩ : BufTy).Contents (Elt F)) (x2 : (⟨S1024x512, .f32⟩ : BufTy).Contents (Elt F))
    (b : Fin 16) (n : Fin 1024) (s : Fin 4) (j : Fin 256) (k : Fin 512) (hj : j.val < 128) (hk : k.val = 4 * j.val + s.val) :
    val_main_v16 (F := F) x0 x2 (ix4 b n s j) = x0 (ix3 b n k) := by
  unfold val_main_v16
  exact (join_left _ _ _ b n s j hj).trans (v9_at x0 b n s ⟨j.val, hj⟩ k hk)
/-- Right half: `e[n, 4 (j - 128) + s]`. -/
theorem ref1_ge (x0 : (⟨S16x1024x512, .f32⟩ : BufTy).Contents (Elt F)) (x2 : (⟨S1024x512, .f32⟩ : BufTy).Contents (Elt F))
    (b : Fin 16) (n : Fin 1024) (s : Fin 4) (j : Fin 256) (k : Fin 512) (hj : 128 ≤ j.val) (hk : k.val + 512 = 4 * j.val + s.val) :
    val_main_v16 (F := F) x0 x2 (ix4 b n s j) = x2 (ix2 n k) := by
  unfold val_main_v16
  exact (join_right _ _ _ b n s j hj).trans (v15_at x2 b n s ⟨j.val - 128, by omega⟩ k (by show k.val = 4 * (j.val - 128) + s.val; omega))
/-- **The second result of the reference at an index**, left half: `x[b, n, 128 s + j]`. -/
theorem ref2_lt (x0 : (⟨S16x1024x512, .f32⟩ : BufTy).Contents (Elt F)) (x2 : (⟨S1024x512, .f32⟩ : BufTy).Contents (Elt F))
    (b : Fin 16) (n : Fin 1024) (s : Fin 4) (j : Fin 256) (k : Fin 512) (hj : j.val < 128) (hk : k.val = 128 * s.val + j.val) :
    val_main_v29 (F := F) x0 x2 (ix4 b n s j) = x0 (ix3 b n k) := by
  unfold val_main_v29
  exact (join_left _ _ _ b n s j hj).trans (v22_at x0 b n s ⟨j.val, hj⟩ k hk)
/-- Right half: `e[n, 128 s + j - 128]`. -/
theorem ref2_ge (x0 : (⟨S16x1024x512, .f32⟩ : BufTy).Contents (Elt F)) (x2 : (⟨S1024x512, .f32⟩ : BufTy).Contents (Elt F))
    (b : Fin 16) (n : Fin 1024) (s : Fin 4) (j : Fin 256) (k : Fin 512) (hj : 128 ≤ j.val) (hk : k.val + 128 = 128 * s.val + j.val) :
    val_main_v29 (F := F) x0 x2 (ix4 b n s j) = x2 (ix2 n k) := by
  unfold val_main_v29
  exact (join_right _ _ _ b n s j hj).trans (v28_at x2 b n s ⟨j.val - 128, by omega⟩ k (by show k.val = 128 * s.val + (j.val - 128); omega))

end Stages

end Cert.RefRead

end
-- ==== Proof.RefValue.lean ====
/-
  The reference's two results ARE the two specified index functions: entry by entry, by the half of the last axis the
  index falls in.  Holds at every float instance (nothing is computed, entries are only moved).
-/
import proofs.«206219_g40982577938455_cont_8to1_b_1362_29_alg».proof.Proof.RefRead
import proofs.«206219_g40982577938455_cont_8to1_b_1362_29_alg».proof.Proof.Spec

noncomputable section

namespace Cert.RefValue

open Cert.ReferenceIdeal Cert.ReferenceIdeal.Gen Cert.ReferenceIdeal.Read Idealize.ShloMosaic Idealize.ShloMosaic.ValueIdx
open Cert.KernelIdeal.Spec Cert.RefRead

variable {F : FTy → Type} [FloatOps F]

/-- The reference's first result is the strided sampling `out1`. -/
theorem ref_out1 (x0 : (⟨S16x1024x512, .f32⟩ : BufTy).Contents (Elt F)) (x2 : (⟨S1024x512, .f32⟩ : BufTy).Contents (Elt F)) :
    val_main_v16 (F := F) x0 x2 = out1 (F := F) x0 x2 := by
  funext i
  obtain ⟨b, n, s, j, rfl⟩ : ∃ (b : Fin 16) (n : Fin 1024) (s : Fin 4) (j : Fin 256), i = ix4 b n s j := ⟨i 0, i 1, i 2, i 3, eq_ix4 i⟩
  by_cases hj : j.val < 128
  · rw [ref1_lt x0 x2 b n s j (stridedPos s j) hj (by show 4 * (j.val % 128) + s.val = _; omega)]
    exact (out1_of_lt (F := F) x0 x2 b n s j (stridedPos s j) hj (by show 4 * (j.val % 128) + s.val = _; omega)).symm
  · rw [ref1_ge x0 x2 b n s j (stridedPos s j) (by omega) (by show 4 * (j.val % 128) + s.val + 512 = _; omega)]
    exact (out1_of_ge (F := F) x0 x2 b n s j (stridedPos s j) (by omega) (by show 4 * (j.val % 128) + s.val + 512 = _; omega)).symm

/-- The reference's second result is the blocked sampling `out2`. -/
theorem ref_out2 (x0 : (⟨S16x1024x512, .f32⟩ : BufTy).Contents (Elt F)) (x2 : (⟨S1024x512, .f32⟩ : BufTy).Contents (Elt F)) :
    val_main_v29 (F := F) x0 x2 = out2 (F := F) x0 x2 := by
  funext i
  obtain ⟨b, n, s, j, rfl⟩ : ∃ (b : Fin 16) (n : Fin 1024) (s : Fin 4) (j : Fin 256), i = ix4 b n s j := ⟨i 0, i 1, i 2, i 3, eq_ix4 i⟩
  by_cases hj : j.val < 128
  · rw [ref2_lt x0 x2 b n s j (blockedPos s j) hj (by show 128 * s.val + j.val % 128 = _; omega)]
    exact (out2_of_lt (F := F) x0 x2 b n s j (blockedPos s j) hj (by show 128 * s.val + j.val % 128 = _; omega)).symm
  · rw [ref2_ge x0 x2 b n s j (blockedPos s j) (by omega) (by show 128 * s.val + j.val % 128 + 128 = _; omega)]
    exact (out2_of_ge (F := F) x0 x2 b n s j (blockedPos s j) (by omega) (by show 128 * s.val + j.val % 128 + 128 = _; omega)).symm

end Cert.RefValue

end
-- ==== Proof.IdealClaims.lean ====
/-
  The claims about the idealized kernel and the idealized reference, from the tile's body. The kernel's run ends with
  the first result at the two matrix products with the permutation matrix, cut and joined as the second region stores
  them, and the second result at the copied rows; on the extended reals a product with a 0/1 permutation matrix picks
  one entry of each row, so the first result is x and the table read with stride 4, which is what the reference's
  slices by step give; the second result is the same rows read in four blocks of 128, the reference's contiguous slices.
-/
import proofs.«206219_g40982577938455_cont_8to1_b_1362_29_alg».proof.Proof.MainRun
import proofs.«206219_g40982577938455_cont_8to1_b_1362_29_alg».proof.Proof.RegionFinal
import proofs.«206219_g40982577938455_cont_8to1_b_1362_29_alg».proof.Proof.HostPermRun
import proofs.«206219_g40982577938455_cont_8to1_b_1362_29_alg».proof.Proof.Bridge
import proofs.«206219_g40982577938455_cont_8to1_b_1362_29_alg».proof.Proof.RefValue
import proofs.«206219_g40982577938455_cont_8to1_b_1362_29_alg».proof.Proof.Gen.Pre_finite_inputs
import proofs.«206219_g40982577938455_cont_8to1_b_1362_29_alg».proof.Proof.Gen.ReferenceIdeal.Run
import proofs.«206219_g40982577938455_cont_8to1_b_1362_29_alg».proof.Proof.Gen.ReferenceIdeal.Read

noncomputable section

namespace Cert.Proof.IdealClaims

open Idealize.ShloMosaic Idealize.ShloMosaic.TcCoe Idealize.SL.Sem
open Cert.KernelIdeal Cert.KernelIdeal.Setup Cert.KernelIdeal.Final

/-- The tile's body, for every launch memory. -/
abbrev BodyHolds : Prop := ∀ m : (ℓ : Loc nD τ sig) → Buf (Elt Ideal) ℓ, Cert.KernelIdeal.Payload.TileBodyHolds (F := Ideal) m

/-- The idealized kernel's run: both results named, the arguments unchanged. -/
theorem run_ki (hbody : BodyHolds) (m : (ℓ : Loc nD τ sig) → Buf (Elt Ideal) ℓ) (g : Dev nD → PrngReg) :
    θ_run (Cert.KernelIdeal.defs (F := Ideal)) (Cert.KernelIdeal.threads (F := Ideal)) ⟨m, fun _ => 0, g⟩
      (QC m (Cert.KernelIdeal.MainRun.r1 m) (Cert.KernelIdeal.MainRun.r2 m)) :=
  Cert.KernelIdeal.RunShape.run_main (F := Ideal) m g _ _ (hbody m) (Cert.KernelIdeal.MainRun.hmain m g)

theorem frame_ki (hbody : BodyHolds) : Cert.frame_KernelIdeal := fun m g _ =>
  (θ_run Cert.KernelIdeal.defs _ _).mono (fun _ h c => (h c).2.2) (run_ki hbody m g)

theorem frame_ri : Cert.frame_ReferenceIdeal := fun m ρ _ =>
  (θ_run Cert.ReferenceIdeal.defs _ _).mono (fun _ h c => (h c).2.2) (Cert.ReferenceIdeal.Value.run (F := Ideal) m ρ)

/-- The first result's contents at the end of the idealized kernel's run. -/
theorem r1_eq (m : (ℓ : Loc nD τ sig) → Buf (Elt Ideal) ℓ) (c : Dev nD) :
    Cert.KernelIdeal.MainRun.r1 m c = Cert.KernelIdeal.Spec.out1 (F := Ideal) (m (aLoc c main_arg0)) (m (aLoc c main_arg2)) := by
  unfold Cert.KernelIdeal.MainRun.r1
  rw [Cert.KernelIdeal.Regions.W3_main_v23_eq]
  exact Cert.KernelIdeal.Bridge.region_value _ _ _ (fun i k => Cert.KernelIdeal.HostPermRun.after_v21_apply _ i k)

theorem algebraic (hbody : BodyHolds) : Cert.algebraic_KernelIdeal_ReferenceIdeal := by
  intro m g m' g' _ hagree
  refine ⟨fun c => Cert.KernelIdeal.Spec.out1 (F := Ideal) (m (aLoc c main_arg0)) (m (aLoc c main_arg2)),
    fun c => Cert.KernelIdeal.Spec.out2 (F := Ideal) (m (aLoc c main_arg0)) (m (aLoc c main_arg2)), ?_, ?_⟩
  · exact (θ_run Cert.KernelIdeal.defs _ _).mono (fun _ h c => ⟨(h c).1.trans (r1_eq m c), (h c).2.1, (h c).2.2⟩) (run_ki hbody m g)
  · refine (θ_run Cert.ReferenceIdeal.defs _ _).mono (fun _ h c => ⟨(h c).1.trans ?_, (h c).2.1.trans ?_, (h c).2.2⟩)
      (Cert.ReferenceIdeal.Value.run (F := Ideal) m' g')
    · rw [Cert.ReferenceIdeal.Read.val_main_v16_eq, Cert.RefValue.ref_out1, (hagree c).1, (hagree c).2.2]
    · rw [Cert.ReferenceIdeal.Read.val_main_v29_eq, Cert.RefValue.ref_out2, (hagree c).1, (hagree c).2.2]

end Cert.Proof.IdealClaims

end
-- ==== Proof.Bits.Setup.lean ====
/-
  The program as the SparseCore launch theorem sees it: its label signature over the two TensorCore pipelines, the
  SparseCore configuration, the body table, the variants, the side facts of the four launch semaphores, and the
  row of the body table that a vector subcore runs (the kernel applied to the whole arrays and its own scratch).
-/
import proofs.«206219_g40982577938455_cont_8to1_b_1362_29_alg».proof.Defs
import proofs.«206219_g40982577938455_cont_8to1_b_1362_29_alg».proof.Proof.Gen.Kernel
import Idealize.ShloMosaic.Lib.SparseCore.Launch
import Idealize.ShloMosaic.Lib.StableHlo.Run
import Idealize.ShloMosaic.Lib.Pipeline.Kit
import Idealize.ShloMosaic.Lib.Tactic

noncomputable section

namespace Cert.Kernel.Setup

open Cert.Kernel Cert.Kernel.Gen
open Idealize.ShloMosaic
open Idealize.ShloMosaic.SparseCore (S V T)
open Idealize.SL Idealize.SL.Sem

variable {F : FTy → Type}

/-- The labels: the kernels' own, each pipeline's region and body. -/
abbrev ΛP : Labels := Pipeline.Sig Λ₀ (Fin 2) fun p => (pcfgs (F := F) p).Adm
/-- The one SparseCore call. -/
abbrev K : SparseCore.Cfg τ sig (ΛP (F := F)) 1 := sc (F := F)
theorem nCore_zero : (K (F := F)).nCore 0 = 2 := rfl
theorem nSub_zero : (K (F := F)).nSub 0 = 16 := rfl
/-- The body table under the SparseCore dispatch: the pipelines' over the kernels'. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct, unscoped, and no buffer of a SparseCore is reassigned per task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- A tile's coordinates in the kernel's grid: (SparseCore, vector subcore). -/
def coordsV (c : Fin (grid2.bound 0)) (s : Fin (grid2.bound 1)) : grid2.Coords :=
  fun | 0 => c | 1 => s | ⟨_ + 2, h⟩ => absurd h (Nat.not_lt.2 (Nat.le_add_left _ _))

/-! ## The resource algebra

Three components side by side: the launch handshakes' rounds (levels in ℕ), the TensorCore pipelines' staging
cells' rounds, and the counters of the tiles' own local copies. -/

open Idealize.ShloMosaic.SparseCore.Cfg (HIx)
open Idealize.SL.RA
open Idealize.ShloMosaic.Rounds

abbrev UH : Type := URounds (GSem nD τ sig) ℕ
abbrev UK : Type := URounds (GSem nD τ sig) Unit
abbrev UU : Type := UH × (UK × Counters)

/-- The handshakes' rounds: the left component. -/
abbrev EH : Emb UH (MT nD τ sig (HIx 1) (Elt F) ℕ UU ℕ) := embL
/-- The pipelines' rounds: the left of the right component. -/
def EP : Emb UK (MT nD τ sig (HIx 1) (Elt F) ℕ UU ℕ) := (Emb.inl : Emb UK (UK × Counters)).trans embR

instance EP_landsIn : (EP : Emb UK (MT nD τ sig (HIx 1) (Elt F) ℕ UU ℕ)).LandsIn (upEmb : UEmb _ (MT nD τ sig (HIx 1) (Elt F) ℕ UU ℕ)) := by
  unfold EP; infer_instance

variable [FloatOps F]

/-- What vector subcore (c, s) runs at the kernel's label: the kernel at its coordinates over the whole arrays x,
    node_emb and the second result, its two scratch arrays and its three semaphore arrays. -/
theorem defs₀_vector (c : Fin τ.nSC) (s : Fin τ.nSub) :
    defs₀ (F := F) (.scVector c s) 2 ()
      = SparseCore.onTile hcore2 hsub2 (fun c s => cc2_k (coordsV c s)
          (Memref.whole main_arg0_scv) (Memref.isWhole_whole _) (Memref.whole main_arg2_scv) (Memref.isWhole_whole _)
          (Memref.whole main_v24_scv) (Memref.isWhole_whole _) (Memref.whole cc2_scratch0) (Memref.isWhole_whole _)
          (Memref.whole cc2_scratch1) (Memref.isWhole_whole _) cc2_scratch2 cc2_scratch3 cc2_scoped0) ⟨⟩ c s := rfl

end Cert.Kernel.Setup

end
-- ==== Proof.Bits.RegionBody.lean ====
/-
  The two TensorCore regions of the entry function, each at a parameter: the TensorCore's buffer contents when the
  region is entered, what the core owes throughout and the bound on its recorded pairs. Per region: each window's
  block at a grid point, what the body leaves in the output window's staging buffer (its stores as pieces over the
  input blocks), the body's triple, the pipeline's proof data and the body obligation at a generic point.
-/
import proofs.«206219_g40982577938455_cont_8to1_b_1362_29_alg».proof.Proof.Bits.Setup
import proofs.«206219_g40982577938455_cont_8to1_b_1362_29_alg».proof.Proof.Gen.Kernel.Launch
import proofs.«206219_g40982577938455_cont_8to1_b_1362_29_alg».proof.Proof.Gen.Kernel.Skeleton
import proofs.«206219_g40982577938455_cont_8to1_b_1362_29_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen Cert.Kernel.Setup
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 1) (Elt F) ℕ UU ℕ

/-! # The two TensorCore regions, each at a parameter: the TensorCore's buffer contents `V` when the region is
    entered, what the core owes throughout (`O`) and the bound on its recorded pairs (`B`). -/

section Halves

variable (V : (c : Dev nD) → (b : Ref sig .tc) → Buf (Elt F) ((c : Thread nD τ).loc b))
variable (O : Dev nD → CellTallies nD τ sig (HIx 1)) (B : Dev nD → Set (SemLoc sig × HIx 1))

/-! ## Region 0: the node embedding times the permutation matrix -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_e : Rect S1024x512 := Rect.unit (s := S1024x512) ![0, 0] S1024x512.size inb_S1024x512_S1024x512_0_0
abbrev r0_p : Rect S512x512 := Rect.unit (s := S512x512) ![0, 0] S512x512.size inb_S512x512_S512x512_0_0

/-- The product's staging buffer after the body: its one store as a piece over the two input blocks. -/
def out0_2 (x0 : Vec F S1024x512 .f32) (x1 : Vec F S512x512 .f32) : Vec F S1024x512 .f32 :=
  View.canon [⟨r0_e, k0_pay1 (View.ld x0 r0_e) (View.ld x1 r0_p)⟩]

theorem cover0_2 (p0 : Vec F S1024x512 .f32) (y : S1024x512.Idx) :
    ∃ pc ∈ ([⟨r0_e, p0⟩] : List (View.Piece (Elt F) S1024x512 .f32)), y ∈ pc.1.set :=
  View.cover_of_tiled [⟨r0_e, p0⟩] S1024x512.size (by rfl) y

set_option maxHeartbeats 1000000 in
/-- The body on whole staging memrefs: the inputs stay, the output holds the product. -/
theorem sound_kernel0 (c : Dev nD) (E : Set ℕ) (i : grid0.Coords) (arg1 : Memref sig .tc .vmem S1024x512 .f32) (harg1 : arg1.IsWhole) (arg2 : Memref sig .tc .vmem S512x512 .f32) (harg2 : arg2.IsWhole) (arg3 : Memref sig .tc .vmem S1024x512 .f32) (harg3 : arg3.IsWhole)
    (x0 : Vec F S1024x512 .f32) (x1 : Vec F S512x512 .f32) (Kk : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ Kk ⟨⟩))
      ⊢ wp frame (wpE (defs₀ (F := F)) Variants.none c none) E (cc0__pre_body i arg1 harg1 arg2 harg2 arg3 harg3) Kk := by
  simp only [cc0__pre_body_eq_skeleton]; unfold cc0__pre_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Region 0's proof data on core `c`. -/
def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.scopedRest (Ix := HIx 1) (Name := ℕ) (U := UU) (Lvl := ℕ) (Val := Elt F) spec0 c
  q _ := fullShare
  owed _ := O c
  recorded _ := B c

theorem A_eq0 (c : Dev nD) (w : Fin cfg0.W) : (dat0 V O B c).A w = V c (Pipeline.arrRef spec0 w) := by
  dsimp only [dat0]
theorem after0_0 (c : Dev nD) (t : Fin cfg0.N) : (dat0 V O B c).after 0 t = iblk0 V c 0 t := by dsimp only [dat0]
theorem after0_1 (c : Dev nD) (t : Fin cfg0.N) : (dat0 V O B c).after 1 t = iblk0 V c 1 t := by dsimp only [dat0]
theorem after0_2 (c : Dev nD) (t : Fin cfg0.N) : (dat0 V O B c).after 2 t = out0_2 (iblk0 V c 0 t) (iblk0 V c 1 t) := by dsimp only [dat0]
theorem before0_0 (c : Dev nD) (t : Fin cfg0.N) (d) : (dat0 V O B c).before 0 t d = iblk0 V c 0 t :=
  before0_0_of V (dat0 V O B c) (A_eq0 V O B c 0) (after0_0 V O B c) t d
theorem before0_1 (c : Dev nD) (t : Fin cfg0.N) (d) : (dat0 V O B c).before 1 t d = iblk0 V c 1 t :=
  before0_1_of V (dat0 V O B c) (A_eq0 V O B c 1) (after0_1 V O B c) t d

def bodyPre0 (c : Dev nD) (t : Fin cfg0.N) : sProp 𝕄 :=
  iprop((dat0 V O B c).Φ t.castSucc ∗ (dat0 V O B c).owesAt none t.castSucc
    ∗ (∃ d, owns (c : Thread nD τ) (st0_0 t) fullShare ((dat0 V O B c).before 0 t d))
    ∗ (∃ d, owns (c : Thread nD τ) (st0_1 t) fullShare ((dat0 V O B c).before 1 t d))
    ∗ (∃ d, owns (c : Thread nD τ) (st0_2 t) fullShare ((dat0 V O B c).before 2 t d)))

def bodyPost0 (c : Dev nD) (t : Fin cfg0.N) : sProp 𝕄 :=
  iprop((dat0 V O B c).Φ t.succ ∗ (dat0 V O B c).owesAt none t.succ
    ∗ owns (c : Thread nD τ) (st0_0 t) fullShare ((dat0 V O B c).after 0 t)
    ∗ owns (c : Thread nD τ) (st0_1 t) fullShare ((dat0 V O B c).after 1 t)
    ∗ owns (c : Thread nD τ) (st0_2 t) fullShare ((dat0 V O B c).after 2 t))

theorem sound_body0 (c : Dev nD) (t : Fin cfg0.N) :
    bodyPre0 V O B c t ⊢ wp frame (wpE (defs₀ (F := F)) Variants.none c none) Set.univ (bodyAt0 t) (fun _ => bodyPost0 V O B c t) := by
  unfold bodyPre0 bodyPost0 bodyAt0
  simp only [before0_0, before0_1]
  rw [show (dat0 V O B c).Φ t.succ = (dat0 V O B c).Φ t.castSucc from rfl,
    show (dat0 V O B c).owesAt none t.succ = (dat0 V O B c).owesAt none t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V O B c) (defs₀ (F := F)) Variants.none none Set.univ := fun t => by
  rw [bigSep_W0, bigSep_W0]
  exact sound_body0 V O B c t

/-! ## Region 1: each batch's rows times the permutation matrix, regrouped beside the embedding's -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) (HIx 1) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) (HIx 1) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) (HIx 1) ℕ UU ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S1x1024x512 := Rect.unit (s := S1x1024x512) ![0, 0, 0] S1x1024x512.size inb_S1x1024x512_S1x1024x512_0_0_0
abbrev r1_o0 : Rect S1x1024x4x256 := Rect.unit (s := S1x1024x4x256) ![0, 0, 0, 0] S1x1024x1x256.size inb_S1x1024x4x256_S1x1024x1x256_0_0_0_0
abbrev r1_o1 : Rect S1x1024x4x256 := Rect.unit (s := S1x1024x4x256) ![0, 0, 1, 0] S1x1024x1x256.size inb_S1x1024x4x256_S1x1024x1x256_0_0_1_0
abbrev r1_o2 : Rect S1x1024x4x256 := Rect.unit (s := S1x1024x4x256) ![0, 0, 2, 0] S1x1024x1x256.size inb_S1x1024x4x256_S1x1024x1x256_0_0_2_0
abbrev r1_o3 : Rect S1x1024x4x256 := Rect.unit (s := S1x1024x4x256) ![0, 0, 3, 0] S1x1024x1x256.size inb_S1x1024x4x256_S1x1024x1x256_0_0_3_0

/-- The result's staging buffer after the body: its four stores as pieces, last first, over the three input blocks. -/
def out1_3 (x0 : Vec F S1x1024x512 .f32) (x1 : Vec F S1024x512 .f32) (x2 : Vec F S512x512 .f32) : Vec F S1x1024x4x256 .f32 :=
  View.canon [⟨r1_o3, k1_pay6 (View.ld x0 r1_x) (View.ld x1 r0_e) (View.ld x2 r0_p)⟩,
    ⟨r1_o2, k1_pay5 (View.ld x0 r1_x) (View.ld x1 r0_e) (View.ld x2 r0_p)⟩,
    ⟨r1_o1, k1_pay4 (View.ld x0 r1_x) (View.ld x1 r0_e) (View.ld x2 r0_p)⟩,
    ⟨r1_o0, k1_pay3 (View.ld x0 r1_x) (View.ld x1 r0_e) (View.ld x2 r0_p)⟩]

theorem cover1_3 (p3 p2 p1 p0 : Vec F S1x1024x1x256 .f32) (y : S1x1024x4x256.Idx) :
    ∃ pc ∈ ([⟨r1_o3, p3⟩, ⟨r1_o2, p2⟩, ⟨r1_o1, p1⟩, ⟨r1_o0, p0⟩] : List (View.Piece (Elt F) S1x1024x4x256 .f32)), y ∈ pc.1.set :=
  View.cover_of_tiled [⟨r1_o3, p3⟩, ⟨r1_o2, p2⟩, ⟨r1_o1, p1⟩, ⟨r1_o0, p0⟩] S1x1024x1x256.size (by rfl) y

set_option maxHeartbeats 1000000 in
theorem sound_kernel1 (c : Dev nD) (E : Set ℕ) (i : grid1.Coords) (arg2 : Memref sig .tc .vmem S1x1024x512 .f32) (harg2 : arg2.IsWhole) (arg3 : Memref sig .tc .vmem S1024x512 .f32) (harg3 : arg3.IsWhole) (arg4 : Memref sig .tc .vmem S512x512 .f32) (harg4 : arg4.IsWhole) (arg5 : Memref sig .tc .vmem S1x1024x4x256 .f32) (harg5 : arg5.IsWhole)
    (x0 : Vec F S1x1024x512 .f32) (x1 : Vec F S1024x512 .f32) (x2 : Vec F S512x512 .f32) (Kk : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ Kk ⟨⟩))
      ⊢ wp frame (wpE (defs₀ (F := F)) Variants.none c none) E (cc1__tc_body i arg2 harg2 arg3 harg3 arg4 harg4 arg5 harg5) Kk := by
  simp only [cc1__tc_body_eq_skeleton]; unfold cc1__tc_body_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _ _ _ _)

def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.scopedRest (Ix := HIx 1) (Name := ℕ) (U := UU) (Lvl := ℕ) (Val := Elt F) spec1 c
  q _ := fullShare
  owed _ := O c
  recorded _ := B c

theorem A_eq1 (c : Dev nD) (w : Fin cfg1.W) : (dat1 V O B c).A w = V c (Pipeline.arrRef spec1 w) := by
  dsimp only [dat1]
theorem after1_0 (c : Dev nD) (t : Fin cfg1.N) : (dat1 V O B c).after 0 t = iblk1 V c 0 t := by dsimp only [dat1]
theorem after1_1 (c : Dev nD) (t : Fin cfg1.N) : (dat1 V O B c).after 1 t = iblk1 V c 1 t := by dsimp only [dat1]
theorem after1_2 (c : Dev nD) (t : Fin cfg1.N) : (dat1 V O B c).after 2 t = iblk1 V c 2 t := by dsimp only [dat1]
theorem after1_3 (c : Dev nD) (t : Fin cfg1.N) : (dat1 V O B c).after 3 t = out1_3 (iblk1 V c 0 t) (iblk1 V c 1 t) (iblk1 V c 2 t) := by dsimp only [dat1]
theorem before1_0 (c : Dev nD) (t : Fin cfg1.N) (d) : (dat1 V O B c).before 0 t d = iblk1 V c 0 t :=
  before1_0_of V (dat1 V O B c) (A_eq1 V O B c 0) (after1_0 V O B c) t d
theorem before1_1 (c : Dev nD) (t : Fin cfg1.N) (d) : (dat1 V O B c).before 1 t d = iblk1 V c 1 t :=
  before1_1_of V (dat1 V O B c) (A_eq1 V O B c 1) (after1_1 V O B c) t d
theorem before1_2 (c : Dev nD) (t : Fin cfg1.N) (d) : (dat1 V O B c).before 2 t d = iblk1 V c 2 t :=
  before1_2_of V (dat1 V O B c) (A_eq1 V O B c 2) (after1_2 V O B c) t d

def bodyPre1 (c : Dev nD) (t : Fin cfg1.N) : sProp 𝕄 :=
  iprop((dat1 V O B c).Φ t.castSucc ∗ (dat1 V O B c).owesAt none t.castSucc
    ∗ (∃ d, owns (c : Thread nD τ) (st1_0 t) fullShare ((dat1 V O B c).before 0 t d))
    ∗ (∃ d, owns (c : Thread nD τ) (st1_1 t) fullShare ((dat1 V O B c).before 1 t d))
    ∗ (∃ d, owns (c : Thread nD τ) (st1_2 t) fullShare ((dat1 V O B c).before 2 t d))
    ∗ (∃ d, owns (c : Thread nD τ) (st1_3 t) fullShare ((dat1 V O B c).before 3 t d)))

def bodyPost1 (c : Dev nD) (t : Fin cfg1.N) : sProp 𝕄 :=
  iprop((dat1 V O B c).Φ t.succ ∗ (dat1 V O B c).owesAt none t.succ
    ∗ owns (c : Thread nD τ) (st1_0 t) fullShare ((dat1 V O B c).after 0 t)
    ∗ owns (c : Thread nD τ) (st1_1 t) fullShare ((dat1 V O B c).after 1 t)
    ∗ owns (c : Thread nD τ) (st1_2 t) fullShare ((dat1 V O B c).after 2 t)
    ∗ owns (c : Thread nD τ) (st1_3 t) fullShare ((dat1 V O B c).after 3 t))

theorem sound_body1 (c : Dev nD) (t : Fin cfg1.N) :
    bodyPre1 V O B c t ⊢ wp frame (wpE (defs₀ (F := F)) Variants.none c none) Set.univ (bodyAt1 t) (fun _ => bodyPost1 V O B c t) := by
  unfold bodyPre1 bodyPost1 bodyAt1
  simp only [before1_0, before1_1, before1_2]
  rw [show (dat1 V O B c).Φ t.succ = (dat1 V O B c).Φ t.castSucc from rfl,
    show (dat1 V O B c).owesAt none t.succ = (dat1 V O B c).owesAt none t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V O B c) (defs₀ (F := F)) Variants.none none Set.univ := fun t => by
  rw [bigSep_W1, bigSep_W1]
  exact sound_body1 V O B c t

end Halves

end Cert.Kernel.Regions

end
-- ==== Proof.Bits.HostOps.lean ====
/-
  The host operations of the kernel's entry function, in program order, as one list; the entry function as the chain
  of those operations, the two TensorCore regions and the SparseCore call; and how a valuation folds over an append.
-/
import proofs.«206219_g40982577938455_cont_8to1_b_1362_29_alg».proof.Proof.Gen.Kernel
import Idealize.ShloMosaic.Lib.StableHlo.Run
import Idealize.ShloMosaic.Lib.Pipeline.Regions

noncomputable section

namespace Cert.Kernel.HostOps

open Cert.Kernel Cert.Kernel.Gen
open Idealize.ShloMosaic Idealize.SL.Sem

variable {F : FTy → Type} [FloatOps F]

/-- The two operations before the first call. -/
abbrev opsA : List (HloOp τ sig (Elt F)) :=
  [ StableHlo.nullary main_v0 (iotaInDim S512 32 0),
    StableHlo.nullary main_c (constantI S_ 32 4#32) ]

/-- The remainder function's operations before its inner call, over one call's references. -/
abbrev remA (arg0 : StableHlo.TRef sig ⟨S512, .i32⟩) (arg1 : StableHlo.TRef sig ⟨S_, .i32⟩) (φ : fn_remainder.Bufs) : List (HloOp τ sig (Elt F)) :=
  [ StableHlo.TRef.unary arg1 φ.v0 id,
    StableHlo.TRef.nullary φ.c (constantI S_ 32 0#32),
    StableHlo.TRef.binary φ.v0 φ.c φ.v1 (cmpi .eq),
    StableHlo.TRef.nullary φ.c_0 (constantI S_ 32 1#32) ]
/-- The scalar select. -/
abbrev whereOps (arg0 : StableHlo.TRef sig ⟨S_, .i1⟩) (arg1 : StableHlo.TRef sig ⟨S_, .i32⟩) (arg2 : StableHlo.TRef sig ⟨S_, .i32⟩) (φ : fn_where.Bufs) : List (HloOp τ sig (Elt F)) :=
  [ StableHlo.TRef.ternary arg0 arg1 arg2 φ.v0 select ]
/-- The remainder function's operations after its inner call. -/
abbrev remB (arg0 : StableHlo.TRef sig ⟨S512, .i32⟩) (arg1 : StableHlo.TRef sig ⟨S_, .i32⟩) (φ : fn_remainder.Bufs) : List (HloOp τ sig (Elt F)) :=
  [ StableHlo.TRef.unary φ.call0.v0 φ.v3 (broadcastInDim S512 ![] bcast_S_S512),
    StableHlo.TRef.binary arg0 φ.v3 φ.v4 Host.remsi,
    StableHlo.TRef.nullary φ.c_1 (constantI S_ 32 0#32),
    StableHlo.TRef.unary φ.c_1 φ.v5 (broadcastInDim S512 ![] bcast_S_S512),
    StableHlo.TRef.binary φ.v4 φ.v5 φ.v6 (cmpi .ne),
    StableHlo.TRef.nullary φ.c_2 (constantI S_ 32 0#32),
    StableHlo.TRef.unary φ.c_2 φ.v7 (broadcastInDim S512 ![] bcast_S_S512),
    StableHlo.TRef.binary φ.v4 φ.v7 φ.v8 (cmpi .slt),
    StableHlo.TRef.nullary φ.c_3 (constantI S_ 32 0#32),
    StableHlo.TRef.binary φ.call0.v0 φ.c_3 φ.v9 (cmpi .slt),
    StableHlo.TRef.unary φ.v9 φ.v10 (broadcastInDim S512 ![] bcast_S_S512),
    StableHlo.TRef.binary φ.v8 φ.v10 φ.v11 (cmpi .ne),
    StableHlo.TRef.binary φ.v11 φ.v6 φ.v12 andi,
    StableHlo.TRef.unary φ.call0.v0 φ.v13 (broadcastInDim S512 ![] bcast_S_S512),
    StableHlo.TRef.binary φ.v4 φ.v13 φ.v14 addi,
    StableHlo.TRef.ternary φ.v12 φ.v14 φ.v4 φ.v15 select ]

/-- The four operations between the two calls. -/
abbrev opsB : List (HloOp τ sig (Elt F)) :=
  [ StableHlo.nullary main_c_0 (constantI S_ 32 128#32),
    StableHlo.unary main_c_0 main_v2 (broadcastInDim S512 ![] bcast_S_S512 : (⟨S_, .i32⟩ : BufTy).Contents (Elt F) → (⟨S512, .i32⟩ : BufTy).Contents (Elt F)),
    StableHlo.binary main_v1 main_v2 main_v3 (muli : (⟨S512, .i32⟩ : BufTy).Contents (Elt F) → (⟨S512, .i32⟩ : BufTy).Contents (Elt F) → (⟨S512, .i32⟩ : BufTy).Contents (Elt F)),
    StableHlo.nullary main_c_1 (constantI S_ 32 4#32) ]

/-- The floor-division function's operations before its inner call. -/
abbrev fdA (arg0 : StableHlo.TRef sig ⟨S512, .i32⟩) (arg1 : StableHlo.TRef sig ⟨S_, .i32⟩) (φ : fn_floor_divide.Bufs) : List (HloOp τ sig (Elt F)) :=
  [ StableHlo.TRef.unary arg1 φ.v0 id,
    StableHlo.TRef.unary φ.v0 φ.v1 (broadcastInDim S512 ![] bcast_S_S512),
    StableHlo.TRef.binary arg0 φ.v1 φ.v2 Host.divsi,
    StableHlo.TRef.unary arg0 φ.v3 signi,
    StableHlo.TRef.unary φ.v0 φ.v4 signi,
    StableHlo.TRef.unary φ.v4 φ.v5 (broadcastInDim S512 ![] bcast_S_S512),
    StableHlo.TRef.binary φ.v3 φ.v5 φ.v6 (cmpi .ne),
    StableHlo.TRef.unary φ.v0 φ.v7 (broadcastInDim S512 ![] bcast_S_S512),
    StableHlo.TRef.binary arg0 φ.v7 φ.v8 Host.remsi,
    StableHlo.TRef.nullary φ.c (constantI S_ 32 0#32),
    StableHlo.TRef.unary φ.c φ.v9 (broadcastInDim S512 ![] bcast_S_S512),
    StableHlo.TRef.binary φ.v8 φ.v9 φ.v10 (cmpi .ne),
    StableHlo.TRef.binary φ.v6 φ.v10 φ.v11 andi,
    StableHlo.TRef.nullary φ.c_0 (constantI S_ 32 1#32),
    StableHlo.TRef.unary φ.c_0 φ.v12 (broadcastInDim S512 ![] bcast_S_S512),
    StableHlo.TRef.binary φ.v2 φ.v12 φ.v13 subi ]
/-- The vector select. -/
abbrev where0Ops (arg0 : StableHlo.TRef sig ⟨S512, .i1⟩) (arg1 : StableHlo.TRef sig ⟨S512, .i32⟩) (arg2 : StableHlo.TRef sig ⟨S512, .i32⟩) (φ : fn_where_0.Bufs) : List (HloOp τ sig (Elt F)) :=
  [ StableHlo.TRef.ternary arg0 arg1 arg2 φ.v0 select ]

/-- The operations after the second call, ending in the scatter that writes the permutation matrix. -/
abbrev opsC : List (HloOp τ sig (Elt F)) :=
  [ StableHlo.binary main_v3 main_v4 main_v5 (addi : (⟨S512, .i32⟩ : BufTy).Contents (Elt F) → (⟨S512, .i32⟩ : BufTy).Contents (Elt F) → (⟨S512, .i32⟩ : BufTy).Contents (Elt F)),
    StableHlo.nullary main_cst (constant S_ .f32 0x00000000#32),
    StableHlo.unary main_cst main_v6 (broadcastInDim S512x512 ![] bcast_S_S512x512 : (⟨S_, .f32⟩ : BufTy).Contents (Elt F) → (⟨S512x512, .f32⟩ : BufTy).Contents (Elt F)),
    StableHlo.nullary main_c_2 (constantI S_ 32 0#32),
    StableHlo.unary main_c_2 main_v7 (broadcastInDim S512 ![] bcast_S_S512 : (⟨S_, .i32⟩ : BufTy).Contents (Elt F) → (⟨S512, .i32⟩ : BufTy).Contents (Elt F)),
    StableHlo.binary main_v0 main_v7 main_v8 (cmpi .slt : (⟨S512, .i32⟩ : BufTy).Contents (Elt F) → (⟨S512, .i32⟩ : BufTy).Contents (Elt F) → (⟨S512, .i1⟩ : BufTy).Contents (Elt F)),
    StableHlo.nullary main_c_3 (constantI S_ 32 512#32),
    StableHlo.unary main_c_3 main_v9 (broadcastInDim S512 ![] bcast_S_S512 : (⟨S_, .i32⟩ : BufTy).Contents (Elt F) → (⟨S512, .i32⟩ : BufTy).Contents (Elt F)),
    StableHlo.binary main_v0 main_v9 main_v10 (addi : (⟨S512, .i32⟩ : BufTy).Contents (Elt F) → (⟨S512, .i32⟩ : BufTy).Contents (Elt F) → (⟨S512, .i32⟩ : BufTy).Contents (Elt F)),
    StableHlo.ternary main_v8 main_v10 main_v0 main_v11 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.nullary main_c_4 (constantI S_ 32 0#32),
    StableHlo.unary main_c_4 main_v12 (broadcastInDim S512 ![] bcast_S_S512 : (⟨S_, .i32⟩ : BufTy).Contents (Elt F) → (⟨S512, .i32⟩ : BufTy).Contents (Elt F)),
    StableHlo.binary main_v5 main_v12 main_v13 (cmpi .slt : (⟨S512, .i32⟩ : BufTy).Contents (Elt F) → (⟨S512, .i32⟩ : BufTy).Contents (Elt F) → (⟨S512, .i1⟩ : BufTy).Contents (Elt F)),
    StableHlo.nullary main_c_5 (constantI S_ 32 512#32),
    StableHlo.unary main_c_5 main_v14 (broadcastInDim S512 ![] bcast_S_S512 : (⟨S_, .i32⟩ : BufTy).Contents (Elt F) → (⟨S512, .i32⟩ : BufTy).Contents (Elt F)),
    StableHlo.binary main_v5 main_v14 main_v15 (addi : (⟨S512, .i32⟩ : BufTy).Contents (Elt F) → (⟨S512, .i32⟩ : BufTy).Contents (Elt F) → (⟨S512, .i32⟩ : BufTy).Contents (Elt F)),
    StableHlo.ternary main_v13 main_v15 main_v5 main_v16 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v11 main_v17 (broadcastInDim S512x1 ![0] bcast_S512_S512x1_0 : (⟨S512, .i32⟩ : BufTy).Contents (Elt F) → (⟨S512x1, .i32⟩ : BufTy).Contents (Elt F)),
    StableHlo.unary main_v16 main_v18 (broadcastInDim S512x1 ![0] bcast_S512_S512x1_0 : (⟨S512, .i32⟩ : BufTy).Contents (Elt F) → (⟨S512x1, .i32⟩ : BufTy).Contents (Elt F)),
    StableHlo.binary main_v17 main_v18 main_v19 ((fun a b => concatenate S512x2 1 [⟨S512x1, a⟩, ⟨S512x1, b⟩] concatenates_S512x1_S512x1_S512x2_d1) : (⟨S512x1, .i32⟩ : BufTy).Contents (Elt F) → (⟨S512x1, .i32⟩ : BufTy).Contents (Elt F) → (⟨S512x2, .i32⟩ : BufTy).Contents (Elt F)),
    StableHlo.nullary main_cst_6 (constant S_ .f32 0x3F800000#32),
    StableHlo.unary main_cst_6 main_v20 (broadcastInDim S512 ![] bcast_S_S512 : (⟨S_, .f32⟩ : BufTy).Contents (Elt F) → (⟨S512, .f32⟩ : BufTy).Contents (Elt F)),
    StableHlo.ternary main_v6 main_v19 main_v20 main_v21 ((fun x i u => Host.scatter scatter_S512x512_S512x2_S512_n_01_01_1 (fun _ b => b) x i u) : (⟨S512x512, .f32⟩ : BufTy).Contents (Elt F) → (⟨S512x2, .i32⟩ : BufTy).Contents (Elt F) → (⟨S512, .f32⟩ : BufTy).Contents (Elt F) → (⟨S512x512, .f32⟩ : BufTy).Contents (Elt F)) ]

/-- The stretches of host operations, in program order: a function's body is inlined at its call, over that call's
    references. -/
abbrev stretches : List (List (HloOp τ sig (Elt F))) :=
  [ opsA,
    remA (.of main_v0) (.of main_c) main_call0,
    whereOps main_call0.v1 main_call0.c_0 main_call0.v0 main_call0.call0,
    remB (.of main_v0) (.of main_c) main_call0,
    opsB,
    fdA (.of main_v0) (.of main_c_1) main_call1,
    where0Ops main_call1.v11 main_call1.v13 main_call1.v2 main_call1.call0,
    opsC ]

/-- Every host operation before the first region, in program order. -/
abbrev hostOps : List (HloOp τ sig (Elt F)) := (stretches (F := F)).flatten

/-- The entry function is the chain of the stretches, the two TensorCore regions and the SparseCore call. -/
theorem main_chain (d : Dev nD) : main (F := F) d = (Pipeline.chain
  [ StableHlo.seq opsA,
    StableHlo.seq (remA (.of main_v0) (.of main_c) main_call0),
    StableHlo.seq (whereOps main_call0.v1 main_call0.c_0 main_call0.v0 main_call0.call0),
    StableHlo.seq (remB (.of main_v0) (.of main_c) main_call0),
    StableHlo.seq opsB,
    StableHlo.seq (fdA (.of main_v0) (.of main_c_1) main_call1),
    StableHlo.seq (where0Ops main_call1.v11 main_call1.v13 main_call1.v2 main_call1.call0),
    StableHlo.seq opsC,
    Prog.lift (.customCall (SparseCore.inner (Pipeline.entry 0)) ()),
    Prog.lift (.customCall (SparseCore.inner (Pipeline.entry 1)) ()),
    sc.run d 0 ] : Prog (TpuEff nD τ sig (Elt F) (SparseCore.Sig (Pipeline.Sig Λ₀ (Fin 2) fun p => (pcfgs (F := F) p).Adm) 1) .tc) PUnit) := by
  chain_rfl

/-- Folding a valuation over an append is folding over the parts in turn. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- The fold over all the host operations is the fold over the stretches in turn. -/
theorem after_hostOps (V : Valuation τ sig (Elt F)) :
    StableHlo.after (hostOps (F := F)) V
      = StableHlo.after opsC (StableHlo.after (where0Ops main_call1.v11 main_call1.v13 main_call1.v2 main_call1.call0)
          (StableHlo.after (fdA (.of main_v0) (.of main_c_1) main_call1) (StableHlo.after opsB
            (StableHlo.after (remB (.of main_v0) (.of main_c) main_call0) (StableHlo.after (whereOps main_call0.v1 main_call0.c_0 main_call0.v0 main_call0.call0)
              (StableHlo.after (remA (.of main_v0) (.of main_c) main_call0) (StableHlo.after opsA V))))))) := by
  simp only [hostOps, stretches, List.flatten_cons, List.flatten_nil, List.append_nil, after_append]

end Cert.Kernel.HostOps

end
-- ==== Proof.Bits.RegionSegs.lean ====
/-
  The TensorCore's program up to the SparseCore call, first half: the host operations touch unscoped buffers only; the
  buffer contents at each boundary; both pipelines' proof data; each region as a segment record over the thread
  state "every unscoped buffer at the boundary's contents, beside what the core owes".
-/
import proofs.«206219_g40982577938455_cont_8to1_b_1362_29_alg».proof.Proof.Bits.RegionBody
import proofs.«206219_g40982577938455_cont_8to1_b_1362_29_alg».proof.Proof.Bits.HostOps

set_option maxRecDepth 16384

noncomputable section

namespace Cert.Kernel.Regions

open Cert.Kernel Cert.Kernel.Gen Cert.Kernel.Setup
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 1) (Elt F) ℕ UU ℕ

open Cert.Kernel.HostOps
open Idealize.ShloMosaic.SparseCore (T)

/-! ## The host operations touch unscoped TensorCore buffers only and allocate none -/

theorem opsA_sub : (opsA (F := F) : List (HloOp τ sig (Elt F))).Forall fun op => op.bufs ⊆ StableHlo.tcRefs τ sig :=
  ⟨StableHlo.nullary_bufs_sub .., StableHlo.nullary_bufs_sub ..⟩
theorem opsA_fresh : (opsA (F := F) : List (HloOp τ sig (Elt F))).Forall fun op => op.fresh = ∅ := by
  simp only [List.Forall]; repeat' constructor
theorem remA_sub : (remA (F := F) (.of main_v0) (.of main_c) main_call0 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub ..⟩
theorem remA_fresh : (remA (F := F) (.of main_v0) (.of main_c) main_call0 : List (HloOp τ sig (Elt F))).Forall fun op => op.fresh = ∅ := by
  simp only [List.Forall]; repeat' constructor
theorem whereOps_sub : (whereOps (F := F) main_call0.v1 main_call0.c_0 main_call0.v0 main_call0.call0 : List (HloOp τ sig (Elt F))).Forall fun op => op.bufs ⊆ StableHlo.tcRefs τ sig :=
  StableHlo.ternary_bufs_sub ..
theorem whereOps_fresh : (whereOps (F := F) main_call0.v1 main_call0.c_0 main_call0.v0 main_call0.call0 : List (HloOp τ sig (Elt F))).Forall fun op => op.fresh = ∅ := by
  simp only [List.Forall]; repeat' constructor
theorem remB_sub : (remB (F := F) (.of main_v0) (.of main_c) main_call0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem remB_fresh : (remB (F := F) (.of main_v0) (.of main_c) main_call0 : List (HloOp τ sig (Elt F))).Forall fun op => op.fresh = ∅ := by
  simp only [List.Forall]; repeat' constructor
theorem opsB_sub : (opsB (F := F) : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
theorem opsB_fresh : (opsB (F := F) : List (HloOp τ sig (Elt F))).Forall fun op => op.fresh = ∅ := by
  simp only [List.Forall]; repeat' constructor
theorem fdA_sub : (fdA (F := F) (.of main_v0) (.of main_c_1) main_call1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub ..⟩
theorem fdA_fresh : (fdA (F := F) (.of main_v0) (.of main_c_1) main_call1 : List (HloOp τ sig (Elt F))).Forall fun op => op.fresh = ∅ := by
  simp only [List.Forall]; repeat' constructor
theorem where0Ops_sub : (where0Ops (F := F) main_call1.v11 main_call1.v13 main_call1.v2 main_call1.call0 : List (HloOp τ sig (Elt F))).Forall fun op => op.bufs ⊆ StableHlo.tcRefs τ sig :=
  StableHlo.ternary_bufs_sub ..
theorem where0Ops_fresh : (where0Ops (F := F) main_call1.v11 main_call1.v13 main_call1.v2 main_call1.call0 : List (HloOp τ sig (Elt F))).Forall fun op => op.fresh = ∅ := by
  simp only [List.Forall]; repeat' constructor
theorem opsC_sub : (opsC (F := F) : List (HloOp τ sig (Elt F))).Forall fun op => op.bufs ⊆ StableHlo.tcRefs τ sig :=
  ⟨StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.nullary_bufs_sub .., StableHlo.unary_bufs_sub .., StableHlo.ternary_bufs_sub ..⟩
theorem opsC_fresh : (opsC (F := F) : List (HloOp τ sig (Elt F))).Forall fun op => op.fresh = ∅ := by
  simp only [List.Forall]; repeat' constructor

variable (m : (ℓ : Loc nD τ sig) → Buf (Elt F) ℓ)

/-! ## What the TensorCore owes through the regions, and the bound on its recorded pairs -/

/-- What TensorCore `d` owes before the SparseCore call: the start signals, at the call's index. -/
abbrev Od (d : Dev nD) : CellTallies nD τ sig (HIx 1) := (K (F := F)).Otc d 0
/-- The pairs at or below the level the TensorCore's state before the call bounds its recorded pairs by. -/
abbrev Bd (d : Dev nD) : Set (SemLoc sig × HIx 1) := {p | (K (F := F)).lev (nD := nD) (T d, p.1) p.2 ≤ 8 * 0}

/-- The TensorCore's part of its state before the call that the regions carry: what it owes, its recorded pairs bounded. -/
abbrev Rr (d : Dev nD) : sProp 𝕄 := iprop(∃ W, ⌜(K (F := F)).WBelow (nD := nD) (T d) W (8 * 0)⌝ ∗ owes (T d) ((K (F := F)).Otc d 0) W)

/-! ## The buffer contents at each boundary -/

/-- Core `c`'s buffers at launch. -/
abbrev W0 : Dev nD → Valuation τ sig (Elt F) := fun c b => m ((c : Dev nD), b)
/-- After the host operations: region 0's entry. -/
abbrev W1 : Dev nD → Valuation τ sig (Elt F) := fun c => StableHlo.after (hostOps (F := F)) (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) (Od (F := F)) (Bd (F := F)) c).arrAt w cfg0.N
theorem W2_arr (c : Dev nD) (w : Fin cfg0.W) :
    W2 m c (Proc.devRef .tc (Pipeline.arrRef spec0 w)) = (dat0 (V1 m) (Od (F := F)) (Bd (F := F)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) (Od (F := F)) (Bd (F := F)) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit. -/
def W3 (c : Dev nD) : Valuation τ sig (Elt F) :=
  Pipeline.withArrays spec1 c (W2 m c) fun w => (dat1 (V2 m) (Od (F := F)) (Bd (F := F)) c).arrAt w cfg1.N
theorem W3_arr (c : Dev nD) (w : Fin cfg1.W) :
    W3 m c (Proc.devRef .tc (Pipeline.arrRef spec1 w)) = (dat1 (V2 m) (Od (F := F)) (Bd (F := F)) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) (Od (F := F)) (Bd (F := F)) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family -/

abbrev adm : (p : Fin 2) → (pcfgs (F := F) p).Adm := fun p => (cfgs p).toPCfg_adm
/-- Both pipelines' proof data, each at its region's entry contents: a literal match. -/
def pdats : (p : Fin 2) → (c : Dev nD) → Dat τ (Elt F) (HIx 1) ℕ UU ℕ (Pipeline.pin (pcfgs (F := F)) adm p) c
  | ⟨0, _⟩ => fun c => dat0 (V1 m) (Od (F := F)) (Bd (F := F)) c
  | ⟨1, _⟩ => fun c => dat1 (V2 m) (Od (F := F)) (Bd (F := F)) c

abbrev Lv : GSem nD τ sig → Finset (HIx 1) := (K (F := F)).L (nD := nD)
abbrev lv : GSem nD τ sig → HIx 1 → ℕ := (K (F := F)).lev (nD := nD)

/-- The TensorCore owes nothing at the kernels' own index. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

set_option backward.isDefEq.respectTransparency.types false in
/-- Region 0 over the thread state: entered from every unscoped buffer at its entry contents beside what the core
    owes, left at its exit contents beside the same. The arrays are split out of the unscoped buffers and put back; the
    invariant is the scoped buffers no window stages; the kernel has no semaphore of its own. -/
def reg0 : Pipeline.RegionSeg (pcfgs (F := F)) adm (pdats m) none defs₀ 𝒱₀ (Lv (F := F)) (lv (F := F)) 0 where
  win := launch0.win.to₀
  block_pos := launch0.block_pos
  stage_whole := launch0.stage_whole
  K := PEmpty
  osem k := k.elim
  ho := Pipeline.OwnSemFacts.none _
  hbody c := (body_obligation0 (V1 m) (Od (F := F)) (Bd (F := F)) c).loose
  hwaits c := Pipeline.cellsWaits_of_cut (Pipeline.pin (pcfgs (F := F)) adm) (pdats m) none 0 c (L := Lv (F := F)) (lev := lv (F := F)) 0
    ((K (F := F)).Otc c 0) (fun _ => rfl) (fun _ _ => Finset.mem_univ _) (fun _ _ => Nat.le_refl 0)
    (fun g i h => ⟨Finset.mem_univ _, by
      cases i with
      | none => rw [Otc_none] at h; exact absurd h (Nat.lt_irrefl 0)
      | some q => exact (K (F := F)).lev_some_pos g q⟩)
  pre c := iprop(StableHlo.held (c : Thread nD τ) (Pipeline.ucRefs τ sig) (W1 m c) ∗ Rr (F := F) c)
  post c := iprop(StableHlo.held (c : Thread nD τ) (Pipeline.ucRefs τ sig) (W2 m c) ∗ Rr (F := F) c)
  X c := iprop(emp)
  Y c := iprop(emp)
  Z c := Pipeline.unscopedRest (Ix := HIx 1) (Name := ℕ) (U := UU) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (pdats m 0 c).Φ 0 = Pipeline.scopedRest (Ix := HIx 1) (Name := ℕ) (U := UU) (Lvl := ℕ) (Val := Elt F) spec0 c from rfl]
    iintro ⟨-, -, Hr⟩
    iexact Hr
  hout c := by
    rw [Pipeline.ownSems0_none, show (pdats m 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW (Finset.mem_coe.mpr hp) with h | ⟨w, s, rfl⟩
      · exact h
      · exact Nat.le_refl 0
    iexact HO

set_option backward.isDefEq.respectTransparency.types false in
/-- Region 1 over the thread state: entered from every unscoped buffer at its entry contents beside what the core
    owes, left at its exit contents beside the same. The arrays are split out of the unscoped buffers and put back; the
    invariant is the scoped buffers no window stages; the kernel has no semaphore of its own. -/
def reg1 : Pipeline.RegionSeg (pcfgs (F := F)) adm (pdats m) none defs₀ 𝒱₀ (Lv (F := F)) (lv (F := F)) 1 where
  win := launch1.win.to₀
  block_pos := launch1.block_pos
  stage_whole := launch1.stage_whole
  K := PEmpty
  osem k := k.elim
  ho := Pipeline.OwnSemFacts.none _
  hbody c := (body_obligation1 (V2 m) (Od (F := F)) (Bd (F := F)) c).loose
  hwaits c := Pipeline.cellsWaits_of_cut (Pipeline.pin (pcfgs (F := F)) adm) (pdats m) none 1 c (L := Lv (F := F)) (lev := lv (F := F)) 0
    ((K (F := F)).Otc c 0) (fun _ => rfl) (fun _ _ => Finset.mem_univ _) (fun _ _ => Nat.le_refl 0)
    (fun g i h => ⟨Finset.mem_univ _, by
      cases i with
      | none => rw [Otc_none] at h; exact absurd h (Nat.lt_irrefl 0)
      | some q => exact (K (F := F)).lev_some_pos g q⟩)
  pre c := iprop(StableHlo.held (c : Thread nD τ) (Pipeline.ucRefs τ sig) (W2 m c) ∗ Rr (F := F) c)
  post c := iprop(StableHlo.held (c : Thread nD τ) (Pipeline.ucRefs τ sig) (W3 m c) ∗ Rr (F := F) c)
  X c := iprop(emp)
  Y c := iprop(emp)
  Z c := Pipeline.unscopedRest (Ix := HIx 1) (Name := ℕ) (U := UU) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (pdats m 1 c).Φ 0 = Pipeline.scopedRest (Ix := HIx 1) (Name := ℕ) (U := UU) (Lvl := ℕ) (Val := Elt F) spec1 c from rfl]
    iintro ⟨-, -, Hr⟩
    iexact Hr
  hout c := by
    rw [Pipeline.ownSems0_none, show (pdats m 1 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW (Finset.mem_coe.mpr hp) with h | ⟨w, s, rfl⟩
      · exact h
      · exact Nat.le_refl 0
    iexact HO

end Cert.Kernel.Regions

end
-- ==== Proof.Bits.RegionRun.lean ====
/-
  The TensorCore's program up to the SparseCore call, second half: a stretch of host operations and a TensorCore region
  at the head of the program, under the extended body table; the whole prefix (host operations, region 0, region 1)
  from the launch contents to region 1's exit contents, what the core owes carried through; and what the arguments,
  the permutation matrix and the two regions' results hold at the end.
-/
import proofs.«206219_g40982577938455_cont_8to1_b_1362_29_alg».proof.Proof.Bits.RegionSegs

set_option maxRecDepth 16384

noncomputable section

namespace Cert.Kernel.Regions

open Cert.Kernel Cert.Kernel.Gen Cert.Kernel.Setup
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 1) (Elt F) ℕ UU ℕ

open Cert.Kernel.HostOps
open Idealize.ShloMosaic.SparseCore (T)

/-! ## The run of the TensorCore's program up to the SparseCore call -/

section Run

variable (m : (ℓ : Loc nD τ sig) → Buf (Elt F) ℓ)

variable {P : (K (F := F)).Pay (nD := nD) (Val := Elt F) (Name := ℕ) (U := UU)}

/-- The extended body table: the SparseCore dispatch over the pipelines' over the kernels'. -/
abbrev Do : Defs nD τ sig (Elt F) (SparseCore.Sig (ΛP (F := F)) 1) := (K (F := F)).defs (D (F := F))

/-- What the TensorCore's proof starts from on each device beside what the launch deals it: both pipelines' staging
    cells' launch ghost state and duty tokens. -/
abbrev Gd (d : Dev nD) : sProp 𝕄 :=
  iprop((Pipeline.cellsGhost cfgs EP 0 d ∗ Pipeline.toksInit cfgs EP 0 d)
    ∗ (Pipeline.cellsGhost cfgs EP 1 d ∗ Pipeline.toksInit cfgs EP 1 d))

set_option backward.isDefEq.respectTransparency.types false in
/-- A stretch of host operations at the head of the TensorCore's program, over its unscoped buffers. -/
theorem wp_stretch (d : Dev nD) (ops : List (HloOp τ sig (Elt F)))
    (hsub : ops.Forall fun op => op.bufs ⊆ StableHlo.tcRefs τ sig) (hfresh : ops.Forall fun op => op.fresh = ∅)
    (W : Valuation τ sig (Elt F)) {β : Type} (k : PUnit → Prog (TpuEff nD τ sig (Elt F) (SparseCore.Sig (ΛP (F := F)) 1) .tc) β) {Q : β → sProp 𝕄} :
    iprop(boundary (T d) ∗ StableHlo.held (T d) (Pipeline.ucRefs τ sig) W
        ∗ ((boundary (T d) ∗ StableHlo.held (T d) (Pipeline.ucRefs τ sig) (StableHlo.after ops W))
            -∗ wp frame (wpE (Do (F := F)) 𝒱 (T d) none) Set.univ (k ⟨⟩) Q))
      ⊢ wp frame (wpE (Do (F := F)) 𝒱 (T d) none) Set.univ (StableHlo.seq ops >>= k) Q := by
  iintro ⟨Hb, Hh, Hk⟩
  iapply (StableHlo.wp_seq (defs := (Do (F := F))) 𝒱 none Set.univ d (Pipeline.ucRefs τ sig) k ops
      (fun op h => Pipeline.sub_ucRefs op ((List.forall_iff_forall_mem.mp hsub) op h))
      (fun op h => (List.forall_iff_forall_mem.mp hfresh) op h) W) $$ [Hb Hh]
  · isplitl [Hb] <;> iassumption
  iexact Hk

/-- A region's line in the extended signature is the lifted line of the pipelines' signature. -/
theorem lift_region_eq (p : Fin 2) :
    (Prog.lift (.customCall (SparseCore.inner (Pipeline.entry p)) ()) : Prog (TpuEff nD τ sig (Elt F) (SparseCore.Sig (ΛP (F := F)) 1) .tc) PUnit)
      = SparseCore.liftProg (Prog.lift (.customCall (Pipeline.entry p) ()) : Prog (TpuEff nD τ sig (Elt F) (ΛP (F := F)) .tc) PUnit) := rfl

set_option backward.isDefEq.respectTransparency.types false in
/-- A proof about a region's line under the pipelines' body table is one under the extended table. -/
theorem wp_lift_line (p : Fin 2) (d : Dev nD) (Φ : PUnit → sProp 𝕄) :
    wp frame (wpE (D (F := F)) 𝒱 (T d) none) Set.univ (Prog.lift (.customCall (Pipeline.entry p) ()) : Prog (TpuEff nD τ sig (Elt F) (ΛP (F := F)) .tc) PUnit) Φ
      ⊢ wp frame (wpE (Do (F := F)) 𝒱 (T d) none) Set.univ (Prog.lift (.customCall (SparseCore.inner (Pipeline.entry p)) ()) : Prog (TpuEff nD τ sig (Elt F) (SparseCore.Sig (ΛP (F := F)) 1) .tc) PUnit) Φ := by
  rw [lift_region_eq]
  exact (K (F := F)).wp_liftProg (D (F := F)) 𝒱 (T d) Set.univ none _ Φ

set_option backward.isDefEq.respectTransparency.types false in
/-- A region's line under the pipelines' body table, from its segment record: the pipeline library's region rule. -/
theorem wp_region_inner {p : Fin 2} (R : Pipeline.RegionSeg (pcfgs (F := F)) adm (pdats m) none defs₀ 𝒱₀ (Lv (F := F)) (lv (F := F)) p) (d : Dev nD)
    (Φ : PUnit → sProp 𝕄) :
    iprop(boundary (T d) ∗ R.pre d ∗ levAts (Lv (F := F)) (lv (F := F))
        ∗ Pipeline.cellsGhost cfgs EP p d ∗ Pipeline.toksInit cfgs EP p d
        ∗ ((boundary (T d) ∗ R.post d) -∗ Φ ⟨⟩))
      ⊢ wp frame (wpE (D (F := F)) 𝒱 (T d) none) Set.univ (Prog.lift (.customCall (Pipeline.entry p) ()) : Prog (TpuEff nD τ sig (Elt F) (ΛP (F := F)) .tc) PUnit) Φ := by
  iintro ⟨Hb, Hpre, #Hla, Hg, Ht, Hk⟩
  iapply (Pipeline.RegionSeg.wp (pcfgs (F := F)) adm (pdats m) none cellOf_inj EP defs₀ 𝒱₀ (Lv (F := F)) (lv (F := F)) R d none
    (fun u h => nomatch h) (fun _ => .ret ⟨⟩) Φ)
  isplitl [Hk]
  · iintro ⟨Hb, Hpost⟩
    rw [wp_ret]; imodintro
    iapply Hk
    isplitl [Hb] <;> iassumption
  isplitl [Hb]; · iexact Hb
  isplitl [Hpre]; · iexact Hpre
  isplitr; · iexact Hla
  isplitl [Hg] <;> iassumption

set_option backward.isDefEq.respectTransparency.types false in
/-- A TensorCore region at the head of the TensorCore's program, from its segment record. -/
theorem wp_region {p : Fin 2} (R : Pipeline.RegionSeg (pcfgs (F := F)) adm (pdats m) none defs₀ 𝒱₀ (Lv (F := F)) (lv (F := F)) p) (d : Dev nD)
    {β : Type} (k : PUnit → Prog (TpuEff nD τ sig (Elt F) (SparseCore.Sig (ΛP (F := F)) 1) .tc) β) {Q : β → sProp 𝕄} :
    iprop(boundary (T d) ∗ R.pre d ∗ levAts (Lv (F := F)) (lv (F := F))
        ∗ Pipeline.cellsGhost cfgs EP p d ∗ Pipeline.toksInit cfgs EP p d
        ∗ ((boundary (T d) ∗ R.post d) -∗ wp frame (wpE (Do (F := F)) 𝒱 (T d) none) Set.univ (k ⟨⟩) Q))
      ⊢ wp frame (wpE (Do (F := F)) 𝒱 (T d) none) Set.univ (Prog.lift (.customCall (SparseCore.inner (Pipeline.entry p)) ()) >>= k) Q := by
  rw [wp_bind]
  exact (wp_region_inner m R d (fun a => wp frame (wpE (Do (F := F)) 𝒱 (T d) none) Set.univ (k a) Q)).trans (wp_lift_line p d _)

theorem reg0_pre (d : Dev nD) : (reg0 m).pre d = iprop(StableHlo.held (d : Thread nD τ) (Pipeline.ucRefs τ sig) (W1 m d) ∗ Rr (F := F) d) := rfl
theorem reg0_post (d : Dev nD) : (reg0 m).post d = iprop(StableHlo.held (d : Thread nD τ) (Pipeline.ucRefs τ sig) (W2 m d) ∗ Rr (F := F) d) := rfl
theorem reg1_pre (d : Dev nD) : (reg1 m).pre d = iprop(StableHlo.held (d : Thread nD τ) (Pipeline.ucRefs τ sig) (W2 m d) ∗ Rr (F := F) d) := rfl
theorem reg1_post (d : Dev nD) : (reg1 m).post d = iprop(StableHlo.held (d : Thread nD τ) (Pipeline.ucRefs τ sig) (W3 m d) ∗ Rr (F := F) d) := rfl

set_option backward.isDefEq.respectTransparency.types false in
/-- THE TENSORCORE'S PROGRAM UP TO THE SPARSECORE CALL: from the region boundary, every unscoped buffer at the launch
    contents, what the core owes and both pipelines' ghost state, the host operations and the two regions run; the
    call and the return then run from the boundary, every unscoped buffer at region 1's exit contents, and what the
    core owes, unchanged. -/
theorem wp_main_tc (κ : GSem nD τ sig → ℕ) (d : Dev nD) {Q : PUnit → sProp 𝕄} :
    iprop((K (F := F)).ctx EH P κ ∗ boundary (T d) ∗ StableHlo.held (T d) (Pipeline.ucRefs τ sig) (W0 m d) ∗ Rr (F := F) d ∗ Gd (F := F) d
        ∗ ((boundary (T d) ∗ StableHlo.held (T d) (Pipeline.ucRefs τ sig) (W3 m d) ∗ Rr (F := F) d)
            -∗ wp frame (wpE (Do (F := F)) 𝒱 (T d) none) Set.univ ((K (F := F)).run d 0 >>= fun _ => pure ⟨⟩) Q))
      ⊢ wp frame (wpE (Do (F := F)) 𝒱 (T d) none) Set.univ (main (F := F) d) Q := by
  rw [main_chain]
  simp only [Pipeline.chain_cons, Pipeline.chain_nil]
  unfold Gd
  iintro ⟨#Hctx, Hb, Hh, HR, ⟨⟨Hg0, Ht0⟩, ⟨Hg1, Ht1⟩⟩, Hk⟩
  ihave #Hla := (SparseCore.Cfg.ctx_levAts κ) $$ Hctx
  iapply (wp_stretch d _ opsA_sub opsA_fresh _ _); isplitl [Hb]; · iexact Hb
  isplitl [Hh]; · iexact Hh
  iintro ⟨Hb, Hh⟩
  iapply (wp_stretch d _ remA_sub remA_fresh _ _); isplitl [Hb]; · iexact Hb
  isplitl [Hh]; · iexact Hh
  iintro ⟨Hb, Hh⟩
  iapply (wp_stretch d _ whereOps_sub whereOps_fresh _ _); isplitl [Hb]; · iexact Hb
  isplitl [Hh]; · iexact Hh
  iintro ⟨Hb, Hh⟩
  iapply (wp_stretch d _ remB_sub remB_fresh _ _); isplitl [Hb]; · iexact Hb
  isplitl [Hh]; · iexact Hh
  iintro ⟨Hb, Hh⟩
  iapply (wp_stretch d _ opsB_sub opsB_fresh _ _); isplitl [Hb]; · iexact Hb
  isplitl [Hh]; · iexact Hh
  iintro ⟨Hb, Hh⟩
  iapply (wp_stretch d _ fdA_sub fdA_fresh _ _); isplitl [Hb]; · iexact Hb
  isplitl [Hh]; · iexact Hh
  iintro ⟨Hb, Hh⟩
  iapply (wp_stretch d _ where0Ops_sub where0Ops_fresh _ _); isplitl [Hb]; · iexact Hb
  isplitl [Hh]; · iexact Hh
  iintro ⟨Hb, Hh⟩
  iapply (wp_stretch d _ opsC_sub opsC_fresh _ _); isplitl [Hb]; · iexact Hb
  isplitl [Hh]; · iexact Hh
  iintro ⟨Hb, Hh⟩
  rw [← after_hostOps (F := F) (W0 m d)]
  -- region 0
  iapply (wp_region m (reg0 m) d _)
  rw [reg0_pre, reg0_post]
  isplitl [Hb]; · iexact Hb
  isplitl [Hh HR]; · isplitl [Hh] <;> iassumption
  isplitr; · iexact Hla
  isplitl [Hg0]; · iexact Hg0
  isplitl [Ht0]; · iexact Ht0
  iintro ⟨Hb, ⟨Hh, HR⟩⟩
  -- region 1
  iapply (wp_region m (reg1 m) d _)
  rw [reg1_pre, reg1_post]
  isplitl [Hb]; · iexact Hb
  isplitl [Hh HR]; · isplitl [Hh] <;> iassumption
  isplitr; · iexact Hla
  isplitl [Hg1]; · iexact Hg1
  isplitl [Ht1]; · iexact Ht1
  iintro ⟨Hb, ⟨Hh, HR⟩⟩
  iapply Hk
  isplitl [Hb]; · iexact Hb
  isplitl [Hh] <;> iassumption

end Run

/-! ## What the buffers hold at region 1's exit -/

section Exit

variable (m : (ℓ : Loc nD τ sig) → Buf (Elt F) ℓ)

/-- No host operation writes an argument, a region's output or the SparseCore call's result. -/
theorem hostOps_keep (r : Ref sig .tc) (hr : r = main_arg0 ∨ r = main_arg1 ∨ r = main_arg2 ∨ r = main_v24 ∨ r = main_v22 ∨ r = main_v23)
    (W : Valuation τ sig (Elt F)) :
    StableHlo.after (hostOps (F := F)) W (Proc.devRef .tc r) = W (Proc.devRef .tc r) := by
  refine StableHlo.after_of_forall_not_mem (b := Proc.devRef .tc r) _ _ (List.forall_iff_forall_mem.mp ?_)
  rcases hr with rfl | rfl | rfl | rfl | rfl | rfl <;>
  · simp only [hostOps, stretches, opsA, remA, whereOps, remB, opsB, fdA, where0Ops, opsC, List.flatten_cons, List.flatten_nil,
      List.append_nil, List.cons_append, List.nil_append, List.Forall,
      StableHlo.nullary_writes, StableHlo.unary_writes, StableHlo.binary_writes, StableHlo.ternary_writes, Finset.mem_singleton]
    repeat' apply And.intro
    all_goals exact StableHlo.devRef_ne_of_ne (by decide)

/-- The permutation matrix: what the host operations leave in the scatter's result. -/
abbrev permOf (c : Dev nD) : Buf (Elt F) ((c : Thread nD τ).loc main_v21) := W1 m c (Proc.devRef .tc main_v21)

theorem W2_main_arg0 (c : Dev nD) : W2 m c (Proc.devRef .tc main_arg0) = m ((c : Thread nD τ).loc main_arg0) :=
  (W2_of_ne m c main_arg0 (by decide)).trans (hostOps_keep main_arg0 (Or.inl rfl) _)
theorem W2_main_v21 (c : Dev nD) : W2 m c (Proc.devRef .tc main_v21) = permOf m c :=
  (W2_arr m c 1).trans (((dat0 (V1 m) (Od (F := F)) (Bd (F := F)) c).arrAt_in 1 rfl _).trans (A_eq0 (V1 m) _ _ c 1))
theorem W2_main_v22 (c : Dev nD) : W2 m c (Proc.devRef .tc main_v22) = (dat0 (V1 m) (Od (F := F)) (Bd (F := F)) c).arrAt 2 cfg0.N :=
  W2_arr m c 2

theorem W3_main_arg0 (c : Dev nD) : W3 m c (Proc.devRef .tc main_arg0) = m ((c : Thread nD τ).loc main_arg0) :=
  (W3_arr m c 0).trans ((((dat1 (V2 m) (Od (F := F)) (Bd (F := F)) c).arrAt_in 0 rfl _).trans (A_eq1 (V2 m) _ _ c 0)).trans (W2_main_arg0 m c))
theorem W3_main_arg1 (c : Dev nD) : W3 m c (Proc.devRef .tc main_arg1) = m ((c : Thread nD τ).loc main_arg1) :=
  (W3_of_ne m c main_arg1 (by decide)).trans ((W2_of_ne m c main_arg1 (by decide)).trans (hostOps_keep main_arg1 (Or.inr (Or.inl rfl)) _))
theorem W3_main_arg2 (c : Dev nD) : W3 m c (Proc.devRef .tc main_arg2) = m ((c : Thread nD τ).loc main_arg2) :=
  (W3_of_ne m c main_arg2 (by decide)).trans ((W2_arr m c 0).trans
    ((((dat0 (V1 m) (Od (F := F)) (Bd (F := F)) c).arrAt_in 0 rfl _).trans (A_eq0 (V1 m) _ _ c 0)).trans (hostOps_keep main_arg2 (Or.inr (Or.inr (Or.inl rfl))) _)))
theorem W3_main_v24 (c : Dev nD) : W3 m c (Proc.devRef .tc main_v24) = m ((c : Thread nD τ).loc main_v24) :=
  (W3_of_ne m c main_v24 (by decide)).trans ((W2_of_ne m c main_v24 (by decide)).trans (hostOps_keep main_v24 (Or.inr (Or.inr (Or.inr (Or.inl rfl)))) _))
theorem W3_main_v23 (c : Dev nD) : W3 m c (Proc.devRef .tc main_v23) = (dat1 (V2 m) (Od (F := F)) (Bd (F := F)) c).arrAt 3 cfg1.N :=
  W3_arr m c 3

end Exit

end Cert.Kernel.Regions

end
-- ==== Proof.Bits.TileRes.lean ====
/-
  What one vector subcore of the second result's kernel is handed and what it gives back. Tile (c, i) of the
  32 owns the 32 rows n₀ … n₀ + 31 of every batch, n₀ = 32 · (2 i + c). It reads those rows of x and of the
  embedding table — held here as a read share of each whole array, one share per tile — and writes the 16 blocks
  out[b, n₀ … n₀ + 31, ·, ·], b < 16, each held by exactly its own elements, spelt as the kernel slices it.
  Before the run the blocks hold anything; after it each holds the second result's value on its elements.
-/
import proofs.«206219_g40982577938455_cont_8to1_b_1362_29_alg».proof.Proof.Bits.Setup
import proofs.«206219_g40982577938455_cont_8to1_b_1362_29_alg».proof.Proof.Spec

noncomputable section

namespace Cert.Kernel.TileBody

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (d : Dev nD) (L : grid2.Coords)

/-- The SparseCore, the vector subcore and the thread of the tile at grid coordinates `L`. -/
abbrev cV (L : grid2.Coords) : Fin τ.nSC := (L 0).castLE hcore2
abbrev jV (L : grid2.Coords) : Fin τ.nSub := (L 1).castLE hsub2
abbrev thr (d : Dev nD) (L : grid2.Coords) : Thread nD τ := V d (cV L) (jV L)

/-- The three arrays in HBM: x, the embedding table, the second result. -/
abbrev xLoc (d : Dev nD) : Loc nD τ sig := (SparseCore.T d).loc main_arg0
abbrev eLoc (d : Dev nD) : Loc nD τ sig := (SparseCore.T d).loc main_arg2
abbrev oLoc (d : Dev nD) : Loc nD τ sig := (SparseCore.T d).loc main_v24

/-- The same arrays, and the tile's two scratch arrays, as the kernel's operands. -/
abbrev xW : Memref sig .scVector .hbm S16x1024x512 .f32 := Memref.whole main_arg0_scv
abbrev eW : Memref sig .scVector .hbm S1024x512 .f32 := Memref.whole main_arg2_scv
abbrev oW : Memref sig .scVector .hbm S16x1024x4x256 .f32 := Memref.whole main_v24_scv
abbrev sA : Memref sig .scVector .vmem S2x32x512 .f32 := Memref.whole cc2_scratch0
abbrev sB : Memref sig .scVector .vmem S2x32x4x256 .f32 := Memref.whole cc2_scratch1

/-- The tile's number among the 32 of the device: subcore-major, as the kernel numbers its row blocks. -/
def tileIx (L : grid2.Coords) : Fin 32 := ⟨(L 1).val * 2 + (L 0).val, by have h0 : (L 0).val < 2 := (L 0).isLt; have h1 : (L 1).val < 16 := (L 1).isLt; omega⟩

/-- The read share of the two input arrays a tile is handed. -/
def rdShare (L : grid2.Coords) : PosShare TreeShare := Transfers.shareTok fullShare 32 (tileIx L)

/-- The block out[b, n₀ … n₀ + 31, ·, ·] of batch b, b = 0 … 15, as the copy out of the staging buffer names it. -/
abbrev oSl0 (L : grid2.Coords) : Memref sig .scVector .hbm S32x4x256 .f32 := ((oW : Memref sig .scVector .hbm S16x1024x4x256 .f32).slice (Rect.unit (s := S16x1024x4x256) (k2_off196 L) S1x32x4x256.size (k2_off196_inb L)) (fun _ => rfl)).squeeze S32x4x256 squeezes_S1x32x4x256_S32x4x256
abbrev oSl1 (L : grid2.Coords) : Memref sig .scVector .hbm S32x4x256 .f32 := ((oW : Memref sig .scVector .hbm S16x1024x4x256 .f32).slice (Rect.unit (s := S16x1024x4x256) (k2_off262 L) S1x32x4x256.size (k2_off262_inb L)) (fun _ => rfl)).squeeze S32x4x256 squeezes_S1x32x4x256_S32x4x256
abbrev oSl2 (L : grid2.Coords) : Memref sig .scVector .hbm S32x4x256 .f32 := ((oW : Memref sig .scVector .hbm S16x1024x4x256 .f32).slice (Rect.unit (s := S16x1024x4x256) (k2_off328 L) S1x32x4x256.size (k2_off328_inb L)) (fun _ => rfl)).squeeze S32x4x256 squeezes_S1x32x4x256_S32x4x256
abbrev oSl3 (L : grid2.Coords) : Memref sig .scVector .hbm S32x4x256 .f32 := ((oW : Memref sig .scVector .hbm S16x1024x4x256 .f32).slice (Rect.unit (s := S16x1024x4x256) (k2_off394 L) S1x32x4x256.size (k2_off394_inb L)) (fun _ => rfl)).squeeze S32x4x256 squeezes_S1x32x4x256_S32x4x256
abbrev oSl4 (L : grid2.Coords) : Memref sig .scVector .hbm S32x4x256 .f32 := ((oW : Memref sig .scVector .hbm S16x1024x4x256 .f32).slice (Rect.unit (s := S16x1024x4x256) (k2_off460 L) S1x32x4x256.size (k2_off460_inb L)) (fun _ => rfl)).squeeze S32x4x256 squeezes_S1x32x4x256_S32x4x256
abbrev oSl5 (L : grid2.Coords) : Memref sig .scVector .hbm S32x4x256 .f32 := ((oW : Memref sig .scVector .hbm S16x1024x4x256 .f32).slice (Rect.unit (s := S16x1024x4x256) (k2_off526 L) S1x32x4x256.size (k2_off526_inb L)) (fun _ => rfl)).squeeze S32x4x256 squeezes_S1x32x4x256_S32x4x256
abbrev oSl6 (L : grid2.Coords) : Memref sig .scVector .hbm S32x4x256 .f32 := ((oW : Memref sig .scVector .hbm S16x1024x4x256 .f32).slice (Rect.unit (s := S16x1024x4x256) (k2_off592 L) S1x32x4x256.size (k2_off592_inb L)) (fun _ => rfl)).squeeze S32x4x256 squeezes_S1x32x4x256_S32x4x256
abbrev oSl7 (L : grid2.Coords) : Memref sig .scVector .hbm S32x4x256 .f32 := ((oW : Memref sig .scVector .hbm S16x1024x4x256 .f32).slice (Rect.unit (s := S16x1024x4x256) (k2_off658 L) S1x32x4x256.size (k2_off658_inb L)) (fun _ => rfl)).squeeze S32x4x256 squeezes_S1x32x4x256_S32x4x256
abbrev oSl8 (L : grid2.Coords) : Memref sig .scVector .hbm S32x4x256 .f32 := ((oW : Memref sig .scVector .hbm S16x1024x4x256 .f32).slice (Rect.unit (s := S16x1024x4x256) (k2_off724 L) S1x32x4x256.size (k2_off724_inb L)) (fun _ => rfl)).squeeze S32x4x256 squeezes_S1x32x4x256_S32x4x256
abbrev oSl9 (L : grid2.Coords) : Memref sig .scVector .hbm S32x4x256 .f32 := ((oW : Memref sig .scVector .hbm S16x1024x4x256 .f32).slice (Rect.unit (s := S16x1024x4x256) (k2_off790 L) S1x32x4x256.size (k2_off790_inb L)) (fun _ => rfl)).squeeze S32x4x256 squeezes_S1x32x4x256_S32x4x256
abbrev oSl10 (L : grid2.Coords) : Memref sig .scVector .hbm S32x4x256 .f32 := ((oW : Memref sig .scVector .hbm S16x1024x4x256 .f32).slice (Rect.unit (s := S16x1024x4x256) (k2_off856 L) S1x32x4x256.size (k2_off856_inb L)) (fun _ => rfl)).squeeze S32x4x256 squeezes_S1x32x4x256_S32x4x256
abbrev oSl11 (L : grid2.Coords) : Memref sig .scVector .hbm S32x4x256 .f32 := ((oW : Memref sig .scVector .hbm S16x1024x4x256 .f32).slice (Rect.unit (s := S16x1024x4x256) (k2_off922 L) S1x32x4x256.size (k2_off922_inb L)) (fun _ => rfl)).squeeze S32x4x256 squeezes_S1x32x4x256_S32x4x256
abbrev oSl12 (L : grid2.Coords) : Memref sig .scVector .hbm S32x4x256 .f32 := ((oW : Memref sig .scVector .hbm S16x1024x4x256 .f32).slice (Rect.unit (s := S16x1024x4x256) (k2_off988 L) S1x32x4x256.size (k2_off988_inb L)) (fun _ => rfl)).squeeze S32x4x256 squeezes_S1x32x4x256_S32x4x256
abbrev oSl13 (L : grid2.Coords) : Memref sig .scVector .hbm S32x4x256 .f32 := ((oW : Memref sig .scVector .hbm S16x1024x4x256 .f32).slice (Rect.unit (s := S16x1024x4x256) (k2_off1054 L) S1x32x4x256.size (k2_off1054_inb L)) (fun _ => rfl)).squeeze S32x4x256 squeezes_S1x32x4x256_S32x4x256
abbrev oSl14 (L : grid2.Coords) : Memref sig .scVector .hbm S32x4x256 .f32 := ((oW : Memref sig .scVector .hbm S16x1024x4x256 .f32).slice (Rect.unit (s := S16x1024x4x256) (k2_off1120 L) S1x32x4x256.size (k2_off1120_inb L)) (fun _ => rfl)).squeeze S32x4x256 squeezes_S1x32x4x256_S32x4x256
abbrev oSl15 (L : grid2.Coords) : Memref sig .scVector .hbm S32x4x256 .f32 := ((oW : Memref sig .scVector .hbm S16x1024x4x256 .f32).slice (Rect.unit (s := S16x1024x4x256) (k2_off1185 L) S1x32x4x256.size (k2_off1185_inb L)) (fun _ => rfl)).squeeze S32x4x256 squeezes_S1x32x4x256_S32x4x256

/-- The 16 blocks of the second result, at any contents. -/
def oGo (d : Dev nD) (L : grid2.Coords) : sProp 𝕄 :=
  iprop((∃ f, oLoc d ↦[(oSl0 L).view.set]{fullShare} f)
    ∗ (∃ f, oLoc d ↦[(oSl1 L).view.set]{fullShare} f)
    ∗ (∃ f, oLoc d ↦[(oSl2 L).view.set]{fullShare} f)
    ∗ (∃ f, oLoc d ↦[(oSl3 L).view.set]{fullShare} f)
    ∗ (∃ f, oLoc d ↦[(oSl4 L).view.set]{fullShare} f)
    ∗ (∃ f, oLoc d ↦[(oSl5 L).view.set]{fullShare} f)
    ∗ (∃ f, oLoc d ↦[(oSl6 L).view.set]{fullShare} f)
    ∗ (∃ f, oLoc d ↦[(oSl7 L).view.set]{fullShare} f)
    ∗ (∃ f, oLoc d ↦[(oSl8 L).view.set]{fullShare} f)
    ∗ (∃ f, oLoc d ↦[(oSl9 L).view.set]{fullShare} f)
    ∗ (∃ f, oLoc d ↦[(oSl10 L).view.set]{fullShare} f)
    ∗ (∃ f, oLoc d ↦[(oSl11 L).view.set]{fullShare} f)
    ∗ (∃ f, oLoc d ↦[(oSl12 L).view.set]{fullShare} f)
    ∗ (∃ f, oLoc d ↦[(oSl13 L).view.set]{fullShare} f)
    ∗ (∃ f, oLoc d ↦[(oSl14 L).view.set]{fullShare} f)
    ∗ (∃ f, oLoc d ↦[(oSl15 L).view.set]{fullShare} f))

/-- What the tile is handed: its read shares of x and of the table, and its 16 blocks. -/
def tileGo (d : Dev nD) (L : grid2.Coords) : sProp 𝕄 :=
  iprop((xLoc d ↦{rdShare L} m (xLoc d)) ∗ (eLoc d ↦{rdShare L} m (eLoc d)) ∗ oGo (F := F) d L)

/-- The second result's value: row `n`, group `s`, lane `j` of batch `b` is `x[b, n, 128 s + j]` for `j < 128` and `e[n, 128 s + j - 128]` otherwise. -/
def out2Buf (d : Dev nD) : Buf (Elt F) (oLoc d) := Cert.KernelIdeal.Spec.out2 (F := F) (m (xLoc d)) (m (eLoc d))

/-- The 16 blocks, each at the second result's value on its elements. -/
def oTd (d : Dev nD) (L : grid2.Coords) : sProp 𝕄 :=
  iprop((oLoc d ↦[(oSl0 L).view.set]{fullShare} out2Buf m d)
    ∗ (oLoc d ↦[(oSl1 L).view.set]{fullShare} out2Buf m d)
    ∗ (oLoc d ↦[(oSl2 L).view.set]{fullShare} out2Buf m d)
    ∗ (oLoc d ↦[(oSl3 L).view.set]{fullShare} out2Buf m d)
    ∗ (oLoc d ↦[(oSl4 L).view.set]{fullShare} out2Buf m d)
    ∗ (oLoc d ↦[(oSl5 L).view.set]{fullShare} out2Buf m d)
    ∗ (oLoc d ↦[(oSl6 L).view.set]{fullShare} out2Buf m d)
    ∗ (oLoc d ↦[(oSl7 L).view.set]{fullShare} out2Buf m d)
    ∗ (oLoc d ↦[(oSl8 L).view.set]{fullShare} out2Buf m d)
    ∗ (oLoc d ↦[(oSl9 L).view.set]{fullShare} out2Buf m d)
    ∗ (oLoc d ↦[(oSl10 L).view.set]{fullShare} out2Buf m d)
    ∗ (oLoc d ↦[(oSl11 L).view.set]{fullShare} out2Buf m d)
    ∗ (oLoc d ↦[(oSl12 L).view.set]{fullShare} out2Buf m d)
    ∗ (oLoc d ↦[(oSl13 L).view.set]{fullShare} out2Buf m d)
    ∗ (oLoc d ↦[(oSl14 L).view.set]{fullShare} out2Buf m d)
    ∗ (oLoc d ↦[(oSl15 L).view.set]{fullShare} out2Buf m d))

/-- What the tile gives back: the read shares unchanged, the blocks written. -/
def tileTd (d : Dev nD) (L : grid2.Coords) : sProp 𝕄 :=
  iprop((xLoc d ↦{rdShare L} m (xLoc d)) ∗ (eLoc d ↦{rdShare L} m (eLoc d)) ∗ oTd m d L)

set_option synthInstance.maxHeartbeats 2000000 in
set_option synthInstance.maxSize 4096 in
instance tileGo_storable : BI.Storable (upEmb : UEmb _ 𝕄) (tileGo m d L) := by
  unfold tileGo oGo; infer_instance

set_option synthInstance.maxHeartbeats 2000000 in
set_option synthInstance.maxSize 4096 in
instance tileTd_storable : BI.Storable (upEmb : UEmb _ 𝕄) (tileTd m d L) := by
  unfold tileTd oTd; infer_instance

end Cert.Kernel.TileBody
-- ==== Proof.Bits.TileSets.lean ====
/-
  The second result, cut by rows: for a batch entry b and a tile t (of 32), the block of the 32 rows
  32 t … 32 t + 31 of batch entry b, all four segments and all 256 columns. The 16 × 32 blocks are pairwise
  disjoint and cover the array: an index lies in the block of its batch entry and of the tile that owns its row.
  Tile t is vector subcore t / 2 of SparseCore t % 2.
-/
import proofs.«206219_g40982577938455_cont_8to1_b_1362_29_alg».proof.Proof.Bits.Setup

noncomputable section

namespace Cert.Kernel.TileSets

open Cert.Kernel Cert.Kernel.Gen Cert.Kernel.Setup
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

abbrev Sh : Shape := S16x1024x4x256

theorem blk_inb (b : Fin 16) (t : Fin 32) :
    ∀ a, (![b.val, 32 * t.val, 0, 0] : Fin 4 → Nat) a + (![1, 32, 4, 256] : Fin 4 → Nat) a ≤ Sh.size a := by
  intro a
  have hb := b.isLt; have ht := t.isLt
  match a with
  | 0 => show b.val + 1 ≤ 16; omega
  | 1 => show 32 * t.val + 32 ≤ 1024; omega
  | 2 => show 0 + 4 ≤ 4; omega
  | 3 => show 0 + 256 ≤ 256; omega

/-- The rows of tile `t` in batch entry `b`. -/
def blkRect (b : Fin 16) (t : Fin 32) : Rect Sh := Rect.unit ![b.val, 32 * t.val, 0, 0] ![1, 32, 4, 256] (blk_inb b t)
def blkSet (b : Fin 16) (t : Fin 32) : Finset Sh.Idx := (blkRect b t).set

theorem mem_blkSet {b : Fin 16} {t : Fin 32} {i : Sh.Idx} :
    i ∈ blkSet b t ↔ ((i 0 : ℕ) = b.val ∧ 32 * t.val ≤ (i 1 : ℕ) ∧ (i 1 : ℕ) < 32 * t.val + 32) := by
  unfold blkSet blkRect
  rw [Rect.mem_set_unit]
  constructor
  · intro h
    have h0 : b.val ≤ (i 0 : ℕ) ∧ (i 0 : ℕ) < b.val + 1 := h 0
    have h1 : 32 * t.val ≤ (i 1 : ℕ) ∧ (i 1 : ℕ) < 32 * t.val + 32 := h 1
    omega
  · intro ⟨h0, h1, h2⟩ a
    have hi2 : (i 2 : ℕ) < 4 := (i 2).isLt
    have hi3 : (i 3 : ℕ) < 256 := (i 3).isLt
    match a with
    | 0 => show b.val ≤ (i 0 : ℕ) ∧ (i 0 : ℕ) < b.val + 1; omega
    | 1 => show 32 * t.val ≤ (i 1 : ℕ) ∧ (i 1 : ℕ) < 32 * t.val + 32; omega
    | 2 => show 0 ≤ (i 2 : ℕ) ∧ (i 2 : ℕ) < 0 + 4; omega
    | 3 => show 0 ≤ (i 3 : ℕ) ∧ (i 3 : ℕ) < 0 + 256; omega

theorem blk_disjoint : ∀ p ∈ (Finset.univ : Finset (Fin 16 × Fin 32)), ∀ p' ∈ (Finset.univ : Finset (Fin 16 × Fin 32)), p ≠ p' →
    Disjoint (blkSet p.1 p.2) (blkSet p'.1 p'.2) := by
  intro p _ p' _ h
  rw [Finset.disjoint_left]
  intro i hi hi'
  rw [mem_blkSet] at hi hi'
  apply h
  have e1 : p.1.val = p'.1.val := by omega
  have e2 : p.2.val = p'.2.val := by omega
  exact Prod.ext (Fin.ext e1) (Fin.ext e2)

theorem blk_cover : (Finset.univ : Finset (Fin 16 × Fin 32)).biUnion (fun p => blkSet p.1 p.2) = Finset.univ := by
  ext i
  simp only [Finset.mem_biUnion, Finset.mem_univ, true_and, iff_true]
  have h0 : (i 0 : ℕ) < 16 := (i 0).isLt
  have h1 : (i 1 : ℕ) < 1024 := (i 1).isLt
  refine ⟨(⟨(i 0 : ℕ), h0⟩, ⟨(i 1 : ℕ) / 32, by omega⟩), ?_⟩
  rw [mem_blkSet]; dsimp only; omega

/-- Tile number of vector subcore `i` of SparseCore `c`. -/
def tileOf (c : Fin 2) (i : Fin 16) : Fin 32 := ⟨i.val * 2 + c.val, by have := c.isLt; have := i.isLt; omega⟩

theorem tileOf_inj : Function.Injective (fun p : Fin 2 × Fin 16 => tileOf p.1 p.2) := by
  intro p p' h
  have h' : p.2.val * 2 + p.1.val = p'.2.val * 2 + p'.1.val := congrArg Fin.val h
  have := p.1.isLt; have := p'.1.isLt
  exact Prod.ext (Fin.ext (by omega)) (Fin.ext (by omega))

theorem univ_tiles : (Finset.univ : Finset (Fin 32)) = (Finset.univ : Finset (Fin 2 × Fin 16)).image (fun p => tileOf p.1 p.2) := by
  ext k
  simp only [Finset.mem_univ, Finset.mem_image, true_and, true_iff]
  have := k.isLt
  exact ⟨(⟨k.val % 2, by omega⟩, ⟨k.val / 2, by omega⟩), Fin.ext (by show k.val / 2 * 2 + k.val % 2 = k.val; omega)⟩

/-- A conjunction over the 32 tiles is one over the SparseCores and, within each, its vector subcores. -/
theorem bigSep_tiles {M : Type} [URA M] (Φ : Fin 32 → sProp M) :
    bigSep Finset.univ Φ = bigSep Finset.univ fun c : Fin 2 => bigSep Finset.univ fun i : Fin 16 => Φ (tileOf c i) := by
  rw [univ_tiles, SparseCore.bigSep_image_of_injOn (fun a _ b _ h => tileOf_inj h) Φ, ← Finset.univ_product_univ, SparseCore.bigSep_product]

end Cert.Kernel.TileSets

end
-- ==== Proof.Bits.TileSplit.lean ====
/-
  The TensorCore's whole arrays and the 32 tiles' holdings. A full share of x (and of the embedding table) is 32 read
  shares, one per tile, and a remainder that stays behind; the second result, held whole, is the 16 × 32 row blocks,
  each tile's 16 blocks being exactly the destinations of its 16 copies out. Handing out forgets the blocks'
  contents; taking back, every block holds the second result's value on its elements, so the whole array does.
-/
import proofs.«206219_g40982577938455_cont_8to1_b_1362_29_alg».proof.Proof.Bits.TileRes
import proofs.«206219_g40982577938455_cont_8to1_b_1362_29_alg».proof.Proof.Bits.TileSets

noncomputable section

namespace Cert.Kernel.TileSplit

open Cert.Kernel Cert.Kernel.Gen Cert.Kernel.Setup Cert.Kernel.TileBody Cert.Kernel.TileSets
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Each copy-out's destination is a row block -/

/-- The destination of a copy out, sliced at batch entry `b` and the tile's first row, is the tile's row block of `b`. -/
theorem set_block (L : grid2.Coords) (off : Fin 4 → Nat) (inb : ∀ a, off a + S1x32x4x256.size a ≤ S16x1024x4x256.size a) (b : Fin 16)
    (h : off = ![b.val, 64 * (L 1).val + 32 * (L 0).val, 0, 0]) :
    (((oW : Memref sig .scVector .hbm S16x1024x4x256 .f32).slice (Rect.unit (s := S16x1024x4x256) off S1x32x4x256.size inb) (fun _ => rfl)).squeeze
        S32x4x256 squeezes_S1x32x4x256_S32x4x256).view.set = blkSet b (tileIx L) := by
  have hs : (((oW : Memref sig .scVector .hbm S16x1024x4x256 .f32).slice (Rect.unit (s := S16x1024x4x256) off S1x32x4x256.size inb) (fun _ => rfl)).squeeze
        S32x4x256 squeezes_S1x32x4x256_S32x4x256).view.set = (Rect.unit (s := S16x1024x4x256) off S1x32x4x256.size inb).set := by
    show (((oW : Memref sig .scVector .hbm S16x1024x4x256 .f32).view.slice (Rect.unit (s := S16x1024x4x256) off S1x32x4x256.size inb)).reshape S32x4x256
      squeezes_S1x32x4x256_S32x4x256.numel_eq).set = _
    rw [View.set_reshape]
    show ((View.whole (main_v24_scv : Ref sig .scVector)).slice _).set = _
    rw [View.set_slice]; exact Finset.map_refl
  rw [hs]
  subst h
  ext i
  rw [Rect.mem_set_unit, mem_blkSet]
  have ht : (tileIx L).val = (L 1).val * 2 + (L 0).val := rfl
  constructor
  · intro hh
    have h0 : b.val ≤ (i 0 : ℕ) ∧ (i 0 : ℕ) < b.val + 1 := hh 0
    have h1 : 64 * (L 1).val + 32 * (L 0).val ≤ (i 1 : ℕ) ∧ (i 1 : ℕ) < 64 * (L 1).val + 32 * (L 0).val + 32 := hh 1
    omega
  · intro ⟨h0, h1, h2⟩ a
    have hi2 : (i 2 : ℕ) < 4 := (i 2).isLt
    have hi3 : (i 3 : ℕ) < 256 := (i 3).isLt
    match a with
    | 0 => show b.val ≤ (i 0 : ℕ) ∧ (i 0 : ℕ) < b.val + 1; omega
    | 1 => show 64 * (L 1).val + 32 * (L 0).val ≤ (i 1 : ℕ) ∧ (i 1 : ℕ) < 64 * (L 1).val + 32 * (L 0).val + 32; omega
    | 2 => show 0 ≤ (i 2 : ℕ) ∧ (i 2 : ℕ) < 0 + 4; omega
    | 3 => show 0 ≤ (i 3 : ℕ) ∧ (i 3 : ℕ) < 0 + 256; omega

theorem set_oSl0 (L : grid2.Coords) : (oSl0 L).view.set = blkSet 0 (tileIx L) := set_block L _ _ 0 (k2_off196_eq L)
theorem set_oSl1 (L : grid2.Coords) : (oSl1 L).view.set = blkSet 1 (tileIx L) := set_block L _ _ 1 (k2_off262_eq L)
theorem set_oSl2 (L : grid2.Coords) : (oSl2 L).view.set = blkSet 2 (tileIx L) := set_block L _ _ 2 (k2_off328_eq L)
theorem set_oSl3 (L : grid2.Coords) : (oSl3 L).view.set = blkSet 3 (tileIx L) := set_block L _ _ 3 (k2_off394_eq L)
theorem set_oSl4 (L : grid2.Coords) : (oSl4 L).view.set = blkSet 4 (tileIx L) := set_block L _ _ 4 (k2_off460_eq L)
theorem set_oSl5 (L : grid2.Coords) : (oSl5 L).view.set = blkSet 5 (tileIx L) := set_block L _ _ 5 (k2_off526_eq L)
theorem set_oSl6 (L : grid2.Coords) : (oSl6 L).view.set = blkSet 6 (tileIx L) := set_block L _ _ 6 (k2_off592_eq L)
theorem set_oSl7 (L : grid2.Coords) : (oSl7 L).view.set = blkSet 7 (tileIx L) := set_block L _ _ 7 (k2_off658_eq L)
theorem set_oSl8 (L : grid2.Coords) : (oSl8 L).view.set = blkSet 8 (tileIx L) := set_block L _ _ 8 (k2_off724_eq L)
theorem set_oSl9 (L : grid2.Coords) : (oSl9 L).view.set = blkSet 9 (tileIx L) := set_block L _ _ 9 (k2_off790_eq L)
theorem set_oSl10 (L : grid2.Coords) : (oSl10 L).view.set = blkSet 10 (tileIx L) := set_block L _ _ 10 (k2_off856_eq L)
theorem set_oSl11 (L : grid2.Coords) : (oSl11 L).view.set = blkSet 11 (tileIx L) := set_block L _ _ 11 (k2_off922_eq L)
theorem set_oSl12 (L : grid2.Coords) : (oSl12 L).view.set = blkSet 12 (tileIx L) := set_block L _ _ 12 (k2_off988_eq L)
theorem set_oSl13 (L : grid2.Coords) : (oSl13 L).view.set = blkSet 13 (tileIx L) := set_block L _ _ 13 (k2_off1054_eq L)
theorem set_oSl14 (L : grid2.Coords) : (oSl14 L).view.set = blkSet 14 (tileIx L) := set_block L _ _ 14 (k2_off1120_eq L)
theorem set_oSl15 (L : grid2.Coords) : (oSl15 L).view.set = blkSet 15 (tileIx L) := set_block L _ _ 15 (k2_off1185_eq L)

/-- A conjunction over the 16 batch entries, spelt out. -/
theorem bigSep_b {M : Type} [URA M] (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [(0 : Fin 16), 1, 2, 3, 4, 5, 6, 7, 8, 9, 10, 11, 12, 13, 14, 15] (by decide) (by decide) Φ

variable (m : (ℓ : Loc nD τ sig) → Buf (Elt F) ℓ) (d : Dev nD)

/-- An entailment of the model is one of the logic. -/
theorem toEnt {M : Type} [URA M] {A B : sProp M} (h : Idealize.SL.BI.Entails A B) : A ⊢ B := h

theorem sep_congr {M : Type} [URA M] {A A' B B' : sProp M} (h₁ : A = A') (h₂ : B = B') : iprop(A ∗ B) = iprop(A' ∗ B') := by rw [h₁, h₂]
omit m in
theorem pts_set {s s' : Finset (Idx (oLoc d))} (h : s = s') (f : Buf (Elt F) (oLoc d)) :
    (oLoc d ↦[s]{fullShare} f : sProp 𝕄) = oLoc d ↦[s']{fullShare} f := by rw [h]
omit m in
theorem ex_set {s s' : Finset (Idx (oLoc d))} (h : s = s') :
    (iprop(∃ f, oLoc d ↦[s]{fullShare} f) : sProp 𝕄) = iprop(∃ f, oLoc d ↦[s']{fullShare} f) := by rw [h]

/-- A tile's 16 written blocks, as a conjunction over the batch entries. -/
theorem oTd_eq (L : grid2.Coords) :
    oTd m d L = bigSep Finset.univ fun b : Fin 16 => (oLoc d ↦[blkSet b (tileIx L)]{fullShare} out2Buf m d : sProp 𝕄) := by
  refine Eq.trans ?_ (bigSep_b _).symm
  unfold oTd
  exact sep_congr (pts_set d (set_oSl0 L) _) (sep_congr (pts_set d (set_oSl1 L) _) (sep_congr (pts_set d (set_oSl2 L) _) (sep_congr (pts_set d (set_oSl3 L) _) (sep_congr (pts_set d (set_oSl4 L) _) (sep_congr (pts_set d (set_oSl5 L) _) (sep_congr (pts_set d (set_oSl6 L) _) (sep_congr (pts_set d (set_oSl7 L) _) (sep_congr (pts_set d (set_oSl8 L) _) (sep_congr (pts_set d (set_oSl9 L) _) (sep_congr (pts_set d (set_oSl10 L) _) (sep_congr (pts_set d (set_oSl11 L) _) (sep_congr (pts_set d (set_oSl12 L) _) (sep_congr (pts_set d (set_oSl13 L) _) (sep_congr (pts_set d (set_oSl14 L) _) (pts_set d (set_oSl15 L) _)))))))))))))))

omit m in
/-- A tile's 16 blocks at any contents, likewise. -/
theorem oGo_eq (L : grid2.Coords) :
    oGo (F := F) d L = bigSep Finset.univ fun b : Fin 16 => (iprop(∃ f, oLoc d ↦[blkSet b (tileIx L)]{fullShare} f) : sProp 𝕄) := by
  refine Eq.trans ?_ (bigSep_b _).symm
  unfold oGo
  exact sep_congr (ex_set d (set_oSl0 L)) (sep_congr (ex_set d (set_oSl1 L)) (sep_congr (ex_set d (set_oSl2 L)) (sep_congr (ex_set d (set_oSl3 L)) (sep_congr (ex_set d (set_oSl4 L)) (sep_congr (ex_set d (set_oSl5 L)) (sep_congr (ex_set d (set_oSl6 L)) (sep_congr (ex_set d (set_oSl7 L)) (sep_congr (ex_set d (set_oSl8 L)) (sep_congr (ex_set d (set_oSl9 L)) (sep_congr (ex_set d (set_oSl10 L)) (sep_congr (ex_set d (set_oSl11 L)) (sep_congr (ex_set d (set_oSl12 L)) (sep_congr (ex_set d (set_oSl13 L)) (sep_congr (ex_set d (set_oSl14 L)) (ex_set d (set_oSl15 L))))))))))))))))

theorem tileIx_coordsV (c : Fin 2) (i : Fin 16) : tileIx (coordsV c i) = tileOf c i := rfl

/-- What tile (c, i) is handed, in terms of its tile number. -/
theorem tileGo_eq (c : Fin 2) (i : Fin 16) :
    tileGo m d (coordsV c i) = (iprop((xLoc d ↦{Transfers.shareTok fullShare 32 (tileOf c i)} m (xLoc d))
      ∗ (eLoc d ↦{Transfers.shareTok fullShare 32 (tileOf c i)} m (eLoc d))
      ∗ bigSep Finset.univ fun b : Fin 16 => iprop(∃ f, oLoc d ↦[blkSet b (tileOf c i)]{fullShare} f)) : sProp 𝕄) := by
  unfold tileGo; rw [oGo_eq, tileIx_coordsV]; rfl

/-- What tile (c, i) gives back, likewise. -/
theorem tileTd_eq (c : Fin 2) (i : Fin 16) :
    tileTd m d (coordsV c i) = (iprop((xLoc d ↦{Transfers.shareTok fullShare 32 (tileOf c i)} m (xLoc d))
      ∗ (eLoc d ↦{Transfers.shareTok fullShare 32 (tileOf c i)} m (eLoc d))
      ∗ bigSep Finset.univ fun b : Fin 16 => oLoc d ↦[blkSet b (tileOf c i)]{fullShare} out2Buf m d) : sProp 𝕄) := by
  unfold tileTd; rw [oTd_eq, tileIx_coordsV]; rfl

/-- A conjunction over the tiles of triples is the triple of the conjunctions. -/
theorem bigSep_tiles3 {M : Type} [URA M] (X E O : Fin 2 → Fin 16 → sProp M) :
    (bigSep Finset.univ fun c => bigSep Finset.univ fun i => iprop(X c i ∗ E c i ∗ O c i))
      = iprop((bigSep Finset.univ fun c => bigSep Finset.univ fun i => X c i) ∗ (bigSep Finset.univ fun c => bigSep Finset.univ fun i => E c i)
        ∗ (bigSep Finset.univ fun c => bigSep Finset.univ fun i => O c i)) := by
  simp only [bigSep_sep']

/-! ## The second result, whole and in blocks -/

/-- The second result held whole is its 16 × 32 row blocks, grouped by tile. -/
theorem o_blocks (f : Buf (Elt F) (oLoc d)) :
    (oLoc d ↦{fullShare} f : sProp 𝕄)
      = bigSep Finset.univ fun c : Fin 2 => bigSep Finset.univ fun i : Fin 16 => bigSep Finset.univ fun b : Fin 16 =>
          (oLoc d ↦[blkSet b (tileOf c i)]{fullShare} f : sProp 𝕄) := by
  have e1 : (oLoc d ↦{fullShare} f : sProp 𝕄) = bigSep (Finset.univ : Finset (Fin 16 × Fin 32)) fun p => oLoc d ↦[blkSet p.1 p.2]{fullShare} f := by
    rw [← pointsTo_biUnion Finset.univ (ℓ := oLoc d) (fun p : Fin 16 × Fin 32 => blkSet p.1 p.2) blk_disjoint, blk_cover]; try rfl
  rw [e1, bigSep_univ_prod, bigSep_univ_comm, bigSep_tiles]

/-! ## Handing out and taking back -/

/-- What stays with the TensorCore while the tiles run: the remainders of the two read-shared arrays. -/
def rest : sProp 𝕄 :=
  iprop((xLoc d ↦{Transfers.shareDrop fullShare 32} m (xLoc d)) ∗ (eLoc d ↦{Transfers.shareDrop fullShare 32} m (eLoc d)))

/-- A full share of an array as the remainder and the tiles' read shares, grouped by SparseCore. -/
theorem shares_split (ℓ : Loc nD τ sig) (f : Buf (Elt F) ℓ) :
    (ℓ ↦{fullShare} f : sProp 𝕄) ⊢ iprop((ℓ ↦{Transfers.shareDrop fullShare 32} f)
      ∗ bigSep Finset.univ fun c : Fin 2 => bigSep Finset.univ fun i : Fin 16 => ℓ ↦{Transfers.shareTok fullShare 32 (tileOf c i)} f) := by
  refine (Transfers.pointsTo_toks_split fullShare 32).trans ?_
  rw [bigSep_tiles] <;> try exact BI.Entails.refl _

theorem shares_join (ℓ : Loc nD τ sig) (f : Buf (Elt F) ℓ) :
    iprop((ℓ ↦{Transfers.shareDrop fullShare 32} f)
      ∗ bigSep Finset.univ fun c : Fin 2 => bigSep Finset.univ fun i : Fin 16 => ℓ ↦{Transfers.shareTok fullShare 32 (tileOf c i)} f) ⊢ (ℓ ↦{fullShare} f : sProp 𝕄) := by
  refine BI.Entails.trans ?_ (Transfers.pointsTo_toks_join fullShare 32)
  rw [bigSep_tiles] <;> try exact BI.Entails.refl _

/-- The three arrays, held whole by the TensorCore, dealt to the 32 tiles. -/
theorem split_tiles :
    iprop((xLoc d ↦{fullShare} m (xLoc d)) ∗ (eLoc d ↦{fullShare} m (eLoc d)) ∗ (∃ f, oLoc d ↦{fullShare} f))
      ⊢ (iprop((bigSep Finset.univ fun c : Fin 2 => bigSep Finset.univ fun i : Fin 16 => tileGo m d (coordsV c i)) ∗ rest m d) : sProp 𝕄) := by
  rw [bigSep_congr fun c _ => bigSep_congr fun i _ => tileGo_eq m d c i, bigSep_tiles3]
  iintro ⟨Hx, He, %f, Ho⟩
  ihave Hx' := (shares_split (F := F) (xLoc d) _) $$ Hx
  icases Hx' with ⟨Hxr, Hxs⟩
  ihave He' := (shares_split (F := F) (eLoc d) _) $$ He
  icases He' with ⟨Her, Hes⟩
  ihave Ho' := (Entails.of_eq (o_blocks (F := F) d f)) $$ Ho
  isplitr [Hxr Her]
  · isplitl [Hxs]; · iexact Hxs
    isplitl [Hes]; · iexact Hes
    have hex : ∀ (c : Fin 2) (i : Fin 16) (b : Fin 16),
        (oLoc d ↦[blkSet b (tileOf c i)]{fullShare} f : sProp 𝕄) ⊢ iprop(∃ f, oLoc d ↦[blkSet b (tileOf c i)]{fullShare} f) := fun c i b => by
      iintro H; iexists f; iexact H
    have hmono : (bigSep Finset.univ fun c : Fin 2 => bigSep Finset.univ fun i : Fin 16 => bigSep Finset.univ fun b : Fin 16 =>
          (oLoc d ↦[blkSet b (tileOf c i)]{fullShare} f : sProp 𝕄))
        ⊢ bigSep Finset.univ fun c : Fin 2 => bigSep Finset.univ fun i : Fin 16 => bigSep Finset.univ fun b : Fin 16 =>
          (iprop(∃ f, oLoc d ↦[blkSet b (tileOf c i)]{fullShare} f) : sProp 𝕄) :=
      toEnt (bigSep_mono fun c _ => bigSep_mono fun i _ => bigSep_mono fun b _ => hex c i b)
    iapply hmono; iexact Ho'
  · unfold rest; isplitl [Hxr] <;> iassumption

/-- What the 32 tiles give back, with what stayed behind: the three arrays whole, the second result at its value. -/
theorem join_tiles :
    (iprop((bigSep Finset.univ fun c : Fin 2 => bigSep Finset.univ fun i : Fin 16 => tileTd m d (coordsV c i)) ∗ rest m d) : sProp 𝕄)
      ⊢ iprop((xLoc d ↦{fullShare} m (xLoc d)) ∗ (eLoc d ↦{fullShare} m (eLoc d)) ∗ (oLoc d ↦{fullShare} out2Buf m d)) := by
  rw [bigSep_congr fun c _ => bigSep_congr fun i _ => tileTd_eq m d c i, bigSep_tiles3]
  unfold rest
  iintro ⟨⟨Hxs, Hes, Hos⟩, Hxr, Her⟩
  isplitl [Hxs Hxr]
  · iapply (shares_join (F := F) (xLoc d) _); isplitl [Hxr] <;> iassumption
  isplitl [Hes Her]
  · iapply (shares_join (F := F) (eLoc d) _); isplitl [Her] <;> iassumption
  rw [o_blocks]; iexact Hos

end Cert.Kernel.TileSplit

end
-- ==== Proof.Bits.Payload.lean ====
/-
  What the launch handshakes carry, and the launch theorem's two obligations about the vector-subcore kernel. The one
  SparseCore call hands SparseCore c its 16 tiles' holdings and takes them back written; a tile's task is handed that
  tile's holdings; nothing of the launch's is consumed by the kernel (its copies are local). The task's obligation is
  the tile's body under the kernel's label; the split of a SparseCore's operands among its tasks is the identity.
-/
import proofs.«206219_g40982577938455_cont_8to1_b_1362_29_alg».proof.Proof.Bits.TileRes

noncomputable section

namespace Cert.Kernel.Payload

open Cert.Kernel Cert.Kernel.Gen Cert.Kernel.Setup Cert.Kernel.TileBody
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- Tile (c, i) of the call's grid, as grid coordinates. -/
abbrev tileAt (c : Fin ((K (F := F)).nCore 0)) (i : Fin ((K (F := F)).nSub 0)) : grid2.Coords :=
  coordsV (Fin.cast (nCore_zero (F := F)) c) (Fin.cast (nSub_zero (F := F)) i)

/-- The one call's payloads. -/
def P : (K (F := F)).Pay (nD := nD) (Val := Elt F) (Name := ℕ) (U := UU) where
  st := fun q d c => match q with | 0 => bigSep Finset.univ fun i : Fin ((K (F := F)).nSub 0) => tileGo m d (tileAt (F := F) c i)
  dn := fun q d c => match q with | 0 => bigSep Finset.univ fun i : Fin ((K (F := F)).nSub 0) => tileTd m d (tileAt (F := F) c i)
  go := fun q d c i => match q with | 0 => tileGo m d (tileAt (F := F) c i)
  td := fun q d c i => match q with | 0 => tileTd m d (tileAt (F := F) c i)
  x := fun _ _ => iprop(emp)

theorem P_x : (P (F := F) m).x = fun _ _ => iprop(emp) := rfl

instance P_storable : (P (F := F) m).IsStorable where
  st q d c := match q with
    | 0 => (inferInstance : BI.Storable (upEmb : UEmb _ 𝕄) (bigSep Finset.univ fun i : Fin ((K (F := F)).nSub 0) => tileGo m d (tileAt (F := F) c i)))
  dn q d c := match q with
    | 0 => (inferInstance : BI.Storable (upEmb : UEmb _ 𝕄) (bigSep Finset.univ fun i : Fin ((K (F := F)).nSub 0) => tileTd m d (tileAt (F := F) c i)))
  go q d c i := match q with
    | 0 => (inferInstance : BI.Storable (upEmb : UEmb _ 𝕄) (tileGo m d (tileAt (F := F) c i)))
  td q d c i := match q with
    | 0 => (inferInstance : BI.Storable (upEmb : UEmb _ 𝕄) (tileTd m d (tileAt (F := F) c i)))

/-- A SparseCore's operands are its tasks' operands, and its results its tasks' results. -/
theorem vecSplit : (K (F := F)).VecSplit' (P m) 0 := by
  intro d c
  show (bigSep Finset.univ fun i : Fin ((K (F := F)).nSub 0) => tileGo m d (tileAt (F := F) c i))
    ⊢ |={Set.univ}=> iprop((bigSep Finset.univ fun i : Fin ((K (F := F)).nSub 0) => tileGo m d (tileAt (F := F) c i))
      ∗ ((bigSep Finset.univ fun i : Fin ((K (F := F)).nSub 0) => tileTd m d (tileAt (F := F) c i))
          -∗ (bigSep Finset.univ fun i : Fin ((K (F := F)).nSub 0) => tileTd m d (tileAt (F := F) c i))))
  iintro H; imodintro
  isplitl [H]; · iexact H
  iintro H'; iexact H'

omit m in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F]

/-- The statement of a tile's body: from the tile's holdings and its scoped storage to its holdings written. -/
def TileBodyHolds : Prop :=
  ∀ (d : Dev nD) (L : grid2.Coords) (O : CellTallies nD τ sig (HIx 1)) (W : Waits sig (HIx 1)), (∀ g, O g none = 0) →
    iprop(levAts (K (F := F)).L (K (F := F)).lev ∗ emp ∗ tileGo m d L ∗ scopedBufs (thr d L) ∗ scopedSems0 (thr d L) ∗ owes (thr d L) O W)
      ⊢ wp frame (wpE (defs₀ (F := F)) 𝒱₀ (thr d L) none) Set.univ
          (cc2_k L xW (Memref.isWhole_whole _) eW (Memref.isWhole_whole _) oW (Memref.isWhole_whole _) sA (Memref.isWhole_whole _) sB (Memref.isWhole_whole _)
            cc2_scratch2 cc2_scratch3 cc2_scoped0)
          fun _ => (iprop(tileTd m d L ∗ scopedBufs (thr d L) ∗ scopedSems0 (thr d L) ∗ ∃ W', ⌜∀ p ∈ W', p ∈ W ∨ p.2 = none⌝ ∗ owes (thr d L) O W') : sProp 𝕄)

/-- The task's obligation at the one call, from the tile's body. -/
theorem tileObl (hbody : TileBodyHolds (F := F) m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

end Cert.Kernel.Payload

end
-- ==== Proof.Bits.LaunchElem.lean ====
/-
  The launch element of the ghost state. The handshakes' component starts at the launch theorem's own element; the
  pipelines' component funds, for every device and each of the two TensorCore pipelines, its staging cells' round
  state and duty tokens, which is what @main starts from on that device; the counters' component is the unit (the
  tiles' copies are all local, each waited by the tile that issued it, so nothing of it is dealt at launch).
-/
import proofs.«206219_g40982577938455_cont_8to1_b_1362_29_alg».proof.Proof.Bits.Setup
import proofs.«206219_g40982577938455_cont_8to1_b_1362_29_alg».proof.Proof.Gen.Kernel.Launch

noncomputable section

namespace Cert.Kernel.LaunchElem

open Cert.Kernel Cert.Kernel.Gen Cert.Kernel.Setup
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- A conjunction over the two pipelines, spelt out. -/
theorem bigSep_two {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- What @main's proof starts from on device `d`: both pipelines' staging cells' round state and their duty tokens. -/
def G (d : Dev nD) : sProp 𝕄 :=
  iprop((bigSep Finset.univ fun p : Fin 2 => Pipeline.cellsGhost cfgs (EP (F := F)) p d)
    ∗ (bigSep Finset.univ fun p : Fin 2 => Pipeline.toksInit cfgs (EP (F := F)) p d))

/-- The same, pipeline by pipeline. -/
theorem G_eq (d : Dev nD) :
    G (F := F) d = iprop((Pipeline.cellsGhost cfgs (EP (F := F)) 0 d ∗ Pipeline.cellsGhost cfgs (EP (F := F)) 1 d)
      ∗ (Pipeline.toksInit cfgs (EP (F := F)) 0 d ∗ Pipeline.toksInit cfgs (EP (F := F)) 1 d)) := by
  unfold G; rw [bigSep_two, bigSep_two]

/-- The launch element: the handshakes' rounds, the pipelines' cells and tokens, no counter. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

theorem bigSep_emp' {I : Type} (s : Finset I) : (bigSep s fun _ => iprop(emp)) = (iprop(emp) : sProp 𝕄) := bigSep_emp_const s

/-- From the launch element: the handshakes' element, every device's start for @main, and nothing for the kernels'
    own (a payload record whose `x` is empty). -/
theorem hu₀ (P : (K (F := F)).Pay (nD := nD) (Val := Elt F) (Name := ℕ) (U := UU)) (hx : P.x = fun _ _ => iprop(emp)) :
    (ownU (u₀ (F := F)) : sProp 𝕄)
      ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 1 => P.x q thr) := by
  unfold u₀
  iintro Hu
  ihave H := (ownU_pair _ _) $$ Hu
  icases H with ⟨HH, HR⟩
  ihave H2 := (own_pair_emb embR _ _) $$ HR
  icases H2 with ⟨HP, -⟩
  have hEP : ∀ a : UK, (BI.own (((Emb.inl : Emb UK (UK × Counters)).trans (embR (A := UH))) a) : sProp 𝕄) = BI.own (EP (F := F) a) := fun _ => rfl
  ihave HP' := (Entails.of_eq (hEP _)) $$ HP
  imod (Pipeline.fund_ghost cfgs (EP (F := F)) cellOf_inj) $$ HP' with ⟨Hc, Ht⟩
  imodintro
  isplitl [HH]; · iexact HH
  isplitl [Hc Ht]
  · unfold G; rw [bigSep_sep']
    isplitl [Hc]; · iexact Hc
    iexact Ht
  rw [hx]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.LaunchElem

end
-- ==== Proof.Bits.Final.lean ====
/-
  How the claim is read off the final memory: what @main leaves on each TensorCore is its three argument arrays at
  their launch contents and the two results at named contents; each is a fact about the final memory because the
  state interpretation agrees with every points-to held.
-/
import proofs.«206219_g40982577938455_cont_8to1_b_1362_29_alg».proof.Proof.Bits.Setup

noncomputable section

namespace Cert.Kernel.Final

open Cert.Kernel Cert.Kernel.Gen Cert.Kernel.Setup
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- A TensorCore array of device `d`. -/
abbrev aLoc (d : Dev nD) (b : Ref sig .tc) : Loc nD τ sig := (SparseCore.T d).loc b

/-- An array held whole agrees with the memory of the state it is held in, and the state is kept. -/
theorem read_keep (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

variable (m : (ℓ : Loc nD τ sig) → Buf (Elt F) ℓ)
  (r1 : (d : Dev nD) → Buf (Elt F) (aLoc d main_v23)) (r2 : (d : Dev nD) → Buf (Elt F) (aLoc d main_v24))

/-- What @main leaves on device `d`: the arguments at their launch contents, the results at `r1 d`, `r2 d`. -/
def FIN (d : Dev nD) : sProp 𝕄 :=
  iprop((aLoc d main_arg0 ↦{fullShare} m (aLoc d main_arg0)) ∗ (aLoc d main_arg1 ↦{fullShare} m (aLoc d main_arg1))
    ∗ (aLoc d main_arg2 ↦{fullShare} m (aLoc d main_arg2)) ∗ (aLoc d main_v23 ↦{fullShare} r1 d) ∗ (aLoc d main_v24 ↦{fullShare} r2 d))

/-- The same as facts about a final state. -/
def fq (d : Dev nD) (s' : Phys nD τ sig (Elt F)) : Prop :=
  s'.mem.mem (aLoc d main_v23) = r1 d ∧ s'.mem.mem (aLoc d main_v24) = r2 d
    ∧ s'.mem.mem (aLoc d main_arg0) = m (aLoc d main_arg0) ∧ s'.mem.mem (aLoc d main_arg1) = m (aLoc d main_arg1)
    ∧ s'.mem.mem (aLoc d main_arg2) = m (aLoc d main_arg2)

theorem hfin (d : Dev nD) (s' : Phys nD τ sig (Elt F)) : iprop(FIN m r1 r2 d ∗ SI s') ⊢ (⌜fq m r1 r2 d s'⌝ : sProp 𝕄) := by
  unfold FIN
  iintro ⟨⟨H0, H1, H2, H3, H4⟩, HSI⟩
  ihave A := (read_keep s' _ _) $$ [HSI H0]
  · isplitl [HSI] <;> iassumption
  icases A with ⟨%h0, HSI⟩
  ihave A := (read_keep s' _ _) $$ [HSI H1]
  · isplitl [HSI] <;> iassumption
  icases A with ⟨%h1, HSI⟩
  ihave A := (read_keep s' _ _) $$ [HSI H2]
  · isplitl [HSI] <;> iassumption
  icases A with ⟨%h2, HSI⟩
  ihave A := (read_keep s' _ _) $$ [HSI H3]
  · isplitl [HSI] <;> iassumption
  icases A with ⟨%h3, HSI⟩
  ihave A := (read_keep s' _ _) $$ [HSI H4]
  · isplitl [HSI] <;> iassumption
  icases A with ⟨%h4, -⟩
  ipureintro; exact ⟨h3, h4, h0, h1, h2⟩

/-- The post of the whole run: on every device the results at their named contents and the arguments unchanged. -/
def QC : PUnit × MemSt nD τ sig (Elt F) → Prop := fun r => ∀ c : Dev nD,
  r.2.mem (aLoc c main_v23) = r1 c ∧ r.2.mem (aLoc c main_v24) = r2 c
    ∧ r.2.mem (aLoc c main_arg0) = m (aLoc c main_arg0) ∧ r.2.mem (aLoc c main_arg1) = m (aLoc c main_arg1)
    ∧ r.2.mem (aLoc c main_arg2) = m (aLoc c main_arg2)

theorem hQ (s' : Phys nD τ sig (Elt F)) (h : ∀ d, fq m r1 r2 d s') : QC m r1 r2 (⟨⟩, s'.mem) := h

end Cert.Kernel.Final

end
-- ==== Proof.Bits.RunShape.lean ====
/-
  The launch theorem applied: from the tile's body and @main's proof on each TensorCore, every weakly fair execution
  of the whole family of threads terminates with, on every device, the two results at named contents and the three
  arguments unchanged.
-/
import proofs.«206219_g40982577938455_cont_8to1_b_1362_29_alg».proof.Proof.Bits.Payload
import proofs.«206219_g40982577938455_cont_8to1_b_1362_29_alg».proof.Proof.Bits.LaunchElem
import proofs.«206219_g40982577938455_cont_8to1_b_1362_29_alg».proof.Proof.Bits.Final

noncomputable section

namespace Cert.Kernel.RunShape

open Cert.Kernel Cert.Kernel.Gen Cert.Kernel.Setup Cert.Kernel.TileBody Cert.Kernel.Payload
  Cert.Kernel.LaunchElem Cert.Kernel.Final
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (g : Dev nD → PrngReg)
  (r1 : (d : Dev nD) → Buf (Elt F) (aLoc d main_v23)) (r2 : (d : Dev nD) → Buf (Elt F) (aLoc d main_v24))

/-- The statement of @main's proof on the TensorCore of each device. -/
def MainHolds : Prop :=
  ∀ (κ : GSem nD τ sig → ℕ) (d : Dev nD),
    iprop((K (F := F)).ctx EH (P m) κ ∗ (K (F := F)).tcSt EH d 0 ∗ (K (F := F)).tcRes m g d ∗ G (F := F) d)
      ⊢ wp frame (wpE ((K (F := F)).defs (D (F := F))) 𝒱 (SparseCore.T d) none) Set.univ (main d)
          fun _ => (iprop((K (F := F)).tcSt EH d 1 ∗ FIN m r1 r2 d) : sProp 𝕄)

/-- The whole program's run. -/
theorem run_main [∀ e, Nonempty (Elt F e)] (hbody : TileBodyHolds (F := F) m) (hmain : MainHolds m g r1 r2) :
    θ_run (Cert.Kernel.defs (F := F)) (Cert.Kernel.threads (F := F)) ⟨m, fun _ => 0, g⟩ (QC m r1 r2) :=
  SparseCore.Cfg.θ_run_sc (K := K (F := F)) (D := D (F := F)) (𝒱 := 𝒱) (EH := EH) (P := P m) facts v₀
    (fun q hq => match q with | 0 => nomatch hq)
    (fun q _ => match q with | 0 => tileObl m hbody)
    (fun q _ => match q with | 0 => SparseCore.Cfg.VecSplit.of_plain (vecSplit m))
    m g main (fun d => G (F := F) d) (FIN m r1 r2) (u₀ (F := F)) (sep_elim_left.trans (hu₀ (P m) (P_x m))) hmain (fq m r1 r2) (hfin m r1 r2)
    (QC m r1 r2) (hQ m r1 r2)

end Cert.Kernel.RunShape

end
-- ==== Proof.Bits.MainRun.lean ====
/-
  @main on a device's TensorCore: the host operations and the two TensorCore regions leave every unscoped buffer at a
  known valuation, in which the three arguments and the second result's array are as at launch and the first result
  holds the regions' value; then the one SparseCore call: x, the embedding table and the second result's array are
  dealt to the 32 tiles, the call runs, and what the tiles give back is the three arrays whole, the second result at
  its value. What is left is the five arrays the claim speaks of.
-/
import proofs.«206219_g40982577938455_cont_8to1_b_1362_29_alg».proof.Proof.Bits.RegionRun
import proofs.«206219_g40982577938455_cont_8to1_b_1362_29_alg».proof.Proof.Bits.TileSplit
import proofs.«206219_g40982577938455_cont_8to1_b_1362_29_alg».proof.Proof.Bits.RunShape

noncomputable section

namespace Cert.Kernel.MainRun

open Cert.Kernel Cert.Kernel.Gen Cert.Kernel.Setup Cert.Kernel.TileBody Cert.Kernel.Payload
  Cert.Kernel.LaunchElem Cert.Kernel.Final Cert.Kernel.TileSplit Cert.Kernel.RunShape
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split)

variable {F : FTy → Type} [FloatOps F]

local notation "𝕄" => MT nD τ sig (HIx 1) (Elt F) ℕ UU ℕ

variable (m : (ℓ : Loc nD τ sig) → Buf (Elt F) ℓ) (g : Dev nD → PrngReg)

/-! ## The five arrays of the claim among the TensorCore's buffers -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v23' : DevRef τ sig := Proc.devRef .tc (main_v23 : Ref sig .tc)
abbrev v24' : DevRef τ sig := Proc.devRef .tc (main_v24 : Ref sig .tc)
abbrev S5 : Finset (DevRef τ sig) := {a0', a1', a2', v23', v24'}

theorem S5_sub : S5 ⊆ Pipeline.ucRefs τ sig := by decide

omit [FloatOps F] in
theorem held_S5 (d : Dev nD) (W : Valuation τ sig (Elt F)) :
    (held (T d) S5 W : sProp 𝕄) = iprop((aLoc d main_arg0 ↦{fullShare} W a0') ∗ (aLoc d main_arg1 ↦{fullShare} W a1') ∗ (aLoc d main_arg2 ↦{fullShare} W a2')
      ∗ (aLoc d main_v23 ↦{fullShare} W v23') ∗ (aLoc d main_v24 ↦{fullShare} W v24')) := by
  unfold held S5
  rw [SparseCore.bigSep_insert' (by decide), SparseCore.bigSep_insert' (by decide), SparseCore.bigSep_insert' (by decide), SparseCore.bigSep_insert' (by decide), bigSep_singleton]

/-- The two results' contents when @main ends. -/
def r1 (d : Dev nD) : Buf (Elt F) (aLoc d main_v23) := Regions.W3 m d v23'
def r2 (d : Dev nD) : Buf (Elt F) (aLoc d main_v24) := out2Buf m d

/-- What the call takes for the two SparseCores is the 32 tiles' holdings, and likewise what it hands back. -/
theorem st0_eq (d : Dev nD) :
    (bigSep Finset.univ fun c : Fin ((K (F := F)).nCore 0) => (P m).st 0 d c)
      = (bigSep Finset.univ fun c : Fin 2 => bigSep Finset.univ fun i : Fin 16 => tileGo m d (coordsV c i) : sProp 𝕄) := rfl
theorem dn0_eq (d : Dev nD) :
    (bigSep Finset.univ fun c : Fin ((K (F := F)).nCore 0) => (P m).dn 0 d c)
      = (bigSep Finset.univ fun c : Fin 2 => bigSep Finset.univ fun i : Fin 16 => tileTd m d (coordsV c i) : sProp 𝕄) := rfl

/-- The TensorCore's handshake state before the call, beyond what it owes: its position on its `done` cell, the rounds
    reached, and the start duties' tokens and credit. -/
def tcTail (d : Dev nD) : sProp 𝕄 :=
  iprop(atPos (EH (F := F)) ((K (F := F)).doneCell d) 0 ∅ 0 ∗ reached (EH (F := F)) ((K (F := F)).doneCell d) 0
    ∗ (bigSep Finset.univ fun c : Fin τ.nSC => reached (EH (F := F)) ((K (F := F)).startCell d c) ((K (F := F)).sRank c 0))
    ∗ bigSep (SparseCore.Cfg.callsFrom (Q := 1) 0) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))

omit [FloatOps F] in
theorem tcSt0_eq (d : Dev nD) : ((K (F := F)).tcSt EH d 0 : sProp 𝕄) = iprop(Regions.Rr (F := F) d ∗ tcTail (F := F) d) := by
  unfold SparseCore.Cfg.tcSt; rfl
omit [FloatOps F] in
theorem tcSt_q0 (d : Dev nD) : ((K (F := F)).tcSt EH d ((0 : Fin 1) : ℕ) : sProp 𝕄) = (K (F := F)).tcSt EH d 0 := rfl
omit [FloatOps F] in
theorem tcSt_q1 (d : Dev nD) : ((K (F := F)).tcSt EH d (((0 : Fin 1) : ℕ) + 1) : sProp 𝕄) = (K (F := F)).tcSt EH d 1 := rfl

set_option backward.isDefEq.respectTransparency.types false in
theorem hmain : MainHolds m g (r1 m) (r2 m) := by
  intro κ d
  unfold SparseCore.Cfg.tcRes
  rw [Pipeline.unscopedBufs_held d (Regions.W0 m d), G_eq]
  rw [tcSt0_eq]
  iintro ⟨#Hctx, ⟨HO, Hrest⟩, ⟨Hb, Hheld, Hsems, Hprng⟩, ⟨Hc0, Hc1⟩, ⟨Ht0, Ht1⟩⟩
  iapply (Regions.wp_main_tc (F := F) m (P := P m) κ d) $$ [Hb Hheld HO Hc0 Hc1 Ht0 Ht1 Hrest]
  isplitr; · iexact Hctx
  isplitl [Hb]; · iexact Hb
  isplitl [Hheld]; · iexact Hheld
  isplitl [HO]; · iexact HO
  isplitl [Hc0 Hc1 Ht0 Ht1]
  · isplitl [Hc0 Ht0]
    · isplitl [Hc0] <;> iassumption
    · isplitl [Hc1] <;> iassumption
  rw [held_sub_split (c := T d) S5_sub (Regions.W3 m d), held_S5, Regions.W3_main_arg0, Regions.W3_main_arg1, Regions.W3_main_arg2, Regions.W3_main_v24]
  iintro ⟨Hb, ⟨⟨H0, H1, H2, H23, H24⟩, -⟩, HO⟩
  simp only [wp_bind, wp_pure]
  ihave Hsp := (split_tiles (F := F) m d) $$ [H0 H2 H24]
  · isplitl [H0]; · iexact H0
    isplitl [H2]; · iexact H2
    iexists _; iexact H24
  icases Hsp with ⟨Hgo, Hrst⟩
  iapply ((K (F := F)).wp_run (D (F := F)) 𝒱 (EH := EH) (P := P m) κ d 0) $$ [HO Hrest Hgo H1 H23 Hrst]
  isplitr; · iexact Hctx
  isplitl [HO Hrest]
  · rw [tcSt_q0, tcSt0_eq]; isplitl [HO] <;> iassumption
  isplitl [Hgo]
  · rw [st0_eq]; iexact Hgo
  rw [tcSt_q1]
  iintro ⟨Hst, Hdn⟩
  ihave Hdn' := (Entails.of_eq (dn0_eq (F := F) m d)) $$ Hdn
  ihave Hj := (join_tiles (F := F) m d) $$ [Hdn' Hrst]
  · isplitl [Hdn'] <;> iassumption
  icases Hj with ⟨H0, H2, H24⟩
  imodintro
  isplitl [Hst]; · iexact Hst
  unfold FIN r1 r2
  isplitl [H0]; · iexact H0
  isplitl [H1]; · iexact H1
  isplitl [H2]; · iexact H2
  isplitl [H23]; · iexact H23
  iexact H24

end Cert.Kernel.MainRun

end
-- ==== Proof.BitsClaims.lean ====
/-
  The frame of the kernel as printed, at the word-level instance, from the tile's body: the same run as at the ideal
  instance — nothing in it uses a law of the floats — with the results' values dropped.
-/
import proofs.«206219_g40982577938455_cont_8to1_b_1362_29_alg».proof.Proof.Bits.MainRun
import proofs.«206219_g40982577938455_cont_8to1_b_1362_29_alg».proof.Proof.Gen.Pre_finite_inputs

noncomputable section

namespace Cert.Proof.BitsClaims

open Idealize.ShloMosaic Idealize.ShloMosaic.TcCoe Idealize.SL.Sem
open Cert.Kernel Cert.Kernel.Setup Cert.Kernel.Final

/-- The tile's body at the word-level instance, for every launch memory. -/
abbrev BodyHolds : Prop := ∀ m : (ℓ : Loc nD τ sig) → Buf (Elt Bits) ℓ, Cert.Kernel.Payload.TileBodyHolds (F := Bits) m

theorem frame_k (hbody : BodyHolds) : Cert.frame_Kernel := fun m g _ =>
  (θ_run Cert.Kernel.defs _ _).mono (fun _ h c => (h c).2.2)
    (Cert.Kernel.RunShape.run_main (F := Bits) m g _ _ (hbody m) (Cert.Kernel.MainRun.hmain m g))

end Cert.Proof.BitsClaims

end
-- ==== Proof.RowFill.lean ====
/-
  What the 32 sixteen-lane stores of one row leave in the staging scratch. One trip of a fill loop writes, for
  each of the 4 groups s and the 8 lane blocks c, the 16 lanes [xoff + 16 c, xoff + 16 c + 16) of row k, group s,
  slot buf, with values that are one function G of the destination index. After the first n of these stores (in
  the loop's order, n = 8 s + c) an element of the staging scratch holds G if it lies in slot buf, row k, lanes
  [xoff, xoff + 128) and its store is among the first n, and holds what it held before otherwise. The count of an
  element's store is 8 · group + (lane − xoff) / 16.
-/
import proofs.«206219_g40982577938455_cont_8to1_b_1362_29_alg».proof.Proof.TileRes
import Idealize.ShloMosaic.Lib.Writes
import Idealize.ShloMosaic.Lib.ValueIdx
import Idealize.ShloMosaic.Lib.Pipeline.Value

namespace Cert.KernelIdeal.RowFill

open Cert.KernelIdeal
open Idealize.ShloMosaic

variable {sig : RefSig} {κ : Kind} {sp : Space} {Val : EltTy → Type}

/-- The element lies in slot `buf`, row `k`, lanes `[xoff, xoff + 128)`, and its store is among the first `n`. -/
def inRow (buf k xoff n : ℕ) (y : S2x32x4x256.Idx) : Prop :=
  (y 0).val = buf ∧ (y 1).val = k ∧ xoff ≤ (y 3).val ∧ (y 3).val < xoff + 128 ∧ 8 * (y 2).val + ((y 3).val - xoff) / 16 < n

instance (buf k xoff n : ℕ) (y : S2x32x4x256.Idx) : Decidable (inRow buf k xoff n y) := by
  unfold inRow; infer_instance

/-- After the first `n` stores of the row: `G` on the elements stored, the old contents elsewhere. -/
def RowFill (V : View sig κ sp S2x32x4x256 .f32) (buf k xoff n : ℕ) (G : S2x32x4x256.Idx → Val .f32)
    (g h : V.ty.Contents Val) : Prop :=
  ∀ y, V.read Val h y = if inRow buf k xoff n y then G y else V.read Val g y

theorem RowFill.zero (V : View sig κ sp S2x32x4x256 .f32) (buf k xoff : ℕ) (G : S2x32x4x256.Idx → Val .f32)
    (g : V.ty.Contents Val) : RowFill V buf k xoff 0 G g g := by
  intro y
  rw [if_neg]
  unfold inRow; omega

/-- One more store: the 16 lanes of group `s`, lane block `c`. -/
theorem RowFill.step (V : View sig κ sp S2x32x4x256 .f32) (buf k xoff n s c : ℕ) (hc : c < 8) (hn : n = 8 * s + c)
    (G : S2x32x4x256.Idx → Val .f32) (g h : V.ty.Contents Val)
    {off : Fin S2x32x4x256.rank → ℕ} (inb : ∀ a, off a + S1x1x1x16.size a ≤ S2x32x4x256.size a)
    (heq : off = ![buf, k, s, xoff + 16 * c])
    (w : (Rect.unit (s := S2x32x4x256) off S1x1x1x16.size inb).shape.Idx → Val .f32)
    (hw : ∀ x, w x = G ((Rect.unit (s := S2x32x4x256) off S1x1x1x16.size inb).emb x))
    (H : RowFill V buf k xoff n G g h) :
    RowFill V buf k xoff (n + 1) G g ((V.slice (Rect.unit (s := S2x32x4x256) off S1x1x1x16.size inb)).write Val h w Finset.univ) := by
  subst heq
  intro y
  by_cases hy : y ∈ Finset.univ.map (Rect.unit (s := S2x32x4x256) ![buf, k, s, xoff + 16 * c] S1x1x1x16.size inb).emb
  · obtain ⟨x, -, rfl⟩ := Finset.mem_map.mp hy
    rw [View.read_slice_write_emb _ _ _ (Finset.mem_univ x), hw x, if_pos]
    have h0 : (x 0).val < 1 := (x 0).isLt
    have h1 : (x 1).val < 1 := (x 1).isLt
    have h2 : (x 2).val < 1 := (x 2).isLt
    have h3 : (x 3).val < 16 := (x 3).isLt
    have e0 : (((Rect.unit (s := S2x32x4x256) ![buf, k, s, xoff + 16 * c] S1x1x1x16.size inb).emb x) 0).val = buf + 1 * (x 0).val := rfl
    have e1 : (((Rect.unit (s := S2x32x4x256) ![buf, k, s, xoff + 16 * c] S1x1x1x16.size inb).emb x) 1).val = k + 1 * (x 1).val := rfl
    have e2 : (((Rect.unit (s := S2x32x4x256) ![buf, k, s, xoff + 16 * c] S1x1x1x16.size inb).emb x) 2).val = s + 1 * (x 2).val := rfl
    have e3 : (((Rect.unit (s := S2x32x4x256) ![buf, k, s, xoff + 16 * c] S1x1x1x16.size inb).emb x) 3).val = (xoff + 16 * c) + 1 * (x 3).val := rfl
    unfold inRow
    rw [e0, e1, e2, e3]
    omega
  · rw [View.read_slice_write_of_not_mem _ _ _ _ hy, H y]
    rw [Rect.map_emb_univ, Rect.mem_set_unit] at hy
    have hiff : inRow buf k xoff (n + 1) y ↔ inRow buf k xoff n y := by
      unfold inRow
      constructor
      · intro hh
        by_contra hcon
        apply hy
        intro a
        have hA : a = 0 ∨ a = 1 ∨ a = 2 ∨ a = 3 := by
          rcases a with ⟨_ | _ | _ | _ | a, ha⟩
          · exact .inl rfl
          · exact .inr (.inl rfl)
          · exact .inr (.inr (.inl rfl))
          · exact .inr (.inr (.inr rfl))
          · exact absurd ha (by show ¬ (a + 4 < 4); omega)
        rcases hA with rfl | rfl | rfl | rfl
        · show buf ≤ (y 0).val ∧ (y 0).val < buf + 1; omega
        · show k ≤ (y 1).val ∧ (y 1).val < k + 1; omega
        · show s ≤ (y 2).val ∧ (y 2).val < s + 1; omega
        · show xoff + 16 * c ≤ (y 3).val ∧ (y 3).val < xoff + 16 * c + 16; omega
      · intro hh; omega
    simp only [hiff]

/-! ### The rows done so far -/

/-- After `kk` trips: rows below `kk` of slot `buf` hold `G` on lanes `[xoff, xoff + 128)`; everything else is as before the loop. -/
def Filled (V : View sig κ sp S2x32x4x256 .f32) (buf xoff kk : ℕ) (G : S2x32x4x256.Idx → Val .f32)
    (g0 h : V.ty.Contents Val) : Prop :=
  ∀ y, V.read Val h y = if (y 0).val = buf ∧ (y 1).val < kk ∧ xoff ≤ (y 3).val ∧ (y 3).val < xoff + 128 then G y else V.read Val g0 y

theorem Filled.zero (V : View sig κ sp S2x32x4x256 .f32) (buf xoff : ℕ) (G : S2x32x4x256.Idx → Val .f32)
    (g0 : V.ty.Contents Val) : Filled V buf xoff 0 G g0 g0 := by
  intro y
  rw [if_neg]
  omega

/-- One trip: the row's 32 stores over the rows done before. -/
theorem Filled.succ (V : View sig κ sp S2x32x4x256 .f32) (buf xoff k : ℕ) (G : S2x32x4x256.Idx → Val .f32)
    (g0 g h : V.ty.Contents Val) (H : Filled V buf xoff k G g0 g) (R : RowFill V buf k xoff 32 G g h) :
    Filled V buf xoff (k + 1) G g0 h := by
  intro y
  rw [R y]
  have h2 : (y 2).val < 4 := (y 2).isLt
  by_cases hr : inRow buf k xoff 32 y
  · rw [if_pos hr, if_pos]
    unfold inRow at hr; omega
  · rw [if_neg hr, H y]
    unfold inRow at hr
    by_cases hc : (y 0).val = buf ∧ (y 1).val < k ∧ xoff ≤ (y 3).val ∧ (y 3).val < xoff + 128
    · rw [if_pos hc, if_pos]; omega
    · rw [if_neg hc, if_neg]; omega

/-! ### What a store's vector is: sixteen lanes loaded from a row of the source -/

open ValueIdx in
/-- The source element a destination element of the staging scratch is filled from: slot `bufA`, the same row, column
    `128 · group + (lane − xoff)`. -/
def srcIx (bufA : Fin 2) (xoff : ℕ) (y : S2x32x4x256.Idx) : S2x32x512.Idx :=
  ix3 bufA (y 1) ⟨(128 * (y 2).val + ((y 3).val - xoff)) % 512, Nat.mod_lt _ (by decide)⟩

/-- The fill's value at a destination element, the source array's contents `f` read through `V`. -/
def srcG (V : View sig κ sp S2x32x512 .f32) (f : V.ty.Contents Val) (bufA : Fin 2) (xoff : ℕ) (y : S2x32x4x256.Idx) : Val .f32 :=
  V.read Val f (srcIx bufA xoff y)

theorem cast16 {α : Type} (v : S1x1x16.Idx → α) (h1 : S1x1x16.ShapeCasts S16) (h2 : S16.ShapeCasts S1x1x1x16) (x : S1x1x1x16.Idx) :
    shapeCast S1x1x1x16 (shapeCast S16 v h1) h2 x = v (ValueIdx.ix3 0 0 (x 3)) := by
  have h0 : (x 0).val < 1 := (x 0).isLt
  have h1' : (x 1).val < 1 := (x 1).isLt
  have h2' : (x 2).val < 1 := (x 2).isLt
  rw [shapeCast_apply _ h2 x (ValueIdx.ix1 (x 3)) (by
    rw [Shape.rowMajor_val_one, Shape.rowMajor_val_four]
    show (x 3).val = ((((x 0).val * 1 + (x 1).val) * 1 + (x 2).val) * 16 + (x 3).val); omega)]
  rw [shapeCast_apply _ h1 (ValueIdx.ix1 (x 3)) (ValueIdx.ix3 0 0 (x 3)) (by
    rw [Shape.rowMajor_val_one, Shape.rowMajor_val_three]
    show (((0 : ℕ) * 1 + 0) * 16 + (x 3).val) = (x 3).val; omega)]

theorem cast16' {α : Type} (v : S1x1x1x16.Idx → α) (h1 : S1x1x1x16.ShapeCasts S16) (h2 : S16.ShapeCasts S1x1x1x16) (x : S1x1x1x16.Idx) :
    shapeCast S1x1x1x16 (shapeCast S16 v h1) h2 x = v x := by
  have h0 : (x 0).val < 1 := (x 0).isLt
  have h1' : (x 1).val < 1 := (x 1).isLt
  have h2' : (x 2).val < 1 := (x 2).isLt
  rw [shapeCast_apply _ h2 x (ValueIdx.ix1 (x 3)) (by
    rw [Shape.rowMajor_val_one, Shape.rowMajor_val_four]
    show (x 3).val = ((((x 0).val * 1 + (x 1).val) * 1 + (x 2).val) * 16 + (x 3).val); omega)]
  rw [shapeCast_apply _ h1 (ValueIdx.ix1 (x 3)) x (by
    rw [Shape.rowMajor_val_one, Shape.rowMajor_val_four]
    show ((((x 0).val * 1 + (x 1).val) * 1 + (x 2).val) * 16 + (x 3).val) = (x 3).val; omega)]

/-- A store's vector — sixteen lanes loaded from row `k`, columns `[col, col + 16)` of slot `bufA` of the source, re-laid
    as `[1, 1, 1, 16]` — is the fill's value at each element it is stored to. -/
theorem pay_eq (V : View sig κ sp S2x32x512 .f32) (f : V.ty.Contents Val) (bufA : Fin 2) (buf k xoff s c col : ℕ)
    (hk : k < 32) (hc : c < 8) (hs : s < 4) (hcol : col = 128 * s + 16 * c)
    {offA : Fin S2x32x512.rank → ℕ} (inbA : ∀ a, offA a + S1x1x16.size a ≤ S2x32x512.size a) (heqA : offA = ![bufA.val, k, col])
    {offB : Fin S2x32x4x256.rank → ℕ} (inbB : ∀ a, offB a + S1x1x1x16.size a ≤ S2x32x4x256.size a) (heqB : offB = ![buf, k, s, xoff + 16 * c])
    (h1 : S1x1x16.ShapeCasts S16) (h2 : S16.ShapeCasts S1x1x1x16)
    (x : (Rect.unit (s := S2x32x4x256) offB S1x1x1x16.size inbB).shape.Idx) :
    shapeCast S1x1x1x16 (shapeCast S16 (View.readAt Val V (Rect.unit (s := S2x32x512) offA S1x1x16.size inbA).toLoadRect f) h1) h2 x
      = srcG V f bufA xoff ((Rect.unit (s := S2x32x4x256) offB S1x1x1x16.size inbB).emb x) := by
  subst heqA heqB hcol
  rw [cast16]
  unfold srcG View.readAt
  refine congrArg (V.read Val f) (funext fun a => Fin.ext ?_)
  have h3 : (x 3).val < 16 := (x 3).isLt
  have h1' : (x 1).val < 1 := (x 1).isLt
  have h2' : (x 2).val < 1 := (x 2).isLt
  have e1 : (((Rect.unit (s := S2x32x4x256) ![buf, k, s, xoff + 16 * c] S1x1x1x16.size inbB).emb x) 1).val = k + 1 * (x 1).val := rfl
  have e2 : (((Rect.unit (s := S2x32x4x256) ![buf, k, s, xoff + 16 * c] S1x1x1x16.size inbB).emb x) 2).val = s + 1 * (x 2).val := rfl
  have e3 : (((Rect.unit (s := S2x32x4x256) ![buf, k, s, xoff + 16 * c] S1x1x1x16.size inbB).emb x) 3).val = (xoff + 16 * c) + 1 * (x 3).val := rfl
  match a with
  | ⟨0, _⟩ => show bufA.val + 1 * 0 = bufA.val; omega
  | ⟨1, _⟩ => show k + 1 * 0 = _; unfold srcIx; show _ = (((Rect.unit (s := S2x32x4x256) ![buf, k, s, xoff + 16 * c] S1x1x1x16.size inbB).emb x) 1).val; omega
  | ⟨2, _⟩ =>
    show (128 * s + 16 * c) + 1 * (x 3).val = (128 * (((Rect.unit (s := S2x32x4x256) ![buf, k, s, xoff + 16 * c] S1x1x1x16.size inbB).emb x) 2).val + ((((Rect.unit (s := S2x32x4x256) ![buf, k, s, xoff + 16 * c] S1x1x1x16.size inbB).emb x) 3).val - xoff)) % 512
    rw [e2, e3]; omega

/-! ### The same with the staging scratch itself as the source (slot to slot) -/

open ValueIdx in
/-- The element of slot `bufA` at the same row, group and lane. -/
def srcIx' (bufA : Fin 2) (y : S2x32x4x256.Idx) : S2x32x4x256.Idx := ix4 bufA (y 1) (y 2) (y 3)

def srcG' (V : View sig κ sp S2x32x4x256 .f32) (f : V.ty.Contents Val) (bufA : Fin 2) (y : S2x32x4x256.Idx) : Val .f32 :=
  V.read Val f (srcIx' bufA y)

theorem pay_eq' (V : View sig κ sp S2x32x4x256 .f32) (f : V.ty.Contents Val) (bufA : Fin 2) (buf k xoff s c : ℕ)
    (hk : k < 32) (hc : c < 8) (hs : s < 4)
    {offA : Fin S2x32x4x256.rank → ℕ} (inbA : ∀ a, offA a + S1x1x1x16.size a ≤ S2x32x4x256.size a) (heqA : offA = ![bufA.val, k, s, xoff + 16 * c])
    {offB : Fin S2x32x4x256.rank → ℕ} (inbB : ∀ a, offB a + S1x1x1x16.size a ≤ S2x32x4x256.size a) (heqB : offB = ![buf, k, s, xoff + 16 * c])
    (h1 : S1x1x1x16.ShapeCasts S16) (h2 : S16.ShapeCasts S1x1x1x16)
    (x : (Rect.unit (s := S2x32x4x256) offB S1x1x1x16.size inbB).shape.Idx) :
    shapeCast S1x1x1x16 (shapeCast S16 (View.readAt Val V (Rect.unit (s := S2x32x4x256) offA S1x1x1x16.size inbA).toLoadRect f) h1) h2 x
      = srcG' V f bufA ((Rect.unit (s := S2x32x4x256) offB S1x1x1x16.size inbB).emb x) := by
  subst heqA heqB
  rw [cast16']
  unfold srcG' View.readAt
  refine congrArg (V.read Val f) (funext fun a => Fin.ext ?_)
  have h0' : (x 0).val < 1 := (x 0).isLt
  have h1' : (x 1).val < 1 := (x 1).isLt
  have h2' : (x 2).val < 1 := (x 2).isLt
  match a with
  | ⟨0, _⟩ => show bufA.val + 1 * (x 0).val = bufA.val; omega
  | ⟨1, _⟩ => show k + 1 * (x 1).val = k + 1 * (x 1).val; rfl
  | ⟨2, _⟩ => show s + 1 * (x 2).val = s + 1 * (x 2).val; rfl
  | ⟨3, _⟩ => show (xoff + 16 * c) + 1 * (x 3).val = (xoff + 16 * c) + 1 * (x 3).val; rfl

end Cert.KernelIdeal.RowFill
-- ==== Proof.TileVals.lean ====
/-
  The values a tile's loops carry, as facts about the contents of its two scratch arrays. A slot of the row
  scratch holds a block of 32 source rows (of the embedding table, or of one batch of x); a slot of the staging
  scratch holds, per row and group, 128 lanes of x followed by 128 lanes of the table. A fill loop moves one
  half: what it leaves is read off its invariant's last instance.
-/
import proofs.«206219_g40982577938455_cont_8to1_b_1362_29_alg».proof.Proof.RowFill

namespace Cert.KernelIdeal.RowFill

open Cert.KernelIdeal
open Idealize.ShloMosaic
open ValueIdx

variable {sig : RefSig} {κ κ' : Kind} {sp sp' : Space} {Val : EltTy → Type}

/-- Slot `buf` of the row scratch holds the 32 rows `src`. -/
def AOK (VA : View sig κ sp S2x32x512 .f32) (buf : Fin 2) (A : VA.ty.Contents Val) (src : Fin 32 → Fin 512 → Val .f32) : Prop :=
  ∀ (r : Fin 32) (c : Fin 512), VA.read Val A (ix3 buf r c) = src r c

/-- Lanes `[lo, lo + 128)` of slot `buf` of the staging scratch hold the rows `src`, group `s` holding columns `[128 s, 128 s + 128)`. -/
def HHalf (VB : View sig κ' sp' S2x32x4x256 .f32) (buf : Fin 2) (lo : ℕ) (h : VB.ty.Contents Val) (src : Fin 32 → Fin 512 → Val .f32) : Prop :=
  ∀ (r : Fin 32) (s : Fin 4) (j : Fin 256), lo ≤ j.val → j.val < lo + 128 →
    VB.read Val h (ix4 buf r s j) = src r ⟨(128 * s.val + (j.val - lo)) % 512, Nat.mod_lt _ (by decide)⟩

/-- A finished fill from slot `buf` of the row scratch leaves the source rows in the half it wrote. -/
theorem HHalf.of_fill (VA : View sig κ sp S2x32x512 .f32) (VB : View sig κ' sp' S2x32x4x256 .f32) (buf : Fin 2) (xoff : ℕ)
    (A : VA.ty.Contents Val) (g0 h : VB.ty.Contents Val) (src : Fin 32 → Fin 512 → Val .f32)
    (hF : Filled VB buf.val xoff 32 (srcG VA A buf xoff) g0 h) (hA : AOK VA buf A src) : HHalf VB buf xoff h src := by
  intro r s j hlo hhi
  rw [hF (ix4 buf r s j), if_pos ⟨rfl, r.isLt, hlo, hhi⟩]
  exact hA r _

/-- A finished fill leaves every other half as it was. -/
theorem HHalf.of_fill_other (VB : View sig κ' sp' S2x32x4x256 .f32) (buf : ℕ) (xoff : ℕ) (G : S2x32x4x256.Idx → Val .f32)
    (g0 h : VB.ty.Contents Val) (buf' : Fin 2) (lo : ℕ) (src : Fin 32 → Fin 512 → Val .f32)
    (hF : Filled VB buf xoff 32 G g0 h) (hE : HHalf VB buf' lo g0 src)
    (hne : buf'.val ≠ buf ∨ lo + 128 ≤ xoff ∨ xoff + 128 ≤ lo) : HHalf VB buf' lo h src := by
  intro r s j hlo hhi
  rw [hF (ix4 buf' r s j), if_neg]
  · exact hE r s j hlo hhi
  · intro hc
    have h0 : ((ix4 buf' r s j : S2x32x4x256.Idx) 0).val = buf'.val := rfl
    have h3 : ((ix4 buf' r s j : S2x32x4x256.Idx) 3).val = j.val := rfl
    rw [h0, h3] at hc
    omega

/-- The slot-to-slot copy of the table half. -/
theorem HHalf.of_copy (VB : View sig κ' sp' S2x32x4x256 .f32) (g g0 h : VB.ty.Contents Val) (src : Fin 32 → Fin 512 → Val .f32)
    (hF : Filled VB 1 128 32 (srcG' VB g 0) g0 h) (hE : HHalf VB 0 128 g src) : HHalf VB 1 128 h src := by
  intro r s j hlo hhi
  rw [hF (ix4 1 r s j), if_pos ⟨rfl, r.isLt, hlo, hhi⟩]
  exact hE r s j hlo hhi

end Cert.KernelIdeal.RowFill
-- ==== Proof.TileSetup.lean ====
/-
  Shared set-up for the tile body's proof: the tile's own semaphores and scratch arrays taken out of what a vector
  subcore is handed, each scratch array held as its two slots, the blocks of the result as the copies address them,
  and the fill loops' invariants.
-/
import proofs.«206219_g40982577938455_cont_8to1_b_1362_29_alg».proof.Proof.TileRes
import proofs.«206219_g40982577938455_cont_8to1_b_1362_29_alg».proof.Proof.RowFill
import proofs.«206219_g40982577938455_cont_8to1_b_1362_29_alg».proof.Proof.Gen.KernelIdeal.Skeleton
import proofs.«206219_g40982577938455_cont_8to1_b_1362_29_alg».proof.Proof.TileVals

noncomputable section

namespace Cert.KernelIdeal.TileBody

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (d : Dev nD) (L : grid2.Coords)

abbrev csem (k : Nat) (hk : k < 14 := by decide) : DmaSem sig := ⟨k, hk⟩
abbrev dcell (d : Dev nD) (L : grid2.Coords) (k : Fin 5) : GSem nD τ sig := (thr d L, .dma (csem (9 + k.val) (by have := k.isLt; omega)))

variable [FloatOps F]

omit [FloatOps F] in
theorem dcell_mem (k : Fin 5) : dcell d L k ∈ ownCells (thr d L) :=
  mem_ownCells.mpr ⟨rfl, (show ∀ s : DmaSem sig, (SemLoc.dma s : SemLoc sig).isScoped .scVector = true by decide) _⟩

abbrev cells0 (d : Dev nD) (L : grid2.Coords) : sProp 𝕄 :=
  iprop(semVal (thr d L, SemLoc.dma (csem 9)) 0 ∗ semVal (thr d L, SemLoc.dma (csem 10)) 0 ∗ semVal (thr d L, SemLoc.dma (csem 11)) 0
    ∗ semVal (thr d L, SemLoc.dma (csem 12)) 0 ∗ semVal (thr d L, SemLoc.dma (csem 13)) 0)

omit [FloatOps F] in
theorem ownSems0_V :
    (ownSems0 (thr d L) : sProp 𝕄)
      = iprop(cells0 (F := F) d L
          ∗ bigSep ((ownCells (thr d L)) \ Finset.univ.image (dcell d L)) fun g => semVal g 0) := by
  unfold SparseCore.Cfg.ownSems0
  rw [SparseCore.bigSep_sdiff_split' (t := Finset.univ.image (dcell d L))
      (Finset.image_subset_iff.mpr fun k _ => dcell_mem d L k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

omit [FloatOps F] in
theorem ownBufs_V :
    (ownBufs (thr d L) : sProp 𝕄)
      = iprop((∃ f, (thr d L).loc cc2_scratch0 ↦{fullShare} f) ∗ (∃ f, (thr d L).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

omit [FloatOps F] in
theorem pts_x (q : PosShare TreeShare) (f : Buf (Elt F) (xLoc d)) :
    ((xW).view.loc (thr d L) ↦{q} f : sProp 𝕄) = xLoc d ↦{q} f := by
  simp only [Memref.view_whole, View.set_whole]
omit [FloatOps F] in
theorem pts_e (q : PosShare TreeShare) (f : Buf (Elt F) (eLoc d)) :
    ((eW).view.loc (thr d L) ↦{q} f : sProp 𝕄) = eLoc d ↦{q} f := by
  simp only [Memref.view_whole, View.set_whole]
omit [FloatOps F] in
theorem pts_a (f : Buf (Elt F) ((thr d L).loc cc2_scratch0)) :
    ((sA).view.loc (thr d L) ↦{fullShare} f : sProp 𝕄) = (thr d L).loc cc2_scratch0 ↦{fullShare} f := rfl
omit [FloatOps F] in
theorem pts_b (f : Buf (Elt F) ((thr d L).loc cc2_scratch1)) :
    ((sB).view.loc (thr d L) ↦{fullShare} f : sProp 𝕄) = (thr d L).loc cc2_scratch1 ↦{fullShare} f := rfl
omit [FloatOps F] in
theorem pts_o0 (f : Buf (Elt F) (oLoc d)) :
    ((oSl0 L).view.loc (thr d L) ↦[(oSl0 L).view.set]{fullShare} f : sProp 𝕄) = oLoc d ↦[(oSl0 L).view.set]{fullShare} f := rfl
omit [FloatOps F] in
theorem pts_o1 (f : Buf (Elt F) (oLoc d)) :
    ((oSl1 L).view.loc (thr d L) ↦[(oSl1 L).view.set]{fullShare} f : sProp 𝕄) = oLoc d ↦[(oSl1 L).view.set]{fullShare} f := rfl
omit [FloatOps F] in
theorem pts_o2 (f : Buf (Elt F) (oLoc d)) :
    ((oSl2 L).view.loc (thr d L) ↦[(oSl2 L).view.set]{fullShare} f : sProp 𝕄) = oLoc d ↦[(oSl2 L).view.set]{fullShare} f := rfl
omit [FloatOps F] in
theorem pts_o3 (f : Buf (Elt F) (oLoc d)) :
    ((oSl3 L).view.loc (thr d L) ↦[(oSl3 L).view.set]{fullShare} f : sProp 𝕄) = oLoc d ↦[(oSl3 L).view.set]{fullShare} f := rfl
omit [FloatOps F] in
theorem pts_o4 (f : Buf (Elt F) (oLoc d)) :
    ((oSl4 L).view.loc (thr d L) ↦[(oSl4 L).view.set]{fullShare} f : sProp 𝕄) = oLoc d ↦[(oSl4 L).view.set]{fullShare} f := rfl
omit [FloatOps F] in
theorem pts_o5 (f : Buf (Elt F) (oLoc d)) :
    ((oSl5 L).view.loc (thr d L) ↦[(oSl5 L).view.set]{fullShare} f : sProp 𝕄) = oLoc d ↦[(oSl5 L).view.set]{fullShare} f := rfl
omit [FloatOps F] in
theorem pts_o6 (f : Buf (Elt F) (oLoc d)) :
    ((oSl6 L).view.loc (thr d L) ↦[(oSl6 L).view.set]{fullShare} f : sProp 𝕄) = oLoc d ↦[(oSl6 L).view.set]{fullShare} f := rfl
omit [FloatOps F] in
theorem pts_o7 (f : Buf (Elt F) (oLoc d)) :
    ((oSl7 L).view.loc (thr d L) ↦[(oSl7 L).view.set]{fullShare} f : sProp 𝕄) = oLoc d ↦[(oSl7 L).view.set]{fullShare} f := rfl
omit [FloatOps F] in
theorem pts_o8 (f : Buf (Elt F) (oLoc d)) :
    ((oSl8 L).view.loc (thr d L) ↦[(oSl8 L).view.set]{fullShare} f : sProp 𝕄) = oLoc d ↦[(oSl8 L).view.set]{fullShare} f := rfl
omit [FloatOps F] in
theorem pts_o9 (f : Buf (Elt F) (oLoc d)) :
    ((oSl9 L).view.loc (thr d L) ↦[(oSl9 L).view.set]{fullShare} f : sProp 𝕄) = oLoc d ↦[(oSl9 L).view.set]{fullShare} f := rfl
omit [FloatOps F] in
theorem pts_o10 (f : Buf (Elt F) (oLoc d)) :
    ((oSl10 L).view.loc (thr d L) ↦[(oSl10 L).view.set]{fullShare} f : sProp 𝕄) = oLoc d ↦[(oSl10 L).view.set]{fullShare} f := rfl
omit [FloatOps F] in
theorem pts_o11 (f : Buf (Elt F) (oLoc d)) :
    ((oSl11 L).view.loc (thr d L) ↦[(oSl11 L).view.set]{fullShare} f : sProp 𝕄) = oLoc d ↦[(oSl11 L).view.set]{fullShare} f := rfl
omit [FloatOps F] in
theorem pts_o12 (f : Buf (Elt F) (oLoc d)) :
    ((oSl12 L).view.loc (thr d L) ↦[(oSl12 L).view.set]{fullShare} f : sProp 𝕄) = oLoc d ↦[(oSl12 L).view.set]{fullShare} f := rfl
omit [FloatOps F] in
theorem pts_o13 (f : Buf (Elt F) (oLoc d)) :
    ((oSl13 L).view.loc (thr d L) ↦[(oSl13 L).view.set]{fullShare} f : sProp 𝕄) = oLoc d ↦[(oSl13 L).view.set]{fullShare} f := rfl
omit [FloatOps F] in
theorem pts_o14 (f : Buf (Elt F) (oLoc d)) :
    ((oSl14 L).view.loc (thr d L) ↦[(oSl14 L).view.set]{fullShare} f : sProp 𝕄) = oLoc d ↦[(oSl14 L).view.set]{fullShare} f := rfl
omit [FloatOps F] in
theorem pts_o15 (f : Buf (Elt F) (oLoc d)) :
    ((oSl15 L).view.loc (thr d L) ↦[(oSl15 L).view.set]{fullShare} f : sProp 𝕄) = oLoc d ↦[(oSl15 L).view.set]{fullShare} f := rfl

/-! ### The two slots of each scratch array, held apart -/

theorem hdivA : 2 ∣ S2x32x512.size 0 := ⟨1, rfl⟩
theorem hdivB : 2 ∣ S2x32x4x256.size 0 := ⟨1, rfl⟩
abbrev slotA (i : Fin 2) : Rect S2x32x512 := Rect.part (s := S2x32x512) (a₀ := 0) hdivA i
abbrev slotB (i : Fin 2) : Rect S2x32x4x256 := Rect.part (s := S2x32x4x256) (a₀ := 0) hdivB i
abbrev slotSetA (i : Fin 2) : Finset S2x32x512.Idx := ((sA : Memref sig .scVector .vmem S2x32x512 .f32).view.slice (slotA i)).set
abbrev slotSetB (i : Fin 2) : Finset S2x32x4x256.Idx := ((sB : Memref sig .scVector .vmem S2x32x4x256 .f32).view.slice (slotB i)).set

/-- Slot 0 / slot 1 of the row scratch and of the staging scratch, as the copies name them. -/
abbrev aSl0 : Memref sig .scVector .vmem S32x512 .f32 := ((sA : Memref sig .scVector .vmem S2x32x512 .f32).slice (Rect.unit (s := S2x32x512) ![0, 0, 0] S1x32x512.size inb_S2x32x512_S1x32x512_0_0_0) (fun _ => rfl)).squeeze S32x512 squeezes_S1x32x512_S32x512
abbrev aSl1 : Memref sig .scVector .vmem S32x512 .f32 := ((sA : Memref sig .scVector .vmem S2x32x512 .f32).slice (Rect.unit (s := S2x32x512) ![1, 0, 0] S1x32x512.size inb_S2x32x512_S1x32x512_1_0_0) (fun _ => rfl)).squeeze S32x512 squeezes_S1x32x512_S32x512
abbrev bSl0 : Memref sig .scVector .vmem S32x4x256 .f32 := ((sB : Memref sig .scVector .vmem S2x32x4x256 .f32).slice (Rect.unit (s := S2x32x4x256) ![0, 0, 0, 0] S1x32x4x256.size inb_S2x32x4x256_S1x32x4x256_0_0_0_0) (fun _ => rfl)).squeeze S32x4x256 squeezes_S1x32x4x256_S32x4x256
abbrev bSl1 : Memref sig .scVector .vmem S32x4x256 .f32 := ((sB : Memref sig .scVector .vmem S2x32x4x256 .f32).slice (Rect.unit (s := S2x32x4x256) ![1, 0, 0, 0] S1x32x4x256.size inb_S2x32x4x256_S1x32x4x256_1_0_0_0) (fun _ => rfl)).squeeze S32x4x256 squeezes_S1x32x4x256_S32x4x256

theorem unitA0_eq : Rect.unit (s := S2x32x512) ![0, 0, 0] S1x32x512.size inb_S2x32x512_S1x32x512_0_0_0 = slotA 0 := by
  unfold slotA Rect.part Rect.block
  congr 1 <;> funext a <;> fin_cases a <;> simp [Shape.partIx, Shape.partSize]
theorem unitA1_eq : Rect.unit (s := S2x32x512) ![1, 0, 0] S1x32x512.size inb_S2x32x512_S1x32x512_1_0_0 = slotA 1 := by
  unfold slotA Rect.part Rect.block
  congr 1 <;> funext a <;> fin_cases a <;> simp [Shape.partIx, Shape.partSize]
theorem unitB0_eq : Rect.unit (s := S2x32x4x256) ![0, 0, 0, 0] S1x32x4x256.size inb_S2x32x4x256_S1x32x4x256_0_0_0_0 = slotB 0 := by
  unfold slotB Rect.part Rect.block
  congr 1 <;> funext a <;> fin_cases a <;> simp [Shape.partIx, Shape.partSize]
theorem unitB1_eq : Rect.unit (s := S2x32x4x256) ![1, 0, 0, 0] S1x32x4x256.size inb_S2x32x4x256_S1x32x4x256_1_0_0_0 = slotB 1 := by
  unfold slotB Rect.part Rect.block
  congr 1 <;> funext a <;> fin_cases a <;> simp [Shape.partIx, Shape.partSize]

theorem set_slice_congrA {r r' : Rect S2x32x512} (h : r = r') :
    ((sA : Memref sig .scVector .vmem S2x32x512 .f32).view.slice r).set = ((sA : Memref sig .scVector .vmem S2x32x512 .f32).view.slice r').set := by subst h; rfl
theorem set_slice_congrB {r r' : Rect S2x32x4x256} (h : r = r') :
    ((sB : Memref sig .scVector .vmem S2x32x4x256 .f32).view.slice r).set = ((sB : Memref sig .scVector .vmem S2x32x4x256 .f32).view.slice r').set := by subst h; rfl
theorem set_aSl0 : aSl0.view.set = slotSetA 0 := by
  show (((sA : Memref sig .scVector .vmem S2x32x512 .f32).view.slice (Rect.unit (s := S2x32x512) ![0, 0, 0] S1x32x512.size inb_S2x32x512_S1x32x512_0_0_0)).reshape S32x512 squeezes_S1x32x512_S32x512.numel_eq).set = _
  rw [View.set_reshape]; exact set_slice_congrA unitA0_eq
theorem set_aSl1 : aSl1.view.set = slotSetA 1 := by
  show (((sA : Memref sig .scVector .vmem S2x32x512 .f32).view.slice (Rect.unit (s := S2x32x512) ![1, 0, 0] S1x32x512.size inb_S2x32x512_S1x32x512_1_0_0)).reshape S32x512 squeezes_S1x32x512_S32x512.numel_eq).set = _
  rw [View.set_reshape]; exact set_slice_congrA unitA1_eq
theorem set_bSl0 : bSl0.view.set = slotSetB 0 := by
  show (((sB : Memref sig .scVector .vmem S2x32x4x256 .f32).view.slice (Rect.unit (s := S2x32x4x256) ![0, 0, 0, 0] S1x32x4x256.size inb_S2x32x4x256_S1x32x4x256_0_0_0_0)).reshape S32x4x256 squeezes_S1x32x4x256_S32x4x256.numel_eq).set = _
  rw [View.set_reshape]; exact set_slice_congrB unitB0_eq
theorem set_bSl1 : bSl1.view.set = slotSetB 1 := by
  show (((sB : Memref sig .scVector .vmem S2x32x4x256 .f32).view.slice (Rect.unit (s := S2x32x4x256) ![1, 0, 0, 0] S1x32x4x256.size inb_S2x32x4x256_S1x32x4x256_1_0_0_0)).reshape S32x4x256 squeezes_S1x32x4x256_S32x4x256.numel_eq).set = _
  rw [View.set_reshape]; exact set_slice_congrB unitB1_eq

theorem slotSetA_eq (i : Fin 2) : slotSetA i = (slotA i).set := by
  show ((View.whole (cc2_scratch0 : Ref sig .scVector)).slice (slotA i)).set = _
  rw [View.set_slice]; exact Finset.map_refl
theorem slotSetB_eq (i : Fin 2) : slotSetB i = (slotB i).set := by
  show ((View.whole (cc2_scratch1 : Ref sig .scVector)).slice (slotB i)).set = _
  rw [View.set_slice]; exact Finset.map_refl

omit [FloatOps F] in
/-- The row scratch whole is its two slots. -/
theorem ptsA_slots (f : Buf (Elt F) ((thr d L).loc cc2_scratch0)) :
    ((thr d L).loc cc2_scratch0 ↦{fullShare} f : sProp 𝕄)
      = iprop(((aSl0).view.loc (thr d L) ↦[(aSl0).view.set]{fullShare} f) ∗ ((aSl1).view.loc (thr d L) ↦[(aSl1).view.set]{fullShare} f)) := by
  rw [set_aSl0, set_aSl1]
  have h := pointsTo_biUnion (Ix := HIx 1) (Name := ℕ) (U := UU) (Lvl := ℕ) (Val := Elt F) Finset.univ (ℓ := (thr d L).loc cc2_scratch0) (q := fullShare) (f := f) slotSetA
    (fun i _ j _ h => by rw [slotSetA_eq, slotSetA_eq]; exact Rect.part_disjoint hdivA h)
  rw [show (Finset.univ : Finset (Fin 2)).biUnion slotSetA = Finset.univ from
    (Finset.biUnion_congr rfl fun i _ => slotSetA_eq i).trans (Rect.biUnion_part hdivA)] at h
  rw [show (Finset.univ : Finset (Fin 2)) = {0, 1} by decide, SparseCore.bigSep_insert' (by decide), bigSep_singleton] at h
  exact h

omit [FloatOps F] in
/-- The staging scratch whole is its two slots. -/
theorem ptsB_slots (f : Buf (Elt F) ((thr d L).loc cc2_scratch1)) :
    ((thr d L).loc cc2_scratch1 ↦{fullShare} f : sProp 𝕄)
      = iprop(((bSl0).view.loc (thr d L) ↦[(bSl0).view.set]{fullShare} f) ∗ ((bSl1).view.loc (thr d L) ↦[(bSl1).view.set]{fullShare} f)) := by
  rw [set_bSl0, set_bSl1]
  have h := pointsTo_biUnion (Ix := HIx 1) (Name := ℕ) (U := UU) (Lvl := ℕ) (Val := Elt F) Finset.univ (ℓ := (thr d L).loc cc2_scratch1) (q := fullShare) (f := f) slotSetB
    (fun i _ j _ h => by rw [slotSetB_eq, slotSetB_eq]; exact Rect.part_disjoint hdivB h)
  rw [show (Finset.univ : Finset (Fin 2)).biUnion slotSetB = Finset.univ from
    (Finset.biUnion_congr rfl fun i _ => slotSetB_eq i).trans (Rect.biUnion_part hdivB)] at h
  rw [show (Finset.univ : Finset (Fin 2)) = {0, 1} by decide, SparseCore.bigSep_insert' (by decide), bigSep_singleton] at h
  exact h

omit [FloatOps F] in
/-- The two slots of the row scratch, at any contents, are the array at some contents. -/
theorem ptsA_join :
    iprop((∃ f, (aSl0).view.loc (thr d L) ↦[(aSl0).view.set]{fullShare} f) ∗ (∃ f, (aSl1).view.loc (thr d L) ↦[(aSl1).view.set]{fullShare} f))
      ⊢ (iprop(∃ f, (thr d L).loc cc2_scratch0 ↦{fullShare} f) : sProp 𝕄) := by
  rw [set_aSl0, set_aSl1]
  iintro ⟨⟨%f0, H0⟩, ⟨%f1, H1⟩⟩
  ihave H := (pointsTo_biUnion_join (Ix := HIx 1) (Name := ℕ) (U := UU) (Lvl := ℕ) (Val := Elt F) (ℓ := (thr d L).loc cc2_scratch0) (q := fullShare)
      Finset.univ slotSetA (fun i : Fin 2 => if i = 0 then f0 else f1) f0
      (fun i _ j _ h => by rw [slotSetA_eq, slotSetA_eq]; exact Rect.part_disjoint hdivA h)) $$ [H0 H1]
  · rw [show (Finset.univ : Finset (Fin 2)) = {0, 1} by decide, SparseCore.bigSep_insert' (by decide), bigSep_singleton]
    isplitl [H0]
    · iexact H0
    · iexact H1
  icases H with ⟨%g, -, Hg⟩
  rw [show (Finset.univ : Finset (Fin 2)).biUnion slotSetA = Finset.univ from
    (Finset.biUnion_congr rfl fun i _ => slotSetA_eq i).trans (Rect.biUnion_part hdivA)]
  iexists g; iexact Hg

omit [FloatOps F] in
/-- The same for the staging scratch. -/
theorem ptsB_join :
    iprop((∃ f, (bSl0).view.loc (thr d L) ↦[(bSl0).view.set]{fullShare} f) ∗ (∃ f, (bSl1).view.loc (thr d L) ↦[(bSl1).view.set]{fullShare} f))
      ⊢ (iprop(∃ f, (thr d L).loc cc2_scratch1 ↦{fullShare} f) : sProp 𝕄) := by
  rw [set_bSl0, set_bSl1]
  iintro ⟨⟨%f0, H0⟩, ⟨%f1, H1⟩⟩
  ihave H := (pointsTo_biUnion_join (Ix := HIx 1) (Name := ℕ) (U := UU) (Lvl := ℕ) (Val := Elt F) (ℓ := (thr d L).loc cc2_scratch1) (q := fullShare)
      Finset.univ slotSetB (fun i : Fin 2 => if i = 0 then f0 else f1) f0
      (fun i _ j _ h => by rw [slotSetB_eq, slotSetB_eq]; exact Rect.part_disjoint hdivB h)) $$ [H0 H1]
  · rw [show (Finset.univ : Finset (Fin 2)) = {0, 1} by decide, SparseCore.bigSep_insert' (by decide), bigSep_singleton]
    isplitl [H0]
    · iexact H0
    · iexact H1
  icases H with ⟨%g, -, Hg⟩
  rw [show (Finset.univ : Finset (Fin 2)).biUnion slotSetB = Finset.univ from
    (Finset.biUnion_congr rfl fun i _ => slotSetB_eq i).trans (Rect.biUnion_part hdivB)]
  iexists g; iexact Hg

/-- The waits a run adds are all at the local index. -/
theorem waits_insert {W W' : Waits sig (HIx 1)} {a : SemLoc sig × HIx 1} (ha : a.2 = none)
    (h : ∀ p ∈ W', p ∈ W ∨ p.2 = none) : ∀ p ∈ insert a W', p ∈ W ∨ p.2 = none := by
  intro p hp
  rcases Finset.mem_insert.mp hp with hp | hp
  · exact .inr (hp ▸ ha)
  · exact h p hp

/-- A fill loop's invariant before trip `k` (row scratch slot 0 → staging slot 0): the source slot unchanged; the
    destination slot's rows below `k` filled from the source on lanes `[xoff, xoff + 128)`, everything else as before the loop. -/
def invFill0 (xoff : ℕ) (A : Buf (Elt F) ((thr d L).loc cc2_scratch0)) (g0 : Buf (Elt F) ((thr d L).loc cc2_scratch1)) (k : ℕ) (_ : PUnit) : sProp 𝕄 :=
  iprop(((aSl0).view.loc (thr d L) ↦[(aSl0).view.set]{fullShare} A)
    ∗ ∃ h : Buf (Elt F) ((thr d L).loc cc2_scratch1), ((bSl0).view.loc (thr d L) ↦[(bSl0).view.set]{fullShare} h)
      ∗ ⌜RowFill.Filled (Val := Elt F) (sB : Memref sig .scVector .vmem S2x32x4x256 .f32).view 0 xoff k
          (RowFill.srcG (Val := Elt F) (sA : Memref sig .scVector .vmem S2x32x512 .f32).view A 0 xoff) g0 h⌝)

/-- The same for slot 1 of both. -/
def invFill1 (xoff : ℕ) (A : Buf (Elt F) ((thr d L).loc cc2_scratch0)) (g0 : Buf (Elt F) ((thr d L).loc cc2_scratch1)) (k : ℕ) (_ : PUnit) : sProp 𝕄 :=
  iprop(((aSl1).view.loc (thr d L) ↦[(aSl1).view.set]{fullShare} A)
    ∗ ∃ h : Buf (Elt F) ((thr d L).loc cc2_scratch1), ((bSl1).view.loc (thr d L) ↦[(bSl1).view.set]{fullShare} h)
      ∗ ⌜RowFill.Filled (Val := Elt F) (sB : Memref sig .scVector .vmem S2x32x4x256 .f32).view 1 xoff k
          (RowFill.srcG (Val := Elt F) (sA : Memref sig .scVector .vmem S2x32x512 .f32).view A 1 xoff) g0 h⌝)

/-- The embedding half copied from staging slot 0 to staging slot 1. -/
def invCopy (g : Buf (Elt F) ((thr d L).loc cc2_scratch1)) (g0 : Buf (Elt F) ((thr d L).loc cc2_scratch1)) (k : ℕ) (_ : PUnit) : sProp 𝕄 :=
  iprop(((bSl0).view.loc (thr d L) ↦[(bSl0).view.set]{fullShare} g)
    ∗ ∃ h : Buf (Elt F) ((thr d L).loc cc2_scratch1), ((bSl1).view.loc (thr d L) ↦[(bSl1).view.set]{fullShare} h)
      ∗ ⌜RowFill.Filled (Val := Elt F) (sB : Memref sig .scVector .vmem S2x32x4x256 .f32).view 1 128 k
          (RowFill.srcG' (Val := Elt F) (sB : Memref sig .scVector .vmem S2x32x4x256 .f32).view g 0) g0 h⌝)

omit [FloatOps F] in
/-- A buffer's contents made a variable, with a fact about them. -/
theorem pts_gen {ℓ : Loc nD τ sig} {S : Finset (Idx ℓ)} {q : PosShare TreeShare} (P : Buf (Elt F) ℓ → Prop) (f : Buf (Elt F) ℓ) (hP : P f) :
    (ℓ ↦[S]{q} f : sProp 𝕄) ⊢ iprop(∃ A, (ℓ ↦[S]{q} A) ∗ ⌜P A⌝) := by
  iintro H
  iexists f
  isplitl [H]; · iexact H
  ipureintro; exact hP

end Cert.KernelIdeal.TileBody
-- ==== Proof.TileRows.lean ====
/-
  The 32 source rows a tile works on: rows n₀ … n₀ + 31 of the embedding table, and of each batch of x,
  n₀ = 64 · (vector subcore) + 32 · (SparseCore).
-/
import proofs.«206219_g40982577938455_cont_8to1_b_1362_29_alg».proof.Proof.TileSetup

noncomputable section

namespace Cert.KernelIdeal.TileBody

open Cert.KernelIdeal Cert.KernelIdeal.Gen Cert.KernelIdeal.Setup
open Idealize.ShloMosaic
open Idealize.ShloMosaic.SparseCore (S V T)

variable {F : FTy → Type}
variable (m : (ℓ : Loc nD τ sig) → Buf (Elt F) ℓ)
variable (d : Dev nD) (L : grid2.Coords)

/-- The tile's first row. -/
abbrev n0 (L : grid2.Coords) : ℕ := 64 * (L 1).val + 32 * (L 0).val

theorem n0_le (L : grid2.Coords) (r : Fin 32) : n0 L + r.val < 1024 := by
  have h0 : (L 0).val < 2 := (L 0).isLt
  have h1 : (L 1).val < 16 := (L 1).isLt
  have := r.isLt
  unfold n0; omega

/-- Row `r` of the tile's block of the embedding table. -/
def eRows : Fin 32 → Fin 512 → Elt F .f32 :=
  fun r c => (eW : Memref sig .scVector .hbm S1024x512 .f32).view.read (Elt F) (m (eLoc d)) (ValueIdx.ix2 ⟨n0 L + r.val, n0_le L r⟩ c)

/-- Row `r` of the tile's block of batch `b` of x. -/
def xRows (b : Fin 16) : Fin 32 → Fin 512 → Elt F .f32 :=
  fun r c => (xW : Memref sig .scVector .hbm S16x1024x512 .f32).view.read (Elt F) (m (xLoc d)) (ValueIdx.ix3 b ⟨n0 L + r.val, n0_le L r⟩ c)

/-! ### The copies' ends, as the kernel slices them -/

/-- The tile's 32 rows of the embedding table. -/
abbrev eS (L : grid2.Coords) : Memref sig .scVector .hbm S32x512 .f32 :=
  (eW : Memref sig .scVector .hbm S1024x512 .f32).slice (Rect.unit (s := S1024x512) (k2_off1 L) S32x512.size (k2_off1_inb L)) (fun _ => rfl)

/-- 32 rows of one batch of x, at offsets `off`. -/
abbrev xS (off : Fin 3 → ℕ) (inb : ∀ a, off a + S1x32x512.size a ≤ S16x1024x512.size a) : Memref sig .scVector .hbm S32x512 .f32 :=
  ((xW : Memref sig .scVector .hbm S16x1024x512 .f32).slice (Rect.unit (s := S16x1024x512) off S1x32x512.size inb) (fun _ => rfl)).squeeze S32x512 squeezes_S1x32x512_S32x512

/-- A block of the result, at offsets `off`. -/
abbrev oS (off : Fin 4 → ℕ) (inb : ∀ a, off a + S1x32x4x256.size a ≤ S16x1024x4x256.size a) : Memref sig .scVector .hbm S32x4x256 .f32 :=
  ((oW : Memref sig .scVector .hbm S16x1024x4x256 .f32).slice (Rect.unit (s := S16x1024x4x256) off S1x32x4x256.size inb) (fun _ => rfl)).squeeze S32x4x256 squeezes_S1x32x4x256_S32x4x256

/-! ### What a landed copy leaves (the statements the value lemmas prove) -/

/-- After the table's rows land in slot 0 of the row scratch, that slot holds them. -/
def LandsE : Prop :=
  ∀ (base : BufTy.Contents (Elt F) aSl0.view.ty) (rest : List (View.Piece (Elt F) S32x512 .f32)),
    RowFill.AOK (Val := Elt F) (sA : Memref sig .scVector .vmem S2x32x512 .f32).view 0
      (aSl0.view.writes (Elt F) base (⟨Rect.whole S32x512, ReadAs.same.apply (View.read (Elt F) (eS L).view (m (eLoc d)))⟩ :: rest))
      (eRows m d L)

/-- After batch `b`'s rows land in slot 0 of the row scratch, that slot holds them. -/
def LandsX0 : Prop :=
  ∀ (b : Fin 16) (off : Fin 3 → ℕ) (inb : ∀ a, off a + S1x32x512.size a ≤ S16x1024x512.size a) (_ : off = ![b.val, n0 L, 0])
    (base : BufTy.Contents (Elt F) aSl0.view.ty) (rest : List (View.Piece (Elt F) S32x512 .f32)),
    RowFill.AOK (Val := Elt F) (sA : Memref sig .scVector .vmem S2x32x512 .f32).view 0
      (aSl0.view.writes (Elt F) base (⟨Rect.whole S32x512, ReadAs.same.apply (View.read (Elt F) (xS off inb).view (m (xLoc d)))⟩ :: rest))
      (xRows m d L b)

/-- The same for slot 1. -/
def LandsX1 : Prop :=
  ∀ (b : Fin 16) (off : Fin 3 → ℕ) (inb : ∀ a, off a + S1x32x512.size a ≤ S16x1024x512.size a) (_ : off = ![b.val, n0 L, 0])
    (base : BufTy.Contents (Elt F) aSl1.view.ty) (rest : List (View.Piece (Elt F) S32x512 .f32)),
    RowFill.AOK (Val := Elt F) (sA : Memref sig .scVector .vmem S2x32x512 .f32).view 1
      (aSl1.view.writes (Elt F) base (⟨Rect.whole S32x512, ReadAs.same.apply (View.read (Elt F) (xS off inb).view (m (xLoc d)))⟩ :: rest))
      (xRows m d L b)

/-- Slot 0 of the staging scratch, holding batch `b`'s x rows and the table's rows, copied out whole into the block of
    batch `b`: the block holds the second result's value on its elements. -/
def OutOk0 : Prop :=
  ∀ (b : Fin 16) (off : Fin 4 → ℕ) (inb : ∀ a, off a + S1x32x4x256.size a ≤ S16x1024x4x256.size a) (_ : off = ![b.val, n0 L, 0, 0])
    (H : Buf (Elt F) ((thr d L).loc cc2_scratch1))
    (_ : RowFill.HHalf (Val := Elt F) (sB : Memref sig .scVector .vmem S2x32x4x256 .f32).view 0 0 H (xRows m d L b))
    (_ : RowFill.HHalf (Val := Elt F) (sB : Memref sig .scVector .vmem S2x32x4x256 .f32).view 0 128 H (eRows m d L))
    (base : BufTy.Contents (Elt F) (oS off inb).view.ty),
    ∀ i ∈ (oS off inb).view.set,
      ((oS off inb).view.writes (Elt F) base [⟨Rect.whole S32x4x256, ReadAs.same.apply (View.read (Elt F) bSl0.view H)⟩]) i = out2Buf m d i

/-- The same for slot 1. -/
def OutOk1 : Prop :=
  ∀ (b : Fin 16) (off : Fin 4 → ℕ) (inb : ∀ a, off a + S1x32x4x256.size a ≤ S16x1024x4x256.size a) (_ : off = ![b.val, n0 L, 0, 0])
    (H : Buf (Elt F) ((thr d L).loc cc2_scratch1))
    (_ : RowFill.HHalf (Val := Elt F) (sB : Memref sig .scVector .vmem S2x32x4x256 .f32).view 1 0 H (xRows m d L b))
    (_ : RowFill.HHalf (Val := Elt F) (sB : Memref sig .scVector .vmem S2x32x4x256 .f32).view 1 128 H (eRows m d L))
    (base : BufTy.Contents (Elt F) (oS off inb).view.ty),
    ∀ i ∈ (oS off inb).view.set,
      ((oS off inb).view.writes (Elt F) base [⟨Rect.whole S32x4x256, ReadAs.same.apply (View.read (Elt F) bSl1.view H)⟩]) i = out2Buf m d i

end Cert.KernelIdeal.TileBody
-- ==== Proof.TileLoop01.lean ====
/-
  Loop 1 of the tile body: one trip fills one row of a staging slot, sixteen lanes at a time, and leaves the
  loop's invariant at the next row.
-/
import proofs.«206219_g40982577938455_cont_8to1_b_1362_29_alg».proof.Proof.TileSetup

noncomputable section

namespace Cert.KernelIdeal

open Idealize.ShloMosaic Idealize.SL.Sem
open Cert.KernelIdeal.Gen

variable {F : FTy → Type} [FloatOps F]

/-- The region of the loop, as the kernel's text has it. -/
noncomputable def region01 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_1 : BitVec 32) (c1_i32 : BitVec 32) (k2_t1 : Fin k2_t1_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part1 i arg2 harg2 arg3 harg3 arg4 harg4 arg5 harg5 arg6 harg6 arg7 arg8 v661_r0 c0_i32_1 c1_i32 k2_t1
  let ⟨v734, c0_i32_802⟩ : Σ' (v734 : FVec F S16 .f32), BitVec 32 ← k2_part2 i arg2 harg2 arg3 harg3 arg4 harg4 arg5 harg5 arg6 harg6 arg7 arg8 v661_r0 k2_t1 arg9 v694
  k2_part3 i arg2 harg2 arg3 harg3 arg4 harg4 arg5 harg5 arg6 harg6 arg7 arg8 v661_r0 k2_t1 arg9 v734 c0_i32_802
  let v810 : FVec F S1x1x1x16 .f32 ← k2_part4 i arg2 harg2 arg3 harg3 arg4 harg4 arg5 harg5 arg6 harg6 arg7 arg8 v661_r0 k2_t1 arg9
  let v844 : FVec F S16 .f32 ← k2_part5 i arg2 harg2 arg3 harg3 arg4 harg4 arg5 harg5 arg6 harg6 arg7 arg8 v661_r0 k2_t1 arg9 v810
  let ⟨v884, c0_i32_869⟩ : Σ' (v884 : FVec F S16 .f32), BitVec 32 ← k2_part6 i arg2 harg2 arg3 harg3 arg4 harg4 arg5 harg5 arg6 harg6 arg7 arg8 v661_r0 k2_t1 arg9 v844
  k2_part7 i arg2 harg2 arg3 harg3 arg4 harg4 arg5 harg5 arg6 harg6 arg7 arg8 v661_r0 k2_t1 arg9 v884 c0_i32_869
  let v960 : FVec F S1x1x1x16 .f32 ← k2_part8 i arg2 harg2 arg3 harg3 arg4 harg4 arg5 harg5 arg6 harg6 arg7 arg8 v661_r0 k2_t1 arg9
  Prog.lift (.store arg6 (Rect.unit (s := S2x32x4x256) (k2_off61 k2_t1) S1x1x1x16.size (k2_off61_inb k2_t1)) v960 Finset.univ (View.stores_vmem_bits_univ h_S1x1x1x16 rfl) (.inl rfl))
  let c0_i32_900 : BitVec 32 := 0#32
  let v961 : Index := Scalar.indexCast c0_i32_900
  let v962 : Index := Scalar.indexCast arg9
  let c480 : Index := 480#32
  let v963 : Vec F S1x1x16 .f32 ← Prog.lift (.load arg5 (Rect.unit (s := S2x32x512) (k2_off62 k2_t1) S1x1x16.size (k2_off62_inb k2_t1)).toLoadRect (View.loadsAt_vmem h_S1x1x16))
  have v964 : FVec F S16 .f32 := shapeCast S16 v963 shapeCasts_S1x1x16_S16
  let c0_i32_901 : BitVec 32 := 0#32
  let c3_i32_902 : BitVec 32 := 3#32
  let v965 : Index := Scalar.indexCast c0_i32_901
  let v966 : Index := Scalar.indexCast arg9
  let v967 : Index := Scalar.indexCast c3_i32_902
  let c224_903 : Index := 224#32
  let v968 : Vec F S1x1x1x16 .f32 ← Prog.lift (.load arg6 (Rect.unit (s := S2x32x4x256) (k2_off63 k2_t1) S1x1x1x16.size (k2_off63_inb k2_t1)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off63 k2_t1) S1x1x1x16.size (k2_off63_inb k2_t1)) v970 Finset.univ (View.stores_vmem_bits_univ h_S1x1x1x16 rfl) (.inl rfl))
  let c0_i32_904 : BitVec 32 := 0#32
  let v971 : Index := Scalar.indexCast c0_i32_904
  let v972 : Index := Scalar.indexCast arg9
  let c496 : Index := 496#32
  let v973 : Vec F S1x1x16 .f32 ← Prog.lift (.load arg5 (Rect.unit (s := S2x32x512) (k2_off64 k2_t1) S1x1x16.size (k2_off64_inb k2_t1)).toLoadRect (View.loadsAt_vmem h_S1x1x16))
  have v974 : FVec F S16 .f32 := shapeCast S16 v973 shapeCasts_S1x1x16_S16
  let c0_i32_905 : BitVec 32 := 0#32
  let c3_i32_906 : BitVec 32 := 3#32
  let v975 : Index := Scalar.indexCast c0_i32_905
  let v976 : Index := Scalar.indexCast arg9
  let v977 : Index := Scalar.indexCast c3_i32_906
  let c240_907 : Index := 240#32
  let v978 : Vec F S1x1x1x16 .f32 ← Prog.lift (.load arg6 (Rect.unit (s := S2x32x4x256) (k2_off65 k2_t1) S1x1x1x16.size (k2_off65_inb k2_t1)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off65 k2_t1) S1x1x1x16.size (k2_off65_inb k2_t1)) v980 Finset.univ (View.stores_vmem_bits_univ h_S1x1x1x16 rfl) (.inl rfl))
  pure ⟨⟩

end Cert.KernelIdeal

namespace Cert.KernelIdeal.TileBody

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop01 (A : Buf (Elt F) ((thr d L).loc cc2_scratch0)) (G : Buf (Elt F) ((thr d L).loc cc2_scratch1))
    (k : Fin k2_t1_loop.trips) (acc : PUnit) :
    (invFill0 (F := F) d L 128 A G k.val acc : sProp 𝕄)
      ⊢ wp frame (wpE (defs₀ (F := F)) 𝒱₀ (thr d L) none) Set.univ
          (region01 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill0 (F := F) d L 128 A G (k.val + 1)) := by
  have hk : (k : ℕ) < 32 := lt_of_lt_of_le k.isLt k2_t1_abs.2.1
  unfold invFill0 region01
  iintro ⟨Ha0, %h, Hb0, %hF⟩
  sl_exec
  sl_step
  isplitl [Ha0]; · iexact Ha0
  iexists _; isplitl [Hb0]; · iexact Hb0
  ipureintro
  refine RowFill.Filled.succ _ 0 128 k.val _ _ h _ hF ?_
  refine RowFill.RowFill.step _ 0 k.val 128 31 3 7 (by decide) rfl _ _ _ _ (k2_off65_eq k) _ (fun x => RowFill.pay_eq _ _ 0 0 k.val 128 3 7 _ hk (by decide) (by decide) rfl _ (k2_off64_eq k) _ (k2_off65_eq k) _ _ x) ?_
  refine RowFill.RowFill.step _ 0 k.val 128 30 3 6 (by decide) rfl _ _ _ _ (k2_off63_eq k) _ (fun x => RowFill.pay_eq _ _ 0 0 k.val 128 3 6 _ hk (by decide) (by decide) rfl _ (k2_off62_eq k) _ (k2_off63_eq k) _ _ x) ?_
  refine RowFill.RowFill.step _ 0 k.val 128 29 3 5 (by decide) rfl _ _ _ _ (k2_off61_eq k) _ (fun x => RowFill.pay_eq _ _ 0 0 k.val 128 3 5 _ hk (by decide) (by decide) rfl _ (k2_off60_eq k) _ (k2_off61_eq k) _ _ x) ?_
  refine RowFill.RowFill.step _ 0 k.val 128 28 3 4 (by decide) rfl _ _ _ _ (k2_off59_eq k) _ (fun x => RowFill.pay_eq _ _ 0 0 k.val 128 3 4 _ hk (by decide) (by decide) rfl _ (k2_off58_eq k) _ (k2_off59_eq k) _ _ x) ?_
  refine RowFill.RowFill.step _ 0 k.val 128 27 3 3 (by decide) rfl _ _ _ _ (k2_off57_eq k) _ (fun x => RowFill.pay_eq _ _ 0 0 k.val 128 3 3 _ hk (by decide) (by decide) rfl _ (k2_off56_eq k) _ (k2_off57_eq k) _ _ x) ?_
  refine RowFill.RowFill.step _ 0 k.val 128 26 3 2 (by decide) rfl _ _ _ _ (k2_off55_eq k) _ (fun x => RowFill.pay_eq _ _ 0 0 k.val 128 3 2 _ hk (by decide) (by decide) rfl _ (k2_off54_eq k) _ (k2_off55_eq k) _ _ x) ?_
  refine RowFill.RowFill.step _ 0 k.val 128 25 3 1 (by decide) rfl _ _ _ _ (k2_off53_eq k) _ (fun x => RowFill.pay_eq _ _ 0 0 k.val 128 3 1 _ hk (by decide) (by decide) rfl _ (k2_off52_eq k) _ (k2_off53_eq k) _ _ x) ?_
  refine RowFill.RowFill.step _ 0 k.val 128 24 3 0 (by decide) rfl _ _ _ _ (k2_off51_eq k) _ (fun x => RowFill.pay_eq _ _ 0 0 k.val 128 3 0 _ hk (by decide) (by decide) rfl _ (k2_off50_eq k) _ (k2_off51_eq k) _ _ x) ?_
  refine RowFill.RowFill.step _ 0 k.val 128 23 2 7 (by decide) rfl _ _ _ _ (k2_off49_eq k) _ (fun x => RowFill.pay_eq _ _ 0 0 k.val 128 2 7 _ hk (by decide) (by decide) rfl _ (k2_off48_eq k) _ (k2_off49_eq k) _ _ x) ?_
  refine RowFill.RowFill.step _ 0 k.val 128 22 2 6 (by decide) rfl _ _ _ _ (k2_off47_eq k) _ (fun x => RowFill.pay_eq _ _ 0 0 k.val 128 2 6 _ hk (by decide) (by decide) rfl _ (k2_off46_eq k) _ (k2_off47_eq k) _ _ x) ?_
  refine RowFill.RowFill.step _ 0 k.val 128 21 2 5 (by decide) rfl _ _ _ _ (k2_off45_eq k) _ (fun x => RowFill.pay_eq _ _ 0 0 k.val 128 2 5 _ hk (by decide) (by decide) rfl _ (k2_off44_eq k) _ (k2_off45_eq k) _ _ x) ?_
  refine RowFill.RowFill.step _ 0 k.val 128 20 2 4 (by decide) rfl _ _ _ _ (k2_off43_eq k) _ (fun x => RowFill.pay_eq _ _ 0 0 k.val 128 2 4 _ hk (by decide) (by decide) rfl _ (k2_off42_eq k) _ (k2_off43_eq k) _ _ x) ?_
  refine RowFill.RowFill.step _ 0 k.val 128 19 2 3 (by decide) rfl _ _ _ _ (k2_off41_eq k) _ (fun x => RowFill.pay_eq _ _ 0 0 k.val 128 2 3 _ hk (by decide) (by decide) rfl _ (k2_off40_eq k) _ (k2_off41_eq k) _ _ x) ?_
  refine RowFill.RowFill.step _ 0 k.val 128 18 2 2 (by decide) rfl _ _ _ _ (k2_off39_eq k) _ (fun x => RowFill.pay_eq _ _ 0 0 k.val 128 2 2 _ hk (by decide) (by decide) rfl _ (k2_off38_eq k) _ (k2_off39_eq k) _ _ x) ?_
  refine RowFill.RowFill.step _ 0 k.val 128 17 2 1 (by decide) rfl _ _ _ _ (k2_off37_eq k) _ (fun x => RowFill.pay_eq _ _ 0 0 k.val 128 2 1 _ hk (by decide) (by decide) rfl _ (k2_off36_eq k) _ (k2_off37_eq k) _ _ x) ?_
  refine RowFill.RowFill.step _ 0 k.val 128 16 2 0 (by decide) rfl _ _ _ _ (k2_off35_eq k) _ (fun x => RowFill.pay_eq _ _ 0 0 k.val 128 2 0 _ hk (by decide) (by decide) rfl _ (k2_off34_eq k) _ (k2_off35_eq k) _ _ x) ?_
  refine RowFill.RowFill.step _ 0 k.val 128 15 1 7 (by decide) rfl _ _ _ _ (k2_off33_eq k) _ (fun x => RowFill.pay_eq _ _ 0 0 k.val 128 1 7 _ hk (by decide) (by decide) rfl _ (k2_off32_eq k) _ (k2_off33_eq k) _ _ x) ?_
  refine RowFill.RowFill.step _ 0 k.val 128 14 1 6 (by decide) rfl _ _ _ _ (k2_off31_eq k) _ (fun x => RowFill.pay_eq _ _ 0 0 k.val 128 1 6 _ hk (by decide) (by decide) rfl _ (k2_off30_eq k) _ (k2_off31_eq k) _ _ x) ?_
  refine RowFill.RowFill.step _ 0 k.val 128 13 1 5 (by decide) rfl _ _ _ _ (k2_off29_eq k) _ (fun x => RowFill.pay_eq _ _ 0 0 k.val 128 1 5 _ hk (by decide) (by decide) rfl _ (k2_off28_eq k) _ (k2_off29_eq k) _ _ x) ?_
  refine RowFill.RowFill.step _ 0 k.val 128 12 1 4 (by decide) rfl _ _ _ _ (k2_off27_eq k) _ (fun x => RowFill.pay_eq _ _ 0 0 k.val 128 1 4 _ hk (by decide) (by decide) rfl _ (k2_off26_eq k) _ (k2_off27_eq k) _ _ x) ?_
  refine RowFill.RowFill.step _ 0 k.val 128 11 1 3 (by decide) rfl _ _ _ _ (k2_off25_eq k) _ (fun x => RowFill.pay_eq _ _ 0 0 k.val 128 1 3 _ hk (by decide) (by decide) rfl _ (k2_off24_eq k) _ (k2_off25_eq k) _ _ x) ?_
  refine RowFill.RowFill.step _ 0 k.val 128 10 1 2 (by decide) rfl _ _ _ _ (k2_off23_eq k) _ (fun x => RowFill.pay_eq _ _ 0 0 k.val 128 1 2 _ hk (by decide) (by decide) rfl _ (k2_off22_eq k) _ (k2_off23_eq k) _ _ x) ?_
  refine RowFill.RowFill.step _ 0 k.val 128 9 1 1 (by decide) rfl _ _ _ _ (k2_off21_eq k) _ (fun x => RowFill.pay_eq _ _ 0 0 k.val 128 1 1 _ hk (by decide) (by decide) rfl _ (k2_off20_eq k) _ (k2_off21_eq k) _ _ x) ?_
  refine RowFill.RowFill.step _ 0 k.val 128 8 1 0 (by decide) rfl _ _ _ _ (k2_off19_eq k) _ (fun x => RowFill.pay_eq _ _ 0 0 k.val 128 1 0 _ hk (by decide) (by decide) rfl _ (k2_off18_eq k) _ (k2_off19_eq k) _ _ x) ?_
  refine RowFill.RowFill.step _ 0 k.val 128 7 0 7 (by decide) rfl _ _ _ _ (k2_off17_eq k) _ (fun x => RowFill.pay_eq _ _ 0 0 k.val 128 0 7 _ hk (by decide) (by decide) rfl _ (k2_off16_eq k) _ (k2_off17_eq k) _ _ x) ?_
  refine RowFill.RowFill.step _ 0 k.val 128 6 0 6 (by decide) rfl _ _ _ _ (k2_off15_eq k) _ (fun x => RowFill.pay_eq _ _ 0 0 k.val 128 0 6 _ hk (by decide) (by decide) rfl _ (k2_off14_eq k) _ (k2_off15_eq k) _ _ x) ?_
  refine RowFill.RowFill.step _ 0 k.val 128 5 0 5 (by decide) rfl _ _ _ _ (k2_off13_eq k) _ (fun x => RowFill.pay_eq _ _ 0 0 k.val 128 0 5 _ hk (by decide) (by decide) rfl _ (k2_off12_eq k) _ (k2_off13_eq k) _ _ x) ?_
  refine RowFill.RowFill.step _ 0 k.val 128 4 0 4 (by decide) rfl _ _ _ _ (k2_off11_eq k) _ (fun x => RowFill.pay_eq _ _ 0 0 k.val 128 0 4 _ hk (by decide) (by decide) rfl _ (k2_off10_eq k) _ (k2_off11_eq k) _ _ x) ?_
  refine RowFill.RowFill.step _ 0 k.val 128 3 0 3 (by decide) rfl _ _ _ _ (k2_off9_eq k) _ (fun x => RowFill.pay_eq _ _ 0 0 k.val 128 0 3 _ hk (by decide) (by decide) rfl _ (k2_off8_eq k) _ (k2_off9_eq k) _ _ x) ?_
  refine RowFill.RowFill.step _ 0 k.val 128 2 0 2 (by decide) rfl _ _ _ _ (k2_off7_eq k) _ (fun x => RowFill.pay_eq _ _ 0 0 k.val 128 0 2 _ hk (by decide) (by decide) rfl _ (k2_off6_eq k) _ (k2_off7_eq k) _ _ x) ?_
  refine RowFill.RowFill.step _ 0 k.val 128 1 0 1 (by decide) rfl _ _ _ _ (k2_off5_eq k) _ (fun x => RowFill.pay_eq _ _ 0 0 k.val 128 0 1 _ hk (by decide) (by decide) rfl _ (k2_off4_eq k) _ (k2_off5_eq k) _ _ x) ?_
  refine RowFill.RowFill.step _ 0 k.val 128 0 0 0 (by decide) rfl _ _ _ _ (k2_off3_eq k) _ (fun x => RowFill.pay_eq _ _ 0 0 k.val 128 0 0 _ hk (by decide) (by decide) rfl _ (k2_off2_eq k) _ (k2_off3_eq k) _ _ x) ?_
  exact RowFill.RowFill.zero _ _ _ _ _ _

end Cert.KernelIdeal.TileBody
-- ==== Proof.TileLoop02.lean ====
/-
  Loop 2 of the tile body: one trip fills one row of a staging slot, sixteen lanes at a time, and leaves the
  loop's invariant at the next row.
-/
import proofs.«206219_g40982577938455_cont_8to1_b_1362_29_alg».proof.Proof.TileSetup

noncomputable section

namespace Cert.KernelIdeal

open Idealize.ShloMosaic Idealize.SL.Sem
open Cert.KernelIdeal.Gen

variable {F : FTy → Type} [FloatOps F]

/-- The region of the loop, as the kernel's text has it. -/
noncomputable def region02 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_5 : BitVec 32) (c1_i32_7 : BitVec 32) (k2_t2 : Fin k2_t2_loop.trips) :
    Prog (TpuEff nD τ sig (Elt F) Λ₀ (.scVector ((i 0).castLE hcore2) ((i 1).castLE hsub2))) PUnit := do
  let arg9 : BitVec 32 ← k2_part9 i arg2 harg2 arg3 harg3 arg4 harg4 arg5 harg5 arg6 harg6 arg7 arg8 v661_r0 c0_i32_5 c1_i32_7 k2_t2
  let ⟨v731, c0_i32_813⟩ : Σ' (v731 : FVec F S16 .f32), BitVec 32 ← k2_part10 i arg2 harg2 arg3 harg3 arg4 harg4 arg5 harg5 arg6 harg6 arg7 arg8 v661_r0 k2_t2 arg9
  let v770 : FVec F S1x1x1x16 .f32 ← k2_part11 i arg2 harg2 arg3 harg3 arg4 harg4 arg5 harg5 arg6 harg6 arg7 arg8 v661_r0 k2_t2 arg9 v731 c0_i32_813
  k2_part12 i arg2 harg2 arg3 harg3 arg4 harg4 arg5 harg5 arg6 harg6 arg7 arg8 v661_r0 k2_t2 arg9 v770
  let ⟨v841, c2_i32_872⟩ : Σ' (v841 : FVec F S16 .f32), BitVec 32 ← k2_part13 i arg2 harg2 arg3 harg3 arg4 harg4 arg5 harg5 arg6 harg6 arg7 arg8 v661_r0 k2_t2 arg9
  let v880 : FVec F S1x1x1x16 .f32 ← k2_part14 i arg2 harg2 arg3 harg3 arg4 harg4 arg5 harg5 arg6 harg6 arg7 arg8 v661_r0 k2_t2 arg9 v841 c2_i32_872
  k2_part15 i arg2 harg2 arg3 harg3 arg4 harg4 arg5 harg5 arg6 harg6 arg7 arg8 v661_r0 k2_t2 arg9 v880
  let ⟨v951, c3_i32_932⟩ : Σ' (v951 : FVec F S16 .f32), BitVec 32 ← k2_part16 i arg2 harg2 arg3 harg3 arg4 harg4 arg5 harg5 arg6 harg6 arg7 arg8 v661_r0 k2_t2 arg9
  let v990 : FVec F S1x1x1x16 .f32 ← k2_part17 i arg2 harg2 arg3 harg3 arg4 harg4 arg5 harg5 arg6 harg6 arg7 arg8 v661_r0 k2_t2 arg9 v951 c3_i32_932
  Prog.lift (.store arg6 (Rect.unit (s := S2x32x4x256) (k2_off125 k2_t2) S1x1x1x16.size (k2_off125_inb k2_t2)) v990 Finset.univ (View.stores_vmem_bits_univ h_S1x1x1x16 rfl) (.inl rfl))
  let c0_i32_952 : BitVec 32 := 0#32
  let c3_i32_953 : BitVec 32 := 3#32
  let v991 : Index := Scalar.indexCast c0_i32_952
  let v992 : Index := Scalar.indexCast arg9
  let v993 : Index := Scalar.indexCast c3_i32_953
  let c224_954 : Index := 224#32
  let v994 : Vec F S1x1x1x16 .f32 ← Prog.lift (.load arg6 (Rect.unit (s := S2x32x4x256) (k2_off126 k2_t2) S1x1x1x16.size (k2_off126_inb k2_t2)).toLoadRect (View.loadsAt_vmem h_S1x1x1x16))
  have v995 : FVec F S16 .f32 := shapeCast S16 v994 shapeCasts_S1x1x1x16_S16
  let c1_i32_955 : BitVec 32 := 1#32
  let c3_i32_956 : BitVec 32 := 3#32
  let v996 : Index := Scalar.indexCast c1_i32_955
  let v997 : Index := Scalar.indexCast arg9
  let v998 : Index := Scalar.indexCast c3_i32_956
  let c224_957 : Index := 224#32
  let v999 : Vec F S1x1x1x16 .f32 ← Prog.lift (.load arg6 (Rect.unit (s := S2x32x4x256) (k2_off127 k2_t2) S1x1x1x16.size (k2_off127_inb k2_t2)).toLoadRect (View.loadsAt_vmem h_S1x1x1x16))
  have v1000 : FVec F S16 .f32 := shapeCast S16 v999 shapeCasts_S1x1x1x16_S16
  have v1001 : FVec F S1x1x1x16 .f32 := shapeCast S1x1x1x16 v995 shapeCasts_S16_S1x1x1x16
  Prog.lift (.store arg6 (Rect.unit (s := S2x32x4x256) (k2_off127 k2_t2) S1x1x1x16.size (k2_off127_inb k2_t2)) v1001 Finset.univ (View.stores_vmem_bits_univ h_S1x1x1x16 rfl) (.inl rfl))
  let c0_i32_958 : BitVec 32 := 0#32
  let c3_i32_959 : BitVec 32 := 3#32
  let v1002 : Index := Scalar.indexCast c0_i32_958
  let v1003 : Index := Scalar.indexCast arg9
  let v1004 : Index := Scalar.indexCast c3_i32_959
  let c240_960 : Index := 240#32
  let v1005 : Vec F S1x1x1x16 .f32 ← Prog.lift (.load arg6 (Rect.unit (s := S2x32x4x256) (k2_off128 k2_t2) S1x1x1x16.size (k2_off128_inb k2_t2)).toLoadRect (View.loadsAt_vmem h_S1x1x1x16))
  have v1006 : FVec F S16 .f32 := shapeCast S16 v1005 shapeCasts_S1x1x1x16_S16
  let c1_i32_961 : BitVec 32 := 1#32
  let c3_i32_962 : BitVec 32 := 3#32
  let v1007 : Index := Scalar.indexCast c1_i32_961
  let v1008 : Index := Scalar.indexCast arg9
  let v1009 : Index := Scalar.indexCast c3_i32_962
  let c240_963 : Index := 240#32
  let v1010 : Vec F S1x1x1x16 .f32 ← Prog.lift (.load arg6 (Rect.unit (s := S2x32x4x256) (k2_off129 k2_t2) S1x1x1x16.size (k2_off129_inb k2_t2)).toLoadRect (View.loadsAt_vmem h_S1x1x1x16))
  have v1011 : FVec F S16 .f32 := shapeCast S16 v1010 shapeCasts_S1x1x1x16_S16
  have v1012 : FVec F S1x1x1x16 .f32 := shapeCast S1x1x1x16 v1006 shapeCasts_S16_S1x1x1x16
  Prog.lift (.store arg6 (Rect.unit (s := S2x32x4x256) (k2_off129 k2_t2) S1x1x1x16.size (k2_off129_inb k2_t2)) v1012 Finset.univ (View.stores_vmem_bits_univ h_S1x1x1x16 rfl) (.inl rfl))
  pure ⟨⟩

end Cert.KernelIdeal

namespace Cert.KernelIdeal.TileBody

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop02 (A : Buf (Elt F) ((thr d L).loc cc2_scratch1)) (G : Buf (Elt F) ((thr d L).loc cc2_scratch1))
    (k : Fin k2_t2_loop.trips) (acc : PUnit) :
    (invCopy (F := F) d L A G k.val acc : sProp 𝕄)
      ⊢ wp frame (wpE (defs₀ (F := F)) 𝒱₀ (thr d L) none) Set.univ
          (region02 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invCopy (F := F) d L A G (k.val + 1)) := by
  have hk : (k : ℕ) < 32 := lt_of_lt_of_le k.isLt k2_t2_abs.2.1
  unfold invCopy region02
  iintro ⟨Hb0, %h, Hb1, %hF⟩
  sl_exec
  sl_step
  isplitl [Hb0]; · iexact Hb0
  iexists _; isplitl [Hb1]; · iexact Hb1
  ipureintro
  refine RowFill.Filled.succ _ 1 128 k.val _ _ h _ hF ?_
  refine RowFill.RowFill.step _ 1 k.val 128 31 3 7 (by decide) rfl _ _ _ _ (k2_off129_eq k) _ (fun x => RowFill.pay_eq' _ _ 0 1 k.val 128 3 7 hk (by decide) (by decide) _ (k2_off128_eq k) _ (k2_off129_eq k) _ _ x) ?_
  refine RowFill.RowFill.step _ 1 k.val 128 30 3 6 (by decide) rfl _ _ _ _ (k2_off127_eq k) _ (fun x => RowFill.pay_eq' _ _ 0 1 k.val 128 3 6 hk (by decide) (by decide) _ (k2_off126_eq k) _ (k2_off127_eq k) _ _ x) ?_
  refine RowFill.RowFill.step _ 1 k.val 128 29 3 5 (by decide) rfl _ _ _ _ (k2_off125_eq k) _ (fun x => RowFill.pay_eq' _ _ 0 1 k.val 128 3 5 hk (by decide) (by decide) _ (k2_off124_eq k) _ (k2_off125_eq k) _ _ x) ?_
  refine RowFill.RowFill.step _ 1 k.val 128 28 3 4 (by decide) rfl _ _ _ _ (k2_off123_eq k) _ (fun x => RowFill.pay_eq' _ _ 0 1 k.val 128 3 4 hk (by decide) (by decide) _ (k2_off122_eq k) _ (k2_off123_eq k) _ _ x) ?_
  refine RowFill.RowFill.step _ 1 k.val 128 27 3 3 (by decide) rfl _ _ _ _ (k2_off121_eq k) _ (fun x => RowFill.pay_eq' _ _ 0 1 k.val 128 3 3 hk (by decide) (by decide) _ (k2_off120_eq k) _ (k2_off121_eq k) _ _ x) ?_
  refine RowFill.RowFill.step _ 1 k.val 128 26 3 2 (by decide) rfl _ _ _ _ (k2_off119_eq k) _ (fun x => RowFill.pay_eq' _ _ 0 1 k.val 128 3 2 hk (by decide) (by decide) _ (k2_off118_eq k) _ (k2_off119_eq k) _ _ x) ?_
  refine RowFill.RowFill.step _ 1 k.val 128 25 3 1 (by decide) rfl _ _ _ _ (k2_off117_eq k) _ (fun x => RowFill.pay_eq' _ _ 0 1 k.val 128 3 1 hk (by decide) (by decide) _ (k2_off116_eq k) _ (k2_off117_eq k) _ _ x) ?_
  refine RowFill.RowFill.step _ 1 k.val 128 24 3 0 (by decide) rfl _ _ _ _ (k2_off115_eq k) _ (fun x => RowFill.pay_eq' _ _ 0 1 k.val 128 3 0 hk (by decide) (by decide) _ (k2_off114_eq k) _ (k2_off115_eq k) _ _ x) ?_
  refine RowFill.RowFill.step _ 1 k.val 128 23 2 7 (by decide) rfl _ _ _ _ (k2_off113_eq k) _ (fun x => RowFill.pay_eq' _ _ 0 1 k.val 128 2 7 hk (by decide) (by decide) _ (k2_off112_eq k) _ (k2_off113_eq k) _ _ x) ?_
  refine RowFill.RowFill.step _ 1 k.val 128 22 2 6 (by decide) rfl _ _ _ _ (k2_off111_eq k) _ (fun x => RowFill.pay_eq' _ _ 0 1 k.val 128 2 6 hk (by decide) (by decide) _ (k2_off110_eq k) _ (k2_off111_eq k) _ _ x) ?_
  refine RowFill.RowFill.step _ 1 k.val 128 21 2 5 (by decide) rfl _ _ _ _ (k2_off109_eq k) _ (fun x => RowFill.pay_eq' _ _ 0 1 k.val 128 2 5 hk (by decide) (by decide) _ (k2_off108_eq k) _ (k2_off109_eq k) _ _ x) ?_
  refine RowFill.RowFill.step _ 1 k.val 128 20 2 4 (by decide) rfl _ _ _ _ (k2_off107_eq k) _ (fun x => RowFill.pay_eq' _ _ 0 1 k.val 128 2 4 hk (by decide) (by decide) _ (k2_off106_eq k) _ (k2_off107_eq k) _ _ x) ?_
  refine RowFill.RowFill.step _ 1 k.val 128 19 2 3 (by decide) rfl _ _ _ _ (k2_off105_eq k) _ (fun x => RowFill.pay_eq' _ _ 0 1 k.val 128 2 3 hk (by decide) (by decide) _ (k2_off104_eq k) _ (k2_off105_eq k) _ _ x) ?_
  refine RowFill.RowFill.step _ 1 k.val 128 18 2 2 (by decide) rfl _ _ _ _ (k2_off103_eq k) _ (fun x => RowFill.pay_eq' _ _ 0 1 k.val 128 2 2 hk (by decide) (by decide) _ (k2_off102_eq k) _ (k2_off103_eq k) _ _ x) ?_
  refine RowFill.RowFill.step _ 1 k.val 128 17 2 1 (by decide) rfl _ _ _ _ (k2_off101_eq k) _ (fun x => RowFill.pay_eq' _ _ 0 1 k.val 128 2 1 hk (by decide) (by decide) _ (k2_off100_eq k) _ (k2_off101_eq k) _ _ x) ?_
  refine RowFill.RowFill.step _ 1 k.val 128 16 2 0 (by decide) rfl _ _ _ _ (k2_off99_eq k) _ (fun x => RowFill.pay_eq' _ _ 0 1 k.val 128 2 0 hk (by decide) (by decide) _ (k2_off98_eq k) _ (k2_off99_eq k) _ _ x) ?_
  refine RowFill.RowFill.step _ 1 k.val 128 15 1 7 (by decide) rfl _ _ _ _ (k2_off97_eq k) _ (fun x => RowFill.pay_eq' _ _ 0 1 k.val 128 1 7 hk (by decide) (by decide) _ (k2_off96_eq k) _ (k2_off97_eq k) _ _ x) ?_
  refine RowFill.RowFill.step _ 1 k.val 128 14 1 6 (by decide) rfl _ _ _ _ (k2_off95_eq k) _ (fun x => RowFill.pay_eq' _ _ 0 1 k.val 128 1 6 hk (by decide) (by decide) _ (k2_off94_eq k) _ (k2_off95_eq k) _ _ x) ?_
  refine RowFill.RowFill.step _ 1 k.val 128 13 1 5 (by decide) rfl _ _ _ _ (k2_off93_eq k) _ (fun x => RowFill.pay_eq' _ _ 0 1 k.val 128 1 5 hk (by decide) (by decide) _ (k2_off92_eq k) _ (k2_off93_eq k) _ _ x) ?_
  refine RowFill.RowFill.step _ 1 k.val 128 12 1 4 (by decide) rfl _ _ _ _ (k2_off91_eq k) _ (fun x => RowFill.pay_eq' _ _ 0 1 k.val 128 1 4 hk (by decide) (by decide) _ (k2_off90_eq k) _ (k2_off91_eq k) _ _ x) ?_
  refine RowFill.RowFill.step _ 1 k.val 128 11 1 3 (by decide) rfl _ _ _ _ (k2_off89_eq k) _ (fun x => RowFill.pay_eq' _ _ 0 1 k.val 128 1 3 hk (by decide) (by decide) _ (k2_off88_eq k) _ (k2_off89_eq k) _ _ x) ?_
  refine RowFill.RowFill.step _ 1 k.val 128 10 1 2 (by decide) rfl _ _ _ _ (k2_off87_eq k) _ (fun x => RowFill.pay_eq' _ _ 0 1 k.val 128 1 2 hk (by decide) (by decide) _ (k2_off86_eq k) _ (k2_off87_eq k) _ _ x) ?_
  refine RowFill.RowFill.step _ 1 k.val 128 9 1 1 (by decide) rfl _ _ _ _ (k2_off85_eq k) _ (fun x => RowFill.pay_eq' _ _ 0 1 k.val 128 1 1 hk (by decide) (by decide) _ (k2_off84_eq k) _ (k2_off85_eq k) _ _ x) ?_
  refine RowFill.RowFill.step _ 1 k.val 128 8 1 0 (by decide) rfl _ _ _ _ (k2_off83_eq k) _ (fun x => RowFill.pay_eq' _ _ 0 1 k.val 128 1 0 hk (by decide) (by decide) _ (k2_off82_eq k) _ (k2_off83_eq k) _ _ x) ?_
  refine RowFill.RowFill.step _ 1 k.val 128 7 0 7 (by decide) rfl _ _ _ _ (k2_off81_eq k) _ (fun x => RowFill.pay_eq' _ _ 0 1 k.val 128 0 7 hk (by decide) (by decide) _ (k2_off80_eq k) _ (k2_off81_eq k) _ _ x) ?_
  refine RowFill.RowFill.step _ 1 k.val 128 6 0 6 (by decide) rfl _ _ _ _ (k2_off79_eq k) _ (fun x => RowFill.pay_eq' _ _ 0 1 k.val 128 0 6 hk (by decide) (by decide) _ (k2_off78_eq k) _ (k2_off79_eq k) _ _ x) ?_
  refine RowFill.RowFill.step _ 1 k.val 128 5 0 5 (by decide) rfl _ _ _ _ (k2_off77_eq k) _ (fun x => RowFill.pay_eq' _ _ 0 1 k.val 128 0 5 hk (by decide) (by decide) _ (k2_off76_eq k) _ (k2_off77_eq k) _ _ x) ?_
  refine RowFill.RowFill.step _ 1 k.val 128 4 0 4 (by decide) rfl _ _ _ _ (k2_off75_eq k) _ (fun x => RowFill.pay_eq' _ _ 0 1 k.val 128 0 4 hk (by decide) (by decide) _ (k2_off74_eq k) _ (k2_off75_eq k) _ _ x) ?_
  refine RowFill.RowFill.step _ 1 k.val 128 3 0 3 (by decide) rfl _ _ _ _ (k2_off73_eq k) _ (fun x => RowFill.pay_eq' _ _ 0 1 k.val 128 0 3 hk (by decide) (by decide) _ (k2_off72_eq k) _ (k2_off73_eq k) _ _ x) ?_
  refine RowFill.RowFill.step _ 1 k.val 128 2 0 2 (by decide) rfl _ _ _ _ (k2_off71_eq k) _ (fun x => RowFill.pay_eq' _ _ 0 1 k.val 128 0 2 hk (by decide) (by decide) _ (k2_off70_eq k) _ (k2_off71_eq k) _ _ x) ?_
  refine RowFill.RowFill.step _ 1 k.val 128 1 0 1 (by decide) rfl _ _ _ _ (k2_off69_eq k) _ (fun x => RowFill.pay_eq' _ _ 0 1 k.val 128 0 1 hk (by decide) (by decide) _ (k2_off68_eq k) _ (k2_off69_eq k) _ _ x) ?_
  refine RowFill.RowFill.step _ 1 k.val 128 0 0 0 (by decide) rfl _ _ _ _ (k2_off67_eq k) _ (fun x => RowFill.pay_eq' _ _ 0 1 k.val 128 0 0 hk (by decide) (by decide) _ (k2_off66_eq k) _ (k2_off67_eq k) _ _ x) ?_
  exact RowFill.RowFill.zero _ _ _ _ _ _

end Cert.KernelIdeal.TileBody
-- ==== Proof.TileLoop03.lean ====
/-
  Loop 3 of the tile body: one trip fills one row of a staging slot, sixteen lanes at a time, and leaves the
  loop's invariant at the next row.
-/
import proofs.«206219_g40982577938455_cont_8to1_b_1362_29_alg».proof.Proof.TileSetup

noncomputable section

namespace Cert.KernelIdeal

open Idealize.ShloMosaic Idealize.SL.Sem
open Cert.KernelIdeal.Gen

variable {F : FTy → Type} [FloatOps F]

/-- The region of the loop, as the kernel's text has it. -/
noncomputable def region03 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_37 : BitVec 32) (c1_i32_39 : BitVec 32) (k2_t3 : Fin k2_t3_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part18 i arg2 harg2 arg3 harg3 arg4 harg4 arg5 harg5 arg6 harg6 arg7 arg8 v661_r0 c0_i32_37 c1_i32_39 k2_t3
  let ⟨v734, c0_i32_809⟩ : Σ' (v734 : FVec F S16 .f32), BitVec 32 ← k2_part19 i arg2 harg2 arg3 harg3 arg4 harg4 arg5 harg5 arg6 harg6 arg7 arg8 v661_r0 k2_t3 arg9 v694
  k2_part20 i arg2 harg2 arg3 harg3 arg4 harg4 arg5 harg5 arg6 harg6 arg7 arg8 v661_r0 k2_t3 arg9 v734 c0_i32_809
  let v810 : FVec F S1x1x1x16 .f32 ← k2_part21 i arg2 harg2 arg3 harg3 arg4 harg4 arg5 harg5 arg6 harg6 arg7 arg8 v661_r0 k2_t3 arg9
  let v844 : FVec F S16 .f32 ← k2_part22 i arg2 harg2 arg3 harg3 arg4 harg4 arg5 harg5 arg6 harg6 arg7 arg8 v661_r0 k2_t3 arg9 v810
  let ⟨v884, c0_i32_869⟩ : Σ' (v884 : FVec F S16 .f32), BitVec 32 ← k2_part23 i arg2 harg2 arg3 harg3 arg4 harg4 arg5 harg5 arg6 harg6 arg7 arg8 v661_r0 k2_t3 arg9 v844
  k2_part24 i arg2 harg2 arg3 harg3 arg4 harg4 arg5 harg5 arg6 harg6 arg7 arg8 v661_r0 k2_t3 arg9 v884 c0_i32_869
  let v960 : FVec F S1x1x1x16 .f32 ← k2_part25 i arg2 harg2 arg3 harg3 arg4 harg4 arg5 harg5 arg6 harg6 arg7 arg8 v661_r0 k2_t3 arg9
  Prog.lift (.store arg6 (Rect.unit (s := S2x32x4x256) (k2_off191 k2_t3) S1x1x1x16.size (k2_off191_inb k2_t3)) v960 Finset.univ (View.stores_vmem_bits_univ h_S1x1x1x16 rfl) (.inl rfl))
  let c0_i32_900 : BitVec 32 := 0#32
  let v961 : Index := Scalar.indexCast c0_i32_900
  let v962 : Index := Scalar.indexCast arg9
  let c480 : Index := 480#32
  let v963 : Vec F S1x1x16 .f32 ← Prog.lift (.load arg5 (Rect.unit (s := S2x32x512) (k2_off192 k2_t3) S1x1x16.size (k2_off192_inb k2_t3)).toLoadRect (View.loadsAt_vmem h_S1x1x16))
  have v964 : FVec F S16 .f32 := shapeCast S16 v963 shapeCasts_S1x1x16_S16
  let c0_i32_901 : BitVec 32 := 0#32
  let c3_i32_902 : BitVec 32 := 3#32
  let v965 : Index := Scalar.indexCast c0_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off193 k2_t3) S1x1x1x16.size (k2_off193_inb k2_t3)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off193 k2_t3) S1x1x1x16.size (k2_off193_inb k2_t3)) v970 Finset.univ (View.stores_vmem_bits_univ h_S1x1x1x16 rfl) (.inl rfl))
  let c0_i32_904 : BitVec 32 := 0#32
  let v971 : Index := Scalar.indexCast c0_i32_904
  let v972 : Index := Scalar.indexCast arg9
  let c496 : Index := 496#32
  let v973 : Vec F S1x1x16 .f32 ← Prog.lift (.load arg5 (Rect.unit (s := S2x32x512) (k2_off194 k2_t3) S1x1x16.size (k2_off194_inb k2_t3)).toLoadRect (View.loadsAt_vmem h_S1x1x16))
  have v974 : FVec F S16 .f32 := shapeCast S16 v973 shapeCasts_S1x1x16_S16
  let c0_i32_905 : BitVec 32 := 0#32
  let c3_i32_906 : BitVec 32 := 3#32
  let v975 : Index := Scalar.indexCast c0_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off195 k2_t3) S1x1x1x16.size (k2_off195_inb k2_t3)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off195 k2_t3) S1x1x1x16.size (k2_off195_inb k2_t3)) v980 Finset.univ (View.stores_vmem_bits_univ h_S1x1x1x16 rfl) (.inl rfl))
  pure ⟨⟩

end Cert.KernelIdeal

namespace Cert.KernelIdeal.TileBody

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop03 (A : Buf (Elt F) ((thr d L).loc cc2_scratch0)) (G : Buf (Elt F) ((thr d L).loc cc2_scratch1))
    (k : Fin k2_t3_loop.trips) (acc : PUnit) :
    (invFill0 (F := F) d L 0 A G k.val acc : sProp 𝕄)
      ⊢ wp frame (wpE (defs₀ (F := F)) 𝒱₀ (thr d L) none) Set.univ
          (region03 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill0 (F := F) d L 0 A G (k.val + 1)) := by
  have hk : (k : ℕ) < 32 := lt_of_lt_of_le k.isLt k2_t3_abs.2.1
  unfold invFill0 region03
  iintro ⟨Ha0, %h, Hb0, %hF⟩
  sl_exec
  sl_step
  isplitl [Ha0]; · iexact Ha0
  iexists _; isplitl [Hb0]; · iexact Hb0
  ipureintro
  refine RowFill.Filled.succ _ 0 0 k.val _ _ h _ hF ?_
  refine RowFill.RowFill.step _ 0 k.val 0 31 3 7 (by decide) rfl _ _ _ _ (k2_off195_eq k) _ (fun x => RowFill.pay_eq _ _ 0 0 k.val 0 3 7 _ hk (by decide) (by decide) rfl _ (k2_off194_eq k) _ (k2_off195_eq k) _ _ x) ?_
  refine RowFill.RowFill.step _ 0 k.val 0 30 3 6 (by decide) rfl _ _ _ _ (k2_off193_eq k) _ (fun x => RowFill.pay_eq _ _ 0 0 k.val 0 3 6 _ hk (by decide) (by decide) rfl _ (k2_off192_eq k) _ (k2_off193_eq k) _ _ x) ?_
  refine RowFill.RowFill.step _ 0 k.val 0 29 3 5 (by decide) rfl _ _ _ _ (k2_off191_eq k) _ (fun x => RowFill.pay_eq _ _ 0 0 k.val 0 3 5 _ hk (by decide) (by decide) rfl _ (k2_off190_eq k) _ (k2_off191_eq k) _ _ x) ?_
  refine RowFill.RowFill.step _ 0 k.val 0 28 3 4 (by decide) rfl _ _ _ _ (k2_off189_eq k) _ (fun x => RowFill.pay_eq _ _ 0 0 k.val 0 3 4 _ hk (by decide) (by decide) rfl _ (k2_off188_eq k) _ (k2_off189_eq k) _ _ x) ?_
  refine RowFill.RowFill.step _ 0 k.val 0 27 3 3 (by decide) rfl _ _ _ _ (k2_off187_eq k) _ (fun x => RowFill.pay_eq _ _ 0 0 k.val 0 3 3 _ hk (by decide) (by decide) rfl _ (k2_off186_eq k) _ (k2_off187_eq k) _ _ x) ?_
  refine RowFill.RowFill.step _ 0 k.val 0 26 3 2 (by decide) rfl _ _ _ _ (k2_off185_eq k) _ (fun x => RowFill.pay_eq _ _ 0 0 k.val 0 3 2 _ hk (by decide) (by decide) rfl _ (k2_off184_eq k) _ (k2_off185_eq k) _ _ x) ?_
  refine RowFill.RowFill.step _ 0 k.val 0 25 3 1 (by decide) rfl _ _ _ _ (k2_off183_eq k) _ (fun x => RowFill.pay_eq _ _ 0 0 k.val 0 3 1 _ hk (by decide) (by decide) rfl _ (k2_off182_eq k) _ (k2_off183_eq k) _ _ x) ?_
  refine RowFill.RowFill.step _ 0 k.val 0 24 3 0 (by decide) rfl _ _ _ _ (k2_off181_eq k) _ (fun x => RowFill.pay_eq _ _ 0 0 k.val 0 3 0 _ hk (by decide) (by decide) rfl _ (k2_off180_eq k) _ (k2_off181_eq k) _ _ x) ?_
  refine RowFill.RowFill.step _ 0 k.val 0 23 2 7 (by decide) rfl _ _ _ _ (k2_off179_eq k) _ (fun x => RowFill.pay_eq _ _ 0 0 k.val 0 2 7 _ hk (by decide) (by decide) rfl _ (k2_off178_eq k) _ (k2_off179_eq k) _ _ x) ?_
  refine RowFill.RowFill.step _ 0 k.val 0 22 2 6 (by decide) rfl _ _ _ _ (k2_off177_eq k) _ (fun x => RowFill.pay_eq _ _ 0 0 k.val 0 2 6 _ hk (by decide) (by decide) rfl _ (k2_off176_eq k) _ (k2_off177_eq k) _ _ x) ?_
  refine RowFill.RowFill.step _ 0 k.val 0 21 2 5 (by decide) rfl _ _ _ _ (k2_off175_eq k) _ (fun x => RowFill.pay_eq _ _ 0 0 k.val 0 2 5 _ hk (by decide) (by decide) rfl _ (k2_off174_eq k) _ (k2_off175_eq k) _ _ x) ?_
  refine RowFill.RowFill.step _ 0 k.val 0 20 2 4 (by decide) rfl _ _ _ _ (k2_off173_eq k) _ (fun x => RowFill.pay_eq _ _ 0 0 k.val 0 2 4 _ hk (by decide) (by decide) rfl _ (k2_off172_eq k) _ (k2_off173_eq k) _ _ x) ?_
  refine RowFill.RowFill.step _ 0 k.val 0 19 2 3 (by decide) rfl _ _ _ _ (k2_off171_eq k) _ (fun x => RowFill.pay_eq _ _ 0 0 k.val 0 2 3 _ hk (by decide) (by decide) rfl _ (k2_off170_eq k) _ (k2_off171_eq k) _ _ x) ?_
  refine RowFill.RowFill.step _ 0 k.val 0 18 2 2 (by decide) rfl _ _ _ _ (k2_off169_eq k) _ (fun x => RowFill.pay_eq _ _ 0 0 k.val 0 2 2 _ hk (by decide) (by decide) rfl _ (k2_off168_eq k) _ (k2_off169_eq k) _ _ x) ?_
  refine RowFill.RowFill.step _ 0 k.val 0 17 2 1 (by decide) rfl _ _ _ _ (k2_off167_eq k) _ (fun x => RowFill.pay_eq _ _ 0 0 k.val 0 2 1 _ hk (by decide) (by decide) rfl _ (k2_off166_eq k) _ (k2_off167_eq k) _ _ x) ?_
  refine RowFill.RowFill.step _ 0 k.val 0 16 2 0 (by decide) rfl _ _ _ _ (k2_off165_eq k) _ (fun x => RowFill.pay_eq _ _ 0 0 k.val 0 2 0 _ hk (by decide) (by decide) rfl _ (k2_off164_eq k) _ (k2_off165_eq k) _ _ x) ?_
  refine RowFill.RowFill.step _ 0 k.val 0 15 1 7 (by decide) rfl _ _ _ _ (k2_off163_eq k) _ (fun x => RowFill.pay_eq _ _ 0 0 k.val 0 1 7 _ hk (by decide) (by decide) rfl _ (k2_off162_eq k) _ (k2_off163_eq k) _ _ x) ?_
  refine RowFill.RowFill.step _ 0 k.val 0 14 1 6 (by decide) rfl _ _ _ _ (k2_off161_eq k) _ (fun x => RowFill.pay_eq _ _ 0 0 k.val 0 1 6 _ hk (by decide) (by decide) rfl _ (k2_off160_eq k) _ (k2_off161_eq k) _ _ x) ?_
  refine RowFill.RowFill.step _ 0 k.val 0 13 1 5 (by decide) rfl _ _ _ _ (k2_off159_eq k) _ (fun x => RowFill.pay_eq _ _ 0 0 k.val 0 1 5 _ hk (by decide) (by decide) rfl _ (k2_off158_eq k) _ (k2_off159_eq k) _ _ x) ?_
  refine RowFill.RowFill.step _ 0 k.val 0 12 1 4 (by decide) rfl _ _ _ _ (k2_off157_eq k) _ (fun x => RowFill.pay_eq _ _ 0 0 k.val 0 1 4 _ hk (by decide) (by decide) rfl _ (k2_off156_eq k) _ (k2_off157_eq k) _ _ x) ?_
  refine RowFill.RowFill.step _ 0 k.val 0 11 1 3 (by decide) rfl _ _ _ _ (k2_off155_eq k) _ (fun x => RowFill.pay_eq _ _ 0 0 k.val 0 1 3 _ hk (by decide) (by decide) rfl _ (k2_off154_eq k) _ (k2_off155_eq k) _ _ x) ?_
  refine RowFill.RowFill.step _ 0 k.val 0 10 1 2 (by decide) rfl _ _ _ _ (k2_off153_eq k) _ (fun x => RowFill.pay_eq _ _ 0 0 k.val 0 1 2 _ hk (by decide) (by decide) rfl _ (k2_off152_eq k) _ (k2_off153_eq k) _ _ x) ?_
  refine RowFill.RowFill.step _ 0 k.val 0 9 1 1 (by decide) rfl _ _ _ _ (k2_off151_eq k) _ (fun x => RowFill.pay_eq _ _ 0 0 k.val 0 1 1 _ hk (by decide) (by decide) rfl _ (k2_off150_eq k) _ (k2_off151_eq k) _ _ x) ?_
  refine RowFill.RowFill.step _ 0 k.val 0 8 1 0 (by decide) rfl _ _ _ _ (k2_off149_eq k) _ (fun x => RowFill.pay_eq _ _ 0 0 k.val 0 1 0 _ hk (by decide) (by decide) rfl _ (k2_off148_eq k) _ (k2_off149_eq k) _ _ x) ?_
  refine RowFill.RowFill.step _ 0 k.val 0 7 0 7 (by decide) rfl _ _ _ _ (k2_off147_eq k) _ (fun x => RowFill.pay_eq _ _ 0 0 k.val 0 0 7 _ hk (by decide) (by decide) rfl _ (k2_off146_eq k) _ (k2_off147_eq k) _ _ x) ?_
  refine RowFill.RowFill.step _ 0 k.val 0 6 0 6 (by decide) rfl _ _ _ _ (k2_off145_eq k) _ (fun x => RowFill.pay_eq _ _ 0 0 k.val 0 0 6 _ hk (by decide) (by decide) rfl _ (k2_off144_eq k) _ (k2_off145_eq k) _ _ x) ?_
  refine RowFill.RowFill.step _ 0 k.val 0 5 0 5 (by decide) rfl _ _ _ _ (k2_off143_eq k) _ (fun x => RowFill.pay_eq _ _ 0 0 k.val 0 0 5 _ hk (by decide) (by decide) rfl _ (k2_off142_eq k) _ (k2_off143_eq k) _ _ x) ?_
  refine RowFill.RowFill.step _ 0 k.val 0 4 0 4 (by decide) rfl _ _ _ _ (k2_off141_eq k) _ (fun x => RowFill.pay_eq _ _ 0 0 k.val 0 0 4 _ hk (by decide) (by decide) rfl _ (k2_off140_eq k) _ (k2_off141_eq k) _ _ x) ?_
  refine RowFill.RowFill.step _ 0 k.val 0 3 0 3 (by decide) rfl _ _ _ _ (k2_off139_eq k) _ (fun x => RowFill.pay_eq _ _ 0 0 k.val 0 0 3 _ hk (by decide) (by decide) rfl _ (k2_off138_eq k) _ (k2_off139_eq k) _ _ x) ?_
  refine RowFill.RowFill.step _ 0 k.val 0 2 0 2 (by decide) rfl _ _ _ _ (k2_off137_eq k) _ (fun x => RowFill.pay_eq _ _ 0 0 k.val 0 0 2 _ hk (by decide) (by decide) rfl _ (k2_off136_eq k) _ (k2_off137_eq k) _ _ x) ?_
  refine RowFill.RowFill.step _ 0 k.val 0 1 0 1 (by decide) rfl _ _ _ _ (k2_off135_eq k) _ (fun x => RowFill.pay_eq _ _ 0 0 k.val 0 0 1 _ hk (by decide) (by decide) rfl _ (k2_off134_eq k) _ (k2_off135_eq k) _ _ x) ?_
  refine RowFill.RowFill.step _ 0 k.val 0 0 0 0 (by decide) rfl _ _ _ _ (k2_off133_eq k) _ (fun x => RowFill.pay_eq _ _ 0 0 k.val 0 0 0 _ hk (by decide) (by decide) rfl _ (k2_off132_eq k) _ (k2_off133_eq k) _ _ x) ?_
  exact RowFill.RowFill.zero _ _ _ _ _ _

end Cert.KernelIdeal.TileBody
-- ==== Proof.TileLoop04.lean ====
/-
  Loop 4 of the tile body: one trip fills one row of a staging slot, sixteen lanes at a time, and leaves the
  loop's invariant at the next row.
-/
import proofs.«206219_g40982577938455_cont_8to1_b_1362_29_alg».proof.Proof.TileSetup

noncomputable section

namespace Cert.KernelIdeal

open Idealize.ShloMosaic Idealize.SL.Sem
open Cert.KernelIdeal.Gen

variable {F : FTy → Type} [FloatOps F]

/-- The region of the loop, as the kernel's text has it. -/
noncomputable def region04 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_73 : BitVec 32) (c1_i32_75 : BitVec 32) (k2_t4 : Fin k2_t4_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part26 i arg2 harg2 arg3 harg3 arg4 harg4 arg5 harg5 arg6 harg6 arg7 arg8 v661_r0 c0_i32_73 c1_i32_75 k2_t4
  let ⟨v734, c1_i32_809⟩ : Σ' (v734 : FVec F S16 .f32), BitVec 32 ← k2_part27 i arg2 harg2 arg3 harg3 arg4 harg4 arg5 harg5 arg6 harg6 arg7 arg8 v661_r0 k2_t4 arg9 v694
  k2_part28 i arg2 harg2 arg3 harg3 arg4 harg4 arg5 harg5 arg6 harg6 arg7 arg8 v661_r0 k2_t4 arg9 v734 c1_i32_809
  let v810 : FVec F S1x1x1x16 .f32 ← k2_part29 i arg2 harg2 arg3 harg3 arg4 harg4 arg5 harg5 arg6 harg6 arg7 arg8 v661_r0 k2_t4 arg9
  let v844 : FVec F S16 .f32 ← k2_part30 i arg2 harg2 arg3 harg3 arg4 harg4 arg5 harg5 arg6 harg6 arg7 arg8 v661_r0 k2_t4 arg9 v810
  let ⟨v884, c1_i32_869⟩ : Σ' (v884 : FVec F S16 .f32), BitVec 32 ← k2_part31 i arg2 harg2 arg3 harg3 arg4 harg4 arg5 harg5 arg6 harg6 arg7 arg8 v661_r0 k2_t4 arg9 v844
  k2_part32 i arg2 harg2 arg3 harg3 arg4 harg4 arg5 harg5 arg6 harg6 arg7 arg8 v661_r0 k2_t4 arg9 v884 c1_i32_869
  let v960 : FVec F S1x1x1x16 .f32 ← k2_part33 i arg2 harg2 arg3 harg3 arg4 harg4 arg5 harg5 arg6 harg6 arg7 arg8 v661_r0 k2_t4 arg9
  Prog.lift (.store arg6 (Rect.unit (s := S2x32x4x256) (k2_off257 k2_t4) S1x1x1x16.size (k2_off257_inb k2_t4)) v960 Finset.univ (View.stores_vmem_bits_univ h_S1x1x1x16 rfl) (.inl rfl))
  let c1_i32_900 : BitVec 32 := 1#32
  let v961 : Index := Scalar.indexCast c1_i32_900
  let v962 : Index := Scalar.indexCast arg9
  let c480 : Index := 480#32
  let v963 : Vec F S1x1x16 .f32 ← Prog.lift (.load arg5 (Rect.unit (s := S2x32x512) (k2_off258 k2_t4) S1x1x16.size (k2_off258_inb k2_t4)).toLoadRect (View.loadsAt_vmem h_S1x1x16))
  have v964 : FVec F S16 .f32 := shapeCast S16 v963 shapeCasts_S1x1x16_S16
  let c1_i32_901 : BitVec 32 := 1#32
  let c3_i32_902 : BitVec 32 := 3#32
  let v965 : Index := Scalar.indexCast c1_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off259 k2_t4) S1x1x1x16.size (k2_off259_inb k2_t4)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off259 k2_t4) S1x1x1x16.size (k2_off259_inb k2_t4)) v970 Finset.univ (View.stores_vmem_bits_univ h_S1x1x1x16 rfl) (.inl rfl))
  let c1_i32_904 : BitVec 32 := 1#32
  let v971 : Index := Scalar.indexCast c1_i32_904
  let v972 : Index := Scalar.indexCast arg9
  let c496 : Index := 496#32
  let v973 : Vec F S1x1x16 .f32 ← Prog.lift (.load arg5 (Rect.unit (s := S2x32x512) (k2_off260 k2_t4) S1x1x16.size (k2_off260_inb k2_t4)).toLoadRect (View.loadsAt_vmem h_S1x1x16))
  have v974 : FVec F S16 .f32 := shapeCast S16 v973 shapeCasts_S1x1x16_S16
  let c1_i32_905 : BitVec 32 := 1#32
  let c3_i32_906 : BitVec 32 := 3#32
  let v975 : Index := Scalar.indexCast c1_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off261 k2_t4) S1x1x1x16.size (k2_off261_inb k2_t4)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off261 k2_t4) S1x1x1x16.size (k2_off261_inb k2_t4)) v980 Finset.univ (View.stores_vmem_bits_univ h_S1x1x1x16 rfl) (.inl rfl))
  pure ⟨⟩

end Cert.KernelIdeal

namespace Cert.KernelIdeal.TileBody

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop04 (A : Buf (Elt F) ((thr d L).loc cc2_scratch0)) (G : Buf (Elt F) ((thr d L).loc cc2_scratch1))
    (k : Fin k2_t4_loop.trips) (acc : PUnit) :
    (invFill1 (F := F) d L 0 A G k.val acc : sProp 𝕄)
      ⊢ wp frame (wpE (defs₀ (F := F)) 𝒱₀ (thr d L) none) Set.univ
          (region04 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill1 (F := F) d L 0 A G (k.val + 1)) := by
  have hk : (k : ℕ) < 32 := lt_of_lt_of_le k.isLt k2_t4_abs.2.1
  unfold invFill1 region04
  iintro ⟨Ha1, %h, Hb1, %hF⟩
  sl_exec
  sl_step
  isplitl [Ha1]; · iexact Ha1
  iexists _; isplitl [Hb1]; · iexact Hb1
  ipureintro
  refine RowFill.Filled.succ _ 1 0 k.val _ _ h _ hF ?_
  refine RowFill.RowFill.step _ 1 k.val 0 31 3 7 (by decide) rfl _ _ _ _ (k2_off261_eq k) _ (fun x => RowFill.pay_eq _ _ 1 1 k.val 0 3 7 _ hk (by decide) (by decide) rfl _ (k2_off260_eq k) _ (k2_off261_eq k) _ _ x) ?_
  refine RowFill.RowFill.step _ 1 k.val 0 30 3 6 (by decide) rfl _ _ _ _ (k2_off259_eq k) _ (fun x => RowFill.pay_eq _ _ 1 1 k.val 0 3 6 _ hk (by decide) (by decide) rfl _ (k2_off258_eq k) _ (k2_off259_eq k) _ _ x) ?_
  refine RowFill.RowFill.step _ 1 k.val 0 29 3 5 (by decide) rfl _ _ _ _ (k2_off257_eq k) _ (fun x => RowFill.pay_eq _ _ 1 1 k.val 0 3 5 _ hk (by decide) (by decide) rfl _ (k2_off256_eq k) _ (k2_off257_eq k) _ _ x) ?_
  refine RowFill.RowFill.step _ 1 k.val 0 28 3 4 (by decide) rfl _ _ _ _ (k2_off255_eq k) _ (fun x => RowFill.pay_eq _ _ 1 1 k.val 0 3 4 _ hk (by decide) (by decide) rfl _ (k2_off254_eq k) _ (k2_off255_eq k) _ _ x) ?_
  refine RowFill.RowFill.step _ 1 k.val 0 27 3 3 (by decide) rfl _ _ _ _ (k2_off253_eq k) _ (fun x => RowFill.pay_eq _ _ 1 1 k.val 0 3 3 _ hk (by decide) (by decide) rfl _ (k2_off252_eq k) _ (k2_off253_eq k) _ _ x) ?_
  refine RowFill.RowFill.step _ 1 k.val 0 26 3 2 (by decide) rfl _ _ _ _ (k2_off251_eq k) _ (fun x => RowFill.pay_eq _ _ 1 1 k.val 0 3 2 _ hk (by decide) (by decide) rfl _ (k2_off250_eq k) _ (k2_off251_eq k) _ _ x) ?_
  refine RowFill.RowFill.step _ 1 k.val 0 25 3 1 (by decide) rfl _ _ _ _ (k2_off249_eq k) _ (fun x => RowFill.pay_eq _ _ 1 1 k.val 0 3 1 _ hk (by decide) (by decide) rfl _ (k2_off248_eq k) _ (k2_off249_eq k) _ _ x) ?_
  refine RowFill.RowFill.step _ 1 k.val 0 24 3 0 (by decide) rfl _ _ _ _ (k2_off247_eq k) _ (fun x => RowFill.pay_eq _ _ 1 1 k.val 0 3 0 _ hk (by decide) (by decide) rfl _ (k2_off246_eq k) _ (k2_off247_eq k) _ _ x) ?_
  refine RowFill.RowFill.step _ 1 k.val 0 23 2 7 (by decide) rfl _ _ _ _ (k2_off245_eq k) _ (fun x => RowFill.pay_eq _ _ 1 1 k.val 0 2 7 _ hk (by decide) (by decide) rfl _ (k2_off244_eq k) _ (k2_off245_eq k) _ _ x) ?_
  refine RowFill.RowFill.step _ 1 k.val 0 22 2 6 (by decide) rfl _ _ _ _ (k2_off243_eq k) _ (fun x => RowFill.pay_eq _ _ 1 1 k.val 0 2 6 _ hk (by decide) (by decide) rfl _ (k2_off242_eq k) _ (k2_off243_eq k) _ _ x) ?_
  refine RowFill.RowFill.step _ 1 k.val 0 21 2 5 (by decide) rfl _ _ _ _ (k2_off241_eq k) _ (fun x => RowFill.pay_eq _ _ 1 1 k.val 0 2 5 _ hk (by decide) (by decide) rfl _ (k2_off240_eq k) _ (k2_off241_eq k) _ _ x) ?_
  refine RowFill.RowFill.step _ 1 k.val 0 20 2 4 (by decide) rfl _ _ _ _ (k2_off239_eq k) _ (fun x => RowFill.pay_eq _ _ 1 1 k.val 0 2 4 _ hk (by decide) (by decide) rfl _ (k2_off238_eq k) _ (k2_off239_eq k) _ _ x) ?_
  refine RowFill.RowFill.step _ 1 k.val 0 19 2 3 (by decide) rfl _ _ _ _ (k2_off237_eq k) _ (fun x => RowFill.pay_eq _ _ 1 1 k.val 0 2 3 _ hk (by decide) (by decide) rfl _ (k2_off236_eq k) _ (k2_off237_eq k) _ _ x) ?_
  refine RowFill.RowFill.step _ 1 k.val 0 18 2 2 (by decide) rfl _ _ _ _ (k2_off235_eq k) _ (fun x => RowFill.pay_eq _ _ 1 1 k.val 0 2 2 _ hk (by decide) (by decide) rfl _ (k2_off234_eq k) _ (k2_off235_eq k) _ _ x) ?_
  refine RowFill.RowFill.step _ 1 k.val 0 17 2 1 (by decide) rfl _ _ _ _ (k2_off233_eq k) _ (fun x => RowFill.pay_eq _ _ 1 1 k.val 0 2 1 _ hk (by decide) (by decide) rfl _ (k2_off232_eq k) _ (k2_off233_eq k) _ _ x) ?_
  refine RowFill.RowFill.step _ 1 k.val 0 16 2 0 (by decide) rfl _ _ _ _ (k2_off231_eq k) _ (fun x => RowFill.pay_eq _ _ 1 1 k.val 0 2 0 _ hk (by decide) (by decide) rfl _ (k2_off230_eq k) _ (k2_off231_eq k) _ _ x) ?_
  refine RowFill.RowFill.step _ 1 k.val 0 15 1 7 (by decide) rfl _ _ _ _ (k2_off229_eq k) _ (fun x => RowFill.pay_eq _ _ 1 1 k.val 0 1 7 _ hk (by decide) (by decide) rfl _ (k2_off228_eq k) _ (k2_off229_eq k) _ _ x) ?_
  refine RowFill.RowFill.step _ 1 k.val 0 14 1 6 (by decide) rfl _ _ _ _ (k2_off227_eq k) _ (fun x => RowFill.pay_eq _ _ 1 1 k.val 0 1 6 _ hk (by decide) (by decide) rfl _ (k2_off226_eq k) _ (k2_off227_eq k) _ _ x) ?_
  refine RowFill.RowFill.step _ 1 k.val 0 13 1 5 (by decide) rfl _ _ _ _ (k2_off225_eq k) _ (fun x => RowFill.pay_eq _ _ 1 1 k.val 0 1 5 _ hk (by decide) (by decide) rfl _ (k2_off224_eq k) _ (k2_off225_eq k) _ _ x) ?_
  refine RowFill.RowFill.step _ 1 k.val 0 12 1 4 (by decide) rfl _ _ _ _ (k2_off223_eq k) _ (fun x => RowFill.pay_eq _ _ 1 1 k.val 0 1 4 _ hk (by decide) (by decide) rfl _ (k2_off222_eq k) _ (k2_off223_eq k) _ _ x) ?_
  refine RowFill.RowFill.step _ 1 k.val 0 11 1 3 (by decide) rfl _ _ _ _ (k2_off221_eq k) _ (fun x => RowFill.pay_eq _ _ 1 1 k.val 0 1 3 _ hk (by decide) (by decide) rfl _ (k2_off220_eq k) _ (k2_off221_eq k) _ _ x) ?_
  refine RowFill.RowFill.step _ 1 k.val 0 10 1 2 (by decide) rfl _ _ _ _ (k2_off219_eq k) _ (fun x => RowFill.pay_eq _ _ 1 1 k.val 0 1 2 _ hk (by decide) (by decide) rfl _ (k2_off218_eq k) _ (k2_off219_eq k) _ _ x) ?_
  refine RowFill.RowFill.step _ 1 k.val 0 9 1 1 (by decide) rfl _ _ _ _ (k2_off217_eq k) _ (fun x => RowFill.pay_eq _ _ 1 1 k.val 0 1 1 _ hk (by decide) (by decide) rfl _ (k2_off216_eq k) _ (k2_off217_eq k) _ _ x) ?_
  refine RowFill.RowFill.step _ 1 k.val 0 8 1 0 (by decide) rfl _ _ _ _ (k2_off215_eq k) _ (fun x => RowFill.pay_eq _ _ 1 1 k.val 0 1 0 _ hk (by decide) (by decide) rfl _ (k2_off214_eq k) _ (k2_off215_eq k) _ _ x) ?_
  refine RowFill.RowFill.step _ 1 k.val 0 7 0 7 (by decide) rfl _ _ _ _ (k2_off213_eq k) _ (fun x => RowFill.pay_eq _ _ 1 1 k.val 0 0 7 _ hk (by decide) (by decide) rfl _ (k2_off212_eq k) _ (k2_off213_eq k) _ _ x) ?_
  refine RowFill.RowFill.step _ 1 k.val 0 6 0 6 (by decide) rfl _ _ _ _ (k2_off211_eq k) _ (fun x => RowFill.pay_eq _ _ 1 1 k.val 0 0 6 _ hk (by decide) (by decide) rfl _ (k2_off210_eq k) _ (k2_off211_eq k) _ _ x) ?_
  refine RowFill.RowFill.step _ 1 k.val 0 5 0 5 (by decide) rfl _ _ _ _ (k2_off209_eq k) _ (fun x => RowFill.pay_eq _ _ 1 1 k.val 0 0 5 _ hk (by decide) (by decide) rfl _ (k2_off208_eq k) _ (k2_off209_eq k) _ _ x) ?_
  refine RowFill.RowFill.step _ 1 k.val 0 4 0 4 (by decide) rfl _ _ _ _ (k2_off207_eq k) _ (fun x => RowFill.pay_eq _ _ 1 1 k.val 0 0 4 _ hk (by decide) (by decide) rfl _ (k2_off206_eq k) _ (k2_off207_eq k) _ _ x) ?_
  refine RowFill.RowFill.step _ 1 k.val 0 3 0 3 (by decide) rfl _ _ _ _ (k2_off205_eq k) _ (fun x => RowFill.pay_eq _ _ 1 1 k.val 0 0 3 _ hk (by decide) (by decide) rfl _ (k2_off204_eq k) _ (k2_off205_eq k) _ _ x) ?_
  refine RowFill.RowFill.step _ 1 k.val 0 2 0 2 (by decide) rfl _ _ _ _ (k2_off203_eq k) _ (fun x => RowFill.pay_eq _ _ 1 1 k.val 0 0 2 _ hk (by decide) (by decide) rfl _ (k2_off202_eq k) _ (k2_off203_eq k) _ _ x) ?_
  refine RowFill.RowFill.step _ 1 k.val 0 1 0 1 (by decide) rfl _ _ _ _ (k2_off201_eq k) _ (fun x => RowFill.pay_eq _ _ 1 1 k.val 0 0 1 _ hk (by decide) (by decide) rfl _ (k2_off200_eq k) _ (k2_off201_eq k) _ _ x) ?_
  refine RowFill.RowFill.step _ 1 k.val 0 0 0 0 (by decide) rfl _ _ _ _ (k2_off199_eq k) _ (fun x => RowFill.pay_eq _ _ 1 1 k.val 0 0 0 _ hk (by decide) (by decide) rfl _ (k2_off198_eq k) _ (k2_off199_eq k) _ _ x) ?_
  exact RowFill.RowFill.zero _ _ _ _ _ _

end Cert.KernelIdeal.TileBody
-- ==== Proof.TileLoop05.lean ====
/-
  Loop 5 of the tile body: one trip fills one row of a staging slot, sixteen lanes at a time, and leaves the
  loop's invariant at the next row.
-/
import proofs.«206219_g40982577938455_cont_8to1_b_1362_29_alg».proof.Proof.TileSetup

noncomputable section

namespace Cert.KernelIdeal

open Idealize.ShloMosaic Idealize.SL.Sem
open Cert.KernelIdeal.Gen

variable {F : FTy → Type} [FloatOps F]

/-- The region of the loop, as the kernel's text has it. -/
noncomputable def region05 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_121 : BitVec 32) (c1_i32_123 : BitVec 32) (k2_t5 : Fin k2_t5_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part34 i arg2 harg2 arg3 harg3 arg4 harg4 arg5 harg5 arg6 harg6 arg7 arg8 v661_r0 c0_i32_121 c1_i32_123 k2_t5
  let ⟨v734, c0_i32_809⟩ : Σ' (v734 : FVec F S16 .f32), BitVec 32 ← k2_part35 i arg2 harg2 arg3 harg3 arg4 harg4 arg5 harg5 arg6 harg6 arg7 arg8 v661_r0 k2_t5 arg9 v694
  k2_part36 i arg2 harg2 arg3 harg3 arg4 harg4 arg5 harg5 arg6 harg6 arg7 arg8 v661_r0 k2_t5 arg9 v734 c0_i32_809
  let v810 : FVec F S1x1x1x16 .f32 ← k2_part37 i arg2 harg2 arg3 harg3 arg4 harg4 arg5 harg5 arg6 harg6 arg7 arg8 v661_r0 k2_t5 arg9
  let v844 : FVec F S16 .f32 ← k2_part38 i arg2 harg2 arg3 harg3 arg4 harg4 arg5 harg5 arg6 harg6 arg7 arg8 v661_r0 k2_t5 arg9 v810
  let ⟨v884, c0_i32_869⟩ : Σ' (v884 : FVec F S16 .f32), BitVec 32 ← k2_part39 i arg2 harg2 arg3 harg3 arg4 harg4 arg5 harg5 arg6 harg6 arg7 arg8 v661_r0 k2_t5 arg9 v844
  k2_part40 i arg2 harg2 arg3 harg3 arg4 harg4 arg5 harg5 arg6 harg6 arg7 arg8 v661_r0 k2_t5 arg9 v884 c0_i32_869
  let v960 : FVec F S1x1x1x16 .f32 ← k2_part41 i arg2 harg2 arg3 harg3 arg4 harg4 arg5 harg5 arg6 harg6 arg7 arg8 v661_r0 k2_t5 arg9
  Prog.lift (.store arg6 (Rect.unit (s := S2x32x4x256) (k2_off323 k2_t5) S1x1x1x16.size (k2_off323_inb k2_t5)) v960 Finset.univ (View.stores_vmem_bits_univ h_S1x1x1x16 rfl) (.inl rfl))
  let c0_i32_900 : BitVec 32 := 0#32
  let v961 : Index := Scalar.indexCast c0_i32_900
  let v962 : Index := Scalar.indexCast arg9
  let c480 : Index := 480#32
  let v963 : Vec F S1x1x16 .f32 ← Prog.lift (.load arg5 (Rect.unit (s := S2x32x512) (k2_off324 k2_t5) S1x1x16.size (k2_off324_inb k2_t5)).toLoadRect (View.loadsAt_vmem h_S1x1x16))
  have v964 : FVec F S16 .f32 := shapeCast S16 v963 shapeCasts_S1x1x16_S16
  let c0_i32_901 : BitVec 32 := 0#32
  let c3_i32_902 : BitVec 32 := 3#32
  let v965 : Index := Scalar.indexCast c0_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off325 k2_t5) S1x1x1x16.size (k2_off325_inb k2_t5)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off325 k2_t5) S1x1x1x16.size (k2_off325_inb k2_t5)) v970 Finset.univ (View.stores_vmem_bits_univ h_S1x1x1x16 rfl) (.inl rfl))
  let c0_i32_904 : BitVec 32 := 0#32
  let v971 : Index := Scalar.indexCast c0_i32_904
  let v972 : Index := Scalar.indexCast arg9
  let c496 : Index := 496#32
  let v973 : Vec F S1x1x16 .f32 ← Prog.lift (.load arg5 (Rect.unit (s := S2x32x512) (k2_off326 k2_t5) S1x1x16.size (k2_off326_inb k2_t5)).toLoadRect (View.loadsAt_vmem h_S1x1x16))
  have v974 : FVec F S16 .f32 := shapeCast S16 v973 shapeCasts_S1x1x16_S16
  let c0_i32_905 : BitVec 32 := 0#32
  let c3_i32_906 : BitVec 32 := 3#32
  let v975 : Index := Scalar.indexCast c0_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off327 k2_t5) S1x1x1x16.size (k2_off327_inb k2_t5)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off327 k2_t5) S1x1x1x16.size (k2_off327_inb k2_t5)) v980 Finset.univ (View.stores_vmem_bits_univ h_S1x1x1x16 rfl) (.inl rfl))
  pure ⟨⟩

end Cert.KernelIdeal

namespace Cert.KernelIdeal.TileBody

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop05 (A : Buf (Elt F) ((thr d L).loc cc2_scratch0)) (G : Buf (Elt F) ((thr d L).loc cc2_scratch1))
    (k : Fin k2_t5_loop.trips) (acc : PUnit) :
    (invFill0 (F := F) d L 0 A G k.val acc : sProp 𝕄)
      ⊢ wp frame (wpE (defs₀ (F := F)) 𝒱₀ (thr d L) none) Set.univ
          (region05 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill0 (F := F) d L 0 A G (k.val + 1)) := by
  have hk : (k : ℕ) < 32 := lt_of_lt_of_le k.isLt k2_t5_abs.2.1
  unfold invFill0 region05
  iintro ⟨Ha0, %h, Hb0, %hF⟩
  sl_exec
  sl_step
  isplitl [Ha0]; · iexact Ha0
  iexists _; isplitl [Hb0]; · iexact Hb0
  ipureintro
  refine RowFill.Filled.succ _ 0 0 k.val _ _ h _ hF ?_
  refine RowFill.RowFill.step _ 0 k.val 0 31 3 7 (by decide) rfl _ _ _ _ (k2_off327_eq k) _ (fun x => RowFill.pay_eq _ _ 0 0 k.val 0 3 7 _ hk (by decide) (by decide) rfl _ (k2_off326_eq k) _ (k2_off327_eq k) _ _ x) ?_
  refine RowFill.RowFill.step _ 0 k.val 0 30 3 6 (by decide) rfl _ _ _ _ (k2_off325_eq k) _ (fun x => RowFill.pay_eq _ _ 0 0 k.val 0 3 6 _ hk (by decide) (by decide) rfl _ (k2_off324_eq k) _ (k2_off325_eq k) _ _ x) ?_
  refine RowFill.RowFill.step _ 0 k.val 0 29 3 5 (by decide) rfl _ _ _ _ (k2_off323_eq k) _ (fun x => RowFill.pay_eq _ _ 0 0 k.val 0 3 5 _ hk (by decide) (by decide) rfl _ (k2_off322_eq k) _ (k2_off323_eq k) _ _ x) ?_
  refine RowFill.RowFill.step _ 0 k.val 0 28 3 4 (by decide) rfl _ _ _ _ (k2_off321_eq k) _ (fun x => RowFill.pay_eq _ _ 0 0 k.val 0 3 4 _ hk (by decide) (by decide) rfl _ (k2_off320_eq k) _ (k2_off321_eq k) _ _ x) ?_
  refine RowFill.RowFill.step _ 0 k.val 0 27 3 3 (by decide) rfl _ _ _ _ (k2_off319_eq k) _ (fun x => RowFill.pay_eq _ _ 0 0 k.val 0 3 3 _ hk (by decide) (by decide) rfl _ (k2_off318_eq k) _ (k2_off319_eq k) _ _ x) ?_
  refine RowFill.RowFill.step _ 0 k.val 0 26 3 2 (by decide) rfl _ _ _ _ (k2_off317_eq k) _ (fun x => RowFill.pay_eq _ _ 0 0 k.val 0 3 2 _ hk (by decide) (by decide) rfl _ (k2_off316_eq k) _ (k2_off317_eq k) _ _ x) ?_
  refine RowFill.RowFill.step _ 0 k.val 0 25 3 1 (by decide) rfl _ _ _ _ (k2_off315_eq k) _ (fun x => RowFill.pay_eq _ _ 0 0 k.val 0 3 1 _ hk (by decide) (by decide) rfl _ (k2_off314_eq k) _ (k2_off315_eq k) _ _ x) ?_
  refine RowFill.RowFill.step _ 0 k.val 0 24 3 0 (by decide) rfl _ _ _ _ (k2_off313_eq k) _ (fun x => RowFill.pay_eq _ _ 0 0 k.val 0 3 0 _ hk (by decide) (by decide) rfl _ (k2_off312_eq k) _ (k2_off313_eq k) _ _ x) ?_
  refine RowFill.RowFill.step _ 0 k.val 0 23 2 7 (by decide) rfl _ _ _ _ (k2_off311_eq k) _ (fun x => RowFill.pay_eq _ _ 0 0 k.val 0 2 7 _ hk (by decide) (by decide) rfl _ (k2_off310_eq k) _ (k2_off311_eq k) _ _ x) ?_
  refine RowFill.RowFill.step _ 0 k.val 0 22 2 6 (by decide) rfl _ _ _ _ (k2_off309_eq k) _ (fun x => RowFill.pay_eq _ _ 0 0 k.val 0 2 6 _ hk (by decide) (by decide) rfl _ (k2_off308_eq k) _ (k2_off309_eq k) _ _ x) ?_
  refine RowFill.RowFill.step _ 0 k.val 0 21 2 5 (by decide) rfl _ _ _ _ (k2_off307_eq k) _ (fun x => RowFill.pay_eq _ _ 0 0 k.val 0 2 5 _ hk (by decide) (by decide) rfl _ (k2_off306_eq k) _ (k2_off307_eq k) _ _ x) ?_
  refine RowFill.RowFill.step _ 0 k.val 0 20 2 4 (by decide) rfl _ _ _ _ (k2_off305_eq k) _ (fun x => RowFill.pay_eq _ _ 0 0 k.val 0 2 4 _ hk (by decide) (by decide) rfl _ (k2_off304_eq k) _ (k2_off305_eq k) _ _ x) ?_
  refine RowFill.RowFill.step _ 0 k.val 0 19 2 3 (by decide) rfl _ _ _ _ (k2_off303_eq k) _ (fun x => RowFill.pay_eq _ _ 0 0 k.val 0 2 3 _ hk (by decide) (by decide) rfl _ (k2_off302_eq k) _ (k2_off303_eq k) _ _ x) ?_
  refine RowFill.RowFill.step _ 0 k.val 0 18 2 2 (by decide) rfl _ _ _ _ (k2_off301_eq k) _ (fun x => RowFill.pay_eq _ _ 0 0 k.val 0 2 2 _ hk (by decide) (by decide) rfl _ (k2_off300_eq k) _ (k2_off301_eq k) _ _ x) ?_
  refine RowFill.RowFill.step _ 0 k.val 0 17 2 1 (by decide) rfl _ _ _ _ (k2_off299_eq k) _ (fun x => RowFill.pay_eq _ _ 0 0 k.val 0 2 1 _ hk (by decide) (by decide) rfl _ (k2_off298_eq k) _ (k2_off299_eq k) _ _ x) ?_
  refine RowFill.RowFill.step _ 0 k.val 0 16 2 0 (by decide) rfl _ _ _ _ (k2_off297_eq k) _ (fun x => RowFill.pay_eq _ _ 0 0 k.val 0 2 0 _ hk (by decide) (by decide) rfl _ (k2_off296_eq k) _ (k2_off297_eq k) _ _ x) ?_
  refine RowFill.RowFill.step _ 0 k.val 0 15 1 7 (by decide) rfl _ _ _ _ (k2_off295_eq k) _ (fun x => RowFill.pay_eq _ _ 0 0 k.val 0 1 7 _ hk (by decide) (by decide) rfl _ (k2_off294_eq k) _ (k2_off295_eq k) _ _ x) ?_
  refine RowFill.RowFill.step _ 0 k.val 0 14 1 6 (by decide) rfl _ _ _ _ (k2_off293_eq k) _ (fun x => RowFill.pay_eq _ _ 0 0 k.val 0 1 6 _ hk (by decide) (by decide) rfl _ (k2_off292_eq k) _ (k2_off293_eq k) _ _ x) ?_
  refine RowFill.RowFill.step _ 0 k.val 0 13 1 5 (by decide) rfl _ _ _ _ (k2_off291_eq k) _ (fun x => RowFill.pay_eq _ _ 0 0 k.val 0 1 5 _ hk (by decide) (by decide) rfl _ (k2_off290_eq k) _ (k2_off291_eq k) _ _ x) ?_
  refine RowFill.RowFill.step _ 0 k.val 0 12 1 4 (by decide) rfl _ _ _ _ (k2_off289_eq k) _ (fun x => RowFill.pay_eq _ _ 0 0 k.val 0 1 4 _ hk (by decide) (by decide) rfl _ (k2_off288_eq k) _ (k2_off289_eq k) _ _ x) ?_
  refine RowFill.RowFill.step _ 0 k.val 0 11 1 3 (by decide) rfl _ _ _ _ (k2_off287_eq k) _ (fun x => RowFill.pay_eq _ _ 0 0 k.val 0 1 3 _ hk (by decide) (by decide) rfl _ (k2_off286_eq k) _ (k2_off287_eq k) _ _ x) ?_
  refine RowFill.RowFill.step _ 0 k.val 0 10 1 2 (by decide) rfl _ _ _ _ (k2_off285_eq k) _ (fun x => RowFill.pay_eq _ _ 0 0 k.val 0 1 2 _ hk (by decide) (by decide) rfl _ (k2_off284_eq k) _ (k2_off285_eq k) _ _ x) ?_
  refine RowFill.RowFill.step _ 0 k.val 0 9 1 1 (by decide) rfl _ _ _ _ (k2_off283_eq k) _ (fun x => RowFill.pay_eq _ _ 0 0 k.val 0 1 1 _ hk (by decide) (by decide) rfl _ (k2_off282_eq k) _ (k2_off283_eq k) _ _ x) ?_
  refine RowFill.RowFill.step _ 0 k.val 0 8 1 0 (by decide) rfl _ _ _ _ (k2_off281_eq k) _ (fun x => RowFill.pay_eq _ _ 0 0 k.val 0 1 0 _ hk (by decide) (by decide) rfl _ (k2_off280_eq k) _ (k2_off281_eq k) _ _ x) ?_
  refine RowFill.RowFill.step _ 0 k.val 0 7 0 7 (by decide) rfl _ _ _ _ (k2_off279_eq k) _ (fun x => RowFill.pay_eq _ _ 0 0 k.val 0 0 7 _ hk (by decide) (by decide) rfl _ (k2_off278_eq k) _ (k2_off279_eq k) _ _ x) ?_
  refine RowFill.RowFill.step _ 0 k.val 0 6 0 6 (by decide) rfl _ _ _ _ (k2_off277_eq k) _ (fun x => RowFill.pay_eq _ _ 0 0 k.val 0 0 6 _ hk (by decide) (by decide) rfl _ (k2_off276_eq k) _ (k2_off277_eq k) _ _ x) ?_
  refine RowFill.RowFill.step _ 0 k.val 0 5 0 5 (by decide) rfl _ _ _ _ (k2_off275_eq k) _ (fun x => RowFill.pay_eq _ _ 0 0 k.val 0 0 5 _ hk (by decide) (by decide) rfl _ (k2_off274_eq k) _ (k2_off275_eq k) _ _ x) ?_
  refine RowFill.RowFill.step _ 0 k.val 0 4 0 4 (by decide) rfl _ _ _ _ (k2_off273_eq k) _ (fun x => RowFill.pay_eq _ _ 0 0 k.val 0 0 4 _ hk (by decide) (by decide) rfl _ (k2_off272_eq k) _ (k2_off273_eq k) _ _ x) ?_
  refine RowFill.RowFill.step _ 0 k.val 0 3 0 3 (by decide) rfl _ _ _ _ (k2_off271_eq k) _ (fun x => RowFill.pay_eq _ _ 0 0 k.val 0 0 3 _ hk (by decide) (by decide) rfl _ (k2_off270_eq k) _ (k2_off271_eq k) _ _ x) ?_
  refine RowFill.RowFill.step _ 0 k.val 0 2 0 2 (by decide) rfl _ _ _ _ (k2_off269_eq k) _ (fun x => RowFill.pay_eq _ _ 0 0 k.val 0 0 2 _ hk (by decide) (by decide) rfl _ (k2_off268_eq k) _ (k2_off269_eq k) _ _ x) ?_
  refine RowFill.RowFill.step _ 0 k.val 0 1 0 1 (by decide) rfl _ _ _ _ (k2_off267_eq k) _ (fun x => RowFill.pay_eq _ _ 0 0 k.val 0 0 1 _ hk (by decide) (by decide) rfl _ (k2_off266_eq k) _ (k2_off267_eq k) _ _ x) ?_
  refine RowFill.RowFill.step _ 0 k.val 0 0 0 0 (by decide) rfl _ _ _ _ (k2_off265_eq k) _ (fun x => RowFill.pay_eq _ _ 0 0 k.val 0 0 0 _ hk (by decide) (by decide) rfl _ (k2_off264_eq k) _ (k2_off265_eq k) _ _ x) ?_
  exact RowFill.RowFill.zero _ _ _ _ _ _

end Cert.KernelIdeal.TileBody
-- ==== Proof.TileLoop06.lean ====
/-
  Loop 6 of the tile body: one trip fills one row of a staging slot, sixteen lanes at a time, and leaves the
  loop's invariant at the next row.
-/
import proofs.«206219_g40982577938455_cont_8to1_b_1362_29_alg».proof.Proof.TileSetup

noncomputable section

namespace Cert.KernelIdeal

open Idealize.ShloMosaic Idealize.SL.Sem
open Cert.KernelIdeal.Gen

variable {F : FTy → Type} [FloatOps F]

/-- The region of the loop, as the kernel's text has it. -/
noncomputable def region06 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_169 : BitVec 32) (c1_i32_171 : BitVec 32) (k2_t6 : Fin k2_t6_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part42 i arg2 harg2 arg3 harg3 arg4 harg4 arg5 harg5 arg6 harg6 arg7 arg8 v661_r0 c0_i32_169 c1_i32_171 k2_t6
  let ⟨v734, c1_i32_809⟩ : Σ' (v734 : FVec F S16 .f32), BitVec 32 ← k2_part43 i arg2 harg2 arg3 harg3 arg4 harg4 arg5 harg5 arg6 harg6 arg7 arg8 v661_r0 k2_t6 arg9 v694
  k2_part44 i arg2 harg2 arg3 harg3 arg4 harg4 arg5 harg5 arg6 harg6 arg7 arg8 v661_r0 k2_t6 arg9 v734 c1_i32_809
  let v810 : FVec F S1x1x1x16 .f32 ← k2_part45 i arg2 harg2 arg3 harg3 arg4 harg4 arg5 harg5 arg6 harg6 arg7 arg8 v661_r0 k2_t6 arg9
  let v844 : FVec F S16 .f32 ← k2_part46 i arg2 harg2 arg3 harg3 arg4 harg4 arg5 harg5 arg6 harg6 arg7 arg8 v661_r0 k2_t6 arg9 v810
  let ⟨v884, c1_i32_869⟩ : Σ' (v884 : FVec F S16 .f32), BitVec 32 ← k2_part47 i arg2 harg2 arg3 harg3 arg4 harg4 arg5 harg5 arg6 harg6 arg7 arg8 v661_r0 k2_t6 arg9 v844
  k2_part48 i arg2 harg2 arg3 harg3 arg4 harg4 arg5 harg5 arg6 harg6 arg7 arg8 v661_r0 k2_t6 arg9 v884 c1_i32_869
  let v960 : FVec F S1x1x1x16 .f32 ← k2_part49 i arg2 harg2 arg3 harg3 arg4 harg4 arg5 harg5 arg6 harg6 arg7 arg8 v661_r0 k2_t6 arg9
  Prog.lift (.store arg6 (Rect.unit (s := S2x32x4x256) (k2_off389 k2_t6) S1x1x1x16.size (k2_off389_inb k2_t6)) v960 Finset.univ (View.stores_vmem_bits_univ h_S1x1x1x16 rfl) (.inl rfl))
  let c1_i32_900 : BitVec 32 := 1#32
  let v961 : Index := Scalar.indexCast c1_i32_900
  let v962 : Index := Scalar.indexCast arg9
  let c480 : Index := 480#32
  let v963 : Vec F S1x1x16 .f32 ← Prog.lift (.load arg5 (Rect.unit (s := S2x32x512) (k2_off390 k2_t6) S1x1x16.size (k2_off390_inb k2_t6)).toLoadRect (View.loadsAt_vmem h_S1x1x16))
  have v964 : FVec F S16 .f32 := shapeCast S16 v963 shapeCasts_S1x1x16_S16
  let c1_i32_901 : BitVec 32 := 1#32
  let c3_i32_902 : BitVec 32 := 3#32
  let v965 : Index := Scalar.indexCast c1_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off391 k2_t6) S1x1x1x16.size (k2_off391_inb k2_t6)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off391 k2_t6) S1x1x1x16.size (k2_off391_inb k2_t6)) v970 Finset.univ (View.stores_vmem_bits_univ h_S1x1x1x16 rfl) (.inl rfl))
  let c1_i32_904 : BitVec 32 := 1#32
  let v971 : Index := Scalar.indexCast c1_i32_904
  let v972 : Index := Scalar.indexCast arg9
  let c496 : Index := 496#32
  let v973 : Vec F S1x1x16 .f32 ← Prog.lift (.load arg5 (Rect.unit (s := S2x32x512) (k2_off392 k2_t6) S1x1x16.size (k2_off392_inb k2_t6)).toLoadRect (View.loadsAt_vmem h_S1x1x16))
  have v974 : FVec F S16 .f32 := shapeCast S16 v973 shapeCasts_S1x1x16_S16
  let c1_i32_905 : BitVec 32 := 1#32
  let c3_i32_906 : BitVec 32 := 3#32
  let v975 : Index := Scalar.indexCast c1_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off393 k2_t6) S1x1x1x16.size (k2_off393_inb k2_t6)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off393 k2_t6) S1x1x1x16.size (k2_off393_inb k2_t6)) v980 Finset.univ (View.stores_vmem_bits_univ h_S1x1x1x16 rfl) (.inl rfl))
  pure ⟨⟩

end Cert.KernelIdeal

namespace Cert.KernelIdeal.TileBody

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop06 (A : Buf (Elt F) ((thr d L).loc cc2_scratch0)) (G : Buf (Elt F) ((thr d L).loc cc2_scratch1))
    (k : Fin k2_t6_loop.trips) (acc : PUnit) :
    (invFill1 (F := F) d L 0 A G k.val acc : sProp 𝕄)
      ⊢ wp frame (wpE (defs₀ (F := F)) 𝒱₀ (thr d L) none) Set.univ
          (region06 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill1 (F := F) d L 0 A G (k.val + 1)) := by
  have hk : (k : ℕ) < 32 := lt_of_lt_of_le k.isLt k2_t6_abs.2.1
  unfold invFill1 region06
  iintro ⟨Ha1, %h, Hb1, %hF⟩
  sl_exec
  sl_step
  isplitl [Ha1]; · iexact Ha1
  iexists _; isplitl [Hb1]; · iexact Hb1
  ipureintro
  refine RowFill.Filled.succ _ 1 0 k.val _ _ h _ hF ?_
  refine RowFill.RowFill.step _ 1 k.val 0 31 3 7 (by decide) rfl _ _ _ _ (k2_off393_eq k) _ (fun x => RowFill.pay_eq _ _ 1 1 k.val 0 3 7 _ hk (by decide) (by decide) rfl _ (k2_off392_eq k) _ (k2_off393_eq k) _ _ x) ?_
  refine RowFill.RowFill.step _ 1 k.val 0 30 3 6 (by decide) rfl _ _ _ _ (k2_off391_eq k) _ (fun x => RowFill.pay_eq _ _ 1 1 k.val 0 3 6 _ hk (by decide) (by decide) rfl _ (k2_off390_eq k) _ (k2_off391_eq k) _ _ x) ?_
  refine RowFill.RowFill.step _ 1 k.val 0 29 3 5 (by decide) rfl _ _ _ _ (k2_off389_eq k) _ (fun x => RowFill.pay_eq _ _ 1 1 k.val 0 3 5 _ hk (by decide) (by decide) rfl _ (k2_off388_eq k) _ (k2_off389_eq k) _ _ x) ?_
  refine RowFill.RowFill.step _ 1 k.val 0 28 3 4 (by decide) rfl _ _ _ _ (k2_off387_eq k) _ (fun x => RowFill.pay_eq _ _ 1 1 k.val 0 3 4 _ hk (by decide) (by decide) rfl _ (k2_off386_eq k) _ (k2_off387_eq k) _ _ x) ?_
  refine RowFill.RowFill.step _ 1 k.val 0 27 3 3 (by decide) rfl _ _ _ _ (k2_off385_eq k) _ (fun x => RowFill.pay_eq _ _ 1 1 k.val 0 3 3 _ hk (by decide) (by decide) rfl _ (k2_off384_eq k) _ (k2_off385_eq k) _ _ x) ?_
  refine RowFill.RowFill.step _ 1 k.val 0 26 3 2 (by decide) rfl _ _ _ _ (k2_off383_eq k) _ (fun x => RowFill.pay_eq _ _ 1 1 k.val 0 3 2 _ hk (by decide) (by decide) rfl _ (k2_off382_eq k) _ (k2_off383_eq k) _ _ x) ?_
  refine RowFill.RowFill.step _ 1 k.val 0 25 3 1 (by decide) rfl _ _ _ _ (k2_off381_eq k) _ (fun x => RowFill.pay_eq _ _ 1 1 k.val 0 3 1 _ hk (by decide) (by decide) rfl _ (k2_off380_eq k) _ (k2_off381_eq k) _ _ x) ?_
  refine RowFill.RowFill.step _ 1 k.val 0 24 3 0 (by decide) rfl _ _ _ _ (k2_off379_eq k) _ (fun x => RowFill.pay_eq _ _ 1 1 k.val 0 3 0 _ hk (by decide) (by decide) rfl _ (k2_off378_eq k) _ (k2_off379_eq k) _ _ x) ?_
  refine RowFill.RowFill.step _ 1 k.val 0 23 2 7 (by decide) rfl _ _ _ _ (k2_off377_eq k) _ (fun x => RowFill.pay_eq _ _ 1 1 k.val 0 2 7 _ hk (by decide) (by decide) rfl _ (k2_off376_eq k) _ (k2_off377_eq k) _ _ x) ?_
  refine RowFill.RowFill.step _ 1 k.val 0 22 2 6 (by decide) rfl _ _ _ _ (k2_off375_eq k) _ (fun x => RowFill.pay_eq _ _ 1 1 k.val 0 2 6 _ hk (by decide) (by decide) rfl _ (k2_off374_eq k) _ (k2_off375_eq k) _ _ x) ?_
  refine RowFill.RowFill.step _ 1 k.val 0 21 2 5 (by decide) rfl _ _ _ _ (k2_off373_eq k) _ (fun x => RowFill.pay_eq _ _ 1 1 k.val 0 2 5 _ hk (by decide) (by decide) rfl _ (k2_off372_eq k) _ (k2_off373_eq k) _ _ x) ?_
  refine RowFill.RowFill.step _ 1 k.val 0 20 2 4 (by decide) rfl _ _ _ _ (k2_off371_eq k) _ (fun x => RowFill.pay_eq _ _ 1 1 k.val 0 2 4 _ hk (by decide) (by decide) rfl _ (k2_off370_eq k) _ (k2_off371_eq k) _ _ x) ?_
  refine RowFill.RowFill.step _ 1 k.val 0 19 2 3 (by decide) rfl _ _ _ _ (k2_off369_eq k) _ (fun x => RowFill.pay_eq _ _ 1 1 k.val 0 2 3 _ hk (by decide) (by decide) rfl _ (k2_off368_eq k) _ (k2_off369_eq k) _ _ x) ?_
  refine RowFill.RowFill.step _ 1 k.val 0 18 2 2 (by decide) rfl _ _ _ _ (k2_off367_eq k) _ (fun x => RowFill.pay_eq _ _ 1 1 k.val 0 2 2 _ hk (by decide) (by decide) rfl _ (k2_off366_eq k) _ (k2_off367_eq k) _ _ x) ?_
  refine RowFill.RowFill.step _ 1 k.val 0 17 2 1 (by decide) rfl _ _ _ _ (k2_off365_eq k) _ (fun x => RowFill.pay_eq _ _ 1 1 k.val 0 2 1 _ hk (by decide) (by decide) rfl _ (k2_off364_eq k) _ (k2_off365_eq k) _ _ x) ?_
  refine RowFill.RowFill.step _ 1 k.val 0 16 2 0 (by decide) rfl _ _ _ _ (k2_off363_eq k) _ (fun x => RowFill.pay_eq _ _ 1 1 k.val 0 2 0 _ hk (by decide) (by decide) rfl _ (k2_off362_eq k) _ (k2_off363_eq k) _ _ x) ?_
  refine RowFill.RowFill.step _ 1 k.val 0 15 1 7 (by decide) rfl _ _ _ _ (k2_off361_eq k) _ (fun x => RowFill.pay_eq _ _ 1 1 k.val 0 1 7 _ hk (by decide) (by decide) rfl _ (k2_off360_eq k) _ (k2_off361_eq k) _ _ x) ?_
  refine RowFill.RowFill.step _ 1 k.val 0 14 1 6 (by decide) rfl _ _ _ _ (k2_off359_eq k) _ (fun x => RowFill.pay_eq _ _ 1 1 k.val 0 1 6 _ hk (by decide) (by decide) rfl _ (k2_off358_eq k) _ (k2_off359_eq k) _ _ x) ?_
  refine RowFill.RowFill.step _ 1 k.val 0 13 1 5 (by decide) rfl _ _ _ _ (k2_off357_eq k) _ (fun x => RowFill.pay_eq _ _ 1 1 k.val 0 1 5 _ hk (by decide) (by decide) rfl _ (k2_off356_eq k) _ (k2_off357_eq k) _ _ x) ?_
  refine RowFill.RowFill.step _ 1 k.val 0 12 1 4 (by decide) rfl _ _ _ _ (k2_off355_eq k) _ (fun x => RowFill.pay_eq _ _ 1 1 k.val 0 1 4 _ hk (by decide) (by decide) rfl _ (k2_off354_eq k) _ (k2_off355_eq k) _ _ x) ?_
  refine RowFill.RowFill.step _ 1 k.val 0 11 1 3 (by decide) rfl _ _ _ _ (k2_off353_eq k) _ (fun x => RowFill.pay_eq _ _ 1 1 k.val 0 1 3 _ hk (by decide) (by decide) rfl _ (k2_off352_eq k) _ (k2_off353_eq k) _ _ x) ?_
  refine RowFill.RowFill.step _ 1 k.val 0 10 1 2 (by decide) rfl _ _ _ _ (k2_off351_eq k) _ (fun x => RowFill.pay_eq _ _ 1 1 k.val 0 1 2 _ hk (by decide) (by decide) rfl _ (k2_off350_eq k) _ (k2_off351_eq k) _ _ x) ?_
  refine RowFill.RowFill.step _ 1 k.val 0 9 1 1 (by decide) rfl _ _ _ _ (k2_off349_eq k) _ (fun x => RowFill.pay_eq _ _ 1 1 k.val 0 1 1 _ hk (by decide) (by decide) rfl _ (k2_off348_eq k) _ (k2_off349_eq k) _ _ x) ?_
  refine RowFill.RowFill.step _ 1 k.val 0 8 1 0 (by decide) rfl _ _ _ _ (k2_off347_eq k) _ (fun x => RowFill.pay_eq _ _ 1 1 k.val 0 1 0 _ hk (by decide) (by decide) rfl _ (k2_off346_eq k) _ (k2_off347_eq k) _ _ x) ?_
  refine RowFill.RowFill.step _ 1 k.val 0 7 0 7 (by decide) rfl _ _ _ _ (k2_off345_eq k) _ (fun x => RowFill.pay_eq _ _ 1 1 k.val 0 0 7 _ hk (by decide) (by decide) rfl _ (k2_off344_eq k) _ (k2_off345_eq k) _ _ x) ?_
  refine RowFill.RowFill.step _ 1 k.val 0 6 0 6 (by decide) rfl _ _ _ _ (k2_off343_eq k) _ (fun x => RowFill.pay_eq _ _ 1 1 k.val 0 0 6 _ hk (by decide) (by decide) rfl _ (k2_off342_eq k) _ (k2_off343_eq k) _ _ x) ?_
  refine RowFill.RowFill.step _ 1 k.val 0 5 0 5 (by decide) rfl _ _ _ _ (k2_off341_eq k) _ (fun x => RowFill.pay_eq _ _ 1 1 k.val 0 0 5 _ hk (by decide) (by decide) rfl _ (k2_off340_eq k) _ (k2_off341_eq k) _ _ x) ?_
  refine RowFill.RowFill.step _ 1 k.val 0 4 0 4 (by decide) rfl _ _ _ _ (k2_off339_eq k) _ (fun x => RowFill.pay_eq _ _ 1 1 k.val 0 0 4 _ hk (by decide) (by decide) rfl _ (k2_off338_eq k) _ (k2_off339_eq k) _ _ x) ?_
  refine RowFill.RowFill.step _ 1 k.val 0 3 0 3 (by decide) rfl _ _ _ _ (k2_off337_eq k) _ (fun x => RowFill.pay_eq _ _ 1 1 k.val 0 0 3 _ hk (by decide) (by decide) rfl _ (k2_off336_eq k) _ (k2_off337_eq k) _ _ x) ?_
  refine RowFill.RowFill.step _ 1 k.val 0 2 0 2 (by decide) rfl _ _ _ _ (k2_off335_eq k) _ (fun x => RowFill.pay_eq _ _ 1 1 k.val 0 0 2 _ hk (by decide) (by decide) rfl _ (k2_off334_eq k) _ (k2_off335_eq k) _ _ x) ?_
  refine RowFill.RowFill.step _ 1 k.val 0 1 0 1 (by decide) rfl _ _ _ _ (k2_off333_eq k) _ (fun x => RowFill.pay_eq _ _ 1 1 k.val 0 0 1 _ hk (by decide) (by decide) rfl _ (k2_off332_eq k) _ (k2_off333_eq k) _ _ x) ?_
  refine RowFill.RowFill.step _ 1 k.val 0 0 0 0 (by decide) rfl _ _ _ _ (k2_off331_eq k) _ (fun x => RowFill.pay_eq _ _ 1 1 k.val 0 0 0 _ hk (by decide) (by decide) rfl _ (k2_off330_eq k) _ (k2_off331_eq k) _ _ x) ?_
  exact RowFill.RowFill.zero _ _ _ _ _ _

end Cert.KernelIdeal.TileBody
-- ==== Proof.TileLoop07.lean ====
/-
  Loop 7 of the tile body: one trip fills one row of a staging slot, sixteen lanes at a time, and leaves the
  loop's invariant at the next row.
-/
import proofs.«206219_g40982577938455_cont_8to1_b_1362_29_alg».proof.Proof.TileSetup

noncomputable section

namespace Cert.KernelIdeal

open Idealize.ShloMosaic Idealize.SL.Sem
open Cert.KernelIdeal.Gen

variable {F : FTy → Type} [FloatOps F]

/-- The region of the loop, as the kernel's text has it. -/
noncomputable def region07 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_217 : BitVec 32) (c1_i32_219 : BitVec 32) (k2_t7 : Fin k2_t7_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part50 i arg2 harg2 arg3 harg3 arg4 harg4 arg5 harg5 arg6 harg6 arg7 arg8 v661_r0 c0_i32_217 c1_i32_219 k2_t7
  let ⟨v734, c0_i32_809⟩ : Σ' (v734 : FVec F S16 .f32), BitVec 32 ← k2_part51 i arg2 harg2 arg3 harg3 arg4 harg4 arg5 harg5 arg6 harg6 arg7 arg8 v661_r0 k2_t7 arg9 v694
  k2_part52 i arg2 harg2 arg3 harg3 arg4 harg4 arg5 harg5 arg6 harg6 arg7 arg8 v661_r0 k2_t7 arg9 v734 c0_i32_809
  let v810 : FVec F S1x1x1x16 .f32 ← k2_part53 i arg2 harg2 arg3 harg3 arg4 harg4 arg5 harg5 arg6 harg6 arg7 arg8 v661_r0 k2_t7 arg9
  let v844 : FVec F S16 .f32 ← k2_part54 i arg2 harg2 arg3 harg3 arg4 harg4 arg5 harg5 arg6 harg6 arg7 arg8 v661_r0 k2_t7 arg9 v810
  let ⟨v884, c0_i32_869⟩ : Σ' (v884 : FVec F S16 .f32), BitVec 32 ← k2_part55 i arg2 harg2 arg3 harg3 arg4 harg4 arg5 harg5 arg6 harg6 arg7 arg8 v661_r0 k2_t7 arg9 v844
  k2_part56 i arg2 harg2 arg3 harg3 arg4 harg4 arg5 harg5 arg6 harg6 arg7 arg8 v661_r0 k2_t7 arg9 v884 c0_i32_869
  let v960 : FVec F S1x1x1x16 .f32 ← k2_part57 i arg2 harg2 arg3 harg3 arg4 harg4 arg5 harg5 arg6 harg6 arg7 arg8 v661_r0 k2_t7 arg9
  Prog.lift (.store arg6 (Rect.unit (s := S2x32x4x256) (k2_off455 k2_t7) S1x1x1x16.size (k2_off455_inb k2_t7)) v960 Finset.univ (View.stores_vmem_bits_univ h_S1x1x1x16 rfl) (.inl rfl))
  let c0_i32_900 : BitVec 32 := 0#32
  let v961 : Index := Scalar.indexCast c0_i32_900
  let v962 : Index := Scalar.indexCast arg9
  let c480 : Index := 480#32
  let v963 : Vec F S1x1x16 .f32 ← Prog.lift (.load arg5 (Rect.unit (s := S2x32x512) (k2_off456 k2_t7) S1x1x16.size (k2_off456_inb k2_t7)).toLoadRect (View.loadsAt_vmem h_S1x1x16))
  have v964 : FVec F S16 .f32 := shapeCast S16 v963 shapeCasts_S1x1x16_S16
  let c0_i32_901 : BitVec 32 := 0#32
  let c3_i32_902 : BitVec 32 := 3#32
  let v965 : Index := Scalar.indexCast c0_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off457 k2_t7) S1x1x1x16.size (k2_off457_inb k2_t7)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off457 k2_t7) S1x1x1x16.size (k2_off457_inb k2_t7)) v970 Finset.univ (View.stores_vmem_bits_univ h_S1x1x1x16 rfl) (.inl rfl))
  let c0_i32_904 : BitVec 32 := 0#32
  let v971 : Index := Scalar.indexCast c0_i32_904
  let v972 : Index := Scalar.indexCast arg9
  let c496 : Index := 496#32
  let v973 : Vec F S1x1x16 .f32 ← Prog.lift (.load arg5 (Rect.unit (s := S2x32x512) (k2_off458 k2_t7) S1x1x16.size (k2_off458_inb k2_t7)).toLoadRect (View.loadsAt_vmem h_S1x1x16))
  have v974 : FVec F S16 .f32 := shapeCast S16 v973 shapeCasts_S1x1x16_S16
  let c0_i32_905 : BitVec 32 := 0#32
  let c3_i32_906 : BitVec 32 := 3#32
  let v975 : Index := Scalar.indexCast c0_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off459 k2_t7) S1x1x1x16.size (k2_off459_inb k2_t7)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off459 k2_t7) S1x1x1x16.size (k2_off459_inb k2_t7)) v980 Finset.univ (View.stores_vmem_bits_univ h_S1x1x1x16 rfl) (.inl rfl))
  pure ⟨⟩

end Cert.KernelIdeal

namespace Cert.KernelIdeal.TileBody

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop07 (A : Buf (Elt F) ((thr d L).loc cc2_scratch0)) (G : Buf (Elt F) ((thr d L).loc cc2_scratch1))
    (k : Fin k2_t7_loop.trips) (acc : PUnit) :
    (invFill0 (F := F) d L 0 A G k.val acc : sProp 𝕄)
      ⊢ wp frame (wpE (defs₀ (F := F)) 𝒱₀ (thr d L) none) Set.univ
          (region07 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill0 (F := F) d L 0 A G (k.val + 1)) := by
  have hk : (k : ℕ) < 32 := lt_of_lt_of_le k.isLt k2_t7_abs.2.1
  unfold invFill0 region07
  iintro ⟨Ha0, %h, Hb0, %hF⟩
  sl_exec
  sl_step
  isplitl [Ha0]; · iexact Ha0
  iexists _; isplitl [Hb0]; · iexact Hb0
  ipureintro
  refine RowFill.Filled.succ _ 0 0 k.val _ _ h _ hF ?_
  refine RowFill.RowFill.step _ 0 k.val 0 31 3 7 (by decide) rfl _ _ _ _ (k2_off459_eq k) _ (fun x => RowFill.pay_eq _ _ 0 0 k.val 0 3 7 _ hk (by decide) (by decide) rfl _ (k2_off458_eq k) _ (k2_off459_eq k) _ _ x) ?_
  refine RowFill.RowFill.step _ 0 k.val 0 30 3 6 (by decide) rfl _ _ _ _ (k2_off457_eq k) _ (fun x => RowFill.pay_eq _ _ 0 0 k.val 0 3 6 _ hk (by decide) (by decide) rfl _ (k2_off456_eq k) _ (k2_off457_eq k) _ _ x) ?_
  refine RowFill.RowFill.step _ 0 k.val 0 29 3 5 (by decide) rfl _ _ _ _ (k2_off455_eq k) _ (fun x => RowFill.pay_eq _ _ 0 0 k.val 0 3 5 _ hk (by decide) (by decide) rfl _ (k2_off454_eq k) _ (k2_off455_eq k) _ _ x) ?_
  refine RowFill.RowFill.step _ 0 k.val 0 28 3 4 (by decide) rfl _ _ _ _ (k2_off453_eq k) _ (fun x => RowFill.pay_eq _ _ 0 0 k.val 0 3 4 _ hk (by decide) (by decide) rfl _ (k2_off452_eq k) _ (k2_off453_eq k) _ _ x) ?_
  refine RowFill.RowFill.step _ 0 k.val 0 27 3 3 (by decide) rfl _ _ _ _ (k2_off451_eq k) _ (fun x => RowFill.pay_eq _ _ 0 0 k.val 0 3 3 _ hk (by decide) (by decide) rfl _ (k2_off450_eq k) _ (k2_off451_eq k) _ _ x) ?_
  refine RowFill.RowFill.step _ 0 k.val 0 26 3 2 (by decide) rfl _ _ _ _ (k2_off449_eq k) _ (fun x => RowFill.pay_eq _ _ 0 0 k.val 0 3 2 _ hk (by decide) (by decide) rfl _ (k2_off448_eq k) _ (k2_off449_eq k) _ _ x) ?_
  refine RowFill.RowFill.step _ 0 k.val 0 25 3 1 (by decide) rfl _ _ _ _ (k2_off447_eq k) _ (fun x => RowFill.pay_eq _ _ 0 0 k.val 0 3 1 _ hk (by decide) (by decide) rfl _ (k2_off446_eq k) _ (k2_off447_eq k) _ _ x) ?_
  refine RowFill.RowFill.step _ 0 k.val 0 24 3 0 (by decide) rfl _ _ _ _ (k2_off445_eq k) _ (fun x => RowFill.pay_eq _ _ 0 0 k.val 0 3 0 _ hk (by decide) (by decide) rfl _ (k2_off444_eq k) _ (k2_off445_eq k) _ _ x) ?_
  refine RowFill.RowFill.step _ 0 k.val 0 23 2 7 (by decide) rfl _ _ _ _ (k2_off443_eq k) _ (fun x => RowFill.pay_eq _ _ 0 0 k.val 0 2 7 _ hk (by decide) (by decide) rfl _ (k2_off442_eq k) _ (k2_off443_eq k) _ _ x) ?_
  refine RowFill.RowFill.step _ 0 k.val 0 22 2 6 (by decide) rfl _ _ _ _ (k2_off441_eq k) _ (fun x => RowFill.pay_eq _ _ 0 0 k.val 0 2 6 _ hk (by decide) (by decide) rfl _ (k2_off440_eq k) _ (k2_off441_eq k) _ _ x) ?_
  refine RowFill.RowFill.step _ 0 k.val 0 21 2 5 (by decide) rfl _ _ _ _ (k2_off439_eq k) _ (fun x => RowFill.pay_eq _ _ 0 0 k.val 0 2 5 _ hk (by decide) (by decide) rfl _ (k2_off438_eq k) _ (k2_off439_eq k) _ _ x) ?_
  refine RowFill.RowFill.step _ 0 k.val 0 20 2 4 (by decide) rfl _ _ _ _ (k2_off437_eq k) _ (fun x => RowFill.pay_eq _ _ 0 0 k.val 0 2 4 _ hk (by decide) (by decide) rfl _ (k2_off436_eq k) _ (k2_off437_eq k) _ _ x) ?_
  refine RowFill.RowFill.step _ 0 k.val 0 19 2 3 (by decide) rfl _ _ _ _ (k2_off435_eq k) _ (fun x => RowFill.pay_eq _ _ 0 0 k.val 0 2 3 _ hk (by decide) (by decide) rfl _ (k2_off434_eq k) _ (k2_off435_eq k) _ _ x) ?_
  refine RowFill.RowFill.step _ 0 k.val 0 18 2 2 (by decide) rfl _ _ _ _ (k2_off433_eq k) _ (fun x => RowFill.pay_eq _ _ 0 0 k.val 0 2 2 _ hk (by decide) (by decide) rfl _ (k2_off432_eq k) _ (k2_off433_eq k) _ _ x) ?_
  refine RowFill.RowFill.step _ 0 k.val 0 17 2 1 (by decide) rfl _ _ _ _ (k2_off431_eq k) _ (fun x => RowFill.pay_eq _ _ 0 0 k.val 0 2 1 _ hk (by decide) (by decide) rfl _ (k2_off430_eq k) _ (k2_off431_eq k) _ _ x) ?_
  refine RowFill.RowFill.step _ 0 k.val 0 16 2 0 (by decide) rfl _ _ _ _ (k2_off429_eq k) _ (fun x => RowFill.pay_eq _ _ 0 0 k.val 0 2 0 _ hk (by decide) (by decide) rfl _ (k2_off428_eq k) _ (k2_off429_eq k) _ _ x) ?_
  refine RowFill.RowFill.step _ 0 k.val 0 15 1 7 (by decide) rfl _ _ _ _ (k2_off427_eq k) _ (fun x => RowFill.pay_eq _ _ 0 0 k.val 0 1 7 _ hk (by decide) (by decide) rfl _ (k2_off426_eq k) _ (k2_off427_eq k) _ _ x) ?_
  refine RowFill.RowFill.step _ 0 k.val 0 14 1 6 (by decide) rfl _ _ _ _ (k2_off425_eq k) _ (fun x => RowFill.pay_eq _ _ 0 0 k.val 0 1 6 _ hk (by decide) (by decide) rfl _ (k2_off424_eq k) _ (k2_off425_eq k) _ _ x) ?_
  refine RowFill.RowFill.step _ 0 k.val 0 13 1 5 (by decide) rfl _ _ _ _ (k2_off423_eq k) _ (fun x => RowFill.pay_eq _ _ 0 0 k.val 0 1 5 _ hk (by decide) (by decide) rfl _ (k2_off422_eq k) _ (k2_off423_eq k) _ _ x) ?_
  refine RowFill.RowFill.step _ 0 k.val 0 12 1 4 (by decide) rfl _ _ _ _ (k2_off421_eq k) _ (fun x => RowFill.pay_eq _ _ 0 0 k.val 0 1 4 _ hk (by decide) (by decide) rfl _ (k2_off420_eq k) _ (k2_off421_eq k) _ _ x) ?_
  refine RowFill.RowFill.step _ 0 k.val 0 11 1 3 (by decide) rfl _ _ _ _ (k2_off419_eq k) _ (fun x => RowFill.pay_eq _ _ 0 0 k.val 0 1 3 _ hk (by decide) (by decide) rfl _ (k2_off418_eq k) _ (k2_off419_eq k) _ _ x) ?_
  refine RowFill.RowFill.step _ 0 k.val 0 10 1 2 (by decide) rfl _ _ _ _ (k2_off417_eq k) _ (fun x => RowFill.pay_eq _ _ 0 0 k.val 0 1 2 _ hk (by decide) (by decide) rfl _ (k2_off416_eq k) _ (k2_off417_eq k) _ _ x) ?_
  refine RowFill.RowFill.step _ 0 k.val 0 9 1 1 (by decide) rfl _ _ _ _ (k2_off415_eq k) _ (fun x => RowFill.pay_eq _ _ 0 0 k.val 0 1 1 _ hk (by decide) (by decide) rfl _ (k2_off414_eq k) _ (k2_off415_eq k) _ _ x) ?_
  refine RowFill.RowFill.step _ 0 k.val 0 8 1 0 (by decide) rfl _ _ _ _ (k2_off413_eq k) _ (fun x => RowFill.pay_eq _ _ 0 0 k.val 0 1 0 _ hk (by decide) (by decide) rfl _ (k2_off412_eq k) _ (k2_off413_eq k) _ _ x) ?_
  refine RowFill.RowFill.step _ 0 k.val 0 7 0 7 (by decide) rfl _ _ _ _ (k2_off411_eq k) _ (fun x => RowFill.pay_eq _ _ 0 0 k.val 0 0 7 _ hk (by decide) (by decide) rfl _ (k2_off410_eq k) _ (k2_off411_eq k) _ _ x) ?_
  refine RowFill.RowFill.step _ 0 k.val 0 6 0 6 (by decide) rfl _ _ _ _ (k2_off409_eq k) _ (fun x => RowFill.pay_eq _ _ 0 0 k.val 0 0 6 _ hk (by decide) (by decide) rfl _ (k2_off408_eq k) _ (k2_off409_eq k) _ _ x) ?_
  refine RowFill.RowFill.step _ 0 k.val 0 5 0 5 (by decide) rfl _ _ _ _ (k2_off407_eq k) _ (fun x => RowFill.pay_eq _ _ 0 0 k.val 0 0 5 _ hk (by decide) (by decide) rfl _ (k2_off406_eq k) _ (k2_off407_eq k) _ _ x) ?_
  refine RowFill.RowFill.step _ 0 k.val 0 4 0 4 (by decide) rfl _ _ _ _ (k2_off405_eq k) _ (fun x => RowFill.pay_eq _ _ 0 0 k.val 0 0 4 _ hk (by decide) (by decide) rfl _ (k2_off404_eq k) _ (k2_off405_eq k) _ _ x) ?_
  refine RowFill.RowFill.step _ 0 k.val 0 3 0 3 (by decide) rfl _ _ _ _ (k2_off403_eq k) _ (fun x => RowFill.pay_eq _ _ 0 0 k.val 0 0 3 _ hk (by decide) (by decide) rfl _ (k2_off402_eq k) _ (k2_off403_eq k) _ _ x) ?_
  refine RowFill.RowFill.step _ 0 k.val 0 2 0 2 (by decide) rfl _ _ _ _ (k2_off401_eq k) _ (fun x => RowFill.pay_eq _ _ 0 0 k.val 0 0 2 _ hk (by decide) (by decide) rfl _ (k2_off400_eq k) _ (k2_off401_eq k) _ _ x) ?_
  refine RowFill.RowFill.step _ 0 k.val 0 1 0 1 (by decide) rfl _ _ _ _ (k2_off399_eq k) _ (fun x => RowFill.pay_eq _ _ 0 0 k.val 0 0 1 _ hk (by decide) (by decide) rfl _ (k2_off398_eq k) _ (k2_off399_eq k) _ _ x) ?_
  refine RowFill.RowFill.step _ 0 k.val 0 0 0 0 (by decide) rfl _ _ _ _ (k2_off397_eq k) _ (fun x => RowFill.pay_eq _ _ 0 0 k.val 0 0 0 _ hk (by decide) (by decide) rfl _ (k2_off396_eq k) _ (k2_off397_eq k) _ _ x) ?_
  exact RowFill.RowFill.zero _ _ _ _ _ _

end Cert.KernelIdeal.TileBody
-- ==== Proof.TileLoop08.lean ====
/-
  Loop 8 of the tile body: one trip fills one row of a staging slot, sixteen lanes at a time, and leaves the
  loop's invariant at the next row.
-/
import proofs.«206219_g40982577938455_cont_8to1_b_1362_29_alg».proof.Proof.TileSetup

noncomputable section

namespace Cert.KernelIdeal

open Idealize.ShloMosaic Idealize.SL.Sem
open Cert.KernelIdeal.Gen

variable {F : FTy → Type} [FloatOps F]

/-- The region of the loop, as the kernel's text has it. -/
noncomputable def region08 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_265 : BitVec 32) (c1_i32_267 : BitVec 32) (k2_t8 : Fin k2_t8_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part58 i arg2 harg2 arg3 harg3 arg4 harg4 arg5 harg5 arg6 harg6 arg7 arg8 v661_r0 c0_i32_265 c1_i32_267 k2_t8
  let ⟨v734, c1_i32_809⟩ : Σ' (v734 : FVec F S16 .f32), BitVec 32 ← k2_part59 i arg2 harg2 arg3 harg3 arg4 harg4 arg5 harg5 arg6 harg6 arg7 arg8 v661_r0 k2_t8 arg9 v694
  k2_part60 i arg2 harg2 arg3 harg3 arg4 harg4 arg5 harg5 arg6 harg6 arg7 arg8 v661_r0 k2_t8 arg9 v734 c1_i32_809
  let v810 : FVec F S1x1x1x16 .f32 ← k2_part61 i arg2 harg2 arg3 harg3 arg4 harg4 arg5 harg5 arg6 harg6 arg7 arg8 v661_r0 k2_t8 arg9
  let v844 : FVec F S16 .f32 ← k2_part62 i arg2 harg2 arg3 harg3 arg4 harg4 arg5 harg5 arg6 harg6 arg7 arg8 v661_r0 k2_t8 arg9 v810
  let ⟨v884, c1_i32_869⟩ : Σ' (v884 : FVec F S16 .f32), BitVec 32 ← k2_part63 i arg2 harg2 arg3 harg3 arg4 harg4 arg5 harg5 arg6 harg6 arg7 arg8 v661_r0 k2_t8 arg9 v844
  k2_part64 i arg2 harg2 arg3 harg3 arg4 harg4 arg5 harg5 arg6 harg6 arg7 arg8 v661_r0 k2_t8 arg9 v884 c1_i32_869
  let v960 : FVec F S1x1x1x16 .f32 ← k2_part65 i arg2 harg2 arg3 harg3 arg4 harg4 arg5 harg5 arg6 harg6 arg7 arg8 v661_r0 k2_t8 arg9
  Prog.lift (.store arg6 (Rect.unit (s := S2x32x4x256) (k2_off521 k2_t8) S1x1x1x16.size (k2_off521_inb k2_t8)) v960 Finset.univ (View.stores_vmem_bits_univ h_S1x1x1x16 rfl) (.inl rfl))
  let c1_i32_900 : BitVec 32 := 1#32
  let v961 : Index := Scalar.indexCast c1_i32_900
  let v962 : Index := Scalar.indexCast arg9
  let c480 : Index := 480#32
  let v963 : Vec F S1x1x16 .f32 ← Prog.lift (.load arg5 (Rect.unit (s := S2x32x512) (k2_off522 k2_t8) S1x1x16.size (k2_off522_inb k2_t8)).toLoadRect (View.loadsAt_vmem h_S1x1x16))
  have v964 : FVec F S16 .f32 := shapeCast S16 v963 shapeCasts_S1x1x16_S16
  let c1_i32_901 : BitVec 32 := 1#32
  let c3_i32_902 : BitVec 32 := 3#32
  let v965 : Index := Scalar.indexCast c1_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off523 k2_t8) S1x1x1x16.size (k2_off523_inb k2_t8)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off523 k2_t8) S1x1x1x16.size (k2_off523_inb k2_t8)) v970 Finset.univ (View.stores_vmem_bits_univ h_S1x1x1x16 rfl) (.inl rfl))
  let c1_i32_904 : BitVec 32 := 1#32
  let v971 : Index := Scalar.indexCast c1_i32_904
  let v972 : Index := Scalar.indexCast arg9
  let c496 : Index := 496#32
  let v973 : Vec F S1x1x16 .f32 ← Prog.lift (.load arg5 (Rect.unit (s := S2x32x512) (k2_off524 k2_t8) S1x1x16.size (k2_off524_inb k2_t8)).toLoadRect (View.loadsAt_vmem h_S1x1x16))
  have v974 : FVec F S16 .f32 := shapeCast S16 v973 shapeCasts_S1x1x16_S16
  let c1_i32_905 : BitVec 32 := 1#32
  let c3_i32_906 : BitVec 32 := 3#32
  let v975 : Index := Scalar.indexCast c1_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off525 k2_t8) S1x1x1x16.size (k2_off525_inb k2_t8)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off525 k2_t8) S1x1x1x16.size (k2_off525_inb k2_t8)) v980 Finset.univ (View.stores_vmem_bits_univ h_S1x1x1x16 rfl) (.inl rfl))
  pure ⟨⟩

end Cert.KernelIdeal

namespace Cert.KernelIdeal.TileBody

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop08 (A : Buf (Elt F) ((thr d L).loc cc2_scratch0)) (G : Buf (Elt F) ((thr d L).loc cc2_scratch1))
    (k : Fin k2_t8_loop.trips) (acc : PUnit) :
    (invFill1 (F := F) d L 0 A G k.val acc : sProp 𝕄)
      ⊢ wp frame (wpE (defs₀ (F := F)) 𝒱₀ (thr d L) none) Set.univ
          (region08 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill1 (F := F) d L 0 A G (k.val + 1)) := by
  have hk : (k : ℕ) < 32 := lt_of_lt_of_le k.isLt k2_t8_abs.2.1
  unfold invFill1 region08
  iintro ⟨Ha1, %h, Hb1, %hF⟩
  sl_exec
  sl_step
  isplitl [Ha1]; · iexact Ha1
  iexists _; isplitl [Hb1]; · iexact Hb1
  ipureintro
  refine RowFill.Filled.succ _ 1 0 k.val _ _ h _ hF ?_
  refine RowFill.RowFill.step _ 1 k.val 0 31 3 7 (by decide) rfl _ _ _ _ (k2_off525_eq k) _ (fun x => RowFill.pay_eq _ _ 1 1 k.val 0 3 7 _ hk (by decide) (by decide) rfl _ (k2_off524_eq k) _ (k2_off525_eq k) _ _ x) ?_
  refine RowFill.RowFill.step _ 1 k.val 0 30 3 6 (by decide) rfl _ _ _ _ (k2_off523_eq k) _ (fun x => RowFill.pay_eq _ _ 1 1 k.val 0 3 6 _ hk (by decide) (by decide) rfl _ (k2_off522_eq k) _ (k2_off523_eq k) _ _ x) ?_
  refine RowFill.RowFill.step _ 1 k.val 0 29 3 5 (by decide) rfl _ _ _ _ (k2_off521_eq k) _ (fun x => RowFill.pay_eq _ _ 1 1 k.val 0 3 5 _ hk (by decide) (by decide) rfl _ (k2_off520_eq k) _ (k2_off521_eq k) _ _ x) ?_
  refine RowFill.RowFill.step _ 1 k.val 0 28 3 4 (by decide) rfl _ _ _ _ (k2_off519_eq k) _ (fun x => RowFill.pay_eq _ _ 1 1 k.val 0 3 4 _ hk (by decide) (by decide) rfl _ (k2_off518_eq k) _ (k2_off519_eq k) _ _ x) ?_
  refine RowFill.RowFill.step _ 1 k.val 0 27 3 3 (by decide) rfl _ _ _ _ (k2_off517_eq k) _ (fun x => RowFill.pay_eq _ _ 1 1 k.val 0 3 3 _ hk (by decide) (by decide) rfl _ (k2_off516_eq k) _ (k2_off517_eq k) _ _ x) ?_
  refine RowFill.RowFill.step _ 1 k.val 0 26 3 2 (by decide) rfl _ _ _ _ (k2_off515_eq k) _ (fun x => RowFill.pay_eq _ _ 1 1 k.val 0 3 2 _ hk (by decide) (by decide) rfl _ (k2_off514_eq k) _ (k2_off515_eq k) _ _ x) ?_
  refine RowFill.RowFill.step _ 1 k.val 0 25 3 1 (by decide) rfl _ _ _ _ (k2_off513_eq k) _ (fun x => RowFill.pay_eq _ _ 1 1 k.val 0 3 1 _ hk (by decide) (by decide) rfl _ (k2_off512_eq k) _ (k2_off513_eq k) _ _ x) ?_
  refine RowFill.RowFill.step _ 1 k.val 0 24 3 0 (by decide) rfl _ _ _ _ (k2_off511_eq k) _ (fun x => RowFill.pay_eq _ _ 1 1 k.val 0 3 0 _ hk (by decide) (by decide) rfl _ (k2_off510_eq k) _ (k2_off511_eq k) _ _ x) ?_
  refine RowFill.RowFill.step _ 1 k.val 0 23 2 7 (by decide) rfl _ _ _ _ (k2_off509_eq k) _ (fun x => RowFill.pay_eq _ _ 1 1 k.val 0 2 7 _ hk (by decide) (by decide) rfl _ (k2_off508_eq k) _ (k2_off509_eq k) _ _ x) ?_
  refine RowFill.RowFill.step _ 1 k.val 0 22 2 6 (by decide) rfl _ _ _ _ (k2_off507_eq k) _ (fun x => RowFill.pay_eq _ _ 1 1 k.val 0 2 6 _ hk (by decide) (by decide) rfl _ (k2_off506_eq k) _ (k2_off507_eq k) _ _ x) ?_
  refine RowFill.RowFill.step _ 1 k.val 0 21 2 5 (by decide) rfl _ _ _ _ (k2_off505_eq k) _ (fun x => RowFill.pay_eq _ _ 1 1 k.val 0 2 5 _ hk (by decide) (by decide) rfl _ (k2_off504_eq k) _ (k2_off505_eq k) _ _ x) ?_
  refine RowFill.RowFill.step _ 1 k.val 0 20 2 4 (by decide) rfl _ _ _ _ (k2_off503_eq k) _ (fun x => RowFill.pay_eq _ _ 1 1 k.val 0 2 4 _ hk (by decide) (by decide) rfl _ (k2_off502_eq k) _ (k2_off503_eq k) _ _ x) ?_
  refine RowFill.RowFill.step _ 1 k.val 0 19 2 3 (by decide) rfl _ _ _ _ (k2_off501_eq k) _ (fun x => RowFill.pay_eq _ _ 1 1 k.val 0 2 3 _ hk (by decide) (by decide) rfl _ (k2_off500_eq k) _ (k2_off501_eq k) _ _ x) ?_
  refine RowFill.RowFill.step _ 1 k.val 0 18 2 2 (by decide) rfl _ _ _ _ (k2_off499_eq k) _ (fun x => RowFill.pay_eq _ _ 1 1 k.val 0 2 2 _ hk (by decide) (by decide) rfl _ (k2_off498_eq k) _ (k2_off499_eq k) _ _ x) ?_
  refine RowFill.RowFill.step _ 1 k.val 0 17 2 1 (by decide) rfl _ _ _ _ (k2_off497_eq k) _ (fun x => RowFill.pay_eq _ _ 1 1 k.val 0 2 1 _ hk (by decide) (by decide) rfl _ (k2_off496_eq k) _ (k2_off497_eq k) _ _ x) ?_
  refine RowFill.RowFill.step _ 1 k.val 0 16 2 0 (by decide) rfl _ _ _ _ (k2_off495_eq k) _ (fun x => RowFill.pay_eq _ _ 1 1 k.val 0 2 0 _ hk (by decide) (by decide) rfl _ (k2_off494_eq k) _ (k2_off495_eq k) _ _ x) ?_
  refine RowFill.RowFill.step _ 1 k.val 0 15 1 7 (by decide) rfl _ _ _ _ (k2_off493_eq k) _ (fun x => RowFill.pay_eq _ _ 1 1 k.val 0 1 7 _ hk (by decide) (by decide) rfl _ (k2_off492_eq k) _ (k2_off493_eq k) _ _ x) ?_
  refine RowFill.RowFill.step _ 1 k.val 0 14 1 6 (by decide) rfl _ _ _ _ (k2_off491_eq k) _ (fun x => RowFill.pay_eq _ _ 1 1 k.val 0 1 6 _ hk (by decide) (by decide) rfl _ (k2_off490_eq k) _ (k2_off491_eq k) _ _ x) ?_
  refine RowFill.RowFill.step _ 1 k.val 0 13 1 5 (by decide) rfl _ _ _ _ (k2_off489_eq k) _ (fun x => RowFill.pay_eq _ _ 1 1 k.val 0 1 5 _ hk (by decide) (by decide) rfl _ (k2_off488_eq k) _ (k2_off489_eq k) _ _ x) ?_
  refine RowFill.RowFill.step _ 1 k.val 0 12 1 4 (by decide) rfl _ _ _ _ (k2_off487_eq k) _ (fun x => RowFill.pay_eq _ _ 1 1 k.val 0 1 4 _ hk (by decide) (by decide) rfl _ (k2_off486_eq k) _ (k2_off487_eq k) _ _ x) ?_
  refine RowFill.RowFill.step _ 1 k.val 0 11 1 3 (by decide) rfl _ _ _ _ (k2_off485_eq k) _ (fun x => RowFill.pay_eq _ _ 1 1 k.val 0 1 3 _ hk (by decide) (by decide) rfl _ (k2_off484_eq k) _ (k2_off485_eq k) _ _ x) ?_
  refine RowFill.RowFill.step _ 1 k.val 0 10 1 2 (by decide) rfl _ _ _ _ (k2_off483_eq k) _ (fun x => RowFill.pay_eq _ _ 1 1 k.val 0 1 2 _ hk (by decide) (by decide) rfl _ (k2_off482_eq k) _ (k2_off483_eq k) _ _ x) ?_
  refine RowFill.RowFill.step _ 1 k.val 0 9 1 1 (by decide) rfl _ _ _ _ (k2_off481_eq k) _ (fun x => RowFill.pay_eq _ _ 1 1 k.val 0 1 1 _ hk (by decide) (by decide) rfl _ (k2_off480_eq k) _ (k2_off481_eq k) _ _ x) ?_
  refine RowFill.RowFill.step _ 1 k.val 0 8 1 0 (by decide) rfl _ _ _ _ (k2_off479_eq k) _ (fun x => RowFill.pay_eq _ _ 1 1 k.val 0 1 0 _ hk (by decide) (by decide) rfl _ (k2_off478_eq k) _ (k2_off479_eq k) _ _ x) ?_
  refine RowFill.RowFill.step _ 1 k.val 0 7 0 7 (by decide) rfl _ _ _ _ (k2_off477_eq k) _ (fun x => RowFill.pay_eq _ _ 1 1 k.val 0 0 7 _ hk (by decide) (by decide) rfl _ (k2_off476_eq k) _ (k2_off477_eq k) _ _ x) ?_
  refine RowFill.RowFill.step _ 1 k.val 0 6 0 6 (by decide) rfl _ _ _ _ (k2_off475_eq k) _ (fun x => RowFill.pay_eq _ _ 1 1 k.val 0 0 6 _ hk (by decide) (by decide) rfl _ (k2_off474_eq k) _ (k2_off475_eq k) _ _ x) ?_
  refine RowFill.RowFill.step _ 1 k.val 0 5 0 5 (by decide) rfl _ _ _ _ (k2_off473_eq k) _ (fun x => RowFill.pay_eq _ _ 1 1 k.val 0 0 5 _ hk (by decide) (by decide) rfl _ (k2_off472_eq k) _ (k2_off473_eq k) _ _ x) ?_
  refine RowFill.RowFill.step _ 1 k.val 0 4 0 4 (by decide) rfl _ _ _ _ (k2_off471_eq k) _ (fun x => RowFill.pay_eq _ _ 1 1 k.val 0 0 4 _ hk (by decide) (by decide) rfl _ (k2_off470_eq k) _ (k2_off471_eq k) _ _ x) ?_
  refine RowFill.RowFill.step _ 1 k.val 0 3 0 3 (by decide) rfl _ _ _ _ (k2_off469_eq k) _ (fun x => RowFill.pay_eq _ _ 1 1 k.val 0 0 3 _ hk (by decide) (by decide) rfl _ (k2_off468_eq k) _ (k2_off469_eq k) _ _ x) ?_
  refine RowFill.RowFill.step _ 1 k.val 0 2 0 2 (by decide) rfl _ _ _ _ (k2_off467_eq k) _ (fun x => RowFill.pay_eq _ _ 1 1 k.val 0 0 2 _ hk (by decide) (by decide) rfl _ (k2_off466_eq k) _ (k2_off467_eq k) _ _ x) ?_
  refine RowFill.RowFill.step _ 1 k.val 0 1 0 1 (by decide) rfl _ _ _ _ (k2_off465_eq k) _ (fun x => RowFill.pay_eq _ _ 1 1 k.val 0 0 1 _ hk (by decide) (by decide) rfl _ (k2_off464_eq k) _ (k2_off465_eq k) _ _ x) ?_
  refine RowFill.RowFill.step _ 1 k.val 0 0 0 0 (by decide) rfl _ _ _ _ (k2_off463_eq k) _ (fun x => RowFill.pay_eq _ _ 1 1 k.val 0 0 0 _ hk (by decide) (by decide) rfl _ (k2_off462_eq k) _ (k2_off463_eq k) _ _ x) ?_
  exact RowFill.RowFill.zero _ _ _ _ _ _

end Cert.KernelIdeal.TileBody
-- ==== Proof.TileLoop09.lean ====
/-
  Loop 9 of the tile body: one trip fills one row of a staging slot, sixteen lanes at a time, and leaves the
  loop's invariant at the next row.
-/
import proofs.«206219_g40982577938455_cont_8to1_b_1362_29_alg».proof.Proof.TileSetup

noncomputable section

namespace Cert.KernelIdeal

open Idealize.ShloMosaic Idealize.SL.Sem
open Cert.KernelIdeal.Gen

variable {F : FTy → Type} [FloatOps F]

/-- The region of the loop, as the kernel's text has it. -/
noncomputable def region09 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_313 : BitVec 32) (c1_i32_315 : BitVec 32) (k2_t9 : Fin k2_t9_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part66 i arg2 harg2 arg3 harg3 arg4 harg4 arg5 harg5 arg6 harg6 arg7 arg8 v661_r0 c0_i32_313 c1_i32_315 k2_t9
  let ⟨v734, c0_i32_809⟩ : Σ' (v734 : FVec F S16 .f32), BitVec 32 ← k2_part67 i arg2 harg2 arg3 harg3 arg4 harg4 arg5 harg5 arg6 harg6 arg7 arg8 v661_r0 k2_t9 arg9 v694
  k2_part68 i arg2 harg2 arg3 harg3 arg4 harg4 arg5 harg5 arg6 harg6 arg7 arg8 v661_r0 k2_t9 arg9 v734 c0_i32_809
  let v810 : FVec F S1x1x1x16 .f32 ← k2_part69 i arg2 harg2 arg3 harg3 arg4 harg4 arg5 harg5 arg6 harg6 arg7 arg8 v661_r0 k2_t9 arg9
  let v844 : FVec F S16 .f32 ← k2_part70 i arg2 harg2 arg3 harg3 arg4 harg4 arg5 harg5 arg6 harg6 arg7 arg8 v661_r0 k2_t9 arg9 v810
  let ⟨v884, c0_i32_869⟩ : Σ' (v884 : FVec F S16 .f32), BitVec 32 ← k2_part71 i arg2 harg2 arg3 harg3 arg4 harg4 arg5 harg5 arg6 harg6 arg7 arg8 v661_r0 k2_t9 arg9 v844
  k2_part72 i arg2 harg2 arg3 harg3 arg4 harg4 arg5 harg5 arg6 harg6 arg7 arg8 v661_r0 k2_t9 arg9 v884 c0_i32_869
  let v960 : FVec F S1x1x1x16 .f32 ← k2_part73 i arg2 harg2 arg3 harg3 arg4 harg4 arg5 harg5 arg6 harg6 arg7 arg8 v661_r0 k2_t9 arg9
  Prog.lift (.store arg6 (Rect.unit (s := S2x32x4x256) (k2_off587 k2_t9) S1x1x1x16.size (k2_off587_inb k2_t9)) v960 Finset.univ (View.stores_vmem_bits_univ h_S1x1x1x16 rfl) (.inl rfl))
  let c0_i32_900 : BitVec 32 := 0#32
  let v961 : Index := Scalar.indexCast c0_i32_900
  let v962 : Index := Scalar.indexCast arg9
  let c480 : Index := 480#32
  let v963 : Vec F S1x1x16 .f32 ← Prog.lift (.load arg5 (Rect.unit (s := S2x32x512) (k2_off588 k2_t9) S1x1x16.size (k2_off588_inb k2_t9)).toLoadRect (View.loadsAt_vmem h_S1x1x16))
  have v964 : FVec F S16 .f32 := shapeCast S16 v963 shapeCasts_S1x1x16_S16
  let c0_i32_901 : BitVec 32 := 0#32
  let c3_i32_902 : BitVec 32 := 3#32
  let v965 : Index := Scalar.indexCast c0_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off589 k2_t9) S1x1x1x16.size (k2_off589_inb k2_t9)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off589 k2_t9) S1x1x1x16.size (k2_off589_inb k2_t9)) v970 Finset.univ (View.stores_vmem_bits_univ h_S1x1x1x16 rfl) (.inl rfl))
  let c0_i32_904 : BitVec 32 := 0#32
  let v971 : Index := Scalar.indexCast c0_i32_904
  let v972 : Index := Scalar.indexCast arg9
  let c496 : Index := 496#32
  let v973 : Vec F S1x1x16 .f32 ← Prog.lift (.load arg5 (Rect.unit (s := S2x32x512) (k2_off590 k2_t9) S1x1x16.size (k2_off590_inb k2_t9)).toLoadRect (View.loadsAt_vmem h_S1x1x16))
  have v974 : FVec F S16 .f32 := shapeCast S16 v973 shapeCasts_S1x1x16_S16
  let c0_i32_905 : BitVec 32 := 0#32
  let c3_i32_906 : BitVec 32 := 3#32
  let v975 : Index := Scalar.indexCast c0_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off591 k2_t9) S1x1x1x16.size (k2_off591_inb k2_t9)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off591 k2_t9) S1x1x1x16.size (k2_off591_inb k2_t9)) v980 Finset.univ (View.stores_vmem_bits_univ h_S1x1x1x16 rfl) (.inl rfl))
  pure ⟨⟩

end Cert.KernelIdeal

namespace Cert.KernelIdeal.TileBody

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop09 (A : Buf (Elt F) ((thr d L).loc cc2_scratch0)) (G : Buf (Elt F) ((thr d L).loc cc2_scratch1))
    (k : Fin k2_t9_loop.trips) (acc : PUnit) :
    (invFill0 (F := F) d L 0 A G k.val acc : sProp 𝕄)
      ⊢ wp frame (wpE (defs₀ (F := F)) 𝒱₀ (thr d L) none) Set.univ
          (region09 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill0 (F := F) d L 0 A G (k.val + 1)) := by
  have hk : (k : ℕ) < 32 := lt_of_lt_of_le k.isLt k2_t9_abs.2.1
  unfold invFill0 region09
  iintro ⟨Ha0, %h, Hb0, %hF⟩
  sl_exec
  sl_step
  isplitl [Ha0]; · iexact Ha0
  iexists _; isplitl [Hb0]; · iexact Hb0
  ipureintro
  refine RowFill.Filled.succ _ 0 0 k.val _ _ h _ hF ?_
  refine RowFill.RowFill.step _ 0 k.val 0 31 3 7 (by decide) rfl _ _ _ _ (k2_off591_eq k) _ (fun x => RowFill.pay_eq _ _ 0 0 k.val 0 3 7 _ hk (by decide) (by decide) rfl _ (k2_off590_eq k) _ (k2_off591_eq k) _ _ x) ?_
  refine RowFill.RowFill.step _ 0 k.val 0 30 3 6 (by decide) rfl _ _ _ _ (k2_off589_eq k) _ (fun x => RowFill.pay_eq _ _ 0 0 k.val 0 3 6 _ hk (by decide) (by decide) rfl _ (k2_off588_eq k) _ (k2_off589_eq k) _ _ x) ?_
  refine RowFill.RowFill.step _ 0 k.val 0 29 3 5 (by decide) rfl _ _ _ _ (k2_off587_eq k) _ (fun x => RowFill.pay_eq _ _ 0 0 k.val 0 3 5 _ hk (by decide) (by decide) rfl _ (k2_off586_eq k) _ (k2_off587_eq k) _ _ x) ?_
  refine RowFill.RowFill.step _ 0 k.val 0 28 3 4 (by decide) rfl _ _ _ _ (k2_off585_eq k) _ (fun x => RowFill.pay_eq _ _ 0 0 k.val 0 3 4 _ hk (by decide) (by decide) rfl _ (k2_off584_eq k) _ (k2_off585_eq k) _ _ x) ?_
  refine RowFill.RowFill.step _ 0 k.val 0 27 3 3 (by decide) rfl _ _ _ _ (k2_off583_eq k) _ (fun x => RowFill.pay_eq _ _ 0 0 k.val 0 3 3 _ hk (by decide) (by decide) rfl _ (k2_off582_eq k) _ (k2_off583_eq k) _ _ x) ?_
  refine RowFill.RowFill.step _ 0 k.val 0 26 3 2 (by decide) rfl _ _ _ _ (k2_off581_eq k) _ (fun x => RowFill.pay_eq _ _ 0 0 k.val 0 3 2 _ hk (by decide) (by decide) rfl _ (k2_off580_eq k) _ (k2_off581_eq k) _ _ x) ?_
  refine RowFill.RowFill.step _ 0 k.val 0 25 3 1 (by decide) rfl _ _ _ _ (k2_off579_eq k) _ (fun x => RowFill.pay_eq _ _ 0 0 k.val 0 3 1 _ hk (by decide) (by decide) rfl _ (k2_off578_eq k) _ (k2_off579_eq k) _ _ x) ?_
  refine RowFill.RowFill.step _ 0 k.val 0 24 3 0 (by decide) rfl _ _ _ _ (k2_off577_eq k) _ (fun x => RowFill.pay_eq _ _ 0 0 k.val 0 3 0 _ hk (by decide) (by decide) rfl _ (k2_off576_eq k) _ (k2_off577_eq k) _ _ x) ?_
  refine RowFill.RowFill.step _ 0 k.val 0 23 2 7 (by decide) rfl _ _ _ _ (k2_off575_eq k) _ (fun x => RowFill.pay_eq _ _ 0 0 k.val 0 2 7 _ hk (by decide) (by decide) rfl _ (k2_off574_eq k) _ (k2_off575_eq k) _ _ x) ?_
  refine RowFill.RowFill.step _ 0 k.val 0 22 2 6 (by decide) rfl _ _ _ _ (k2_off573_eq k) _ (fun x => RowFill.pay_eq _ _ 0 0 k.val 0 2 6 _ hk (by decide) (by decide) rfl _ (k2_off572_eq k) _ (k2_off573_eq k) _ _ x) ?_
  refine RowFill.RowFill.step _ 0 k.val 0 21 2 5 (by decide) rfl _ _ _ _ (k2_off571_eq k) _ (fun x => RowFill.pay_eq _ _ 0 0 k.val 0 2 5 _ hk (by decide) (by decide) rfl _ (k2_off570_eq k) _ (k2_off571_eq k) _ _ x) ?_
  refine RowFill.RowFill.step _ 0 k.val 0 20 2 4 (by decide) rfl _ _ _ _ (k2_off569_eq k) _ (fun x => RowFill.pay_eq _ _ 0 0 k.val 0 2 4 _ hk (by decide) (by decide) rfl _ (k2_off568_eq k) _ (k2_off569_eq k) _ _ x) ?_
  refine RowFill.RowFill.step _ 0 k.val 0 19 2 3 (by decide) rfl _ _ _ _ (k2_off567_eq k) _ (fun x => RowFill.pay_eq _ _ 0 0 k.val 0 2 3 _ hk (by decide) (by decide) rfl _ (k2_off566_eq k) _ (k2_off567_eq k) _ _ x) ?_
  refine RowFill.RowFill.step _ 0 k.val 0 18 2 2 (by decide) rfl _ _ _ _ (k2_off565_eq k) _ (fun x => RowFill.pay_eq _ _ 0 0 k.val 0 2 2 _ hk (by decide) (by decide) rfl _ (k2_off564_eq k) _ (k2_off565_eq k) _ _ x) ?_
  refine RowFill.RowFill.step _ 0 k.val 0 17 2 1 (by decide) rfl _ _ _ _ (k2_off563_eq k) _ (fun x => RowFill.pay_eq _ _ 0 0 k.val 0 2 1 _ hk (by decide) (by decide) rfl _ (k2_off562_eq k) _ (k2_off563_eq k) _ _ x) ?_
  refine RowFill.RowFill.step _ 0 k.val 0 16 2 0 (by decide) rfl _ _ _ _ (k2_off561_eq k) _ (fun x => RowFill.pay_eq _ _ 0 0 k.val 0 2 0 _ hk (by decide) (by decide) rfl _ (k2_off560_eq k) _ (k2_off561_eq k) _ _ x) ?_
  refine RowFill.RowFill.step _ 0 k.val 0 15 1 7 (by decide) rfl _ _ _ _ (k2_off559_eq k) _ (fun x => RowFill.pay_eq _ _ 0 0 k.val 0 1 7 _ hk (by decide) (by decide) rfl _ (k2_off558_eq k) _ (k2_off559_eq k) _ _ x) ?_
  refine RowFill.RowFill.step _ 0 k.val 0 14 1 6 (by decide) rfl _ _ _ _ (k2_off557_eq k) _ (fun x => RowFill.pay_eq _ _ 0 0 k.val 0 1 6 _ hk (by decide) (by decide) rfl _ (k2_off556_eq k) _ (k2_off557_eq k) _ _ x) ?_
  refine RowFill.RowFill.step _ 0 k.val 0 13 1 5 (by decide) rfl _ _ _ _ (k2_off555_eq k) _ (fun x => RowFill.pay_eq _ _ 0 0 k.val 0 1 5 _ hk (by decide) (by decide) rfl _ (k2_off554_eq k) _ (k2_off555_eq k) _ _ x) ?_
  refine RowFill.RowFill.step _ 0 k.val 0 12 1 4 (by decide) rfl _ _ _ _ (k2_off553_eq k) _ (fun x => RowFill.pay_eq _ _ 0 0 k.val 0 1 4 _ hk (by decide) (by decide) rfl _ (k2_off552_eq k) _ (k2_off553_eq k) _ _ x) ?_
  refine RowFill.RowFill.step _ 0 k.val 0 11 1 3 (by decide) rfl _ _ _ _ (k2_off551_eq k) _ (fun x => RowFill.pay_eq _ _ 0 0 k.val 0 1 3 _ hk (by decide) (by decide) rfl _ (k2_off550_eq k) _ (k2_off551_eq k) _ _ x) ?_
  refine RowFill.RowFill.step _ 0 k.val 0 10 1 2 (by decide) rfl _ _ _ _ (k2_off549_eq k) _ (fun x => RowFill.pay_eq _ _ 0 0 k.val 0 1 2 _ hk (by decide) (by decide) rfl _ (k2_off548_eq k) _ (k2_off549_eq k) _ _ x) ?_
  refine RowFill.RowFill.step _ 0 k.val 0 9 1 1 (by decide) rfl _ _ _ _ (k2_off547_eq k) _ (fun x => RowFill.pay_eq _ _ 0 0 k.val 0 1 1 _ hk (by decide) (by decide) rfl _ (k2_off546_eq k) _ (k2_off547_eq k) _ _ x) ?_
  refine RowFill.RowFill.step _ 0 k.val 0 8 1 0 (by decide) rfl _ _ _ _ (k2_off545_eq k) _ (fun x => RowFill.pay_eq _ _ 0 0 k.val 0 1 0 _ hk (by decide) (by decide) rfl _ (k2_off544_eq k) _ (k2_off545_eq k) _ _ x) ?_
  refine RowFill.RowFill.step _ 0 k.val 0 7 0 7 (by decide) rfl _ _ _ _ (k2_off543_eq k) _ (fun x => RowFill.pay_eq _ _ 0 0 k.val 0 0 7 _ hk (by decide) (by decide) rfl _ (k2_off542_eq k) _ (k2_off543_eq k) _ _ x) ?_
  refine RowFill.RowFill.step _ 0 k.val 0 6 0 6 (by decide) rfl _ _ _ _ (k2_off541_eq k) _ (fun x => RowFill.pay_eq _ _ 0 0 k.val 0 0 6 _ hk (by decide) (by decide) rfl _ (k2_off540_eq k) _ (k2_off541_eq k) _ _ x) ?_
  refine RowFill.RowFill.step _ 0 k.val 0 5 0 5 (by decide) rfl _ _ _ _ (k2_off539_eq k) _ (fun x => RowFill.pay_eq _ _ 0 0 k.val 0 0 5 _ hk (by decide) (by decide) rfl _ (k2_off538_eq k) _ (k2_off539_eq k) _ _ x) ?_
  refine RowFill.RowFill.step _ 0 k.val 0 4 0 4 (by decide) rfl _ _ _ _ (k2_off537_eq k) _ (fun x => RowFill.pay_eq _ _ 0 0 k.val 0 0 4 _ hk (by decide) (by decide) rfl _ (k2_off536_eq k) _ (k2_off537_eq k) _ _ x) ?_
  refine RowFill.RowFill.step _ 0 k.val 0 3 0 3 (by decide) rfl _ _ _ _ (k2_off535_eq k) _ (fun x => RowFill.pay_eq _ _ 0 0 k.val 0 0 3 _ hk (by decide) (by decide) rfl _ (k2_off534_eq k) _ (k2_off535_eq k) _ _ x) ?_
  refine RowFill.RowFill.step _ 0 k.val 0 2 0 2 (by decide) rfl _ _ _ _ (k2_off533_eq k) _ (fun x => RowFill.pay_eq _ _ 0 0 k.val 0 0 2 _ hk (by decide) (by decide) rfl _ (k2_off532_eq k) _ (k2_off533_eq k) _ _ x) ?_
  refine RowFill.RowFill.step _ 0 k.val 0 1 0 1 (by decide) rfl _ _ _ _ (k2_off531_eq k) _ (fun x => RowFill.pay_eq _ _ 0 0 k.val 0 0 1 _ hk (by decide) (by decide) rfl _ (k2_off530_eq k) _ (k2_off531_eq k) _ _ x) ?_
  refine RowFill.RowFill.step _ 0 k.val 0 0 0 0 (by decide) rfl _ _ _ _ (k2_off529_eq k) _ (fun x => RowFill.pay_eq _ _ 0 0 k.val 0 0 0 _ hk (by decide) (by decide) rfl _ (k2_off528_eq k) _ (k2_off529_eq k) _ _ x) ?_
  exact RowFill.RowFill.zero _ _ _ _ _ _

end Cert.KernelIdeal.TileBody
-- ==== Proof.TileLoop10.lean ====
/-
  Loop 10 of the tile body: one trip fills one row of a staging slot, sixteen lanes at a time, and leaves the
  loop's invariant at the next row.
-/
import proofs.«206219_g40982577938455_cont_8to1_b_1362_29_alg».proof.Proof.TileSetup

noncomputable section

namespace Cert.KernelIdeal

open Idealize.ShloMosaic Idealize.SL.Sem
open Cert.KernelIdeal.Gen

variable {F : FTy → Type} [FloatOps F]

/-- The region of the loop, as the kernel's text has it. -/
noncomputable def region10 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_361 : BitVec 32) (c1_i32_363 : BitVec 32) (k2_t10 : Fin k2_t10_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part74 i arg2 harg2 arg3 harg3 arg4 harg4 arg5 harg5 arg6 harg6 arg7 arg8 v661_r0 c0_i32_361 c1_i32_363 k2_t10
  let ⟨v734, c1_i32_809⟩ : Σ' (v734 : FVec F S16 .f32), BitVec 32 ← k2_part75 i arg2 harg2 arg3 harg3 arg4 harg4 arg5 harg5 arg6 harg6 arg7 arg8 v661_r0 k2_t10 arg9 v694
  k2_part76 i arg2 harg2 arg3 harg3 arg4 harg4 arg5 harg5 arg6 harg6 arg7 arg8 v661_r0 k2_t10 arg9 v734 c1_i32_809
  let v810 : FVec F S1x1x1x16 .f32 ← k2_part77 i arg2 harg2 arg3 harg3 arg4 harg4 arg5 harg5 arg6 harg6 arg7 arg8 v661_r0 k2_t10 arg9
  let v844 : FVec F S16 .f32 ← k2_part78 i arg2 harg2 arg3 harg3 arg4 harg4 arg5 harg5 arg6 harg6 arg7 arg8 v661_r0 k2_t10 arg9 v810
  let ⟨v884, c1_i32_869⟩ : Σ' (v884 : FVec F S16 .f32), BitVec 32 ← k2_part79 i arg2 harg2 arg3 harg3 arg4 harg4 arg5 harg5 arg6 harg6 arg7 arg8 v661_r0 k2_t10 arg9 v844
  k2_part80 i arg2 harg2 arg3 harg3 arg4 harg4 arg5 harg5 arg6 harg6 arg7 arg8 v661_r0 k2_t10 arg9 v884 c1_i32_869
  let v960 : FVec F S1x1x1x16 .f32 ← k2_part81 i arg2 harg2 arg3 harg3 arg4 harg4 arg5 harg5 arg6 harg6 arg7 arg8 v661_r0 k2_t10 arg9
  Prog.lift (.store arg6 (Rect.unit (s := S2x32x4x256) (k2_off653 k2_t10) S1x1x1x16.size (k2_off653_inb k2_t10)) v960 Finset.univ (View.stores_vmem_bits_univ h_S1x1x1x16 rfl) (.inl rfl))
  let c1_i32_900 : BitVec 32 := 1#32
  let v961 : Index := Scalar.indexCast c1_i32_900
  let v962 : Index := Scalar.indexCast arg9
  let c480 : Index := 480#32
  let v963 : Vec F S1x1x16 .f32 ← Prog.lift (.load arg5 (Rect.unit (s := S2x32x512) (k2_off654 k2_t10) S1x1x16.size (k2_off654_inb k2_t10)).toLoadRect (View.loadsAt_vmem h_S1x1x16))
  have v964 : FVec F S16 .f32 := shapeCast S16 v963 shapeCasts_S1x1x16_S16
  let c1_i32_901 : BitVec 32 := 1#32
  let c3_i32_902 : BitVec 32 := 3#32
  let v965 : Index := Scalar.indexCast c1_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off655 k2_t10) S1x1x1x16.size (k2_off655_inb k2_t10)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off655 k2_t10) S1x1x1x16.size (k2_off655_inb k2_t10)) v970 Finset.univ (View.stores_vmem_bits_univ h_S1x1x1x16 rfl) (.inl rfl))
  let c1_i32_904 : BitVec 32 := 1#32
  let v971 : Index := Scalar.indexCast c1_i32_904
  let v972 : Index := Scalar.indexCast arg9
  let c496 : Index := 496#32
  let v973 : Vec F S1x1x16 .f32 ← Prog.lift (.load arg5 (Rect.unit (s := S2x32x512) (k2_off656 k2_t10) S1x1x16.size (k2_off656_inb k2_t10)).toLoadRect (View.loadsAt_vmem h_S1x1x16))
  have v974 : FVec F S16 .f32 := shapeCast S16 v973 shapeCasts_S1x1x16_S16
  let c1_i32_905 : BitVec 32 := 1#32
  let c3_i32_906 : BitVec 32 := 3#32
  let v975 : Index := Scalar.indexCast c1_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off657 k2_t10) S1x1x1x16.size (k2_off657_inb k2_t10)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off657 k2_t10) S1x1x1x16.size (k2_off657_inb k2_t10)) v980 Finset.univ (View.stores_vmem_bits_univ h_S1x1x1x16 rfl) (.inl rfl))
  pure ⟨⟩

end Cert.KernelIdeal

namespace Cert.KernelIdeal.TileBody

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop10 (A : Buf (Elt F) ((thr d L).loc cc2_scratch0)) (G : Buf (Elt F) ((thr d L).loc cc2_scratch1))
    (k : Fin k2_t10_loop.trips) (acc : PUnit) :
    (invFill1 (F := F) d L 0 A G k.val acc : sProp 𝕄)
      ⊢ wp frame (wpE (defs₀ (F := F)) 𝒱₀ (thr d L) none) Set.univ
          (region10 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill1 (F := F) d L 0 A G (k.val + 1)) := by
  have hk : (k : ℕ) < 32 := lt_of_lt_of_le k.isLt k2_t10_abs.2.1
  unfold invFill1 region10
  iintro ⟨Ha1, %h, Hb1, %hF⟩
  sl_exec
  sl_step
  isplitl [Ha1]; · iexact Ha1
  iexists _; isplitl [Hb1]; · iexact Hb1
  ipureintro
  refine RowFill.Filled.succ _ 1 0 k.val _ _ h _ hF ?_
  refine RowFill.RowFill.step _ 1 k.val 0 31 3 7 (by decide) rfl _ _ _ _ (k2_off657_eq k) _ (fun x => RowFill.pay_eq _ _ 1 1 k.val 0 3 7 _ hk (by decide) (by decide) rfl _ (k2_off656_eq k) _ (k2_off657_eq k) _ _ x) ?_
  refine RowFill.RowFill.step _ 1 k.val 0 30 3 6 (by decide) rfl _ _ _ _ (k2_off655_eq k) _ (fun x => RowFill.pay_eq _ _ 1 1 k.val 0 3 6 _ hk (by decide) (by decide) rfl _ (k2_off654_eq k) _ (k2_off655_eq k) _ _ x) ?_
  refine RowFill.RowFill.step _ 1 k.val 0 29 3 5 (by decide) rfl _ _ _ _ (k2_off653_eq k) _ (fun x => RowFill.pay_eq _ _ 1 1 k.val 0 3 5 _ hk (by decide) (by decide) rfl _ (k2_off652_eq k) _ (k2_off653_eq k) _ _ x) ?_
  refine RowFill.RowFill.step _ 1 k.val 0 28 3 4 (by decide) rfl _ _ _ _ (k2_off651_eq k) _ (fun x => RowFill.pay_eq _ _ 1 1 k.val 0 3 4 _ hk (by decide) (by decide) rfl _ (k2_off650_eq k) _ (k2_off651_eq k) _ _ x) ?_
  refine RowFill.RowFill.step _ 1 k.val 0 27 3 3 (by decide) rfl _ _ _ _ (k2_off649_eq k) _ (fun x => RowFill.pay_eq _ _ 1 1 k.val 0 3 3 _ hk (by decide) (by decide) rfl _ (k2_off648_eq k) _ (k2_off649_eq k) _ _ x) ?_
  refine RowFill.RowFill.step _ 1 k.val 0 26 3 2 (by decide) rfl _ _ _ _ (k2_off647_eq k) _ (fun x => RowFill.pay_eq _ _ 1 1 k.val 0 3 2 _ hk (by decide) (by decide) rfl _ (k2_off646_eq k) _ (k2_off647_eq k) _ _ x) ?_
  refine RowFill.RowFill.step _ 1 k.val 0 25 3 1 (by decide) rfl _ _ _ _ (k2_off645_eq k) _ (fun x => RowFill.pay_eq _ _ 1 1 k.val 0 3 1 _ hk (by decide) (by decide) rfl _ (k2_off644_eq k) _ (k2_off645_eq k) _ _ x) ?_
  refine RowFill.RowFill.step _ 1 k.val 0 24 3 0 (by decide) rfl _ _ _ _ (k2_off643_eq k) _ (fun x => RowFill.pay_eq _ _ 1 1 k.val 0 3 0 _ hk (by decide) (by decide) rfl _ (k2_off642_eq k) _ (k2_off643_eq k) _ _ x) ?_
  refine RowFill.RowFill.step _ 1 k.val 0 23 2 7 (by decide) rfl _ _ _ _ (k2_off641_eq k) _ (fun x => RowFill.pay_eq _ _ 1 1 k.val 0 2 7 _ hk (by decide) (by decide) rfl _ (k2_off640_eq k) _ (k2_off641_eq k) _ _ x) ?_
  refine RowFill.RowFill.step _ 1 k.val 0 22 2 6 (by decide) rfl _ _ _ _ (k2_off639_eq k) _ (fun x => RowFill.pay_eq _ _ 1 1 k.val 0 2 6 _ hk (by decide) (by decide) rfl _ (k2_off638_eq k) _ (k2_off639_eq k) _ _ x) ?_
  refine RowFill.RowFill.step _ 1 k.val 0 21 2 5 (by decide) rfl _ _ _ _ (k2_off637_eq k) _ (fun x => RowFill.pay_eq _ _ 1 1 k.val 0 2 5 _ hk (by decide) (by decide) rfl _ (k2_off636_eq k) _ (k2_off637_eq k) _ _ x) ?_
  refine RowFill.RowFill.step _ 1 k.val 0 20 2 4 (by decide) rfl _ _ _ _ (k2_off635_eq k) _ (fun x => RowFill.pay_eq _ _ 1 1 k.val 0 2 4 _ hk (by decide) (by decide) rfl _ (k2_off634_eq k) _ (k2_off635_eq k) _ _ x) ?_
  refine RowFill.RowFill.step _ 1 k.val 0 19 2 3 (by decide) rfl _ _ _ _ (k2_off633_eq k) _ (fun x => RowFill.pay_eq _ _ 1 1 k.val 0 2 3 _ hk (by decide) (by decide) rfl _ (k2_off632_eq k) _ (k2_off633_eq k) _ _ x) ?_
  refine RowFill.RowFill.step _ 1 k.val 0 18 2 2 (by decide) rfl _ _ _ _ (k2_off631_eq k) _ (fun x => RowFill.pay_eq _ _ 1 1 k.val 0 2 2 _ hk (by decide) (by decide) rfl _ (k2_off630_eq k) _ (k2_off631_eq k) _ _ x) ?_
  refine RowFill.RowFill.step _ 1 k.val 0 17 2 1 (by decide) rfl _ _ _ _ (k2_off629_eq k) _ (fun x => RowFill.pay_eq _ _ 1 1 k.val 0 2 1 _ hk (by decide) (by decide) rfl _ (k2_off628_eq k) _ (k2_off629_eq k) _ _ x) ?_
  refine RowFill.RowFill.step _ 1 k.val 0 16 2 0 (by decide) rfl _ _ _ _ (k2_off627_eq k) _ (fun x => RowFill.pay_eq _ _ 1 1 k.val 0 2 0 _ hk (by decide) (by decide) rfl _ (k2_off626_eq k) _ (k2_off627_eq k) _ _ x) ?_
  refine RowFill.RowFill.step _ 1 k.val 0 15 1 7 (by decide) rfl _ _ _ _ (k2_off625_eq k) _ (fun x => RowFill.pay_eq _ _ 1 1 k.val 0 1 7 _ hk (by decide) (by decide) rfl _ (k2_off624_eq k) _ (k2_off625_eq k) _ _ x) ?_
  refine RowFill.RowFill.step _ 1 k.val 0 14 1 6 (by decide) rfl _ _ _ _ (k2_off623_eq k) _ (fun x => RowFill.pay_eq _ _ 1 1 k.val 0 1 6 _ hk (by decide) (by decide) rfl _ (k2_off622_eq k) _ (k2_off623_eq k) _ _ x) ?_
  refine RowFill.RowFill.step _ 1 k.val 0 13 1 5 (by decide) rfl _ _ _ _ (k2_off621_eq k) _ (fun x => RowFill.pay_eq _ _ 1 1 k.val 0 1 5 _ hk (by decide) (by decide) rfl _ (k2_off620_eq k) _ (k2_off621_eq k) _ _ x) ?_
  refine RowFill.RowFill.step _ 1 k.val 0 12 1 4 (by decide) rfl _ _ _ _ (k2_off619_eq k) _ (fun x => RowFill.pay_eq _ _ 1 1 k.val 0 1 4 _ hk (by decide) (by decide) rfl _ (k2_off618_eq k) _ (k2_off619_eq k) _ _ x) ?_
  refine RowFill.RowFill.step _ 1 k.val 0 11 1 3 (by decide) rfl _ _ _ _ (k2_off617_eq k) _ (fun x => RowFill.pay_eq _ _ 1 1 k.val 0 1 3 _ hk (by decide) (by decide) rfl _ (k2_off616_eq k) _ (k2_off617_eq k) _ _ x) ?_
  refine RowFill.RowFill.step _ 1 k.val 0 10 1 2 (by decide) rfl _ _ _ _ (k2_off615_eq k) _ (fun x => RowFill.pay_eq _ _ 1 1 k.val 0 1 2 _ hk (by decide) (by decide) rfl _ (k2_off614_eq k) _ (k2_off615_eq k) _ _ x) ?_
  refine RowFill.RowFill.step _ 1 k.val 0 9 1 1 (by decide) rfl _ _ _ _ (k2_off613_eq k) _ (fun x => RowFill.pay_eq _ _ 1 1 k.val 0 1 1 _ hk (by decide) (by decide) rfl _ (k2_off612_eq k) _ (k2_off613_eq k) _ _ x) ?_
  refine RowFill.RowFill.step _ 1 k.val 0 8 1 0 (by decide) rfl _ _ _ _ (k2_off611_eq k) _ (fun x => RowFill.pay_eq _ _ 1 1 k.val 0 1 0 _ hk (by decide) (by decide) rfl _ (k2_off610_eq k) _ (k2_off611_eq k) _ _ x) ?_
  refine RowFill.RowFill.step _ 1 k.val 0 7 0 7 (by decide) rfl _ _ _ _ (k2_off609_eq k) _ (fun x => RowFill.pay_eq _ _ 1 1 k.val 0 0 7 _ hk (by decide) (by decide) rfl _ (k2_off608_eq k) _ (k2_off609_eq k) _ _ x) ?_
  refine RowFill.RowFill.step _ 1 k.val 0 6 0 6 (by decide) rfl _ _ _ _ (k2_off607_eq k) _ (fun x => RowFill.pay_eq _ _ 1 1 k.val 0 0 6 _ hk (by decide) (by decide) rfl _ (k2_off606_eq k) _ (k2_off607_eq k) _ _ x) ?_
  refine RowFill.RowFill.step _ 1 k.val 0 5 0 5 (by decide) rfl _ _ _ _ (k2_off605_eq k) _ (fun x => RowFill.pay_eq _ _ 1 1 k.val 0 0 5 _ hk (by decide) (by decide) rfl _ (k2_off604_eq k) _ (k2_off605_eq k) _ _ x) ?_
  refine RowFill.RowFill.step _ 1 k.val 0 4 0 4 (by decide) rfl _ _ _ _ (k2_off603_eq k) _ (fun x => RowFill.pay_eq _ _ 1 1 k.val 0 0 4 _ hk (by decide) (by decide) rfl _ (k2_off602_eq k) _ (k2_off603_eq k) _ _ x) ?_
  refine RowFill.RowFill.step _ 1 k.val 0 3 0 3 (by decide) rfl _ _ _ _ (k2_off601_eq k) _ (fun x => RowFill.pay_eq _ _ 1 1 k.val 0 0 3 _ hk (by decide) (by decide) rfl _ (k2_off600_eq k) _ (k2_off601_eq k) _ _ x) ?_
  refine RowFill.RowFill.step _ 1 k.val 0 2 0 2 (by decide) rfl _ _ _ _ (k2_off599_eq k) _ (fun x => RowFill.pay_eq _ _ 1 1 k.val 0 0 2 _ hk (by decide) (by decide) rfl _ (k2_off598_eq k) _ (k2_off599_eq k) _ _ x) ?_
  refine RowFill.RowFill.step _ 1 k.val 0 1 0 1 (by decide) rfl _ _ _ _ (k2_off597_eq k) _ (fun x => RowFill.pay_eq _ _ 1 1 k.val 0 0 1 _ hk (by decide) (by decide) rfl _ (k2_off596_eq k) _ (k2_off597_eq k) _ _ x) ?_
  refine RowFill.RowFill.step _ 1 k.val 0 0 0 0 (by decide) rfl _ _ _ _ (k2_off595_eq k) _ (fun x => RowFill.pay_eq _ _ 1 1 k.val 0 0 0 _ hk (by decide) (by decide) rfl _ (k2_off594_eq k) _ (k2_off595_eq k) _ _ x) ?_
  exact RowFill.RowFill.zero _ _ _ _ _ _

end Cert.KernelIdeal.TileBody
-- ==== Proof.TileLoop11.lean ====
/-
  Loop 11 of the tile body: one trip fills one row of a staging slot, sixteen lanes at a time, and leaves the
  loop's invariant at the next row.
-/
import proofs.«206219_g40982577938455_cont_8to1_b_1362_29_alg».proof.Proof.TileSetup

noncomputable section

namespace Cert.KernelIdeal

open Idealize.ShloMosaic Idealize.SL.Sem
open Cert.KernelIdeal.Gen

variable {F : FTy → Type} [FloatOps F]

/-- The region of the loop, as the kernel's text has it. -/
noncomputable def region11 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_409 : BitVec 32) (c1_i32_411 : BitVec 32) (k2_t11 : Fin k2_t11_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part82 i arg2 harg2 arg3 harg3 arg4 harg4 arg5 harg5 arg6 harg6 arg7 arg8 v661_r0 c0_i32_409 c1_i32_411 k2_t11
  let ⟨v734, c0_i32_809⟩ : Σ' (v734 : FVec F S16 .f32), BitVec 32 ← k2_part83 i arg2 harg2 arg3 harg3 arg4 harg4 arg5 harg5 arg6 harg6 arg7 arg8 v661_r0 k2_t11 arg9 v694
  k2_part84 i arg2 harg2 arg3 harg3 arg4 harg4 arg5 harg5 arg6 harg6 arg7 arg8 v661_r0 k2_t11 arg9 v734 c0_i32_809
  let v810 : FVec F S1x1x1x16 .f32 ← k2_part85 i arg2 harg2 arg3 harg3 arg4 harg4 arg5 harg5 arg6 harg6 arg7 arg8 v661_r0 k2_t11 arg9
  let v844 : FVec F S16 .f32 ← k2_part86 i arg2 harg2 arg3 harg3 arg4 harg4 arg5 harg5 arg6 harg6 arg7 arg8 v661_r0 k2_t11 arg9 v810
  let ⟨v884, c0_i32_869⟩ : Σ' (v884 : FVec F S16 .f32), BitVec 32 ← k2_part87 i arg2 harg2 arg3 harg3 arg4 harg4 arg5 harg5 arg6 harg6 arg7 arg8 v661_r0 k2_t11 arg9 v844
  k2_part88 i arg2 harg2 arg3 harg3 arg4 harg4 arg5 harg5 arg6 harg6 arg7 arg8 v661_r0 k2_t11 arg9 v884 c0_i32_869
  let v960 : FVec F S1x1x1x16 .f32 ← k2_part89 i arg2 harg2 arg3 harg3 arg4 harg4 arg5 harg5 arg6 harg6 arg7 arg8 v661_r0 k2_t11 arg9
  Prog.lift (.store arg6 (Rect.unit (s := S2x32x4x256) (k2_off719 k2_t11) S1x1x1x16.size (k2_off719_inb k2_t11)) v960 Finset.univ (View.stores_vmem_bits_univ h_S1x1x1x16 rfl) (.inl rfl))
  let c0_i32_900 : BitVec 32 := 0#32
  let v961 : Index := Scalar.indexCast c0_i32_900
  let v962 : Index := Scalar.indexCast arg9
  let c480 : Index := 480#32
  let v963 : Vec F S1x1x16 .f32 ← Prog.lift (.load arg5 (Rect.unit (s := S2x32x512) (k2_off720 k2_t11) S1x1x16.size (k2_off720_inb k2_t11)).toLoadRect (View.loadsAt_vmem h_S1x1x16))
  have v964 : FVec F S16 .f32 := shapeCast S16 v963 shapeCasts_S1x1x16_S16
  let c0_i32_901 : BitVec 32 := 0#32
  let c3_i32_902 : BitVec 32 := 3#32
  let v965 : Index := Scalar.indexCast c0_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off721 k2_t11) S1x1x1x16.size (k2_off721_inb k2_t11)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off721 k2_t11) S1x1x1x16.size (k2_off721_inb k2_t11)) v970 Finset.univ (View.stores_vmem_bits_univ h_S1x1x1x16 rfl) (.inl rfl))
  let c0_i32_904 : BitVec 32 := 0#32
  let v971 : Index := Scalar.indexCast c0_i32_904
  let v972 : Index := Scalar.indexCast arg9
  let c496 : Index := 496#32
  let v973 : Vec F S1x1x16 .f32 ← Prog.lift (.load arg5 (Rect.unit (s := S2x32x512) (k2_off722 k2_t11) S1x1x16.size (k2_off722_inb k2_t11)).toLoadRect (View.loadsAt_vmem h_S1x1x16))
  have v974 : FVec F S16 .f32 := shapeCast S16 v973 shapeCasts_S1x1x16_S16
  let c0_i32_905 : BitVec 32 := 0#32
  let c3_i32_906 : BitVec 32 := 3#32
  let v975 : Index := Scalar.indexCast c0_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off723 k2_t11) S1x1x1x16.size (k2_off723_inb k2_t11)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off723 k2_t11) S1x1x1x16.size (k2_off723_inb k2_t11)) v980 Finset.univ (View.stores_vmem_bits_univ h_S1x1x1x16 rfl) (.inl rfl))
  pure ⟨⟩

end Cert.KernelIdeal

namespace Cert.KernelIdeal.TileBody

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop11 (A : Buf (Elt F) ((thr d L).loc cc2_scratch0)) (G : Buf (Elt F) ((thr d L).loc cc2_scratch1))
    (k : Fin k2_t11_loop.trips) (acc : PUnit) :
    (invFill0 (F := F) d L 0 A G k.val acc : sProp 𝕄)
      ⊢ wp frame (wpE (defs₀ (F := F)) 𝒱₀ (thr d L) none) Set.univ
          (region11 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill0 (F := F) d L 0 A G (k.val + 1)) := by
  have hk : (k : ℕ) < 32 := lt_of_lt_of_le k.isLt k2_t11_abs.2.1
  unfold invFill0 region11
  iintro ⟨Ha0, %h, Hb0, %hF⟩
  sl_exec
  sl_step
  isplitl [Ha0]; · iexact Ha0
  iexists _; isplitl [Hb0]; · iexact Hb0
  ipureintro
  refine RowFill.Filled.succ _ 0 0 k.val _ _ h _ hF ?_
  refine RowFill.RowFill.step _ 0 k.val 0 31 3 7 (by decide) rfl _ _ _ _ (k2_off723_eq k) _ (fun x => RowFill.pay_eq _ _ 0 0 k.val 0 3 7 _ hk (by decide) (by decide) rfl _ (k2_off722_eq k) _ (k2_off723_eq k) _ _ x) ?_
  refine RowFill.RowFill.step _ 0 k.val 0 30 3 6 (by decide) rfl _ _ _ _ (k2_off721_eq k) _ (fun x => RowFill.pay_eq _ _ 0 0 k.val 0 3 6 _ hk (by decide) (by decide) rfl _ (k2_off720_eq k) _ (k2_off721_eq k) _ _ x) ?_
  refine RowFill.RowFill.step _ 0 k.val 0 29 3 5 (by decide) rfl _ _ _ _ (k2_off719_eq k) _ (fun x => RowFill.pay_eq _ _ 0 0 k.val 0 3 5 _ hk (by decide) (by decide) rfl _ (k2_off718_eq k) _ (k2_off719_eq k) _ _ x) ?_
  refine RowFill.RowFill.step _ 0 k.val 0 28 3 4 (by decide) rfl _ _ _ _ (k2_off717_eq k) _ (fun x => RowFill.pay_eq _ _ 0 0 k.val 0 3 4 _ hk (by decide) (by decide) rfl _ (k2_off716_eq k) _ (k2_off717_eq k) _ _ x) ?_
  refine RowFill.RowFill.step _ 0 k.val 0 27 3 3 (by decide) rfl _ _ _ _ (k2_off715_eq k) _ (fun x => RowFill.pay_eq _ _ 0 0 k.val 0 3 3 _ hk (by decide) (by decide) rfl _ (k2_off714_eq k) _ (k2_off715_eq k) _ _ x) ?_
  refine RowFill.RowFill.step _ 0 k.val 0 26 3 2 (by decide) rfl _ _ _ _ (k2_off713_eq k) _ (fun x => RowFill.pay_eq _ _ 0 0 k.val 0 3 2 _ hk (by decide) (by decide) rfl _ (k2_off712_eq k) _ (k2_off713_eq k) _ _ x) ?_
  refine RowFill.RowFill.step _ 0 k.val 0 25 3 1 (by decide) rfl _ _ _ _ (k2_off711_eq k) _ (fun x => RowFill.pay_eq _ _ 0 0 k.val 0 3 1 _ hk (by decide) (by decide) rfl _ (k2_off710_eq k) _ (k2_off711_eq k) _ _ x) ?_
  refine RowFill.RowFill.step _ 0 k.val 0 24 3 0 (by decide) rfl _ _ _ _ (k2_off709_eq k) _ (fun x => RowFill.pay_eq _ _ 0 0 k.val 0 3 0 _ hk (by decide) (by decide) rfl _ (k2_off708_eq k) _ (k2_off709_eq k) _ _ x) ?_
  refine RowFill.RowFill.step _ 0 k.val 0 23 2 7 (by decide) rfl _ _ _ _ (k2_off707_eq k) _ (fun x => RowFill.pay_eq _ _ 0 0 k.val 0 2 7 _ hk (by decide) (by decide) rfl _ (k2_off706_eq k) _ (k2_off707_eq k) _ _ x) ?_
  refine RowFill.RowFill.step _ 0 k.val 0 22 2 6 (by decide) rfl _ _ _ _ (k2_off705_eq k) _ (fun x => RowFill.pay_eq _ _ 0 0 k.val 0 2 6 _ hk (by decide) (by decide) rfl _ (k2_off704_eq k) _ (k2_off705_eq k) _ _ x) ?_
  refine RowFill.RowFill.step _ 0 k.val 0 21 2 5 (by decide) rfl _ _ _ _ (k2_off703_eq k) _ (fun x => RowFill.pay_eq _ _ 0 0 k.val 0 2 5 _ hk (by decide) (by decide) rfl _ (k2_off702_eq k) _ (k2_off703_eq k) _ _ x) ?_
  refine RowFill.RowFill.step _ 0 k.val 0 20 2 4 (by decide) rfl _ _ _ _ (k2_off701_eq k) _ (fun x => RowFill.pay_eq _ _ 0 0 k.val 0 2 4 _ hk (by decide) (by decide) rfl _ (k2_off700_eq k) _ (k2_off701_eq k) _ _ x) ?_
  refine RowFill.RowFill.step _ 0 k.val 0 19 2 3 (by decide) rfl _ _ _ _ (k2_off699_eq k) _ (fun x => RowFill.pay_eq _ _ 0 0 k.val 0 2 3 _ hk (by decide) (by decide) rfl _ (k2_off698_eq k) _ (k2_off699_eq k) _ _ x) ?_
  refine RowFill.RowFill.step _ 0 k.val 0 18 2 2 (by decide) rfl _ _ _ _ (k2_off697_eq k) _ (fun x => RowFill.pay_eq _ _ 0 0 k.val 0 2 2 _ hk (by decide) (by decide) rfl _ (k2_off696_eq k) _ (k2_off697_eq k) _ _ x) ?_
  refine RowFill.RowFill.step _ 0 k.val 0 17 2 1 (by decide) rfl _ _ _ _ (k2_off695_eq k) _ (fun x => RowFill.pay_eq _ _ 0 0 k.val 0 2 1 _ hk (by decide) (by decide) rfl _ (k2_off694_eq k) _ (k2_off695_eq k) _ _ x) ?_
  refine RowFill.RowFill.step _ 0 k.val 0 16 2 0 (by decide) rfl _ _ _ _ (k2_off693_eq k) _ (fun x => RowFill.pay_eq _ _ 0 0 k.val 0 2 0 _ hk (by decide) (by decide) rfl _ (k2_off692_eq k) _ (k2_off693_eq k) _ _ x) ?_
  refine RowFill.RowFill.step _ 0 k.val 0 15 1 7 (by decide) rfl _ _ _ _ (k2_off691_eq k) _ (fun x => RowFill.pay_eq _ _ 0 0 k.val 0 1 7 _ hk (by decide) (by decide) rfl _ (k2_off690_eq k) _ (k2_off691_eq k) _ _ x) ?_
  refine RowFill.RowFill.step _ 0 k.val 0 14 1 6 (by decide) rfl _ _ _ _ (k2_off689_eq k) _ (fun x => RowFill.pay_eq _ _ 0 0 k.val 0 1 6 _ hk (by decide) (by decide) rfl _ (k2_off688_eq k) _ (k2_off689_eq k) _ _ x) ?_
  refine RowFill.RowFill.step _ 0 k.val 0 13 1 5 (by decide) rfl _ _ _ _ (k2_off687_eq k) _ (fun x => RowFill.pay_eq _ _ 0 0 k.val 0 1 5 _ hk (by decide) (by decide) rfl _ (k2_off686_eq k) _ (k2_off687_eq k) _ _ x) ?_
  refine RowFill.RowFill.step _ 0 k.val 0 12 1 4 (by decide) rfl _ _ _ _ (k2_off685_eq k) _ (fun x => RowFill.pay_eq _ _ 0 0 k.val 0 1 4 _ hk (by decide) (by decide) rfl _ (k2_off684_eq k) _ (k2_off685_eq k) _ _ x) ?_
  refine RowFill.RowFill.step _ 0 k.val 0 11 1 3 (by decide) rfl _ _ _ _ (k2_off683_eq k) _ (fun x => RowFill.pay_eq _ _ 0 0 k.val 0 1 3 _ hk (by decide) (by decide) rfl _ (k2_off682_eq k) _ (k2_off683_eq k) _ _ x) ?_
  refine RowFill.RowFill.step _ 0 k.val 0 10 1 2 (by decide) rfl _ _ _ _ (k2_off681_eq k) _ (fun x => RowFill.pay_eq _ _ 0 0 k.val 0 1 2 _ hk (by decide) (by decide) rfl _ (k2_off680_eq k) _ (k2_off681_eq k) _ _ x) ?_
  refine RowFill.RowFill.step _ 0 k.val 0 9 1 1 (by decide) rfl _ _ _ _ (k2_off679_eq k) _ (fun x => RowFill.pay_eq _ _ 0 0 k.val 0 1 1 _ hk (by decide) (by decide) rfl _ (k2_off678_eq k) _ (k2_off679_eq k) _ _ x) ?_
  refine RowFill.RowFill.step _ 0 k.val 0 8 1 0 (by decide) rfl _ _ _ _ (k2_off677_eq k) _ (fun x => RowFill.pay_eq _ _ 0 0 k.val 0 1 0 _ hk (by decide) (by decide) rfl _ (k2_off676_eq k) _ (k2_off677_eq k) _ _ x) ?_
  refine RowFill.RowFill.step _ 0 k.val 0 7 0 7 (by decide) rfl _ _ _ _ (k2_off675_eq k) _ (fun x => RowFill.pay_eq _ _ 0 0 k.val 0 0 7 _ hk (by decide) (by decide) rfl _ (k2_off674_eq k) _ (k2_off675_eq k) _ _ x) ?_
  refine RowFill.RowFill.step _ 0 k.val 0 6 0 6 (by decide) rfl _ _ _ _ (k2_off673_eq k) _ (fun x => RowFill.pay_eq _ _ 0 0 k.val 0 0 6 _ hk (by decide) (by decide) rfl _ (k2_off672_eq k) _ (k2_off673_eq k) _ _ x) ?_
  refine RowFill.RowFill.step _ 0 k.val 0 5 0 5 (by decide) rfl _ _ _ _ (k2_off671_eq k) _ (fun x => RowFill.pay_eq _ _ 0 0 k.val 0 0 5 _ hk (by decide) (by decide) rfl _ (k2_off670_eq k) _ (k2_off671_eq k) _ _ x) ?_
  refine RowFill.RowFill.step _ 0 k.val 0 4 0 4 (by decide) rfl _ _ _ _ (k2_off669_eq k) _ (fun x => RowFill.pay_eq _ _ 0 0 k.val 0 0 4 _ hk (by decide) (by decide) rfl _ (k2_off668_eq k) _ (k2_off669_eq k) _ _ x) ?_
  refine RowFill.RowFill.step _ 0 k.val 0 3 0 3 (by decide) rfl _ _ _ _ (k2_off667_eq k) _ (fun x => RowFill.pay_eq _ _ 0 0 k.val 0 0 3 _ hk (by decide) (by decide) rfl _ (k2_off666_eq k) _ (k2_off667_eq k) _ _ x) ?_
  refine RowFill.RowFill.step _ 0 k.val 0 2 0 2 (by decide) rfl _ _ _ _ (k2_off665_eq k) _ (fun x => RowFill.pay_eq _ _ 0 0 k.val 0 0 2 _ hk (by decide) (by decide) rfl _ (k2_off664_eq k) _ (k2_off665_eq k) _ _ x) ?_
  refine RowFill.RowFill.step _ 0 k.val 0 1 0 1 (by decide) rfl _ _ _ _ (k2_off663_eq k) _ (fun x => RowFill.pay_eq _ _ 0 0 k.val 0 0 1 _ hk (by decide) (by decide) rfl _ (k2_off662_eq k) _ (k2_off663_eq k) _ _ x) ?_
  refine RowFill.RowFill.step _ 0 k.val 0 0 0 0 (by decide) rfl _ _ _ _ (k2_off661_eq k) _ (fun x => RowFill.pay_eq _ _ 0 0 k.val 0 0 0 _ hk (by decide) (by decide) rfl _ (k2_off660_eq k) _ (k2_off661_eq k) _ _ x) ?_
  exact RowFill.RowFill.zero _ _ _ _ _ _

end Cert.KernelIdeal.TileBody
-- ==== Proof.TileLoop12.lean ====
/-
  Loop 12 of the tile body: one trip fills one row of a staging slot, sixteen lanes at a time, and leaves the
  loop's invariant at the next row.
-/
import proofs.«206219_g40982577938455_cont_8to1_b_1362_29_alg».proof.Proof.TileSetup

noncomputable section

namespace Cert.KernelIdeal

open Idealize.ShloMosaic Idealize.SL.Sem
open Cert.KernelIdeal.Gen

variable {F : FTy → Type} [FloatOps F]

/-- The region of the loop, as the kernel's text has it. -/
noncomputable def region12 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_457 : BitVec 32) (c1_i32_459 : BitVec 32) (k2_t12 : Fin k2_t12_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part90 i arg2 harg2 arg3 harg3 arg4 harg4 arg5 harg5 arg6 harg6 arg7 arg8 v661_r0 c0_i32_457 c1_i32_459 k2_t12
  let ⟨v734, c1_i32_809⟩ : Σ' (v734 : FVec F S16 .f32), BitVec 32 ← k2_part91 i arg2 harg2 arg3 harg3 arg4 harg4 arg5 harg5 arg6 harg6 arg7 arg8 v661_r0 k2_t12 arg9 v694
  k2_part92 i arg2 harg2 arg3 harg3 arg4 harg4 arg5 harg5 arg6 harg6 arg7 arg8 v661_r0 k2_t12 arg9 v734 c1_i32_809
  let v810 : FVec F S1x1x1x16 .f32 ← k2_part93 i arg2 harg2 arg3 harg3 arg4 harg4 arg5 harg5 arg6 harg6 arg7 arg8 v661_r0 k2_t12 arg9
  let v844 : FVec F S16 .f32 ← k2_part94 i arg2 harg2 arg3 harg3 arg4 harg4 arg5 harg5 arg6 harg6 arg7 arg8 v661_r0 k2_t12 arg9 v810
  let ⟨v884, c1_i32_869⟩ : Σ' (v884 : FVec F S16 .f32), BitVec 32 ← k2_part95 i arg2 harg2 arg3 harg3 arg4 harg4 arg5 harg5 arg6 harg6 arg7 arg8 v661_r0 k2_t12 arg9 v844
  k2_part96 i arg2 harg2 arg3 harg3 arg4 harg4 arg5 harg5 arg6 harg6 arg7 arg8 v661_r0 k2_t12 arg9 v884 c1_i32_869
  let v960 : FVec F S1x1x1x16 .f32 ← k2_part97 i arg2 harg2 arg3 harg3 arg4 harg4 arg5 harg5 arg6 harg6 arg7 arg8 v661_r0 k2_t12 arg9
  Prog.lift (.store arg6 (Rect.unit (s := S2x32x4x256) (k2_off785 k2_t12) S1x1x1x16.size (k2_off785_inb k2_t12)) v960 Finset.univ (View.stores_vmem_bits_univ h_S1x1x1x16 rfl) (.inl rfl))
  let c1_i32_900 : BitVec 32 := 1#32
  let v961 : Index := Scalar.indexCast c1_i32_900
  let v962 : Index := Scalar.indexCast arg9
  let c480 : Index := 480#32
  let v963 : Vec F S1x1x16 .f32 ← Prog.lift (.load arg5 (Rect.unit (s := S2x32x512) (k2_off786 k2_t12) S1x1x16.size (k2_off786_inb k2_t12)).toLoadRect (View.loadsAt_vmem h_S1x1x16))
  have v964 : FVec F S16 .f32 := shapeCast S16 v963 shapeCasts_S1x1x16_S16
  let c1_i32_901 : BitVec 32 := 1#32
  let c3_i32_902 : BitVec 32 := 3#32
  let v965 : Index := Scalar.indexCast c1_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off787 k2_t12) S1x1x1x16.size (k2_off787_inb k2_t12)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off787 k2_t12) S1x1x1x16.size (k2_off787_inb k2_t12)) v970 Finset.univ (View.stores_vmem_bits_univ h_S1x1x1x16 rfl) (.inl rfl))
  let c1_i32_904 : BitVec 32 := 1#32
  let v971 : Index := Scalar.indexCast c1_i32_904
  let v972 : Index := Scalar.indexCast arg9
  let c496 : Index := 496#32
  let v973 : Vec F S1x1x16 .f32 ← Prog.lift (.load arg5 (Rect.unit (s := S2x32x512) (k2_off788 k2_t12) S1x1x16.size (k2_off788_inb k2_t12)).toLoadRect (View.loadsAt_vmem h_S1x1x16))
  have v974 : FVec F S16 .f32 := shapeCast S16 v973 shapeCasts_S1x1x16_S16
  let c1_i32_905 : BitVec 32 := 1#32
  let c3_i32_906 : BitVec 32 := 3#32
  let v975 : Index := Scalar.indexCast c1_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off789 k2_t12) S1x1x1x16.size (k2_off789_inb k2_t12)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off789 k2_t12) S1x1x1x16.size (k2_off789_inb k2_t12)) v980 Finset.univ (View.stores_vmem_bits_univ h_S1x1x1x16 rfl) (.inl rfl))
  pure ⟨⟩

end Cert.KernelIdeal

namespace Cert.KernelIdeal.TileBody

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop12 (A : Buf (Elt F) ((thr d L).loc cc2_scratch0)) (G : Buf (Elt F) ((thr d L).loc cc2_scratch1))
    (k : Fin k2_t12_loop.trips) (acc : PUnit) :
    (invFill1 (F := F) d L 0 A G k.val acc : sProp 𝕄)
      ⊢ wp frame (wpE (defs₀ (F := F)) 𝒱₀ (thr d L) none) Set.univ
          (region12 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill1 (F := F) d L 0 A G (k.val + 1)) := by
  have hk : (k : ℕ) < 32 := lt_of_lt_of_le k.isLt k2_t12_abs.2.1
  unfold invFill1 region12
  iintro ⟨Ha1, %h, Hb1, %hF⟩
  sl_exec
  sl_step
  isplitl [Ha1]; · iexact Ha1
  iexists _; isplitl [Hb1]; · iexact Hb1
  ipureintro
  refine RowFill.Filled.succ _ 1 0 k.val _ _ h _ hF ?_
  refine RowFill.RowFill.step _ 1 k.val 0 31 3 7 (by decide) rfl _ _ _ _ (k2_off789_eq k) _ (fun x => RowFill.pay_eq _ _ 1 1 k.val 0 3 7 _ hk (by decide) (by decide) rfl _ (k2_off788_eq k) _ (k2_off789_eq k) _ _ x) ?_
  refine RowFill.RowFill.step _ 1 k.val 0 30 3 6 (by decide) rfl _ _ _ _ (k2_off787_eq k) _ (fun x => RowFill.pay_eq _ _ 1 1 k.val 0 3 6 _ hk (by decide) (by decide) rfl _ (k2_off786_eq k) _ (k2_off787_eq k) _ _ x) ?_
  refine RowFill.RowFill.step _ 1 k.val 0 29 3 5 (by decide) rfl _ _ _ _ (k2_off785_eq k) _ (fun x => RowFill.pay_eq _ _ 1 1 k.val 0 3 5 _ hk (by decide) (by decide) rfl _ (k2_off784_eq k) _ (k2_off785_eq k) _ _ x) ?_
  refine RowFill.RowFill.step _ 1 k.val 0 28 3 4 (by decide) rfl _ _ _ _ (k2_off783_eq k) _ (fun x => RowFill.pay_eq _ _ 1 1 k.val 0 3 4 _ hk (by decide) (by decide) rfl _ (k2_off782_eq k) _ (k2_off783_eq k) _ _ x) ?_
  refine RowFill.RowFill.step _ 1 k.val 0 27 3 3 (by decide) rfl _ _ _ _ (k2_off781_eq k) _ (fun x => RowFill.pay_eq _ _ 1 1 k.val 0 3 3 _ hk (by decide) (by decide) rfl _ (k2_off780_eq k) _ (k2_off781_eq k) _ _ x) ?_
  refine RowFill.RowFill.step _ 1 k.val 0 26 3 2 (by decide) rfl _ _ _ _ (k2_off779_eq k) _ (fun x => RowFill.pay_eq _ _ 1 1 k.val 0 3 2 _ hk (by decide) (by decide) rfl _ (k2_off778_eq k) _ (k2_off779_eq k) _ _ x) ?_
  refine RowFill.RowFill.step _ 1 k.val 0 25 3 1 (by decide) rfl _ _ _ _ (k2_off777_eq k) _ (fun x => RowFill.pay_eq _ _ 1 1 k.val 0 3 1 _ hk (by decide) (by decide) rfl _ (k2_off776_eq k) _ (k2_off777_eq k) _ _ x) ?_
  refine RowFill.RowFill.step _ 1 k.val 0 24 3 0 (by decide) rfl _ _ _ _ (k2_off775_eq k) _ (fun x => RowFill.pay_eq _ _ 1 1 k.val 0 3 0 _ hk (by decide) (by decide) rfl _ (k2_off774_eq k) _ (k2_off775_eq k) _ _ x) ?_
  refine RowFill.RowFill.step _ 1 k.val 0 23 2 7 (by decide) rfl _ _ _ _ (k2_off773_eq k) _ (fun x => RowFill.pay_eq _ _ 1 1 k.val 0 2 7 _ hk (by decide) (by decide) rfl _ (k2_off772_eq k) _ (k2_off773_eq k) _ _ x) ?_
  refine RowFill.RowFill.step _ 1 k.val 0 22 2 6 (by decide) rfl _ _ _ _ (k2_off771_eq k) _ (fun x => RowFill.pay_eq _ _ 1 1 k.val 0 2 6 _ hk (by decide) (by decide) rfl _ (k2_off770_eq k) _ (k2_off771_eq k) _ _ x) ?_
  refine RowFill.RowFill.step _ 1 k.val 0 21 2 5 (by decide) rfl _ _ _ _ (k2_off769_eq k) _ (fun x => RowFill.pay_eq _ _ 1 1 k.val 0 2 5 _ hk (by decide) (by decide) rfl _ (k2_off768_eq k) _ (k2_off769_eq k) _ _ x) ?_
  refine RowFill.RowFill.step _ 1 k.val 0 20 2 4 (by decide) rfl _ _ _ _ (k2_off767_eq k) _ (fun x => RowFill.pay_eq _ _ 1 1 k.val 0 2 4 _ hk (by decide) (by decide) rfl _ (k2_off766_eq k) _ (k2_off767_eq k) _ _ x) ?_
  refine RowFill.RowFill.step _ 1 k.val 0 19 2 3 (by decide) rfl _ _ _ _ (k2_off765_eq k) _ (fun x => RowFill.pay_eq _ _ 1 1 k.val 0 2 3 _ hk (by decide) (by decide) rfl _ (k2_off764_eq k) _ (k2_off765_eq k) _ _ x) ?_
  refine RowFill.RowFill.step _ 1 k.val 0 18 2 2 (by decide) rfl _ _ _ _ (k2_off763_eq k) _ (fun x => RowFill.pay_eq _ _ 1 1 k.val 0 2 2 _ hk (by decide) (by decide) rfl _ (k2_off762_eq k) _ (k2_off763_eq k) _ _ x) ?_
  refine RowFill.RowFill.step _ 1 k.val 0 17 2 1 (by decide) rfl _ _ _ _ (k2_off761_eq k) _ (fun x => RowFill.pay_eq _ _ 1 1 k.val 0 2 1 _ hk (by decide) (by decide) rfl _ (k2_off760_eq k) _ (k2_off761_eq k) _ _ x) ?_
  refine RowFill.RowFill.step _ 1 k.val 0 16 2 0 (by decide) rfl _ _ _ _ (k2_off759_eq k) _ (fun x => RowFill.pay_eq _ _ 1 1 k.val 0 2 0 _ hk (by decide) (by decide) rfl _ (k2_off758_eq k) _ (k2_off759_eq k) _ _ x) ?_
  refine RowFill.RowFill.step _ 1 k.val 0 15 1 7 (by decide) rfl _ _ _ _ (k2_off757_eq k) _ (fun x => RowFill.pay_eq _ _ 1 1 k.val 0 1 7 _ hk (by decide) (by decide) rfl _ (k2_off756_eq k) _ (k2_off757_eq k) _ _ x) ?_
  refine RowFill.RowFill.step _ 1 k.val 0 14 1 6 (by decide) rfl _ _ _ _ (k2_off755_eq k) _ (fun x => RowFill.pay_eq _ _ 1 1 k.val 0 1 6 _ hk (by decide) (by decide) rfl _ (k2_off754_eq k) _ (k2_off755_eq k) _ _ x) ?_
  refine RowFill.RowFill.step _ 1 k.val 0 13 1 5 (by decide) rfl _ _ _ _ (k2_off753_eq k) _ (fun x => RowFill.pay_eq _ _ 1 1 k.val 0 1 5 _ hk (by decide) (by decide) rfl _ (k2_off752_eq k) _ (k2_off753_eq k) _ _ x) ?_
  refine RowFill.RowFill.step _ 1 k.val 0 12 1 4 (by decide) rfl _ _ _ _ (k2_off751_eq k) _ (fun x => RowFill.pay_eq _ _ 1 1 k.val 0 1 4 _ hk (by decide) (by decide) rfl _ (k2_off750_eq k) _ (k2_off751_eq k) _ _ x) ?_
  refine RowFill.RowFill.step _ 1 k.val 0 11 1 3 (by decide) rfl _ _ _ _ (k2_off749_eq k) _ (fun x => RowFill.pay_eq _ _ 1 1 k.val 0 1 3 _ hk (by decide) (by decide) rfl _ (k2_off748_eq k) _ (k2_off749_eq k) _ _ x) ?_
  refine RowFill.RowFill.step _ 1 k.val 0 10 1 2 (by decide) rfl _ _ _ _ (k2_off747_eq k) _ (fun x => RowFill.pay_eq _ _ 1 1 k.val 0 1 2 _ hk (by decide) (by decide) rfl _ (k2_off746_eq k) _ (k2_off747_eq k) _ _ x) ?_
  refine RowFill.RowFill.step _ 1 k.val 0 9 1 1 (by decide) rfl _ _ _ _ (k2_off745_eq k) _ (fun x => RowFill.pay_eq _ _ 1 1 k.val 0 1 1 _ hk (by decide) (by decide) rfl _ (k2_off744_eq k) _ (k2_off745_eq k) _ _ x) ?_
  refine RowFill.RowFill.step _ 1 k.val 0 8 1 0 (by decide) rfl _ _ _ _ (k2_off743_eq k) _ (fun x => RowFill.pay_eq _ _ 1 1 k.val 0 1 0 _ hk (by decide) (by decide) rfl _ (k2_off742_eq k) _ (k2_off743_eq k) _ _ x) ?_
  refine RowFill.RowFill.step _ 1 k.val 0 7 0 7 (by decide) rfl _ _ _ _ (k2_off741_eq k) _ (fun x => RowFill.pay_eq _ _ 1 1 k.val 0 0 7 _ hk (by decide) (by decide) rfl _ (k2_off740_eq k) _ (k2_off741_eq k) _ _ x) ?_
  refine RowFill.RowFill.step _ 1 k.val 0 6 0 6 (by decide) rfl _ _ _ _ (k2_off739_eq k) _ (fun x => RowFill.pay_eq _ _ 1 1 k.val 0 0 6 _ hk (by decide) (by decide) rfl _ (k2_off738_eq k) _ (k2_off739_eq k) _ _ x) ?_
  refine RowFill.RowFill.step _ 1 k.val 0 5 0 5 (by decide) rfl _ _ _ _ (k2_off737_eq k) _ (fun x => RowFill.pay_eq _ _ 1 1 k.val 0 0 5 _ hk (by decide) (by decide) rfl _ (k2_off736_eq k) _ (k2_off737_eq k) _ _ x) ?_
  refine RowFill.RowFill.step _ 1 k.val 0 4 0 4 (by decide) rfl _ _ _ _ (k2_off735_eq k) _ (fun x => RowFill.pay_eq _ _ 1 1 k.val 0 0 4 _ hk (by decide) (by decide) rfl _ (k2_off734_eq k) _ (k2_off735_eq k) _ _ x) ?_
  refine RowFill.RowFill.step _ 1 k.val 0 3 0 3 (by decide) rfl _ _ _ _ (k2_off733_eq k) _ (fun x => RowFill.pay_eq _ _ 1 1 k.val 0 0 3 _ hk (by decide) (by decide) rfl _ (k2_off732_eq k) _ (k2_off733_eq k) _ _ x) ?_
  refine RowFill.RowFill.step _ 1 k.val 0 2 0 2 (by decide) rfl _ _ _ _ (k2_off731_eq k) _ (fun x => RowFill.pay_eq _ _ 1 1 k.val 0 0 2 _ hk (by decide) (by decide) rfl _ (k2_off730_eq k) _ (k2_off731_eq k) _ _ x) ?_
  refine RowFill.RowFill.step _ 1 k.val 0 1 0 1 (by decide) rfl _ _ _ _ (k2_off729_eq k) _ (fun x => RowFill.pay_eq _ _ 1 1 k.val 0 0 1 _ hk (by decide) (by decide) rfl _ (k2_off728_eq k) _ (k2_off729_eq k) _ _ x) ?_
  refine RowFill.RowFill.step _ 1 k.val 0 0 0 0 (by decide) rfl _ _ _ _ (k2_off727_eq k) _ (fun x => RowFill.pay_eq _ _ 1 1 k.val 0 0 0 _ hk (by decide) (by decide) rfl _ (k2_off726_eq k) _ (k2_off727_eq k) _ _ x) ?_
  exact RowFill.RowFill.zero _ _ _ _ _ _

end Cert.KernelIdeal.TileBody
-- ==== Proof.TileLoop13.lean ====
/-
  Loop 13 of the tile body: one trip fills one row of a staging slot, sixteen lanes at a time, and leaves the
  loop's invariant at the next row.
-/
import proofs.«206219_g40982577938455_cont_8to1_b_1362_29_alg».proof.Proof.TileSetup

noncomputable section

namespace Cert.KernelIdeal

open Idealize.ShloMosaic Idealize.SL.Sem
open Cert.KernelIdeal.Gen

variable {F : FTy → Type} [FloatOps F]

/-- The region of the loop, as the kernel's text has it. -/
noncomputable def region13 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_505 : BitVec 32) (c1_i32_507 : BitVec 32) (k2_t13 : Fin k2_t13_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part98 i arg2 harg2 arg3 harg3 arg4 harg4 arg5 harg5 arg6 harg6 arg7 arg8 v661_r0 c0_i32_505 c1_i32_507 k2_t13
  let ⟨v734, c0_i32_809⟩ : Σ' (v734 : FVec F S16 .f32), BitVec 32 ← k2_part99 i arg2 harg2 arg3 harg3 arg4 harg4 arg5 harg5 arg6 harg6 arg7 arg8 v661_r0 k2_t13 arg9 v694
  k2_part100 i arg2 harg2 arg3 harg3 arg4 harg4 arg5 harg5 arg6 harg6 arg7 arg8 v661_r0 k2_t13 arg9 v734 c0_i32_809
  let v810 : FVec F S1x1x1x16 .f32 ← k2_part101 i arg2 harg2 arg3 harg3 arg4 harg4 arg5 harg5 arg6 harg6 arg7 arg8 v661_r0 k2_t13 arg9
  let v844 : FVec F S16 .f32 ← k2_part102 i arg2 harg2 arg3 harg3 arg4 harg4 arg5 harg5 arg6 harg6 arg7 arg8 v661_r0 k2_t13 arg9 v810
  let ⟨v884, c0_i32_869⟩ : Σ' (v884 : FVec F S16 .f32), BitVec 32 ← k2_part103 i arg2 harg2 arg3 harg3 arg4 harg4 arg5 harg5 arg6 harg6 arg7 arg8 v661_r0 k2_t13 arg9 v844
  k2_part104 i arg2 harg2 arg3 harg3 arg4 harg4 arg5 harg5 arg6 harg6 arg7 arg8 v661_r0 k2_t13 arg9 v884 c0_i32_869
  let v960 : FVec F S1x1x1x16 .f32 ← k2_part105 i arg2 harg2 arg3 harg3 arg4 harg4 arg5 harg5 arg6 harg6 arg7 arg8 v661_r0 k2_t13 arg9
  Prog.lift (.store arg6 (Rect.unit (s := S2x32x4x256) (k2_off851 k2_t13) S1x1x1x16.size (k2_off851_inb k2_t13)) v960 Finset.univ (View.stores_vmem_bits_univ h_S1x1x1x16 rfl) (.inl rfl))
  let c0_i32_900 : BitVec 32 := 0#32
  let v961 : Index := Scalar.indexCast c0_i32_900
  let v962 : Index := Scalar.indexCast arg9
  let c480 : Index := 480#32
  let v963 : Vec F S1x1x16 .f32 ← Prog.lift (.load arg5 (Rect.unit (s := S2x32x512) (k2_off852 k2_t13) S1x1x16.size (k2_off852_inb k2_t13)).toLoadRect (View.loadsAt_vmem h_S1x1x16))
  have v964 : FVec F S16 .f32 := shapeCast S16 v963 shapeCasts_S1x1x16_S16
  let c0_i32_901 : BitVec 32 := 0#32
  let c3_i32_902 : BitVec 32 := 3#32
  let v965 : Index := Scalar.indexCast c0_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off853 k2_t13) S1x1x1x16.size (k2_off853_inb k2_t13)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off853 k2_t13) S1x1x1x16.size (k2_off853_inb k2_t13)) v970 Finset.univ (View.stores_vmem_bits_univ h_S1x1x1x16 rfl) (.inl rfl))
  let c0_i32_904 : BitVec 32 := 0#32
  let v971 : Index := Scalar.indexCast c0_i32_904
  let v972 : Index := Scalar.indexCast arg9
  let c496 : Index := 496#32
  let v973 : Vec F S1x1x16 .f32 ← Prog.lift (.load arg5 (Rect.unit (s := S2x32x512) (k2_off854 k2_t13) S1x1x16.size (k2_off854_inb k2_t13)).toLoadRect (View.loadsAt_vmem h_S1x1x16))
  have v974 : FVec F S16 .f32 := shapeCast S16 v973 shapeCasts_S1x1x16_S16
  let c0_i32_905 : BitVec 32 := 0#32
  let c3_i32_906 : BitVec 32 := 3#32
  let v975 : Index := Scalar.indexCast c0_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off855 k2_t13) S1x1x1x16.size (k2_off855_inb k2_t13)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off855 k2_t13) S1x1x1x16.size (k2_off855_inb k2_t13)) v980 Finset.univ (View.stores_vmem_bits_univ h_S1x1x1x16 rfl) (.inl rfl))
  pure ⟨⟩

end Cert.KernelIdeal

namespace Cert.KernelIdeal.TileBody

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop13 (A : Buf (Elt F) ((thr d L).loc cc2_scratch0)) (G : Buf (Elt F) ((thr d L).loc cc2_scratch1))
    (k : Fin k2_t13_loop.trips) (acc : PUnit) :
    (invFill0 (F := F) d L 0 A G k.val acc : sProp 𝕄)
      ⊢ wp frame (wpE (defs₀ (F := F)) 𝒱₀ (thr d L) none) Set.univ
          (region13 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill0 (F := F) d L 0 A G (k.val + 1)) := by
  have hk : (k : ℕ) < 32 := lt_of_lt_of_le k.isLt k2_t13_abs.2.1
  unfold invFill0 region13
  iintro ⟨Ha0, %h, Hb0, %hF⟩
  sl_exec
  sl_step
  isplitl [Ha0]; · iexact Ha0
  iexists _; isplitl [Hb0]; · iexact Hb0
  ipureintro
  refine RowFill.Filled.succ _ 0 0 k.val _ _ h _ hF ?_
  refine RowFill.RowFill.step _ 0 k.val 0 31 3 7 (by decide) rfl _ _ _ _ (k2_off855_eq k) _ (fun x => RowFill.pay_eq _ _ 0 0 k.val 0 3 7 _ hk (by decide) (by decide) rfl _ (k2_off854_eq k) _ (k2_off855_eq k) _ _ x) ?_
  refine RowFill.RowFill.step _ 0 k.val 0 30 3 6 (by decide) rfl _ _ _ _ (k2_off853_eq k) _ (fun x => RowFill.pay_eq _ _ 0 0 k.val 0 3 6 _ hk (by decide) (by decide) rfl _ (k2_off852_eq k) _ (k2_off853_eq k) _ _ x) ?_
  refine RowFill.RowFill.step _ 0 k.val 0 29 3 5 (by decide) rfl _ _ _ _ (k2_off851_eq k) _ (fun x => RowFill.pay_eq _ _ 0 0 k.val 0 3 5 _ hk (by decide) (by decide) rfl _ (k2_off850_eq k) _ (k2_off851_eq k) _ _ x) ?_
  refine RowFill.RowFill.step _ 0 k.val 0 28 3 4 (by decide) rfl _ _ _ _ (k2_off849_eq k) _ (fun x => RowFill.pay_eq _ _ 0 0 k.val 0 3 4 _ hk (by decide) (by decide) rfl _ (k2_off848_eq k) _ (k2_off849_eq k) _ _ x) ?_
  refine RowFill.RowFill.step _ 0 k.val 0 27 3 3 (by decide) rfl _ _ _ _ (k2_off847_eq k) _ (fun x => RowFill.pay_eq _ _ 0 0 k.val 0 3 3 _ hk (by decide) (by decide) rfl _ (k2_off846_eq k) _ (k2_off847_eq k) _ _ x) ?_
  refine RowFill.RowFill.step _ 0 k.val 0 26 3 2 (by decide) rfl _ _ _ _ (k2_off845_eq k) _ (fun x => RowFill.pay_eq _ _ 0 0 k.val 0 3 2 _ hk (by decide) (by decide) rfl _ (k2_off844_eq k) _ (k2_off845_eq k) _ _ x) ?_
  refine RowFill.RowFill.step _ 0 k.val 0 25 3 1 (by decide) rfl _ _ _ _ (k2_off843_eq k) _ (fun x => RowFill.pay_eq _ _ 0 0 k.val 0 3 1 _ hk (by decide) (by decide) rfl _ (k2_off842_eq k) _ (k2_off843_eq k) _ _ x) ?_
  refine RowFill.RowFill.step _ 0 k.val 0 24 3 0 (by decide) rfl _ _ _ _ (k2_off841_eq k) _ (fun x => RowFill.pay_eq _ _ 0 0 k.val 0 3 0 _ hk (by decide) (by decide) rfl _ (k2_off840_eq k) _ (k2_off841_eq k) _ _ x) ?_
  refine RowFill.RowFill.step _ 0 k.val 0 23 2 7 (by decide) rfl _ _ _ _ (k2_off839_eq k) _ (fun x => RowFill.pay_eq _ _ 0 0 k.val 0 2 7 _ hk (by decide) (by decide) rfl _ (k2_off838_eq k) _ (k2_off839_eq k) _ _ x) ?_
  refine RowFill.RowFill.step _ 0 k.val 0 22 2 6 (by decide) rfl _ _ _ _ (k2_off837_eq k) _ (fun x => RowFill.pay_eq _ _ 0 0 k.val 0 2 6 _ hk (by decide) (by decide) rfl _ (k2_off836_eq k) _ (k2_off837_eq k) _ _ x) ?_
  refine RowFill.RowFill.step _ 0 k.val 0 21 2 5 (by decide) rfl _ _ _ _ (k2_off835_eq k) _ (fun x => RowFill.pay_eq _ _ 0 0 k.val 0 2 5 _ hk (by decide) (by decide) rfl _ (k2_off834_eq k) _ (k2_off835_eq k) _ _ x) ?_
  refine RowFill.RowFill.step _ 0 k.val 0 20 2 4 (by decide) rfl _ _ _ _ (k2_off833_eq k) _ (fun x => RowFill.pay_eq _ _ 0 0 k.val 0 2 4 _ hk (by decide) (by decide) rfl _ (k2_off832_eq k) _ (k2_off833_eq k) _ _ x) ?_
  refine RowFill.RowFill.step _ 0 k.val 0 19 2 3 (by decide) rfl _ _ _ _ (k2_off831_eq k) _ (fun x => RowFill.pay_eq _ _ 0 0 k.val 0 2 3 _ hk (by decide) (by decide) rfl _ (k2_off830_eq k) _ (k2_off831_eq k) _ _ x) ?_
  refine RowFill.RowFill.step _ 0 k.val 0 18 2 2 (by decide) rfl _ _ _ _ (k2_off829_eq k) _ (fun x => RowFill.pay_eq _ _ 0 0 k.val 0 2 2 _ hk (by decide) (by decide) rfl _ (k2_off828_eq k) _ (k2_off829_eq k) _ _ x) ?_
  refine RowFill.RowFill.step _ 0 k.val 0 17 2 1 (by decide) rfl _ _ _ _ (k2_off827_eq k) _ (fun x => RowFill.pay_eq _ _ 0 0 k.val 0 2 1 _ hk (by decide) (by decide) rfl _ (k2_off826_eq k) _ (k2_off827_eq k) _ _ x) ?_
  refine RowFill.RowFill.step _ 0 k.val 0 16 2 0 (by decide) rfl _ _ _ _ (k2_off825_eq k) _ (fun x => RowFill.pay_eq _ _ 0 0 k.val 0 2 0 _ hk (by decide) (by decide) rfl _ (k2_off824_eq k) _ (k2_off825_eq k) _ _ x) ?_
  refine RowFill.RowFill.step _ 0 k.val 0 15 1 7 (by decide) rfl _ _ _ _ (k2_off823_eq k) _ (fun x => RowFill.pay_eq _ _ 0 0 k.val 0 1 7 _ hk (by decide) (by decide) rfl _ (k2_off822_eq k) _ (k2_off823_eq k) _ _ x) ?_
  refine RowFill.RowFill.step _ 0 k.val 0 14 1 6 (by decide) rfl _ _ _ _ (k2_off821_eq k) _ (fun x => RowFill.pay_eq _ _ 0 0 k.val 0 1 6 _ hk (by decide) (by decide) rfl _ (k2_off820_eq k) _ (k2_off821_eq k) _ _ x) ?_
  refine RowFill.RowFill.step _ 0 k.val 0 13 1 5 (by decide) rfl _ _ _ _ (k2_off819_eq k) _ (fun x => RowFill.pay_eq _ _ 0 0 k.val 0 1 5 _ hk (by decide) (by decide) rfl _ (k2_off818_eq k) _ (k2_off819_eq k) _ _ x) ?_
  refine RowFill.RowFill.step _ 0 k.val 0 12 1 4 (by decide) rfl _ _ _ _ (k2_off817_eq k) _ (fun x => RowFill.pay_eq _ _ 0 0 k.val 0 1 4 _ hk (by decide) (by decide) rfl _ (k2_off816_eq k) _ (k2_off817_eq k) _ _ x) ?_
  refine RowFill.RowFill.step _ 0 k.val 0 11 1 3 (by decide) rfl _ _ _ _ (k2_off815_eq k) _ (fun x => RowFill.pay_eq _ _ 0 0 k.val 0 1 3 _ hk (by decide) (by decide) rfl _ (k2_off814_eq k) _ (k2_off815_eq k) _ _ x) ?_
  refine RowFill.RowFill.step _ 0 k.val 0 10 1 2 (by decide) rfl _ _ _ _ (k2_off813_eq k) _ (fun x => RowFill.pay_eq _ _ 0 0 k.val 0 1 2 _ hk (by decide) (by decide) rfl _ (k2_off812_eq k) _ (k2_off813_eq k) _ _ x) ?_
  refine RowFill.RowFill.step _ 0 k.val 0 9 1 1 (by decide) rfl _ _ _ _ (k2_off811_eq k) _ (fun x => RowFill.pay_eq _ _ 0 0 k.val 0 1 1 _ hk (by decide) (by decide) rfl _ (k2_off810_eq k) _ (k2_off811_eq k) _ _ x) ?_
  refine RowFill.RowFill.step _ 0 k.val 0 8 1 0 (by decide) rfl _ _ _ _ (k2_off809_eq k) _ (fun x => RowFill.pay_eq _ _ 0 0 k.val 0 1 0 _ hk (by decide) (by decide) rfl _ (k2_off808_eq k) _ (k2_off809_eq k) _ _ x) ?_
  refine RowFill.RowFill.step _ 0 k.val 0 7 0 7 (by decide) rfl _ _ _ _ (k2_off807_eq k) _ (fun x => RowFill.pay_eq _ _ 0 0 k.val 0 0 7 _ hk (by decide) (by decide) rfl _ (k2_off806_eq k) _ (k2_off807_eq k) _ _ x) ?_
  refine RowFill.RowFill.step _ 0 k.val 0 6 0 6 (by decide) rfl _ _ _ _ (k2_off805_eq k) _ (fun x => RowFill.pay_eq _ _ 0 0 k.val 0 0 6 _ hk (by decide) (by decide) rfl _ (k2_off804_eq k) _ (k2_off805_eq k) _ _ x) ?_
  refine RowFill.RowFill.step _ 0 k.val 0 5 0 5 (by decide) rfl _ _ _ _ (k2_off803_eq k) _ (fun x => RowFill.pay_eq _ _ 0 0 k.val 0 0 5 _ hk (by decide) (by decide) rfl _ (k2_off802_eq k) _ (k2_off803_eq k) _ _ x) ?_
  refine RowFill.RowFill.step _ 0 k.val 0 4 0 4 (by decide) rfl _ _ _ _ (k2_off801_eq k) _ (fun x => RowFill.pay_eq _ _ 0 0 k.val 0 0 4 _ hk (by decide) (by decide) rfl _ (k2_off800_eq k) _ (k2_off801_eq k) _ _ x) ?_
  refine RowFill.RowFill.step _ 0 k.val 0 3 0 3 (by decide) rfl _ _ _ _ (k2_off799_eq k) _ (fun x => RowFill.pay_eq _ _ 0 0 k.val 0 0 3 _ hk (by decide) (by decide) rfl _ (k2_off798_eq k) _ (k2_off799_eq k) _ _ x) ?_
  refine RowFill.RowFill.step _ 0 k.val 0 2 0 2 (by decide) rfl _ _ _ _ (k2_off797_eq k) _ (fun x => RowFill.pay_eq _ _ 0 0 k.val 0 0 2 _ hk (by decide) (by decide) rfl _ (k2_off796_eq k) _ (k2_off797_eq k) _ _ x) ?_
  refine RowFill.RowFill.step _ 0 k.val 0 1 0 1 (by decide) rfl _ _ _ _ (k2_off795_eq k) _ (fun x => RowFill.pay_eq _ _ 0 0 k.val 0 0 1 _ hk (by decide) (by decide) rfl _ (k2_off794_eq k) _ (k2_off795_eq k) _ _ x) ?_
  refine RowFill.RowFill.step _ 0 k.val 0 0 0 0 (by decide) rfl _ _ _ _ (k2_off793_eq k) _ (fun x => RowFill.pay_eq _ _ 0 0 k.val 0 0 0 _ hk (by decide) (by decide) rfl _ (k2_off792_eq k) _ (k2_off793_eq k) _ _ x) ?_
  exact RowFill.RowFill.zero _ _ _ _ _ _

end Cert.KernelIdeal.TileBody
-- ==== Proof.TileLoop14.lean ====
/-
  Loop 14 of the tile body: one trip fills one row of a staging slot, sixteen lanes at a time, and leaves the
  loop's invariant at the next row.
-/
import proofs.«206219_g40982577938455_cont_8to1_b_1362_29_alg».proof.Proof.TileSetup

noncomputable section

namespace Cert.KernelIdeal

open Idealize.ShloMosaic Idealize.SL.Sem
open Cert.KernelIdeal.Gen

variable {F : FTy → Type} [FloatOps F]

/-- The region of the loop, as the kernel's text has it. -/
noncomputable def region14 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_553 : BitVec 32) (c1_i32_555 : BitVec 32) (k2_t14 : Fin k2_t14_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part106 i arg2 harg2 arg3 harg3 arg4 harg4 arg5 harg5 arg6 harg6 arg7 arg8 v661_r0 c0_i32_553 c1_i32_555 k2_t14
  let ⟨v734, c1_i32_809⟩ : Σ' (v734 : FVec F S16 .f32), BitVec 32 ← k2_part107 i arg2 harg2 arg3 harg3 arg4 harg4 arg5 harg5 arg6 harg6 arg7 arg8 v661_r0 k2_t14 arg9 v694
  k2_part108 i arg2 harg2 arg3 harg3 arg4 harg4 arg5 harg5 arg6 harg6 arg7 arg8 v661_r0 k2_t14 arg9 v734 c1_i32_809
  let v810 : FVec F S1x1x1x16 .f32 ← k2_part109 i arg2 harg2 arg3 harg3 arg4 harg4 arg5 harg5 arg6 harg6 arg7 arg8 v661_r0 k2_t14 arg9
  let v844 : FVec F S16 .f32 ← k2_part110 i arg2 harg2 arg3 harg3 arg4 harg4 arg5 harg5 arg6 harg6 arg7 arg8 v661_r0 k2_t14 arg9 v810
  let ⟨v884, c1_i32_869⟩ : Σ' (v884 : FVec F S16 .f32), BitVec 32 ← k2_part111 i arg2 harg2 arg3 harg3 arg4 harg4 arg5 harg5 arg6 harg6 arg7 arg8 v661_r0 k2_t14 arg9 v844
  k2_part112 i arg2 harg2 arg3 harg3 arg4 harg4 arg5 harg5 arg6 harg6 arg7 arg8 v661_r0 k2_t14 arg9 v884 c1_i32_869
  let v960 : FVec F S1x1x1x16 .f32 ← k2_part113 i arg2 harg2 arg3 harg3 arg4 harg4 arg5 harg5 arg6 harg6 arg7 arg8 v661_r0 k2_t14 arg9
  Prog.lift (.store arg6 (Rect.unit (s := S2x32x4x256) (k2_off917 k2_t14) S1x1x1x16.size (k2_off917_inb k2_t14)) v960 Finset.univ (View.stores_vmem_bits_univ h_S1x1x1x16 rfl) (.inl rfl))
  let c1_i32_900 : BitVec 32 := 1#32
  let v961 : Index := Scalar.indexCast c1_i32_900
  let v962 : Index := Scalar.indexCast arg9
  let c480 : Index := 480#32
  let v963 : Vec F S1x1x16 .f32 ← Prog.lift (.load arg5 (Rect.unit (s := S2x32x512) (k2_off918 k2_t14) S1x1x16.size (k2_off918_inb k2_t14)).toLoadRect (View.loadsAt_vmem h_S1x1x16))
  have v964 : FVec F S16 .f32 := shapeCast S16 v963 shapeCasts_S1x1x16_S16
  let c1_i32_901 : BitVec 32 := 1#32
  let c3_i32_902 : BitVec 32 := 3#32
  let v965 : Index := Scalar.indexCast c1_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off919 k2_t14) S1x1x1x16.size (k2_off919_inb k2_t14)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off919 k2_t14) S1x1x1x16.size (k2_off919_inb k2_t14)) v970 Finset.univ (View.stores_vmem_bits_univ h_S1x1x1x16 rfl) (.inl rfl))
  let c1_i32_904 : BitVec 32 := 1#32
  let v971 : Index := Scalar.indexCast c1_i32_904
  let v972 : Index := Scalar.indexCast arg9
  let c496 : Index := 496#32
  let v973 : Vec F S1x1x16 .f32 ← Prog.lift (.load arg5 (Rect.unit (s := S2x32x512) (k2_off920 k2_t14) S1x1x16.size (k2_off920_inb k2_t14)).toLoadRect (View.loadsAt_vmem h_S1x1x16))
  have v974 : FVec F S16 .f32 := shapeCast S16 v973 shapeCasts_S1x1x16_S16
  let c1_i32_905 : BitVec 32 := 1#32
  let c3_i32_906 : BitVec 32 := 3#32
  let v975 : Index := Scalar.indexCast c1_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off921 k2_t14) S1x1x1x16.size (k2_off921_inb k2_t14)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off921 k2_t14) S1x1x1x16.size (k2_off921_inb k2_t14)) v980 Finset.univ (View.stores_vmem_bits_univ h_S1x1x1x16 rfl) (.inl rfl))
  pure ⟨⟩

end Cert.KernelIdeal

namespace Cert.KernelIdeal.TileBody

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop14 (A : Buf (Elt F) ((thr d L).loc cc2_scratch0)) (G : Buf (Elt F) ((thr d L).loc cc2_scratch1))
    (k : Fin k2_t14_loop.trips) (acc : PUnit) :
    (invFill1 (F := F) d L 0 A G k.val acc : sProp 𝕄)
      ⊢ wp frame (wpE (defs₀ (F := F)) 𝒱₀ (thr d L) none) Set.univ
          (region14 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill1 (F := F) d L 0 A G (k.val + 1)) := by
  have hk : (k : ℕ) < 32 := lt_of_lt_of_le k.isLt k2_t14_abs.2.1
  unfold invFill1 region14
  iintro ⟨Ha1, %h, Hb1, %hF⟩
  sl_exec
  sl_step
  isplitl [Ha1]; · iexact Ha1
  iexists _; isplitl [Hb1]; · iexact Hb1
  ipureintro
  refine RowFill.Filled.succ _ 1 0 k.val _ _ h _ hF ?_
  refine RowFill.RowFill.step _ 1 k.val 0 31 3 7 (by decide) rfl _ _ _ _ (k2_off921_eq k) _ (fun x => RowFill.pay_eq _ _ 1 1 k.val 0 3 7 _ hk (by decide) (by decide) rfl _ (k2_off920_eq k) _ (k2_off921_eq k) _ _ x) ?_
  refine RowFill.RowFill.step _ 1 k.val 0 30 3 6 (by decide) rfl _ _ _ _ (k2_off919_eq k) _ (fun x => RowFill.pay_eq _ _ 1 1 k.val 0 3 6 _ hk (by decide) (by decide) rfl _ (k2_off918_eq k) _ (k2_off919_eq k) _ _ x) ?_
  refine RowFill.RowFill.step _ 1 k.val 0 29 3 5 (by decide) rfl _ _ _ _ (k2_off917_eq k) _ (fun x => RowFill.pay_eq _ _ 1 1 k.val 0 3 5 _ hk (by decide) (by decide) rfl _ (k2_off916_eq k) _ (k2_off917_eq k) _ _ x) ?_
  refine RowFill.RowFill.step _ 1 k.val 0 28 3 4 (by decide) rfl _ _ _ _ (k2_off915_eq k) _ (fun x => RowFill.pay_eq _ _ 1 1 k.val 0 3 4 _ hk (by decide) (by decide) rfl _ (k2_off914_eq k) _ (k2_off915_eq k) _ _ x) ?_
  refine RowFill.RowFill.step _ 1 k.val 0 27 3 3 (by decide) rfl _ _ _ _ (k2_off913_eq k) _ (fun x => RowFill.pay_eq _ _ 1 1 k.val 0 3 3 _ hk (by decide) (by decide) rfl _ (k2_off912_eq k) _ (k2_off913_eq k) _ _ x) ?_
  refine RowFill.RowFill.step _ 1 k.val 0 26 3 2 (by decide) rfl _ _ _ _ (k2_off911_eq k) _ (fun x => RowFill.pay_eq _ _ 1 1 k.val 0 3 2 _ hk (by decide) (by decide) rfl _ (k2_off910_eq k) _ (k2_off911_eq k) _ _ x) ?_
  refine RowFill.RowFill.step _ 1 k.val 0 25 3 1 (by decide) rfl _ _ _ _ (k2_off909_eq k) _ (fun x => RowFill.pay_eq _ _ 1 1 k.val 0 3 1 _ hk (by decide) (by decide) rfl _ (k2_off908_eq k) _ (k2_off909_eq k) _ _ x) ?_
  refine RowFill.RowFill.step _ 1 k.val 0 24 3 0 (by decide) rfl _ _ _ _ (k2_off907_eq k) _ (fun x => RowFill.pay_eq _ _ 1 1 k.val 0 3 0 _ hk (by decide) (by decide) rfl _ (k2_off906_eq k) _ (k2_off907_eq k) _ _ x) ?_
  refine RowFill.RowFill.step _ 1 k.val 0 23 2 7 (by decide) rfl _ _ _ _ (k2_off905_eq k) _ (fun x => RowFill.pay_eq _ _ 1 1 k.val 0 2 7 _ hk (by decide) (by decide) rfl _ (k2_off904_eq k) _ (k2_off905_eq k) _ _ x) ?_
  refine RowFill.RowFill.step _ 1 k.val 0 22 2 6 (by decide) rfl _ _ _ _ (k2_off903_eq k) _ (fun x => RowFill.pay_eq _ _ 1 1 k.val 0 2 6 _ hk (by decide) (by decide) rfl _ (k2_off902_eq k) _ (k2_off903_eq k) _ _ x) ?_
  refine RowFill.RowFill.step _ 1 k.val 0 21 2 5 (by decide) rfl _ _ _ _ (k2_off901_eq k) _ (fun x => RowFill.pay_eq _ _ 1 1 k.val 0 2 5 _ hk (by decide) (by decide) rfl _ (k2_off900_eq k) _ (k2_off901_eq k) _ _ x) ?_
  refine RowFill.RowFill.step _ 1 k.val 0 20 2 4 (by decide) rfl _ _ _ _ (k2_off899_eq k) _ (fun x => RowFill.pay_eq _ _ 1 1 k.val 0 2 4 _ hk (by decide) (by decide) rfl _ (k2_off898_eq k) _ (k2_off899_eq k) _ _ x) ?_
  refine RowFill.RowFill.step _ 1 k.val 0 19 2 3 (by decide) rfl _ _ _ _ (k2_off897_eq k) _ (fun x => RowFill.pay_eq _ _ 1 1 k.val 0 2 3 _ hk (by decide) (by decide) rfl _ (k2_off896_eq k) _ (k2_off897_eq k) _ _ x) ?_
  refine RowFill.RowFill.step _ 1 k.val 0 18 2 2 (by decide) rfl _ _ _ _ (k2_off895_eq k) _ (fun x => RowFill.pay_eq _ _ 1 1 k.val 0 2 2 _ hk (by decide) (by decide) rfl _ (k2_off894_eq k) _ (k2_off895_eq k) _ _ x) ?_
  refine RowFill.RowFill.step _ 1 k.val 0 17 2 1 (by decide) rfl _ _ _ _ (k2_off893_eq k) _ (fun x => RowFill.pay_eq _ _ 1 1 k.val 0 2 1 _ hk (by decide) (by decide) rfl _ (k2_off892_eq k) _ (k2_off893_eq k) _ _ x) ?_
  refine RowFill.RowFill.step _ 1 k.val 0 16 2 0 (by decide) rfl _ _ _ _ (k2_off891_eq k) _ (fun x => RowFill.pay_eq _ _ 1 1 k.val 0 2 0 _ hk (by decide) (by decide) rfl _ (k2_off890_eq k) _ (k2_off891_eq k) _ _ x) ?_
  refine RowFill.RowFill.step _ 1 k.val 0 15 1 7 (by decide) rfl _ _ _ _ (k2_off889_eq k) _ (fun x => RowFill.pay_eq _ _ 1 1 k.val 0 1 7 _ hk (by decide) (by decide) rfl _ (k2_off888_eq k) _ (k2_off889_eq k) _ _ x) ?_
  refine RowFill.RowFill.step _ 1 k.val 0 14 1 6 (by decide) rfl _ _ _ _ (k2_off887_eq k) _ (fun x => RowFill.pay_eq _ _ 1 1 k.val 0 1 6 _ hk (by decide) (by decide) rfl _ (k2_off886_eq k) _ (k2_off887_eq k) _ _ x) ?_
  refine RowFill.RowFill.step _ 1 k.val 0 13 1 5 (by decide) rfl _ _ _ _ (k2_off885_eq k) _ (fun x => RowFill.pay_eq _ _ 1 1 k.val 0 1 5 _ hk (by decide) (by decide) rfl _ (k2_off884_eq k) _ (k2_off885_eq k) _ _ x) ?_
  refine RowFill.RowFill.step _ 1 k.val 0 12 1 4 (by decide) rfl _ _ _ _ (k2_off883_eq k) _ (fun x => RowFill.pay_eq _ _ 1 1 k.val 0 1 4 _ hk (by decide) (by decide) rfl _ (k2_off882_eq k) _ (k2_off883_eq k) _ _ x) ?_
  refine RowFill.RowFill.step _ 1 k.val 0 11 1 3 (by decide) rfl _ _ _ _ (k2_off881_eq k) _ (fun x => RowFill.pay_eq _ _ 1 1 k.val 0 1 3 _ hk (by decide) (by decide) rfl _ (k2_off880_eq k) _ (k2_off881_eq k) _ _ x) ?_
  refine RowFill.RowFill.step _ 1 k.val 0 10 1 2 (by decide) rfl _ _ _ _ (k2_off879_eq k) _ (fun x => RowFill.pay_eq _ _ 1 1 k.val 0 1 2 _ hk (by decide) (by decide) rfl _ (k2_off878_eq k) _ (k2_off879_eq k) _ _ x) ?_
  refine RowFill.RowFill.step _ 1 k.val 0 9 1 1 (by decide) rfl _ _ _ _ (k2_off877_eq k) _ (fun x => RowFill.pay_eq _ _ 1 1 k.val 0 1 1 _ hk (by decide) (by decide) rfl _ (k2_off876_eq k) _ (k2_off877_eq k) _ _ x) ?_
  refine RowFill.RowFill.step _ 1 k.val 0 8 1 0 (by decide) rfl _ _ _ _ (k2_off875_eq k) _ (fun x => RowFill.pay_eq _ _ 1 1 k.val 0 1 0 _ hk (by decide) (by decide) rfl _ (k2_off874_eq k) _ (k2_off875_eq k) _ _ x) ?_
  refine RowFill.RowFill.step _ 1 k.val 0 7 0 7 (by decide) rfl _ _ _ _ (k2_off873_eq k) _ (fun x => RowFill.pay_eq _ _ 1 1 k.val 0 0 7 _ hk (by decide) (by decide) rfl _ (k2_off872_eq k) _ (k2_off873_eq k) _ _ x) ?_
  refine RowFill.RowFill.step _ 1 k.val 0 6 0 6 (by decide) rfl _ _ _ _ (k2_off871_eq k) _ (fun x => RowFill.pay_eq _ _ 1 1 k.val 0 0 6 _ hk (by decide) (by decide) rfl _ (k2_off870_eq k) _ (k2_off871_eq k) _ _ x) ?_
  refine RowFill.RowFill.step _ 1 k.val 0 5 0 5 (by decide) rfl _ _ _ _ (k2_off869_eq k) _ (fun x => RowFill.pay_eq _ _ 1 1 k.val 0 0 5 _ hk (by decide) (by decide) rfl _ (k2_off868_eq k) _ (k2_off869_eq k) _ _ x) ?_
  refine RowFill.RowFill.step _ 1 k.val 0 4 0 4 (by decide) rfl _ _ _ _ (k2_off867_eq k) _ (fun x => RowFill.pay_eq _ _ 1 1 k.val 0 0 4 _ hk (by decide) (by decide) rfl _ (k2_off866_eq k) _ (k2_off867_eq k) _ _ x) ?_
  refine RowFill.RowFill.step _ 1 k.val 0 3 0 3 (by decide) rfl _ _ _ _ (k2_off865_eq k) _ (fun x => RowFill.pay_eq _ _ 1 1 k.val 0 0 3 _ hk (by decide) (by decide) rfl _ (k2_off864_eq k) _ (k2_off865_eq k) _ _ x) ?_
  refine RowFill.RowFill.step _ 1 k.val 0 2 0 2 (by decide) rfl _ _ _ _ (k2_off863_eq k) _ (fun x => RowFill.pay_eq _ _ 1 1 k.val 0 0 2 _ hk (by decide) (by decide) rfl _ (k2_off862_eq k) _ (k2_off863_eq k) _ _ x) ?_
  refine RowFill.RowFill.step _ 1 k.val 0 1 0 1 (by decide) rfl _ _ _ _ (k2_off861_eq k) _ (fun x => RowFill.pay_eq _ _ 1 1 k.val 0 0 1 _ hk (by decide) (by decide) rfl _ (k2_off860_eq k) _ (k2_off861_eq k) _ _ x) ?_
  refine RowFill.RowFill.step _ 1 k.val 0 0 0 0 (by decide) rfl _ _ _ _ (k2_off859_eq k) _ (fun x => RowFill.pay_eq _ _ 1 1 k.val 0 0 0 _ hk (by decide) (by decide) rfl _ (k2_off858_eq k) _ (k2_off859_eq k) _ _ x) ?_
  exact RowFill.RowFill.zero _ _ _ _ _ _

end Cert.KernelIdeal.TileBody
-- ==== Proof.TileLoop15.lean ====
/-
  Loop 15 of the tile body: one trip fills one row of a staging slot, sixteen lanes at a time, and leaves the
  loop's invariant at the next row.
-/
import proofs.«206219_g40982577938455_cont_8to1_b_1362_29_alg».proof.Proof.TileSetup

noncomputable section

namespace Cert.KernelIdeal

open Idealize.ShloMosaic Idealize.SL.Sem
open Cert.KernelIdeal.Gen

variable {F : FTy → Type} [FloatOps F]

/-- The region of the loop, as the kernel's text has it. -/
noncomputable def region15 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_601 : BitVec 32) (c1_i32_603 : BitVec 32) (k2_t15 : Fin k2_t15_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part114 i arg2 harg2 arg3 harg3 arg4 harg4 arg5 harg5 arg6 harg6 arg7 arg8 v661_r0 c0_i32_601 c1_i32_603 k2_t15
  let ⟨v734, c0_i32_809⟩ : Σ' (v734 : FVec F S16 .f32), BitVec 32 ← k2_part115 i arg2 harg2 arg3 harg3 arg4 harg4 arg5 harg5 arg6 harg6 arg7 arg8 v661_r0 k2_t15 arg9 v694
  k2_part116 i arg2 harg2 arg3 harg3 arg4 harg4 arg5 harg5 arg6 harg6 arg7 arg8 v661_r0 k2_t15 arg9 v734 c0_i32_809
  let v810 : FVec F S1x1x1x16 .f32 ← k2_part117 i arg2 harg2 arg3 harg3 arg4 harg4 arg5 harg5 arg6 harg6 arg7 arg8 v661_r0 k2_t15 arg9
  let v844 : FVec F S16 .f32 ← k2_part118 i arg2 harg2 arg3 harg3 arg4 harg4 arg5 harg5 arg6 harg6 arg7 arg8 v661_r0 k2_t15 arg9 v810
  let ⟨v884, c0_i32_869⟩ : Σ' (v884 : FVec F S16 .f32), BitVec 32 ← k2_part119 i arg2 harg2 arg3 harg3 arg4 harg4 arg5 harg5 arg6 harg6 arg7 arg8 v661_r0 k2_t15 arg9 v844
  k2_part120 i arg2 harg2 arg3 harg3 arg4 harg4 arg5 harg5 arg6 harg6 arg7 arg8 v661_r0 k2_t15 arg9 v884 c0_i32_869
  let v960 : FVec F S1x1x1x16 .f32 ← k2_part121 i arg2 harg2 arg3 harg3 arg4 harg4 arg5 harg5 arg6 harg6 arg7 arg8 v661_r0 k2_t15 arg9
  Prog.lift (.store arg6 (Rect.unit (s := S2x32x4x256) (k2_off983 k2_t15) S1x1x1x16.size (k2_off983_inb k2_t15)) v960 Finset.univ (View.stores_vmem_bits_univ h_S1x1x1x16 rfl) (.inl rfl))
  let c0_i32_900 : BitVec 32 := 0#32
  let v961 : Index := Scalar.indexCast c0_i32_900
  let v962 : Index := Scalar.indexCast arg9
  let c480 : Index := 480#32
  let v963 : Vec F S1x1x16 .f32 ← Prog.lift (.load arg5 (Rect.unit (s := S2x32x512) (k2_off984 k2_t15) S1x1x16.size (k2_off984_inb k2_t15)).toLoadRect (View.loadsAt_vmem h_S1x1x16))
  have v964 : FVec F S16 .f32 := shapeCast S16 v963 shapeCasts_S1x1x16_S16
  let c0_i32_901 : BitVec 32 := 0#32
  let c3_i32_902 : BitVec 32 := 3#32
  let v965 : Index := Scalar.indexCast c0_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off985 k2_t15) S1x1x1x16.size (k2_off985_inb k2_t15)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off985 k2_t15) S1x1x1x16.size (k2_off985_inb k2_t15)) v970 Finset.univ (View.stores_vmem_bits_univ h_S1x1x1x16 rfl) (.inl rfl))
  let c0_i32_904 : BitVec 32 := 0#32
  let v971 : Index := Scalar.indexCast c0_i32_904
  let v972 : Index := Scalar.indexCast arg9
  let c496 : Index := 496#32
  let v973 : Vec F S1x1x16 .f32 ← Prog.lift (.load arg5 (Rect.unit (s := S2x32x512) (k2_off986 k2_t15) S1x1x16.size (k2_off986_inb k2_t15)).toLoadRect (View.loadsAt_vmem h_S1x1x16))
  have v974 : FVec F S16 .f32 := shapeCast S16 v973 shapeCasts_S1x1x16_S16
  let c0_i32_905 : BitVec 32 := 0#32
  let c3_i32_906 : BitVec 32 := 3#32
  let v975 : Index := Scalar.indexCast c0_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off987 k2_t15) S1x1x1x16.size (k2_off987_inb k2_t15)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off987 k2_t15) S1x1x1x16.size (k2_off987_inb k2_t15)) v980 Finset.univ (View.stores_vmem_bits_univ h_S1x1x1x16 rfl) (.inl rfl))
  pure ⟨⟩

end Cert.KernelIdeal

namespace Cert.KernelIdeal.TileBody

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop15 (A : Buf (Elt F) ((thr d L).loc cc2_scratch0)) (G : Buf (Elt F) ((thr d L).loc cc2_scratch1))
    (k : Fin k2_t15_loop.trips) (acc : PUnit) :
    (invFill0 (F := F) d L 0 A G k.val acc : sProp 𝕄)
      ⊢ wp frame (wpE (defs₀ (F := F)) 𝒱₀ (thr d L) none) Set.univ
          (region15 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill0 (F := F) d L 0 A G (k.val + 1)) := by
  have hk : (k : ℕ) < 32 := lt_of_lt_of_le k.isLt k2_t15_abs.2.1
  unfold invFill0 region15
  iintro ⟨Ha0, %h, Hb0, %hF⟩
  sl_exec
  sl_step
  isplitl [Ha0]; · iexact Ha0
  iexists _; isplitl [Hb0]; · iexact Hb0
  ipureintro
  refine RowFill.Filled.succ _ 0 0 k.val _ _ h _ hF ?_
  refine RowFill.RowFill.step _ 0 k.val 0 31 3 7 (by decide) rfl _ _ _ _ (k2_off987_eq k) _ (fun x => RowFill.pay_eq _ _ 0 0 k.val 0 3 7 _ hk (by decide) (by decide) rfl _ (k2_off986_eq k) _ (k2_off987_eq k) _ _ x) ?_
  refine RowFill.RowFill.step _ 0 k.val 0 30 3 6 (by decide) rfl _ _ _ _ (k2_off985_eq k) _ (fun x => RowFill.pay_eq _ _ 0 0 k.val 0 3 6 _ hk (by decide) (by decide) rfl _ (k2_off984_eq k) _ (k2_off985_eq k) _ _ x) ?_
  refine RowFill.RowFill.step _ 0 k.val 0 29 3 5 (by decide) rfl _ _ _ _ (k2_off983_eq k) _ (fun x => RowFill.pay_eq _ _ 0 0 k.val 0 3 5 _ hk (by decide) (by decide) rfl _ (k2_off982_eq k) _ (k2_off983_eq k) _ _ x) ?_
  refine RowFill.RowFill.step _ 0 k.val 0 28 3 4 (by decide) rfl _ _ _ _ (k2_off981_eq k) _ (fun x => RowFill.pay_eq _ _ 0 0 k.val 0 3 4 _ hk (by decide) (by decide) rfl _ (k2_off980_eq k) _ (k2_off981_eq k) _ _ x) ?_
  refine RowFill.RowFill.step _ 0 k.val 0 27 3 3 (by decide) rfl _ _ _ _ (k2_off979_eq k) _ (fun x => RowFill.pay_eq _ _ 0 0 k.val 0 3 3 _ hk (by decide) (by decide) rfl _ (k2_off978_eq k) _ (k2_off979_eq k) _ _ x) ?_
  refine RowFill.RowFill.step _ 0 k.val 0 26 3 2 (by decide) rfl _ _ _ _ (k2_off977_eq k) _ (fun x => RowFill.pay_eq _ _ 0 0 k.val 0 3 2 _ hk (by decide) (by decide) rfl _ (k2_off976_eq k) _ (k2_off977_eq k) _ _ x) ?_
  refine RowFill.RowFill.step _ 0 k.val 0 25 3 1 (by decide) rfl _ _ _ _ (k2_off975_eq k) _ (fun x => RowFill.pay_eq _ _ 0 0 k.val 0 3 1 _ hk (by decide) (by decide) rfl _ (k2_off974_eq k) _ (k2_off975_eq k) _ _ x) ?_
  refine RowFill.RowFill.step _ 0 k.val 0 24 3 0 (by decide) rfl _ _ _ _ (k2_off973_eq k) _ (fun x => RowFill.pay_eq _ _ 0 0 k.val 0 3 0 _ hk (by decide) (by decide) rfl _ (k2_off972_eq k) _ (k2_off973_eq k) _ _ x) ?_
  refine RowFill.RowFill.step _ 0 k.val 0 23 2 7 (by decide) rfl _ _ _ _ (k2_off971_eq k) _ (fun x => RowFill.pay_eq _ _ 0 0 k.val 0 2 7 _ hk (by decide) (by decide) rfl _ (k2_off970_eq k) _ (k2_off971_eq k) _ _ x) ?_
  refine RowFill.RowFill.step _ 0 k.val 0 22 2 6 (by decide) rfl _ _ _ _ (k2_off969_eq k) _ (fun x => RowFill.pay_eq _ _ 0 0 k.val 0 2 6 _ hk (by decide) (by decide) rfl _ (k2_off968_eq k) _ (k2_off969_eq k) _ _ x) ?_
  refine RowFill.RowFill.step _ 0 k.val 0 21 2 5 (by decide) rfl _ _ _ _ (k2_off967_eq k) _ (fun x => RowFill.pay_eq _ _ 0 0 k.val 0 2 5 _ hk (by decide) (by decide) rfl _ (k2_off966_eq k) _ (k2_off967_eq k) _ _ x) ?_
  refine RowFill.RowFill.step _ 0 k.val 0 20 2 4 (by decide) rfl _ _ _ _ (k2_off965_eq k) _ (fun x => RowFill.pay_eq _ _ 0 0 k.val 0 2 4 _ hk (by decide) (by decide) rfl _ (k2_off964_eq k) _ (k2_off965_eq k) _ _ x) ?_
  refine RowFill.RowFill.step _ 0 k.val 0 19 2 3 (by decide) rfl _ _ _ _ (k2_off963_eq k) _ (fun x => RowFill.pay_eq _ _ 0 0 k.val 0 2 3 _ hk (by decide) (by decide) rfl _ (k2_off962_eq k) _ (k2_off963_eq k) _ _ x) ?_
  refine RowFill.RowFill.step _ 0 k.val 0 18 2 2 (by decide) rfl _ _ _ _ (k2_off961_eq k) _ (fun x => RowFill.pay_eq _ _ 0 0 k.val 0 2 2 _ hk (by decide) (by decide) rfl _ (k2_off960_eq k) _ (k2_off961_eq k) _ _ x) ?_
  refine RowFill.RowFill.step _ 0 k.val 0 17 2 1 (by decide) rfl _ _ _ _ (k2_off959_eq k) _ (fun x => RowFill.pay_eq _ _ 0 0 k.val 0 2 1 _ hk (by decide) (by decide) rfl _ (k2_off958_eq k) _ (k2_off959_eq k) _ _ x) ?_
  refine RowFill.RowFill.step _ 0 k.val 0 16 2 0 (by decide) rfl _ _ _ _ (k2_off957_eq k) _ (fun x => RowFill.pay_eq _ _ 0 0 k.val 0 2 0 _ hk (by decide) (by decide) rfl _ (k2_off956_eq k) _ (k2_off957_eq k) _ _ x) ?_
  refine RowFill.RowFill.step _ 0 k.val 0 15 1 7 (by decide) rfl _ _ _ _ (k2_off955_eq k) _ (fun x => RowFill.pay_eq _ _ 0 0 k.val 0 1 7 _ hk (by decide) (by decide) rfl _ (k2_off954_eq k) _ (k2_off955_eq k) _ _ x) ?_
  refine RowFill.RowFill.step _ 0 k.val 0 14 1 6 (by decide) rfl _ _ _ _ (k2_off953_eq k) _ (fun x => RowFill.pay_eq _ _ 0 0 k.val 0 1 6 _ hk (by decide) (by decide) rfl _ (k2_off952_eq k) _ (k2_off953_eq k) _ _ x) ?_
  refine RowFill.RowFill.step _ 0 k.val 0 13 1 5 (by decide) rfl _ _ _ _ (k2_off951_eq k) _ (fun x => RowFill.pay_eq _ _ 0 0 k.val 0 1 5 _ hk (by decide) (by decide) rfl _ (k2_off950_eq k) _ (k2_off951_eq k) _ _ x) ?_
  refine RowFill.RowFill.step _ 0 k.val 0 12 1 4 (by decide) rfl _ _ _ _ (k2_off949_eq k) _ (fun x => RowFill.pay_eq _ _ 0 0 k.val 0 1 4 _ hk (by decide) (by decide) rfl _ (k2_off948_eq k) _ (k2_off949_eq k) _ _ x) ?_
  refine RowFill.RowFill.step _ 0 k.val 0 11 1 3 (by decide) rfl _ _ _ _ (k2_off947_eq k) _ (fun x => RowFill.pay_eq _ _ 0 0 k.val 0 1 3 _ hk (by decide) (by decide) rfl _ (k2_off946_eq k) _ (k2_off947_eq k) _ _ x) ?_
  refine RowFill.RowFill.step _ 0 k.val 0 10 1 2 (by decide) rfl _ _ _ _ (k2_off945_eq k) _ (fun x => RowFill.pay_eq _ _ 0 0 k.val 0 1 2 _ hk (by decide) (by decide) rfl _ (k2_off944_eq k) _ (k2_off945_eq k) _ _ x) ?_
  refine RowFill.RowFill.step _ 0 k.val 0 9 1 1 (by decide) rfl _ _ _ _ (k2_off943_eq k) _ (fun x => RowFill.pay_eq _ _ 0 0 k.val 0 1 1 _ hk (by decide) (by decide) rfl _ (k2_off942_eq k) _ (k2_off943_eq k) _ _ x) ?_
  refine RowFill.RowFill.step _ 0 k.val 0 8 1 0 (by decide) rfl _ _ _ _ (k2_off941_eq k) _ (fun x => RowFill.pay_eq _ _ 0 0 k.val 0 1 0 _ hk (by decide) (by decide) rfl _ (k2_off940_eq k) _ (k2_off941_eq k) _ _ x) ?_
  refine RowFill.RowFill.step _ 0 k.val 0 7 0 7 (by decide) rfl _ _ _ _ (k2_off939_eq k) _ (fun x => RowFill.pay_eq _ _ 0 0 k.val 0 0 7 _ hk (by decide) (by decide) rfl _ (k2_off938_eq k) _ (k2_off939_eq k) _ _ x) ?_
  refine RowFill.RowFill.step _ 0 k.val 0 6 0 6 (by decide) rfl _ _ _ _ (k2_off937_eq k) _ (fun x => RowFill.pay_eq _ _ 0 0 k.val 0 0 6 _ hk (by decide) (by decide) rfl _ (k2_off936_eq k) _ (k2_off937_eq k) _ _ x) ?_
  refine RowFill.RowFill.step _ 0 k.val 0 5 0 5 (by decide) rfl _ _ _ _ (k2_off935_eq k) _ (fun x => RowFill.pay_eq _ _ 0 0 k.val 0 0 5 _ hk (by decide) (by decide) rfl _ (k2_off934_eq k) _ (k2_off935_eq k) _ _ x) ?_
  refine RowFill.RowFill.step _ 0 k.val 0 4 0 4 (by decide) rfl _ _ _ _ (k2_off933_eq k) _ (fun x => RowFill.pay_eq _ _ 0 0 k.val 0 0 4 _ hk (by decide) (by decide) rfl _ (k2_off932_eq k) _ (k2_off933_eq k) _ _ x) ?_
  refine RowFill.RowFill.step _ 0 k.val 0 3 0 3 (by decide) rfl _ _ _ _ (k2_off931_eq k) _ (fun x => RowFill.pay_eq _ _ 0 0 k.val 0 0 3 _ hk (by decide) (by decide) rfl _ (k2_off930_eq k) _ (k2_off931_eq k) _ _ x) ?_
  refine RowFill.RowFill.step _ 0 k.val 0 2 0 2 (by decide) rfl _ _ _ _ (k2_off929_eq k) _ (fun x => RowFill.pay_eq _ _ 0 0 k.val 0 0 2 _ hk (by decide) (by decide) rfl _ (k2_off928_eq k) _ (k2_off929_eq k) _ _ x) ?_
  refine RowFill.RowFill.step _ 0 k.val 0 1 0 1 (by decide) rfl _ _ _ _ (k2_off927_eq k) _ (fun x => RowFill.pay_eq _ _ 0 0 k.val 0 0 1 _ hk (by decide) (by decide) rfl _ (k2_off926_eq k) _ (k2_off927_eq k) _ _ x) ?_
  refine RowFill.RowFill.step _ 0 k.val 0 0 0 0 (by decide) rfl _ _ _ _ (k2_off925_eq k) _ (fun x => RowFill.pay_eq _ _ 0 0 k.val 0 0 0 _ hk (by decide) (by decide) rfl _ (k2_off924_eq k) _ (k2_off925_eq k) _ _ x) ?_
  exact RowFill.RowFill.zero _ _ _ _ _ _

end Cert.KernelIdeal.TileBody
-- ==== Proof.TileLoop16.lean ====
/-
  Loop 16 of the tile body: one trip fills one row of a staging slot, sixteen lanes at a time, and leaves the
  loop's invariant at the next row.
-/
import proofs.«206219_g40982577938455_cont_8to1_b_1362_29_alg».proof.Proof.TileSetup

noncomputable section

namespace Cert.KernelIdeal

open Idealize.ShloMosaic Idealize.SL.Sem
open Cert.KernelIdeal.Gen

variable {F : FTy → Type} [FloatOps F]

/-- The region of the loop, as the kernel's text has it. -/
noncomputable def region16 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_649 : BitVec 32) (c1_i32_651 : BitVec 32) (k2_t16 : Fin k2_t16_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part122 i arg2 harg2 arg3 harg3 arg4 harg4 arg5 harg5 arg6 harg6 arg7 arg8 v661_r0 c0_i32_649 c1_i32_651 k2_t16
  let ⟨v734, c1_i32_809⟩ : Σ' (v734 : FVec F S16 .f32), BitVec 32 ← k2_part123 i arg2 harg2 arg3 harg3 arg4 harg4 arg5 harg5 arg6 harg6 arg7 arg8 v661_r0 k2_t16 arg9 v694
  k2_part124 i arg2 harg2 arg3 harg3 arg4 harg4 arg5 harg5 arg6 harg6 arg7 arg8 v661_r0 k2_t16 arg9 v734 c1_i32_809
  let v810 : FVec F S1x1x1x16 .f32 ← k2_part125 i arg2 harg2 arg3 harg3 arg4 harg4 arg5 harg5 arg6 harg6 arg7 arg8 v661_r0 k2_t16 arg9
  let v844 : FVec F S16 .f32 ← k2_part126 i arg2 harg2 arg3 harg3 arg4 harg4 arg5 harg5 arg6 harg6 arg7 arg8 v661_r0 k2_t16 arg9 v810
  let ⟨v884, c1_i32_869⟩ : Σ' (v884 : FVec F S16 .f32), BitVec 32 ← k2_part127 i arg2 harg2 arg3 harg3 arg4 harg4 arg5 harg5 arg6 harg6 arg7 arg8 v661_r0 k2_t16 arg9 v844
  k2_part128 i arg2 harg2 arg3 harg3 arg4 harg4 arg5 harg5 arg6 harg6 arg7 arg8 v661_r0 k2_t16 arg9 v884 c1_i32_869
  let v960 : FVec F S1x1x1x16 .f32 ← k2_part129 i arg2 harg2 arg3 harg3 arg4 harg4 arg5 harg5 arg6 harg6 arg7 arg8 v661_r0 k2_t16 arg9
  Prog.lift (.store arg6 (Rect.unit (s := S2x32x4x256) (k2_off1049 k2_t16) S1x1x1x16.size (k2_off1049_inb k2_t16)) v960 Finset.univ (View.stores_vmem_bits_univ h_S1x1x1x16 rfl) (.inl rfl))
  let c1_i32_900 : BitVec 32 := 1#32
  let v961 : Index := Scalar.indexCast c1_i32_900
  let v962 : Index := Scalar.indexCast arg9
  let c480 : Index := 480#32
  let v963 : Vec F S1x1x16 .f32 ← Prog.lift (.load arg5 (Rect.unit (s := S2x32x512) (k2_off1050 k2_t16) S1x1x16.size (k2_off1050_inb k2_t16)).toLoadRect (View.loadsAt_vmem h_S1x1x16))
  have v964 : FVec F S16 .f32 := shapeCast S16 v963 shapeCasts_S1x1x16_S16
  let c1_i32_901 : BitVec 32 := 1#32
  let c3_i32_902 : BitVec 32 := 3#32
  let v965 : Index := Scalar.indexCast c1_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off1051 k2_t16) S1x1x1x16.size (k2_off1051_inb k2_t16)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off1051 k2_t16) S1x1x1x16.size (k2_off1051_inb k2_t16)) v970 Finset.univ (View.stores_vmem_bits_univ h_S1x1x1x16 rfl) (.inl rfl))
  let c1_i32_904 : BitVec 32 := 1#32
  let v971 : Index := Scalar.indexCast c1_i32_904
  let v972 : Index := Scalar.indexCast arg9
  let c496 : Index := 496#32
  let v973 : Vec F S1x1x16 .f32 ← Prog.lift (.load arg5 (Rect.unit (s := S2x32x512) (k2_off1052 k2_t16) S1x1x16.size (k2_off1052_inb k2_t16)).toLoadRect (View.loadsAt_vmem h_S1x1x16))
  have v974 : FVec F S16 .f32 := shapeCast S16 v973 shapeCasts_S1x1x16_S16
  let c1_i32_905 : BitVec 32 := 1#32
  let c3_i32_906 : BitVec 32 := 3#32
  let v975 : Index := Scalar.indexCast c1_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off1053 k2_t16) S1x1x1x16.size (k2_off1053_inb k2_t16)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off1053 k2_t16) S1x1x1x16.size (k2_off1053_inb k2_t16)) v980 Finset.univ (View.stores_vmem_bits_univ h_S1x1x1x16 rfl) (.inl rfl))
  pure ⟨⟩

end Cert.KernelIdeal

namespace Cert.KernelIdeal.TileBody

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop16 (A : Buf (Elt F) ((thr d L).loc cc2_scratch0)) (G : Buf (Elt F) ((thr d L).loc cc2_scratch1))
    (k : Fin k2_t16_loop.trips) (acc : PUnit) :
    (invFill1 (F := F) d L 0 A G k.val acc : sProp 𝕄)
      ⊢ wp frame (wpE (defs₀ (F := F)) 𝒱₀ (thr d L) none) Set.univ
          (region16 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill1 (F := F) d L 0 A G (k.val + 1)) := by
  have hk : (k : ℕ) < 32 := lt_of_lt_of_le k.isLt k2_t16_abs.2.1
  unfold invFill1 region16
  iintro ⟨Ha1, %h, Hb1, %hF⟩
  sl_exec
  sl_step
  isplitl [Ha1]; · iexact Ha1
  iexists _; isplitl [Hb1]; · iexact Hb1
  ipureintro
  refine RowFill.Filled.succ _ 1 0 k.val _ _ h _ hF ?_
  refine RowFill.RowFill.step _ 1 k.val 0 31 3 7 (by decide) rfl _ _ _ _ (k2_off1053_eq k) _ (fun x => RowFill.pay_eq _ _ 1 1 k.val 0 3 7 _ hk (by decide) (by decide) rfl _ (k2_off1052_eq k) _ (k2_off1053_eq k) _ _ x) ?_
  refine RowFill.RowFill.step _ 1 k.val 0 30 3 6 (by decide) rfl _ _ _ _ (k2_off1051_eq k) _ (fun x => RowFill.pay_eq _ _ 1 1 k.val 0 3 6 _ hk (by decide) (by decide) rfl _ (k2_off1050_eq k) _ (k2_off1051_eq k) _ _ x) ?_
  refine RowFill.RowFill.step _ 1 k.val 0 29 3 5 (by decide) rfl _ _ _ _ (k2_off1049_eq k) _ (fun x => RowFill.pay_eq _ _ 1 1 k.val 0 3 5 _ hk (by decide) (by decide) rfl _ (k2_off1048_eq k) _ (k2_off1049_eq k) _ _ x) ?_
  refine RowFill.RowFill.step _ 1 k.val 0 28 3 4 (by decide) rfl _ _ _ _ (k2_off1047_eq k) _ (fun x => RowFill.pay_eq _ _ 1 1 k.val 0 3 4 _ hk (by decide) (by decide) rfl _ (k2_off1046_eq k) _ (k2_off1047_eq k) _ _ x) ?_
  refine RowFill.RowFill.step _ 1 k.val 0 27 3 3 (by decide) rfl _ _ _ _ (k2_off1045_eq k) _ (fun x => RowFill.pay_eq _ _ 1 1 k.val 0 3 3 _ hk (by decide) (by decide) rfl _ (k2_off1044_eq k) _ (k2_off1045_eq k) _ _ x) ?_
  refine RowFill.RowFill.step _ 1 k.val 0 26 3 2 (by decide) rfl _ _ _ _ (k2_off1043_eq k) _ (fun x => RowFill.pay_eq _ _ 1 1 k.val 0 3 2 _ hk (by decide) (by decide) rfl _ (k2_off1042_eq k) _ (k2_off1043_eq k) _ _ x) ?_
  refine RowFill.RowFill.step _ 1 k.val 0 25 3 1 (by decide) rfl _ _ _ _ (k2_off1041_eq k) _ (fun x => RowFill.pay_eq _ _ 1 1 k.val 0 3 1 _ hk (by decide) (by decide) rfl _ (k2_off1040_eq k) _ (k2_off1041_eq k) _ _ x) ?_
  refine RowFill.RowFill.step _ 1 k.val 0 24 3 0 (by decide) rfl _ _ _ _ (k2_off1039_eq k) _ (fun x => RowFill.pay_eq _ _ 1 1 k.val 0 3 0 _ hk (by decide) (by decide) rfl _ (k2_off1038_eq k) _ (k2_off1039_eq k) _ _ x) ?_
  refine RowFill.RowFill.step _ 1 k.val 0 23 2 7 (by decide) rfl _ _ _ _ (k2_off1037_eq k) _ (fun x => RowFill.pay_eq _ _ 1 1 k.val 0 2 7 _ hk (by decide) (by decide) rfl _ (k2_off1036_eq k) _ (k2_off1037_eq k) _ _ x) ?_
  refine RowFill.RowFill.step _ 1 k.val 0 22 2 6 (by decide) rfl _ _ _ _ (k2_off1035_eq k) _ (fun x => RowFill.pay_eq _ _ 1 1 k.val 0 2 6 _ hk (by decide) (by decide) rfl _ (k2_off1034_eq k) _ (k2_off1035_eq k) _ _ x) ?_
  refine RowFill.RowFill.step _ 1 k.val 0 21 2 5 (by decide) rfl _ _ _ _ (k2_off1033_eq k) _ (fun x => RowFill.pay_eq _ _ 1 1 k.val 0 2 5 _ hk (by decide) (by decide) rfl _ (k2_off1032_eq k) _ (k2_off1033_eq k) _ _ x) ?_
  refine RowFill.RowFill.step _ 1 k.val 0 20 2 4 (by decide) rfl _ _ _ _ (k2_off1031_eq k) _ (fun x => RowFill.pay_eq _ _ 1 1 k.val 0 2 4 _ hk (by decide) (by decide) rfl _ (k2_off1030_eq k) _ (k2_off1031_eq k) _ _ x) ?_
  refine RowFill.RowFill.step _ 1 k.val 0 19 2 3 (by decide) rfl _ _ _ _ (k2_off1029_eq k) _ (fun x => RowFill.pay_eq _ _ 1 1 k.val 0 2 3 _ hk (by decide) (by decide) rfl _ (k2_off1028_eq k) _ (k2_off1029_eq k) _ _ x) ?_
  refine RowFill.RowFill.step _ 1 k.val 0 18 2 2 (by decide) rfl _ _ _ _ (k2_off1027_eq k) _ (fun x => RowFill.pay_eq _ _ 1 1 k.val 0 2 2 _ hk (by decide) (by decide) rfl _ (k2_off1026_eq k) _ (k2_off1027_eq k) _ _ x) ?_
  refine RowFill.RowFill.step _ 1 k.val 0 17 2 1 (by decide) rfl _ _ _ _ (k2_off1025_eq k) _ (fun x => RowFill.pay_eq _ _ 1 1 k.val 0 2 1 _ hk (by decide) (by decide) rfl _ (k2_off1024_eq k) _ (k2_off1025_eq k) _ _ x) ?_
  refine RowFill.RowFill.step _ 1 k.val 0 16 2 0 (by decide) rfl _ _ _ _ (k2_off1023_eq k) _ (fun x => RowFill.pay_eq _ _ 1 1 k.val 0 2 0 _ hk (by decide) (by decide) rfl _ (k2_off1022_eq k) _ (k2_off1023_eq k) _ _ x) ?_
  refine RowFill.RowFill.step _ 1 k.val 0 15 1 7 (by decide) rfl _ _ _ _ (k2_off1021_eq k) _ (fun x => RowFill.pay_eq _ _ 1 1 k.val 0 1 7 _ hk (by decide) (by decide) rfl _ (k2_off1020_eq k) _ (k2_off1021_eq k) _ _ x) ?_
  refine RowFill.RowFill.step _ 1 k.val 0 14 1 6 (by decide) rfl _ _ _ _ (k2_off1019_eq k) _ (fun x => RowFill.pay_eq _ _ 1 1 k.val 0 1 6 _ hk (by decide) (by decide) rfl _ (k2_off1018_eq k) _ (k2_off1019_eq k) _ _ x) ?_
  refine RowFill.RowFill.step _ 1 k.val 0 13 1 5 (by decide) rfl _ _ _ _ (k2_off1017_eq k) _ (fun x => RowFill.pay_eq _ _ 1 1 k.val 0 1 5 _ hk (by decide) (by decide) rfl _ (k2_off1016_eq k) _ (k2_off1017_eq k) _ _ x) ?_
  refine RowFill.RowFill.step _ 1 k.val 0 12 1 4 (by decide) rfl _ _ _ _ (k2_off1015_eq k) _ (fun x => RowFill.pay_eq _ _ 1 1 k.val 0 1 4 _ hk (by decide) (by decide) rfl _ (k2_off1014_eq k) _ (k2_off1015_eq k) _ _ x) ?_
  refine RowFill.RowFill.step _ 1 k.val 0 11 1 3 (by decide) rfl _ _ _ _ (k2_off1013_eq k) _ (fun x => RowFill.pay_eq _ _ 1 1 k.val 0 1 3 _ hk (by decide) (by decide) rfl _ (k2_off1012_eq k) _ (k2_off1013_eq k) _ _ x) ?_
  refine RowFill.RowFill.step _ 1 k.val 0 10 1 2 (by decide) rfl _ _ _ _ (k2_off1011_eq k) _ (fun x => RowFill.pay_eq _ _ 1 1 k.val 0 1 2 _ hk (by decide) (by decide) rfl _ (k2_off1010_eq k) _ (k2_off1011_eq k) _ _ x) ?_
  refine RowFill.RowFill.step _ 1 k.val 0 9 1 1 (by decide) rfl _ _ _ _ (k2_off1009_eq k) _ (fun x => RowFill.pay_eq _ _ 1 1 k.val 0 1 1 _ hk (by decide) (by decide) rfl _ (k2_off1008_eq k) _ (k2_off1009_eq k) _ _ x) ?_
  refine RowFill.RowFill.step _ 1 k.val 0 8 1 0 (by decide) rfl _ _ _ _ (k2_off1007_eq k) _ (fun x => RowFill.pay_eq _ _ 1 1 k.val 0 1 0 _ hk (by decide) (by decide) rfl _ (k2_off1006_eq k) _ (k2_off1007_eq k) _ _ x) ?_
  refine RowFill.RowFill.step _ 1 k.val 0 7 0 7 (by decide) rfl _ _ _ _ (k2_off1005_eq k) _ (fun x => RowFill.pay_eq _ _ 1 1 k.val 0 0 7 _ hk (by decide) (by decide) rfl _ (k2_off1004_eq k) _ (k2_off1005_eq k) _ _ x) ?_
  refine RowFill.RowFill.step _ 1 k.val 0 6 0 6 (by decide) rfl _ _ _ _ (k2_off1003_eq k) _ (fun x => RowFill.pay_eq _ _ 1 1 k.val 0 0 6 _ hk (by decide) (by decide) rfl _ (k2_off1002_eq k) _ (k2_off1003_eq k) _ _ x) ?_
  refine RowFill.RowFill.step _ 1 k.val 0 5 0 5 (by decide) rfl _ _ _ _ (k2_off1001_eq k) _ (fun x => RowFill.pay_eq _ _ 1 1 k.val 0 0 5 _ hk (by decide) (by decide) rfl _ (k2_off1000_eq k) _ (k2_off1001_eq k) _ _ x) ?_
  refine RowFill.RowFill.step _ 1 k.val 0 4 0 4 (by decide) rfl _ _ _ _ (k2_off999_eq k) _ (fun x => RowFill.pay_eq _ _ 1 1 k.val 0 0 4 _ hk (by decide) (by decide) rfl _ (k2_off998_eq k) _ (k2_off999_eq k) _ _ x) ?_
  refine RowFill.RowFill.step _ 1 k.val 0 3 0 3 (by decide) rfl _ _ _ _ (k2_off997_eq k) _ (fun x => RowFill.pay_eq _ _ 1 1 k.val 0 0 3 _ hk (by decide) (by decide) rfl _ (k2_off996_eq k) _ (k2_off997_eq k) _ _ x) ?_
  refine RowFill.RowFill.step _ 1 k.val 0 2 0 2 (by decide) rfl _ _ _ _ (k2_off995_eq k) _ (fun x => RowFill.pay_eq _ _ 1 1 k.val 0 0 2 _ hk (by decide) (by decide) rfl _ (k2_off994_eq k) _ (k2_off995_eq k) _ _ x) ?_
  refine RowFill.RowFill.step _ 1 k.val 0 1 0 1 (by decide) rfl _ _ _ _ (k2_off993_eq k) _ (fun x => RowFill.pay_eq _ _ 1 1 k.val 0 0 1 _ hk (by decide) (by decide) rfl _ (k2_off992_eq k) _ (k2_off993_eq k) _ _ x) ?_
  refine RowFill.RowFill.step _ 1 k.val 0 0 0 0 (by decide) rfl _ _ _ _ (k2_off991_eq k) _ (fun x => RowFill.pay_eq _ _ 1 1 k.val 0 0 0 _ hk (by decide) (by decide) rfl _ (k2_off990_eq k) _ (k2_off991_eq k) _ _ x) ?_
  exact RowFill.RowFill.zero _ _ _ _ _ _

end Cert.KernelIdeal.TileBody
-- ==== Proof.TileLoop17.lean ====
/-
  Loop 17 of the tile body: one trip fills one row of a staging slot, sixteen lanes at a time, and leaves the
  loop's invariant at the next row.
-/
import proofs.«206219_g40982577938455_cont_8to1_b_1362_29_alg».proof.Proof.TileSetup

noncomputable section

namespace Cert.KernelIdeal

open Idealize.ShloMosaic Idealize.SL.Sem
open Cert.KernelIdeal.Gen

variable {F : FTy → Type} [FloatOps F]

/-- The region of the loop, as the kernel's text has it. -/
noncomputable def region17 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_697 : BitVec 32) (c1_i32_699 : BitVec 32) (k2_t17 : Fin k2_t17_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part130 i arg2 harg2 arg3 harg3 arg4 harg4 arg5 harg5 arg6 harg6 arg7 arg8 v661_r0 c0_i32_697 c1_i32_699 k2_t17
  let ⟨v734, c0_i32_809⟩ : Σ' (v734 : FVec F S16 .f32), BitVec 32 ← k2_part131 i arg2 harg2 arg3 harg3 arg4 harg4 arg5 harg5 arg6 harg6 arg7 arg8 v661_r0 k2_t17 arg9 v694
  k2_part132 i arg2 harg2 arg3 harg3 arg4 harg4 arg5 harg5 arg6 harg6 arg7 arg8 v661_r0 k2_t17 arg9 v734 c0_i32_809
  let v810 : FVec F S1x1x1x16 .f32 ← k2_part133 i arg2 harg2 arg3 harg3 arg4 harg4 arg5 harg5 arg6 harg6 arg7 arg8 v661_r0 k2_t17 arg9
  let v844 : FVec F S16 .f32 ← k2_part134 i arg2 harg2 arg3 harg3 arg4 harg4 arg5 harg5 arg6 harg6 arg7 arg8 v661_r0 k2_t17 arg9 v810
  let ⟨v884, c0_i32_869⟩ : Σ' (v884 : FVec F S16 .f32), BitVec 32 ← k2_part135 i arg2 harg2 arg3 harg3 arg4 harg4 arg5 harg5 arg6 harg6 arg7 arg8 v661_r0 k2_t17 arg9 v844
  k2_part136 i arg2 harg2 arg3 harg3 arg4 harg4 arg5 harg5 arg6 harg6 arg7 arg8 v661_r0 k2_t17 arg9 v884 c0_i32_869
  let v960 : FVec F S1x1x1x16 .f32 ← k2_part137 i arg2 harg2 arg3 harg3 arg4 harg4 arg5 harg5 arg6 harg6 arg7 arg8 v661_r0 k2_t17 arg9
  Prog.lift (.store arg6 (Rect.unit (s := S2x32x4x256) (k2_off1115 k2_t17) S1x1x1x16.size (k2_off1115_inb k2_t17)) v960 Finset.univ (View.stores_vmem_bits_univ h_S1x1x1x16 rfl) (.inl rfl))
  let c0_i32_900 : BitVec 32 := 0#32
  let v961 : Index := Scalar.indexCast c0_i32_900
  let v962 : Index := Scalar.indexCast arg9
  let c480 : Index := 480#32
  let v963 : Vec F S1x1x16 .f32 ← Prog.lift (.load arg5 (Rect.unit (s := S2x32x512) (k2_off1116 k2_t17) S1x1x16.size (k2_off1116_inb k2_t17)).toLoadRect (View.loadsAt_vmem h_S1x1x16))
  have v964 : FVec F S16 .f32 := shapeCast S16 v963 shapeCasts_S1x1x16_S16
  let c0_i32_901 : BitVec 32 := 0#32
  let c3_i32_902 : BitVec 32 := 3#32
  let v965 : Index := Scalar.indexCast c0_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off1117 k2_t17) S1x1x1x16.size (k2_off1117_inb k2_t17)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off1117 k2_t17) S1x1x1x16.size (k2_off1117_inb k2_t17)) v970 Finset.univ (View.stores_vmem_bits_univ h_S1x1x1x16 rfl) (.inl rfl))
  let c0_i32_904 : BitVec 32 := 0#32
  let v971 : Index := Scalar.indexCast c0_i32_904
  let v972 : Index := Scalar.indexCast arg9
  let c496 : Index := 496#32
  let v973 : Vec F S1x1x16 .f32 ← Prog.lift (.load arg5 (Rect.unit (s := S2x32x512) (k2_off1118 k2_t17) S1x1x16.size (k2_off1118_inb k2_t17)).toLoadRect (View.loadsAt_vmem h_S1x1x16))
  have v974 : FVec F S16 .f32 := shapeCast S16 v973 shapeCasts_S1x1x16_S16
  let c0_i32_905 : BitVec 32 := 0#32
  let c3_i32_906 : BitVec 32 := 3#32
  let v975 : Index := Scalar.indexCast c0_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off1119 k2_t17) S1x1x1x16.size (k2_off1119_inb k2_t17)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off1119 k2_t17) S1x1x1x16.size (k2_off1119_inb k2_t17)) v980 Finset.univ (View.stores_vmem_bits_univ h_S1x1x1x16 rfl) (.inl rfl))
  pure ⟨⟩

end Cert.KernelIdeal

namespace Cert.KernelIdeal.TileBody

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop17 (A : Buf (Elt F) ((thr d L).loc cc2_scratch0)) (G : Buf (Elt F) ((thr d L).loc cc2_scratch1))
    (k : Fin k2_t17_loop.trips) (acc : PUnit) :
    (invFill0 (F := F) d L 0 A G k.val acc : sProp 𝕄)
      ⊢ wp frame (wpE (defs₀ (F := F)) 𝒱₀ (thr d L) none) Set.univ
          (region17 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill0 (F := F) d L 0 A G (k.val + 1)) := by
  have hk : (k : ℕ) < 32 := lt_of_lt_of_le k.isLt k2_t17_abs.2.1
  unfold invFill0 region17
  iintro ⟨Ha0, %h, Hb0, %hF⟩
  sl_exec
  sl_step
  isplitl [Ha0]; · iexact Ha0
  iexists _; isplitl [Hb0]; · iexact Hb0
  ipureintro
  refine RowFill.Filled.succ _ 0 0 k.val _ _ h _ hF ?_
  refine RowFill.RowFill.step _ 0 k.val 0 31 3 7 (by decide) rfl _ _ _ _ (k2_off1119_eq k) _ (fun x => RowFill.pay_eq _ _ 0 0 k.val 0 3 7 _ hk (by decide) (by decide) rfl _ (k2_off1118_eq k) _ (k2_off1119_eq k) _ _ x) ?_
  refine RowFill.RowFill.step _ 0 k.val 0 30 3 6 (by decide) rfl _ _ _ _ (k2_off1117_eq k) _ (fun x => RowFill.pay_eq _ _ 0 0 k.val 0 3 6 _ hk (by decide) (by decide) rfl _ (k2_off1116_eq k) _ (k2_off1117_eq k) _ _ x) ?_
  refine RowFill.RowFill.step _ 0 k.val 0 29 3 5 (by decide) rfl _ _ _ _ (k2_off1115_eq k) _ (fun x => RowFill.pay_eq _ _ 0 0 k.val 0 3 5 _ hk (by decide) (by decide) rfl _ (k2_off1114_eq k) _ (k2_off1115_eq k) _ _ x) ?_
  refine RowFill.RowFill.step _ 0 k.val 0 28 3 4 (by decide) rfl _ _ _ _ (k2_off1113_eq k) _ (fun x => RowFill.pay_eq _ _ 0 0 k.val 0 3 4 _ hk (by decide) (by decide) rfl _ (k2_off1112_eq k) _ (k2_off1113_eq k) _ _ x) ?_
  refine RowFill.RowFill.step _ 0 k.val 0 27 3 3 (by decide) rfl _ _ _ _ (k2_off1111_eq k) _ (fun x => RowFill.pay_eq _ _ 0 0 k.val 0 3 3 _ hk (by decide) (by decide) rfl _ (k2_off1110_eq k) _ (k2_off1111_eq k) _ _ x) ?_
  refine RowFill.RowFill.step _ 0 k.val 0 26 3 2 (by decide) rfl _ _ _ _ (k2_off1109_eq k) _ (fun x => RowFill.pay_eq _ _ 0 0 k.val 0 3 2 _ hk (by decide) (by decide) rfl _ (k2_off1108_eq k) _ (k2_off1109_eq k) _ _ x) ?_
  refine RowFill.RowFill.step _ 0 k.val 0 25 3 1 (by decide) rfl _ _ _ _ (k2_off1107_eq k) _ (fun x => RowFill.pay_eq _ _ 0 0 k.val 0 3 1 _ hk (by decide) (by decide) rfl _ (k2_off1106_eq k) _ (k2_off1107_eq k) _ _ x) ?_
  refine RowFill.RowFill.step _ 0 k.val 0 24 3 0 (by decide) rfl _ _ _ _ (k2_off1105_eq k) _ (fun x => RowFill.pay_eq _ _ 0 0 k.val 0 3 0 _ hk (by decide) (by decide) rfl _ (k2_off1104_eq k) _ (k2_off1105_eq k) _ _ x) ?_
  refine RowFill.RowFill.step _ 0 k.val 0 23 2 7 (by decide) rfl _ _ _ _ (k2_off1103_eq k) _ (fun x => RowFill.pay_eq _ _ 0 0 k.val 0 2 7 _ hk (by decide) (by decide) rfl _ (k2_off1102_eq k) _ (k2_off1103_eq k) _ _ x) ?_
  refine RowFill.RowFill.step _ 0 k.val 0 22 2 6 (by decide) rfl _ _ _ _ (k2_off1101_eq k) _ (fun x => RowFill.pay_eq _ _ 0 0 k.val 0 2 6 _ hk (by decide) (by decide) rfl _ (k2_off1100_eq k) _ (k2_off1101_eq k) _ _ x) ?_
  refine RowFill.RowFill.step _ 0 k.val 0 21 2 5 (by decide) rfl _ _ _ _ (k2_off1099_eq k) _ (fun x => RowFill.pay_eq _ _ 0 0 k.val 0 2 5 _ hk (by decide) (by decide) rfl _ (k2_off1098_eq k) _ (k2_off1099_eq k) _ _ x) ?_
  refine RowFill.RowFill.step _ 0 k.val 0 20 2 4 (by decide) rfl _ _ _ _ (k2_off1097_eq k) _ (fun x => RowFill.pay_eq _ _ 0 0 k.val 0 2 4 _ hk (by decide) (by decide) rfl _ (k2_off1096_eq k) _ (k2_off1097_eq k) _ _ x) ?_
  refine RowFill.RowFill.step _ 0 k.val 0 19 2 3 (by decide) rfl _ _ _ _ (k2_off1095_eq k) _ (fun x => RowFill.pay_eq _ _ 0 0 k.val 0 2 3 _ hk (by decide) (by decide) rfl _ (k2_off1094_eq k) _ (k2_off1095_eq k) _ _ x) ?_
  refine RowFill.RowFill.step _ 0 k.val 0 18 2 2 (by decide) rfl _ _ _ _ (k2_off1093_eq k) _ (fun x => RowFill.pay_eq _ _ 0 0 k.val 0 2 2 _ hk (by decide) (by decide) rfl _ (k2_off1092_eq k) _ (k2_off1093_eq k) _ _ x) ?_
  refine RowFill.RowFill.step _ 0 k.val 0 17 2 1 (by decide) rfl _ _ _ _ (k2_off1091_eq k) _ (fun x => RowFill.pay_eq _ _ 0 0 k.val 0 2 1 _ hk (by decide) (by decide) rfl _ (k2_off1090_eq k) _ (k2_off1091_eq k) _ _ x) ?_
  refine RowFill.RowFill.step _ 0 k.val 0 16 2 0 (by decide) rfl _ _ _ _ (k2_off1089_eq k) _ (fun x => RowFill.pay_eq _ _ 0 0 k.val 0 2 0 _ hk (by decide) (by decide) rfl _ (k2_off1088_eq k) _ (k2_off1089_eq k) _ _ x) ?_
  refine RowFill.RowFill.step _ 0 k.val 0 15 1 7 (by decide) rfl _ _ _ _ (k2_off1087_eq k) _ (fun x => RowFill.pay_eq _ _ 0 0 k.val 0 1 7 _ hk (by decide) (by decide) rfl _ (k2_off1086_eq k) _ (k2_off1087_eq k) _ _ x) ?_
  refine RowFill.RowFill.step _ 0 k.val 0 14 1 6 (by decide) rfl _ _ _ _ (k2_off1085_eq k) _ (fun x => RowFill.pay_eq _ _ 0 0 k.val 0 1 6 _ hk (by decide) (by decide) rfl _ (k2_off1084_eq k) _ (k2_off1085_eq k) _ _ x) ?_
  refine RowFill.RowFill.step _ 0 k.val 0 13 1 5 (by decide) rfl _ _ _ _ (k2_off1083_eq k) _ (fun x => RowFill.pay_eq _ _ 0 0 k.val 0 1 5 _ hk (by decide) (by decide) rfl _ (k2_off1082_eq k) _ (k2_off1083_eq k) _ _ x) ?_
  refine RowFill.RowFill.step _ 0 k.val 0 12 1 4 (by decide) rfl _ _ _ _ (k2_off1081_eq k) _ (fun x => RowFill.pay_eq _ _ 0 0 k.val 0 1 4 _ hk (by decide) (by decide) rfl _ (k2_off1080_eq k) _ (k2_off1081_eq k) _ _ x) ?_
  refine RowFill.RowFill.step _ 0 k.val 0 11 1 3 (by decide) rfl _ _ _ _ (k2_off1079_eq k) _ (fun x => RowFill.pay_eq _ _ 0 0 k.val 0 1 3 _ hk (by decide) (by decide) rfl _ (k2_off1078_eq k) _ (k2_off1079_eq k) _ _ x) ?_
  refine RowFill.RowFill.step _ 0 k.val 0 10 1 2 (by decide) rfl _ _ _ _ (k2_off1077_eq k) _ (fun x => RowFill.pay_eq _ _ 0 0 k.val 0 1 2 _ hk (by decide) (by decide) rfl _ (k2_off1076_eq k) _ (k2_off1077_eq k) _ _ x) ?_
  refine RowFill.RowFill.step _ 0 k.val 0 9 1 1 (by decide) rfl _ _ _ _ (k2_off1075_eq k) _ (fun x => RowFill.pay_eq _ _ 0 0 k.val 0 1 1 _ hk (by decide) (by decide) rfl _ (k2_off1074_eq k) _ (k2_off1075_eq k) _ _ x) ?_
  refine RowFill.RowFill.step _ 0 k.val 0 8 1 0 (by decide) rfl _ _ _ _ (k2_off1073_eq k) _ (fun x => RowFill.pay_eq _ _ 0 0 k.val 0 1 0 _ hk (by decide) (by decide) rfl _ (k2_off1072_eq k) _ (k2_off1073_eq k) _ _ x) ?_
  refine RowFill.RowFill.step _ 0 k.val 0 7 0 7 (by decide) rfl _ _ _ _ (k2_off1071_eq k) _ (fun x => RowFill.pay_eq _ _ 0 0 k.val 0 0 7 _ hk (by decide) (by decide) rfl _ (k2_off1070_eq k) _ (k2_off1071_eq k) _ _ x) ?_
  refine RowFill.RowFill.step _ 0 k.val 0 6 0 6 (by decide) rfl _ _ _ _ (k2_off1069_eq k) _ (fun x => RowFill.pay_eq _ _ 0 0 k.val 0 0 6 _ hk (by decide) (by decide) rfl _ (k2_off1068_eq k) _ (k2_off1069_eq k) _ _ x) ?_
  refine RowFill.RowFill.step _ 0 k.val 0 5 0 5 (by decide) rfl _ _ _ _ (k2_off1067_eq k) _ (fun x => RowFill.pay_eq _ _ 0 0 k.val 0 0 5 _ hk (by decide) (by decide) rfl _ (k2_off1066_eq k) _ (k2_off1067_eq k) _ _ x) ?_
  refine RowFill.RowFill.step _ 0 k.val 0 4 0 4 (by decide) rfl _ _ _ _ (k2_off1065_eq k) _ (fun x => RowFill.pay_eq _ _ 0 0 k.val 0 0 4 _ hk (by decide) (by decide) rfl _ (k2_off1064_eq k) _ (k2_off1065_eq k) _ _ x) ?_
  refine RowFill.RowFill.step _ 0 k.val 0 3 0 3 (by decide) rfl _ _ _ _ (k2_off1063_eq k) _ (fun x => RowFill.pay_eq _ _ 0 0 k.val 0 0 3 _ hk (by decide) (by decide) rfl _ (k2_off1062_eq k) _ (k2_off1063_eq k) _ _ x) ?_
  refine RowFill.RowFill.step _ 0 k.val 0 2 0 2 (by decide) rfl _ _ _ _ (k2_off1061_eq k) _ (fun x => RowFill.pay_eq _ _ 0 0 k.val 0 0 2 _ hk (by decide) (by decide) rfl _ (k2_off1060_eq k) _ (k2_off1061_eq k) _ _ x) ?_
  refine RowFill.RowFill.step _ 0 k.val 0 1 0 1 (by decide) rfl _ _ _ _ (k2_off1059_eq k) _ (fun x => RowFill.pay_eq _ _ 0 0 k.val 0 0 1 _ hk (by decide) (by decide) rfl _ (k2_off1058_eq k) _ (k2_off1059_eq k) _ _ x) ?_
  refine RowFill.RowFill.step _ 0 k.val 0 0 0 0 (by decide) rfl _ _ _ _ (k2_off1057_eq k) _ (fun x => RowFill.pay_eq _ _ 0 0 k.val 0 0 0 _ hk (by decide) (by decide) rfl _ (k2_off1056_eq k) _ (k2_off1057_eq k) _ _ x) ?_
  exact RowFill.RowFill.zero _ _ _ _ _ _

end Cert.KernelIdeal.TileBody
-- ==== Proof.TileLoop18.lean ====
/-
  Loop 18 of the tile body: one trip fills one row of a staging slot, sixteen lanes at a time, and leaves the
  loop's invariant at the next row.
-/
import proofs.«206219_g40982577938455_cont_8to1_b_1362_29_alg».proof.Proof.TileSetup

noncomputable section

namespace Cert.KernelIdeal

open Idealize.ShloMosaic Idealize.SL.Sem
open Cert.KernelIdeal.Gen

variable {F : FTy → Type} [FloatOps F]

/-- The region of the loop, as the kernel's text has it. -/
noncomputable def region18 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_737 : BitVec 32) (c1_i32_739 : BitVec 32) (k2_t18 : Fin k2_t18_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part138 i arg2 harg2 arg3 harg3 arg4 harg4 arg5 harg5 arg6 harg6 arg7 arg8 v661_r0 c0_i32_737 c1_i32_739 k2_t18
  let ⟨v734, c1_i32_809⟩ : Σ' (v734 : FVec F S16 .f32), BitVec 32 ← k2_part139 i arg2 harg2 arg3 harg3 arg4 harg4 arg5 harg5 arg6 harg6 arg7 arg8 v661_r0 k2_t18 arg9 v694
  k2_part140 i arg2 harg2 arg3 harg3 arg4 harg4 arg5 harg5 arg6 harg6 arg7 arg8 v661_r0 k2_t18 arg9 v734 c1_i32_809
  let v810 : FVec F S1x1x1x16 .f32 ← k2_part141 i arg2 harg2 arg3 harg3 arg4 harg4 arg5 harg5 arg6 harg6 arg7 arg8 v661_r0 k2_t18 arg9
  let v844 : FVec F S16 .f32 ← k2_part142 i arg2 harg2 arg3 harg3 arg4 harg4 arg5 harg5 arg6 harg6 arg7 arg8 v661_r0 k2_t18 arg9 v810
  let ⟨v884, c1_i32_869⟩ : Σ' (v884 : FVec F S16 .f32), BitVec 32 ← k2_part143 i arg2 harg2 arg3 harg3 arg4 harg4 arg5 harg5 arg6 harg6 arg7 arg8 v661_r0 k2_t18 arg9 v844
  k2_part144 i arg2 harg2 arg3 harg3 arg4 harg4 arg5 harg5 arg6 harg6 arg7 arg8 v661_r0 k2_t18 arg9 v884 c1_i32_869
  let v960 : FVec F S1x1x1x16 .f32 ← k2_part145 i arg2 harg2 arg3 harg3 arg4 harg4 arg5 harg5 arg6 harg6 arg7 arg8 v661_r0 k2_t18 arg9
  Prog.lift (.store arg6 (Rect.unit (s := S2x32x4x256) (k2_off1180 k2_t18) S1x1x1x16.size (k2_off1180_inb k2_t18)) v960 Finset.univ (View.stores_vmem_bits_univ h_S1x1x1x16 rfl) (.inl rfl))
  let c1_i32_900 : BitVec 32 := 1#32
  let v961 : Index := Scalar.indexCast c1_i32_900
  let v962 : Index := Scalar.indexCast arg9
  let c480 : Index := 480#32
  let v963 : Vec F S1x1x16 .f32 ← Prog.lift (.load arg5 (Rect.unit (s := S2x32x512) (k2_off1181 k2_t18) S1x1x16.size (k2_off1181_inb k2_t18)).toLoadRect (View.loadsAt_vmem h_S1x1x16))
  have v964 : FVec F S16 .f32 := shapeCast S16 v963 shapeCasts_S1x1x16_S16
  let c1_i32_901 : BitVec 32 := 1#32
  let c3_i32_902 : BitVec 32 := 3#32
  let v965 : Index := Scalar.indexCast c1_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off1182 k2_t18) S1x1x1x16.size (k2_off1182_inb k2_t18)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off1182 k2_t18) S1x1x1x16.size (k2_off1182_inb k2_t18)) v970 Finset.univ (View.stores_vmem_bits_univ h_S1x1x1x16 rfl) (.inl rfl))
  let c1_i32_904 : BitVec 32 := 1#32
  let v971 : Index := Scalar.indexCast c1_i32_904
  let v972 : Index := Scalar.indexCast arg9
  let c496 : Index := 496#32
  let v973 : Vec F S1x1x16 .f32 ← Prog.lift (.load arg5 (Rect.unit (s := S2x32x512) (k2_off1183 k2_t18) S1x1x16.size (k2_off1183_inb k2_t18)).toLoadRect (View.loadsAt_vmem h_S1x1x16))
  have v974 : FVec F S16 .f32 := shapeCast S16 v973 shapeCasts_S1x1x16_S16
  let c1_i32_905 : BitVec 32 := 1#32
  let c3_i32_906 : BitVec 32 := 3#32
  let v975 : Index := Scalar.indexCast c1_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off1184 k2_t18) S1x1x1x16.size (k2_off1184_inb k2_t18)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off1184 k2_t18) S1x1x1x16.size (k2_off1184_inb k2_t18)) v980 Finset.univ (View.stores_vmem_bits_univ h_S1x1x1x16 rfl) (.inl rfl))
  pure ⟨⟩

end Cert.KernelIdeal

namespace Cert.KernelIdeal.TileBody

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop18 (A : Buf (Elt F) ((thr d L).loc cc2_scratch0)) (G : Buf (Elt F) ((thr d L).loc cc2_scratch1))
    (k : Fin k2_t18_loop.trips) (acc : PUnit) :
    (invFill1 (F := F) d L 0 A G k.val acc : sProp 𝕄)
      ⊢ wp frame (wpE (defs₀ (F := F)) 𝒱₀ (thr d L) none) Set.univ
          (region18 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill1 (F := F) d L 0 A G (k.val + 1)) := by
  have hk : (k : ℕ) < 32 := lt_of_lt_of_le k.isLt k2_t18_abs.2.1
  unfold invFill1 region18
  iintro ⟨Ha1, %h, Hb1, %hF⟩
  sl_exec
  sl_step
  isplitl [Ha1]; · iexact Ha1
  iexists _; isplitl [Hb1]; · iexact Hb1
  ipureintro
  refine RowFill.Filled.succ _ 1 0 k.val _ _ h _ hF ?_
  refine RowFill.RowFill.step _ 1 k.val 0 31 3 7 (by decide) rfl _ _ _ _ (k2_off1184_eq k) _ (fun x => RowFill.pay_eq _ _ 1 1 k.val 0 3 7 _ hk (by decide) (by decide) rfl _ (k2_off1183_eq k) _ (k2_off1184_eq k) _ _ x) ?_
  refine RowFill.RowFill.step _ 1 k.val 0 30 3 6 (by decide) rfl _ _ _ _ (k2_off1182_eq k) _ (fun x => RowFill.pay_eq _ _ 1 1 k.val 0 3 6 _ hk (by decide) (by decide) rfl _ (k2_off1181_eq k) _ (k2_off1182_eq k) _ _ x) ?_
  refine RowFill.RowFill.step _ 1 k.val 0 29 3 5 (by decide) rfl _ _ _ _ (k2_off1180_eq k) _ (fun x => RowFill.pay_eq _ _ 1 1 k.val 0 3 5 _ hk (by decide) (by decide) rfl _ (k2_off1179_eq k) _ (k2_off1180_eq k) _ _ x) ?_
  refine RowFill.RowFill.step _ 1 k.val 0 28 3 4 (by decide) rfl _ _ _ _ (k2_off1178_eq k) _ (fun x => RowFill.pay_eq _ _ 1 1 k.val 0 3 4 _ hk (by decide) (by decide) rfl _ (k2_off1177_eq k) _ (k2_off1178_eq k) _ _ x) ?_
  refine RowFill.RowFill.step _ 1 k.val 0 27 3 3 (by decide) rfl _ _ _ _ (k2_off1176_eq k) _ (fun x => RowFill.pay_eq _ _ 1 1 k.val 0 3 3 _ hk (by decide) (by decide) rfl _ (k2_off1175_eq k) _ (k2_off1176_eq k) _ _ x) ?_
  refine RowFill.RowFill.step _ 1 k.val 0 26 3 2 (by decide) rfl _ _ _ _ (k2_off1174_eq k) _ (fun x => RowFill.pay_eq _ _ 1 1 k.val 0 3 2 _ hk (by decide) (by decide) rfl _ (k2_off1173_eq k) _ (k2_off1174_eq k) _ _ x) ?_
  refine RowFill.RowFill.step _ 1 k.val 0 25 3 1 (by decide) rfl _ _ _ _ (k2_off1172_eq k) _ (fun x => RowFill.pay_eq _ _ 1 1 k.val 0 3 1 _ hk (by decide) (by decide) rfl _ (k2_off1171_eq k) _ (k2_off1172_eq k) _ _ x) ?_
  refine RowFill.RowFill.step _ 1 k.val 0 24 3 0 (by decide) rfl _ _ _ _ (k2_off1170_eq k) _ (fun x => RowFill.pay_eq _ _ 1 1 k.val 0 3 0 _ hk (by decide) (by decide) rfl _ (k2_off1169_eq k) _ (k2_off1170_eq k) _ _ x) ?_
  refine RowFill.RowFill.step _ 1 k.val 0 23 2 7 (by decide) rfl _ _ _ _ (k2_off1168_eq k) _ (fun x => RowFill.pay_eq _ _ 1 1 k.val 0 2 7 _ hk (by decide) (by decide) rfl _ (k2_off1167_eq k) _ (k2_off1168_eq k) _ _ x) ?_
  refine RowFill.RowFill.step _ 1 k.val 0 22 2 6 (by decide) rfl _ _ _ _ (k2_off1166_eq k) _ (fun x => RowFill.pay_eq _ _ 1 1 k.val 0 2 6 _ hk (by decide) (by decide) rfl _ (k2_off1165_eq k) _ (k2_off1166_eq k) _ _ x) ?_
  refine RowFill.RowFill.step _ 1 k.val 0 21 2 5 (by decide) rfl _ _ _ _ (k2_off1164_eq k) _ (fun x => RowFill.pay_eq _ _ 1 1 k.val 0 2 5 _ hk (by decide) (by decide) rfl _ (k2_off1163_eq k) _ (k2_off1164_eq k) _ _ x) ?_
  refine RowFill.RowFill.step _ 1 k.val 0 20 2 4 (by decide) rfl _ _ _ _ (k2_off1162_eq k) _ (fun x => RowFill.pay_eq _ _ 1 1 k.val 0 2 4 _ hk (by decide) (by decide) rfl _ (k2_off1161_eq k) _ (k2_off1162_eq k) _ _ x) ?_
  refine RowFill.RowFill.step _ 1 k.val 0 19 2 3 (by decide) rfl _ _ _ _ (k2_off1160_eq k) _ (fun x => RowFill.pay_eq _ _ 1 1 k.val 0 2 3 _ hk (by decide) (by decide) rfl _ (k2_off1159_eq k) _ (k2_off1160_eq k) _ _ x) ?_
  refine RowFill.RowFill.step _ 1 k.val 0 18 2 2 (by decide) rfl _ _ _ _ (k2_off1158_eq k) _ (fun x => RowFill.pay_eq _ _ 1 1 k.val 0 2 2 _ hk (by decide) (by decide) rfl _ (k2_off1157_eq k) _ (k2_off1158_eq k) _ _ x) ?_
  refine RowFill.RowFill.step _ 1 k.val 0 17 2 1 (by decide) rfl _ _ _ _ (k2_off1156_eq k) _ (fun x => RowFill.pay_eq _ _ 1 1 k.val 0 2 1 _ hk (by decide) (by decide) rfl _ (k2_off1155_eq k) _ (k2_off1156_eq k) _ _ x) ?_
  refine RowFill.RowFill.step _ 1 k.val 0 16 2 0 (by decide) rfl _ _ _ _ (k2_off1154_eq k) _ (fun x => RowFill.pay_eq _ _ 1 1 k.val 0 2 0 _ hk (by decide) (by decide) rfl _ (k2_off1153_eq k) _ (k2_off1154_eq k) _ _ x) ?_
  refine RowFill.RowFill.step _ 1 k.val 0 15 1 7 (by decide) rfl _ _ _ _ (k2_off1152_eq k) _ (fun x => RowFill.pay_eq _ _ 1 1 k.val 0 1 7 _ hk (by decide) (by decide) rfl _ (k2_off1151_eq k) _ (k2_off1152_eq k) _ _ x) ?_
  refine RowFill.RowFill.step _ 1 k.val 0 14 1 6 (by decide) rfl _ _ _ _ (k2_off1150_eq k) _ (fun x => RowFill.pay_eq _ _ 1 1 k.val 0 1 6 _ hk (by decide) (by decide) rfl _ (k2_off1149_eq k) _ (k2_off1150_eq k) _ _ x) ?_
  refine RowFill.RowFill.step _ 1 k.val 0 13 1 5 (by decide) rfl _ _ _ _ (k2_off1148_eq k) _ (fun x => RowFill.pay_eq _ _ 1 1 k.val 0 1 5 _ hk (by decide) (by decide) rfl _ (k2_off1147_eq k) _ (k2_off1148_eq k) _ _ x) ?_
  refine RowFill.RowFill.step _ 1 k.val 0 12 1 4 (by decide) rfl _ _ _ _ (k2_off1146_eq k) _ (fun x => RowFill.pay_eq _ _ 1 1 k.val 0 1 4 _ hk (by decide) (by decide) rfl _ (k2_off1145_eq k) _ (k2_off1146_eq k) _ _ x) ?_
  refine RowFill.RowFill.step _ 1 k.val 0 11 1 3 (by decide) rfl _ _ _ _ (k2_off1144_eq k) _ (fun x => RowFill.pay_eq _ _ 1 1 k.val 0 1 3 _ hk (by decide) (by decide) rfl _ (k2_off1143_eq k) _ (k2_off1144_eq k) _ _ x) ?_
  refine RowFill.RowFill.step _ 1 k.val 0 10 1 2 (by decide) rfl _ _ _ _ (k2_off1142_eq k) _ (fun x => RowFill.pay_eq _ _ 1 1 k.val 0 1 2 _ hk (by decide) (by decide) rfl _ (k2_off1141_eq k) _ (k2_off1142_eq k) _ _ x) ?_
  refine RowFill.RowFill.step _ 1 k.val 0 9 1 1 (by decide) rfl _ _ _ _ (k2_off1140_eq k) _ (fun x => RowFill.pay_eq _ _ 1 1 k.val 0 1 1 _ hk (by decide) (by decide) rfl _ (k2_off1139_eq k) _ (k2_off1140_eq k) _ _ x) ?_
  refine RowFill.RowFill.step _ 1 k.val 0 8 1 0 (by decide) rfl _ _ _ _ (k2_off1138_eq k) _ (fun x => RowFill.pay_eq _ _ 1 1 k.val 0 1 0 _ hk (by decide) (by decide) rfl _ (k2_off1137_eq k) _ (k2_off1138_eq k) _ _ x) ?_
  refine RowFill.RowFill.step _ 1 k.val 0 7 0 7 (by decide) rfl _ _ _ _ (k2_off1136_eq k) _ (fun x => RowFill.pay_eq _ _ 1 1 k.val 0 0 7 _ hk (by decide) (by decide) rfl _ (k2_off1135_eq k) _ (k2_off1136_eq k) _ _ x) ?_
  refine RowFill.RowFill.step _ 1 k.val 0 6 0 6 (by decide) rfl _ _ _ _ (k2_off1134_eq k) _ (fun x => RowFill.pay_eq _ _ 1 1 k.val 0 0 6 _ hk (by decide) (by decide) rfl _ (k2_off1133_eq k) _ (k2_off1134_eq k) _ _ x) ?_
  refine RowFill.RowFill.step _ 1 k.val 0 5 0 5 (by decide) rfl _ _ _ _ (k2_off1132_eq k) _ (fun x => RowFill.pay_eq _ _ 1 1 k.val 0 0 5 _ hk (by decide) (by decide) rfl _ (k2_off1131_eq k) _ (k2_off1132_eq k) _ _ x) ?_
  refine RowFill.RowFill.step _ 1 k.val 0 4 0 4 (by decide) rfl _ _ _ _ (k2_off1130_eq k) _ (fun x => RowFill.pay_eq _ _ 1 1 k.val 0 0 4 _ hk (by decide) (by decide) rfl _ (k2_off1129_eq k) _ (k2_off1130_eq k) _ _ x) ?_
  refine RowFill.RowFill.step _ 1 k.val 0 3 0 3 (by decide) rfl _ _ _ _ (k2_off1128_eq k) _ (fun x => RowFill.pay_eq _ _ 1 1 k.val 0 0 3 _ hk (by decide) (by decide) rfl _ (k2_off1127_eq k) _ (k2_off1128_eq k) _ _ x) ?_
  refine RowFill.RowFill.step _ 1 k.val 0 2 0 2 (by decide) rfl _ _ _ _ (k2_off1126_eq k) _ (fun x => RowFill.pay_eq _ _ 1 1 k.val 0 0 2 _ hk (by decide) (by decide) rfl _ (k2_off1125_eq k) _ (k2_off1126_eq k) _ _ x) ?_
  refine RowFill.RowFill.step _ 1 k.val 0 1 0 1 (by decide) rfl _ _ _ _ (k2_off1124_eq k) _ (fun x => RowFill.pay_eq _ _ 1 1 k.val 0 0 1 _ hk (by decide) (by decide) rfl _ (k2_off1123_eq k) _ (k2_off1124_eq k) _ _ x) ?_
  refine RowFill.RowFill.step _ 1 k.val 0 0 0 0 (by decide) rfl _ _ _ _ (k2_off1122_eq k) _ (fun x => RowFill.pay_eq _ _ 1 1 k.val 0 0 0 _ hk (by decide) (by decide) rfl _ (k2_off1121_eq k) _ (k2_off1122_eq k) _ _ x) ?_
  exact RowFill.RowFill.zero _ _ _ _ _ _

end Cert.KernelIdeal.TileBody
-- ==== Proof.TileThread.lean ====
/-
  The tile body threaded: the table's rows copied in and spread into the table half of both staging slots; then, per
  batch, the batch's rows awaited, the next batch's requested, the slot's previous copy-out awaited, the x half
  filled, the slot copied out. Each loop goes by its invariant (the loop modules), each copy and wait is a step;
  the contents of the scratch slots are carried as facts, and each block of the result is read off the slot copied
  into it.
-/
import proofs.«206219_g40982577938455_cont_8to1_b_1362_29_alg».proof.Proof.TileRows
import proofs.«206219_g40982577938455_cont_8to1_b_1362_29_alg».proof.Proof.TileLoop01
import proofs.«206219_g40982577938455_cont_8to1_b_1362_29_alg».proof.Proof.TileLoop02
import proofs.«206219_g40982577938455_cont_8to1_b_1362_29_alg».proof.Proof.TileLoop03
import proofs.«206219_g40982577938455_cont_8to1_b_1362_29_alg».proof.Proof.TileLoop04
import proofs.«206219_g40982577938455_cont_8to1_b_1362_29_alg».proof.Proof.TileLoop05
import proofs.«206219_g40982577938455_cont_8to1_b_1362_29_alg».proof.Proof.TileLoop06
import proofs.«206219_g40982577938455_cont_8to1_b_1362_29_alg».proof.Proof.TileLoop07
import proofs.«206219_g40982577938455_cont_8to1_b_1362_29_alg».proof.Proof.TileLoop08
import proofs.«206219_g40982577938455_cont_8to1_b_1362_29_alg».proof.Proof.TileLoop09
import proofs.«206219_g40982577938455_cont_8to1_b_1362_29_alg».proof.Proof.TileLoop10
import proofs.«206219_g40982577938455_cont_8to1_b_1362_29_alg».proof.Proof.TileLoop11
import proofs.«206219_g40982577938455_cont_8to1_b_1362_29_alg».proof.Proof.TileLoop12
import proofs.«206219_g40982577938455_cont_8to1_b_1362_29_alg».proof.Proof.TileLoop13
import proofs.«206219_g40982577938455_cont_8to1_b_1362_29_alg».proof.Proof.TileLoop14
import proofs.«206219_g40982577938455_cont_8to1_b_1362_29_alg».proof.Proof.TileLoop15
import proofs.«206219_g40982577938455_cont_8to1_b_1362_29_alg».proof.Proof.TileLoop16
import proofs.«206219_g40982577938455_cont_8to1_b_1362_29_alg».proof.Proof.TileLoop17
import proofs.«206219_g40982577938455_cont_8to1_b_1362_29_alg».proof.Proof.TileLoop18

noncomputable section

namespace Cert.KernelIdeal.TileBody

open Cert.KernelIdeal Cert.KernelIdeal.Gen Cert.KernelIdeal.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (d : Dev nD) (L : grid2.Coords)

variable [FloatOps F]

theorem trips_t1 : Scf.trips k2_t1_loop.lb k2_t1_loop.ub k2_t1_loop.st = 32 := by decide
theorem trips_t2 : Scf.trips k2_t2_loop.lb k2_t2_loop.ub k2_t2_loop.st = 32 := by decide
theorem trips_t3 : Scf.trips k2_t3_loop.lb k2_t3_loop.ub k2_t3_loop.st = 32 := by decide
theorem trips_t4 : Scf.trips k2_t4_loop.lb k2_t4_loop.ub k2_t4_loop.st = 32 := by decide
theorem trips_t5 : Scf.trips k2_t5_loop.lb k2_t5_loop.ub k2_t5_loop.st = 32 := by decide
theorem trips_t6 : Scf.trips k2_t6_loop.lb k2_t6_loop.ub k2_t6_loop.st = 32 := by decide
theorem trips_t7 : Scf.trips k2_t7_loop.lb k2_t7_loop.ub k2_t7_loop.st = 32 := by decide
theorem trips_t8 : Scf.trips k2_t8_loop.lb k2_t8_loop.ub k2_t8_loop.st = 32 := by decide
theorem trips_t9 : Scf.trips k2_t9_loop.lb k2_t9_loop.ub k2_t9_loop.st = 32 := by decide
theorem trips_t10 : Scf.trips k2_t10_loop.lb k2_t10_loop.ub k2_t10_loop.st = 32 := by decide
theorem trips_t11 : Scf.trips k2_t11_loop.lb k2_t11_loop.ub k2_t11_loop.st = 32 := by decide
theorem trips_t12 : Scf.trips k2_t12_loop.lb k2_t12_loop.ub k2_t12_loop.st = 32 := by decide
theorem trips_t13 : Scf.trips k2_t13_loop.lb k2_t13_loop.ub k2_t13_loop.st = 32 := by decide
theorem trips_t14 : Scf.trips k2_t14_loop.lb k2_t14_loop.ub k2_t14_loop.st = 32 := by decide
theorem trips_t15 : Scf.trips k2_t15_loop.lb k2_t15_loop.ub k2_t15_loop.st = 32 := by decide
theorem trips_t16 : Scf.trips k2_t16_loop.lb k2_t16_loop.ub k2_t16_loop.st = 32 := by decide
theorem trips_t17 : Scf.trips k2_t17_loop.lb k2_t17_loop.ub k2_t17_loop.st = 32 := by decide
theorem trips_t18 : Scf.trips k2_t18_loop.lb k2_t18_loop.ub k2_t18_loop.st = 32 := by decide

set_option maxHeartbeats 0 in
theorem tile_body_of (hLE : LandsE m d L) (hLX0 : LandsX0 m d L) (hLX1 : LandsX1 m d L) (hOK0 : OutOk0 m d L) (hOK1 : OutOk1 m d L)
    (O : CellTallies nD τ sig (HIx 1)) (W : Waits sig (HIx 1)) (hO : ∀ g, O g none = 0) :
    iprop(levAts (K (F := F)).L (K (F := F)).lev ∗ emp ∗ tileGo m d L
        ∗ scopedBufs (thr d L) ∗ scopedSems0 (thr d L) ∗ owes (thr d L) O W)
      ⊢ wp frame (wpE (defs₀ (F := F)) 𝒱₀ (thr d L) none) Set.univ
          (cc2_k L xW (Memref.isWhole_whole _) eW (Memref.isWhole_whole _) oW (Memref.isWhole_whole _)
            sA (Memref.isWhole_whole _) sB (Memref.isWhole_whole _) cc2_scratch2 cc2_scratch3 cc2_scoped0)
          fun _ => iprop(tileTd m d L ∗ scopedBufs (thr d L) ∗ scopedSems0 (thr d L)
            ∗ ∃ W', ⌜∀ p ∈ W', p ∈ W ∨ p.2 = none⌝ ∗ owes (thr d L) O W') := by
  simp only [cc2_k_eq_skeleton]; unfold cc2_k_skel
  rw [(K (F := F)).scopedBufs_V facts d (cV L) (jV L), SparseCore.Cfg.scopedSems0_V (Val := Elt F) d (cV L) (jV L), ownSems0_V, ownBufs_V]
  unfold tileGo oGo
  iintro ⟨#Hlv, -, ⟨Hx, He, Ho0, Ho1, Ho2, Ho3, Ho4, Ho5, Ho6, Ho7, Ho8, Ho9, Ho10, Ho11, Ho12, Ho13, Ho14, Ho15⟩,
    ⟨⟨%fa, Ha⟩, ⟨%fb, Hb⟩, Hbufs⟩, ⟨⟨Hs9, Hs10, Hs11, Hs12, Hs13⟩, Hsems⟩, HO⟩
  icases Ho0 with ⟨%fo0, Ho0⟩; icases Ho1 with ⟨%fo1, Ho1⟩; icases Ho2 with ⟨%fo2, Ho2⟩; icases Ho3 with ⟨%fo3, Ho3⟩
  icases Ho4 with ⟨%fo4, Ho4⟩; icases Ho5 with ⟨%fo5, Ho5⟩; icases Ho6 with ⟨%fo6, Ho6⟩; icases Ho7 with ⟨%fo7, Ho7⟩
  icases Ho8 with ⟨%fo8, Ho8⟩; icases Ho9 with ⟨%fo9, Ho9⟩; icases Ho10 with ⟨%fo10, Ho10⟩; icases Ho11 with ⟨%fo11, Ho11⟩
  icases Ho12 with ⟨%fo12, Ho12⟩; icases Ho13 with ⟨%fo13, Ho13⟩; icases Ho14 with ⟨%fo14, Ho14⟩; icases Ho15 with ⟨%fo15, Ho15⟩
  ihave Ho0' := (Entails.of_eq (pts_o0 (F := F) d L fo0).symm) $$ Ho0
  ihave Ho1' := (Entails.of_eq (pts_o1 (F := F) d L fo1).symm) $$ Ho1
  ihave Ho2' := (Entails.of_eq (pts_o2 (F := F) d L fo2).symm) $$ Ho2
  ihave Ho3' := (Entails.of_eq (pts_o3 (F := F) d L fo3).symm) $$ Ho3
  ihave Ho4' := (Entails.of_eq (pts_o4 (F := F) d L fo4).symm) $$ Ho4
  ihave Ho5' := (Entails.of_eq (pts_o5 (F := F) d L fo5).symm) $$ Ho5
  ihave Ho6' := (Entails.of_eq (pts_o6 (F := F) d L fo6).symm) $$ Ho6
  ihave Ho7' := (Entails.of_eq (pts_o7 (F := F) d L fo7).symm) $$ Ho7
  ihave Ho8' := (Entails.of_eq (pts_o8 (F := F) d L fo8).symm) $$ Ho8
  ihave Ho9' := (Entails.of_eq (pts_o9 (F := F) d L fo9).symm) $$ Ho9
  ihave Ho10' := (Entails.of_eq (pts_o10 (F := F) d L fo10).symm) $$ Ho10
  ihave Ho11' := (Entails.of_eq (pts_o11 (F := F) d L fo11).symm) $$ Ho11
  ihave Ho12' := (Entails.of_eq (pts_o12 (F := F) d L fo12).symm) $$ Ho12
  ihave Ho13' := (Entails.of_eq (pts_o13 (F := F) d L fo13).symm) $$ Ho13
  ihave Ho14' := (Entails.of_eq (pts_o14 (F := F) d L fo14).symm) $$ Ho14
  ihave Ho15' := (Entails.of_eq (pts_o15 (F := F) d L fo15).symm) $$ Ho15
  ihave Hmw := ((K (F := F)).mayWaits_none (thr := thr d L) hO) $$ Hlv
  ihave Hx' := (Entails.of_eq (pts_x (F := F) d L _ _).symm) $$ Hx
  ihave He' := (Entails.of_eq (pts_e (F := F) d L _ _).symm) $$ He
  ihave Ha2 := (Entails.of_eq (ptsA_slots (F := F) d L fa)) $$ Ha
  icases Ha2 with ⟨Ha0, Ha1⟩
  ihave Hb2 := (Entails.of_eq (ptsB_slots (F := F) d L fb)) $$ Hb
  icases Hb2 with ⟨Hb0, Hb1⟩

  sl_exec
  ihave HA := (pts_gen (F := F) (fun A => RowFill.AOK (Val := Elt F) (sA : Memref sig .scVector .vmem S2x32x512 .f32).view 0 A (eRows m d L)) _ (hLE _ _)) $$ Ha0
  icases HA with ⟨%Ae, Ha0, %hAe⟩
  sl_for (invFill0 d L 128 Ae fb) $$ [Ha0 Hb0]
  case region => intro k acc; exact loop01 (F := F) d L Ae fb k acc
  · unfold invFill0
    isplitl [Ha0]; · iexact Ha0
    iexists _; isplitl [Hb0]; · iexact Hb0
    ipureintro; exact RowFill.Filled.zero _ _ _ _ _
  iintro %_ HI
  unfold invFill0
  icases HI with ⟨Ha0, %h1, Hb0, %hF1⟩
  rw [trips_t1] at hF1
  have hEa : RowFill.HHalf (Val := Elt F) (sB : Memref sig .scVector .vmem S2x32x4x256 .f32).view 0 128 h1 (eRows m d L) := RowFill.HHalf.of_fill (Val := Elt F) (sA : Memref sig .scVector .vmem S2x32x512 .f32).view (sB : Memref sig .scVector .vmem S2x32x4x256 .f32).view 0 128 Ae fb h1 (eRows m d L) hF1 hAe
  sl_exec
  sl_for (invCopy d L h1 fb) $$ [Hb0 Hb1]
  case region => intro k acc; exact loop02 (F := F) d L h1 fb k acc
  · unfold invCopy
    isplitl [Hb0]; · iexact Hb0
    iexists _; isplitl [Hb1]; · iexact Hb1
    ipureintro; exact RowFill.Filled.zero _ _ _ _ _
  iintro %_ HI
  unfold invCopy
  icases HI with ⟨Hb0, %h2, Hb1, %hF2⟩
  rw [trips_t2] at hF2
  have hEb : RowFill.HHalf (Val := Elt F) (sB : Memref sig .scVector .vmem S2x32x4x256 .f32).view 1 128 h2 (eRows m d L) := RowFill.HHalf.of_copy (Val := Elt F) (sB : Memref sig .scVector .vmem S2x32x4x256 .f32).view h1 fb h2 (eRows m d L) hF2 hEa
  sl_exec
  -- batch 0
  ihave HA := (pts_gen (F := F) (fun A => RowFill.AOK (Val := Elt F) (sA : Memref sig .scVector .vmem S2x32x512 .f32).view 0 A (xRows m d L 0)) _ (hLX0 0 _ _ (k2_off130_eq L) _ _)) $$ Ha0
  icases HA with ⟨%A0, Ha0, %hA0⟩
  ihave HB := (pts_gen (F := F) (fun G => RowFill.HHalf (Val := Elt F) (sB : Memref sig .scVector .vmem S2x32x4x256 .f32).view 0 128 G (eRows m d L)) _ hEa) $$ Hb0
  icases HB with ⟨%G0, Hb0, %hG0⟩
  sl_for (invFill0 d L 0 A0 G0) $$ [Ha0 Hb0]
  case region => intro k acc; exact loop03 (F := F) d L A0 G0 k acc
  · unfold invFill0
    isplitl [Ha0]; · iexact Ha0
    iexists _; isplitl [Hb0]; · iexact Hb0
    ipureintro; exact RowFill.Filled.zero _ _ _ _ _
  iintro %_ HI
  unfold invFill0
  icases HI with ⟨Ha0, %H0, Hb0, %hH0⟩
  rw [trips_t3] at hH0
  have hX0 : RowFill.HHalf (Val := Elt F) (sB : Memref sig .scVector .vmem S2x32x4x256 .f32).view 0 0 H0 (xRows m d L 0) := RowFill.HHalf.of_fill (Val := Elt F) (sA : Memref sig .scVector .vmem S2x32x512 .f32).view (sB : Memref sig .scVector .vmem S2x32x4x256 .f32).view 0 0 A0 G0 H0 (xRows m d L 0) hH0 hA0
  have hE0 : RowFill.HHalf (Val := Elt F) (sB : Memref sig .scVector .vmem S2x32x4x256 .f32).view 0 128 H0 (eRows m d L) := RowFill.HHalf.of_fill_other (Val := Elt F) (sB : Memref sig .scVector .vmem S2x32x4x256 .f32).view 0 0 (RowFill.srcG (Val := Elt F) (sA : Memref sig .scVector .vmem S2x32x512 .f32).view A0 0 0) G0 H0 0 128 (eRows m d L) hH0 hG0 (.inr (.inr (by decide)))
  sl_exec
  -- batch 1
  ihave HA := (pts_gen (F := F) (fun A => RowFill.AOK (Val := Elt F) (sA : Memref sig .scVector .vmem S2x32x512 .f32).view 1 A (xRows m d L 1)) _ (hLX1 1 _ _ (k2_off131_eq L) _ _)) $$ Ha1
  icases HA with ⟨%A1, Ha1, %hA1⟩
  ihave HB := (pts_gen (F := F) (fun G => RowFill.HHalf (Val := Elt F) (sB : Memref sig .scVector .vmem S2x32x4x256 .f32).view 1 128 G (eRows m d L)) _ hEb) $$ Hb1
  icases HB with ⟨%G1, Hb1, %hG1⟩
  sl_for (invFill1 d L 0 A1 G1) $$ [Ha1 Hb1]
  case region => intro k acc; exact loop04 (F := F) d L A1 G1 k acc
  · unfold invFill1
    isplitl [Ha1]; · iexact Ha1
    iexists _; isplitl [Hb1]; · iexact Hb1
    ipureintro; exact RowFill.Filled.zero _ _ _ _ _
  iintro %_ HI
  unfold invFill1
  icases HI with ⟨Ha1, %H1, Hb1, %hH1⟩
  rw [trips_t4] at hH1
  have hX1 : RowFill.HHalf (Val := Elt F) (sB : Memref sig .scVector .vmem S2x32x4x256 .f32).view 1 0 H1 (xRows m d L 1) := RowFill.HHalf.of_fill (Val := Elt F) (sA : Memref sig .scVector .vmem S2x32x512 .f32).view (sB : Memref sig .scVector .vmem S2x32x4x256 .f32).view 1 0 A1 G1 H1 (xRows m d L 1) hH1 hA1
  have hE1 : RowFill.HHalf (Val := Elt F) (sB : Memref sig .scVector .vmem S2x32x4x256 .f32).view 1 128 H1 (eRows m d L) := RowFill.HHalf.of_fill_other (Val := Elt F) (sB : Memref sig .scVector .vmem S2x32x4x256 .f32).view 1 0 (RowFill.srcG (Val := Elt F) (sA : Memref sig .scVector .vmem S2x32x512 .f32).view A1 1 0) G1 H1 1 128 (eRows m d L) hH1 hG1 (.inr (.inr (by decide)))
  sl_exec
  -- batch 2
  ihave HA := (pts_gen (F := F) (fun A => RowFill.AOK (Val := Elt F) (sA : Memref sig .scVector .vmem S2x32x512 .f32).view 0 A (xRows m d L 2)) _ (hLX0 2 _ _ (k2_off197_eq L) _ _)) $$ Ha0
  icases HA with ⟨%A2, Ha0, %hA2⟩
  ihave HB := (pts_gen (F := F) (fun G => RowFill.HHalf (Val := Elt F) (sB : Memref sig .scVector .vmem S2x32x4x256 .f32).view 0 128 G (eRows m d L)) _ hE0) $$ Hb0
  icases HB with ⟨%G2, Hb0, %hG2⟩
  sl_for (invFill0 d L 0 A2 G2) $$ [Ha0 Hb0]
  case region => intro k acc; exact loop05 (F := F) d L A2 G2 k acc
  · unfold invFill0
    isplitl [Ha0]; · iexact Ha0
    iexists _; isplitl [Hb0]; · iexact Hb0
    ipureintro; exact RowFill.Filled.zero _ _ _ _ _
  iintro %_ HI
  unfold invFill0
  icases HI with ⟨Ha0, %H2, Hb0, %hH2⟩
  rw [trips_t5] at hH2
  have hX2 : RowFill.HHalf (Val := Elt F) (sB : Memref sig .scVector .vmem S2x32x4x256 .f32).view 0 0 H2 (xRows m d L 2) := RowFill.HHalf.of_fill (Val := Elt F) (sA : Memref sig .scVector .vmem S2x32x512 .f32).view (sB : Memref sig .scVector .vmem S2x32x4x256 .f32).view 0 0 A2 G2 H2 (xRows m d L 2) hH2 hA2
  have hE2 : RowFill.HHalf (Val := Elt F) (sB : Memref sig .scVector .vmem S2x32x4x256 .f32).view 0 128 H2 (eRows m d L) := RowFill.HHalf.of_fill_other (Val := Elt F) (sB : Memref sig .scVector .vmem S2x32x4x256 .f32).view 0 0 (RowFill.srcG (Val := Elt F) (sA : Memref sig .scVector .vmem S2x32x512 .f32).view A2 0 0) G2 H2 0 128 (eRows m d L) hH2 hG2 (.inr (.inr (by decide)))
  sl_exec
  -- batch 3
  ihave HA := (pts_gen (F := F) (fun A => RowFill.AOK (Val := Elt F) (sA : Memref sig .scVector .vmem S2x32x512 .f32).view 1 A (xRows m d L 3)) _ (hLX1 3 _ _ (k2_off263_eq L) _ _)) $$ Ha1
  icases HA with ⟨%A3, Ha1, %hA3⟩
  ihave HB := (pts_gen (F := F) (fun G => RowFill.HHalf (Val := Elt F) (sB : Memref sig .scVector .vmem S2x32x4x256 .f32).view 1 128 G (eRows m d L)) _ hE1) $$ Hb1
  icases HB with ⟨%G3, Hb1, %hG3⟩
  sl_for (invFill1 d L 0 A3 G3) $$ [Ha1 Hb1]
  case region => intro k acc; exact loop06 (F := F) d L A3 G3 k acc
  · unfold invFill1
    isplitl [Ha1]; · iexact Ha1
    iexists _; isplitl [Hb1]; · iexact Hb1
    ipureintro; exact RowFill.Filled.zero _ _ _ _ _
  iintro %_ HI
  unfold invFill1
  icases HI with ⟨Ha1, %H3, Hb1, %hH3⟩
  rw [trips_t6] at hH3
  have hX3 : RowFill.HHalf (Val := Elt F) (sB : Memref sig .scVector .vmem S2x32x4x256 .f32).view 1 0 H3 (xRows m d L 3) := RowFill.HHalf.of_fill (Val := Elt F) (sA : Memref sig .scVector .vmem S2x32x512 .f32).view (sB : Memref sig .scVector .vmem S2x32x4x256 .f32).view 1 0 A3 G3 H3 (xRows m d L 3) hH3 hA3
  have hE3 : RowFill.HHalf (Val := Elt F) (sB : Memref sig .scVector .vmem S2x32x4x256 .f32).view 1 128 H3 (eRows m d L) := RowFill.HHalf.of_fill_other (Val := Elt F) (sB : Memref sig .scVector .vmem S2x32x4x256 .f32).view 1 0 (RowFill.srcG (Val := Elt F) (sA : Memref sig .scVector .vmem S2x32x512 .f32).view A3 1 0) G3 H3 1 128 (eRows m d L) hH3 hG3 (.inr (.inr (by decide)))
  sl_exec
  -- batch 4
  ihave HA := (pts_gen (F := F) (fun A => RowFill.AOK (Val := Elt F) (sA : Memref sig .scVector .vmem S2x32x512 .f32).view 0 A (xRows m d L 4)) _ (hLX0 4 _ _ (k2_off329_eq L) _ _)) $$ Ha0
  icases HA with ⟨%A4, Ha0, %hA4⟩
  ihave HB := (pts_gen (F := F) (fun G => RowFill.HHalf (Val := Elt F) (sB : Memref sig .scVector .vmem S2x32x4x256 .f32).view 0 128 G (eRows m d L)) _ hE2) $$ Hb0
  icases HB with ⟨%G4, Hb0, %hG4⟩
  sl_for (invFill0 d L 0 A4 G4) $$ [Ha0 Hb0]
  case region => intro k acc; exact loop07 (F := F) d L A4 G4 k acc
  · unfold invFill0
    isplitl [Ha0]; · iexact Ha0
    iexists _; isplitl [Hb0]; · iexact Hb0
    ipureintro; exact RowFill.Filled.zero _ _ _ _ _
  iintro %_ HI
  unfold invFill0
  icases HI with ⟨Ha0, %H4, Hb0, %hH4⟩
  rw [trips_t7] at hH4
  have hX4 : RowFill.HHalf (Val := Elt F) (sB : Memref sig .scVector .vmem S2x32x4x256 .f32).view 0 0 H4 (xRows m d L 4) := RowFill.HHalf.of_fill (Val := Elt F) (sA : Memref sig .scVector .vmem S2x32x512 .f32).view (sB : Memref sig .scVector .vmem S2x32x4x256 .f32).view 0 0 A4 G4 H4 (xRows m d L 4) hH4 hA4
  have hE4 : RowFill.HHalf (Val := Elt F) (sB : Memref sig .scVector .vmem S2x32x4x256 .f32).view 0 128 H4 (eRows m d L) := RowFill.HHalf.of_fill_other (Val := Elt F) (sB : Memref sig .scVector .vmem S2x32x4x256 .f32).view 0 0 (RowFill.srcG (Val := Elt F) (sA : Memref sig .scVector .vmem S2x32x512 .f32).view A4 0 0) G4 H4 0 128 (eRows m d L) hH4 hG4 (.inr (.inr (by decide)))
  sl_exec
  -- batch 5
  ihave HA := (pts_gen (F := F) (fun A => RowFill.AOK (Val := Elt F) (sA : Memref sig .scVector .vmem S2x32x512 .f32).view 1 A (xRows m d L 5)) _ (hLX1 5 _ _ (k2_off395_eq L) _ _)) $$ Ha1
  icases HA with ⟨%A5, Ha1, %hA5⟩
  ihave HB := (pts_gen (F := F) (fun G => RowFill.HHalf (Val := Elt F) (sB : Memref sig .scVector .vmem S2x32x4x256 .f32).view 1 128 G (eRows m d L)) _ hE3) $$ Hb1
  icases HB with ⟨%G5, Hb1, %hG5⟩
  sl_for (invFill1 d L 0 A5 G5) $$ [Ha1 Hb1]
  case region => intro k acc; exact loop08 (F := F) d L A5 G5 k acc
  · unfold invFill1
    isplitl [Ha1]; · iexact Ha1
    iexists _; isplitl [Hb1]; · iexact Hb1
    ipureintro; exact RowFill.Filled.zero _ _ _ _ _
  iintro %_ HI
  unfold invFill1
  icases HI with ⟨Ha1, %H5, Hb1, %hH5⟩
  rw [trips_t8] at hH5
  have hX5 : RowFill.HHalf (Val := Elt F) (sB : Memref sig .scVector .vmem S2x32x4x256 .f32).view 1 0 H5 (xRows m d L 5) := RowFill.HHalf.of_fill (Val := Elt F) (sA : Memref sig .scVector .vmem S2x32x512 .f32).view (sB : Memref sig .scVector .vmem S2x32x4x256 .f32).view 1 0 A5 G5 H5 (xRows m d L 5) hH5 hA5
  have hE5 : RowFill.HHalf (Val := Elt F) (sB : Memref sig .scVector .vmem S2x32x4x256 .f32).view 1 128 H5 (eRows m d L) := RowFill.HHalf.of_fill_other (Val := Elt F) (sB : Memref sig .scVector .vmem S2x32x4x256 .f32).view 1 0 (RowFill.srcG (Val := Elt F) (sA : Memref sig .scVector .vmem S2x32x512 .f32).view A5 1 0) G5 H5 1 128 (eRows m d L) hH5 hG5 (.inr (.inr (by decide)))
  sl_exec
  -- batch 6
  ihave HA := (pts_gen (F := F) (fun A => RowFill.AOK (Val := Elt F) (sA : Memref sig .scVector .vmem S2x32x512 .f32).view 0 A (xRows m d L 6)) _ (hLX0 6 _ _ (k2_off461_eq L) _ _)) $$ Ha0
  icases HA with ⟨%A6, Ha0, %hA6⟩
  ihave HB := (pts_gen (F := F) (fun G => RowFill.HHalf (Val := Elt F) (sB : Memref sig .scVector .vmem S2x32x4x256 .f32).view 0 128 G (eRows m d L)) _ hE4) $$ Hb0
  icases HB with ⟨%G6, Hb0, %hG6⟩
  sl_for (invFill0 d L 0 A6 G6) $$ [Ha0 Hb0]
  case region => intro k acc; exact loop09 (F := F) d L A6 G6 k acc
  · unfold invFill0
    isplitl [Ha0]; · iexact Ha0
    iexists _; isplitl [Hb0]; · iexact Hb0
    ipureintro; exact RowFill.Filled.zero _ _ _ _ _
  iintro %_ HI
  unfold invFill0
  icases HI with ⟨Ha0, %H6, Hb0, %hH6⟩
  rw [trips_t9] at hH6
  have hX6 : RowFill.HHalf (Val := Elt F) (sB : Memref sig .scVector .vmem S2x32x4x256 .f32).view 0 0 H6 (xRows m d L 6) := RowFill.HHalf.of_fill (Val := Elt F) (sA : Memref sig .scVector .vmem S2x32x512 .f32).view (sB : Memref sig .scVector .vmem S2x32x4x256 .f32).view 0 0 A6 G6 H6 (xRows m d L 6) hH6 hA6
  have hE6 : RowFill.HHalf (Val := Elt F) (sB : Memref sig .scVector .vmem S2x32x4x256 .f32).view 0 128 H6 (eRows m d L) := RowFill.HHalf.of_fill_other (Val := Elt F) (sB : Memref sig .scVector .vmem S2x32x4x256 .f32).view 0 0 (RowFill.srcG (Val := Elt F) (sA : Memref sig .scVector .vmem S2x32x512 .f32).view A6 0 0) G6 H6 0 128 (eRows m d L) hH6 hG6 (.inr (.inr (by decide)))
  sl_exec
  -- batch 7
  ihave HA := (pts_gen (F := F) (fun A => RowFill.AOK (Val := Elt F) (sA : Memref sig .scVector .vmem S2x32x512 .f32).view 1 A (xRows m d L 7)) _ (hLX1 7 _ _ (k2_off527_eq L) _ _)) $$ Ha1
  icases HA with ⟨%A7, Ha1, %hA7⟩
  ihave HB := (pts_gen (F := F) (fun G => RowFill.HHalf (Val := Elt F) (sB : Memref sig .scVector .vmem S2x32x4x256 .f32).view 1 128 G (eRows m d L)) _ hE5) $$ Hb1
  icases HB with ⟨%G7, Hb1, %hG7⟩
  sl_for (invFill1 d L 0 A7 G7) $$ [Ha1 Hb1]
  case region => intro k acc; exact loop10 (F := F) d L A7 G7 k acc
  · unfold invFill1
    isplitl [Ha1]; · iexact Ha1
    iexists _; isplitl [Hb1]; · iexact Hb1
    ipureintro; exact RowFill.Filled.zero _ _ _ _ _
  iintro %_ HI
  unfold invFill1
  icases HI with ⟨Ha1, %H7, Hb1, %hH7⟩
  rw [trips_t10] at hH7
  have hX7 : RowFill.HHalf (Val := Elt F) (sB : Memref sig .scVector .vmem S2x32x4x256 .f32).view 1 0 H7 (xRows m d L 7) := RowFill.HHalf.of_fill (Val := Elt F) (sA : Memref sig .scVector .vmem S2x32x512 .f32).view (sB : Memref sig .scVector .vmem S2x32x4x256 .f32).view 1 0 A7 G7 H7 (xRows m d L 7) hH7 hA7
  have hE7 : RowFill.HHalf (Val := Elt F) (sB : Memref sig .scVector .vmem S2x32x4x256 .f32).view 1 128 H7 (eRows m d L) := RowFill.HHalf.of_fill_other (Val := Elt F) (sB : Memref sig .scVector .vmem S2x32x4x256 .f32).view 1 0 (RowFill.srcG (Val := Elt F) (sA : Memref sig .scVector .vmem S2x32x512 .f32).view A7 1 0) G7 H7 1 128 (eRows m d L) hH7 hG7 (.inr (.inr (by decide)))
  sl_exec
  -- batch 8
  ihave HA := (pts_gen (F := F) (fun A => RowFill.AOK (Val := Elt F) (sA : Memref sig .scVector .vmem S2x32x512 .f32).view 0 A (xRows m d L 8)) _ (hLX0 8 _ _ (k2_off593_eq L) _ _)) $$ Ha0
  icases HA with ⟨%A8, Ha0, %hA8⟩
  ihave HB := (pts_gen (F := F) (fun G => RowFill.HHalf (Val := Elt F) (sB : Memref sig .scVector .vmem S2x32x4x256 .f32).view 0 128 G (eRows m d L)) _ hE6) $$ Hb0
  icases HB with ⟨%G8, Hb0, %hG8⟩
  sl_for (invFill0 d L 0 A8 G8) $$ [Ha0 Hb0]
  case region => intro k acc; exact loop11 (F := F) d L A8 G8 k acc
  · unfold invFill0
    isplitl [Ha0]; · iexact Ha0
    iexists _; isplitl [Hb0]; · iexact Hb0
    ipureintro; exact RowFill.Filled.zero _ _ _ _ _
  iintro %_ HI
  unfold invFill0
  icases HI with ⟨Ha0, %H8, Hb0, %hH8⟩
  rw [trips_t11] at hH8
  have hX8 : RowFill.HHalf (Val := Elt F) (sB : Memref sig .scVector .vmem S2x32x4x256 .f32).view 0 0 H8 (xRows m d L 8) := RowFill.HHalf.of_fill (Val := Elt F) (sA : Memref sig .scVector .vmem S2x32x512 .f32).view (sB : Memref sig .scVector .vmem S2x32x4x256 .f32).view 0 0 A8 G8 H8 (xRows m d L 8) hH8 hA8
  have hE8 : RowFill.HHalf (Val := Elt F) (sB : Memref sig .scVector .vmem S2x32x4x256 .f32).view 0 128 H8 (eRows m d L) := RowFill.HHalf.of_fill_other (Val := Elt F) (sB : Memref sig .scVector .vmem S2x32x4x256 .f32).view 0 0 (RowFill.srcG (Val := Elt F) (sA : Memref sig .scVector .vmem S2x32x512 .f32).view A8 0 0) G8 H8 0 128 (eRows m d L) hH8 hG8 (.inr (.inr (by decide)))
  sl_exec
  -- batch 9
  ihave HA := (pts_gen (F := F) (fun A => RowFill.AOK (Val := Elt F) (sA : Memref sig .scVector .vmem S2x32x512 .f32).view 1 A (xRows m d L 9)) _ (hLX1 9 _ _ (k2_off659_eq L) _ _)) $$ Ha1
  icases HA with ⟨%A9, Ha1, %hA9⟩
  ihave HB := (pts_gen (F := F) (fun G => RowFill.HHalf (Val := Elt F) (sB : Memref sig .scVector .vmem S2x32x4x256 .f32).view 1 128 G (eRows m d L)) _ hE7) $$ Hb1
  icases HB with ⟨%G9, Hb1, %hG9⟩
  sl_for (invFill1 d L 0 A9 G9) $$ [Ha1 Hb1]
  case region => intro k acc; exact loop12 (F := F) d L A9 G9 k acc
  · unfold invFill1
    isplitl [Ha1]; · iexact Ha1
    iexists _; isplitl [Hb1]; · iexact Hb1
    ipureintro; exact RowFill.Filled.zero _ _ _ _ _
  iintro %_ HI
  unfold invFill1
  icases HI with ⟨Ha1, %H9, Hb1, %hH9⟩
  rw [trips_t12] at hH9
  have hX9 : RowFill.HHalf (Val := Elt F) (sB : Memref sig .scVector .vmem S2x32x4x256 .f32).view 1 0 H9 (xRows m d L 9) := RowFill.HHalf.of_fill (Val := Elt F) (sA : Memref sig .scVector .vmem S2x32x512 .f32).view (sB : Memref sig .scVector .vmem S2x32x4x256 .f32).view 1 0 A9 G9 H9 (xRows m d L 9) hH9 hA9
  have hE9 : RowFill.HHalf (Val := Elt F) (sB : Memref sig .scVector .vmem S2x32x4x256 .f32).view 1 128 H9 (eRows m d L) := RowFill.HHalf.of_fill_other (Val := Elt F) (sB : Memref sig .scVector .vmem S2x32x4x256 .f32).view 1 0 (RowFill.srcG (Val := Elt F) (sA : Memref sig .scVector .vmem S2x32x512 .f32).view A9 1 0) G9 H9 1 128 (eRows m d L) hH9 hG9 (.inr (.inr (by decide)))
  sl_exec
  -- batch 10
  ihave HA := (pts_gen (F := F) (fun A => RowFill.AOK (Val := Elt F) (sA : Memref sig .scVector .vmem S2x32x512 .f32).view 0 A (xRows m d L 10)) _ (hLX0 10 _ _ (k2_off725_eq L) _ _)) $$ Ha0
  icases HA with ⟨%A10, Ha0, %hA10⟩
  ihave HB := (pts_gen (F := F) (fun G => RowFill.HHalf (Val := Elt F) (sB : Memref sig .scVector .vmem S2x32x4x256 .f32).view 0 128 G (eRows m d L)) _ hE8) $$ Hb0
  icases HB with ⟨%G10, Hb0, %hG10⟩
  sl_for (invFill0 d L 0 A10 G10) $$ [Ha0 Hb0]
  case region => intro k acc; exact loop13 (F := F) d L A10 G10 k acc
  · unfold invFill0
    isplitl [Ha0]; · iexact Ha0
    iexists _; isplitl [Hb0]; · iexact Hb0
    ipureintro; exact RowFill.Filled.zero _ _ _ _ _
  iintro %_ HI
  unfold invFill0
  icases HI with ⟨Ha0, %H10, Hb0, %hH10⟩
  rw [trips_t13] at hH10
  have hX10 : RowFill.HHalf (Val := Elt F) (sB : Memref sig .scVector .vmem S2x32x4x256 .f32).view 0 0 H10 (xRows m d L 10) := RowFill.HHalf.of_fill (Val := Elt F) (sA : Memref sig .scVector .vmem S2x32x512 .f32).view (sB : Memref sig .scVector .vmem S2x32x4x256 .f32).view 0 0 A10 G10 H10 (xRows m d L 10) hH10 hA10
  have hE10 : RowFill.HHalf (Val := Elt F) (sB : Memref sig .scVector .vmem S2x32x4x256 .f32).view 0 128 H10 (eRows m d L) := RowFill.HHalf.of_fill_other (Val := Elt F) (sB : Memref sig .scVector .vmem S2x32x4x256 .f32).view 0 0 (RowFill.srcG (Val := Elt F) (sA : Memref sig .scVector .vmem S2x32x512 .f32).view A10 0 0) G10 H10 0 128 (eRows m d L) hH10 hG10 (.inr (.inr (by decide)))
  sl_exec
  -- batch 11
  ihave HA := (pts_gen (F := F) (fun A => RowFill.AOK (Val := Elt F) (sA : Memref sig .scVector .vmem S2x32x512 .f32).view 1 A (xRows m d L 11)) _ (hLX1 11 _ _ (k2_off791_eq L) _ _)) $$ Ha1
  icases HA with ⟨%A11, Ha1, %hA11⟩
  ihave HB := (pts_gen (F := F) (fun G => RowFill.HHalf (Val := Elt F) (sB : Memref sig .scVector .vmem S2x32x4x256 .f32).view 1 128 G (eRows m d L)) _ hE9) $$ Hb1
  icases HB with ⟨%G11, Hb1, %hG11⟩
  sl_for (invFill1 d L 0 A11 G11) $$ [Ha1 Hb1]
  case region => intro k acc; exact loop14 (F := F) d L A11 G11 k acc
  · unfold invFill1
    isplitl [Ha1]; · iexact Ha1
    iexists _; isplitl [Hb1]; · iexact Hb1
    ipureintro; exact RowFill.Filled.zero _ _ _ _ _
  iintro %_ HI
  unfold invFill1
  icases HI with ⟨Ha1, %H11, Hb1, %hH11⟩
  rw [trips_t14] at hH11
  have hX11 : RowFill.HHalf (Val := Elt F) (sB : Memref sig .scVector .vmem S2x32x4x256 .f32).view 1 0 H11 (xRows m d L 11) := RowFill.HHalf.of_fill (Val := Elt F) (sA : Memref sig .scVector .vmem S2x32x512 .f32).view (sB : Memref sig .scVector .vmem S2x32x4x256 .f32).view 1 0 A11 G11 H11 (xRows m d L 11) hH11 hA11
  have hE11 : RowFill.HHalf (Val := Elt F) (sB : Memref sig .scVector .vmem S2x32x4x256 .f32).view 1 128 H11 (eRows m d L) := RowFill.HHalf.of_fill_other (Val := Elt F) (sB : Memref sig .scVector .vmem S2x32x4x256 .f32).view 1 0 (RowFill.srcG (Val := Elt F) (sA : Memref sig .scVector .vmem S2x32x512 .f32).view A11 1 0) G11 H11 1 128 (eRows m d L) hH11 hG11 (.inr (.inr (by decide)))
  sl_exec
  -- batch 12
  ihave HA := (pts_gen (F := F) (fun A => RowFill.AOK (Val := Elt F) (sA : Memref sig .scVector .vmem S2x32x512 .f32).view 0 A (xRows m d L 12)) _ (hLX0 12 _ _ (k2_off857_eq L) _ _)) $$ Ha0
  icases HA with ⟨%A12, Ha0, %hA12⟩
  ihave HB := (pts_gen (F := F) (fun G => RowFill.HHalf (Val := Elt F) (sB : Memref sig .scVector .vmem S2x32x4x256 .f32).view 0 128 G (eRows m d L)) _ hE10) $$ Hb0
  icases HB with ⟨%G12, Hb0, %hG12⟩
  sl_for (invFill0 d L 0 A12 G12) $$ [Ha0 Hb0]
  case region => intro k acc; exact loop15 (F := F) d L A12 G12 k acc
  · unfold invFill0
    isplitl [Ha0]; · iexact Ha0
    iexists _; isplitl [Hb0]; · iexact Hb0
    ipureintro; exact RowFill.Filled.zero _ _ _ _ _
  iintro %_ HI
  unfold invFill0
  icases HI with ⟨Ha0, %H12, Hb0, %hH12⟩
  rw [trips_t15] at hH12
  have hX12 : RowFill.HHalf (Val := Elt F) (sB : Memref sig .scVector .vmem S2x32x4x256 .f32).view 0 0 H12 (xRows m d L 12) := RowFill.HHalf.of_fill (Val := Elt F) (sA : Memref sig .scVector .vmem S2x32x512 .f32).view (sB : Memref sig .scVector .vmem S2x32x4x256 .f32).view 0 0 A12 G12 H12 (xRows m d L 12) hH12 hA12
  have hE12 : RowFill.HHalf (Val := Elt F) (sB : Memref sig .scVector .vmem S2x32x4x256 .f32).view 0 128 H12 (eRows m d L) := RowFill.HHalf.of_fill_other (Val := Elt F) (sB : Memref sig .scVector .vmem S2x32x4x256 .f32).view 0 0 (RowFill.srcG (Val := Elt F) (sA : Memref sig .scVector .vmem S2x32x512 .f32).view A12 0 0) G12 H12 0 128 (eRows m d L) hH12 hG12 (.inr (.inr (by decide)))
  sl_exec
  -- batch 13
  ihave HA := (pts_gen (F := F) (fun A => RowFill.AOK (Val := Elt F) (sA : Memref sig .scVector .vmem S2x32x512 .f32).view 1 A (xRows m d L 13)) _ (hLX1 13 _ _ (k2_off923_eq L) _ _)) $$ Ha1
  icases HA with ⟨%A13, Ha1, %hA13⟩
  ihave HB := (pts_gen (F := F) (fun G => RowFill.HHalf (Val := Elt F) (sB : Memref sig .scVector .vmem S2x32x4x256 .f32).view 1 128 G (eRows m d L)) _ hE11) $$ Hb1
  icases HB with ⟨%G13, Hb1, %hG13⟩
  sl_for (invFill1 d L 0 A13 G13) $$ [Ha1 Hb1]
  case region => intro k acc; exact loop16 (F := F) d L A13 G13 k acc
  · unfold invFill1
    isplitl [Ha1]; · iexact Ha1
    iexists _; isplitl [Hb1]; · iexact Hb1
    ipureintro; exact RowFill.Filled.zero _ _ _ _ _
  iintro %_ HI
  unfold invFill1
  icases HI with ⟨Ha1, %H13, Hb1, %hH13⟩
  rw [trips_t16] at hH13
  have hX13 : RowFill.HHalf (Val := Elt F) (sB : Memref sig .scVector .vmem S2x32x4x256 .f32).view 1 0 H13 (xRows m d L 13) := RowFill.HHalf.of_fill (Val := Elt F) (sA : Memref sig .scVector .vmem S2x32x512 .f32).view (sB : Memref sig .scVector .vmem S2x32x4x256 .f32).view 1 0 A13 G13 H13 (xRows m d L 13) hH13 hA13
  have hE13 : RowFill.HHalf (Val := Elt F) (sB : Memref sig .scVector .vmem S2x32x4x256 .f32).view 1 128 H13 (eRows m d L) := RowFill.HHalf.of_fill_other (Val := Elt F) (sB : Memref sig .scVector .vmem S2x32x4x256 .f32).view 1 0 (RowFill.srcG (Val := Elt F) (sA : Memref sig .scVector .vmem S2x32x512 .f32).view A13 1 0) G13 H13 1 128 (eRows m d L) hH13 hG13 (.inr (.inr (by decide)))
  sl_exec
  -- batch 14
  ihave HA := (pts_gen (F := F) (fun A => RowFill.AOK (Val := Elt F) (sA : Memref sig .scVector .vmem S2x32x512 .f32).view 0 A (xRows m d L 14)) _ (hLX0 14 _ _ (k2_off989_eq L) _ _)) $$ Ha0
  icases HA with ⟨%A14, Ha0, %hA14⟩
  ihave HB := (pts_gen (F := F) (fun G => RowFill.HHalf (Val := Elt F) (sB : Memref sig .scVector .vmem S2x32x4x256 .f32).view 0 128 G (eRows m d L)) _ hE12) $$ Hb0
  icases HB with ⟨%G14, Hb0, %hG14⟩
  sl_for (invFill0 d L 0 A14 G14) $$ [Ha0 Hb0]
  case region => intro k acc; exact loop17 (F := F) d L A14 G14 k acc
  · unfold invFill0
    isplitl [Ha0]; · iexact Ha0
    iexists _; isplitl [Hb0]; · iexact Hb0
    ipureintro; exact RowFill.Filled.zero _ _ _ _ _
  iintro %_ HI
  unfold invFill0
  icases HI with ⟨Ha0, %H14, Hb0, %hH14⟩
  rw [trips_t17] at hH14
  have hX14 : RowFill.HHalf (Val := Elt F) (sB : Memref sig .scVector .vmem S2x32x4x256 .f32).view 0 0 H14 (xRows m d L 14) := RowFill.HHalf.of_fill (Val := Elt F) (sA : Memref sig .scVector .vmem S2x32x512 .f32).view (sB : Memref sig .scVector .vmem S2x32x4x256 .f32).view 0 0 A14 G14 H14 (xRows m d L 14) hH14 hA14
  have hE14 : RowFill.HHalf (Val := Elt F) (sB : Memref sig .scVector .vmem S2x32x4x256 .f32).view 0 128 H14 (eRows m d L) := RowFill.HHalf.of_fill_other (Val := Elt F) (sB : Memref sig .scVector .vmem S2x32x4x256 .f32).view 0 0 (RowFill.srcG (Val := Elt F) (sA : Memref sig .scVector .vmem S2x32x512 .f32).view A14 0 0) G14 H14 0 128 (eRows m d L) hH14 hG14 (.inr (.inr (by decide)))
  sl_exec
  -- batch 15
  ihave HA := (pts_gen (F := F) (fun A => RowFill.AOK (Val := Elt F) (sA : Memref sig .scVector .vmem S2x32x512 .f32).view 1 A (xRows m d L 15)) _ (hLX1 15 _ _ (k2_off1055_eq L) _ _)) $$ Ha1
  icases HA with ⟨%A15, Ha1, %hA15⟩
  ihave HB := (pts_gen (F := F) (fun G => RowFill.HHalf (Val := Elt F) (sB : Memref sig .scVector .vmem S2x32x4x256 .f32).view 1 128 G (eRows m d L)) _ hE13) $$ Hb1
  icases HB with ⟨%G15, Hb1, %hG15⟩
  sl_for (invFill1 d L 0 A15 G15) $$ [Ha1 Hb1]
  case region => intro k acc; exact loop18 (F := F) d L A15 G15 k acc
  · unfold invFill1
    isplitl [Ha1]; · iexact Ha1
    iexists _; isplitl [Hb1]; · iexact Hb1
    ipureintro; exact RowFill.Filled.zero _ _ _ _ _
  iintro %_ HI
  unfold invFill1
  icases HI with ⟨Ha1, %H15, Hb1, %hH15⟩
  rw [trips_t18] at hH15
  have hX15 : RowFill.HHalf (Val := Elt F) (sB : Memref sig .scVector .vmem S2x32x4x256 .f32).view 1 0 H15 (xRows m d L 15) := RowFill.HHalf.of_fill (Val := Elt F) (sA : Memref sig .scVector .vmem S2x32x512 .f32).view (sB : Memref sig .scVector .vmem S2x32x4x256 .f32).view 1 0 A15 G15 H15 (xRows m d L 15) hH15 hA15
  have hE15 : RowFill.HHalf (Val := Elt F) (sB : Memref sig .scVector .vmem S2x32x4x256 .f32).view 1 128 H15 (eRows m d L) := RowFill.HHalf.of_fill_other (Val := Elt F) (sB : Memref sig .scVector .vmem S2x32x4x256 .f32).view 1 0 (RowFill.srcG (Val := Elt F) (sA : Memref sig .scVector .vmem S2x32x512 .f32).view A15 1 0) G15 H15 1 128 (eRows m d L) hH15 hG15 (.inr (.inr (by decide)))
  sl_exec
  sl_step
  ihave Ho0'' := (Entails.of_eq (pointsTo_congr (hOK0 0 _ _ (k2_off196_eq L) H0 hX0 hE0 _))) $$ Ho0'
  ihave Ho1'' := (Entails.of_eq (pointsTo_congr (hOK1 1 _ _ (k2_off262_eq L) H1 hX1 hE1 _))) $$ Ho1'
  ihave Ho2'' := (Entails.of_eq (pointsTo_congr (hOK0 2 _ _ (k2_off328_eq L) H2 hX2 hE2 _))) $$ Ho2'
  ihave Ho3'' := (Entails.of_eq (pointsTo_congr (hOK1 3 _ _ (k2_off394_eq L) H3 hX3 hE3 _))) $$ Ho3'
  ihave Ho4'' := (Entails.of_eq (pointsTo_congr (hOK0 4 _ _ (k2_off460_eq L) H4 hX4 hE4 _))) $$ Ho4'
  ihave Ho5'' := (Entails.of_eq (pointsTo_congr (hOK1 5 _ _ (k2_off526_eq L) H5 hX5 hE5 _))) $$ Ho5'
  ihave Ho6'' := (Entails.of_eq (pointsTo_congr (hOK0 6 _ _ (k2_off592_eq L) H6 hX6 hE6 _))) $$ Ho6'
  ihave Ho7'' := (Entails.of_eq (pointsTo_congr (hOK1 7 _ _ (k2_off658_eq L) H7 hX7 hE7 _))) $$ Ho7'
  ihave Ho8'' := (Entails.of_eq (pointsTo_congr (hOK0 8 _ _ (k2_off724_eq L) H8 hX8 hE8 _))) $$ Ho8'
  ihave Ho9'' := (Entails.of_eq (pointsTo_congr (hOK1 9 _ _ (k2_off790_eq L) H9 hX9 hE9 _))) $$ Ho9'
  ihave Ho10'' := (Entails.of_eq (pointsTo_congr (hOK0 10 _ _ (k2_off856_eq L) H10 hX10 hE10 _))) $$ Ho10'
  ihave Ho11'' := (Entails.of_eq (pointsTo_congr (hOK1 11 _ _ (k2_off922_eq L) H11 hX11 hE11 _))) $$ Ho11'
  ihave Ho12'' := (Entails.of_eq (pointsTo_congr (hOK0 12 _ _ (k2_off988_eq L) H12 hX12 hE12 _))) $$ Ho12'
  ihave Ho13'' := (Entails.of_eq (pointsTo_congr (hOK1 13 _ _ (k2_off1054_eq L) H13 hX13 hE13 _))) $$ Ho13'
  ihave Ho14'' := (Entails.of_eq (pointsTo_congr (hOK0 14 _ _ (k2_off1120_eq L) H14 hX14 hE14 _))) $$ Ho14'
  ihave Ho15'' := (Entails.of_eq (pointsTo_congr (hOK1 15 _ _ (k2_off1185_eq L) H15 hX15 hE15 _))) $$ Ho15'
  unfold tileTd oTd
  isplitl [Hx' He' Ho0'' Ho1'' Ho2'' Ho3'' Ho4'' Ho5'' Ho6'' Ho7'' Ho8'' Ho9'' Ho10'' Ho11'' Ho12'' Ho13'' Ho14'' Ho15'']
  · isplitl [Hx']; · iapply (Entails.of_eq (pts_x (F := F) d L _ _)); iexact Hx'
    isplitl [He']; · iapply (Entails.of_eq (pts_e (F := F) d L _ _)); iexact He'
    isplitl [Ho0'']; · iapply (Entails.of_eq (pts_o0 (F := F) d L _)); iexact Ho0''
    isplitl [Ho1'']; · iapply (Entails.of_eq (pts_o1 (F := F) d L _)); iexact Ho1''
    isplitl [Ho2'']; · iapply (Entails.of_eq (pts_o2 (F := F) d L _)); iexact Ho2''
    isplitl [Ho3'']; · iapply (Entails.of_eq (pts_o3 (F := F) d L _)); iexact Ho3''
    isplitl [Ho4'']; · iapply (Entails.of_eq (pts_o4 (F := F) d L _)); iexact Ho4''
    isplitl [Ho5'']; · iapply (Entails.of_eq (pts_o5 (F := F) d L _)); iexact Ho5''
    isplitl [Ho6'']; · iapply (Entails.of_eq (pts_o6 (F := F) d L _)); iexact Ho6''
    isplitl [Ho7'']; · iapply (Entails.of_eq (pts_o7 (F := F) d L _)); iexact Ho7''
    isplitl [Ho8'']; · iapply (Entails.of_eq (pts_o8 (F := F) d L _)); iexact Ho8''
    isplitl [Ho9'']; · iapply (Entails.of_eq (pts_o9 (F := F) d L _)); iexact Ho9''
    isplitl [Ho10'']; · iapply (Entails.of_eq (pts_o10 (F := F) d L _)); iexact Ho10''
    isplitl [Ho11'']; · iapply (Entails.of_eq (pts_o11 (F := F) d L _)); iexact Ho11''
    isplitl [Ho12'']; · iapply (Entails.of_eq (pts_o12 (F := F) d L _)); iexact Ho12''
    isplitl [Ho13'']; · iapply (Entails.of_eq (pts_o13 (F := F) d L _)); iexact Ho13''
    isplitl [Ho14'']; · iapply (Entails.of_eq (pts_o14 (F := F) d L _)); iexact Ho14''
    iapply (Entails.of_eq (pts_o15 (F := F) d L _)); iexact Ho15''
  isplitl [Ha0 Ha1 Hb0 Hb1 Hbufs]
  · isplitl [Ha0 Ha1]
    · iapply (ptsA_join (F := F) d L)
      isplitl [Ha0]
      · iexists _; iexact Ha0
      · iexists _; iexact Ha1
    isplitl [Hb0 Hb1]
    · iapply (ptsB_join (F := F) d L)
      isplitl [Hb0]
      · iexists _; iexact Hb0
      · iexists _; iexact Hb1
    iexact Hbufs
  isplitl [Hs9 Hs10 Hs11 Hs12 Hs13 Hsems]
  · isplitl [Hs9 Hs10 Hs11 Hs12 Hs13]
    · isplitl [Hs9]; · iexact Hs9
      isplitl [Hs10]; · iexact Hs10
      isplitl [Hs11]; · iexact Hs11
      isplitl [Hs12]; · iexact Hs12
      iexact Hs13
    iexact Hsems
  iexists _; isplitr
  rotate_left
  · iexact HO
  · ipureintro
    repeat (first | exact fun p hp => .inl hp | apply waits_insert rfl)

end Cert.KernelIdeal.TileBody
-- ==== Proof.TileLands.lean ====
/-
  What a landed copy leaves in a slot of the row scratch: the squeezed slice of slot 0 or 1 is the scratch at
  (slot, row, column); the copy's one whole-slot piece is read back as its payload; and the payload, the source
  slice read row by row, is the tile's rows of the table or of one batch of x.
-/
import proofs.«206219_g40982577938455_cont_8to1_b_1362_29_alg».proof.Proof.TileRows
import Idealize.ShloMosaic.Lib.Writes
import Idealize.ShloMosaic.Lib.ValueIdx

noncomputable section

namespace Cert.KernelIdeal.TileBody

open Cert.KernelIdeal Cert.KernelIdeal.Gen Cert.KernelIdeal.Setup
open Idealize.ShloMosaic
open Idealize.ShloMosaic.SparseCore (S V T)
open Idealize.ShloMosaic.ValueIdx (ix2 ix3)

variable {F : FTy → Type}
variable (m : (ℓ : Loc nD τ sig) → Buf (Elt F) ℓ)
variable (d : Dev nD) (L : grid2.Coords)

/-! ## The slots of the row scratch, element by element -/

/-- Dropping the slot axis: the index of the one-slot block matched with (r, c) is (0, r, c). -/
theorem squeeze_ix (r : Fin 32) (c : Fin 512) :
    Shape.reshapeEquiv squeezes_S1x32x512_S32x512.numel_eq (ix2 r c) = (ix3 (0 : Fin 1) r c : S1x32x512.Idx) :=
  Shape.reshapeEquiv_eq_of_rowMajor _ (by
    rw [Shape.rowMajor_val_three, Shape.rowMajor_val_two]
    show ((0 : ℕ) * 32 + r.val) * 512 + c.val = r.val * 512 + c.val
    omega)

/-- Element (r, c) of slot 0, as the copies name the slot, is element (0, r, c) of the row scratch. -/
theorem emb_aSl0 (r : Fin 32) (c : Fin 512) :
    (aSl0 : Memref sig .scVector .vmem S32x512 .f32).view.emb (ix2 r c)
      = (sA : Memref sig .scVector .vmem S2x32x512 .f32).view.emb (ix3 (0 : Fin 2) r c) := by
  show (Rect.unit (s := S2x32x512) ![0, 0, 0] S1x32x512.size inb_S2x32x512_S1x32x512_0_0_0).emb
      (Shape.reshapeEquiv squeezes_S1x32x512_S32x512.numel_eq (ix2 r c)) = ix3 (0 : Fin 2) r c
  rw [squeeze_ix]
  funext a; apply Fin.ext
  match a with
  | ⟨0, _⟩ => rfl
  | ⟨1, _⟩ => show 0 + 1 * r.val = r.val; omega
  | ⟨2, _⟩ => show 0 + 1 * c.val = c.val; omega

/-- Element (r, c) of slot 1 is element (1, r, c) of the row scratch. -/
theorem emb_aSl1 (r : Fin 32) (c : Fin 512) :
    (aSl1 : Memref sig .scVector .vmem S32x512 .f32).view.emb (ix2 r c)
      = (sA : Memref sig .scVector .vmem S2x32x512 .f32).view.emb (ix3 (1 : Fin 2) r c) := by
  show (Rect.unit (s := S2x32x512) ![1, 0, 0] S1x32x512.size inb_S2x32x512_S1x32x512_1_0_0).emb
      (Shape.reshapeEquiv squeezes_S1x32x512_S32x512.numel_eq (ix2 r c)) = ix3 (1 : Fin 2) r c
  rw [squeeze_ix]
  funext a; apply Fin.ext
  match a with
  | ⟨0, _⟩ => rfl
  | ⟨1, _⟩ => show 0 + 1 * r.val = r.val; omega
  | ⟨2, _⟩ => show 0 + 1 * c.val = c.val; omega

/-- Reading the row scratch at (0, r, c) is reading slot 0 at (r, c). -/
theorem readA0 (X : BufTy.Contents (Elt F) aSl0.view.ty) (r : Fin 32) (c : Fin 512) :
    (sA : Memref sig .scVector .vmem S2x32x512 .f32).view.read (Elt F) X (ix3 (0 : Fin 2) r c)
      = (aSl0 : Memref sig .scVector .vmem S32x512 .f32).view.read (Elt F) X (ix2 r c) := by
  rw [View.read_apply, View.read_apply, emb_aSl0]

/-- Reading the row scratch at (1, r, c) is reading slot 1 at (r, c). -/
theorem readA1 (X : BufTy.Contents (Elt F) aSl1.view.ty) (r : Fin 32) (c : Fin 512) :
    (sA : Memref sig .scVector .vmem S2x32x512 .f32).view.read (Elt F) X (ix3 (1 : Fin 2) r c)
      = (aSl1 : Memref sig .scVector .vmem S32x512 .f32).view.read (Elt F) X (ix2 r c) := by
  rw [View.read_apply, View.read_apply, emb_aSl1]

/-- A slot read back after a whole-slot piece was written last reads the piece's payload. -/
theorem read_whole_piece {sp : Space} (v : View sig .scVector sp S32x512 .f32) (base : v.ty.Contents (Elt F))
    (w : S32x512.Idx → Elt F .f32) (rest : List (View.Piece (Elt F) S32x512 .f32)) (y : S32x512.Idx) :
    v.read (Elt F) (v.writes (Elt F) base (⟨Rect.whole S32x512, w⟩ :: rest)) y = w y := by
  have h := View.read_writes_cons_emb v base (Rect.whole S32x512) w rest y
  rw [Rect.emb_whole_apply] at h
  exact h

/-! ## The sources, row by row -/

/-- Row r, column c of the tile's slice of the table is the table at (n₀ + r, c). -/
theorem read_eS (r : Fin 32) (c : Fin 512) :
    (eS L).view.read (Elt F) (m (eLoc d)) (ix2 r c) = eRows m d L r c := by
  unfold eRows
  rw [View.read_apply, View.read_apply]
  have he : (eS L).view.emb (ix2 r c)
      = (eW : Memref sig .scVector .hbm S1024x512 .f32).view.emb (ix2 ⟨n0 L + r.val, n0_le L r⟩ c) := by
    show (Rect.unit (s := S1024x512) (k2_off1 L) S32x512.size (k2_off1_inb L)).emb (ix2 r c) = ix2 ⟨n0 L + r.val, n0_le L r⟩ c
    have hk := k2_off1_eq L
    funext a; apply Fin.ext
    match a with
    | ⟨0, _⟩ =>
      show k2_off1 L 0 + 1 * r.val = n0 L + r.val
      rw [hk]; show 64 * (L 1).val + 32 * (L 0).val + 1 * r.val = 64 * (L 1).val + 32 * (L 0).val + r.val; omega
    | ⟨1, _⟩ =>
      show k2_off1 L 1 + 1 * c.val = c.val
      rw [hk]; show 0 + 1 * c.val = c.val; omega
  rw [he]

/-- Row r, column c of the tile's slice of batch b of x is x at (b, n₀ + r, c). -/
theorem read_xS (b : Fin 16) (inb : ∀ a, (![b.val, n0 L, 0] : Fin 3 → ℕ) a + S1x32x512.size a ≤ S16x1024x512.size a) (r : Fin 32) (c : Fin 512) :
    (xS ![b.val, n0 L, 0] inb).view.read (Elt F) (m (xLoc d)) (ix2 r c) = xRows m d L b r c := by
  unfold xRows
  rw [View.read_apply, View.read_apply]
  have he : (xS ![b.val, n0 L, 0] inb).view.emb (ix2 r c)
      = (xW : Memref sig .scVector .hbm S16x1024x512 .f32).view.emb (ix3 b ⟨n0 L + r.val, n0_le L r⟩ c) := by
    show (Rect.unit (s := S16x1024x512) ![b.val, n0 L, 0] S1x32x512.size inb).emb
        (Shape.reshapeEquiv squeezes_S1x32x512_S32x512.numel_eq (ix2 r c)) = ix3 b ⟨n0 L + r.val, n0_le L r⟩ c
    rw [squeeze_ix]
    funext a; apply Fin.ext
    match a with
    | ⟨0, _⟩ => show b.val + 1 * 0 = b.val; omega
    | ⟨1, _⟩ => show n0 L + 1 * r.val = n0 L + r.val; omega
    | ⟨2, _⟩ => show 0 + 1 * c.val = c.val; omega
  rw [he]

/-! ## The landed copies -/

theorem lands_e : LandsE m d L := by
  intro base rest r c
  rw [readA0, read_whole_piece]
  exact read_eS m d L r c

theorem lands_x0 : LandsX0 m d L := by
  intro b off inb heq base rest r c
  subst heq
  rw [readA0, read_whole_piece]
  exact read_xS m d L b inb r c

theorem lands_x1 : LandsX1 m d L := by
  intro b off inb heq base rest r c
  subst heq
  rw [readA1, read_whole_piece]
  exact read_xS m d L b inb r c

end Cert.KernelIdeal.TileBody

end
-- ==== Proof.TileOut2.lean ====
/-
  The copy of a staging slot out to its block of the second result, as a fact about values.

  A tile's block of batch `b` is rows `n₀ … n₀ + 31` of that batch, all four groups and all 256 lanes; the copy writes
  the whole slot over it, entry `(r, s, j)` of the slot landing on `(b, n₀ + r, s, j)`.  When the slot's lanes `0 … 127` of
  group `s` hold columns `128 s …` of the tile's rows of batch `b` of `x`, and its lanes `128 … 255` the same columns of
  the tile's rows of the table, every element of the block ends at the blocked sampling's value there.
-/
import proofs.«206219_g40982577938455_cont_8to1_b_1362_29_alg».proof.Proof.TileRows
import proofs.«206219_g40982577938455_cont_8to1_b_1362_29_alg».proof.Proof.Spec
import Idealize.ShloMosaic.Lib.ValueLayout
import Idealize.ShloMosaic.Lib.Writes

noncomputable section

namespace Cert.KernelIdeal.TileBody

open Cert.KernelIdeal Cert.KernelIdeal.Gen Cert.KernelIdeal.Setup
open Idealize.ShloMosaic Idealize.ShloMosaic.ValueIdx
open Idealize.ShloMosaic.SparseCore (S V T)

variable {F : FTy → Type}
variable (m : (ℓ : Loc nD τ sig) → Buf (Elt F) ℓ)
variable (d : Dev nD) (L : grid2.Coords)

/-- Where the block's view puts entry `(r, s, j)`: row `n₀ + r` of batch `b`. -/
theorem oS_emb {off : Fin 4 → ℕ} (inb : ∀ a, off a + S1x32x4x256.size a ≤ S16x1024x4x256.size a) (b : Fin 16)
    (heq : off = ![b.val, n0 L, 0, 0]) (r : Fin 32) (s : Fin 4) (j : Fin 256) :
    (oS off inb).view.emb (ix3 r s j) = (ix4 b ⟨n0 L + r.val, n0_le L r⟩ s j : S16x1024x4x256.Idx) := by
  subst heq
  have e1 := reshapeEquiv_ix3_1abc (a := 32) (b := 4) (c := 256) squeezes_S1x32x4x256_S32x4x256.numel_eq r s j
  show (Rect.unit (s := S16x1024x4x256) ![b.val, n0 L, 0, 0] S1x32x4x256.size inb).emb
    (Shape.reshapeEquiv squeezes_S1x32x4x256_S32x4x256.numel_eq (ix3 r s j)) = _
  refine (congrArg _ e1).trans ?_
  funext a
  apply Fin.ext
  match a with
  | ⟨0, _⟩ => show b.val + 1 * 0 = b.val; omega
  | ⟨1, _⟩ => show n0 L + 1 * r.val = n0 L + r.val; omega
  | ⟨2, _⟩ => show 0 + 1 * s.val = s.val; omega
  | ⟨3, _⟩ => show 0 + 1 * j.val = j.val; omega

/-- Slot `buf` of the staging scratch through its squeezed slice. -/
theorem bSl0_read (H : Buf (Elt F) ((thr d L).loc cc2_scratch1)) (r : Fin 32) (s : Fin 4) (j : Fin 256) :
    bSl0.view.read (Elt F) H (ix3 r s j) = (sB : Memref sig .scVector .vmem S2x32x4x256 .f32).view.read (Elt F) H (ix4 (0 : Fin 2) r s j) := by
  have e1 := reshapeEquiv_ix3_1abc (a := 32) (b := 4) (c := 256) squeezes_S1x32x4x256_S32x4x256.numel_eq r s j
  have e2 : bSl0.view.emb (ix3 r s j) = (sB : Memref sig .scVector .vmem S2x32x4x256 .f32).view.emb (ix4 (0 : Fin 2) r s j) := by
    show (sB : Memref sig .scVector .vmem S2x32x4x256 .f32).view.emb ((Rect.unit (s := S2x32x4x256) ![0, 0, 0, 0] S1x32x4x256.size inb_S2x32x4x256_S1x32x4x256_0_0_0_0).emb
      (Shape.reshapeEquiv squeezes_S1x32x4x256_S32x4x256.numel_eq (ix3 r s j))) = _
    refine congrArg _ ((congrArg _ e1).trans ?_)
    funext a
    apply Fin.ext
    match a with
    | ⟨0, _⟩ => rfl
    | ⟨1, _⟩ => show 0 + 1 * r.val = r.val; omega
    | ⟨2, _⟩ => show 0 + 1 * s.val = s.val; omega
    | ⟨3, _⟩ => show 0 + 1 * j.val = j.val; omega
  rw [View.read_apply, View.read_apply, e2]

theorem bSl1_read (H : Buf (Elt F) ((thr d L).loc cc2_scratch1)) (r : Fin 32) (s : Fin 4) (j : Fin 256) :
    bSl1.view.read (Elt F) H (ix3 r s j) = (sB : Memref sig .scVector .vmem S2x32x4x256 .f32).view.read (Elt F) H (ix4 (1 : Fin 2) r s j) := by
  have e1 := reshapeEquiv_ix3_1abc (a := 32) (b := 4) (c := 256) squeezes_S1x32x4x256_S32x4x256.numel_eq r s j
  have e2 : bSl1.view.emb (ix3 r s j) = (sB : Memref sig .scVector .vmem S2x32x4x256 .f32).view.emb (ix4 (1 : Fin 2) r s j) := by
    show (sB : Memref sig .scVector .vmem S2x32x4x256 .f32).view.emb ((Rect.unit (s := S2x32x4x256) ![1, 0, 0, 0] S1x32x4x256.size inb_S2x32x4x256_S1x32x4x256_1_0_0_0).emb
      (Shape.reshapeEquiv squeezes_S1x32x4x256_S32x4x256.numel_eq (ix3 r s j))) = _
    refine congrArg _ ((congrArg _ e1).trans ?_)
    funext a
    apply Fin.ext
    match a with
    | ⟨0, _⟩ => rfl
    | ⟨1, _⟩ => show 0 + 1 * r.val = r.val; omega
    | ⟨2, _⟩ => show 0 + 1 * s.val = s.val; omega
    | ⟨3, _⟩ => show 0 + 1 * j.val = j.val; omega
  rw [View.read_apply, View.read_apply, e2]

section Core
variable {sig' : RefSig} {κ' : Kind} {sp' : Space}

/-- A staging slot whose x half holds rows `n₀ …` of batch `b` of `x` and whose table half holds rows `n₀ …` of `e`
    is the second result on those rows of batch `b`. -/
theorem staging_core (VB : View sig' κ' sp' S2x32x4x256 .f32) (buf : Fin 2) (H : VB.ty.Contents (Elt F))
    (x : FVec F Spec.ShX .f32) (e : FVec F Spec.ShE .f32) (b : Fin 16) (n : ℕ) (hn : ∀ r : Fin 32, n + r.val < 1024)
    (srcX srcE : Fin 32 → Fin 512 → Elt F .f32)
    (hsx : ∀ r c, srcX r c = x (ix3 b ⟨n + r.val, hn r⟩ c)) (hse : ∀ r c, srcE r c = e (ix2 ⟨n + r.val, hn r⟩ c))
    (hX : RowFill.HHalf (Val := Elt F) VB buf 0 H srcX) (hE : RowFill.HHalf (Val := Elt F) VB buf 128 H srcE)
    (r : Fin 32) (s : Fin 4) (j : Fin 256) :
    VB.read (Elt F) H (ix4 buf r s j) = Spec.out2 (F := F) x e (ix4 b ⟨n + r.val, hn r⟩ s j) := by
  have hs := s.isLt
  have hj := j.isLt
  by_cases hlt : j.val < 128
  · rw [hX r s j (Nat.zero_le _) (by omega), hsx]
    exact (Spec.out2_of_lt (F := F) x e b ⟨n + r.val, hn r⟩ s j
      ⟨(128 * s.val + (j.val - 0)) % 512, Nat.mod_lt _ (by decide)⟩ hlt (by show (128 * s.val + (j.val - 0)) % 512 = _; omega)).symm
  · rw [hE r s j (by omega) (by omega), hse]
    exact (Spec.out2_of_ge (F := F) x e b ⟨n + r.val, hn r⟩ s j
      ⟨(128 * s.val + (j.val - 128)) % 512, Nat.mod_lt _ (by decide)⟩ (by omega) (by show (128 * s.val + (j.val - 128)) % 512 + 128 = _; omega)).symm

end Core

theorem xRows_eq (b : Fin 16) (r : Fin 32) (c : Fin 512) :
    xRows m d L b r c = (m (xLoc d) : FVec F Spec.ShX .f32) (ix3 b ⟨n0 L + r.val, n0_le L r⟩ c) := rfl
theorem eRows_eq (r : Fin 32) (c : Fin 512) :
    eRows m d L r c = (m (eLoc d) : FVec F Spec.ShE .f32) (ix2 ⟨n0 L + r.val, n0_le L r⟩ c) := rfl

theorem staging_out2 (b : Fin 16) (buf : Fin 2) (H : Buf (Elt F) ((thr d L).loc cc2_scratch1))
    (hX : RowFill.HHalf (Val := Elt F) (sB : Memref sig .scVector .vmem S2x32x4x256 .f32).view buf 0 H (xRows m d L b))
    (hE : RowFill.HHalf (Val := Elt F) (sB : Memref sig .scVector .vmem S2x32x4x256 .f32).view buf 128 H (eRows m d L))
    (r : Fin 32) (s : Fin 4) (j : Fin 256) :
    (sB : Memref sig .scVector .vmem S2x32x4x256 .f32).view.read (Elt F) H (ix4 buf r s j)
      = out2Buf m d (ix4 b ⟨n0 L + r.val, n0_le L r⟩ s j) :=
  staging_core (sB : Memref sig .scVector .vmem S2x32x4x256 .f32).view buf H (m (xLoc d)) (m (eLoc d)) b (n0 L) (n0_le L)
    (xRows m d L b) (eRows m d L) (xRows_eq m d L b) (eRows_eq m d L) hX hE r s j

/-- A block read back after a whole-block piece was written reads the piece's payload. -/
theorem read_whole_piece4 {sp : Space} (v : View sig .scVector sp S32x4x256 .f32) (base : v.ty.Contents (Elt F))
    (w : S32x4x256.Idx → Elt F .f32) (y : S32x4x256.Idx) :
    v.read (Elt F) (v.writes (Elt F) base [⟨Rect.whole S32x4x256, w⟩]) y = w y := by
  have h := View.read_writes_cons_emb v base (Rect.whole S32x4x256) w [] y
  rw [Rect.emb_whole_apply] at h
  exact h

set_option maxHeartbeats 1000000 in
/-- The copy out of slot 0: the block of batch `b` ends at the second result's value on its elements. -/
theorem out_ok0' (b : Fin 16) (inb : ∀ a, (![b.val, n0 L, 0, 0] : Fin 4 → ℕ) a + S1x32x4x256.size a ≤ S16x1024x4x256.size a)
    (H : Buf (Elt F) ((thr d L).loc cc2_scratch1))
    (hX : RowFill.HHalf (Val := Elt F) (sB : Memref sig .scVector .vmem S2x32x4x256 .f32).view 0 0 H (xRows m d L b))
    (hE : RowFill.HHalf (Val := Elt F) (sB : Memref sig .scVector .vmem S2x32x4x256 .f32).view 0 128 H (eRows m d L))
    (base : (oS ![b.val, n0 L, 0, 0] inb).view.ty.Contents (Elt F)) (r : Fin 32) (s : Fin 4) (j : Fin 256) :
    ((oS ![b.val, n0 L, 0, 0] inb).view.writes (Elt F) base [⟨Rect.whole S32x4x256, ReadAs.same.apply (View.read (Elt F) bSl0.view H)⟩])
        ((oS ![b.val, n0 L, 0, 0] inb).view.emb (ix3 r s j))
      = out2Buf m d ((oS ![b.val, n0 L, 0, 0] inb).view.emb (ix3 r s j)) := by
  have h1 := read_whole_piece4 (oS ![b.val, n0 L, 0, 0] inb).view base (ReadAs.same.apply (View.read (Elt F) bSl0.view H)) (ix3 r s j)
  have h2 : ReadAs.same.apply (View.read (Elt F) bSl0.view H) (ix3 r s j) = bSl0.view.read (Elt F) H (ix3 r s j) := rfl
  rw [h2, bSl0_read, staging_out2 m d L b 0 H hX hE r s j] at h1
  rw [oS_emb L inb b rfl]
  rw [View.read_apply, oS_emb L inb b rfl] at h1
  exact (cast_eq _ _).symm.trans h1

set_option maxHeartbeats 1000000 in
/-- The copy out of slot 1: the block of batch `b` ends at the second result's value on its elements. -/
theorem out_ok1' (b : Fin 16) (inb : ∀ a, (![b.val, n0 L, 0, 0] : Fin 4 → ℕ) a + S1x32x4x256.size a ≤ S16x1024x4x256.size a)
    (H : Buf (Elt F) ((thr d L).loc cc2_scratch1))
    (hX : RowFill.HHalf (Val := Elt F) (sB : Memref sig .scVector .vmem S2x32x4x256 .f32).view 1 0 H (xRows m d L b))
    (hE : RowFill.HHalf (Val := Elt F) (sB : Memref sig .scVector .vmem S2x32x4x256 .f32).view 1 128 H (eRows m d L))
    (base : (oS ![b.val, n0 L, 0, 0] inb).view.ty.Contents (Elt F)) (r : Fin 32) (s : Fin 4) (j : Fin 256) :
    ((oS ![b.val, n0 L, 0, 0] inb).view.writes (Elt F) base [⟨Rect.whole S32x4x256, ReadAs.same.apply (View.read (Elt F) bSl1.view H)⟩])
        ((oS ![b.val, n0 L, 0, 0] inb).view.emb (ix3 r s j))
      = out2Buf m d ((oS ![b.val, n0 L, 0, 0] inb).view.emb (ix3 r s j)) := by
  have h1 := read_whole_piece4 (oS ![b.val, n0 L, 0, 0] inb).view base (ReadAs.same.apply (View.read (Elt F) bSl1.view H)) (ix3 r s j)
  have h2 : ReadAs.same.apply (View.read (Elt F) bSl1.view H) (ix3 r s j) = bSl1.view.read (Elt F) H (ix3 r s j) := rfl
  rw [h2, bSl1_read, staging_out2 m d L b 1 H hX hE r s j] at h1
  rw [oS_emb L inb b rfl]
  rw [View.read_apply, oS_emb L inb b rfl] at h1
  exact (cast_eq _ _).symm.trans h1

theorem out_ok0 : OutOk0 m d L := by
  intro b off inb heq H hX hE base i hi
  subst heq
  obtain ⟨y, -, rfl⟩ := Finset.mem_map.mp hi
  obtain ⟨r, s, j, rfl⟩ : ∃ (r : Fin 32) (s : Fin 4) (j : Fin 256), y = ix3 r s j := ⟨y 0, y 1, y 2, eq_ix3 y⟩
  exact out_ok0' m d L b inb H hX hE base r s j

theorem out_ok1 : OutOk1 m d L := by
  intro b off inb heq H hX hE base i hi
  subst heq
  obtain ⟨y, -, rfl⟩ := Finset.mem_map.mp hi
  obtain ⟨r, s, j, rfl⟩ : ∃ (r : Fin 32) (s : Fin 4) (j : Fin 256), y = ix3 r s j := ⟨y 0, y 1, y 2, eq_ix3 y⟩
  exact out_ok1' m d L b inb H hX hE base r s j

end Cert.KernelIdeal.TileBody
end
-- ==== Proof.TileBody.lean ====
/-
  The body of the second result's kernel on one vector subcore, at a symbolic tile: handed its read shares of x and
  of the embedding table and its 16 blocks of the result, it ends with each block holding the second result's value
  on its elements, its scratch arrays and semaphores returned. The threading of the loops, copies and waits is
  `tile_body_of`; what a landed copy leaves is read by the value lemmas it takes as hypotheses.
-/
import proofs.«206219_g40982577938455_cont_8to1_b_1362_29_alg».proof.Proof.TileThread
import proofs.«206219_g40982577938455_cont_8to1_b_1362_29_alg».proof.Proof.TileLands
import proofs.«206219_g40982577938455_cont_8to1_b_1362_29_alg».proof.Proof.TileOut2

noncomputable section

namespace Cert.KernelIdeal.TileBody

open Cert.KernelIdeal Cert.KernelIdeal.Gen Cert.KernelIdeal.Setup

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)
variable (d : Dev nD) (L : grid2.Coords)

theorem tile_body (O : CellTallies nD τ sig (HIx 1)) (W : Waits sig (HIx 1)) (hO : ∀ g, O g none = 0) :
    iprop(levAts (K (F := F)).L (K (F := F)).lev ∗ emp ∗ tileGo m d L
        ∗ scopedBufs (thr d L) ∗ scopedSems0 (thr d L) ∗ owes (thr d L) O W)
      ⊢ wp frame (wpE (defs₀ (F := F)) 𝒱₀ (thr d L) none) Set.univ
          (cc2_k L xW (Memref.isWhole_whole _) eW (Memref.isWhole_whole _) oW (Memref.isWhole_whole _)
            sA (Memref.isWhole_whole _) sB (Memref.isWhole_whole _) cc2_scratch2 cc2_scratch3 cc2_scoped0)
          fun _ => iprop(tileTd m d L ∗ scopedBufs (thr d L) ∗ scopedSems0 (thr d L)
            ∗ ∃ W', ⌜∀ p ∈ W', p ∈ W ∨ p.2 = none⌝ ∗ owes (thr d L) O W') :=
  tile_body_of m d L (lands_e m d L) (lands_x0 m d L) (lands_x1 m d L) (out_ok0 m d L) (out_ok1 m d L) O W hO

end Cert.KernelIdeal.TileBody
-- ==== Proof.Bits.RowFill.lean ====
/-
  What the 32 sixteen-lane stores of one row leave in the staging scratch. One trip of a fill loop writes, for
  each of the 4 groups s and the 8 lane blocks c, the 16 lanes [xoff + 16 c, xoff + 16 c + 16) of row k, group s,
  slot buf, with values that are one function G of the destination index. After the first n of these stores (in
  the loop's order, n = 8 s + c) an element of the staging scratch holds G if it lies in slot buf, row k, lanes
  [xoff, xoff + 128) and its store is among the first n, and holds what it held before otherwise. The count of an
  element's store is 8 · group + (lane − xoff) / 16.
-/
import proofs.«206219_g40982577938455_cont_8to1_b_1362_29_alg».proof.Proof.Bits.TileRes
import Idealize.ShloMosaic.Lib.Writes
import Idealize.ShloMosaic.Lib.ValueIdx
import Idealize.ShloMosaic.Lib.Pipeline.Value

namespace Cert.Kernel.RowFill

open Cert.Kernel
open Idealize.ShloMosaic

variable {sig : RefSig} {κ : Kind} {sp : Space} {Val : EltTy → Type}

/-- The element lies in slot `buf`, row `k`, lanes `[xoff, xoff + 128)`, and its store is among the first `n`. -/
def inRow (buf k xoff n : ℕ) (y : S2x32x4x256.Idx) : Prop :=
  (y 0).val = buf ∧ (y 1).val = k ∧ xoff ≤ (y 3).val ∧ (y 3).val < xoff + 128 ∧ 8 * (y 2).val + ((y 3).val - xoff) / 16 < n

instance (buf k xoff n : ℕ) (y : S2x32x4x256.Idx) : Decidable (inRow buf k xoff n y) := by
  unfold inRow; infer_instance

/-- After the first `n` stores of the row: `G` on the elements stored, the old contents elsewhere. -/
def RowFill (V : View sig κ sp S2x32x4x256 .f32) (buf k xoff n : ℕ) (G : S2x32x4x256.Idx → Val .f32)
    (g h : V.ty.Contents Val) : Prop :=
  ∀ y, V.read Val h y = if inRow buf k xoff n y then G y else V.read Val g y

theorem RowFill.zero (V : View sig κ sp S2x32x4x256 .f32) (buf k xoff : ℕ) (G : S2x32x4x256.Idx → Val .f32)
    (g : V.ty.Contents Val) : RowFill V buf k xoff 0 G g g := by
  intro y
  rw [if_neg]
  unfold inRow; omega

/-- One more store: the 16 lanes of group `s`, lane block `c`. -/
theorem RowFill.step (V : View sig κ sp S2x32x4x256 .f32) (buf k xoff n s c : ℕ) (hc : c < 8) (hn : n = 8 * s + c)
    (G : S2x32x4x256.Idx → Val .f32) (g h : V.ty.Contents Val)
    {off : Fin S2x32x4x256.rank → ℕ} (inb : ∀ a, off a + S1x1x1x16.size a ≤ S2x32x4x256.size a)
    (heq : off = ![buf, k, s, xoff + 16 * c])
    (w : (Rect.unit (s := S2x32x4x256) off S1x1x1x16.size inb).shape.Idx → Val .f32)
    (hw : ∀ x, w x = G ((Rect.unit (s := S2x32x4x256) off S1x1x1x16.size inb).emb x))
    (H : RowFill V buf k xoff n G g h) :
    RowFill V buf k xoff (n + 1) G g ((V.slice (Rect.unit (s := S2x32x4x256) off S1x1x1x16.size inb)).write Val h w Finset.univ) := by
  subst heq
  intro y
  by_cases hy : y ∈ Finset.univ.map (Rect.unit (s := S2x32x4x256) ![buf, k, s, xoff + 16 * c] S1x1x1x16.size inb).emb
  · obtain ⟨x, -, rfl⟩ := Finset.mem_map.mp hy
    rw [View.read_slice_write_emb _ _ _ (Finset.mem_univ x), hw x, if_pos]
    have h0 : (x 0).val < 1 := (x 0).isLt
    have h1 : (x 1).val < 1 := (x 1).isLt
    have h2 : (x 2).val < 1 := (x 2).isLt
    have h3 : (x 3).val < 16 := (x 3).isLt
    have e0 : (((Rect.unit (s := S2x32x4x256) ![buf, k, s, xoff + 16 * c] S1x1x1x16.size inb).emb x) 0).val = buf + 1 * (x 0).val := rfl
    have e1 : (((Rect.unit (s := S2x32x4x256) ![buf, k, s, xoff + 16 * c] S1x1x1x16.size inb).emb x) 1).val = k + 1 * (x 1).val := rfl
    have e2 : (((Rect.unit (s := S2x32x4x256) ![buf, k, s, xoff + 16 * c] S1x1x1x16.size inb).emb x) 2).val = s + 1 * (x 2).val := rfl
    have e3 : (((Rect.unit (s := S2x32x4x256) ![buf, k, s, xoff + 16 * c] S1x1x1x16.size inb).emb x) 3).val = (xoff + 16 * c) + 1 * (x 3).val := rfl
    unfold inRow
    rw [e0, e1, e2, e3]
    omega
  · rw [View.read_slice_write_of_not_mem _ _ _ _ hy, H y]
    rw [Rect.map_emb_univ, Rect.mem_set_unit] at hy
    have hiff : inRow buf k xoff (n + 1) y ↔ inRow buf k xoff n y := by
      unfold inRow
      constructor
      · intro hh
        by_contra hcon
        apply hy
        intro a
        have hA : a = 0 ∨ a = 1 ∨ a = 2 ∨ a = 3 := by
          rcases a with ⟨_ | _ | _ | _ | a, ha⟩
          · exact .inl rfl
          · exact .inr (.inl rfl)
          · exact .inr (.inr (.inl rfl))
          · exact .inr (.inr (.inr rfl))
          · exact absurd ha (by show ¬ (a + 4 < 4); omega)
        rcases hA with rfl | rfl | rfl | rfl
        · show buf ≤ (y 0).val ∧ (y 0).val < buf + 1; omega
        · show k ≤ (y 1).val ∧ (y 1).val < k + 1; omega
        · show s ≤ (y 2).val ∧ (y 2).val < s + 1; omega
        · show xoff + 16 * c ≤ (y 3).val ∧ (y 3).val < xoff + 16 * c + 16; omega
      · intro hh; omega
    simp only [hiff]

/-! ### The rows done so far -/

/-- After `kk` trips: rows below `kk` of slot `buf` hold `G` on lanes `[xoff, xoff + 128)`; everything else is as before the loop. -/
def Filled (V : View sig κ sp S2x32x4x256 .f32) (buf xoff kk : ℕ) (G : S2x32x4x256.Idx → Val .f32)
    (g0 h : V.ty.Contents Val) : Prop :=
  ∀ y, V.read Val h y = if (y 0).val = buf ∧ (y 1).val < kk ∧ xoff ≤ (y 3).val ∧ (y 3).val < xoff + 128 then G y else V.read Val g0 y

theorem Filled.zero (V : View sig κ sp S2x32x4x256 .f32) (buf xoff : ℕ) (G : S2x32x4x256.Idx → Val .f32)
    (g0 : V.ty.Contents Val) : Filled V buf xoff 0 G g0 g0 := by
  intro y
  rw [if_neg]
  omega

/-- One trip: the row's 32 stores over the rows done before. -/
theorem Filled.succ (V : View sig κ sp S2x32x4x256 .f32) (buf xoff k : ℕ) (G : S2x32x4x256.Idx → Val .f32)
    (g0 g h : V.ty.Contents Val) (H : Filled V buf xoff k G g0 g) (R : RowFill V buf k xoff 32 G g h) :
    Filled V buf xoff (k + 1) G g0 h := by
  intro y
  rw [R y]
  have h2 : (y 2).val < 4 := (y 2).isLt
  by_cases hr : inRow buf k xoff 32 y
  · rw [if_pos hr, if_pos]
    unfold inRow at hr; omega
  · rw [if_neg hr, H y]
    unfold inRow at hr
    by_cases hc : (y 0).val = buf ∧ (y 1).val < k ∧ xoff ≤ (y 3).val ∧ (y 3).val < xoff + 128
    · rw [if_pos hc, if_pos]; omega
    · rw [if_neg hc, if_neg]; omega

/-! ### What a store's vector is: sixteen lanes loaded from a row of the source -/

open ValueIdx in
/-- The source element a destination element of the staging scratch is filled from: slot `bufA`, the same row, column
    `128 · group + (lane − xoff)`. -/
def srcIx (bufA : Fin 2) (xoff : ℕ) (y : S2x32x4x256.Idx) : S2x32x512.Idx :=
  ix3 bufA (y 1) ⟨(128 * (y 2).val + ((y 3).val - xoff)) % 512, Nat.mod_lt _ (by decide)⟩

/-- The fill's value at a destination element, the source array's contents `f` read through `V`. -/
def srcG (V : View sig κ sp S2x32x512 .f32) (f : V.ty.Contents Val) (bufA : Fin 2) (xoff : ℕ) (y : S2x32x4x256.Idx) : Val .f32 :=
  V.read Val f (srcIx bufA xoff y)

theorem cast16 {α : Type} (v : S1x1x16.Idx → α) (h1 : S1x1x16.ShapeCasts S16) (h2 : S16.ShapeCasts S1x1x1x16) (x : S1x1x1x16.Idx) :
    shapeCast S1x1x1x16 (shapeCast S16 v h1) h2 x = v (ValueIdx.ix3 0 0 (x 3)) := by
  have h0 : (x 0).val < 1 := (x 0).isLt
  have h1' : (x 1).val < 1 := (x 1).isLt
  have h2' : (x 2).val < 1 := (x 2).isLt
  rw [shapeCast_apply _ h2 x (ValueIdx.ix1 (x 3)) (by
    rw [Shape.rowMajor_val_one, Shape.rowMajor_val_four]
    show (x 3).val = ((((x 0).val * 1 + (x 1).val) * 1 + (x 2).val) * 16 + (x 3).val); omega)]
  rw [shapeCast_apply _ h1 (ValueIdx.ix1 (x 3)) (ValueIdx.ix3 0 0 (x 3)) (by
    rw [Shape.rowMajor_val_one, Shape.rowMajor_val_three]
    show (((0 : ℕ) * 1 + 0) * 16 + (x 3).val) = (x 3).val; omega)]

theorem cast16' {α : Type} (v : S1x1x1x16.Idx → α) (h1 : S1x1x1x16.ShapeCasts S16) (h2 : S16.ShapeCasts S1x1x1x16) (x : S1x1x1x16.Idx) :
    shapeCast S1x1x1x16 (shapeCast S16 v h1) h2 x = v x := by
  have h0 : (x 0).val < 1 := (x 0).isLt
  have h1' : (x 1).val < 1 := (x 1).isLt
  have h2' : (x 2).val < 1 := (x 2).isLt
  rw [shapeCast_apply _ h2 x (ValueIdx.ix1 (x 3)) (by
    rw [Shape.rowMajor_val_one, Shape.rowMajor_val_four]
    show (x 3).val = ((((x 0).val * 1 + (x 1).val) * 1 + (x 2).val) * 16 + (x 3).val); omega)]
  rw [shapeCast_apply _ h1 (ValueIdx.ix1 (x 3)) x (by
    rw [Shape.rowMajor_val_one, Shape.rowMajor_val_four]
    show ((((x 0).val * 1 + (x 1).val) * 1 + (x 2).val) * 16 + (x 3).val) = (x 3).val; omega)]

/-- A store's vector — sixteen lanes loaded from row `k`, columns `[col, col + 16)` of slot `bufA` of the source, re-laid
    as `[1, 1, 1, 16]` — is the fill's value at each element it is stored to. -/
theorem pay_eq (V : View sig κ sp S2x32x512 .f32) (f : V.ty.Contents Val) (bufA : Fin 2) (buf k xoff s c col : ℕ)
    (hk : k < 32) (hc : c < 8) (hs : s < 4) (hcol : col = 128 * s + 16 * c)
    {offA : Fin S2x32x512.rank → ℕ} (inbA : ∀ a, offA a + S1x1x16.size a ≤ S2x32x512.size a) (heqA : offA = ![bufA.val, k, col])
    {offB : Fin S2x32x4x256.rank → ℕ} (inbB : ∀ a, offB a + S1x1x1x16.size a ≤ S2x32x4x256.size a) (heqB : offB = ![buf, k, s, xoff + 16 * c])
    (h1 : S1x1x16.ShapeCasts S16) (h2 : S16.ShapeCasts S1x1x1x16)
    (x : (Rect.unit (s := S2x32x4x256) offB S1x1x1x16.size inbB).shape.Idx) :
    shapeCast S1x1x1x16 (shapeCast S16 (View.readAt Val V (Rect.unit (s := S2x32x512) offA S1x1x16.size inbA).toLoadRect f) h1) h2 x
      = srcG V f bufA xoff ((Rect.unit (s := S2x32x4x256) offB S1x1x1x16.size inbB).emb x) := by
  subst heqA heqB hcol
  rw [cast16]
  unfold srcG View.readAt
  refine congrArg (V.read Val f) (funext fun a => Fin.ext ?_)
  have h3 : (x 3).val < 16 := (x 3).isLt
  have h1' : (x 1).val < 1 := (x 1).isLt
  have h2' : (x 2).val < 1 := (x 2).isLt
  have e1 : (((Rect.unit (s := S2x32x4x256) ![buf, k, s, xoff + 16 * c] S1x1x1x16.size inbB).emb x) 1).val = k + 1 * (x 1).val := rfl
  have e2 : (((Rect.unit (s := S2x32x4x256) ![buf, k, s, xoff + 16 * c] S1x1x1x16.size inbB).emb x) 2).val = s + 1 * (x 2).val := rfl
  have e3 : (((Rect.unit (s := S2x32x4x256) ![buf, k, s, xoff + 16 * c] S1x1x1x16.size inbB).emb x) 3).val = (xoff + 16 * c) + 1 * (x 3).val := rfl
  match a with
  | ⟨0, _⟩ => show bufA.val + 1 * 0 = bufA.val; omega
  | ⟨1, _⟩ => show k + 1 * 0 = _; unfold srcIx; show _ = (((Rect.unit (s := S2x32x4x256) ![buf, k, s, xoff + 16 * c] S1x1x1x16.size inbB).emb x) 1).val; omega
  | ⟨2, _⟩ =>
    show (128 * s + 16 * c) + 1 * (x 3).val = (128 * (((Rect.unit (s := S2x32x4x256) ![buf, k, s, xoff + 16 * c] S1x1x1x16.size inbB).emb x) 2).val + ((((Rect.unit (s := S2x32x4x256) ![buf, k, s, xoff + 16 * c] S1x1x1x16.size inbB).emb x) 3).val - xoff)) % 512
    rw [e2, e3]; omega

/-! ### The same with the staging scratch itself as the source (slot to slot) -/

open ValueIdx in
/-- The element of slot `bufA` at the same row, group and lane. -/
def srcIx' (bufA : Fin 2) (y : S2x32x4x256.Idx) : S2x32x4x256.Idx := ix4 bufA (y 1) (y 2) (y 3)

def srcG' (V : View sig κ sp S2x32x4x256 .f32) (f : V.ty.Contents Val) (bufA : Fin 2) (y : S2x32x4x256.Idx) : Val .f32 :=
  V.read Val f (srcIx' bufA y)

theorem pay_eq' (V : View sig κ sp S2x32x4x256 .f32) (f : V.ty.Contents Val) (bufA : Fin 2) (buf k xoff s c : ℕ)
    (hk : k < 32) (hc : c < 8) (hs : s < 4)
    {offA : Fin S2x32x4x256.rank → ℕ} (inbA : ∀ a, offA a + S1x1x1x16.size a ≤ S2x32x4x256.size a) (heqA : offA = ![bufA.val, k, s, xoff + 16 * c])
    {offB : Fin S2x32x4x256.rank → ℕ} (inbB : ∀ a, offB a + S1x1x1x16.size a ≤ S2x32x4x256.size a) (heqB : offB = ![buf, k, s, xoff + 16 * c])
    (h1 : S1x1x1x16.ShapeCasts S16) (h2 : S16.ShapeCasts S1x1x1x16)
    (x : (Rect.unit (s := S2x32x4x256) offB S1x1x1x16.size inbB).shape.Idx) :
    shapeCast S1x1x1x16 (shapeCast S16 (View.readAt Val V (Rect.unit (s := S2x32x4x256) offA S1x1x1x16.size inbA).toLoadRect f) h1) h2 x
      = srcG' V f bufA ((Rect.unit (s := S2x32x4x256) offB S1x1x1x16.size inbB).emb x) := by
  subst heqA heqB
  rw [cast16']
  unfold srcG' View.readAt
  refine congrArg (V.read Val f) (funext fun a => Fin.ext ?_)
  have h0' : (x 0).val < 1 := (x 0).isLt
  have h1' : (x 1).val < 1 := (x 1).isLt
  have h2' : (x 2).val < 1 := (x 2).isLt
  match a with
  | ⟨0, _⟩ => show bufA.val + 1 * (x 0).val = bufA.val; omega
  | ⟨1, _⟩ => show k + 1 * (x 1).val = k + 1 * (x 1).val; rfl
  | ⟨2, _⟩ => show s + 1 * (x 2).val = s + 1 * (x 2).val; rfl
  | ⟨3, _⟩ => show (xoff + 16 * c) + 1 * (x 3).val = (xoff + 16 * c) + 1 * (x 3).val; rfl

end Cert.Kernel.RowFill
-- ==== Proof.Bits.TileVals.lean ====
/-
  The values a tile's loops carry, as facts about the contents of its two scratch arrays. A slot of the row
  scratch holds a block of 32 source rows (of the embedding table, or of one batch of x); a slot of the staging
  scratch holds, per row and group, 128 lanes of x followed by 128 lanes of the table. A fill loop moves one
  half: what it leaves is read off its invariant's last instance.
-/
import proofs.«206219_g40982577938455_cont_8to1_b_1362_29_alg».proof.Proof.Bits.RowFill

namespace Cert.Kernel.RowFill

open Cert.Kernel
open Idealize.ShloMosaic
open ValueIdx

variable {sig : RefSig} {κ κ' : Kind} {sp sp' : Space} {Val : EltTy → Type}

/-- Slot `buf` of the row scratch holds the 32 rows `src`. -/
def AOK (VA : View sig κ sp S2x32x512 .f32) (buf : Fin 2) (A : VA.ty.Contents Val) (src : Fin 32 → Fin 512 → Val .f32) : Prop :=
  ∀ (r : Fin 32) (c : Fin 512), VA.read Val A (ix3 buf r c) = src r c

/-- Lanes `[lo, lo + 128)` of slot `buf` of the staging scratch hold the rows `src`, group `s` holding columns `[128 s, 128 s + 128)`. -/
def HHalf (VB : View sig κ' sp' S2x32x4x256 .f32) (buf : Fin 2) (lo : ℕ) (h : VB.ty.Contents Val) (src : Fin 32 → Fin 512 → Val .f32) : Prop :=
  ∀ (r : Fin 32) (s : Fin 4) (j : Fin 256), lo ≤ j.val → j.val < lo + 128 →
    VB.read Val h (ix4 buf r s j) = src r ⟨(128 * s.val + (j.val - lo)) % 512, Nat.mod_lt _ (by decide)⟩

/-- A finished fill from slot `buf` of the row scratch leaves the source rows in the half it wrote. -/
theorem HHalf.of_fill (VA : View sig κ sp S2x32x512 .f32) (VB : View sig κ' sp' S2x32x4x256 .f32) (buf : Fin 2) (xoff : ℕ)
    (A : VA.ty.Contents Val) (g0 h : VB.ty.Contents Val) (src : Fin 32 → Fin 512 → Val .f32)
    (hF : Filled VB buf.val xoff 32 (srcG VA A buf xoff) g0 h) (hA : AOK VA buf A src) : HHalf VB buf xoff h src := by
  intro r s j hlo hhi
  rw [hF (ix4 buf r s j), if_pos ⟨rfl, r.isLt, hlo, hhi⟩]
  exact hA r _

/-- A finished fill leaves every other half as it was. -/
theorem HHalf.of_fill_other (VB : View sig κ' sp' S2x32x4x256 .f32) (buf : ℕ) (xoff : ℕ) (G : S2x32x4x256.Idx → Val .f32)
    (g0 h : VB.ty.Contents Val) (buf' : Fin 2) (lo : ℕ) (src : Fin 32 → Fin 512 → Val .f32)
    (hF : Filled VB buf xoff 32 G g0 h) (hE : HHalf VB buf' lo g0 src)
    (hne : buf'.val ≠ buf ∨ lo + 128 ≤ xoff ∨ xoff + 128 ≤ lo) : HHalf VB buf' lo h src := by
  intro r s j hlo hhi
  rw [hF (ix4 buf' r s j), if_neg]
  · exact hE r s j hlo hhi
  · intro hc
    have h0 : ((ix4 buf' r s j : S2x32x4x256.Idx) 0).val = buf'.val := rfl
    have h3 : ((ix4 buf' r s j : S2x32x4x256.Idx) 3).val = j.val := rfl
    rw [h0, h3] at hc
    omega

/-- The slot-to-slot copy of the table half. -/
theorem HHalf.of_copy (VB : View sig κ' sp' S2x32x4x256 .f32) (g g0 h : VB.ty.Contents Val) (src : Fin 32 → Fin 512 → Val .f32)
    (hF : Filled VB 1 128 32 (srcG' VB g 0) g0 h) (hE : HHalf VB 0 128 g src) : HHalf VB 1 128 h src := by
  intro r s j hlo hhi
  rw [hF (ix4 1 r s j), if_pos ⟨rfl, r.isLt, hlo, hhi⟩]
  exact hE r s j hlo hhi

end Cert.Kernel.RowFill
-- ==== Proof.Bits.TileSetup.lean ====
/-
  Shared set-up for the tile body's proof: the tile's own semaphores and scratch arrays taken out of what a vector
  subcore is handed, each scratch array held as its two slots, the blocks of the result as the copies address them,
  and the fill loops' invariants.
-/
import proofs.«206219_g40982577938455_cont_8to1_b_1362_29_alg».proof.Proof.Bits.TileRes
import proofs.«206219_g40982577938455_cont_8to1_b_1362_29_alg».proof.Proof.Bits.RowFill
import proofs.«206219_g40982577938455_cont_8to1_b_1362_29_alg».proof.Proof.Gen.Kernel.Skeleton
import proofs.«206219_g40982577938455_cont_8to1_b_1362_29_alg».proof.Proof.Bits.TileVals

noncomputable section

namespace Cert.Kernel.TileBody

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (d : Dev nD) (L : grid2.Coords)

abbrev csem (k : Nat) (hk : k < 14 := by decide) : DmaSem sig := ⟨k, hk⟩
abbrev dcell (d : Dev nD) (L : grid2.Coords) (k : Fin 5) : GSem nD τ sig := (thr d L, .dma (csem (9 + k.val) (by have := k.isLt; omega)))

variable [FloatOps F]

omit [FloatOps F] in
theorem dcell_mem (k : Fin 5) : dcell d L k ∈ ownCells (thr d L) :=
  mem_ownCells.mpr ⟨rfl, (show ∀ s : DmaSem sig, (SemLoc.dma s : SemLoc sig).isScoped .scVector = true by decide) _⟩

abbrev cells0 (d : Dev nD) (L : grid2.Coords) : sProp 𝕄 :=
  iprop(semVal (thr d L, SemLoc.dma (csem 9)) 0 ∗ semVal (thr d L, SemLoc.dma (csem 10)) 0 ∗ semVal (thr d L, SemLoc.dma (csem 11)) 0
    ∗ semVal (thr d L, SemLoc.dma (csem 12)) 0 ∗ semVal (thr d L, SemLoc.dma (csem 13)) 0)

omit [FloatOps F] in
theorem ownSems0_V :
    (ownSems0 (thr d L) : sProp 𝕄)
      = iprop(cells0 (F := F) d L
          ∗ bigSep ((ownCells (thr d L)) \ Finset.univ.image (dcell d L)) fun g => semVal g 0) := by
  unfold SparseCore.Cfg.ownSems0
  rw [SparseCore.bigSep_sdiff_split' (t := Finset.univ.image (dcell d L))
      (Finset.image_subset_iff.mpr fun k _ => dcell_mem d L k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

omit [FloatOps F] in
theorem ownBufs_V :
    (ownBufs (thr d L) : sProp 𝕄)
      = iprop((∃ f, (thr d L).loc cc2_scratch0 ↦{fullShare} f) ∗ (∃ f, (thr d L).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

omit [FloatOps F] in
theorem pts_x (q : PosShare TreeShare) (f : Buf (Elt F) (xLoc d)) :
    ((xW).view.loc (thr d L) ↦{q} f : sProp 𝕄) = xLoc d ↦{q} f := by
  simp only [Memref.view_whole, View.set_whole]
omit [FloatOps F] in
theorem pts_e (q : PosShare TreeShare) (f : Buf (Elt F) (eLoc d)) :
    ((eW).view.loc (thr d L) ↦{q} f : sProp 𝕄) = eLoc d ↦{q} f := by
  simp only [Memref.view_whole, View.set_whole]
omit [FloatOps F] in
theorem pts_a (f : Buf (Elt F) ((thr d L).loc cc2_scratch0)) :
    ((sA).view.loc (thr d L) ↦{fullShare} f : sProp 𝕄) = (thr d L).loc cc2_scratch0 ↦{fullShare} f := rfl
omit [FloatOps F] in
theorem pts_b (f : Buf (Elt F) ((thr d L).loc cc2_scratch1)) :
    ((sB).view.loc (thr d L) ↦{fullShare} f : sProp 𝕄) = (thr d L).loc cc2_scratch1 ↦{fullShare} f := rfl
omit [FloatOps F] in
theorem pts_o0 (f : Buf (Elt F) (oLoc d)) :
    ((oSl0 L).view.loc (thr d L) ↦[(oSl0 L).view.set]{fullShare} f : sProp 𝕄) = oLoc d ↦[(oSl0 L).view.set]{fullShare} f := rfl
omit [FloatOps F] in
theorem pts_o1 (f : Buf (Elt F) (oLoc d)) :
    ((oSl1 L).view.loc (thr d L) ↦[(oSl1 L).view.set]{fullShare} f : sProp 𝕄) = oLoc d ↦[(oSl1 L).view.set]{fullShare} f := rfl
omit [FloatOps F] in
theorem pts_o2 (f : Buf (Elt F) (oLoc d)) :
    ((oSl2 L).view.loc (thr d L) ↦[(oSl2 L).view.set]{fullShare} f : sProp 𝕄) = oLoc d ↦[(oSl2 L).view.set]{fullShare} f := rfl
omit [FloatOps F] in
theorem pts_o3 (f : Buf (Elt F) (oLoc d)) :
    ((oSl3 L).view.loc (thr d L) ↦[(oSl3 L).view.set]{fullShare} f : sProp 𝕄) = oLoc d ↦[(oSl3 L).view.set]{fullShare} f := rfl
omit [FloatOps F] in
theorem pts_o4 (f : Buf (Elt F) (oLoc d)) :
    ((oSl4 L).view.loc (thr d L) ↦[(oSl4 L).view.set]{fullShare} f : sProp 𝕄) = oLoc d ↦[(oSl4 L).view.set]{fullShare} f := rfl
omit [FloatOps F] in
theorem pts_o5 (f : Buf (Elt F) (oLoc d)) :
    ((oSl5 L).view.loc (thr d L) ↦[(oSl5 L).view.set]{fullShare} f : sProp 𝕄) = oLoc d ↦[(oSl5 L).view.set]{fullShare} f := rfl
omit [FloatOps F] in
theorem pts_o6 (f : Buf (Elt F) (oLoc d)) :
    ((oSl6 L).view.loc (thr d L) ↦[(oSl6 L).view.set]{fullShare} f : sProp 𝕄) = oLoc d ↦[(oSl6 L).view.set]{fullShare} f := rfl
omit [FloatOps F] in
theorem pts_o7 (f : Buf (Elt F) (oLoc d)) :
    ((oSl7 L).view.loc (thr d L) ↦[(oSl7 L).view.set]{fullShare} f : sProp 𝕄) = oLoc d ↦[(oSl7 L).view.set]{fullShare} f := rfl
omit [FloatOps F] in
theorem pts_o8 (f : Buf (Elt F) (oLoc d)) :
    ((oSl8 L).view.loc (thr d L) ↦[(oSl8 L).view.set]{fullShare} f : sProp 𝕄) = oLoc d ↦[(oSl8 L).view.set]{fullShare} f := rfl
omit [FloatOps F] in
theorem pts_o9 (f : Buf (Elt F) (oLoc d)) :
    ((oSl9 L).view.loc (thr d L) ↦[(oSl9 L).view.set]{fullShare} f : sProp 𝕄) = oLoc d ↦[(oSl9 L).view.set]{fullShare} f := rfl
omit [FloatOps F] in
theorem pts_o10 (f : Buf (Elt F) (oLoc d)) :
    ((oSl10 L).view.loc (thr d L) ↦[(oSl10 L).view.set]{fullShare} f : sProp 𝕄) = oLoc d ↦[(oSl10 L).view.set]{fullShare} f := rfl
omit [FloatOps F] in
theorem pts_o11 (f : Buf (Elt F) (oLoc d)) :
    ((oSl11 L).view.loc (thr d L) ↦[(oSl11 L).view.set]{fullShare} f : sProp 𝕄) = oLoc d ↦[(oSl11 L).view.set]{fullShare} f := rfl
omit [FloatOps F] in
theorem pts_o12 (f : Buf (Elt F) (oLoc d)) :
    ((oSl12 L).view.loc (thr d L) ↦[(oSl12 L).view.set]{fullShare} f : sProp 𝕄) = oLoc d ↦[(oSl12 L).view.set]{fullShare} f := rfl
omit [FloatOps F] in
theorem pts_o13 (f : Buf (Elt F) (oLoc d)) :
    ((oSl13 L).view.loc (thr d L) ↦[(oSl13 L).view.set]{fullShare} f : sProp 𝕄) = oLoc d ↦[(oSl13 L).view.set]{fullShare} f := rfl
omit [FloatOps F] in
theorem pts_o14 (f : Buf (Elt F) (oLoc d)) :
    ((oSl14 L).view.loc (thr d L) ↦[(oSl14 L).view.set]{fullShare} f : sProp 𝕄) = oLoc d ↦[(oSl14 L).view.set]{fullShare} f := rfl
omit [FloatOps F] in
theorem pts_o15 (f : Buf (Elt F) (oLoc d)) :
    ((oSl15 L).view.loc (thr d L) ↦[(oSl15 L).view.set]{fullShare} f : sProp 𝕄) = oLoc d ↦[(oSl15 L).view.set]{fullShare} f := rfl

/-! ### The two slots of each scratch array, held apart -/

theorem hdivA : 2 ∣ S2x32x512.size 0 := ⟨1, rfl⟩
theorem hdivB : 2 ∣ S2x32x4x256.size 0 := ⟨1, rfl⟩
abbrev slotA (i : Fin 2) : Rect S2x32x512 := Rect.part (s := S2x32x512) (a₀ := 0) hdivA i
abbrev slotB (i : Fin 2) : Rect S2x32x4x256 := Rect.part (s := S2x32x4x256) (a₀ := 0) hdivB i
abbrev slotSetA (i : Fin 2) : Finset S2x32x512.Idx := ((sA : Memref sig .scVector .vmem S2x32x512 .f32).view.slice (slotA i)).set
abbrev slotSetB (i : Fin 2) : Finset S2x32x4x256.Idx := ((sB : Memref sig .scVector .vmem S2x32x4x256 .f32).view.slice (slotB i)).set

/-- Slot 0 / slot 1 of the row scratch and of the staging scratch, as the copies name them. -/
abbrev aSl0 : Memref sig .scVector .vmem S32x512 .f32 := ((sA : Memref sig .scVector .vmem S2x32x512 .f32).slice (Rect.unit (s := S2x32x512) ![0, 0, 0] S1x32x512.size inb_S2x32x512_S1x32x512_0_0_0) (fun _ => rfl)).squeeze S32x512 squeezes_S1x32x512_S32x512
abbrev aSl1 : Memref sig .scVector .vmem S32x512 .f32 := ((sA : Memref sig .scVector .vmem S2x32x512 .f32).slice (Rect.unit (s := S2x32x512) ![1, 0, 0] S1x32x512.size inb_S2x32x512_S1x32x512_1_0_0) (fun _ => rfl)).squeeze S32x512 squeezes_S1x32x512_S32x512
abbrev bSl0 : Memref sig .scVector .vmem S32x4x256 .f32 := ((sB : Memref sig .scVector .vmem S2x32x4x256 .f32).slice (Rect.unit (s := S2x32x4x256) ![0, 0, 0, 0] S1x32x4x256.size inb_S2x32x4x256_S1x32x4x256_0_0_0_0) (fun _ => rfl)).squeeze S32x4x256 squeezes_S1x32x4x256_S32x4x256
abbrev bSl1 : Memref sig .scVector .vmem S32x4x256 .f32 := ((sB : Memref sig .scVector .vmem S2x32x4x256 .f32).slice (Rect.unit (s := S2x32x4x256) ![1, 0, 0, 0] S1x32x4x256.size inb_S2x32x4x256_S1x32x4x256_1_0_0_0) (fun _ => rfl)).squeeze S32x4x256 squeezes_S1x32x4x256_S32x4x256

theorem unitA0_eq : Rect.unit (s := S2x32x512) ![0, 0, 0] S1x32x512.size inb_S2x32x512_S1x32x512_0_0_0 = slotA 0 := by
  unfold slotA Rect.part Rect.block
  congr 1 <;> funext a <;> fin_cases a <;> simp [Shape.partIx, Shape.partSize]
theorem unitA1_eq : Rect.unit (s := S2x32x512) ![1, 0, 0] S1x32x512.size inb_S2x32x512_S1x32x512_1_0_0 = slotA 1 := by
  unfold slotA Rect.part Rect.block
  congr 1 <;> funext a <;> fin_cases a <;> simp [Shape.partIx, Shape.partSize]
theorem unitB0_eq : Rect.unit (s := S2x32x4x256) ![0, 0, 0, 0] S1x32x4x256.size inb_S2x32x4x256_S1x32x4x256_0_0_0_0 = slotB 0 := by
  unfold slotB Rect.part Rect.block
  congr 1 <;> funext a <;> fin_cases a <;> simp [Shape.partIx, Shape.partSize]
theorem unitB1_eq : Rect.unit (s := S2x32x4x256) ![1, 0, 0, 0] S1x32x4x256.size inb_S2x32x4x256_S1x32x4x256_1_0_0_0 = slotB 1 := by
  unfold slotB Rect.part Rect.block
  congr 1 <;> funext a <;> fin_cases a <;> simp [Shape.partIx, Shape.partSize]

theorem set_slice_congrA {r r' : Rect S2x32x512} (h : r = r') :
    ((sA : Memref sig .scVector .vmem S2x32x512 .f32).view.slice r).set = ((sA : Memref sig .scVector .vmem S2x32x512 .f32).view.slice r').set := by subst h; rfl
theorem set_slice_congrB {r r' : Rect S2x32x4x256} (h : r = r') :
    ((sB : Memref sig .scVector .vmem S2x32x4x256 .f32).view.slice r).set = ((sB : Memref sig .scVector .vmem S2x32x4x256 .f32).view.slice r').set := by subst h; rfl
theorem set_aSl0 : aSl0.view.set = slotSetA 0 := by
  show (((sA : Memref sig .scVector .vmem S2x32x512 .f32).view.slice (Rect.unit (s := S2x32x512) ![0, 0, 0] S1x32x512.size inb_S2x32x512_S1x32x512_0_0_0)).reshape S32x512 squeezes_S1x32x512_S32x512.numel_eq).set = _
  rw [View.set_reshape]; exact set_slice_congrA unitA0_eq
theorem set_aSl1 : aSl1.view.set = slotSetA 1 := by
  show (((sA : Memref sig .scVector .vmem S2x32x512 .f32).view.slice (Rect.unit (s := S2x32x512) ![1, 0, 0] S1x32x512.size inb_S2x32x512_S1x32x512_1_0_0)).reshape S32x512 squeezes_S1x32x512_S32x512.numel_eq).set = _
  rw [View.set_reshape]; exact set_slice_congrA unitA1_eq
theorem set_bSl0 : bSl0.view.set = slotSetB 0 := by
  show (((sB : Memref sig .scVector .vmem S2x32x4x256 .f32).view.slice (Rect.unit (s := S2x32x4x256) ![0, 0, 0, 0] S1x32x4x256.size inb_S2x32x4x256_S1x32x4x256_0_0_0_0)).reshape S32x4x256 squeezes_S1x32x4x256_S32x4x256.numel_eq).set = _
  rw [View.set_reshape]; exact set_slice_congrB unitB0_eq
theorem set_bSl1 : bSl1.view.set = slotSetB 1 := by
  show (((sB : Memref sig .scVector .vmem S2x32x4x256 .f32).view.slice (Rect.unit (s := S2x32x4x256) ![1, 0, 0, 0] S1x32x4x256.size inb_S2x32x4x256_S1x32x4x256_1_0_0_0)).reshape S32x4x256 squeezes_S1x32x4x256_S32x4x256.numel_eq).set = _
  rw [View.set_reshape]; exact set_slice_congrB unitB1_eq

theorem slotSetA_eq (i : Fin 2) : slotSetA i = (slotA i).set := by
  show ((View.whole (cc2_scratch0 : Ref sig .scVector)).slice (slotA i)).set = _
  rw [View.set_slice]; exact Finset.map_refl
theorem slotSetB_eq (i : Fin 2) : slotSetB i = (slotB i).set := by
  show ((View.whole (cc2_scratch1 : Ref sig .scVector)).slice (slotB i)).set = _
  rw [View.set_slice]; exact Finset.map_refl

omit [FloatOps F] in
/-- The row scratch whole is its two slots. -/
theorem ptsA_slots (f : Buf (Elt F) ((thr d L).loc cc2_scratch0)) :
    ((thr d L).loc cc2_scratch0 ↦{fullShare} f : sProp 𝕄)
      = iprop(((aSl0).view.loc (thr d L) ↦[(aSl0).view.set]{fullShare} f) ∗ ((aSl1).view.loc (thr d L) ↦[(aSl1).view.set]{fullShare} f)) := by
  rw [set_aSl0, set_aSl1]
  have h := pointsTo_biUnion (Ix := HIx 1) (Name := ℕ) (U := UU) (Lvl := ℕ) (Val := Elt F) Finset.univ (ℓ := (thr d L).loc cc2_scratch0) (q := fullShare) (f := f) slotSetA
    (fun i _ j _ h => by rw [slotSetA_eq, slotSetA_eq]; exact Rect.part_disjoint hdivA h)
  rw [show (Finset.univ : Finset (Fin 2)).biUnion slotSetA = Finset.univ from
    (Finset.biUnion_congr rfl fun i _ => slotSetA_eq i).trans (Rect.biUnion_part hdivA)] at h
  rw [show (Finset.univ : Finset (Fin 2)) = {0, 1} by decide, SparseCore.bigSep_insert' (by decide), bigSep_singleton] at h
  exact h

omit [FloatOps F] in
/-- The staging scratch whole is its two slots. -/
theorem ptsB_slots (f : Buf (Elt F) ((thr d L).loc cc2_scratch1)) :
    ((thr d L).loc cc2_scratch1 ↦{fullShare} f : sProp 𝕄)
      = iprop(((bSl0).view.loc (thr d L) ↦[(bSl0).view.set]{fullShare} f) ∗ ((bSl1).view.loc (thr d L) ↦[(bSl1).view.set]{fullShare} f)) := by
  rw [set_bSl0, set_bSl1]
  have h := pointsTo_biUnion (Ix := HIx 1) (Name := ℕ) (U := UU) (Lvl := ℕ) (Val := Elt F) Finset.univ (ℓ := (thr d L).loc cc2_scratch1) (q := fullShare) (f := f) slotSetB
    (fun i _ j _ h => by rw [slotSetB_eq, slotSetB_eq]; exact Rect.part_disjoint hdivB h)
  rw [show (Finset.univ : Finset (Fin 2)).biUnion slotSetB = Finset.univ from
    (Finset.biUnion_congr rfl fun i _ => slotSetB_eq i).trans (Rect.biUnion_part hdivB)] at h
  rw [show (Finset.univ : Finset (Fin 2)) = {0, 1} by decide, SparseCore.bigSep_insert' (by decide), bigSep_singleton] at h
  exact h

omit [FloatOps F] in
/-- The two slots of the row scratch, at any contents, are the array at some contents. -/
theorem ptsA_join :
    iprop((∃ f, (aSl0).view.loc (thr d L) ↦[(aSl0).view.set]{fullShare} f) ∗ (∃ f, (aSl1).view.loc (thr d L) ↦[(aSl1).view.set]{fullShare} f))
      ⊢ (iprop(∃ f, (thr d L).loc cc2_scratch0 ↦{fullShare} f) : sProp 𝕄) := by
  rw [set_aSl0, set_aSl1]
  iintro ⟨⟨%f0, H0⟩, ⟨%f1, H1⟩⟩
  ihave H := (pointsTo_biUnion_join (Ix := HIx 1) (Name := ℕ) (U := UU) (Lvl := ℕ) (Val := Elt F) (ℓ := (thr d L).loc cc2_scratch0) (q := fullShare)
      Finset.univ slotSetA (fun i : Fin 2 => if i = 0 then f0 else f1) f0
      (fun i _ j _ h => by rw [slotSetA_eq, slotSetA_eq]; exact Rect.part_disjoint hdivA h)) $$ [H0 H1]
  · rw [show (Finset.univ : Finset (Fin 2)) = {0, 1} by decide, SparseCore.bigSep_insert' (by decide), bigSep_singleton]
    isplitl [H0]
    · iexact H0
    · iexact H1
  icases H with ⟨%g, -, Hg⟩
  rw [show (Finset.univ : Finset (Fin 2)).biUnion slotSetA = Finset.univ from
    (Finset.biUnion_congr rfl fun i _ => slotSetA_eq i).trans (Rect.biUnion_part hdivA)]
  iexists g; iexact Hg

omit [FloatOps F] in
/-- The same for the staging scratch. -/
theorem ptsB_join :
    iprop((∃ f, (bSl0).view.loc (thr d L) ↦[(bSl0).view.set]{fullShare} f) ∗ (∃ f, (bSl1).view.loc (thr d L) ↦[(bSl1).view.set]{fullShare} f))
      ⊢ (iprop(∃ f, (thr d L).loc cc2_scratch1 ↦{fullShare} f) : sProp 𝕄) := by
  rw [set_bSl0, set_bSl1]
  iintro ⟨⟨%f0, H0⟩, ⟨%f1, H1⟩⟩
  ihave H := (pointsTo_biUnion_join (Ix := HIx 1) (Name := ℕ) (U := UU) (Lvl := ℕ) (Val := Elt F) (ℓ := (thr d L).loc cc2_scratch1) (q := fullShare)
      Finset.univ slotSetB (fun i : Fin 2 => if i = 0 then f0 else f1) f0
      (fun i _ j _ h => by rw [slotSetB_eq, slotSetB_eq]; exact Rect.part_disjoint hdivB h)) $$ [H0 H1]
  · rw [show (Finset.univ : Finset (Fin 2)) = {0, 1} by decide, SparseCore.bigSep_insert' (by decide), bigSep_singleton]
    isplitl [H0]
    · iexact H0
    · iexact H1
  icases H with ⟨%g, -, Hg⟩
  rw [show (Finset.univ : Finset (Fin 2)).biUnion slotSetB = Finset.univ from
    (Finset.biUnion_congr rfl fun i _ => slotSetB_eq i).trans (Rect.biUnion_part hdivB)]
  iexists g; iexact Hg

/-- The waits a run adds are all at the local index. -/
theorem waits_insert {W W' : Waits sig (HIx 1)} {a : SemLoc sig × HIx 1} (ha : a.2 = none)
    (h : ∀ p ∈ W', p ∈ W ∨ p.2 = none) : ∀ p ∈ insert a W', p ∈ W ∨ p.2 = none := by
  intro p hp
  rcases Finset.mem_insert.mp hp with hp | hp
  · exact .inr (hp ▸ ha)
  · exact h p hp

/-- A fill loop's invariant before trip `k` (row scratch slot 0 → staging slot 0): the source slot unchanged; the
    destination slot's rows below `k` filled from the source on lanes `[xoff, xoff + 128)`, everything else as before the loop. -/
def invFill0 (xoff : ℕ) (A : Buf (Elt F) ((thr d L).loc cc2_scratch0)) (g0 : Buf (Elt F) ((thr d L).loc cc2_scratch1)) (k : ℕ) (_ : PUnit) : sProp 𝕄 :=
  iprop(((aSl0).view.loc (thr d L) ↦[(aSl0).view.set]{fullShare} A)
    ∗ ∃ h : Buf (Elt F) ((thr d L).loc cc2_scratch1), ((bSl0).view.loc (thr d L) ↦[(bSl0).view.set]{fullShare} h)
      ∗ ⌜RowFill.Filled (Val := Elt F) (sB : Memref sig .scVector .vmem S2x32x4x256 .f32).view 0 xoff k
          (RowFill.srcG (Val := Elt F) (sA : Memref sig .scVector .vmem S2x32x512 .f32).view A 0 xoff) g0 h⌝)

/-- The same for slot 1 of both. -/
def invFill1 (xoff : ℕ) (A : Buf (Elt F) ((thr d L).loc cc2_scratch0)) (g0 : Buf (Elt F) ((thr d L).loc cc2_scratch1)) (k : ℕ) (_ : PUnit) : sProp 𝕄 :=
  iprop(((aSl1).view.loc (thr d L) ↦[(aSl1).view.set]{fullShare} A)
    ∗ ∃ h : Buf (Elt F) ((thr d L).loc cc2_scratch1), ((bSl1).view.loc (thr d L) ↦[(bSl1).view.set]{fullShare} h)
      ∗ ⌜RowFill.Filled (Val := Elt F) (sB : Memref sig .scVector .vmem S2x32x4x256 .f32).view 1 xoff k
          (RowFill.srcG (Val := Elt F) (sA : Memref sig .scVector .vmem S2x32x512 .f32).view A 1 xoff) g0 h⌝)

/-- The embedding half copied from staging slot 0 to staging slot 1. -/
def invCopy (g : Buf (Elt F) ((thr d L).loc cc2_scratch1)) (g0 : Buf (Elt F) ((thr d L).loc cc2_scratch1)) (k : ℕ) (_ : PUnit) : sProp 𝕄 :=
  iprop(((bSl0).view.loc (thr d L) ↦[(bSl0).view.set]{fullShare} g)
    ∗ ∃ h : Buf (Elt F) ((thr d L).loc cc2_scratch1), ((bSl1).view.loc (thr d L) ↦[(bSl1).view.set]{fullShare} h)
      ∗ ⌜RowFill.Filled (Val := Elt F) (sB : Memref sig .scVector .vmem S2x32x4x256 .f32).view 1 128 k
          (RowFill.srcG' (Val := Elt F) (sB : Memref sig .scVector .vmem S2x32x4x256 .f32).view g 0) g0 h⌝)

omit [FloatOps F] in
/-- A buffer's contents made a variable, with a fact about them. -/
theorem pts_gen {ℓ : Loc nD τ sig} {S : Finset (Idx ℓ)} {q : PosShare TreeShare} (P : Buf (Elt F) ℓ → Prop) (f : Buf (Elt F) ℓ) (hP : P f) :
    (ℓ ↦[S]{q} f : sProp 𝕄) ⊢ iprop(∃ A, (ℓ ↦[S]{q} A) ∗ ⌜P A⌝) := by
  iintro H
  iexists f
  isplitl [H]; · iexact H
  ipureintro; exact hP

end Cert.Kernel.TileBody
-- ==== Proof.Bits.TileRows.lean ====
/-
  The 32 source rows a tile works on: rows n₀ … n₀ + 31 of the embedding table, and of each batch of x,
  n₀ = 64 · (vector subcore) + 32 · (SparseCore).
-/
import proofs.«206219_g40982577938455_cont_8to1_b_1362_29_alg».proof.Proof.Bits.TileSetup

noncomputable section

namespace Cert.Kernel.TileBody

open Cert.Kernel Cert.Kernel.Gen Cert.Kernel.Setup
open Idealize.ShloMosaic
open Idealize.ShloMosaic.SparseCore (S V T)

variable {F : FTy → Type}
variable (m : (ℓ : Loc nD τ sig) → Buf (Elt F) ℓ)
variable (d : Dev nD) (L : grid2.Coords)

/-- The tile's first row. -/
abbrev n0 (L : grid2.Coords) : ℕ := 64 * (L 1).val + 32 * (L 0).val

theorem n0_le (L : grid2.Coords) (r : Fin 32) : n0 L + r.val < 1024 := by
  have h0 : (L 0).val < 2 := (L 0).isLt
  have h1 : (L 1).val < 16 := (L 1).isLt
  have := r.isLt
  unfold n0; omega

/-- Row `r` of the tile's block of the embedding table. -/
def eRows : Fin 32 → Fin 512 → Elt F .f32 :=
  fun r c => (eW : Memref sig .scVector .hbm S1024x512 .f32).view.read (Elt F) (m (eLoc d)) (ValueIdx.ix2 ⟨n0 L + r.val, n0_le L r⟩ c)

/-- Row `r` of the tile's block of batch `b` of x. -/
def xRows (b : Fin 16) : Fin 32 → Fin 512 → Elt F .f32 :=
  fun r c => (xW : Memref sig .scVector .hbm S16x1024x512 .f32).view.read (Elt F) (m (xLoc d)) (ValueIdx.ix3 b ⟨n0 L + r.val, n0_le L r⟩ c)

/-! ### The copies' ends, as the kernel slices them -/

/-- The tile's 32 rows of the embedding table. -/
abbrev eS (L : grid2.Coords) : Memref sig .scVector .hbm S32x512 .f32 :=
  (eW : Memref sig .scVector .hbm S1024x512 .f32).slice (Rect.unit (s := S1024x512) (k2_off1 L) S32x512.size (k2_off1_inb L)) (fun _ => rfl)

/-- 32 rows of one batch of x, at offsets `off`. -/
abbrev xS (off : Fin 3 → ℕ) (inb : ∀ a, off a + S1x32x512.size a ≤ S16x1024x512.size a) : Memref sig .scVector .hbm S32x512 .f32 :=
  ((xW : Memref sig .scVector .hbm S16x1024x512 .f32).slice (Rect.unit (s := S16x1024x512) off S1x32x512.size inb) (fun _ => rfl)).squeeze S32x512 squeezes_S1x32x512_S32x512

/-- A block of the result, at offsets `off`. -/
abbrev oS (off : Fin 4 → ℕ) (inb : ∀ a, off a + S1x32x4x256.size a ≤ S16x1024x4x256.size a) : Memref sig .scVector .hbm S32x4x256 .f32 :=
  ((oW : Memref sig .scVector .hbm S16x1024x4x256 .f32).slice (Rect.unit (s := S16x1024x4x256) off S1x32x4x256.size inb) (fun _ => rfl)).squeeze S32x4x256 squeezes_S1x32x4x256_S32x4x256

/-! ### What a landed copy leaves (the statements the value lemmas prove) -/

/-- After the table's rows land in slot 0 of the row scratch, that slot holds them. -/
def LandsE : Prop :=
  ∀ (base : BufTy.Contents (Elt F) aSl0.view.ty) (rest : List (View.Piece (Elt F) S32x512 .f32)),
    RowFill.AOK (Val := Elt F) (sA : Memref sig .scVector .vmem S2x32x512 .f32).view 0
      (aSl0.view.writes (Elt F) base (⟨Rect.whole S32x512, ReadAs.same.apply (View.read (Elt F) (eS L).view (m (eLoc d)))⟩ :: rest))
      (eRows m d L)

/-- After batch `b`'s rows land in slot 0 of the row scratch, that slot holds them. -/
def LandsX0 : Prop :=
  ∀ (b : Fin 16) (off : Fin 3 → ℕ) (inb : ∀ a, off a + S1x32x512.size a ≤ S16x1024x512.size a) (_ : off = ![b.val, n0 L, 0])
    (base : BufTy.Contents (Elt F) aSl0.view.ty) (rest : List (View.Piece (Elt F) S32x512 .f32)),
    RowFill.AOK (Val := Elt F) (sA : Memref sig .scVector .vmem S2x32x512 .f32).view 0
      (aSl0.view.writes (Elt F) base (⟨Rect.whole S32x512, ReadAs.same.apply (View.read (Elt F) (xS off inb).view (m (xLoc d)))⟩ :: rest))
      (xRows m d L b)

/-- The same for slot 1. -/
def LandsX1 : Prop :=
  ∀ (b : Fin 16) (off : Fin 3 → ℕ) (inb : ∀ a, off a + S1x32x512.size a ≤ S16x1024x512.size a) (_ : off = ![b.val, n0 L, 0])
    (base : BufTy.Contents (Elt F) aSl1.view.ty) (rest : List (View.Piece (Elt F) S32x512 .f32)),
    RowFill.AOK (Val := Elt F) (sA : Memref sig .scVector .vmem S2x32x512 .f32).view 1
      (aSl1.view.writes (Elt F) base (⟨Rect.whole S32x512, ReadAs.same.apply (View.read (Elt F) (xS off inb).view (m (xLoc d)))⟩ :: rest))
      (xRows m d L b)

/-- Slot 0 of the staging scratch, holding batch `b`'s x rows and the table's rows, copied out whole into the block of
    batch `b`: the block holds the second result's value on its elements. -/
def OutOk0 : Prop :=
  ∀ (b : Fin 16) (off : Fin 4 → ℕ) (inb : ∀ a, off a + S1x32x4x256.size a ≤ S16x1024x4x256.size a) (_ : off = ![b.val, n0 L, 0, 0])
    (H : Buf (Elt F) ((thr d L).loc cc2_scratch1))
    (_ : RowFill.HHalf (Val := Elt F) (sB : Memref sig .scVector .vmem S2x32x4x256 .f32).view 0 0 H (xRows m d L b))
    (_ : RowFill.HHalf (Val := Elt F) (sB : Memref sig .scVector .vmem S2x32x4x256 .f32).view 0 128 H (eRows m d L))
    (base : BufTy.Contents (Elt F) (oS off inb).view.ty),
    ∀ i ∈ (oS off inb).view.set,
      ((oS off inb).view.writes (Elt F) base [⟨Rect.whole S32x4x256, ReadAs.same.apply (View.read (Elt F) bSl0.view H)⟩]) i = out2Buf m d i

/-- The same for slot 1. -/
def OutOk1 : Prop :=
  ∀ (b : Fin 16) (off : Fin 4 → ℕ) (inb : ∀ a, off a + S1x32x4x256.size a ≤ S16x1024x4x256.size a) (_ : off = ![b.val, n0 L, 0, 0])
    (H : Buf (Elt F) ((thr d L).loc cc2_scratch1))
    (_ : RowFill.HHalf (Val := Elt F) (sB : Memref sig .scVector .vmem S2x32x4x256 .f32).view 1 0 H (xRows m d L b))
    (_ : RowFill.HHalf (Val := Elt F) (sB : Memref sig .scVector .vmem S2x32x4x256 .f32).view 1 128 H (eRows m d L))
    (base : BufTy.Contents (Elt F) (oS off inb).view.ty),
    ∀ i ∈ (oS off inb).view.set,
      ((oS off inb).view.writes (Elt F) base [⟨Rect.whole S32x4x256, ReadAs.same.apply (View.read (Elt F) bSl1.view H)⟩]) i = out2Buf m d i

end Cert.Kernel.TileBody
-- ==== Proof.Bits.TileLoop01.lean ====
/-
  Loop 1 of the tile body: one trip fills one row of a staging slot, sixteen lanes at a time, and leaves the
  loop's invariant at the next row.
-/
import proofs.«206219_g40982577938455_cont_8to1_b_1362_29_alg».proof.Proof.Bits.TileSetup

noncomputable section

namespace Cert.Kernel

open Idealize.ShloMosaic Idealize.SL.Sem
open Cert.Kernel.Gen

variable {F : FTy → Type} [FloatOps F]

/-- The region of the loop, as the kernel's text has it. -/
noncomputable def region01 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_1 : BitVec 32) (c1_i32 : BitVec 32) (k2_t1 : Fin k2_t1_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part1 i arg2 harg2 arg3 harg3 arg4 harg4 arg5 harg5 arg6 harg6 arg7 arg8 v661_r0 c0_i32_1 c1_i32 k2_t1
  let ⟨v734, c0_i32_802⟩ : Σ' (v734 : FVec F S16 .f32), BitVec 32 ← k2_part2 i arg2 harg2 arg3 harg3 arg4 harg4 arg5 harg5 arg6 harg6 arg7 arg8 v661_r0 k2_t1 arg9 v694
  k2_part3 i arg2 harg2 arg3 harg3 arg4 harg4 arg5 harg5 arg6 harg6 arg7 arg8 v661_r0 k2_t1 arg9 v734 c0_i32_802
  let v810 : FVec F S1x1x1x16 .f32 ← k2_part4 i arg2 harg2 arg3 harg3 arg4 harg4 arg5 harg5 arg6 harg6 arg7 arg8 v661_r0 k2_t1 arg9
  let v844 : FVec F S16 .f32 ← k2_part5 i arg2 harg2 arg3 harg3 arg4 harg4 arg5 harg5 arg6 harg6 arg7 arg8 v661_r0 k2_t1 arg9 v810
  let ⟨v884, c0_i32_869⟩ : Σ' (v884 : FVec F S16 .f32), BitVec 32 ← k2_part6 i arg2 harg2 arg3 harg3 arg4 harg4 arg5 harg5 arg6 harg6 arg7 arg8 v661_r0 k2_t1 arg9 v844
  k2_part7 i arg2 harg2 arg3 harg3 arg4 harg4 arg5 harg5 arg6 harg6 arg7 arg8 v661_r0 k2_t1 arg9 v884 c0_i32_869
  let v960 : FVec F S1x1x1x16 .f32 ← k2_part8 i arg2 harg2 arg3 harg3 arg4 harg4 arg5 harg5 arg6 harg6 arg7 arg8 v661_r0 k2_t1 arg9
  Prog.lift (.store arg6 (Rect.unit (s := S2x32x4x256) (k2_off61 k2_t1) S1x1x1x16.size (k2_off61_inb k2_t1)) v960 Finset.univ (View.stores_vmem_bits_univ h_S1x1x1x16 rfl) (.inl rfl))
  let c0_i32_900 : BitVec 32 := 0#32
  let v961 : Index := Scalar.indexCast c0_i32_900
  let v962 : Index := Scalar.indexCast arg9
  let c480 : Index := 480#32
  let v963 : Vec F S1x1x16 .f32 ← Prog.lift (.load arg5 (Rect.unit (s := S2x32x512) (k2_off62 k2_t1) S1x1x16.size (k2_off62_inb k2_t1)).toLoadRect (View.loadsAt_vmem h_S1x1x16))
  have v964 : FVec F S16 .f32 := shapeCast S16 v963 shapeCasts_S1x1x16_S16
  let c0_i32_901 : BitVec 32 := 0#32
  let c3_i32_902 : BitVec 32 := 3#32
  let v965 : Index := Scalar.indexCast c0_i32_901
  let v966 : Index := Scalar.indexCast arg9
  let v967 : Index := Scalar.indexCast c3_i32_902
  let c224_903 : Index := 224#32
  let v968 : Vec F S1x1x1x16 .f32 ← Prog.lift (.load arg6 (Rect.unit (s := S2x32x4x256) (k2_off63 k2_t1) S1x1x1x16.size (k2_off63_inb k2_t1)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off63 k2_t1) S1x1x1x16.size (k2_off63_inb k2_t1)) v970 Finset.univ (View.stores_vmem_bits_univ h_S1x1x1x16 rfl) (.inl rfl))
  let c0_i32_904 : BitVec 32 := 0#32
  let v971 : Index := Scalar.indexCast c0_i32_904
  let v972 : Index := Scalar.indexCast arg9
  let c496 : Index := 496#32
  let v973 : Vec F S1x1x16 .f32 ← Prog.lift (.load arg5 (Rect.unit (s := S2x32x512) (k2_off64 k2_t1) S1x1x16.size (k2_off64_inb k2_t1)).toLoadRect (View.loadsAt_vmem h_S1x1x16))
  have v974 : FVec F S16 .f32 := shapeCast S16 v973 shapeCasts_S1x1x16_S16
  let c0_i32_905 : BitVec 32 := 0#32
  let c3_i32_906 : BitVec 32 := 3#32
  let v975 : Index := Scalar.indexCast c0_i32_905
  let v976 : Index := Scalar.indexCast arg9
  let v977 : Index := Scalar.indexCast c3_i32_906
  let c240_907 : Index := 240#32
  let v978 : Vec F S1x1x1x16 .f32 ← Prog.lift (.load arg6 (Rect.unit (s := S2x32x4x256) (k2_off65 k2_t1) S1x1x1x16.size (k2_off65_inb k2_t1)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off65 k2_t1) S1x1x1x16.size (k2_off65_inb k2_t1)) v980 Finset.univ (View.stores_vmem_bits_univ h_S1x1x1x16 rfl) (.inl rfl))
  pure ⟨⟩

end Cert.Kernel

namespace Cert.Kernel.TileBody

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop01 (A : Buf (Elt F) ((thr d L).loc cc2_scratch0)) (G : Buf (Elt F) ((thr d L).loc cc2_scratch1))
    (k : Fin k2_t1_loop.trips) (acc : PUnit) :
    (invFill0 (F := F) d L 128 A G k.val acc : sProp 𝕄)
      ⊢ wp frame (wpE (defs₀ (F := F)) 𝒱₀ (thr d L) none) Set.univ
          (region01 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill0 (F := F) d L 128 A G (k.val + 1)) := by
  have hk : (k : ℕ) < 32 := lt_of_lt_of_le k.isLt k2_t1_abs.2.1
  unfold invFill0 region01
  iintro ⟨Ha0, %h, Hb0, %hF⟩
  sl_exec
  sl_step
  isplitl [Ha0]; · iexact Ha0
  iexists _; isplitl [Hb0]; · iexact Hb0
  ipureintro
  refine RowFill.Filled.succ _ 0 128 k.val _ _ h _ hF ?_
  refine RowFill.RowFill.step _ 0 k.val 128 31 3 7 (by decide) rfl _ _ _ _ (k2_off65_eq k) _ (fun x => RowFill.pay_eq _ _ 0 0 k.val 128 3 7 _ hk (by decide) (by decide) rfl _ (k2_off64_eq k) _ (k2_off65_eq k) _ _ x) ?_
  refine RowFill.RowFill.step _ 0 k.val 128 30 3 6 (by decide) rfl _ _ _ _ (k2_off63_eq k) _ (fun x => RowFill.pay_eq _ _ 0 0 k.val 128 3 6 _ hk (by decide) (by decide) rfl _ (k2_off62_eq k) _ (k2_off63_eq k) _ _ x) ?_
  refine RowFill.RowFill.step _ 0 k.val 128 29 3 5 (by decide) rfl _ _ _ _ (k2_off61_eq k) _ (fun x => RowFill.pay_eq _ _ 0 0 k.val 128 3 5 _ hk (by decide) (by decide) rfl _ (k2_off60_eq k) _ (k2_off61_eq k) _ _ x) ?_
  refine RowFill.RowFill.step _ 0 k.val 128 28 3 4 (by decide) rfl _ _ _ _ (k2_off59_eq k) _ (fun x => RowFill.pay_eq _ _ 0 0 k.val 128 3 4 _ hk (by decide) (by decide) rfl _ (k2_off58_eq k) _ (k2_off59_eq k) _ _ x) ?_
  refine RowFill.RowFill.step _ 0 k.val 128 27 3 3 (by decide) rfl _ _ _ _ (k2_off57_eq k) _ (fun x => RowFill.pay_eq _ _ 0 0 k.val 128 3 3 _ hk (by decide) (by decide) rfl _ (k2_off56_eq k) _ (k2_off57_eq k) _ _ x) ?_
  refine RowFill.RowFill.step _ 0 k.val 128 26 3 2 (by decide) rfl _ _ _ _ (k2_off55_eq k) _ (fun x => RowFill.pay_eq _ _ 0 0 k.val 128 3 2 _ hk (by decide) (by decide) rfl _ (k2_off54_eq k) _ (k2_off55_eq k) _ _ x) ?_
  refine RowFill.RowFill.step _ 0 k.val 128 25 3 1 (by decide) rfl _ _ _ _ (k2_off53_eq k) _ (fun x => RowFill.pay_eq _ _ 0 0 k.val 128 3 1 _ hk (by decide) (by decide) rfl _ (k2_off52_eq k) _ (k2_off53_eq k) _ _ x) ?_
  refine RowFill.RowFill.step _ 0 k.val 128 24 3 0 (by decide) rfl _ _ _ _ (k2_off51_eq k) _ (fun x => RowFill.pay_eq _ _ 0 0 k.val 128 3 0 _ hk (by decide) (by decide) rfl _ (k2_off50_eq k) _ (k2_off51_eq k) _ _ x) ?_
  refine RowFill.RowFill.step _ 0 k.val 128 23 2 7 (by decide) rfl _ _ _ _ (k2_off49_eq k) _ (fun x => RowFill.pay_eq _ _ 0 0 k.val 128 2 7 _ hk (by decide) (by decide) rfl _ (k2_off48_eq k) _ (k2_off49_eq k) _ _ x) ?_
  refine RowFill.RowFill.step _ 0 k.val 128 22 2 6 (by decide) rfl _ _ _ _ (k2_off47_eq k) _ (fun x => RowFill.pay_eq _ _ 0 0 k.val 128 2 6 _ hk (by decide) (by decide) rfl _ (k2_off46_eq k) _ (k2_off47_eq k) _ _ x) ?_
  refine RowFill.RowFill.step _ 0 k.val 128 21 2 5 (by decide) rfl _ _ _ _ (k2_off45_eq k) _ (fun x => RowFill.pay_eq _ _ 0 0 k.val 128 2 5 _ hk (by decide) (by decide) rfl _ (k2_off44_eq k) _ (k2_off45_eq k) _ _ x) ?_
  refine RowFill.RowFill.step _ 0 k.val 128 20 2 4 (by decide) rfl _ _ _ _ (k2_off43_eq k) _ (fun x => RowFill.pay_eq _ _ 0 0 k.val 128 2 4 _ hk (by decide) (by decide) rfl _ (k2_off42_eq k) _ (k2_off43_eq k) _ _ x) ?_
  refine RowFill.RowFill.step _ 0 k.val 128 19 2 3 (by decide) rfl _ _ _ _ (k2_off41_eq k) _ (fun x => RowFill.pay_eq _ _ 0 0 k.val 128 2 3 _ hk (by decide) (by decide) rfl _ (k2_off40_eq k) _ (k2_off41_eq k) _ _ x) ?_
  refine RowFill.RowFill.step _ 0 k.val 128 18 2 2 (by decide) rfl _ _ _ _ (k2_off39_eq k) _ (fun x => RowFill.pay_eq _ _ 0 0 k.val 128 2 2 _ hk (by decide) (by decide) rfl _ (k2_off38_eq k) _ (k2_off39_eq k) _ _ x) ?_
  refine RowFill.RowFill.step _ 0 k.val 128 17 2 1 (by decide) rfl _ _ _ _ (k2_off37_eq k) _ (fun x => RowFill.pay_eq _ _ 0 0 k.val 128 2 1 _ hk (by decide) (by decide) rfl _ (k2_off36_eq k) _ (k2_off37_eq k) _ _ x) ?_
  refine RowFill.RowFill.step _ 0 k.val 128 16 2 0 (by decide) rfl _ _ _ _ (k2_off35_eq k) _ (fun x => RowFill.pay_eq _ _ 0 0 k.val 128 2 0 _ hk (by decide) (by decide) rfl _ (k2_off34_eq k) _ (k2_off35_eq k) _ _ x) ?_
  refine RowFill.RowFill.step _ 0 k.val 128 15 1 7 (by decide) rfl _ _ _ _ (k2_off33_eq k) _ (fun x => RowFill.pay_eq _ _ 0 0 k.val 128 1 7 _ hk (by decide) (by decide) rfl _ (k2_off32_eq k) _ (k2_off33_eq k) _ _ x) ?_
  refine RowFill.RowFill.step _ 0 k.val 128 14 1 6 (by decide) rfl _ _ _ _ (k2_off31_eq k) _ (fun x => RowFill.pay_eq _ _ 0 0 k.val 128 1 6 _ hk (by decide) (by decide) rfl _ (k2_off30_eq k) _ (k2_off31_eq k) _ _ x) ?_
  refine RowFill.RowFill.step _ 0 k.val 128 13 1 5 (by decide) rfl _ _ _ _ (k2_off29_eq k) _ (fun x => RowFill.pay_eq _ _ 0 0 k.val 128 1 5 _ hk (by decide) (by decide) rfl _ (k2_off28_eq k) _ (k2_off29_eq k) _ _ x) ?_
  refine RowFill.RowFill.step _ 0 k.val 128 12 1 4 (by decide) rfl _ _ _ _ (k2_off27_eq k) _ (fun x => RowFill.pay_eq _ _ 0 0 k.val 128 1 4 _ hk (by decide) (by decide) rfl _ (k2_off26_eq k) _ (k2_off27_eq k) _ _ x) ?_
  refine RowFill.RowFill.step _ 0 k.val 128 11 1 3 (by decide) rfl _ _ _ _ (k2_off25_eq k) _ (fun x => RowFill.pay_eq _ _ 0 0 k.val 128 1 3 _ hk (by decide) (by decide) rfl _ (k2_off24_eq k) _ (k2_off25_eq k) _ _ x) ?_
  refine RowFill.RowFill.step _ 0 k.val 128 10 1 2 (by decide) rfl _ _ _ _ (k2_off23_eq k) _ (fun x => RowFill.pay_eq _ _ 0 0 k.val 128 1 2 _ hk (by decide) (by decide) rfl _ (k2_off22_eq k) _ (k2_off23_eq k) _ _ x) ?_
  refine RowFill.RowFill.step _ 0 k.val 128 9 1 1 (by decide) rfl _ _ _ _ (k2_off21_eq k) _ (fun x => RowFill.pay_eq _ _ 0 0 k.val 128 1 1 _ hk (by decide) (by decide) rfl _ (k2_off20_eq k) _ (k2_off21_eq k) _ _ x) ?_
  refine RowFill.RowFill.step _ 0 k.val 128 8 1 0 (by decide) rfl _ _ _ _ (k2_off19_eq k) _ (fun x => RowFill.pay_eq _ _ 0 0 k.val 128 1 0 _ hk (by decide) (by decide) rfl _ (k2_off18_eq k) _ (k2_off19_eq k) _ _ x) ?_
  refine RowFill.RowFill.step _ 0 k.val 128 7 0 7 (by decide) rfl _ _ _ _ (k2_off17_eq k) _ (fun x => RowFill.pay_eq _ _ 0 0 k.val 128 0 7 _ hk (by decide) (by decide) rfl _ (k2_off16_eq k) _ (k2_off17_eq k) _ _ x) ?_
  refine RowFill.RowFill.step _ 0 k.val 128 6 0 6 (by decide) rfl _ _ _ _ (k2_off15_eq k) _ (fun x => RowFill.pay_eq _ _ 0 0 k.val 128 0 6 _ hk (by decide) (by decide) rfl _ (k2_off14_eq k) _ (k2_off15_eq k) _ _ x) ?_
  refine RowFill.RowFill.step _ 0 k.val 128 5 0 5 (by decide) rfl _ _ _ _ (k2_off13_eq k) _ (fun x => RowFill.pay_eq _ _ 0 0 k.val 128 0 5 _ hk (by decide) (by decide) rfl _ (k2_off12_eq k) _ (k2_off13_eq k) _ _ x) ?_
  refine RowFill.RowFill.step _ 0 k.val 128 4 0 4 (by decide) rfl _ _ _ _ (k2_off11_eq k) _ (fun x => RowFill.pay_eq _ _ 0 0 k.val 128 0 4 _ hk (by decide) (by decide) rfl _ (k2_off10_eq k) _ (k2_off11_eq k) _ _ x) ?_
  refine RowFill.RowFill.step _ 0 k.val 128 3 0 3 (by decide) rfl _ _ _ _ (k2_off9_eq k) _ (fun x => RowFill.pay_eq _ _ 0 0 k.val 128 0 3 _ hk (by decide) (by decide) rfl _ (k2_off8_eq k) _ (k2_off9_eq k) _ _ x) ?_
  refine RowFill.RowFill.step _ 0 k.val 128 2 0 2 (by decide) rfl _ _ _ _ (k2_off7_eq k) _ (fun x => RowFill.pay_eq _ _ 0 0 k.val 128 0 2 _ hk (by decide) (by decide) rfl _ (k2_off6_eq k) _ (k2_off7_eq k) _ _ x) ?_
  refine RowFill.RowFill.step _ 0 k.val 128 1 0 1 (by decide) rfl _ _ _ _ (k2_off5_eq k) _ (fun x => RowFill.pay_eq _ _ 0 0 k.val 128 0 1 _ hk (by decide) (by decide) rfl _ (k2_off4_eq k) _ (k2_off5_eq k) _ _ x) ?_
  refine RowFill.RowFill.step _ 0 k.val 128 0 0 0 (by decide) rfl _ _ _ _ (k2_off3_eq k) _ (fun x => RowFill.pay_eq _ _ 0 0 k.val 128 0 0 _ hk (by decide) (by decide) rfl _ (k2_off2_eq k) _ (k2_off3_eq k) _ _ x) ?_
  exact RowFill.RowFill.zero _ _ _ _ _ _

end Cert.Kernel.TileBody
-- ==== Proof.Bits.TileLoop02.lean ====
/-
  Loop 2 of the tile body: one trip fills one row of a staging slot, sixteen lanes at a time, and leaves the
  loop's invariant at the next row.
-/
import proofs.«206219_g40982577938455_cont_8to1_b_1362_29_alg».proof.Proof.Bits.TileSetup

noncomputable section

namespace Cert.Kernel

open Idealize.ShloMosaic Idealize.SL.Sem
open Cert.Kernel.Gen

variable {F : FTy → Type} [FloatOps F]

/-- The region of the loop, as the kernel's text has it. -/
noncomputable def region02 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_5 : BitVec 32) (c1_i32_7 : BitVec 32) (k2_t2 : Fin k2_t2_loop.trips) :
    Prog (TpuEff nD τ sig (Elt F) Λ₀ (.scVector ((i 0).castLE hcore2) ((i 1).castLE hsub2))) PUnit := do
  let arg9 : BitVec 32 ← k2_part9 i arg2 harg2 arg3 harg3 arg4 harg4 arg5 harg5 arg6 harg6 arg7 arg8 v661_r0 c0_i32_5 c1_i32_7 k2_t2
  let ⟨v731, c0_i32_813⟩ : Σ' (v731 : FVec F S16 .f32), BitVec 32 ← k2_part10 i arg2 harg2 arg3 harg3 arg4 harg4 arg5 harg5 arg6 harg6 arg7 arg8 v661_r0 k2_t2 arg9
  let v770 : FVec F S1x1x1x16 .f32 ← k2_part11 i arg2 harg2 arg3 harg3 arg4 harg4 arg5 harg5 arg6 harg6 arg7 arg8 v661_r0 k2_t2 arg9 v731 c0_i32_813
  k2_part12 i arg2 harg2 arg3 harg3 arg4 harg4 arg5 harg5 arg6 harg6 arg7 arg8 v661_r0 k2_t2 arg9 v770
  let ⟨v841, c2_i32_872⟩ : Σ' (v841 : FVec F S16 .f32), BitVec 32 ← k2_part13 i arg2 harg2 arg3 harg3 arg4 harg4 arg5 harg5 arg6 harg6 arg7 arg8 v661_r0 k2_t2 arg9
  let v880 : FVec F S1x1x1x16 .f32 ← k2_part14 i arg2 harg2 arg3 harg3 arg4 harg4 arg5 harg5 arg6 harg6 arg7 arg8 v661_r0 k2_t2 arg9 v841 c2_i32_872
  k2_part15 i arg2 harg2 arg3 harg3 arg4 harg4 arg5 harg5 arg6 harg6 arg7 arg8 v661_r0 k2_t2 arg9 v880
  let ⟨v951, c3_i32_932⟩ : Σ' (v951 : FVec F S16 .f32), BitVec 32 ← k2_part16 i arg2 harg2 arg3 harg3 arg4 harg4 arg5 harg5 arg6 harg6 arg7 arg8 v661_r0 k2_t2 arg9
  let v990 : FVec F S1x1x1x16 .f32 ← k2_part17 i arg2 harg2 arg3 harg3 arg4 harg4 arg5 harg5 arg6 harg6 arg7 arg8 v661_r0 k2_t2 arg9 v951 c3_i32_932
  Prog.lift (.store arg6 (Rect.unit (s := S2x32x4x256) (k2_off125 k2_t2) S1x1x1x16.size (k2_off125_inb k2_t2)) v990 Finset.univ (View.stores_vmem_bits_univ h_S1x1x1x16 rfl) (.inl rfl))
  let c0_i32_952 : BitVec 32 := 0#32
  let c3_i32_953 : BitVec 32 := 3#32
  let v991 : Index := Scalar.indexCast c0_i32_952
  let v992 : Index := Scalar.indexCast arg9
  let v993 : Index := Scalar.indexCast c3_i32_953
  let c224_954 : Index := 224#32
  let v994 : Vec F S1x1x1x16 .f32 ← Prog.lift (.load arg6 (Rect.unit (s := S2x32x4x256) (k2_off126 k2_t2) S1x1x1x16.size (k2_off126_inb k2_t2)).toLoadRect (View.loadsAt_vmem h_S1x1x1x16))
  have v995 : FVec F S16 .f32 := shapeCast S16 v994 shapeCasts_S1x1x1x16_S16
  let c1_i32_955 : BitVec 32 := 1#32
  let c3_i32_956 : BitVec 32 := 3#32
  let v996 : Index := Scalar.indexCast c1_i32_955
  let v997 : Index := Scalar.indexCast arg9
  let v998 : Index := Scalar.indexCast c3_i32_956
  let c224_957 : Index := 224#32
  let v999 : Vec F S1x1x1x16 .f32 ← Prog.lift (.load arg6 (Rect.unit (s := S2x32x4x256) (k2_off127 k2_t2) S1x1x1x16.size (k2_off127_inb k2_t2)).toLoadRect (View.loadsAt_vmem h_S1x1x1x16))
  have v1000 : FVec F S16 .f32 := shapeCast S16 v999 shapeCasts_S1x1x1x16_S16
  have v1001 : FVec F S1x1x1x16 .f32 := shapeCast S1x1x1x16 v995 shapeCasts_S16_S1x1x1x16
  Prog.lift (.store arg6 (Rect.unit (s := S2x32x4x256) (k2_off127 k2_t2) S1x1x1x16.size (k2_off127_inb k2_t2)) v1001 Finset.univ (View.stores_vmem_bits_univ h_S1x1x1x16 rfl) (.inl rfl))
  let c0_i32_958 : BitVec 32 := 0#32
  let c3_i32_959 : BitVec 32 := 3#32
  let v1002 : Index := Scalar.indexCast c0_i32_958
  let v1003 : Index := Scalar.indexCast arg9
  let v1004 : Index := Scalar.indexCast c3_i32_959
  let c240_960 : Index := 240#32
  let v1005 : Vec F S1x1x1x16 .f32 ← Prog.lift (.load arg6 (Rect.unit (s := S2x32x4x256) (k2_off128 k2_t2) S1x1x1x16.size (k2_off128_inb k2_t2)).toLoadRect (View.loadsAt_vmem h_S1x1x1x16))
  have v1006 : FVec F S16 .f32 := shapeCast S16 v1005 shapeCasts_S1x1x1x16_S16
  let c1_i32_961 : BitVec 32 := 1#32
  let c3_i32_962 : BitVec 32 := 3#32
  let v1007 : Index := Scalar.indexCast c1_i32_961
  let v1008 : Index := Scalar.indexCast arg9
  let v1009 : Index := Scalar.indexCast c3_i32_962
  let c240_963 : Index := 240#32
  let v1010 : Vec F S1x1x1x16 .f32 ← Prog.lift (.load arg6 (Rect.unit (s := S2x32x4x256) (k2_off129 k2_t2) S1x1x1x16.size (k2_off129_inb k2_t2)).toLoadRect (View.loadsAt_vmem h_S1x1x1x16))
  have v1011 : FVec F S16 .f32 := shapeCast S16 v1010 shapeCasts_S1x1x1x16_S16
  have v1012 : FVec F S1x1x1x16 .f32 := shapeCast S1x1x1x16 v1006 shapeCasts_S16_S1x1x1x16
  Prog.lift (.store arg6 (Rect.unit (s := S2x32x4x256) (k2_off129 k2_t2) S1x1x1x16.size (k2_off129_inb k2_t2)) v1012 Finset.univ (View.stores_vmem_bits_univ h_S1x1x1x16 rfl) (.inl rfl))
  pure ⟨⟩

end Cert.Kernel

namespace Cert.Kernel.TileBody

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop02 (A : Buf (Elt F) ((thr d L).loc cc2_scratch1)) (G : Buf (Elt F) ((thr d L).loc cc2_scratch1))
    (k : Fin k2_t2_loop.trips) (acc : PUnit) :
    (invCopy (F := F) d L A G k.val acc : sProp 𝕄)
      ⊢ wp frame (wpE (defs₀ (F := F)) 𝒱₀ (thr d L) none) Set.univ
          (region02 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invCopy (F := F) d L A G (k.val + 1)) := by
  have hk : (k : ℕ) < 32 := lt_of_lt_of_le k.isLt k2_t2_abs.2.1
  unfold invCopy region02
  iintro ⟨Hb0, %h, Hb1, %hF⟩
  sl_exec
  sl_step
  isplitl [Hb0]; · iexact Hb0
  iexists _; isplitl [Hb1]; · iexact Hb1
  ipureintro
  refine RowFill.Filled.succ _ 1 128 k.val _ _ h _ hF ?_
  refine RowFill.RowFill.step _ 1 k.val 128 31 3 7 (by decide) rfl _ _ _ _ (k2_off129_eq k) _ (fun x => RowFill.pay_eq' _ _ 0 1 k.val 128 3 7 hk (by decide) (by decide) _ (k2_off128_eq k) _ (k2_off129_eq k) _ _ x) ?_
  refine RowFill.RowFill.step _ 1 k.val 128 30 3 6 (by decide) rfl _ _ _ _ (k2_off127_eq k) _ (fun x => RowFill.pay_eq' _ _ 0 1 k.val 128 3 6 hk (by decide) (by decide) _ (k2_off126_eq k) _ (k2_off127_eq k) _ _ x) ?_
  refine RowFill.RowFill.step _ 1 k.val 128 29 3 5 (by decide) rfl _ _ _ _ (k2_off125_eq k) _ (fun x => RowFill.pay_eq' _ _ 0 1 k.val 128 3 5 hk (by decide) (by decide) _ (k2_off124_eq k) _ (k2_off125_eq k) _ _ x) ?_
  refine RowFill.RowFill.step _ 1 k.val 128 28 3 4 (by decide) rfl _ _ _ _ (k2_off123_eq k) _ (fun x => RowFill.pay_eq' _ _ 0 1 k.val 128 3 4 hk (by decide) (by decide) _ (k2_off122_eq k) _ (k2_off123_eq k) _ _ x) ?_
  refine RowFill.RowFill.step _ 1 k.val 128 27 3 3 (by decide) rfl _ _ _ _ (k2_off121_eq k) _ (fun x => RowFill.pay_eq' _ _ 0 1 k.val 128 3 3 hk (by decide) (by decide) _ (k2_off120_eq k) _ (k2_off121_eq k) _ _ x) ?_
  refine RowFill.RowFill.step _ 1 k.val 128 26 3 2 (by decide) rfl _ _ _ _ (k2_off119_eq k) _ (fun x => RowFill.pay_eq' _ _ 0 1 k.val 128 3 2 hk (by decide) (by decide) _ (k2_off118_eq k) _ (k2_off119_eq k) _ _ x) ?_
  refine RowFill.RowFill.step _ 1 k.val 128 25 3 1 (by decide) rfl _ _ _ _ (k2_off117_eq k) _ (fun x => RowFill.pay_eq' _ _ 0 1 k.val 128 3 1 hk (by decide) (by decide) _ (k2_off116_eq k) _ (k2_off117_eq k) _ _ x) ?_
  refine RowFill.RowFill.step _ 1 k.val 128 24 3 0 (by decide) rfl _ _ _ _ (k2_off115_eq k) _ (fun x => RowFill.pay_eq' _ _ 0 1 k.val 128 3 0 hk (by decide) (by decide) _ (k2_off114_eq k) _ (k2_off115_eq k) _ _ x) ?_
  refine RowFill.RowFill.step _ 1 k.val 128 23 2 7 (by decide) rfl _ _ _ _ (k2_off113_eq k) _ (fun x => RowFill.pay_eq' _ _ 0 1 k.val 128 2 7 hk (by decide) (by decide) _ (k2_off112_eq k) _ (k2_off113_eq k) _ _ x) ?_
  refine RowFill.RowFill.step _ 1 k.val 128 22 2 6 (by decide) rfl _ _ _ _ (k2_off111_eq k) _ (fun x => RowFill.pay_eq' _ _ 0 1 k.val 128 2 6 hk (by decide) (by decide) _ (k2_off110_eq k) _ (k2_off111_eq k) _ _ x) ?_
  refine RowFill.RowFill.step _ 1 k.val 128 21 2 5 (by decide) rfl _ _ _ _ (k2_off109_eq k) _ (fun x => RowFill.pay_eq' _ _ 0 1 k.val 128 2 5 hk (by decide) (by decide) _ (k2_off108_eq k) _ (k2_off109_eq k) _ _ x) ?_
  refine RowFill.RowFill.step _ 1 k.val 128 20 2 4 (by decide) rfl _ _ _ _ (k2_off107_eq k) _ (fun x => RowFill.pay_eq' _ _ 0 1 k.val 128 2 4 hk (by decide) (by decide) _ (k2_off106_eq k) _ (k2_off107_eq k) _ _ x) ?_
  refine RowFill.RowFill.step _ 1 k.val 128 19 2 3 (by decide) rfl _ _ _ _ (k2_off105_eq k) _ (fun x => RowFill.pay_eq' _ _ 0 1 k.val 128 2 3 hk (by decide) (by decide) _ (k2_off104_eq k) _ (k2_off105_eq k) _ _ x) ?_
  refine RowFill.RowFill.step _ 1 k.val 128 18 2 2 (by decide) rfl _ _ _ _ (k2_off103_eq k) _ (fun x => RowFill.pay_eq' _ _ 0 1 k.val 128 2 2 hk (by decide) (by decide) _ (k2_off102_eq k) _ (k2_off103_eq k) _ _ x) ?_
  refine RowFill.RowFill.step _ 1 k.val 128 17 2 1 (by decide) rfl _ _ _ _ (k2_off101_eq k) _ (fun x => RowFill.pay_eq' _ _ 0 1 k.val 128 2 1 hk (by decide) (by decide) _ (k2_off100_eq k) _ (k2_off101_eq k) _ _ x) ?_
  refine RowFill.RowFill.step _ 1 k.val 128 16 2 0 (by decide) rfl _ _ _ _ (k2_off99_eq k) _ (fun x => RowFill.pay_eq' _ _ 0 1 k.val 128 2 0 hk (by decide) (by decide) _ (k2_off98_eq k) _ (k2_off99_eq k) _ _ x) ?_
  refine RowFill.RowFill.step _ 1 k.val 128 15 1 7 (by decide) rfl _ _ _ _ (k2_off97_eq k) _ (fun x => RowFill.pay_eq' _ _ 0 1 k.val 128 1 7 hk (by decide) (by decide) _ (k2_off96_eq k) _ (k2_off97_eq k) _ _ x) ?_
  refine RowFill.RowFill.step _ 1 k.val 128 14 1 6 (by decide) rfl _ _ _ _ (k2_off95_eq k) _ (fun x => RowFill.pay_eq' _ _ 0 1 k.val 128 1 6 hk (by decide) (by decide) _ (k2_off94_eq k) _ (k2_off95_eq k) _ _ x) ?_
  refine RowFill.RowFill.step _ 1 k.val 128 13 1 5 (by decide) rfl _ _ _ _ (k2_off93_eq k) _ (fun x => RowFill.pay_eq' _ _ 0 1 k.val 128 1 5 hk (by decide) (by decide) _ (k2_off92_eq k) _ (k2_off93_eq k) _ _ x) ?_
  refine RowFill.RowFill.step _ 1 k.val 128 12 1 4 (by decide) rfl _ _ _ _ (k2_off91_eq k) _ (fun x => RowFill.pay_eq' _ _ 0 1 k.val 128 1 4 hk (by decide) (by decide) _ (k2_off90_eq k) _ (k2_off91_eq k) _ _ x) ?_
  refine RowFill.RowFill.step _ 1 k.val 128 11 1 3 (by decide) rfl _ _ _ _ (k2_off89_eq k) _ (fun x => RowFill.pay_eq' _ _ 0 1 k.val 128 1 3 hk (by decide) (by decide) _ (k2_off88_eq k) _ (k2_off89_eq k) _ _ x) ?_
  refine RowFill.RowFill.step _ 1 k.val 128 10 1 2 (by decide) rfl _ _ _ _ (k2_off87_eq k) _ (fun x => RowFill.pay_eq' _ _ 0 1 k.val 128 1 2 hk (by decide) (by decide) _ (k2_off86_eq k) _ (k2_off87_eq k) _ _ x) ?_
  refine RowFill.RowFill.step _ 1 k.val 128 9 1 1 (by decide) rfl _ _ _ _ (k2_off85_eq k) _ (fun x => RowFill.pay_eq' _ _ 0 1 k.val 128 1 1 hk (by decide) (by decide) _ (k2_off84_eq k) _ (k2_off85_eq k) _ _ x) ?_
  refine RowFill.RowFill.step _ 1 k.val 128 8 1 0 (by decide) rfl _ _ _ _ (k2_off83_eq k) _ (fun x => RowFill.pay_eq' _ _ 0 1 k.val 128 1 0 hk (by decide) (by decide) _ (k2_off82_eq k) _ (k2_off83_eq k) _ _ x) ?_
  refine RowFill.RowFill.step _ 1 k.val 128 7 0 7 (by decide) rfl _ _ _ _ (k2_off81_eq k) _ (fun x => RowFill.pay_eq' _ _ 0 1 k.val 128 0 7 hk (by decide) (by decide) _ (k2_off80_eq k) _ (k2_off81_eq k) _ _ x) ?_
  refine RowFill.RowFill.step _ 1 k.val 128 6 0 6 (by decide) rfl _ _ _ _ (k2_off79_eq k) _ (fun x => RowFill.pay_eq' _ _ 0 1 k.val 128 0 6 hk (by decide) (by decide) _ (k2_off78_eq k) _ (k2_off79_eq k) _ _ x) ?_
  refine RowFill.RowFill.step _ 1 k.val 128 5 0 5 (by decide) rfl _ _ _ _ (k2_off77_eq k) _ (fun x => RowFill.pay_eq' _ _ 0 1 k.val 128 0 5 hk (by decide) (by decide) _ (k2_off76_eq k) _ (k2_off77_eq k) _ _ x) ?_
  refine RowFill.RowFill.step _ 1 k.val 128 4 0 4 (by decide) rfl _ _ _ _ (k2_off75_eq k) _ (fun x => RowFill.pay_eq' _ _ 0 1 k.val 128 0 4 hk (by decide) (by decide) _ (k2_off74_eq k) _ (k2_off75_eq k) _ _ x) ?_
  refine RowFill.RowFill.step _ 1 k.val 128 3 0 3 (by decide) rfl _ _ _ _ (k2_off73_eq k) _ (fun x => RowFill.pay_eq' _ _ 0 1 k.val 128 0 3 hk (by decide) (by decide) _ (k2_off72_eq k) _ (k2_off73_eq k) _ _ x) ?_
  refine RowFill.RowFill.step _ 1 k.val 128 2 0 2 (by decide) rfl _ _ _ _ (k2_off71_eq k) _ (fun x => RowFill.pay_eq' _ _ 0 1 k.val 128 0 2 hk (by decide) (by decide) _ (k2_off70_eq k) _ (k2_off71_eq k) _ _ x) ?_
  refine RowFill.RowFill.step _ 1 k.val 128 1 0 1 (by decide) rfl _ _ _ _ (k2_off69_eq k) _ (fun x => RowFill.pay_eq' _ _ 0 1 k.val 128 0 1 hk (by decide) (by decide) _ (k2_off68_eq k) _ (k2_off69_eq k) _ _ x) ?_
  refine RowFill.RowFill.step _ 1 k.val 128 0 0 0 (by decide) rfl _ _ _ _ (k2_off67_eq k) _ (fun x => RowFill.pay_eq' _ _ 0 1 k.val 128 0 0 hk (by decide) (by decide) _ (k2_off66_eq k) _ (k2_off67_eq k) _ _ x) ?_
  exact RowFill.RowFill.zero _ _ _ _ _ _

end Cert.Kernel.TileBody
-- ==== Proof.Bits.TileLoop03.lean ====
/-
  Loop 3 of the tile body: one trip fills one row of a staging slot, sixteen lanes at a time, and leaves the
  loop's invariant at the next row.
-/
import proofs.«206219_g40982577938455_cont_8to1_b_1362_29_alg».proof.Proof.Bits.TileSetup

noncomputable section

namespace Cert.Kernel

open Idealize.ShloMosaic Idealize.SL.Sem
open Cert.Kernel.Gen

variable {F : FTy → Type} [FloatOps F]

/-- The region of the loop, as the kernel's text has it. -/
noncomputable def region03 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_37 : BitVec 32) (c1_i32_39 : BitVec 32) (k2_t3 : Fin k2_t3_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part18 i arg2 harg2 arg3 harg3 arg4 harg4 arg5 harg5 arg6 harg6 arg7 arg8 v661_r0 c0_i32_37 c1_i32_39 k2_t3
  let ⟨v734, c0_i32_809⟩ : Σ' (v734 : FVec F S16 .f32), BitVec 32 ← k2_part19 i arg2 harg2 arg3 harg3 arg4 harg4 arg5 harg5 arg6 harg6 arg7 arg8 v661_r0 k2_t3 arg9 v694
  k2_part20 i arg2 harg2 arg3 harg3 arg4 harg4 arg5 harg5 arg6 harg6 arg7 arg8 v661_r0 k2_t3 arg9 v734 c0_i32_809
  let v810 : FVec F S1x1x1x16 .f32 ← k2_part21 i arg2 harg2 arg3 harg3 arg4 harg4 arg5 harg5 arg6 harg6 arg7 arg8 v661_r0 k2_t3 arg9
  let v844 : FVec F S16 .f32 ← k2_part22 i arg2 harg2 arg3 harg3 arg4 harg4 arg5 harg5 arg6 harg6 arg7 arg8 v661_r0 k2_t3 arg9 v810
  let ⟨v884, c0_i32_869⟩ : Σ' (v884 : FVec F S16 .f32), BitVec 32 ← k2_part23 i arg2 harg2 arg3 harg3 arg4 harg4 arg5 harg5 arg6 harg6 arg7 arg8 v661_r0 k2_t3 arg9 v844
  k2_part24 i arg2 harg2 arg3 harg3 arg4 harg4 arg5 harg5 arg6 harg6 arg7 arg8 v661_r0 k2_t3 arg9 v884 c0_i32_869
  let v960 : FVec F S1x1x1x16 .f32 ← k2_part25 i arg2 harg2 arg3 harg3 arg4 harg4 arg5 harg5 arg6 harg6 arg7 arg8 v661_r0 k2_t3 arg9
  Prog.lift (.store arg6 (Rect.unit (s := S2x32x4x256) (k2_off191 k2_t3) S1x1x1x16.size (k2_off191_inb k2_t3)) v960 Finset.univ (View.stores_vmem_bits_univ h_S1x1x1x16 rfl) (.inl rfl))
  let c0_i32_900 : BitVec 32 := 0#32
  let v961 : Index := Scalar.indexCast c0_i32_900
  let v962 : Index := Scalar.indexCast arg9
  let c480 : Index := 480#32
  let v963 : Vec F S1x1x16 .f32 ← Prog.lift (.load arg5 (Rect.unit (s := S2x32x512) (k2_off192 k2_t3) S1x1x16.size (k2_off192_inb k2_t3)).toLoadRect (View.loadsAt_vmem h_S1x1x16))
  have v964 : FVec F S16 .f32 := shapeCast S16 v963 shapeCasts_S1x1x16_S16
  let c0_i32_901 : BitVec 32 := 0#32
  let c3_i32_902 : BitVec 32 := 3#32
  let v965 : Index := Scalar.indexCast c0_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off193 k2_t3) S1x1x1x16.size (k2_off193_inb k2_t3)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off193 k2_t3) S1x1x1x16.size (k2_off193_inb k2_t3)) v970 Finset.univ (View.stores_vmem_bits_univ h_S1x1x1x16 rfl) (.inl rfl))
  let c0_i32_904 : BitVec 32 := 0#32
  let v971 : Index := Scalar.indexCast c0_i32_904
  let v972 : Index := Scalar.indexCast arg9
  let c496 : Index := 496#32
  let v973 : Vec F S1x1x16 .f32 ← Prog.lift (.load arg5 (Rect.unit (s := S2x32x512) (k2_off194 k2_t3) S1x1x16.size (k2_off194_inb k2_t3)).toLoadRect (View.loadsAt_vmem h_S1x1x16))
  have v974 : FVec F S16 .f32 := shapeCast S16 v973 shapeCasts_S1x1x16_S16
  let c0_i32_905 : BitVec 32 := 0#32
  let c3_i32_906 : BitVec 32 := 3#32
  let v975 : Index := Scalar.indexCast c0_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off195 k2_t3) S1x1x1x16.size (k2_off195_inb k2_t3)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off195 k2_t3) S1x1x1x16.size (k2_off195_inb k2_t3)) v980 Finset.univ (View.stores_vmem_bits_univ h_S1x1x1x16 rfl) (.inl rfl))
  pure ⟨⟩

end Cert.Kernel

namespace Cert.Kernel.TileBody

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop03 (A : Buf (Elt F) ((thr d L).loc cc2_scratch0)) (G : Buf (Elt F) ((thr d L).loc cc2_scratch1))
    (k : Fin k2_t3_loop.trips) (acc : PUnit) :
    (invFill0 (F := F) d L 0 A G k.val acc : sProp 𝕄)
      ⊢ wp frame (wpE (defs₀ (F := F)) 𝒱₀ (thr d L) none) Set.univ
          (region03 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill0 (F := F) d L 0 A G (k.val + 1)) := by
  have hk : (k : ℕ) < 32 := lt_of_lt_of_le k.isLt k2_t3_abs.2.1
  unfold invFill0 region03
  iintro ⟨Ha0, %h, Hb0, %hF⟩
  sl_exec
  sl_step
  isplitl [Ha0]; · iexact Ha0
  iexists _; isplitl [Hb0]; · iexact Hb0
  ipureintro
  refine RowFill.Filled.succ _ 0 0 k.val _ _ h _ hF ?_
  refine RowFill.RowFill.step _ 0 k.val 0 31 3 7 (by decide) rfl _ _ _ _ (k2_off195_eq k) _ (fun x => RowFill.pay_eq _ _ 0 0 k.val 0 3 7 _ hk (by decide) (by decide) rfl _ (k2_off194_eq k) _ (k2_off195_eq k) _ _ x) ?_
  refine RowFill.RowFill.step _ 0 k.val 0 30 3 6 (by decide) rfl _ _ _ _ (k2_off193_eq k) _ (fun x => RowFill.pay_eq _ _ 0 0 k.val 0 3 6 _ hk (by decide) (by decide) rfl _ (k2_off192_eq k) _ (k2_off193_eq k) _ _ x) ?_
  refine RowFill.RowFill.step _ 0 k.val 0 29 3 5 (by decide) rfl _ _ _ _ (k2_off191_eq k) _ (fun x => RowFill.pay_eq _ _ 0 0 k.val 0 3 5 _ hk (by decide) (by decide) rfl _ (k2_off190_eq k) _ (k2_off191_eq k) _ _ x) ?_
  refine RowFill.RowFill.step _ 0 k.val 0 28 3 4 (by decide) rfl _ _ _ _ (k2_off189_eq k) _ (fun x => RowFill.pay_eq _ _ 0 0 k.val 0 3 4 _ hk (by decide) (by decide) rfl _ (k2_off188_eq k) _ (k2_off189_eq k) _ _ x) ?_
  refine RowFill.RowFill.step _ 0 k.val 0 27 3 3 (by decide) rfl _ _ _ _ (k2_off187_eq k) _ (fun x => RowFill.pay_eq _ _ 0 0 k.val 0 3 3 _ hk (by decide) (by decide) rfl _ (k2_off186_eq k) _ (k2_off187_eq k) _ _ x) ?_
  refine RowFill.RowFill.step _ 0 k.val 0 26 3 2 (by decide) rfl _ _ _ _ (k2_off185_eq k) _ (fun x => RowFill.pay_eq _ _ 0 0 k.val 0 3 2 _ hk (by decide) (by decide) rfl _ (k2_off184_eq k) _ (k2_off185_eq k) _ _ x) ?_
  refine RowFill.RowFill.step _ 0 k.val 0 25 3 1 (by decide) rfl _ _ _ _ (k2_off183_eq k) _ (fun x => RowFill.pay_eq _ _ 0 0 k.val 0 3 1 _ hk (by decide) (by decide) rfl _ (k2_off182_eq k) _ (k2_off183_eq k) _ _ x) ?_
  refine RowFill.RowFill.step _ 0 k.val 0 24 3 0 (by decide) rfl _ _ _ _ (k2_off181_eq k) _ (fun x => RowFill.pay_eq _ _ 0 0 k.val 0 3 0 _ hk (by decide) (by decide) rfl _ (k2_off180_eq k) _ (k2_off181_eq k) _ _ x) ?_
  refine RowFill.RowFill.step _ 0 k.val 0 23 2 7 (by decide) rfl _ _ _ _ (k2_off179_eq k) _ (fun x => RowFill.pay_eq _ _ 0 0 k.val 0 2 7 _ hk (by decide) (by decide) rfl _ (k2_off178_eq k) _ (k2_off179_eq k) _ _ x) ?_
  refine RowFill.RowFill.step _ 0 k.val 0 22 2 6 (by decide) rfl _ _ _ _ (k2_off177_eq k) _ (fun x => RowFill.pay_eq _ _ 0 0 k.val 0 2 6 _ hk (by decide) (by decide) rfl _ (k2_off176_eq k) _ (k2_off177_eq k) _ _ x) ?_
  refine RowFill.RowFill.step _ 0 k.val 0 21 2 5 (by decide) rfl _ _ _ _ (k2_off175_eq k) _ (fun x => RowFill.pay_eq _ _ 0 0 k.val 0 2 5 _ hk (by decide) (by decide) rfl _ (k2_off174_eq k) _ (k2_off175_eq k) _ _ x) ?_
  refine RowFill.RowFill.step _ 0 k.val 0 20 2 4 (by decide) rfl _ _ _ _ (k2_off173_eq k) _ (fun x => RowFill.pay_eq _ _ 0 0 k.val 0 2 4 _ hk (by decide) (by decide) rfl _ (k2_off172_eq k) _ (k2_off173_eq k) _ _ x) ?_
  refine RowFill.RowFill.step _ 0 k.val 0 19 2 3 (by decide) rfl _ _ _ _ (k2_off171_eq k) _ (fun x => RowFill.pay_eq _ _ 0 0 k.val 0 2 3 _ hk (by decide) (by decide) rfl _ (k2_off170_eq k) _ (k2_off171_eq k) _ _ x) ?_
  refine RowFill.RowFill.step _ 0 k.val 0 18 2 2 (by decide) rfl _ _ _ _ (k2_off169_eq k) _ (fun x => RowFill.pay_eq _ _ 0 0 k.val 0 2 2 _ hk (by decide) (by decide) rfl _ (k2_off168_eq k) _ (k2_off169_eq k) _ _ x) ?_
  refine RowFill.RowFill.step _ 0 k.val 0 17 2 1 (by decide) rfl _ _ _ _ (k2_off167_eq k) _ (fun x => RowFill.pay_eq _ _ 0 0 k.val 0 2 1 _ hk (by decide) (by decide) rfl _ (k2_off166_eq k) _ (k2_off167_eq k) _ _ x) ?_
  refine RowFill.RowFill.step _ 0 k.val 0 16 2 0 (by decide) rfl _ _ _ _ (k2_off165_eq k) _ (fun x => RowFill.pay_eq _ _ 0 0 k.val 0 2 0 _ hk (by decide) (by decide) rfl _ (k2_off164_eq k) _ (k2_off165_eq k) _ _ x) ?_
  refine RowFill.RowFill.step _ 0 k.val 0 15 1 7 (by decide) rfl _ _ _ _ (k2_off163_eq k) _ (fun x => RowFill.pay_eq _ _ 0 0 k.val 0 1 7 _ hk (by decide) (by decide) rfl _ (k2_off162_eq k) _ (k2_off163_eq k) _ _ x) ?_
  refine RowFill.RowFill.step _ 0 k.val 0 14 1 6 (by decide) rfl _ _ _ _ (k2_off161_eq k) _ (fun x => RowFill.pay_eq _ _ 0 0 k.val 0 1 6 _ hk (by decide) (by decide) rfl _ (k2_off160_eq k) _ (k2_off161_eq k) _ _ x) ?_
  refine RowFill.RowFill.step _ 0 k.val 0 13 1 5 (by decide) rfl _ _ _ _ (k2_off159_eq k) _ (fun x => RowFill.pay_eq _ _ 0 0 k.val 0 1 5 _ hk (by decide) (by decide) rfl _ (k2_off158_eq k) _ (k2_off159_eq k) _ _ x) ?_
  refine RowFill.RowFill.step _ 0 k.val 0 12 1 4 (by decide) rfl _ _ _ _ (k2_off157_eq k) _ (fun x => RowFill.pay_eq _ _ 0 0 k.val 0 1 4 _ hk (by decide) (by decide) rfl _ (k2_off156_eq k) _ (k2_off157_eq k) _ _ x) ?_
  refine RowFill.RowFill.step _ 0 k.val 0 11 1 3 (by decide) rfl _ _ _ _ (k2_off155_eq k) _ (fun x => RowFill.pay_eq _ _ 0 0 k.val 0 1 3 _ hk (by decide) (by decide) rfl _ (k2_off154_eq k) _ (k2_off155_eq k) _ _ x) ?_
  refine RowFill.RowFill.step _ 0 k.val 0 10 1 2 (by decide) rfl _ _ _ _ (k2_off153_eq k) _ (fun x => RowFill.pay_eq _ _ 0 0 k.val 0 1 2 _ hk (by decide) (by decide) rfl _ (k2_off152_eq k) _ (k2_off153_eq k) _ _ x) ?_
  refine RowFill.RowFill.step _ 0 k.val 0 9 1 1 (by decide) rfl _ _ _ _ (k2_off151_eq k) _ (fun x => RowFill.pay_eq _ _ 0 0 k.val 0 1 1 _ hk (by decide) (by decide) rfl _ (k2_off150_eq k) _ (k2_off151_eq k) _ _ x) ?_
  refine RowFill.RowFill.step _ 0 k.val 0 8 1 0 (by decide) rfl _ _ _ _ (k2_off149_eq k) _ (fun x => RowFill.pay_eq _ _ 0 0 k.val 0 1 0 _ hk (by decide) (by decide) rfl _ (k2_off148_eq k) _ (k2_off149_eq k) _ _ x) ?_
  refine RowFill.RowFill.step _ 0 k.val 0 7 0 7 (by decide) rfl _ _ _ _ (k2_off147_eq k) _ (fun x => RowFill.pay_eq _ _ 0 0 k.val 0 0 7 _ hk (by decide) (by decide) rfl _ (k2_off146_eq k) _ (k2_off147_eq k) _ _ x) ?_
  refine RowFill.RowFill.step _ 0 k.val 0 6 0 6 (by decide) rfl _ _ _ _ (k2_off145_eq k) _ (fun x => RowFill.pay_eq _ _ 0 0 k.val 0 0 6 _ hk (by decide) (by decide) rfl _ (k2_off144_eq k) _ (k2_off145_eq k) _ _ x) ?_
  refine RowFill.RowFill.step _ 0 k.val 0 5 0 5 (by decide) rfl _ _ _ _ (k2_off143_eq k) _ (fun x => RowFill.pay_eq _ _ 0 0 k.val 0 0 5 _ hk (by decide) (by decide) rfl _ (k2_off142_eq k) _ (k2_off143_eq k) _ _ x) ?_
  refine RowFill.RowFill.step _ 0 k.val 0 4 0 4 (by decide) rfl _ _ _ _ (k2_off141_eq k) _ (fun x => RowFill.pay_eq _ _ 0 0 k.val 0 0 4 _ hk (by decide) (by decide) rfl _ (k2_off140_eq k) _ (k2_off141_eq k) _ _ x) ?_
  refine RowFill.RowFill.step _ 0 k.val 0 3 0 3 (by decide) rfl _ _ _ _ (k2_off139_eq k) _ (fun x => RowFill.pay_eq _ _ 0 0 k.val 0 0 3 _ hk (by decide) (by decide) rfl _ (k2_off138_eq k) _ (k2_off139_eq k) _ _ x) ?_
  refine RowFill.RowFill.step _ 0 k.val 0 2 0 2 (by decide) rfl _ _ _ _ (k2_off137_eq k) _ (fun x => RowFill.pay_eq _ _ 0 0 k.val 0 0 2 _ hk (by decide) (by decide) rfl _ (k2_off136_eq k) _ (k2_off137_eq k) _ _ x) ?_
  refine RowFill.RowFill.step _ 0 k.val 0 1 0 1 (by decide) rfl _ _ _ _ (k2_off135_eq k) _ (fun x => RowFill.pay_eq _ _ 0 0 k.val 0 0 1 _ hk (by decide) (by decide) rfl _ (k2_off134_eq k) _ (k2_off135_eq k) _ _ x) ?_
  refine RowFill.RowFill.step _ 0 k.val 0 0 0 0 (by decide) rfl _ _ _ _ (k2_off133_eq k) _ (fun x => RowFill.pay_eq _ _ 0 0 k.val 0 0 0 _ hk (by decide) (by decide) rfl _ (k2_off132_eq k) _ (k2_off133_eq k) _ _ x) ?_
  exact RowFill.RowFill.zero _ _ _ _ _ _

end Cert.Kernel.TileBody
-- ==== Proof.Bits.TileLoop04.lean ====
/-
  Loop 4 of the tile body: one trip fills one row of a staging slot, sixteen lanes at a time, and leaves the
  loop's invariant at the next row.
-/
import proofs.«206219_g40982577938455_cont_8to1_b_1362_29_alg».proof.Proof.Bits.TileSetup

noncomputable section

namespace Cert.Kernel

open Idealize.ShloMosaic Idealize.SL.Sem
open Cert.Kernel.Gen

variable {F : FTy → Type} [FloatOps F]

/-- The region of the loop, as the kernel's text has it. -/
noncomputable def region04 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_73 : BitVec 32) (c1_i32_75 : BitVec 32) (k2_t4 : Fin k2_t4_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part26 i arg2 harg2 arg3 harg3 arg4 harg4 arg5 harg5 arg6 harg6 arg7 arg8 v661_r0 c0_i32_73 c1_i32_75 k2_t4
  let ⟨v734, c1_i32_809⟩ : Σ' (v734 : FVec F S16 .f32), BitVec 32 ← k2_part27 i arg2 harg2 arg3 harg3 arg4 harg4 arg5 harg5 arg6 harg6 arg7 arg8 v661_r0 k2_t4 arg9 v694
  k2_part28 i arg2 harg2 arg3 harg3 arg4 harg4 arg5 harg5 arg6 harg6 arg7 arg8 v661_r0 k2_t4 arg9 v734 c1_i32_809
  let v810 : FVec F S1x1x1x16 .f32 ← k2_part29 i arg2 harg2 arg3 harg3 arg4 harg4 arg5 harg5 arg6 harg6 arg7 arg8 v661_r0 k2_t4 arg9
  let v844 : FVec F S16 .f32 ← k2_part30 i arg2 harg2 arg3 harg3 arg4 harg4 arg5 harg5 arg6 harg6 arg7 arg8 v661_r0 k2_t4 arg9 v810
  let ⟨v884, c1_i32_869⟩ : Σ' (v884 : FVec F S16 .f32), BitVec 32 ← k2_part31 i arg2 harg2 arg3 harg3 arg4 harg4 arg5 harg5 arg6 harg6 arg7 arg8 v661_r0 k2_t4 arg9 v844
  k2_part32 i arg2 harg2 arg3 harg3 arg4 harg4 arg5 harg5 arg6 harg6 arg7 arg8 v661_r0 k2_t4 arg9 v884 c1_i32_869
  let v960 : FVec F S1x1x1x16 .f32 ← k2_part33 i arg2 harg2 arg3 harg3 arg4 harg4 arg5 harg5 arg6 harg6 arg7 arg8 v661_r0 k2_t4 arg9
  Prog.lift (.store arg6 (Rect.unit (s := S2x32x4x256) (k2_off257 k2_t4) S1x1x1x16.size (k2_off257_inb k2_t4)) v960 Finset.univ (View.stores_vmem_bits_univ h_S1x1x1x16 rfl) (.inl rfl))
  let c1_i32_900 : BitVec 32 := 1#32
  let v961 : Index := Scalar.indexCast c1_i32_900
  let v962 : Index := Scalar.indexCast arg9
  let c480 : Index := 480#32
  let v963 : Vec F S1x1x16 .f32 ← Prog.lift (.load arg5 (Rect.unit (s := S2x32x512) (k2_off258 k2_t4) S1x1x16.size (k2_off258_inb k2_t4)).toLoadRect (View.loadsAt_vmem h_S1x1x16))
  have v964 : FVec F S16 .f32 := shapeCast S16 v963 shapeCasts_S1x1x16_S16
  let c1_i32_901 : BitVec 32 := 1#32
  let c3_i32_902 : BitVec 32 := 3#32
  let v965 : Index := Scalar.indexCast c1_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off259 k2_t4) S1x1x1x16.size (k2_off259_inb k2_t4)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off259 k2_t4) S1x1x1x16.size (k2_off259_inb k2_t4)) v970 Finset.univ (View.stores_vmem_bits_univ h_S1x1x1x16 rfl) (.inl rfl))
  let c1_i32_904 : BitVec 32 := 1#32
  let v971 : Index := Scalar.indexCast c1_i32_904
  let v972 : Index := Scalar.indexCast arg9
  let c496 : Index := 496#32
  let v973 : Vec F S1x1x16 .f32 ← Prog.lift (.load arg5 (Rect.unit (s := S2x32x512) (k2_off260 k2_t4) S1x1x16.size (k2_off260_inb k2_t4)).toLoadRect (View.loadsAt_vmem h_S1x1x16))
  have v974 : FVec F S16 .f32 := shapeCast S16 v973 shapeCasts_S1x1x16_S16
  let c1_i32_905 : BitVec 32 := 1#32
  let c3_i32_906 : BitVec 32 := 3#32
  let v975 : Index := Scalar.indexCast c1_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off261 k2_t4) S1x1x1x16.size (k2_off261_inb k2_t4)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off261 k2_t4) S1x1x1x16.size (k2_off261_inb k2_t4)) v980 Finset.univ (View.stores_vmem_bits_univ h_S1x1x1x16 rfl) (.inl rfl))
  pure ⟨⟩

end Cert.Kernel

namespace Cert.Kernel.TileBody

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop04 (A : Buf (Elt F) ((thr d L).loc cc2_scratch0)) (G : Buf (Elt F) ((thr d L).loc cc2_scratch1))
    (k : Fin k2_t4_loop.trips) (acc : PUnit) :
    (invFill1 (F := F) d L 0 A G k.val acc : sProp 𝕄)
      ⊢ wp frame (wpE (defs₀ (F := F)) 𝒱₀ (thr d L) none) Set.univ
          (region04 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill1 (F := F) d L 0 A G (k.val + 1)) := by
  have hk : (k : ℕ) < 32 := lt_of_lt_of_le k.isLt k2_t4_abs.2.1
  unfold invFill1 region04
  iintro ⟨Ha1, %h, Hb1, %hF⟩
  sl_exec
  sl_step
  isplitl [Ha1]; · iexact Ha1
  iexists _; isplitl [Hb1]; · iexact Hb1
  ipureintro
  refine RowFill.Filled.succ _ 1 0 k.val _ _ h _ hF ?_
  refine RowFill.RowFill.step _ 1 k.val 0 31 3 7 (by decide) rfl _ _ _ _ (k2_off261_eq k) _ (fun x => RowFill.pay_eq _ _ 1 1 k.val 0 3 7 _ hk (by decide) (by decide) rfl _ (k2_off260_eq k) _ (k2_off261_eq k) _ _ x) ?_
  refine RowFill.RowFill.step _ 1 k.val 0 30 3 6 (by decide) rfl _ _ _ _ (k2_off259_eq k) _ (fun x => RowFill.pay_eq _ _ 1 1 k.val 0 3 6 _ hk (by decide) (by decide) rfl _ (k2_off258_eq k) _ (k2_off259_eq k) _ _ x) ?_
  refine RowFill.RowFill.step _ 1 k.val 0 29 3 5 (by decide) rfl _ _ _ _ (k2_off257_eq k) _ (fun x => RowFill.pay_eq _ _ 1 1 k.val 0 3 5 _ hk (by decide) (by decide) rfl _ (k2_off256_eq k) _ (k2_off257_eq k) _ _ x) ?_
  refine RowFill.RowFill.step _ 1 k.val 0 28 3 4 (by decide) rfl _ _ _ _ (k2_off255_eq k) _ (fun x => RowFill.pay_eq _ _ 1 1 k.val 0 3 4 _ hk (by decide) (by decide) rfl _ (k2_off254_eq k) _ (k2_off255_eq k) _ _ x) ?_
  refine RowFill.RowFill.step _ 1 k.val 0 27 3 3 (by decide) rfl _ _ _ _ (k2_off253_eq k) _ (fun x => RowFill.pay_eq _ _ 1 1 k.val 0 3 3 _ hk (by decide) (by decide) rfl _ (k2_off252_eq k) _ (k2_off253_eq k) _ _ x) ?_
  refine RowFill.RowFill.step _ 1 k.val 0 26 3 2 (by decide) rfl _ _ _ _ (k2_off251_eq k) _ (fun x => RowFill.pay_eq _ _ 1 1 k.val 0 3 2 _ hk (by decide) (by decide) rfl _ (k2_off250_eq k) _ (k2_off251_eq k) _ _ x) ?_
  refine RowFill.RowFill.step _ 1 k.val 0 25 3 1 (by decide) rfl _ _ _ _ (k2_off249_eq k) _ (fun x => RowFill.pay_eq _ _ 1 1 k.val 0 3 1 _ hk (by decide) (by decide) rfl _ (k2_off248_eq k) _ (k2_off249_eq k) _ _ x) ?_
  refine RowFill.RowFill.step _ 1 k.val 0 24 3 0 (by decide) rfl _ _ _ _ (k2_off247_eq k) _ (fun x => RowFill.pay_eq _ _ 1 1 k.val 0 3 0 _ hk (by decide) (by decide) rfl _ (k2_off246_eq k) _ (k2_off247_eq k) _ _ x) ?_
  refine RowFill.RowFill.step _ 1 k.val 0 23 2 7 (by decide) rfl _ _ _ _ (k2_off245_eq k) _ (fun x => RowFill.pay_eq _ _ 1 1 k.val 0 2 7 _ hk (by decide) (by decide) rfl _ (k2_off244_eq k) _ (k2_off245_eq k) _ _ x) ?_
  refine RowFill.RowFill.step _ 1 k.val 0 22 2 6 (by decide) rfl _ _ _ _ (k2_off243_eq k) _ (fun x => RowFill.pay_eq _ _ 1 1 k.val 0 2 6 _ hk (by decide) (by decide) rfl _ (k2_off242_eq k) _ (k2_off243_eq k) _ _ x) ?_
  refine RowFill.RowFill.step _ 1 k.val 0 21 2 5 (by decide) rfl _ _ _ _ (k2_off241_eq k) _ (fun x => RowFill.pay_eq _ _ 1 1 k.val 0 2 5 _ hk (by decide) (by decide) rfl _ (k2_off240_eq k) _ (k2_off241_eq k) _ _ x) ?_
  refine RowFill.RowFill.step _ 1 k.val 0 20 2 4 (by decide) rfl _ _ _ _ (k2_off239_eq k) _ (fun x => RowFill.pay_eq _ _ 1 1 k.val 0 2 4 _ hk (by decide) (by decide) rfl _ (k2_off238_eq k) _ (k2_off239_eq k) _ _ x) ?_
  refine RowFill.RowFill.step _ 1 k.val 0 19 2 3 (by decide) rfl _ _ _ _ (k2_off237_eq k) _ (fun x => RowFill.pay_eq _ _ 1 1 k.val 0 2 3 _ hk (by decide) (by decide) rfl _ (k2_off236_eq k) _ (k2_off237_eq k) _ _ x) ?_
  refine RowFill.RowFill.step _ 1 k.val 0 18 2 2 (by decide) rfl _ _ _ _ (k2_off235_eq k) _ (fun x => RowFill.pay_eq _ _ 1 1 k.val 0 2 2 _ hk (by decide) (by decide) rfl _ (k2_off234_eq k) _ (k2_off235_eq k) _ _ x) ?_
  refine RowFill.RowFill.step _ 1 k.val 0 17 2 1 (by decide) rfl _ _ _ _ (k2_off233_eq k) _ (fun x => RowFill.pay_eq _ _ 1 1 k.val 0 2 1 _ hk (by decide) (by decide) rfl _ (k2_off232_eq k) _ (k2_off233_eq k) _ _ x) ?_
  refine RowFill.RowFill.step _ 1 k.val 0 16 2 0 (by decide) rfl _ _ _ _ (k2_off231_eq k) _ (fun x => RowFill.pay_eq _ _ 1 1 k.val 0 2 0 _ hk (by decide) (by decide) rfl _ (k2_off230_eq k) _ (k2_off231_eq k) _ _ x) ?_
  refine RowFill.RowFill.step _ 1 k.val 0 15 1 7 (by decide) rfl _ _ _ _ (k2_off229_eq k) _ (fun x => RowFill.pay_eq _ _ 1 1 k.val 0 1 7 _ hk (by decide) (by decide) rfl _ (k2_off228_eq k) _ (k2_off229_eq k) _ _ x) ?_
  refine RowFill.RowFill.step _ 1 k.val 0 14 1 6 (by decide) rfl _ _ _ _ (k2_off227_eq k) _ (fun x => RowFill.pay_eq _ _ 1 1 k.val 0 1 6 _ hk (by decide) (by decide) rfl _ (k2_off226_eq k) _ (k2_off227_eq k) _ _ x) ?_
  refine RowFill.RowFill.step _ 1 k.val 0 13 1 5 (by decide) rfl _ _ _ _ (k2_off225_eq k) _ (fun x => RowFill.pay_eq _ _ 1 1 k.val 0 1 5 _ hk (by decide) (by decide) rfl _ (k2_off224_eq k) _ (k2_off225_eq k) _ _ x) ?_
  refine RowFill.RowFill.step _ 1 k.val 0 12 1 4 (by decide) rfl _ _ _ _ (k2_off223_eq k) _ (fun x => RowFill.pay_eq _ _ 1 1 k.val 0 1 4 _ hk (by decide) (by decide) rfl _ (k2_off222_eq k) _ (k2_off223_eq k) _ _ x) ?_
  refine RowFill.RowFill.step _ 1 k.val 0 11 1 3 (by decide) rfl _ _ _ _ (k2_off221_eq k) _ (fun x => RowFill.pay_eq _ _ 1 1 k.val 0 1 3 _ hk (by decide) (by decide) rfl _ (k2_off220_eq k) _ (k2_off221_eq k) _ _ x) ?_
  refine RowFill.RowFill.step _ 1 k.val 0 10 1 2 (by decide) rfl _ _ _ _ (k2_off219_eq k) _ (fun x => RowFill.pay_eq _ _ 1 1 k.val 0 1 2 _ hk (by decide) (by decide) rfl _ (k2_off218_eq k) _ (k2_off219_eq k) _ _ x) ?_
  refine RowFill.RowFill.step _ 1 k.val 0 9 1 1 (by decide) rfl _ _ _ _ (k2_off217_eq k) _ (fun x => RowFill.pay_eq _ _ 1 1 k.val 0 1 1 _ hk (by decide) (by decide) rfl _ (k2_off216_eq k) _ (k2_off217_eq k) _ _ x) ?_
  refine RowFill.RowFill.step _ 1 k.val 0 8 1 0 (by decide) rfl _ _ _ _ (k2_off215_eq k) _ (fun x => RowFill.pay_eq _ _ 1 1 k.val 0 1 0 _ hk (by decide) (by decide) rfl _ (k2_off214_eq k) _ (k2_off215_eq k) _ _ x) ?_
  refine RowFill.RowFill.step _ 1 k.val 0 7 0 7 (by decide) rfl _ _ _ _ (k2_off213_eq k) _ (fun x => RowFill.pay_eq _ _ 1 1 k.val 0 0 7 _ hk (by decide) (by decide) rfl _ (k2_off212_eq k) _ (k2_off213_eq k) _ _ x) ?_
  refine RowFill.RowFill.step _ 1 k.val 0 6 0 6 (by decide) rfl _ _ _ _ (k2_off211_eq k) _ (fun x => RowFill.pay_eq _ _ 1 1 k.val 0 0 6 _ hk (by decide) (by decide) rfl _ (k2_off210_eq k) _ (k2_off211_eq k) _ _ x) ?_
  refine RowFill.RowFill.step _ 1 k.val 0 5 0 5 (by decide) rfl _ _ _ _ (k2_off209_eq k) _ (fun x => RowFill.pay_eq _ _ 1 1 k.val 0 0 5 _ hk (by decide) (by decide) rfl _ (k2_off208_eq k) _ (k2_off209_eq k) _ _ x) ?_
  refine RowFill.RowFill.step _ 1 k.val 0 4 0 4 (by decide) rfl _ _ _ _ (k2_off207_eq k) _ (fun x => RowFill.pay_eq _ _ 1 1 k.val 0 0 4 _ hk (by decide) (by decide) rfl _ (k2_off206_eq k) _ (k2_off207_eq k) _ _ x) ?_
  refine RowFill.RowFill.step _ 1 k.val 0 3 0 3 (by decide) rfl _ _ _ _ (k2_off205_eq k) _ (fun x => RowFill.pay_eq _ _ 1 1 k.val 0 0 3 _ hk (by decide) (by decide) rfl _ (k2_off204_eq k) _ (k2_off205_eq k) _ _ x) ?_
  refine RowFill.RowFill.step _ 1 k.val 0 2 0 2 (by decide) rfl _ _ _ _ (k2_off203_eq k) _ (fun x => RowFill.pay_eq _ _ 1 1 k.val 0 0 2 _ hk (by decide) (by decide) rfl _ (k2_off202_eq k) _ (k2_off203_eq k) _ _ x) ?_
  refine RowFill.RowFill.step _ 1 k.val 0 1 0 1 (by decide) rfl _ _ _ _ (k2_off201_eq k) _ (fun x => RowFill.pay_eq _ _ 1 1 k.val 0 0 1 _ hk (by decide) (by decide) rfl _ (k2_off200_eq k) _ (k2_off201_eq k) _ _ x) ?_
  refine RowFill.RowFill.step _ 1 k.val 0 0 0 0 (by decide) rfl _ _ _ _ (k2_off199_eq k) _ (fun x => RowFill.pay_eq _ _ 1 1 k.val 0 0 0 _ hk (by decide) (by decide) rfl _ (k2_off198_eq k) _ (k2_off199_eq k) _ _ x) ?_
  exact RowFill.RowFill.zero _ _ _ _ _ _

end Cert.Kernel.TileBody
-- ==== Proof.Bits.TileLoop05.lean ====
/-
  Loop 5 of the tile body: one trip fills one row of a staging slot, sixteen lanes at a time, and leaves the
  loop's invariant at the next row.
-/
import proofs.«206219_g40982577938455_cont_8to1_b_1362_29_alg».proof.Proof.Bits.TileSetup

noncomputable section

namespace Cert.Kernel

open Idealize.ShloMosaic Idealize.SL.Sem
open Cert.Kernel.Gen

variable {F : FTy → Type} [FloatOps F]

/-- The region of the loop, as the kernel's text has it. -/
noncomputable def region05 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_121 : BitVec 32) (c1_i32_123 : BitVec 32) (k2_t5 : Fin k2_t5_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part34 i arg2 harg2 arg3 harg3 arg4 harg4 arg5 harg5 arg6 harg6 arg7 arg8 v661_r0 c0_i32_121 c1_i32_123 k2_t5
  let ⟨v734, c0_i32_809⟩ : Σ' (v734 : FVec F S16 .f32), BitVec 32 ← k2_part35 i arg2 harg2 arg3 harg3 arg4 harg4 arg5 harg5 arg6 harg6 arg7 arg8 v661_r0 k2_t5 arg9 v694
  k2_part36 i arg2 harg2 arg3 harg3 arg4 harg4 arg5 harg5 arg6 harg6 arg7 arg8 v661_r0 k2_t5 arg9 v734 c0_i32_809
  let v810 : FVec F S1x1x1x16 .f32 ← k2_part37 i arg2 harg2 arg3 harg3 arg4 harg4 arg5 harg5 arg6 harg6 arg7 arg8 v661_r0 k2_t5 arg9
  let v844 : FVec F S16 .f32 ← k2_part38 i arg2 harg2 arg3 harg3 arg4 harg4 arg5 harg5 arg6 harg6 arg7 arg8 v661_r0 k2_t5 arg9 v810
  let ⟨v884, c0_i32_869⟩ : Σ' (v884 : FVec F S16 .f32), BitVec 32 ← k2_part39 i arg2 harg2 arg3 harg3 arg4 harg4 arg5 harg5 arg6 harg6 arg7 arg8 v661_r0 k2_t5 arg9 v844
  k2_part40 i arg2 harg2 arg3 harg3 arg4 harg4 arg5 harg5 arg6 harg6 arg7 arg8 v661_r0 k2_t5 arg9 v884 c0_i32_869
  let v960 : FVec F S1x1x1x16 .f32 ← k2_part41 i arg2 harg2 arg3 harg3 arg4 harg4 arg5 harg5 arg6 harg6 arg7 arg8 v661_r0 k2_t5 arg9
  Prog.lift (.store arg6 (Rect.unit (s := S2x32x4x256) (k2_off323 k2_t5) S1x1x1x16.size (k2_off323_inb k2_t5)) v960 Finset.univ (View.stores_vmem_bits_univ h_S1x1x1x16 rfl) (.inl rfl))
  let c0_i32_900 : BitVec 32 := 0#32
  let v961 : Index := Scalar.indexCast c0_i32_900
  let v962 : Index := Scalar.indexCast arg9
  let c480 : Index := 480#32
  let v963 : Vec F S1x1x16 .f32 ← Prog.lift (.load arg5 (Rect.unit (s := S2x32x512) (k2_off324 k2_t5) S1x1x16.size (k2_off324_inb k2_t5)).toLoadRect (View.loadsAt_vmem h_S1x1x16))
  have v964 : FVec F S16 .f32 := shapeCast S16 v963 shapeCasts_S1x1x16_S16
  let c0_i32_901 : BitVec 32 := 0#32
  let c3_i32_902 : BitVec 32 := 3#32
  let v965 : Index := Scalar.indexCast c0_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off325 k2_t5) S1x1x1x16.size (k2_off325_inb k2_t5)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off325 k2_t5) S1x1x1x16.size (k2_off325_inb k2_t5)) v970 Finset.univ (View.stores_vmem_bits_univ h_S1x1x1x16 rfl) (.inl rfl))
  let c0_i32_904 : BitVec 32 := 0#32
  let v971 : Index := Scalar.indexCast c0_i32_904
  let v972 : Index := Scalar.indexCast arg9
  let c496 : Index := 496#32
  let v973 : Vec F S1x1x16 .f32 ← Prog.lift (.load arg5 (Rect.unit (s := S2x32x512) (k2_off326 k2_t5) S1x1x16.size (k2_off326_inb k2_t5)).toLoadRect (View.loadsAt_vmem h_S1x1x16))
  have v974 : FVec F S16 .f32 := shapeCast S16 v973 shapeCasts_S1x1x16_S16
  let c0_i32_905 : BitVec 32 := 0#32
  let c3_i32_906 : BitVec 32 := 3#32
  let v975 : Index := Scalar.indexCast c0_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off327 k2_t5) S1x1x1x16.size (k2_off327_inb k2_t5)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off327 k2_t5) S1x1x1x16.size (k2_off327_inb k2_t5)) v980 Finset.univ (View.stores_vmem_bits_univ h_S1x1x1x16 rfl) (.inl rfl))
  pure ⟨⟩

end Cert.Kernel

namespace Cert.Kernel.TileBody

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop05 (A : Buf (Elt F) ((thr d L).loc cc2_scratch0)) (G : Buf (Elt F) ((thr d L).loc cc2_scratch1))
    (k : Fin k2_t5_loop.trips) (acc : PUnit) :
    (invFill0 (F := F) d L 0 A G k.val acc : sProp 𝕄)
      ⊢ wp frame (wpE (defs₀ (F := F)) 𝒱₀ (thr d L) none) Set.univ
          (region05 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill0 (F := F) d L 0 A G (k.val + 1)) := by
  have hk : (k : ℕ) < 32 := lt_of_lt_of_le k.isLt k2_t5_abs.2.1
  unfold invFill0 region05
  iintro ⟨Ha0, %h, Hb0, %hF⟩
  sl_exec
  sl_step
  isplitl [Ha0]; · iexact Ha0
  iexists _; isplitl [Hb0]; · iexact Hb0
  ipureintro
  refine RowFill.Filled.succ _ 0 0 k.val _ _ h _ hF ?_
  refine RowFill.RowFill.step _ 0 k.val 0 31 3 7 (by decide) rfl _ _ _ _ (k2_off327_eq k) _ (fun x => RowFill.pay_eq _ _ 0 0 k.val 0 3 7 _ hk (by decide) (by decide) rfl _ (k2_off326_eq k) _ (k2_off327_eq k) _ _ x) ?_
  refine RowFill.RowFill.step _ 0 k.val 0 30 3 6 (by decide) rfl _ _ _ _ (k2_off325_eq k) _ (fun x => RowFill.pay_eq _ _ 0 0 k.val 0 3 6 _ hk (by decide) (by decide) rfl _ (k2_off324_eq k) _ (k2_off325_eq k) _ _ x) ?_
  refine RowFill.RowFill.step _ 0 k.val 0 29 3 5 (by decide) rfl _ _ _ _ (k2_off323_eq k) _ (fun x => RowFill.pay_eq _ _ 0 0 k.val 0 3 5 _ hk (by decide) (by decide) rfl _ (k2_off322_eq k) _ (k2_off323_eq k) _ _ x) ?_
  refine RowFill.RowFill.step _ 0 k.val 0 28 3 4 (by decide) rfl _ _ _ _ (k2_off321_eq k) _ (fun x => RowFill.pay_eq _ _ 0 0 k.val 0 3 4 _ hk (by decide) (by decide) rfl _ (k2_off320_eq k) _ (k2_off321_eq k) _ _ x) ?_
  refine RowFill.RowFill.step _ 0 k.val 0 27 3 3 (by decide) rfl _ _ _ _ (k2_off319_eq k) _ (fun x => RowFill.pay_eq _ _ 0 0 k.val 0 3 3 _ hk (by decide) (by decide) rfl _ (k2_off318_eq k) _ (k2_off319_eq k) _ _ x) ?_
  refine RowFill.RowFill.step _ 0 k.val 0 26 3 2 (by decide) rfl _ _ _ _ (k2_off317_eq k) _ (fun x => RowFill.pay_eq _ _ 0 0 k.val 0 3 2 _ hk (by decide) (by decide) rfl _ (k2_off316_eq k) _ (k2_off317_eq k) _ _ x) ?_
  refine RowFill.RowFill.step _ 0 k.val 0 25 3 1 (by decide) rfl _ _ _ _ (k2_off315_eq k) _ (fun x => RowFill.pay_eq _ _ 0 0 k.val 0 3 1 _ hk (by decide) (by decide) rfl _ (k2_off314_eq k) _ (k2_off315_eq k) _ _ x) ?_
  refine RowFill.RowFill.step _ 0 k.val 0 24 3 0 (by decide) rfl _ _ _ _ (k2_off313_eq k) _ (fun x => RowFill.pay_eq _ _ 0 0 k.val 0 3 0 _ hk (by decide) (by decide) rfl _ (k2_off312_eq k) _ (k2_off313_eq k) _ _ x) ?_
  refine RowFill.RowFill.step _ 0 k.val 0 23 2 7 (by decide) rfl _ _ _ _ (k2_off311_eq k) _ (fun x => RowFill.pay_eq _ _ 0 0 k.val 0 2 7 _ hk (by decide) (by decide) rfl _ (k2_off310_eq k) _ (k2_off311_eq k) _ _ x) ?_
  refine RowFill.RowFill.step _ 0 k.val 0 22 2 6 (by decide) rfl _ _ _ _ (k2_off309_eq k) _ (fun x => RowFill.pay_eq _ _ 0 0 k.val 0 2 6 _ hk (by decide) (by decide) rfl _ (k2_off308_eq k) _ (k2_off309_eq k) _ _ x) ?_
  refine RowFill.RowFill.step _ 0 k.val 0 21 2 5 (by decide) rfl _ _ _ _ (k2_off307_eq k) _ (fun x => RowFill.pay_eq _ _ 0 0 k.val 0 2 5 _ hk (by decide) (by decide) rfl _ (k2_off306_eq k) _ (k2_off307_eq k) _ _ x) ?_
  refine RowFill.RowFill.step _ 0 k.val 0 20 2 4 (by decide) rfl _ _ _ _ (k2_off305_eq k) _ (fun x => RowFill.pay_eq _ _ 0 0 k.val 0 2 4 _ hk (by decide) (by decide) rfl _ (k2_off304_eq k) _ (k2_off305_eq k) _ _ x) ?_
  refine RowFill.RowFill.step _ 0 k.val 0 19 2 3 (by decide) rfl _ _ _ _ (k2_off303_eq k) _ (fun x => RowFill.pay_eq _ _ 0 0 k.val 0 2 3 _ hk (by decide) (by decide) rfl _ (k2_off302_eq k) _ (k2_off303_eq k) _ _ x) ?_
  refine RowFill.RowFill.step _ 0 k.val 0 18 2 2 (by decide) rfl _ _ _ _ (k2_off301_eq k) _ (fun x => RowFill.pay_eq _ _ 0 0 k.val 0 2 2 _ hk (by decide) (by decide) rfl _ (k2_off300_eq k) _ (k2_off301_eq k) _ _ x) ?_
  refine RowFill.RowFill.step _ 0 k.val 0 17 2 1 (by decide) rfl _ _ _ _ (k2_off299_eq k) _ (fun x => RowFill.pay_eq _ _ 0 0 k.val 0 2 1 _ hk (by decide) (by decide) rfl _ (k2_off298_eq k) _ (k2_off299_eq k) _ _ x) ?_
  refine RowFill.RowFill.step _ 0 k.val 0 16 2 0 (by decide) rfl _ _ _ _ (k2_off297_eq k) _ (fun x => RowFill.pay_eq _ _ 0 0 k.val 0 2 0 _ hk (by decide) (by decide) rfl _ (k2_off296_eq k) _ (k2_off297_eq k) _ _ x) ?_
  refine RowFill.RowFill.step _ 0 k.val 0 15 1 7 (by decide) rfl _ _ _ _ (k2_off295_eq k) _ (fun x => RowFill.pay_eq _ _ 0 0 k.val 0 1 7 _ hk (by decide) (by decide) rfl _ (k2_off294_eq k) _ (k2_off295_eq k) _ _ x) ?_
  refine RowFill.RowFill.step _ 0 k.val 0 14 1 6 (by decide) rfl _ _ _ _ (k2_off293_eq k) _ (fun x => RowFill.pay_eq _ _ 0 0 k.val 0 1 6 _ hk (by decide) (by decide) rfl _ (k2_off292_eq k) _ (k2_off293_eq k) _ _ x) ?_
  refine RowFill.RowFill.step _ 0 k.val 0 13 1 5 (by decide) rfl _ _ _ _ (k2_off291_eq k) _ (fun x => RowFill.pay_eq _ _ 0 0 k.val 0 1 5 _ hk (by decide) (by decide) rfl _ (k2_off290_eq k) _ (k2_off291_eq k) _ _ x) ?_
  refine RowFill.RowFill.step _ 0 k.val 0 12 1 4 (by decide) rfl _ _ _ _ (k2_off289_eq k) _ (fun x => RowFill.pay_eq _ _ 0 0 k.val 0 1 4 _ hk (by decide) (by decide) rfl _ (k2_off288_eq k) _ (k2_off289_eq k) _ _ x) ?_
  refine RowFill.RowFill.step _ 0 k.val 0 11 1 3 (by decide) rfl _ _ _ _ (k2_off287_eq k) _ (fun x => RowFill.pay_eq _ _ 0 0 k.val 0 1 3 _ hk (by decide) (by decide) rfl _ (k2_off286_eq k) _ (k2_off287_eq k) _ _ x) ?_
  refine RowFill.RowFill.step _ 0 k.val 0 10 1 2 (by decide) rfl _ _ _ _ (k2_off285_eq k) _ (fun x => RowFill.pay_eq _ _ 0 0 k.val 0 1 2 _ hk (by decide) (by decide) rfl _ (k2_off284_eq k) _ (k2_off285_eq k) _ _ x) ?_
  refine RowFill.RowFill.step _ 0 k.val 0 9 1 1 (by decide) rfl _ _ _ _ (k2_off283_eq k) _ (fun x => RowFill.pay_eq _ _ 0 0 k.val 0 1 1 _ hk (by decide) (by decide) rfl _ (k2_off282_eq k) _ (k2_off283_eq k) _ _ x) ?_
  refine RowFill.RowFill.step _ 0 k.val 0 8 1 0 (by decide) rfl _ _ _ _ (k2_off281_eq k) _ (fun x => RowFill.pay_eq _ _ 0 0 k.val 0 1 0 _ hk (by decide) (by decide) rfl _ (k2_off280_eq k) _ (k2_off281_eq k) _ _ x) ?_
  refine RowFill.RowFill.step _ 0 k.val 0 7 0 7 (by decide) rfl _ _ _ _ (k2_off279_eq k) _ (fun x => RowFill.pay_eq _ _ 0 0 k.val 0 0 7 _ hk (by decide) (by decide) rfl _ (k2_off278_eq k) _ (k2_off279_eq k) _ _ x) ?_
  refine RowFill.RowFill.step _ 0 k.val 0 6 0 6 (by decide) rfl _ _ _ _ (k2_off277_eq k) _ (fun x => RowFill.pay_eq _ _ 0 0 k.val 0 0 6 _ hk (by decide) (by decide) rfl _ (k2_off276_eq k) _ (k2_off277_eq k) _ _ x) ?_
  refine RowFill.RowFill.step _ 0 k.val 0 5 0 5 (by decide) rfl _ _ _ _ (k2_off275_eq k) _ (fun x => RowFill.pay_eq _ _ 0 0 k.val 0 0 5 _ hk (by decide) (by decide) rfl _ (k2_off274_eq k) _ (k2_off275_eq k) _ _ x) ?_
  refine RowFill.RowFill.step _ 0 k.val 0 4 0 4 (by decide) rfl _ _ _ _ (k2_off273_eq k) _ (fun x => RowFill.pay_eq _ _ 0 0 k.val 0 0 4 _ hk (by decide) (by decide) rfl _ (k2_off272_eq k) _ (k2_off273_eq k) _ _ x) ?_
  refine RowFill.RowFill.step _ 0 k.val 0 3 0 3 (by decide) rfl _ _ _ _ (k2_off271_eq k) _ (fun x => RowFill.pay_eq _ _ 0 0 k.val 0 0 3 _ hk (by decide) (by decide) rfl _ (k2_off270_eq k) _ (k2_off271_eq k) _ _ x) ?_
  refine RowFill.RowFill.step _ 0 k.val 0 2 0 2 (by decide) rfl _ _ _ _ (k2_off269_eq k) _ (fun x => RowFill.pay_eq _ _ 0 0 k.val 0 0 2 _ hk (by decide) (by decide) rfl _ (k2_off268_eq k) _ (k2_off269_eq k) _ _ x) ?_
  refine RowFill.RowFill.step _ 0 k.val 0 1 0 1 (by decide) rfl _ _ _ _ (k2_off267_eq k) _ (fun x => RowFill.pay_eq _ _ 0 0 k.val 0 0 1 _ hk (by decide) (by decide) rfl _ (k2_off266_eq k) _ (k2_off267_eq k) _ _ x) ?_
  refine RowFill.RowFill.step _ 0 k.val 0 0 0 0 (by decide) rfl _ _ _ _ (k2_off265_eq k) _ (fun x => RowFill.pay_eq _ _ 0 0 k.val 0 0 0 _ hk (by decide) (by decide) rfl _ (k2_off264_eq k) _ (k2_off265_eq k) _ _ x) ?_
  exact RowFill.RowFill.zero _ _ _ _ _ _

end Cert.Kernel.TileBody
-- ==== Proof.Bits.TileLoop06.lean ====
/-
  Loop 6 of the tile body: one trip fills one row of a staging slot, sixteen lanes at a time, and leaves the
  loop's invariant at the next row.
-/
import proofs.«206219_g40982577938455_cont_8to1_b_1362_29_alg».proof.Proof.Bits.TileSetup

noncomputable section

namespace Cert.Kernel

open Idealize.ShloMosaic Idealize.SL.Sem
open Cert.Kernel.Gen

variable {F : FTy → Type} [FloatOps F]

/-- The region of the loop, as the kernel's text has it. -/
noncomputable def region06 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_169 : BitVec 32) (c1_i32_171 : BitVec 32) (k2_t6 : Fin k2_t6_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part42 i arg2 harg2 arg3 harg3 arg4 harg4 arg5 harg5 arg6 harg6 arg7 arg8 v661_r0 c0_i32_169 c1_i32_171 k2_t6
  let ⟨v734, c1_i32_809⟩ : Σ' (v734 : FVec F S16 .f32), BitVec 32 ← k2_part43 i arg2 harg2 arg3 harg3 arg4 harg4 arg5 harg5 arg6 harg6 arg7 arg8 v661_r0 k2_t6 arg9 v694
  k2_part44 i arg2 harg2 arg3 harg3 arg4 harg4 arg5 harg5 arg6 harg6 arg7 arg8 v661_r0 k2_t6 arg9 v734 c1_i32_809
  let v810 : FVec F S1x1x1x16 .f32 ← k2_part45 i arg2 harg2 arg3 harg3 arg4 harg4 arg5 harg5 arg6 harg6 arg7 arg8 v661_r0 k2_t6 arg9
  let v844 : FVec F S16 .f32 ← k2_part46 i arg2 harg2 arg3 harg3 arg4 harg4 arg5 harg5 arg6 harg6 arg7 arg8 v661_r0 k2_t6 arg9 v810
  let ⟨v884, c1_i32_869⟩ : Σ' (v884 : FVec F S16 .f32), BitVec 32 ← k2_part47 i arg2 harg2 arg3 harg3 arg4 harg4 arg5 harg5 arg6 harg6 arg7 arg8 v661_r0 k2_t6 arg9 v844
  k2_part48 i arg2 harg2 arg3 harg3 arg4 harg4 arg5 harg5 arg6 harg6 arg7 arg8 v661_r0 k2_t6 arg9 v884 c1_i32_869
  let v960 : FVec F S1x1x1x16 .f32 ← k2_part49 i arg2 harg2 arg3 harg3 arg4 harg4 arg5 harg5 arg6 harg6 arg7 arg8 v661_r0 k2_t6 arg9
  Prog.lift (.store arg6 (Rect.unit (s := S2x32x4x256) (k2_off389 k2_t6) S1x1x1x16.size (k2_off389_inb k2_t6)) v960 Finset.univ (View.stores_vmem_bits_univ h_S1x1x1x16 rfl) (.inl rfl))
  let c1_i32_900 : BitVec 32 := 1#32
  let v961 : Index := Scalar.indexCast c1_i32_900
  let v962 : Index := Scalar.indexCast arg9
  let c480 : Index := 480#32
  let v963 : Vec F S1x1x16 .f32 ← Prog.lift (.load arg5 (Rect.unit (s := S2x32x512) (k2_off390 k2_t6) S1x1x16.size (k2_off390_inb k2_t6)).toLoadRect (View.loadsAt_vmem h_S1x1x16))
  have v964 : FVec F S16 .f32 := shapeCast S16 v963 shapeCasts_S1x1x16_S16
  let c1_i32_901 : BitVec 32 := 1#32
  let c3_i32_902 : BitVec 32 := 3#32
  let v965 : Index := Scalar.indexCast c1_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off391 k2_t6) S1x1x1x16.size (k2_off391_inb k2_t6)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off391 k2_t6) S1x1x1x16.size (k2_off391_inb k2_t6)) v970 Finset.univ (View.stores_vmem_bits_univ h_S1x1x1x16 rfl) (.inl rfl))
  let c1_i32_904 : BitVec 32 := 1#32
  let v971 : Index := Scalar.indexCast c1_i32_904
  let v972 : Index := Scalar.indexCast arg9
  let c496 : Index := 496#32
  let v973 : Vec F S1x1x16 .f32 ← Prog.lift (.load arg5 (Rect.unit (s := S2x32x512) (k2_off392 k2_t6) S1x1x16.size (k2_off392_inb k2_t6)).toLoadRect (View.loadsAt_vmem h_S1x1x16))
  have v974 : FVec F S16 .f32 := shapeCast S16 v973 shapeCasts_S1x1x16_S16
  let c1_i32_905 : BitVec 32 := 1#32
  let c3_i32_906 : BitVec 32 := 3#32
  let v975 : Index := Scalar.indexCast c1_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off393 k2_t6) S1x1x1x16.size (k2_off393_inb k2_t6)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off393 k2_t6) S1x1x1x16.size (k2_off393_inb k2_t6)) v980 Finset.univ (View.stores_vmem_bits_univ h_S1x1x1x16 rfl) (.inl rfl))
  pure ⟨⟩

end Cert.Kernel

namespace Cert.Kernel.TileBody

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop06 (A : Buf (Elt F) ((thr d L).loc cc2_scratch0)) (G : Buf (Elt F) ((thr d L).loc cc2_scratch1))
    (k : Fin k2_t6_loop.trips) (acc : PUnit) :
    (invFill1 (F := F) d L 0 A G k.val acc : sProp 𝕄)
      ⊢ wp frame (wpE (defs₀ (F := F)) 𝒱₀ (thr d L) none) Set.univ
          (region06 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill1 (F := F) d L 0 A G (k.val + 1)) := by
  have hk : (k : ℕ) < 32 := lt_of_lt_of_le k.isLt k2_t6_abs.2.1
  unfold invFill1 region06
  iintro ⟨Ha1, %h, Hb1, %hF⟩
  sl_exec
  sl_step
  isplitl [Ha1]; · iexact Ha1
  iexists _; isplitl [Hb1]; · iexact Hb1
  ipureintro
  refine RowFill.Filled.succ _ 1 0 k.val _ _ h _ hF ?_
  refine RowFill.RowFill.step _ 1 k.val 0 31 3 7 (by decide) rfl _ _ _ _ (k2_off393_eq k) _ (fun x => RowFill.pay_eq _ _ 1 1 k.val 0 3 7 _ hk (by decide) (by decide) rfl _ (k2_off392_eq k) _ (k2_off393_eq k) _ _ x) ?_
  refine RowFill.RowFill.step _ 1 k.val 0 30 3 6 (by decide) rfl _ _ _ _ (k2_off391_eq k) _ (fun x => RowFill.pay_eq _ _ 1 1 k.val 0 3 6 _ hk (by decide) (by decide) rfl _ (k2_off390_eq k) _ (k2_off391_eq k) _ _ x) ?_
  refine RowFill.RowFill.step _ 1 k.val 0 29 3 5 (by decide) rfl _ _ _ _ (k2_off389_eq k) _ (fun x => RowFill.pay_eq _ _ 1 1 k.val 0 3 5 _ hk (by decide) (by decide) rfl _ (k2_off388_eq k) _ (k2_off389_eq k) _ _ x) ?_
  refine RowFill.RowFill.step _ 1 k.val 0 28 3 4 (by decide) rfl _ _ _ _ (k2_off387_eq k) _ (fun x => RowFill.pay_eq _ _ 1 1 k.val 0 3 4 _ hk (by decide) (by decide) rfl _ (k2_off386_eq k) _ (k2_off387_eq k) _ _ x) ?_
  refine RowFill.RowFill.step _ 1 k.val 0 27 3 3 (by decide) rfl _ _ _ _ (k2_off385_eq k) _ (fun x => RowFill.pay_eq _ _ 1 1 k.val 0 3 3 _ hk (by decide) (by decide) rfl _ (k2_off384_eq k) _ (k2_off385_eq k) _ _ x) ?_
  refine RowFill.RowFill.step _ 1 k.val 0 26 3 2 (by decide) rfl _ _ _ _ (k2_off383_eq k) _ (fun x => RowFill.pay_eq _ _ 1 1 k.val 0 3 2 _ hk (by decide) (by decide) rfl _ (k2_off382_eq k) _ (k2_off383_eq k) _ _ x) ?_
  refine RowFill.RowFill.step _ 1 k.val 0 25 3 1 (by decide) rfl _ _ _ _ (k2_off381_eq k) _ (fun x => RowFill.pay_eq _ _ 1 1 k.val 0 3 1 _ hk (by decide) (by decide) rfl _ (k2_off380_eq k) _ (k2_off381_eq k) _ _ x) ?_
  refine RowFill.RowFill.step _ 1 k.val 0 24 3 0 (by decide) rfl _ _ _ _ (k2_off379_eq k) _ (fun x => RowFill.pay_eq _ _ 1 1 k.val 0 3 0 _ hk (by decide) (by decide) rfl _ (k2_off378_eq k) _ (k2_off379_eq k) _ _ x) ?_
  refine RowFill.RowFill.step _ 1 k.val 0 23 2 7 (by decide) rfl _ _ _ _ (k2_off377_eq k) _ (fun x => RowFill.pay_eq _ _ 1 1 k.val 0 2 7 _ hk (by decide) (by decide) rfl _ (k2_off376_eq k) _ (k2_off377_eq k) _ _ x) ?_
  refine RowFill.RowFill.step _ 1 k.val 0 22 2 6 (by decide) rfl _ _ _ _ (k2_off375_eq k) _ (fun x => RowFill.pay_eq _ _ 1 1 k.val 0 2 6 _ hk (by decide) (by decide) rfl _ (k2_off374_eq k) _ (k2_off375_eq k) _ _ x) ?_
  refine RowFill.RowFill.step _ 1 k.val 0 21 2 5 (by decide) rfl _ _ _ _ (k2_off373_eq k) _ (fun x => RowFill.pay_eq _ _ 1 1 k.val 0 2 5 _ hk (by decide) (by decide) rfl _ (k2_off372_eq k) _ (k2_off373_eq k) _ _ x) ?_
  refine RowFill.RowFill.step _ 1 k.val 0 20 2 4 (by decide) rfl _ _ _ _ (k2_off371_eq k) _ (fun x => RowFill.pay_eq _ _ 1 1 k.val 0 2 4 _ hk (by decide) (by decide) rfl _ (k2_off370_eq k) _ (k2_off371_eq k) _ _ x) ?_
  refine RowFill.RowFill.step _ 1 k.val 0 19 2 3 (by decide) rfl _ _ _ _ (k2_off369_eq k) _ (fun x => RowFill.pay_eq _ _ 1 1 k.val 0 2 3 _ hk (by decide) (by decide) rfl _ (k2_off368_eq k) _ (k2_off369_eq k) _ _ x) ?_
  refine RowFill.RowFill.step _ 1 k.val 0 18 2 2 (by decide) rfl _ _ _ _ (k2_off367_eq k) _ (fun x => RowFill.pay_eq _ _ 1 1 k.val 0 2 2 _ hk (by decide) (by decide) rfl _ (k2_off366_eq k) _ (k2_off367_eq k) _ _ x) ?_
  refine RowFill.RowFill.step _ 1 k.val 0 17 2 1 (by decide) rfl _ _ _ _ (k2_off365_eq k) _ (fun x => RowFill.pay_eq _ _ 1 1 k.val 0 2 1 _ hk (by decide) (by decide) rfl _ (k2_off364_eq k) _ (k2_off365_eq k) _ _ x) ?_
  refine RowFill.RowFill.step _ 1 k.val 0 16 2 0 (by decide) rfl _ _ _ _ (k2_off363_eq k) _ (fun x => RowFill.pay_eq _ _ 1 1 k.val 0 2 0 _ hk (by decide) (by decide) rfl _ (k2_off362_eq k) _ (k2_off363_eq k) _ _ x) ?_
  refine RowFill.RowFill.step _ 1 k.val 0 15 1 7 (by decide) rfl _ _ _ _ (k2_off361_eq k) _ (fun x => RowFill.pay_eq _ _ 1 1 k.val 0 1 7 _ hk (by decide) (by decide) rfl _ (k2_off360_eq k) _ (k2_off361_eq k) _ _ x) ?_
  refine RowFill.RowFill.step _ 1 k.val 0 14 1 6 (by decide) rfl _ _ _ _ (k2_off359_eq k) _ (fun x => RowFill.pay_eq _ _ 1 1 k.val 0 1 6 _ hk (by decide) (by decide) rfl _ (k2_off358_eq k) _ (k2_off359_eq k) _ _ x) ?_
  refine RowFill.RowFill.step _ 1 k.val 0 13 1 5 (by decide) rfl _ _ _ _ (k2_off357_eq k) _ (fun x => RowFill.pay_eq _ _ 1 1 k.val 0 1 5 _ hk (by decide) (by decide) rfl _ (k2_off356_eq k) _ (k2_off357_eq k) _ _ x) ?_
  refine RowFill.RowFill.step _ 1 k.val 0 12 1 4 (by decide) rfl _ _ _ _ (k2_off355_eq k) _ (fun x => RowFill.pay_eq _ _ 1 1 k.val 0 1 4 _ hk (by decide) (by decide) rfl _ (k2_off354_eq k) _ (k2_off355_eq k) _ _ x) ?_
  refine RowFill.RowFill.step _ 1 k.val 0 11 1 3 (by decide) rfl _ _ _ _ (k2_off353_eq k) _ (fun x => RowFill.pay_eq _ _ 1 1 k.val 0 1 3 _ hk (by decide) (by decide) rfl _ (k2_off352_eq k) _ (k2_off353_eq k) _ _ x) ?_
  refine RowFill.RowFill.step _ 1 k.val 0 10 1 2 (by decide) rfl _ _ _ _ (k2_off351_eq k) _ (fun x => RowFill.pay_eq _ _ 1 1 k.val 0 1 2 _ hk (by decide) (by decide) rfl _ (k2_off350_eq k) _ (k2_off351_eq k) _ _ x) ?_
  refine RowFill.RowFill.step _ 1 k.val 0 9 1 1 (by decide) rfl _ _ _ _ (k2_off349_eq k) _ (fun x => RowFill.pay_eq _ _ 1 1 k.val 0 1 1 _ hk (by decide) (by decide) rfl _ (k2_off348_eq k) _ (k2_off349_eq k) _ _ x) ?_
  refine RowFill.RowFill.step _ 1 k.val 0 8 1 0 (by decide) rfl _ _ _ _ (k2_off347_eq k) _ (fun x => RowFill.pay_eq _ _ 1 1 k.val 0 1 0 _ hk (by decide) (by decide) rfl _ (k2_off346_eq k) _ (k2_off347_eq k) _ _ x) ?_
  refine RowFill.RowFill.step _ 1 k.val 0 7 0 7 (by decide) rfl _ _ _ _ (k2_off345_eq k) _ (fun x => RowFill.pay_eq _ _ 1 1 k.val 0 0 7 _ hk (by decide) (by decide) rfl _ (k2_off344_eq k) _ (k2_off345_eq k) _ _ x) ?_
  refine RowFill.RowFill.step _ 1 k.val 0 6 0 6 (by decide) rfl _ _ _ _ (k2_off343_eq k) _ (fun x => RowFill.pay_eq _ _ 1 1 k.val 0 0 6 _ hk (by decide) (by decide) rfl _ (k2_off342_eq k) _ (k2_off343_eq k) _ _ x) ?_
  refine RowFill.RowFill.step _ 1 k.val 0 5 0 5 (by decide) rfl _ _ _ _ (k2_off341_eq k) _ (fun x => RowFill.pay_eq _ _ 1 1 k.val 0 0 5 _ hk (by decide) (by decide) rfl _ (k2_off340_eq k) _ (k2_off341_eq k) _ _ x) ?_
  refine RowFill.RowFill.step _ 1 k.val 0 4 0 4 (by decide) rfl _ _ _ _ (k2_off339_eq k) _ (fun x => RowFill.pay_eq _ _ 1 1 k.val 0 0 4 _ hk (by decide) (by decide) rfl _ (k2_off338_eq k) _ (k2_off339_eq k) _ _ x) ?_
  refine RowFill.RowFill.step _ 1 k.val 0 3 0 3 (by decide) rfl _ _ _ _ (k2_off337_eq k) _ (fun x => RowFill.pay_eq _ _ 1 1 k.val 0 0 3 _ hk (by decide) (by decide) rfl _ (k2_off336_eq k) _ (k2_off337_eq k) _ _ x) ?_
  refine RowFill.RowFill.step _ 1 k.val 0 2 0 2 (by decide) rfl _ _ _ _ (k2_off335_eq k) _ (fun x => RowFill.pay_eq _ _ 1 1 k.val 0 0 2 _ hk (by decide) (by decide) rfl _ (k2_off334_eq k) _ (k2_off335_eq k) _ _ x) ?_
  refine RowFill.RowFill.step _ 1 k.val 0 1 0 1 (by decide) rfl _ _ _ _ (k2_off333_eq k) _ (fun x => RowFill.pay_eq _ _ 1 1 k.val 0 0 1 _ hk (by decide) (by decide) rfl _ (k2_off332_eq k) _ (k2_off333_eq k) _ _ x) ?_
  refine RowFill.RowFill.step _ 1 k.val 0 0 0 0 (by decide) rfl _ _ _ _ (k2_off331_eq k) _ (fun x => RowFill.pay_eq _ _ 1 1 k.val 0 0 0 _ hk (by decide) (by decide) rfl _ (k2_off330_eq k) _ (k2_off331_eq k) _ _ x) ?_
  exact RowFill.RowFill.zero _ _ _ _ _ _

end Cert.Kernel.TileBody
-- ==== Proof.Bits.TileLoop07.lean ====
/-
  Loop 7 of the tile body: one trip fills one row of a staging slot, sixteen lanes at a time, and leaves the
  loop's invariant at the next row.
-/
import proofs.«206219_g40982577938455_cont_8to1_b_1362_29_alg».proof.Proof.Bits.TileSetup

noncomputable section

namespace Cert.Kernel

open Idealize.ShloMosaic Idealize.SL.Sem
open Cert.Kernel.Gen

variable {F : FTy → Type} [FloatOps F]

/-- The region of the loop, as the kernel's text has it. -/
noncomputable def region07 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_217 : BitVec 32) (c1_i32_219 : BitVec 32) (k2_t7 : Fin k2_t7_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part50 i arg2 harg2 arg3 harg3 arg4 harg4 arg5 harg5 arg6 harg6 arg7 arg8 v661_r0 c0_i32_217 c1_i32_219 k2_t7
  let ⟨v734, c0_i32_809⟩ : Σ' (v734 : FVec F S16 .f32), BitVec 32 ← k2_part51 i arg2 harg2 arg3 harg3 arg4 harg4 arg5 harg5 arg6 harg6 arg7 arg8 v661_r0 k2_t7 arg9 v694
  k2_part52 i arg2 harg2 arg3 harg3 arg4 harg4 arg5 harg5 arg6 harg6 arg7 arg8 v661_r0 k2_t7 arg9 v734 c0_i32_809
  let v810 : FVec F S1x1x1x16 .f32 ← k2_part53 i arg2 harg2 arg3 harg3 arg4 harg4 arg5 harg5 arg6 harg6 arg7 arg8 v661_r0 k2_t7 arg9
  let v844 : FVec F S16 .f32 ← k2_part54 i arg2 harg2 arg3 harg3 arg4 harg4 arg5 harg5 arg6 harg6 arg7 arg8 v661_r0 k2_t7 arg9 v810
  let ⟨v884, c0_i32_869⟩ : Σ' (v884 : FVec F S16 .f32), BitVec 32 ← k2_part55 i arg2 harg2 arg3 harg3 arg4 harg4 arg5 harg5 arg6 harg6 arg7 arg8 v661_r0 k2_t7 arg9 v844
  k2_part56 i arg2 harg2 arg3 harg3 arg4 harg4 arg5 harg5 arg6 harg6 arg7 arg8 v661_r0 k2_t7 arg9 v884 c0_i32_869
  let v960 : FVec F S1x1x1x16 .f32 ← k2_part57 i arg2 harg2 arg3 harg3 arg4 harg4 arg5 harg5 arg6 harg6 arg7 arg8 v661_r0 k2_t7 arg9
  Prog.lift (.store arg6 (Rect.unit (s := S2x32x4x256) (k2_off455 k2_t7) S1x1x1x16.size (k2_off455_inb k2_t7)) v960 Finset.univ (View.stores_vmem_bits_univ h_S1x1x1x16 rfl) (.inl rfl))
  let c0_i32_900 : BitVec 32 := 0#32
  let v961 : Index := Scalar.indexCast c0_i32_900
  let v962 : Index := Scalar.indexCast arg9
  let c480 : Index := 480#32
  let v963 : Vec F S1x1x16 .f32 ← Prog.lift (.load arg5 (Rect.unit (s := S2x32x512) (k2_off456 k2_t7) S1x1x16.size (k2_off456_inb k2_t7)).toLoadRect (View.loadsAt_vmem h_S1x1x16))
  have v964 : FVec F S16 .f32 := shapeCast S16 v963 shapeCasts_S1x1x16_S16
  let c0_i32_901 : BitVec 32 := 0#32
  let c3_i32_902 : BitVec 32 := 3#32
  let v965 : Index := Scalar.indexCast c0_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off457 k2_t7) S1x1x1x16.size (k2_off457_inb k2_t7)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off457 k2_t7) S1x1x1x16.size (k2_off457_inb k2_t7)) v970 Finset.univ (View.stores_vmem_bits_univ h_S1x1x1x16 rfl) (.inl rfl))
  let c0_i32_904 : BitVec 32 := 0#32
  let v971 : Index := Scalar.indexCast c0_i32_904
  let v972 : Index := Scalar.indexCast arg9
  let c496 : Index := 496#32
  let v973 : Vec F S1x1x16 .f32 ← Prog.lift (.load arg5 (Rect.unit (s := S2x32x512) (k2_off458 k2_t7) S1x1x16.size (k2_off458_inb k2_t7)).toLoadRect (View.loadsAt_vmem h_S1x1x16))
  have v974 : FVec F S16 .f32 := shapeCast S16 v973 shapeCasts_S1x1x16_S16
  let c0_i32_905 : BitVec 32 := 0#32
  let c3_i32_906 : BitVec 32 := 3#32
  let v975 : Index := Scalar.indexCast c0_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off459 k2_t7) S1x1x1x16.size (k2_off459_inb k2_t7)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off459 k2_t7) S1x1x1x16.size (k2_off459_inb k2_t7)) v980 Finset.univ (View.stores_vmem_bits_univ h_S1x1x1x16 rfl) (.inl rfl))
  pure ⟨⟩

end Cert.Kernel

namespace Cert.Kernel.TileBody

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop07 (A : Buf (Elt F) ((thr d L).loc cc2_scratch0)) (G : Buf (Elt F) ((thr d L).loc cc2_scratch1))
    (k : Fin k2_t7_loop.trips) (acc : PUnit) :
    (invFill0 (F := F) d L 0 A G k.val acc : sProp 𝕄)
      ⊢ wp frame (wpE (defs₀ (F := F)) 𝒱₀ (thr d L) none) Set.univ
          (region07 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill0 (F := F) d L 0 A G (k.val + 1)) := by
  have hk : (k : ℕ) < 32 := lt_of_lt_of_le k.isLt k2_t7_abs.2.1
  unfold invFill0 region07
  iintro ⟨Ha0, %h, Hb0, %hF⟩
  sl_exec
  sl_step
  isplitl [Ha0]; · iexact Ha0
  iexists _; isplitl [Hb0]; · iexact Hb0
  ipureintro
  refine RowFill.Filled.succ _ 0 0 k.val _ _ h _ hF ?_
  refine RowFill.RowFill.step _ 0 k.val 0 31 3 7 (by decide) rfl _ _ _ _ (k2_off459_eq k) _ (fun x => RowFill.pay_eq _ _ 0 0 k.val 0 3 7 _ hk (by decide) (by decide) rfl _ (k2_off458_eq k) _ (k2_off459_eq k) _ _ x) ?_
  refine RowFill.RowFill.step _ 0 k.val 0 30 3 6 (by decide) rfl _ _ _ _ (k2_off457_eq k) _ (fun x => RowFill.pay_eq _ _ 0 0 k.val 0 3 6 _ hk (by decide) (by decide) rfl _ (k2_off456_eq k) _ (k2_off457_eq k) _ _ x) ?_
  refine RowFill.RowFill.step _ 0 k.val 0 29 3 5 (by decide) rfl _ _ _ _ (k2_off455_eq k) _ (fun x => RowFill.pay_eq _ _ 0 0 k.val 0 3 5 _ hk (by decide) (by decide) rfl _ (k2_off454_eq k) _ (k2_off455_eq k) _ _ x) ?_
  refine RowFill.RowFill.step _ 0 k.val 0 28 3 4 (by decide) rfl _ _ _ _ (k2_off453_eq k) _ (fun x => RowFill.pay_eq _ _ 0 0 k.val 0 3 4 _ hk (by decide) (by decide) rfl _ (k2_off452_eq k) _ (k2_off453_eq k) _ _ x) ?_
  refine RowFill.RowFill.step _ 0 k.val 0 27 3 3 (by decide) rfl _ _ _ _ (k2_off451_eq k) _ (fun x => RowFill.pay_eq _ _ 0 0 k.val 0 3 3 _ hk (by decide) (by decide) rfl _ (k2_off450_eq k) _ (k2_off451_eq k) _ _ x) ?_
  refine RowFill.RowFill.step _ 0 k.val 0 26 3 2 (by decide) rfl _ _ _ _ (k2_off449_eq k) _ (fun x => RowFill.pay_eq _ _ 0 0 k.val 0 3 2 _ hk (by decide) (by decide) rfl _ (k2_off448_eq k) _ (k2_off449_eq k) _ _ x) ?_
  refine RowFill.RowFill.step _ 0 k.val 0 25 3 1 (by decide) rfl _ _ _ _ (k2_off447_eq k) _ (fun x => RowFill.pay_eq _ _ 0 0 k.val 0 3 1 _ hk (by decide) (by decide) rfl _ (k2_off446_eq k) _ (k2_off447_eq k) _ _ x) ?_
  refine RowFill.RowFill.step _ 0 k.val 0 24 3 0 (by decide) rfl _ _ _ _ (k2_off445_eq k) _ (fun x => RowFill.pay_eq _ _ 0 0 k.val 0 3 0 _ hk (by decide) (by decide) rfl _ (k2_off444_eq k) _ (k2_off445_eq k) _ _ x) ?_
  refine RowFill.RowFill.step _ 0 k.val 0 23 2 7 (by decide) rfl _ _ _ _ (k2_off443_eq k) _ (fun x => RowFill.pay_eq _ _ 0 0 k.val 0 2 7 _ hk (by decide) (by decide) rfl _ (k2_off442_eq k) _ (k2_off443_eq k) _ _ x) ?_
  refine RowFill.RowFill.step _ 0 k.val 0 22 2 6 (by decide) rfl _ _ _ _ (k2_off441_eq k) _ (fun x => RowFill.pay_eq _ _ 0 0 k.val 0 2 6 _ hk (by decide) (by decide) rfl _ (k2_off440_eq k) _ (k2_off441_eq k) _ _ x) ?_
  refine RowFill.RowFill.step _ 0 k.val 0 21 2 5 (by decide) rfl _ _ _ _ (k2_off439_eq k) _ (fun x => RowFill.pay_eq _ _ 0 0 k.val 0 2 5 _ hk (by decide) (by decide) rfl _ (k2_off438_eq k) _ (k2_off439_eq k) _ _ x) ?_
  refine RowFill.RowFill.step _ 0 k.val 0 20 2 4 (by decide) rfl _ _ _ _ (k2_off437_eq k) _ (fun x => RowFill.pay_eq _ _ 0 0 k.val 0 2 4 _ hk (by decide) (by decide) rfl _ (k2_off436_eq k) _ (k2_off437_eq k) _ _ x) ?_
  refine RowFill.RowFill.step _ 0 k.val 0 19 2 3 (by decide) rfl _ _ _ _ (k2_off435_eq k) _ (fun x => RowFill.pay_eq _ _ 0 0 k.val 0 2 3 _ hk (by decide) (by decide) rfl _ (k2_off434_eq k) _ (k2_off435_eq k) _ _ x) ?_
  refine RowFill.RowFill.step _ 0 k.val 0 18 2 2 (by decide) rfl _ _ _ _ (k2_off433_eq k) _ (fun x => RowFill.pay_eq _ _ 0 0 k.val 0 2 2 _ hk (by decide) (by decide) rfl _ (k2_off432_eq k) _ (k2_off433_eq k) _ _ x) ?_
  refine RowFill.RowFill.step _ 0 k.val 0 17 2 1 (by decide) rfl _ _ _ _ (k2_off431_eq k) _ (fun x => RowFill.pay_eq _ _ 0 0 k.val 0 2 1 _ hk (by decide) (by decide) rfl _ (k2_off430_eq k) _ (k2_off431_eq k) _ _ x) ?_
  refine RowFill.RowFill.step _ 0 k.val 0 16 2 0 (by decide) rfl _ _ _ _ (k2_off429_eq k) _ (fun x => RowFill.pay_eq _ _ 0 0 k.val 0 2 0 _ hk (by decide) (by decide) rfl _ (k2_off428_eq k) _ (k2_off429_eq k) _ _ x) ?_
  refine RowFill.RowFill.step _ 0 k.val 0 15 1 7 (by decide) rfl _ _ _ _ (k2_off427_eq k) _ (fun x => RowFill.pay_eq _ _ 0 0 k.val 0 1 7 _ hk (by decide) (by decide) rfl _ (k2_off426_eq k) _ (k2_off427_eq k) _ _ x) ?_
  refine RowFill.RowFill.step _ 0 k.val 0 14 1 6 (by decide) rfl _ _ _ _ (k2_off425_eq k) _ (fun x => RowFill.pay_eq _ _ 0 0 k.val 0 1 6 _ hk (by decide) (by decide) rfl _ (k2_off424_eq k) _ (k2_off425_eq k) _ _ x) ?_
  refine RowFill.RowFill.step _ 0 k.val 0 13 1 5 (by decide) rfl _ _ _ _ (k2_off423_eq k) _ (fun x => RowFill.pay_eq _ _ 0 0 k.val 0 1 5 _ hk (by decide) (by decide) rfl _ (k2_off422_eq k) _ (k2_off423_eq k) _ _ x) ?_
  refine RowFill.RowFill.step _ 0 k.val 0 12 1 4 (by decide) rfl _ _ _ _ (k2_off421_eq k) _ (fun x => RowFill.pay_eq _ _ 0 0 k.val 0 1 4 _ hk (by decide) (by decide) rfl _ (k2_off420_eq k) _ (k2_off421_eq k) _ _ x) ?_
  refine RowFill.RowFill.step _ 0 k.val 0 11 1 3 (by decide) rfl _ _ _ _ (k2_off419_eq k) _ (fun x => RowFill.pay_eq _ _ 0 0 k.val 0 1 3 _ hk (by decide) (by decide) rfl _ (k2_off418_eq k) _ (k2_off419_eq k) _ _ x) ?_
  refine RowFill.RowFill.step _ 0 k.val 0 10 1 2 (by decide) rfl _ _ _ _ (k2_off417_eq k) _ (fun x => RowFill.pay_eq _ _ 0 0 k.val 0 1 2 _ hk (by decide) (by decide) rfl _ (k2_off416_eq k) _ (k2_off417_eq k) _ _ x) ?_
  refine RowFill.RowFill.step _ 0 k.val 0 9 1 1 (by decide) rfl _ _ _ _ (k2_off415_eq k) _ (fun x => RowFill.pay_eq _ _ 0 0 k.val 0 1 1 _ hk (by decide) (by decide) rfl _ (k2_off414_eq k) _ (k2_off415_eq k) _ _ x) ?_
  refine RowFill.RowFill.step _ 0 k.val 0 8 1 0 (by decide) rfl _ _ _ _ (k2_off413_eq k) _ (fun x => RowFill.pay_eq _ _ 0 0 k.val 0 1 0 _ hk (by decide) (by decide) rfl _ (k2_off412_eq k) _ (k2_off413_eq k) _ _ x) ?_
  refine RowFill.RowFill.step _ 0 k.val 0 7 0 7 (by decide) rfl _ _ _ _ (k2_off411_eq k) _ (fun x => RowFill.pay_eq _ _ 0 0 k.val 0 0 7 _ hk (by decide) (by decide) rfl _ (k2_off410_eq k) _ (k2_off411_eq k) _ _ x) ?_
  refine RowFill.RowFill.step _ 0 k.val 0 6 0 6 (by decide) rfl _ _ _ _ (k2_off409_eq k) _ (fun x => RowFill.pay_eq _ _ 0 0 k.val 0 0 6 _ hk (by decide) (by decide) rfl _ (k2_off408_eq k) _ (k2_off409_eq k) _ _ x) ?_
  refine RowFill.RowFill.step _ 0 k.val 0 5 0 5 (by decide) rfl _ _ _ _ (k2_off407_eq k) _ (fun x => RowFill.pay_eq _ _ 0 0 k.val 0 0 5 _ hk (by decide) (by decide) rfl _ (k2_off406_eq k) _ (k2_off407_eq k) _ _ x) ?_
  refine RowFill.RowFill.step _ 0 k.val 0 4 0 4 (by decide) rfl _ _ _ _ (k2_off405_eq k) _ (fun x => RowFill.pay_eq _ _ 0 0 k.val 0 0 4 _ hk (by decide) (by decide) rfl _ (k2_off404_eq k) _ (k2_off405_eq k) _ _ x) ?_
  refine RowFill.RowFill.step _ 0 k.val 0 3 0 3 (by decide) rfl _ _ _ _ (k2_off403_eq k) _ (fun x => RowFill.pay_eq _ _ 0 0 k.val 0 0 3 _ hk (by decide) (by decide) rfl _ (k2_off402_eq k) _ (k2_off403_eq k) _ _ x) ?_
  refine RowFill.RowFill.step _ 0 k.val 0 2 0 2 (by decide) rfl _ _ _ _ (k2_off401_eq k) _ (fun x => RowFill.pay_eq _ _ 0 0 k.val 0 0 2 _ hk (by decide) (by decide) rfl _ (k2_off400_eq k) _ (k2_off401_eq k) _ _ x) ?_
  refine RowFill.RowFill.step _ 0 k.val 0 1 0 1 (by decide) rfl _ _ _ _ (k2_off399_eq k) _ (fun x => RowFill.pay_eq _ _ 0 0 k.val 0 0 1 _ hk (by decide) (by decide) rfl _ (k2_off398_eq k) _ (k2_off399_eq k) _ _ x) ?_
  refine RowFill.RowFill.step _ 0 k.val 0 0 0 0 (by decide) rfl _ _ _ _ (k2_off397_eq k) _ (fun x => RowFill.pay_eq _ _ 0 0 k.val 0 0 0 _ hk (by decide) (by decide) rfl _ (k2_off396_eq k) _ (k2_off397_eq k) _ _ x) ?_
  exact RowFill.RowFill.zero _ _ _ _ _ _

end Cert.Kernel.TileBody
-- ==== Proof.Bits.TileLoop08.lean ====
/-
  Loop 8 of the tile body: one trip fills one row of a staging slot, sixteen lanes at a time, and leaves the
  loop's invariant at the next row.
-/
import proofs.«206219_g40982577938455_cont_8to1_b_1362_29_alg».proof.Proof.Bits.TileSetup

noncomputable section

namespace Cert.Kernel

open Idealize.ShloMosaic Idealize.SL.Sem
open Cert.Kernel.Gen

variable {F : FTy → Type} [FloatOps F]

/-- The region of the loop, as the kernel's text has it. -/
noncomputable def region08 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_265 : BitVec 32) (c1_i32_267 : BitVec 32) (k2_t8 : Fin k2_t8_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part58 i arg2 harg2 arg3 harg3 arg4 harg4 arg5 harg5 arg6 harg6 arg7 arg8 v661_r0 c0_i32_265 c1_i32_267 k2_t8
  let ⟨v734, c1_i32_809⟩ : Σ' (v734 : FVec F S16 .f32), BitVec 32 ← k2_part59 i arg2 harg2 arg3 harg3 arg4 harg4 arg5 harg5 arg6 harg6 arg7 arg8 v661_r0 k2_t8 arg9 v694
  k2_part60 i arg2 harg2 arg3 harg3 arg4 harg4 arg5 harg5 arg6 harg6 arg7 arg8 v661_r0 k2_t8 arg9 v734 c1_i32_809
  let v810 : FVec F S1x1x1x16 .f32 ← k2_part61 i arg2 harg2 arg3 harg3 arg4 harg4 arg5 harg5 arg6 harg6 arg7 arg8 v661_r0 k2_t8 arg9
  let v844 : FVec F S16 .f32 ← k2_part62 i arg2 harg2 arg3 harg3 arg4 harg4 arg5 harg5 arg6 harg6 arg7 arg8 v661_r0 k2_t8 arg9 v810
  let ⟨v884, c1_i32_869⟩ : Σ' (v884 : FVec F S16 .f32), BitVec 32 ← k2_part63 i arg2 harg2 arg3 harg3 arg4 harg4 arg5 harg5 arg6 harg6 arg7 arg8 v661_r0 k2_t8 arg9 v844
  k2_part64 i arg2 harg2 arg3 harg3 arg4 harg4 arg5 harg5 arg6 harg6 arg7 arg8 v661_r0 k2_t8 arg9 v884 c1_i32_869
  let v960 : FVec F S1x1x1x16 .f32 ← k2_part65 i arg2 harg2 arg3 harg3 arg4 harg4 arg5 harg5 arg6 harg6 arg7 arg8 v661_r0 k2_t8 arg9
  Prog.lift (.store arg6 (Rect.unit (s := S2x32x4x256) (k2_off521 k2_t8) S1x1x1x16.size (k2_off521_inb k2_t8)) v960 Finset.univ (View.stores_vmem_bits_univ h_S1x1x1x16 rfl) (.inl rfl))
  let c1_i32_900 : BitVec 32 := 1#32
  let v961 : Index := Scalar.indexCast c1_i32_900
  let v962 : Index := Scalar.indexCast arg9
  let c480 : Index := 480#32
  let v963 : Vec F S1x1x16 .f32 ← Prog.lift (.load arg5 (Rect.unit (s := S2x32x512) (k2_off522 k2_t8) S1x1x16.size (k2_off522_inb k2_t8)).toLoadRect (View.loadsAt_vmem h_S1x1x16))
  have v964 : FVec F S16 .f32 := shapeCast S16 v963 shapeCasts_S1x1x16_S16
  let c1_i32_901 : BitVec 32 := 1#32
  let c3_i32_902 : BitVec 32 := 3#32
  let v965 : Index := Scalar.indexCast c1_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off523 k2_t8) S1x1x1x16.size (k2_off523_inb k2_t8)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off523 k2_t8) S1x1x1x16.size (k2_off523_inb k2_t8)) v970 Finset.univ (View.stores_vmem_bits_univ h_S1x1x1x16 rfl) (.inl rfl))
  let c1_i32_904 : BitVec 32 := 1#32
  let v971 : Index := Scalar.indexCast c1_i32_904
  let v972 : Index := Scalar.indexCast arg9
  let c496 : Index := 496#32
  let v973 : Vec F S1x1x16 .f32 ← Prog.lift (.load arg5 (Rect.unit (s := S2x32x512) (k2_off524 k2_t8) S1x1x16.size (k2_off524_inb k2_t8)).toLoadRect (View.loadsAt_vmem h_S1x1x16))
  have v974 : FVec F S16 .f32 := shapeCast S16 v973 shapeCasts_S1x1x16_S16
  let c1_i32_905 : BitVec 32 := 1#32
  let c3_i32_906 : BitVec 32 := 3#32
  let v975 : Index := Scalar.indexCast c1_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off525 k2_t8) S1x1x1x16.size (k2_off525_inb k2_t8)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off525 k2_t8) S1x1x1x16.size (k2_off525_inb k2_t8)) v980 Finset.univ (View.stores_vmem_bits_univ h_S1x1x1x16 rfl) (.inl rfl))
  pure ⟨⟩

end Cert.Kernel

namespace Cert.Kernel.TileBody

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop08 (A : Buf (Elt F) ((thr d L).loc cc2_scratch0)) (G : Buf (Elt F) ((thr d L).loc cc2_scratch1))
    (k : Fin k2_t8_loop.trips) (acc : PUnit) :
    (invFill1 (F := F) d L 0 A G k.val acc : sProp 𝕄)
      ⊢ wp frame (wpE (defs₀ (F := F)) 𝒱₀ (thr d L) none) Set.univ
          (region08 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill1 (F := F) d L 0 A G (k.val + 1)) := by
  have hk : (k : ℕ) < 32 := lt_of_lt_of_le k.isLt k2_t8_abs.2.1
  unfold invFill1 region08
  iintro ⟨Ha1, %h, Hb1, %hF⟩
  sl_exec
  sl_step
  isplitl [Ha1]; · iexact Ha1
  iexists _; isplitl [Hb1]; · iexact Hb1
  ipureintro
  refine RowFill.Filled.succ _ 1 0 k.val _ _ h _ hF ?_
  refine RowFill.RowFill.step _ 1 k.val 0 31 3 7 (by decide) rfl _ _ _ _ (k2_off525_eq k) _ (fun x => RowFill.pay_eq _ _ 1 1 k.val 0 3 7 _ hk (by decide) (by decide) rfl _ (k2_off524_eq k) _ (k2_off525_eq k) _ _ x) ?_
  refine RowFill.RowFill.step _ 1 k.val 0 30 3 6 (by decide) rfl _ _ _ _ (k2_off523_eq k) _ (fun x => RowFill.pay_eq _ _ 1 1 k.val 0 3 6 _ hk (by decide) (by decide) rfl _ (k2_off522_eq k) _ (k2_off523_eq k) _ _ x) ?_
  refine RowFill.RowFill.step _ 1 k.val 0 29 3 5 (by decide) rfl _ _ _ _ (k2_off521_eq k) _ (fun x => RowFill.pay_eq _ _ 1 1 k.val 0 3 5 _ hk (by decide) (by decide) rfl _ (k2_off520_eq k) _ (k2_off521_eq k) _ _ x) ?_
  refine RowFill.RowFill.step _ 1 k.val 0 28 3 4 (by decide) rfl _ _ _ _ (k2_off519_eq k) _ (fun x => RowFill.pay_eq _ _ 1 1 k.val 0 3 4 _ hk (by decide) (by decide) rfl _ (k2_off518_eq k) _ (k2_off519_eq k) _ _ x) ?_
  refine RowFill.RowFill.step _ 1 k.val 0 27 3 3 (by decide) rfl _ _ _ _ (k2_off517_eq k) _ (fun x => RowFill.pay_eq _ _ 1 1 k.val 0 3 3 _ hk (by decide) (by decide) rfl _ (k2_off516_eq k) _ (k2_off517_eq k) _ _ x) ?_
  refine RowFill.RowFill.step _ 1 k.val 0 26 3 2 (by decide) rfl _ _ _ _ (k2_off515_eq k) _ (fun x => RowFill.pay_eq _ _ 1 1 k.val 0 3 2 _ hk (by decide) (by decide) rfl _ (k2_off514_eq k) _ (k2_off515_eq k) _ _ x) ?_
  refine RowFill.RowFill.step _ 1 k.val 0 25 3 1 (by decide) rfl _ _ _ _ (k2_off513_eq k) _ (fun x => RowFill.pay_eq _ _ 1 1 k.val 0 3 1 _ hk (by decide) (by decide) rfl _ (k2_off512_eq k) _ (k2_off513_eq k) _ _ x) ?_
  refine RowFill.RowFill.step _ 1 k.val 0 24 3 0 (by decide) rfl _ _ _ _ (k2_off511_eq k) _ (fun x => RowFill.pay_eq _ _ 1 1 k.val 0 3 0 _ hk (by decide) (by decide) rfl _ (k2_off510_eq k) _ (k2_off511_eq k) _ _ x) ?_
  refine RowFill.RowFill.step _ 1 k.val 0 23 2 7 (by decide) rfl _ _ _ _ (k2_off509_eq k) _ (fun x => RowFill.pay_eq _ _ 1 1 k.val 0 2 7 _ hk (by decide) (by decide) rfl _ (k2_off508_eq k) _ (k2_off509_eq k) _ _ x) ?_
  refine RowFill.RowFill.step _ 1 k.val 0 22 2 6 (by decide) rfl _ _ _ _ (k2_off507_eq k) _ (fun x => RowFill.pay_eq _ _ 1 1 k.val 0 2 6 _ hk (by decide) (by decide) rfl _ (k2_off506_eq k) _ (k2_off507_eq k) _ _ x) ?_
  refine RowFill.RowFill.step _ 1 k.val 0 21 2 5 (by decide) rfl _ _ _ _ (k2_off505_eq k) _ (fun x => RowFill.pay_eq _ _ 1 1 k.val 0 2 5 _ hk (by decide) (by decide) rfl _ (k2_off504_eq k) _ (k2_off505_eq k) _ _ x) ?_
  refine RowFill.RowFill.step _ 1 k.val 0 20 2 4 (by decide) rfl _ _ _ _ (k2_off503_eq k) _ (fun x => RowFill.pay_eq _ _ 1 1 k.val 0 2 4 _ hk (by decide) (by decide) rfl _ (k2_off502_eq k) _ (k2_off503_eq k) _ _ x) ?_
  refine RowFill.RowFill.step _ 1 k.val 0 19 2 3 (by decide) rfl _ _ _ _ (k2_off501_eq k) _ (fun x => RowFill.pay_eq _ _ 1 1 k.val 0 2 3 _ hk (by decide) (by decide) rfl _ (k2_off500_eq k) _ (k2_off501_eq k) _ _ x) ?_
  refine RowFill.RowFill.step _ 1 k.val 0 18 2 2 (by decide) rfl _ _ _ _ (k2_off499_eq k) _ (fun x => RowFill.pay_eq _ _ 1 1 k.val 0 2 2 _ hk (by decide) (by decide) rfl _ (k2_off498_eq k) _ (k2_off499_eq k) _ _ x) ?_
  refine RowFill.RowFill.step _ 1 k.val 0 17 2 1 (by decide) rfl _ _ _ _ (k2_off497_eq k) _ (fun x => RowFill.pay_eq _ _ 1 1 k.val 0 2 1 _ hk (by decide) (by decide) rfl _ (k2_off496_eq k) _ (k2_off497_eq k) _ _ x) ?_
  refine RowFill.RowFill.step _ 1 k.val 0 16 2 0 (by decide) rfl _ _ _ _ (k2_off495_eq k) _ (fun x => RowFill.pay_eq _ _ 1 1 k.val 0 2 0 _ hk (by decide) (by decide) rfl _ (k2_off494_eq k) _ (k2_off495_eq k) _ _ x) ?_
  refine RowFill.RowFill.step _ 1 k.val 0 15 1 7 (by decide) rfl _ _ _ _ (k2_off493_eq k) _ (fun x => RowFill.pay_eq _ _ 1 1 k.val 0 1 7 _ hk (by decide) (by decide) rfl _ (k2_off492_eq k) _ (k2_off493_eq k) _ _ x) ?_
  refine RowFill.RowFill.step _ 1 k.val 0 14 1 6 (by decide) rfl _ _ _ _ (k2_off491_eq k) _ (fun x => RowFill.pay_eq _ _ 1 1 k.val 0 1 6 _ hk (by decide) (by decide) rfl _ (k2_off490_eq k) _ (k2_off491_eq k) _ _ x) ?_
  refine RowFill.RowFill.step _ 1 k.val 0 13 1 5 (by decide) rfl _ _ _ _ (k2_off489_eq k) _ (fun x => RowFill.pay_eq _ _ 1 1 k.val 0 1 5 _ hk (by decide) (by decide) rfl _ (k2_off488_eq k) _ (k2_off489_eq k) _ _ x) ?_
  refine RowFill.RowFill.step _ 1 k.val 0 12 1 4 (by decide) rfl _ _ _ _ (k2_off487_eq k) _ (fun x => RowFill.pay_eq _ _ 1 1 k.val 0 1 4 _ hk (by decide) (by decide) rfl _ (k2_off486_eq k) _ (k2_off487_eq k) _ _ x) ?_
  refine RowFill.RowFill.step _ 1 k.val 0 11 1 3 (by decide) rfl _ _ _ _ (k2_off485_eq k) _ (fun x => RowFill.pay_eq _ _ 1 1 k.val 0 1 3 _ hk (by decide) (by decide) rfl _ (k2_off484_eq k) _ (k2_off485_eq k) _ _ x) ?_
  refine RowFill.RowFill.step _ 1 k.val 0 10 1 2 (by decide) rfl _ _ _ _ (k2_off483_eq k) _ (fun x => RowFill.pay_eq _ _ 1 1 k.val 0 1 2 _ hk (by decide) (by decide) rfl _ (k2_off482_eq k) _ (k2_off483_eq k) _ _ x) ?_
  refine RowFill.RowFill.step _ 1 k.val 0 9 1 1 (by decide) rfl _ _ _ _ (k2_off481_eq k) _ (fun x => RowFill.pay_eq _ _ 1 1 k.val 0 1 1 _ hk (by decide) (by decide) rfl _ (k2_off480_eq k) _ (k2_off481_eq k) _ _ x) ?_
  refine RowFill.RowFill.step _ 1 k.val 0 8 1 0 (by decide) rfl _ _ _ _ (k2_off479_eq k) _ (fun x => RowFill.pay_eq _ _ 1 1 k.val 0 1 0 _ hk (by decide) (by decide) rfl _ (k2_off478_eq k) _ (k2_off479_eq k) _ _ x) ?_
  refine RowFill.RowFill.step _ 1 k.val 0 7 0 7 (by decide) rfl _ _ _ _ (k2_off477_eq k) _ (fun x => RowFill.pay_eq _ _ 1 1 k.val 0 0 7 _ hk (by decide) (by decide) rfl _ (k2_off476_eq k) _ (k2_off477_eq k) _ _ x) ?_
  refine RowFill.RowFill.step _ 1 k.val 0 6 0 6 (by decide) rfl _ _ _ _ (k2_off475_eq k) _ (fun x => RowFill.pay_eq _ _ 1 1 k.val 0 0 6 _ hk (by decide) (by decide) rfl _ (k2_off474_eq k) _ (k2_off475_eq k) _ _ x) ?_
  refine RowFill.RowFill.step _ 1 k.val 0 5 0 5 (by decide) rfl _ _ _ _ (k2_off473_eq k) _ (fun x => RowFill.pay_eq _ _ 1 1 k.val 0 0 5 _ hk (by decide) (by decide) rfl _ (k2_off472_eq k) _ (k2_off473_eq k) _ _ x) ?_
  refine RowFill.RowFill.step _ 1 k.val 0 4 0 4 (by decide) rfl _ _ _ _ (k2_off471_eq k) _ (fun x => RowFill.pay_eq _ _ 1 1 k.val 0 0 4 _ hk (by decide) (by decide) rfl _ (k2_off470_eq k) _ (k2_off471_eq k) _ _ x) ?_
  refine RowFill.RowFill.step _ 1 k.val 0 3 0 3 (by decide) rfl _ _ _ _ (k2_off469_eq k) _ (fun x => RowFill.pay_eq _ _ 1 1 k.val 0 0 3 _ hk (by decide) (by decide) rfl _ (k2_off468_eq k) _ (k2_off469_eq k) _ _ x) ?_
  refine RowFill.RowFill.step _ 1 k.val 0 2 0 2 (by decide) rfl _ _ _ _ (k2_off467_eq k) _ (fun x => RowFill.pay_eq _ _ 1 1 k.val 0 0 2 _ hk (by decide) (by decide) rfl _ (k2_off466_eq k) _ (k2_off467_eq k) _ _ x) ?_
  refine RowFill.RowFill.step _ 1 k.val 0 1 0 1 (by decide) rfl _ _ _ _ (k2_off465_eq k) _ (fun x => RowFill.pay_eq _ _ 1 1 k.val 0 0 1 _ hk (by decide) (by decide) rfl _ (k2_off464_eq k) _ (k2_off465_eq k) _ _ x) ?_
  refine RowFill.RowFill.step _ 1 k.val 0 0 0 0 (by decide) rfl _ _ _ _ (k2_off463_eq k) _ (fun x => RowFill.pay_eq _ _ 1 1 k.val 0 0 0 _ hk (by decide) (by decide) rfl _ (k2_off462_eq k) _ (k2_off463_eq k) _ _ x) ?_
  exact RowFill.RowFill.zero _ _ _ _ _ _

end Cert.Kernel.TileBody
-- ==== Proof.Bits.TileLoop09.lean ====
/-
  Loop 9 of the tile body: one trip fills one row of a staging slot, sixteen lanes at a time, and leaves the
  loop's invariant at the next row.
-/
import proofs.«206219_g40982577938455_cont_8to1_b_1362_29_alg».proof.Proof.Bits.TileSetup

noncomputable section

namespace Cert.Kernel

open Idealize.ShloMosaic Idealize.SL.Sem
open Cert.Kernel.Gen

variable {F : FTy → Type} [FloatOps F]

/-- The region of the loop, as the kernel's text has it. -/
noncomputable def region09 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_313 : BitVec 32) (c1_i32_315 : BitVec 32) (k2_t9 : Fin k2_t9_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part66 i arg2 harg2 arg3 harg3 arg4 harg4 arg5 harg5 arg6 harg6 arg7 arg8 v661_r0 c0_i32_313 c1_i32_315 k2_t9
  let ⟨v734, c0_i32_809⟩ : Σ' (v734 : FVec F S16 .f32), BitVec 32 ← k2_part67 i arg2 harg2 arg3 harg3 arg4 harg4 arg5 harg5 arg6 harg6 arg7 arg8 v661_r0 k2_t9 arg9 v694
  k2_part68 i arg2 harg2 arg3 harg3 arg4 harg4 arg5 harg5 arg6 harg6 arg7 arg8 v661_r0 k2_t9 arg9 v734 c0_i32_809
  let v810 : FVec F S1x1x1x16 .f32 ← k2_part69 i arg2 harg2 arg3 harg3 arg4 harg4 arg5 harg5 arg6 harg6 arg7 arg8 v661_r0 k2_t9 arg9
  let v844 : FVec F S16 .f32 ← k2_part70 i arg2 harg2 arg3 harg3 arg4 harg4 arg5 harg5 arg6 harg6 arg7 arg8 v661_r0 k2_t9 arg9 v810
  let ⟨v884, c0_i32_869⟩ : Σ' (v884 : FVec F S16 .f32), BitVec 32 ← k2_part71 i arg2 harg2 arg3 harg3 arg4 harg4 arg5 harg5 arg6 harg6 arg7 arg8 v661_r0 k2_t9 arg9 v844
  k2_part72 i arg2 harg2 arg3 harg3 arg4 harg4 arg5 harg5 arg6 harg6 arg7 arg8 v661_r0 k2_t9 arg9 v884 c0_i32_869
  let v960 : FVec F S1x1x1x16 .f32 ← k2_part73 i arg2 harg2 arg3 harg3 arg4 harg4 arg5 harg5 arg6 harg6 arg7 arg8 v661_r0 k2_t9 arg9
  Prog.lift (.store arg6 (Rect.unit (s := S2x32x4x256) (k2_off587 k2_t9) S1x1x1x16.size (k2_off587_inb k2_t9)) v960 Finset.univ (View.stores_vmem_bits_univ h_S1x1x1x16 rfl) (.inl rfl))
  let c0_i32_900 : BitVec 32 := 0#32
  let v961 : Index := Scalar.indexCast c0_i32_900
  let v962 : Index := Scalar.indexCast arg9
  let c480 : Index := 480#32
  let v963 : Vec F S1x1x16 .f32 ← Prog.lift (.load arg5 (Rect.unit (s := S2x32x512) (k2_off588 k2_t9) S1x1x16.size (k2_off588_inb k2_t9)).toLoadRect (View.loadsAt_vmem h_S1x1x16))
  have v964 : FVec F S16 .f32 := shapeCast S16 v963 shapeCasts_S1x1x16_S16
  let c0_i32_901 : BitVec 32 := 0#32
  let c3_i32_902 : BitVec 32 := 3#32
  let v965 : Index := Scalar.indexCast c0_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off589 k2_t9) S1x1x1x16.size (k2_off589_inb k2_t9)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off589 k2_t9) S1x1x1x16.size (k2_off589_inb k2_t9)) v970 Finset.univ (View.stores_vmem_bits_univ h_S1x1x1x16 rfl) (.inl rfl))
  let c0_i32_904 : BitVec 32 := 0#32
  let v971 : Index := Scalar.indexCast c0_i32_904
  let v972 : Index := Scalar.indexCast arg9
  let c496 : Index := 496#32
  let v973 : Vec F S1x1x16 .f32 ← Prog.lift (.load arg5 (Rect.unit (s := S2x32x512) (k2_off590 k2_t9) S1x1x16.size (k2_off590_inb k2_t9)).toLoadRect (View.loadsAt_vmem h_S1x1x16))
  have v974 : FVec F S16 .f32 := shapeCast S16 v973 shapeCasts_S1x1x16_S16
  let c0_i32_905 : BitVec 32 := 0#32
  let c3_i32_906 : BitVec 32 := 3#32
  let v975 : Index := Scalar.indexCast c0_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off591 k2_t9) S1x1x1x16.size (k2_off591_inb k2_t9)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off591 k2_t9) S1x1x1x16.size (k2_off591_inb k2_t9)) v980 Finset.univ (View.stores_vmem_bits_univ h_S1x1x1x16 rfl) (.inl rfl))
  pure ⟨⟩

end Cert.Kernel

namespace Cert.Kernel.TileBody

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop09 (A : Buf (Elt F) ((thr d L).loc cc2_scratch0)) (G : Buf (Elt F) ((thr d L).loc cc2_scratch1))
    (k : Fin k2_t9_loop.trips) (acc : PUnit) :
    (invFill0 (F := F) d L 0 A G k.val acc : sProp 𝕄)
      ⊢ wp frame (wpE (defs₀ (F := F)) 𝒱₀ (thr d L) none) Set.univ
          (region09 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill0 (F := F) d L 0 A G (k.val + 1)) := by
  have hk : (k : ℕ) < 32 := lt_of_lt_of_le k.isLt k2_t9_abs.2.1
  unfold invFill0 region09
  iintro ⟨Ha0, %h, Hb0, %hF⟩
  sl_exec
  sl_step
  isplitl [Ha0]; · iexact Ha0
  iexists _; isplitl [Hb0]; · iexact Hb0
  ipureintro
  refine RowFill.Filled.succ _ 0 0 k.val _ _ h _ hF ?_
  refine RowFill.RowFill.step _ 0 k.val 0 31 3 7 (by decide) rfl _ _ _ _ (k2_off591_eq k) _ (fun x => RowFill.pay_eq _ _ 0 0 k.val 0 3 7 _ hk (by decide) (by decide) rfl _ (k2_off590_eq k) _ (k2_off591_eq k) _ _ x) ?_
  refine RowFill.RowFill.step _ 0 k.val 0 30 3 6 (by decide) rfl _ _ _ _ (k2_off589_eq k) _ (fun x => RowFill.pay_eq _ _ 0 0 k.val 0 3 6 _ hk (by decide) (by decide) rfl _ (k2_off588_eq k) _ (k2_off589_eq k) _ _ x) ?_
  refine RowFill.RowFill.step _ 0 k.val 0 29 3 5 (by decide) rfl _ _ _ _ (k2_off587_eq k) _ (fun x => RowFill.pay_eq _ _ 0 0 k.val 0 3 5 _ hk (by decide) (by decide) rfl _ (k2_off586_eq k) _ (k2_off587_eq k) _ _ x) ?_
  refine RowFill.RowFill.step _ 0 k.val 0 28 3 4 (by decide) rfl _ _ _ _ (k2_off585_eq k) _ (fun x => RowFill.pay_eq _ _ 0 0 k.val 0 3 4 _ hk (by decide) (by decide) rfl _ (k2_off584_eq k) _ (k2_off585_eq k) _ _ x) ?_
  refine RowFill.RowFill.step _ 0 k.val 0 27 3 3 (by decide) rfl _ _ _ _ (k2_off583_eq k) _ (fun x => RowFill.pay_eq _ _ 0 0 k.val 0 3 3 _ hk (by decide) (by decide) rfl _ (k2_off582_eq k) _ (k2_off583_eq k) _ _ x) ?_
  refine RowFill.RowFill.step _ 0 k.val 0 26 3 2 (by decide) rfl _ _ _ _ (k2_off581_eq k) _ (fun x => RowFill.pay_eq _ _ 0 0 k.val 0 3 2 _ hk (by decide) (by decide) rfl _ (k2_off580_eq k) _ (k2_off581_eq k) _ _ x) ?_
  refine RowFill.RowFill.step _ 0 k.val 0 25 3 1 (by decide) rfl _ _ _ _ (k2_off579_eq k) _ (fun x => RowFill.pay_eq _ _ 0 0 k.val 0 3 1 _ hk (by decide) (by decide) rfl _ (k2_off578_eq k) _ (k2_off579_eq k) _ _ x) ?_
  refine RowFill.RowFill.step _ 0 k.val 0 24 3 0 (by decide) rfl _ _ _ _ (k2_off577_eq k) _ (fun x => RowFill.pay_eq _ _ 0 0 k.val 0 3 0 _ hk (by decide) (by decide) rfl _ (k2_off576_eq k) _ (k2_off577_eq k) _ _ x) ?_
  refine RowFill.RowFill.step _ 0 k.val 0 23 2 7 (by decide) rfl _ _ _ _ (k2_off575_eq k) _ (fun x => RowFill.pay_eq _ _ 0 0 k.val 0 2 7 _ hk (by decide) (by decide) rfl _ (k2_off574_eq k) _ (k2_off575_eq k) _ _ x) ?_
  refine RowFill.RowFill.step _ 0 k.val 0 22 2 6 (by decide) rfl _ _ _ _ (k2_off573_eq k) _ (fun x => RowFill.pay_eq _ _ 0 0 k.val 0 2 6 _ hk (by decide) (by decide) rfl _ (k2_off572_eq k) _ (k2_off573_eq k) _ _ x) ?_
  refine RowFill.RowFill.step _ 0 k.val 0 21 2 5 (by decide) rfl _ _ _ _ (k2_off571_eq k) _ (fun x => RowFill.pay_eq _ _ 0 0 k.val 0 2 5 _ hk (by decide) (by decide) rfl _ (k2_off570_eq k) _ (k2_off571_eq k) _ _ x) ?_
  refine RowFill.RowFill.step _ 0 k.val 0 20 2 4 (by decide) rfl _ _ _ _ (k2_off569_eq k) _ (fun x => RowFill.pay_eq _ _ 0 0 k.val 0 2 4 _ hk (by decide) (by decide) rfl _ (k2_off568_eq k) _ (k2_off569_eq k) _ _ x) ?_
  refine RowFill.RowFill.step _ 0 k.val 0 19 2 3 (by decide) rfl _ _ _ _ (k2_off567_eq k) _ (fun x => RowFill.pay_eq _ _ 0 0 k.val 0 2 3 _ hk (by decide) (by decide) rfl _ (k2_off566_eq k) _ (k2_off567_eq k) _ _ x) ?_
  refine RowFill.RowFill.step _ 0 k.val 0 18 2 2 (by decide) rfl _ _ _ _ (k2_off565_eq k) _ (fun x => RowFill.pay_eq _ _ 0 0 k.val 0 2 2 _ hk (by decide) (by decide) rfl _ (k2_off564_eq k) _ (k2_off565_eq k) _ _ x) ?_
  refine RowFill.RowFill.step _ 0 k.val 0 17 2 1 (by decide) rfl _ _ _ _ (k2_off563_eq k) _ (fun x => RowFill.pay_eq _ _ 0 0 k.val 0 2 1 _ hk (by decide) (by decide) rfl _ (k2_off562_eq k) _ (k2_off563_eq k) _ _ x) ?_
  refine RowFill.RowFill.step _ 0 k.val 0 16 2 0 (by decide) rfl _ _ _ _ (k2_off561_eq k) _ (fun x => RowFill.pay_eq _ _ 0 0 k.val 0 2 0 _ hk (by decide) (by decide) rfl _ (k2_off560_eq k) _ (k2_off561_eq k) _ _ x) ?_
  refine RowFill.RowFill.step _ 0 k.val 0 15 1 7 (by decide) rfl _ _ _ _ (k2_off559_eq k) _ (fun x => RowFill.pay_eq _ _ 0 0 k.val 0 1 7 _ hk (by decide) (by decide) rfl _ (k2_off558_eq k) _ (k2_off559_eq k) _ _ x) ?_
  refine RowFill.RowFill.step _ 0 k.val 0 14 1 6 (by decide) rfl _ _ _ _ (k2_off557_eq k) _ (fun x => RowFill.pay_eq _ _ 0 0 k.val 0 1 6 _ hk (by decide) (by decide) rfl _ (k2_off556_eq k) _ (k2_off557_eq k) _ _ x) ?_
  refine RowFill.RowFill.step _ 0 k.val 0 13 1 5 (by decide) rfl _ _ _ _ (k2_off555_eq k) _ (fun x => RowFill.pay_eq _ _ 0 0 k.val 0 1 5 _ hk (by decide) (by decide) rfl _ (k2_off554_eq k) _ (k2_off555_eq k) _ _ x) ?_
  refine RowFill.RowFill.step _ 0 k.val 0 12 1 4 (by decide) rfl _ _ _ _ (k2_off553_eq k) _ (fun x => RowFill.pay_eq _ _ 0 0 k.val 0 1 4 _ hk (by decide) (by decide) rfl _ (k2_off552_eq k) _ (k2_off553_eq k) _ _ x) ?_
  refine RowFill.RowFill.step _ 0 k.val 0 11 1 3 (by decide) rfl _ _ _ _ (k2_off551_eq k) _ (fun x => RowFill.pay_eq _ _ 0 0 k.val 0 1 3 _ hk (by decide) (by decide) rfl _ (k2_off550_eq k) _ (k2_off551_eq k) _ _ x) ?_
  refine RowFill.RowFill.step _ 0 k.val 0 10 1 2 (by decide) rfl _ _ _ _ (k2_off549_eq k) _ (fun x => RowFill.pay_eq _ _ 0 0 k.val 0 1 2 _ hk (by decide) (by decide) rfl _ (k2_off548_eq k) _ (k2_off549_eq k) _ _ x) ?_
  refine RowFill.RowFill.step _ 0 k.val 0 9 1 1 (by decide) rfl _ _ _ _ (k2_off547_eq k) _ (fun x => RowFill.pay_eq _ _ 0 0 k.val 0 1 1 _ hk (by decide) (by decide) rfl _ (k2_off546_eq k) _ (k2_off547_eq k) _ _ x) ?_
  refine RowFill.RowFill.step _ 0 k.val 0 8 1 0 (by decide) rfl _ _ _ _ (k2_off545_eq k) _ (fun x => RowFill.pay_eq _ _ 0 0 k.val 0 1 0 _ hk (by decide) (by decide) rfl _ (k2_off544_eq k) _ (k2_off545_eq k) _ _ x) ?_
  refine RowFill.RowFill.step _ 0 k.val 0 7 0 7 (by decide) rfl _ _ _ _ (k2_off543_eq k) _ (fun x => RowFill.pay_eq _ _ 0 0 k.val 0 0 7 _ hk (by decide) (by decide) rfl _ (k2_off542_eq k) _ (k2_off543_eq k) _ _ x) ?_
  refine RowFill.RowFill.step _ 0 k.val 0 6 0 6 (by decide) rfl _ _ _ _ (k2_off541_eq k) _ (fun x => RowFill.pay_eq _ _ 0 0 k.val 0 0 6 _ hk (by decide) (by decide) rfl _ (k2_off540_eq k) _ (k2_off541_eq k) _ _ x) ?_
  refine RowFill.RowFill.step _ 0 k.val 0 5 0 5 (by decide) rfl _ _ _ _ (k2_off539_eq k) _ (fun x => RowFill.pay_eq _ _ 0 0 k.val 0 0 5 _ hk (by decide) (by decide) rfl _ (k2_off538_eq k) _ (k2_off539_eq k) _ _ x) ?_
  refine RowFill.RowFill.step _ 0 k.val 0 4 0 4 (by decide) rfl _ _ _ _ (k2_off537_eq k) _ (fun x => RowFill.pay_eq _ _ 0 0 k.val 0 0 4 _ hk (by decide) (by decide) rfl _ (k2_off536_eq k) _ (k2_off537_eq k) _ _ x) ?_
  refine RowFill.RowFill.step _ 0 k.val 0 3 0 3 (by decide) rfl _ _ _ _ (k2_off535_eq k) _ (fun x => RowFill.pay_eq _ _ 0 0 k.val 0 0 3 _ hk (by decide) (by decide) rfl _ (k2_off534_eq k) _ (k2_off535_eq k) _ _ x) ?_
  refine RowFill.RowFill.step _ 0 k.val 0 2 0 2 (by decide) rfl _ _ _ _ (k2_off533_eq k) _ (fun x => RowFill.pay_eq _ _ 0 0 k.val 0 0 2 _ hk (by decide) (by decide) rfl _ (k2_off532_eq k) _ (k2_off533_eq k) _ _ x) ?_
  refine RowFill.RowFill.step _ 0 k.val 0 1 0 1 (by decide) rfl _ _ _ _ (k2_off531_eq k) _ (fun x => RowFill.pay_eq _ _ 0 0 k.val 0 0 1 _ hk (by decide) (by decide) rfl _ (k2_off530_eq k) _ (k2_off531_eq k) _ _ x) ?_
  refine RowFill.RowFill.step _ 0 k.val 0 0 0 0 (by decide) rfl _ _ _ _ (k2_off529_eq k) _ (fun x => RowFill.pay_eq _ _ 0 0 k.val 0 0 0 _ hk (by decide) (by decide) rfl _ (k2_off528_eq k) _ (k2_off529_eq k) _ _ x) ?_
  exact RowFill.RowFill.zero _ _ _ _ _ _

end Cert.Kernel.TileBody
-- ==== Proof.Bits.TileLoop10.lean ====
/-
  Loop 10 of the tile body: one trip fills one row of a staging slot, sixteen lanes at a time, and leaves the
  loop's invariant at the next row.
-/
import proofs.«206219_g40982577938455_cont_8to1_b_1362_29_alg».proof.Proof.Bits.TileSetup

noncomputable section

namespace Cert.Kernel

open Idealize.ShloMosaic Idealize.SL.Sem
open Cert.Kernel.Gen

variable {F : FTy → Type} [FloatOps F]

/-- The region of the loop, as the kernel's text has it. -/
noncomputable def region10 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_361 : BitVec 32) (c1_i32_363 : BitVec 32) (k2_t10 : Fin k2_t10_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part74 i arg2 harg2 arg3 harg3 arg4 harg4 arg5 harg5 arg6 harg6 arg7 arg8 v661_r0 c0_i32_361 c1_i32_363 k2_t10
  let ⟨v734, c1_i32_809⟩ : Σ' (v734 : FVec F S16 .f32), BitVec 32 ← k2_part75 i arg2 harg2 arg3 harg3 arg4 harg4 arg5 harg5 arg6 harg6 arg7 arg8 v661_r0 k2_t10 arg9 v694
  k2_part76 i arg2 harg2 arg3 harg3 arg4 harg4 arg5 harg5 arg6 harg6 arg7 arg8 v661_r0 k2_t10 arg9 v734 c1_i32_809
  let v810 : FVec F S1x1x1x16 .f32 ← k2_part77 i arg2 harg2 arg3 harg3 arg4 harg4 arg5 harg5 arg6 harg6 arg7 arg8 v661_r0 k2_t10 arg9
  let v844 : FVec F S16 .f32 ← k2_part78 i arg2 harg2 arg3 harg3 arg4 harg4 arg5 harg5 arg6 harg6 arg7 arg8 v661_r0 k2_t10 arg9 v810
  let ⟨v884, c1_i32_869⟩ : Σ' (v884 : FVec F S16 .f32), BitVec 32 ← k2_part79 i arg2 harg2 arg3 harg3 arg4 harg4 arg5 harg5 arg6 harg6 arg7 arg8 v661_r0 k2_t10 arg9 v844
  k2_part80 i arg2 harg2 arg3 harg3 arg4 harg4 arg5 harg5 arg6 harg6 arg7 arg8 v661_r0 k2_t10 arg9 v884 c1_i32_869
  let v960 : FVec F S1x1x1x16 .f32 ← k2_part81 i arg2 harg2 arg3 harg3 arg4 harg4 arg5 harg5 arg6 harg6 arg7 arg8 v661_r0 k2_t10 arg9
  Prog.lift (.store arg6 (Rect.unit (s := S2x32x4x256) (k2_off653 k2_t10) S1x1x1x16.size (k2_off653_inb k2_t10)) v960 Finset.univ (View.stores_vmem_bits_univ h_S1x1x1x16 rfl) (.inl rfl))
  let c1_i32_900 : BitVec 32 := 1#32
  let v961 : Index := Scalar.indexCast c1_i32_900
  let v962 : Index := Scalar.indexCast arg9
  let c480 : Index := 480#32
  let v963 : Vec F S1x1x16 .f32 ← Prog.lift (.load arg5 (Rect.unit (s := S2x32x512) (k2_off654 k2_t10) S1x1x16.size (k2_off654_inb k2_t10)).toLoadRect (View.loadsAt_vmem h_S1x1x16))
  have v964 : FVec F S16 .f32 := shapeCast S16 v963 shapeCasts_S1x1x16_S16
  let c1_i32_901 : BitVec 32 := 1#32
  let c3_i32_902 : BitVec 32 := 3#32
  let v965 : Index := Scalar.indexCast c1_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off655 k2_t10) S1x1x1x16.size (k2_off655_inb k2_t10)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off655 k2_t10) S1x1x1x16.size (k2_off655_inb k2_t10)) v970 Finset.univ (View.stores_vmem_bits_univ h_S1x1x1x16 rfl) (.inl rfl))
  let c1_i32_904 : BitVec 32 := 1#32
  let v971 : Index := Scalar.indexCast c1_i32_904
  let v972 : Index := Scalar.indexCast arg9
  let c496 : Index := 496#32
  let v973 : Vec F S1x1x16 .f32 ← Prog.lift (.load arg5 (Rect.unit (s := S2x32x512) (k2_off656 k2_t10) S1x1x16.size (k2_off656_inb k2_t10)).toLoadRect (View.loadsAt_vmem h_S1x1x16))
  have v974 : FVec F S16 .f32 := shapeCast S16 v973 shapeCasts_S1x1x16_S16
  let c1_i32_905 : BitVec 32 := 1#32
  let c3_i32_906 : BitVec 32 := 3#32
  let v975 : Index := Scalar.indexCast c1_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off657 k2_t10) S1x1x1x16.size (k2_off657_inb k2_t10)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off657 k2_t10) S1x1x1x16.size (k2_off657_inb k2_t10)) v980 Finset.univ (View.stores_vmem_bits_univ h_S1x1x1x16 rfl) (.inl rfl))
  pure ⟨⟩

end Cert.Kernel

namespace Cert.Kernel.TileBody

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop10 (A : Buf (Elt F) ((thr d L).loc cc2_scratch0)) (G : Buf (Elt F) ((thr d L).loc cc2_scratch1))
    (k : Fin k2_t10_loop.trips) (acc : PUnit) :
    (invFill1 (F := F) d L 0 A G k.val acc : sProp 𝕄)
      ⊢ wp frame (wpE (defs₀ (F := F)) 𝒱₀ (thr d L) none) Set.univ
          (region10 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill1 (F := F) d L 0 A G (k.val + 1)) := by
  have hk : (k : ℕ) < 32 := lt_of_lt_of_le k.isLt k2_t10_abs.2.1
  unfold invFill1 region10
  iintro ⟨Ha1, %h, Hb1, %hF⟩
  sl_exec
  sl_step
  isplitl [Ha1]; · iexact Ha1
  iexists _; isplitl [Hb1]; · iexact Hb1
  ipureintro
  refine RowFill.Filled.succ _ 1 0 k.val _ _ h _ hF ?_
  refine RowFill.RowFill.step _ 1 k.val 0 31 3 7 (by decide) rfl _ _ _ _ (k2_off657_eq k) _ (fun x => RowFill.pay_eq _ _ 1 1 k.val 0 3 7 _ hk (by decide) (by decide) rfl _ (k2_off656_eq k) _ (k2_off657_eq k) _ _ x) ?_
  refine RowFill.RowFill.step _ 1 k.val 0 30 3 6 (by decide) rfl _ _ _ _ (k2_off655_eq k) _ (fun x => RowFill.pay_eq _ _ 1 1 k.val 0 3 6 _ hk (by decide) (by decide) rfl _ (k2_off654_eq k) _ (k2_off655_eq k) _ _ x) ?_
  refine RowFill.RowFill.step _ 1 k.val 0 29 3 5 (by decide) rfl _ _ _ _ (k2_off653_eq k) _ (fun x => RowFill.pay_eq _ _ 1 1 k.val 0 3 5 _ hk (by decide) (by decide) rfl _ (k2_off652_eq k) _ (k2_off653_eq k) _ _ x) ?_
  refine RowFill.RowFill.step _ 1 k.val 0 28 3 4 (by decide) rfl _ _ _ _ (k2_off651_eq k) _ (fun x => RowFill.pay_eq _ _ 1 1 k.val 0 3 4 _ hk (by decide) (by decide) rfl _ (k2_off650_eq k) _ (k2_off651_eq k) _ _ x) ?_
  refine RowFill.RowFill.step _ 1 k.val 0 27 3 3 (by decide) rfl _ _ _ _ (k2_off649_eq k) _ (fun x => RowFill.pay_eq _ _ 1 1 k.val 0 3 3 _ hk (by decide) (by decide) rfl _ (k2_off648_eq k) _ (k2_off649_eq k) _ _ x) ?_
  refine RowFill.RowFill.step _ 1 k.val 0 26 3 2 (by decide) rfl _ _ _ _ (k2_off647_eq k) _ (fun x => RowFill.pay_eq _ _ 1 1 k.val 0 3 2 _ hk (by decide) (by decide) rfl _ (k2_off646_eq k) _ (k2_off647_eq k) _ _ x) ?_
  refine RowFill.RowFill.step _ 1 k.val 0 25 3 1 (by decide) rfl _ _ _ _ (k2_off645_eq k) _ (fun x => RowFill.pay_eq _ _ 1 1 k.val 0 3 1 _ hk (by decide) (by decide) rfl _ (k2_off644_eq k) _ (k2_off645_eq k) _ _ x) ?_
  refine RowFill.RowFill.step _ 1 k.val 0 24 3 0 (by decide) rfl _ _ _ _ (k2_off643_eq k) _ (fun x => RowFill.pay_eq _ _ 1 1 k.val 0 3 0 _ hk (by decide) (by decide) rfl _ (k2_off642_eq k) _ (k2_off643_eq k) _ _ x) ?_
  refine RowFill.RowFill.step _ 1 k.val 0 23 2 7 (by decide) rfl _ _ _ _ (k2_off641_eq k) _ (fun x => RowFill.pay_eq _ _ 1 1 k.val 0 2 7 _ hk (by decide) (by decide) rfl _ (k2_off640_eq k) _ (k2_off641_eq k) _ _ x) ?_
  refine RowFill.RowFill.step _ 1 k.val 0 22 2 6 (by decide) rfl _ _ _ _ (k2_off639_eq k) _ (fun x => RowFill.pay_eq _ _ 1 1 k.val 0 2 6 _ hk (by decide) (by decide) rfl _ (k2_off638_eq k) _ (k2_off639_eq k) _ _ x) ?_
  refine RowFill.RowFill.step _ 1 k.val 0 21 2 5 (by decide) rfl _ _ _ _ (k2_off637_eq k) _ (fun x => RowFill.pay_eq _ _ 1 1 k.val 0 2 5 _ hk (by decide) (by decide) rfl _ (k2_off636_eq k) _ (k2_off637_eq k) _ _ x) ?_
  refine RowFill.RowFill.step _ 1 k.val 0 20 2 4 (by decide) rfl _ _ _ _ (k2_off635_eq k) _ (fun x => RowFill.pay_eq _ _ 1 1 k.val 0 2 4 _ hk (by decide) (by decide) rfl _ (k2_off634_eq k) _ (k2_off635_eq k) _ _ x) ?_
  refine RowFill.RowFill.step _ 1 k.val 0 19 2 3 (by decide) rfl _ _ _ _ (k2_off633_eq k) _ (fun x => RowFill.pay_eq _ _ 1 1 k.val 0 2 3 _ hk (by decide) (by decide) rfl _ (k2_off632_eq k) _ (k2_off633_eq k) _ _ x) ?_
  refine RowFill.RowFill.step _ 1 k.val 0 18 2 2 (by decide) rfl _ _ _ _ (k2_off631_eq k) _ (fun x => RowFill.pay_eq _ _ 1 1 k.val 0 2 2 _ hk (by decide) (by decide) rfl _ (k2_off630_eq k) _ (k2_off631_eq k) _ _ x) ?_
  refine RowFill.RowFill.step _ 1 k.val 0 17 2 1 (by decide) rfl _ _ _ _ (k2_off629_eq k) _ (fun x => RowFill.pay_eq _ _ 1 1 k.val 0 2 1 _ hk (by decide) (by decide) rfl _ (k2_off628_eq k) _ (k2_off629_eq k) _ _ x) ?_
  refine RowFill.RowFill.step _ 1 k.val 0 16 2 0 (by decide) rfl _ _ _ _ (k2_off627_eq k) _ (fun x => RowFill.pay_eq _ _ 1 1 k.val 0 2 0 _ hk (by decide) (by decide) rfl _ (k2_off626_eq k) _ (k2_off627_eq k) _ _ x) ?_
  refine RowFill.RowFill.step _ 1 k.val 0 15 1 7 (by decide) rfl _ _ _ _ (k2_off625_eq k) _ (fun x => RowFill.pay_eq _ _ 1 1 k.val 0 1 7 _ hk (by decide) (by decide) rfl _ (k2_off624_eq k) _ (k2_off625_eq k) _ _ x) ?_
  refine RowFill.RowFill.step _ 1 k.val 0 14 1 6 (by decide) rfl _ _ _ _ (k2_off623_eq k) _ (fun x => RowFill.pay_eq _ _ 1 1 k.val 0 1 6 _ hk (by decide) (by decide) rfl _ (k2_off622_eq k) _ (k2_off623_eq k) _ _ x) ?_
  refine RowFill.RowFill.step _ 1 k.val 0 13 1 5 (by decide) rfl _ _ _ _ (k2_off621_eq k) _ (fun x => RowFill.pay_eq _ _ 1 1 k.val 0 1 5 _ hk (by decide) (by decide) rfl _ (k2_off620_eq k) _ (k2_off621_eq k) _ _ x) ?_
  refine RowFill.RowFill.step _ 1 k.val 0 12 1 4 (by decide) rfl _ _ _ _ (k2_off619_eq k) _ (fun x => RowFill.pay_eq _ _ 1 1 k.val 0 1 4 _ hk (by decide) (by decide) rfl _ (k2_off618_eq k) _ (k2_off619_eq k) _ _ x) ?_
  refine RowFill.RowFill.step _ 1 k.val 0 11 1 3 (by decide) rfl _ _ _ _ (k2_off617_eq k) _ (fun x => RowFill.pay_eq _ _ 1 1 k.val 0 1 3 _ hk (by decide) (by decide) rfl _ (k2_off616_eq k) _ (k2_off617_eq k) _ _ x) ?_
  refine RowFill.RowFill.step _ 1 k.val 0 10 1 2 (by decide) rfl _ _ _ _ (k2_off615_eq k) _ (fun x => RowFill.pay_eq _ _ 1 1 k.val 0 1 2 _ hk (by decide) (by decide) rfl _ (k2_off614_eq k) _ (k2_off615_eq k) _ _ x) ?_
  refine RowFill.RowFill.step _ 1 k.val 0 9 1 1 (by decide) rfl _ _ _ _ (k2_off613_eq k) _ (fun x => RowFill.pay_eq _ _ 1 1 k.val 0 1 1 _ hk (by decide) (by decide) rfl _ (k2_off612_eq k) _ (k2_off613_eq k) _ _ x) ?_
  refine RowFill.RowFill.step _ 1 k.val 0 8 1 0 (by decide) rfl _ _ _ _ (k2_off611_eq k) _ (fun x => RowFill.pay_eq _ _ 1 1 k.val 0 1 0 _ hk (by decide) (by decide) rfl _ (k2_off610_eq k) _ (k2_off611_eq k) _ _ x) ?_
  refine RowFill.RowFill.step _ 1 k.val 0 7 0 7 (by decide) rfl _ _ _ _ (k2_off609_eq k) _ (fun x => RowFill.pay_eq _ _ 1 1 k.val 0 0 7 _ hk (by decide) (by decide) rfl _ (k2_off608_eq k) _ (k2_off609_eq k) _ _ x) ?_
  refine RowFill.RowFill.step _ 1 k.val 0 6 0 6 (by decide) rfl _ _ _ _ (k2_off607_eq k) _ (fun x => RowFill.pay_eq _ _ 1 1 k.val 0 0 6 _ hk (by decide) (by decide) rfl _ (k2_off606_eq k) _ (k2_off607_eq k) _ _ x) ?_
  refine RowFill.RowFill.step _ 1 k.val 0 5 0 5 (by decide) rfl _ _ _ _ (k2_off605_eq k) _ (fun x => RowFill.pay_eq _ _ 1 1 k.val 0 0 5 _ hk (by decide) (by decide) rfl _ (k2_off604_eq k) _ (k2_off605_eq k) _ _ x) ?_
  refine RowFill.RowFill.step _ 1 k.val 0 4 0 4 (by decide) rfl _ _ _ _ (k2_off603_eq k) _ (fun x => RowFill.pay_eq _ _ 1 1 k.val 0 0 4 _ hk (by decide) (by decide) rfl _ (k2_off602_eq k) _ (k2_off603_eq k) _ _ x) ?_
  refine RowFill.RowFill.step _ 1 k.val 0 3 0 3 (by decide) rfl _ _ _ _ (k2_off601_eq k) _ (fun x => RowFill.pay_eq _ _ 1 1 k.val 0 0 3 _ hk (by decide) (by decide) rfl _ (k2_off600_eq k) _ (k2_off601_eq k) _ _ x) ?_
  refine RowFill.RowFill.step _ 1 k.val 0 2 0 2 (by decide) rfl _ _ _ _ (k2_off599_eq k) _ (fun x => RowFill.pay_eq _ _ 1 1 k.val 0 0 2 _ hk (by decide) (by decide) rfl _ (k2_off598_eq k) _ (k2_off599_eq k) _ _ x) ?_
  refine RowFill.RowFill.step _ 1 k.val 0 1 0 1 (by decide) rfl _ _ _ _ (k2_off597_eq k) _ (fun x => RowFill.pay_eq _ _ 1 1 k.val 0 0 1 _ hk (by decide) (by decide) rfl _ (k2_off596_eq k) _ (k2_off597_eq k) _ _ x) ?_
  refine RowFill.RowFill.step _ 1 k.val 0 0 0 0 (by decide) rfl _ _ _ _ (k2_off595_eq k) _ (fun x => RowFill.pay_eq _ _ 1 1 k.val 0 0 0 _ hk (by decide) (by decide) rfl _ (k2_off594_eq k) _ (k2_off595_eq k) _ _ x) ?_
  exact RowFill.RowFill.zero _ _ _ _ _ _

end Cert.Kernel.TileBody
-- ==== Proof.Bits.TileLoop11.lean ====
/-
  Loop 11 of the tile body: one trip fills one row of a staging slot, sixteen lanes at a time, and leaves the
  loop's invariant at the next row.
-/
import proofs.«206219_g40982577938455_cont_8to1_b_1362_29_alg».proof.Proof.Bits.TileSetup

noncomputable section

namespace Cert.Kernel

open Idealize.ShloMosaic Idealize.SL.Sem
open Cert.Kernel.Gen

variable {F : FTy → Type} [FloatOps F]

/-- The region of the loop, as the kernel's text has it. -/
noncomputable def region11 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_409 : BitVec 32) (c1_i32_411 : BitVec 32) (k2_t11 : Fin k2_t11_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part82 i arg2 harg2 arg3 harg3 arg4 harg4 arg5 harg5 arg6 harg6 arg7 arg8 v661_r0 c0_i32_409 c1_i32_411 k2_t11
  let ⟨v734, c0_i32_809⟩ : Σ' (v734 : FVec F S16 .f32), BitVec 32 ← k2_part83 i arg2 harg2 arg3 harg3 arg4 harg4 arg5 harg5 arg6 harg6 arg7 arg8 v661_r0 k2_t11 arg9 v694
  k2_part84 i arg2 harg2 arg3 harg3 arg4 harg4 arg5 harg5 arg6 harg6 arg7 arg8 v661_r0 k2_t11 arg9 v734 c0_i32_809
  let v810 : FVec F S1x1x1x16 .f32 ← k2_part85 i arg2 harg2 arg3 harg3 arg4 harg4 arg5 harg5 arg6 harg6 arg7 arg8 v661_r0 k2_t11 arg9
  let v844 : FVec F S16 .f32 ← k2_part86 i arg2 harg2 arg3 harg3 arg4 harg4 arg5 harg5 arg6 harg6 arg7 arg8 v661_r0 k2_t11 arg9 v810
  let ⟨v884, c0_i32_869⟩ : Σ' (v884 : FVec F S16 .f32), BitVec 32 ← k2_part87 i arg2 harg2 arg3 harg3 arg4 harg4 arg5 harg5 arg6 harg6 arg7 arg8 v661_r0 k2_t11 arg9 v844
  k2_part88 i arg2 harg2 arg3 harg3 arg4 harg4 arg5 harg5 arg6 harg6 arg7 arg8 v661_r0 k2_t11 arg9 v884 c0_i32_869
  let v960 : FVec F S1x1x1x16 .f32 ← k2_part89 i arg2 harg2 arg3 harg3 arg4 harg4 arg5 harg5 arg6 harg6 arg7 arg8 v661_r0 k2_t11 arg9
  Prog.lift (.store arg6 (Rect.unit (s := S2x32x4x256) (k2_off719 k2_t11) S1x1x1x16.size (k2_off719_inb k2_t11)) v960 Finset.univ (View.stores_vmem_bits_univ h_S1x1x1x16 rfl) (.inl rfl))
  let c0_i32_900 : BitVec 32 := 0#32
  let v961 : Index := Scalar.indexCast c0_i32_900
  let v962 : Index := Scalar.indexCast arg9
  let c480 : Index := 480#32
  let v963 : Vec F S1x1x16 .f32 ← Prog.lift (.load arg5 (Rect.unit (s := S2x32x512) (k2_off720 k2_t11) S1x1x16.size (k2_off720_inb k2_t11)).toLoadRect (View.loadsAt_vmem h_S1x1x16))
  have v964 : FVec F S16 .f32 := shapeCast S16 v963 shapeCasts_S1x1x16_S16
  let c0_i32_901 : BitVec 32 := 0#32
  let c3_i32_902 : BitVec 32 := 3#32
  let v965 : Index := Scalar.indexCast c0_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off721 k2_t11) S1x1x1x16.size (k2_off721_inb k2_t11)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off721 k2_t11) S1x1x1x16.size (k2_off721_inb k2_t11)) v970 Finset.univ (View.stores_vmem_bits_univ h_S1x1x1x16 rfl) (.inl rfl))
  let c0_i32_904 : BitVec 32 := 0#32
  let v971 : Index := Scalar.indexCast c0_i32_904
  let v972 : Index := Scalar.indexCast arg9
  let c496 : Index := 496#32
  let v973 : Vec F S1x1x16 .f32 ← Prog.lift (.load arg5 (Rect.unit (s := S2x32x512) (k2_off722 k2_t11) S1x1x16.size (k2_off722_inb k2_t11)).toLoadRect (View.loadsAt_vmem h_S1x1x16))
  have v974 : FVec F S16 .f32 := shapeCast S16 v973 shapeCasts_S1x1x16_S16
  let c0_i32_905 : BitVec 32 := 0#32
  let c3_i32_906 : BitVec 32 := 3#32
  let v975 : Index := Scalar.indexCast c0_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off723 k2_t11) S1x1x1x16.size (k2_off723_inb k2_t11)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off723 k2_t11) S1x1x1x16.size (k2_off723_inb k2_t11)) v980 Finset.univ (View.stores_vmem_bits_univ h_S1x1x1x16 rfl) (.inl rfl))
  pure ⟨⟩

end Cert.Kernel

namespace Cert.Kernel.TileBody

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop11 (A : Buf (Elt F) ((thr d L).loc cc2_scratch0)) (G : Buf (Elt F) ((thr d L).loc cc2_scratch1))
    (k : Fin k2_t11_loop.trips) (acc : PUnit) :
    (invFill0 (F := F) d L 0 A G k.val acc : sProp 𝕄)
      ⊢ wp frame (wpE (defs₀ (F := F)) 𝒱₀ (thr d L) none) Set.univ
          (region11 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill0 (F := F) d L 0 A G (k.val + 1)) := by
  have hk : (k : ℕ) < 32 := lt_of_lt_of_le k.isLt k2_t11_abs.2.1
  unfold invFill0 region11
  iintro ⟨Ha0, %h, Hb0, %hF⟩
  sl_exec
  sl_step
  isplitl [Ha0]; · iexact Ha0
  iexists _; isplitl [Hb0]; · iexact Hb0
  ipureintro
  refine RowFill.Filled.succ _ 0 0 k.val _ _ h _ hF ?_
  refine RowFill.RowFill.step _ 0 k.val 0 31 3 7 (by decide) rfl _ _ _ _ (k2_off723_eq k) _ (fun x => RowFill.pay_eq _ _ 0 0 k.val 0 3 7 _ hk (by decide) (by decide) rfl _ (k2_off722_eq k) _ (k2_off723_eq k) _ _ x) ?_
  refine RowFill.RowFill.step _ 0 k.val 0 30 3 6 (by decide) rfl _ _ _ _ (k2_off721_eq k) _ (fun x => RowFill.pay_eq _ _ 0 0 k.val 0 3 6 _ hk (by decide) (by decide) rfl _ (k2_off720_eq k) _ (k2_off721_eq k) _ _ x) ?_
  refine RowFill.RowFill.step _ 0 k.val 0 29 3 5 (by decide) rfl _ _ _ _ (k2_off719_eq k) _ (fun x => RowFill.pay_eq _ _ 0 0 k.val 0 3 5 _ hk (by decide) (by decide) rfl _ (k2_off718_eq k) _ (k2_off719_eq k) _ _ x) ?_
  refine RowFill.RowFill.step _ 0 k.val 0 28 3 4 (by decide) rfl _ _ _ _ (k2_off717_eq k) _ (fun x => RowFill.pay_eq _ _ 0 0 k.val 0 3 4 _ hk (by decide) (by decide) rfl _ (k2_off716_eq k) _ (k2_off717_eq k) _ _ x) ?_
  refine RowFill.RowFill.step _ 0 k.val 0 27 3 3 (by decide) rfl _ _ _ _ (k2_off715_eq k) _ (fun x => RowFill.pay_eq _ _ 0 0 k.val 0 3 3 _ hk (by decide) (by decide) rfl _ (k2_off714_eq k) _ (k2_off715_eq k) _ _ x) ?_
  refine RowFill.RowFill.step _ 0 k.val 0 26 3 2 (by decide) rfl _ _ _ _ (k2_off713_eq k) _ (fun x => RowFill.pay_eq _ _ 0 0 k.val 0 3 2 _ hk (by decide) (by decide) rfl _ (k2_off712_eq k) _ (k2_off713_eq k) _ _ x) ?_
  refine RowFill.RowFill.step _ 0 k.val 0 25 3 1 (by decide) rfl _ _ _ _ (k2_off711_eq k) _ (fun x => RowFill.pay_eq _ _ 0 0 k.val 0 3 1 _ hk (by decide) (by decide) rfl _ (k2_off710_eq k) _ (k2_off711_eq k) _ _ x) ?_
  refine RowFill.RowFill.step _ 0 k.val 0 24 3 0 (by decide) rfl _ _ _ _ (k2_off709_eq k) _ (fun x => RowFill.pay_eq _ _ 0 0 k.val 0 3 0 _ hk (by decide) (by decide) rfl _ (k2_off708_eq k) _ (k2_off709_eq k) _ _ x) ?_
  refine RowFill.RowFill.step _ 0 k.val 0 23 2 7 (by decide) rfl _ _ _ _ (k2_off707_eq k) _ (fun x => RowFill.pay_eq _ _ 0 0 k.val 0 2 7 _ hk (by decide) (by decide) rfl _ (k2_off706_eq k) _ (k2_off707_eq k) _ _ x) ?_
  refine RowFill.RowFill.step _ 0 k.val 0 22 2 6 (by decide) rfl _ _ _ _ (k2_off705_eq k) _ (fun x => RowFill.pay_eq _ _ 0 0 k.val 0 2 6 _ hk (by decide) (by decide) rfl _ (k2_off704_eq k) _ (k2_off705_eq k) _ _ x) ?_
  refine RowFill.RowFill.step _ 0 k.val 0 21 2 5 (by decide) rfl _ _ _ _ (k2_off703_eq k) _ (fun x => RowFill.pay_eq _ _ 0 0 k.val 0 2 5 _ hk (by decide) (by decide) rfl _ (k2_off702_eq k) _ (k2_off703_eq k) _ _ x) ?_
  refine RowFill.RowFill.step _ 0 k.val 0 20 2 4 (by decide) rfl _ _ _ _ (k2_off701_eq k) _ (fun x => RowFill.pay_eq _ _ 0 0 k.val 0 2 4 _ hk (by decide) (by decide) rfl _ (k2_off700_eq k) _ (k2_off701_eq k) _ _ x) ?_
  refine RowFill.RowFill.step _ 0 k.val 0 19 2 3 (by decide) rfl _ _ _ _ (k2_off699_eq k) _ (fun x => RowFill.pay_eq _ _ 0 0 k.val 0 2 3 _ hk (by decide) (by decide) rfl _ (k2_off698_eq k) _ (k2_off699_eq k) _ _ x) ?_
  refine RowFill.RowFill.step _ 0 k.val 0 18 2 2 (by decide) rfl _ _ _ _ (k2_off697_eq k) _ (fun x => RowFill.pay_eq _ _ 0 0 k.val 0 2 2 _ hk (by decide) (by decide) rfl _ (k2_off696_eq k) _ (k2_off697_eq k) _ _ x) ?_
  refine RowFill.RowFill.step _ 0 k.val 0 17 2 1 (by decide) rfl _ _ _ _ (k2_off695_eq k) _ (fun x => RowFill.pay_eq _ _ 0 0 k.val 0 2 1 _ hk (by decide) (by decide) rfl _ (k2_off694_eq k) _ (k2_off695_eq k) _ _ x) ?_
  refine RowFill.RowFill.step _ 0 k.val 0 16 2 0 (by decide) rfl _ _ _ _ (k2_off693_eq k) _ (fun x => RowFill.pay_eq _ _ 0 0 k.val 0 2 0 _ hk (by decide) (by decide) rfl _ (k2_off692_eq k) _ (k2_off693_eq k) _ _ x) ?_
  refine RowFill.RowFill.step _ 0 k.val 0 15 1 7 (by decide) rfl _ _ _ _ (k2_off691_eq k) _ (fun x => RowFill.pay_eq _ _ 0 0 k.val 0 1 7 _ hk (by decide) (by decide) rfl _ (k2_off690_eq k) _ (k2_off691_eq k) _ _ x) ?_
  refine RowFill.RowFill.step _ 0 k.val 0 14 1 6 (by decide) rfl _ _ _ _ (k2_off689_eq k) _ (fun x => RowFill.pay_eq _ _ 0 0 k.val 0 1 6 _ hk (by decide) (by decide) rfl _ (k2_off688_eq k) _ (k2_off689_eq k) _ _ x) ?_
  refine RowFill.RowFill.step _ 0 k.val 0 13 1 5 (by decide) rfl _ _ _ _ (k2_off687_eq k) _ (fun x => RowFill.pay_eq _ _ 0 0 k.val 0 1 5 _ hk (by decide) (by decide) rfl _ (k2_off686_eq k) _ (k2_off687_eq k) _ _ x) ?_
  refine RowFill.RowFill.step _ 0 k.val 0 12 1 4 (by decide) rfl _ _ _ _ (k2_off685_eq k) _ (fun x => RowFill.pay_eq _ _ 0 0 k.val 0 1 4 _ hk (by decide) (by decide) rfl _ (k2_off684_eq k) _ (k2_off685_eq k) _ _ x) ?_
  refine RowFill.RowFill.step _ 0 k.val 0 11 1 3 (by decide) rfl _ _ _ _ (k2_off683_eq k) _ (fun x => RowFill.pay_eq _ _ 0 0 k.val 0 1 3 _ hk (by decide) (by decide) rfl _ (k2_off682_eq k) _ (k2_off683_eq k) _ _ x) ?_
  refine RowFill.RowFill.step _ 0 k.val 0 10 1 2 (by decide) rfl _ _ _ _ (k2_off681_eq k) _ (fun x => RowFill.pay_eq _ _ 0 0 k.val 0 1 2 _ hk (by decide) (by decide) rfl _ (k2_off680_eq k) _ (k2_off681_eq k) _ _ x) ?_
  refine RowFill.RowFill.step _ 0 k.val 0 9 1 1 (by decide) rfl _ _ _ _ (k2_off679_eq k) _ (fun x => RowFill.pay_eq _ _ 0 0 k.val 0 1 1 _ hk (by decide) (by decide) rfl _ (k2_off678_eq k) _ (k2_off679_eq k) _ _ x) ?_
  refine RowFill.RowFill.step _ 0 k.val 0 8 1 0 (by decide) rfl _ _ _ _ (k2_off677_eq k) _ (fun x => RowFill.pay_eq _ _ 0 0 k.val 0 1 0 _ hk (by decide) (by decide) rfl _ (k2_off676_eq k) _ (k2_off677_eq k) _ _ x) ?_
  refine RowFill.RowFill.step _ 0 k.val 0 7 0 7 (by decide) rfl _ _ _ _ (k2_off675_eq k) _ (fun x => RowFill.pay_eq _ _ 0 0 k.val 0 0 7 _ hk (by decide) (by decide) rfl _ (k2_off674_eq k) _ (k2_off675_eq k) _ _ x) ?_
  refine RowFill.RowFill.step _ 0 k.val 0 6 0 6 (by decide) rfl _ _ _ _ (k2_off673_eq k) _ (fun x => RowFill.pay_eq _ _ 0 0 k.val 0 0 6 _ hk (by decide) (by decide) rfl _ (k2_off672_eq k) _ (k2_off673_eq k) _ _ x) ?_
  refine RowFill.RowFill.step _ 0 k.val 0 5 0 5 (by decide) rfl _ _ _ _ (k2_off671_eq k) _ (fun x => RowFill.pay_eq _ _ 0 0 k.val 0 0 5 _ hk (by decide) (by decide) rfl _ (k2_off670_eq k) _ (k2_off671_eq k) _ _ x) ?_
  refine RowFill.RowFill.step _ 0 k.val 0 4 0 4 (by decide) rfl _ _ _ _ (k2_off669_eq k) _ (fun x => RowFill.pay_eq _ _ 0 0 k.val 0 0 4 _ hk (by decide) (by decide) rfl _ (k2_off668_eq k) _ (k2_off669_eq k) _ _ x) ?_
  refine RowFill.RowFill.step _ 0 k.val 0 3 0 3 (by decide) rfl _ _ _ _ (k2_off667_eq k) _ (fun x => RowFill.pay_eq _ _ 0 0 k.val 0 0 3 _ hk (by decide) (by decide) rfl _ (k2_off666_eq k) _ (k2_off667_eq k) _ _ x) ?_
  refine RowFill.RowFill.step _ 0 k.val 0 2 0 2 (by decide) rfl _ _ _ _ (k2_off665_eq k) _ (fun x => RowFill.pay_eq _ _ 0 0 k.val 0 0 2 _ hk (by decide) (by decide) rfl _ (k2_off664_eq k) _ (k2_off665_eq k) _ _ x) ?_
  refine RowFill.RowFill.step _ 0 k.val 0 1 0 1 (by decide) rfl _ _ _ _ (k2_off663_eq k) _ (fun x => RowFill.pay_eq _ _ 0 0 k.val 0 0 1 _ hk (by decide) (by decide) rfl _ (k2_off662_eq k) _ (k2_off663_eq k) _ _ x) ?_
  refine RowFill.RowFill.step _ 0 k.val 0 0 0 0 (by decide) rfl _ _ _ _ (k2_off661_eq k) _ (fun x => RowFill.pay_eq _ _ 0 0 k.val 0 0 0 _ hk (by decide) (by decide) rfl _ (k2_off660_eq k) _ (k2_off661_eq k) _ _ x) ?_
  exact RowFill.RowFill.zero _ _ _ _ _ _

end Cert.Kernel.TileBody
-- ==== Proof.Bits.TileLoop12.lean ====
/-
  Loop 12 of the tile body: one trip fills one row of a staging slot, sixteen lanes at a time, and leaves the
  loop's invariant at the next row.
-/
import proofs.«206219_g40982577938455_cont_8to1_b_1362_29_alg».proof.Proof.Bits.TileSetup

noncomputable section

namespace Cert.Kernel

open Idealize.ShloMosaic Idealize.SL.Sem
open Cert.Kernel.Gen

variable {F : FTy → Type} [FloatOps F]

/-- The region of the loop, as the kernel's text has it. -/
noncomputable def region12 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_457 : BitVec 32) (c1_i32_459 : BitVec 32) (k2_t12 : Fin k2_t12_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part90 i arg2 harg2 arg3 harg3 arg4 harg4 arg5 harg5 arg6 harg6 arg7 arg8 v661_r0 c0_i32_457 c1_i32_459 k2_t12
  let ⟨v734, c1_i32_809⟩ : Σ' (v734 : FVec F S16 .f32), BitVec 32 ← k2_part91 i arg2 harg2 arg3 harg3 arg4 harg4 arg5 harg5 arg6 harg6 arg7 arg8 v661_r0 k2_t12 arg9 v694
  k2_part92 i arg2 harg2 arg3 harg3 arg4 harg4 arg5 harg5 arg6 harg6 arg7 arg8 v661_r0 k2_t12 arg9 v734 c1_i32_809
  let v810 : FVec F S1x1x1x16 .f32 ← k2_part93 i arg2 harg2 arg3 harg3 arg4 harg4 arg5 harg5 arg6 harg6 arg7 arg8 v661_r0 k2_t12 arg9
  let v844 : FVec F S16 .f32 ← k2_part94 i arg2 harg2 arg3 harg3 arg4 harg4 arg5 harg5 arg6 harg6 arg7 arg8 v661_r0 k2_t12 arg9 v810
  let ⟨v884, c1_i32_869⟩ : Σ' (v884 : FVec F S16 .f32), BitVec 32 ← k2_part95 i arg2 harg2 arg3 harg3 arg4 harg4 arg5 harg5 arg6 harg6 arg7 arg8 v661_r0 k2_t12 arg9 v844
  k2_part96 i arg2 harg2 arg3 harg3 arg4 harg4 arg5 harg5 arg6 harg6 arg7 arg8 v661_r0 k2_t12 arg9 v884 c1_i32_869
  let v960 : FVec F S1x1x1x16 .f32 ← k2_part97 i arg2 harg2 arg3 harg3 arg4 harg4 arg5 harg5 arg6 harg6 arg7 arg8 v661_r0 k2_t12 arg9
  Prog.lift (.store arg6 (Rect.unit (s := S2x32x4x256) (k2_off785 k2_t12) S1x1x1x16.size (k2_off785_inb k2_t12)) v960 Finset.univ (View.stores_vmem_bits_univ h_S1x1x1x16 rfl) (.inl rfl))
  let c1_i32_900 : BitVec 32 := 1#32
  let v961 : Index := Scalar.indexCast c1_i32_900
  let v962 : Index := Scalar.indexCast arg9
  let c480 : Index := 480#32
  let v963 : Vec F S1x1x16 .f32 ← Prog.lift (.load arg5 (Rect.unit (s := S2x32x512) (k2_off786 k2_t12) S1x1x16.size (k2_off786_inb k2_t12)).toLoadRect (View.loadsAt_vmem h_S1x1x16))
  have v964 : FVec F S16 .f32 := shapeCast S16 v963 shapeCasts_S1x1x16_S16
  let c1_i32_901 : BitVec 32 := 1#32
  let c3_i32_902 : BitVec 32 := 3#32
  let v965 : Index := Scalar.indexCast c1_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off787 k2_t12) S1x1x1x16.size (k2_off787_inb k2_t12)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off787 k2_t12) S1x1x1x16.size (k2_off787_inb k2_t12)) v970 Finset.univ (View.stores_vmem_bits_univ h_S1x1x1x16 rfl) (.inl rfl))
  let c1_i32_904 : BitVec 32 := 1#32
  let v971 : Index := Scalar.indexCast c1_i32_904
  let v972 : Index := Scalar.indexCast arg9
  let c496 : Index := 496#32
  let v973 : Vec F S1x1x16 .f32 ← Prog.lift (.load arg5 (Rect.unit (s := S2x32x512) (k2_off788 k2_t12) S1x1x16.size (k2_off788_inb k2_t12)).toLoadRect (View.loadsAt_vmem h_S1x1x16))
  have v974 : FVec F S16 .f32 := shapeCast S16 v973 shapeCasts_S1x1x16_S16
  let c1_i32_905 : BitVec 32 := 1#32
  let c3_i32_906 : BitVec 32 := 3#32
  let v975 : Index := Scalar.indexCast c1_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off789 k2_t12) S1x1x1x16.size (k2_off789_inb k2_t12)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off789 k2_t12) S1x1x1x16.size (k2_off789_inb k2_t12)) v980 Finset.univ (View.stores_vmem_bits_univ h_S1x1x1x16 rfl) (.inl rfl))
  pure ⟨⟩

end Cert.Kernel

namespace Cert.Kernel.TileBody

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop12 (A : Buf (Elt F) ((thr d L).loc cc2_scratch0)) (G : Buf (Elt F) ((thr d L).loc cc2_scratch1))
    (k : Fin k2_t12_loop.trips) (acc : PUnit) :
    (invFill1 (F := F) d L 0 A G k.val acc : sProp 𝕄)
      ⊢ wp frame (wpE (defs₀ (F := F)) 𝒱₀ (thr d L) none) Set.univ
          (region12 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill1 (F := F) d L 0 A G (k.val + 1)) := by
  have hk : (k : ℕ) < 32 := lt_of_lt_of_le k.isLt k2_t12_abs.2.1
  unfold invFill1 region12
  iintro ⟨Ha1, %h, Hb1, %hF⟩
  sl_exec
  sl_step
  isplitl [Ha1]; · iexact Ha1
  iexists _; isplitl [Hb1]; · iexact Hb1
  ipureintro
  refine RowFill.Filled.succ _ 1 0 k.val _ _ h _ hF ?_
  refine RowFill.RowFill.step _ 1 k.val 0 31 3 7 (by decide) rfl _ _ _ _ (k2_off789_eq k) _ (fun x => RowFill.pay_eq _ _ 1 1 k.val 0 3 7 _ hk (by decide) (by decide) rfl _ (k2_off788_eq k) _ (k2_off789_eq k) _ _ x) ?_
  refine RowFill.RowFill.step _ 1 k.val 0 30 3 6 (by decide) rfl _ _ _ _ (k2_off787_eq k) _ (fun x => RowFill.pay_eq _ _ 1 1 k.val 0 3 6 _ hk (by decide) (by decide) rfl _ (k2_off786_eq k) _ (k2_off787_eq k) _ _ x) ?_
  refine RowFill.RowFill.step _ 1 k.val 0 29 3 5 (by decide) rfl _ _ _ _ (k2_off785_eq k) _ (fun x => RowFill.pay_eq _ _ 1 1 k.val 0 3 5 _ hk (by decide) (by decide) rfl _ (k2_off784_eq k) _ (k2_off785_eq k) _ _ x) ?_
  refine RowFill.RowFill.step _ 1 k.val 0 28 3 4 (by decide) rfl _ _ _ _ (k2_off783_eq k) _ (fun x => RowFill.pay_eq _ _ 1 1 k.val 0 3 4 _ hk (by decide) (by decide) rfl _ (k2_off782_eq k) _ (k2_off783_eq k) _ _ x) ?_
  refine RowFill.RowFill.step _ 1 k.val 0 27 3 3 (by decide) rfl _ _ _ _ (k2_off781_eq k) _ (fun x => RowFill.pay_eq _ _ 1 1 k.val 0 3 3 _ hk (by decide) (by decide) rfl _ (k2_off780_eq k) _ (k2_off781_eq k) _ _ x) ?_
  refine RowFill.RowFill.step _ 1 k.val 0 26 3 2 (by decide) rfl _ _ _ _ (k2_off779_eq k) _ (fun x => RowFill.pay_eq _ _ 1 1 k.val 0 3 2 _ hk (by decide) (by decide) rfl _ (k2_off778_eq k) _ (k2_off779_eq k) _ _ x) ?_
  refine RowFill.RowFill.step _ 1 k.val 0 25 3 1 (by decide) rfl _ _ _ _ (k2_off777_eq k) _ (fun x => RowFill.pay_eq _ _ 1 1 k.val 0 3 1 _ hk (by decide) (by decide) rfl _ (k2_off776_eq k) _ (k2_off777_eq k) _ _ x) ?_
  refine RowFill.RowFill.step _ 1 k.val 0 24 3 0 (by decide) rfl _ _ _ _ (k2_off775_eq k) _ (fun x => RowFill.pay_eq _ _ 1 1 k.val 0 3 0 _ hk (by decide) (by decide) rfl _ (k2_off774_eq k) _ (k2_off775_eq k) _ _ x) ?_
  refine RowFill.RowFill.step _ 1 k.val 0 23 2 7 (by decide) rfl _ _ _ _ (k2_off773_eq k) _ (fun x => RowFill.pay_eq _ _ 1 1 k.val 0 2 7 _ hk (by decide) (by decide) rfl _ (k2_off772_eq k) _ (k2_off773_eq k) _ _ x) ?_
  refine RowFill.RowFill.step _ 1 k.val 0 22 2 6 (by decide) rfl _ _ _ _ (k2_off771_eq k) _ (fun x => RowFill.pay_eq _ _ 1 1 k.val 0 2 6 _ hk (by decide) (by decide) rfl _ (k2_off770_eq k) _ (k2_off771_eq k) _ _ x) ?_
  refine RowFill.RowFill.step _ 1 k.val 0 21 2 5 (by decide) rfl _ _ _ _ (k2_off769_eq k) _ (fun x => RowFill.pay_eq _ _ 1 1 k.val 0 2 5 _ hk (by decide) (by decide) rfl _ (k2_off768_eq k) _ (k2_off769_eq k) _ _ x) ?_
  refine RowFill.RowFill.step _ 1 k.val 0 20 2 4 (by decide) rfl _ _ _ _ (k2_off767_eq k) _ (fun x => RowFill.pay_eq _ _ 1 1 k.val 0 2 4 _ hk (by decide) (by decide) rfl _ (k2_off766_eq k) _ (k2_off767_eq k) _ _ x) ?_
  refine RowFill.RowFill.step _ 1 k.val 0 19 2 3 (by decide) rfl _ _ _ _ (k2_off765_eq k) _ (fun x => RowFill.pay_eq _ _ 1 1 k.val 0 2 3 _ hk (by decide) (by decide) rfl _ (k2_off764_eq k) _ (k2_off765_eq k) _ _ x) ?_
  refine RowFill.RowFill.step _ 1 k.val 0 18 2 2 (by decide) rfl _ _ _ _ (k2_off763_eq k) _ (fun x => RowFill.pay_eq _ _ 1 1 k.val 0 2 2 _ hk (by decide) (by decide) rfl _ (k2_off762_eq k) _ (k2_off763_eq k) _ _ x) ?_
  refine RowFill.RowFill.step _ 1 k.val 0 17 2 1 (by decide) rfl _ _ _ _ (k2_off761_eq k) _ (fun x => RowFill.pay_eq _ _ 1 1 k.val 0 2 1 _ hk (by decide) (by decide) rfl _ (k2_off760_eq k) _ (k2_off761_eq k) _ _ x) ?_
  refine RowFill.RowFill.step _ 1 k.val 0 16 2 0 (by decide) rfl _ _ _ _ (k2_off759_eq k) _ (fun x => RowFill.pay_eq _ _ 1 1 k.val 0 2 0 _ hk (by decide) (by decide) rfl _ (k2_off758_eq k) _ (k2_off759_eq k) _ _ x) ?_
  refine RowFill.RowFill.step _ 1 k.val 0 15 1 7 (by decide) rfl _ _ _ _ (k2_off757_eq k) _ (fun x => RowFill.pay_eq _ _ 1 1 k.val 0 1 7 _ hk (by decide) (by decide) rfl _ (k2_off756_eq k) _ (k2_off757_eq k) _ _ x) ?_
  refine RowFill.RowFill.step _ 1 k.val 0 14 1 6 (by decide) rfl _ _ _ _ (k2_off755_eq k) _ (fun x => RowFill.pay_eq _ _ 1 1 k.val 0 1 6 _ hk (by decide) (by decide) rfl _ (k2_off754_eq k) _ (k2_off755_eq k) _ _ x) ?_
  refine RowFill.RowFill.step _ 1 k.val 0 13 1 5 (by decide) rfl _ _ _ _ (k2_off753_eq k) _ (fun x => RowFill.pay_eq _ _ 1 1 k.val 0 1 5 _ hk (by decide) (by decide) rfl _ (k2_off752_eq k) _ (k2_off753_eq k) _ _ x) ?_
  refine RowFill.RowFill.step _ 1 k.val 0 12 1 4 (by decide) rfl _ _ _ _ (k2_off751_eq k) _ (fun x => RowFill.pay_eq _ _ 1 1 k.val 0 1 4 _ hk (by decide) (by decide) rfl _ (k2_off750_eq k) _ (k2_off751_eq k) _ _ x) ?_
  refine RowFill.RowFill.step _ 1 k.val 0 11 1 3 (by decide) rfl _ _ _ _ (k2_off749_eq k) _ (fun x => RowFill.pay_eq _ _ 1 1 k.val 0 1 3 _ hk (by decide) (by decide) rfl _ (k2_off748_eq k) _ (k2_off749_eq k) _ _ x) ?_
  refine RowFill.RowFill.step _ 1 k.val 0 10 1 2 (by decide) rfl _ _ _ _ (k2_off747_eq k) _ (fun x => RowFill.pay_eq _ _ 1 1 k.val 0 1 2 _ hk (by decide) (by decide) rfl _ (k2_off746_eq k) _ (k2_off747_eq k) _ _ x) ?_
  refine RowFill.RowFill.step _ 1 k.val 0 9 1 1 (by decide) rfl _ _ _ _ (k2_off745_eq k) _ (fun x => RowFill.pay_eq _ _ 1 1 k.val 0 1 1 _ hk (by decide) (by decide) rfl _ (k2_off744_eq k) _ (k2_off745_eq k) _ _ x) ?_
  refine RowFill.RowFill.step _ 1 k.val 0 8 1 0 (by decide) rfl _ _ _ _ (k2_off743_eq k) _ (fun x => RowFill.pay_eq _ _ 1 1 k.val 0 1 0 _ hk (by decide) (by decide) rfl _ (k2_off742_eq k) _ (k2_off743_eq k) _ _ x) ?_
  refine RowFill.RowFill.step _ 1 k.val 0 7 0 7 (by decide) rfl _ _ _ _ (k2_off741_eq k) _ (fun x => RowFill.pay_eq _ _ 1 1 k.val 0 0 7 _ hk (by decide) (by decide) rfl _ (k2_off740_eq k) _ (k2_off741_eq k) _ _ x) ?_
  refine RowFill.RowFill.step _ 1 k.val 0 6 0 6 (by decide) rfl _ _ _ _ (k2_off739_eq k) _ (fun x => RowFill.pay_eq _ _ 1 1 k.val 0 0 6 _ hk (by decide) (by decide) rfl _ (k2_off738_eq k) _ (k2_off739_eq k) _ _ x) ?_
  refine RowFill.RowFill.step _ 1 k.val 0 5 0 5 (by decide) rfl _ _ _ _ (k2_off737_eq k) _ (fun x => RowFill.pay_eq _ _ 1 1 k.val 0 0 5 _ hk (by decide) (by decide) rfl _ (k2_off736_eq k) _ (k2_off737_eq k) _ _ x) ?_
  refine RowFill.RowFill.step _ 1 k.val 0 4 0 4 (by decide) rfl _ _ _ _ (k2_off735_eq k) _ (fun x => RowFill.pay_eq _ _ 1 1 k.val 0 0 4 _ hk (by decide) (by decide) rfl _ (k2_off734_eq k) _ (k2_off735_eq k) _ _ x) ?_
  refine RowFill.RowFill.step _ 1 k.val 0 3 0 3 (by decide) rfl _ _ _ _ (k2_off733_eq k) _ (fun x => RowFill.pay_eq _ _ 1 1 k.val 0 0 3 _ hk (by decide) (by decide) rfl _ (k2_off732_eq k) _ (k2_off733_eq k) _ _ x) ?_
  refine RowFill.RowFill.step _ 1 k.val 0 2 0 2 (by decide) rfl _ _ _ _ (k2_off731_eq k) _ (fun x => RowFill.pay_eq _ _ 1 1 k.val 0 0 2 _ hk (by decide) (by decide) rfl _ (k2_off730_eq k) _ (k2_off731_eq k) _ _ x) ?_
  refine RowFill.RowFill.step _ 1 k.val 0 1 0 1 (by decide) rfl _ _ _ _ (k2_off729_eq k) _ (fun x => RowFill.pay_eq _ _ 1 1 k.val 0 0 1 _ hk (by decide) (by decide) rfl _ (k2_off728_eq k) _ (k2_off729_eq k) _ _ x) ?_
  refine RowFill.RowFill.step _ 1 k.val 0 0 0 0 (by decide) rfl _ _ _ _ (k2_off727_eq k) _ (fun x => RowFill.pay_eq _ _ 1 1 k.val 0 0 0 _ hk (by decide) (by decide) rfl _ (k2_off726_eq k) _ (k2_off727_eq k) _ _ x) ?_
  exact RowFill.RowFill.zero _ _ _ _ _ _

end Cert.Kernel.TileBody
-- ==== Proof.Bits.TileLoop13.lean ====
/-
  Loop 13 of the tile body: one trip fills one row of a staging slot, sixteen lanes at a time, and leaves the
  loop's invariant at the next row.
-/
import proofs.«206219_g40982577938455_cont_8to1_b_1362_29_alg».proof.Proof.Bits.TileSetup

noncomputable section

namespace Cert.Kernel

open Idealize.ShloMosaic Idealize.SL.Sem
open Cert.Kernel.Gen

variable {F : FTy → Type} [FloatOps F]

/-- The region of the loop, as the kernel's text has it. -/
noncomputable def region13 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_505 : BitVec 32) (c1_i32_507 : BitVec 32) (k2_t13 : Fin k2_t13_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part98 i arg2 harg2 arg3 harg3 arg4 harg4 arg5 harg5 arg6 harg6 arg7 arg8 v661_r0 c0_i32_505 c1_i32_507 k2_t13
  let ⟨v734, c0_i32_809⟩ : Σ' (v734 : FVec F S16 .f32), BitVec 32 ← k2_part99 i arg2 harg2 arg3 harg3 arg4 harg4 arg5 harg5 arg6 harg6 arg7 arg8 v661_r0 k2_t13 arg9 v694
  k2_part100 i arg2 harg2 arg3 harg3 arg4 harg4 arg5 harg5 arg6 harg6 arg7 arg8 v661_r0 k2_t13 arg9 v734 c0_i32_809
  let v810 : FVec F S1x1x1x16 .f32 ← k2_part101 i arg2 harg2 arg3 harg3 arg4 harg4 arg5 harg5 arg6 harg6 arg7 arg8 v661_r0 k2_t13 arg9
  let v844 : FVec F S16 .f32 ← k2_part102 i arg2 harg2 arg3 harg3 arg4 harg4 arg5 harg5 arg6 harg6 arg7 arg8 v661_r0 k2_t13 arg9 v810
  let ⟨v884, c0_i32_869⟩ : Σ' (v884 : FVec F S16 .f32), BitVec 32 ← k2_part103 i arg2 harg2 arg3 harg3 arg4 harg4 arg5 harg5 arg6 harg6 arg7 arg8 v661_r0 k2_t13 arg9 v844
  k2_part104 i arg2 harg2 arg3 harg3 arg4 harg4 arg5 harg5 arg6 harg6 arg7 arg8 v661_r0 k2_t13 arg9 v884 c0_i32_869
  let v960 : FVec F S1x1x1x16 .f32 ← k2_part105 i arg2 harg2 arg3 harg3 arg4 harg4 arg5 harg5 arg6 harg6 arg7 arg8 v661_r0 k2_t13 arg9
  Prog.lift (.store arg6 (Rect.unit (s := S2x32x4x256) (k2_off851 k2_t13) S1x1x1x16.size (k2_off851_inb k2_t13)) v960 Finset.univ (View.stores_vmem_bits_univ h_S1x1x1x16 rfl) (.inl rfl))
  let c0_i32_900 : BitVec 32 := 0#32
  let v961 : Index := Scalar.indexCast c0_i32_900
  let v962 : Index := Scalar.indexCast arg9
  let c480 : Index := 480#32
  let v963 : Vec F S1x1x16 .f32 ← Prog.lift (.load arg5 (Rect.unit (s := S2x32x512) (k2_off852 k2_t13) S1x1x16.size (k2_off852_inb k2_t13)).toLoadRect (View.loadsAt_vmem h_S1x1x16))
  have v964 : FVec F S16 .f32 := shapeCast S16 v963 shapeCasts_S1x1x16_S16
  let c0_i32_901 : BitVec 32 := 0#32
  let c3_i32_902 : BitVec 32 := 3#32
  let v965 : Index := Scalar.indexCast c0_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off853 k2_t13) S1x1x1x16.size (k2_off853_inb k2_t13)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off853 k2_t13) S1x1x1x16.size (k2_off853_inb k2_t13)) v970 Finset.univ (View.stores_vmem_bits_univ h_S1x1x1x16 rfl) (.inl rfl))
  let c0_i32_904 : BitVec 32 := 0#32
  let v971 : Index := Scalar.indexCast c0_i32_904
  let v972 : Index := Scalar.indexCast arg9
  let c496 : Index := 496#32
  let v973 : Vec F S1x1x16 .f32 ← Prog.lift (.load arg5 (Rect.unit (s := S2x32x512) (k2_off854 k2_t13) S1x1x16.size (k2_off854_inb k2_t13)).toLoadRect (View.loadsAt_vmem h_S1x1x16))
  have v974 : FVec F S16 .f32 := shapeCast S16 v973 shapeCasts_S1x1x16_S16
  let c0_i32_905 : BitVec 32 := 0#32
  let c3_i32_906 : BitVec 32 := 3#32
  let v975 : Index := Scalar.indexCast c0_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off855 k2_t13) S1x1x1x16.size (k2_off855_inb k2_t13)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off855 k2_t13) S1x1x1x16.size (k2_off855_inb k2_t13)) v980 Finset.univ (View.stores_vmem_bits_univ h_S1x1x1x16 rfl) (.inl rfl))
  pure ⟨⟩

end Cert.Kernel

namespace Cert.Kernel.TileBody

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop13 (A : Buf (Elt F) ((thr d L).loc cc2_scratch0)) (G : Buf (Elt F) ((thr d L).loc cc2_scratch1))
    (k : Fin k2_t13_loop.trips) (acc : PUnit) :
    (invFill0 (F := F) d L 0 A G k.val acc : sProp 𝕄)
      ⊢ wp frame (wpE (defs₀ (F := F)) 𝒱₀ (thr d L) none) Set.univ
          (region13 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill0 (F := F) d L 0 A G (k.val + 1)) := by
  have hk : (k : ℕ) < 32 := lt_of_lt_of_le k.isLt k2_t13_abs.2.1
  unfold invFill0 region13
  iintro ⟨Ha0, %h, Hb0, %hF⟩
  sl_exec
  sl_step
  isplitl [Ha0]; · iexact Ha0
  iexists _; isplitl [Hb0]; · iexact Hb0
  ipureintro
  refine RowFill.Filled.succ _ 0 0 k.val _ _ h _ hF ?_
  refine RowFill.RowFill.step _ 0 k.val 0 31 3 7 (by decide) rfl _ _ _ _ (k2_off855_eq k) _ (fun x => RowFill.pay_eq _ _ 0 0 k.val 0 3 7 _ hk (by decide) (by decide) rfl _ (k2_off854_eq k) _ (k2_off855_eq k) _ _ x) ?_
  refine RowFill.RowFill.step _ 0 k.val 0 30 3 6 (by decide) rfl _ _ _ _ (k2_off853_eq k) _ (fun x => RowFill.pay_eq _ _ 0 0 k.val 0 3 6 _ hk (by decide) (by decide) rfl _ (k2_off852_eq k) _ (k2_off853_eq k) _ _ x) ?_
  refine RowFill.RowFill.step _ 0 k.val 0 29 3 5 (by decide) rfl _ _ _ _ (k2_off851_eq k) _ (fun x => RowFill.pay_eq _ _ 0 0 k.val 0 3 5 _ hk (by decide) (by decide) rfl _ (k2_off850_eq k) _ (k2_off851_eq k) _ _ x) ?_
  refine RowFill.RowFill.step _ 0 k.val 0 28 3 4 (by decide) rfl _ _ _ _ (k2_off849_eq k) _ (fun x => RowFill.pay_eq _ _ 0 0 k.val 0 3 4 _ hk (by decide) (by decide) rfl _ (k2_off848_eq k) _ (k2_off849_eq k) _ _ x) ?_
  refine RowFill.RowFill.step _ 0 k.val 0 27 3 3 (by decide) rfl _ _ _ _ (k2_off847_eq k) _ (fun x => RowFill.pay_eq _ _ 0 0 k.val 0 3 3 _ hk (by decide) (by decide) rfl _ (k2_off846_eq k) _ (k2_off847_eq k) _ _ x) ?_
  refine RowFill.RowFill.step _ 0 k.val 0 26 3 2 (by decide) rfl _ _ _ _ (k2_off845_eq k) _ (fun x => RowFill.pay_eq _ _ 0 0 k.val 0 3 2 _ hk (by decide) (by decide) rfl _ (k2_off844_eq k) _ (k2_off845_eq k) _ _ x) ?_
  refine RowFill.RowFill.step _ 0 k.val 0 25 3 1 (by decide) rfl _ _ _ _ (k2_off843_eq k) _ (fun x => RowFill.pay_eq _ _ 0 0 k.val 0 3 1 _ hk (by decide) (by decide) rfl _ (k2_off842_eq k) _ (k2_off843_eq k) _ _ x) ?_
  refine RowFill.RowFill.step _ 0 k.val 0 24 3 0 (by decide) rfl _ _ _ _ (k2_off841_eq k) _ (fun x => RowFill.pay_eq _ _ 0 0 k.val 0 3 0 _ hk (by decide) (by decide) rfl _ (k2_off840_eq k) _ (k2_off841_eq k) _ _ x) ?_
  refine RowFill.RowFill.step _ 0 k.val 0 23 2 7 (by decide) rfl _ _ _ _ (k2_off839_eq k) _ (fun x => RowFill.pay_eq _ _ 0 0 k.val 0 2 7 _ hk (by decide) (by decide) rfl _ (k2_off838_eq k) _ (k2_off839_eq k) _ _ x) ?_
  refine RowFill.RowFill.step _ 0 k.val 0 22 2 6 (by decide) rfl _ _ _ _ (k2_off837_eq k) _ (fun x => RowFill.pay_eq _ _ 0 0 k.val 0 2 6 _ hk (by decide) (by decide) rfl _ (k2_off836_eq k) _ (k2_off837_eq k) _ _ x) ?_
  refine RowFill.RowFill.step _ 0 k.val 0 21 2 5 (by decide) rfl _ _ _ _ (k2_off835_eq k) _ (fun x => RowFill.pay_eq _ _ 0 0 k.val 0 2 5 _ hk (by decide) (by decide) rfl _ (k2_off834_eq k) _ (k2_off835_eq k) _ _ x) ?_
  refine RowFill.RowFill.step _ 0 k.val 0 20 2 4 (by decide) rfl _ _ _ _ (k2_off833_eq k) _ (fun x => RowFill.pay_eq _ _ 0 0 k.val 0 2 4 _ hk (by decide) (by decide) rfl _ (k2_off832_eq k) _ (k2_off833_eq k) _ _ x) ?_
  refine RowFill.RowFill.step _ 0 k.val 0 19 2 3 (by decide) rfl _ _ _ _ (k2_off831_eq k) _ (fun x => RowFill.pay_eq _ _ 0 0 k.val 0 2 3 _ hk (by decide) (by decide) rfl _ (k2_off830_eq k) _ (k2_off831_eq k) _ _ x) ?_
  refine RowFill.RowFill.step _ 0 k.val 0 18 2 2 (by decide) rfl _ _ _ _ (k2_off829_eq k) _ (fun x => RowFill.pay_eq _ _ 0 0 k.val 0 2 2 _ hk (by decide) (by decide) rfl _ (k2_off828_eq k) _ (k2_off829_eq k) _ _ x) ?_
  refine RowFill.RowFill.step _ 0 k.val 0 17 2 1 (by decide) rfl _ _ _ _ (k2_off827_eq k) _ (fun x => RowFill.pay_eq _ _ 0 0 k.val 0 2 1 _ hk (by decide) (by decide) rfl _ (k2_off826_eq k) _ (k2_off827_eq k) _ _ x) ?_
  refine RowFill.RowFill.step _ 0 k.val 0 16 2 0 (by decide) rfl _ _ _ _ (k2_off825_eq k) _ (fun x => RowFill.pay_eq _ _ 0 0 k.val 0 2 0 _ hk (by decide) (by decide) rfl _ (k2_off824_eq k) _ (k2_off825_eq k) _ _ x) ?_
  refine RowFill.RowFill.step _ 0 k.val 0 15 1 7 (by decide) rfl _ _ _ _ (k2_off823_eq k) _ (fun x => RowFill.pay_eq _ _ 0 0 k.val 0 1 7 _ hk (by decide) (by decide) rfl _ (k2_off822_eq k) _ (k2_off823_eq k) _ _ x) ?_
  refine RowFill.RowFill.step _ 0 k.val 0 14 1 6 (by decide) rfl _ _ _ _ (k2_off821_eq k) _ (fun x => RowFill.pay_eq _ _ 0 0 k.val 0 1 6 _ hk (by decide) (by decide) rfl _ (k2_off820_eq k) _ (k2_off821_eq k) _ _ x) ?_
  refine RowFill.RowFill.step _ 0 k.val 0 13 1 5 (by decide) rfl _ _ _ _ (k2_off819_eq k) _ (fun x => RowFill.pay_eq _ _ 0 0 k.val 0 1 5 _ hk (by decide) (by decide) rfl _ (k2_off818_eq k) _ (k2_off819_eq k) _ _ x) ?_
  refine RowFill.RowFill.step _ 0 k.val 0 12 1 4 (by decide) rfl _ _ _ _ (k2_off817_eq k) _ (fun x => RowFill.pay_eq _ _ 0 0 k.val 0 1 4 _ hk (by decide) (by decide) rfl _ (k2_off816_eq k) _ (k2_off817_eq k) _ _ x) ?_
  refine RowFill.RowFill.step _ 0 k.val 0 11 1 3 (by decide) rfl _ _ _ _ (k2_off815_eq k) _ (fun x => RowFill.pay_eq _ _ 0 0 k.val 0 1 3 _ hk (by decide) (by decide) rfl _ (k2_off814_eq k) _ (k2_off815_eq k) _ _ x) ?_
  refine RowFill.RowFill.step _ 0 k.val 0 10 1 2 (by decide) rfl _ _ _ _ (k2_off813_eq k) _ (fun x => RowFill.pay_eq _ _ 0 0 k.val 0 1 2 _ hk (by decide) (by decide) rfl _ (k2_off812_eq k) _ (k2_off813_eq k) _ _ x) ?_
  refine RowFill.RowFill.step _ 0 k.val 0 9 1 1 (by decide) rfl _ _ _ _ (k2_off811_eq k) _ (fun x => RowFill.pay_eq _ _ 0 0 k.val 0 1 1 _ hk (by decide) (by decide) rfl _ (k2_off810_eq k) _ (k2_off811_eq k) _ _ x) ?_
  refine RowFill.RowFill.step _ 0 k.val 0 8 1 0 (by decide) rfl _ _ _ _ (k2_off809_eq k) _ (fun x => RowFill.pay_eq _ _ 0 0 k.val 0 1 0 _ hk (by decide) (by decide) rfl _ (k2_off808_eq k) _ (k2_off809_eq k) _ _ x) ?_
  refine RowFill.RowFill.step _ 0 k.val 0 7 0 7 (by decide) rfl _ _ _ _ (k2_off807_eq k) _ (fun x => RowFill.pay_eq _ _ 0 0 k.val 0 0 7 _ hk (by decide) (by decide) rfl _ (k2_off806_eq k) _ (k2_off807_eq k) _ _ x) ?_
  refine RowFill.RowFill.step _ 0 k.val 0 6 0 6 (by decide) rfl _ _ _ _ (k2_off805_eq k) _ (fun x => RowFill.pay_eq _ _ 0 0 k.val 0 0 6 _ hk (by decide) (by decide) rfl _ (k2_off804_eq k) _ (k2_off805_eq k) _ _ x) ?_
  refine RowFill.RowFill.step _ 0 k.val 0 5 0 5 (by decide) rfl _ _ _ _ (k2_off803_eq k) _ (fun x => RowFill.pay_eq _ _ 0 0 k.val 0 0 5 _ hk (by decide) (by decide) rfl _ (k2_off802_eq k) _ (k2_off803_eq k) _ _ x) ?_
  refine RowFill.RowFill.step _ 0 k.val 0 4 0 4 (by decide) rfl _ _ _ _ (k2_off801_eq k) _ (fun x => RowFill.pay_eq _ _ 0 0 k.val 0 0 4 _ hk (by decide) (by decide) rfl _ (k2_off800_eq k) _ (k2_off801_eq k) _ _ x) ?_
  refine RowFill.RowFill.step _ 0 k.val 0 3 0 3 (by decide) rfl _ _ _ _ (k2_off799_eq k) _ (fun x => RowFill.pay_eq _ _ 0 0 k.val 0 0 3 _ hk (by decide) (by decide) rfl _ (k2_off798_eq k) _ (k2_off799_eq k) _ _ x) ?_
  refine RowFill.RowFill.step _ 0 k.val 0 2 0 2 (by decide) rfl _ _ _ _ (k2_off797_eq k) _ (fun x => RowFill.pay_eq _ _ 0 0 k.val 0 0 2 _ hk (by decide) (by decide) rfl _ (k2_off796_eq k) _ (k2_off797_eq k) _ _ x) ?_
  refine RowFill.RowFill.step _ 0 k.val 0 1 0 1 (by decide) rfl _ _ _ _ (k2_off795_eq k) _ (fun x => RowFill.pay_eq _ _ 0 0 k.val 0 0 1 _ hk (by decide) (by decide) rfl _ (k2_off794_eq k) _ (k2_off795_eq k) _ _ x) ?_
  refine RowFill.RowFill.step _ 0 k.val 0 0 0 0 (by decide) rfl _ _ _ _ (k2_off793_eq k) _ (fun x => RowFill.pay_eq _ _ 0 0 k.val 0 0 0 _ hk (by decide) (by decide) rfl _ (k2_off792_eq k) _ (k2_off793_eq k) _ _ x) ?_
  exact RowFill.RowFill.zero _ _ _ _ _ _

end Cert.Kernel.TileBody
-- ==== Proof.Bits.TileLoop14.lean ====
/-
  Loop 14 of the tile body: one trip fills one row of a staging slot, sixteen lanes at a time, and leaves the
  loop's invariant at the next row.
-/
import proofs.«206219_g40982577938455_cont_8to1_b_1362_29_alg».proof.Proof.Bits.TileSetup

noncomputable section

namespace Cert.Kernel

open Idealize.ShloMosaic Idealize.SL.Sem
open Cert.Kernel.Gen

variable {F : FTy → Type} [FloatOps F]

/-- The region of the loop, as the kernel's text has it. -/
noncomputable def region14 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_553 : BitVec 32) (c1_i32_555 : BitVec 32) (k2_t14 : Fin k2_t14_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part106 i arg2 harg2 arg3 harg3 arg4 harg4 arg5 harg5 arg6 harg6 arg7 arg8 v661_r0 c0_i32_553 c1_i32_555 k2_t14
  let ⟨v734, c1_i32_809⟩ : Σ' (v734 : FVec F S16 .f32), BitVec 32 ← k2_part107 i arg2 harg2 arg3 harg3 arg4 harg4 arg5 harg5 arg6 harg6 arg7 arg8 v661_r0 k2_t14 arg9 v694
  k2_part108 i arg2 harg2 arg3 harg3 arg4 harg4 arg5 harg5 arg6 harg6 arg7 arg8 v661_r0 k2_t14 arg9 v734 c1_i32_809
  let v810 : FVec F S1x1x1x16 .f32 ← k2_part109 i arg2 harg2 arg3 harg3 arg4 harg4 arg5 harg5 arg6 harg6 arg7 arg8 v661_r0 k2_t14 arg9
  let v844 : FVec F S16 .f32 ← k2_part110 i arg2 harg2 arg3 harg3 arg4 harg4 arg5 harg5 arg6 harg6 arg7 arg8 v661_r0 k2_t14 arg9 v810
  let ⟨v884, c1_i32_869⟩ : Σ' (v884 : FVec F S16 .f32), BitVec 32 ← k2_part111 i arg2 harg2 arg3 harg3 arg4 harg4 arg5 harg5 arg6 harg6 arg7 arg8 v661_r0 k2_t14 arg9 v844
  k2_part112 i arg2 harg2 arg3 harg3 arg4 harg4 arg5 harg5 arg6 harg6 arg7 arg8 v661_r0 k2_t14 arg9 v884 c1_i32_869
  let v960 : FVec F S1x1x1x16 .f32 ← k2_part113 i arg2 harg2 arg3 harg3 arg4 harg4 arg5 harg5 arg6 harg6 arg7 arg8 v661_r0 k2_t14 arg9
  Prog.lift (.store arg6 (Rect.unit (s := S2x32x4x256) (k2_off917 k2_t14) S1x1x1x16.size (k2_off917_inb k2_t14)) v960 Finset.univ (View.stores_vmem_bits_univ h_S1x1x1x16 rfl) (.inl rfl))
  let c1_i32_900 : BitVec 32 := 1#32
  let v961 : Index := Scalar.indexCast c1_i32_900
  let v962 : Index := Scalar.indexCast arg9
  let c480 : Index := 480#32
  let v963 : Vec F S1x1x16 .f32 ← Prog.lift (.load arg5 (Rect.unit (s := S2x32x512) (k2_off918 k2_t14) S1x1x16.size (k2_off918_inb k2_t14)).toLoadRect (View.loadsAt_vmem h_S1x1x16))
  have v964 : FVec F S16 .f32 := shapeCast S16 v963 shapeCasts_S1x1x16_S16
  let c1_i32_901 : BitVec 32 := 1#32
  let c3_i32_902 : BitVec 32 := 3#32
  let v965 : Index := Scalar.indexCast c1_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off919 k2_t14) S1x1x1x16.size (k2_off919_inb k2_t14)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off919 k2_t14) S1x1x1x16.size (k2_off919_inb k2_t14)) v970 Finset.univ (View.stores_vmem_bits_univ h_S1x1x1x16 rfl) (.inl rfl))
  let c1_i32_904 : BitVec 32 := 1#32
  let v971 : Index := Scalar.indexCast c1_i32_904
  let v972 : Index := Scalar.indexCast arg9
  let c496 : Index := 496#32
  let v973 : Vec F S1x1x16 .f32 ← Prog.lift (.load arg5 (Rect.unit (s := S2x32x512) (k2_off920 k2_t14) S1x1x16.size (k2_off920_inb k2_t14)).toLoadRect (View.loadsAt_vmem h_S1x1x16))
  have v974 : FVec F S16 .f32 := shapeCast S16 v973 shapeCasts_S1x1x16_S16
  let c1_i32_905 : BitVec 32 := 1#32
  let c3_i32_906 : BitVec 32 := 3#32
  let v975 : Index := Scalar.indexCast c1_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off921 k2_t14) S1x1x1x16.size (k2_off921_inb k2_t14)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off921 k2_t14) S1x1x1x16.size (k2_off921_inb k2_t14)) v980 Finset.univ (View.stores_vmem_bits_univ h_S1x1x1x16 rfl) (.inl rfl))
  pure ⟨⟩

end Cert.Kernel

namespace Cert.Kernel.TileBody

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop14 (A : Buf (Elt F) ((thr d L).loc cc2_scratch0)) (G : Buf (Elt F) ((thr d L).loc cc2_scratch1))
    (k : Fin k2_t14_loop.trips) (acc : PUnit) :
    (invFill1 (F := F) d L 0 A G k.val acc : sProp 𝕄)
      ⊢ wp frame (wpE (defs₀ (F := F)) 𝒱₀ (thr d L) none) Set.univ
          (region14 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill1 (F := F) d L 0 A G (k.val + 1)) := by
  have hk : (k : ℕ) < 32 := lt_of_lt_of_le k.isLt k2_t14_abs.2.1
  unfold invFill1 region14
  iintro ⟨Ha1, %h, Hb1, %hF⟩
  sl_exec
  sl_step
  isplitl [Ha1]; · iexact Ha1
  iexists _; isplitl [Hb1]; · iexact Hb1
  ipureintro
  refine RowFill.Filled.succ _ 1 0 k.val _ _ h _ hF ?_
  refine RowFill.RowFill.step _ 1 k.val 0 31 3 7 (by decide) rfl _ _ _ _ (k2_off921_eq k) _ (fun x => RowFill.pay_eq _ _ 1 1 k.val 0 3 7 _ hk (by decide) (by decide) rfl _ (k2_off920_eq k) _ (k2_off921_eq k) _ _ x) ?_
  refine RowFill.RowFill.step _ 1 k.val 0 30 3 6 (by decide) rfl _ _ _ _ (k2_off919_eq k) _ (fun x => RowFill.pay_eq _ _ 1 1 k.val 0 3 6 _ hk (by decide) (by decide) rfl _ (k2_off918_eq k) _ (k2_off919_eq k) _ _ x) ?_
  refine RowFill.RowFill.step _ 1 k.val 0 29 3 5 (by decide) rfl _ _ _ _ (k2_off917_eq k) _ (fun x => RowFill.pay_eq _ _ 1 1 k.val 0 3 5 _ hk (by decide) (by decide) rfl _ (k2_off916_eq k) _ (k2_off917_eq k) _ _ x) ?_
  refine RowFill.RowFill.step _ 1 k.val 0 28 3 4 (by decide) rfl _ _ _ _ (k2_off915_eq k) _ (fun x => RowFill.pay_eq _ _ 1 1 k.val 0 3 4 _ hk (by decide) (by decide) rfl _ (k2_off914_eq k) _ (k2_off915_eq k) _ _ x) ?_
  refine RowFill.RowFill.step _ 1 k.val 0 27 3 3 (by decide) rfl _ _ _ _ (k2_off913_eq k) _ (fun x => RowFill.pay_eq _ _ 1 1 k.val 0 3 3 _ hk (by decide) (by decide) rfl _ (k2_off912_eq k) _ (k2_off913_eq k) _ _ x) ?_
  refine RowFill.RowFill.step _ 1 k.val 0 26 3 2 (by decide) rfl _ _ _ _ (k2_off911_eq k) _ (fun x => RowFill.pay_eq _ _ 1 1 k.val 0 3 2 _ hk (by decide) (by decide) rfl _ (k2_off910_eq k) _ (k2_off911_eq k) _ _ x) ?_
  refine RowFill.RowFill.step _ 1 k.val 0 25 3 1 (by decide) rfl _ _ _ _ (k2_off909_eq k) _ (fun x => RowFill.pay_eq _ _ 1 1 k.val 0 3 1 _ hk (by decide) (by decide) rfl _ (k2_off908_eq k) _ (k2_off909_eq k) _ _ x) ?_
  refine RowFill.RowFill.step _ 1 k.val 0 24 3 0 (by decide) rfl _ _ _ _ (k2_off907_eq k) _ (fun x => RowFill.pay_eq _ _ 1 1 k.val 0 3 0 _ hk (by decide) (by decide) rfl _ (k2_off906_eq k) _ (k2_off907_eq k) _ _ x) ?_
  refine RowFill.RowFill.step _ 1 k.val 0 23 2 7 (by decide) rfl _ _ _ _ (k2_off905_eq k) _ (fun x => RowFill.pay_eq _ _ 1 1 k.val 0 2 7 _ hk (by decide) (by decide) rfl _ (k2_off904_eq k) _ (k2_off905_eq k) _ _ x) ?_
  refine RowFill.RowFill.step _ 1 k.val 0 22 2 6 (by decide) rfl _ _ _ _ (k2_off903_eq k) _ (fun x => RowFill.pay_eq _ _ 1 1 k.val 0 2 6 _ hk (by decide) (by decide) rfl _ (k2_off902_eq k) _ (k2_off903_eq k) _ _ x) ?_
  refine RowFill.RowFill.step _ 1 k.val 0 21 2 5 (by decide) rfl _ _ _ _ (k2_off901_eq k) _ (fun x => RowFill.pay_eq _ _ 1 1 k.val 0 2 5 _ hk (by decide) (by decide) rfl _ (k2_off900_eq k) _ (k2_off901_eq k) _ _ x) ?_
  refine RowFill.RowFill.step _ 1 k.val 0 20 2 4 (by decide) rfl _ _ _ _ (k2_off899_eq k) _ (fun x => RowFill.pay_eq _ _ 1 1 k.val 0 2 4 _ hk (by decide) (by decide) rfl _ (k2_off898_eq k) _ (k2_off899_eq k) _ _ x) ?_
  refine RowFill.RowFill.step _ 1 k.val 0 19 2 3 (by decide) rfl _ _ _ _ (k2_off897_eq k) _ (fun x => RowFill.pay_eq _ _ 1 1 k.val 0 2 3 _ hk (by decide) (by decide) rfl _ (k2_off896_eq k) _ (k2_off897_eq k) _ _ x) ?_
  refine RowFill.RowFill.step _ 1 k.val 0 18 2 2 (by decide) rfl _ _ _ _ (k2_off895_eq k) _ (fun x => RowFill.pay_eq _ _ 1 1 k.val 0 2 2 _ hk (by decide) (by decide) rfl _ (k2_off894_eq k) _ (k2_off895_eq k) _ _ x) ?_
  refine RowFill.RowFill.step _ 1 k.val 0 17 2 1 (by decide) rfl _ _ _ _ (k2_off893_eq k) _ (fun x => RowFill.pay_eq _ _ 1 1 k.val 0 2 1 _ hk (by decide) (by decide) rfl _ (k2_off892_eq k) _ (k2_off893_eq k) _ _ x) ?_
  refine RowFill.RowFill.step _ 1 k.val 0 16 2 0 (by decide) rfl _ _ _ _ (k2_off891_eq k) _ (fun x => RowFill.pay_eq _ _ 1 1 k.val 0 2 0 _ hk (by decide) (by decide) rfl _ (k2_off890_eq k) _ (k2_off891_eq k) _ _ x) ?_
  refine RowFill.RowFill.step _ 1 k.val 0 15 1 7 (by decide) rfl _ _ _ _ (k2_off889_eq k) _ (fun x => RowFill.pay_eq _ _ 1 1 k.val 0 1 7 _ hk (by decide) (by decide) rfl _ (k2_off888_eq k) _ (k2_off889_eq k) _ _ x) ?_
  refine RowFill.RowFill.step _ 1 k.val 0 14 1 6 (by decide) rfl _ _ _ _ (k2_off887_eq k) _ (fun x => RowFill.pay_eq _ _ 1 1 k.val 0 1 6 _ hk (by decide) (by decide) rfl _ (k2_off886_eq k) _ (k2_off887_eq k) _ _ x) ?_
  refine RowFill.RowFill.step _ 1 k.val 0 13 1 5 (by decide) rfl _ _ _ _ (k2_off885_eq k) _ (fun x => RowFill.pay_eq _ _ 1 1 k.val 0 1 5 _ hk (by decide) (by decide) rfl _ (k2_off884_eq k) _ (k2_off885_eq k) _ _ x) ?_
  refine RowFill.RowFill.step _ 1 k.val 0 12 1 4 (by decide) rfl _ _ _ _ (k2_off883_eq k) _ (fun x => RowFill.pay_eq _ _ 1 1 k.val 0 1 4 _ hk (by decide) (by decide) rfl _ (k2_off882_eq k) _ (k2_off883_eq k) _ _ x) ?_
  refine RowFill.RowFill.step _ 1 k.val 0 11 1 3 (by decide) rfl _ _ _ _ (k2_off881_eq k) _ (fun x => RowFill.pay_eq _ _ 1 1 k.val 0 1 3 _ hk (by decide) (by decide) rfl _ (k2_off880_eq k) _ (k2_off881_eq k) _ _ x) ?_
  refine RowFill.RowFill.step _ 1 k.val 0 10 1 2 (by decide) rfl _ _ _ _ (k2_off879_eq k) _ (fun x => RowFill.pay_eq _ _ 1 1 k.val 0 1 2 _ hk (by decide) (by decide) rfl _ (k2_off878_eq k) _ (k2_off879_eq k) _ _ x) ?_
  refine RowFill.RowFill.step _ 1 k.val 0 9 1 1 (by decide) rfl _ _ _ _ (k2_off877_eq k) _ (fun x => RowFill.pay_eq _ _ 1 1 k.val 0 1 1 _ hk (by decide) (by decide) rfl _ (k2_off876_eq k) _ (k2_off877_eq k) _ _ x) ?_
  refine RowFill.RowFill.step _ 1 k.val 0 8 1 0 (by decide) rfl _ _ _ _ (k2_off875_eq k) _ (fun x => RowFill.pay_eq _ _ 1 1 k.val 0 1 0 _ hk (by decide) (by decide) rfl _ (k2_off874_eq k) _ (k2_off875_eq k) _ _ x) ?_
  refine RowFill.RowFill.step _ 1 k.val 0 7 0 7 (by decide) rfl _ _ _ _ (k2_off873_eq k) _ (fun x => RowFill.pay_eq _ _ 1 1 k.val 0 0 7 _ hk (by decide) (by decide) rfl _ (k2_off872_eq k) _ (k2_off873_eq k) _ _ x) ?_
  refine RowFill.RowFill.step _ 1 k.val 0 6 0 6 (by decide) rfl _ _ _ _ (k2_off871_eq k) _ (fun x => RowFill.pay_eq _ _ 1 1 k.val 0 0 6 _ hk (by decide) (by decide) rfl _ (k2_off870_eq k) _ (k2_off871_eq k) _ _ x) ?_
  refine RowFill.RowFill.step _ 1 k.val 0 5 0 5 (by decide) rfl _ _ _ _ (k2_off869_eq k) _ (fun x => RowFill.pay_eq _ _ 1 1 k.val 0 0 5 _ hk (by decide) (by decide) rfl _ (k2_off868_eq k) _ (k2_off869_eq k) _ _ x) ?_
  refine RowFill.RowFill.step _ 1 k.val 0 4 0 4 (by decide) rfl _ _ _ _ (k2_off867_eq k) _ (fun x => RowFill.pay_eq _ _ 1 1 k.val 0 0 4 _ hk (by decide) (by decide) rfl _ (k2_off866_eq k) _ (k2_off867_eq k) _ _ x) ?_
  refine RowFill.RowFill.step _ 1 k.val 0 3 0 3 (by decide) rfl _ _ _ _ (k2_off865_eq k) _ (fun x => RowFill.pay_eq _ _ 1 1 k.val 0 0 3 _ hk (by decide) (by decide) rfl _ (k2_off864_eq k) _ (k2_off865_eq k) _ _ x) ?_
  refine RowFill.RowFill.step _ 1 k.val 0 2 0 2 (by decide) rfl _ _ _ _ (k2_off863_eq k) _ (fun x => RowFill.pay_eq _ _ 1 1 k.val 0 0 2 _ hk (by decide) (by decide) rfl _ (k2_off862_eq k) _ (k2_off863_eq k) _ _ x) ?_
  refine RowFill.RowFill.step _ 1 k.val 0 1 0 1 (by decide) rfl _ _ _ _ (k2_off861_eq k) _ (fun x => RowFill.pay_eq _ _ 1 1 k.val 0 0 1 _ hk (by decide) (by decide) rfl _ (k2_off860_eq k) _ (k2_off861_eq k) _ _ x) ?_
  refine RowFill.RowFill.step _ 1 k.val 0 0 0 0 (by decide) rfl _ _ _ _ (k2_off859_eq k) _ (fun x => RowFill.pay_eq _ _ 1 1 k.val 0 0 0 _ hk (by decide) (by decide) rfl _ (k2_off858_eq k) _ (k2_off859_eq k) _ _ x) ?_
  exact RowFill.RowFill.zero _ _ _ _ _ _

end Cert.Kernel.TileBody
-- ==== Proof.Bits.TileLoop15.lean ====
/-
  Loop 15 of the tile body: one trip fills one row of a staging slot, sixteen lanes at a time, and leaves the
  loop's invariant at the next row.
-/
import proofs.«206219_g40982577938455_cont_8to1_b_1362_29_alg».proof.Proof.Bits.TileSetup

noncomputable section

namespace Cert.Kernel

open Idealize.ShloMosaic Idealize.SL.Sem
open Cert.Kernel.Gen

variable {F : FTy → Type} [FloatOps F]

/-- The region of the loop, as the kernel's text has it. -/
noncomputable def region15 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_601 : BitVec 32) (c1_i32_603 : BitVec 32) (k2_t15 : Fin k2_t15_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part114 i arg2 harg2 arg3 harg3 arg4 harg4 arg5 harg5 arg6 harg6 arg7 arg8 v661_r0 c0_i32_601 c1_i32_603 k2_t15
  let ⟨v734, c0_i32_809⟩ : Σ' (v734 : FVec F S16 .f32), BitVec 32 ← k2_part115 i arg2 harg2 arg3 harg3 arg4 harg4 arg5 harg5 arg6 harg6 arg7 arg8 v661_r0 k2_t15 arg9 v694
  k2_part116 i arg2 harg2 arg3 harg3 arg4 harg4 arg5 harg5 arg6 harg6 arg7 arg8 v661_r0 k2_t15 arg9 v734 c0_i32_809
  let v810 : FVec F S1x1x1x16 .f32 ← k2_part117 i arg2 harg2 arg3 harg3 arg4 harg4 arg5 harg5 arg6 harg6 arg7 arg8 v661_r0 k2_t15 arg9
  let v844 : FVec F S16 .f32 ← k2_part118 i arg2 harg2 arg3 harg3 arg4 harg4 arg5 harg5 arg6 harg6 arg7 arg8 v661_r0 k2_t15 arg9 v810
  let ⟨v884, c0_i32_869⟩ : Σ' (v884 : FVec F S16 .f32), BitVec 32 ← k2_part119 i arg2 harg2 arg3 harg3 arg4 harg4 arg5 harg5 arg6 harg6 arg7 arg8 v661_r0 k2_t15 arg9 v844
  k2_part120 i arg2 harg2 arg3 harg3 arg4 harg4 arg5 harg5 arg6 harg6 arg7 arg8 v661_r0 k2_t15 arg9 v884 c0_i32_869
  let v960 : FVec F S1x1x1x16 .f32 ← k2_part121 i arg2 harg2 arg3 harg3 arg4 harg4 arg5 harg5 arg6 harg6 arg7 arg8 v661_r0 k2_t15 arg9
  Prog.lift (.store arg6 (Rect.unit (s := S2x32x4x256) (k2_off983 k2_t15) S1x1x1x16.size (k2_off983_inb k2_t15)) v960 Finset.univ (View.stores_vmem_bits_univ h_S1x1x1x16 rfl) (.inl rfl))
  let c0_i32_900 : BitVec 32 := 0#32
  let v961 : Index := Scalar.indexCast c0_i32_900
  let v962 : Index := Scalar.indexCast arg9
  let c480 : Index := 480#32
  let v963 : Vec F S1x1x16 .f32 ← Prog.lift (.load arg5 (Rect.unit (s := S2x32x512) (k2_off984 k2_t15) S1x1x16.size (k2_off984_inb k2_t15)).toLoadRect (View.loadsAt_vmem h_S1x1x16))
  have v964 : FVec F S16 .f32 := shapeCast S16 v963 shapeCasts_S1x1x16_S16
  let c0_i32_901 : BitVec 32 := 0#32
  let c3_i32_902 : BitVec 32 := 3#32
  let v965 : Index := Scalar.indexCast c0_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off985 k2_t15) S1x1x1x16.size (k2_off985_inb k2_t15)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off985 k2_t15) S1x1x1x16.size (k2_off985_inb k2_t15)) v970 Finset.univ (View.stores_vmem_bits_univ h_S1x1x1x16 rfl) (.inl rfl))
  let c0_i32_904 : BitVec 32 := 0#32
  let v971 : Index := Scalar.indexCast c0_i32_904
  let v972 : Index := Scalar.indexCast arg9
  let c496 : Index := 496#32
  let v973 : Vec F S1x1x16 .f32 ← Prog.lift (.load arg5 (Rect.unit (s := S2x32x512) (k2_off986 k2_t15) S1x1x16.size (k2_off986_inb k2_t15)).toLoadRect (View.loadsAt_vmem h_S1x1x16))
  have v974 : FVec F S16 .f32 := shapeCast S16 v973 shapeCasts_S1x1x16_S16
  let c0_i32_905 : BitVec 32 := 0#32
  let c3_i32_906 : BitVec 32 := 3#32
  let v975 : Index := Scalar.indexCast c0_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off987 k2_t15) S1x1x1x16.size (k2_off987_inb k2_t15)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off987 k2_t15) S1x1x1x16.size (k2_off987_inb k2_t15)) v980 Finset.univ (View.stores_vmem_bits_univ h_S1x1x1x16 rfl) (.inl rfl))
  pure ⟨⟩

end Cert.Kernel

namespace Cert.Kernel.TileBody

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop15 (A : Buf (Elt F) ((thr d L).loc cc2_scratch0)) (G : Buf (Elt F) ((thr d L).loc cc2_scratch1))
    (k : Fin k2_t15_loop.trips) (acc : PUnit) :
    (invFill0 (F := F) d L 0 A G k.val acc : sProp 𝕄)
      ⊢ wp frame (wpE (defs₀ (F := F)) 𝒱₀ (thr d L) none) Set.univ
          (region15 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill0 (F := F) d L 0 A G (k.val + 1)) := by
  have hk : (k : ℕ) < 32 := lt_of_lt_of_le k.isLt k2_t15_abs.2.1
  unfold invFill0 region15
  iintro ⟨Ha0, %h, Hb0, %hF⟩
  sl_exec
  sl_step
  isplitl [Ha0]; · iexact Ha0
  iexists _; isplitl [Hb0]; · iexact Hb0
  ipureintro
  refine RowFill.Filled.succ _ 0 0 k.val _ _ h _ hF ?_
  refine RowFill.RowFill.step _ 0 k.val 0 31 3 7 (by decide) rfl _ _ _ _ (k2_off987_eq k) _ (fun x => RowFill.pay_eq _ _ 0 0 k.val 0 3 7 _ hk (by decide) (by decide) rfl _ (k2_off986_eq k) _ (k2_off987_eq k) _ _ x) ?_
  refine RowFill.RowFill.step _ 0 k.val 0 30 3 6 (by decide) rfl _ _ _ _ (k2_off985_eq k) _ (fun x => RowFill.pay_eq _ _ 0 0 k.val 0 3 6 _ hk (by decide) (by decide) rfl _ (k2_off984_eq k) _ (k2_off985_eq k) _ _ x) ?_
  refine RowFill.RowFill.step _ 0 k.val 0 29 3 5 (by decide) rfl _ _ _ _ (k2_off983_eq k) _ (fun x => RowFill.pay_eq _ _ 0 0 k.val 0 3 5 _ hk (by decide) (by decide) rfl _ (k2_off982_eq k) _ (k2_off983_eq k) _ _ x) ?_
  refine RowFill.RowFill.step _ 0 k.val 0 28 3 4 (by decide) rfl _ _ _ _ (k2_off981_eq k) _ (fun x => RowFill.pay_eq _ _ 0 0 k.val 0 3 4 _ hk (by decide) (by decide) rfl _ (k2_off980_eq k) _ (k2_off981_eq k) _ _ x) ?_
  refine RowFill.RowFill.step _ 0 k.val 0 27 3 3 (by decide) rfl _ _ _ _ (k2_off979_eq k) _ (fun x => RowFill.pay_eq _ _ 0 0 k.val 0 3 3 _ hk (by decide) (by decide) rfl _ (k2_off978_eq k) _ (k2_off979_eq k) _ _ x) ?_
  refine RowFill.RowFill.step _ 0 k.val 0 26 3 2 (by decide) rfl _ _ _ _ (k2_off977_eq k) _ (fun x => RowFill.pay_eq _ _ 0 0 k.val 0 3 2 _ hk (by decide) (by decide) rfl _ (k2_off976_eq k) _ (k2_off977_eq k) _ _ x) ?_
  refine RowFill.RowFill.step _ 0 k.val 0 25 3 1 (by decide) rfl _ _ _ _ (k2_off975_eq k) _ (fun x => RowFill.pay_eq _ _ 0 0 k.val 0 3 1 _ hk (by decide) (by decide) rfl _ (k2_off974_eq k) _ (k2_off975_eq k) _ _ x) ?_
  refine RowFill.RowFill.step _ 0 k.val 0 24 3 0 (by decide) rfl _ _ _ _ (k2_off973_eq k) _ (fun x => RowFill.pay_eq _ _ 0 0 k.val 0 3 0 _ hk (by decide) (by decide) rfl _ (k2_off972_eq k) _ (k2_off973_eq k) _ _ x) ?_
  refine RowFill.RowFill.step _ 0 k.val 0 23 2 7 (by decide) rfl _ _ _ _ (k2_off971_eq k) _ (fun x => RowFill.pay_eq _ _ 0 0 k.val 0 2 7 _ hk (by decide) (by decide) rfl _ (k2_off970_eq k) _ (k2_off971_eq k) _ _ x) ?_
  refine RowFill.RowFill.step _ 0 k.val 0 22 2 6 (by decide) rfl _ _ _ _ (k2_off969_eq k) _ (fun x => RowFill.pay_eq _ _ 0 0 k.val 0 2 6 _ hk (by decide) (by decide) rfl _ (k2_off968_eq k) _ (k2_off969_eq k) _ _ x) ?_
  refine RowFill.RowFill.step _ 0 k.val 0 21 2 5 (by decide) rfl _ _ _ _ (k2_off967_eq k) _ (fun x => RowFill.pay_eq _ _ 0 0 k.val 0 2 5 _ hk (by decide) (by decide) rfl _ (k2_off966_eq k) _ (k2_off967_eq k) _ _ x) ?_
  refine RowFill.RowFill.step _ 0 k.val 0 20 2 4 (by decide) rfl _ _ _ _ (k2_off965_eq k) _ (fun x => RowFill.pay_eq _ _ 0 0 k.val 0 2 4 _ hk (by decide) (by decide) rfl _ (k2_off964_eq k) _ (k2_off965_eq k) _ _ x) ?_
  refine RowFill.RowFill.step _ 0 k.val 0 19 2 3 (by decide) rfl _ _ _ _ (k2_off963_eq k) _ (fun x => RowFill.pay_eq _ _ 0 0 k.val 0 2 3 _ hk (by decide) (by decide) rfl _ (k2_off962_eq k) _ (k2_off963_eq k) _ _ x) ?_
  refine RowFill.RowFill.step _ 0 k.val 0 18 2 2 (by decide) rfl _ _ _ _ (k2_off961_eq k) _ (fun x => RowFill.pay_eq _ _ 0 0 k.val 0 2 2 _ hk (by decide) (by decide) rfl _ (k2_off960_eq k) _ (k2_off961_eq k) _ _ x) ?_
  refine RowFill.RowFill.step _ 0 k.val 0 17 2 1 (by decide) rfl _ _ _ _ (k2_off959_eq k) _ (fun x => RowFill.pay_eq _ _ 0 0 k.val 0 2 1 _ hk (by decide) (by decide) rfl _ (k2_off958_eq k) _ (k2_off959_eq k) _ _ x) ?_
  refine RowFill.RowFill.step _ 0 k.val 0 16 2 0 (by decide) rfl _ _ _ _ (k2_off957_eq k) _ (fun x => RowFill.pay_eq _ _ 0 0 k.val 0 2 0 _ hk (by decide) (by decide) rfl _ (k2_off956_eq k) _ (k2_off957_eq k) _ _ x) ?_
  refine RowFill.RowFill.step _ 0 k.val 0 15 1 7 (by decide) rfl _ _ _ _ (k2_off955_eq k) _ (fun x => RowFill.pay_eq _ _ 0 0 k.val 0 1 7 _ hk (by decide) (by decide) rfl _ (k2_off954_eq k) _ (k2_off955_eq k) _ _ x) ?_
  refine RowFill.RowFill.step _ 0 k.val 0 14 1 6 (by decide) rfl _ _ _ _ (k2_off953_eq k) _ (fun x => RowFill.pay_eq _ _ 0 0 k.val 0 1 6 _ hk (by decide) (by decide) rfl _ (k2_off952_eq k) _ (k2_off953_eq k) _ _ x) ?_
  refine RowFill.RowFill.step _ 0 k.val 0 13 1 5 (by decide) rfl _ _ _ _ (k2_off951_eq k) _ (fun x => RowFill.pay_eq _ _ 0 0 k.val 0 1 5 _ hk (by decide) (by decide) rfl _ (k2_off950_eq k) _ (k2_off951_eq k) _ _ x) ?_
  refine RowFill.RowFill.step _ 0 k.val 0 12 1 4 (by decide) rfl _ _ _ _ (k2_off949_eq k) _ (fun x => RowFill.pay_eq _ _ 0 0 k.val 0 1 4 _ hk (by decide) (by decide) rfl _ (k2_off948_eq k) _ (k2_off949_eq k) _ _ x) ?_
  refine RowFill.RowFill.step _ 0 k.val 0 11 1 3 (by decide) rfl _ _ _ _ (k2_off947_eq k) _ (fun x => RowFill.pay_eq _ _ 0 0 k.val 0 1 3 _ hk (by decide) (by decide) rfl _ (k2_off946_eq k) _ (k2_off947_eq k) _ _ x) ?_
  refine RowFill.RowFill.step _ 0 k.val 0 10 1 2 (by decide) rfl _ _ _ _ (k2_off945_eq k) _ (fun x => RowFill.pay_eq _ _ 0 0 k.val 0 1 2 _ hk (by decide) (by decide) rfl _ (k2_off944_eq k) _ (k2_off945_eq k) _ _ x) ?_
  refine RowFill.RowFill.step _ 0 k.val 0 9 1 1 (by decide) rfl _ _ _ _ (k2_off943_eq k) _ (fun x => RowFill.pay_eq _ _ 0 0 k.val 0 1 1 _ hk (by decide) (by decide) rfl _ (k2_off942_eq k) _ (k2_off943_eq k) _ _ x) ?_
  refine RowFill.RowFill.step _ 0 k.val 0 8 1 0 (by decide) rfl _ _ _ _ (k2_off941_eq k) _ (fun x => RowFill.pay_eq _ _ 0 0 k.val 0 1 0 _ hk (by decide) (by decide) rfl _ (k2_off940_eq k) _ (k2_off941_eq k) _ _ x) ?_
  refine RowFill.RowFill.step _ 0 k.val 0 7 0 7 (by decide) rfl _ _ _ _ (k2_off939_eq k) _ (fun x => RowFill.pay_eq _ _ 0 0 k.val 0 0 7 _ hk (by decide) (by decide) rfl _ (k2_off938_eq k) _ (k2_off939_eq k) _ _ x) ?_
  refine RowFill.RowFill.step _ 0 k.val 0 6 0 6 (by decide) rfl _ _ _ _ (k2_off937_eq k) _ (fun x => RowFill.pay_eq _ _ 0 0 k.val 0 0 6 _ hk (by decide) (by decide) rfl _ (k2_off936_eq k) _ (k2_off937_eq k) _ _ x) ?_
  refine RowFill.RowFill.step _ 0 k.val 0 5 0 5 (by decide) rfl _ _ _ _ (k2_off935_eq k) _ (fun x => RowFill.pay_eq _ _ 0 0 k.val 0 0 5 _ hk (by decide) (by decide) rfl _ (k2_off934_eq k) _ (k2_off935_eq k) _ _ x) ?_
  refine RowFill.RowFill.step _ 0 k.val 0 4 0 4 (by decide) rfl _ _ _ _ (k2_off933_eq k) _ (fun x => RowFill.pay_eq _ _ 0 0 k.val 0 0 4 _ hk (by decide) (by decide) rfl _ (k2_off932_eq k) _ (k2_off933_eq k) _ _ x) ?_
  refine RowFill.RowFill.step _ 0 k.val 0 3 0 3 (by decide) rfl _ _ _ _ (k2_off931_eq k) _ (fun x => RowFill.pay_eq _ _ 0 0 k.val 0 0 3 _ hk (by decide) (by decide) rfl _ (k2_off930_eq k) _ (k2_off931_eq k) _ _ x) ?_
  refine RowFill.RowFill.step _ 0 k.val 0 2 0 2 (by decide) rfl _ _ _ _ (k2_off929_eq k) _ (fun x => RowFill.pay_eq _ _ 0 0 k.val 0 0 2 _ hk (by decide) (by decide) rfl _ (k2_off928_eq k) _ (k2_off929_eq k) _ _ x) ?_
  refine RowFill.RowFill.step _ 0 k.val 0 1 0 1 (by decide) rfl _ _ _ _ (k2_off927_eq k) _ (fun x => RowFill.pay_eq _ _ 0 0 k.val 0 0 1 _ hk (by decide) (by decide) rfl _ (k2_off926_eq k) _ (k2_off927_eq k) _ _ x) ?_
  refine RowFill.RowFill.step _ 0 k.val 0 0 0 0 (by decide) rfl _ _ _ _ (k2_off925_eq k) _ (fun x => RowFill.pay_eq _ _ 0 0 k.val 0 0 0 _ hk (by decide) (by decide) rfl _ (k2_off924_eq k) _ (k2_off925_eq k) _ _ x) ?_
  exact RowFill.RowFill.zero _ _ _ _ _ _

end Cert.Kernel.TileBody
-- ==== Proof.Bits.TileLoop16.lean ====
/-
  Loop 16 of the tile body: one trip fills one row of a staging slot, sixteen lanes at a time, and leaves the
  loop's invariant at the next row.
-/
import proofs.«206219_g40982577938455_cont_8to1_b_1362_29_alg».proof.Proof.Bits.TileSetup

noncomputable section

namespace Cert.Kernel

open Idealize.ShloMosaic Idealize.SL.Sem
open Cert.Kernel.Gen

variable {F : FTy → Type} [FloatOps F]

/-- The region of the loop, as the kernel's text has it. -/
noncomputable def region16 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_649 : BitVec 32) (c1_i32_651 : BitVec 32) (k2_t16 : Fin k2_t16_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part122 i arg2 harg2 arg3 harg3 arg4 harg4 arg5 harg5 arg6 harg6 arg7 arg8 v661_r0 c0_i32_649 c1_i32_651 k2_t16
  let ⟨v734, c1_i32_809⟩ : Σ' (v734 : FVec F S16 .f32), BitVec 32 ← k2_part123 i arg2 harg2 arg3 harg3 arg4 harg4 arg5 harg5 arg6 harg6 arg7 arg8 v661_r0 k2_t16 arg9 v694
  k2_part124 i arg2 harg2 arg3 harg3 arg4 harg4 arg5 harg5 arg6 harg6 arg7 arg8 v661_r0 k2_t16 arg9 v734 c1_i32_809
  let v810 : FVec F S1x1x1x16 .f32 ← k2_part125 i arg2 harg2 arg3 harg3 arg4 harg4 arg5 harg5 arg6 harg6 arg7 arg8 v661_r0 k2_t16 arg9
  let v844 : FVec F S16 .f32 ← k2_part126 i arg2 harg2 arg3 harg3 arg4 harg4 arg5 harg5 arg6 harg6 arg7 arg8 v661_r0 k2_t16 arg9 v810
  let ⟨v884, c1_i32_869⟩ : Σ' (v884 : FVec F S16 .f32), BitVec 32 ← k2_part127 i arg2 harg2 arg3 harg3 arg4 harg4 arg5 harg5 arg6 harg6 arg7 arg8 v661_r0 k2_t16 arg9 v844
  k2_part128 i arg2 harg2 arg3 harg3 arg4 harg4 arg5 harg5 arg6 harg6 arg7 arg8 v661_r0 k2_t16 arg9 v884 c1_i32_869
  let v960 : FVec F S1x1x1x16 .f32 ← k2_part129 i arg2 harg2 arg3 harg3 arg4 harg4 arg5 harg5 arg6 harg6 arg7 arg8 v661_r0 k2_t16 arg9
  Prog.lift (.store arg6 (Rect.unit (s := S2x32x4x256) (k2_off1049 k2_t16) S1x1x1x16.size (k2_off1049_inb k2_t16)) v960 Finset.univ (View.stores_vmem_bits_univ h_S1x1x1x16 rfl) (.inl rfl))
  let c1_i32_900 : BitVec 32 := 1#32
  let v961 : Index := Scalar.indexCast c1_i32_900
  let v962 : Index := Scalar.indexCast arg9
  let c480 : Index := 480#32
  let v963 : Vec F S1x1x16 .f32 ← Prog.lift (.load arg5 (Rect.unit (s := S2x32x512) (k2_off1050 k2_t16) S1x1x16.size (k2_off1050_inb k2_t16)).toLoadRect (View.loadsAt_vmem h_S1x1x16))
  have v964 : FVec F S16 .f32 := shapeCast S16 v963 shapeCasts_S1x1x16_S16
  let c1_i32_901 : BitVec 32 := 1#32
  let c3_i32_902 : BitVec 32 := 3#32
  let v965 : Index := Scalar.indexCast c1_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off1051 k2_t16) S1x1x1x16.size (k2_off1051_inb k2_t16)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off1051 k2_t16) S1x1x1x16.size (k2_off1051_inb k2_t16)) v970 Finset.univ (View.stores_vmem_bits_univ h_S1x1x1x16 rfl) (.inl rfl))
  let c1_i32_904 : BitVec 32 := 1#32
  let v971 : Index := Scalar.indexCast c1_i32_904
  let v972 : Index := Scalar.indexCast arg9
  let c496 : Index := 496#32
  let v973 : Vec F S1x1x16 .f32 ← Prog.lift (.load arg5 (Rect.unit (s := S2x32x512) (k2_off1052 k2_t16) S1x1x16.size (k2_off1052_inb k2_t16)).toLoadRect (View.loadsAt_vmem h_S1x1x16))
  have v974 : FVec F S16 .f32 := shapeCast S16 v973 shapeCasts_S1x1x16_S16
  let c1_i32_905 : BitVec 32 := 1#32
  let c3_i32_906 : BitVec 32 := 3#32
  let v975 : Index := Scalar.indexCast c1_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off1053 k2_t16) S1x1x1x16.size (k2_off1053_inb k2_t16)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off1053 k2_t16) S1x1x1x16.size (k2_off1053_inb k2_t16)) v980 Finset.univ (View.stores_vmem_bits_univ h_S1x1x1x16 rfl) (.inl rfl))
  pure ⟨⟩

end Cert.Kernel

namespace Cert.Kernel.TileBody

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop16 (A : Buf (Elt F) ((thr d L).loc cc2_scratch0)) (G : Buf (Elt F) ((thr d L).loc cc2_scratch1))
    (k : Fin k2_t16_loop.trips) (acc : PUnit) :
    (invFill1 (F := F) d L 0 A G k.val acc : sProp 𝕄)
      ⊢ wp frame (wpE (defs₀ (F := F)) 𝒱₀ (thr d L) none) Set.univ
          (region16 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill1 (F := F) d L 0 A G (k.val + 1)) := by
  have hk : (k : ℕ) < 32 := lt_of_lt_of_le k.isLt k2_t16_abs.2.1
  unfold invFill1 region16
  iintro ⟨Ha1, %h, Hb1, %hF⟩
  sl_exec
  sl_step
  isplitl [Ha1]; · iexact Ha1
  iexists _; isplitl [Hb1]; · iexact Hb1
  ipureintro
  refine RowFill.Filled.succ _ 1 0 k.val _ _ h _ hF ?_
  refine RowFill.RowFill.step _ 1 k.val 0 31 3 7 (by decide) rfl _ _ _ _ (k2_off1053_eq k) _ (fun x => RowFill.pay_eq _ _ 1 1 k.val 0 3 7 _ hk (by decide) (by decide) rfl _ (k2_off1052_eq k) _ (k2_off1053_eq k) _ _ x) ?_
  refine RowFill.RowFill.step _ 1 k.val 0 30 3 6 (by decide) rfl _ _ _ _ (k2_off1051_eq k) _ (fun x => RowFill.pay_eq _ _ 1 1 k.val 0 3 6 _ hk (by decide) (by decide) rfl _ (k2_off1050_eq k) _ (k2_off1051_eq k) _ _ x) ?_
  refine RowFill.RowFill.step _ 1 k.val 0 29 3 5 (by decide) rfl _ _ _ _ (k2_off1049_eq k) _ (fun x => RowFill.pay_eq _ _ 1 1 k.val 0 3 5 _ hk (by decide) (by decide) rfl _ (k2_off1048_eq k) _ (k2_off1049_eq k) _ _ x) ?_
  refine RowFill.RowFill.step _ 1 k.val 0 28 3 4 (by decide) rfl _ _ _ _ (k2_off1047_eq k) _ (fun x => RowFill.pay_eq _ _ 1 1 k.val 0 3 4 _ hk (by decide) (by decide) rfl _ (k2_off1046_eq k) _ (k2_off1047_eq k) _ _ x) ?_
  refine RowFill.RowFill.step _ 1 k.val 0 27 3 3 (by decide) rfl _ _ _ _ (k2_off1045_eq k) _ (fun x => RowFill.pay_eq _ _ 1 1 k.val 0 3 3 _ hk (by decide) (by decide) rfl _ (k2_off1044_eq k) _ (k2_off1045_eq k) _ _ x) ?_
  refine RowFill.RowFill.step _ 1 k.val 0 26 3 2 (by decide) rfl _ _ _ _ (k2_off1043_eq k) _ (fun x => RowFill.pay_eq _ _ 1 1 k.val 0 3 2 _ hk (by decide) (by decide) rfl _ (k2_off1042_eq k) _ (k2_off1043_eq k) _ _ x) ?_
  refine RowFill.RowFill.step _ 1 k.val 0 25 3 1 (by decide) rfl _ _ _ _ (k2_off1041_eq k) _ (fun x => RowFill.pay_eq _ _ 1 1 k.val 0 3 1 _ hk (by decide) (by decide) rfl _ (k2_off1040_eq k) _ (k2_off1041_eq k) _ _ x) ?_
  refine RowFill.RowFill.step _ 1 k.val 0 24 3 0 (by decide) rfl _ _ _ _ (k2_off1039_eq k) _ (fun x => RowFill.pay_eq _ _ 1 1 k.val 0 3 0 _ hk (by decide) (by decide) rfl _ (k2_off1038_eq k) _ (k2_off1039_eq k) _ _ x) ?_
  refine RowFill.RowFill.step _ 1 k.val 0 23 2 7 (by decide) rfl _ _ _ _ (k2_off1037_eq k) _ (fun x => RowFill.pay_eq _ _ 1 1 k.val 0 2 7 _ hk (by decide) (by decide) rfl _ (k2_off1036_eq k) _ (k2_off1037_eq k) _ _ x) ?_
  refine RowFill.RowFill.step _ 1 k.val 0 22 2 6 (by decide) rfl _ _ _ _ (k2_off1035_eq k) _ (fun x => RowFill.pay_eq _ _ 1 1 k.val 0 2 6 _ hk (by decide) (by decide) rfl _ (k2_off1034_eq k) _ (k2_off1035_eq k) _ _ x) ?_
  refine RowFill.RowFill.step _ 1 k.val 0 21 2 5 (by decide) rfl _ _ _ _ (k2_off1033_eq k) _ (fun x => RowFill.pay_eq _ _ 1 1 k.val 0 2 5 _ hk (by decide) (by decide) rfl _ (k2_off1032_eq k) _ (k2_off1033_eq k) _ _ x) ?_
  refine RowFill.RowFill.step _ 1 k.val 0 20 2 4 (by decide) rfl _ _ _ _ (k2_off1031_eq k) _ (fun x => RowFill.pay_eq _ _ 1 1 k.val 0 2 4 _ hk (by decide) (by decide) rfl _ (k2_off1030_eq k) _ (k2_off1031_eq k) _ _ x) ?_
  refine RowFill.RowFill.step _ 1 k.val 0 19 2 3 (by decide) rfl _ _ _ _ (k2_off1029_eq k) _ (fun x => RowFill.pay_eq _ _ 1 1 k.val 0 2 3 _ hk (by decide) (by decide) rfl _ (k2_off1028_eq k) _ (k2_off1029_eq k) _ _ x) ?_
  refine RowFill.RowFill.step _ 1 k.val 0 18 2 2 (by decide) rfl _ _ _ _ (k2_off1027_eq k) _ (fun x => RowFill.pay_eq _ _ 1 1 k.val 0 2 2 _ hk (by decide) (by decide) rfl _ (k2_off1026_eq k) _ (k2_off1027_eq k) _ _ x) ?_
  refine RowFill.RowFill.step _ 1 k.val 0 17 2 1 (by decide) rfl _ _ _ _ (k2_off1025_eq k) _ (fun x => RowFill.pay_eq _ _ 1 1 k.val 0 2 1 _ hk (by decide) (by decide) rfl _ (k2_off1024_eq k) _ (k2_off1025_eq k) _ _ x) ?_
  refine RowFill.RowFill.step _ 1 k.val 0 16 2 0 (by decide) rfl _ _ _ _ (k2_off1023_eq k) _ (fun x => RowFill.pay_eq _ _ 1 1 k.val 0 2 0 _ hk (by decide) (by decide) rfl _ (k2_off1022_eq k) _ (k2_off1023_eq k) _ _ x) ?_
  refine RowFill.RowFill.step _ 1 k.val 0 15 1 7 (by decide) rfl _ _ _ _ (k2_off1021_eq k) _ (fun x => RowFill.pay_eq _ _ 1 1 k.val 0 1 7 _ hk (by decide) (by decide) rfl _ (k2_off1020_eq k) _ (k2_off1021_eq k) _ _ x) ?_
  refine RowFill.RowFill.step _ 1 k.val 0 14 1 6 (by decide) rfl _ _ _ _ (k2_off1019_eq k) _ (fun x => RowFill.pay_eq _ _ 1 1 k.val 0 1 6 _ hk (by decide) (by decide) rfl _ (k2_off1018_eq k) _ (k2_off1019_eq k) _ _ x) ?_
  refine RowFill.RowFill.step _ 1 k.val 0 13 1 5 (by decide) rfl _ _ _ _ (k2_off1017_eq k) _ (fun x => RowFill.pay_eq _ _ 1 1 k.val 0 1 5 _ hk (by decide) (by decide) rfl _ (k2_off1016_eq k) _ (k2_off1017_eq k) _ _ x) ?_
  refine RowFill.RowFill.step _ 1 k.val 0 12 1 4 (by decide) rfl _ _ _ _ (k2_off1015_eq k) _ (fun x => RowFill.pay_eq _ _ 1 1 k.val 0 1 4 _ hk (by decide) (by decide) rfl _ (k2_off1014_eq k) _ (k2_off1015_eq k) _ _ x) ?_
  refine RowFill.RowFill.step _ 1 k.val 0 11 1 3 (by decide) rfl _ _ _ _ (k2_off1013_eq k) _ (fun x => RowFill.pay_eq _ _ 1 1 k.val 0 1 3 _ hk (by decide) (by decide) rfl _ (k2_off1012_eq k) _ (k2_off1013_eq k) _ _ x) ?_
  refine RowFill.RowFill.step _ 1 k.val 0 10 1 2 (by decide) rfl _ _ _ _ (k2_off1011_eq k) _ (fun x => RowFill.pay_eq _ _ 1 1 k.val 0 1 2 _ hk (by decide) (by decide) rfl _ (k2_off1010_eq k) _ (k2_off1011_eq k) _ _ x) ?_
  refine RowFill.RowFill.step _ 1 k.val 0 9 1 1 (by decide) rfl _ _ _ _ (k2_off1009_eq k) _ (fun x => RowFill.pay_eq _ _ 1 1 k.val 0 1 1 _ hk (by decide) (by decide) rfl _ (k2_off1008_eq k) _ (k2_off1009_eq k) _ _ x) ?_
  refine RowFill.RowFill.step _ 1 k.val 0 8 1 0 (by decide) rfl _ _ _ _ (k2_off1007_eq k) _ (fun x => RowFill.pay_eq _ _ 1 1 k.val 0 1 0 _ hk (by decide) (by decide) rfl _ (k2_off1006_eq k) _ (k2_off1007_eq k) _ _ x) ?_
  refine RowFill.RowFill.step _ 1 k.val 0 7 0 7 (by decide) rfl _ _ _ _ (k2_off1005_eq k) _ (fun x => RowFill.pay_eq _ _ 1 1 k.val 0 0 7 _ hk (by decide) (by decide) rfl _ (k2_off1004_eq k) _ (k2_off1005_eq k) _ _ x) ?_
  refine RowFill.RowFill.step _ 1 k.val 0 6 0 6 (by decide) rfl _ _ _ _ (k2_off1003_eq k) _ (fun x => RowFill.pay_eq _ _ 1 1 k.val 0 0 6 _ hk (by decide) (by decide) rfl _ (k2_off1002_eq k) _ (k2_off1003_eq k) _ _ x) ?_
  refine RowFill.RowFill.step _ 1 k.val 0 5 0 5 (by decide) rfl _ _ _ _ (k2_off1001_eq k) _ (fun x => RowFill.pay_eq _ _ 1 1 k.val 0 0 5 _ hk (by decide) (by decide) rfl _ (k2_off1000_eq k) _ (k2_off1001_eq k) _ _ x) ?_
  refine RowFill.RowFill.step _ 1 k.val 0 4 0 4 (by decide) rfl _ _ _ _ (k2_off999_eq k) _ (fun x => RowFill.pay_eq _ _ 1 1 k.val 0 0 4 _ hk (by decide) (by decide) rfl _ (k2_off998_eq k) _ (k2_off999_eq k) _ _ x) ?_
  refine RowFill.RowFill.step _ 1 k.val 0 3 0 3 (by decide) rfl _ _ _ _ (k2_off997_eq k) _ (fun x => RowFill.pay_eq _ _ 1 1 k.val 0 0 3 _ hk (by decide) (by decide) rfl _ (k2_off996_eq k) _ (k2_off997_eq k) _ _ x) ?_
  refine RowFill.RowFill.step _ 1 k.val 0 2 0 2 (by decide) rfl _ _ _ _ (k2_off995_eq k) _ (fun x => RowFill.pay_eq _ _ 1 1 k.val 0 0 2 _ hk (by decide) (by decide) rfl _ (k2_off994_eq k) _ (k2_off995_eq k) _ _ x) ?_
  refine RowFill.RowFill.step _ 1 k.val 0 1 0 1 (by decide) rfl _ _ _ _ (k2_off993_eq k) _ (fun x => RowFill.pay_eq _ _ 1 1 k.val 0 0 1 _ hk (by decide) (by decide) rfl _ (k2_off992_eq k) _ (k2_off993_eq k) _ _ x) ?_
  refine RowFill.RowFill.step _ 1 k.val 0 0 0 0 (by decide) rfl _ _ _ _ (k2_off991_eq k) _ (fun x => RowFill.pay_eq _ _ 1 1 k.val 0 0 0 _ hk (by decide) (by decide) rfl _ (k2_off990_eq k) _ (k2_off991_eq k) _ _ x) ?_
  exact RowFill.RowFill.zero _ _ _ _ _ _

end Cert.Kernel.TileBody
-- ==== Proof.Bits.TileLoop17.lean ====
/-
  Loop 17 of the tile body: one trip fills one row of a staging slot, sixteen lanes at a time, and leaves the
  loop's invariant at the next row.
-/
import proofs.«206219_g40982577938455_cont_8to1_b_1362_29_alg».proof.Proof.Bits.TileSetup

noncomputable section

namespace Cert.Kernel

open Idealize.ShloMosaic Idealize.SL.Sem
open Cert.Kernel.Gen

variable {F : FTy → Type} [FloatOps F]

/-- The region of the loop, as the kernel's text has it. -/
noncomputable def region17 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_697 : BitVec 32) (c1_i32_699 : BitVec 32) (k2_t17 : Fin k2_t17_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part130 i arg2 harg2 arg3 harg3 arg4 harg4 arg5 harg5 arg6 harg6 arg7 arg8 v661_r0 c0_i32_697 c1_i32_699 k2_t17
  let ⟨v734, c0_i32_809⟩ : Σ' (v734 : FVec F S16 .f32), BitVec 32 ← k2_part131 i arg2 harg2 arg3 harg3 arg4 harg4 arg5 harg5 arg6 harg6 arg7 arg8 v661_r0 k2_t17 arg9 v694
  k2_part132 i arg2 harg2 arg3 harg3 arg4 harg4 arg5 harg5 arg6 harg6 arg7 arg8 v661_r0 k2_t17 arg9 v734 c0_i32_809
  let v810 : FVec F S1x1x1x16 .f32 ← k2_part133 i arg2 harg2 arg3 harg3 arg4 harg4 arg5 harg5 arg6 harg6 arg7 arg8 v661_r0 k2_t17 arg9
  let v844 : FVec F S16 .f32 ← k2_part134 i arg2 harg2 arg3 harg3 arg4 harg4 arg5 harg5 arg6 harg6 arg7 arg8 v661_r0 k2_t17 arg9 v810
  let ⟨v884, c0_i32_869⟩ : Σ' (v884 : FVec F S16 .f32), BitVec 32 ← k2_part135 i arg2 harg2 arg3 harg3 arg4 harg4 arg5 harg5 arg6 harg6 arg7 arg8 v661_r0 k2_t17 arg9 v844
  k2_part136 i arg2 harg2 arg3 harg3 arg4 harg4 arg5 harg5 arg6 harg6 arg7 arg8 v661_r0 k2_t17 arg9 v884 c0_i32_869
  let v960 : FVec F S1x1x1x16 .f32 ← k2_part137 i arg2 harg2 arg3 harg3 arg4 harg4 arg5 harg5 arg6 harg6 arg7 arg8 v661_r0 k2_t17 arg9
  Prog.lift (.store arg6 (Rect.unit (s := S2x32x4x256) (k2_off1115 k2_t17) S1x1x1x16.size (k2_off1115_inb k2_t17)) v960 Finset.univ (View.stores_vmem_bits_univ h_S1x1x1x16 rfl) (.inl rfl))
  let c0_i32_900 : BitVec 32 := 0#32
  let v961 : Index := Scalar.indexCast c0_i32_900
  let v962 : Index := Scalar.indexCast arg9
  let c480 : Index := 480#32
  let v963 : Vec F S1x1x16 .f32 ← Prog.lift (.load arg5 (Rect.unit (s := S2x32x512) (k2_off1116 k2_t17) S1x1x16.size (k2_off1116_inb k2_t17)).toLoadRect (View.loadsAt_vmem h_S1x1x16))
  have v964 : FVec F S16 .f32 := shapeCast S16 v963 shapeCasts_S1x1x16_S16
  let c0_i32_901 : BitVec 32 := 0#32
  let c3_i32_902 : BitVec 32 := 3#32
  let v965 : Index := Scalar.indexCast c0_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off1117 k2_t17) S1x1x1x16.size (k2_off1117_inb k2_t17)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off1117 k2_t17) S1x1x1x16.size (k2_off1117_inb k2_t17)) v970 Finset.univ (View.stores_vmem_bits_univ h_S1x1x1x16 rfl) (.inl rfl))
  let c0_i32_904 : BitVec 32 := 0#32
  let v971 : Index := Scalar.indexCast c0_i32_904
  let v972 : Index := Scalar.indexCast arg9
  let c496 : Index := 496#32
  let v973 : Vec F S1x1x16 .f32 ← Prog.lift (.load arg5 (Rect.unit (s := S2x32x512) (k2_off1118 k2_t17) S1x1x16.size (k2_off1118_inb k2_t17)).toLoadRect (View.loadsAt_vmem h_S1x1x16))
  have v974 : FVec F S16 .f32 := shapeCast S16 v973 shapeCasts_S1x1x16_S16
  let c0_i32_905 : BitVec 32 := 0#32
  let c3_i32_906 : BitVec 32 := 3#32
  let v975 : Index := Scalar.indexCast c0_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off1119 k2_t17) S1x1x1x16.size (k2_off1119_inb k2_t17)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off1119 k2_t17) S1x1x1x16.size (k2_off1119_inb k2_t17)) v980 Finset.univ (View.stores_vmem_bits_univ h_S1x1x1x16 rfl) (.inl rfl))
  pure ⟨⟩

end Cert.Kernel

namespace Cert.Kernel.TileBody

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop17 (A : Buf (Elt F) ((thr d L).loc cc2_scratch0)) (G : Buf (Elt F) ((thr d L).loc cc2_scratch1))
    (k : Fin k2_t17_loop.trips) (acc : PUnit) :
    (invFill0 (F := F) d L 0 A G k.val acc : sProp 𝕄)
      ⊢ wp frame (wpE (defs₀ (F := F)) 𝒱₀ (thr d L) none) Set.univ
          (region17 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill0 (F := F) d L 0 A G (k.val + 1)) := by
  have hk : (k : ℕ) < 32 := lt_of_lt_of_le k.isLt k2_t17_abs.2.1
  unfold invFill0 region17
  iintro ⟨Ha0, %h, Hb0, %hF⟩
  sl_exec
  sl_step
  isplitl [Ha0]; · iexact Ha0
  iexists _; isplitl [Hb0]; · iexact Hb0
  ipureintro
  refine RowFill.Filled.succ _ 0 0 k.val _ _ h _ hF ?_
  refine RowFill.RowFill.step _ 0 k.val 0 31 3 7 (by decide) rfl _ _ _ _ (k2_off1119_eq k) _ (fun x => RowFill.pay_eq _ _ 0 0 k.val 0 3 7 _ hk (by decide) (by decide) rfl _ (k2_off1118_eq k) _ (k2_off1119_eq k) _ _ x) ?_
  refine RowFill.RowFill.step _ 0 k.val 0 30 3 6 (by decide) rfl _ _ _ _ (k2_off1117_eq k) _ (fun x => RowFill.pay_eq _ _ 0 0 k.val 0 3 6 _ hk (by decide) (by decide) rfl _ (k2_off1116_eq k) _ (k2_off1117_eq k) _ _ x) ?_
  refine RowFill.RowFill.step _ 0 k.val 0 29 3 5 (by decide) rfl _ _ _ _ (k2_off1115_eq k) _ (fun x => RowFill.pay_eq _ _ 0 0 k.val 0 3 5 _ hk (by decide) (by decide) rfl _ (k2_off1114_eq k) _ (k2_off1115_eq k) _ _ x) ?_
  refine RowFill.RowFill.step _ 0 k.val 0 28 3 4 (by decide) rfl _ _ _ _ (k2_off1113_eq k) _ (fun x => RowFill.pay_eq _ _ 0 0 k.val 0 3 4 _ hk (by decide) (by decide) rfl _ (k2_off1112_eq k) _ (k2_off1113_eq k) _ _ x) ?_
  refine RowFill.RowFill.step _ 0 k.val 0 27 3 3 (by decide) rfl _ _ _ _ (k2_off1111_eq k) _ (fun x => RowFill.pay_eq _ _ 0 0 k.val 0 3 3 _ hk (by decide) (by decide) rfl _ (k2_off1110_eq k) _ (k2_off1111_eq k) _ _ x) ?_
  refine RowFill.RowFill.step _ 0 k.val 0 26 3 2 (by decide) rfl _ _ _ _ (k2_off1109_eq k) _ (fun x => RowFill.pay_eq _ _ 0 0 k.val 0 3 2 _ hk (by decide) (by decide) rfl _ (k2_off1108_eq k) _ (k2_off1109_eq k) _ _ x) ?_
  refine RowFill.RowFill.step _ 0 k.val 0 25 3 1 (by decide) rfl _ _ _ _ (k2_off1107_eq k) _ (fun x => RowFill.pay_eq _ _ 0 0 k.val 0 3 1 _ hk (by decide) (by decide) rfl _ (k2_off1106_eq k) _ (k2_off1107_eq k) _ _ x) ?_
  refine RowFill.RowFill.step _ 0 k.val 0 24 3 0 (by decide) rfl _ _ _ _ (k2_off1105_eq k) _ (fun x => RowFill.pay_eq _ _ 0 0 k.val 0 3 0 _ hk (by decide) (by decide) rfl _ (k2_off1104_eq k) _ (k2_off1105_eq k) _ _ x) ?_
  refine RowFill.RowFill.step _ 0 k.val 0 23 2 7 (by decide) rfl _ _ _ _ (k2_off1103_eq k) _ (fun x => RowFill.pay_eq _ _ 0 0 k.val 0 2 7 _ hk (by decide) (by decide) rfl _ (k2_off1102_eq k) _ (k2_off1103_eq k) _ _ x) ?_
  refine RowFill.RowFill.step _ 0 k.val 0 22 2 6 (by decide) rfl _ _ _ _ (k2_off1101_eq k) _ (fun x => RowFill.pay_eq _ _ 0 0 k.val 0 2 6 _ hk (by decide) (by decide) rfl _ (k2_off1100_eq k) _ (k2_off1101_eq k) _ _ x) ?_
  refine RowFill.RowFill.step _ 0 k.val 0 21 2 5 (by decide) rfl _ _ _ _ (k2_off1099_eq k) _ (fun x => RowFill.pay_eq _ _ 0 0 k.val 0 2 5 _ hk (by decide) (by decide) rfl _ (k2_off1098_eq k) _ (k2_off1099_eq k) _ _ x) ?_
  refine RowFill.RowFill.step _ 0 k.val 0 20 2 4 (by decide) rfl _ _ _ _ (k2_off1097_eq k) _ (fun x => RowFill.pay_eq _ _ 0 0 k.val 0 2 4 _ hk (by decide) (by decide) rfl _ (k2_off1096_eq k) _ (k2_off1097_eq k) _ _ x) ?_
  refine RowFill.RowFill.step _ 0 k.val 0 19 2 3 (by decide) rfl _ _ _ _ (k2_off1095_eq k) _ (fun x => RowFill.pay_eq _ _ 0 0 k.val 0 2 3 _ hk (by decide) (by decide) rfl _ (k2_off1094_eq k) _ (k2_off1095_eq k) _ _ x) ?_
  refine RowFill.RowFill.step _ 0 k.val 0 18 2 2 (by decide) rfl _ _ _ _ (k2_off1093_eq k) _ (fun x => RowFill.pay_eq _ _ 0 0 k.val 0 2 2 _ hk (by decide) (by decide) rfl _ (k2_off1092_eq k) _ (k2_off1093_eq k) _ _ x) ?_
  refine RowFill.RowFill.step _ 0 k.val 0 17 2 1 (by decide) rfl _ _ _ _ (k2_off1091_eq k) _ (fun x => RowFill.pay_eq _ _ 0 0 k.val 0 2 1 _ hk (by decide) (by decide) rfl _ (k2_off1090_eq k) _ (k2_off1091_eq k) _ _ x) ?_
  refine RowFill.RowFill.step _ 0 k.val 0 16 2 0 (by decide) rfl _ _ _ _ (k2_off1089_eq k) _ (fun x => RowFill.pay_eq _ _ 0 0 k.val 0 2 0 _ hk (by decide) (by decide) rfl _ (k2_off1088_eq k) _ (k2_off1089_eq k) _ _ x) ?_
  refine RowFill.RowFill.step _ 0 k.val 0 15 1 7 (by decide) rfl _ _ _ _ (k2_off1087_eq k) _ (fun x => RowFill.pay_eq _ _ 0 0 k.val 0 1 7 _ hk (by decide) (by decide) rfl _ (k2_off1086_eq k) _ (k2_off1087_eq k) _ _ x) ?_
  refine RowFill.RowFill.step _ 0 k.val 0 14 1 6 (by decide) rfl _ _ _ _ (k2_off1085_eq k) _ (fun x => RowFill.pay_eq _ _ 0 0 k.val 0 1 6 _ hk (by decide) (by decide) rfl _ (k2_off1084_eq k) _ (k2_off1085_eq k) _ _ x) ?_
  refine RowFill.RowFill.step _ 0 k.val 0 13 1 5 (by decide) rfl _ _ _ _ (k2_off1083_eq k) _ (fun x => RowFill.pay_eq _ _ 0 0 k.val 0 1 5 _ hk (by decide) (by decide) rfl _ (k2_off1082_eq k) _ (k2_off1083_eq k) _ _ x) ?_
  refine RowFill.RowFill.step _ 0 k.val 0 12 1 4 (by decide) rfl _ _ _ _ (k2_off1081_eq k) _ (fun x => RowFill.pay_eq _ _ 0 0 k.val 0 1 4 _ hk (by decide) (by decide) rfl _ (k2_off1080_eq k) _ (k2_off1081_eq k) _ _ x) ?_
  refine RowFill.RowFill.step _ 0 k.val 0 11 1 3 (by decide) rfl _ _ _ _ (k2_off1079_eq k) _ (fun x => RowFill.pay_eq _ _ 0 0 k.val 0 1 3 _ hk (by decide) (by decide) rfl _ (k2_off1078_eq k) _ (k2_off1079_eq k) _ _ x) ?_
  refine RowFill.RowFill.step _ 0 k.val 0 10 1 2 (by decide) rfl _ _ _ _ (k2_off1077_eq k) _ (fun x => RowFill.pay_eq _ _ 0 0 k.val 0 1 2 _ hk (by decide) (by decide) rfl _ (k2_off1076_eq k) _ (k2_off1077_eq k) _ _ x) ?_
  refine RowFill.RowFill.step _ 0 k.val 0 9 1 1 (by decide) rfl _ _ _ _ (k2_off1075_eq k) _ (fun x => RowFill.pay_eq _ _ 0 0 k.val 0 1 1 _ hk (by decide) (by decide) rfl _ (k2_off1074_eq k) _ (k2_off1075_eq k) _ _ x) ?_
  refine RowFill.RowFill.step _ 0 k.val 0 8 1 0 (by decide) rfl _ _ _ _ (k2_off1073_eq k) _ (fun x => RowFill.pay_eq _ _ 0 0 k.val 0 1 0 _ hk (by decide) (by decide) rfl _ (k2_off1072_eq k) _ (k2_off1073_eq k) _ _ x) ?_
  refine RowFill.RowFill.step _ 0 k.val 0 7 0 7 (by decide) rfl _ _ _ _ (k2_off1071_eq k) _ (fun x => RowFill.pay_eq _ _ 0 0 k.val 0 0 7 _ hk (by decide) (by decide) rfl _ (k2_off1070_eq k) _ (k2_off1071_eq k) _ _ x) ?_
  refine RowFill.RowFill.step _ 0 k.val 0 6 0 6 (by decide) rfl _ _ _ _ (k2_off1069_eq k) _ (fun x => RowFill.pay_eq _ _ 0 0 k.val 0 0 6 _ hk (by decide) (by decide) rfl _ (k2_off1068_eq k) _ (k2_off1069_eq k) _ _ x) ?_
  refine RowFill.RowFill.step _ 0 k.val 0 5 0 5 (by decide) rfl _ _ _ _ (k2_off1067_eq k) _ (fun x => RowFill.pay_eq _ _ 0 0 k.val 0 0 5 _ hk (by decide) (by decide) rfl _ (k2_off1066_eq k) _ (k2_off1067_eq k) _ _ x) ?_
  refine RowFill.RowFill.step _ 0 k.val 0 4 0 4 (by decide) rfl _ _ _ _ (k2_off1065_eq k) _ (fun x => RowFill.pay_eq _ _ 0 0 k.val 0 0 4 _ hk (by decide) (by decide) rfl _ (k2_off1064_eq k) _ (k2_off1065_eq k) _ _ x) ?_
  refine RowFill.RowFill.step _ 0 k.val 0 3 0 3 (by decide) rfl _ _ _ _ (k2_off1063_eq k) _ (fun x => RowFill.pay_eq _ _ 0 0 k.val 0 0 3 _ hk (by decide) (by decide) rfl _ (k2_off1062_eq k) _ (k2_off1063_eq k) _ _ x) ?_
  refine RowFill.RowFill.step _ 0 k.val 0 2 0 2 (by decide) rfl _ _ _ _ (k2_off1061_eq k) _ (fun x => RowFill.pay_eq _ _ 0 0 k.val 0 0 2 _ hk (by decide) (by decide) rfl _ (k2_off1060_eq k) _ (k2_off1061_eq k) _ _ x) ?_
  refine RowFill.RowFill.step _ 0 k.val 0 1 0 1 (by decide) rfl _ _ _ _ (k2_off1059_eq k) _ (fun x => RowFill.pay_eq _ _ 0 0 k.val 0 0 1 _ hk (by decide) (by decide) rfl _ (k2_off1058_eq k) _ (k2_off1059_eq k) _ _ x) ?_
  refine RowFill.RowFill.step _ 0 k.val 0 0 0 0 (by decide) rfl _ _ _ _ (k2_off1057_eq k) _ (fun x => RowFill.pay_eq _ _ 0 0 k.val 0 0 0 _ hk (by decide) (by decide) rfl _ (k2_off1056_eq k) _ (k2_off1057_eq k) _ _ x) ?_
  exact RowFill.RowFill.zero _ _ _ _ _ _

end Cert.Kernel.TileBody
-- ==== Proof.Bits.TileLoop18.lean ====
/-
  Loop 18 of the tile body: one trip fills one row of a staging slot, sixteen lanes at a time, and leaves the
  loop's invariant at the next row.
-/
import proofs.«206219_g40982577938455_cont_8to1_b_1362_29_alg».proof.Proof.Bits.TileSetup

noncomputable section

namespace Cert.Kernel

open Idealize.ShloMosaic Idealize.SL.Sem
open Cert.Kernel.Gen

variable {F : FTy → Type} [FloatOps F]

/-- The region of the loop, as the kernel's text has it. -/
noncomputable def region18 (i : grid2.Coords) (arg2 : Memref sig .scVector .hbm S16x1024x512 .f32) (harg2 : arg2.IsWhole) (arg3 : Memref sig .scVector .hbm S1024x512 .f32) (harg3 : arg3.IsWhole) (arg4 : Memref sig .scVector .hbm S16x1024x4x256 .f32) (harg4 : arg4.IsWhole) (arg5 : Memref sig .scVector .vmem S2x32x512 .f32) (harg5 : arg5.IsWhole) (arg6 : Memref sig .scVector .vmem S2x32x4x256 .f32) (harg6 : arg6.IsWhole) (arg7 : DmaSems sig S2) (arg8 : DmaSems sig S2) (v661_r0 : DmaSems sig S_) (c0_i32_737 : BitVec 32) (c1_i32_739 : BitVec 32) (k2_t18 : Fin k2_t18_loop.trips) :
    Prog (TpuEff nD τ sig (Elt F) Λ₀ (.scVector ((i 0).castLE hcore2) ((i 1).castLE hsub2))) PUnit := do
  let ⟨arg9, v694⟩ : Σ' (arg9 : BitVec 32), FVec F S16 .f32 ← k2_part138 i arg2 harg2 arg3 harg3 arg4 harg4 arg5 harg5 arg6 harg6 arg7 arg8 v661_r0 c0_i32_737 c1_i32_739 k2_t18
  let ⟨v734, c1_i32_809⟩ : Σ' (v734 : FVec F S16 .f32), BitVec 32 ← k2_part139 i arg2 harg2 arg3 harg3 arg4 harg4 arg5 harg5 arg6 harg6 arg7 arg8 v661_r0 k2_t18 arg9 v694
  k2_part140 i arg2 harg2 arg3 harg3 arg4 harg4 arg5 harg5 arg6 harg6 arg7 arg8 v661_r0 k2_t18 arg9 v734 c1_i32_809
  let v810 : FVec F S1x1x1x16 .f32 ← k2_part141 i arg2 harg2 arg3 harg3 arg4 harg4 arg5 harg5 arg6 harg6 arg7 arg8 v661_r0 k2_t18 arg9
  let v844 : FVec F S16 .f32 ← k2_part142 i arg2 harg2 arg3 harg3 arg4 harg4 arg5 harg5 arg6 harg6 arg7 arg8 v661_r0 k2_t18 arg9 v810
  let ⟨v884, c1_i32_869⟩ : Σ' (v884 : FVec F S16 .f32), BitVec 32 ← k2_part143 i arg2 harg2 arg3 harg3 arg4 harg4 arg5 harg5 arg6 harg6 arg7 arg8 v661_r0 k2_t18 arg9 v844
  k2_part144 i arg2 harg2 arg3 harg3 arg4 harg4 arg5 harg5 arg6 harg6 arg7 arg8 v661_r0 k2_t18 arg9 v884 c1_i32_869
  let v960 : FVec F S1x1x1x16 .f32 ← k2_part145 i arg2 harg2 arg3 harg3 arg4 harg4 arg5 harg5 arg6 harg6 arg7 arg8 v661_r0 k2_t18 arg9
  Prog.lift (.store arg6 (Rect.unit (s := S2x32x4x256) (k2_off1180 k2_t18) S1x1x1x16.size (k2_off1180_inb k2_t18)) v960 Finset.univ (View.stores_vmem_bits_univ h_S1x1x1x16 rfl) (.inl rfl))
  let c1_i32_900 : BitVec 32 := 1#32
  let v961 : Index := Scalar.indexCast c1_i32_900
  let v962 : Index := Scalar.indexCast arg9
  let c480 : Index := 480#32
  let v963 : Vec F S1x1x16 .f32 ← Prog.lift (.load arg5 (Rect.unit (s := S2x32x512) (k2_off1181 k2_t18) S1x1x16.size (k2_off1181_inb k2_t18)).toLoadRect (View.loadsAt_vmem h_S1x1x16))
  have v964 : FVec F S16 .f32 := shapeCast S16 v963 shapeCasts_S1x1x16_S16
  let c1_i32_901 : BitVec 32 := 1#32
  let c3_i32_902 : BitVec 32 := 3#32
  let v965 : Index := Scalar.indexCast c1_i32_901
  let v966 : Index := Scalar.indexCast arg9
  let v967 : Index := Scalar.indexCast c3_i32_902
  let c96_903 : Index := 96#32
  let v968 : Vec F S1x1x1x16 .f32 ← Prog.lift (.load arg6 (Rect.unit (s := S2x32x4x256) (k2_off1182 k2_t18) S1x1x1x16.size (k2_off1182_inb k2_t18)).toLoadRect (View.loadsAt_vmem h_S1x1x1x16))
  have v969 : FVec F S16 .f32 := shapeCast S16 v968 shapeCasts_S1x1x1x16_S16
  have v970 : FVec F S1x1x1x16 .f32 := shapeCast S1x1x1x16 v964 shapeCasts_S16_S1x1x1x16
  Prog.lift (.store arg6 (Rect.unit (s := S2x32x4x256) (k2_off1182 k2_t18) S1x1x1x16.size (k2_off1182_inb k2_t18)) v970 Finset.univ (View.stores_vmem_bits_univ h_S1x1x1x16 rfl) (.inl rfl))
  let c1_i32_904 : BitVec 32 := 1#32
  let v971 : Index := Scalar.indexCast c1_i32_904
  let v972 : Index := Scalar.indexCast arg9
  let c496 : Index := 496#32
  let v973 : Vec F S1x1x16 .f32 ← Prog.lift (.load arg5 (Rect.unit (s := S2x32x512) (k2_off1183 k2_t18) S1x1x16.size (k2_off1183_inb k2_t18)).toLoadRect (View.loadsAt_vmem h_S1x1x16))
  have v974 : FVec F S16 .f32 := shapeCast S16 v973 shapeCasts_S1x1x16_S16
  let c1_i32_905 : BitVec 32 := 1#32
  let c3_i32_906 : BitVec 32 := 3#32
  let v975 : Index := Scalar.indexCast c1_i32_905
  let v976 : Index := Scalar.indexCast arg9
  let v977 : Index := Scalar.indexCast c3_i32_906
  let c112_907 : Index := 112#32
  let v978 : Vec F S1x1x1x16 .f32 ← Prog.lift (.load arg6 (Rect.unit (s := S2x32x4x256) (k2_off1184 k2_t18) S1x1x1x16.size (k2_off1184_inb k2_t18)).toLoadRect (View.loadsAt_vmem h_S1x1x1x16))
  have v979 : FVec F S16 .f32 := shapeCast S16 v978 shapeCasts_S1x1x1x16_S16
  have v980 : FVec F S1x1x1x16 .f32 := shapeCast S1x1x1x16 v974 shapeCasts_S16_S1x1x1x16
  Prog.lift (.store arg6 (Rect.unit (s := S2x32x4x256) (k2_off1184 k2_t18) S1x1x1x16.size (k2_off1184_inb k2_t18)) v980 Finset.univ (View.stores_vmem_bits_univ h_S1x1x1x16 rfl) (.inl rfl))
  pure ⟨⟩

end Cert.Kernel

namespace Cert.Kernel.TileBody

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid2.Coords)

set_option maxHeartbeats 0 in
theorem loop18 (A : Buf (Elt F) ((thr d L).loc cc2_scratch0)) (G : Buf (Elt F) ((thr d L).loc cc2_scratch1))
    (k : Fin k2_t18_loop.trips) (acc : PUnit) :
    (invFill1 (F := F) d L 0 A G k.val acc : sProp 𝕄)
      ⊢ wp frame (wpE (defs₀ (F := F)) 𝒱₀ (thr d L) none) Set.univ
          (region18 (F := F) L xW (Memref.isWhole_whole _) eW (Memref.isWhole_whole _) oW (Memref.isWhole_whole _)
            sA (Memref.isWhole_whole _) sB (Memref.isWhole_whole _) cc2_scratch2 cc2_scratch3 cc2_scoped0 (0#32) (1#32) k)
          (invFill1 (F := F) d L 0 A G (k.val + 1)) := by
  have hk : (k : ℕ) < 32 := lt_of_lt_of_le k.isLt k2_t18_abs.2.1
  unfold invFill1 region18
  iintro ⟨Ha1, %h, Hb1, %hF⟩
  sl_exec
  sl_step
  isplitl [Ha1]; · iexact Ha1
  iexists _; isplitl [Hb1]; · iexact Hb1
  ipureintro
  refine RowFill.Filled.succ _ 1 0 k.val _ _ h _ hF ?_
  refine RowFill.RowFill.step _ 1 k.val 0 31 3 7 (by decide) rfl _ _ _ _ (k2_off1184_eq k) _ (fun x => RowFill.pay_eq _ _ 1 1 k.val 0 3 7 _ hk (by decide) (by decide) rfl _ (k2_off1183_eq k) _ (k2_off1184_eq k) _ _ x) ?_
  refine RowFill.RowFill.step _ 1 k.val 0 30 3 6 (by decide) rfl _ _ _ _ (k2_off1182_eq k) _ (fun x => RowFill.pay_eq _ _ 1 1 k.val 0 3 6 _ hk (by decide) (by decide) rfl _ (k2_off1181_eq k) _ (k2_off1182_eq k) _ _ x) ?_
  refine RowFill.RowFill.step _ 1 k.val 0 29 3 5 (by decide) rfl _ _ _ _ (k2_off1180_eq k) _ (fun x => RowFill.pay_eq _ _ 1 1 k.val 0 3 5 _ hk (by decide) (by decide) rfl _ (k2_off1179_eq k) _ (k2_off1180_eq k) _ _ x) ?_
  refine RowFill.RowFill.step _ 1 k.val 0 28 3 4 (by decide) rfl _ _ _ _ (k2_off1178_eq k) _ (fun x => RowFill.pay_eq _ _ 1 1 k.val 0 3 4 _ hk (by decide) (by decide) rfl _ (k2_off1177_eq k) _ (k2_off1178_eq k) _ _ x) ?_
  refine RowFill.RowFill.step _ 1 k.val 0 27 3 3 (by decide) rfl _ _ _ _ (k2_off1176_eq k) _ (fun x => RowFill.pay_eq _ _ 1 1 k.val 0 3 3 _ hk (by decide) (by decide) rfl _ (k2_off1175_eq k) _ (k2_off1176_eq k) _ _ x) ?_
  refine RowFill.RowFill.step _ 1 k.val 0 26 3 2 (by decide) rfl _ _ _ _ (k2_off1174_eq k) _ (fun x => RowFill.pay_eq _ _ 1 1 k.val 0 3 2 _ hk (by decide) (by decide) rfl _ (k2_off1173_eq k) _ (k2_off1174_eq k) _ _ x) ?_
  refine RowFill.RowFill.step _ 1 k.val 0 25 3 1 (by decide) rfl _ _ _ _ (k2_off1172_eq k) _ (fun x => RowFill.pay_eq _ _ 1 1 k.val 0 3 1 _ hk (by decide) (by decide) rfl _ (k2_off1171_eq k) _ (k2_off1172_eq k) _ _ x) ?_
  refine RowFill.RowFill.step _ 1 k.val 0 24 3 0 (by decide) rfl _ _ _ _ (k2_off1170_eq k) _ (fun x => RowFill.pay_eq _ _ 1 1 k.val 0 3 0 _ hk (by decide) (by decide) rfl _ (k2_off1169_eq k) _ (k2_off1170_eq k) _ _ x) ?_
  refine RowFill.RowFill.step _ 1 k.val 0 23 2 7 (by decide) rfl _ _ _ _ (k2_off1168_eq k) _ (fun x => RowFill.pay_eq _ _ 1 1 k.val 0 2 7 _ hk (by decide) (by decide) rfl _ (k2_off1167_eq k) _ (k2_off1168_eq k) _ _ x) ?_
  refine RowFill.RowFill.step _ 1 k.val 0 22 2 6 (by decide) rfl _ _ _ _ (k2_off1166_eq k) _ (fun x => RowFill.pay_eq _ _ 1 1 k.val 0 2 6 _ hk (by decide) (by decide) rfl _ (k2_off1165_eq k) _ (k2_off1166_eq k) _ _ x) ?_
  refine RowFill.RowFill.step _ 1 k.val 0 21 2 5 (by decide) rfl _ _ _ _ (k2_off1164_eq k) _ (fun x => RowFill.pay_eq _ _ 1 1 k.val 0 2 5 _ hk (by decide) (by decide) rfl _ (k2_off1163_eq k) _ (k2_off1164_eq k) _ _ x) ?_
  refine RowFill.RowFill.step _ 1 k.val 0 20 2 4 (by decide) rfl _ _ _ _ (k2_off1162_eq k) _ (fun x => RowFill.pay_eq _ _ 1 1 k.val 0 2 4 _ hk (by decide) (by decide) rfl _ (k2_off1161_eq k) _ (k2_off1162_eq k) _ _ x) ?_
  refine RowFill.RowFill.step _ 1 k.val 0 19 2 3 (by decide) rfl _ _ _ _ (k2_off1160_eq k) _ (fun x => RowFill.pay_eq _ _ 1 1 k.val 0 2 3 _ hk (by decide) (by decide) rfl _ (k2_off1159_eq k) _ (k2_off1160_eq k) _ _ x) ?_
  refine RowFill.RowFill.step _ 1 k.val 0 18 2 2 (by decide) rfl _ _ _ _ (k2_off1158_eq k) _ (fun x => RowFill.pay_eq _ _ 1 1 k.val 0 2 2 _ hk (by decide) (by decide) rfl _ (k2_off1157_eq k) _ (k2_off1158_eq k) _ _ x) ?_
  refine RowFill.RowFill.step _ 1 k.val 0 17 2 1 (by decide) rfl _ _ _ _ (k2_off1156_eq k) _ (fun x => RowFill.pay_eq _ _ 1 1 k.val 0 2 1 _ hk (by decide) (by decide) rfl _ (k2_off1155_eq k) _ (k2_off1156_eq k) _ _ x) ?_
  refine RowFill.RowFill.step _ 1 k.val 0 16 2 0 (by decide) rfl _ _ _ _ (k2_off1154_eq k) _ (fun x => RowFill.pay_eq _ _ 1 1 k.val 0 2 0 _ hk (by decide) (by decide) rfl _ (k2_off1153_eq k) _ (k2_off1154_eq k) _ _ x) ?_
  refine RowFill.RowFill.step _ 1 k.val 0 15 1 7 (by decide) rfl _ _ _ _ (k2_off1152_eq k) _ (fun x => RowFill.pay_eq _ _ 1 1 k.val 0 1 7 _ hk (by decide) (by decide) rfl _ (k2_off1151_eq k) _ (k2_off1152_eq k) _ _ x) ?_
  refine RowFill.RowFill.step _ 1 k.val 0 14 1 6 (by decide) rfl _ _ _ _ (k2_off1150_eq k) _ (fun x => RowFill.pay_eq _ _ 1 1 k.val 0 1 6 _ hk (by decide) (by decide) rfl _ (k2_off1149_eq k) _ (k2_off1150_eq k) _ _ x) ?_
  refine RowFill.RowFill.step _ 1 k.val 0 13 1 5 (by decide) rfl _ _ _ _ (k2_off1148_eq k) _ (fun x => RowFill.pay_eq _ _ 1 1 k.val 0 1 5 _ hk (by decide) (by decide) rfl _ (k2_off1147_eq k) _ (k2_off1148_eq k) _ _ x) ?_
  refine RowFill.RowFill.step _ 1 k.val 0 12 1 4 (by decide) rfl _ _ _ _ (k2_off1146_eq k) _ (fun x => RowFill.pay_eq _ _ 1 1 k.val 0 1 4 _ hk (by decide) (by decide) rfl _ (k2_off1145_eq k) _ (k2_off1146_eq k) _ _ x) ?_
  refine RowFill.RowFill.step _ 1 k.val 0 11 1 3 (by decide) rfl _ _ _ _ (k2_off1144_eq k) _ (fun x => RowFill.pay_eq _ _ 1 1 k.val 0 1 3 _ hk (by decide) (by decide) rfl _ (k2_off1143_eq k) _ (k2_off1144_eq k) _ _ x) ?_
  refine RowFill.RowFill.step _ 1 k.val 0 10 1 2 (by decide) rfl _ _ _ _ (k2_off1142_eq k) _ (fun x => RowFill.pay_eq _ _ 1 1 k.val 0 1 2 _ hk (by decide) (by decide) rfl _ (k2_off1141_eq k) _ (k2_off1142_eq k) _ _ x) ?_
  refine RowFill.RowFill.step _ 1 k.val 0 9 1 1 (by decide) rfl _ _ _ _ (k2_off1140_eq k) _ (fun x => RowFill.pay_eq _ _ 1 1 k.val 0 1 1 _ hk (by decide) (by decide) rfl _ (k2_off1139_eq k) _ (k2_off1140_eq k) _ _ x) ?_
  refine RowFill.RowFill.step _ 1 k.val 0 8 1 0 (by decide) rfl _ _ _ _ (k2_off1138_eq k) _ (fun x => RowFill.pay_eq _ _ 1 1 k.val 0 1 0 _ hk (by decide) (by decide) rfl _ (k2_off1137_eq k) _ (k2_off1138_eq k) _ _ x) ?_
  refine RowFill.RowFill.step _ 1 k.val 0 7 0 7 (by decide) rfl _ _ _ _ (k2_off1136_eq k) _ (fun x => RowFill.pay_eq _ _ 1 1 k.val 0 0 7 _ hk (by decide) (by decide) rfl _ (k2_off1135_eq k) _ (k2_off1136_eq k) _ _ x) ?_
  refine RowFill.RowFill.step _ 1 k.val 0 6 0 6 (by decide) rfl _ _ _ _ (k2_off1134_eq k) _ (fun x => RowFill.pay_eq _ _ 1 1 k.val 0 0 6 _ hk (by decide) (by decide) rfl _ (k2_off1133_eq k) _ (k2_off1134_eq k) _ _ x) ?_
  refine RowFill.RowFill.step _ 1 k.val 0 5 0 5 (by decide) rfl _ _ _ _ (k2_off1132_eq k) _ (fun x => RowFill.pay_eq _ _ 1 1 k.val 0 0 5 _ hk (by decide) (by decide) rfl _ (k2_off1131_eq k) _ (k2_off1132_eq k) _ _ x) ?_
  refine RowFill.RowFill.step _ 1 k.val 0 4 0 4 (by decide) rfl _ _ _ _ (k2_off1130_eq k) _ (fun x => RowFill.pay_eq _ _ 1 1 k.val 0 0 4 _ hk (by decide) (by decide) rfl _ (k2_off1129_eq k) _ (k2_off1130_eq k) _ _ x) ?_
  refine RowFill.RowFill.step _ 1 k.val 0 3 0 3 (by decide) rfl _ _ _ _ (k2_off1128_eq k) _ (fun x => RowFill.pay_eq _ _ 1 1 k.val 0 0 3 _ hk (by decide) (by decide) rfl _ (k2_off1127_eq k) _ (k2_off1128_eq k) _ _ x) ?_
  refine RowFill.RowFill.step _ 1 k.val 0 2 0 2 (by decide) rfl _ _ _ _ (k2_off1126_eq k) _ (fun x => RowFill.pay_eq _ _ 1 1 k.val 0 0 2 _ hk (by decide) (by decide) rfl _ (k2_off1125_eq k) _ (k2_off1126_eq k) _ _ x) ?_
  refine RowFill.RowFill.step _ 1 k.val 0 1 0 1 (by decide) rfl _ _ _ _ (k2_off1124_eq k) _ (fun x => RowFill.pay_eq _ _ 1 1 k.val 0 0 1 _ hk (by decide) (by decide) rfl _ (k2_off1123_eq k) _ (k2_off1124_eq k) _ _ x) ?_
  refine RowFill.RowFill.step _ 1 k.val 0 0 0 0 (by decide) rfl _ _ _ _ (k2_off1122_eq k) _ (fun x => RowFill.pay_eq _ _ 1 1 k.val 0 0 0 _ hk (by decide) (by decide) rfl _ (k2_off1121_eq k) _ (k2_off1122_eq k) _ _ x) ?_
  exact RowFill.RowFill.zero _ _ _ _ _ _

end Cert.Kernel.TileBody
-- ==== Proof.Bits.TileThread.lean ====
/-
  The tile body threaded: the table's rows copied in and spread into the table half of both staging slots; then, per
  batch, the batch's rows awaited, the next batch's requested, the slot's previous copy-out awaited, the x half
  filled, the slot copied out. Each loop goes by its invariant (the loop modules), each copy and wait is a step;
  the contents of the scratch slots are carried as facts, and each block of the result is read off the slot copied
  into it.
-/
import proofs.«206219_g40982577938455_cont_8to1_b_1362_29_alg».proof.Proof.Bits.TileRows
import proofs.«206219_g40982577938455_cont_8to1_b_1362_29_alg».proof.Proof.Bits.TileLoop01
import proofs.«206219_g40982577938455_cont_8to1_b_1362_29_alg».proof.Proof.Bits.TileLoop02
import proofs.«206219_g40982577938455_cont_8to1_b_1362_29_alg».proof.Proof.Bits.TileLoop03
import proofs.«206219_g40982577938455_cont_8to1_b_1362_29_alg».proof.Proof.Bits.TileLoop04
import proofs.«206219_g40982577938455_cont_8to1_b_1362_29_alg».proof.Proof.Bits.TileLoop05
import proofs.«206219_g40982577938455_cont_8to1_b_1362_29_alg».proof.Proof.Bits.TileLoop06
import proofs.«206219_g40982577938455_cont_8to1_b_1362_29_alg».proof.Proof.Bits.TileLoop07
import proofs.«206219_g40982577938455_cont_8to1_b_1362_29_alg».proof.Proof.Bits.TileLoop08
import proofs.«206219_g40982577938455_cont_8to1_b_1362_29_alg».proof.Proof.Bits.TileLoop09
import proofs.«206219_g40982577938455_cont_8to1_b_1362_29_alg».proof.Proof.Bits.TileLoop10
import proofs.«206219_g40982577938455_cont_8to1_b_1362_29_alg».proof.Proof.Bits.TileLoop11
import proofs.«206219_g40982577938455_cont_8to1_b_1362_29_alg».proof.Proof.Bits.TileLoop12
import proofs.«206219_g40982577938455_cont_8to1_b_1362_29_alg».proof.Proof.Bits.TileLoop13
import proofs.«206219_g40982577938455_cont_8to1_b_1362_29_alg».proof.Proof.Bits.TileLoop14
import proofs.«206219_g40982577938455_cont_8to1_b_1362_29_alg».proof.Proof.Bits.TileLoop15
import proofs.«206219_g40982577938455_cont_8to1_b_1362_29_alg».proof.Proof.Bits.TileLoop16
import proofs.«206219_g40982577938455_cont_8to1_b_1362_29_alg».proof.Proof.Bits.TileLoop17
import proofs.«206219_g40982577938455_cont_8to1_b_1362_29_alg».proof.Proof.Bits.TileLoop18

noncomputable section

namespace Cert.Kernel.TileBody

open Cert.Kernel Cert.Kernel.Gen Cert.Kernel.Setup

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (d : Dev nD) (L : grid2.Coords)

variable [FloatOps F]

theorem trips_t1 : Scf.trips k2_t1_loop.lb k2_t1_loop.ub k2_t1_loop.st = 32 := by decide
theorem trips_t2 : Scf.trips k2_t2_loop.lb k2_t2_loop.ub k2_t2_loop.st = 32 := by decide
theorem trips_t3 : Scf.trips k2_t3_loop.lb k2_t3_loop.ub k2_t3_loop.st = 32 := by decide
theorem trips_t4 : Scf.trips k2_t4_loop.lb k2_t4_loop.ub k2_t4_loop.st = 32 := by decide
theorem trips_t5 : Scf.trips k2_t5_loop.lb k2_t5_loop.ub k2_t5_loop.st = 32 := by decide
theorem trips_t6 : Scf.trips k2_t6_loop.lb k2_t6_loop.ub k2_t6_loop.st = 32 := by decide
theorem trips_t7 : Scf.trips k2_t7_loop.lb k2_t7_loop.ub k2_t7_loop.st = 32 := by decide
theorem trips_t8 : Scf.trips k2_t8_loop.lb k2_t8_loop.ub k2_t8_loop.st = 32 := by decide
theorem trips_t9 : Scf.trips k2_t9_loop.lb k2_t9_loop.ub k2_t9_loop.st = 32 := by decide
theorem trips_t10 : Scf.trips k2_t10_loop.lb k2_t10_loop.ub k2_t10_loop.st = 32 := by decide
theorem trips_t11 : Scf.trips k2_t11_loop.lb k2_t11_loop.ub k2_t11_loop.st = 32 := by decide
theorem trips_t12 : Scf.trips k2_t12_loop.lb k2_t12_loop.ub k2_t12_loop.st = 32 := by decide
theorem trips_t13 : Scf.trips k2_t13_loop.lb k2_t13_loop.ub k2_t13_loop.st = 32 := by decide
theorem trips_t14 : Scf.trips k2_t14_loop.lb k2_t14_loop.ub k2_t14_loop.st = 32 := by decide
theorem trips_t15 : Scf.trips k2_t15_loop.lb k2_t15_loop.ub k2_t15_loop.st = 32 := by decide
theorem trips_t16 : Scf.trips k2_t16_loop.lb k2_t16_loop.ub k2_t16_loop.st = 32 := by decide
theorem trips_t17 : Scf.trips k2_t17_loop.lb k2_t17_loop.ub k2_t17_loop.st = 32 := by decide
theorem trips_t18 : Scf.trips k2_t18_loop.lb k2_t18_loop.ub k2_t18_loop.st = 32 := by decide

set_option maxHeartbeats 0 in
theorem tile_body_of (hLE : LandsE m d L) (hLX0 : LandsX0 m d L) (hLX1 : LandsX1 m d L) (hOK0 : OutOk0 m d L) (hOK1 : OutOk1 m d L)
    (O : CellTallies nD τ sig (HIx 1)) (W : Waits sig (HIx 1)) (hO : ∀ g, O g none = 0) :
    iprop(levAts (K (F := F)).L (K (F := F)).lev ∗ emp ∗ tileGo m d L
        ∗ scopedBufs (thr d L) ∗ scopedSems0 (thr d L) ∗ owes (thr d L) O W)
      ⊢ wp frame (wpE (defs₀ (F := F)) 𝒱₀ (thr d L) none) Set.univ
          (cc2_k L xW (Memref.isWhole_whole _) eW (Memref.isWhole_whole _) oW (Memref.isWhole_whole _)
            sA (Memref.isWhole_whole _) sB (Memref.isWhole_whole _) cc2_scratch2 cc2_scratch3 cc2_scoped0)
          fun _ => iprop(tileTd m d L ∗ scopedBufs (thr d L) ∗ scopedSems0 (thr d L)
            ∗ ∃ W', ⌜∀ p ∈ W', p ∈ W ∨ p.2 = none⌝ ∗ owes (thr d L) O W') := by
  simp only [cc2_k_eq_skeleton]; unfold cc2_k_skel
  rw [(K (F := F)).scopedBufs_V facts d (cV L) (jV L), SparseCore.Cfg.scopedSems0_V (Val := Elt F) d (cV L) (jV L), ownSems0_V, ownBufs_V]
  unfold tileGo oGo
  iintro ⟨#Hlv, -, ⟨Hx, He, Ho0, Ho1, Ho2, Ho3, Ho4, Ho5, Ho6, Ho7, Ho8, Ho9, Ho10, Ho11, Ho12, Ho13, Ho14, Ho15⟩,
    ⟨⟨%fa, Ha⟩, ⟨%fb, Hb⟩, Hbufs⟩, ⟨⟨Hs9, Hs10, Hs11, Hs12, Hs13⟩, Hsems⟩, HO⟩
  icases Ho0 with ⟨%fo0, Ho0⟩; icases Ho1 with ⟨%fo1, Ho1⟩; icases Ho2 with ⟨%fo2, Ho2⟩; icases Ho3 with ⟨%fo3, Ho3⟩
  icases Ho4 with ⟨%fo4, Ho4⟩; icases Ho5 with ⟨%fo5, Ho5⟩; icases Ho6 with ⟨%fo6, Ho6⟩; icases Ho7 with ⟨%fo7, Ho7⟩
  icases Ho8 with ⟨%fo8, Ho8⟩; icases Ho9 with ⟨%fo9, Ho9⟩; icases Ho10 with ⟨%fo10, Ho10⟩; icases Ho11 with ⟨%fo11, Ho11⟩
  icases Ho12 with ⟨%fo12, Ho12⟩; icases Ho13 with ⟨%fo13, Ho13⟩; icases Ho14 with ⟨%fo14, Ho14⟩; icases Ho15 with ⟨%fo15, Ho15⟩
  ihave Ho0' := (Entails.of_eq (pts_o0 (F := F) d L fo0).symm) $$ Ho0
  ihave Ho1' := (Entails.of_eq (pts_o1 (F := F) d L fo1).symm) $$ Ho1
  ihave Ho2' := (Entails.of_eq (pts_o2 (F := F) d L fo2).symm) $$ Ho2
  ihave Ho3' := (Entails.of_eq (pts_o3 (F := F) d L fo3).symm) $$ Ho3
  ihave Ho4' := (Entails.of_eq (pts_o4 (F := F) d L fo4).symm) $$ Ho4
  ihave Ho5' := (Entails.of_eq (pts_o5 (F := F) d L fo5).symm) $$ Ho5
  ihave Ho6' := (Entails.of_eq (pts_o6 (F := F) d L fo6).symm) $$ Ho6
  ihave Ho7' := (Entails.of_eq (pts_o7 (F := F) d L fo7).symm) $$ Ho7
  ihave Ho8' := (Entails.of_eq (pts_o8 (F := F) d L fo8).symm) $$ Ho8
  ihave Ho9' := (Entails.of_eq (pts_o9 (F := F) d L fo9).symm) $$ Ho9
  ihave Ho10' := (Entails.of_eq (pts_o10 (F := F) d L fo10).symm) $$ Ho10
  ihave Ho11' := (Entails.of_eq (pts_o11 (F := F) d L fo11).symm) $$ Ho11
  ihave Ho12' := (Entails.of_eq (pts_o12 (F := F) d L fo12).symm) $$ Ho12
  ihave Ho13' := (Entails.of_eq (pts_o13 (F := F) d L fo13).symm) $$ Ho13
  ihave Ho14' := (Entails.of_eq (pts_o14 (F := F) d L fo14).symm) $$ Ho14
  ihave Ho15' := (Entails.of_eq (pts_o15 (F := F) d L fo15).symm) $$ Ho15
  ihave Hmw := ((K (F := F)).mayWaits_none (thr := thr d L) hO) $$ Hlv
  ihave Hx' := (Entails.of_eq (pts_x (F := F) d L _ _).symm) $$ Hx
  ihave He' := (Entails.of_eq (pts_e (F := F) d L _ _).symm) $$ He
  ihave Ha2 := (Entails.of_eq (ptsA_slots (F := F) d L fa)) $$ Ha
  icases Ha2 with ⟨Ha0, Ha1⟩
  ihave Hb2 := (Entails.of_eq (ptsB_slots (F := F) d L fb)) $$ Hb
  icases Hb2 with ⟨Hb0, Hb1⟩

  sl_exec
  ihave HA := (pts_gen (F := F) (fun A => RowFill.AOK (Val := Elt F) (sA : Memref sig .scVector .vmem S2x32x512 .f32).view 0 A (eRows m d L)) _ (hLE _ _)) $$ Ha0
  icases HA with ⟨%Ae, Ha0, %hAe⟩
  sl_for (invFill0 d L 128 Ae fb) $$ [Ha0 Hb0]
  case region => intro k acc; exact loop01 (F := F) d L Ae fb k acc
  · unfold invFill0
    isplitl [Ha0]; · iexact Ha0
    iexists _; isplitl [Hb0]; · iexact Hb0
    ipureintro; exact RowFill.Filled.zero _ _ _ _ _
  iintro %_ HI
  unfold invFill0
  icases HI with ⟨Ha0, %h1, Hb0, %hF1⟩
  rw [trips_t1] at hF1
  have hEa : RowFill.HHalf (Val := Elt F) (sB : Memref sig .scVector .vmem S2x32x4x256 .f32).view 0 128 h1 (eRows m d L) := RowFill.HHalf.of_fill (Val := Elt F) (sA : Memref sig .scVector .vmem S2x32x512 .f32).view (sB : Memref sig .scVector .vmem S2x32x4x256 .f32).view 0 128 Ae fb h1 (eRows m d L) hF1 hAe
  sl_exec
  sl_for (invCopy d L h1 fb) $$ [Hb0 Hb1]
  case region => intro k acc; exact loop02 (F := F) d L h1 fb k acc
  · unfold invCopy
    isplitl [Hb0]; · iexact Hb0
    iexists _; isplitl [Hb1]; · iexact Hb1
    ipureintro; exact RowFill.Filled.zero _ _ _ _ _
  iintro %_ HI
  unfold invCopy
  icases HI with ⟨Hb0, %h2, Hb1, %hF2⟩
  rw [trips_t2] at hF2
  have hEb : RowFill.HHalf (Val := Elt F) (sB : Memref sig .scVector .vmem S2x32x4x256 .f32).view 1 128 h2 (eRows m d L) := RowFill.HHalf.of_copy (Val := Elt F) (sB : Memref sig .scVector .vmem S2x32x4x256 .f32).view h1 fb h2 (eRows m d L) hF2 hEa
  sl_exec
  -- batch 0
  ihave HA := (pts_gen (F := F) (fun A => RowFill.AOK (Val := Elt F) (sA : Memref sig .scVector .vmem S2x32x512 .f32).view 0 A (xRows m d L 0)) _ (hLX0 0 _ _ (k2_off130_eq L) _ _)) $$ Ha0
  icases HA with ⟨%A0, Ha0, %hA0⟩
  ihave HB := (pts_gen (F := F) (fun G => RowFill.HHalf (Val := Elt F) (sB : Memref sig .scVector .vmem S2x32x4x256 .f32).view 0 128 G (eRows m d L)) _ hEa) $$ Hb0
  icases HB with ⟨%G0, Hb0, %hG0⟩
  sl_for (invFill0 d L 0 A0 G0) $$ [Ha0 Hb0]
  case region => intro k acc; exact loop03 (F := F) d L A0 G0 k acc
  · unfold invFill0
    isplitl [Ha0]; · iexact Ha0
    iexists _; isplitl [Hb0]; · iexact Hb0
    ipureintro; exact RowFill.Filled.zero _ _ _ _ _
  iintro %_ HI
  unfold invFill0
  icases HI with ⟨Ha0, %H0, Hb0, %hH0⟩
  rw [trips_t3] at hH0
  have hX0 : RowFill.HHalf (Val := Elt F) (sB : Memref sig .scVector .vmem S2x32x4x256 .f32).view 0 0 H0 (xRows m d L 0) := RowFill.HHalf.of_fill (Val := Elt F) (sA : Memref sig .scVector .vmem S2x32x512 .f32).view (sB : Memref sig .scVector .vmem S2x32x4x256 .f32).view 0 0 A0 G0 H0 (xRows m d L 0) hH0 hA0
  have hE0 : RowFill.HHalf (Val := Elt F) (sB : Memref sig .scVector .vmem S2x32x4x256 .f32).view 0 128 H0 (eRows m d L) := RowFill.HHalf.of_fill_other (Val := Elt F) (sB : Memref sig .scVector .vmem S2x32x4x256 .f32).view 0 0 (RowFill.srcG (Val := Elt F) (sA : Memref sig .scVector .vmem S2x32x512 .f32).view A0 0 0) G0 H0 0 128 (eRows m d L) hH0 hG0 (.inr (.inr (by decide)))
  sl_exec
  -- batch 1
  ihave HA := (pts_gen (F := F) (fun A => RowFill.AOK (Val := Elt F) (sA : Memref sig .scVector .vmem S2x32x512 .f32).view 1 A (xRows m d L 1)) _ (hLX1 1 _ _ (k2_off131_eq L) _ _)) $$ Ha1
  icases HA with ⟨%A1, Ha1, %hA1⟩
  ihave HB := (pts_gen (F := F) (fun G => RowFill.HHalf (Val := Elt F) (sB : Memref sig .scVector .vmem S2x32x4x256 .f32).view 1 128 G (eRows m d L)) _ hEb) $$ Hb1
  icases HB with ⟨%G1, Hb1, %hG1⟩
  sl_for (invFill1 d L 0 A1 G1) $$ [Ha1 Hb1]
  case region => intro k acc; exact loop04 (F := F) d L A1 G1 k acc
  · unfold invFill1
    isplitl [Ha1]; · iexact Ha1
    iexists _; isplitl [Hb1]; · iexact Hb1
    ipureintro; exact RowFill.Filled.zero _ _ _ _ _
  iintro %_ HI
  unfold invFill1
  icases HI with ⟨Ha1, %H1, Hb1, %hH1⟩
  rw [trips_t4] at hH1
  have hX1 : RowFill.HHalf (Val := Elt F) (sB : Memref sig .scVector .vmem S2x32x4x256 .f32).view 1 0 H1 (xRows m d L 1) := RowFill.HHalf.of_fill (Val := Elt F) (sA : Memref sig .scVector .vmem S2x32x512 .f32).view (sB : Memref sig .scVector .vmem S2x32x4x256 .f32).view 1 0 A1 G1 H1 (xRows m d L 1) hH1 hA1
  have hE1 : RowFill.HHalf (Val := Elt F) (sB : Memref sig .scVector .vmem S2x32x4x256 .f32).view 1 128 H1 (eRows m d L) := RowFill.HHalf.of_fill_other (Val := Elt F) (sB : Memref sig .scVector .vmem S2x32x4x256 .f32).view 1 0 (RowFill.srcG (Val := Elt F) (sA : Memref sig .scVector .vmem S2x32x512 .f32).view A1 1 0) G1 H1 1 128 (eRows m d L) hH1 hG1 (.inr (.inr (by decide)))
  sl_exec
  -- batch 2
  ihave HA := (pts_gen (F := F) (fun A => RowFill.AOK (Val := Elt F) (sA : Memref sig .scVector .vmem S2x32x512 .f32).view 0 A (xRows m d L 2)) _ (hLX0 2 _ _ (k2_off197_eq L) _ _)) $$ Ha0
  icases HA with ⟨%A2, Ha0, %hA2⟩
  ihave HB := (pts_gen (F := F) (fun G => RowFill.HHalf (Val := Elt F) (sB : Memref sig .scVector .vmem S2x32x4x256 .f32).view 0 128 G (eRows m d L)) _ hE0) $$ Hb0
  icases HB with ⟨%G2, Hb0, %hG2⟩
  sl_for (invFill0 d L 0 A2 G2) $$ [Ha0 Hb0]
  case region => intro k acc; exact loop05 (F := F) d L A2 G2 k acc
  · unfold invFill0
    isplitl [Ha0]; · iexact Ha0
    iexists _; isplitl [Hb0]; · iexact Hb0
    ipureintro; exact RowFill.Filled.zero _ _ _ _ _
  iintro %_ HI
  unfold invFill0
  icases HI with ⟨Ha0, %H2, Hb0, %hH2⟩
  rw [trips_t5] at hH2
  have hX2 : RowFill.HHalf (Val := Elt F) (sB : Memref sig .scVector .vmem S2x32x4x256 .f32).view 0 0 H2 (xRows m d L 2) := RowFill.HHalf.of_fill (Val := Elt F) (sA : Memref sig .scVector .vmem S2x32x512 .f32).view (sB : Memref sig .scVector .vmem S2x32x4x256 .f32).view 0 0 A2 G2 H2 (xRows m d L 2) hH2 hA2
  have hE2 : RowFill.HHalf (Val := Elt F) (sB : Memref sig .scVector .vmem S2x32x4x256 .f32).view 0 128 H2 (eRows m d L) := RowFill.HHalf.of_fill_other (Val := Elt F) (sB : Memref sig .scVector .vmem S2x32x4x256 .f32).view 0 0 (RowFill.srcG (Val := Elt F) (sA : Memref sig .scVector .vmem S2x32x512 .f32).view A2 0 0) G2 H2 0 128 (eRows m d L) hH2 hG2 (.inr (.inr (by decide)))
  sl_exec
  -- batch 3
  ihave HA := (pts_gen (F := F) (fun A => RowFill.AOK (Val := Elt F) (sA : Memref sig .scVector .vmem S2x32x512 .f32).view 1 A (xRows m d L 3)) _ (hLX1 3 _ _ (k2_off263_eq L) _ _)) $$ Ha1
  icases HA with ⟨%A3, Ha1, %hA3⟩
  ihave HB := (pts_gen (F := F) (fun G => RowFill.HHalf (Val := Elt F) (sB : Memref sig .scVector .vmem S2x32x4x256 .f32).view 1 128 G (eRows m d L)) _ hE1) $$ Hb1
  icases HB with ⟨%G3, Hb1, %hG3⟩
  sl_for (invFill1 d L 0 A3 G3) $$ [Ha1 Hb1]
  case region => intro k acc; exact loop06 (F := F) d L A3 G3 k acc
  · unfold invFill1
    isplitl [Ha1]; · iexact Ha1
    iexists _; isplitl [Hb1]; · iexact Hb1
    ipureintro; exact RowFill.Filled.zero _ _ _ _ _
  iintro %_ HI
  unfold invFill1
  icases HI with ⟨Ha1, %H3, Hb1, %hH3⟩
  rw [trips_t6] at hH3
  have hX3 : RowFill.HHalf (Val := Elt F) (sB : Memref sig .scVector .vmem S2x32x4x256 .f32).view 1 0 H3 (xRows m d L 3) := RowFill.HHalf.of_fill (Val := Elt F) (sA : Memref sig .scVector .vmem S2x32x512 .f32).view (sB : Memref sig .scVector .vmem S2x32x4x256 .f32).view 1 0 A3 G3 H3 (xRows m d L 3) hH3 hA3
  have hE3 : RowFill.HHalf (Val := Elt F) (sB : Memref sig .scVector .vmem S2x32x4x256 .f32).view 1 128 H3 (eRows m d L) := RowFill.HHalf.of_fill_other (Val := Elt F) (sB : Memref sig .scVector .vmem S2x32x4x256 .f32).view 1 0 (RowFill.srcG (Val := Elt F) (sA : Memref sig .scVector .vmem S2x32x512 .f32).view A3 1 0) G3 H3 1 128 (eRows m d L) hH3 hG3 (.inr (.inr (by decide)))
  sl_exec
  -- batch 4
  ihave HA := (pts_gen (F := F) (fun A => RowFill.AOK (Val := Elt F) (sA : Memref sig .scVector .vmem S2x32x512 .f32).view 0 A (xRows m d L 4)) _ (hLX0 4 _ _ (k2_off329_eq L) _ _)) $$ Ha0
  icases HA with ⟨%A4, Ha0, %hA4⟩
  ihave HB := (pts_gen (F := F) (fun G => RowFill.HHalf (Val := Elt F) (sB : Memref sig .scVector .vmem S2x32x4x256 .f32).view 0 128 G (eRows m d L)) _ hE2) $$ Hb0
  icases HB with ⟨%G4, Hb0, %hG4⟩
  sl_for (invFill0 d L 0 A4 G4) $$ [Ha0 Hb0]
  case region => intro k acc; exact loop07 (F := F) d L A4 G4 k acc
  · unfold invFill0
    isplitl [Ha0]; · iexact Ha0
    iexists _; isplitl [Hb0]; · iexact Hb0
    ipureintro; exact RowFill.Filled.zero _ _ _ _ _
  iintro %_ HI
  unfold invFill0
  icases HI with ⟨Ha0, %H4, Hb0, %hH4⟩
  rw [trips_t7] at hH4
  have hX4 : RowFill.HHalf (Val := Elt F) (sB : Memref sig .scVector .vmem S2x32x4x256 .f32).view 0 0 H4 (xRows m d L 4) := RowFill.HHalf.of_fill (Val := Elt F) (sA : Memref sig .scVector .vmem S2x32x512 .f32).view (sB : Memref sig .scVector .vmem S2x32x4x256 .f32).view 0 0 A4 G4 H4 (xRows m d L 4) hH4 hA4
  have hE4 : RowFill.HHalf (Val := Elt F) (sB : Memref sig .scVector .vmem S2x32x4x256 .f32).view 0 128 H4 (eRows m d L) := RowFill.HHalf.of_fill_other (Val := Elt F) (sB : Memref sig .scVector .vmem S2x32x4x256 .f32).view 0 0 (RowFill.srcG (Val := Elt F) (sA : Memref sig .scVector .vmem S2x32x512 .f32).view A4 0 0) G4 H4 0 128 (eRows m d L) hH4 hG4 (.inr (.inr (by decide)))
  sl_exec
  -- batch 5
  ihave HA := (pts_gen (F := F) (fun A => RowFill.AOK (Val := Elt F) (sA : Memref sig .scVector .vmem S2x32x512 .f32).view 1 A (xRows m d L 5)) _ (hLX1 5 _ _ (k2_off395_eq L) _ _)) $$ Ha1
  icases HA with ⟨%A5, Ha1, %hA5⟩
  ihave HB := (pts_gen (F := F) (fun G => RowFill.HHalf (Val := Elt F) (sB : Memref sig .scVector .vmem S2x32x4x256 .f32).view 1 128 G (eRows m d L)) _ hE3) $$ Hb1
  icases HB with ⟨%G5, Hb1, %hG5⟩
  sl_for (invFill1 d L 0 A5 G5) $$ [Ha1 Hb1]
  case region => intro k acc; exact loop08 (F := F) d L A5 G5 k acc
  · unfold invFill1
    isplitl [Ha1]; · iexact Ha1
    iexists _; isplitl [Hb1]; · iexact Hb1
    ipureintro; exact RowFill.Filled.zero _ _ _ _ _
  iintro %_ HI
  unfold invFill1
  icases HI with ⟨Ha1, %H5, Hb1, %hH5⟩
  rw [trips_t8] at hH5
  have hX5 : RowFill.HHalf (Val := Elt F) (sB : Memref sig .scVector .vmem S2x32x4x256 .f32).view 1 0 H5 (xRows m d L 5) := RowFill.HHalf.of_fill (Val := Elt F) (sA : Memref sig .scVector .vmem S2x32x512 .f32).view (sB : Memref sig .scVector .vmem S2x32x4x256 .f32).view 1 0 A5 G5 H5 (xRows m d L 5) hH5 hA5
  have hE5 : RowFill.HHalf (Val := Elt F) (sB : Memref sig .scVector .vmem S2x32x4x256 .f32).view 1 128 H5 (eRows m d L) := RowFill.HHalf.of_fill_other (Val := Elt F) (sB : Memref sig .scVector .vmem S2x32x4x256 .f32).view 1 0 (RowFill.srcG (Val := Elt F) (sA : Memref sig .scVector .vmem S2x32x512 .f32).view A5 1 0) G5 H5 1 128 (eRows m d L) hH5 hG5 (.inr (.inr (by decide)))
  sl_exec
  -- batch 6
  ihave HA := (pts_gen (F := F) (fun A => RowFill.AOK (Val := Elt F) (sA : Memref sig .scVector .vmem S2x32x512 .f32).view 0 A (xRows m d L 6)) _ (hLX0 6 _ _ (k2_off461_eq L) _ _)) $$ Ha0
  icases HA with ⟨%A6, Ha0, %hA6⟩
  ihave HB := (pts_gen (F := F) (fun G => RowFill.HHalf (Val := Elt F) (sB : Memref sig .scVector .vmem S2x32x4x256 .f32).view 0 128 G (eRows m d L)) _ hE4) $$ Hb0
  icases HB with ⟨%G6, Hb0, %hG6⟩
  sl_for (invFill0 d L 0 A6 G6) $$ [Ha0 Hb0]
  case region => intro k acc; exact loop09 (F := F) d L A6 G6 k acc
  · unfold invFill0
    isplitl [Ha0]; · iexact Ha0
    iexists _; isplitl [Hb0]; · iexact Hb0
    ipureintro; exact RowFill.Filled.zero _ _ _ _ _
  iintro %_ HI
  unfold invFill0
  icases HI with ⟨Ha0, %H6, Hb0, %hH6⟩
  rw [trips_t9] at hH6
  have hX6 : RowFill.HHalf (Val := Elt F) (sB : Memref sig .scVector .vmem S2x32x4x256 .f32).view 0 0 H6 (xRows m d L 6) := RowFill.HHalf.of_fill (Val := Elt F) (sA : Memref sig .scVector .vmem S2x32x512 .f32).view (sB : Memref sig .scVector .vmem S2x32x4x256 .f32).view 0 0 A6 G6 H6 (xRows m d L 6) hH6 hA6
  have hE6 : RowFill.HHalf (Val := Elt F) (sB : Memref sig .scVector .vmem S2x32x4x256 .f32).view 0 128 H6 (eRows m d L) := RowFill.HHalf.of_fill_other (Val := Elt F) (sB : Memref sig .scVector .vmem S2x32x4x256 .f32).view 0 0 (RowFill.srcG (Val := Elt F) (sA : Memref sig .scVector .vmem S2x32x512 .f32).view A6 0 0) G6 H6 0 128 (eRows m d L) hH6 hG6 (.inr (.inr (by decide)))
  sl_exec
  -- batch 7
  ihave HA := (pts_gen (F := F) (fun A => RowFill.AOK (Val := Elt F) (sA : Memref sig .scVector .vmem S2x32x512 .f32).view 1 A (xRows m d L 7)) _ (hLX1 7 _ _ (k2_off527_eq L) _ _)) $$ Ha1
  icases HA with ⟨%A7, Ha1, %hA7⟩
  ihave HB := (pts_gen (F := F) (fun G => RowFill.HHalf (Val := Elt F) (sB : Memref sig .scVector .vmem S2x32x4x256 .f32).view 1 128 G (eRows m d L)) _ hE5) $$ Hb1
  icases HB with ⟨%G7, Hb1, %hG7⟩
  sl_for (invFill1 d L 0 A7 G7) $$ [Ha1 Hb1]
  case region => intro k acc; exact loop10 (F := F) d L A7 G7 k acc
  · unfold invFill1
    isplitl [Ha1]; · iexact Ha1
    iexists _; isplitl [Hb1]; · iexact Hb1
    ipureintro; exact RowFill.Filled.zero _ _ _ _ _
  iintro %_ HI
  unfold invFill1
  icases HI with ⟨Ha1, %H7, Hb1, %hH7⟩
  rw [trips_t10] at hH7
  have hX7 : RowFill.HHalf (Val := Elt F) (sB : Memref sig .scVector .vmem S2x32x4x256 .f32).view 1 0 H7 (xRows m d L 7) := RowFill.HHalf.of_fill (Val := Elt F) (sA : Memref sig .scVector .vmem S2x32x512 .f32).view (sB : Memref sig .scVector .vmem S2x32x4x256 .f32).view 1 0 A7 G7 H7 (xRows m d L 7) hH7 hA7
  have hE7 : RowFill.HHalf (Val := Elt F) (sB : Memref sig .scVector .vmem S2x32x4x256 .f32).view 1 128 H7 (eRows m d L) := RowFill.HHalf.of_fill_other (Val := Elt F) (sB : Memref sig .scVector .vmem S2x32x4x256 .f32).view 1 0 (RowFill.srcG (Val := Elt F) (sA : Memref sig .scVector .vmem S2x32x512 .f32).view A7 1 0) G7 H7 1 128 (eRows m d L) hH7 hG7 (.inr (.inr (by decide)))
  sl_exec
  -- batch 8
  ihave HA := (pts_gen (F := F) (fun A => RowFill.AOK (Val := Elt F) (sA : Memref sig .scVector .vmem S2x32x512 .f32).view 0 A (xRows m d L 8)) _ (hLX0 8 _ _ (k2_off593_eq L) _ _)) $$ Ha0
  icases HA with ⟨%A8, Ha0, %hA8⟩
  ihave HB := (pts_gen (F := F) (fun G => RowFill.HHalf (Val := Elt F) (sB : Memref sig .scVector .vmem S2x32x4x256 .f32).view 0 128 G (eRows m d L)) _ hE6) $$ Hb0
  icases HB with ⟨%G8, Hb0, %hG8⟩
  sl_for (invFill0 d L 0 A8 G8) $$ [Ha0 Hb0]
  case region => intro k acc; exact loop11 (F := F) d L A8 G8 k acc
  · unfold invFill0
    isplitl [Ha0]; · iexact Ha0
    iexists _; isplitl [Hb0]; · iexact Hb0
    ipureintro; exact RowFill.Filled.zero _ _ _ _ _
  iintro %_ HI
  unfold invFill0
  icases HI with ⟨Ha0, %H8, Hb0, %hH8⟩
  rw [trips_t11] at hH8
  have hX8 : RowFill.HHalf (Val := Elt F) (sB : Memref sig .scVector .vmem S2x32x4x256 .f32).view 0 0 H8 (xRows m d L 8) := RowFill.HHalf.of_fill (Val := Elt F) (sA : Memref sig .scVector .vmem S2x32x512 .f32).view (sB : Memref sig .scVector .vmem S2x32x4x256 .f32).view 0 0 A8 G8 H8 (xRows m d L 8) hH8 hA8
  have hE8 : RowFill.HHalf (Val := Elt F) (sB : Memref sig .scVector .vmem S2x32x4x256 .f32).view 0 128 H8 (eRows m d L) := RowFill.HHalf.of_fill_other (Val := Elt F) (sB : Memref sig .scVector .vmem S2x32x4x256 .f32).view 0 0 (RowFill.srcG (Val := Elt F) (sA : Memref sig .scVector .vmem S2x32x512 .f32).view A8 0 0) G8 H8 0 128 (eRows m d L) hH8 hG8 (.inr (.inr (by decide)))
  sl_exec
  -- batch 9
  ihave HA := (pts_gen (F := F) (fun A => RowFill.AOK (Val := Elt F) (sA : Memref sig .scVector .vmem S2x32x512 .f32).view 1 A (xRows m d L 9)) _ (hLX1 9 _ _ (k2_off659_eq L) _ _)) $$ Ha1
  icases HA with ⟨%A9, Ha1, %hA9⟩
  ihave HB := (pts_gen (F := F) (fun G => RowFill.HHalf (Val := Elt F) (sB : Memref sig .scVector .vmem S2x32x4x256 .f32).view 1 128 G (eRows m d L)) _ hE7) $$ Hb1
  icases HB with ⟨%G9, Hb1, %hG9⟩
  sl_for (invFill1 d L 0 A9 G9) $$ [Ha1 Hb1]
  case region => intro k acc; exact loop12 (F := F) d L A9 G9 k acc
  · unfold invFill1
    isplitl [Ha1]; · iexact Ha1
    iexists _; isplitl [Hb1]; · iexact Hb1
    ipureintro; exact RowFill.Filled.zero _ _ _ _ _
  iintro %_ HI
  unfold invFill1
  icases HI with ⟨Ha1, %H9, Hb1, %hH9⟩
  rw [trips_t12] at hH9
  have hX9 : RowFill.HHalf (Val := Elt F) (sB : Memref sig .scVector .vmem S2x32x4x256 .f32).view 1 0 H9 (xRows m d L 9) := RowFill.HHalf.of_fill (Val := Elt F) (sA : Memref sig .scVector .vmem S2x32x512 .f32).view (sB : Memref sig .scVector .vmem S2x32x4x256 .f32).view 1 0 A9 G9 H9 (xRows m d L 9) hH9 hA9
  have hE9 : RowFill.HHalf (Val := Elt F) (sB : Memref sig .scVector .vmem S2x32x4x256 .f32).view 1 128 H9 (eRows m d L) := RowFill.HHalf.of_fill_other (Val := Elt F) (sB : Memref sig .scVector .vmem S2x32x4x256 .f32).view 1 0 (RowFill.srcG (Val := Elt F) (sA : Memref sig .scVector .vmem S2x32x512 .f32).view A9 1 0) G9 H9 1 128 (eRows m d L) hH9 hG9 (.inr (.inr (by decide)))
  sl_exec
  -- batch 10
  ihave HA := (pts_gen (F := F) (fun A => RowFill.AOK (Val := Elt F) (sA : Memref sig .scVector .vmem S2x32x512 .f32).view 0 A (xRows m d L 10)) _ (hLX0 10 _ _ (k2_off725_eq L) _ _)) $$ Ha0
  icases HA with ⟨%A10, Ha0, %hA10⟩
  ihave HB := (pts_gen (F := F) (fun G => RowFill.HHalf (Val := Elt F) (sB : Memref sig .scVector .vmem S2x32x4x256 .f32).view 0 128 G (eRows m d L)) _ hE8) $$ Hb0
  icases HB with ⟨%G10, Hb0, %hG10⟩
  sl_for (invFill0 d L 0 A10 G10) $$ [Ha0 Hb0]
  case region => intro k acc; exact loop13 (F := F) d L A10 G10 k acc
  · unfold invFill0
    isplitl [Ha0]; · iexact Ha0
    iexists _; isplitl [Hb0]; · iexact Hb0
    ipureintro; exact RowFill.Filled.zero _ _ _ _ _
  iintro %_ HI
  unfold invFill0
  icases HI with ⟨Ha0, %H10, Hb0, %hH10⟩
  rw [trips_t13] at hH10
  have hX10 : RowFill.HHalf (Val := Elt F) (sB : Memref sig .scVector .vmem S2x32x4x256 .f32).view 0 0 H10 (xRows m d L 10) := RowFill.HHalf.of_fill (Val := Elt F) (sA : Memref sig .scVector .vmem S2x32x512 .f32).view (sB : Memref sig .scVector .vmem S2x32x4x256 .f32).view 0 0 A10 G10 H10 (xRows m d L 10) hH10 hA10
  have hE10 : RowFill.HHalf (Val := Elt F) (sB : Memref sig .scVector .vmem S2x32x4x256 .f32).view 0 128 H10 (eRows m d L) := RowFill.HHalf.of_fill_other (Val := Elt F) (sB : Memref sig .scVector .vmem S2x32x4x256 .f32).view 0 0 (RowFill.srcG (Val := Elt F) (sA : Memref sig .scVector .vmem S2x32x512 .f32).view A10 0 0) G10 H10 0 128 (eRows m d L) hH10 hG10 (.inr (.inr (by decide)))
  sl_exec
  -- batch 11
  ihave HA := (pts_gen (F := F) (fun A => RowFill.AOK (Val := Elt F) (sA : Memref sig .scVector .vmem S2x32x512 .f32).view 1 A (xRows m d L 11)) _ (hLX1 11 _ _ (k2_off791_eq L) _ _)) $$ Ha1
  icases HA with ⟨%A11, Ha1, %hA11⟩
  ihave HB := (pts_gen (F := F) (fun G => RowFill.HHalf (Val := Elt F) (sB : Memref sig .scVector .vmem S2x32x4x256 .f32).view 1 128 G (eRows m d L)) _ hE9) $$ Hb1
  icases HB with ⟨%G11, Hb1, %hG11⟩
  sl_for (invFill1 d L 0 A11 G11) $$ [Ha1 Hb1]
  case region => intro k acc; exact loop14 (F := F) d L A11 G11 k acc
  · unfold invFill1
    isplitl [Ha1]; · iexact Ha1
    iexists _; isplitl [Hb1]; · iexact Hb1
    ipureintro; exact RowFill.Filled.zero _ _ _ _ _
  iintro %_ HI
  unfold invFill1
  icases HI with ⟨Ha1, %H11, Hb1, %hH11⟩
  rw [trips_t14] at hH11
  have hX11 : RowFill.HHalf (Val := Elt F) (sB : Memref sig .scVector .vmem S2x32x4x256 .f32).view 1 0 H11 (xRows m d L 11) := RowFill.HHalf.of_fill (Val := Elt F) (sA : Memref sig .scVector .vmem S2x32x512 .f32).view (sB : Memref sig .scVector .vmem S2x32x4x256 .f32).view 1 0 A11 G11 H11 (xRows m d L 11) hH11 hA11
  have hE11 : RowFill.HHalf (Val := Elt F) (sB : Memref sig .scVector .vmem S2x32x4x256 .f32).view 1 128 H11 (eRows m d L) := RowFill.HHalf.of_fill_other (Val := Elt F) (sB : Memref sig .scVector .vmem S2x32x4x256 .f32).view 1 0 (RowFill.srcG (Val := Elt F) (sA : Memref sig .scVector .vmem S2x32x512 .f32).view A11 1 0) G11 H11 1 128 (eRows m d L) hH11 hG11 (.inr (.inr (by decide)))
  sl_exec
  -- batch 12
  ihave HA := (pts_gen (F := F) (fun A => RowFill.AOK (Val := Elt F) (sA : Memref sig .scVector .vmem S2x32x512 .f32).view 0 A (xRows m d L 12)) _ (hLX0 12 _ _ (k2_off857_eq L) _ _)) $$ Ha0
  icases HA with ⟨%A12, Ha0, %hA12⟩
  ihave HB := (pts_gen (F := F) (fun G => RowFill.HHalf (Val := Elt F) (sB : Memref sig .scVector .vmem S2x32x4x256 .f32).view 0 128 G (eRows m d L)) _ hE10) $$ Hb0
  icases HB with ⟨%G12, Hb0, %hG12⟩
  sl_for (invFill0 d L 0 A12 G12) $$ [Ha0 Hb0]
  case region => intro k acc; exact loop15 (F := F) d L A12 G12 k acc
  · unfold invFill0
    isplitl [Ha0]; · iexact Ha0
    iexists _; isplitl [Hb0]; · iexact Hb0
    ipureintro; exact RowFill.Filled.zero _ _ _ _ _
  iintro %_ HI
  unfold invFill0
  icases HI with ⟨Ha0, %H12, Hb0, %hH12⟩
  rw [trips_t15] at hH12
  have hX12 : RowFill.HHalf (Val := Elt F) (sB : Memref sig .scVector .vmem S2x32x4x256 .f32).view 0 0 H12 (xRows m d L 12) := RowFill.HHalf.of_fill (Val := Elt F) (sA : Memref sig .scVector .vmem S2x32x512 .f32).view (sB : Memref sig .scVector .vmem S2x32x4x256 .f32).view 0 0 A12 G12 H12 (xRows m d L 12) hH12 hA12
  have hE12 : RowFill.HHalf (Val := Elt F) (sB : Memref sig .scVector .vmem S2x32x4x256 .f32).view 0 128 H12 (eRows m d L) := RowFill.HHalf.of_fill_other (Val := Elt F) (sB : Memref sig .scVector .vmem S2x32x4x256 .f32).view 0 0 (RowFill.srcG (Val := Elt F) (sA : Memref sig .scVector .vmem S2x32x512 .f32).view A12 0 0) G12 H12 0 128 (eRows m d L) hH12 hG12 (.inr (.inr (by decide)))
  sl_exec
  -- batch 13
  ihave HA := (pts_gen (F := F) (fun A => RowFill.AOK (Val := Elt F) (sA : Memref sig .scVector .vmem S2x32x512 .f32).view 1 A (xRows m d L 13)) _ (hLX1 13 _ _ (k2_off923_eq L) _ _)) $$ Ha1
  icases HA with ⟨%A13, Ha1, %hA13⟩
  ihave HB := (pts_gen (F := F) (fun G => RowFill.HHalf (Val := Elt F) (sB : Memref sig .scVector .vmem S2x32x4x256 .f32).view 1 128 G (eRows m d L)) _ hE11) $$ Hb1
  icases HB with ⟨%G13, Hb1, %hG13⟩
  sl_for (invFill1 d L 0 A13 G13) $$ [Ha1 Hb1]
  case region => intro k acc; exact loop16 (F := F) d L A13 G13 k acc
  · unfold invFill1
    isplitl [Ha1]; · iexact Ha1
    iexists _; isplitl [Hb1]; · iexact Hb1
    ipureintro; exact RowFill.Filled.zero _ _ _ _ _
  iintro %_ HI
  unfold invFill1
  icases HI with ⟨Ha1, %H13, Hb1, %hH13⟩
  rw [trips_t16] at hH13
  have hX13 : RowFill.HHalf (Val := Elt F) (sB : Memref sig .scVector .vmem S2x32x4x256 .f32).view 1 0 H13 (xRows m d L 13) := RowFill.HHalf.of_fill (Val := Elt F) (sA : Memref sig .scVector .vmem S2x32x512 .f32).view (sB : Memref sig .scVector .vmem S2x32x4x256 .f32).view 1 0 A13 G13 H13 (xRows m d L 13) hH13 hA13
  have hE13 : RowFill.HHalf (Val := Elt F) (sB : Memref sig .scVector .vmem S2x32x4x256 .f32).view 1 128 H13 (eRows m d L) := RowFill.HHalf.of_fill_other (Val := Elt F) (sB : Memref sig .scVector .vmem S2x32x4x256 .f32).view 1 0 (RowFill.srcG (Val := Elt F) (sA : Memref sig .scVector .vmem S2x32x512 .f32).view A13 1 0) G13 H13 1 128 (eRows m d L) hH13 hG13 (.inr (.inr (by decide)))
  sl_exec
  -- batch 14
  ihave HA := (pts_gen (F := F) (fun A => RowFill.AOK (Val := Elt F) (sA : Memref sig .scVector .vmem S2x32x512 .f32).view 0 A (xRows m d L 14)) _ (hLX0 14 _ _ (k2_off989_eq L) _ _)) $$ Ha0
  icases HA with ⟨%A14, Ha0, %hA14⟩
  ihave HB := (pts_gen (F := F) (fun G => RowFill.HHalf (Val := Elt F) (sB : Memref sig .scVector .vmem S2x32x4x256 .f32).view 0 128 G (eRows m d L)) _ hE12) $$ Hb0
  icases HB with ⟨%G14, Hb0, %hG14⟩
  sl_for (invFill0 d L 0 A14 G14) $$ [Ha0 Hb0]
  case region => intro k acc; exact loop17 (F := F) d L A14 G14 k acc
  · unfold invFill0
    isplitl [Ha0]; · iexact Ha0
    iexists _; isplitl [Hb0]; · iexact Hb0
    ipureintro; exact RowFill.Filled.zero _ _ _ _ _
  iintro %_ HI
  unfold invFill0
  icases HI with ⟨Ha0, %H14, Hb0, %hH14⟩
  rw [trips_t17] at hH14
  have hX14 : RowFill.HHalf (Val := Elt F) (sB : Memref sig .scVector .vmem S2x32x4x256 .f32).view 0 0 H14 (xRows m d L 14) := RowFill.HHalf.of_fill (Val := Elt F) (sA : Memref sig .scVector .vmem S2x32x512 .f32).view (sB : Memref sig .scVector .vmem S2x32x4x256 .f32).view 0 0 A14 G14 H14 (xRows m d L 14) hH14 hA14
  have hE14 : RowFill.HHalf (Val := Elt F) (sB : Memref sig .scVector .vmem S2x32x4x256 .f32).view 0 128 H14 (eRows m d L) := RowFill.HHalf.of_fill_other (Val := Elt F) (sB : Memref sig .scVector .vmem S2x32x4x256 .f32).view 0 0 (RowFill.srcG (Val := Elt F) (sA : Memref sig .scVector .vmem S2x32x512 .f32).view A14 0 0) G14 H14 0 128 (eRows m d L) hH14 hG14 (.inr (.inr (by decide)))
  sl_exec
  -- batch 15
  ihave HA := (pts_gen (F := F) (fun A => RowFill.AOK (Val := Elt F) (sA : Memref sig .scVector .vmem S2x32x512 .f32).view 1 A (xRows m d L 15)) _ (hLX1 15 _ _ (k2_off1055_eq L) _ _)) $$ Ha1
  icases HA with ⟨%A15, Ha1, %hA15⟩
  ihave HB := (pts_gen (F := F) (fun G => RowFill.HHalf (Val := Elt F) (sB : Memref sig .scVector .vmem S2x32x4x256 .f32).view 1 128 G (eRows m d L)) _ hE13) $$ Hb1
  icases HB with ⟨%G15, Hb1, %hG15⟩
  sl_for (invFill1 d L 0 A15 G15) $$ [Ha1 Hb1]
  case region => intro k acc; exact loop18 (F := F) d L A15 G15 k acc
  · unfold invFill1
    isplitl [Ha1]; · iexact Ha1
    iexists _; isplitl [Hb1]; · iexact Hb1
    ipureintro; exact RowFill.Filled.zero _ _ _ _ _
  iintro %_ HI
  unfold invFill1
  icases HI with ⟨Ha1, %H15, Hb1, %hH15⟩
  rw [trips_t18] at hH15
  have hX15 : RowFill.HHalf (Val := Elt F) (sB : Memref sig .scVector .vmem S2x32x4x256 .f32).view 1 0 H15 (xRows m d L 15) := RowFill.HHalf.of_fill (Val := Elt F) (sA : Memref sig .scVector .vmem S2x32x512 .f32).view (sB : Memref sig .scVector .vmem S2x32x4x256 .f32).view 1 0 A15 G15 H15 (xRows m d L 15) hH15 hA15
  have hE15 : RowFill.HHalf (Val := Elt F) (sB : Memref sig .scVector .vmem S2x32x4x256 .f32).view 1 128 H15 (eRows m d L) := RowFill.HHalf.of_fill_other (Val := Elt F) (sB : Memref sig .scVector .vmem S2x32x4x256 .f32).view 1 0 (RowFill.srcG (Val := Elt F) (sA : Memref sig .scVector .vmem S2x32x512 .f32).view A15 1 0) G15 H15 1 128 (eRows m d L) hH15 hG15 (.inr (.inr (by decide)))
  sl_exec
  sl_step
  ihave Ho0'' := (Entails.of_eq (pointsTo_congr (hOK0 0 _ _ (k2_off196_eq L) H0 hX0 hE0 _))) $$ Ho0'
  ihave Ho1'' := (Entails.of_eq (pointsTo_congr (hOK1 1 _ _ (k2_off262_eq L) H1 hX1 hE1 _))) $$ Ho1'
  ihave Ho2'' := (Entails.of_eq (pointsTo_congr (hOK0 2 _ _ (k2_off328_eq L) H2 hX2 hE2 _))) $$ Ho2'
  ihave Ho3'' := (Entails.of_eq (pointsTo_congr (hOK1 3 _ _ (k2_off394_eq L) H3 hX3 hE3 _))) $$ Ho3'
  ihave Ho4'' := (Entails.of_eq (pointsTo_congr (hOK0 4 _ _ (k2_off460_eq L) H4 hX4 hE4 _))) $$ Ho4'
  ihave Ho5'' := (Entails.of_eq (pointsTo_congr (hOK1 5 _ _ (k2_off526_eq L) H5 hX5 hE5 _))) $$ Ho5'
  ihave Ho6'' := (Entails.of_eq (pointsTo_congr (hOK0 6 _ _ (k2_off592_eq L) H6 hX6 hE6 _))) $$ Ho6'
  ihave Ho7'' := (Entails.of_eq (pointsTo_congr (hOK1 7 _ _ (k2_off658_eq L) H7 hX7 hE7 _))) $$ Ho7'
  ihave Ho8'' := (Entails.of_eq (pointsTo_congr (hOK0 8 _ _ (k2_off724_eq L) H8 hX8 hE8 _))) $$ Ho8'
  ihave Ho9'' := (Entails.of_eq (pointsTo_congr (hOK1 9 _ _ (k2_off790_eq L) H9 hX9 hE9 _))) $$ Ho9'
  ihave Ho10'' := (Entails.of_eq (pointsTo_congr (hOK0 10 _ _ (k2_off856_eq L) H10 hX10 hE10 _))) $$ Ho10'
  ihave Ho11'' := (Entails.of_eq (pointsTo_congr (hOK1 11 _ _ (k2_off922_eq L) H11 hX11 hE11 _))) $$ Ho11'
  ihave Ho12'' := (Entails.of_eq (pointsTo_congr (hOK0 12 _ _ (k2_off988_eq L) H12 hX12 hE12 _))) $$ Ho12'
  ihave Ho13'' := (Entails.of_eq (pointsTo_congr (hOK1 13 _ _ (k2_off1054_eq L) H13 hX13 hE13 _))) $$ Ho13'
  ihave Ho14'' := (Entails.of_eq (pointsTo_congr (hOK0 14 _ _ (k2_off1120_eq L) H14 hX14 hE14 _))) $$ Ho14'
  ihave Ho15'' := (Entails.of_eq (pointsTo_congr (hOK1 15 _ _ (k2_off1185_eq L) H15 hX15 hE15 _))) $$ Ho15'
  unfold tileTd oTd
  isplitl [Hx' He' Ho0'' Ho1'' Ho2'' Ho3'' Ho4'' Ho5'' Ho6'' Ho7'' Ho8'' Ho9'' Ho10'' Ho11'' Ho12'' Ho13'' Ho14'' Ho15'']
  · isplitl [Hx']; · iapply (Entails.of_eq (pts_x (F := F) d L _ _)); iexact Hx'
    isplitl [He']; · iapply (Entails.of_eq (pts_e (F := F) d L _ _)); iexact He'
    isplitl [Ho0'']; · iapply (Entails.of_eq (pts_o0 (F := F) d L _)); iexact Ho0''
    isplitl [Ho1'']; · iapply (Entails.of_eq (pts_o1 (F := F) d L _)); iexact Ho1''
    isplitl [Ho2'']; · iapply (Entails.of_eq (pts_o2 (F := F) d L _)); iexact Ho2''
    isplitl [Ho3'']; · iapply (Entails.of_eq (pts_o3 (F := F) d L _)); iexact Ho3''
    isplitl [Ho4'']; · iapply (Entails.of_eq (pts_o4 (F := F) d L _)); iexact Ho4''
    isplitl [Ho5'']; · iapply (Entails.of_eq (pts_o5 (F := F) d L _)); iexact Ho5''
    isplitl [Ho6'']; · iapply (Entails.of_eq (pts_o6 (F := F) d L _)); iexact Ho6''
    isplitl [Ho7'']; · iapply (Entails.of_eq (pts_o7 (F := F) d L _)); iexact Ho7''
    isplitl [Ho8'']; · iapply (Entails.of_eq (pts_o8 (F := F) d L _)); iexact Ho8''
    isplitl [Ho9'']; · iapply (Entails.of_eq (pts_o9 (F := F) d L _)); iexact Ho9''
    isplitl [Ho10'']; · iapply (Entails.of_eq (pts_o10 (F := F) d L _)); iexact Ho10''
    isplitl [Ho11'']; · iapply (Entails.of_eq (pts_o11 (F := F) d L _)); iexact Ho11''
    isplitl [Ho12'']; · iapply (Entails.of_eq (pts_o12 (F := F) d L _)); iexact Ho12''
    isplitl [Ho13'']; · iapply (Entails.of_eq (pts_o13 (F := F) d L _)); iexact Ho13''
    isplitl [Ho14'']; · iapply (Entails.of_eq (pts_o14 (F := F) d L _)); iexact Ho14''
    iapply (Entails.of_eq (pts_o15 (F := F) d L _)); iexact Ho15''
  isplitl [Ha0 Ha1 Hb0 Hb1 Hbufs]
  · isplitl [Ha0 Ha1]
    · iapply (ptsA_join (F := F) d L)
      isplitl [Ha0]
      · iexists _; iexact Ha0
      · iexists _; iexact Ha1
    isplitl [Hb0 Hb1]
    · iapply (ptsB_join (F := F) d L)
      isplitl [Hb0]
      · iexists _; iexact Hb0
      · iexists _; iexact Hb1
    iexact Hbufs
  isplitl [Hs9 Hs10 Hs11 Hs12 Hs13 Hsems]
  · isplitl [Hs9 Hs10 Hs11 Hs12 Hs13]
    · isplitl [Hs9]; · iexact Hs9
      isplitl [Hs10]; · iexact Hs10
      isplitl [Hs11]; · iexact Hs11
      isplitl [Hs12]; · iexact Hs12
      iexact Hs13
    iexact Hsems
  iexists _; isplitr
  rotate_left
  · iexact HO
  · ipureintro
    repeat (first | exact fun p hp => .inl hp | apply waits_insert rfl)

end Cert.Kernel.TileBody
-- ==== Proof.Bits.TileLands.lean ====
/-
  What a landed copy leaves in a slot of the row scratch: the squeezed slice of slot 0 or 1 is the scratch at
  (slot, row, column); the copy's one whole-slot piece is read back as its payload; and the payload, the source
  slice read row by row, is the tile's rows of the table or of one batch of x.
-/
import proofs.«206219_g40982577938455_cont_8to1_b_1362_29_alg».proof.Proof.Bits.TileRows
import Idealize.ShloMosaic.Lib.Writes
import Idealize.ShloMosaic.Lib.ValueIdx

noncomputable section

namespace Cert.Kernel.TileBody

open Cert.Kernel Cert.Kernel.Gen Cert.Kernel.Setup
open Idealize.ShloMosaic
open Idealize.ShloMosaic.SparseCore (S V T)
open Idealize.ShloMosaic.ValueIdx (ix2 ix3)

variable {F : FTy → Type}
variable (m : (ℓ : Loc nD τ sig) → Buf (Elt F) ℓ)
variable (d : Dev nD) (L : grid2.Coords)

/-! ## The slots of the row scratch, element by element -/

/-- Dropping the slot axis: the index of the one-slot block matched with (r, c) is (0, r, c). -/
theorem squeeze_ix (r : Fin 32) (c : Fin 512) :
    Shape.reshapeEquiv squeezes_S1x32x512_S32x512.numel_eq (ix2 r c) = (ix3 (0 : Fin 1) r c : S1x32x512.Idx) :=
  Shape.reshapeEquiv_eq_of_rowMajor _ (by
    rw [Shape.rowMajor_val_three, Shape.rowMajor_val_two]
    show ((0 : ℕ) * 32 + r.val) * 512 + c.val = r.val * 512 + c.val
    omega)

/-- Element (r, c) of slot 0, as the copies name the slot, is element (0, r, c) of the row scratch. -/
theorem emb_aSl0 (r : Fin 32) (c : Fin 512) :
    (aSl0 : Memref sig .scVector .vmem S32x512 .f32).view.emb (ix2 r c)
      = (sA : Memref sig .scVector .vmem S2x32x512 .f32).view.emb (ix3 (0 : Fin 2) r c) := by
  show (Rect.unit (s := S2x32x512) ![0, 0, 0] S1x32x512.size inb_S2x32x512_S1x32x512_0_0_0).emb
      (Shape.reshapeEquiv squeezes_S1x32x512_S32x512.numel_eq (ix2 r c)) = ix3 (0 : Fin 2) r c
  rw [squeeze_ix]
  funext a; apply Fin.ext
  match a with
  | ⟨0, _⟩ => rfl
  | ⟨1, _⟩ => show 0 + 1 * r.val = r.val; omega
  | ⟨2, _⟩ => show 0 + 1 * c.val = c.val; omega

/-- Element (r, c) of slot 1 is element (1, r, c) of the row scratch. -/
theorem emb_aSl1 (r : Fin 32) (c : Fin 512) :
    (aSl1 : Memref sig .scVector .vmem S32x512 .f32).view.emb (ix2 r c)
      = (sA : Memref sig .scVector .vmem S2x32x512 .f32).view.emb (ix3 (1 : Fin 2) r c) := by
  show (Rect.unit (s := S2x32x512) ![1, 0, 0] S1x32x512.size inb_S2x32x512_S1x32x512_1_0_0).emb
      (Shape.reshapeEquiv squeezes_S1x32x512_S32x512.numel_eq (ix2 r c)) = ix3 (1 : Fin 2) r c
  rw [squeeze_ix]
  funext a; apply Fin.ext
  match a with
  | ⟨0, _⟩ => rfl
  | ⟨1, _⟩ => show 0 + 1 * r.val = r.val; omega
  | ⟨2, _⟩ => show 0 + 1 * c.val = c.val; omega

/-- Reading the row scratch at (0, r, c) is reading slot 0 at (r, c). -/
theorem readA0 (X : BufTy.Contents (Elt F) aSl0.view.ty) (r : Fin 32) (c : Fin 512) :
    (sA : Memref sig .scVector .vmem S2x32x512 .f32).view.read (Elt F) X (ix3 (0 : Fin 2) r c)
      = (aSl0 : Memref sig .scVector .vmem S32x512 .f32).view.read (Elt F) X (ix2 r c) := by
  rw [View.read_apply, View.read_apply, emb_aSl0]

/-- Reading the row scratch at (1, r, c) is reading slot 1 at (r, c). -/
theorem readA1 (X : BufTy.Contents (Elt F) aSl1.view.ty) (r : Fin 32) (c : Fin 512) :
    (sA : Memref sig .scVector .vmem S2x32x512 .f32).view.read (Elt F) X (ix3 (1 : Fin 2) r c)
      = (aSl1 : Memref sig .scVector .vmem S32x512 .f32).view.read (Elt F) X (ix2 r c) := by
  rw [View.read_apply, View.read_apply, emb_aSl1]

/-- A slot read back after a whole-slot piece was written last reads the piece's payload. -/
theorem read_whole_piece {sp : Space} (v : View sig .scVector sp S32x512 .f32) (base : v.ty.Contents (Elt F))
    (w : S32x512.Idx → Elt F .f32) (rest : List (View.Piece (Elt F) S32x512 .f32)) (y : S32x512.Idx) :
    v.read (Elt F) (v.writes (Elt F) base (⟨Rect.whole S32x512, w⟩ :: rest)) y = w y := by
  have h := View.read_writes_cons_emb v base (Rect.whole S32x512) w rest y
  rw [Rect.emb_whole_apply] at h
  exact h

/-! ## The sources, row by row -/

/-- Row r, column c of the tile's slice of the table is the table at (n₀ + r, c). -/
theorem read_eS (r : Fin 32) (c : Fin 512) :
    (eS L).view.read (Elt F) (m (eLoc d)) (ix2 r c) = eRows m d L r c := by
  unfold eRows
  rw [View.read_apply, View.read_apply]
  have he : (eS L).view.emb (ix2 r c)
      = (eW : Memref sig .scVector .hbm S1024x512 .f32).view.emb (ix2 ⟨n0 L + r.val, n0_le L r⟩ c) := by
    show (Rect.unit (s := S1024x512) (k2_off1 L) S32x512.size (k2_off1_inb L)).emb (ix2 r c) = ix2 ⟨n0 L + r.val, n0_le L r⟩ c
    have hk := k2_off1_eq L
    funext a; apply Fin.ext
    match a with
    | ⟨0, _⟩ =>
      show k2_off1 L 0 + 1 * r.val = n0 L + r.val
      rw [hk]; show 64 * (L 1).val + 32 * (L 0).val + 1 * r.val = 64 * (L 1).val + 32 * (L 0).val + r.val; omega
    | ⟨1, _⟩ =>
      show k2_off1 L 1 + 1 * c.val = c.val
      rw [hk]; show 0 + 1 * c.val = c.val; omega
  rw [he]

/-- Row r, column c of the tile's slice of batch b of x is x at (b, n₀ + r, c). -/
theorem read_xS (b : Fin 16) (inb : ∀ a, (![b.val, n0 L, 0] : Fin 3 → ℕ) a + S1x32x512.size a ≤ S16x1024x512.size a) (r : Fin 32) (c : Fin 512) :
    (xS ![b.val, n0 L, 0] inb).view.read (Elt F) (m (xLoc d)) (ix2 r c) = xRows m d L b r c := by
  unfold xRows
  rw [View.read_apply, View.read_apply]
  have he : (xS ![b.val, n0 L, 0] inb).view.emb (ix2 r c)
      = (xW : Memref sig .scVector .hbm S16x1024x512 .f32).view.emb (ix3 b ⟨n0 L + r.val, n0_le L r⟩ c) := by
    show (Rect.unit (s := S16x1024x512) ![b.val, n0 L, 0] S1x32x512.size inb).emb
        (Shape.reshapeEquiv squeezes_S1x32x512_S32x512.numel_eq (ix2 r c)) = ix3 b ⟨n0 L + r.val, n0_le L r⟩ c
    rw [squeeze_ix]
    funext a; apply Fin.ext
    match a with
    | ⟨0, _⟩ => show b.val + 1 * 0 = b.val; omega
    | ⟨1, _⟩ => show n0 L + 1 * r.val = n0 L + r.val; omega
    | ⟨2, _⟩ => show 0 + 1 * c.val = c.val; omega
  rw [he]

/-! ## The landed copies -/

theorem lands_e : LandsE m d L := by
  intro base rest r c
  rw [readA0, read_whole_piece]
  exact read_eS m d L r c

theorem lands_x0 : LandsX0 m d L := by
  intro b off inb heq base rest r c
  subst heq
  rw [readA0, read_whole_piece]
  exact read_xS m d L b inb r c

theorem lands_x1 : LandsX1 m d L := by
  intro b off inb heq base rest r c
  subst heq
  rw [readA1, read_whole_piece]
  exact read_xS m d L b inb r c

end Cert.Kernel.TileBody

end
-- ==== Proof.Bits.TileOut2.lean ====
/-
  The copy of a staging slot out to its block of the second result, as a fact about values.

  A tile's block of batch `b` is rows `n₀ … n₀ + 31` of that batch, all four groups and all 256 lanes; the copy writes
  the whole slot over it, entry `(r, s, j)` of the slot landing on `(b, n₀ + r, s, j)`.  When the slot's lanes `0 … 127` of
  group `s` hold columns `128 s …` of the tile's rows of batch `b` of `x`, and its lanes `128 … 255` the same columns of
  the tile's rows of the table, every element of the block ends at the blocked sampling's value there.
-/
import proofs.«206219_g40982577938455_cont_8to1_b_1362_29_alg».proof.Proof.Bits.TileRows
import proofs.«206219_g40982577938455_cont_8to1_b_1362_29_alg».proof.Proof.Spec
import Idealize.ShloMosaic.Lib.ValueLayout
import Idealize.ShloMosaic.Lib.Writes

noncomputable section

namespace Cert.Kernel.TileBody

open Cert.Kernel Cert.Kernel.Gen Cert.Kernel.Setup
open Idealize.ShloMosaic Idealize.ShloMosaic.ValueIdx
open Idealize.ShloMosaic.SparseCore (S V T)

variable {F : FTy → Type}
variable (m : (ℓ : Loc nD τ sig) → Buf (Elt F) ℓ)
variable (d : Dev nD) (L : grid2.Coords)

/-- Where the block's view puts entry `(r, s, j)`: row `n₀ + r` of batch `b`. -/
theorem oS_emb {off : Fin 4 → ℕ} (inb : ∀ a, off a + S1x32x4x256.size a ≤ S16x1024x4x256.size a) (b : Fin 16)
    (heq : off = ![b.val, n0 L, 0, 0]) (r : Fin 32) (s : Fin 4) (j : Fin 256) :
    (oS off inb).view.emb (ix3 r s j) = (ix4 b ⟨n0 L + r.val, n0_le L r⟩ s j : S16x1024x4x256.Idx) := by
  subst heq
  have e1 := reshapeEquiv_ix3_1abc (a := 32) (b := 4) (c := 256) squeezes_S1x32x4x256_S32x4x256.numel_eq r s j
  show (Rect.unit (s := S16x1024x4x256) ![b.val, n0 L, 0, 0] S1x32x4x256.size inb).emb
    (Shape.reshapeEquiv squeezes_S1x32x4x256_S32x4x256.numel_eq (ix3 r s j)) = _
  refine (congrArg _ e1).trans ?_
  funext a
  apply Fin.ext
  match a with
  | ⟨0, _⟩ => show b.val + 1 * 0 = b.val; omega
  | ⟨1, _⟩ => show n0 L + 1 * r.val = n0 L + r.val; omega
  | ⟨2, _⟩ => show 0 + 1 * s.val = s.val; omega
  | ⟨3, _⟩ => show 0 + 1 * j.val = j.val; omega

/-- Slot `buf` of the staging scratch through its squeezed slice. -/
theorem bSl0_read (H : Buf (Elt F) ((thr d L).loc cc2_scratch1)) (r : Fin 32) (s : Fin 4) (j : Fin 256) :
    bSl0.view.read (Elt F) H (ix3 r s j) = (sB : Memref sig .scVector .vmem S2x32x4x256 .f32).view.read (Elt F) H (ix4 (0 : Fin 2) r s j) := by
  have e1 := reshapeEquiv_ix3_1abc (a := 32) (b := 4) (c := 256) squeezes_S1x32x4x256_S32x4x256.numel_eq r s j
  have e2 : bSl0.view.emb (ix3 r s j) = (sB : Memref sig .scVector .vmem S2x32x4x256 .f32).view.emb (ix4 (0 : Fin 2) r s j) := by
    show (sB : Memref sig .scVector .vmem S2x32x4x256 .f32).view.emb ((Rect.unit (s := S2x32x4x256) ![0, 0, 0, 0] S1x32x4x256.size inb_S2x32x4x256_S1x32x4x256_0_0_0_0).emb
      (Shape.reshapeEquiv squeezes_S1x32x4x256_S32x4x256.numel_eq (ix3 r s j))) = _
    refine congrArg _ ((congrArg _ e1).trans ?_)
    funext a
    apply Fin.ext
    match a with
    | ⟨0, _⟩ => rfl
    | ⟨1, _⟩ => show 0 + 1 * r.val = r.val; omega
    | ⟨2, _⟩ => show 0 + 1 * s.val = s.val; omega
    | ⟨3, _⟩ => show 0 + 1 * j.val = j.val; omega
  rw [View.read_apply, View.read_apply, e2]

theorem bSl1_read (H : Buf (Elt F) ((thr d L).loc cc2_scratch1)) (r : Fin 32) (s : Fin 4) (j : Fin 256) :
    bSl1.view.read (Elt F) H (ix3 r s j) = (sB : Memref sig .scVector .vmem S2x32x4x256 .f32).view.read (Elt F) H (ix4 (1 : Fin 2) r s j) := by
  have e1 := reshapeEquiv_ix3_1abc (a := 32) (b := 4) (c := 256) squeezes_S1x32x4x256_S32x4x256.numel_eq r s j
  have e2 : bSl1.view.emb (ix3 r s j) = (sB : Memref sig .scVector .vmem S2x32x4x256 .f32).view.emb (ix4 (1 : Fin 2) r s j) := by
    show (sB : Memref sig .scVector .vmem S2x32x4x256 .f32).view.emb ((Rect.unit (s := S2x32x4x256) ![1, 0, 0, 0] S1x32x4x256.size inb_S2x32x4x256_S1x32x4x256_1_0_0_0).emb
      (Shape.reshapeEquiv squeezes_S1x32x4x256_S32x4x256.numel_eq (ix3 r s j))) = _
    refine congrArg _ ((congrArg _ e1).trans ?_)
    funext a
    apply Fin.ext
    match a with
    | ⟨0, _⟩ => rfl
    | ⟨1, _⟩ => show 0 + 1 * r.val = r.val; omega
    | ⟨2, _⟩ => show 0 + 1 * s.val = s.val; omega
    | ⟨3, _⟩ => show 0 + 1 * j.val = j.val; omega
  rw [View.read_apply, View.read_apply, e2]

section Core
variable {sig' : RefSig} {κ' : Kind} {sp' : Space}

/-- A staging slot whose x half holds rows `n₀ …` of batch `b` of `x` and whose table half holds rows `n₀ …` of `e`
    is the second result on those rows of batch `b`. -/
theorem staging_core (VB : View sig' κ' sp' S2x32x4x256 .f32) (buf : Fin 2) (H : VB.ty.Contents (Elt F))
    (x : FVec F Cert.KernelIdeal.Spec.ShX .f32) (e : FVec F Cert.KernelIdeal.Spec.ShE .f32) (b : Fin 16) (n : ℕ) (hn : ∀ r : Fin 32, n + r.val < 1024)
    (srcX srcE : Fin 32 → Fin 512 → Elt F .f32)
    (hsx : ∀ r c, srcX r c = x (ix3 b ⟨n + r.val, hn r⟩ c)) (hse : ∀ r c, srcE r c = e (ix2 ⟨n + r.val, hn r⟩ c))
    (hX : RowFill.HHalf (Val := Elt F) VB buf 0 H srcX) (hE : RowFill.HHalf (Val := Elt F) VB buf 128 H srcE)
    (r : Fin 32) (s : Fin 4) (j : Fin 256) :
    VB.read (Elt F) H (ix4 buf r s j) = Cert.KernelIdeal.Spec.out2 (F := F) x e (ix4 b ⟨n + r.val, hn r⟩ s j) := by
  have hs := s.isLt
  have hj := j.isLt
  by_cases hlt : j.val < 128
  · rw [hX r s j (Nat.zero_le _) (by omega), hsx]
    exact (Cert.KernelIdeal.Spec.out2_of_lt (F := F) x e b ⟨n + r.val, hn r⟩ s j
      ⟨(128 * s.val + (j.val - 0)) % 512, Nat.mod_lt _ (by decide)⟩ hlt (by show (128 * s.val + (j.val - 0)) % 512 = _; omega)).symm
  · rw [hE r s j (by omega) (by omega), hse]
    exact (Cert.KernelIdeal.Spec.out2_of_ge (F := F) x e b ⟨n + r.val, hn r⟩ s j
      ⟨(128 * s.val + (j.val - 128)) % 512, Nat.mod_lt _ (by decide)⟩ (by omega) (by show (128 * s.val + (j.val - 128)) % 512 + 128 = _; omega)).symm

end Core

theorem xRows_eq (b : Fin 16) (r : Fin 32) (c : Fin 512) :
    xRows m d L b r c = (m (xLoc d) : FVec F Cert.KernelIdeal.Spec.ShX .f32) (ix3 b ⟨n0 L + r.val, n0_le L r⟩ c) := rfl
theorem eRows_eq (r : Fin 32) (c : Fin 512) :
    eRows m d L r c = (m (eLoc d) : FVec F Cert.KernelIdeal.Spec.ShE .f32) (ix2 ⟨n0 L + r.val, n0_le L r⟩ c) := rfl

theorem staging_out2 (b : Fin 16) (buf : Fin 2) (H : Buf (Elt F) ((thr d L).loc cc2_scratch1))
    (hX : RowFill.HHalf (Val := Elt F) (sB : Memref sig .scVector .vmem S2x32x4x256 .f32).view buf 0 H (xRows m d L b))
    (hE : RowFill.HHalf (Val := Elt F) (sB : Memref sig .scVector .vmem S2x32x4x256 .f32).view buf 128 H (eRows m d L))
    (r : Fin 32) (s : Fin 4) (j : Fin 256) :
    (sB : Memref sig .scVector .vmem S2x32x4x256 .f32).view.read (Elt F) H (ix4 buf r s j)
      = out2Buf m d (ix4 b ⟨n0 L + r.val, n0_le L r⟩ s j) :=
  staging_core (sB : Memref sig .scVector .vmem S2x32x4x256 .f32).view buf H (m (xLoc d)) (m (eLoc d)) b (n0 L) (n0_le L)
    (xRows m d L b) (eRows m d L) (xRows_eq m d L b) (eRows_eq m d L) hX hE r s j

/-- A block read back after a whole-block piece was written reads the piece's payload. -/
theorem read_whole_piece4 {sp : Space} (v : View sig .scVector sp S32x4x256 .f32) (base : v.ty.Contents (Elt F))
    (w : S32x4x256.Idx → Elt F .f32) (y : S32x4x256.Idx) :
    v.read (Elt F) (v.writes (Elt F) base [⟨Rect.whole S32x4x256, w⟩]) y = w y := by
  have h := View.read_writes_cons_emb v base (Rect.whole S32x4x256) w [] y
  rw [Rect.emb_whole_apply] at h
  exact h

set_option maxHeartbeats 1000000 in
/-- The copy out of slot 0: the block of batch `b` ends at the second result's value on its elements. -/
theorem out_ok0' (b : Fin 16) (inb : ∀ a, (![b.val, n0 L, 0, 0] : Fin 4 → ℕ) a + S1x32x4x256.size a ≤ S16x1024x4x256.size a)
    (H : Buf (Elt F) ((thr d L).loc cc2_scratch1))
    (hX : RowFill.HHalf (Val := Elt F) (sB : Memref sig .scVector .vmem S2x32x4x256 .f32).view 0 0 H (xRows m d L b))
    (hE : RowFill.HHalf (Val := Elt F) (sB : Memref sig .scVector .vmem S2x32x4x256 .f32).view 0 128 H (eRows m d L))
    (base : (oS ![b.val, n0 L, 0, 0] inb).view.ty.Contents (Elt F)) (r : Fin 32) (s : Fin 4) (j : Fin 256) :
    ((oS ![b.val, n0 L, 0, 0] inb).view.writes (Elt F) base [⟨Rect.whole S32x4x256, ReadAs.same.apply (View.read (Elt F) bSl0.view H)⟩])
        ((oS ![b.val, n0 L, 0, 0] inb).view.emb (ix3 r s j))
      = out2Buf m d ((oS ![b.val, n0 L, 0, 0] inb).view.emb (ix3 r s j)) := by
  have h1 := read_whole_piece4 (oS ![b.val, n0 L, 0, 0] inb).view base (ReadAs.same.apply (View.read (Elt F) bSl0.view H)) (ix3 r s j)
  have h2 : ReadAs.same.apply (View.read (Elt F) bSl0.view H) (ix3 r s j) = bSl0.view.read (Elt F) H (ix3 r s j) := rfl
  rw [h2, bSl0_read, staging_out2 m d L b 0 H hX hE r s j] at h1
  rw [oS_emb L inb b rfl]
  rw [View.read_apply, oS_emb L inb b rfl] at h1
  exact (cast_eq _ _).symm.trans h1

set_option maxHeartbeats 1000000 in
/-- The copy out of slot 1: the block of batch `b` ends at the second result's value on its elements. -/
theorem out_ok1' (b : Fin 16) (inb : ∀ a, (![b.val, n0 L, 0, 0] : Fin 4 → ℕ) a + S1x32x4x256.size a ≤ S16x1024x4x256.size a)
    (H : Buf (Elt F) ((thr d L).loc cc2_scratch1))
    (hX : RowFill.HHalf (Val := Elt F) (sB : Memref sig .scVector .vmem S2x32x4x256 .f32).view 1 0 H (xRows m d L b))
    (hE : RowFill.HHalf (Val := Elt F) (sB : Memref sig .scVector .vmem S2x32x4x256 .f32).view 1 128 H (eRows m d L))
    (base : (oS ![b.val, n0 L, 0, 0] inb).view.ty.Contents (Elt F)) (r : Fin 32) (s : Fin 4) (j : Fin 256) :
    ((oS ![b.val, n0 L, 0, 0] inb).view.writes (Elt F) base [⟨Rect.whole S32x4x256, ReadAs.same.apply (View.read (Elt F) bSl1.view H)⟩])
        ((oS ![b.val, n0 L, 0, 0] inb).view.emb (ix3 r s j))
      = out2Buf m d ((oS ![b.val, n0 L, 0, 0] inb).view.emb (ix3 r s j)) := by
  have h1 := read_whole_piece4 (oS ![b.val, n0 L, 0, 0] inb).view base (ReadAs.same.apply (View.read (Elt F) bSl1.view H)) (ix3 r s j)
  have h2 : ReadAs.same.apply (View.read (Elt F) bSl1.view H) (ix3 r s j) = bSl1.view.read (Elt F) H (ix3 r s j) := rfl
  rw [h2, bSl1_read, staging_out2 m d L b 1 H hX hE r s j] at h1
  rw [oS_emb L inb b rfl]
  rw [View.read_apply, oS_emb L inb b rfl] at h1
  exact (cast_eq _ _).symm.trans h1

theorem out_ok0 : OutOk0 m d L := by
  intro b off inb heq H hX hE base i hi
  subst heq
  obtain ⟨y, -, rfl⟩ := Finset.mem_map.mp hi
  obtain ⟨r, s, j, rfl⟩ : ∃ (r : Fin 32) (s : Fin 4) (j : Fin 256), y = ix3 r s j := ⟨y 0, y 1, y 2, eq_ix3 y⟩
  exact out_ok0' m d L b inb H hX hE base r s j

theorem out_ok1 : OutOk1 m d L := by
  intro b off inb heq H hX hE base i hi
  subst heq
  obtain ⟨y, -, rfl⟩ := Finset.mem_map.mp hi
  obtain ⟨r, s, j, rfl⟩ : ∃ (r : Fin 32) (s : Fin 4) (j : Fin 256), y = ix3 r s j := ⟨y 0, y 1, y 2, eq_ix3 y⟩
  exact out_ok1' m d L b inb H hX hE base r s j

end Cert.Kernel.TileBody
end
-- ==== Proof.Bits.TileBody.lean ====
/-
  The body of the second result's kernel on one vector subcore, at a symbolic tile: handed its read shares of x and
  of the embedding table and its 16 blocks of the result, it ends with each block holding the second result's value
  on its elements, its scratch arrays and semaphores returned. The threading of the loops, copies and waits is
  `tile_body_of`; what a landed copy leaves is read by the value lemmas it takes as hypotheses.
-/
import proofs.«206219_g40982577938455_cont_8to1_b_1362_29_alg».proof.Proof.Bits.TileThread
import proofs.«206219_g40982577938455_cont_8to1_b_1362_29_alg».proof.Proof.Bits.TileLands
import proofs.«206219_g40982577938455_cont_8to1_b_1362_29_alg».proof.Proof.Bits.TileOut2

noncomputable section

namespace Cert.Kernel.TileBody

open Cert.Kernel Cert.Kernel.Gen Cert.Kernel.Setup

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)
variable (d : Dev nD) (L : grid2.Coords)

theorem tile_body (O : CellTallies nD τ sig (HIx 1)) (W : Waits sig (HIx 1)) (hO : ∀ g, O g none = 0) :
    iprop(levAts (K (F := F)).L (K (F := F)).lev ∗ emp ∗ tileGo m d L
        ∗ scopedBufs (thr d L) ∗ scopedSems0 (thr d L) ∗ owes (thr d L) O W)
      ⊢ wp frame (wpE (defs₀ (F := F)) 𝒱₀ (thr d L) none) Set.univ
          (cc2_k L xW (Memref.isWhole_whole _) eW (Memref.isWhole_whole _) oW (Memref.isWhole_whole _)
            sA (Memref.isWhole_whole _) sB (Memref.isWhole_whole _) cc2_scratch2 cc2_scratch3 cc2_scoped0)
          fun _ => iprop(tileTd m d L ∗ scopedBufs (thr d L) ∗ scopedSems0 (thr d L)
            ∗ ∃ W', ⌜∀ p ∈ W', p ∈ W ∨ p.2 = none⌝ ∗ owes (thr d L) O W') :=
  tile_body_of m d L (lands_e m d L) (lands_x0 m d L) (lands_x1 m d L) (out_ok0 m d L) (out_ok1 m d L) O W hO

end Cert.Kernel.TileBody
-- ==== Proof.lean ====
/- The proof of `Cert.Claim`: the three frames, the (empty) idealization ledger, and the equality of the idealized
   kernel's and the idealized reference's results over the extended reals.

   The program is @main on the TensorCore — host operations that build a 512 × 512 permutation matrix, two TensorCore
   regions (the embedding table times the matrix; each batch entry of x times the matrix, cut into four column groups
   and joined with the table's) — and one SparseCore call whose 32 vector subcores each copy their 32 rows of every
   batch entry, group by group, beside the table's rows. Its run is proved once, for any float instance: the launch
   of the SparseCore threads from the tiles' body and from @main's proof, in which both regions are entered with their
   own staging cells and the call deals the three arrays to the tiles and takes them back. The frames drop the
   results' values; `algebraic` reads them: a product with a 0/1 permutation matrix is a re-indexing on the extended
   reals, so the first result is x and the table read with stride 4 and the second the same rows in four blocks of
   128, which are the reference's two samplings. The ledger is empty, so `preserves` is `True`. -/
import proofs.«206219_g40982577938455_cont_8to1_b_1362_29_alg».proof.Defs
import proofs.«206219_g40982577938455_cont_8to1_b_1362_29_alg».proof.Proof.Gen.Kernel
import proofs.«206219_g40982577938455_cont_8to1_b_1362_29_alg».proof.Proof.Gen.KernelIdeal
import proofs.«206219_g40982577938455_cont_8to1_b_1362_29_alg».proof.Proof.Gen.ReferenceIdeal
import proofs.«206219_g40982577938455_cont_8to1_b_1362_29_alg».proof.Proof.Gen.Pre_finite_inputs
import proofs.«206219_g40982577938455_cont_8to1_b_1362_29_alg».proof.Proof.IdealClaims
import proofs.«206219_g40982577938455_cont_8to1_b_1362_29_alg».proof.Proof.BitsClaims
import proofs.«206219_g40982577938455_cont_8to1_b_1362_29_alg».proof.Proof.TileBody
import proofs.«206219_g40982577938455_cont_8to1_b_1362_29_alg».proof.Proof.Bits.TileBody
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    BitsClaims.frame_k (fun m d L O W hO => Cert.Kernel.TileBody.tile_body m d L O W hO),
    IdealClaims.frame_ki (fun m d L O W hO => Cert.KernelIdeal.TileBody.tile_body m d L O W hO),
    IdealClaims.frame_ri, trivial,
    IdealClaims.algebraic (fun m d L O W hO => Cert.KernelIdeal.TileBody.tile_body m d L O W hO)⟩

end Cert.Proof

end
